-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S327680 : Shape := ⟨1, ![327680]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_
  bcast_S_S327680 : S_.BroadcastsInDim S327680 (![] : Fin 0 → Fin S327680.rank)
  reducesTo_S327680_S_d0 : S327680.ReducesTo [0] S_

variable [Facts]

def fn_part1 {F : FTy → Type} [FloatOps F] (main_arg1 : IVec S16384 32) (main_arg2 : IVec S327680 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 999999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S327680 32 := broadcastInDim S327680 ![] bcast_S_S327680 main_c_8
  let main_v24 : IVec S327680 1 := cmpi .sge main_arg2 main_v23
  let main_c_9 : IVec S_ 32 := constantI S_ 32 999999#32
  let main_v25 : IVec S327680 32 := broadcastInDim S327680 ![] bcast_S_S327680 main_c_9
  let main_v26 : IVec S327680 1 := cmpi .sle main_arg2 main_v25
  let main_v27 : IVec S327680 1 := andi main_v24 main_v26
  let main_c_10 : IVec S_ 1 := constantI S_ 1 1#1
  let main_v28 : IVec S_ 1 := (fun x v => Host.reduce IntOp.andi x v reducesTo_S327680_S_d0 h_S_) main_v27 main_c_10
  let main_v29 : IVec S_ 1 := andi main_v22 main_v28
  main_v29

def fn {F : FTy → Type} [FloatOps F] (main_arg0 : IVec S16384 32) (main_arg1 : IVec S16384 32) (main_arg2 : IVec S327680 32) (main_arg3 : FVec F S1000000x64 .f32) (main_arg4 : FVec F S1000000x64 .f32) : IVec S_ 1 :=
  let main_v0 : FVec F S1000000x64 .f32 := Host.absf main_arg3
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg4
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_arg2 main_v15 main_c_5
-- ==== Kernel.lean ====
abbrev S16384 : Shape := ⟨1, ![16384]⟩
abbrev S327680 : Shape := ⟨1, ![327680]⟩
abbrev S1000000x64 : Shape := ⟨2, ![1000000, 64]⟩
abbrev S8192x128 : Shape := ⟨2, ![8192, 128]⟩
abbrev S512 : Shape := ⟨1, ![512]⟩
abbrev S1x256x128 : Shape := ⟨3, ![1, 256, 128]⟩
abbrev S_ : Shape := ⟨0, ![]⟩
abbrev S16 : Shape := ⟨1, ![16]⟩
abbrev S1 : Shape := ⟨1, ![1]⟩
abbrev S1x1x64 : Shape := ⟨3, ![1, 1, 64]⟩
abbrev S64 : Shape := ⟨1, ![64]⟩
abbrev S1x64 : Shape := ⟨2, ![1, 64]⟩
abbrev S256x128 : Shape := ⟨2, ![256, 128]⟩
abbrev S16384x1280 : Shape := ⟨2, ![16384, 1280]⟩
abbrev S320 : Shape := ⟨1, ![320]⟩
abbrev S2x128x128 : Shape := ⟨3, ![2, 128, 128]⟩
abbrev S2x16x1280 : Shape := ⟨3, ![2, 16, 1280]⟩
abbrev S256 : Shape := ⟨1, ![256]⟩
abbrev S1x128x128 : Shape := ⟨3, ![1, 128, 128]⟩
abbrev S128x128 : Shape := ⟨2, ![128, 128]⟩
abbrev S1x16x1280 : Shape := ⟨3, ![1, 16, 1280]⟩
abbrev S16x1280 : Shape := ⟨2, ![16, 1280]⟩
abbrev S16384x64 : Shape := ⟨2, ![16384, 64]⟩
abbrev S16384x20x64 : Shape := ⟨3, ![16384, 20, 64]⟩

abbrev nBuf : Table → Nat
  | .hbm => 11
  | .local .scVector .vmem => 5
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S327680, .i32⟩
  | .hbm, ⟨3, _⟩ => ⟨S1000000x64, .f32⟩
  | .hbm, ⟨4, _⟩ => ⟨S1000000x64, .f32⟩
  | .hbm, ⟨5, _⟩ => ⟨S8192x128, .f32⟩
  | .hbm, ⟨6, _⟩ => ⟨S8192x128, .f32⟩
  | .hbm, ⟨7, _⟩ => ⟨S16384x1280, .f32⟩
  | .hbm, ⟨8, _⟩ => ⟨S16384x64, .f32⟩
  | .hbm, ⟨9, _⟩ => ⟨S16384x64, .f32⟩
  | .hbm, ⟨10, _⟩ => ⟨S16384x20x64, .f32⟩
  | .local .scVector .vmem, ⟨0, _⟩ => ⟨S512, .i32⟩
  | .local .scVector .vmem, ⟨1, _⟩ => ⟨S1x256x128, .f32⟩
  | .local .scVector .vmem, ⟨2, _⟩ => ⟨S320, .i32⟩
  | .local .scVector .vmem, ⟨3, _⟩ => ⟨S2x128x128, .f32⟩
  | .local .scVector .vmem, ⟨4, _⟩ => ⟨S2x16x1280, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg0_scv : Ref sig .scVector := ⟨.hbm, 0, rfl⟩
abbrev main_arg3_scv : Ref sig .scVector := ⟨.hbm, 3, rfl⟩
abbrev main_v0_scv : Ref sig .scVector := ⟨.hbm, 5, rfl⟩
abbrev main_arg1_scv : Ref sig .scVector := ⟨.hbm, 1, rfl⟩
abbrev main_arg2_scv : Ref sig .scVector := ⟨.hbm, 2, rfl⟩
abbrev main_arg4_scv : Ref sig .scVector := ⟨.hbm, 4, rfl⟩
abbrev main_v1_0_scv : Ref sig .scVector := ⟨.hbm, 6, rfl⟩
abbrev main_v1_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v23 : BitVec 32 := Scalar.muli arg8 c16_i32
  let v24 : Index := Scalar.indexCast v23
  ![v24.toNat]
def k0_off3 (k0_t1 : Fin k0_t1_loop.trips) : Fin 3 → Nat :=
  let c0_i32_30 : BitVec 32 := 0#32
  let c0_i32_0 : BitVec 32 := 0#32
  let c1_i32 : BitVec 32 := 1#32
  let arg8 : BitVec 32 := Scf.iv c0_i32_0 c1_i32 k0_t1
  let c16_i32_15 : BitVec 32 := 16#32
  let v27 : BitVec 32 := Scalar.muli arg8 c16_i32_15
  let c0_i32_16 : BitVec 32 := 0#32
  let v28 : BitVec 32 := Scalar.addi v27 c0_i32_16
  let c0_i32_18 : BitVec 32 := 0#32
  let v32 : BitVec 1 := Scalar.cmpi .sgt v28 c0_i32_18
  let v33 : BitVec 32 := Scalar.extui v32
  let c0_i32_19 : BitVec 32 := 0#32
  let v34 : BitVec 1 := Scalar.cmpi .slt v28 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v28 c2_i32_17
  let c0_i32_22 : BitVec 32 := 0#32
  let v44 : BitVec 1 := Scalar.cmpi .ne v43 c0_i32_22
  let v45 : BitVec 1 := Scalar.andi v42 v44
  let v31 : BitVec 32 := Scalar.divsi v28 c2_i32_17
  let c1_i32_23 : BitVec 32 := 1#32
  let v46 : BitVec 32 := Scalar.subi v31 c1_i32_23
  let v47 : BitVec 32 := Scalar.select v45 v46 v31
  let c2_i32_24 : BitVec 32 := 2#32
  let c0_i32_25 : BitVec 32 := 0#32
  let v48 : BitVec 1 := Scalar.cmpi .eq c2_i32_24 c0_i32_25
  let c1_i32_26 : BitVec 32 := 1#32
  let v49 : BitVec 32 := Scalar.select v48 c1_i32_26 c2_i32_24
  let v50 : BitVec 32 := Scalar.remsi v28 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c64_i32 : BitVec 32 := 64#32
  let v58 : BitVec 32 := Scalar.muli v57 c64_i32
  ![0, v47.toNat, v58.toNat]
def k0_off4 (v30 : BitVec 32) : Fin 2 → Nat :=
  let c0_i32_31 : BitVec 32 := 0#32
  ![v30.toNat, 0]

def k0_chk1 (v30 : BitVec 32) : Prop :=
  (∀ a, (k0_off4 v30) a + S1x64.size a ≤ S1000000x64.size a)
instance k0_chk1.dec : ∀ (v30 : BitVec 32), Decidable (k0_chk1 v30) := fun v30 => decidable_of_iff' _ (Iff.of_eq (k0_chk1.eq_1 v30))
theorem k0_off4_inb : ∀ (v30 : BitVec 32) (k0_hw1 : k0_chk1 v30), ∀ a, (k0_off4 v30) a + S1x64.size a ≤ S1000000x64.size a := fun v30 k0_hw1 => k0_hw1

def k0_off5 (k0_t1 : Fin k0_t1_loop.trips) (c0_i32_16 : BitVec 32) : Fin 3 → Nat :=
  let c0_i32_30 : BitVec 32 := 0#32
  let c0_i32_0 : BitVec 32 := 0#32
  let c1_i32 : BitVec 32 := 1#32
  let arg8 : BitVec 32 := Scf.iv c0_i32_0 c1_i32 k0_t1
  let c16_i32_15 : BitVec 32 := 16#32
  let v27 : BitVec 32 := Scalar.muli arg8 c16_i32_15
  let v28 : BitVec 32 := Scalar.addi v27 c0_i32_16
  let c0_i32_18 : BitVec 32 := 0#32
  let v32 : BitVec 1 := Scalar.cmpi .sgt v28 c0_i32_18
  let v33 : BitVec 32 := Scalar.extui v32
  let c0_i32_19 : BitVec 32 := 0#32
  let v34 : BitVec 1 := Scalar.cmpi .slt v28 c0_i32_19
  let v35 : BitVec 32 := Scalar.extui v34
  let v36 : BitVec 32 := Scalar.subi v33 v35
  let c2_i32_17 : BitVec 32 := 2#32
  let c0_i32_20 : BitVec 32 := 0#32
  let v37 : BitVec 1 := Scalar.cmpi .sgt c2_i32_17 c0_i32_20
  let v38 : BitVec 32 := Scalar.extui v37
  let c0_i32_21 : BitVec 32 := 0#32
  let v39 : BitVec 1 := Scalar.cmpi .slt c2_i32_17 c0_i32_21
  let v40 : BitVec 32 := Scalar.extui v39
  let v41 : BitVec 32 := Scalar.subi v38 v40
  let v42 : BitVec 1 := Scalar.cmpi .ne v36 v41
  let v43 : BitVec 32 := Scalar.remsi v28 c2_i32_17
  let c0_i32_22 : BitVec 32 := 0#32
  let v44 : BitVec 1 := Scalar.cmpi .ne v43 c0_i32_22
  let v45 : BitVec 1 := Scalar.andi v42 v44
  let v31 : BitVec 32 := Scalar.divsi v28 c2_i32_17
  let c1_i32_23 : BitVec 32 := 1#32
  let v46 : BitVec 32 := Scalar.subi v31 c1_i32_23
  let v47 : BitVec 32 := Scalar.select v45 v46 v31
  let c2_i32_24 : BitVec 32 := 2#32
  let c0_i32_25 : BitVec 32 := 0#32
  let v48 : BitVec 1 := Scalar.cmpi .eq c2_i32_24 c0_i32_25
  let c1_i32_26 : BitVec 32 := 1#32
  let v49 : BitVec 32 := Scalar.select v48 c1_i32_26 c2_i32_24
  let v50 : BitVec 32 := Scalar.remsi v28 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c64_i32 : BitVec 32 := 64#32
  let v58 : BitVec 32 := Scalar.muli v57 c64_i32
  ![0, v47.toNat, v58.toNat]
def k0_off6 (v70 : BitVec 32) : Fin 2 → Nat :=
  let c0_i32_50 : BitVec 32 := 0#32
  ![v70.toNat, 0]

def k0_chk2 (v70 : BitVec 32) : Prop :=
  (∀ a, (k0_off6 v70) a + S1x64.size a ≤ S1000000x64.size a)
instance k0_chk2.dec : ∀ (v70 : BitVec 32), Decidable (k0_chk2 v70) := fun v70 => decidable_of_iff' _ (Iff.of_eq (k0_chk2.eq_1 v70))
theorem k0_off6_inb : ∀ (v70 : BitVec 32) (k0_hw2 : k0_chk2 v70), ∀ a, (k0_off6 v70) a + S1x64.size a ≤ S1000000x64.size a := fun v70 k0_hw2 => k0_hw2

def k0_off7 (k0_t1 : Fin k0_t1_loop.trips) (c1_i32_34 : BitVec 32) : Fin 3 → Nat :=
  let c0_i32_49 : BitVec 32 := 0#32
  let c0_i32_0 : BitVec 32 := 0#32
  let c1_i32 : BitVec 32 := 1#32
  let arg8 : BitVec 32 := Scf.iv c0_i32_0 c1_i32 k0_t1
  let c16_i32_33 : BitVec 32 := 16#32
  let v67 : BitVec 32 := Scalar.muli arg8 c16_i32_33
  let v68 : BitVec 32 := Scalar.addi v67 c1_i32_34
  let c0_i32_36 : BitVec 32 := 0#32
  let v72 : BitVec 1 := Scalar.cmpi .sgt v68 c0_i32_36
  let v73 : BitVec 32 := Scalar.extui v72
  let c0_i32_37 : BitVec 32 := 0#32
  let v74 : BitVec 1 := Scalar.cmpi .slt v68 c0_i32_37
  let v75 : BitVec 32 := Scalar.extui v74
  let v76 : BitVec 32 := Scalar.subi v73 v75
  let c2_i32_35 : BitVec 32 := 2#32
  let c0_i32_38 : BitVec 32 := 0#32
  let v77 : BitVec 1 := Scalar.cmpi .sgt c2_i32_35 c0_i32_38
  let v78 : BitVec 32 := Scalar.extui v77
  let c0_i32_39 : BitVec 32 := 0#32
  let v79 : BitVec 1 := Scalar.cmpi .slt c2_i32_35 c0_i32_39
  let v80 : BitVec 32 := Scalar.extui v79
  let v81 : BitVec 32 := Scalar.subi v78 v80
  let v82 : BitVec 1 := Scalar.cmpi .ne v76 v81
  let v83 : BitVec 32 := Scalar.remsi v68 c2_i32_35
  let c0_i32_40 : BitVec 32 := 0#32
  let v84 : BitVec 1 := Scalar.cmpi .ne v83 c0_i32_40
  let v85 : BitVec 1 := Scalar.andi v82 v84
  let v71 : BitVec 32 := Scalar.divsi v68 c2_i32_35
  let c1_i32_41 : BitVec 32 := 1#32
  let v86 : BitVec 32 := Scalar.subi v71 c1_i32_41
  let v87 : BitVec 32 := Scalar.select v85 v86 v71
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v68 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let c64_i32_48 : BitVec 32 := 64#32
  let v98 : BitVec 32 := Scalar.muli v97 c64_i32_48
  ![0, v87.toNat, v98.toNat]
def k0_off8 (v110 : BitVec 32) : Fin 2 → Nat :=
  let c0_i32_69 : BitVec 32 := 0#32
  ![v110.toNat, 0]

def k0_chk3 (v110 : BitVec 32) : Prop :=
  (∀ a, (k0_off8 v110) a + S1x64.size a ≤ S1000000x64.size a)
instance k0_chk3.dec : ∀ (v110 : BitVec 32), Decidable (k0_chk3 v110) := fun v110 => decidable_of_iff' _ (Iff.of_eq (k0_chk3.eq_1 v110))
theorem k0_off8_inb : ∀ (v110 : BitVec 32) (k0_hw3 : k0_chk3 v110), ∀ a, (k0_off8 v110) a + S1x64.size a ≤ S1000000x64.size a := fun v110 k0_hw3 => k0_hw3

def k0_off9 (k0_t1 : Fin k0_t1_loop.trips) (c2_i32_53 : BitVec 32) : Fin 3 → Nat :=
  let c0_i32_68 : BitVec 32 := 0#32
  let c0_i32_0 : BitVec 32 := 0#32
  let c1_i32 : BitVec 32 := 1#32
  let arg8 : BitVec 32 := Scf.iv c0_i32_0 c1_i32 k0_t1
  let c16_i32_52 : BitVec 32 := 16#32
  let v107 : BitVec 32 := Scalar.muli arg8 c16_i32_52
  let v108 : BitVec 32 := Scalar.addi v107 c2_i32_53
  let c0_i32_55 : BitVec 32 := 0#32
  let v112 : BitVec 1 := Scalar.cmpi .sgt v108 c0_i32_55
  let v113 : BitVec 32 := Scalar.extui v112
  let c0_i32_56 : BitVec 32 := 0#32
  let v114 : BitVec 1 := Scalar.cmpi .slt v108 c0_i32_56
  let v115 : BitVec 32 := Scalar.extui v114
  let v116 : BitVec 32 := Scalar.subi v113 v115
  let c2_i32_54 : BitVec 32 := 2#32
  let c0_i32_57 : BitVec 32 := 0#32
  let v117 : BitVec 1 := Scalar.cmpi .sgt c2_i32_54 c0_i32_57
  let v118 : BitVec 32 := Scalar.extui v117
  let c0_i32_58 : BitVec 32 := 0#32
  let v119 : BitVec 1 := Scalar.cmpi .slt c2_i32_54 c0_i32_58
  let v120 : BitVec 32 := Scalar.extui v119
  let v121 : BitVec 32 := Scalar.subi v118 v120
  let v122 : BitVec 1 := Scalar.cmpi .ne v116 v121
  let v123 : BitVec 32 := Scalar.remsi v108 c2_i32_54
  let c0_i32_59 : BitVec 32 := 0#32
  let v124 : BitVec 1 := Scalar.cmpi .ne v123 c0_i32_59
  let v125 : BitVec 1 := Scalar.andi v122 v124
  let v111 : BitVec 32 := Scalar.divsi v108 c2_i32_54
  let c1_i32_60 : BitVec 32 := 1#32
  let v126 : BitVec 32 := Scalar.subi v111 c1_i32_60
  let v127 : BitVec 32 := Scalar.select v125 v126 v111
  let c2_i32_61 : BitVec 32 := 2#32
  let c0_i32_62 : BitVec 32 := 0#32
  let v128 : BitVec 1 := Scalar.cmpi .eq c2_i32_61 c0_i32_62
  let c1_i32_63 : BitVec 32 := 1#32
  let v129 : BitVec 32 := Scalar.select v128 c1_i32_63 c2_i32_61
  let v130 : BitVec 32 := Scalar.remsi v108 v129
  let c0_i32_65 : BitVec 32 := 0#32
  let v132 : BitVec 1 := Scalar.cmpi .slt v130 c0_i32_65
  let c0_i32_66 : BitVec 32 := 0#32
  let v133 : BitVec 1 := Scalar.cmpi .slt v129 c0_i32_66
  let v134 : BitVec 1 := Scalar.xori v132 v133
  let c0_i32_64 : BitVec 32 := 0#32
  let v131 : BitVec 1 := Scalar.cmpi .ne v130 c0_i32_64
  let v135 : BitVec 1 := Scalar.andi v134 v131
  let v136 : BitVec 32 := Scalar.addi v130 v129
  let v137 : BitVec 32 := Scalar.select v135 v136 v130
  let c64_i32_67 : BitVec 32 := 64#32
  let v138 : BitVec 32 := Scalar.muli v137 c64_i32_67
  ![0, v127.toNat, v138.toNat]
def k0_off10 (v150 : BitVec 32) : Fin 2 → Nat :=
  let c0_i32_87 : BitVec 32 := 0#32
  ![v150.toNat, 0]

def k0_chk4 (v150 : BitVec 32) : Prop :=
  (∀ a, (k0_off10 v150) a + S1x64.size a ≤ S1000000x64.size a)
instance k0_chk4.dec : ∀ (v150 : BitVec 32), Decidable (k0_chk4 v150) := fun v150 => decidable_of_iff' _ (Iff.of_eq (k0_chk4.eq_1 v150))
theorem k0_off10_inb : ∀ (v150 : BitVec 32) (k0_hw4 : k0_chk4 v150), ∀ a, (k0_off10 v150) a + S1x64.size a ≤ S1000000x64.size a := fun v150 k0_hw4 => k0_hw4

def k0_off11 (k0_t1 : Fin k0_t1_loop.trips) (c3_i32 : BitVec 32) : Fin 3 → Nat :=
  let c0_i32_86 : BitVec 32 := 0#32
  let c0_i32_0 : BitVec 32 := 0#32
  let c1_i32 : BitVec 32 := 1#32
  let arg8 : BitVec 32 := Scf.iv c0_i32_0 c1_i32 k0_t1
  let c16_i32_71 : BitVec 32 := 16#32
  let v147 : BitVec 32 := Scalar.muli arg8 c16_i32_71
  let v148 : BitVec 32 := Scalar.addi v147 c3_i32
  let c0_i32_73 : BitVec 32 := 0#32
  let v152 : BitVec 1 := Scalar.cmpi .sgt v148 c0_i32_73
  let v153 : BitVec 32 := Scalar.extui v152
  let c0_i32_74 : BitVec 32 := 0#32
  let v154 : BitVec 1 := Scalar.cmpi .slt v148 c0_i32_74
  let v155 : BitVec 32 := Scalar.extui v154
  let v156 : BitVec 32 := Scalar.subi v153 v155
  let c2_i32_72 : BitVec 32 := 2#32
  let c0_i32_75 : BitVec 32 := 0#32
  let v157 : BitVec 1 := Scalar.cmpi .sgt c2_i32_72 c0_i32_75
  let v158 : BitVec 32 := Scalar.extui v157
  let c0_i32_76 : BitVec 32 := 0#32
  let v159 : BitVec 1 := Scalar.cmpi .slt c2_i32_72 c0_i32_76
  let v160 : BitVec 32 := Scalar.extui v159
  let v161 : BitVec 32 := Scalar.subi v158 v160
  let v162 : BitVec 1 := Scalar.cmpi .ne v156 v161
  let v163 : BitVec 32 := Scalar.remsi v148 c2_i32_72
  let c0_i32_77 : BitVec 32 := 0#32
  let v164 : BitVec 1 := Scalar.cmpi .ne v163 c0_i32_77
  let v165 : BitVec 1 := Scalar.andi v162 v164
  let v151 : BitVec 32 := Scalar.divsi v148 c2_i32_72
  let c1_i32_78 : BitVec 32 := 1#32
  let v166 : BitVec 32 := Scalar.subi v151 c1_i32_78
  let v167 : BitVec 32 := Scalar.select v165 v166 v151
  let c2_i32_79 : BitVec 32 := 2#32
  let c0_i32_80 : BitVec 32 := 0#32
  let v168 : BitVec 1 := Scalar.cmpi .eq c2_i32_79 c0_i32_80
  let c1_i32_81 : BitVec 32 := 1#32
  let v169 : BitVec 32 := Scalar.select v168 c1_i32_81 c2_i32_79
  let v170 : BitVec 32 := Scalar.remsi v148 v169
  let c0_i32_83 : BitVec 32 := 0#32
  let v172 : BitVec 1 := Scalar.cmpi .slt v170 c0_i32_83
  let c0_i32_84 : BitVec 32 := 0#32
  let v173 : BitVec 1 := Scalar.cmpi .slt v169 c0_i32_84
  let v174 : BitVec 1 := Scalar.xori v172 v173
  let c0_i32_82 : BitVec 32 := 0#32
  let v171 : BitVec 1 := Scalar.cmpi .ne v170 c0_i32_82
  let v175 : BitVec 1 := Scalar.andi v174 v171
  let v176 : BitVec 32 := Scalar.addi v170 v169
  let v177 : BitVec 32 := Scalar.select v175 v176 v170
  let c64_i32_85 : BitVec 32 := 64#32
  let v178 : BitVec 32 := Scalar.muli v177 c64_i32_85
  ![0, v167.toNat, v178.toNat]
def k0_off12 (v190 : BitVec 32) : Fin 2 → Nat :=
  let c0_i32_105 : BitVec 32 := 0#32
  ![v190.toNat, 0]

def k0_chk5 (v190 : BitVec 32) : Prop :=
  (∀ a, (k0_off12 v190) a + S1x64.size a ≤ S1000000x64.size a)
instance k0_chk5.dec : ∀ (v190 : BitVec 32), Decidable (k0_chk5 v190) := fun v190 => decidable_of_iff' _ (Iff.of_eq (k0_chk5.eq_1 v190))
theorem k0_off12_inb : ∀ (v190 : BitVec 32) (k0_hw5 : k0_chk5 v190), ∀ a, (k0_off12 v190) a + S1x64.size a ≤ S1000000x64.size a := fun v190 k0_hw5 => k0_hw5

def k0_off13 (k0_t1 : Fin k0_t1_loop.trips) (c4_i32 : BitVec 32) : Fin 3 → Nat :=
  let c0_i32_104 : BitVec 32 := 0#32
  let c0_i32_0 : BitVec 32 := 0#32
  let c1_i32 : BitVec 32 := 1#32
  let arg8 : BitVec 32 := Scf.iv c0_i32_0 c1_i32 k0_t1
  let c16_i32_89 : BitVec 32 := 16#32
  let v187 : BitVec 32 := Scalar.muli arg8 c16_i32_89
  let v188 : BitVec 32 := Scalar.addi v187 c4_i32
  let c0_i32_91 : BitVec 32 := 0#32
  let v192 : BitVec 1 := Scalar.cmpi .sgt v188 c0_i32_91
  let v193 : BitVec 32 := Scalar.extui v192
  let c0_i32_92 : BitVec 32 := 0#32
  let v194 : BitVec 1 := Scalar.cmpi .slt v188 c0_i32_92
  let v195 : BitVec 32 := Scalar.extui v194
  let v196 : BitVec 32 := Scalar.subi v193 v195
  let c2_i32_90 : BitVec 32 := 2#32
  let c0_i32_93 : BitVec 32 := 0#32
  let v197 : BitVec 1 := Scalar.cmpi .sgt c2_i32_90 c0_i32_93
  let v198 : BitVec 32 := Scalar.extui v197
  let c0_i32_94 : BitVec 32 := 0#32
  let v199 : BitVec 1 := Scalar.cmpi .slt c2_i32_90 c0_i32_94
  let v200 : BitVec 32 := Scalar.extui v199
  let v201 : BitVec 32 := Scalar.subi v198 v200
  let v202 : BitVec 1 := Scalar.cmpi .ne v196 v201
  let v203 : BitVec 32 := Scalar.remsi v188 c2_i32_90
  let c0_i32_95 : BitVec 32 := 0#32
  let v204 : BitVec 1 := Scalar.cmpi .ne v203 c0_i32_95
  let v205 : BitVec 1 := Scalar.andi v202 v204
  let v191 : BitVec 32 := Scalar.divsi v188 c2_i32_90
  let c1_i32_96 : BitVec 32 := 1#32
  let v206 : BitVec 32 := Scalar.subi v191 c1_i32_96
  let v207 : BitVec 32 := Scalar.select v205 v206 v191
  let c2_i32_97 : BitVec 32 := 2#32
  let c0_i32_98 : BitVec 32 := 0#32
  let v208 : BitVec 1 := Scalar.cmpi .eq c2_i32_97 c0_i32_98
  let c1_i32_99 : BitVec 32 := 1#32
  let v209 : BitVec 32 := Scalar.select v208 c1_i32_99 c2_i32_97
  let v210 : BitVec 32 := Scalar.remsi v188 v209
  let c0_i32_101 : BitVec 32 := 0#32
  let v212 : BitVec 1 := Scalar.cmpi .slt v210 c0_i32_101
  let c0_i32_102 : BitVec 32 := 0#32
  let v213 : BitVec 1 := Scalar.cmpi .slt v209 c0_i32_102
  let v214 : BitVec 1 := Scalar.xori v212 v213
  let c0_i32_100 : BitVec 32 := 0#32
  let v211 : BitVec 1 := Scalar.cmpi .ne v210 c0_i32_100
  let v215 : BitVec 1 := Scalar.andi v214 v211
  let v216 : BitVec 32 := Scalar.addi v210 v209
  let v217 : BitVec 32 := Scalar.select v215 v216 v210
  let c64_i32_103 : BitVec 32 := 64#32
  let v218 : BitVec 32 := Scalar.muli v217 c64_i32_103
  ![0, v207.toNat, v218.toNat]
def k0_off14 (v230 : BitVec 32) : Fin 2 → Nat :=
  let c0_i32_123 : BitVec 32 := 0#32
  ![v230.toNat, 0]

def k0_chk6 (v230 : BitVec 32) : Prop :=
  (∀ a, (k0_off14 v230) a + S1x64.size a ≤ S1000000x64.size a)
instance k0_chk6.dec : ∀ (v230 : BitVec 32), Decidable (k0_chk6 v230) := fun v230 => decidable_of_iff' _ (Iff.of_eq (k0_chk6.eq_1 v230))
theorem k0_off14_inb : ∀ (v230 : BitVec 32) (k0_hw6 : k0_chk6 v230), ∀ a, (k0_off14 v230) a + S1x64.size a ≤ S1000000x64.size a := fun v230 k0_hw6 => k0_hw6

def k0_off15 (k0_t1 : Fin k0_t1_loop.trips) (c5_i32 : BitVec 32) : Fin 3 → Nat :=
  let c0_i32_122 : BitVec 32 := 0#32
  let c0_i32_0 : BitVec 32 := 0#32
  let c1_i32 : BitVec 32 := 1#32
  let arg8 : BitVec 32 := Scf.iv c0_i32_0 c1_i32 k0_t1
  let c16_i32_107 : BitVec 32 := 16#32
  let v227 : BitVec 32 := Scalar.muli arg8 c16_i32_107
  let v228 : BitVec 32 := Scalar.addi v227 c5_i32
  let c0_i32_109 : BitVec 32 := 0#32
  let v232 : BitVec 1 := Scalar.cmpi .sgt v228 c0_i32_109
  let v233 : BitVec 32 := Scalar.extui v232
  let c0_i32_110 : BitVec 32 := 0#32
  let v234 : BitVec 1 := Scalar.cmpi .slt v228 c0_i32_110
  let v235 : BitVec 32 := Scalar.extui v234
  let v236 : BitVec 32 := Scalar.subi v233 v235
  let c2_i32_108 : BitVec 32 := 2#32
  let c0_i32_111 : BitVec 32 := 0#32
  let v237 : BitVec 1 := Scalar.cmpi .sgt c2_i32_108 c0_i32_111
  let v238 : BitVec 32 := Scalar.extui v237
  let c0_i32_112 : BitVec 32 := 0#32
  let v239 : BitVec 1 := Scalar.cmpi .slt c2_i32_108 c0_i32_112
  let v240 : BitVec 32 := Scalar.extui v239
  let v241 : BitVec 32 := Scalar.subi v238 v240
  let v242 : BitVec 1 := Scalar.cmpi .ne v236 v241
  let v243 : BitVec 32 := Scalar.remsi v228 c2_i32_108
  let c0_i32_113 : BitVec 32 := 0#32
  let v244 : BitVec 1 := Scalar.cmpi .ne v243 c0_i32_113
  let v245 : BitVec 1 := Scalar.andi v242 v244
  let v231 : BitVec 32 := Scalar.divsi v228 c2_i32_108
  let c1_i32_114 : BitVec 32 := 1#32
  let v246 : BitVec 32 := Scalar.subi v231 c1_i32_114
  let v247 : BitVec 32 := Scalar.select v245 v246 v231
  let c2_i32_115 : BitVec 32 := 2#32
  let c0_i32_116 : BitVec 32 := 0#32
  let v248 : BitVec 1 := Scalar.cmpi .eq c2_i32_115 c0_i32_116
  let c1_i32_117 : BitVec 32 := 1#32
  let v249 : BitVec 32 := Scalar.select v248 c1_i32_117 c2_i32_115
  let v250 : BitVec 32 := Scalar.remsi v228 v249
  let c0_i32_119 : BitVec 32 := 0#32
  let v252 : BitVec 1 := Scalar.cmpi .slt v250 c0_i32_119
  let c0_i32_120 : BitVec 32 := 0#32
  let v253 : BitVec 1 := Scalar.cmpi .slt v249 c0_i32_120
  let v254 : BitVec 1 := Scalar.xori v252 v253
  let c0_i32_118 : BitVec 32 := 0#32
  let v251 : BitVec 1 := Scalar.cmpi .ne v250 c0_i32_118
  let v255 : BitVec 1 := Scalar.andi v254 v251
  let v256 : BitVec 32 := Scalar.addi v250 v249
  let v257 : BitVec 32 := Scalar.select v255 v256 v250
  let c64_i32_121 : BitVec 32 := 64#32
  let v258 : BitVec 32 := Scalar.muli v257 c64_i32_121
  ![0, v247.toNat, v258.toNat]
def k0_off16 (v270 : BitVec 32) : Fin 2 → Nat :=
  let c0_i32_141 : BitVec 32 := 0#32
  ![v270.toNat, 0]

def k0_chk7 (v270 : BitVec 32) : Prop :=
  (∀ a, (k0_off16 v270) a + S1x64.size a ≤ S1000000x64.size a)
instance k0_chk7.dec : ∀ (v270 : BitVec 32), Decidable (k0_chk7 v270) := fun v270 => decidable_of_iff' _ (Iff.of_eq (k0_chk7.eq_1 v270))
theorem k0_off16_inb : ∀ (v270 : BitVec 32) (k0_hw7 : k0_chk7 v270), ∀ a, (k0_off16 v270) a + S1x64.size a ≤ S1000000x64.size a := fun v270 k0_hw7 => k0_hw7

def k0_off17 (k0_t1 : Fin k0_t1_loop.trips) (c6_i32 : BitVec 32) : Fin 3 → Nat :=
  let c0_i32_140 : BitVec 32 := 0#32
  let c0_i32_0 : BitVec 32 := 0#32
  let c1_i32 : BitVec 32 := 1#32
  let arg8 : BitVec 32 := Scf.iv c0_i32_0 c1_i32 k0_t1
  let c16_i32_125 : BitVec 32 := 16#32
  let v267 : BitVec 32 := Scalar.muli arg8 c16_i32_125
  let v268 : BitVec 32 := Scalar.addi v267 c6_i32
  let c0_i32_127 : BitVec 32 := 0#32
  let v272 : BitVec 1 := Scalar.cmpi .sgt v268 c0_i32_127
  let v273 : BitVec 32 := Scalar.extui v272
  let c0_i32_128 : BitVec 32 := 0#32
  let v274 : BitVec 1 := Scalar.cmpi .slt v268 c0_i32_128
  let v275 : BitVec 32 := Scalar.extui v274
  let v276 : BitVec 32 := Scalar.subi v273 v275
  let c2_i32_126 : BitVec 32 := 2#32
  let c0_i32_129 : BitVec 32 := 0#32
  let v277 : BitVec 1 := Scalar.cmpi .sgt c2_i32_126 c0_i32_129
  let v278 : BitVec 32 := Scalar.extui v277
  let c0_i32_130 : BitVec 32 := 0#32
  let v279 : BitVec 1 := Scalar.cmpi .slt c2_i32_126 c0_i32_130
  let v280 : BitVec 32 := Scalar.extui v279
  let v281 : BitVec 32 := Scalar.subi v278 v280
  let v282 : BitVec 1 := Scalar.cmpi .ne v276 v281
  let v283 : BitVec 32 := Scalar.remsi v268 c2_i32_126
  let c0_i32_131 : BitVec 32 := 0#32
  let v284 : BitVec 1 := Scalar.cmpi .ne v283 c0_i32_131
  let v285 : BitVec 1 := Scalar.andi v282 v284
  let v271 : BitVec 32 := Scalar.divsi v268 c2_i32_126
  let c1_i32_132 : BitVec 32 := 1#32
  let v286 : BitVec 32 := Scalar.subi v271 c1_i32_132
  let v287 : BitVec 32 := Scalar.select v285 v286 v271
  let c2_i32_133 : BitVec 32 := 2#32
  let c0_i32_134 : BitVec 32 := 0#32
  let v288 : BitVec 1 := Scalar.cmpi .eq c2_i32_133 c0_i32_134
  let c1_i32_135 : BitVec 32 := 1#32
  let v289 : BitVec 32 := Scalar.select v288 c1_i32_135 c2_i32_133
  let v290 : BitVec 32 := Scalar.remsi v268 v289
  let c0_i32_137 : BitVec 32 := 0#32
  let v292 : BitVec 1 := Scalar.cmpi .slt v290 c0_i32_137
  let c0_i32_138 : BitVec 32 := 0#32
  let v293 : BitVec 1 := Scalar.cmpi .slt v289 c0_i32_138
  let v294 : BitVec 1 := Scalar.xori v292 v293
  let c0_i32_136 : BitVec 32 := 0#32
  let v291 : BitVec 1 := Scalar.cmpi .ne v290 c0_i32_136
  let v295 : BitVec 1 := Scalar.andi v294 v291
  let v296 : BitVec 32 := Scalar.addi v290 v289
  let v297 : BitVec 32 := Scalar.select v295 v296 v290
  let c64_i32_139 : BitVec 32 := 64#32
  let v298 : BitVec 32 := Scalar.muli v297 c64_i32_139
  ![0, v287.toNat, v298.toNat]
def k0_off18 (v310 : BitVec 32) : Fin 2 → Nat :=
  let c0_i32_159 : BitVec 32 := 0#32
  ![v310.toNat, 0]

def k0_chk8 (v310 : BitVec 32) : Prop :=
  (∀ a, (k0_off18 v310) a + S1x64.size a ≤ S1000000x64.size a)
instance k0_chk8.dec : ∀ (v310 : BitVec 32), Decidable (k0_chk8 v310) := fun v310 => decidable_of_iff' _ (Iff.of_eq (k0_chk8.eq_1 v310))
theorem k0_off18_inb : ∀ (v310 : BitVec 32) (k0_hw8 : k0_chk8 v310), ∀ a, (k0_off18 v310) a + S1x64.size a ≤ S1000000x64.size a := fun v310 k0_hw8 => k0_hw8

def k0_off19 (k0_t1 : Fin k0_t1_loop.trips) (c7_i32 : BitVec 32) : Fin 3 → Nat :=
  let c0_i32_158 : BitVec 32 := 0#32
  let c0_i32_0 : BitVec 32 := 0#32
  let c1_i32 : BitVec 32 := 1#32
  let arg8 : BitVec 32 := Scf.iv c0_i32_0 c1_i32 k0_t1
  let c16_i32_143 : BitVec 32 := 16#32
  let v307 : BitVec 32 := Scalar.muli arg8 c16_i32_143
  let v308 : BitVec 32 := Scalar.addi v307 c7_i32
  let c0_i32_145 : BitVec 32 := 0#32
  let v312 : BitVec 1 := Scalar.cmpi .sgt v308 c0_i32_145
  let v313 : BitVec 32 := Scalar.extui v312
  let c0_i32_146 : BitVec 32 := 0#32
  let v314 : BitVec 1 := Scalar.cmpi .slt v308 c0_i32_146
  let v315 : BitVec 32 := Scalar.extui v314
  let v316 : BitVec 32 := Scalar.subi v313 v315
  let c2_i32_144 : BitVec 32 := 2#32
  let c0_i32_147 : BitVec 32 := 0#32
  let v317 : BitVec 1 := Scalar.cmpi .sgt c2_i32_144 c0_i32_147
  let v318 : BitVec 32 := Scalar.extui v317
  let c0_i32_148 : BitVec 32 := 0#32
  let v319 : BitVec 1 := Scalar.cmpi .slt c2_i32_144 c0_i32_148
  let v320 : BitVec 32 := Scalar.extui v319
  let v321 : BitVec 32 := Scalar.subi v318 v320
  let v322 : BitVec 1 := Scalar.cmpi .ne v316 v321
  let v323 : BitVec 32 := Scalar.remsi v308 c2_i32_144
  let c0_i32_149 : BitVec 32 := 0#32
  let v324 : BitVec 1 := Scalar.cmpi .ne v323 c0_i32_149
  let v325 : BitVec 1 := Scalar.andi v322 v324
  let v311 : BitVec 32 := Scalar.divsi v308 c2_i32_144
  let c1_i32_150 : BitVec 32 := 1#32
  let v326 : BitVec 32 := Scalar.subi v311 c1_i32_150
  let v327 : BitVec 32 := Scalar.select v325 v326 v311
  let c2_i32_151 : BitVec 32 := 2#32
  let c0_i32_152 : BitVec 32 := 0#32
  let v328 : BitVec 1 := Scalar.cmpi .eq c2_i32_151 c0_i32_152
  let c1_i32_153 : BitVec 32 := 1#32
  let v329 : BitVec 32 := Scalar.select v328 c1_i32_153 c2_i32_151
  let v330 : BitVec 32 := Scalar.remsi v308 v329
  let c0_i32_155 : BitVec 32 := 0#32
  let v332 : BitVec 1 := Scalar.cmpi .slt v330 c0_i32_155
  let c0_i32_156 : BitVec 32 := 0#32
  let v333 : BitVec 1 := Scalar.cmpi .slt v329 c0_i32_156
  let v334 : BitVec 1 := Scalar.xori v332 v333
  let c0_i32_154 : BitVec 32 := 0#32
  let v331 : BitVec 1 := Scalar.cmpi .ne v330 c0_i32_154
  let v335 : BitVec 1 := Scalar.andi v334 v331
  let v336 : BitVec 32 := Scalar.addi v330 v329
  let v337 : BitVec 32 := Scalar.select v335 v336 v330
  let c64_i32_157 : BitVec 32 := 64#32
  let v338 : BitVec 32 := Scalar.muli v337 c64_i32_157
  ![0, v327.toNat, v338.toNat]
def k0_off20 (v350 : BitVec 32) : Fin 2 → Nat :=
  let c0_i32_177 : BitVec 32 := 0#32
  ![v350.toNat, 0]

def k0_chk9 (v350 : BitVec 32) : Prop :=
  (∀ a, (k0_off20 v350) a + S1x64.size a ≤ S1000000x64.size a)
instance k0_chk9.dec : ∀ (v350 : BitVec 32), Decidable (k0_chk9 v350) := fun v350 => decidable_of_iff' _ (Iff.of_eq (k0_chk9.eq_1 v350))
theorem k0_off20_inb : ∀ (v350 : BitVec 32) (k0_hw9 : k0_chk9 v350), ∀ a, (k0_off20 v350) a + S1x64.size a ≤ S1000000x64.size a := fun v350 k0_hw9 => k0_hw9

def k0_off21 (k0_t1 : Fin k0_t1_loop.trips) (c8_i32 : BitVec 32) : Fin 3 → Nat :=
  let c0_i32_176 : BitVec 32 := 0#32
  let c0_i32_0 : BitVec 32 := 0#32
  let c1_i32 : BitVec 32 := 1#32
  let arg8 : BitVec 32 := Scf.iv c0_i32_0 c1_i32 k0_t1
  let c16_i32_161 : BitVec 32 := 16#32
  let v347 : BitVec 32 := Scalar.muli arg8 c16_i32_161
  let v348 : BitVec 32 := Scalar.addi v347 c8_i32
  let c0_i32_163 : BitVec 32 := 0#32
  let v352 : BitVec 1 := Scalar.cmpi .sgt v348 c0_i32_163
  let v353 : BitVec 32 := Scalar.extui v352
  let c0_i32_164 : BitVec 32 := 0#32
  let v354 : BitVec 1 := Scalar.cmpi .slt v348 c0_i32_164
  let v355 : BitVec 32 := Scalar.extui v354
  let v356 : BitVec 32 := Scalar.subi v353 v355
  let c2_i32_162 : BitVec 32 := 2#32
  let c0_i32_165 : BitVec 32 := 0#32
  let v357 : BitVec 1 := Scalar.cmpi .sgt c2_i32_162 c0_i32_165
  let v358 : BitVec 32 := Scalar.extui v357
  let c0_i32_166 : BitVec 32 := 0#32
  let v359 : BitVec 1 := Scalar.cmpi .slt c2_i32_162 c0_i32_166
  let v360 : BitVec 32 := Scalar.extui v359
  let v361 : BitVec 32 := Scalar.subi v358 v360
  let v362 : BitVec 1 := Scalar.cmpi .ne v356 v361
  let v363 : BitVec 32 := Scalar.remsi v348 c2_i32_162
  let c0_i32_167 : BitVec 32 := 0#32
  let v364 : BitVec 1 := Scalar.cmpi .ne v363 c0_i32_167
  let v365 : BitVec 1 := Scalar.andi v362 v364
  let v351 : BitVec 32 := Scalar.divsi v348 c2_i32_162
  let c1_i32_168 : BitVec 32 := 1#32
  let v366 : BitVec 32 := Scalar.subi v351 c1_i32_168
  let v367 : BitVec 32 := Scalar.select v365 v366 v351
  let c2_i32_169 : BitVec 32 := 2#32
  let c0_i32_170 : BitVec 32 := 0#32
  let v368 : BitVec 1 := Scalar.cmpi .eq c2_i32_169 c0_i32_170
  let c1_i32_171 : BitVec 32 := 1#32
  let v369 : BitVec 32 := Scalar.select v368 c1_i32_171 c2_i32_169
  let v370 : BitVec 32 := Scalar.remsi v348 v369
  let c0_i32_173 : BitVec 32 := 0#32
  let v372 : BitVec 1 := Scalar.cmpi .slt v370 c0_i32_173
  let c0_i32_174 : BitVec 32 := 0#32
  let v373 : BitVec 1 := Scalar.cmpi .slt v369 c0_i32_174
  let v374 : BitVec 1 := Scalar.xori v372 v373
  let c0_i32_172 : BitVec 32 := 0#32
  let v371 : BitVec 1 := Scalar.cmpi .ne v370 c0_i32_172
  let v375 : BitVec 1 := Scalar.andi v374 v371
  let v376 : BitVec 32 := Scalar.addi v370 v369
  let v377 : BitVec 32 := Scalar.select v375 v376 v370
  let c64_i32_175 : BitVec 32 := 64#32
  let v378 : BitVec 32 := Scalar.muli v377 c64_i32_175
  ![0, v367.toNat, v378.toNat]
def k0_off22 (v390 : BitVec 32) : Fin 2 → Nat :=
  let c0_i32_195 : BitVec 32 := 0#32
  ![v390.toNat, 0]

def k0_chk10 (v390 : BitVec 32) : Prop :=
  (∀ a, (k0_off22 v390) a + S1x64.size a ≤ S1000000x64.size a)
instance k0_chk10.dec : ∀ (v390 : BitVec 32), Decidable (k0_chk10 v390) := fun v390 => decidable_of_iff' _ (Iff.of_eq (k0_chk10.eq_1 v390))
theorem k0_off22_inb : ∀ (v390 : BitVec 32) (k0_hw10 : k0_chk10 v390), ∀ a, (k0_off22 v390) a + S1x64.size a ≤ S1000000x64.size a := fun v390 k0_hw10 => k0_hw10

def k0_off23 (k0_t1 : Fin k0_t1_loop.trips) (c9_i32 : BitVec 32) : Fin 3 → Nat :=
  let c0_i32_194 : BitVec 32 := 0#32
  let c0_i32_0 : BitVec 32 := 0#32
  let c1_i32 : BitVec 32 := 1#32
  let arg8 : BitVec 32 := Scf.iv c0_i32_0 c1_i32 k0_t1
  let c16_i32_179 : BitVec 32 := 16#32
  let v387 : BitVec 32 := Scalar.muli arg8 c16_i32_179
  let v388 : BitVec 32 := Scalar.addi v387 c9_i32
  let c0_i32_181 : BitVec 32 := 0#32
  let v392 : BitVec 1 := Scalar.cmpi .sgt v388 c0_i32_181
  let v393 : BitVec 32 := Scalar.extui v392
  let c0_i32_182 : BitVec 32 := 0#32
  let v394 : BitVec 1 := Scalar.cmpi .slt v388 c0_i32_182
  let v395 : BitVec 32 := Scalar.extui v394
  let v396 : BitVec 32 := Scalar.subi v393 v395
  let c2_i32_180 : BitVec 32 := 2#32
  let c0_i32_183 : BitVec 32 := 0#32
  let v397 : BitVec 1 := Scalar.cmpi .sgt c2_i32_180 c0_i32_183
  let v398 : BitVec 32 := Scalar.extui v397
  let c0_i32_184 : BitVec 32 := 0#32
  let v399 : BitVec 1 := Scalar.cmpi .slt c2_i32_180 c0_i32_184
  let v400 : BitVec 32 := Scalar.extui v399
  let v401 : BitVec 32 := Scalar.subi v398 v400
  let v402 : BitVec 1 := Scalar.cmpi .ne v396 v401
  let v403 : BitVec 32 := Scalar.remsi v388 c2_i32_180
  let c0_i32_185 : BitVec 32 := 0#32
  let v404 : BitVec 1 := Scalar.cmpi .ne v403 c0_i32_185
  let v405 : BitVec 1 := Scalar.andi v402 v404
  let v391 : BitVec 32 := Scalar.divsi v388 c2_i32_180
  let c1_i32_186 : BitVec 32 := 1#32
  let v406 : BitVec 32 := Scalar.subi v391 c1_i32_186
  let v407 : BitVec 32 := Scalar.select v405 v406 v391
  let c2_i32_187 : BitVec 32 := 2#32
  let c0_i32_188 : BitVec 32 := 0#32
  let v408 : BitVec 1 := Scalar.cmpi .eq c2_i32_187 c0_i32_188
  let c1_i32_189 : BitVec 32 := 1#32
  let v409 : BitVec 32 := Scalar.select v408 c1_i32_189 c2_i32_187
  let v410 : BitVec 32 := Scalar.remsi v388 v409
  let c0_i32_191 : BitVec 32 := 0#32
  let v412 : BitVec 1 := Scalar.cmpi .slt v410 c0_i32_191
  let c0_i32_192 : BitVec 32 := 0#32
  let v413 : BitVec 1 := Scalar.cmpi .slt v409 c0_i32_192
  let v414 : BitVec 1 := Scalar.xori v412 v413
  let c0_i32_190 : BitVec 32 := 0#32
  let v411 : BitVec 1 := Scalar.cmpi .ne v410 c0_i32_190
  let v415 : BitVec 1 := Scalar.andi v414 v411
  let v416 : BitVec 32 := Scalar.addi v410 v409
  let v417 : BitVec 32 := Scalar.select v415 v416 v410
  let c64_i32_193 : BitVec 32 := 64#32
  let v418 : BitVec 32 := Scalar.muli v417 c64_i32_193
  ![0, v407.toNat, v418.toNat]
def k0_off24 (v430 : BitVec 32) : Fin 2 → Nat :=
  let c0_i32_213 : BitVec 32 := 0#32
  ![v430.toNat, 0]

def k0_chk11 (v430 : BitVec 32) : Prop :=
  (∀ a, (k0_off24 v430) a + S1x64.size a ≤ S1000000x64.size a)
instance k0_chk11.dec : ∀ (v430 : BitVec 32), Decidable (k0_chk11 v430) := fun v430 => decidable_of_iff' _ (Iff.of_eq (k0_chk11.eq_1 v430))
theorem k0_off24_inb : ∀ (v430 : BitVec 32) (k0_hw11 : k0_chk11 v430), ∀ a, (k0_off24 v430) a + S1x64.size a ≤ S1000000x64.size a := fun v430 k0_hw11 => k0_hw11

def k0_off25 (k0_t1 : Fin k0_t1_loop.trips) (c10_i32 : BitVec 32) : Fin 3 → Nat :=
  let c0_i32_212 : BitVec 32 := 0#32
  let c0_i32_0 : BitVec 32 := 0#32
  let c1_i32 : BitVec 32 := 1#32
  let arg8 : BitVec 32 := Scf.iv c0_i32_0 c1_i32 k0_t1
  let c16_i32_197 : BitVec 32 := 16#32
  let v427 : BitVec 32 := Scalar.muli arg8 c16_i32_197
  let v428 : BitVec 32 := Scalar.addi v427 c10_i32
  let c0_i32_199 : BitVec 32 := 0#32
  let v432 : BitVec 1 := Scalar.cmpi .sgt v428 c0_i32_199
  let v433 : BitVec 32 := Scalar.extui v432
  let c0_i32_200 : BitVec 32 := 0#32
  let v434 : BitVec 1 := Scalar.cmpi .slt v428 c0_i32_200
  let v435 : BitVec 32 := Scalar.extui v434
  let v436 : BitVec 32 := Scalar.subi v433 v435
  let c2_i32_198 : BitVec 32 := 2#32
  let c0_i32_201 : BitVec 32 := 0#32
  let v437 : BitVec 1 := Scalar.cmpi .sgt c2_i32_198 c0_i32_201
  let v438 : BitVec 32 := Scalar.extui v437
  let c0_i32_202 : BitVec 32 := 0#32
  let v439 : BitVec 1 := Scalar.cmpi .slt c2_i32_198 c0_i32_202
  let v440 : BitVec 32 := Scalar.extui v439
  let v441 : BitVec 32 := Scalar.subi v438 v440
  let v442 : BitVec 1 := Scalar.cmpi .ne v436 v441
  let v443 : BitVec 32 := Scalar.remsi v428 c2_i32_198
  let c0_i32_203 : BitVec 32 := 0#32
  let v444 : BitVec 1 := Scalar.cmpi .ne v443 c0_i32_203
  let v445 : BitVec 1 := Scalar.andi v442 v444
  let v431 : BitVec 32 := Scalar.divsi v428 c2_i32_198
  let c1_i32_204 : BitVec 32 := 1#32
  let v446 : BitVec 32 := Scalar.subi v431 c1_i32_204
  let v447 : BitVec 32 := Scalar.select v445 v446 v431
  let c2_i32_205 : BitVec 32 := 2#32
  let c0_i32_206 : BitVec 32 := 0#32
  let v448 : BitVec 1 := Scalar.cmpi .eq c2_i32_205 c0_i32_206
  let c1_i32_207 : BitVec 32 := 1#32
  let v449 : BitVec 32 := Scalar.select v448 c1_i32_207 c2_i32_205
  let v450 : BitVec 32 := Scalar.remsi v428 v449
  let c0_i32_209 : BitVec 32 := 0#32
  let v452 : BitVec 1 := Scalar.cmpi .slt v450 c0_i32_209
  let c0_i32_210 : BitVec 32 := 0#32
  let v453 : BitVec 1 := Scalar.cmpi .slt v449 c0_i32_210
  let v454 : BitVec 1 := Scalar.xori v452 v453
  let c0_i32_208 : BitVec 32 := 0#32
  let v451 : BitVec 1 := Scalar.cmpi .ne v450 c0_i32_208
  let v455 : BitVec 1 := Scalar.andi v454 v451
  let v456 : BitVec 32 := Scalar.addi v450 v449
  let v457 : BitVec 32 := Scalar.select v455 v456 v450
  let c64_i32_211 : BitVec 32 := 64#32
  let v458 : BitVec 32 := Scalar.muli v457 c64_i32_211
  ![0, v447.toNat, v458.toNat]
def k0_off26 (v470 : BitVec 32) : Fin 2 → Nat :=
  let c0_i32_231 : BitVec 32 := 0#32
  ![v470.toNat, 0]

def k0_chk12 (v470 : BitVec 32) : Prop :=
  (∀ a, (k0_off26 v470) a + S1x64.size a ≤ S1000000x64.size a)
instance k0_chk12.dec : ∀ (v470 : BitVec 32), Decidable (k0_chk12 v470) := fun v470 => decidable_of_iff' _ (Iff.of_eq (k0_chk12.eq_1 v470))
theorem k0_off26_inb : ∀ (v470 : BitVec 32) (k0_hw12 : k0_chk12 v470), ∀ a, (k0_off26 v470) a + S1x64.size a ≤ S1000000x64.size a := fun v470 k0_hw12 => k0_hw12

def k0_off27 (k0_t1 : Fin k0_t1_loop.trips) (c11_i32 : BitVec 32) : Fin 3 → Nat :=
  let c0_i32_230 : BitVec 32 := 0#32
  let c0_i32_0 : BitVec 32 := 0#32
  let c1_i32 : BitVec 32 := 1#32
  let arg8 : BitVec 32 := Scf.iv c0_i32_0 c1_i32 k0_t1
  let c16_i32_215 : BitVec 32 := 16#32
  let v467 : BitVec 32 := Scalar.muli arg8 c16_i32_215
  let v468 : BitVec 32 := Scalar.addi v467 c11_i32
  let c0_i32_217 : BitVec 32 := 0#32
  let v472 : BitVec 1 := Scalar.cmpi .sgt v468 c0_i32_217
  let v473 : BitVec 32 := Scalar.extui v472
  let c0_i32_218 : BitVec 32 := 0#32
  let v474 : BitVec 1 := Scalar.cmpi .slt v468 c0_i32_218
  let v475 : BitVec 32 := Scalar.extui v474
  let v476 : BitVec 32 := Scalar.subi v473 v475
  let c2_i32_216 : BitVec 32 := 2#32
  let c0_i32_219 : BitVec 32 := 0#32
  let v477 : BitVec 1 := Scalar.cmpi .sgt c2_i32_216 c0_i32_219
  let v478 : BitVec 32 := Scalar.extui v477
  let c0_i32_220 : BitVec 32 := 0#32
  let v479 : BitVec 1 := Scalar.cmpi .slt c2_i32_216 c0_i32_220
  let v480 : BitVec 32 := Scalar.extui v479
  let v481 : BitVec 32 := Scalar.subi v478 v480
  let v482 : BitVec 1 := Scalar.cmpi .ne v476 v481
  let v483 : BitVec 32 := Scalar.remsi v468 c2_i32_216
  let c0_i32_221 : BitVec 32 := 0#32
  let v484 : BitVec 1 := Scalar.cmpi .ne v483 c0_i32_221
  let v485 : BitVec 1 := Scalar.andi v482 v484
  let v471 : BitVec 32 := Scalar.divsi v468 c2_i32_216
  let c1_i32_222 : BitVec 32 := 1#32
  let v486 : BitVec 32 := Scalar.subi v471 c1_i32_222
  let v487 : BitVec 32 := Scalar.select v485 v486 v471
  let c2_i32_223 : BitVec 32 := 2#32
  let c0_i32_224 : BitVec 32 := 0#32
  let v488 : BitVec 1 := Scalar.cmpi .eq c2_i32_223 c0_i32_224
  let c1_i32_225 : BitVec 32 := 1#32
  let v489 : BitVec 32 := Scalar.select v488 c1_i32_225 c2_i32_223
  let v490 : BitVec 32 := Scalar.remsi v468 v489
  let c0_i32_227 : BitVec 32 := 0#32
  let v492 : BitVec 1 := Scalar.cmpi .slt v490 c0_i32_227
  let c0_i32_228 : BitVec 32 := 0#32
  let v493 : BitVec 1 := Scalar.cmpi .slt v489 c0_i32_228
  let v494 : BitVec 1 := Scalar.xori v492 v493
  let c0_i32_226 : BitVec 32 := 0#32
  let v491 : BitVec 1 := Scalar.cmpi .ne v490 c0_i32_226
  let v495 : BitVec 1 := Scalar.andi v494 v491
  let v496 : BitVec 32 := Scalar.addi v490 v489
  let v497 : BitVec 32 := Scalar.select v495 v496 v490
  let c64_i32_229 : BitVec 32 := 64#32
  let v498 : BitVec 32 := Scalar.muli v497 c64_i32_229
  ![0, v487.toNat, v498.toNat]
def k0_off28 (v510 : BitVec 32) : Fin 2 → Nat :=
  let c0_i32_249 : BitVec 32 := 0#32
  ![v510.toNat, 0]

def k0_chk13 (v510 : BitVec 32) : Prop :=
  (∀ a, (k0_off28 v510) a + S1x64.size a ≤ S1000000x64.size a)
instance k0_chk13.dec : ∀ (v510 : BitVec 32), Decidable (k0_chk13 v510) := fun v510 => decidable_of_iff' _ (Iff.of_eq (k0_chk13.eq_1 v510))
theorem k0_off28_inb : ∀ (v510 : BitVec 32) (k0_hw13 : k0_chk13 v510), ∀ a, (k0_off28 v510) a + S1x64.size a ≤ S1000000x64.size a := fun v510 k0_hw13 => k0_hw13

def k0_off29 (k0_t1 : Fin k0_t1_loop.trips) (c12_i32 : BitVec 32) : Fin 3 → Nat :=
  let c0_i32_248 : BitVec 32 := 0#32
  let c0_i32_0 : BitVec 32 := 0#32
  let c1_i32 : BitVec 32 := 1#32
  let arg8 : BitVec 32 := Scf.iv c0_i32_0 c1_i32 k0_t1
  let c16_i32_233 : BitVec 32 := 16#32
  let v507 : BitVec 32 := Scalar.muli arg8 c16_i32_233
  let v508 : BitVec 32 := Scalar.addi v507 c12_i32
  let c0_i32_235 : BitVec 32 := 0#32
  let v512 : BitVec 1 := Scalar.cmpi .sgt v508 c0_i32_235
  let v513 : BitVec 32 := Scalar.extui v512
  let c0_i32_236 : BitVec 32 := 0#32
  let v514 : BitVec 1 := Scalar.cmpi .slt v508 c0_i32_236
  let v515 : BitVec 32 := Scalar.extui v514
  let v516 : BitVec 32 := Scalar.subi v513 v515
  let c2_i32_234 : BitVec 32 := 2#32
  let c0_i32_237 : BitVec 32 := 0#32
  let v517 : BitVec 1 := Scalar.cmpi .sgt c2_i32_234 c0_i32_237
  let v518 : BitVec 32 := Scalar.extui v517
  let c0_i32_238 : BitVec 32 := 0#32
  let v519 : BitVec 1 := Scalar.cmpi .slt c2_i32_234 c0_i32_238
  let v520 : BitVec 32 := Scalar.extui v519
  let v521 : BitVec 32 := Scalar.subi v518 v520
  let v522 : BitVec 1 := Scalar.cmpi .ne v516 v521
  let v523 : BitVec 32 := Scalar.remsi v508 c2_i32_234
  let c0_i32_239 : BitVec 32 := 0#32
  let v524 : BitVec 1 := Scalar.cmpi .ne v523 c0_i32_239
  let v525 : BitVec 1 := Scalar.andi v522 v524
  let v511 : BitVec 32 := Scalar.divsi v508 c2_i32_234
  let c1_i32_240 : BitVec 32 := 1#32
  let v526 : BitVec 32 := Scalar.subi v511 c1_i32_240
  let v527 : BitVec 32 := Scalar.select v525 v526 v511
  let c2_i32_241 : BitVec 32 := 2#32
  let c0_i32_242 : BitVec 32 := 0#32
  let v528 : BitVec 1 := Scalar.cmpi .eq c2_i32_241 c0_i32_242
  let c1_i32_243 : BitVec 32 := 1#32
  let v529 : BitVec 32 := Scalar.select v528 c1_i32_243 c2_i32_241
  let v530 : BitVec 32 := Scalar.remsi v508 v529
  let c0_i32_245 : BitVec 32 := 0#32
  let v532 : BitVec 1 := Scalar.cmpi .slt v530 c0_i32_245
  let c0_i32_246 : BitVec 32 := 0#32
  let v533 : BitVec 1 := Scalar.cmpi .slt v529 c0_i32_246
  let v534 : BitVec 1 := Scalar.xori v532 v533
  let c0_i32_244 : BitVec 32 := 0#32
  let v531 : BitVec 1 := Scalar.cmpi .ne v530 c0_i32_244
  let v535 : BitVec 1 := Scalar.andi v534 v531
  let v536 : BitVec 32 := Scalar.addi v530 v529
  let v537 : BitVec 32 := Scalar.select v535 v536 v530
  let c64_i32_247 : BitVec 32 := 64#32
  let v538 : BitVec 32 := Scalar.muli v537 c64_i32_247
  ![0, v527.toNat, v538.toNat]
def k0_off30 (v550 : BitVec 32) : Fin 2 → Nat :=
  let c0_i32_267 : BitVec 32 := 0#32
  ![v550.toNat, 0]

def k0_chk14 (v550 : BitVec 32) : Prop :=
  (∀ a, (k0_off30 v550) a + S1x64.size a ≤ S1000000x64.size a)
instance k0_chk14.dec : ∀ (v550 : BitVec 32), Decidable (k0_chk14 v550) := fun v550 => decidable_of_iff' _ (Iff.of_eq (k0_chk14.eq_1 v550))
theorem k0_off30_inb : ∀ (v550 : BitVec 32) (k0_hw14 : k0_chk14 v550), ∀ a, (k0_off30 v550) a + S1x64.size a ≤ S1000000x64.size a := fun v550 k0_hw14 => k0_hw14

def k0_off31 (k0_t1 : Fin k0_t1_loop.trips) (c13_i32 : BitVec 32) : Fin 3 → Nat :=
  let c0_i32_266 : BitVec 32 := 0#32
  let c0_i32_0 : BitVec 32 := 0#32
  let c1_i32 : BitVec 32 := 1#32
  let arg8 : BitVec 32 := Scf.iv c0_i32_0 c1_i32 k0_t1
  let c16_i32_251 : BitVec 32 := 16#32
  let v547 : BitVec 32 := Scalar.muli arg8 c16_i32_251
  let v548 : BitVec 32 := Scalar.addi v547 c13_i32
  let c0_i32_253 : BitVec 32 := 0#32
  let v552 : BitVec 1 := Scalar.cmpi .sgt v548 c0_i32_253
  let v553 : BitVec 32 := Scalar.extui v552
  let c0_i32_254 : BitVec 32 := 0#32
  let v554 : BitVec 1 := Scalar.cmpi .slt v548 c0_i32_254
  let v555 : BitVec 32 := Scalar.extui v554
  let v556 : BitVec 32 := Scalar.subi v553 v555
  let c2_i32_252 : BitVec 32 := 2#32
  let c0_i32_255 : BitVec 32 := 0#32
  let v557 : BitVec 1 := Scalar.cmpi .sgt c2_i32_252 c0_i32_255
  let v558 : BitVec 32 := Scalar.extui v557
  let c0_i32_256 : BitVec 32 := 0#32
  let v559 : BitVec 1 := Scalar.cmpi .slt c2_i32_252 c0_i32_256
  let v560 : BitVec 32 := Scalar.extui v559
  let v561 : BitVec 32 := Scalar.subi v558 v560
  let v562 : BitVec 1 := Scalar.cmpi .ne v556 v561
  let v563 : BitVec 32 := Scalar.remsi v548 c2_i32_252
  let c0_i32_257 : BitVec 32 := 0#32
  let v564 : BitVec 1 := Scalar.cmpi .ne v563 c0_i32_257
  let v565 : BitVec 1 := Scalar.andi v562 v564
  let v551 : BitVec 32 := Scalar.divsi v548 c2_i32_252
  let c1_i32_258 : BitVec 32 := 1#32
  let v566 : BitVec 32 := Scalar.subi v551 c1_i32_258
  let v567 : BitVec 32 := Scalar.select v565 v566 v551
  let c2_i32_259 : BitVec 32 := 2#32
  let c0_i32_260 : BitVec 32 := 0#32
  let v568 : BitVec 1 := Scalar.cmpi .eq c2_i32_259 c0_i32_260
  let c1_i32_261 : BitVec 32 := 1#32
  let v569 : BitVec 32 := Scalar.select v568 c1_i32_261 c2_i32_259
  let v570 : BitVec 32 := Scalar.remsi v548 v569
  let c0_i32_263 : BitVec 32 := 0#32
  let v572 : BitVec 1 := Scalar.cmpi .slt v570 c0_i32_263
  let c0_i32_264 : BitVec 32 := 0#32
  let v573 : BitVec 1 := Scalar.cmpi .slt v569 c0_i32_264
  let v574 : BitVec 1 := Scalar.xori v572 v573
  let c0_i32_262 : BitVec 32 := 0#32
  let v571 : BitVec 1 := Scalar.cmpi .ne v570 c0_i32_262
  let v575 : BitVec 1 := Scalar.andi v574 v571
  let v576 : BitVec 32 := Scalar.addi v570 v569
  let v577 : BitVec 32 := Scalar.select v575 v576 v570
  let c64_i32_265 : BitVec 32 := 64#32
  let v578 : BitVec 32 := Scalar.muli v577 c64_i32_265
  ![0, v567.toNat, v578.toNat]
def k0_off32 (v590 : BitVec 32) : Fin 2 → Nat :=
  let c0_i32_285 : BitVec 32 := 0#32
  ![v590.toNat, 0]

def k0_chk15 (v590 : BitVec 32) : Prop :=
  (∀ a, (k0_off32 v590) a + S1x64.size a ≤ S1000000x64.size a)
instance k0_chk15.dec : ∀ (v590 : BitVec 32), Decidable (k0_chk15 v590) := fun v590 => decidable_of_iff' _ (Iff.of_eq (k0_chk15.eq_1 v590))
theorem k0_off32_inb : ∀ (v590 : BitVec 32) (k0_hw15 : k0_chk15 v590), ∀ a, (k0_off32 v590) a + S1x64.size a ≤ S1000000x64.size a := fun v590 k0_hw15 => k0_hw15

def k0_off33 (k0_t1 : Fin k0_t1_loop.trips) (c14_i32 : BitVec 32) : Fin 3 → Nat :=
  let c0_i32_284 : BitVec 32 := 0#32
  let c0_i32_0 : BitVec 32 := 0#32
  let c1_i32 : BitVec 32 := 1#32
  let arg8 : BitVec 32 := Scf.iv c0_i32_0 c1_i32 k0_t1
  let c16_i32_269 : BitVec 32 := 16#32
  let v587 : BitVec 32 := Scalar.muli arg8 c16_i32_269
  let v588 : BitVec 32 := Scalar.addi v587 c14_i32
  let c0_i32_271 : BitVec 32 := 0#32
  let v592 : BitVec 1 := Scalar.cmpi .sgt v588 c0_i32_271
  let v593 : BitVec 32 := Scalar.extui v592
  let c0_i32_272 : BitVec 32 := 0#32
  let v594 : BitVec 1 := Scalar.cmpi .slt v588 c0_i32_272
  let v595 : BitVec 32 := Scalar.extui v594
  let v596 : BitVec 32 := Scalar.subi v593 v595
  let c2_i32_270 : BitVec 32 := 2#32
  let c0_i32_273 : BitVec 32 := 0#32
  let v597 : BitVec 1 := Scalar.cmpi .sgt c2_i32_270 c0_i32_273
  let v598 : BitVec 32 := Scalar.extui v597
  let c0_i32_274 : BitVec 32 := 0#32
  let v599 : BitVec 1 := Scalar.cmpi .slt c2_i32_270 c0_i32_274
  let v600 : BitVec 32 := Scalar.extui v599
  let v601 : BitVec 32 := Scalar.subi v598 v600
  let v602 : BitVec 1 := Scalar.cmpi .ne v596 v601
  let v603 : BitVec 32 := Scalar.remsi v588 c2_i32_270
  let c0_i32_275 : BitVec 32 := 0#32
  let v604 : BitVec 1 := Scalar.cmpi .ne v603 c0_i32_275
  let v605 : BitVec 1 := Scalar.andi v602 v604
  let v591 : BitVec 32 := Scalar.divsi v588 c2_i32_270
  let c1_i32_276 : BitVec 32 := 1#32
  let v606 : BitVec 32 := Scalar.subi v591 c1_i32_276
  let v607 : BitVec 32 := Scalar.select v605 v606 v591
  let c2_i32_277 : BitVec 32 := 2#32
  let c0_i32_278 : BitVec 32 := 0#32
  let v608 : BitVec 1 := Scalar.cmpi .eq c2_i32_277 c0_i32_278
  let c1_i32_279 : BitVec 32 := 1#32
  let v609 : BitVec 32 := Scalar.select v608 c1_i32_279 c2_i32_277
  let v610 : BitVec 32 := Scalar.remsi v588 v609
  let c0_i32_281 : BitVec 32 := 0#32
  let v612 : BitVec 1 := Scalar.cmpi .slt v610 c0_i32_281
  let c0_i32_282 : BitVec 32 := 0#32
  let v613 : BitVec 1 := Scalar.cmpi .slt v609 c0_i32_282
  let v614 : BitVec 1 := Scalar.xori v612 v613
  let c0_i32_280 : BitVec 32 := 0#32
  let v611 : BitVec 1 := Scalar.cmpi .ne v610 c0_i32_280
  let v615 : BitVec 1 := Scalar.andi v614 v611
  let v616 : BitVec 32 := Scalar.addi v610 v609
  let v617 : BitVec 32 := Scalar.select v615 v616 v610
  let c64_i32_283 : BitVec 32 := 64#32
  let v618 : BitVec 32 := Scalar.muli v617 c64_i32_283
  ![0, v607.toNat, v618.toNat]
def k0_off34 (v630 : BitVec 32) : Fin 2 → Nat :=
  let c0_i32_303 : BitVec 32 := 0#32
  ![v630.toNat, 0]

def k0_chk16 (v630 : BitVec 32) : Prop :=
  (∀ a, (k0_off34 v630) a + S1x64.size a ≤ S1000000x64.size a)
instance k0_chk16.dec : ∀ (v630 : BitVec 32), Decidable (k0_chk16 v630) := fun v630 => decidable_of_iff' _ (Iff.of_eq (k0_chk16.eq_1 v630))
theorem k0_off34_inb : ∀ (v630 : BitVec 32) (k0_hw16 : k0_chk16 v630), ∀ a, (k0_off34 v630) a + S1x64.size a ≤ S1000000x64.size a := fun v630 k0_hw16 => k0_hw16

def k0_off35 (k0_t1 : Fin k0_t1_loop.trips) : Fin 3 → Nat :=
  let c0_i32_302 : BitVec 32 := 0#32
  let c0_i32_0 : BitVec 32 := 0#32
  let c1_i32 : BitVec 32 := 1#32
  let arg8 : BitVec 32 := Scf.iv c0_i32_0 c1_i32 k0_t1
  let c16_i32_287 : BitVec 32 := 16#32
  let v627 : BitVec 32 := Scalar.muli arg8 c16_i32_287
  let c15_i32 : BitVec 32 := 15#32
  let v628 : BitVec 32 := Scalar.addi v627 c15_i32
  let c0_i32_289 : BitVec 32 := 0#32
  let v632 : BitVec 1 := Scalar.cmpi .sgt v628 c0_i32_289
  let v633 : BitVec 32 := Scalar.extui v632
  let c0_i32_290 : BitVec 32 := 0#32
  let v634 : BitVec 1 := Scalar.cmpi .slt v628 c0_i32_290
  let v635 : BitVec 32 := Scalar.extui v634
  let v636 : BitVec 32 := Scalar.subi v633 v635
  let c2_i32_288 : BitVec 32 := 2#32
  let c0_i32_291 : BitVec 32 := 0#32
  let v637 : BitVec 1 := Scalar.cmpi .sgt c2_i32_288 c0_i32_291
  let v638 : BitVec 32 := Scalar.extui v637
  let c0_i32_292 : BitVec 32 := 0#32
  let v639 : BitVec 1 := Scalar.cmpi .slt c2_i32_288 c0_i32_292
  let v640 : BitVec 32 := Scalar.extui v639
  let v641 : BitVec 32 := Scalar.subi v638 v640
  let v642 : BitVec 1 := Scalar.cmpi .ne v636 v641
  let v643 : BitVec 32 := Scalar.remsi v628 c2_i32_288
  let c0_i32_293 : BitVec 32 := 0#32
  let v644 : BitVec 1 := Scalar.cmpi .ne v643 c0_i32_293
  let v645 : BitVec 1 := Scalar.andi v642 v644
  let v631 : BitVec 32 := Scalar.divsi v628 c2_i32_288
  let c1_i32_294 : BitVec 32 := 1#32
  let v646 : BitVec 32 := Scalar.subi v631 c1_i32_294
  let v647 : BitVec 32 := Scalar.select v645 v646 v631
  let c2_i32_295 : BitVec 32 := 2#32
  let c0_i32_296 : BitVec 32 := 0#32
  let v648 : BitVec 1 := Scalar.cmpi .eq c2_i32_295 c0_i32_296
  let c1_i32_297 : BitVec 32 := 1#32
  let v649 : BitVec 32 := Scalar.select v648 c1_i32_297 c2_i32_295
  let v650 : BitVec 32 := Scalar.remsi v628 v649
  let c0_i32_299 : BitVec 32 := 0#32
  let v652 : BitVec 1 := Scalar.cmpi .slt v650 c0_i32_299
  let c0_i32_300 : BitVec 32 := 0#32
  let v653 : BitVec 1 := Scalar.cmpi .slt v649 c0_i32_300
  let v654 : BitVec 1 := Scalar.xori v652 v653
  let c0_i32_298 : BitVec 32 := 0#32
  let v651 : BitVec 1 := Scalar.cmpi .ne v650 c0_i32_298
  let v655 : BitVec 1 := Scalar.andi v654 v651
  let v656 : BitVec 32 := Scalar.addi v650 v649
  let v657 : BitVec 32 := Scalar.select v655 v656 v650
  let c64_i32_301 : BitVec 32 := 64#32
  let v658 : BitVec 32 := Scalar.muli v657 c64_i32_301
  ![0, v647.toNat, v658.toNat]
@[reducible] def k0_t2_loop : Scf.Loop 32 :=
  let c0_i32_3 : BitVec 32 := 0#32
  let c32_i32_4 : BitVec 32 := 32#32
  let v4 : BitVec 32 := Scalar.addi c0_i32_3 c32_i32_4
  let c1_i32_5 : BitVec 32 := 1#32
  ⟨c0_i32_3, v4, c1_i32_5⟩
def k0_off36 (k0_t2 : Fin k0_t2_loop.trips) (c0_i32_15 : BitVec 32) : Fin 3 → Nat :=
  let c0_i32_30 : BitVec 32 := 0#32
  let c0_i32_3 : BitVec 32 := 0#32
  let c1_i32_5 : BitVec 32 := 1#32
  let arg8 : BitVec 32 := Scf.iv c0_i32_3 c1_i32_5 k0_t2
  let c16_i32 : BitVec 32 := 16#32
  let v23 : BitVec 32 := Scalar.muli arg8 c16_i32
  let v24 : BitVec 32 := Scalar.addi v23 c0_i32_15
  let c0_i32_17 : BitVec 32 := 0#32
  let v26 : BitVec 1 := Scalar.cmpi .sgt v24 c0_i32_17
  let v27 : BitVec 32 := Scalar.extui v26
  let c0_i32_18 : BitVec 32 := 0#32
  let v28 : BitVec 1 := Scalar.cmpi .slt v24 c0_i32_18
  let v29 : BitVec 32 := Scalar.extui v28
  let v30 : BitVec 32 := Scalar.subi v27 v29
  let c2_i32_16 : BitVec 32 := 2#32
  let c0_i32_19 : BitVec 32 := 0#32
  let v31 : BitVec 1 := Scalar.cmpi .sgt c2_i32_16 c0_i32_19
  let v32 : BitVec 32 := Scalar.extui v31
  let c0_i32_20 : BitVec 32 := 0#32
  let v33 : BitVec 1 := Scalar.cmpi .slt c2_i32_16 c0_i32_20
  let v34 : BitVec 32 := Scalar.extui v33
  let v35 : BitVec 32 := Scalar.subi v32 v34
  let v36 : BitVec 1 := Scalar.cmpi .ne v30 v35
  let v37 : BitVec 32 := Scalar.remsi v24 c2_i32_16
  let c0_i32_21 : BitVec 32 := 0#32
  let v38 : BitVec 1 := Scalar.cmpi .ne v37 c0_i32_21
  let v39 : BitVec 1 := Scalar.andi v36 v38
  let v25 : BitVec 32 := Scalar.divsi v24 c2_i32_16
  let c1_i32_22 : BitVec 32 := 1#32
  let v40 : BitVec 32 := Scalar.subi v25 c1_i32_22
  let v41 : BitVec 32 := Scalar.select v39 v40 v25
  let c2_i32_23 : BitVec 32 := 2#32
  let c0_i32_24 : BitVec 32 := 0#32
  let v42 : BitVec 1 := Scalar.cmpi .eq c2_i32_23 c0_i32_24
  let c1_i32_25 : BitVec 32 := 1#32
  let v43 : BitVec 32 := Scalar.select v42 c1_i32_25 c2_i32_23
  let v44 : BitVec 32 := Scalar.remsi v24 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c64_i32 : BitVec 32 := 64#32
  let v52 : BitVec 32 := Scalar.muli v51 c64_i32
  ![0, v41.toNat, v52.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_8 : BitVec 32 := 0#32
  let v6 : BitVec 1 := Scalar.cmpi .sgt v2 c0_i32_8
  let v7 : BitVec 32 := Scalar.extui v6
  let c0_i32_9 : BitVec 32 := 0#32
  let v8 : BitVec 1 := Scalar.cmpi .slt v2 c0_i32_9
  let v9 : BitVec 32 := Scalar.extui v8
  let v10 : BitVec 32 := Scalar.subi v7 v9
  let c2_i32_7 : BitVec 32 := 2#32
  let c0_i32_10 : BitVec 32 := 0#32
  let v11 : BitVec 1 := Scalar.cmpi .sgt c2_i32_7 c0_i32_10
  let v12 : BitVec 32 := Scalar.extui v11
  let c0_i32_11 : BitVec 32 := 0#32
  let v13 : BitVec 1 := Scalar.cmpi .slt c2_i32_7 c0_i32_11
  let v14 : BitVec 32 := Scalar.extui v13
  let v15 : BitVec 32 := Scalar.subi v12 v14
  let v16 : BitVec 1 := Scalar.cmpi .ne v10 v15
  let v17 : BitVec 32 := Scalar.remsi v2 c2_i32_7
  let c0_i32_12 : BitVec 32 := 0#32
  let v18 : BitVec 1 := Scalar.cmpi .ne v17 c0_i32_12
  let v19 : BitVec 1 := Scalar.andi v16 v18
  let v5 : BitVec 32 := Scalar.divsi v2 c2_i32_7
  let c1_i32_13 : BitVec 32 := 1#32
  let v20 : BitVec 32 := Scalar.subi v5 c1_i32_13
  let v21 : BitVec 32 := Scalar.select v19 v20 v5
  v21
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_8 : BitVec 32 := 0#32
  let v6 : BitVec 1 := Scalar.cmpi .sgt v2 c0_i32_8
  let v7 : BitVec 32 := Scalar.extui v6
  let c0_i32_9 : BitVec 32 := 0#32
  let v8 : BitVec 1 := Scalar.cmpi .slt v2 c0_i32_9
  let v9 : BitVec 32 := Scalar.extui v8
  let v10 : BitVec 32 := Scalar.subi v7 v9
  let c2_i32_7 : BitVec 32 := 2#32
  let c0_i32_10 : BitVec 32 := 0#32
  let v11 : BitVec 1 := Scalar.cmpi .sgt c2_i32_7 c0_i32_10
  let v12 : BitVec 32 := Scalar.extui v11
  let c0_i32_11 : BitVec 32 := 0#32
  let v13 : BitVec 1 := Scalar.cmpi .slt c2_i32_7 c0_i32_11
  let v14 : BitVec 32 := Scalar.extui v13
  let v15 : BitVec 32 := Scalar.subi v12 v14
  let v16 : BitVec 1 := Scalar.cmpi .ne v10 v15
  let v17 : BitVec 32 := Scalar.remsi v2 c2_i32_7
  let c0_i32_12 : BitVec 32 := 0#32
  let v18 : BitVec 1 := Scalar.cmpi .ne v17 c0_i32_12
  let v19 : BitVec 1 := Scalar.andi v16 v18
  let v5 : BitVec 32 := Scalar.divsi v2 c2_i32_7
  let c1_i32_13 : BitVec 32 := 1#32
  let v20 : BitVec 32 := Scalar.subi v5 c1_i32_13
  let v21 : BitVec 32 := Scalar.select v19 v20 v5
  let v22 : BitVec 32 := v21
  let c0_i32_17_r1 : BitVec 32 := 0#32
  ![v22.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_1 : BitVec 32 := 0#32
  let c16_i32 : BitVec 32 := 16#32
  let v5 : BitVec 32 := Scalar.addi c0_i32_1 c16_i32
  let c1_i32 : BitVec 32 := 1#32
  ⟨c0_i32_1, v5, c1_i32⟩
def k1_off2 (k1_t1 : Fin k1_t1_loop.trips) : Fin 1 → Nat :=
  let c0_i32_1 : BitVec 32 := 0#32
  let c1_i32 : BitVec 32 := 1#32
  let arg12 : BitVec 32 := Scf.iv c0_i32_1 c1_i32 k1_t1
  let c16_i32_60 : BitVec 32 := 16#32
  let v57 : BitVec 32 := Scalar.muli arg12 c16_i32_60
  let v58 : Index := Scalar.indexCast v57
  ![v58.toNat]
def k1_off3 (k1_t1 : Fin k1_t1_loop.trips) : Fin 3 → Nat :=
  let c0_i32_76 : BitVec 32 := 0#32
  let c0_i32_1 : BitVec 32 := 0#32
  let c1_i32 : BitVec 32 := 1#32
  let arg12 : BitVec 32 := Scf.iv c0_i32_1 c1_i32 k1_t1
  let c16_i32_61 : BitVec 32 := 16#32
  let v61 : BitVec 32 := Scalar.muli arg12 c16_i32_61
  let c0_i32_62 : BitVec 32 := 0#32
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c2_i32_63 : BitVec 32 := 2#32
  let c0_i32_66 : BitVec 32 := 0#32
  let v71 : BitVec 1 := Scalar.cmpi .sgt c2_i32_63 c0_i32_66
  let v72 : BitVec 32 := Scalar.extui v71
  let c0_i32_67 : BitVec 32 := 0#32
  let v73 : BitVec 1 := Scalar.cmpi .slt c2_i32_63 c0_i32_67
  let v74 : BitVec 32 := Scalar.extui v73
  let v75 : BitVec 32 := Scalar.subi v72 v74
  let v76 : BitVec 1 := Scalar.cmpi .ne v70 v75
  let v77 : BitVec 32 := Scalar.remsi v62 c2_i32_63
  let c0_i32_68 : BitVec 32 := 0#32
  let v78 : BitVec 1 := Scalar.cmpi .ne v77 c0_i32_68
  let v79 : BitVec 1 := Scalar.andi v76 v78
  let v65 : BitVec 32 := Scalar.divsi v62 c2_i32_63
  let c1_i32_69 : BitVec 32 := 1#32
  let v80 : BitVec 32 := Scalar.subi v65 c1_i32_69
  let v81 : BitVec 32 := Scalar.select v79 v80 v65
  let c2_i32_70 : BitVec 32 := 2#32
  let c0_i32_71 : BitVec 32 := 0#32
  let v82 : BitVec 1 := Scalar.cmpi .eq c2_i32_70 c0_i32_71
  let c1_i32_72 : BitVec 32 := 1#32
  let v83 : BitVec 32 := Scalar.select v82 c1_i32_72 c2_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![0, v81.toNat, v92.toNat]
def k1_off4 (v64 : BitVec 32) : Fin 2 → Nat :=
  let c0_i32_77 : BitVec 32 := 0#32
  ![v64.toNat, 0]

def k1_chk1 (v64 : BitVec 32) : Prop :=
  (∀ a, (k1_off4 v64) a + S1x64.size a ≤ S1000000x64.size a)
instance k1_chk1.dec : ∀ (v64 : BitVec 32), Decidable (k1_chk1 v64) := fun v64 => decidable_of_iff' _ (Iff.of_eq (k1_chk1.eq_1 v64))
theorem k1_off4_inb : ∀ (v64 : BitVec 32) (k1_hw1 : k1_chk1 v64), ∀ a, (k1_off4 v64) a + S1x64.size a ≤ S1000000x64.size a := fun v64 k1_hw1 => k1_hw1

def k1_off5 (k1_t1 : Fin k1_t1_loop.trips) (c0_i32_62 : BitVec 32) : Fin 3 → Nat :=
  let c0_i32_76 : BitVec 32 := 0#32
  let c0_i32_1 : BitVec 32 := 0#32
  let c1_i32 : BitVec 32 := 1#32
  let arg12 : BitVec 32 := Scf.iv c0_i32_1 c1_i32 k1_t1
  let c16_i32_61 : BitVec 32 := 16#32
  let v61 : BitVec 32 := Scalar.muli arg12 c16_i32_61
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c2_i32_63 : BitVec 32 := 2#32
  let c0_i32_66 : BitVec 32 := 0#32
  let v71 : BitVec 1 := Scalar.cmpi .sgt c2_i32_63 c0_i32_66
  let v72 : BitVec 32 := Scalar.extui v71
  let c0_i32_67 : BitVec 32 := 0#32
  let v73 : BitVec 1 := Scalar.cmpi .slt c2_i32_63 c0_i32_67
  let v74 : BitVec 32 := Scalar.extui v73
  let v75 : BitVec 32 := Scalar.subi v72 v74
  let v76 : BitVec 1 := Scalar.cmpi .ne v70 v75
  let v77 : BitVec 32 := Scalar.remsi v62 c2_i32_63
  let c0_i32_68 : BitVec 32 := 0#32
  let v78 : BitVec 1 := Scalar.cmpi .ne v77 c0_i32_68
  let v79 : BitVec 1 := Scalar.andi v76 v78
  let v65 : BitVec 32 := Scalar.divsi v62 c2_i32_63
  let c1_i32_69 : BitVec 32 := 1#32
  let v80 : BitVec 32 := Scalar.subi v65 c1_i32_69
  let v81 : BitVec 32 := Scalar.select v79 v80 v65
  let c2_i32_70 : BitVec 32 := 2#32
  let c0_i32_71 : BitVec 32 := 0#32
  let v82 : BitVec 1 := Scalar.cmpi .eq c2_i32_70 c0_i32_71
  let c1_i32_72 : BitVec 32 := 1#32
  let v83 : BitVec 32 := Scalar.select v82 c1_i32_72 c2_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![0, v81.toNat, v92.toNat]
def k1_off6 (v104 : BitVec 32) : Fin 2 → Nat :=
  let c0_i32_96 : BitVec 32 := 0#32
  ![v104.toNat, 0]

def k1_chk2 (v104 : BitVec 32) : Prop :=
  (∀ a, (k1_off6 v104) a + S1x64.size a ≤ S1000000x64.size a)
instance k1_chk2.dec : ∀ (v104 : BitVec 32), Decidable (k1_chk2 v104) := fun v104 => decidable_of_iff' _ (Iff.of_eq (k1_chk2.eq_1 v104))
theorem k1_off6_inb : ∀ (v104 : BitVec 32) (k1_hw2 : k1_chk2 v104), ∀ a, (k1_off6 v104) a + S1x64.size a ≤ S1000000x64.size a := fun v104 k1_hw2 => k1_hw2

def k1_off7 (k1_t1 : Fin k1_t1_loop.trips) (c1_i32_80 : BitVec 32) : Fin 3 → Nat :=
  let c0_i32_95 : BitVec 32 := 0#32
  let c0_i32_1 : BitVec 32 := 0#32
  let c1_i32 : BitVec 32 := 1#32
  let arg12 : BitVec 32 := Scf.iv c0_i32_1 c1_i32 k1_t1
  let c16_i32_79 : BitVec 32 := 16#32
  let v101 : BitVec 32 := Scalar.muli arg12 c16_i32_79
  let v102 : BitVec 32 := Scalar.addi v101 c1_i32_80
  let c0_i32_82 : BitVec 32 := 0#32
  let v106 : BitVec 1 := Scalar.cmpi .sgt v102 c0_i32_82
  let v107 : BitVec 32 := Scalar.extui v106
  let c0_i32_83 : BitVec 32 := 0#32
  let v108 : BitVec 1 := Scalar.cmpi .slt v102 c0_i32_83
  let v109 : BitVec 32 := Scalar.extui v108
  let v110 : BitVec 32 := Scalar.subi v107 v109
  let c2_i32_81 : BitVec 32 := 2#32
  let c0_i32_84 : BitVec 32 := 0#32
  let v111 : BitVec 1 := Scalar.cmpi .sgt c2_i32_81 c0_i32_84
  let v112 : BitVec 32 := Scalar.extui v111
  let c0_i32_85 : BitVec 32 := 0#32
  let v113 : BitVec 1 := Scalar.cmpi .slt c2_i32_81 c0_i32_85
  let v114 : BitVec 32 := Scalar.extui v113
  let v115 : BitVec 32 := Scalar.subi v112 v114
  let v116 : BitVec 1 := Scalar.cmpi .ne v110 v115
  let v117 : BitVec 32 := Scalar.remsi v102 c2_i32_81
  let c0_i32_86 : BitVec 32 := 0#32
  let v118 : BitVec 1 := Scalar.cmpi .ne v117 c0_i32_86
  let v119 : BitVec 1 := Scalar.andi v116 v118
  let v105 : BitVec 32 := Scalar.divsi v102 c2_i32_81
  let c1_i32_87 : BitVec 32 := 1#32
  let v120 : BitVec 32 := Scalar.subi v105 c1_i32_87
  let v121 : BitVec 32 := Scalar.select v119 v120 v105
  let c2_i32_88 : BitVec 32 := 2#32
  let c0_i32_89 : BitVec 32 := 0#32
  let v122 : BitVec 1 := Scalar.cmpi .eq c2_i32_88 c0_i32_89
  let c1_i32_90 : BitVec 32 := 1#32
  let v123 : BitVec 32 := Scalar.select v122 c1_i32_90 c2_i32_88
  let v124 : BitVec 32 := Scalar.remsi v102 v123
  let c0_i32_92 : BitVec 32 := 0#32
  let v126 : BitVec 1 := Scalar.cmpi .slt v124 c0_i32_92
  let c0_i32_93 : BitVec 32 := 0#32
  let v127 : BitVec 1 := Scalar.cmpi .slt v123 c0_i32_93
  let v128 : BitVec 1 := Scalar.xori v126 v127
  let c0_i32_91 : BitVec 32 := 0#32
  let v125 : BitVec 1 := Scalar.cmpi .ne v124 c0_i32_91
  let v129 : BitVec 1 := Scalar.andi v128 v125
  let v130 : BitVec 32 := Scalar.addi v124 v123
  let v131 : BitVec 32 := Scalar.select v129 v130 v124
  let c64_i32_94 : BitVec 32 := 64#32
  let v132 : BitVec 32 := Scalar.muli v131 c64_i32_94
  ![0, v121.toNat, v132.toNat]
def k1_off8 (v144 : BitVec 32) : Fin 2 → Nat :=
  let c0_i32_115 : BitVec 32 := 0#32
  ![v144.toNat, 0]

def k1_chk3 (v144 : BitVec 32) : Prop :=
  (∀ a, (k1_off8 v144) a + S1x64.size a ≤ S1000000x64.size a)
instance k1_chk3.dec : ∀ (v144 : BitVec 32), Decidable (k1_chk3 v144) := fun v144 => decidable_of_iff' _ (Iff.of_eq (k1_chk3.eq_1 v144))
theorem k1_off8_inb : ∀ (v144 : BitVec 32) (k1_hw3 : k1_chk3 v144), ∀ a, (k1_off8 v144) a + S1x64.size a ≤ S1000000x64.size a := fun v144 k1_hw3 => k1_hw3

def k1_off9 (k1_t1 : Fin k1_t1_loop.trips) (c2_i32_99 : BitVec 32) : Fin 3 → Nat :=
  let c0_i32_114 : BitVec 32 := 0#32
  let c0_i32_1 : BitVec 32 := 0#32
  let c1_i32 : BitVec 32 := 1#32
  let arg12 : BitVec 32 := Scf.iv c0_i32_1 c1_i32 k1_t1
  let c16_i32_98 : BitVec 32 := 16#32
  let v141 : BitVec 32 := Scalar.muli arg12 c16_i32_98
  let v142 : BitVec 32 := Scalar.addi v141 c2_i32_99
  let c0_i32_101 : BitVec 32 := 0#32
  let v146 : BitVec 1 := Scalar.cmpi .sgt v142 c0_i32_101
  let v147 : BitVec 32 := Scalar.extui v146
  let c0_i32_102 : BitVec 32 := 0#32
  let v148 : BitVec 1 := Scalar.cmpi .slt v142 c0_i32_102
  let v149 : BitVec 32 := Scalar.extui v148
  let v150 : BitVec 32 := Scalar.subi v147 v149
  let c2_i32_100 : BitVec 32 := 2#32
  let c0_i32_103 : BitVec 32 := 0#32
  let v151 : BitVec 1 := Scalar.cmpi .sgt c2_i32_100 c0_i32_103
  let v152 : BitVec 32 := Scalar.extui v151
  let c0_i32_104 : BitVec 32 := 0#32
  let v153 : BitVec 1 := Scalar.cmpi .slt c2_i32_100 c0_i32_104
  let v154 : BitVec 32 := Scalar.extui v153
  let v155 : BitVec 32 := Scalar.subi v152 v154
  let v156 : BitVec 1 := Scalar.cmpi .ne v150 v155
  let v157 : BitVec 32 := Scalar.remsi v142 c2_i32_100
  let c0_i32_105 : BitVec 32 := 0#32
  let v158 : BitVec 1 := Scalar.cmpi .ne v157 c0_i32_105
  let v159 : BitVec 1 := Scalar.andi v156 v158
  let v145 : BitVec 32 := Scalar.divsi v142 c2_i32_100
  let c1_i32_106 : BitVec 32 := 1#32
  let v160 : BitVec 32 := Scalar.subi v145 c1_i32_106
  let v161 : BitVec 32 := Scalar.select v159 v160 v145
  let c2_i32_107 : BitVec 32 := 2#32
  let c0_i32_108 : BitVec 32 := 0#32
  let v162 : BitVec 1 := Scalar.cmpi .eq c2_i32_107 c0_i32_108
  let c1_i32_109 : BitVec 32 := 1#32
  let v163 : BitVec 32 := Scalar.select v162 c1_i32_109 c2_i32_107
  let v164 : BitVec 32 := Scalar.remsi v142 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c64_i32_113 : BitVec 32 := 64#32
  let v172 : BitVec 32 := Scalar.muli v171 c64_i32_113
  ![0, v161.toNat, v172.toNat]
def k1_off10 (v184 : BitVec 32) : Fin 2 → Nat :=
  let c0_i32_133 : BitVec 32 := 0#32
  ![v184.toNat, 0]

def k1_chk4 (v184 : BitVec 32) : Prop :=
  (∀ a, (k1_off10 v184) a + S1x64.size a ≤ S1000000x64.size a)
instance k1_chk4.dec : ∀ (v184 : BitVec 32), Decidable (k1_chk4 v184) := fun v184 => decidable_of_iff' _ (Iff.of_eq (k1_chk4.eq_1 v184))
theorem k1_off10_inb : ∀ (v184 : BitVec 32) (k1_hw4 : k1_chk4 v184), ∀ a, (k1_off10 v184) a + S1x64.size a ≤ S1000000x64.size a := fun v184 k1_hw4 => k1_hw4

def k1_off11 (k1_t1 : Fin k1_t1_loop.trips) (c3_i32 : BitVec 32) : Fin 3 → Nat :=
  let c0_i32_132 : BitVec 32 := 0#32
  let c0_i32_1 : BitVec 32 := 0#32
  let c1_i32 : BitVec 32 := 1#32
  let arg12 : BitVec 32 := Scf.iv c0_i32_1 c1_i32 k1_t1
  let c16_i32_117 : BitVec 32 := 16#32
  let v181 : BitVec 32 := Scalar.muli arg12 c16_i32_117
  let v182 : BitVec 32 := Scalar.addi v181 c3_i32
  let c0_i32_119 : BitVec 32 := 0#32
  let v186 : BitVec 1 := Scalar.cmpi .sgt v182 c0_i32_119
  let v187 : BitVec 32 := Scalar.extui v186
  let c0_i32_120 : BitVec 32 := 0#32
  let v188 : BitVec 1 := Scalar.cmpi .slt v182 c0_i32_120
  let v189 : BitVec 32 := Scalar.extui v188
  let v190 : BitVec 32 := Scalar.subi v187 v189
  let c2_i32_118 : BitVec 32 := 2#32
  let c0_i32_121 : BitVec 32 := 0#32
  let v191 : BitVec 1 := Scalar.cmpi .sgt c2_i32_118 c0_i32_121
  let v192 : BitVec 32 := Scalar.extui v191
  let c0_i32_122 : BitVec 32 := 0#32
  let v193 : BitVec 1 := Scalar.cmpi .slt c2_i32_118 c0_i32_122
  let v194 : BitVec 32 := Scalar.extui v193
  let v195 : BitVec 32 := Scalar.subi v192 v194
  let v196 : BitVec 1 := Scalar.cmpi .ne v190 v195
  let v197 : BitVec 32 := Scalar.remsi v182 c2_i32_118
  let c0_i32_123 : BitVec 32 := 0#32
  let v198 : BitVec 1 := Scalar.cmpi .ne v197 c0_i32_123
  let v199 : BitVec 1 := Scalar.andi v196 v198
  let v185 : BitVec 32 := Scalar.divsi v182 c2_i32_118
  let c1_i32_124 : BitVec 32 := 1#32
  let v200 : BitVec 32 := Scalar.subi v185 c1_i32_124
  let v201 : BitVec 32 := Scalar.select v199 v200 v185
  let c2_i32_125 : BitVec 32 := 2#32
  let c0_i32_126 : BitVec 32 := 0#32
  let v202 : BitVec 1 := Scalar.cmpi .eq c2_i32_125 c0_i32_126
  let c1_i32_127 : BitVec 32 := 1#32
  let v203 : BitVec 32 := Scalar.select v202 c1_i32_127 c2_i32_125
  let v204 : BitVec 32 := Scalar.remsi v182 v203
  let c0_i32_129 : BitVec 32 := 0#32
  let v206 : BitVec 1 := Scalar.cmpi .slt v204 c0_i32_129
  let c0_i32_130 : BitVec 32 := 0#32
  let v207 : BitVec 1 := Scalar.cmpi .slt v203 c0_i32_130
  let v208 : BitVec 1 := Scalar.xori v206 v207
  let c0_i32_128 : BitVec 32 := 0#32
  let v205 : BitVec 1 := Scalar.cmpi .ne v204 c0_i32_128
  let v209 : BitVec 1 := Scalar.andi v208 v205
  let v210 : BitVec 32 := Scalar.addi v204 v203
  let v211 : BitVec 32 := Scalar.select v209 v210 v204
  let c64_i32_131 : BitVec 32 := 64#32
  let v212 : BitVec 32 := Scalar.muli v211 c64_i32_131
  ![0, v201.toNat, v212.toNat]
def k1_off12 (v224 : BitVec 32) : Fin 2 → Nat :=
  let c0_i32_151 : BitVec 32 := 0#32
  ![v224.toNat, 0]

def k1_chk5 (v224 : BitVec 32) : Prop :=
  (∀ a, (k1_off12 v224) a + S1x64.size a ≤ S1000000x64.size a)
instance k1_chk5.dec : ∀ (v224 : BitVec 32), Decidable (k1_chk5 v224) := fun v224 => decidable_of_iff' _ (Iff.of_eq (k1_chk5.eq_1 v224))
theorem k1_off12_inb : ∀ (v224 : BitVec 32) (k1_hw5 : k1_chk5 v224), ∀ a, (k1_off12 v224) a + S1x64.size a ≤ S1000000x64.size a := fun v224 k1_hw5 => k1_hw5

def k1_off13 (k1_t1 : Fin k1_t1_loop.trips) (c4_i32 : BitVec 32) : Fin 3 → Nat :=
  let c0_i32_150 : BitVec 32 := 0#32
  let c0_i32_1 : BitVec 32 := 0#32
  let c1_i32 : BitVec 32 := 1#32
  let arg12 : BitVec 32 := Scf.iv c0_i32_1 c1_i32 k1_t1
  let c16_i32_135 : BitVec 32 := 16#32
  let v221 : BitVec 32 := Scalar.muli arg12 c16_i32_135
  let v222 : BitVec 32 := Scalar.addi v221 c4_i32
  let c0_i32_137 : BitVec 32 := 0#32
  let v226 : BitVec 1 := Scalar.cmpi .sgt v222 c0_i32_137
  let v227 : BitVec 32 := Scalar.extui v226
  let c0_i32_138 : BitVec 32 := 0#32
  let v228 : BitVec 1 := Scalar.cmpi .slt v222 c0_i32_138
  let v229 : BitVec 32 := Scalar.extui v228
  let v230 : BitVec 32 := Scalar.subi v227 v229
  let c2_i32_136 : BitVec 32 := 2#32
  let c0_i32_139 : BitVec 32 := 0#32
  let v231 : BitVec 1 := Scalar.cmpi .sgt c2_i32_136 c0_i32_139
  let v232 : BitVec 32 := Scalar.extui v231
  let c0_i32_140 : BitVec 32 := 0#32
  let v233 : BitVec 1 := Scalar.cmpi .slt c2_i32_136 c0_i32_140
  let v234 : BitVec 32 := Scalar.extui v233
  let v235 : BitVec 32 := Scalar.subi v232 v234
  let v236 : BitVec 1 := Scalar.cmpi .ne v230 v235
  let v237 : BitVec 32 := Scalar.remsi v222 c2_i32_136
  let c0_i32_141 : BitVec 32 := 0#32
  let v238 : BitVec 1 := Scalar.cmpi .ne v237 c0_i32_141
  let v239 : BitVec 1 := Scalar.andi v236 v238
  let v225 : BitVec 32 := Scalar.divsi v222 c2_i32_136
  let c1_i32_142 : BitVec 32 := 1#32
  let v240 : BitVec 32 := Scalar.subi v225 c1_i32_142
  let v241 : BitVec 32 := Scalar.select v239 v240 v225
  let c2_i32_143 : BitVec 32 := 2#32
  let c0_i32_144 : BitVec 32 := 0#32
  let v242 : BitVec 1 := Scalar.cmpi .eq c2_i32_143 c0_i32_144
  let c1_i32_145 : BitVec 32 := 1#32
  let v243 : BitVec 32 := Scalar.select v242 c1_i32_145 c2_i32_143
  let v244 : BitVec 32 := Scalar.remsi v222 v243
  let c0_i32_147 : BitVec 32 := 0#32
  let v246 : BitVec 1 := Scalar.cmpi .slt v244 c0_i32_147
  let c0_i32_148 : BitVec 32 := 0#32
  let v247 : BitVec 1 := Scalar.cmpi .slt v243 c0_i32_148
  let v248 : BitVec 1 := Scalar.xori v246 v247
  let c0_i32_146 : BitVec 32 := 0#32
  let v245 : BitVec 1 := Scalar.cmpi .ne v244 c0_i32_146
  let v249 : BitVec 1 := Scalar.andi v248 v245
  let v250 : BitVec 32 := Scalar.addi v244 v243
  let v251 : BitVec 32 := Scalar.select v249 v250 v244
  let c64_i32_149 : BitVec 32 := 64#32
  let v252 : BitVec 32 := Scalar.muli v251 c64_i32_149
  ![0, v241.toNat, v252.toNat]
def k1_off14 (v264 : BitVec 32) : Fin 2 → Nat :=
  let c0_i32_169 : BitVec 32 := 0#32
  ![v264.toNat, 0]

def k1_chk6 (v264 : BitVec 32) : Prop :=
  (∀ a, (k1_off14 v264) a + S1x64.size a ≤ S1000000x64.size a)
instance k1_chk6.dec : ∀ (v264 : BitVec 32), Decidable (k1_chk6 v264) := fun v264 => decidable_of_iff' _ (Iff.of_eq (k1_chk6.eq_1 v264))
theorem k1_off14_inb : ∀ (v264 : BitVec 32) (k1_hw6 : k1_chk6 v264), ∀ a, (k1_off14 v264) a + S1x64.size a ≤ S1000000x64.size a := fun v264 k1_hw6 => k1_hw6

def k1_off15 (k1_t1 : Fin k1_t1_loop.trips) (c5_i32 : BitVec 32) : Fin 3 → Nat :=
  let c0_i32_168 : BitVec 32 := 0#32
  let c0_i32_1 : BitVec 32 := 0#32
  let c1_i32 : BitVec 32 := 1#32
  let arg12 : BitVec 32 := Scf.iv c0_i32_1 c1_i32 k1_t1
  let c16_i32_153 : BitVec 32 := 16#32
  let v261 : BitVec 32 := Scalar.muli arg12 c16_i32_153
  let v262 : BitVec 32 := Scalar.addi v261 c5_i32
  let c0_i32_155 : BitVec 32 := 0#32
  let v266 : BitVec 1 := Scalar.cmpi .sgt v262 c0_i32_155
  let v267 : BitVec 32 := Scalar.extui v266
  let c0_i32_156 : BitVec 32 := 0#32
  let v268 : BitVec 1 := Scalar.cmpi .slt v262 c0_i32_156
  let v269 : BitVec 32 := Scalar.extui v268
  let v270 : BitVec 32 := Scalar.subi v267 v269
  let c2_i32_154 : BitVec 32 := 2#32
  let c0_i32_157 : BitVec 32 := 0#32
  let v271 : BitVec 1 := Scalar.cmpi .sgt c2_i32_154 c0_i32_157
  let v272 : BitVec 32 := Scalar.extui v271
  let c0_i32_158 : BitVec 32 := 0#32
  let v273 : BitVec 1 := Scalar.cmpi .slt c2_i32_154 c0_i32_158
  let v274 : BitVec 32 := Scalar.extui v273
  let v275 : BitVec 32 := Scalar.subi v272 v274
  let v276 : BitVec 1 := Scalar.cmpi .ne v270 v275
  let v277 : BitVec 32 := Scalar.remsi v262 c2_i32_154
  let c0_i32_159 : BitVec 32 := 0#32
  let v278 : BitVec 1 := Scalar.cmpi .ne v277 c0_i32_159
  let v279 : BitVec 1 := Scalar.andi v276 v278
  let v265 : BitVec 32 := Scalar.divsi v262 c2_i32_154
  let c1_i32_160 : BitVec 32 := 1#32
  let v280 : BitVec 32 := Scalar.subi v265 c1_i32_160
  let v281 : BitVec 32 := Scalar.select v279 v280 v265
  let c2_i32_161 : BitVec 32 := 2#32
  let c0_i32_162 : BitVec 32 := 0#32
  let v282 : BitVec 1 := Scalar.cmpi .eq c2_i32_161 c0_i32_162
  let c1_i32_163 : BitVec 32 := 1#32
  let v283 : BitVec 32 := Scalar.select v282 c1_i32_163 c2_i32_161
  let v284 : BitVec 32 := Scalar.remsi v262 v283
  let c0_i32_165 : BitVec 32 := 0#32
  let v286 : BitVec 1 := Scalar.cmpi .slt v284 c0_i32_165
  let c0_i32_166 : BitVec 32 := 0#32
  let v287 : BitVec 1 := Scalar.cmpi .slt v283 c0_i32_166
  let v288 : BitVec 1 := Scalar.xori v286 v287
  let c0_i32_164 : BitVec 32 := 0#32
  let v285 : BitVec 1 := Scalar.cmpi .ne v284 c0_i32_164
  let v289 : BitVec 1 := Scalar.andi v288 v285
  let v290 : BitVec 32 := Scalar.addi v284 v283
  let v291 : BitVec 32 := Scalar.select v289 v290 v284
  let c64_i32_167 : BitVec 32 := 64#32
  let v292 : BitVec 32 := Scalar.muli v291 c64_i32_167
  ![0, v281.toNat, v292.toNat]
def k1_off16 (v304 : BitVec 32) : Fin 2 → Nat :=
  let c0_i32_187 : BitVec 32 := 0#32
  ![v304.toNat, 0]

def k1_chk7 (v304 : BitVec 32) : Prop :=
  (∀ a, (k1_off16 v304) a + S1x64.size a ≤ S1000000x64.size a)
instance k1_chk7.dec : ∀ (v304 : BitVec 32), Decidable (k1_chk7 v304) := fun v304 => decidable_of_iff' _ (Iff.of_eq (k1_chk7.eq_1 v304))
theorem k1_off16_inb : ∀ (v304 : BitVec 32) (k1_hw7 : k1_chk7 v304), ∀ a, (k1_off16 v304) a + S1x64.size a ≤ S1000000x64.size a := fun v304 k1_hw7 => k1_hw7

def k1_off17 (k1_t1 : Fin k1_t1_loop.trips) (c6_i32 : BitVec 32) : Fin 3 → Nat :=
  let c0_i32_186 : BitVec 32 := 0#32
  let c0_i32_1 : BitVec 32 := 0#32
  let c1_i32 : BitVec 32 := 1#32
  let arg12 : BitVec 32 := Scf.iv c0_i32_1 c1_i32 k1_t1
  let c16_i32_171 : BitVec 32 := 16#32
  let v301 : BitVec 32 := Scalar.muli arg12 c16_i32_171
  let v302 : BitVec 32 := Scalar.addi v301 c6_i32
  let c0_i32_173 : BitVec 32 := 0#32
  let v306 : BitVec 1 := Scalar.cmpi .sgt v302 c0_i32_173
  let v307 : BitVec 32 := Scalar.extui v306
  let c0_i32_174 : BitVec 32 := 0#32
  let v308 : BitVec 1 := Scalar.cmpi .slt v302 c0_i32_174
  let v309 : BitVec 32 := Scalar.extui v308
  let v310 : BitVec 32 := Scalar.subi v307 v309
  let c2_i32_172 : BitVec 32 := 2#32
  let c0_i32_175 : BitVec 32 := 0#32
  let v311 : BitVec 1 := Scalar.cmpi .sgt c2_i32_172 c0_i32_175
  let v312 : BitVec 32 := Scalar.extui v311
  let c0_i32_176 : BitVec 32 := 0#32
  let v313 : BitVec 1 := Scalar.cmpi .slt c2_i32_172 c0_i32_176
  let v314 : BitVec 32 := Scalar.extui v313
  let v315 : BitVec 32 := Scalar.subi v312 v314
  let v316 : BitVec 1 := Scalar.cmpi .ne v310 v315
  let v317 : BitVec 32 := Scalar.remsi v302 c2_i32_172
  let c0_i32_177 : BitVec 32 := 0#32
  let v318 : BitVec 1 := Scalar.cmpi .ne v317 c0_i32_177
  let v319 : BitVec 1 := Scalar.andi v316 v318
  let v305 : BitVec 32 := Scalar.divsi v302 c2_i32_172
  let c1_i32_178 : BitVec 32 := 1#32
  let v320 : BitVec 32 := Scalar.subi v305 c1_i32_178
  let v321 : BitVec 32 := Scalar.select v319 v320 v305
  let c2_i32_179 : BitVec 32 := 2#32
  let c0_i32_180 : BitVec 32 := 0#32
  let v322 : BitVec 1 := Scalar.cmpi .eq c2_i32_179 c0_i32_180
  let c1_i32_181 : BitVec 32 := 1#32
  let v323 : BitVec 32 := Scalar.select v322 c1_i32_181 c2_i32_179
  let v324 : BitVec 32 := Scalar.remsi v302 v323
  let c0_i32_183 : BitVec 32 := 0#32
  let v326 : BitVec 1 := Scalar.cmpi .slt v324 c0_i32_183
  let c0_i32_184 : BitVec 32 := 0#32
  let v327 : BitVec 1 := Scalar.cmpi .slt v323 c0_i32_184
  let v328 : BitVec 1 := Scalar.xori v326 v327
  let c0_i32_182 : BitVec 32 := 0#32
  let v325 : BitVec 1 := Scalar.cmpi .ne v324 c0_i32_182
  let v329 : BitVec 1 := Scalar.andi v328 v325
  let v330 : BitVec 32 := Scalar.addi v324 v323
  let v331 : BitVec 32 := Scalar.select v329 v330 v324
  let c64_i32_185 : BitVec 32 := 64#32
  let v332 : BitVec 32 := Scalar.muli v331 c64_i32_185
  ![0, v321.toNat, v332.toNat]
def k1_off18 (v344 : BitVec 32) : Fin 2 → Nat :=
  let c0_i32_205 : BitVec 32 := 0#32
  ![v344.toNat, 0]

def k1_chk8 (v344 : BitVec 32) : Prop :=
  (∀ a, (k1_off18 v344) a + S1x64.size a ≤ S1000000x64.size a)
instance k1_chk8.dec : ∀ (v344 : BitVec 32), Decidable (k1_chk8 v344) := fun v344 => decidable_of_iff' _ (Iff.of_eq (k1_chk8.eq_1 v344))
theorem k1_off18_inb : ∀ (v344 : BitVec 32) (k1_hw8 : k1_chk8 v344), ∀ a, (k1_off18 v344) a + S1x64.size a ≤ S1000000x64.size a := fun v344 k1_hw8 => k1_hw8

def k1_off19 (k1_t1 : Fin k1_t1_loop.trips) (c7_i32 : BitVec 32) : Fin 3 → Nat :=
  let c0_i32_204 : BitVec 32 := 0#32
  let c0_i32_1 : BitVec 32 := 0#32
  let c1_i32 : BitVec 32 := 1#32
  let arg12 : BitVec 32 := Scf.iv c0_i32_1 c1_i32 k1_t1
  let c16_i32_189 : BitVec 32 := 16#32
  let v341 : BitVec 32 := Scalar.muli arg12 c16_i32_189
  let v342 : BitVec 32 := Scalar.addi v341 c7_i32
  let c0_i32_191 : BitVec 32 := 0#32
  let v346 : BitVec 1 := Scalar.cmpi .sgt v342 c0_i32_191
  let v347 : BitVec 32 := Scalar.extui v346
  let c0_i32_192 : BitVec 32 := 0#32
  let v348 : BitVec 1 := Scalar.cmpi .slt v342 c0_i32_192
  let v349 : BitVec 32 := Scalar.extui v348
  let v350 : BitVec 32 := Scalar.subi v347 v349
  let c2_i32_190 : BitVec 32 := 2#32
  let c0_i32_193 : BitVec 32 := 0#32
  let v351 : BitVec 1 := Scalar.cmpi .sgt c2_i32_190 c0_i32_193
  let v352 : BitVec 32 := Scalar.extui v351
  let c0_i32_194 : BitVec 32 := 0#32
  let v353 : BitVec 1 := Scalar.cmpi .slt c2_i32_190 c0_i32_194
  let v354 : BitVec 32 := Scalar.extui v353
  let v355 : BitVec 32 := Scalar.subi v352 v354
  let v356 : BitVec 1 := Scalar.cmpi .ne v350 v355
  let v357 : BitVec 32 := Scalar.remsi v342 c2_i32_190
  let c0_i32_195 : BitVec 32 := 0#32
  let v358 : BitVec 1 := Scalar.cmpi .ne v357 c0_i32_195
  let v359 : BitVec 1 := Scalar.andi v356 v358
  let v345 : BitVec 32 := Scalar.divsi v342 c2_i32_190
  let c1_i32_196 : BitVec 32 := 1#32
  let v360 : BitVec 32 := Scalar.subi v345 c1_i32_196
  let v361 : BitVec 32 := Scalar.select v359 v360 v345
  let c2_i32_197 : BitVec 32 := 2#32
  let c0_i32_198 : BitVec 32 := 0#32
  let v362 : BitVec 1 := Scalar.cmpi .eq c2_i32_197 c0_i32_198
  let c1_i32_199 : BitVec 32 := 1#32
  let v363 : BitVec 32 := Scalar.select v362 c1_i32_199 c2_i32_197
  let v364 : BitVec 32 := Scalar.remsi v342 v363
  let c0_i32_201 : BitVec 32 := 0#32
  let v366 : BitVec 1 := Scalar.cmpi .slt v364 c0_i32_201
  let c0_i32_202 : BitVec 32 := 0#32
  let v367 : BitVec 1 := Scalar.cmpi .slt v363 c0_i32_202
  let v368 : BitVec 1 := Scalar.xori v366 v367
  let c0_i32_200 : BitVec 32 := 0#32
  let v365 : BitVec 1 := Scalar.cmpi .ne v364 c0_i32_200
  let v369 : BitVec 1 := Scalar.andi v368 v365
  let v370 : BitVec 32 := Scalar.addi v364 v363
  let v371 : BitVec 32 := Scalar.select v369 v370 v364
  let c64_i32_203 : BitVec 32 := 64#32
  let v372 : BitVec 32 := Scalar.muli v371 c64_i32_203
  ![0, v361.toNat, v372.toNat]
def k1_off20 (v384 : BitVec 32) : Fin 2 → Nat :=
  let c0_i32_223 : BitVec 32 := 0#32
  ![v384.toNat, 0]

def k1_chk9 (v384 : BitVec 32) : Prop :=
  (∀ a, (k1_off20 v384) a + S1x64.size a ≤ S1000000x64.size a)
instance k1_chk9.dec : ∀ (v384 : BitVec 32), Decidable (k1_chk9 v384) := fun v384 => decidable_of_iff' _ (Iff.of_eq (k1_chk9.eq_1 v384))
theorem k1_off20_inb : ∀ (v384 : BitVec 32) (k1_hw9 : k1_chk9 v384), ∀ a, (k1_off20 v384) a + S1x64.size a ≤ S1000000x64.size a := fun v384 k1_hw9 => k1_hw9

def k1_off21 (k1_t1 : Fin k1_t1_loop.trips) (c8_i32 : BitVec 32) : Fin 3 → Nat :=
  let c0_i32_222 : BitVec 32 := 0#32
  let c0_i32_1 : BitVec 32 := 0#32
  let c1_i32 : BitVec 32 := 1#32
  let arg12 : BitVec 32 := Scf.iv c0_i32_1 c1_i32 k1_t1
  let c16_i32_207 : BitVec 32 := 16#32
  let v381 : BitVec 32 := Scalar.muli arg12 c16_i32_207
  let v382 : BitVec 32 := Scalar.addi v381 c8_i32
  let c0_i32_209 : BitVec 32 := 0#32
  let v386 : BitVec 1 := Scalar.cmpi .sgt v382 c0_i32_209
  let v387 : BitVec 32 := Scalar.extui v386
  let c0_i32_210 : BitVec 32 := 0#32
  let v388 : BitVec 1 := Scalar.cmpi .slt v382 c0_i32_210
  let v389 : BitVec 32 := Scalar.extui v388
  let v390 : BitVec 32 := Scalar.subi v387 v389
  let c2_i32_208 : BitVec 32 := 2#32
  let c0_i32_211 : BitVec 32 := 0#32
  let v391 : BitVec 1 := Scalar.cmpi .sgt c2_i32_208 c0_i32_211
  let v392 : BitVec 32 := Scalar.extui v391
  let c0_i32_212 : BitVec 32 := 0#32
  let v393 : BitVec 1 := Scalar.cmpi .slt c2_i32_208 c0_i32_212
  let v394 : BitVec 32 := Scalar.extui v393
  let v395 : BitVec 32 := Scalar.subi v392 v394
  let v396 : BitVec 1 := Scalar.cmpi .ne v390 v395
  let v397 : BitVec 32 := Scalar.remsi v382 c2_i32_208
  let c0_i32_213 : BitVec 32 := 0#32
  let v398 : BitVec 1 := Scalar.cmpi .ne v397 c0_i32_213
  let v399 : BitVec 1 := Scalar.andi v396 v398
  let v385 : BitVec 32 := Scalar.divsi v382 c2_i32_208
  let c1_i32_214 : BitVec 32 := 1#32
  let v400 : BitVec 32 := Scalar.subi v385 c1_i32_214
  let v401 : BitVec 32 := Scalar.select v399 v400 v385
  let c2_i32_215 : BitVec 32 := 2#32
  let c0_i32_216 : BitVec 32 := 0#32
  let v402 : BitVec 1 := Scalar.cmpi .eq c2_i32_215 c0_i32_216
  let c1_i32_217 : BitVec 32 := 1#32
  let v403 : BitVec 32 := Scalar.select v402 c1_i32_217 c2_i32_215
  let v404 : BitVec 32 := Scalar.remsi v382 v403
  let c0_i32_219 : BitVec 32 := 0#32
  let v406 : BitVec 1 := Scalar.cmpi .slt v404 c0_i32_219
  let c0_i32_220 : BitVec 32 := 0#32
  let v407 : BitVec 1 := Scalar.cmpi .slt v403 c0_i32_220
  let v408 : BitVec 1 := Scalar.xori v406 v407
  let c0_i32_218 : BitVec 32 := 0#32
  let v405 : BitVec 1 := Scalar.cmpi .ne v404 c0_i32_218
  let v409 : BitVec 1 := Scalar.andi v408 v405
  let v410 : BitVec 32 := Scalar.addi v404 v403
  let v411 : BitVec 32 := Scalar.select v409 v410 v404
  let c64_i32_221 : BitVec 32 := 64#32
  let v412 : BitVec 32 := Scalar.muli v411 c64_i32_221
  ![0, v401.toNat, v412.toNat]
def k1_off22 (v424 : BitVec 32) : Fin 2 → Nat :=
  let c0_i32_241 : BitVec 32 := 0#32
  ![v424.toNat, 0]

def k1_chk10 (v424 : BitVec 32) : Prop :=
  (∀ a, (k1_off22 v424) a + S1x64.size a ≤ S1000000x64.size a)
instance k1_chk10.dec : ∀ (v424 : BitVec 32), Decidable (k1_chk10 v424) := fun v424 => decidable_of_iff' _ (Iff.of_eq (k1_chk10.eq_1 v424))
theorem k1_off22_inb : ∀ (v424 : BitVec 32) (k1_hw10 : k1_chk10 v424), ∀ a, (k1_off22 v424) a + S1x64.size a ≤ S1000000x64.size a := fun v424 k1_hw10 => k1_hw10

def k1_off23 (k1_t1 : Fin k1_t1_loop.trips) (c9_i32 : BitVec 32) : Fin 3 → Nat :=
  let c0_i32_240 : BitVec 32 := 0#32
  let c0_i32_1 : BitVec 32 := 0#32
  let c1_i32 : BitVec 32 := 1#32
  let arg12 : BitVec 32 := Scf.iv c0_i32_1 c1_i32 k1_t1
  let c16_i32_225 : BitVec 32 := 16#32
  let v421 : BitVec 32 := Scalar.muli arg12 c16_i32_225
  let v422 : BitVec 32 := Scalar.addi v421 c9_i32
  let c0_i32_227 : BitVec 32 := 0#32
  let v426 : BitVec 1 := Scalar.cmpi .sgt v422 c0_i32_227
  let v427 : BitVec 32 := Scalar.extui v426
  let c0_i32_228 : BitVec 32 := 0#32
  let v428 : BitVec 1 := Scalar.cmpi .slt v422 c0_i32_228
  let v429 : BitVec 32 := Scalar.extui v428
  let v430 : BitVec 32 := Scalar.subi v427 v429
  let c2_i32_226 : BitVec 32 := 2#32
  let c0_i32_229 : BitVec 32 := 0#32
  let v431 : BitVec 1 := Scalar.cmpi .sgt c2_i32_226 c0_i32_229
  let v432 : BitVec 32 := Scalar.extui v431
  let c0_i32_230 : BitVec 32 := 0#32
  let v433 : BitVec 1 := Scalar.cmpi .slt c2_i32_226 c0_i32_230
  let v434 : BitVec 32 := Scalar.extui v433
  let v435 : BitVec 32 := Scalar.subi v432 v434
  let v436 : BitVec 1 := Scalar.cmpi .ne v430 v435
  let v437 : BitVec 32 := Scalar.remsi v422 c2_i32_226
  let c0_i32_231 : BitVec 32 := 0#32
  let v438 : BitVec 1 := Scalar.cmpi .ne v437 c0_i32_231
  let v439 : BitVec 1 := Scalar.andi v436 v438
  let v425 : BitVec 32 := Scalar.divsi v422 c2_i32_226
  let c1_i32_232 : BitVec 32 := 1#32
  let v440 : BitVec 32 := Scalar.subi v425 c1_i32_232
  let v441 : BitVec 32 := Scalar.select v439 v440 v425
  let c2_i32_233 : BitVec 32 := 2#32
  let c0_i32_234 : BitVec 32 := 0#32
  let v442 : BitVec 1 := Scalar.cmpi .eq c2_i32_233 c0_i32_234
  let c1_i32_235 : BitVec 32 := 1#32
  let v443 : BitVec 32 := Scalar.select v442 c1_i32_235 c2_i32_233
  let v444 : BitVec 32 := Scalar.remsi v422 v443
  let c0_i32_237 : BitVec 32 := 0#32
  let v446 : BitVec 1 := Scalar.cmpi .slt v444 c0_i32_237
  let c0_i32_238 : BitVec 32 := 0#32
  let v447 : BitVec 1 := Scalar.cmpi .slt v443 c0_i32_238
  let v448 : BitVec 1 := Scalar.xori v446 v447
  let c0_i32_236 : BitVec 32 := 0#32
  let v445 : BitVec 1 := Scalar.cmpi .ne v444 c0_i32_236
  let v449 : BitVec 1 := Scalar.andi v448 v445
  let v450 : BitVec 32 := Scalar.addi v444 v443
  let v451 : BitVec 32 := Scalar.select v449 v450 v444
  let c64_i32_239 : BitVec 32 := 64#32
  let v452 : BitVec 32 := Scalar.muli v451 c64_i32_239
  ![0, v441.toNat, v452.toNat]
def k1_off24 (v464 : BitVec 32) : Fin 2 → Nat :=
  let c0_i32_259 : BitVec 32 := 0#32
  ![v464.toNat, 0]

def k1_chk11 (v464 : BitVec 32) : Prop :=
  (∀ a, (k1_off24 v464) a + S1x64.size a ≤ S1000000x64.size a)
instance k1_chk11.dec : ∀ (v464 : BitVec 32), Decidable (k1_chk11 v464) := fun v464 => decidable_of_iff' _ (Iff.of_eq (k1_chk11.eq_1 v464))
theorem k1_off24_inb : ∀ (v464 : BitVec 32) (k1_hw11 : k1_chk11 v464), ∀ a, (k1_off24 v464) a + S1x64.size a ≤ S1000000x64.size a := fun v464 k1_hw11 => k1_hw11

def k1_off25 (k1_t1 : Fin k1_t1_loop.trips) (c10_i32 : BitVec 32) : Fin 3 → Nat :=
  let c0_i32_258 : BitVec 32 := 0#32
  let c0_i32_1 : BitVec 32 := 0#32
  let c1_i32 : BitVec 32 := 1#32
  let arg12 : BitVec 32 := Scf.iv c0_i32_1 c1_i32 k1_t1
  let c16_i32_243 : BitVec 32 := 16#32
  let v461 : BitVec 32 := Scalar.muli arg12 c16_i32_243
  let v462 : BitVec 32 := Scalar.addi v461 c10_i32
  let c0_i32_245 : BitVec 32 := 0#32
  let v466 : BitVec 1 := Scalar.cmpi .sgt v462 c0_i32_245
  let v467 : BitVec 32 := Scalar.extui v466
  let c0_i32_246 : BitVec 32 := 0#32
  let v468 : BitVec 1 := Scalar.cmpi .slt v462 c0_i32_246
  let v469 : BitVec 32 := Scalar.extui v468
  let v470 : BitVec 32 := Scalar.subi v467 v469
  let c2_i32_244 : BitVec 32 := 2#32
  let c0_i32_247 : BitVec 32 := 0#32
  let v471 : BitVec 1 := Scalar.cmpi .sgt c2_i32_244 c0_i32_247
  let v472 : BitVec 32 := Scalar.extui v471
  let c0_i32_248 : BitVec 32 := 0#32
  let v473 : BitVec 1 := Scalar.cmpi .slt c2_i32_244 c0_i32_248
  let v474 : BitVec 32 := Scalar.extui v473
  let v475 : BitVec 32 := Scalar.subi v472 v474
  let v476 : BitVec 1 := Scalar.cmpi .ne v470 v475
  let v477 : BitVec 32 := Scalar.remsi v462 c2_i32_244
  let c0_i32_249 : BitVec 32 := 0#32
  let v478 : BitVec 1 := Scalar.cmpi .ne v477 c0_i32_249
  let v479 : BitVec 1 := Scalar.andi v476 v478
  let v465 : BitVec 32 := Scalar.divsi v462 c2_i32_244
  let c1_i32_250 : BitVec 32 := 1#32
  let v480 : BitVec 32 := Scalar.subi v465 c1_i32_250
  let v481 : BitVec 32 := Scalar.select v479 v480 v465
  let c2_i32_251 : BitVec 32 := 2#32
  let c0_i32_252 : BitVec 32 := 0#32
  let v482 : BitVec 1 := Scalar.cmpi .eq c2_i32_251 c0_i32_252
  let c1_i32_253 : BitVec 32 := 1#32
  let v483 : BitVec 32 := Scalar.select v482 c1_i32_253 c2_i32_251
  let v484 : BitVec 32 := Scalar.remsi v462 v483
  let c0_i32_255 : BitVec 32 := 0#32
  let v486 : BitVec 1 := Scalar.cmpi .slt v484 c0_i32_255
  let c0_i32_256 : BitVec 32 := 0#32
  let v487 : BitVec 1 := Scalar.cmpi .slt v483 c0_i32_256
  let v488 : BitVec 1 := Scalar.xori v486 v487
  let c0_i32_254 : BitVec 32 := 0#32
  let v485 : BitVec 1 := Scalar.cmpi .ne v484 c0_i32_254
  let v489 : BitVec 1 := Scalar.andi v488 v485
  let v490 : BitVec 32 := Scalar.addi v484 v483
  let v491 : BitVec 32 := Scalar.select v489 v490 v484
  let c64_i32_257 : BitVec 32 := 64#32
  let v492 : BitVec 32 := Scalar.muli v491 c64_i32_257
  ![0, v481.toNat, v492.toNat]
def k1_off26 (v504 : BitVec 32) : Fin 2 → Nat :=
  let c0_i32_277 : BitVec 32 := 0#32
  ![v504.toNat, 0]

def k1_chk12 (v504 : BitVec 32) : Prop :=
  (∀ a, (k1_off26 v504) a + S1x64.size a ≤ S1000000x64.size a)
instance k1_chk12.dec : ∀ (v504 : BitVec 32), Decidable (k1_chk12 v504) := fun v504 => decidable_of_iff' _ (Iff.of_eq (k1_chk12.eq_1 v504))
theorem k1_off26_inb : ∀ (v504 : BitVec 32) (k1_hw12 : k1_chk12 v504), ∀ a, (k1_off26 v504) a + S1x64.size a ≤ S1000000x64.size a := fun v504 k1_hw12 => k1_hw12

def k1_off27 (k1_t1 : Fin k1_t1_loop.trips) (c11_i32 : BitVec 32) : Fin 3 → Nat :=
  let c0_i32_276 : BitVec 32 := 0#32
  let c0_i32_1 : BitVec 32 := 0#32
  let c1_i32 : BitVec 32 := 1#32
  let arg12 : BitVec 32 := Scf.iv c0_i32_1 c1_i32 k1_t1
  let c16_i32_261 : BitVec 32 := 16#32
  let v501 : BitVec 32 := Scalar.muli arg12 c16_i32_261
  let v502 : BitVec 32 := Scalar.addi v501 c11_i32
  let c0_i32_263 : BitVec 32 := 0#32
  let v506 : BitVec 1 := Scalar.cmpi .sgt v502 c0_i32_263
  let v507 : BitVec 32 := Scalar.extui v506
  let c0_i32_264 : BitVec 32 := 0#32
  let v508 : BitVec 1 := Scalar.cmpi .slt v502 c0_i32_264
  let v509 : BitVec 32 := Scalar.extui v508
  let v510 : BitVec 32 := Scalar.subi v507 v509
  let c2_i32_262 : BitVec 32 := 2#32
  let c0_i32_265 : BitVec 32 := 0#32
  let v511 : BitVec 1 := Scalar.cmpi .sgt c2_i32_262 c0_i32_265
  let v512 : BitVec 32 := Scalar.extui v511
  let c0_i32_266 : BitVec 32 := 0#32
  let v513 : BitVec 1 := Scalar.cmpi .slt c2_i32_262 c0_i32_266
  let v514 : BitVec 32 := Scalar.extui v513
  let v515 : BitVec 32 := Scalar.subi v512 v514
  let v516 : BitVec 1 := Scalar.cmpi .ne v510 v515
  let v517 : BitVec 32 := Scalar.remsi v502 c2_i32_262
  let c0_i32_267 : BitVec 32 := 0#32
  let v518 : BitVec 1 := Scalar.cmpi .ne v517 c0_i32_267
  let v519 : BitVec 1 := Scalar.andi v516 v518
  let v505 : BitVec 32 := Scalar.divsi v502 c2_i32_262
  let c1_i32_268 : BitVec 32 := 1#32
  let v520 : BitVec 32 := Scalar.subi v505 c1_i32_268
  let v521 : BitVec 32 := Scalar.select v519 v520 v505
  let c2_i32_269 : BitVec 32 := 2#32
  let c0_i32_270 : BitVec 32 := 0#32
  let v522 : BitVec 1 := Scalar.cmpi .eq c2_i32_269 c0_i32_270
  let c1_i32_271 : BitVec 32 := 1#32
  let v523 : BitVec 32 := Scalar.select v522 c1_i32_271 c2_i32_269
  let v524 : BitVec 32 := Scalar.remsi v502 v523
  let c0_i32_273 : BitVec 32 := 0#32
  let v526 : BitVec 1 := Scalar.cmpi .slt v524 c0_i32_273
  let c0_i32_274 : BitVec 32 := 0#32
  let v527 : BitVec 1 := Scalar.cmpi .slt v523 c0_i32_274
  let v528 : BitVec 1 := Scalar.xori v526 v527
  let c0_i32_272 : BitVec 32 := 0#32
  let v525 : BitVec 1 := Scalar.cmpi .ne v524 c0_i32_272
  let v529 : BitVec 1 := Scalar.andi v528 v525
  let v530 : BitVec 32 := Scalar.addi v524 v523
  let v531 : BitVec 32 := Scalar.select v529 v530 v524
  let c64_i32_275 : BitVec 32 := 64#32
  let v532 : BitVec 32 := Scalar.muli v531 c64_i32_275
  ![0, v521.toNat, v532.toNat]
def k1_off28 (v544 : BitVec 32) : Fin 2 → Nat :=
  let c0_i32_295 : BitVec 32 := 0#32
  ![v544.toNat, 0]

def k1_chk13 (v544 : BitVec 32) : Prop :=
  (∀ a, (k1_off28 v544) a + S1x64.size a ≤ S1000000x64.size a)
instance k1_chk13.dec : ∀ (v544 : BitVec 32), Decidable (k1_chk13 v544) := fun v544 => decidable_of_iff' _ (Iff.of_eq (k1_chk13.eq_1 v544))
theorem k1_off28_inb : ∀ (v544 : BitVec 32) (k1_hw13 : k1_chk13 v544), ∀ a, (k1_off28 v544) a + S1x64.size a ≤ S1000000x64.size a := fun v544 k1_hw13 => k1_hw13

def k1_off29 (k1_t1 : Fin k1_t1_loop.trips) (c12_i32 : BitVec 32) : Fin 3 → Nat :=
  let c0_i32_294 : BitVec 32 := 0#32
  let c0_i32_1 : BitVec 32 := 0#32
  let c1_i32 : BitVec 32 := 1#32
  let arg12 : BitVec 32 := Scf.iv c0_i32_1 c1_i32 k1_t1
  let c16_i32_279 : BitVec 32 := 16#32
  let v541 : BitVec 32 := Scalar.muli arg12 c16_i32_279
  let v542 : BitVec 32 := Scalar.addi v541 c12_i32
  let c0_i32_281 : BitVec 32 := 0#32
  let v546 : BitVec 1 := Scalar.cmpi .sgt v542 c0_i32_281
  let v547 : BitVec 32 := Scalar.extui v546
  let c0_i32_282 : BitVec 32 := 0#32
  let v548 : BitVec 1 := Scalar.cmpi .slt v542 c0_i32_282
  let v549 : BitVec 32 := Scalar.extui v548
  let v550 : BitVec 32 := Scalar.subi v547 v549
  let c2_i32_280 : BitVec 32 := 2#32
  let c0_i32_283 : BitVec 32 := 0#32
  let v551 : BitVec 1 := Scalar.cmpi .sgt c2_i32_280 c0_i32_283
  let v552 : BitVec 32 := Scalar.extui v551
  let c0_i32_284 : BitVec 32 := 0#32
  let v553 : BitVec 1 := Scalar.cmpi .slt c2_i32_280 c0_i32_284
  let v554 : BitVec 32 := Scalar.extui v553
  let v555 : BitVec 32 := Scalar.subi v552 v554
  let v556 : BitVec 1 := Scalar.cmpi .ne v550 v555
  let v557 : BitVec 32 := Scalar.remsi v542 c2_i32_280
  let c0_i32_285 : BitVec 32 := 0#32
  let v558 : BitVec 1 := Scalar.cmpi .ne v557 c0_i32_285
  let v559 : BitVec 1 := Scalar.andi v556 v558
  let v545 : BitVec 32 := Scalar.divsi v542 c2_i32_280
  let c1_i32_286 : BitVec 32 := 1#32
  let v560 : BitVec 32 := Scalar.subi v545 c1_i32_286
  let v561 : BitVec 32 := Scalar.select v559 v560 v545
  let c2_i32_287 : BitVec 32 := 2#32
  let c0_i32_288 : BitVec 32 := 0#32
  let v562 : BitVec 1 := Scalar.cmpi .eq c2_i32_287 c0_i32_288
  let c1_i32_289 : BitVec 32 := 1#32
  let v563 : BitVec 32 := Scalar.select v562 c1_i32_289 c2_i32_287
  let v564 : BitVec 32 := Scalar.remsi v542 v563
  let c0_i32_291 : BitVec 32 := 0#32
  let v566 : BitVec 1 := Scalar.cmpi .slt v564 c0_i32_291
  let c0_i32_292 : BitVec 32 := 0#32
  let v567 : BitVec 1 := Scalar.cmpi .slt v563 c0_i32_292
  let v568 : BitVec 1 := Scalar.xori v566 v567
  let c0_i32_290 : BitVec 32 := 0#32
  let v565 : BitVec 1 := Scalar.cmpi .ne v564 c0_i32_290
  let v569 : BitVec 1 := Scalar.andi v568 v565
  let v570 : BitVec 32 := Scalar.addi v564 v563
  let v571 : BitVec 32 := Scalar.select v569 v570 v564
  let c64_i32_293 : BitVec 32 := 64#32
  let v572 : BitVec 32 := Scalar.muli v571 c64_i32_293
  ![0, v561.toNat, v572.toNat]
def k1_off30 (v584 : BitVec 32) : Fin 2 → Nat :=
  let c0_i32_313 : BitVec 32 := 0#32
  ![v584.toNat, 0]

def k1_chk14 (v584 : BitVec 32) : Prop :=
  (∀ a, (k1_off30 v584) a + S1x64.size a ≤ S1000000x64.size a)
instance k1_chk14.dec : ∀ (v584 : BitVec 32), Decidable (k1_chk14 v584) := fun v584 => decidable_of_iff' _ (Iff.of_eq (k1_chk14.eq_1 v584))
theorem k1_off30_inb : ∀ (v584 : BitVec 32) (k1_hw14 : k1_chk14 v584), ∀ a, (k1_off30 v584) a + S1x64.size a ≤ S1000000x64.size a := fun v584 k1_hw14 => k1_hw14

def k1_off31 (k1_t1 : Fin k1_t1_loop.trips) (c13_i32 : BitVec 32) : Fin 3 → Nat :=
  let c0_i32_312 : BitVec 32 := 0#32
  let c0_i32_1 : BitVec 32 := 0#32
  let c1_i32 : BitVec 32 := 1#32
  let arg12 : BitVec 32 := Scf.iv c0_i32_1 c1_i32 k1_t1
  let c16_i32_297 : BitVec 32 := 16#32
  let v581 : BitVec 32 := Scalar.muli arg12 c16_i32_297
  let v582 : BitVec 32 := Scalar.addi v581 c13_i32
  let c0_i32_299 : BitVec 32 := 0#32
  let v586 : BitVec 1 := Scalar.cmpi .sgt v582 c0_i32_299
  let v587 : BitVec 32 := Scalar.extui v586
  let c0_i32_300 : BitVec 32 := 0#32
  let v588 : BitVec 1 := Scalar.cmpi .slt v582 c0_i32_300
  let v589 : BitVec 32 := Scalar.extui v588
  let v590 : BitVec 32 := Scalar.subi v587 v589
  let c2_i32_298 : BitVec 32 := 2#32
  let c0_i32_301 : BitVec 32 := 0#32
  let v591 : BitVec 1 := Scalar.cmpi .sgt c2_i32_298 c0_i32_301
  let v592 : BitVec 32 := Scalar.extui v591
  let c0_i32_302 : BitVec 32 := 0#32
  let v593 : BitVec 1 := Scalar.cmpi .slt c2_i32_298 c0_i32_302
  let v594 : BitVec 32 := Scalar.extui v593
  let v595 : BitVec 32 := Scalar.subi v592 v594
  let v596 : BitVec 1 := Scalar.cmpi .ne v590 v595
  let v597 : BitVec 32 := Scalar.remsi v582 c2_i32_298
  let c0_i32_303 : BitVec 32 := 0#32
  let v598 : BitVec 1 := Scalar.cmpi .ne v597 c0_i32_303
  let v599 : BitVec 1 := Scalar.andi v596 v598
  let v585 : BitVec 32 := Scalar.divsi v582 c2_i32_298
  let c1_i32_304 : BitVec 32 := 1#32
  let v600 : BitVec 32 := Scalar.subi v585 c1_i32_304
  let v601 : BitVec 32 := Scalar.select v599 v600 v585
  let c2_i32_305 : BitVec 32 := 2#32
  let c0_i32_306 : BitVec 32 := 0#32
  let v602 : BitVec 1 := Scalar.cmpi .eq c2_i32_305 c0_i32_306
  let c1_i32_307 : BitVec 32 := 1#32
  let v603 : BitVec 32 := Scalar.select v602 c1_i32_307 c2_i32_305
  let v604 : BitVec 32 := Scalar.remsi v582 v603
  let c0_i32_309 : BitVec 32 := 0#32
  let v606 : BitVec 1 := Scalar.cmpi .slt v604 c0_i32_309
  let c0_i32_310 : BitVec 32 := 0#32
  let v607 : BitVec 1 := Scalar.cmpi .slt v603 c0_i32_310
  let v608 : BitVec 1 := Scalar.xori v606 v607
  let c0_i32_308 : BitVec 32 := 0#32
  let v605 : BitVec 1 := Scalar.cmpi .ne v604 c0_i32_308
  let v609 : BitVec 1 := Scalar.andi v608 v605
  let v610 : BitVec 32 := Scalar.addi v604 v603
  let v611 : BitVec 32 := Scalar.select v609 v610 v604
  let c64_i32_311 : BitVec 32 := 64#32
  let v612 : BitVec 32 := Scalar.muli v611 c64_i32_311
  ![0, v601.toNat, v612.toNat]
def k1_off32 (v624 : BitVec 32) : Fin 2 → Nat :=
  let c0_i32_331 : BitVec 32 := 0#32
  ![v624.toNat, 0]

def k1_chk15 (v624 : BitVec 32) : Prop :=
  (∀ a, (k1_off32 v624) a + S1x64.size a ≤ S1000000x64.size a)
instance k1_chk15.dec : ∀ (v624 : BitVec 32), Decidable (k1_chk15 v624) := fun v624 => decidable_of_iff' _ (Iff.of_eq (k1_chk15.eq_1 v624))
theorem k1_off32_inb : ∀ (v624 : BitVec 32) (k1_hw15 : k1_chk15 v624), ∀ a, (k1_off32 v624) a + S1x64.size a ≤ S1000000x64.size a := fun v624 k1_hw15 => k1_hw15

def k1_off33 (k1_t1 : Fin k1_t1_loop.trips) (c14_i32 : BitVec 32) : Fin 3 → Nat :=
  let c0_i32_330 : BitVec 32 := 0#32
  let c0_i32_1 : BitVec 32 := 0#32
  let c1_i32 : BitVec 32 := 1#32
  let arg12 : BitVec 32 := Scf.iv c0_i32_1 c1_i32 k1_t1
  let c16_i32_315 : BitVec 32 := 16#32
  let v621 : BitVec 32 := Scalar.muli arg12 c16_i32_315
  let v622 : BitVec 32 := Scalar.addi v621 c14_i32
  let c0_i32_317 : BitVec 32 := 0#32
  let v626 : BitVec 1 := Scalar.cmpi .sgt v622 c0_i32_317
  let v627 : BitVec 32 := Scalar.extui v626
  let c0_i32_318 : BitVec 32 := 0#32
  let v628 : BitVec 1 := Scalar.cmpi .slt v622 c0_i32_318
  let v629 : BitVec 32 := Scalar.extui v628
  let v630 : BitVec 32 := Scalar.subi v627 v629
  let c2_i32_316 : BitVec 32 := 2#32
  let c0_i32_319 : BitVec 32 := 0#32
  let v631 : BitVec 1 := Scalar.cmpi .sgt c2_i32_316 c0_i32_319
  let v632 : BitVec 32 := Scalar.extui v631
  let c0_i32_320 : BitVec 32 := 0#32
  let v633 : BitVec 1 := Scalar.cmpi .slt c2_i32_316 c0_i32_320
  let v634 : BitVec 32 := Scalar.extui v633
  let v635 : BitVec 32 := Scalar.subi v632 v634
  let v636 : BitVec 1 := Scalar.cmpi .ne v630 v635
  let v637 : BitVec 32 := Scalar.remsi v622 c2_i32_316
  let c0_i32_321 : BitVec 32 := 0#32
  let v638 : BitVec 1 := Scalar.cmpi .ne v637 c0_i32_321
  let v639 : BitVec 1 := Scalar.andi v636 v638
  let v625 : BitVec 32 := Scalar.divsi v622 c2_i32_316
  let c1_i32_322 : BitVec 32 := 1#32
  let v640 : BitVec 32 := Scalar.subi v625 c1_i32_322
  let v641 : BitVec 32 := Scalar.select v639 v640 v625
  let c2_i32_323 : BitVec 32 := 2#32
  let c0_i32_324 : BitVec 32 := 0#32
  let v642 : BitVec 1 := Scalar.cmpi .eq c2_i32_323 c0_i32_324
  let c1_i32_325 : BitVec 32 := 1#32
  let v643 : BitVec 32 := Scalar.select v642 c1_i32_325 c2_i32_323
  let v644 : BitVec 32 := Scalar.remsi v622 v643
  let c0_i32_327 : BitVec 32 := 0#32
  let v646 : BitVec 1 := Scalar.cmpi .slt v644 c0_i32_327
  let c0_i32_328 : BitVec 32 := 0#32
  let v647 : BitVec 1 := Scalar.cmpi .slt v643 c0_i32_328
  let v648 : BitVec 1 := Scalar.xori v646 v647
  let c0_i32_326 : BitVec 32 := 0#32
  let v645 : BitVec 1 := Scalar.cmpi .ne v644 c0_i32_326
  let v649 : BitVec 1 := Scalar.andi v648 v645
  let v650 : BitVec 32 := Scalar.addi v644 v643
  let v651 : BitVec 32 := Scalar.select v649 v650 v644
  let c64_i32_329 : BitVec 32 := 64#32
  let v652 : BitVec 32 := Scalar.muli v651 c64_i32_329
  ![0, v641.toNat, v652.toNat]
def k1_off34 (v664 : BitVec 32) : Fin 2 → Nat :=
  let c0_i32_350 : BitVec 32 := 0#32
  ![v664.toNat, 0]

def k1_chk16 (v664 : BitVec 32) : Prop :=
  (∀ a, (k1_off34 v664) a + S1x64.size a ≤ S1000000x64.size a)
instance k1_chk16.dec : ∀ (v664 : BitVec 32), Decidable (k1_chk16 v664) := fun v664 => decidable_of_iff' _ (Iff.of_eq (k1_chk16.eq_1 v664))
theorem k1_off34_inb : ∀ (v664 : BitVec 32) (k1_hw16 : k1_chk16 v664), ∀ a, (k1_off34 v664) a + S1x64.size a ≤ S1000000x64.size a := fun v664 k1_hw16 => k1_hw16

def k1_off35 (k1_t1 : Fin k1_t1_loop.trips) : Fin 3 → Nat :=
  let c0_i32_349 : BitVec 32 := 0#32
  let c0_i32_1 : BitVec 32 := 0#32
  let c1_i32 : BitVec 32 := 1#32
  let arg12 : BitVec 32 := Scf.iv c0_i32_1 c1_i32 k1_t1
  let c16_i32_333 : BitVec 32 := 16#32
  let v661 : BitVec 32 := Scalar.muli arg12 c16_i32_333
  let c15_i32_334 : BitVec 32 := 15#32
  let v662 : BitVec 32 := Scalar.addi v661 c15_i32_334
  let c0_i32_336 : BitVec 32 := 0#32
  let v666 : BitVec 1 := Scalar.cmpi .sgt v662 c0_i32_336
  let v667 : BitVec 32 := Scalar.extui v666
  let c0_i32_337 : BitVec 32 := 0#32
  let v668 : BitVec 1 := Scalar.cmpi .slt v662 c0_i32_337
  let v669 : BitVec 32 := Scalar.extui v668
  let v670 : BitVec 32 := Scalar.subi v667 v669
  let c2_i32_335 : BitVec 32 := 2#32
  let c0_i32_338 : BitVec 32 := 0#32
  let v671 : BitVec 1 := Scalar.cmpi .sgt c2_i32_335 c0_i32_338
  let v672 : BitVec 32 := Scalar.extui v671
  let c0_i32_339 : BitVec 32 := 0#32
  let v673 : BitVec 1 := Scalar.cmpi .slt c2_i32_335 c0_i32_339
  let v674 : BitVec 32 := Scalar.extui v673
  let v675 : BitVec 32 := Scalar.subi v672 v674
  let v676 : BitVec 1 := Scalar.cmpi .ne v670 v675
  let v677 : BitVec 32 := Scalar.remsi v662 c2_i32_335
  let c0_i32_340 : BitVec 32 := 0#32
  let v678 : BitVec 1 := Scalar.cmpi .ne v677 c0_i32_340
  let v679 : BitVec 1 := Scalar.andi v676 v678
  let v665 : BitVec 32 := Scalar.divsi v662 c2_i32_335
  let c1_i32_341 : BitVec 32 := 1#32
  let v680 : BitVec 32 := Scalar.subi v665 c1_i32_341
  let v681 : BitVec 32 := Scalar.select v679 v680 v665
  let c2_i32_342 : BitVec 32 := 2#32
  let c0_i32_343 : BitVec 32 := 0#32
  let v682 : BitVec 1 := Scalar.cmpi .eq c2_i32_342 c0_i32_343
  let c1_i32_344 : BitVec 32 := 1#32
  let v683 : BitVec 32 := Scalar.select v682 c1_i32_344 c2_i32_342
  let v684 : BitVec 32 := Scalar.remsi v662 v683
  let c0_i32_346 : BitVec 32 := 0#32
  let v686 : BitVec 1 := Scalar.cmpi .slt v684 c0_i32_346
  let c0_i32_347 : BitVec 32 := 0#32
  let v687 : BitVec 1 := Scalar.cmpi .slt v683 c0_i32_347
  let v688 : BitVec 1 := Scalar.xori v686 v687
  let c0_i32_345 : BitVec 32 := 0#32
  let v685 : BitVec 1 := Scalar.cmpi .ne v684 c0_i32_345
  let v689 : BitVec 1 := Scalar.andi v688 v685
  let v690 : BitVec 32 := Scalar.addi v684 v683
  let v691 : BitVec 32 := Scalar.select v689 v690 v684
  let c64_i32_348 : BitVec 32 := 64#32
  let v692 : BitVec 32 := Scalar.muli v691 c64_i32_348
  ![0, v681.toNat, v692.toNat]
def k1_off36 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v6 : BitVec 32 := Scalar.addi v2 c256_i32
  ![v6.toNat]
@[reducible] def k1_t2_loop : Scf.Loop 32 :=
  let c0_i32_4 : BitVec 32 := 0#32
  let c16_i32_5 : BitVec 32 := 16#32
  let v7 : BitVec 32 := Scalar.addi c0_i32_4 c16_i32_5
  let c1_i32_6 : BitVec 32 := 1#32
  ⟨c0_i32_4, v7, c1_i32_6⟩
def k1_off37 (k1_t2 : Fin k1_t2_loop.trips) : Fin 1 → Nat :=
  let c0_i32_4 : BitVec 32 := 0#32
  let c1_i32_6 : BitVec 32 := 1#32
  let arg12 : BitVec 32 := Scf.iv c0_i32_4 c1_i32_6 k1_t2
  let c16_i32_60 : BitVec 32 := 16#32
  let v57 : BitVec 32 := Scalar.muli arg12 c16_i32_60
  let v58 : Index := Scalar.indexCast v57
  ![v58.toNat]
def k1_off38 (k1_t2 : Fin k1_t2_loop.trips) : Fin 3 → Nat :=
  let c1_i32_76 : BitVec 32 := 1#32
  let c0_i32_4 : BitVec 32 := 0#32
  let c1_i32_6 : BitVec 32 := 1#32
  let arg12 : BitVec 32 := Scf.iv c0_i32_4 c1_i32_6 k1_t2
  let c16_i32_61 : BitVec 32 := 16#32
  let v61 : BitVec 32 := Scalar.muli arg12 c16_i32_61
  let c0_i32_62 : BitVec 32 := 0#32
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c2_i32_63 : BitVec 32 := 2#32
  let c0_i32_66 : BitVec 32 := 0#32
  let v71 : BitVec 1 := Scalar.cmpi .sgt c2_i32_63 c0_i32_66
  let v72 : BitVec 32 := Scalar.extui v71
  let c0_i32_67 : BitVec 32 := 0#32
  let v73 : BitVec 1 := Scalar.cmpi .slt c2_i32_63 c0_i32_67
  let v74 : BitVec 32 := Scalar.extui v73
  let v75 : BitVec 32 := Scalar.subi v72 v74
  let v76 : BitVec 1 := Scalar.cmpi .ne v70 v75
  let v77 : BitVec 32 := Scalar.remsi v62 c2_i32_63
  let c0_i32_68 : BitVec 32 := 0#32
  let v78 : BitVec 1 := Scalar.cmpi .ne v77 c0_i32_68
  let v79 : BitVec 1 := Scalar.andi v76 v78
  let v65 : BitVec 32 := Scalar.divsi v62 c2_i32_63
  let c1_i32_69 : BitVec 32 := 1#32
  let v80 : BitVec 32 := Scalar.subi v65 c1_i32_69
  let v81 : BitVec 32 := Scalar.select v79 v80 v65
  let c2_i32_70 : BitVec 32 := 2#32
  let c0_i32_71 : BitVec 32 := 0#32
  let v82 : BitVec 1 := Scalar.cmpi .eq c2_i32_70 c0_i32_71
  let c1_i32_72 : BitVec 32 := 1#32
  let v83 : BitVec 32 := Scalar.select v82 c1_i32_72 c2_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![1, v81.toNat, v92.toNat]
def k1_off39 (v64 : BitVec 32) : Fin 2 → Nat :=
  let c0_i32_77 : BitVec 32 := 0#32
  ![v64.toNat, 0]

def k1_chk17 (v64 : BitVec 32) : Prop :=
  (∀ a, (k1_off39 v64) a + S1x64.size a ≤ S1000000x64.size a)
instance k1_chk17.dec : ∀ (v64 : BitVec 32), Decidable (k1_chk17 v64) := fun v64 => decidable_of_iff' _ (Iff.of_eq (k1_chk17.eq_1 v64))
theorem k1_off39_inb : ∀ (v64 : BitVec 32) (k1_hw17 : k1_chk17 v64), ∀ a, (k1_off39 v64) a + S1x64.size a ≤ S1000000x64.size a := fun v64 k1_hw17 => k1_hw17

def k1_off40 (k1_t2 : Fin k1_t2_loop.trips) (c0_i32_62 : BitVec 32) : Fin 3 → Nat :=
  let c1_i32_76 : BitVec 32 := 1#32
  let c0_i32_4 : BitVec 32 := 0#32
  let c1_i32_6 : BitVec 32 := 1#32
  let arg12 : BitVec 32 := Scf.iv c0_i32_4 c1_i32_6 k1_t2
  let c16_i32_61 : BitVec 32 := 16#32
  let v61 : BitVec 32 := Scalar.muli arg12 c16_i32_61
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c2_i32_63 : BitVec 32 := 2#32
  let c0_i32_66 : BitVec 32 := 0#32
  let v71 : BitVec 1 := Scalar.cmpi .sgt c2_i32_63 c0_i32_66
  let v72 : BitVec 32 := Scalar.extui v71
  let c0_i32_67 : BitVec 32 := 0#32
  let v73 : BitVec 1 := Scalar.cmpi .slt c2_i32_63 c0_i32_67
  let v74 : BitVec 32 := Scalar.extui v73
  let v75 : BitVec 32 := Scalar.subi v72 v74
  let v76 : BitVec 1 := Scalar.cmpi .ne v70 v75
  let v77 : BitVec 32 := Scalar.remsi v62 c2_i32_63
  let c0_i32_68 : BitVec 32 := 0#32
  let v78 : BitVec 1 := Scalar.cmpi .ne v77 c0_i32_68
  let v79 : BitVec 1 := Scalar.andi v76 v78
  let v65 : BitVec 32 := Scalar.divsi v62 c2_i32_63
  let c1_i32_69 : BitVec 32 := 1#32
  let v80 : BitVec 32 := Scalar.subi v65 c1_i32_69
  let v81 : BitVec 32 := Scalar.select v79 v80 v65
  let c2_i32_70 : BitVec 32 := 2#32
  let c0_i32_71 : BitVec 32 := 0#32
  let v82 : BitVec 1 := Scalar.cmpi .eq c2_i32_70 c0_i32_71
  let c1_i32_72 : BitVec 32 := 1#32
  let v83 : BitVec 32 := Scalar.select v82 c1_i32_72 c2_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![1, v81.toNat, v92.toNat]
def k1_off41 (v104 : BitVec 32) : Fin 2 → Nat :=
  let c0_i32_96 : BitVec 32 := 0#32
  ![v104.toNat, 0]

def k1_chk18 (v104 : BitVec 32) : Prop :=
  (∀ a, (k1_off41 v104) a + S1x64.size a ≤ S1000000x64.size a)
instance k1_chk18.dec : ∀ (v104 : BitVec 32), Decidable (k1_chk18 v104) := fun v104 => decidable_of_iff' _ (Iff.of_eq (k1_chk18.eq_1 v104))
theorem k1_off41_inb : ∀ (v104 : BitVec 32) (k1_hw18 : k1_chk18 v104), ∀ a, (k1_off41 v104) a + S1x64.size a ≤ S1000000x64.size a := fun v104 k1_hw18 => k1_hw18

def k1_off42 (k1_t2 : Fin k1_t2_loop.trips) (c1_i32_80 : BitVec 32) : Fin 3 → Nat :=
  let c1_i32_95 : BitVec 32 := 1#32
  let c0_i32_4 : BitVec 32 := 0#32
  let c1_i32_6 : BitVec 32 := 1#32
  let arg12 : BitVec 32 := Scf.iv c0_i32_4 c1_i32_6 k1_t2
  let c16_i32_79 : BitVec 32 := 16#32
  let v101 : BitVec 32 := Scalar.muli arg12 c16_i32_79
  let v102 : BitVec 32 := Scalar.addi v101 c1_i32_80
  let c0_i32_82 : BitVec 32 := 0#32
  let v106 : BitVec 1 := Scalar.cmpi .sgt v102 c0_i32_82
  let v107 : BitVec 32 := Scalar.extui v106
  let c0_i32_83 : BitVec 32 := 0#32
  let v108 : BitVec 1 := Scalar.cmpi .slt v102 c0_i32_83
  let v109 : BitVec 32 := Scalar.extui v108
  let v110 : BitVec 32 := Scalar.subi v107 v109
  let c2_i32_81 : BitVec 32 := 2#32
  let c0_i32_84 : BitVec 32 := 0#32
  let v111 : BitVec 1 := Scalar.cmpi .sgt c2_i32_81 c0_i32_84
  let v112 : BitVec 32 := Scalar.extui v111
  let c0_i32_85 : BitVec 32 := 0#32
  let v113 : BitVec 1 := Scalar.cmpi .slt c2_i32_81 c0_i32_85
  let v114 : BitVec 32 := Scalar.extui v113
  let v115 : BitVec 32 := Scalar.subi v112 v114
  let v116 : BitVec 1 := Scalar.cmpi .ne v110 v115
  let v117 : BitVec 32 := Scalar.remsi v102 c2_i32_81
  let c0_i32_86 : BitVec 32 := 0#32
  let v118 : BitVec 1 := Scalar.cmpi .ne v117 c0_i32_86
  let v119 : BitVec 1 := Scalar.andi v116 v118
  let v105 : BitVec 32 := Scalar.divsi v102 c2_i32_81
  let c1_i32_87 : BitVec 32 := 1#32
  let v120 : BitVec 32 := Scalar.subi v105 c1_i32_87
  let v121 : BitVec 32 := Scalar.select v119 v120 v105
  let c2_i32_88 : BitVec 32 := 2#32
  let c0_i32_89 : BitVec 32 := 0#32
  let v122 : BitVec 1 := Scalar.cmpi .eq c2_i32_88 c0_i32_89
  let c1_i32_90 : BitVec 32 := 1#32
  let v123 : BitVec 32 := Scalar.select v122 c1_i32_90 c2_i32_88
  let v124 : BitVec 32 := Scalar.remsi v102 v123
  let c0_i32_92 : BitVec 32 := 0#32
  let v126 : BitVec 1 := Scalar.cmpi .slt v124 c0_i32_92
  let c0_i32_93 : BitVec 32 := 0#32
  let v127 : BitVec 1 := Scalar.cmpi .slt v123 c0_i32_93
  let v128 : BitVec 1 := Scalar.xori v126 v127
  let c0_i32_91 : BitVec 32 := 0#32
  let v125 : BitVec 1 := Scalar.cmpi .ne v124 c0_i32_91
  let v129 : BitVec 1 := Scalar.andi v128 v125
  let v130 : BitVec 32 := Scalar.addi v124 v123
  let v131 : BitVec 32 := Scalar.select v129 v130 v124
  let c64_i32_94 : BitVec 32 := 64#32
  let v132 : BitVec 32 := Scalar.muli v131 c64_i32_94
  ![1, v121.toNat, v132.toNat]
def k1_off43 (v144 : BitVec 32) : Fin 2 → Nat :=
  let c0_i32_115 : BitVec 32 := 0#32
  ![v144.toNat, 0]

def k1_chk19 (v144 : BitVec 32) : Prop :=
  (∀ a, (k1_off43 v144) a + S1x64.size a ≤ S1000000x64.size a)
instance k1_chk19.dec : ∀ (v144 : BitVec 32), Decidable (k1_chk19 v144) := fun v144 => decidable_of_iff' _ (Iff.of_eq (k1_chk19.eq_1 v144))
theorem k1_off43_inb : ∀ (v144 : BitVec 32) (k1_hw19 : k1_chk19 v144), ∀ a, (k1_off43 v144) a + S1x64.size a ≤ S1000000x64.size a := fun v144 k1_hw19 => k1_hw19

def k1_off44 (k1_t2 : Fin k1_t2_loop.trips) (c2_i32_99 : BitVec 32) : Fin 3 → Nat :=
  let c1_i32_114 : BitVec 32 := 1#32
  let c0_i32_4 : BitVec 32 := 0#32
  let c1_i32_6 : BitVec 32 := 1#32
  let arg12 : BitVec 32 := Scf.iv c0_i32_4 c1_i32_6 k1_t2
  let c16_i32_98 : BitVec 32 := 16#32
  let v141 : BitVec 32 := Scalar.muli arg12 c16_i32_98
  let v142 : BitVec 32 := Scalar.addi v141 c2_i32_99
  let c0_i32_101 : BitVec 32 := 0#32
  let v146 : BitVec 1 := Scalar.cmpi .sgt v142 c0_i32_101
  let v147 : BitVec 32 := Scalar.extui v146
  let c0_i32_102 : BitVec 32 := 0#32
  let v148 : BitVec 1 := Scalar.cmpi .slt v142 c0_i32_102
  let v149 : BitVec 32 := Scalar.extui v148
  let v150 : BitVec 32 := Scalar.subi v147 v149
  let c2_i32_100 : BitVec 32 := 2#32
  let c0_i32_103 : BitVec 32 := 0#32
  let v151 : BitVec 1 := Scalar.cmpi .sgt c2_i32_100 c0_i32_103
  let v152 : BitVec 32 := Scalar.extui v151
  let c0_i32_104 : BitVec 32 := 0#32
  let v153 : BitVec 1 := Scalar.cmpi .slt c2_i32_100 c0_i32_104
  let v154 : BitVec 32 := Scalar.extui v153
  let v155 : BitVec 32 := Scalar.subi v152 v154
  let v156 : BitVec 1 := Scalar.cmpi .ne v150 v155
  let v157 : BitVec 32 := Scalar.remsi v142 c2_i32_100
  let c0_i32_105 : BitVec 32 := 0#32
  let v158 : BitVec 1 := Scalar.cmpi .ne v157 c0_i32_105
  let v159 : BitVec 1 := Scalar.andi v156 v158
  let v145 : BitVec 32 := Scalar.divsi v142 c2_i32_100
  let c1_i32_106 : BitVec 32 := 1#32
  let v160 : BitVec 32 := Scalar.subi v145 c1_i32_106
  let v161 : BitVec 32 := Scalar.select v159 v160 v145
  let c2_i32_107 : BitVec 32 := 2#32
  let c0_i32_108 : BitVec 32 := 0#32
  let v162 : BitVec 1 := Scalar.cmpi .eq c2_i32_107 c0_i32_108
  let c1_i32_109 : BitVec 32 := 1#32
  let v163 : BitVec 32 := Scalar.select v162 c1_i32_109 c2_i32_107
  let v164 : BitVec 32 := Scalar.remsi v142 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c64_i32_113 : BitVec 32 := 64#32
  let v172 : BitVec 32 := Scalar.muli v171 c64_i32_113
  ![1, v161.toNat, v172.toNat]
def k1_off45 (v184 : BitVec 32) : Fin 2 → Nat :=
  let c0_i32_133 : BitVec 32 := 0#32
  ![v184.toNat, 0]

def k1_chk20 (v184 : BitVec 32) : Prop :=
  (∀ a, (k1_off45 v184) a + S1x64.size a ≤ S1000000x64.size a)
instance k1_chk20.dec : ∀ (v184 : BitVec 32), Decidable (k1_chk20 v184) := fun v184 => decidable_of_iff' _ (Iff.of_eq (k1_chk20.eq_1 v184))
theorem k1_off45_inb : ∀ (v184 : BitVec 32) (k1_hw20 : k1_chk20 v184), ∀ a, (k1_off45 v184) a + S1x64.size a ≤ S1000000x64.size a := fun v184 k1_hw20 => k1_hw20

def k1_off46 (k1_t2 : Fin k1_t2_loop.trips) (c3_i32 : BitVec 32) : Fin 3 → Nat :=
  let c1_i32_132 : BitVec 32 := 1#32
  let c0_i32_4 : BitVec 32 := 0#32
  let c1_i32_6 : BitVec 32 := 1#32
  let arg12 : BitVec 32 := Scf.iv c0_i32_4 c1_i32_6 k1_t2
  let c16_i32_117 : BitVec 32 := 16#32
  let v181 : BitVec 32 := Scalar.muli arg12 c16_i32_117
  let v182 : BitVec 32 := Scalar.addi v181 c3_i32
  let c0_i32_119 : BitVec 32 := 0#32
  let v186 : BitVec 1 := Scalar.cmpi .sgt v182 c0_i32_119
  let v187 : BitVec 32 := Scalar.extui v186
  let c0_i32_120 : BitVec 32 := 0#32
  let v188 : BitVec 1 := Scalar.cmpi .slt v182 c0_i32_120
  let v189 : BitVec 32 := Scalar.extui v188
  let v190 : BitVec 32 := Scalar.subi v187 v189
  let c2_i32_118 : BitVec 32 := 2#32
  let c0_i32_121 : BitVec 32 := 0#32
  let v191 : BitVec 1 := Scalar.cmpi .sgt c2_i32_118 c0_i32_121
  let v192 : BitVec 32 := Scalar.extui v191
  let c0_i32_122 : BitVec 32 := 0#32
  let v193 : BitVec 1 := Scalar.cmpi .slt c2_i32_118 c0_i32_122
  let v194 : BitVec 32 := Scalar.extui v193
  let v195 : BitVec 32 := Scalar.subi v192 v194
  let v196 : BitVec 1 := Scalar.cmpi .ne v190 v195
  let v197 : BitVec 32 := Scalar.remsi v182 c2_i32_118
  let c0_i32_123 : BitVec 32 := 0#32
  let v198 : BitVec 1 := Scalar.cmpi .ne v197 c0_i32_123
  let v199 : BitVec 1 := Scalar.andi v196 v198
  let v185 : BitVec 32 := Scalar.divsi v182 c2_i32_118
  let c1_i32_124 : BitVec 32 := 1#32
  let v200 : BitVec 32 := Scalar.subi v185 c1_i32_124
  let v201 : BitVec 32 := Scalar.select v199 v200 v185
  let c2_i32_125 : BitVec 32 := 2#32
  let c0_i32_126 : BitVec 32 := 0#32
  let v202 : BitVec 1 := Scalar.cmpi .eq c2_i32_125 c0_i32_126
  let c1_i32_127 : BitVec 32 := 1#32
  let v203 : BitVec 32 := Scalar.select v202 c1_i32_127 c2_i32_125
  let v204 : BitVec 32 := Scalar.remsi v182 v203
  let c0_i32_129 : BitVec 32 := 0#32
  let v206 : BitVec 1 := Scalar.cmpi .slt v204 c0_i32_129
  let c0_i32_130 : BitVec 32 := 0#32
  let v207 : BitVec 1 := Scalar.cmpi .slt v203 c0_i32_130
  let v208 : BitVec 1 := Scalar.xori v206 v207
  let c0_i32_128 : BitVec 32 := 0#32
  let v205 : BitVec 1 := Scalar.cmpi .ne v204 c0_i32_128
  let v209 : BitVec 1 := Scalar.andi v208 v205
  let v210 : BitVec 32 := Scalar.addi v204 v203
  let v211 : BitVec 32 := Scalar.select v209 v210 v204
  let c64_i32_131 : BitVec 32 := 64#32
  let v212 : BitVec 32 := Scalar.muli v211 c64_i32_131
  ![1, v201.toNat, v212.toNat]
def k1_off47 (v224 : BitVec 32) : Fin 2 → Nat :=
  let c0_i32_151 : BitVec 32 := 0#32
  ![v224.toNat, 0]

def k1_chk21 (v224 : BitVec 32) : Prop :=
  (∀ a, (k1_off47 v224) a + S1x64.size a ≤ S1000000x64.size a)
instance k1_chk21.dec : ∀ (v224 : BitVec 32), Decidable (k1_chk21 v224) := fun v224 => decidable_of_iff' _ (Iff.of_eq (k1_chk21.eq_1 v224))
theorem k1_off47_inb : ∀ (v224 : BitVec 32) (k1_hw21 : k1_chk21 v224), ∀ a, (k1_off47 v224) a + S1x64.size a ≤ S1000000x64.size a := fun v224 k1_hw21 => k1_hw21

def k1_off48 (k1_t2 : Fin k1_t2_loop.trips) (c4_i32 : BitVec 32) : Fin 3 → Nat :=
  let c1_i32_150 : BitVec 32 := 1#32
  let c0_i32_4 : BitVec 32 := 0#32
  let c1_i32_6 : BitVec 32 := 1#32
  let arg12 : BitVec 32 := Scf.iv c0_i32_4 c1_i32_6 k1_t2
  let c16_i32_135 : BitVec 32 := 16#32
  let v221 : BitVec 32 := Scalar.muli arg12 c16_i32_135
  let v222 : BitVec 32 := Scalar.addi v221 c4_i32
  let c0_i32_137 : BitVec 32 := 0#32
  let v226 : BitVec 1 := Scalar.cmpi .sgt v222 c0_i32_137
  let v227 : BitVec 32 := Scalar.extui v226
  let c0_i32_138 : BitVec 32 := 0#32
  let v228 : BitVec 1 := Scalar.cmpi .slt v222 c0_i32_138
  let v229 : BitVec 32 := Scalar.extui v228
  let v230 : BitVec 32 := Scalar.subi v227 v229
  let c2_i32_136 : BitVec 32 := 2#32
  let c0_i32_139 : BitVec 32 := 0#32
  let v231 : BitVec 1 := Scalar.cmpi .sgt c2_i32_136 c0_i32_139
  let v232 : BitVec 32 := Scalar.extui v231
  let c0_i32_140 : BitVec 32 := 0#32
  let v233 : BitVec 1 := Scalar.cmpi .slt c2_i32_136 c0_i32_140
  let v234 : BitVec 32 := Scalar.extui v233
  let v235 : BitVec 32 := Scalar.subi v232 v234
  let v236 : BitVec 1 := Scalar.cmpi .ne v230 v235
  let v237 : BitVec 32 := Scalar.remsi v222 c2_i32_136
  let c0_i32_141 : BitVec 32 := 0#32
  let v238 : BitVec 1 := Scalar.cmpi .ne v237 c0_i32_141
  let v239 : BitVec 1 := Scalar.andi v236 v238
  let v225 : BitVec 32 := Scalar.divsi v222 c2_i32_136
  let c1_i32_142 : BitVec 32 := 1#32
  let v240 : BitVec 32 := Scalar.subi v225 c1_i32_142
  let v241 : BitVec 32 := Scalar.select v239 v240 v225
  let c2_i32_143 : BitVec 32 := 2#32
  let c0_i32_144 : BitVec 32 := 0#32
  let v242 : BitVec 1 := Scalar.cmpi .eq c2_i32_143 c0_i32_144
  let c1_i32_145 : BitVec 32 := 1#32
  let v243 : BitVec 32 := Scalar.select v242 c1_i32_145 c2_i32_143
  let v244 : BitVec 32 := Scalar.remsi v222 v243
  let c0_i32_147 : BitVec 32 := 0#32
  let v246 : BitVec 1 := Scalar.cmpi .slt v244 c0_i32_147
  let c0_i32_148 : BitVec 32 := 0#32
  let v247 : BitVec 1 := Scalar.cmpi .slt v243 c0_i32_148
  let v248 : BitVec 1 := Scalar.xori v246 v247
  let c0_i32_146 : BitVec 32 := 0#32
  let v245 : BitVec 1 := Scalar.cmpi .ne v244 c0_i32_146
  let v249 : BitVec 1 := Scalar.andi v248 v245
  let v250 : BitVec 32 := Scalar.addi v244 v243
  let v251 : BitVec 32 := Scalar.select v249 v250 v244
  let c64_i32_149 : BitVec 32 := 64#32
  let v252 : BitVec 32 := Scalar.muli v251 c64_i32_149
  ![1, v241.toNat, v252.toNat]
def k1_off49 (v264 : BitVec 32) : Fin 2 → Nat :=
  let c0_i32_169 : BitVec 32 := 0#32
  ![v264.toNat, 0]

def k1_chk22 (v264 : BitVec 32) : Prop :=
  (∀ a, (k1_off49 v264) a + S1x64.size a ≤ S1000000x64.size a)
instance k1_chk22.dec : ∀ (v264 : BitVec 32), Decidable (k1_chk22 v264) := fun v264 => decidable_of_iff' _ (Iff.of_eq (k1_chk22.eq_1 v264))
theorem k1_off49_inb : ∀ (v264 : BitVec 32) (k1_hw22 : k1_chk22 v264), ∀ a, (k1_off49 v264) a + S1x64.size a ≤ S1000000x64.size a := fun v264 k1_hw22 => k1_hw22

def k1_off50 (k1_t2 : Fin k1_t2_loop.trips) (c5_i32 : BitVec 32) : Fin 3 → Nat :=
  let c1_i32_168 : BitVec 32 := 1#32
  let c0_i32_4 : BitVec 32 := 0#32
  let c1_i32_6 : BitVec 32 := 1#32
  let arg12 : BitVec 32 := Scf.iv c0_i32_4 c1_i32_6 k1_t2
  let c16_i32_153 : BitVec 32 := 16#32
  let v261 : BitVec 32 := Scalar.muli arg12 c16_i32_153
  let v262 : BitVec 32 := Scalar.addi v261 c5_i32
  let c0_i32_155 : BitVec 32 := 0#32
  let v266 : BitVec 1 := Scalar.cmpi .sgt v262 c0_i32_155
  let v267 : BitVec 32 := Scalar.extui v266
  let c0_i32_156 : BitVec 32 := 0#32
  let v268 : BitVec 1 := Scalar.cmpi .slt v262 c0_i32_156
  let v269 : BitVec 32 := Scalar.extui v268
  let v270 : BitVec 32 := Scalar.subi v267 v269
  let c2_i32_154 : BitVec 32 := 2#32
  let c0_i32_157 : BitVec 32 := 0#32
  let v271 : BitVec 1 := Scalar.cmpi .sgt c2_i32_154 c0_i32_157
  let v272 : BitVec 32 := Scalar.extui v271
  let c0_i32_158 : BitVec 32 := 0#32
  let v273 : BitVec 1 := Scalar.cmpi .slt c2_i32_154 c0_i32_158
  let v274 : BitVec 32 := Scalar.extui v273
  let v275 : BitVec 32 := Scalar.subi v272 v274
  let v276 : BitVec 1 := Scalar.cmpi .ne v270 v275
  let v277 : BitVec 32 := Scalar.remsi v262 c2_i32_154
  let c0_i32_159 : BitVec 32 := 0#32
  let v278 : BitVec 1 := Scalar.cmpi .ne v277 c0_i32_159
  let v279 : BitVec 1 := Scalar.andi v276 v278
  let v265 : BitVec 32 := Scalar.divsi v262 c2_i32_154
  let c1_i32_160 : BitVec 32 := 1#32
  let v280 : BitVec 32 := Scalar.subi v265 c1_i32_160
  let v281 : BitVec 32 := Scalar.select v279 v280 v265
  let c2_i32_161 : BitVec 32 := 2#32
  let c0_i32_162 : BitVec 32 := 0#32
  let v282 : BitVec 1 := Scalar.cmpi .eq c2_i32_161 c0_i32_162
  let c1_i32_163 : BitVec 32 := 1#32
  let v283 : BitVec 32 := Scalar.select v282 c1_i32_163 c2_i32_161
  let v284 : BitVec 32 := Scalar.remsi v262 v283
  let c0_i32_165 : BitVec 32 := 0#32
  let v286 : BitVec 1 := Scalar.cmpi .slt v284 c0_i32_165
  let c0_i32_166 : BitVec 32 := 0#32
  let v287 : BitVec 1 := Scalar.cmpi .slt v283 c0_i32_166
  let v288 : BitVec 1 := Scalar.xori v286 v287
  let c0_i32_164 : BitVec 32 := 0#32
  let v285 : BitVec 1 := Scalar.cmpi .ne v284 c0_i32_164
  let v289 : BitVec 1 := Scalar.andi v288 v285
  let v290 : BitVec 32 := Scalar.addi v284 v283
  let v291 : BitVec 32 := Scalar.select v289 v290 v284
  let c64_i32_167 : BitVec 32 := 64#32
  let v292 : BitVec 32 := Scalar.muli v291 c64_i32_167
  ![1, v281.toNat, v292.toNat]
def k1_off51 (v304 : BitVec 32) : Fin 2 → Nat :=
  let c0_i32_187 : BitVec 32 := 0#32
  ![v304.toNat, 0]

def k1_chk23 (v304 : BitVec 32) : Prop :=
  (∀ a, (k1_off51 v304) a + S1x64.size a ≤ S1000000x64.size a)
instance k1_chk23.dec : ∀ (v304 : BitVec 32), Decidable (k1_chk23 v304) := fun v304 => decidable_of_iff' _ (Iff.of_eq (k1_chk23.eq_1 v304))
theorem k1_off51_inb : ∀ (v304 : BitVec 32) (k1_hw23 : k1_chk23 v304), ∀ a, (k1_off51 v304) a + S1x64.size a ≤ S1000000x64.size a := fun v304 k1_hw23 => k1_hw23

def k1_off52 (k1_t2 : Fin k1_t2_loop.trips) (c6_i32 : BitVec 32) : Fin 3 → Nat :=
  let c1_i32_186 : BitVec 32 := 1#32
  let c0_i32_4 : BitVec 32 := 0#32
  let c1_i32_6 : BitVec 32 := 1#32
  let arg12 : BitVec 32 := Scf.iv c0_i32_4 c1_i32_6 k1_t2
  let c16_i32_171 : BitVec 32 := 16#32
  let v301 : BitVec 32 := Scalar.muli arg12 c16_i32_171
  let v302 : BitVec 32 := Scalar.addi v301 c6_i32
  let c0_i32_173 : BitVec 32 := 0#32
  let v306 : BitVec 1 := Scalar.cmpi .sgt v302 c0_i32_173
  let v307 : BitVec 32 := Scalar.extui v306
  let c0_i32_174 : BitVec 32 := 0#32
  let v308 : BitVec 1 := Scalar.cmpi .slt v302 c0_i32_174
  let v309 : BitVec 32 := Scalar.extui v308
  let v310 : BitVec 32 := Scalar.subi v307 v309
  let c2_i32_172 : BitVec 32 := 2#32
  let c0_i32_175 : BitVec 32 := 0#32
  let v311 : BitVec 1 := Scalar.cmpi .sgt c2_i32_172 c0_i32_175
  let v312 : BitVec 32 := Scalar.extui v311
  let c0_i32_176 : BitVec 32 := 0#32
  let v313 : BitVec 1 := Scalar.cmpi .slt c2_i32_172 c0_i32_176
  let v314 : BitVec 32 := Scalar.extui v313
  let v315 : BitVec 32 := Scalar.subi v312 v314
  let v316 : BitVec 1 := Scalar.cmpi .ne v310 v315
  let v317 : BitVec 32 := Scalar.remsi v302 c2_i32_172
  let c0_i32_177 : BitVec 32 := 0#32
  let v318 : BitVec 1 := Scalar.cmpi .ne v317 c0_i32_177
  let v319 : BitVec 1 := Scalar.andi v316 v318
  let v305 : BitVec 32 := Scalar.divsi v302 c2_i32_172
  let c1_i32_178 : BitVec 32 := 1#32
  let v320 : BitVec 32 := Scalar.subi v305 c1_i32_178
  let v321 : BitVec 32 := Scalar.select v319 v320 v305
  let c2_i32_179 : BitVec 32 := 2#32
  let c0_i32_180 : BitVec 32 := 0#32
  let v322 : BitVec 1 := Scalar.cmpi .eq c2_i32_179 c0_i32_180
  let c1_i32_181 : BitVec 32 := 1#32
  let v323 : BitVec 32 := Scalar.select v322 c1_i32_181 c2_i32_179
  let v324 : BitVec 32 := Scalar.remsi v302 v323
  let c0_i32_183 : BitVec 32 := 0#32
  let v326 : BitVec 1 := Scalar.cmpi .slt v324 c0_i32_183
  let c0_i32_184 : BitVec 32 := 0#32
  let v327 : BitVec 1 := Scalar.cmpi .slt v323 c0_i32_184
  let v328 : BitVec 1 := Scalar.xori v326 v327
  let c0_i32_182 : BitVec 32 := 0#32
  let v325 : BitVec 1 := Scalar.cmpi .ne v324 c0_i32_182
  let v329 : BitVec 1 := Scalar.andi v328 v325
  let v330 : BitVec 32 := Scalar.addi v324 v323
  let v331 : BitVec 32 := Scalar.select v329 v330 v324
  let c64_i32_185 : BitVec 32 := 64#32
  let v332 : BitVec 32 := Scalar.muli v331 c64_i32_185
  ![1, v321.toNat, v332.toNat]
def k1_off53 (v344 : BitVec 32) : Fin 2 → Nat :=
  let c0_i32_205 : BitVec 32 := 0#32
  ![v344.toNat, 0]

def k1_chk24 (v344 : BitVec 32) : Prop :=
  (∀ a, (k1_off53 v344) a + S1x64.size a ≤ S1000000x64.size a)
instance k1_chk24.dec : ∀ (v344 : BitVec 32), Decidable (k1_chk24 v344) := fun v344 => decidable_of_iff' _ (Iff.of_eq (k1_chk24.eq_1 v344))
theorem k1_off53_inb : ∀ (v344 : BitVec 32) (k1_hw24 : k1_chk24 v344), ∀ a, (k1_off53 v344) a + S1x64.size a ≤ S1000000x64.size a := fun v344 k1_hw24 => k1_hw24

def k1_off54 (k1_t2 : Fin k1_t2_loop.trips) (c7_i32 : BitVec 32) : Fin 3 → Nat :=
  let c1_i32_204 : BitVec 32 := 1#32
  let c0_i32_4 : BitVec 32 := 0#32
  let c1_i32_6 : BitVec 32 := 1#32
  let arg12 : BitVec 32 := Scf.iv c0_i32_4 c1_i32_6 k1_t2
  let c16_i32_189 : BitVec 32 := 16#32
  let v341 : BitVec 32 := Scalar.muli arg12 c16_i32_189
  let v342 : BitVec 32 := Scalar.addi v341 c7_i32
  let c0_i32_191 : BitVec 32 := 0#32
  let v346 : BitVec 1 := Scalar.cmpi .sgt v342 c0_i32_191
  let v347 : BitVec 32 := Scalar.extui v346
  let c0_i32_192 : BitVec 32 := 0#32
  let v348 : BitVec 1 := Scalar.cmpi .slt v342 c0_i32_192
  let v349 : BitVec 32 := Scalar.extui v348
  let v350 : BitVec 32 := Scalar.subi v347 v349
  let c2_i32_190 : BitVec 32 := 2#32
  let c0_i32_193 : BitVec 32 := 0#32
  let v351 : BitVec 1 := Scalar.cmpi .sgt c2_i32_190 c0_i32_193
  let v352 : BitVec 32 := Scalar.extui v351
  let c0_i32_194 : BitVec 32 := 0#32
  let v353 : BitVec 1 := Scalar.cmpi .slt c2_i32_190 c0_i32_194
  let v354 : BitVec 32 := Scalar.extui v353
  let v355 : BitVec 32 := Scalar.subi v352 v354
  let v356 : BitVec 1 := Scalar.cmpi .ne v350 v355
  let v357 : BitVec 32 := Scalar.remsi v342 c2_i32_190
  let c0_i32_195 : BitVec 32 := 0#32
  let v358 : BitVec 1 := Scalar.cmpi .ne v357 c0_i32_195
  let v359 : BitVec 1 := Scalar.andi v356 v358
  let v345 : BitVec 32 := Scalar.divsi v342 c2_i32_190
  let c1_i32_196 : BitVec 32 := 1#32
  let v360 : BitVec 32 := Scalar.subi v345 c1_i32_196
  let v361 : BitVec 32 := Scalar.select v359 v360 v345
  let c2_i32_197 : BitVec 32 := 2#32
  let c0_i32_198 : BitVec 32 := 0#32
  let v362 : BitVec 1 := Scalar.cmpi .eq c2_i32_197 c0_i32_198
  let c1_i32_199 : BitVec 32 := 1#32
  let v363 : BitVec 32 := Scalar.select v362 c1_i32_199 c2_i32_197
  let v364 : BitVec 32 := Scalar.remsi v342 v363
  let c0_i32_201 : BitVec 32 := 0#32
  let v366 : BitVec 1 := Scalar.cmpi .slt v364 c0_i32_201
  let c0_i32_202 : BitVec 32 := 0#32
  let v367 : BitVec 1 := Scalar.cmpi .slt v363 c0_i32_202
  let v368 : BitVec 1 := Scalar.xori v366 v367
  let c0_i32_200 : BitVec 32 := 0#32
  let v365 : BitVec 1 := Scalar.cmpi .ne v364 c0_i32_200
  let v369 : BitVec 1 := Scalar.andi v368 v365
  let v370 : BitVec 32 := Scalar.addi v364 v363
  let v371 : BitVec 32 := Scalar.select v369 v370 v364
  let c64_i32_203 : BitVec 32 := 64#32
  let v372 : BitVec 32 := Scalar.muli v371 c64_i32_203
  ![1, v361.toNat, v372.toNat]
def k1_off55 (v384 : BitVec 32) : Fin 2 → Nat :=
  let c0_i32_223 : BitVec 32 := 0#32
  ![v384.toNat, 0]

def k1_chk25 (v384 : BitVec 32) : Prop :=
  (∀ a, (k1_off55 v384) a + S1x64.size a ≤ S1000000x64.size a)
instance k1_chk25.dec : ∀ (v384 : BitVec 32), Decidable (k1_chk25 v384) := fun v384 => decidable_of_iff' _ (Iff.of_eq (k1_chk25.eq_1 v384))
theorem k1_off55_inb : ∀ (v384 : BitVec 32) (k1_hw25 : k1_chk25 v384), ∀ a, (k1_off55 v384) a + S1x64.size a ≤ S1000000x64.size a := fun v384 k1_hw25 => k1_hw25

def k1_off56 (k1_t2 : Fin k1_t2_loop.trips) (c8_i32 : BitVec 32) : Fin 3 → Nat :=
  let c1_i32_222 : BitVec 32 := 1#32
  let c0_i32_4 : BitVec 32 := 0#32
  let c1_i32_6 : BitVec 32 := 1#32
  let arg12 : BitVec 32 := Scf.iv c0_i32_4 c1_i32_6 k1_t2
  let c16_i32_207 : BitVec 32 := 16#32
  let v381 : BitVec 32 := Scalar.muli arg12 c16_i32_207
  let v382 : BitVec 32 := Scalar.addi v381 c8_i32
  let c0_i32_209 : BitVec 32 := 0#32
  let v386 : BitVec 1 := Scalar.cmpi .sgt v382 c0_i32_209
  let v387 : BitVec 32 := Scalar.extui v386
  let c0_i32_210 : BitVec 32 := 0#32
  let v388 : BitVec 1 := Scalar.cmpi .slt v382 c0_i32_210
  let v389 : BitVec 32 := Scalar.extui v388
  let v390 : BitVec 32 := Scalar.subi v387 v389
  let c2_i32_208 : BitVec 32 := 2#32
  let c0_i32_211 : BitVec 32 := 0#32
  let v391 : BitVec 1 := Scalar.cmpi .sgt c2_i32_208 c0_i32_211
  let v392 : BitVec 32 := Scalar.extui v391
  let c0_i32_212 : BitVec 32 := 0#32
  let v393 : BitVec 1 := Scalar.cmpi .slt c2_i32_208 c0_i32_212
  let v394 : BitVec 32 := Scalar.extui v393
  let v395 : BitVec 32 := Scalar.subi v392 v394
  let v396 : BitVec 1 := Scalar.cmpi .ne v390 v395
  let v397 : BitVec 32 := Scalar.remsi v382 c2_i32_208
  let c0_i32_213 : BitVec 32 := 0#32
  let v398 : BitVec 1 := Scalar.cmpi .ne v397 c0_i32_213
  let v399 : BitVec 1 := Scalar.andi v396 v398
  let v385 : BitVec 32 := Scalar.divsi v382 c2_i32_208
  let c1_i32_214 : BitVec 32 := 1#32
  let v400 : BitVec 32 := Scalar.subi v385 c1_i32_214
  let v401 : BitVec 32 := Scalar.select v399 v400 v385
  let c2_i32_215 : BitVec 32 := 2#32
  let c0_i32_216 : BitVec 32 := 0#32
  let v402 : BitVec 1 := Scalar.cmpi .eq c2_i32_215 c0_i32_216
  let c1_i32_217 : BitVec 32 := 1#32
  let v403 : BitVec 32 := Scalar.select v402 c1_i32_217 c2_i32_215
  let v404 : BitVec 32 := Scalar.remsi v382 v403
  let c0_i32_219 : BitVec 32 := 0#32
  let v406 : BitVec 1 := Scalar.cmpi .slt v404 c0_i32_219
  let c0_i32_220 : BitVec 32 := 0#32
  let v407 : BitVec 1 := Scalar.cmpi .slt v403 c0_i32_220
  let v408 : BitVec 1 := Scalar.xori v406 v407
  let c0_i32_218 : BitVec 32 := 0#32
  let v405 : BitVec 1 := Scalar.cmpi .ne v404 c0_i32_218
  let v409 : BitVec 1 := Scalar.andi v408 v405
  let v410 : BitVec 32 := Scalar.addi v404 v403
  let v411 : BitVec 32 := Scalar.select v409 v410 v404
  let c64_i32_221 : BitVec 32 := 64#32
  let v412 : BitVec 32 := Scalar.muli v411 c64_i32_221
  ![1, v401.toNat, v412.toNat]
def k1_off57 (v424 : BitVec 32) : Fin 2 → Nat :=
  let c0_i32_241 : BitVec 32 := 0#32
  ![v424.toNat, 0]

def k1_chk26 (v424 : BitVec 32) : Prop :=
  (∀ a, (k1_off57 v424) a + S1x64.size a ≤ S1000000x64.size a)
instance k1_chk26.dec : ∀ (v424 : BitVec 32), Decidable (k1_chk26 v424) := fun v424 => decidable_of_iff' _ (Iff.of_eq (k1_chk26.eq_1 v424))
theorem k1_off57_inb : ∀ (v424 : BitVec 32) (k1_hw26 : k1_chk26 v424), ∀ a, (k1_off57 v424) a + S1x64.size a ≤ S1000000x64.size a := fun v424 k1_hw26 => k1_hw26

def k1_off58 (k1_t2 : Fin k1_t2_loop.trips) (c9_i32 : BitVec 32) : Fin 3 → Nat :=
  let c1_i32_240 : BitVec 32 := 1#32
  let c0_i32_4 : BitVec 32 := 0#32
  let c1_i32_6 : BitVec 32 := 1#32
  let arg12 : BitVec 32 := Scf.iv c0_i32_4 c1_i32_6 k1_t2
  let c16_i32_225 : BitVec 32 := 16#32
  let v421 : BitVec 32 := Scalar.muli arg12 c16_i32_225
  let v422 : BitVec 32 := Scalar.addi v421 c9_i32
  let c0_i32_227 : BitVec 32 := 0#32
  let v426 : BitVec 1 := Scalar.cmpi .sgt v422 c0_i32_227
  let v427 : BitVec 32 := Scalar.extui v426
  let c0_i32_228 : BitVec 32 := 0#32
  let v428 : BitVec 1 := Scalar.cmpi .slt v422 c0_i32_228
  let v429 : BitVec 32 := Scalar.extui v428
  let v430 : BitVec 32 := Scalar.subi v427 v429
  let c2_i32_226 : BitVec 32 := 2#32
  let c0_i32_229 : BitVec 32 := 0#32
  let v431 : BitVec 1 := Scalar.cmpi .sgt c2_i32_226 c0_i32_229
  let v432 : BitVec 32 := Scalar.extui v431
  let c0_i32_230 : BitVec 32 := 0#32
  let v433 : BitVec 1 := Scalar.cmpi .slt c2_i32_226 c0_i32_230
  let v434 : BitVec 32 := Scalar.extui v433
  let v435 : BitVec 32 := Scalar.subi v432 v434
  let v436 : BitVec 1 := Scalar.cmpi .ne v430 v435
  let v437 : BitVec 32 := Scalar.remsi v422 c2_i32_226
  let c0_i32_231 : BitVec 32 := 0#32
  let v438 : BitVec 1 := Scalar.cmpi .ne v437 c0_i32_231
  let v439 : BitVec 1 := Scalar.andi v436 v438
  let v425 : BitVec 32 := Scalar.divsi v422 c2_i32_226
  let c1_i32_232 : BitVec 32 := 1#32
  let v440 : BitVec 32 := Scalar.subi v425 c1_i32_232
  let v441 : BitVec 32 := Scalar.select v439 v440 v425
  let c2_i32_233 : BitVec 32 := 2#32
  let c0_i32_234 : BitVec 32 := 0#32
  let v442 : BitVec 1 := Scalar.cmpi .eq c2_i32_233 c0_i32_234
  let c1_i32_235 : BitVec 32 := 1#32
  let v443 : BitVec 32 := Scalar.select v442 c1_i32_235 c2_i32_233
  let v444 : BitVec 32 := Scalar.remsi v422 v443
  let c0_i32_237 : BitVec 32 := 0#32
  let v446 : BitVec 1 := Scalar.cmpi .slt v444 c0_i32_237
  let c0_i32_238 : BitVec 32 := 0#32
  let v447 : BitVec 1 := Scalar.cmpi .slt v443 c0_i32_238
  let v448 : BitVec 1 := Scalar.xori v446 v447
  let c0_i32_236 : BitVec 32 := 0#32
  let v445 : BitVec 1 := Scalar.cmpi .ne v444 c0_i32_236
  let v449 : BitVec 1 := Scalar.andi v448 v445
  let v450 : BitVec 32 := Scalar.addi v444 v443
  let v451 : BitVec 32 := Scalar.select v449 v450 v444
  let c64_i32_239 : BitVec 32 := 64#32
  let v452 : BitVec 32 := Scalar.muli v451 c64_i32_239
  ![1, v441.toNat, v452.toNat]
def k1_off59 (v464 : BitVec 32) : Fin 2 → Nat :=
  let c0_i32_259 : BitVec 32 := 0#32
  ![v464.toNat, 0]

def k1_chk27 (v464 : BitVec 32) : Prop :=
  (∀ a, (k1_off59 v464) a + S1x64.size a ≤ S1000000x64.size a)
instance k1_chk27.dec : ∀ (v464 : BitVec 32), Decidable (k1_chk27 v464) := fun v464 => decidable_of_iff' _ (Iff.of_eq (k1_chk27.eq_1 v464))
theorem k1_off59_inb : ∀ (v464 : BitVec 32) (k1_hw27 : k1_chk27 v464), ∀ a, (k1_off59 v464) a + S1x64.size a ≤ S1000000x64.size a := fun v464 k1_hw27 => k1_hw27

def k1_off60 (k1_t2 : Fin k1_t2_loop.trips) (c10_i32 : BitVec 32) : Fin 3 → Nat :=
  let c1_i32_258 : BitVec 32 := 1#32
  let c0_i32_4 : BitVec 32 := 0#32
  let c1_i32_6 : BitVec 32 := 1#32
  let arg12 : BitVec 32 := Scf.iv c0_i32_4 c1_i32_6 k1_t2
  let c16_i32_243 : BitVec 32 := 16#32
  let v461 : BitVec 32 := Scalar.muli arg12 c16_i32_243
  let v462 : BitVec 32 := Scalar.addi v461 c10_i32
  let c0_i32_245 : BitVec 32 := 0#32
  let v466 : BitVec 1 := Scalar.cmpi .sgt v462 c0_i32_245
  let v467 : BitVec 32 := Scalar.extui v466
  let c0_i32_246 : BitVec 32 := 0#32
  let v468 : BitVec 1 := Scalar.cmpi .slt v462 c0_i32_246
  let v469 : BitVec 32 := Scalar.extui v468
  let v470 : BitVec 32 := Scalar.subi v467 v469
  let c2_i32_244 : BitVec 32 := 2#32
  let c0_i32_247 : BitVec 32 := 0#32
  let v471 : BitVec 1 := Scalar.cmpi .sgt c2_i32_244 c0_i32_247
  let v472 : BitVec 32 := Scalar.extui v471
  let c0_i32_248 : BitVec 32 := 0#32
  let v473 : BitVec 1 := Scalar.cmpi .slt c2_i32_244 c0_i32_248
  let v474 : BitVec 32 := Scalar.extui v473
  let v475 : BitVec 32 := Scalar.subi v472 v474
  let v476 : BitVec 1 := Scalar.cmpi .ne v470 v475
  let v477 : BitVec 32 := Scalar.remsi v462 c2_i32_244
  let c0_i32_249 : BitVec 32 := 0#32
  let v478 : BitVec 1 := Scalar.cmpi .ne v477 c0_i32_249
  let v479 : BitVec 1 := Scalar.andi v476 v478
  let v465 : BitVec 32 := Scalar.divsi v462 c2_i32_244
  let c1_i32_250 : BitVec 32 := 1#32
  let v480 : BitVec 32 := Scalar.subi v465 c1_i32_250
  let v481 : BitVec 32 := Scalar.select v479 v480 v465
  let c2_i32_251 : BitVec 32 := 2#32
  let c0_i32_252 : BitVec 32 := 0#32
  let v482 : BitVec 1 := Scalar.cmpi .eq c2_i32_251 c0_i32_252
  let c1_i32_253 : BitVec 32 := 1#32
  let v483 : BitVec 32 := Scalar.select v482 c1_i32_253 c2_i32_251
  let v484 : BitVec 32 := Scalar.remsi v462 v483
  let c0_i32_255 : BitVec 32 := 0#32
  let v486 : BitVec 1 := Scalar.cmpi .slt v484 c0_i32_255
  let c0_i32_256 : BitVec 32 := 0#32
  let v487 : BitVec 1 := Scalar.cmpi .slt v483 c0_i32_256
  let v488 : BitVec 1 := Scalar.xori v486 v487
  let c0_i32_254 : BitVec 32 := 0#32
  let v485 : BitVec 1 := Scalar.cmpi .ne v484 c0_i32_254
  let v489 : BitVec 1 := Scalar.andi v488 v485
  let v490 : BitVec 32 := Scalar.addi v484 v483
  let v491 : BitVec 32 := Scalar.select v489 v490 v484
  let c64_i32_257 : BitVec 32 := 64#32
  let v492 : BitVec 32 := Scalar.muli v491 c64_i32_257
  ![1, v481.toNat, v492.toNat]
def k1_off61 (v504 : BitVec 32) : Fin 2 → Nat :=
  let c0_i32_277 : BitVec 32 := 0#32
  ![v504.toNat, 0]

def k1_chk28 (v504 : BitVec 32) : Prop :=
  (∀ a, (k1_off61 v504) a + S1x64.size a ≤ S1000000x64.size a)
instance k1_chk28.dec : ∀ (v504 : BitVec 32), Decidable (k1_chk28 v504) := fun v504 => decidable_of_iff' _ (Iff.of_eq (k1_chk28.eq_1 v504))
theorem k1_off61_inb : ∀ (v504 : BitVec 32) (k1_hw28 : k1_chk28 v504), ∀ a, (k1_off61 v504) a + S1x64.size a ≤ S1000000x64.size a := fun v504 k1_hw28 => k1_hw28

def k1_off62 (k1_t2 : Fin k1_t2_loop.trips) (c11_i32 : BitVec 32) : Fin 3 → Nat :=
  let c1_i32_276 : BitVec 32 := 1#32
  let c0_i32_4 : BitVec 32 := 0#32
  let c1_i32_6 : BitVec 32 := 1#32
  let arg12 : BitVec 32 := Scf.iv c0_i32_4 c1_i32_6 k1_t2
  let c16_i32_261 : BitVec 32 := 16#32
  let v501 : BitVec 32 := Scalar.muli arg12 c16_i32_261
  let v502 : BitVec 32 := Scalar.addi v501 c11_i32
  let c0_i32_263 : BitVec 32 := 0#32
  let v506 : BitVec 1 := Scalar.cmpi .sgt v502 c0_i32_263
  let v507 : BitVec 32 := Scalar.extui v506
  let c0_i32_264 : BitVec 32 := 0#32
  let v508 : BitVec 1 := Scalar.cmpi .slt v502 c0_i32_264
  let v509 : BitVec 32 := Scalar.extui v508
  let v510 : BitVec 32 := Scalar.subi v507 v509
  let c2_i32_262 : BitVec 32 := 2#32
  let c0_i32_265 : BitVec 32 := 0#32
  let v511 : BitVec 1 := Scalar.cmpi .sgt c2_i32_262 c0_i32_265
  let v512 : BitVec 32 := Scalar.extui v511
  let c0_i32_266 : BitVec 32 := 0#32
  let v513 : BitVec 1 := Scalar.cmpi .slt c2_i32_262 c0_i32_266
  let v514 : BitVec 32 := Scalar.extui v513
  let v515 : BitVec 32 := Scalar.subi v512 v514
  let v516 : BitVec 1 := Scalar.cmpi .ne v510 v515
  let v517 : BitVec 32 := Scalar.remsi v502 c2_i32_262
  let c0_i32_267 : BitVec 32 := 0#32
  let v518 : BitVec 1 := Scalar.cmpi .ne v517 c0_i32_267
  let v519 : BitVec 1 := Scalar.andi v516 v518
  let v505 : BitVec 32 := Scalar.divsi v502 c2_i32_262
  let c1_i32_268 : BitVec 32 := 1#32
  let v520 : BitVec 32 := Scalar.subi v505 c1_i32_268
  let v521 : BitVec 32 := Scalar.select v519 v520 v505
  let c2_i32_269 : BitVec 32 := 2#32
  let c0_i32_270 : BitVec 32 := 0#32
  let v522 : BitVec 1 := Scalar.cmpi .eq c2_i32_269 c0_i32_270
  let c1_i32_271 : BitVec 32 := 1#32
  let v523 : BitVec 32 := Scalar.select v522 c1_i32_271 c2_i32_269
  let v524 : BitVec 32 := Scalar.remsi v502 v523
  let c0_i32_273 : BitVec 32 := 0#32
  let v526 : BitVec 1 := Scalar.cmpi .slt v524 c0_i32_273
  let c0_i32_274 : BitVec 32 := 0#32
  let v527 : BitVec 1 := Scalar.cmpi .slt v523 c0_i32_274
  let v528 : BitVec 1 := Scalar.xori v526 v527
  let c0_i32_272 : BitVec 32 := 0#32
  let v525 : BitVec 1 := Scalar.cmpi .ne v524 c0_i32_272
  let v529 : BitVec 1 := Scalar.andi v528 v525
  let v530 : BitVec 32 := Scalar.addi v524 v523
  let v531 : BitVec 32 := Scalar.select v529 v530 v524
  let c64_i32_275 : BitVec 32 := 64#32
  let v532 : BitVec 32 := Scalar.muli v531 c64_i32_275
  ![1, v521.toNat, v532.toNat]
def k1_off63 (v544 : BitVec 32) : Fin 2 → Nat :=
  let c0_i32_295 : BitVec 32 := 0#32
  ![v544.toNat, 0]

def k1_chk29 (v544 : BitVec 32) : Prop :=
  (∀ a, (k1_off63 v544) a + S1x64.size a ≤ S1000000x64.size a)
instance k1_chk29.dec : ∀ (v544 : BitVec 32), Decidable (k1_chk29 v544) := fun v544 => decidable_of_iff' _ (Iff.of_eq (k1_chk29.eq_1 v544))
theorem k1_off63_inb : ∀ (v544 : BitVec 32) (k1_hw29 : k1_chk29 v544), ∀ a, (k1_off63 v544) a + S1x64.size a ≤ S1000000x64.size a := fun v544 k1_hw29 => k1_hw29

def k1_off64 (k1_t2 : Fin k1_t2_loop.trips) (c12_i32 : BitVec 32) : Fin 3 → Nat :=
  let c1_i32_294 : BitVec 32 := 1#32
  let c0_i32_4 : BitVec 32 := 0#32
  let c1_i32_6 : BitVec 32 := 1#32
  let arg12 : BitVec 32 := Scf.iv c0_i32_4 c1_i32_6 k1_t2
  let c16_i32_279 : BitVec 32 := 16#32
  let v541 : BitVec 32 := Scalar.muli arg12 c16_i32_279
  let v542 : BitVec 32 := Scalar.addi v541 c12_i32
  let c0_i32_281 : BitVec 32 := 0#32
  let v546 : BitVec 1 := Scalar.cmpi .sgt v542 c0_i32_281
  let v547 : BitVec 32 := Scalar.extui v546
  let c0_i32_282 : BitVec 32 := 0#32
  let v548 : BitVec 1 := Scalar.cmpi .slt v542 c0_i32_282
  let v549 : BitVec 32 := Scalar.extui v548
  let v550 : BitVec 32 := Scalar.subi v547 v549
  let c2_i32_280 : BitVec 32 := 2#32
  let c0_i32_283 : BitVec 32 := 0#32
  let v551 : BitVec 1 := Scalar.cmpi .sgt c2_i32_280 c0_i32_283
  let v552 : BitVec 32 := Scalar.extui v551
  let c0_i32_284 : BitVec 32 := 0#32
  let v553 : BitVec 1 := Scalar.cmpi .slt c2_i32_280 c0_i32_284
  let v554 : BitVec 32 := Scalar.extui v553
  let v555 : BitVec 32 := Scalar.subi v552 v554
  let v556 : BitVec 1 := Scalar.cmpi .ne v550 v555
  let v557 : BitVec 32 := Scalar.remsi v542 c2_i32_280
  let c0_i32_285 : BitVec 32 := 0#32
  let v558 : BitVec 1 := Scalar.cmpi .ne v557 c0_i32_285
  let v559 : BitVec 1 := Scalar.andi v556 v558
  let v545 : BitVec 32 := Scalar.divsi v542 c2_i32_280
  let c1_i32_286 : BitVec 32 := 1#32
  let v560 : BitVec 32 := Scalar.subi v545 c1_i32_286
  let v561 : BitVec 32 := Scalar.select v559 v560 v545
  let c2_i32_287 : BitVec 32 := 2#32
  let c0_i32_288 : BitVec 32 := 0#32
  let v562 : BitVec 1 := Scalar.cmpi .eq c2_i32_287 c0_i32_288
  let c1_i32_289 : BitVec 32 := 1#32
  let v563 : BitVec 32 := Scalar.select v562 c1_i32_289 c2_i32_287
  let v564 : BitVec 32 := Scalar.remsi v542 v563
  let c0_i32_291 : BitVec 32 := 0#32
  let v566 : BitVec 1 := Scalar.cmpi .slt v564 c0_i32_291
  let c0_i32_292 : BitVec 32 := 0#32
  let v567 : BitVec 1 := Scalar.cmpi .slt v563 c0_i32_292
  let v568 : BitVec 1 := Scalar.xori v566 v567
  let c0_i32_290 : BitVec 32 := 0#32
  let v565 : BitVec 1 := Scalar.cmpi .ne v564 c0_i32_290
  let v569 : BitVec 1 := Scalar.andi v568 v565
  let v570 : BitVec 32 := Scalar.addi v564 v563
  let v571 : BitVec 32 := Scalar.select v569 v570 v564
  let c64_i32_293 : BitVec 32 := 64#32
  let v572 : BitVec 32 := Scalar.muli v571 c64_i32_293
  ![1, v561.toNat, v572.toNat]
def k1_off65 (v584 : BitVec 32) : Fin 2 → Nat :=
  let c0_i32_313 : BitVec 32 := 0#32
  ![v584.toNat, 0]

def k1_chk30 (v584 : BitVec 32) : Prop :=
  (∀ a, (k1_off65 v584) a + S1x64.size a ≤ S1000000x64.size a)
instance k1_chk30.dec : ∀ (v584 : BitVec 32), Decidable (k1_chk30 v584) := fun v584 => decidable_of_iff' _ (Iff.of_eq (k1_chk30.eq_1 v584))
theorem k1_off65_inb : ∀ (v584 : BitVec 32) (k1_hw30 : k1_chk30 v584), ∀ a, (k1_off65 v584) a + S1x64.size a ≤ S1000000x64.size a := fun v584 k1_hw30 => k1_hw30

def k1_off66 (k1_t2 : Fin k1_t2_loop.trips) (c13_i32 : BitVec 32) : Fin 3 → Nat :=
  let c1_i32_312 : BitVec 32 := 1#32
  let c0_i32_4 : BitVec 32 := 0#32
  let c1_i32_6 : BitVec 32 := 1#32
  let arg12 : BitVec 32 := Scf.iv c0_i32_4 c1_i32_6 k1_t2
  let c16_i32_297 : BitVec 32 := 16#32
  let v581 : BitVec 32 := Scalar.muli arg12 c16_i32_297
  let v582 : BitVec 32 := Scalar.addi v581 c13_i32
  let c0_i32_299 : BitVec 32 := 0#32
  let v586 : BitVec 1 := Scalar.cmpi .sgt v582 c0_i32_299
  let v587 : BitVec 32 := Scalar.extui v586
  let c0_i32_300 : BitVec 32 := 0#32
  let v588 : BitVec 1 := Scalar.cmpi .slt v582 c0_i32_300
  let v589 : BitVec 32 := Scalar.extui v588
  let v590 : BitVec 32 := Scalar.subi v587 v589
  let c2_i32_298 : BitVec 32 := 2#32
  let c0_i32_301 : BitVec 32 := 0#32
  let v591 : BitVec 1 := Scalar.cmpi .sgt c2_i32_298 c0_i32_301
  let v592 : BitVec 32 := Scalar.extui v591
  let c0_i32_302 : BitVec 32 := 0#32
  let v593 : BitVec 1 := Scalar.cmpi .slt c2_i32_298 c0_i32_302
  let v594 : BitVec 32 := Scalar.extui v593
  let v595 : BitVec 32 := Scalar.subi v592 v594
  let v596 : BitVec 1 := Scalar.cmpi .ne v590 v595
  let v597 : BitVec 32 := Scalar.remsi v582 c2_i32_298
  let c0_i32_303 : BitVec 32 := 0#32
  let v598 : BitVec 1 := Scalar.cmpi .ne v597 c0_i32_303
  let v599 : BitVec 1 := Scalar.andi v596 v598
  let v585 : BitVec 32 := Scalar.divsi v582 c2_i32_298
  let c1_i32_304 : BitVec 32 := 1#32
  let v600 : BitVec 32 := Scalar.subi v585 c1_i32_304
  let v601 : BitVec 32 := Scalar.select v599 v600 v585
  let c2_i32_305 : BitVec 32 := 2#32
  let c0_i32_306 : BitVec 32 := 0#32
  let v602 : BitVec 1 := Scalar.cmpi .eq c2_i32_305 c0_i32_306
  let c1_i32_307 : BitVec 32 := 1#32
  let v603 : BitVec 32 := Scalar.select v602 c1_i32_307 c2_i32_305
  let v604 : BitVec 32 := Scalar.remsi v582 v603
  let c0_i32_309 : BitVec 32 := 0#32
  let v606 : BitVec 1 := Scalar.cmpi .slt v604 c0_i32_309
  let c0_i32_310 : BitVec 32 := 0#32
  let v607 : BitVec 1 := Scalar.cmpi .slt v603 c0_i32_310
  let v608 : BitVec 1 := Scalar.xori v606 v607
  let c0_i32_308 : BitVec 32 := 0#32
  let v605 : BitVec 1 := Scalar.cmpi .ne v604 c0_i32_308
  let v609 : BitVec 1 := Scalar.andi v608 v605
  let v610 : BitVec 32 := Scalar.addi v604 v603
  let v611 : BitVec 32 := Scalar.select v609 v610 v604
  let c64_i32_311 : BitVec 32 := 64#32
  let v612 : BitVec 32 := Scalar.muli v611 c64_i32_311
  ![1, v601.toNat, v612.toNat]
def k1_off67 (v624 : BitVec 32) : Fin 2 → Nat :=
  let c0_i32_331 : BitVec 32 := 0#32
  ![v624.toNat, 0]

def k1_chk31 (v624 : BitVec 32) : Prop :=
  (∀ a, (k1_off67 v624) a + S1x64.size a ≤ S1000000x64.size a)
instance k1_chk31.dec : ∀ (v624 : BitVec 32), Decidable (k1_chk31 v624) := fun v624 => decidable_of_iff' _ (Iff.of_eq (k1_chk31.eq_1 v624))
theorem k1_off67_inb : ∀ (v624 : BitVec 32) (k1_hw31 : k1_chk31 v624), ∀ a, (k1_off67 v624) a + S1x64.size a ≤ S1000000x64.size a := fun v624 k1_hw31 => k1_hw31

def k1_off68 (k1_t2 : Fin k1_t2_loop.trips) (c14_i32 : BitVec 32) : Fin 3 → Nat :=
  let c1_i32_330 : BitVec 32 := 1#32
  let c0_i32_4 : BitVec 32 := 0#32
  let c1_i32_6 : BitVec 32 := 1#32
  let arg12 : BitVec 32 := Scf.iv c0_i32_4 c1_i32_6 k1_t2
  let c16_i32_315 : BitVec 32 := 16#32
  let v621 : BitVec 32 := Scalar.muli arg12 c16_i32_315
  let v622 : BitVec 32 := Scalar.addi v621 c14_i32
  let c0_i32_317 : BitVec 32 := 0#32
  let v626 : BitVec 1 := Scalar.cmpi .sgt v622 c0_i32_317
  let v627 : BitVec 32 := Scalar.extui v626
  let c0_i32_318 : BitVec 32 := 0#32
  let v628 : BitVec 1 := Scalar.cmpi .slt v622 c0_i32_318
  let v629 : BitVec 32 := Scalar.extui v628
  let v630 : BitVec 32 := Scalar.subi v627 v629
  let c2_i32_316 : BitVec 32 := 2#32
  let c0_i32_319 : BitVec 32 := 0#32
  let v631 : BitVec 1 := Scalar.cmpi .sgt c2_i32_316 c0_i32_319
  let v632 : BitVec 32 := Scalar.extui v631
  let c0_i32_320 : BitVec 32 := 0#32
  let v633 : BitVec 1 := Scalar.cmpi .slt c2_i32_316 c0_i32_320
  let v634 : BitVec 32 := Scalar.extui v633
  let v635 : BitVec 32 := Scalar.subi v632 v634
  let v636 : BitVec 1 := Scalar.cmpi .ne v630 v635
  let v637 : BitVec 32 := Scalar.remsi v622 c2_i32_316
  let c0_i32_321 : BitVec 32 := 0#32
  let v638 : BitVec 1 := Scalar.cmpi .ne v637 c0_i32_321
  let v639 : BitVec 1 := Scalar.andi v636 v638
  let v625 : BitVec 32 := Scalar.divsi v622 c2_i32_316
  let c1_i32_322 : BitVec 32 := 1#32
  let v640 : BitVec 32 := Scalar.subi v625 c1_i32_322
  let v641 : BitVec 32 := Scalar.select v639 v640 v625
  let c2_i32_323 : BitVec 32 := 2#32
  let c0_i32_324 : BitVec 32 := 0#32
  let v642 : BitVec 1 := Scalar.cmpi .eq c2_i32_323 c0_i32_324
  let c1_i32_325 : BitVec 32 := 1#32
  let v643 : BitVec 32 := Scalar.select v642 c1_i32_325 c2_i32_323
  let v644 : BitVec 32 := Scalar.remsi v622 v643
  let c0_i32_327 : BitVec 32 := 0#32
  let v646 : BitVec 1 := Scalar.cmpi .slt v644 c0_i32_327
  let c0_i32_328 : BitVec 32 := 0#32
  let v647 : BitVec 1 := Scalar.cmpi .slt v643 c0_i32_328
  let v648 : BitVec 1 := Scalar.xori v646 v647
  let c0_i32_326 : BitVec 32 := 0#32
  let v645 : BitVec 1 := Scalar.cmpi .ne v644 c0_i32_326
  let v649 : BitVec 1 := Scalar.andi v648 v645
  let v650 : BitVec 32 := Scalar.addi v644 v643
  let v651 : BitVec 32 := Scalar.select v649 v650 v644
  let c64_i32_329 : BitVec 32 := 64#32
  let v652 : BitVec 32 := Scalar.muli v651 c64_i32_329
  ![1, v641.toNat, v652.toNat]
def k1_off69 (v664 : BitVec 32) : Fin 2 → Nat :=
  let c0_i32_350 : BitVec 32 := 0#32
  ![v664.toNat, 0]

def k1_chk32 (v664 : BitVec 32) : Prop :=
  (∀ a, (k1_off69 v664) a + S1x64.size a ≤ S1000000x64.size a)
instance k1_chk32.dec : ∀ (v664 : BitVec 32), Decidable (k1_chk32 v664) := fun v664 => decidable_of_iff' _ (Iff.of_eq (k1_chk32.eq_1 v664))
theorem k1_off69_inb : ∀ (v664 : BitVec 32) (k1_hw32 : k1_chk32 v664), ∀ a, (k1_off69 v664) a + S1x64.size a ≤ S1000000x64.size a := fun v664 k1_hw32 => k1_hw32

def k1_off70 (k1_t2 : Fin k1_t2_loop.trips) : Fin 3 → Nat :=
  let c1_i32_349 : BitVec 32 := 1#32
  let c0_i32_4 : BitVec 32 := 0#32
  let c1_i32_6 : BitVec 32 := 1#32
  let arg12 : BitVec 32 := Scf.iv c0_i32_4 c1_i32_6 k1_t2
  let c16_i32_333 : BitVec 32 := 16#32
  let v661 : BitVec 32 := Scalar.muli arg12 c16_i32_333
  let c15_i32_334 : BitVec 32 := 15#32
  let v662 : BitVec 32 := Scalar.addi v661 c15_i32_334
  let c0_i32_336 : BitVec 32 := 0#32
  let v666 : BitVec 1 := Scalar.cmpi .sgt v662 c0_i32_336
  let v667 : BitVec 32 := Scalar.extui v666
  let c0_i32_337 : BitVec 32 := 0#32
  let v668 : BitVec 1 := Scalar.cmpi .slt v662 c0_i32_337
  let v669 : BitVec 32 := Scalar.extui v668
  let v670 : BitVec 32 := Scalar.subi v667 v669
  let c2_i32_335 : BitVec 32 := 2#32
  let c0_i32_338 : BitVec 32 := 0#32
  let v671 : BitVec 1 := Scalar.cmpi .sgt c2_i32_335 c0_i32_338
  let v672 : BitVec 32 := Scalar.extui v671
  let c0_i32_339 : BitVec 32 := 0#32
  let v673 : BitVec 1 := Scalar.cmpi .slt c2_i32_335 c0_i32_339
  let v674 : BitVec 32 := Scalar.extui v673
  let v675 : BitVec 32 := Scalar.subi v672 v674
  let v676 : BitVec 1 := Scalar.cmpi .ne v670 v675
  let v677 : BitVec 32 := Scalar.remsi v662 c2_i32_335
  let c0_i32_340 : BitVec 32 := 0#32
  let v678 : BitVec 1 := Scalar.cmpi .ne v677 c0_i32_340
  let v679 : BitVec 1 := Scalar.andi v676 v678
  let v665 : BitVec 32 := Scalar.divsi v662 c2_i32_335
  let c1_i32_341 : BitVec 32 := 1#32
  let v680 : BitVec 32 := Scalar.subi v665 c1_i32_341
  let v681 : BitVec 32 := Scalar.select v679 v680 v665
  let c2_i32_342 : BitVec 32 := 2#32
  let c0_i32_343 : BitVec 32 := 0#32
  let v682 : BitVec 1 := Scalar.cmpi .eq c2_i32_342 c0_i32_343
  let c1_i32_344 : BitVec 32 := 1#32
  let v683 : BitVec 32 := Scalar.select v682 c1_i32_344 c2_i32_342
  let v684 : BitVec 32 := Scalar.remsi v662 v683
  let c0_i32_346 : BitVec 32 := 0#32
  let v686 : BitVec 1 := Scalar.cmpi .slt v684 c0_i32_346
  let c0_i32_347 : BitVec 32 := 0#32
  let v687 : BitVec 1 := Scalar.cmpi .slt v683 c0_i32_347
  let v688 : BitVec 1 := Scalar.xori v686 v687
  let c0_i32_345 : BitVec 32 := 0#32
  let v685 : BitVec 1 := Scalar.cmpi .ne v684 c0_i32_345
  let v689 : BitVec 1 := Scalar.andi v688 v685
  let v690 : BitVec 32 := Scalar.addi v684 v683
  let v691 : BitVec 32 := Scalar.select v689 v690 v684
  let c64_i32_348 : BitVec 32 := 64#32
  let v692 : BitVec 32 := Scalar.muli v691 c64_i32_348
  ![1, v681.toNat, v692.toNat]
@[reducible] def k1_t3_loop : Scf.Loop 32 :=
  let c0_i32_9 : BitVec 32 := 0#32
  let c16_i32_10 : BitVec 32 := 16#32
  let v8 : BitVec 32 := Scalar.addi c0_i32_9 c16_i32_10
  let c1_i32_11 : BitVec 32 := 1#32
  ⟨c0_i32_9, v8, c1_i32_11⟩
def k1_off71 (k1_t3 : Fin k1_t3_loop.trips) (c0_i32_61 : BitVec 32) : Fin 3 → Nat :=
  let c0_i32_76 : BitVec 32 := 0#32
  let c0_i32_9 : BitVec 32 := 0#32
  let c1_i32_11 : BitVec 32 := 1#32
  let arg12 : BitVec 32 := Scf.iv c0_i32_9 c1_i32_11 k1_t3
  let c16_i32_60 : BitVec 32 := 16#32
  let v57 : BitVec 32 := Scalar.muli arg12 c16_i32_60
  let v58 : BitVec 32 := Scalar.addi v57 c0_i32_61
  let c0_i32_63 : BitVec 32 := 0#32
  let v60 : BitVec 1 := Scalar.cmpi .sgt v58 c0_i32_63
  let v61 : BitVec 32 := Scalar.extui v60
  let c0_i32_64 : BitVec 32 := 0#32
  let v62 : BitVec 1 := Scalar.cmpi .slt v58 c0_i32_64
  let v63 : BitVec 32 := Scalar.extui v62
  let v64 : BitVec 32 := Scalar.subi v61 v63
  let c2_i32_62 : BitVec 32 := 2#32
  let c0_i32_65 : BitVec 32 := 0#32
  let v65 : BitVec 1 := Scalar.cmpi .sgt c2_i32_62 c0_i32_65
  let v66 : BitVec 32 := Scalar.extui v65
  let c0_i32_66 : BitVec 32 := 0#32
  let v67 : BitVec 1 := Scalar.cmpi .slt c2_i32_62 c0_i32_66
  let v68 : BitVec 32 := Scalar.extui v67
  let v69 : BitVec 32 := Scalar.subi v66 v68
  let v70 : BitVec 1 := Scalar.cmpi .ne v64 v69
  let v71 : BitVec 32 := Scalar.remsi v58 c2_i32_62
  let c0_i32_67 : BitVec 32 := 0#32
  let v72 : BitVec 1 := Scalar.cmpi .ne v71 c0_i32_67
  let v73 : BitVec 1 := Scalar.andi v70 v72
  let v59 : BitVec 32 := Scalar.divsi v58 c2_i32_62
  let c1_i32_68 : BitVec 32 := 1#32
  let v74 : BitVec 32 := Scalar.subi v59 c1_i32_68
  let v75 : BitVec 32 := Scalar.select v73 v74 v59
  let c2_i32_69 : BitVec 32 := 2#32
  let c0_i32_70 : BitVec 32 := 0#32
  let v76 : BitVec 1 := Scalar.cmpi .eq c2_i32_69 c0_i32_70
  let c1_i32_71 : BitVec 32 := 1#32
  let v77 : BitVec 32 := Scalar.select v76 c1_i32_71 c2_i32_69
  let v78 : BitVec 32 := Scalar.remsi v58 v77
  let c0_i32_73 : BitVec 32 := 0#32
  let v80 : BitVec 1 := Scalar.cmpi .slt v78 c0_i32_73
  let c0_i32_74 : BitVec 32 := 0#32
  let v81 : BitVec 1 := Scalar.cmpi .slt v77 c0_i32_74
  let v82 : BitVec 1 := Scalar.xori v80 v81
  let c0_i32_72 : BitVec 32 := 0#32
  let v79 : BitVec 1 := Scalar.cmpi .ne v78 c0_i32_72
  let v83 : BitVec 1 := Scalar.andi v82 v79
  let v84 : BitVec 32 := Scalar.addi v78 v77
  let v85 : BitVec 32 := Scalar.select v83 v84 v78
  let c64_i32 : BitVec 32 := 64#32
  let v86 : BitVec 32 := Scalar.muli v85 c64_i32
  ![0, v75.toNat, v86.toNat]
def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let v10 : BitVec 1 := Scalar.cmpi .sgt v2 c0_i32_14
  let v11 : BitVec 32 := Scalar.extui v10
  let c0_i32_15 : BitVec 32 := 0#32
  let v12 : BitVec 1 := Scalar.cmpi .slt v2 c0_i32_15
  let v13 : BitVec 32 := Scalar.extui v12
  let v14 : BitVec 32 := Scalar.subi v11 v13
  let c2_i32_13 : BitVec 32 := 2#32
  let c0_i32_16 : BitVec 32 := 0#32
  let v15 : BitVec 1 := Scalar.cmpi .sgt c2_i32_13 c0_i32_16
  let v16 : BitVec 32 := Scalar.extui v15
  let c0_i32_17 : BitVec 32 := 0#32
  let v17 : BitVec 1 := Scalar.cmpi .slt c2_i32_13 c0_i32_17
  let v18 : BitVec 32 := Scalar.extui v17
  let v19 : BitVec 32 := Scalar.subi v16 v18
  let v20 : BitVec 1 := Scalar.cmpi .ne v14 v19
  let v21 : BitVec 32 := Scalar.remsi v2 c2_i32_13
  let c0_i32_18 : BitVec 32 := 0#32
  let v22 : BitVec 1 := Scalar.cmpi .ne v21 c0_i32_18
  let v23 : BitVec 1 := Scalar.andi v20 v22
  let v9 : BitVec 32 := Scalar.divsi v2 c2_i32_13
  let c1_i32_19 : BitVec 32 := 1#32
  let v24 : BitVec 32 := Scalar.subi v9 c1_i32_19
  let v25 : BitVec 32 := Scalar.select v23 v24 v9
  v25
def k1_off72 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let v10 : BitVec 1 := Scalar.cmpi .sgt v2 c0_i32_14
  let v11 : BitVec 32 := Scalar.extui v10
  let c0_i32_15 : BitVec 32 := 0#32
  let v12 : BitVec 1 := Scalar.cmpi .slt v2 c0_i32_15
  let v13 : BitVec 32 := Scalar.extui v12
  let v14 : BitVec 32 := Scalar.subi v11 v13
  let c2_i32_13 : BitVec 32 := 2#32
  let c0_i32_16 : BitVec 32 := 0#32
  let v15 : BitVec 1 := Scalar.cmpi .sgt c2_i32_13 c0_i32_16
  let v16 : BitVec 32 := Scalar.extui v15
  let c0_i32_17 : BitVec 32 := 0#32
  let v17 : BitVec 1 := Scalar.cmpi .slt c2_i32_13 c0_i32_17
  let v18 : BitVec 32 := Scalar.extui v17
  let v19 : BitVec 32 := Scalar.subi v16 v18
  let v20 : BitVec 1 := Scalar.cmpi .ne v14 v19
  let v21 : BitVec 32 := Scalar.remsi v2 c2_i32_13
  let c0_i32_18 : BitVec 32 := 0#32
  let v22 : BitVec 1 := Scalar.cmpi .ne v21 c0_i32_18
  let v23 : BitVec 1 := Scalar.andi v20 v22
  let v9 : BitVec 32 := Scalar.divsi v2 c2_i32_13
  let c1_i32_19 : BitVec 32 := 1#32
  let v24 : BitVec 32 := Scalar.subi v9 c1_i32_19
  let v25 : BitVec 32 := Scalar.select v23 v24 v9
  let v26 : BitVec 32 := v25
  let c0_i32_62_r2 : BitVec 32 := 0#32
  ![v26.toNat, 0]
def k1_off73 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v3 : BitVec 32 := Scalar.muli v1 c10240_i32
  ![v3.toNat]
@[reducible] def k1_t4_loop : Scf.Loop 32 :=
  let c0_i32_22 : BitVec 32 := 0#32
  let c20_i32 : BitVec 32 := 20#32
  let v27 : BitVec 32 := Scalar.addi c0_i32_22 c20_i32
  let c1_i32_23 : BitVec 32 := 1#32
  ⟨c0_i32_22, v27, c1_i32_23⟩
def k1_off74 (k1_t4 : Fin k1_t4_loop.trips) : Fin 1 → Nat :=
  let c0_i32_22 : BitVec 32 := 0#32
  let c1_i32_23 : BitVec 32 := 1#32
  let arg12 : BitVec 32 := Scf.iv c0_i32_22 c1_i32_23 k1_t4
  let c16_i32_60 : BitVec 32 := 16#32
  let v57 : BitVec 32 := Scalar.muli arg12 c16_i32_60
  let v58 : Index := Scalar.indexCast v57
  ![v58.toNat]
def k1_off75 (k1_t4 : Fin k1_t4_loop.trips) : Fin 3 → Nat :=
  let c0_i32_76 : BitVec 32 := 0#32
  let c0_i32_22 : BitVec 32 := 0#32
  let c1_i32_23 : BitVec 32 := 1#32
  let arg12 : BitVec 32 := Scf.iv c0_i32_22 c1_i32_23 k1_t4
  let c16_i32_61 : BitVec 32 := 16#32
  let v61 : BitVec 32 := Scalar.muli arg12 c16_i32_61
  let c0_i32_62 : BitVec 32 := 0#32
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c20_i32_63 : BitVec 32 := 20#32
  let c0_i32_66 : BitVec 32 := 0#32
  let v71 : BitVec 1 := Scalar.cmpi .sgt c20_i32_63 c0_i32_66
  let v72 : BitVec 32 := Scalar.extui v71
  let c0_i32_67 : BitVec 32 := 0#32
  let v73 : BitVec 1 := Scalar.cmpi .slt c20_i32_63 c0_i32_67
  let v74 : BitVec 32 := Scalar.extui v73
  let v75 : BitVec 32 := Scalar.subi v72 v74
  let v76 : BitVec 1 := Scalar.cmpi .ne v70 v75
  let v77 : BitVec 32 := Scalar.remsi v62 c20_i32_63
  let c0_i32_68 : BitVec 32 := 0#32
  let v78 : BitVec 1 := Scalar.cmpi .ne v77 c0_i32_68
  let v79 : BitVec 1 := Scalar.andi v76 v78
  let v65 : BitVec 32 := Scalar.divsi v62 c20_i32_63
  let c1_i32_69 : BitVec 32 := 1#32
  let v80 : BitVec 32 := Scalar.subi v65 c1_i32_69
  let v81 : BitVec 32 := Scalar.select v79 v80 v65
  let c20_i32_70 : BitVec 32 := 20#32
  let c0_i32_71 : BitVec 32 := 0#32
  let v82 : BitVec 1 := Scalar.cmpi .eq c20_i32_70 c0_i32_71
  let c1_i32_72 : BitVec 32 := 1#32
  let v83 : BitVec 32 := Scalar.select v82 c1_i32_72 c20_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![0, v81.toNat, v92.toNat]
def k1_off76 (v64 : BitVec 32) : Fin 2 → Nat :=
  let c0_i32_77 : BitVec 32 := 0#32
  ![v64.toNat, 0]

def k1_chk33 (v64 : BitVec 32) : Prop :=
  (∀ a, (k1_off76 v64) a + S1x64.size a ≤ S1000000x64.size a)
instance k1_chk33.dec : ∀ (v64 : BitVec 32), Decidable (k1_chk33 v64) := fun v64 => decidable_of_iff' _ (Iff.of_eq (k1_chk33.eq_1 v64))
theorem k1_off76_inb : ∀ (v64 : BitVec 32) (k1_hw33 : k1_chk33 v64), ∀ a, (k1_off76 v64) a + S1x64.size a ≤ S1000000x64.size a := fun v64 k1_hw33 => k1_hw33

def k1_off77 (k1_t4 : Fin k1_t4_loop.trips) (c0_i32_62 : BitVec 32) : Fin 3 → Nat :=
  let c0_i32_76 : BitVec 32 := 0#32
  let c0_i32_22 : BitVec 32 := 0#32
  let c1_i32_23 : BitVec 32 := 1#32
  let arg12 : BitVec 32 := Scf.iv c0_i32_22 c1_i32_23 k1_t4
  let c16_i32_61 : BitVec 32 := 16#32
  let v61 : BitVec 32 := Scalar.muli arg12 c16_i32_61
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c20_i32_63 : BitVec 32 := 20#32
  let c0_i32_66 : BitVec 32 := 0#32
  let v71 : BitVec 1 := Scalar.cmpi .sgt c20_i32_63 c0_i32_66
  let v72 : BitVec 32 := Scalar.extui v71
  let c0_i32_67 : BitVec 32 := 0#32
  let v73 : BitVec 1 := Scalar.cmpi .slt c20_i32_63 c0_i32_67
  let v74 : BitVec 32 := Scalar.extui v73
  let v75 : BitVec 32 := Scalar.subi v72 v74
  let v76 : BitVec 1 := Scalar.cmpi .ne v70 v75
  let v77 : BitVec 32 := Scalar.remsi v62 c20_i32_63
  let c0_i32_68 : BitVec 32 := 0#32
  let v78 : BitVec 1 := Scalar.cmpi .ne v77 c0_i32_68
  let v79 : BitVec 1 := Scalar.andi v76 v78
  let v65 : BitVec 32 := Scalar.divsi v62 c20_i32_63
  let c1_i32_69 : BitVec 32 := 1#32
  let v80 : BitVec 32 := Scalar.subi v65 c1_i32_69
  let v81 : BitVec 32 := Scalar.select v79 v80 v65
  let c20_i32_70 : BitVec 32 := 20#32
  let c0_i32_71 : BitVec 32 := 0#32
  let v82 : BitVec 1 := Scalar.cmpi .eq c20_i32_70 c0_i32_71
  let c1_i32_72 : BitVec 32 := 1#32
  let v83 : BitVec 32 := Scalar.select v82 c1_i32_72 c20_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![0, v81.toNat, v92.toNat]
def k1_off78 (v104 : BitVec 32) : Fin 2 → Nat :=
  let c0_i32_96 : BitVec 32 := 0#32
  ![v104.toNat, 0]

def k1_chk34 (v104 : BitVec 32) : Prop :=
  (∀ a, (k1_off78 v104) a + S1x64.size a ≤ S1000000x64.size a)
instance k1_chk34.dec : ∀ (v104 : BitVec 32), Decidable (k1_chk34 v104) := fun v104 => decidable_of_iff' _ (Iff.of_eq (k1_chk34.eq_1 v104))
theorem k1_off78_inb : ∀ (v104 : BitVec 32) (k1_hw34 : k1_chk34 v104), ∀ a, (k1_off78 v104) a + S1x64.size a ≤ S1000000x64.size a := fun v104 k1_hw34 => k1_hw34

def k1_off79 (k1_t4 : Fin k1_t4_loop.trips) (c1_i32_80 : BitVec 32) : Fin 3 → Nat :=
  let c0_i32_95 : BitVec 32 := 0#32
  let c0_i32_22 : BitVec 32 := 0#32
  let c1_i32_23 : BitVec 32 := 1#32
  let arg12 : BitVec 32 := Scf.iv c0_i32_22 c1_i32_23 k1_t4
  let c16_i32_79 : BitVec 32 := 16#32
  let v101 : BitVec 32 := Scalar.muli arg12 c16_i32_79
  let v102 : BitVec 32 := Scalar.addi v101 c1_i32_80
  let c0_i32_82 : BitVec 32 := 0#32
  let v106 : BitVec 1 := Scalar.cmpi .sgt v102 c0_i32_82
  let v107 : BitVec 32 := Scalar.extui v106
  let c0_i32_83 : BitVec 32 := 0#32
  let v108 : BitVec 1 := Scalar.cmpi .slt v102 c0_i32_83
  let v109 : BitVec 32 := Scalar.extui v108
  let v110 : BitVec 32 := Scalar.subi v107 v109
  let c20_i32_81 : BitVec 32 := 20#32
  let c0_i32_84 : BitVec 32 := 0#32
  let v111 : BitVec 1 := Scalar.cmpi .sgt c20_i32_81 c0_i32_84
  let v112 : BitVec 32 := Scalar.extui v111
  let c0_i32_85 : BitVec 32 := 0#32
  let v113 : BitVec 1 := Scalar.cmpi .slt c20_i32_81 c0_i32_85
  let v114 : BitVec 32 := Scalar.extui v113
  let v115 : BitVec 32 := Scalar.subi v112 v114
  let v116 : BitVec 1 := Scalar.cmpi .ne v110 v115
  let v117 : BitVec 32 := Scalar.remsi v102 c20_i32_81
  let c0_i32_86 : BitVec 32 := 0#32
  let v118 : BitVec 1 := Scalar.cmpi .ne v117 c0_i32_86
  let v119 : BitVec 1 := Scalar.andi v116 v118
  let v105 : BitVec 32 := Scalar.divsi v102 c20_i32_81
  let c1_i32_87 : BitVec 32 := 1#32
  let v120 : BitVec 32 := Scalar.subi v105 c1_i32_87
  let v121 : BitVec 32 := Scalar.select v119 v120 v105
  let c20_i32_88 : BitVec 32 := 20#32
  let c0_i32_89 : BitVec 32 := 0#32
  let v122 : BitVec 1 := Scalar.cmpi .eq c20_i32_88 c0_i32_89
  let c1_i32_90 : BitVec 32 := 1#32
  let v123 : BitVec 32 := Scalar.select v122 c1_i32_90 c20_i32_88
  let v124 : BitVec 32 := Scalar.remsi v102 v123
  let c0_i32_92 : BitVec 32 := 0#32
  let v126 : BitVec 1 := Scalar.cmpi .slt v124 c0_i32_92
  let c0_i32_93 : BitVec 32 := 0#32
  let v127 : BitVec 1 := Scalar.cmpi .slt v123 c0_i32_93
  let v128 : BitVec 1 := Scalar.xori v126 v127
  let c0_i32_91 : BitVec 32 := 0#32
  let v125 : BitVec 1 := Scalar.cmpi .ne v124 c0_i32_91
  let v129 : BitVec 1 := Scalar.andi v128 v125
  let v130 : BitVec 32 := Scalar.addi v124 v123
  let v131 : BitVec 32 := Scalar.select v129 v130 v124
  let c64_i32_94 : BitVec 32 := 64#32
  let v132 : BitVec 32 := Scalar.muli v131 c64_i32_94
  ![0, v121.toNat, v132.toNat]
def k1_off80 (v144 : BitVec 32) : Fin 2 → Nat :=
  let c0_i32_115 : BitVec 32 := 0#32
  ![v144.toNat, 0]

def k1_chk35 (v144 : BitVec 32) : Prop :=
  (∀ a, (k1_off80 v144) a + S1x64.size a ≤ S1000000x64.size a)
instance k1_chk35.dec : ∀ (v144 : BitVec 32), Decidable (k1_chk35 v144) := fun v144 => decidable_of_iff' _ (Iff.of_eq (k1_chk35.eq_1 v144))
theorem k1_off80_inb : ∀ (v144 : BitVec 32) (k1_hw35 : k1_chk35 v144), ∀ a, (k1_off80 v144) a + S1x64.size a ≤ S1000000x64.size a := fun v144 k1_hw35 => k1_hw35

def k1_off81 (k1_t4 : Fin k1_t4_loop.trips) (c2_i32_99 : BitVec 32) : Fin 3 → Nat :=
  let c0_i32_114 : BitVec 32 := 0#32
  let c0_i32_22 : BitVec 32 := 0#32
  let c1_i32_23 : BitVec 32 := 1#32
  let arg12 : BitVec 32 := Scf.iv c0_i32_22 c1_i32_23 k1_t4
  let c16_i32_98 : BitVec 32 := 16#32
  let v141 : BitVec 32 := Scalar.muli arg12 c16_i32_98
  let v142 : BitVec 32 := Scalar.addi v141 c2_i32_99
  let c0_i32_101 : BitVec 32 := 0#32
  let v146 : BitVec 1 := Scalar.cmpi .sgt v142 c0_i32_101
  let v147 : BitVec 32 := Scalar.extui v146
  let c0_i32_102 : BitVec 32 := 0#32
  let v148 : BitVec 1 := Scalar.cmpi .slt v142 c0_i32_102
  let v149 : BitVec 32 := Scalar.extui v148
  let v150 : BitVec 32 := Scalar.subi v147 v149
  let c20_i32_100 : BitVec 32 := 20#32
  let c0_i32_103 : BitVec 32 := 0#32
  let v151 : BitVec 1 := Scalar.cmpi .sgt c20_i32_100 c0_i32_103
  let v152 : BitVec 32 := Scalar.extui v151
  let c0_i32_104 : BitVec 32 := 0#32
  let v153 : BitVec 1 := Scalar.cmpi .slt c20_i32_100 c0_i32_104
  let v154 : BitVec 32 := Scalar.extui v153
  let v155 : BitVec 32 := Scalar.subi v152 v154
  let v156 : BitVec 1 := Scalar.cmpi .ne v150 v155
  let v157 : BitVec 32 := Scalar.remsi v142 c20_i32_100
  let c0_i32_105 : BitVec 32 := 0#32
  let v158 : BitVec 1 := Scalar.cmpi .ne v157 c0_i32_105
  let v159 : BitVec 1 := Scalar.andi v156 v158
  let v145 : BitVec 32 := Scalar.divsi v142 c20_i32_100
  let c1_i32_106 : BitVec 32 := 1#32
  let v160 : BitVec 32 := Scalar.subi v145 c1_i32_106
  let v161 : BitVec 32 := Scalar.select v159 v160 v145
  let c20_i32_107 : BitVec 32 := 20#32
  let c0_i32_108 : BitVec 32 := 0#32
  let v162 : BitVec 1 := Scalar.cmpi .eq c20_i32_107 c0_i32_108
  let c1_i32_109 : BitVec 32 := 1#32
  let v163 : BitVec 32 := Scalar.select v162 c1_i32_109 c20_i32_107
  let v164 : BitVec 32 := Scalar.remsi v142 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c64_i32_113 : BitVec 32 := 64#32
  let v172 : BitVec 32 := Scalar.muli v171 c64_i32_113
  ![0, v161.toNat, v172.toNat]
def k1_off82 (v184 : BitVec 32) : Fin 2 → Nat :=
  let c0_i32_133 : BitVec 32 := 0#32
  ![v184.toNat, 0]

def k1_chk36 (v184 : BitVec 32) : Prop :=
  (∀ a, (k1_off82 v184) a + S1x64.size a ≤ S1000000x64.size a)
instance k1_chk36.dec : ∀ (v184 : BitVec 32), Decidable (k1_chk36 v184) := fun v184 => decidable_of_iff' _ (Iff.of_eq (k1_chk36.eq_1 v184))
theorem k1_off82_inb : ∀ (v184 : BitVec 32) (k1_hw36 : k1_chk36 v184), ∀ a, (k1_off82 v184) a + S1x64.size a ≤ S1000000x64.size a := fun v184 k1_hw36 => k1_hw36

def k1_off83 (k1_t4 : Fin k1_t4_loop.trips) (c3_i32 : BitVec 32) : Fin 3 → Nat :=
  let c0_i32_132 : BitVec 32 := 0#32
  let c0_i32_22 : BitVec 32 := 0#32
  let c1_i32_23 : BitVec 32 := 1#32
  let arg12 : BitVec 32 := Scf.iv c0_i32_22 c1_i32_23 k1_t4
  let c16_i32_117 : BitVec 32 := 16#32
  let v181 : BitVec 32 := Scalar.muli arg12 c16_i32_117
  let v182 : BitVec 32 := Scalar.addi v181 c3_i32
  let c0_i32_119 : BitVec 32 := 0#32
  let v186 : BitVec 1 := Scalar.cmpi .sgt v182 c0_i32_119
  let v187 : BitVec 32 := Scalar.extui v186
  let c0_i32_120 : BitVec 32 := 0#32
  let v188 : BitVec 1 := Scalar.cmpi .slt v182 c0_i32_120
  let v189 : BitVec 32 := Scalar.extui v188
  let v190 : BitVec 32 := Scalar.subi v187 v189
  let c20_i32_118 : BitVec 32 := 20#32
  let c0_i32_121 : BitVec 32 := 0#32
  let v191 : BitVec 1 := Scalar.cmpi .sgt c20_i32_118 c0_i32_121
  let v192 : BitVec 32 := Scalar.extui v191
  let c0_i32_122 : BitVec 32 := 0#32
  let v193 : BitVec 1 := Scalar.cmpi .slt c20_i32_118 c0_i32_122
  let v194 : BitVec 32 := Scalar.extui v193
  let v195 : BitVec 32 := Scalar.subi v192 v194
  let v196 : BitVec 1 := Scalar.cmpi .ne v190 v195
  let v197 : BitVec 32 := Scalar.remsi v182 c20_i32_118
  let c0_i32_123 : BitVec 32 := 0#32
  let v198 : BitVec 1 := Scalar.cmpi .ne v197 c0_i32_123
  let v199 : BitVec 1 := Scalar.andi v196 v198
  let v185 : BitVec 32 := Scalar.divsi v182 c20_i32_118
  let c1_i32_124 : BitVec 32 := 1#32
  let v200 : BitVec 32 := Scalar.subi v185 c1_i32_124
  let v201 : BitVec 32 := Scalar.select v199 v200 v185
  let c20_i32_125 : BitVec 32 := 20#32
  let c0_i32_126 : BitVec 32 := 0#32
  let v202 : BitVec 1 := Scalar.cmpi .eq c20_i32_125 c0_i32_126
  let c1_i32_127 : BitVec 32 := 1#32
  let v203 : BitVec 32 := Scalar.select v202 c1_i32_127 c20_i32_125
  let v204 : BitVec 32 := Scalar.remsi v182 v203
  let c0_i32_129 : BitVec 32 := 0#32
  let v206 : BitVec 1 := Scalar.cmpi .slt v204 c0_i32_129
  let c0_i32_130 : BitVec 32 := 0#32
  let v207 : BitVec 1 := Scalar.cmpi .slt v203 c0_i32_130
  let v208 : BitVec 1 := Scalar.xori v206 v207
  let c0_i32_128 : BitVec 32 := 0#32
  let v205 : BitVec 1 := Scalar.cmpi .ne v204 c0_i32_128
  let v209 : BitVec 1 := Scalar.andi v208 v205
  let v210 : BitVec 32 := Scalar.addi v204 v203
  let v211 : BitVec 32 := Scalar.select v209 v210 v204
  let c64_i32_131 : BitVec 32 := 64#32
  let v212 : BitVec 32 := Scalar.muli v211 c64_i32_131
  ![0, v201.toNat, v212.toNat]
def k1_off84 (v224 : BitVec 32) : Fin 2 → Nat :=
  let c0_i32_151 : BitVec 32 := 0#32
  ![v224.toNat, 0]

def k1_chk37 (v224 : BitVec 32) : Prop :=
  (∀ a, (k1_off84 v224) a + S1x64.size a ≤ S1000000x64.size a)
instance k1_chk37.dec : ∀ (v224 : BitVec 32), Decidable (k1_chk37 v224) := fun v224 => decidable_of_iff' _ (Iff.of_eq (k1_chk37.eq_1 v224))
theorem k1_off84_inb : ∀ (v224 : BitVec 32) (k1_hw37 : k1_chk37 v224), ∀ a, (k1_off84 v224) a + S1x64.size a ≤ S1000000x64.size a := fun v224 k1_hw37 => k1_hw37

def k1_off85 (k1_t4 : Fin k1_t4_loop.trips) (c4_i32 : BitVec 32) : Fin 3 → Nat :=
  let c0_i32_150 : BitVec 32 := 0#32
  let c0_i32_22 : BitVec 32 := 0#32
  let c1_i32_23 : BitVec 32 := 1#32
  let arg12 : BitVec 32 := Scf.iv c0_i32_22 c1_i32_23 k1_t4
  let c16_i32_135 : BitVec 32 := 16#32
  let v221 : BitVec 32 := Scalar.muli arg12 c16_i32_135
  let v222 : BitVec 32 := Scalar.addi v221 c4_i32
  let c0_i32_137 : BitVec 32 := 0#32
  let v226 : BitVec 1 := Scalar.cmpi .sgt v222 c0_i32_137
  let v227 : BitVec 32 := Scalar.extui v226
  let c0_i32_138 : BitVec 32 := 0#32
  let v228 : BitVec 1 := Scalar.cmpi .slt v222 c0_i32_138
  let v229 : BitVec 32 := Scalar.extui v228
  let v230 : BitVec 32 := Scalar.subi v227 v229
  let c20_i32_136 : BitVec 32 := 20#32
  let c0_i32_139 : BitVec 32 := 0#32
  let v231 : BitVec 1 := Scalar.cmpi .sgt c20_i32_136 c0_i32_139
  let v232 : BitVec 32 := Scalar.extui v231
  let c0_i32_140 : BitVec 32 := 0#32
  let v233 : BitVec 1 := Scalar.cmpi .slt c20_i32_136 c0_i32_140
  let v234 : BitVec 32 := Scalar.extui v233
  let v235 : BitVec 32 := Scalar.subi v232 v234
  let v236 : BitVec 1 := Scalar.cmpi .ne v230 v235
  let v237 : BitVec 32 := Scalar.remsi v222 c20_i32_136
  let c0_i32_141 : BitVec 32 := 0#32
  let v238 : BitVec 1 := Scalar.cmpi .ne v237 c0_i32_141
  let v239 : BitVec 1 := Scalar.andi v236 v238
  let v225 : BitVec 32 := Scalar.divsi v222 c20_i32_136
  let c1_i32_142 : BitVec 32 := 1#32
  let v240 : BitVec 32 := Scalar.subi v225 c1_i32_142
  let v241 : BitVec 32 := Scalar.select v239 v240 v225
  let c20_i32_143 : BitVec 32 := 20#32
  let c0_i32_144 : BitVec 32 := 0#32
  let v242 : BitVec 1 := Scalar.cmpi .eq c20_i32_143 c0_i32_144
  let c1_i32_145 : BitVec 32 := 1#32
  let v243 : BitVec 32 := Scalar.select v242 c1_i32_145 c20_i32_143
  let v244 : BitVec 32 := Scalar.remsi v222 v243
  let c0_i32_147 : BitVec 32 := 0#32
  let v246 : BitVec 1 := Scalar.cmpi .slt v244 c0_i32_147
  let c0_i32_148 : BitVec 32 := 0#32
  let v247 : BitVec 1 := Scalar.cmpi .slt v243 c0_i32_148
  let v248 : BitVec 1 := Scalar.xori v246 v247
  let c0_i32_146 : BitVec 32 := 0#32
  let v245 : BitVec 1 := Scalar.cmpi .ne v244 c0_i32_146
  let v249 : BitVec 1 := Scalar.andi v248 v245
  let v250 : BitVec 32 := Scalar.addi v244 v243
  let v251 : BitVec 32 := Scalar.select v249 v250 v244
  let c64_i32_149 : BitVec 32 := 64#32
  let v252 : BitVec 32 := Scalar.muli v251 c64_i32_149
  ![0, v241.toNat, v252.toNat]
def k1_off86 (v264 : BitVec 32) : Fin 2 → Nat :=
  let c0_i32_169 : BitVec 32 := 0#32
  ![v264.toNat, 0]

def k1_chk38 (v264 : BitVec 32) : Prop :=
  (∀ a, (k1_off86 v264) a + S1x64.size a ≤ S1000000x64.size a)
instance k1_chk38.dec : ∀ (v264 : BitVec 32), Decidable (k1_chk38 v264) := fun v264 => decidable_of_iff' _ (Iff.of_eq (k1_chk38.eq_1 v264))
theorem k1_off86_inb : ∀ (v264 : BitVec 32) (k1_hw38 : k1_chk38 v264), ∀ a, (k1_off86 v264) a + S1x64.size a ≤ S1000000x64.size a := fun v264 k1_hw38 => k1_hw38

def k1_off87 (k1_t4 : Fin k1_t4_loop.trips) (c5_i32 : BitVec 32) : Fin 3 → Nat :=
  let c0_i32_168 : BitVec 32 := 0#32
  let c0_i32_22 : BitVec 32 := 0#32
  let c1_i32_23 : BitVec 32 := 1#32
  let arg12 : BitVec 32 := Scf.iv c0_i32_22 c1_i32_23 k1_t4
  let c16_i32_153 : BitVec 32 := 16#32
  let v261 : BitVec 32 := Scalar.muli arg12 c16_i32_153
  let v262 : BitVec 32 := Scalar.addi v261 c5_i32
  let c0_i32_155 : BitVec 32 := 0#32
  let v266 : BitVec 1 := Scalar.cmpi .sgt v262 c0_i32_155
  let v267 : BitVec 32 := Scalar.extui v266
  let c0_i32_156 : BitVec 32 := 0#32
  let v268 : BitVec 1 := Scalar.cmpi .slt v262 c0_i32_156
  let v269 : BitVec 32 := Scalar.extui v268
  let v270 : BitVec 32 := Scalar.subi v267 v269
  let c20_i32_154 : BitVec 32 := 20#32
  let c0_i32_157 : BitVec 32 := 0#32
  let v271 : BitVec 1 := Scalar.cmpi .sgt c20_i32_154 c0_i32_157
  let v272 : BitVec 32 := Scalar.extui v271
  let c0_i32_158 : BitVec 32 := 0#32
  let v273 : BitVec 1 := Scalar.cmpi .slt c20_i32_154 c0_i32_158
  let v274 : BitVec 32 := Scalar.extui v273
  let v275 : BitVec 32 := Scalar.subi v272 v274
  let v276 : BitVec 1 := Scalar.cmpi .ne v270 v275
  let v277 : BitVec 32 := Scalar.remsi v262 c20_i32_154
  let c0_i32_159 : BitVec 32 := 0#32
  let v278 : BitVec 1 := Scalar.cmpi .ne v277 c0_i32_159
  let v279 : BitVec 1 := Scalar.andi v276 v278
  let v265 : BitVec 32 := Scalar.divsi v262 c20_i32_154
  let c1_i32_160 : BitVec 32 := 1#32
  let v280 : BitVec 32 := Scalar.subi v265 c1_i32_160
  let v281 : BitVec 32 := Scalar.select v279 v280 v265
  let c20_i32_161 : BitVec 32 := 20#32
  let c0_i32_162 : BitVec 32 := 0#32
  let v282 : BitVec 1 := Scalar.cmpi .eq c20_i32_161 c0_i32_162
  let c1_i32_163 : BitVec 32 := 1#32
  let v283 : BitVec 32 := Scalar.select v282 c1_i32_163 c20_i32_161
  let v284 : BitVec 32 := Scalar.remsi v262 v283
  let c0_i32_165 : BitVec 32 := 0#32
  let v286 : BitVec 1 := Scalar.cmpi .slt v284 c0_i32_165
  let c0_i32_166 : BitVec 32 := 0#32
  let v287 : BitVec 1 := Scalar.cmpi .slt v283 c0_i32_166
  let v288 : BitVec 1 := Scalar.xori v286 v287
  let c0_i32_164 : BitVec 32 := 0#32
  let v285 : BitVec 1 := Scalar.cmpi .ne v284 c0_i32_164
  let v289 : BitVec 1 := Scalar.andi v288 v285
  let v290 : BitVec 32 := Scalar.addi v284 v283
  let v291 : BitVec 32 := Scalar.select v289 v290 v284
  let c64_i32_167 : BitVec 32 := 64#32
  let v292 : BitVec 32 := Scalar.muli v291 c64_i32_167
  ![0, v281.toNat, v292.toNat]
def k1_off88 (v304 : BitVec 32) : Fin 2 → Nat :=
  let c0_i32_187 : BitVec 32 := 0#32
  ![v304.toNat, 0]

def k1_chk39 (v304 : BitVec 32) : Prop :=
  (∀ a, (k1_off88 v304) a + S1x64.size a ≤ S1000000x64.size a)
instance k1_chk39.dec : ∀ (v304 : BitVec 32), Decidable (k1_chk39 v304) := fun v304 => decidable_of_iff' _ (Iff.of_eq (k1_chk39.eq_1 v304))
theorem k1_off88_inb : ∀ (v304 : BitVec 32) (k1_hw39 : k1_chk39 v304), ∀ a, (k1_off88 v304) a + S1x64.size a ≤ S1000000x64.size a := fun v304 k1_hw39 => k1_hw39

def k1_off89 (k1_t4 : Fin k1_t4_loop.trips) (c6_i32 : BitVec 32) : Fin 3 → Nat :=
  let c0_i32_186 : BitVec 32 := 0#32
  let c0_i32_22 : BitVec 32 := 0#32
  let c1_i32_23 : BitVec 32 := 1#32
  let arg12 : BitVec 32 := Scf.iv c0_i32_22 c1_i32_23 k1_t4
  let c16_i32_171 : BitVec 32 := 16#32
  let v301 : BitVec 32 := Scalar.muli arg12 c16_i32_171
  let v302 : BitVec 32 := Scalar.addi v301 c6_i32
  let c0_i32_173 : BitVec 32 := 0#32
  let v306 : BitVec 1 := Scalar.cmpi .sgt v302 c0_i32_173
  let v307 : BitVec 32 := Scalar.extui v306
  let c0_i32_174 : BitVec 32 := 0#32
  let v308 : BitVec 1 := Scalar.cmpi .slt v302 c0_i32_174
  let v309 : BitVec 32 := Scalar.extui v308
  let v310 : BitVec 32 := Scalar.subi v307 v309
  let c20_i32_172 : BitVec 32 := 20#32
  let c0_i32_175 : BitVec 32 := 0#32
  let v311 : BitVec 1 := Scalar.cmpi .sgt c20_i32_172 c0_i32_175
  let v312 : BitVec 32 := Scalar.extui v311
  let c0_i32_176 : BitVec 32 := 0#32
  let v313 : BitVec 1 := Scalar.cmpi .slt c20_i32_172 c0_i32_176
  let v314 : BitVec 32 := Scalar.extui v313
  let v315 : BitVec 32 := Scalar.subi v312 v314
  let v316 : BitVec 1 := Scalar.cmpi .ne v310 v315
  let v317 : BitVec 32 := Scalar.remsi v302 c20_i32_172
  let c0_i32_177 : BitVec 32 := 0#32
  let v318 : BitVec 1 := Scalar.cmpi .ne v317 c0_i32_177
  let v319 : BitVec 1 := Scalar.andi v316 v318
  let v305 : BitVec 32 := Scalar.divsi v302 c20_i32_172
  let c1_i32_178 : BitVec 32 := 1#32
  let v320 : BitVec 32 := Scalar.subi v305 c1_i32_178
  let v321 : BitVec 32 := Scalar.select v319 v320 v305
  let c20_i32_179 : BitVec 32 := 20#32
  let c0_i32_180 : BitVec 32 := 0#32
  let v322 : BitVec 1 := Scalar.cmpi .eq c20_i32_179 c0_i32_180
  let c1_i32_181 : BitVec 32 := 1#32
  let v323 : BitVec 32 := Scalar.select v322 c1_i32_181 c20_i32_179
  let v324 : BitVec 32 := Scalar.remsi v302 v323
  let c0_i32_183 : BitVec 32 := 0#32
  let v326 : BitVec 1 := Scalar.cmpi .slt v324 c0_i32_183
  let c0_i32_184 : BitVec 32 := 0#32
  let v327 : BitVec 1 := Scalar.cmpi .slt v323 c0_i32_184
  let v328 : BitVec 1 := Scalar.xori v326 v327
  let c0_i32_182 : BitVec 32 := 0#32
  let v325 : BitVec 1 := Scalar.cmpi .ne v324 c0_i32_182
  let v329 : BitVec 1 := Scalar.andi v328 v325
  let v330 : BitVec 32 := Scalar.addi v324 v323
  let v331 : BitVec 32 := Scalar.select v329 v330 v324
  let c64_i32_185 : BitVec 32 := 64#32
  let v332 : BitVec 32 := Scalar.muli v331 c64_i32_185
  ![0, v321.toNat, v332.toNat]
def k1_off90 (v344 : BitVec 32) : Fin 2 → Nat :=
  let c0_i32_205 : BitVec 32 := 0#32
  ![v344.toNat, 0]

def k1_chk40 (v344 : BitVec 32) : Prop :=
  (∀ a, (k1_off90 v344) a + S1x64.size a ≤ S1000000x64.size a)
instance k1_chk40.dec : ∀ (v344 : BitVec 32), Decidable (k1_chk40 v344) := fun v344 => decidable_of_iff' _ (Iff.of_eq (k1_chk40.eq_1 v344))
theorem k1_off90_inb : ∀ (v344 : BitVec 32) (k1_hw40 : k1_chk40 v344), ∀ a, (k1_off90 v344) a + S1x64.size a ≤ S1000000x64.size a := fun v344 k1_hw40 => k1_hw40

def k1_off91 (k1_t4 : Fin k1_t4_loop.trips) (c7_i32 : BitVec 32) : Fin 3 → Nat :=
  let c0_i32_204 : BitVec 32 := 0#32
  let c0_i32_22 : BitVec 32 := 0#32
  let c1_i32_23 : BitVec 32 := 1#32
  let arg12 : BitVec 32 := Scf.iv c0_i32_22 c1_i32_23 k1_t4
  let c16_i32_189 : BitVec 32 := 16#32
  let v341 : BitVec 32 := Scalar.muli arg12 c16_i32_189
  let v342 : BitVec 32 := Scalar.addi v341 c7_i32
  let c0_i32_191 : BitVec 32 := 0#32
  let v346 : BitVec 1 := Scalar.cmpi .sgt v342 c0_i32_191
  let v347 : BitVec 32 := Scalar.extui v346
  let c0_i32_192 : BitVec 32 := 0#32
  let v348 : BitVec 1 := Scalar.cmpi .slt v342 c0_i32_192
  let v349 : BitVec 32 := Scalar.extui v348
  let v350 : BitVec 32 := Scalar.subi v347 v349
  let c20_i32_190 : BitVec 32 := 20#32
  let c0_i32_193 : BitVec 32 := 0#32
  let v351 : BitVec 1 := Scalar.cmpi .sgt c20_i32_190 c0_i32_193
  let v352 : BitVec 32 := Scalar.extui v351
  let c0_i32_194 : BitVec 32 := 0#32
  let v353 : BitVec 1 := Scalar.cmpi .slt c20_i32_190 c0_i32_194
  let v354 : BitVec 32 := Scalar.extui v353
  let v355 : BitVec 32 := Scalar.subi v352 v354
  let v356 : BitVec 1 := Scalar.cmpi .ne v350 v355
  let v357 : BitVec 32 := Scalar.remsi v342 c20_i32_190
  let c0_i32_195 : BitVec 32 := 0#32
  let v358 : BitVec 1 := Scalar.cmpi .ne v357 c0_i32_195
  let v359 : BitVec 1 := Scalar.andi v356 v358
  let v345 : BitVec 32 := Scalar.divsi v342 c20_i32_190
  let c1_i32_196 : BitVec 32 := 1#32
  let v360 : BitVec 32 := Scalar.subi v345 c1_i32_196
  let v361 : BitVec 32 := Scalar.select v359 v360 v345
  let c20_i32_197 : BitVec 32 := 20#32
  let c0_i32_198 : BitVec 32 := 0#32
  let v362 : BitVec 1 := Scalar.cmpi .eq c20_i32_197 c0_i32_198
  let c1_i32_199 : BitVec 32 := 1#32
  let v363 : BitVec 32 := Scalar.select v362 c1_i32_199 c20_i32_197
  let v364 : BitVec 32 := Scalar.remsi v342 v363
  let c0_i32_201 : BitVec 32 := 0#32
  let v366 : BitVec 1 := Scalar.cmpi .slt v364 c0_i32_201
  let c0_i32_202 : BitVec 32 := 0#32
  let v367 : BitVec 1 := Scalar.cmpi .slt v363 c0_i32_202
  let v368 : BitVec 1 := Scalar.xori v366 v367
  let c0_i32_200 : BitVec 32 := 0#32
  let v365 : BitVec 1 := Scalar.cmpi .ne v364 c0_i32_200
  let v369 : BitVec 1 := Scalar.andi v368 v365
  let v370 : BitVec 32 := Scalar.addi v364 v363
  let v371 : BitVec 32 := Scalar.select v369 v370 v364
  let c64_i32_203 : BitVec 32 := 64#32
  let v372 : BitVec 32 := Scalar.muli v371 c64_i32_203
  ![0, v361.toNat, v372.toNat]
def k1_off92 (v384 : BitVec 32) : Fin 2 → Nat :=
  let c0_i32_223 : BitVec 32 := 0#32
  ![v384.toNat, 0]

def k1_chk41 (v384 : BitVec 32) : Prop :=
  (∀ a, (k1_off92 v384) a + S1x64.size a ≤ S1000000x64.size a)
instance k1_chk41.dec : ∀ (v384 : BitVec 32), Decidable (k1_chk41 v384) := fun v384 => decidable_of_iff' _ (Iff.of_eq (k1_chk41.eq_1 v384))
theorem k1_off92_inb : ∀ (v384 : BitVec 32) (k1_hw41 : k1_chk41 v384), ∀ a, (k1_off92 v384) a + S1x64.size a ≤ S1000000x64.size a := fun v384 k1_hw41 => k1_hw41

def k1_off93 (k1_t4 : Fin k1_t4_loop.trips) (c8_i32 : BitVec 32) : Fin 3 → Nat :=
  let c0_i32_222 : BitVec 32 := 0#32
  let c0_i32_22 : BitVec 32 := 0#32
  let c1_i32_23 : BitVec 32 := 1#32
  let arg12 : BitVec 32 := Scf.iv c0_i32_22 c1_i32_23 k1_t4
  let c16_i32_207 : BitVec 32 := 16#32
  let v381 : BitVec 32 := Scalar.muli arg12 c16_i32_207
  let v382 : BitVec 32 := Scalar.addi v381 c8_i32
  let c0_i32_209 : BitVec 32 := 0#32
  let v386 : BitVec 1 := Scalar.cmpi .sgt v382 c0_i32_209
  let v387 : BitVec 32 := Scalar.extui v386
  let c0_i32_210 : BitVec 32 := 0#32
  let v388 : BitVec 1 := Scalar.cmpi .slt v382 c0_i32_210
  let v389 : BitVec 32 := Scalar.extui v388
  let v390 : BitVec 32 := Scalar.subi v387 v389
  let c20_i32_208 : BitVec 32 := 20#32
  let c0_i32_211 : BitVec 32 := 0#32
  let v391 : BitVec 1 := Scalar.cmpi .sgt c20_i32_208 c0_i32_211
  let v392 : BitVec 32 := Scalar.extui v391
  let c0_i32_212 : BitVec 32 := 0#32
  let v393 : BitVec 1 := Scalar.cmpi .slt c20_i32_208 c0_i32_212
  let v394 : BitVec 32 := Scalar.extui v393
  let v395 : BitVec 32 := Scalar.subi v392 v394
  let v396 : BitVec 1 := Scalar.cmpi .ne v390 v395
  let v397 : BitVec 32 := Scalar.remsi v382 c20_i32_208
  let c0_i32_213 : BitVec 32 := 0#32
  let v398 : BitVec 1 := Scalar.cmpi .ne v397 c0_i32_213
  let v399 : BitVec 1 := Scalar.andi v396 v398
  let v385 : BitVec 32 := Scalar.divsi v382 c20_i32_208
  let c1_i32_214 : BitVec 32 := 1#32
  let v400 : BitVec 32 := Scalar.subi v385 c1_i32_214
  let v401 : BitVec 32 := Scalar.select v399 v400 v385
  let c20_i32_215 : BitVec 32 := 20#32
  let c0_i32_216 : BitVec 32 := 0#32
  let v402 : BitVec 1 := Scalar.cmpi .eq c20_i32_215 c0_i32_216
  let c1_i32_217 : BitVec 32 := 1#32
  let v403 : BitVec 32 := Scalar.select v402 c1_i32_217 c20_i32_215
  let v404 : BitVec 32 := Scalar.remsi v382 v403
  let c0_i32_219 : BitVec 32 := 0#32
  let v406 : BitVec 1 := Scalar.cmpi .slt v404 c0_i32_219
  let c0_i32_220 : BitVec 32 := 0#32
  let v407 : BitVec 1 := Scalar.cmpi .slt v403 c0_i32_220
  let v408 : BitVec 1 := Scalar.xori v406 v407
  let c0_i32_218 : BitVec 32 := 0#32
  let v405 : BitVec 1 := Scalar.cmpi .ne v404 c0_i32_218
  let v409 : BitVec 1 := Scalar.andi v408 v405
  let v410 : BitVec 32 := Scalar.addi v404 v403
  let v411 : BitVec 32 := Scalar.select v409 v410 v404
  let c64_i32_221 : BitVec 32 := 64#32
  let v412 : BitVec 32 := Scalar.muli v411 c64_i32_221
  ![0, v401.toNat, v412.toNat]
def k1_off94 (v424 : BitVec 32) : Fin 2 → Nat :=
  let c0_i32_241 : BitVec 32 := 0#32
  ![v424.toNat, 0]

def k1_chk42 (v424 : BitVec 32) : Prop :=
  (∀ a, (k1_off94 v424) a + S1x64.size a ≤ S1000000x64.size a)
instance k1_chk42.dec : ∀ (v424 : BitVec 32), Decidable (k1_chk42 v424) := fun v424 => decidable_of_iff' _ (Iff.of_eq (k1_chk42.eq_1 v424))
theorem k1_off94_inb : ∀ (v424 : BitVec 32) (k1_hw42 : k1_chk42 v424), ∀ a, (k1_off94 v424) a + S1x64.size a ≤ S1000000x64.size a := fun v424 k1_hw42 => k1_hw42

def k1_off95 (k1_t4 : Fin k1_t4_loop.trips) (c9_i32 : BitVec 32) : Fin 3 → Nat :=
  let c0_i32_240 : BitVec 32 := 0#32
  let c0_i32_22 : BitVec 32 := 0#32
  let c1_i32_23 : BitVec 32 := 1#32
  let arg12 : BitVec 32 := Scf.iv c0_i32_22 c1_i32_23 k1_t4
  let c16_i32_225 : BitVec 32 := 16#32
  let v421 : BitVec 32 := Scalar.muli arg12 c16_i32_225
  let v422 : BitVec 32 := Scalar.addi v421 c9_i32
  let c0_i32_227 : BitVec 32 := 0#32
  let v426 : BitVec 1 := Scalar.cmpi .sgt v422 c0_i32_227
  let v427 : BitVec 32 := Scalar.extui v426
  let c0_i32_228 : BitVec 32 := 0#32
  let v428 : BitVec 1 := Scalar.cmpi .slt v422 c0_i32_228
  let v429 : BitVec 32 := Scalar.extui v428
  let v430 : BitVec 32 := Scalar.subi v427 v429
  let c20_i32_226 : BitVec 32 := 20#32
  let c0_i32_229 : BitVec 32 := 0#32
  let v431 : BitVec 1 := Scalar.cmpi .sgt c20_i32_226 c0_i32_229
  let v432 : BitVec 32 := Scalar.extui v431
  let c0_i32_230 : BitVec 32 := 0#32
  let v433 : BitVec 1 := Scalar.cmpi .slt c20_i32_226 c0_i32_230
  let v434 : BitVec 32 := Scalar.extui v433
  let v435 : BitVec 32 := Scalar.subi v432 v434
  let v436 : BitVec 1 := Scalar.cmpi .ne v430 v435
  let v437 : BitVec 32 := Scalar.remsi v422 c20_i32_226
  let c0_i32_231 : BitVec 32 := 0#32
  let v438 : BitVec 1 := Scalar.cmpi .ne v437 c0_i32_231
  let v439 : BitVec 1 := Scalar.andi v436 v438
  let v425 : BitVec 32 := Scalar.divsi v422 c20_i32_226
  let c1_i32_232 : BitVec 32 := 1#32
  let v440 : BitVec 32 := Scalar.subi v425 c1_i32_232
  let v441 : BitVec 32 := Scalar.select v439 v440 v425
  let c20_i32_233 : BitVec 32 := 20#32
  let c0_i32_234 : BitVec 32 := 0#32
  let v442 : BitVec 1 := Scalar.cmpi .eq c20_i32_233 c0_i32_234
  let c1_i32_235 : BitVec 32 := 1#32
  let v443 : BitVec 32 := Scalar.select v442 c1_i32_235 c20_i32_233
  let v444 : BitVec 32 := Scalar.remsi v422 v443
  let c0_i32_237 : BitVec 32 := 0#32
  let v446 : BitVec 1 := Scalar.cmpi .slt v444 c0_i32_237
  let c0_i32_238 : BitVec 32 := 0#32
  let v447 : BitVec 1 := Scalar.cmpi .slt v443 c0_i32_238
  let v448 : BitVec 1 := Scalar.xori v446 v447
  let c0_i32_236 : BitVec 32 := 0#32
  let v445 : BitVec 1 := Scalar.cmpi .ne v444 c0_i32_236
  let v449 : BitVec 1 := Scalar.andi v448 v445
  let v450 : BitVec 32 := Scalar.addi v444 v443
  let v451 : BitVec 32 := Scalar.select v449 v450 v444
  let c64_i32_239 : BitVec 32 := 64#32
  let v452 : BitVec 32 := Scalar.muli v451 c64_i32_239
  ![0, v441.toNat, v452.toNat]
def k1_off96 (v464 : BitVec 32) : Fin 2 → Nat :=
  let c0_i32_259 : BitVec 32 := 0#32
  ![v464.toNat, 0]

def k1_chk43 (v464 : BitVec 32) : Prop :=
  (∀ a, (k1_off96 v464) a + S1x64.size a ≤ S1000000x64.size a)
instance k1_chk43.dec : ∀ (v464 : BitVec 32), Decidable (k1_chk43 v464) := fun v464 => decidable_of_iff' _ (Iff.of_eq (k1_chk43.eq_1 v464))
theorem k1_off96_inb : ∀ (v464 : BitVec 32) (k1_hw43 : k1_chk43 v464), ∀ a, (k1_off96 v464) a + S1x64.size a ≤ S1000000x64.size a := fun v464 k1_hw43 => k1_hw43

def k1_off97 (k1_t4 : Fin k1_t4_loop.trips) (c10_i32 : BitVec 32) : Fin 3 → Nat :=
  let c0_i32_258 : BitVec 32 := 0#32
  let c0_i32_22 : BitVec 32 := 0#32
  let c1_i32_23 : BitVec 32 := 1#32
  let arg12 : BitVec 32 := Scf.iv c0_i32_22 c1_i32_23 k1_t4
  let c16_i32_243 : BitVec 32 := 16#32
  let v461 : BitVec 32 := Scalar.muli arg12 c16_i32_243
  let v462 : BitVec 32 := Scalar.addi v461 c10_i32
  let c0_i32_245 : BitVec 32 := 0#32
  let v466 : BitVec 1 := Scalar.cmpi .sgt v462 c0_i32_245
  let v467 : BitVec 32 := Scalar.extui v466
  let c0_i32_246 : BitVec 32 := 0#32
  let v468 : BitVec 1 := Scalar.cmpi .slt v462 c0_i32_246
  let v469 : BitVec 32 := Scalar.extui v468
  let v470 : BitVec 32 := Scalar.subi v467 v469
  let c20_i32_244 : BitVec 32 := 20#32
  let c0_i32_247 : BitVec 32 := 0#32
  let v471 : BitVec 1 := Scalar.cmpi .sgt c20_i32_244 c0_i32_247
  let v472 : BitVec 32 := Scalar.extui v471
  let c0_i32_248 : BitVec 32 := 0#32
  let v473 : BitVec 1 := Scalar.cmpi .slt c20_i32_244 c0_i32_248
  let v474 : BitVec 32 := Scalar.extui v473
  let v475 : BitVec 32 := Scalar.subi v472 v474
  let v476 : BitVec 1 := Scalar.cmpi .ne v470 v475
  let v477 : BitVec 32 := Scalar.remsi v462 c20_i32_244
  let c0_i32_249 : BitVec 32 := 0#32
  let v478 : BitVec 1 := Scalar.cmpi .ne v477 c0_i32_249
  let v479 : BitVec 1 := Scalar.andi v476 v478
  let v465 : BitVec 32 := Scalar.divsi v462 c20_i32_244
  let c1_i32_250 : BitVec 32 := 1#32
  let v480 : BitVec 32 := Scalar.subi v465 c1_i32_250
  let v481 : BitVec 32 := Scalar.select v479 v480 v465
  let c20_i32_251 : BitVec 32 := 20#32
  let c0_i32_252 : BitVec 32 := 0#32
  let v482 : BitVec 1 := Scalar.cmpi .eq c20_i32_251 c0_i32_252
  let c1_i32_253 : BitVec 32 := 1#32
  let v483 : BitVec 32 := Scalar.select v482 c1_i32_253 c20_i32_251
  let v484 : BitVec 32 := Scalar.remsi v462 v483
  let c0_i32_255 : BitVec 32 := 0#32
  let v486 : BitVec 1 := Scalar.cmpi .slt v484 c0_i32_255
  let c0_i32_256 : BitVec 32 := 0#32
  let v487 : BitVec 1 := Scalar.cmpi .slt v483 c0_i32_256
  let v488 : BitVec 1 := Scalar.xori v486 v487
  let c0_i32_254 : BitVec 32 := 0#32
  let v485 : BitVec 1 := Scalar.cmpi .ne v484 c0_i32_254
  let v489 : BitVec 1 := Scalar.andi v488 v485
  let v490 : BitVec 32 := Scalar.addi v484 v483
  let v491 : BitVec 32 := Scalar.select v489 v490 v484
  let c64_i32_257 : BitVec 32 := 64#32
  let v492 : BitVec 32 := Scalar.muli v491 c64_i32_257
  ![0, v481.toNat, v492.toNat]
def k1_off98 (v504 : BitVec 32) : Fin 2 → Nat :=
  let c0_i32_277 : BitVec 32 := 0#32
  ![v504.toNat, 0]

def k1_chk44 (v504 : BitVec 32) : Prop :=
  (∀ a, (k1_off98 v504) a + S1x64.size a ≤ S1000000x64.size a)
instance k1_chk44.dec : ∀ (v504 : BitVec 32), Decidable (k1_chk44 v504) := fun v504 => decidable_of_iff' _ (Iff.of_eq (k1_chk44.eq_1 v504))
theorem k1_off98_inb : ∀ (v504 : BitVec 32) (k1_hw44 : k1_chk44 v504), ∀ a, (k1_off98 v504) a + S1x64.size a ≤ S1000000x64.size a := fun v504 k1_hw44 => k1_hw44

def k1_off99 (k1_t4 : Fin k1_t4_loop.trips) (c11_i32 : BitVec 32) : Fin 3 → Nat :=
  let c0_i32_276 : BitVec 32 := 0#32
  let c0_i32_22 : BitVec 32 := 0#32
  let c1_i32_23 : BitVec 32 := 1#32
  let arg12 : BitVec 32 := Scf.iv c0_i32_22 c1_i32_23 k1_t4
  let c16_i32_261 : BitVec 32 := 16#32
  let v501 : BitVec 32 := Scalar.muli arg12 c16_i32_261
  let v502 : BitVec 32 := Scalar.addi v501 c11_i32
  let c0_i32_263 : BitVec 32 := 0#32
  let v506 : BitVec 1 := Scalar.cmpi .sgt v502 c0_i32_263
  let v507 : BitVec 32 := Scalar.extui v506
  let c0_i32_264 : BitVec 32 := 0#32
  let v508 : BitVec 1 := Scalar.cmpi .slt v502 c0_i32_264
  let v509 : BitVec 32 := Scalar.extui v508
  let v510 : BitVec 32 := Scalar.subi v507 v509
  let c20_i32_262 : BitVec 32 := 20#32
  let c0_i32_265 : BitVec 32 := 0#32
  let v511 : BitVec 1 := Scalar.cmpi .sgt c20_i32_262 c0_i32_265
  let v512 : BitVec 32 := Scalar.extui v511
  let c0_i32_266 : BitVec 32 := 0#32
  let v513 : BitVec 1 := Scalar.cmpi .slt c20_i32_262 c0_i32_266
  let v514 : BitVec 32 := Scalar.extui v513
  let v515 : BitVec 32 := Scalar.subi v512 v514
  let v516 : BitVec 1 := Scalar.cmpi .ne v510 v515
  let v517 : BitVec 32 := Scalar.remsi v502 c20_i32_262
  let c0_i32_267 : BitVec 32 := 0#32
  let v518 : BitVec 1 := Scalar.cmpi .ne v517 c0_i32_267
  let v519 : BitVec 1 := Scalar.andi v516 v518
  let v505 : BitVec 32 := Scalar.divsi v502 c20_i32_262
  let c1_i32_268 : BitVec 32 := 1#32
  let v520 : BitVec 32 := Scalar.subi v505 c1_i32_268
  let v521 : BitVec 32 := Scalar.select v519 v520 v505
  let c20_i32_269 : BitVec 32 := 20#32
  let c0_i32_270 : BitVec 32 := 0#32
  let v522 : BitVec 1 := Scalar.cmpi .eq c20_i32_269 c0_i32_270
  let c1_i32_271 : BitVec 32 := 1#32
  let v523 : BitVec 32 := Scalar.select v522 c1_i32_271 c20_i32_269
  let v524 : BitVec 32 := Scalar.remsi v502 v523
  let c0_i32_273 : BitVec 32 := 0#32
  let v526 : BitVec 1 := Scalar.cmpi .slt v524 c0_i32_273
  let c0_i32_274 : BitVec 32 := 0#32
  let v527 : BitVec 1 := Scalar.cmpi .slt v523 c0_i32_274
  let v528 : BitVec 1 := Scalar.xori v526 v527
  let c0_i32_272 : BitVec 32 := 0#32
  let v525 : BitVec 1 := Scalar.cmpi .ne v524 c0_i32_272
  let v529 : BitVec 1 := Scalar.andi v528 v525
  let v530 : BitVec 32 := Scalar.addi v524 v523
  let v531 : BitVec 32 := Scalar.select v529 v530 v524
  let c64_i32_275 : BitVec 32 := 64#32
  let v532 : BitVec 32 := Scalar.muli v531 c64_i32_275
  ![0, v521.toNat, v532.toNat]
def k1_off100 (v544 : BitVec 32) : Fin 2 → Nat :=
  let c0_i32_295 : BitVec 32 := 0#32
  ![v544.toNat, 0]

def k1_chk45 (v544 : BitVec 32) : Prop :=
  (∀ a, (k1_off100 v544) a + S1x64.size a ≤ S1000000x64.size a)
instance k1_chk45.dec : ∀ (v544 : BitVec 32), Decidable (k1_chk45 v544) := fun v544 => decidable_of_iff' _ (Iff.of_eq (k1_chk45.eq_1 v544))
theorem k1_off100_inb : ∀ (v544 : BitVec 32) (k1_hw45 : k1_chk45 v544), ∀ a, (k1_off100 v544) a + S1x64.size a ≤ S1000000x64.size a := fun v544 k1_hw45 => k1_hw45

def k1_off101 (k1_t4 : Fin k1_t4_loop.trips) (c12_i32 : BitVec 32) : Fin 3 → Nat :=
  let c0_i32_294 : BitVec 32 := 0#32
  let c0_i32_22 : BitVec 32 := 0#32
  let c1_i32_23 : BitVec 32 := 1#32
  let arg12 : BitVec 32 := Scf.iv c0_i32_22 c1_i32_23 k1_t4
  let c16_i32_279 : BitVec 32 := 16#32
  let v541 : BitVec 32 := Scalar.muli arg12 c16_i32_279
  let v542 : BitVec 32 := Scalar.addi v541 c12_i32
  let c0_i32_281 : BitVec 32 := 0#32
  let v546 : BitVec 1 := Scalar.cmpi .sgt v542 c0_i32_281
  let v547 : BitVec 32 := Scalar.extui v546
  let c0_i32_282 : BitVec 32 := 0#32
  let v548 : BitVec 1 := Scalar.cmpi .slt v542 c0_i32_282
  let v549 : BitVec 32 := Scalar.extui v548
  let v550 : BitVec 32 := Scalar.subi v547 v549
  let c20_i32_280 : BitVec 32 := 20#32
  let c0_i32_283 : BitVec 32 := 0#32
  let v551 : BitVec 1 := Scalar.cmpi .sgt c20_i32_280 c0_i32_283
  let v552 : BitVec 32 := Scalar.extui v551
  let c0_i32_284 : BitVec 32 := 0#32
  let v553 : BitVec 1 := Scalar.cmpi .slt c20_i32_280 c0_i32_284
  let v554 : BitVec 32 := Scalar.extui v553
  let v555 : BitVec 32 := Scalar.subi v552 v554
  let v556 : BitVec 1 := Scalar.cmpi .ne v550 v555
  let v557 : BitVec 32 := Scalar.remsi v542 c20_i32_280
  let c0_i32_285 : BitVec 32 := 0#32
  let v558 : BitVec 1 := Scalar.cmpi .ne v557 c0_i32_285
  let v559 : BitVec 1 := Scalar.andi v556 v558
  let v545 : BitVec 32 := Scalar.divsi v542 c20_i32_280
  let c1_i32_286 : BitVec 32 := 1#32
  let v560 : BitVec 32 := Scalar.subi v545 c1_i32_286
  let v561 : BitVec 32 := Scalar.select v559 v560 v545
  let c20_i32_287 : BitVec 32 := 20#32
  let c0_i32_288 : BitVec 32 := 0#32
  let v562 : BitVec 1 := Scalar.cmpi .eq c20_i32_287 c0_i32_288
  let c1_i32_289 : BitVec 32 := 1#32
  let v563 : BitVec 32 := Scalar.select v562 c1_i32_289 c20_i32_287
  let v564 : BitVec 32 := Scalar.remsi v542 v563
  let c0_i32_291 : BitVec 32 := 0#32
  let v566 : BitVec 1 := Scalar.cmpi .slt v564 c0_i32_291
  let c0_i32_292 : BitVec 32 := 0#32
  let v567 : BitVec 1 := Scalar.cmpi .slt v563 c0_i32_292
  let v568 : BitVec 1 := Scalar.xori v566 v567
  let c0_i32_290 : BitVec 32 := 0#32
  let v565 : BitVec 1 := Scalar.cmpi .ne v564 c0_i32_290
  let v569 : BitVec 1 := Scalar.andi v568 v565
  let v570 : BitVec 32 := Scalar.addi v564 v563
  let v571 : BitVec 32 := Scalar.select v569 v570 v564
  let c64_i32_293 : BitVec 32 := 64#32
  let v572 : BitVec 32 := Scalar.muli v571 c64_i32_293
  ![0, v561.toNat, v572.toNat]
def k1_off102 (v584 : BitVec 32) : Fin 2 → Nat :=
  let c0_i32_313 : BitVec 32 := 0#32
  ![v584.toNat, 0]

def k1_chk46 (v584 : BitVec 32) : Prop :=
  (∀ a, (k1_off102 v584) a + S1x64.size a ≤ S1000000x64.size a)
instance k1_chk46.dec : ∀ (v584 : BitVec 32), Decidable (k1_chk46 v584) := fun v584 => decidable_of_iff' _ (Iff.of_eq (k1_chk46.eq_1 v584))
theorem k1_off102_inb : ∀ (v584 : BitVec 32) (k1_hw46 : k1_chk46 v584), ∀ a, (k1_off102 v584) a + S1x64.size a ≤ S1000000x64.size a := fun v584 k1_hw46 => k1_hw46

def k1_off103 (k1_t4 : Fin k1_t4_loop.trips) (c13_i32 : BitVec 32) : Fin 3 → Nat :=
  let c0_i32_312 : BitVec 32 := 0#32
  let c0_i32_22 : BitVec 32 := 0#32
  let c1_i32_23 : BitVec 32 := 1#32
  let arg12 : BitVec 32 := Scf.iv c0_i32_22 c1_i32_23 k1_t4
  let c16_i32_297 : BitVec 32 := 16#32
  let v581 : BitVec 32 := Scalar.muli arg12 c16_i32_297
  let v582 : BitVec 32 := Scalar.addi v581 c13_i32
  let c0_i32_299 : BitVec 32 := 0#32
  let v586 : BitVec 1 := Scalar.cmpi .sgt v582 c0_i32_299
  let v587 : BitVec 32 := Scalar.extui v586
  let c0_i32_300 : BitVec 32 := 0#32
  let v588 : BitVec 1 := Scalar.cmpi .slt v582 c0_i32_300
  let v589 : BitVec 32 := Scalar.extui v588
  let v590 : BitVec 32 := Scalar.subi v587 v589
  let c20_i32_298 : BitVec 32 := 20#32
  let c0_i32_301 : BitVec 32 := 0#32
  let v591 : BitVec 1 := Scalar.cmpi .sgt c20_i32_298 c0_i32_301
  let v592 : BitVec 32 := Scalar.extui v591
  let c0_i32_302 : BitVec 32 := 0#32
  let v593 : BitVec 1 := Scalar.cmpi .slt c20_i32_298 c0_i32_302
  let v594 : BitVec 32 := Scalar.extui v593
  let v595 : BitVec 32 := Scalar.subi v592 v594
  let v596 : BitVec 1 := Scalar.cmpi .ne v590 v595
  let v597 : BitVec 32 := Scalar.remsi v582 c20_i32_298
  let c0_i32_303 : BitVec 32 := 0#32
  let v598 : BitVec 1 := Scalar.cmpi .ne v597 c0_i32_303
  let v599 : BitVec 1 := Scalar.andi v596 v598
  let v585 : BitVec 32 := Scalar.divsi v582 c20_i32_298
  let c1_i32_304 : BitVec 32 := 1#32
  let v600 : BitVec 32 := Scalar.subi v585 c1_i32_304
  let v601 : BitVec 32 := Scalar.select v599 v600 v585
  let c20_i32_305 : BitVec 32 := 20#32
  let c0_i32_306 : BitVec 32 := 0#32
  let v602 : BitVec 1 := Scalar.cmpi .eq c20_i32_305 c0_i32_306
  let c1_i32_307 : BitVec 32 := 1#32
  let v603 : BitVec 32 := Scalar.select v602 c1_i32_307 c20_i32_305
  let v604 : BitVec 32 := Scalar.remsi v582 v603
  let c0_i32_309 : BitVec 32 := 0#32
  let v606 : BitVec 1 := Scalar.cmpi .slt v604 c0_i32_309
  let c0_i32_310 : BitVec 32 := 0#32
  let v607 : BitVec 1 := Scalar.cmpi .slt v603 c0_i32_310
  let v608 : BitVec 1 := Scalar.xori v606 v607
  let c0_i32_308 : BitVec 32 := 0#32
  let v605 : BitVec 1 := Scalar.cmpi .ne v604 c0_i32_308
  let v609 : BitVec 1 := Scalar.andi v608 v605
  let v610 : BitVec 32 := Scalar.addi v604 v603
  let v611 : BitVec 32 := Scalar.select v609 v610 v604
  let c64_i32_311 : BitVec 32 := 64#32
  let v612 : BitVec 32 := Scalar.muli v611 c64_i32_311
  ![0, v601.toNat, v612.toNat]
def k1_off104 (v624 : BitVec 32) : Fin 2 → Nat :=
  let c0_i32_331 : BitVec 32 := 0#32
  ![v624.toNat, 0]

def k1_chk47 (v624 : BitVec 32) : Prop :=
  (∀ a, (k1_off104 v624) a + S1x64.size a ≤ S1000000x64.size a)
instance k1_chk47.dec : ∀ (v624 : BitVec 32), Decidable (k1_chk47 v624) := fun v624 => decidable_of_iff' _ (Iff.of_eq (k1_chk47.eq_1 v624))
theorem k1_off104_inb : ∀ (v624 : BitVec 32) (k1_hw47 : k1_chk47 v624), ∀ a, (k1_off104 v624) a + S1x64.size a ≤ S1000000x64.size a := fun v624 k1_hw47 => k1_hw47

def k1_off105 (k1_t4 : Fin k1_t4_loop.trips) (c14_i32 : BitVec 32) : Fin 3 → Nat :=
  let c0_i32_330 : BitVec 32 := 0#32
  let c0_i32_22 : BitVec 32 := 0#32
  let c1_i32_23 : BitVec 32 := 1#32
  let arg12 : BitVec 32 := Scf.iv c0_i32_22 c1_i32_23 k1_t4
  let c16_i32_315 : BitVec 32 := 16#32
  let v621 : BitVec 32 := Scalar.muli arg12 c16_i32_315
  let v622 : BitVec 32 := Scalar.addi v621 c14_i32
  let c0_i32_317 : BitVec 32 := 0#32
  let v626 : BitVec 1 := Scalar.cmpi .sgt v622 c0_i32_317
  let v627 : BitVec 32 := Scalar.extui v626
  let c0_i32_318 : BitVec 32 := 0#32
  let v628 : BitVec 1 := Scalar.cmpi .slt v622 c0_i32_318
  let v629 : BitVec 32 := Scalar.extui v628
  let v630 : BitVec 32 := Scalar.subi v627 v629
  let c20_i32_316 : BitVec 32 := 20#32
  let c0_i32_319 : BitVec 32 := 0#32
  let v631 : BitVec 1 := Scalar.cmpi .sgt c20_i32_316 c0_i32_319
  let v632 : BitVec 32 := Scalar.extui v631
  let c0_i32_320 : BitVec 32 := 0#32
  let v633 : BitVec 1 := Scalar.cmpi .slt c20_i32_316 c0_i32_320
  let v634 : BitVec 32 := Scalar.extui v633
  let v635 : BitVec 32 := Scalar.subi v632 v634
  let v636 : BitVec 1 := Scalar.cmpi .ne v630 v635
  let v637 : BitVec 32 := Scalar.remsi v622 c20_i32_316
  let c0_i32_321 : BitVec 32 := 0#32
  let v638 : BitVec 1 := Scalar.cmpi .ne v637 c0_i32_321
  let v639 : BitVec 1 := Scalar.andi v636 v638
  let v625 : BitVec 32 := Scalar.divsi v622 c20_i32_316
  let c1_i32_322 : BitVec 32 := 1#32
  let v640 : BitVec 32 := Scalar.subi v625 c1_i32_322
  let v641 : BitVec 32 := Scalar.select v639 v640 v625
  let c20_i32_323 : BitVec 32 := 20#32
  let c0_i32_324 : BitVec 32 := 0#32
  let v642 : BitVec 1 := Scalar.cmpi .eq c20_i32_323 c0_i32_324
  let c1_i32_325 : BitVec 32 := 1#32
  let v643 : BitVec 32 := Scalar.select v642 c1_i32_325 c20_i32_323
  let v644 : BitVec 32 := Scalar.remsi v622 v643
  let c0_i32_327 : BitVec 32 := 0#32
  let v646 : BitVec 1 := Scalar.cmpi .slt v644 c0_i32_327
  let c0_i32_328 : BitVec 32 := 0#32
  let v647 : BitVec 1 := Scalar.cmpi .slt v643 c0_i32_328
  let v648 : BitVec 1 := Scalar.xori v646 v647
  let c0_i32_326 : BitVec 32 := 0#32
  let v645 : BitVec 1 := Scalar.cmpi .ne v644 c0_i32_326
  let v649 : BitVec 1 := Scalar.andi v648 v645
  let v650 : BitVec 32 := Scalar.addi v644 v643
  let v651 : BitVec 32 := Scalar.select v649 v650 v644
  let c64_i32_329 : BitVec 32 := 64#32
  let v652 : BitVec 32 := Scalar.muli v651 c64_i32_329
  ![0, v641.toNat, v652.toNat]
def k1_off106 (v664 : BitVec 32) : Fin 2 → Nat :=
  let c0_i32_350 : BitVec 32 := 0#32
  ![v664.toNat, 0]

def k1_chk48 (v664 : BitVec 32) : Prop :=
  (∀ a, (k1_off106 v664) a + S1x64.size a ≤ S1000000x64.size a)
instance k1_chk48.dec : ∀ (v664 : BitVec 32), Decidable (k1_chk48 v664) := fun v664 => decidable_of_iff' _ (Iff.of_eq (k1_chk48.eq_1 v664))
theorem k1_off106_inb : ∀ (v664 : BitVec 32) (k1_hw48 : k1_chk48 v664), ∀ a, (k1_off106 v664) a + S1x64.size a ≤ S1000000x64.size a := fun v664 k1_hw48 => k1_hw48

def k1_off107 (k1_t4 : Fin k1_t4_loop.trips) : Fin 3 → Nat :=
  let c0_i32_349 : BitVec 32 := 0#32
  let c0_i32_22 : BitVec 32 := 0#32
  let c1_i32_23 : BitVec 32 := 1#32
  let arg12 : BitVec 32 := Scf.iv c0_i32_22 c1_i32_23 k1_t4
  let c16_i32_333 : BitVec 32 := 16#32
  let v661 : BitVec 32 := Scalar.muli arg12 c16_i32_333
  let c15_i32_334 : BitVec 32 := 15#32
  let v662 : BitVec 32 := Scalar.addi v661 c15_i32_334
  let c0_i32_336 : BitVec 32 := 0#32
  let v666 : BitVec 1 := Scalar.cmpi .sgt v662 c0_i32_336
  let v667 : BitVec 32 := Scalar.extui v666
  let c0_i32_337 : BitVec 32 := 0#32
  let v668 : BitVec 1 := Scalar.cmpi .slt v662 c0_i32_337
  let v669 : BitVec 32 := Scalar.extui v668
  let v670 : BitVec 32 := Scalar.subi v667 v669
  let c20_i32_335 : BitVec 32 := 20#32
  let c0_i32_338 : BitVec 32 := 0#32
  let v671 : BitVec 1 := Scalar.cmpi .sgt c20_i32_335 c0_i32_338
  let v672 : BitVec 32 := Scalar.extui v671
  let c0_i32_339 : BitVec 32 := 0#32
  let v673 : BitVec 1 := Scalar.cmpi .slt c20_i32_335 c0_i32_339
  let v674 : BitVec 32 := Scalar.extui v673
  let v675 : BitVec 32 := Scalar.subi v672 v674
  let v676 : BitVec 1 := Scalar.cmpi .ne v670 v675
  let v677 : BitVec 32 := Scalar.remsi v662 c20_i32_335
  let c0_i32_340 : BitVec 32 := 0#32
  let v678 : BitVec 1 := Scalar.cmpi .ne v677 c0_i32_340
  let v679 : BitVec 1 := Scalar.andi v676 v678
  let v665 : BitVec 32 := Scalar.divsi v662 c20_i32_335
  let c1_i32_341 : BitVec 32 := 1#32
  let v680 : BitVec 32 := Scalar.subi v665 c1_i32_341
  let v681 : BitVec 32 := Scalar.select v679 v680 v665
  let c20_i32_342 : BitVec 32 := 20#32
  let c0_i32_343 : BitVec 32 := 0#32
  let v682 : BitVec 1 := Scalar.cmpi .eq c20_i32_342 c0_i32_343
  let c1_i32_344 : BitVec 32 := 1#32
  let v683 : BitVec 32 := Scalar.select v682 c1_i32_344 c20_i32_342
  let v684 : BitVec 32 := Scalar.remsi v662 v683
  let c0_i32_346 : BitVec 32 := 0#32
  let v686 : BitVec 1 := Scalar.cmpi .slt v684 c0_i32_346
  let c0_i32_347 : BitVec 32 := 0#32
  let v687 : BitVec 1 := Scalar.cmpi .slt v683 c0_i32_347
  let v688 : BitVec 1 := Scalar.xori v686 v687
  let c0_i32_345 : BitVec 32 := 0#32
  let v685 : BitVec 1 := Scalar.cmpi .ne v684 c0_i32_345
  let v689 : BitVec 1 := Scalar.andi v688 v685
  let v690 : BitVec 32 := Scalar.addi v684 v683
  let v691 : BitVec 32 := Scalar.select v689 v690 v684
  let c64_i32_348 : BitVec 32 := 64#32
  let v692 : BitVec 32 := Scalar.muli v691 c64_i32_348
  ![0, v681.toNat, v692.toNat]
@[reducible] def k1_t5_loop : Scf.Loop 32 :=
  let c0_i32_26 : BitVec 32 := 0#32
  let c16_i32_27 : BitVec 32 := 16#32
  let v28 : BitVec 32 := Scalar.addi c0_i32_26 c16_i32_27
  let c1_i32_28 : BitVec 32 := 1#32
  ⟨c0_i32_26, v28, c1_i32_28⟩
def k1_off108 (k1_t5 : Fin k1_t5_loop.trips) (c0_i32_61 : BitVec 32) : Fin 3 → Nat :=
  let c1_i32_76 : BitVec 32 := 1#32
  let c0_i32_26 : BitVec 32 := 0#32
  let c1_i32_28 : BitVec 32 := 1#32
  let arg12 : BitVec 32 := Scf.iv c0_i32_26 c1_i32_28 k1_t5
  let c16_i32_60 : BitVec 32 := 16#32
  let v57 : BitVec 32 := Scalar.muli arg12 c16_i32_60
  let v58 : BitVec 32 := Scalar.addi v57 c0_i32_61
  let c0_i32_63 : BitVec 32 := 0#32
  let v60 : BitVec 1 := Scalar.cmpi .sgt v58 c0_i32_63
  let v61 : BitVec 32 := Scalar.extui v60
  let c0_i32_64 : BitVec 32 := 0#32
  let v62 : BitVec 1 := Scalar.cmpi .slt v58 c0_i32_64
  let v63 : BitVec 32 := Scalar.extui v62
  let v64 : BitVec 32 := Scalar.subi v61 v63
  let c2_i32_62 : BitVec 32 := 2#32
  let c0_i32_65 : BitVec 32 := 0#32
  let v65 : BitVec 1 := Scalar.cmpi .sgt c2_i32_62 c0_i32_65
  let v66 : BitVec 32 := Scalar.extui v65
  let c0_i32_66 : BitVec 32 := 0#32
  let v67 : BitVec 1 := Scalar.cmpi .slt c2_i32_62 c0_i32_66
  let v68 : BitVec 32 := Scalar.extui v67
  let v69 : BitVec 32 := Scalar.subi v66 v68
  let v70 : BitVec 1 := Scalar.cmpi .ne v64 v69
  let v71 : BitVec 32 := Scalar.remsi v58 c2_i32_62
  let c0_i32_67 : BitVec 32 := 0#32
  let v72 : BitVec 1 := Scalar.cmpi .ne v71 c0_i32_67
  let v73 : BitVec 1 := Scalar.andi v70 v72
  let v59 : BitVec 32 := Scalar.divsi v58 c2_i32_62
  let c1_i32_68 : BitVec 32 := 1#32
  let v74 : BitVec 32 := Scalar.subi v59 c1_i32_68
  let v75 : BitVec 32 := Scalar.select v73 v74 v59
  let c2_i32_69 : BitVec 32 := 2#32
  let c0_i32_70 : BitVec 32 := 0#32
  let v76 : BitVec 1 := Scalar.cmpi .eq c2_i32_69 c0_i32_70
  let c1_i32_71 : BitVec 32 := 1#32
  let v77 : BitVec 32 := Scalar.select v76 c1_i32_71 c2_i32_69
  let v78 : BitVec 32 := Scalar.remsi v58 v77
  let c0_i32_73 : BitVec 32 := 0#32
  let v80 : BitVec 1 := Scalar.cmpi .slt v78 c0_i32_73
  let c0_i32_74 : BitVec 32 := 0#32
  let v81 : BitVec 1 := Scalar.cmpi .slt v77 c0_i32_74
  let v82 : BitVec 1 := Scalar.xori v80 v81
  let c0_i32_72 : BitVec 32 := 0#32
  let v79 : BitVec 1 := Scalar.cmpi .ne v78 c0_i32_72
  let v83 : BitVec 1 := Scalar.andi v82 v79
  let v84 : BitVec 32 := Scalar.addi v78 v77
  let v85 : BitVec 32 := Scalar.select v83 v84 v78
  let c64_i32 : BitVec 32 := 64#32
  let v86 : BitVec 32 := Scalar.muli v85 c64_i32
  ![1, v75.toNat, v86.toNat]
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_30 : BitVec 32 := 256#32
  let v29 : BitVec 32 := Scalar.addi v2 c256_i32_30
  let c0_i32_32 : BitVec 32 := 0#32
  let v31 : BitVec 1 := Scalar.cmpi .sgt v29 c0_i32_32
  let v32 : BitVec 32 := Scalar.extui v31
  let c0_i32_33 : BitVec 32 := 0#32
  let v33 : BitVec 1 := Scalar.cmpi .slt v29 c0_i32_33
  let v34 : BitVec 32 := Scalar.extui v33
  let v35 : BitVec 32 := Scalar.subi v32 v34
  let c2_i32_31 : BitVec 32 := 2#32
  let c0_i32_34 : BitVec 32 := 0#32
  let v36 : BitVec 1 := Scalar.cmpi .sgt c2_i32_31 c0_i32_34
  let v37 : BitVec 32 := Scalar.extui v36
  let c0_i32_35 : BitVec 32 := 0#32
  let v38 : BitVec 1 := Scalar.cmpi .slt c2_i32_31 c0_i32_35
  let v39 : BitVec 32 := Scalar.extui v38
  let v40 : BitVec 32 := Scalar.subi v37 v39
  let v41 : BitVec 1 := Scalar.cmpi .ne v35 v40
  let v42 : BitVec 32 := Scalar.remsi v29 c2_i32_31
  let c0_i32_36 : BitVec 32 := 0#32
  let v43 : BitVec 1 := Scalar.cmpi .ne v42 c0_i32_36
  let v44 : BitVec 1 := Scalar.andi v41 v43
  let v30 : BitVec 32 := Scalar.divsi v29 c2_i32_31
  let c1_i32_37 : BitVec 32 := 1#32
  let v45 : BitVec 32 := Scalar.subi v30 c1_i32_37
  let v46 : BitVec 32 := Scalar.select v44 v45 v30
  v46
def k1_off109 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_30 : BitVec 32 := 256#32
  let v29 : BitVec 32 := Scalar.addi v2 c256_i32_30
  let c0_i32_32 : BitVec 32 := 0#32
  let v31 : BitVec 1 := Scalar.cmpi .sgt v29 c0_i32_32
  let v32 : BitVec 32 := Scalar.extui v31
  let c0_i32_33 : BitVec 32 := 0#32
  let v33 : BitVec 1 := Scalar.cmpi .slt v29 c0_i32_33
  let v34 : BitVec 32 := Scalar.extui v33
  let v35 : BitVec 32 := Scalar.subi v32 v34
  let c2_i32_31 : BitVec 32 := 2#32
  let c0_i32_34 : BitVec 32 := 0#32
  let v36 : BitVec 1 := Scalar.cmpi .sgt c2_i32_31 c0_i32_34
  let v37 : BitVec 32 := Scalar.extui v36
  let c0_i32_35 : BitVec 32 := 0#32
  let v38 : BitVec 1 := Scalar.cmpi .slt c2_i32_31 c0_i32_35
  let v39 : BitVec 32 := Scalar.extui v38
  let v40 : BitVec 32 := Scalar.subi v37 v39
  let v41 : BitVec 1 := Scalar.cmpi .ne v35 v40
  let v42 : BitVec 32 := Scalar.remsi v29 c2_i32_31
  let c0_i32_36 : BitVec 32 := 0#32
  let v43 : BitVec 1 := Scalar.cmpi .ne v42 c0_i32_36
  let v44 : BitVec 1 := Scalar.andi v41 v43
  let v30 : BitVec 32 := Scalar.divsi v29 c2_i32_31
  let c1_i32_37 : BitVec 32 := 1#32
  let v45 : BitVec 32 := Scalar.subi v30 c1_i32_37
  let v46 : BitVec 32 := Scalar.select v44 v45 v30
  let v47 : BitVec 32 := v46
  let c0_i32_62_r4 : BitVec 32 := 0#32
  ![v47.toNat, 0]
def k1_off110 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v3 : BitVec 32 := Scalar.muli v1 c10240_i32
  let c320_i32 : BitVec 32 := 320#32
  let v48 : BitVec 32 := Scalar.addi v3 c320_i32
  ![v48.toNat]
@[reducible] def k1_t6_loop : Scf.Loop 32 :=
  let c0_i32_40 : BitVec 32 := 0#32
  let c20_i32_41 : BitVec 32 := 20#32
  let v49 : BitVec 32 := Scalar.addi c0_i32_40 c20_i32_41
  let c1_i32_42 : BitVec 32 := 1#32
  ⟨c0_i32_40, v49, c1_i32_42⟩
def k1_off111 (k1_t6 : Fin k1_t6_loop.trips) : Fin 1 → Nat :=
  let c0_i32_40 : BitVec 32 := 0#32
  let c1_i32_42 : BitVec 32 := 1#32
  let arg12 : BitVec 32 := Scf.iv c0_i32_40 c1_i32_42 k1_t6
  let c16_i32_60 : BitVec 32 := 16#32
  let v57 : BitVec 32 := Scalar.muli arg12 c16_i32_60
  let v58 : Index := Scalar.indexCast v57
  ![v58.toNat]
def k1_off112 (k1_t6 : Fin k1_t6_loop.trips) : Fin 3 → Nat :=
  let c1_i32_76 : BitVec 32 := 1#32
  let c0_i32_40 : BitVec 32 := 0#32
  let c1_i32_42 : BitVec 32 := 1#32
  let arg12 : BitVec 32 := Scf.iv c0_i32_40 c1_i32_42 k1_t6
  let c16_i32_61 : BitVec 32 := 16#32
  let v61 : BitVec 32 := Scalar.muli arg12 c16_i32_61
  let c0_i32_62 : BitVec 32 := 0#32
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c20_i32_63 : BitVec 32 := 20#32
  let c0_i32_66 : BitVec 32 := 0#32
  let v71 : BitVec 1 := Scalar.cmpi .sgt c20_i32_63 c0_i32_66
  let v72 : BitVec 32 := Scalar.extui v71
  let c0_i32_67 : BitVec 32 := 0#32
  let v73 : BitVec 1 := Scalar.cmpi .slt c20_i32_63 c0_i32_67
  let v74 : BitVec 32 := Scalar.extui v73
  let v75 : BitVec 32 := Scalar.subi v72 v74
  let v76 : BitVec 1 := Scalar.cmpi .ne v70 v75
  let v77 : BitVec 32 := Scalar.remsi v62 c20_i32_63
  let c0_i32_68 : BitVec 32 := 0#32
  let v78 : BitVec 1 := Scalar.cmpi .ne v77 c0_i32_68
  let v79 : BitVec 1 := Scalar.andi v76 v78
  let v65 : BitVec 32 := Scalar.divsi v62 c20_i32_63
  let c1_i32_69 : BitVec 32 := 1#32
  let v80 : BitVec 32 := Scalar.subi v65 c1_i32_69
  let v81 : BitVec 32 := Scalar.select v79 v80 v65
  let c20_i32_70 : BitVec 32 := 20#32
  let c0_i32_71 : BitVec 32 := 0#32
  let v82 : BitVec 1 := Scalar.cmpi .eq c20_i32_70 c0_i32_71
  let c1_i32_72 : BitVec 32 := 1#32
  let v83 : BitVec 32 := Scalar.select v82 c1_i32_72 c20_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![1, v81.toNat, v92.toNat]
def k1_off113 (v64 : BitVec 32) : Fin 2 → Nat :=
  let c0_i32_77 : BitVec 32 := 0#32
  ![v64.toNat, 0]

def k1_chk49 (v64 : BitVec 32) : Prop :=
  (∀ a, (k1_off113 v64) a + S1x64.size a ≤ S1000000x64.size a)
instance k1_chk49.dec : ∀ (v64 : BitVec 32), Decidable (k1_chk49 v64) := fun v64 => decidable_of_iff' _ (Iff.of_eq (k1_chk49.eq_1 v64))
theorem k1_off113_inb : ∀ (v64 : BitVec 32) (k1_hw49 : k1_chk49 v64), ∀ a, (k1_off113 v64) a + S1x64.size a ≤ S1000000x64.size a := fun v64 k1_hw49 => k1_hw49

def k1_off114 (k1_t6 : Fin k1_t6_loop.trips) (c0_i32_62 : BitVec 32) : Fin 3 → Nat :=
  let c1_i32_76 : BitVec 32 := 1#32
  let c0_i32_40 : BitVec 32 := 0#32
  let c1_i32_42 : BitVec 32 := 1#32
  let arg12 : BitVec 32 := Scf.iv c0_i32_40 c1_i32_42 k1_t6
  let c16_i32_61 : BitVec 32 := 16#32
  let v61 : BitVec 32 := Scalar.muli arg12 c16_i32_61
  let v62 : BitVec 32 := Scalar.addi v61 c0_i32_62
  let c0_i32_64 : BitVec 32 := 0#32
  let v66 : BitVec 1 := Scalar.cmpi .sgt v62 c0_i32_64
  let v67 : BitVec 32 := Scalar.extui v66
  let c0_i32_65 : BitVec 32 := 0#32
  let v68 : BitVec 1 := Scalar.cmpi .slt v62 c0_i32_65
  let v69 : BitVec 32 := Scalar.extui v68
  let v70 : BitVec 32 := Scalar.subi v67 v69
  let c20_i32_63 : BitVec 32 := 20#32
  let c0_i32_66 : BitVec 32 := 0#32
  let v71 : BitVec 1 := Scalar.cmpi .sgt c20_i32_63 c0_i32_66
  let v72 : BitVec 32 := Scalar.extui v71
  let c0_i32_67 : BitVec 32 := 0#32
  let v73 : BitVec 1 := Scalar.cmpi .slt c20_i32_63 c0_i32_67
  let v74 : BitVec 32 := Scalar.extui v73
  let v75 : BitVec 32 := Scalar.subi v72 v74
  let v76 : BitVec 1 := Scalar.cmpi .ne v70 v75
  let v77 : BitVec 32 := Scalar.remsi v62 c20_i32_63
  let c0_i32_68 : BitVec 32 := 0#32
  let v78 : BitVec 1 := Scalar.cmpi .ne v77 c0_i32_68
  let v79 : BitVec 1 := Scalar.andi v76 v78
  let v65 : BitVec 32 := Scalar.divsi v62 c20_i32_63
  let c1_i32_69 : BitVec 32 := 1#32
  let v80 : BitVec 32 := Scalar.subi v65 c1_i32_69
  let v81 : BitVec 32 := Scalar.select v79 v80 v65
  let c20_i32_70 : BitVec 32 := 20#32
  let c0_i32_71 : BitVec 32 := 0#32
  let v82 : BitVec 1 := Scalar.cmpi .eq c20_i32_70 c0_i32_71
  let c1_i32_72 : BitVec 32 := 1#32
  let v83 : BitVec 32 := Scalar.select v82 c1_i32_72 c20_i32_70
  let v84 : BitVec 32 := Scalar.remsi v62 v83
  let c0_i32_74 : BitVec 32 := 0#32
  let v86 : BitVec 1 := Scalar.cmpi .slt v84 c0_i32_74
  let c0_i32_75 : BitVec 32 := 0#32
  let v87 : BitVec 1 := Scalar.cmpi .slt v83 c0_i32_75
  let v88 : BitVec 1 := Scalar.xori v86 v87
  let c0_i32_73 : BitVec 32 := 0#32
  let v85 : BitVec 1 := Scalar.cmpi .ne v84 c0_i32_73
  let v89 : BitVec 1 := Scalar.andi v88 v85
  let v90 : BitVec 32 := Scalar.addi v84 v83
  let v91 : BitVec 32 := Scalar.select v89 v90 v84
  let c64_i32 : BitVec 32 := 64#32
  let v92 : BitVec 32 := Scalar.muli v91 c64_i32
  ![1, v81.toNat, v92.toNat]
def k1_off115 (v104 : BitVec 32) : Fin 2 → Nat :=
  let c0_i32_96 : BitVec 32 := 0#32
  ![v104.toNat, 0]

def k1_chk50 (v104 : BitVec 32) : Prop :=
  (∀ a, (k1_off115 v104) a + S1x64.size a ≤ S1000000x64.size a)
instance k1_chk50.dec : ∀ (v104 : BitVec 32), Decidable (k1_chk50 v104) := fun v104 => decidable_of_iff' _ (Iff.of_eq (k1_chk50.eq_1 v104))
theorem k1_off115_inb : ∀ (v104 : BitVec 32) (k1_hw50 : k1_chk50 v104), ∀ a, (k1_off115 v104) a + S1x64.size a ≤ S1000000x64.size a := fun v104 k1_hw50 => k1_hw50

def k1_off116 (k1_t6 : Fin k1_t6_loop.trips) (c1_i32_80 : BitVec 32) : Fin 3 → Nat :=
  let c1_i32_95 : BitVec 32 := 1#32
  let c0_i32_40 : BitVec 32 := 0#32
  let c1_i32_42 : BitVec 32 := 1#32
  let arg12 : BitVec 32 := Scf.iv c0_i32_40 c1_i32_42 k1_t6
  let c16_i32_79 : BitVec 32 := 16#32
  let v101 : BitVec 32 := Scalar.muli arg12 c16_i32_79
  let v102 : BitVec 32 := Scalar.addi v101 c1_i32_80
  let c0_i32_82 : BitVec 32 := 0#32
  let v106 : BitVec 1 := Scalar.cmpi .sgt v102 c0_i32_82
  let v107 : BitVec 32 := Scalar.extui v106
  let c0_i32_83 : BitVec 32 := 0#32
  let v108 : BitVec 1 := Scalar.cmpi .slt v102 c0_i32_83
  let v109 : BitVec 32 := Scalar.extui v108
  let v110 : BitVec 32 := Scalar.subi v107 v109
  let c20_i32_81 : BitVec 32 := 20#32
  let c0_i32_84 : BitVec 32 := 0#32
  let v111 : BitVec 1 := Scalar.cmpi .sgt c20_i32_81 c0_i32_84
  let v112 : BitVec 32 := Scalar.extui v111
  let c0_i32_85 : BitVec 32 := 0#32
  let v113 : BitVec 1 := Scalar.cmpi .slt c20_i32_81 c0_i32_85
  let v114 : BitVec 32 := Scalar.extui v113
  let v115 : BitVec 32 := Scalar.subi v112 v114
  let v116 : BitVec 1 := Scalar.cmpi .ne v110 v115
  let v117 : BitVec 32 := Scalar.remsi v102 c20_i32_81
  let c0_i32_86 : BitVec 32 := 0#32
  let v118 : BitVec 1 := Scalar.cmpi .ne v117 c0_i32_86
  let v119 : BitVec 1 := Scalar.andi v116 v118
  let v105 : BitVec 32 := Scalar.divsi v102 c20_i32_81
  let c1_i32_87 : BitVec 32 := 1#32
  let v120 : BitVec 32 := Scalar.subi v105 c1_i32_87
  let v121 : BitVec 32 := Scalar.select v119 v120 v105
  let c20_i32_88 : BitVec 32 := 20#32
  let c0_i32_89 : BitVec 32 := 0#32
  let v122 : BitVec 1 := Scalar.cmpi .eq c20_i32_88 c0_i32_89
  let c1_i32_90 : BitVec 32 := 1#32
  let v123 : BitVec 32 := Scalar.select v122 c1_i32_90 c20_i32_88
  let v124 : BitVec 32 := Scalar.remsi v102 v123
  let c0_i32_92 : BitVec 32 := 0#32
  let v126 : BitVec 1 := Scalar.cmpi .slt v124 c0_i32_92
  let c0_i32_93 : BitVec 32 := 0#32
  let v127 : BitVec 1 := Scalar.cmpi .slt v123 c0_i32_93
  let v128 : BitVec 1 := Scalar.xori v126 v127
  let c0_i32_91 : BitVec 32 := 0#32
  let v125 : BitVec 1 := Scalar.cmpi .ne v124 c0_i32_91
  let v129 : BitVec 1 := Scalar.andi v128 v125
  let v130 : BitVec 32 := Scalar.addi v124 v123
  let v131 : BitVec 32 := Scalar.select v129 v130 v124
  let c64_i32_94 : BitVec 32 := 64#32
  let v132 : BitVec 32 := Scalar.muli v131 c64_i32_94
  ![1, v121.toNat, v132.toNat]
def k1_off117 (v144 : BitVec 32) : Fin 2 → Nat :=
  let c0_i32_115 : BitVec 32 := 0#32
  ![v144.toNat, 0]

def k1_chk51 (v144 : BitVec 32) : Prop :=
  (∀ a, (k1_off117 v144) a + S1x64.size a ≤ S1000000x64.size a)
instance k1_chk51.dec : ∀ (v144 : BitVec 32), Decidable (k1_chk51 v144) := fun v144 => decidable_of_iff' _ (Iff.of_eq (k1_chk51.eq_1 v144))
theorem k1_off117_inb : ∀ (v144 : BitVec 32) (k1_hw51 : k1_chk51 v144), ∀ a, (k1_off117 v144) a + S1x64.size a ≤ S1000000x64.size a := fun v144 k1_hw51 => k1_hw51

def k1_off118 (k1_t6 : Fin k1_t6_loop.trips) (c2_i32_99 : BitVec 32) : Fin 3 → Nat :=
  let c1_i32_114 : BitVec 32 := 1#32
  let c0_i32_40 : BitVec 32 := 0#32
  let c1_i32_42 : BitVec 32 := 1#32
  let arg12 : BitVec 32 := Scf.iv c0_i32_40 c1_i32_42 k1_t6
  let c16_i32_98 : BitVec 32 := 16#32
  let v141 : BitVec 32 := Scalar.muli arg12 c16_i32_98
  let v142 : BitVec 32 := Scalar.addi v141 c2_i32_99
  let c0_i32_101 : BitVec 32 := 0#32
  let v146 : BitVec 1 := Scalar.cmpi .sgt v142 c0_i32_101
  let v147 : BitVec 32 := Scalar.extui v146
  let c0_i32_102 : BitVec 32 := 0#32
  let v148 : BitVec 1 := Scalar.cmpi .slt v142 c0_i32_102
  let v149 : BitVec 32 := Scalar.extui v148
  let v150 : BitVec 32 := Scalar.subi v147 v149
  let c20_i32_100 : BitVec 32 := 20#32
  let c0_i32_103 : BitVec 32 := 0#32
  let v151 : BitVec 1 := Scalar.cmpi .sgt c20_i32_100 c0_i32_103
  let v152 : BitVec 32 := Scalar.extui v151
  let c0_i32_104 : BitVec 32 := 0#32
  let v153 : BitVec 1 := Scalar.cmpi .slt c20_i32_100 c0_i32_104
  let v154 : BitVec 32 := Scalar.extui v153
  let v155 : BitVec 32 := Scalar.subi v152 v154
  let v156 : BitVec 1 := Scalar.cmpi .ne v150 v155
  let v157 : BitVec 32 := Scalar.remsi v142 c20_i32_100
  let c0_i32_105 : BitVec 32 := 0#32
  let v158 : BitVec 1 := Scalar.cmpi .ne v157 c0_i32_105
  let v159 : BitVec 1 := Scalar.andi v156 v158
  let v145 : BitVec 32 := Scalar.divsi v142 c20_i32_100
  let c1_i32_106 : BitVec 32 := 1#32
  let v160 : BitVec 32 := Scalar.subi v145 c1_i32_106
  let v161 : BitVec 32 := Scalar.select v159 v160 v145
  let c20_i32_107 : BitVec 32 := 20#32
  let c0_i32_108 : BitVec 32 := 0#32
  let v162 : BitVec 1 := Scalar.cmpi .eq c20_i32_107 c0_i32_108
  let c1_i32_109 : BitVec 32 := 1#32
  let v163 : BitVec 32 := Scalar.select v162 c1_i32_109 c20_i32_107
  let v164 : BitVec 32 := Scalar.remsi v142 v163
  let c0_i32_111 : BitVec 32 := 0#32
  let v166 : BitVec 1 := Scalar.cmpi .slt v164 c0_i32_111
  let c0_i32_112 : BitVec 32 := 0#32
  let v167 : BitVec 1 := Scalar.cmpi .slt v163 c0_i32_112
  let v168 : BitVec 1 := Scalar.xori v166 v167
  let c0_i32_110 : BitVec 32 := 0#32
  let v165 : BitVec 1 := Scalar.cmpi .ne v164 c0_i32_110
  let v169 : BitVec 1 := Scalar.andi v168 v165
  let v170 : BitVec 32 := Scalar.addi v164 v163
  let v171 : BitVec 32 := Scalar.select v169 v170 v164
  let c64_i32_113 : BitVec 32 := 64#32
  let v172 : BitVec 32 := Scalar.muli v171 c64_i32_113
  ![1, v161.toNat, v172.toNat]
def k1_off119 (v184 : BitVec 32) : Fin 2 → Nat :=
  let c0_i32_133 : BitVec 32 := 0#32
  ![v184.toNat, 0]

def k1_chk52 (v184 : BitVec 32) : Prop :=
  (∀ a, (k1_off119 v184) a + S1x64.size a ≤ S1000000x64.size a)
instance k1_chk52.dec : ∀ (v184 : BitVec 32), Decidable (k1_chk52 v184) := fun v184 => decidable_of_iff' _ (Iff.of_eq (k1_chk52.eq_1 v184))
theorem k1_off119_inb : ∀ (v184 : BitVec 32) (k1_hw52 : k1_chk52 v184), ∀ a, (k1_off119 v184) a + S1x64.size a ≤ S1000000x64.size a := fun v184 k1_hw52 => k1_hw52

def k1_off120 (k1_t6 : Fin k1_t6_loop.trips) (c3_i32 : BitVec 32) : Fin 3 → Nat :=
  let c1_i32_132 : BitVec 32 := 1#32
  let c0_i32_40 : BitVec 32 := 0#32
  let c1_i32_42 : BitVec 32 := 1#32
  let arg12 : BitVec 32 := Scf.iv c0_i32_40 c1_i32_42 k1_t6
  let c16_i32_117 : BitVec 32 := 16#32
  let v181 : BitVec 32 := Scalar.muli arg12 c16_i32_117
  let v182 : BitVec 32 := Scalar.addi v181 c3_i32
  let c0_i32_119 : BitVec 32 := 0#32
  let v186 : BitVec 1 := Scalar.cmpi .sgt v182 c0_i32_119
  let v187 : BitVec 32 := Scalar.extui v186
  let c0_i32_120 : BitVec 32 := 0#32
  let v188 : BitVec 1 := Scalar.cmpi .slt v182 c0_i32_120
  let v189 : BitVec 32 := Scalar.extui v188
  let v190 : BitVec 32 := Scalar.subi v187 v189
  let c20_i32_118 : BitVec 32 := 20#32
  let c0_i32_121 : BitVec 32 := 0#32
  let v191 : BitVec 1 := Scalar.cmpi .sgt c20_i32_118 c0_i32_121
  let v192 : BitVec 32 := Scalar.extui v191
  let c0_i32_122 : BitVec 32 := 0#32
  let v193 : BitVec 1 := Scalar.cmpi .slt c20_i32_118 c0_i32_122
  let v194 : BitVec 32 := Scalar.extui v193
  let v195 : BitVec 32 := Scalar.subi v192 v194
  let v196 : BitVec 1 := Scalar.cmpi .ne v190 v195
  let v197 : BitVec 32 := Scalar.remsi v182 c20_i32_118
  let c0_i32_123 : BitVec 32 := 0#32
  let v198 : BitVec 1 := Scalar.cmpi .ne v197 c0_i32_123
  let v199 : BitVec 1 := Scalar.andi v196 v198
  let v185 : BitVec 32 := Scalar.divsi v182 c20_i32_118
  let c1_i32_124 : BitVec 32 := 1#32
  let v200 : BitVec 32 := Scalar.subi v185 c1_i32_124
  let v201 : BitVec 32 := Scalar.select v199 v200 v185
  let c20_i32_125 : BitVec 32 := 20#32
  let c0_i32_126 : BitVec 32 := 0#32
  let v202 : BitVec 1 := Scalar.cmpi .eq c20_i32_125 c0_i32_126
  let c1_i32_127 : BitVec 32 := 1#32
  let v203 : BitVec 32 := Scalar.select v202 c1_i32_127 c20_i32_125
  let v204 : BitVec 32 := Scalar.remsi v182 v203
  let c0_i32_129 : BitVec 32 := 0#32
  let v206 : BitVec 1 := Scalar.cmpi .slt v204 c0_i32_129
  let c0_i32_130 : BitVec 32 := 0#32
  let v207 : BitVec 1 := Scalar.cmpi .slt v203 c0_i32_130
  let v208 : BitVec 1 := Scalar.xori v206 v207
  let c0_i32_128 : BitVec 32 := 0#32
  let v205 : BitVec 1 := Scalar.cmpi .ne v204 c0_i32_128
  let v209 : BitVec 1 := Scalar.andi v208 v205
  let v210 : BitVec 32 := Scalar.addi v204 v203
  let v211 : BitVec 32 := Scalar.select v209 v210 v204
  let c64_i32_131 : BitVec 32 := 64#32
  let v212 : BitVec 32 := Scalar.muli v211 c64_i32_131
  ![1, v201.toNat, v212.toNat]
def k1_off121 (v224 : BitVec 32) : Fin 2 → Nat :=
  let c0_i32_151 : BitVec 32 := 0#32
  ![v224.toNat, 0]

def k1_chk53 (v224 : BitVec 32) : Prop :=
  (∀ a, (k1_off121 v224) a + S1x64.size a ≤ S1000000x64.size a)
instance k1_chk53.dec : ∀ (v224 : BitVec 32), Decidable (k1_chk53 v224) := fun v224 => decidable_of_iff' _ (Iff.of_eq (k1_chk53.eq_1 v224))
theorem k1_off121_inb : ∀ (v224 : BitVec 32) (k1_hw53 : k1_chk53 v224), ∀ a, (k1_off121 v224) a + S1x64.size a ≤ S1000000x64.size a := fun v224 k1_hw53 => k1_hw53

def k1_off122 (k1_t6 : Fin k1_t6_loop.trips) (c4_i32 : BitVec 32) : Fin 3 → Nat :=
  let c1_i32_150 : BitVec 32 := 1#32
  let c0_i32_40 : BitVec 32 := 0#32
  let c1_i32_42 : BitVec 32 := 1#32
  let arg12 : BitVec 32 := Scf.iv c0_i32_40 c1_i32_42 k1_t6
  let c16_i32_135 : BitVec 32 := 16#32
  let v221 : BitVec 32 := Scalar.muli arg12 c16_i32_135
  let v222 : BitVec 32 := Scalar.addi v221 c4_i32
  let c0_i32_137 : BitVec 32 := 0#32
  let v226 : BitVec 1 := Scalar.cmpi .sgt v222 c0_i32_137
  let v227 : BitVec 32 := Scalar.extui v226
  let c0_i32_138 : BitVec 32 := 0#32
  let v228 : BitVec 1 := Scalar.cmpi .slt v222 c0_i32_138
  let v229 : BitVec 32 := Scalar.extui v228
  let v230 : BitVec 32 := Scalar.subi v227 v229
  let c20_i32_136 : BitVec 32 := 20#32
  let c0_i32_139 : BitVec 32 := 0#32
  let v231 : BitVec 1 := Scalar.cmpi .sgt c20_i32_136 c0_i32_139
  let v232 : BitVec 32 := Scalar.extui v231
  let c0_i32_140 : BitVec 32 := 0#32
  let v233 : BitVec 1 := Scalar.cmpi .slt c20_i32_136 c0_i32_140
  let v234 : BitVec 32 := Scalar.extui v233
  let v235 : BitVec 32 := Scalar.subi v232 v234
  let v236 : BitVec 1 := Scalar.cmpi .ne v230 v235
  let v237 : BitVec 32 := Scalar.remsi v222 c20_i32_136
  let c0_i32_141 : BitVec 32 := 0#32
  let v238 : BitVec 1 := Scalar.cmpi .ne v237 c0_i32_141
  let v239 : BitVec 1 := Scalar.andi v236 v238
  let v225 : BitVec 32 := Scalar.divsi v222 c20_i32_136
  let c1_i32_142 : BitVec 32 := 1#32
  let v240 : BitVec 32 := Scalar.subi v225 c1_i32_142
  let v241 : BitVec 32 := Scalar.select v239 v240 v225
  let c20_i32_143 : BitVec 32 := 20#32
  let c0_i32_144 : BitVec 32 := 0#32
  let v242 : BitVec 1 := Scalar.cmpi .eq c20_i32_143 c0_i32_144
  let c1_i32_145 : BitVec 32 := 1#32
  let v243 : BitVec 32 := Scalar.select v242 c1_i32_145 c20_i32_143
  let v244 : BitVec 32 := Scalar.remsi v222 v243
  let c0_i32_147 : BitVec 32 := 0#32
  let v246 : BitVec 1 := Scalar.cmpi .slt v244 c0_i32_147
  let c0_i32_148 : BitVec 32 := 0#32
  let v247 : BitVec 1 := Scalar.cmpi .slt v243 c0_i32_148
  let v248 : BitVec 1 := Scalar.xori v246 v247
  let c0_i32_146 : BitVec 32 := 0#32
  let v245 : BitVec 1 := Scalar.cmpi .ne v244 c0_i32_146
  let v249 : BitVec 1 := Scalar.andi v248 v245
  let v250 : BitVec 32 := Scalar.addi v244 v243
  let v251 : BitVec 32 := Scalar.select v249 v250 v244
  let c64_i32_149 : BitVec 32 := 64#32
  let v252 : BitVec 32 := Scalar.muli v251 c64_i32_149
  ![1, v241.toNat, v252.toNat]
def k1_off123 (v264 : BitVec 32) : Fin 2 → Nat :=
  let c0_i32_169 : BitVec 32 := 0#32
  ![v264.toNat, 0]

def k1_chk54 (v264 : BitVec 32) : Prop :=
  (∀ a, (k1_off123 v264) a + S1x64.size a ≤ S1000000x64.size a)
instance k1_chk54.dec : ∀ (v264 : BitVec 32), Decidable (k1_chk54 v264) := fun v264 => decidable_of_iff' _ (Iff.of_eq (k1_chk54.eq_1 v264))
theorem k1_off123_inb : ∀ (v264 : BitVec 32) (k1_hw54 : k1_chk54 v264), ∀ a, (k1_off123 v264) a + S1x64.size a ≤ S1000000x64.size a := fun v264 k1_hw54 => k1_hw54

def k1_off124 (k1_t6 : Fin k1_t6_loop.trips) (c5_i32 : BitVec 32) : Fin 3 → Nat :=
  let c1_i32_168 : BitVec 32 := 1#32
  let c0_i32_40 : BitVec 32 := 0#32
  let c1_i32_42 : BitVec 32 := 1#32
  let arg12 : BitVec 32 := Scf.iv c0_i32_40 c1_i32_42 k1_t6
  let c16_i32_153 : BitVec 32 := 16#32
  let v261 : BitVec 32 := Scalar.muli arg12 c16_i32_153
  let v262 : BitVec 32 := Scalar.addi v261 c5_i32
  let c0_i32_155 : BitVec 32 := 0#32
  let v266 : BitVec 1 := Scalar.cmpi .sgt v262 c0_i32_155
  let v267 : BitVec 32 := Scalar.extui v266
  let c0_i32_156 : BitVec 32 := 0#32
  let v268 : BitVec 1 := Scalar.cmpi .slt v262 c0_i32_156
  let v269 : BitVec 32 := Scalar.extui v268
  let v270 : BitVec 32 := Scalar.subi v267 v269
  let c20_i32_154 : BitVec 32 := 20#32
  let c0_i32_157 : BitVec 32 := 0#32
  let v271 : BitVec 1 := Scalar.cmpi .sgt c20_i32_154 c0_i32_157
  let v272 : BitVec 32 := Scalar.extui v271
  let c0_i32_158 : BitVec 32 := 0#32
  let v273 : BitVec 1 := Scalar.cmpi .slt c20_i32_154 c0_i32_158
  let v274 : BitVec 32 := Scalar.extui v273
  let v275 : BitVec 32 := Scalar.subi v272 v274
  let v276 : BitVec 1 := Scalar.cmpi .ne v270 v275
  let v277 : BitVec 32 := Scalar.remsi v262 c20_i32_154
  let c0_i32_159 : BitVec 32 := 0#32
  let v278 : BitVec 1 := Scalar.cmpi .ne v277 c0_i32_159
  let v279 : BitVec 1 := Scalar.andi v276 v278
  let v265 : BitVec 32 := Scalar.divsi v262 c20_i32_154
  let c1_i32_160 : BitVec 32 := 1#32
  let v280 : BitVec 32 := Scalar.subi v265 c1_i32_160
  let v281 : BitVec 32 := Scalar.select v279 v280 v265
  let c20_i32_161 : BitVec 32 := 20#32
  let c0_i32_162 : BitVec 32 := 0#32
  let v282 : BitVec 1 := Scalar.cmpi .eq c20_i32_161 c0_i32_162
  let c1_i32_163 : BitVec 32 := 1#32
  let v283 : BitVec 32 := Scalar.select v282 c1_i32_163 c20_i32_161
  let v284 : BitVec 32 := Scalar.remsi v262 v283
  let c0_i32_165 : BitVec 32 := 0#32
  let v286 : BitVec 1 := Scalar.cmpi .slt v284 c0_i32_165
  let c0_i32_166 : BitVec 32 := 0#32
  let v287 : BitVec 1 := Scalar.cmpi .slt v283 c0_i32_166
  let v288 : BitVec 1 := Scalar.xori v286 v287
  let c0_i32_164 : BitVec 32 := 0#32
  let v285 : BitVec 1 := Scalar.cmpi .ne v284 c0_i32_164
  let v289 : BitVec 1 := Scalar.andi v288 v285
  let v290 : BitVec 32 := Scalar.addi v284 v283
  let v291 : BitVec 32 := Scalar.select v289 v290 v284
  let c64_i32_167 : BitVec 32 := 64#32
  let v292 : BitVec 32 := Scalar.muli v291 c64_i32_167
  ![1, v281.toNat, v292.toNat]
def k1_off125 (v304 : BitVec 32) : Fin 2 → Nat :=
  let c0_i32_187 : BitVec 32 := 0#32
  ![v304.toNat, 0]

def k1_chk55 (v304 : BitVec 32) : Prop :=
  (∀ a, (k1_off125 v304) a + S1x64.size a ≤ S1000000x64.size a)
instance k1_chk55.dec : ∀ (v304 : BitVec 32), Decidable (k1_chk55 v304) := fun v304 => decidable_of_iff' _ (Iff.of_eq (k1_chk55.eq_1 v304))
theorem k1_off125_inb : ∀ (v304 : BitVec 32) (k1_hw55 : k1_chk55 v304), ∀ a, (k1_off125 v304) a + S1x64.size a ≤ S1000000x64.size a := fun v304 k1_hw55 => k1_hw55

def k1_off126 (k1_t6 : Fin k1_t6_loop.trips) (c6_i32 : BitVec 32) : Fin 3 → Nat :=
  let c1_i32_186 : BitVec 32 := 1#32
  let c0_i32_40 : BitVec 32 := 0#32
  let c1_i32_42 : BitVec 32 := 1#32
  let arg12 : BitVec 32 := Scf.iv c0_i32_40 c1_i32_42 k1_t6
  let c16_i32_171 : BitVec 32 := 16#32
  let v301 : BitVec 32 := Scalar.muli arg12 c16_i32_171
  let v302 : BitVec 32 := Scalar.addi v301 c6_i32
  let c0_i32_173 : BitVec 32 := 0#32
  let v306 : BitVec 1 := Scalar.cmpi .sgt v302 c0_i32_173
  let v307 : BitVec 32 := Scalar.extui v306
  let c0_i32_174 : BitVec 32 := 0#32
  let v308 : BitVec 1 := Scalar.cmpi .slt v302 c0_i32_174
  let v309 : BitVec 32 := Scalar.extui v308
  let v310 : BitVec 32 := Scalar.subi v307 v309
  let c20_i32_172 : BitVec 32 := 20#32
  let c0_i32_175 : BitVec 32 := 0#32
  let v311 : BitVec 1 := Scalar.cmpi .sgt c20_i32_172 c0_i32_175
  let v312 : BitVec 32 := Scalar.extui v311
  let c0_i32_176 : BitVec 32 := 0#32
  let v313 : BitVec 1 := Scalar.cmpi .slt c20_i32_172 c0_i32_176
  let v314 : BitVec 32 := Scalar.extui v313
  let v315 : BitVec 32 := Scalar.subi v312 v314
  let v316 : BitVec 1 := Scalar.cmpi .ne v310 v315
  let v317 : BitVec 32 := Scalar.remsi v302 c20_i32_172
  let c0_i32_177 : BitVec 32 := 0#32
  let v318 : BitVec 1 := Scalar.cmpi .ne v317 c0_i32_177
  let v319 : BitVec 1 := Scalar.andi v316 v318
  let v305 : BitVec 32 := Scalar.divsi v302 c20_i32_172
  let c1_i32_178 : BitVec 32 := 1#32
  let v320 : BitVec 32 := Scalar.subi v305 c1_i32_178
  let v321 : BitVec 32 := Scalar.select v319 v320 v305
  let c20_i32_179 : BitVec 32 := 20#32
  let c0_i32_180 : BitVec 32 := 0#32
  let v322 : BitVec 1 := Scalar.cmpi .eq c20_i32_179 c0_i32_180
  let c1_i32_181 : BitVec 32 := 1#32
  let v323 : BitVec 32 := Scalar.select v322 c1_i32_181 c20_i32_179
  let v324 : BitVec 32 := Scalar.remsi v302 v323
  let c0_i32_183 : BitVec 32 := 0#32
  let v326 : BitVec 1 := Scalar.cmpi .slt v324 c0_i32_183
  let c0_i32_184 : BitVec 32 := 0#32
  let v327 : BitVec 1 := Scalar.cmpi .slt v323 c0_i32_184
  let v328 : BitVec 1 := Scalar.xori v326 v327
  let c0_i32_182 : BitVec 32 := 0#32
  let v325 : BitVec 1 := Scalar.cmpi .ne v324 c0_i32_182
  let v329 : BitVec 1 := Scalar.andi v328 v325
  let v330 : BitVec 32 := Scalar.addi v324 v323
  let v331 : BitVec 32 := Scalar.select v329 v330 v324
  let c64_i32_185 : BitVec 32 := 64#32
  let v332 : BitVec 32 := Scalar.muli v331 c64_i32_185
  ![1, v321.toNat, v332.toNat]
def k1_off127 (v344 : BitVec 32) : Fin 2 → Nat :=
  let c0_i32_205 : BitVec 32 := 0#32
  ![v344.toNat, 0]

def k1_chk56 (v344 : BitVec 32) : Prop :=
  (∀ a, (k1_off127 v344) a + S1x64.size a ≤ S1000000x64.size a)
instance k1_chk56.dec : ∀ (v344 : BitVec 32), Decidable (k1_chk56 v344) := fun v344 => decidable_of_iff' _ (Iff.of_eq (k1_chk56.eq_1 v344))
theorem k1_off127_inb : ∀ (v344 : BitVec 32) (k1_hw56 : k1_chk56 v344), ∀ a, (k1_off127 v344) a + S1x64.size a ≤ S1000000x64.size a := fun v344 k1_hw56 => k1_hw56

def k1_off128 (k1_t6 : Fin k1_t6_loop.trips) (c7_i32 : BitVec 32) : Fin 3 → Nat :=
  let c1_i32_204 : BitVec 32 := 1#32
  let c0_i32_40 : BitVec 32 := 0#32
  let c1_i32_42 : BitVec 32 := 1#32
  let arg12 : BitVec 32 := Scf.iv c0_i32_40 c1_i32_42 k1_t6
  let c16_i32_189 : BitVec 32 := 16#32
  let v341 : BitVec 32 := Scalar.muli arg12 c16_i32_189
  let v342 : BitVec 32 := Scalar.addi v341 c7_i32
  let c0_i32_191 : BitVec 32 := 0#32
  let v346 : BitVec 1 := Scalar.cmpi .sgt v342 c0_i32_191
  let v347 : BitVec 32 := Scalar.extui v346
  let c0_i32_192 : BitVec 32 := 0#32
  let v348 : BitVec 1 := Scalar.cmpi .slt v342 c0_i32_192
  let v349 : BitVec 32 := Scalar.extui v348
  let v350 : BitVec 32 := Scalar.subi v347 v349
  let c20_i32_190 : BitVec 32 := 20#32
  let c0_i32_193 : BitVec 32 := 0#32
  let v351 : BitVec 1 := Scalar.cmpi .sgt c20_i32_190 c0_i32_193
  let v352 : BitVec 32 := Scalar.extui v351
  let c0_i32_194 : BitVec 32 := 0#32
  let v353 : BitVec 1 := Scalar.cmpi .slt c20_i32_190 c0_i32_194
  let v354 : BitVec 32 := Scalar.extui v353
  let v355 : BitVec 32 := Scalar.subi v352 v354
  let v356 : BitVec 1 := Scalar.cmpi .ne v350 v355
  let v357 : BitVec 32 := Scalar.remsi v342 c20_i32_190
  let c0_i32_195 : BitVec 32 := 0#32
  let v358 : BitVec 1 := Scalar.cmpi .ne v357 c0_i32_195
  let v359 : BitVec 1 := Scalar.andi v356 v358
  let v345 : BitVec 32 := Scalar.divsi v342 c20_i32_190
  let c1_i32_196 : BitVec 32 := 1#32
  let v360 : BitVec 32 := Scalar.subi v345 c1_i32_196
  let v361 : BitVec 32 := Scalar.select v359 v360 v345
  let c20_i32_197 : BitVec 32 := 20#32
  let c0_i32_198 : BitVec 32 := 0#32
  let v362 : BitVec 1 := Scalar.cmpi .eq c20_i32_197 c0_i32_198
  let c1_i32_199 : BitVec 32 := 1#32
  let v363 : BitVec 32 := Scalar.select v362 c1_i32_199 c20_i32_197
  let v364 : BitVec 32 := Scalar.remsi v342 v363
  let c0_i32_201 : BitVec 32 := 0#32
  let v366 : BitVec 1 := Scalar.cmpi .slt v364 c0_i32_201
  let c0_i32_202 : BitVec 32 := 0#32
  let v367 : BitVec 1 := Scalar.cmpi .slt v363 c0_i32_202
  let v368 : BitVec 1 := Scalar.xori v366 v367
  let c0_i32_200 : BitVec 32 := 0#32
  let v365 : BitVec 1 := Scalar.cmpi .ne v364 c0_i32_200
  let v369 : BitVec 1 := Scalar.andi v368 v365
  let v370 : BitVec 32 := Scalar.addi v364 v363
  let v371 : BitVec 32 := Scalar.select v369 v370 v364
  let c64_i32_203 : BitVec 32 := 64#32
  let v372 : BitVec 32 := Scalar.muli v371 c64_i32_203
  ![1, v361.toNat, v372.toNat]
def k1_off129 (v384 : BitVec 32) : Fin 2 → Nat :=
  let c0_i32_223 : BitVec 32 := 0#32
  ![v384.toNat, 0]

def k1_chk57 (v384 : BitVec 32) : Prop :=
  (∀ a, (k1_off129 v384) a + S1x64.size a ≤ S1000000x64.size a)
instance k1_chk57.dec : ∀ (v384 : BitVec 32), Decidable (k1_chk57 v384) := fun v384 => decidable_of_iff' _ (Iff.of_eq (k1_chk57.eq_1 v384))
theorem k1_off129_inb : ∀ (v384 : BitVec 32) (k1_hw57 : k1_chk57 v384), ∀ a, (k1_off129 v384) a + S1x64.size a ≤ S1000000x64.size a := fun v384 k1_hw57 => k1_hw57

def k1_off130 (k1_t6 : Fin k1_t6_loop.trips) (c8_i32 : BitVec 32) : Fin 3 → Nat :=
  let c1_i32_222 : BitVec 32 := 1#32
  let c0_i32_40 : BitVec 32 := 0#32
  let c1_i32_42 : BitVec 32 := 1#32
  let arg12 : BitVec 32 := Scf.iv c0_i32_40 c1_i32_42 k1_t6
  let c16_i32_207 : BitVec 32 := 16#32
  let v381 : BitVec 32 := Scalar.muli arg12 c16_i32_207
  let v382 : BitVec 32 := Scalar.addi v381 c8_i32
  let c0_i32_209 : BitVec 32 := 0#32
  let v386 : BitVec 1 := Scalar.cmpi .sgt v382 c0_i32_209
  let v387 : BitVec 32 := Scalar.extui v386
  let c0_i32_210 : BitVec 32 := 0#32
  let v388 : BitVec 1 := Scalar.cmpi .slt v382 c0_i32_210
  let v389 : BitVec 32 := Scalar.extui v388
  let v390 : BitVec 32 := Scalar.subi v387 v389
  let c20_i32_208 : BitVec 32 := 20#32
  let c0_i32_211 : BitVec 32 := 0#32
  let v391 : BitVec 1 := Scalar.cmpi .sgt c20_i32_208 c0_i32_211
  let v392 : BitVec 32 := Scalar.extui v391
  let c0_i32_212 : BitVec 32 := 0#32
  let v393 : BitVec 1 := Scalar.cmpi .slt c20_i32_208 c0_i32_212
  let v394 : BitVec 32 := Scalar.extui v393
  let v395 : BitVec 32 := Scalar.subi v392 v394
  let v396 : BitVec 1 := Scalar.cmpi .ne v390 v395
  let v397 : BitVec 32 := Scalar.remsi v382 c20_i32_208
  let c0_i32_213 : BitVec 32 := 0#32
  let v398 : BitVec 1 := Scalar.cmpi .ne v397 c0_i32_213
  let v399 : BitVec 1 := Scalar.andi v396 v398
  let v385 : BitVec 32 := Scalar.divsi v382 c20_i32_208
  let c1_i32_214 : BitVec 32 := 1#32
  let v400 : BitVec 32 := Scalar.subi v385 c1_i32_214
  let v401 : BitVec 32 := Scalar.select v399 v400 v385
  let c20_i32_215 : BitVec 32 := 20#32
  let c0_i32_216 : BitVec 32 := 0#32
  let v402 : BitVec 1 := Scalar.cmpi .eq c20_i32_215 c0_i32_216
  let c1_i32_217 : BitVec 32 := 1#32
  let v403 : BitVec 32 := Scalar.select v402 c1_i32_217 c20_i32_215
  let v404 : BitVec 32 := Scalar.remsi v382 v403
  let c0_i32_219 : BitVec 32 := 0#32
  let v406 : BitVec 1 := Scalar.cmpi .slt v404 c0_i32_219
  let c0_i32_220 : BitVec 32 := 0#32
  let v407 : BitVec 1 := Scalar.cmpi .slt v403 c0_i32_220
  let v408 : BitVec 1 := Scalar.xori v406 v407
  let c0_i32_218 : BitVec 32 := 0#32
  let v405 : BitVec 1 := Scalar.cmpi .ne v404 c0_i32_218
  let v409 : BitVec 1 := Scalar.andi v408 v405
  let v410 : BitVec 32 := Scalar.addi v404 v403
  let v411 : BitVec 32 := Scalar.select v409 v410 v404
  let c64_i32_221 : BitVec 32 := 64#32
  let v412 : BitVec 32 := Scalar.muli v411 c64_i32_221
  ![1, v401.toNat, v412.toNat]
def k1_off131 (v424 : BitVec 32) : Fin 2 → Nat :=
  let c0_i32_241 : BitVec 32 := 0#32
  ![v424.toNat, 0]

def k1_chk58 (v424 : BitVec 32) : Prop :=
  (∀ a, (k1_off131 v424) a + S1x64.size a ≤ S1000000x64.size a)
instance k1_chk58.dec : ∀ (v424 : BitVec 32), Decidable (k1_chk58 v424) := fun v424 => decidable_of_iff' _ (Iff.of_eq (k1_chk58.eq_1 v424))
theorem k1_off131_inb : ∀ (v424 : BitVec 32) (k1_hw58 : k1_chk58 v424), ∀ a, (k1_off131 v424) a + S1x64.size a ≤ S1000000x64.size a := fun v424 k1_hw58 => k1_hw58

def k1_off132 (k1_t6 : Fin k1_t6_loop.trips) (c9_i32 : BitVec 32) : Fin 3 → Nat :=
  let c1_i32_240 : BitVec 32 := 1#32
  let c0_i32_40 : BitVec 32 := 0#32
  let c1_i32_42 : BitVec 32 := 1#32
  let arg12 : BitVec 32 := Scf.iv c0_i32_40 c1_i32_42 k1_t6
  let c16_i32_225 : BitVec 32 := 16#32
  let v421 : BitVec 32 := Scalar.muli arg12 c16_i32_225
  let v422 : BitVec 32 := Scalar.addi v421 c9_i32
  let c0_i32_227 : BitVec 32 := 0#32
  let v426 : BitVec 1 := Scalar.cmpi .sgt v422 c0_i32_227
  let v427 : BitVec 32 := Scalar.extui v426
  let c0_i32_228 : BitVec 32 := 0#32
  let v428 : BitVec 1 := Scalar.cmpi .slt v422 c0_i32_228
  let v429 : BitVec 32 := Scalar.extui v428
  let v430 : BitVec 32 := Scalar.subi v427 v429
  let c20_i32_226 : BitVec 32 := 20#32
  let c0_i32_229 : BitVec 32 := 0#32
  let v431 : BitVec 1 := Scalar.cmpi .sgt c20_i32_226 c0_i32_229
  let v432 : BitVec 32 := Scalar.extui v431
  let c0_i32_230 : BitVec 32 := 0#32
  let v433 : BitVec 1 := Scalar.cmpi .slt c20_i32_226 c0_i32_230
  let v434 : BitVec 32 := Scalar.extui v433
  let v435 : BitVec 32 := Scalar.subi v432 v434
  let v436 : BitVec 1 := Scalar.cmpi .ne v430 v435
  let v437 : BitVec 32 := Scalar.remsi v422 c20_i32_226
  let c0_i32_231 : BitVec 32 := 0#32
  let v438 : BitVec 1 := Scalar.cmpi .ne v437 c0_i32_231
  let v439 : BitVec 1 := Scalar.andi v436 v438
  let v425 : BitVec 32 := Scalar.divsi v422 c20_i32_226
  let c1_i32_232 : BitVec 32 := 1#32
  let v440 : BitVec 32 := Scalar.subi v425 c1_i32_232
  let v441 : BitVec 32 := Scalar.select v439 v440 v425
  let c20_i32_233 : BitVec 32 := 20#32
  let c0_i32_234 : BitVec 32 := 0#32
  let v442 : BitVec 1 := Scalar.cmpi .eq c20_i32_233 c0_i32_234
  let c1_i32_235 : BitVec 32 := 1#32
  let v443 : BitVec 32 := Scalar.select v442 c1_i32_235 c20_i32_233
  let v444 : BitVec 32 := Scalar.remsi v422 v443
  let c0_i32_237 : BitVec 32 := 0#32
  let v446 : BitVec 1 := Scalar.cmpi .slt v444 c0_i32_237
  let c0_i32_238 : BitVec 32 := 0#32
  let v447 : BitVec 1 := Scalar.cmpi .slt v443 c0_i32_238
  let v448 : BitVec 1 := Scalar.xori v446 v447
  let c0_i32_236 : BitVec 32 := 0#32
  let v445 : BitVec 1 := Scalar.cmpi .ne v444 c0_i32_236
  let v449 : BitVec 1 := Scalar.andi v448 v445
  let v450 : BitVec 32 := Scalar.addi v444 v443
  let v451 : BitVec 32 := Scalar.select v449 v450 v444
  let c64_i32_239 : BitVec 32 := 64#32
  let v452 : BitVec 32 := Scalar.muli v451 c64_i32_239
  ![1, v441.toNat, v452.toNat]
def k1_off133 (v464 : BitVec 32) : Fin 2 → Nat :=
  let c0_i32_259 : BitVec 32 := 0#32
  ![v464.toNat, 0]

def k1_chk59 (v464 : BitVec 32) : Prop :=
  (∀ a, (k1_off133 v464) a + S1x64.size a ≤ S1000000x64.size a)
instance k1_chk59.dec : ∀ (v464 : BitVec 32), Decidable (k1_chk59 v464) := fun v464 => decidable_of_iff' _ (Iff.of_eq (k1_chk59.eq_1 v464))
theorem k1_off133_inb : ∀ (v464 : BitVec 32) (k1_hw59 : k1_chk59 v464), ∀ a, (k1_off133 v464) a + S1x64.size a ≤ S1000000x64.size a := fun v464 k1_hw59 => k1_hw59

def k1_off134 (k1_t6 : Fin k1_t6_loop.trips) (c10_i32 : BitVec 32) : Fin 3 → Nat :=
  let c1_i32_258 : BitVec 32 := 1#32
  let c0_i32_40 : BitVec 32 := 0#32
  let c1_i32_42 : BitVec 32 := 1#32
  let arg12 : BitVec 32 := Scf.iv c0_i32_40 c1_i32_42 k1_t6
  let c16_i32_243 : BitVec 32 := 16#32
  let v461 : BitVec 32 := Scalar.muli arg12 c16_i32_243
  let v462 : BitVec 32 := Scalar.addi v461 c10_i32
  let c0_i32_245 : BitVec 32 := 0#32
  let v466 : BitVec 1 := Scalar.cmpi .sgt v462 c0_i32_245
  let v467 : BitVec 32 := Scalar.extui v466
  let c0_i32_246 : BitVec 32 := 0#32
  let v468 : BitVec 1 := Scalar.cmpi .slt v462 c0_i32_246
  let v469 : BitVec 32 := Scalar.extui v468
  let v470 : BitVec 32 := Scalar.subi v467 v469
  let c20_i32_244 : BitVec 32 := 20#32
  let c0_i32_247 : BitVec 32 := 0#32
  let v471 : BitVec 1 := Scalar.cmpi .sgt c20_i32_244 c0_i32_247
  let v472 : BitVec 32 := Scalar.extui v471
  let c0_i32_248 : BitVec 32 := 0#32
  let v473 : BitVec 1 := Scalar.cmpi .slt c20_i32_244 c0_i32_248
  let v474 : BitVec 32 := Scalar.extui v473
  let v475 : BitVec 32 := Scalar.subi v472 v474
  let v476 : BitVec 1 := Scalar.cmpi .ne v470 v475
  let v477 : BitVec 32 := Scalar.remsi v462 c20_i32_244
  let c0_i32_249 : BitVec 32 := 0#32
  let v478 : BitVec 1 := Scalar.cmpi .ne v477 c0_i32_249
  let v479 : BitVec 1 := Scalar.andi v476 v478
  let v465 : BitVec 32 := Scalar.divsi v462 c20_i32_244
  let c1_i32_250 : BitVec 32 := 1#32
  let v480 : BitVec 32 := Scalar.subi v465 c1_i32_250
  let v481 : BitVec 32 := Scalar.select v479 v480 v465
  let c20_i32_251 : BitVec 32 := 20#32
  let c0_i32_252 : BitVec 32 := 0#32
  let v482 : BitVec 1 := Scalar.cmpi .eq c20_i32_251 c0_i32_252
  let c1_i32_253 : BitVec 32 := 1#32
  let v483 : BitVec 32 := Scalar.select v482 c1_i32_253 c20_i32_251
  let v484 : BitVec 32 := Scalar.remsi v462 v483
  let c0_i32_255 : BitVec 32 := 0#32
  let v486 : BitVec 1 := Scalar.cmpi .slt v484 c0_i32_255
  let c0_i32_256 : BitVec 32 := 0#32
  let v487 : BitVec 1 := Scalar.cmpi .slt v483 c0_i32_256
  let v488 : BitVec 1 := Scalar.xori v486 v487
  let c0_i32_254 : BitVec 32 := 0#32
  let v485 : BitVec 1 := Scalar.cmpi .ne v484 c0_i32_254
  let v489 : BitVec 1 := Scalar.andi v488 v485
  let v490 : BitVec 32 := Scalar.addi v484 v483
  let v491 : BitVec 32 := Scalar.select v489 v490 v484
  let c64_i32_257 : BitVec 32 := 64#32
  let v492 : BitVec 32 := Scalar.muli v491 c64_i32_257
  ![1, v481.toNat, v492.toNat]
def k1_off135 (v504 : BitVec 32) : Fin 2 → Nat :=
  let c0_i32_277 : BitVec 32 := 0#32
  ![v504.toNat, 0]

def k1_chk60 (v504 : BitVec 32) : Prop :=
  (∀ a, (k1_off135 v504) a + S1x64.size a ≤ S1000000x64.size a)
instance k1_chk60.dec : ∀ (v504 : BitVec 32), Decidable (k1_chk60 v504) := fun v504 => decidable_of_iff' _ (Iff.of_eq (k1_chk60.eq_1 v504))
theorem k1_off135_inb : ∀ (v504 : BitVec 32) (k1_hw60 : k1_chk60 v504), ∀ a, (k1_off135 v504) a + S1x64.size a ≤ S1000000x64.size a := fun v504 k1_hw60 => k1_hw60

def k1_off136 (k1_t6 : Fin k1_t6_loop.trips) (c11_i32 : BitVec 32) : Fin 3 → Nat :=
  let c1_i32_276 : BitVec 32 := 1#32
  let c0_i32_40 : BitVec 32 := 0#32
  let c1_i32_42 : BitVec 32 := 1#32
  let arg12 : BitVec 32 := Scf.iv c0_i32_40 c1_i32_42 k1_t6
  let c16_i32_261 : BitVec 32 := 16#32
  let v501 : BitVec 32 := Scalar.muli arg12 c16_i32_261
  let v502 : BitVec 32 := Scalar.addi v501 c11_i32
  let c0_i32_263 : BitVec 32 := 0#32
  let v506 : BitVec 1 := Scalar.cmpi .sgt v502 c0_i32_263
  let v507 : BitVec 32 := Scalar.extui v506
  let c0_i32_264 : BitVec 32 := 0#32
  let v508 : BitVec 1 := Scalar.cmpi .slt v502 c0_i32_264
  let v509 : BitVec 32 := Scalar.extui v508
  let v510 : BitVec 32 := Scalar.subi v507 v509
  let c20_i32_262 : BitVec 32 := 20#32
  let c0_i32_265 : BitVec 32 := 0#32
  let v511 : BitVec 1 := Scalar.cmpi .sgt c20_i32_262 c0_i32_265
  let v512 : BitVec 32 := Scalar.extui v511
  let c0_i32_266 : BitVec 32 := 0#32
  let v513 : BitVec 1 := Scalar.cmpi .slt c20_i32_262 c0_i32_266
  let v514 : BitVec 32 := Scalar.extui v513
  let v515 : BitVec 32 := Scalar.subi v512 v514
  let v516 : BitVec 1 := Scalar.cmpi .ne v510 v515
  let v517 : BitVec 32 := Scalar.remsi v502 c20_i32_262
  let c0_i32_267 : BitVec 32 := 0#32
  let v518 : BitVec 1 := Scalar.cmpi .ne v517 c0_i32_267
  let v519 : BitVec 1 := Scalar.andi v516 v518
  let v505 : BitVec 32 := Scalar.divsi v502 c20_i32_262
  let c1_i32_268 : BitVec 32 := 1#32
  let v520 : BitVec 32 := Scalar.subi v505 c1_i32_268
  let v521 : BitVec 32 := Scalar.select v519 v520 v505
  let c20_i32_269 : BitVec 32 := 20#32
  let c0_i32_270 : BitVec 32 := 0#32
  let v522 : BitVec 1 := Scalar.cmpi .eq c20_i32_269 c0_i32_270
  let c1_i32_271 : BitVec 32 := 1#32
  let v523 : BitVec 32 := Scalar.select v522 c1_i32_271 c20_i32_269
  let v524 : BitVec 32 := Scalar.remsi v502 v523
  let c0_i32_273 : BitVec 32 := 0#32
  let v526 : BitVec 1 := Scalar.cmpi .slt v524 c0_i32_273
  let c0_i32_274 : BitVec 32 := 0#32
  let v527 : BitVec 1 := Scalar.cmpi .slt v523 c0_i32_274
  let v528 : BitVec 1 := Scalar.xori v526 v527
  let c0_i32_272 : BitVec 32 := 0#32
  let v525 : BitVec 1 := Scalar.cmpi .ne v524 c0_i32_272
  let v529 : BitVec 1 := Scalar.andi v528 v525
  let v530 : BitVec 32 := Scalar.addi v524 v523
  let v531 : BitVec 32 := Scalar.select v529 v530 v524
  let c64_i32_275 : BitVec 32 := 64#32
  let v532 : BitVec 32 := Scalar.muli v531 c64_i32_275
  ![1, v521.toNat, v532.toNat]
def k1_off137 (v544 : BitVec 32) : Fin 2 → Nat :=
  let c0_i32_295 : BitVec 32 := 0#32
  ![v544.toNat, 0]

def k1_chk61 (v544 : BitVec 32) : Prop :=
  (∀ a, (k1_off137 v544) a + S1x64.size a ≤ S1000000x64.size a)
instance k1_chk61.dec : ∀ (v544 : BitVec 32), Decidable (k1_chk61 v544) := fun v544 => decidable_of_iff' _ (Iff.of_eq (k1_chk61.eq_1 v544))
theorem k1_off137_inb : ∀ (v544 : BitVec 32) (k1_hw61 : k1_chk61 v544), ∀ a, (k1_off137 v544) a + S1x64.size a ≤ S1000000x64.size a := fun v544 k1_hw61 => k1_hw61

def k1_off138 (k1_t6 : Fin k1_t6_loop.trips) (c12_i32 : BitVec 32) : Fin 3 → Nat :=
  let c1_i32_294 : BitVec 32 := 1#32
  let c0_i32_40 : BitVec 32 := 0#32
  let c1_i32_42 : BitVec 32 := 1#32
  let arg12 : BitVec 32 := Scf.iv c0_i32_40 c1_i32_42 k1_t6
  let c16_i32_279 : BitVec 32 := 16#32
  let v541 : BitVec 32 := Scalar.muli arg12 c16_i32_279
  let v542 : BitVec 32 := Scalar.addi v541 c12_i32
  let c0_i32_281 : BitVec 32 := 0#32
  let v546 : BitVec 1 := Scalar.cmpi .sgt v542 c0_i32_281
  let v547 : BitVec 32 := Scalar.extui v546
  let c0_i32_282 : BitVec 32 := 0#32
  let v548 : BitVec 1 := Scalar.cmpi .slt v542 c0_i32_282
  let v549 : BitVec 32 := Scalar.extui v548
  let v550 : BitVec 32 := Scalar.subi v547 v549
  let c20_i32_280 : BitVec 32 := 20#32
  let c0_i32_283 : BitVec 32 := 0#32
  let v551 : BitVec 1 := Scalar.cmpi .sgt c20_i32_280 c0_i32_283
  let v552 : BitVec 32 := Scalar.extui v551
  let c0_i32_284 : BitVec 32 := 0#32
  let v553 : BitVec 1 := Scalar.cmpi .slt c20_i32_280 c0_i32_284
  let v554 : BitVec 32 := Scalar.extui v553
  let v555 : BitVec 32 := Scalar.subi v552 v554
  let v556 : BitVec 1 := Scalar.cmpi .ne v550 v555
  let v557 : BitVec 32 := Scalar.remsi v542 c20_i32_280
  let c0_i32_285 : BitVec 32 := 0#32
  let v558 : BitVec 1 := Scalar.cmpi .ne v557 c0_i32_285
  let v559 : BitVec 1 := Scalar.andi v556 v558
  let v545 : BitVec 32 := Scalar.divsi v542 c20_i32_280
  let c1_i32_286 : BitVec 32 := 1#32
  let v560 : BitVec 32 := Scalar.subi v545 c1_i32_286
  let v561 : BitVec 32 := Scalar.select v559 v560 v545
  let c20_i32_287 : BitVec 32 := 20#32
  let c0_i32_288 : BitVec 32 := 0#32
  let v562 : BitVec 1 := Scalar.cmpi .eq c20_i32_287 c0_i32_288
  let c1_i32_289 : BitVec 32 := 1#32
  let v563 : BitVec 32 := Scalar.select v562 c1_i32_289 c20_i32_287
  let v564 : BitVec 32 := Scalar.remsi v542 v563
  let c0_i32_291 : BitVec 32 := 0#32
  let v566 : BitVec 1 := Scalar.cmpi .slt v564 c0_i32_291
  let c0_i32_292 : BitVec 32 := 0#32
  let v567 : BitVec 1 := Scalar.cmpi .slt v563 c0_i32_292
  let v568 : BitVec 1 := Scalar.xori v566 v567
  let c0_i32_290 : BitVec 32 := 0#32
  let v565 : BitVec 1 := Scalar.cmpi .ne v564 c0_i32_290
  let v569 : BitVec 1 := Scalar.andi v568 v565
  let v570 : BitVec 32 := Scalar.addi v564 v563
  let v571 : BitVec 32 := Scalar.select v569 v570 v564
  let c64_i32_293 : BitVec 32 := 64#32
  let v572 : BitVec 32 := Scalar.muli v571 c64_i32_293
  ![1, v561.toNat, v572.toNat]
def k1_off139 (v584 : BitVec 32) : Fin 2 → Nat :=
  let c0_i32_313 : BitVec 32 := 0#32
  ![v584.toNat, 0]

def k1_chk62 (v584 : BitVec 32) : Prop :=
  (∀ a, (k1_off139 v584) a + S1x64.size a ≤ S1000000x64.size a)
instance k1_chk62.dec : ∀ (v584 : BitVec 32), Decidable (k1_chk62 v584) := fun v584 => decidable_of_iff' _ (Iff.of_eq (k1_chk62.eq_1 v584))
theorem k1_off139_inb : ∀ (v584 : BitVec 32) (k1_hw62 : k1_chk62 v584), ∀ a, (k1_off139 v584) a + S1x64.size a ≤ S1000000x64.size a := fun v584 k1_hw62 => k1_hw62

def k1_off140 (k1_t6 : Fin k1_t6_loop.trips) (c13_i32 : BitVec 32) : Fin 3 → Nat :=
  let c1_i32_312 : BitVec 32 := 1#32
  let c0_i32_40 : BitVec 32 := 0#32
  let c1_i32_42 : BitVec 32 := 1#32
  let arg12 : BitVec 32 := Scf.iv c0_i32_40 c1_i32_42 k1_t6
  let c16_i32_297 : BitVec 32 := 16#32
  let v581 : BitVec 32 := Scalar.muli arg12 c16_i32_297
  let v582 : BitVec 32 := Scalar.addi v581 c13_i32
  let c0_i32_299 : BitVec 32 := 0#32
  let v586 : BitVec 1 := Scalar.cmpi .sgt v582 c0_i32_299
  let v587 : BitVec 32 := Scalar.extui v586
  let c0_i32_300 : BitVec 32 := 0#32
  let v588 : BitVec 1 := Scalar.cmpi .slt v582 c0_i32_300
  let v589 : BitVec 32 := Scalar.extui v588
  let v590 : BitVec 32 := Scalar.subi v587 v589
  let c20_i32_298 : BitVec 32 := 20#32
  let c0_i32_301 : BitVec 32 := 0#32
  let v591 : BitVec 1 := Scalar.cmpi .sgt c20_i32_298 c0_i32_301
  let v592 : BitVec 32 := Scalar.extui v591
  let c0_i32_302 : BitVec 32 := 0#32
  let v593 : BitVec 1 := Scalar.cmpi .slt c20_i32_298 c0_i32_302
  let v594 : BitVec 32 := Scalar.extui v593
  let v595 : BitVec 32 := Scalar.subi v592 v594
  let v596 : BitVec 1 := Scalar.cmpi .ne v590 v595
  let v597 : BitVec 32 := Scalar.remsi v582 c20_i32_298
  let c0_i32_303 : BitVec 32 := 0#32
  let v598 : BitVec 1 := Scalar.cmpi .ne v597 c0_i32_303
  let v599 : BitVec 1 := Scalar.andi v596 v598
  let v585 : BitVec 32 := Scalar.divsi v582 c20_i32_298
  let c1_i32_304 : BitVec 32 := 1#32
  let v600 : BitVec 32 := Scalar.subi v585 c1_i32_304
  let v601 : BitVec 32 := Scalar.select v599 v600 v585
  let c20_i32_305 : BitVec 32 := 20#32
  let c0_i32_306 : BitVec 32 := 0#32
  let v602 : BitVec 1 := Scalar.cmpi .eq c20_i32_305 c0_i32_306
  let c1_i32_307 : BitVec 32 := 1#32
  let v603 : BitVec 32 := Scalar.select v602 c1_i32_307 c20_i32_305
  let v604 : BitVec 32 := Scalar.remsi v582 v603
  let c0_i32_309 : BitVec 32 := 0#32
  let v606 : BitVec 1 := Scalar.cmpi .slt v604 c0_i32_309
  let c0_i32_310 : BitVec 32 := 0#32
  let v607 : BitVec 1 := Scalar.cmpi .slt v603 c0_i32_310
  let v608 : BitVec 1 := Scalar.xori v606 v607
  let c0_i32_308 : BitVec 32 := 0#32
  let v605 : BitVec 1 := Scalar.cmpi .ne v604 c0_i32_308
  let v609 : BitVec 1 := Scalar.andi v608 v605
  let v610 : BitVec 32 := Scalar.addi v604 v603
  let v611 : BitVec 32 := Scalar.select v609 v610 v604
  let c64_i32_311 : BitVec 32 := 64#32
  let v612 : BitVec 32 := Scalar.muli v611 c64_i32_311
  ![1, v601.toNat, v612.toNat]
def k1_off141 (v624 : BitVec 32) : Fin 2 → Nat :=
  let c0_i32_331 : BitVec 32 := 0#32
  ![v624.toNat, 0]

def k1_chk63 (v624 : BitVec 32) : Prop :=
  (∀ a, (k1_off141 v624) a + S1x64.size a ≤ S1000000x64.size a)
instance k1_chk63.dec : ∀ (v624 : BitVec 32), Decidable (k1_chk63 v624) := fun v624 => decidable_of_iff' _ (Iff.of_eq (k1_chk63.eq_1 v624))
theorem k1_off141_inb : ∀ (v624 : BitVec 32) (k1_hw63 : k1_chk63 v624), ∀ a, (k1_off141 v624) a + S1x64.size a ≤ S1000000x64.size a := fun v624 k1_hw63 => k1_hw63

def k1_off142 (k1_t6 : Fin k1_t6_loop.trips) (c14_i32 : BitVec 32) : Fin 3 → Nat :=
  let c1_i32_330 : BitVec 32 := 1#32
  let c0_i32_40 : BitVec 32 := 0#32
  let c1_i32_42 : BitVec 32 := 1#32
  let arg12 : BitVec 32 := Scf.iv c0_i32_40 c1_i32_42 k1_t6
  let c16_i32_315 : BitVec 32 := 16#32
  let v621 : BitVec 32 := Scalar.muli arg12 c16_i32_315
  let v622 : BitVec 32 := Scalar.addi v621 c14_i32
  let c0_i32_317 : BitVec 32 := 0#32
  let v626 : BitVec 1 := Scalar.cmpi .sgt v622 c0_i32_317
  let v627 : BitVec 32 := Scalar.extui v626
  let c0_i32_318 : BitVec 32 := 0#32
  let v628 : BitVec 1 := Scalar.cmpi .slt v622 c0_i32_318
  let v629 : BitVec 32 := Scalar.extui v628
  let v630 : BitVec 32 := Scalar.subi v627 v629
  let c20_i32_316 : BitVec 32 := 20#32
  let c0_i32_319 : BitVec 32 := 0#32
  let v631 : BitVec 1 := Scalar.cmpi .sgt c20_i32_316 c0_i32_319
  let v632 : BitVec 32 := Scalar.extui v631
  let c0_i32_320 : BitVec 32 := 0#32
  let v633 : BitVec 1 := Scalar.cmpi .slt c20_i32_316 c0_i32_320
  let v634 : BitVec 32 := Scalar.extui v633
  let v635 : BitVec 32 := Scalar.subi v632 v634
  let v636 : BitVec 1 := Scalar.cmpi .ne v630 v635
  let v637 : BitVec 32 := Scalar.remsi v622 c20_i32_316
  let c0_i32_321 : BitVec 32 := 0#32
  let v638 : BitVec 1 := Scalar.cmpi .ne v637 c0_i32_321
  let v639 : BitVec 1 := Scalar.andi v636 v638
  let v625 : BitVec 32 := Scalar.divsi v622 c20_i32_316
  let c1_i32_322 : BitVec 32 := 1#32
  let v640 : BitVec 32 := Scalar.subi v625 c1_i32_322
  let v641 : BitVec 32 := Scalar.select v639 v640 v625
  let c20_i32_323 : BitVec 32 := 20#32
  let c0_i32_324 : BitVec 32 := 0#32
  let v642 : BitVec 1 := Scalar.cmpi .eq c20_i32_323 c0_i32_324
  let c1_i32_325 : BitVec 32 := 1#32
  let v643 : BitVec 32 := Scalar.select v642 c1_i32_325 c20_i32_323
  let v644 : BitVec 32 := Scalar.remsi v622 v643
  let c0_i32_327 : BitVec 32 := 0#32
  let v646 : BitVec 1 := Scalar.cmpi .slt v644 c0_i32_327
  let c0_i32_328 : BitVec 32 := 0#32
  let v647 : BitVec 1 := Scalar.cmpi .slt v643 c0_i32_328
  let v648 : BitVec 1 := Scalar.xori v646 v647
  let c0_i32_326 : BitVec 32 := 0#32
  let v645 : BitVec 1 := Scalar.cmpi .ne v644 c0_i32_326
  let v649 : BitVec 1 := Scalar.andi v648 v645
  let v650 : BitVec 32 := Scalar.addi v644 v643
  let v651 : BitVec 32 := Scalar.select v649 v650 v644
  let c64_i32_329 : BitVec 32 := 64#32
  let v652 : BitVec 32 := Scalar.muli v651 c64_i32_329
  ![1, v641.toNat, v652.toNat]
def k1_off143 (v664 : BitVec 32) : Fin 2 → Nat :=
  let c0_i32_350 : BitVec 32 := 0#32
  ![v664.toNat, 0]

def k1_chk64 (v664 : BitVec 32) : Prop :=
  (∀ a, (k1_off143 v664) a + S1x64.size a ≤ S1000000x64.size a)
instance k1_chk64.dec : ∀ (v664 : BitVec 32), Decidable (k1_chk64 v664) := fun v664 => decidable_of_iff' _ (Iff.of_eq (k1_chk64.eq_1 v664))
theorem k1_off143_inb : ∀ (v664 : BitVec 32) (k1_hw64 : k1_chk64 v664), ∀ a, (k1_off143 v664) a + S1x64.size a ≤ S1000000x64.size a := fun v664 k1_hw64 => k1_hw64

def k1_off144 (k1_t6 : Fin k1_t6_loop.trips) : Fin 3 → Nat :=
  let c1_i32_349 : BitVec 32 := 1#32
  let c0_i32_40 : BitVec 32 := 0#32
  let c1_i32_42 : BitVec 32 := 1#32
  let arg12 : BitVec 32 := Scf.iv c0_i32_40 c1_i32_42 k1_t6
  let c16_i32_333 : BitVec 32 := 16#32
  let v661 : BitVec 32 := Scalar.muli arg12 c16_i32_333
  let c15_i32_334 : BitVec 32 := 15#32
  let v662 : BitVec 32 := Scalar.addi v661 c15_i32_334
  let c0_i32_336 : BitVec 32 := 0#32
  let v666 : BitVec 1 := Scalar.cmpi .sgt v662 c0_i32_336
  let v667 : BitVec 32 := Scalar.extui v666
  let c0_i32_337 : BitVec 32 := 0#32
  let v668 : BitVec 1 := Scalar.cmpi .slt v662 c0_i32_337
  let v669 : BitVec 32 := Scalar.extui v668
  let v670 : BitVec 32 := Scalar.subi v667 v669
  let c20_i32_335 : BitVec 32 := 20#32
  let c0_i32_338 : BitVec 32 := 0#32
  let v671 : BitVec 1 := Scalar.cmpi .sgt c20_i32_335 c0_i32_338
  let v672 : BitVec 32 := Scalar.extui v671
  let c0_i32_339 : BitVec 32 := 0#32
  let v673 : BitVec 1 := Scalar.cmpi .slt c20_i32_335 c0_i32_339
  let v674 : BitVec 32 := Scalar.extui v673
  let v675 : BitVec 32 := Scalar.subi v672 v674
  let v676 : BitVec 1 := Scalar.cmpi .ne v670 v675
  let v677 : BitVec 32 := Scalar.remsi v662 c20_i32_335
  let c0_i32_340 : BitVec 32 := 0#32
  let v678 : BitVec 1 := Scalar.cmpi .ne v677 c0_i32_340
  let v679 : BitVec 1 := Scalar.andi v676 v678
  let v665 : BitVec 32 := Scalar.divsi v662 c20_i32_335
  let c1_i32_341 : BitVec 32 := 1#32
  let v680 : BitVec 32 := Scalar.subi v665 c1_i32_341
  let v681 : BitVec 32 := Scalar.select v679 v680 v665
  let c20_i32_342 : BitVec 32 := 20#32
  let c0_i32_343 : BitVec 32 := 0#32
  let v682 : BitVec 1 := Scalar.cmpi .eq c20_i32_342 c0_i32_343
  let c1_i32_344 : BitVec 32 := 1#32
  let v683 : BitVec 32 := Scalar.select v682 c1_i32_344 c20_i32_342
  let v684 : BitVec 32 := Scalar.remsi v662 v683
  let c0_i32_346 : BitVec 32 := 0#32
  let v686 : BitVec 1 := Scalar.cmpi .slt v684 c0_i32_346
  let c0_i32_347 : BitVec 32 := 0#32
  let v687 : BitVec 1 := Scalar.cmpi .slt v683 c0_i32_347
  let v688 : BitVec 1 := Scalar.xori v686 v687
  let c0_i32_345 : BitVec 32 := 0#32
  let v685 : BitVec 1 := Scalar.cmpi .ne v684 c0_i32_345
  let v689 : BitVec 1 := Scalar.andi v688 v685
  let v690 : BitVec 32 := Scalar.addi v684 v683
  let v691 : BitVec 32 := Scalar.select v689 v690 v684
  let c64_i32_348 : BitVec 32 := 64#32
  let v692 : BitVec 32 := Scalar.muli v691 c64_i32_348
  ![1, v681.toNat, v692.toNat]
@[reducible] def k1_t7_loop : Scf.Loop 32 :=
  let c0_i32_45 : BitVec 32 := 0#32
  let c15_i32 : BitVec 32 := 15#32
  let v50 : BitVec 32 := Scalar.addi c0_i32_45 c15_i32
  let c1_i32_46 : BitVec 32 := 1#32
  ⟨c0_i32_45, v50, c1_i32_46⟩
@[reducible] def k1_t8_loop : Scf.Loop 32 :=
  let c0_i32_63 : BitVec 32 := 0#32
  let c20_i32_64 : BitVec 32 := 20#32
  let v59 : BitVec 32 := Scalar.addi c0_i32_63 c20_i32_64
  let c1_i32_65 : BitVec 32 := 1#32
  ⟨c0_i32_63, v59, c1_i32_65⟩
def k1_off145 (k1_t8 : Fin k1_t8_loop.trips) (c0_i32_95 : BitVec 32) : Fin 3 → Nat :=
  let c0_i32_110 : BitVec 32 := 0#32
  let c0_i32_63 : BitVec 32 := 0#32
  let c1_i32_65 : BitVec 32 := 1#32
  let arg13 : BitVec 32 := Scf.iv c0_i32_63 c1_i32_65 k1_t8
  let c16_i32_94 : BitVec 32 := 16#32
  let v79 : BitVec 32 := Scalar.muli arg13 c16_i32_94
  let v80 : BitVec 32 := Scalar.addi v79 c0_i32_95
  let c0_i32_97 : BitVec 32 := 0#32
  let v82 : BitVec 1 := Scalar.cmpi .sgt v80 c0_i32_97
  let v83 : BitVec 32 := Scalar.extui v82
  let c0_i32_98 : BitVec 32 := 0#32
  let v84 : BitVec 1 := Scalar.cmpi .slt v80 c0_i32_98
  let v85 : BitVec 32 := Scalar.extui v84
  let v86 : BitVec 32 := Scalar.subi v83 v85
  let c20_i32_96 : BitVec 32 := 20#32
  let c0_i32_99 : BitVec 32 := 0#32
  let v87 : BitVec 1 := Scalar.cmpi .sgt c20_i32_96 c0_i32_99
  let v88 : BitVec 32 := Scalar.extui v87
  let c0_i32_100 : BitVec 32 := 0#32
  let v89 : BitVec 1 := Scalar.cmpi .slt c20_i32_96 c0_i32_100
  let v90 : BitVec 32 := Scalar.extui v89
  let v91 : BitVec 32 := Scalar.subi v88 v90
  let v92 : BitVec 1 := Scalar.cmpi .ne v86 v91
  let v93 : BitVec 32 := Scalar.remsi v80 c20_i32_96
  let c0_i32_101 : BitVec 32 := 0#32
  let v94 : BitVec 1 := Scalar.cmpi .ne v93 c0_i32_101
  let v95 : BitVec 1 := Scalar.andi v92 v94
  let v81 : BitVec 32 := Scalar.divsi v80 c20_i32_96
  let c1_i32_102 : BitVec 32 := 1#32
  let v96 : BitVec 32 := Scalar.subi v81 c1_i32_102
  let v97 : BitVec 32 := Scalar.select v95 v96 v81
  let c20_i32_103 : BitVec 32 := 20#32
  let c0_i32_104 : BitVec 32 := 0#32
  let v98 : BitVec 1 := Scalar.cmpi .eq c20_i32_103 c0_i32_104
  let c1_i32_105 : BitVec 32 := 1#32
  let v99 : BitVec 32 := Scalar.select v98 c1_i32_105 c20_i32_103
  let v100 : BitVec 32 := Scalar.remsi v80 v99
  let c0_i32_107 : BitVec 32 := 0#32
  let v102 : BitVec 1 := Scalar.cmpi .slt v100 c0_i32_107
  let c0_i32_108 : BitVec 32 := 0#32
  let v103 : BitVec 1 := Scalar.cmpi .slt v99 c0_i32_108
  let v104 : BitVec 1 := Scalar.xori v102 v103
  let c0_i32_106 : BitVec 32 := 0#32
  let v101 : BitVec 1 := Scalar.cmpi .ne v100 c0_i32_106
  let v105 : BitVec 1 := Scalar.andi v104 v101
  let v106 : BitVec 32 := Scalar.addi v100 v99
  let v107 : BitVec 32 := Scalar.select v105 v106 v100
  let c64_i32 : BitVec 32 := 64#32
  let v108 : BitVec 32 := Scalar.muli v107 c64_i32
  ![0, v97.toNat, v108.toNat]
def k1_mult3 (i : grid1.Coords) (k1_t7 : Fin k1_t7_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_0 : BitVec 32 := 512#32
  let v4 : BitVec 32 := Scalar.muli v1 c512_i32_0
  let c0_i32_45 : BitVec 32 := 0#32
  let c1_i32_46 : BitVec 32 := 1#32
  let arg12 : BitVec 32 := Scf.iv c0_i32_45 c1_i32_46 k1_t7
  let c2_i32_60 : BitVec 32 := 2#32
  let v57 : BitVec 32 := Scalar.muli arg12 c2_i32_60
  let c0_i32_61 : BitVec 32 := 0#32
  let v58 : BitVec 32 := Scalar.addi v57 c0_i32_61
  let c16_i32_67 : BitVec 32 := 16#32
  let v60 : BitVec 32 := Scalar.muli v58 c16_i32_67
  let v61 : BitVec 32 := Scalar.addi v4 v60
  v61
def k1_off146 (i : grid1.Coords) (k1_t7 : Fin k1_t7_loop.trips) (c0_i32_61 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_0 : BitVec 32 := 512#32
  let v4 : BitVec 32 := Scalar.muli v1 c512_i32_0
  let c0_i32_45 : BitVec 32 := 0#32
  let c1_i32_46 : BitVec 32 := 1#32
  let arg12 : BitVec 32 := Scf.iv c0_i32_45 c1_i32_46 k1_t7
  let c2_i32_60 : BitVec 32 := 2#32
  let v57 : BitVec 32 := Scalar.muli arg12 c2_i32_60
  let v58 : BitVec 32 := Scalar.addi v57 c0_i32_61
  let c16_i32_67 : BitVec 32 := 16#32
  let v60 : BitVec 32 := Scalar.muli v58 c16_i32_67
  let v61 : BitVec 32 := Scalar.addi v4 v60
  let v62 : BitVec 32 := v61
  let c0_i32_96_r6 : BitVec 32 := 0#32
  ![v62.toNat, 0]
def k1_off147 (i : grid1.Coords) (k1_t7 : Fin k1_t7_loop.trips) (c0_i32_61 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v3 : BitVec 32 := Scalar.muli v1 c10240_i32
  let c0_i32_45 : BitVec 32 := 0#32
  let c1_i32_46 : BitVec 32 := 1#32
  let arg12 : BitVec 32 := Scf.iv c0_i32_45 c1_i32_46 k1_t7
  let c2_i32_60 : BitVec 32 := 2#32
  let v57 : BitVec 32 := Scalar.muli arg12 c2_i32_60
  let v58 : BitVec 32 := Scalar.addi v57 c0_i32_61
  let c2_i32_69 : BitVec 32 := 2#32
  let v63 : BitVec 32 := Scalar.addi v58 c2_i32_69
  let c16_i32_70 : BitVec 32 := 16#32
  let v64 : BitVec 32 := Scalar.muli v63 c16_i32_70
  let c20_i32_71 : BitVec 32 := 20#32
  let v65 : BitVec 32 := Scalar.muli v64 c20_i32_71
  let v66 : BitVec 32 := Scalar.addi v3 v65
  ![v66.toNat]
@[reducible] def k1_t9_loop : Scf.Loop 32 :=
  let c0_i32_73 : BitVec 32 := 0#32
  let c20_i32_74 : BitVec 32 := 20#32
  let v67 : BitVec 32 := Scalar.addi c0_i32_73 c20_i32_74
  let c1_i32_75 : BitVec 32 := 1#32
  ⟨c0_i32_73, v67, c1_i32_75⟩
def k1_off148 (k1_t9 : Fin k1_t9_loop.trips) : Fin 1 → Nat :=
  let c0_i32_73 : BitVec 32 := 0#32
  let c1_i32_75 : BitVec 32 := 1#32
  let arg13 : BitVec 32 := Scf.iv c0_i32_73 c1_i32_75 k1_t9
  let c16_i32_94 : BitVec 32 := 16#32
  let v79 : BitVec 32 := Scalar.muli arg13 c16_i32_94
  let v80 : Index := Scalar.indexCast v79
  ![v80.toNat]
def k1_off149 (k1_t9 : Fin k1_t9_loop.trips) : Fin 3 → Nat :=
  let c0_i32_110 : BitVec 32 := 0#32
  let c0_i32_73 : BitVec 32 := 0#32
  let c1_i32_75 : BitVec 32 := 1#32
  let arg13 : BitVec 32 := Scf.iv c0_i32_73 c1_i32_75 k1_t9
  let c16_i32_95 : BitVec 32 := 16#32
  let v83 : BitVec 32 := Scalar.muli arg13 c16_i32_95
  let c0_i32_96 : BitVec 32 := 0#32
  let v84 : BitVec 32 := Scalar.addi v83 c0_i32_96
  let c0_i32_98 : BitVec 32 := 0#32
  let v88 : BitVec 1 := Scalar.cmpi .sgt v84 c0_i32_98
  let v89 : BitVec 32 := Scalar.extui v88
  let c0_i32_99 : BitVec 32 := 0#32
  let v90 : BitVec 1 := Scalar.cmpi .slt v84 c0_i32_99
  let v91 : BitVec 32 := Scalar.extui v90
  let v92 : BitVec 32 := Scalar.subi v89 v91
  let c20_i32_97 : BitVec 32 := 20#32
  let c0_i32_100 : BitVec 32 := 0#32
  let v93 : BitVec 1 := Scalar.cmpi .sgt c20_i32_97 c0_i32_100
  let v94 : BitVec 32 := Scalar.extui v93
  let c0_i32_101 : BitVec 32 := 0#32
  let v95 : BitVec 1 := Scalar.cmpi .slt c20_i32_97 c0_i32_101
  let v96 : BitVec 32 := Scalar.extui v95
  let v97 : BitVec 32 := Scalar.subi v94 v96
  let v98 : BitVec 1 := Scalar.cmpi .ne v92 v97
  let v99 : BitVec 32 := Scalar.remsi v84 c20_i32_97
  let c0_i32_102 : BitVec 32 := 0#32
  let v100 : BitVec 1 := Scalar.cmpi .ne v99 c0_i32_102
  let v101 : BitVec 1 := Scalar.andi v98 v100
  let v87 : BitVec 32 := Scalar.divsi v84 c20_i32_97
  let c1_i32_103 : BitVec 32 := 1#32
  let v102 : BitVec 32 := Scalar.subi v87 c1_i32_103
  let v103 : BitVec 32 := Scalar.select v101 v102 v87
  let c20_i32_104 : BitVec 32 := 20#32
  let c0_i32_105 : BitVec 32 := 0#32
  let v104 : BitVec 1 := Scalar.cmpi .eq c20_i32_104 c0_i32_105
  let c1_i32_106 : BitVec 32 := 1#32
  let v105 : BitVec 32 := Scalar.select v104 c1_i32_106 c20_i32_104
  let v106 : BitVec 32 := Scalar.remsi v84 v105
  let c0_i32_108 : BitVec 32 := 0#32
  let v108 : BitVec 1 := Scalar.cmpi .slt v106 c0_i32_108
  let c0_i32_109 : BitVec 32 := 0#32
  let v109 : BitVec 1 := Scalar.cmpi .slt v105 c0_i32_109
  let v110 : BitVec 1 := Scalar.xori v108 v109
  let c0_i32_107 : BitVec 32 := 0#32
  let v107 : BitVec 1 := Scalar.cmpi .ne v106 c0_i32_107
  let v111 : BitVec 1 := Scalar.andi v110 v107
  let v112 : BitVec 32 := Scalar.addi v106 v105
  let v113 : BitVec 32 := Scalar.select v111 v112 v106
  let c64_i32 : BitVec 32 := 64#32
  let v114 : BitVec 32 := Scalar.muli v113 c64_i32
  ![0, v103.toNat, v114.toNat]
def k1_off150 (v86 : BitVec 32) : Fin 2 → Nat :=
  let c0_i32_111 : BitVec 32 := 0#32
  ![v86.toNat, 0]

def k1_chk65 (v86 : BitVec 32) : Prop :=
  (∀ a, (k1_off150 v86) a + S1x64.size a ≤ S1000000x64.size a)
instance k1_chk65.dec : ∀ (v86 : BitVec 32), Decidable (k1_chk65 v86) := fun v86 => decidable_of_iff' _ (Iff.of_eq (k1_chk65.eq_1 v86))
theorem k1_off150_inb : ∀ (v86 : BitVec 32) (k1_hw65 : k1_chk65 v86), ∀ a, (k1_off150 v86) a + S1x64.size a ≤ S1000000x64.size a := fun v86 k1_hw65 => k1_hw65

def k1_off151 (k1_t9 : Fin k1_t9_loop.trips) (c0_i32_96 : BitVec 32) : Fin 3 → Nat :=
  let c0_i32_110 : BitVec 32 := 0#32
  let c0_i32_73 : BitVec 32 := 0#32
  let c1_i32_75 : BitVec 32 := 1#32
  let arg13 : BitVec 32 := Scf.iv c0_i32_73 c1_i32_75 k1_t9
  let c16_i32_95 : BitVec 32 := 16#32
  let v83 : BitVec 32 := Scalar.muli arg13 c16_i32_95
  let v84 : BitVec 32 := Scalar.addi v83 c0_i32_96
  let c0_i32_98 : BitVec 32 := 0#32
  let v88 : BitVec 1 := Scalar.cmpi .sgt v84 c0_i32_98
  let v89 : BitVec 32 := Scalar.extui v88
  let c0_i32_99 : BitVec 32 := 0#32
  let v90 : BitVec 1 := Scalar.cmpi .slt v84 c0_i32_99
  let v91 : BitVec 32 := Scalar.extui v90
  let v92 : BitVec 32 := Scalar.subi v89 v91
  let c20_i32_97 : BitVec 32 := 20#32
  let c0_i32_100 : BitVec 32 := 0#32
  let v93 : BitVec 1 := Scalar.cmpi .sgt c20_i32_97 c0_i32_100
  let v94 : BitVec 32 := Scalar.extui v93
  let c0_i32_101 : BitVec 32 := 0#32
  let v95 : BitVec 1 := Scalar.cmpi .slt c20_i32_97 c0_i32_101
  let v96 : BitVec 32 := Scalar.extui v95
  let v97 : BitVec 32 := Scalar.subi v94 v96
  let v98 : BitVec 1 := Scalar.cmpi .ne v92 v97
  let v99 : BitVec 32 := Scalar.remsi v84 c20_i32_97
  let c0_i32_102 : BitVec 32 := 0#32
  let v100 : BitVec 1 := Scalar.cmpi .ne v99 c0_i32_102
  let v101 : BitVec 1 := Scalar.andi v98 v100
  let v87 : BitVec 32 := Scalar.divsi v84 c20_i32_97
  let c1_i32_103 : BitVec 32 := 1#32
  let v102 : BitVec 32 := Scalar.subi v87 c1_i32_103
  let v103 : BitVec 32 := Scalar.select v101 v102 v87
  let c20_i32_104 : BitVec 32 := 20#32
  let c0_i32_105 : BitVec 32 := 0#32
  let v104 : BitVec 1 := Scalar.cmpi .eq c20_i32_104 c0_i32_105
  let c1_i32_106 : BitVec 32 := 1#32
  let v105 : BitVec 32 := Scalar.select v104 c1_i32_106 c20_i32_104
  let v106 : BitVec 32 := Scalar.remsi v84 v105
  let c0_i32_108 : BitVec 32 := 0#32
  let v108 : BitVec 1 := Scalar.cmpi .slt v106 c0_i32_108
  let c0_i32_109 : BitVec 32 := 0#32
  let v109 : BitVec 1 := Scalar.cmpi .slt v105 c0_i32_109
  let v110 : BitVec 1 := Scalar.xori v108 v109
  let c0_i32_107 : BitVec 32 := 0#32
  let v107 : BitVec 1 := Scalar.cmpi .ne v106 c0_i32_107
  let v111 : BitVec 1 := Scalar.andi v110 v107
  let v112 : BitVec 32 := Scalar.addi v106 v105
  let v113 : BitVec 32 := Scalar.select v111 v112 v106
  let c64_i32 : BitVec 32 := 64#32
  let v114 : BitVec 32 := Scalar.muli v113 c64_i32
  ![0, v103.toNat, v114.toNat]
def k1_off152 (v126 : BitVec 32) : Fin 2 → Nat :=
  let c0_i32_130 : BitVec 32 := 0#32
  ![v126.toNat, 0]

def k1_chk66 (v126 : BitVec 32) : Prop :=
  (∀ a, (k1_off152 v126) a + S1x64.size a ≤ S1000000x64.size a)
instance k1_chk66.dec : ∀ (v126 : BitVec 32), Decidable (k1_chk66 v126) := fun v126 => decidable_of_iff' _ (Iff.of_eq (k1_chk66.eq_1 v126))
theorem k1_off152_inb : ∀ (v126 : BitVec 32) (k1_hw66 : k1_chk66 v126), ∀ a, (k1_off152 v126) a + S1x64.size a ≤ S1000000x64.size a := fun v126 k1_hw66 => k1_hw66

def k1_off153 (k1_t9 : Fin k1_t9_loop.trips) (c1_i32_114 : BitVec 32) : Fin 3 → Nat :=
  let c0_i32_129 : BitVec 32 := 0#32
  let c0_i32_73 : BitVec 32 := 0#32
  let c1_i32_75 : BitVec 32 := 1#32
  let arg13 : BitVec 32 := Scf.iv c0_i32_73 c1_i32_75 k1_t9
  let c16_i32_113 : BitVec 32 := 16#32
  let v123 : BitVec 32 := Scalar.muli arg13 c16_i32_113
  let v124 : BitVec 32 := Scalar.addi v123 c1_i32_114
  let c0_i32_116 : BitVec 32 := 0#32
  let v128 : BitVec 1 := Scalar.cmpi .sgt v124 c0_i32_116
  let v129 : BitVec 32 := Scalar.extui v128
  let c0_i32_117 : BitVec 32 := 0#32
  let v130 : BitVec 1 := Scalar.cmpi .slt v124 c0_i32_117
  let v131 : BitVec 32 := Scalar.extui v130
  let v132 : BitVec 32 := Scalar.subi v129 v131
  let c20_i32_115 : BitVec 32 := 20#32
  let c0_i32_118 : BitVec 32 := 0#32
  let v133 : BitVec 1 := Scalar.cmpi .sgt c20_i32_115 c0_i32_118
  let v134 : BitVec 32 := Scalar.extui v133
  let c0_i32_119 : BitVec 32 := 0#32
  let v135 : BitVec 1 := Scalar.cmpi .slt c20_i32_115 c0_i32_119
  let v136 : BitVec 32 := Scalar.extui v135
  let v137 : BitVec 32 := Scalar.subi v134 v136
  let v138 : BitVec 1 := Scalar.cmpi .ne v132 v137
  let v139 : BitVec 32 := Scalar.remsi v124 c20_i32_115
  let c0_i32_120 : BitVec 32 := 0#32
  let v140 : BitVec 1 := Scalar.cmpi .ne v139 c0_i32_120
  let v141 : BitVec 1 := Scalar.andi v138 v140
  let v127 : BitVec 32 := Scalar.divsi v124 c20_i32_115
  let c1_i32_121 : BitVec 32 := 1#32
  let v142 : BitVec 32 := Scalar.subi v127 c1_i32_121
  let v143 : BitVec 32 := Scalar.select v141 v142 v127
  let c20_i32_122 : BitVec 32 := 20#32
  let c0_i32_123 : BitVec 32 := 0#32
  let v144 : BitVec 1 := Scalar.cmpi .eq c20_i32_122 c0_i32_123
  let c1_i32_124 : BitVec 32 := 1#32
  let v145 : BitVec 32 := Scalar.select v144 c1_i32_124 c20_i32_122
  let v146 : BitVec 32 := Scalar.remsi v124 v145
  let c0_i32_126 : BitVec 32 := 0#32
  let v148 : BitVec 1 := Scalar.cmpi .slt v146 c0_i32_126
  let c0_i32_127 : BitVec 32 := 0#32
  let v149 : BitVec 1 := Scalar.cmpi .slt v145 c0_i32_127
  let v150 : BitVec 1 := Scalar.xori v148 v149
  let c0_i32_125 : BitVec 32 := 0#32
  let v147 : BitVec 1 := Scalar.cmpi .ne v146 c0_i32_125
  let v151 : BitVec 1 := Scalar.andi v150 v147
  let v152 : BitVec 32 := Scalar.addi v146 v145
  let v153 : BitVec 32 := Scalar.select v151 v152 v146
  let c64_i32_128 : BitVec 32 := 64#32
  let v154 : BitVec 32 := Scalar.muli v153 c64_i32_128
  ![0, v143.toNat, v154.toNat]
def k1_off154 (v166 : BitVec 32) : Fin 2 → Nat :=
  let c0_i32_149 : BitVec 32 := 0#32
  ![v166.toNat, 0]

def k1_chk67 (v166 : BitVec 32) : Prop :=
  (∀ a, (k1_off154 v166) a + S1x64.size a ≤ S1000000x64.size a)
instance k1_chk67.dec : ∀ (v166 : BitVec 32), Decidable (k1_chk67 v166) := fun v166 => decidable_of_iff' _ (Iff.of_eq (k1_chk67.eq_1 v166))
theorem k1_off154_inb : ∀ (v166 : BitVec 32) (k1_hw67 : k1_chk67 v166), ∀ a, (k1_off154 v166) a + S1x64.size a ≤ S1000000x64.size a := fun v166 k1_hw67 => k1_hw67

def k1_off155 (k1_t9 : Fin k1_t9_loop.trips) (c2_i32_133 : BitVec 32) : Fin 3 → Nat :=
  let c0_i32_148 : BitVec 32 := 0#32
  let c0_i32_73 : BitVec 32 := 0#32
  let c1_i32_75 : BitVec 32 := 1#32
  let arg13 : BitVec 32 := Scf.iv c0_i32_73 c1_i32_75 k1_t9
  let c16_i32_132 : BitVec 32 := 16#32
  let v163 : BitVec 32 := Scalar.muli arg13 c16_i32_132
  let v164 : BitVec 32 := Scalar.addi v163 c2_i32_133
  let c0_i32_135 : BitVec 32 := 0#32
  let v168 : BitVec 1 := Scalar.cmpi .sgt v164 c0_i32_135
  let v169 : BitVec 32 := Scalar.extui v168
  let c0_i32_136 : BitVec 32 := 0#32
  let v170 : BitVec 1 := Scalar.cmpi .slt v164 c0_i32_136
  let v171 : BitVec 32 := Scalar.extui v170
  let v172 : BitVec 32 := Scalar.subi v169 v171
  let c20_i32_134 : BitVec 32 := 20#32
  let c0_i32_137 : BitVec 32 := 0#32
  let v173 : BitVec 1 := Scalar.cmpi .sgt c20_i32_134 c0_i32_137
  let v174 : BitVec 32 := Scalar.extui v173
  let c0_i32_138 : BitVec 32 := 0#32
  let v175 : BitVec 1 := Scalar.cmpi .slt c20_i32_134 c0_i32_138
  let v176 : BitVec 32 := Scalar.extui v175
  let v177 : BitVec 32 := Scalar.subi v174 v176
  let v178 : BitVec 1 := Scalar.cmpi .ne v172 v177
  let v179 : BitVec 32 := Scalar.remsi v164 c20_i32_134
  let c0_i32_139 : BitVec 32 := 0#32
  let v180 : BitVec 1 := Scalar.cmpi .ne v179 c0_i32_139
  let v181 : BitVec 1 := Scalar.andi v178 v180
  let v167 : BitVec 32 := Scalar.divsi v164 c20_i32_134
  let c1_i32_140 : BitVec 32 := 1#32
  let v182 : BitVec 32 := Scalar.subi v167 c1_i32_140
  let v183 : BitVec 32 := Scalar.select v181 v182 v167
  let c20_i32_141 : BitVec 32 := 20#32
  let c0_i32_142 : BitVec 32 := 0#32
  let v184 : BitVec 1 := Scalar.cmpi .eq c20_i32_141 c0_i32_142
  let c1_i32_143 : BitVec 32 := 1#32
  let v185 : BitVec 32 := Scalar.select v184 c1_i32_143 c20_i32_141
  let v186 : BitVec 32 := Scalar.remsi v164 v185
  let c0_i32_145 : BitVec 32 := 0#32
  let v188 : BitVec 1 := Scalar.cmpi .slt v186 c0_i32_145
  let c0_i32_146 : BitVec 32 := 0#32
  let v189 : BitVec 1 := Scalar.cmpi .slt v185 c0_i32_146
  let v190 : BitVec 1 := Scalar.xori v188 v189
  let c0_i32_144 : BitVec 32 := 0#32
  let v187 : BitVec 1 := Scalar.cmpi .ne v186 c0_i32_144
  let v191 : BitVec 1 := Scalar.andi v190 v187
  let v192 : BitVec 32 := Scalar.addi v186 v185
  let v193 : BitVec 32 := Scalar.select v191 v192 v186
  let c64_i32_147 : BitVec 32 := 64#32
  let v194 : BitVec 32 := Scalar.muli v193 c64_i32_147
  ![0, v183.toNat, v194.toNat]
def k1_off156 (v206 : BitVec 32) : Fin 2 → Nat :=
  let c0_i32_167 : BitVec 32 := 0#32
  ![v206.toNat, 0]

def k1_chk68 (v206 : BitVec 32) : Prop :=
  (∀ a, (k1_off156 v206) a + S1x64.size a ≤ S1000000x64.size a)
instance k1_chk68.dec : ∀ (v206 : BitVec 32), Decidable (k1_chk68 v206) := fun v206 => decidable_of_iff' _ (Iff.of_eq (k1_chk68.eq_1 v206))
theorem k1_off156_inb : ∀ (v206 : BitVec 32) (k1_hw68 : k1_chk68 v206), ∀ a, (k1_off156 v206) a + S1x64.size a ≤ S1000000x64.size a := fun v206 k1_hw68 => k1_hw68

def k1_off157 (k1_t9 : Fin k1_t9_loop.trips) (c3_i32 : BitVec 32) : Fin 3 → Nat :=
  let c0_i32_166 : BitVec 32 := 0#32
  let c0_i32_73 : BitVec 32 := 0#32
  let c1_i32_75 : BitVec 32 := 1#32
  let arg13 : BitVec 32 := Scf.iv c0_i32_73 c1_i32_75 k1_t9
  let c16_i32_151 : BitVec 32 := 16#32
  let v203 : BitVec 32 := Scalar.muli arg13 c16_i32_151
  let v204 : BitVec 32 := Scalar.addi v203 c3_i32
  let c0_i32_153 : BitVec 32 := 0#32
  let v208 : BitVec 1 := Scalar.cmpi .sgt v204 c0_i32_153
  let v209 : BitVec 32 := Scalar.extui v208
  let c0_i32_154 : BitVec 32 := 0#32
  let v210 : BitVec 1 := Scalar.cmpi .slt v204 c0_i32_154
  let v211 : BitVec 32 := Scalar.extui v210
  let v212 : BitVec 32 := Scalar.subi v209 v211
  let c20_i32_152 : BitVec 32 := 20#32
  let c0_i32_155 : BitVec 32 := 0#32
  let v213 : BitVec 1 := Scalar.cmpi .sgt c20_i32_152 c0_i32_155
  let v214 : BitVec 32 := Scalar.extui v213
  let c0_i32_156 : BitVec 32 := 0#32
  let v215 : BitVec 1 := Scalar.cmpi .slt c20_i32_152 c0_i32_156
  let v216 : BitVec 32 := Scalar.extui v215
  let v217 : BitVec 32 := Scalar.subi v214 v216
  let v218 : BitVec 1 := Scalar.cmpi .ne v212 v217
  let v219 : BitVec 32 := Scalar.remsi v204 c20_i32_152
  let c0_i32_157 : BitVec 32 := 0#32
  let v220 : BitVec 1 := Scalar.cmpi .ne v219 c0_i32_157
  let v221 : BitVec 1 := Scalar.andi v218 v220
  let v207 : BitVec 32 := Scalar.divsi v204 c20_i32_152
  let c1_i32_158 : BitVec 32 := 1#32
  let v222 : BitVec 32 := Scalar.subi v207 c1_i32_158
  let v223 : BitVec 32 := Scalar.select v221 v222 v207
  let c20_i32_159 : BitVec 32 := 20#32
  let c0_i32_160 : BitVec 32 := 0#32
  let v224 : BitVec 1 := Scalar.cmpi .eq c20_i32_159 c0_i32_160
  let c1_i32_161 : BitVec 32 := 1#32
  let v225 : BitVec 32 := Scalar.select v224 c1_i32_161 c20_i32_159
  let v226 : BitVec 32 := Scalar.remsi v204 v225
  let c0_i32_163 : BitVec 32 := 0#32
  let v228 : BitVec 1 := Scalar.cmpi .slt v226 c0_i32_163
  let c0_i32_164 : BitVec 32 := 0#32
  let v229 : BitVec 1 := Scalar.cmpi .slt v225 c0_i32_164
  let v230 : BitVec 1 := Scalar.xori v228 v229
  let c0_i32_162 : BitVec 32 := 0#32
  let v227 : BitVec 1 := Scalar.cmpi .ne v226 c0_i32_162
  let v231 : BitVec 1 := Scalar.andi v230 v227
  let v232 : BitVec 32 := Scalar.addi v226 v225
  let v233 : BitVec 32 := Scalar.select v231 v232 v226
  let c64_i32_165 : BitVec 32 := 64#32
  let v234 : BitVec 32 := Scalar.muli v233 c64_i32_165
  ![0, v223.toNat, v234.toNat]
def k1_off158 (v246 : BitVec 32) : Fin 2 → Nat :=
  let c0_i32_185 : BitVec 32 := 0#32
  ![v246.toNat, 0]

def k1_chk69 (v246 : BitVec 32) : Prop :=
  (∀ a, (k1_off158 v246) a + S1x64.size a ≤ S1000000x64.size a)
instance k1_chk69.dec : ∀ (v246 : BitVec 32), Decidable (k1_chk69 v246) := fun v246 => decidable_of_iff' _ (Iff.of_eq (k1_chk69.eq_1 v246))
theorem k1_off158_inb : ∀ (v246 : BitVec 32) (k1_hw69 : k1_chk69 v246), ∀ a, (k1_off158 v246) a + S1x64.size a ≤ S1000000x64.size a := fun v246 k1_hw69 => k1_hw69

def k1_off159 (k1_t9 : Fin k1_t9_loop.trips) (c4_i32 : BitVec 32) : Fin 3 → Nat :=
  let c0_i32_184 : BitVec 32 := 0#32
  let c0_i32_73 : BitVec 32 := 0#32
  let c1_i32_75 : BitVec 32 := 1#32
  let arg13 : BitVec 32 := Scf.iv c0_i32_73 c1_i32_75 k1_t9
  let c16_i32_169 : BitVec 32 := 16#32
  let v243 : BitVec 32 := Scalar.muli arg13 c16_i32_169
  let v244 : BitVec 32 := Scalar.addi v243 c4_i32
  let c0_i32_171 : BitVec 32 := 0#32
  let v248 : BitVec 1 := Scalar.cmpi .sgt v244 c0_i32_171
  let v249 : BitVec 32 := Scalar.extui v248
  let c0_i32_172 : BitVec 32 := 0#32
  let v250 : BitVec 1 := Scalar.cmpi .slt v244 c0_i32_172
  let v251 : BitVec 32 := Scalar.extui v250
  let v252 : BitVec 32 := Scalar.subi v249 v251
  let c20_i32_170 : BitVec 32 := 20#32
  let c0_i32_173 : BitVec 32 := 0#32
  let v253 : BitVec 1 := Scalar.cmpi .sgt c20_i32_170 c0_i32_173
  let v254 : BitVec 32 := Scalar.extui v253
  let c0_i32_174 : BitVec 32 := 0#32
  let v255 : BitVec 1 := Scalar.cmpi .slt c20_i32_170 c0_i32_174
  let v256 : BitVec 32 := Scalar.extui v255
  let v257 : BitVec 32 := Scalar.subi v254 v256
  let v258 : BitVec 1 := Scalar.cmpi .ne v252 v257
  let v259 : BitVec 32 := Scalar.remsi v244 c20_i32_170
  let c0_i32_175 : BitVec 32 := 0#32
  let v260 : BitVec 1 := Scalar.cmpi .ne v259 c0_i32_175
  let v261 : BitVec 1 := Scalar.andi v258 v260
  let v247 : BitVec 32 := Scalar.divsi v244 c20_i32_170
  let c1_i32_176 : BitVec 32 := 1#32
  let v262 : BitVec 32 := Scalar.subi v247 c1_i32_176
  let v263 : BitVec 32 := Scalar.select v261 v262 v247
  let c20_i32_177 : BitVec 32 := 20#32
  let c0_i32_178 : BitVec 32 := 0#32
  let v264 : BitVec 1 := Scalar.cmpi .eq c20_i32_177 c0_i32_178
  let c1_i32_179 : BitVec 32 := 1#32
  let v265 : BitVec 32 := Scalar.select v264 c1_i32_179 c20_i32_177
  let v266 : BitVec 32 := Scalar.remsi v244 v265
  let c0_i32_181 : BitVec 32 := 0#32
  let v268 : BitVec 1 := Scalar.cmpi .slt v266 c0_i32_181
  let c0_i32_182 : BitVec 32 := 0#32
  let v269 : BitVec 1 := Scalar.cmpi .slt v265 c0_i32_182
  let v270 : BitVec 1 := Scalar.xori v268 v269
  let c0_i32_180 : BitVec 32 := 0#32
  let v267 : BitVec 1 := Scalar.cmpi .ne v266 c0_i32_180
  let v271 : BitVec 1 := Scalar.andi v270 v267
  let v272 : BitVec 32 := Scalar.addi v266 v265
  let v273 : BitVec 32 := Scalar.select v271 v272 v266
  let c64_i32_183 : BitVec 32 := 64#32
  let v274 : BitVec 32 := Scalar.muli v273 c64_i32_183
  ![0, v263.toNat, v274.toNat]
def k1_off160 (v286 : BitVec 32) : Fin 2 → Nat :=
  let c0_i32_203 : BitVec 32 := 0#32
  ![v286.toNat, 0]

def k1_chk70 (v286 : BitVec 32) : Prop :=
  (∀ a, (k1_off160 v286) a + S1x64.size a ≤ S1000000x64.size a)
instance k1_chk70.dec : ∀ (v286 : BitVec 32), Decidable (k1_chk70 v286) := fun v286 => decidable_of_iff' _ (Iff.of_eq (k1_chk70.eq_1 v286))
theorem k1_off160_inb : ∀ (v286 : BitVec 32) (k1_hw70 : k1_chk70 v286), ∀ a, (k1_off160 v286) a + S1x64.size a ≤ S1000000x64.size a := fun v286 k1_hw70 => k1_hw70

def k1_off161 (k1_t9 : Fin k1_t9_loop.trips) (c5_i32 : BitVec 32) : Fin 3 → Nat :=
  let c0_i32_202 : BitVec 32 := 0#32
  let c0_i32_73 : BitVec 32 := 0#32
  let c1_i32_75 : BitVec 32 := 1#32
  let arg13 : BitVec 32 := Scf.iv c0_i32_73 c1_i32_75 k1_t9
  let c16_i32_187 : BitVec 32 := 16#32
  let v283 : BitVec 32 := Scalar.muli arg13 c16_i32_187
  let v284 : BitVec 32 := Scalar.addi v283 c5_i32
  let c0_i32_189 : BitVec 32 := 0#32
  let v288 : BitVec 1 := Scalar.cmpi .sgt v284 c0_i32_189
  let v289 : BitVec 32 := Scalar.extui v288
  let c0_i32_190 : BitVec 32 := 0#32
  let v290 : BitVec 1 := Scalar.cmpi .slt v284 c0_i32_190
  let v291 : BitVec 32 := Scalar.extui v290
  let v292 : BitVec 32 := Scalar.subi v289 v291
  let c20_i32_188 : BitVec 32 := 20#32
  let c0_i32_191 : BitVec 32 := 0#32
  let v293 : BitVec 1 := Scalar.cmpi .sgt c20_i32_188 c0_i32_191
  let v294 : BitVec 32 := Scalar.extui v293
  let c0_i32_192 : BitVec 32 := 0#32
  let v295 : BitVec 1 := Scalar.cmpi .slt c20_i32_188 c0_i32_192
  let v296 : BitVec 32 := Scalar.extui v295
  let v297 : BitVec 32 := Scalar.subi v294 v296
  let v298 : BitVec 1 := Scalar.cmpi .ne v292 v297
  let v299 : BitVec 32 := Scalar.remsi v284 c20_i32_188
  let c0_i32_193 : BitVec 32 := 0#32
  let v300 : BitVec 1 := Scalar.cmpi .ne v299 c0_i32_193
  let v301 : BitVec 1 := Scalar.andi v298 v300
  let v287 : BitVec 32 := Scalar.divsi v284 c20_i32_188
  let c1_i32_194 : BitVec 32 := 1#32
  let v302 : BitVec 32 := Scalar.subi v287 c1_i32_194
  let v303 : BitVec 32 := Scalar.select v301 v302 v287
  let c20_i32_195 : BitVec 32 := 20#32
  let c0_i32_196 : BitVec 32 := 0#32
  let v304 : BitVec 1 := Scalar.cmpi .eq c20_i32_195 c0_i32_196
  let c1_i32_197 : BitVec 32 := 1#32
  let v305 : BitVec 32 := Scalar.select v304 c1_i32_197 c20_i32_195
  let v306 : BitVec 32 := Scalar.remsi v284 v305
  let c0_i32_199 : BitVec 32 := 0#32
  let v308 : BitVec 1 := Scalar.cmpi .slt v306 c0_i32_199
  let c0_i32_200 : BitVec 32 := 0#32
  let v309 : BitVec 1 := Scalar.cmpi .slt v305 c0_i32_200
  let v310 : BitVec 1 := Scalar.xori v308 v309
  let c0_i32_198 : BitVec 32 := 0#32
  let v307 : BitVec 1 := Scalar.cmpi .ne v306 c0_i32_198
  let v311 : BitVec 1 := Scalar.andi v310 v307
  let v312 : BitVec 32 := Scalar.addi v306 v305
  let v313 : BitVec 32 := Scalar.select v311 v312 v306
  let c64_i32_201 : BitVec 32 := 64#32
  let v314 : BitVec 32 := Scalar.muli v313 c64_i32_201
  ![0, v303.toNat, v314.toNat]
def k1_off162 (v326 : BitVec 32) : Fin 2 → Nat :=
  let c0_i32_221 : BitVec 32 := 0#32
  ![v326.toNat, 0]

def k1_chk71 (v326 : BitVec 32) : Prop :=
  (∀ a, (k1_off162 v326) a + S1x64.size a ≤ S1000000x64.size a)
instance k1_chk71.dec : ∀ (v326 : BitVec 32), Decidable (k1_chk71 v326) := fun v326 => decidable_of_iff' _ (Iff.of_eq (k1_chk71.eq_1 v326))
theorem k1_off162_inb : ∀ (v326 : BitVec 32) (k1_hw71 : k1_chk71 v326), ∀ a, (k1_off162 v326) a + S1x64.size a ≤ S1000000x64.size a := fun v326 k1_hw71 => k1_hw71

def k1_off163 (k1_t9 : Fin k1_t9_loop.trips) (c6_i32 : BitVec 32) : Fin 3 → Nat :=
  let c0_i32_220 : BitVec 32 := 0#32
  let c0_i32_73 : BitVec 32 := 0#32
  let c1_i32_75 : BitVec 32 := 1#32
  let arg13 : BitVec 32 := Scf.iv c0_i32_73 c1_i32_75 k1_t9
  let c16_i32_205 : BitVec 32 := 16#32
  let v323 : BitVec 32 := Scalar.muli arg13 c16_i32_205
  let v324 : BitVec 32 := Scalar.addi v323 c6_i32
  let c0_i32_207 : BitVec 32 := 0#32
  let v328 : BitVec 1 := Scalar.cmpi .sgt v324 c0_i32_207
  let v329 : BitVec 32 := Scalar.extui v328
  let c0_i32_208 : BitVec 32 := 0#32
  let v330 : BitVec 1 := Scalar.cmpi .slt v324 c0_i32_208
  let v331 : BitVec 32 := Scalar.extui v330
  let v332 : BitVec 32 := Scalar.subi v329 v331
  let c20_i32_206 : BitVec 32 := 20#32
  let c0_i32_209 : BitVec 32 := 0#32
  let v333 : BitVec 1 := Scalar.cmpi .sgt c20_i32_206 c0_i32_209
  let v334 : BitVec 32 := Scalar.extui v333
  let c0_i32_210 : BitVec 32 := 0#32
  let v335 : BitVec 1 := Scalar.cmpi .slt c20_i32_206 c0_i32_210
  let v336 : BitVec 32 := Scalar.extui v335
  let v337 : BitVec 32 := Scalar.subi v334 v336
  let v338 : BitVec 1 := Scalar.cmpi .ne v332 v337
  let v339 : BitVec 32 := Scalar.remsi v324 c20_i32_206
  let c0_i32_211 : BitVec 32 := 0#32
  let v340 : BitVec 1 := Scalar.cmpi .ne v339 c0_i32_211
  let v341 : BitVec 1 := Scalar.andi v338 v340
  let v327 : BitVec 32 := Scalar.divsi v324 c20_i32_206
  let c1_i32_212 : BitVec 32 := 1#32
  let v342 : BitVec 32 := Scalar.subi v327 c1_i32_212
  let v343 : BitVec 32 := Scalar.select v341 v342 v327
  let c20_i32_213 : BitVec 32 := 20#32
  let c0_i32_214 : BitVec 32 := 0#32
  let v344 : BitVec 1 := Scalar.cmpi .eq c20_i32_213 c0_i32_214
  let c1_i32_215 : BitVec 32 := 1#32
  let v345 : BitVec 32 := Scalar.select v344 c1_i32_215 c20_i32_213
  let v346 : BitVec 32 := Scalar.remsi v324 v345
  let c0_i32_217 : BitVec 32 := 0#32
  let v348 : BitVec 1 := Scalar.cmpi .slt v346 c0_i32_217
  let c0_i32_218 : BitVec 32 := 0#32
  let v349 : BitVec 1 := Scalar.cmpi .slt v345 c0_i32_218
  let v350 : BitVec 1 := Scalar.xori v348 v349
  let c0_i32_216 : BitVec 32 := 0#32
  let v347 : BitVec 1 := Scalar.cmpi .ne v346 c0_i32_216
  let v351 : BitVec 1 := Scalar.andi v350 v347
  let v352 : BitVec 32 := Scalar.addi v346 v345
  let v353 : BitVec 32 := Scalar.select v351 v352 v346
  let c64_i32_219 : BitVec 32 := 64#32
  let v354 : BitVec 32 := Scalar.muli v353 c64_i32_219
  ![0, v343.toNat, v354.toNat]
def k1_off164 (v366 : BitVec 32) : Fin 2 → Nat :=
  let c0_i32_239 : BitVec 32 := 0#32
  ![v366.toNat, 0]

def k1_chk72 (v366 : BitVec 32) : Prop :=
  (∀ a, (k1_off164 v366) a + S1x64.size a ≤ S1000000x64.size a)
instance k1_chk72.dec : ∀ (v366 : BitVec 32), Decidable (k1_chk72 v366) := fun v366 => decidable_of_iff' _ (Iff.of_eq (k1_chk72.eq_1 v366))
theorem k1_off164_inb : ∀ (v366 : BitVec 32) (k1_hw72 : k1_chk72 v366), ∀ a, (k1_off164 v366) a + S1x64.size a ≤ S1000000x64.size a := fun v366 k1_hw72 => k1_hw72

def k1_off165 (k1_t9 : Fin k1_t9_loop.trips) (c7_i32 : BitVec 32) : Fin 3 → Nat :=
  let c0_i32_238 : BitVec 32 := 0#32
  let c0_i32_73 : BitVec 32 := 0#32
  let c1_i32_75 : BitVec 32 := 1#32
  let arg13 : BitVec 32 := Scf.iv c0_i32_73 c1_i32_75 k1_t9
  let c16_i32_223 : BitVec 32 := 16#32
  let v363 : BitVec 32 := Scalar.muli arg13 c16_i32_223
  let v364 : BitVec 32 := Scalar.addi v363 c7_i32
  let c0_i32_225 : BitVec 32 := 0#32
  let v368 : BitVec 1 := Scalar.cmpi .sgt v364 c0_i32_225
  let v369 : BitVec 32 := Scalar.extui v368
  let c0_i32_226 : BitVec 32 := 0#32
  let v370 : BitVec 1 := Scalar.cmpi .slt v364 c0_i32_226
  let v371 : BitVec 32 := Scalar.extui v370
  let v372 : BitVec 32 := Scalar.subi v369 v371
  let c20_i32_224 : BitVec 32 := 20#32
  let c0_i32_227 : BitVec 32 := 0#32
  let v373 : BitVec 1 := Scalar.cmpi .sgt c20_i32_224 c0_i32_227
  let v374 : BitVec 32 := Scalar.extui v373
  let c0_i32_228 : BitVec 32 := 0#32
  let v375 : BitVec 1 := Scalar.cmpi .slt c20_i32_224 c0_i32_228
  let v376 : BitVec 32 := Scalar.extui v375
  let v377 : BitVec 32 := Scalar.subi v374 v376
  let v378 : BitVec 1 := Scalar.cmpi .ne v372 v377
  let v379 : BitVec 32 := Scalar.remsi v364 c20_i32_224
  let c0_i32_229 : BitVec 32 := 0#32
  let v380 : BitVec 1 := Scalar.cmpi .ne v379 c0_i32_229
  let v381 : BitVec 1 := Scalar.andi v378 v380
  let v367 : BitVec 32 := Scalar.divsi v364 c20_i32_224
  let c1_i32_230 : BitVec 32 := 1#32
  let v382 : BitVec 32 := Scalar.subi v367 c1_i32_230
  let v383 : BitVec 32 := Scalar.select v381 v382 v367
  let c20_i32_231 : BitVec 32 := 20#32
  let c0_i32_232 : BitVec 32 := 0#32
  let v384 : BitVec 1 := Scalar.cmpi .eq c20_i32_231 c0_i32_232
  let c1_i32_233 : BitVec 32 := 1#32
  let v385 : BitVec 32 := Scalar.select v384 c1_i32_233 c20_i32_231
  let v386 : BitVec 32 := Scalar.remsi v364 v385
  let c0_i32_235 : BitVec 32 := 0#32
  let v388 : BitVec 1 := Scalar.cmpi .slt v386 c0_i32_235
  let c0_i32_236 : BitVec 32 := 0#32
  let v389 : BitVec 1 := Scalar.cmpi .slt v385 c0_i32_236
  let v390 : BitVec 1 := Scalar.xori v388 v389
  let c0_i32_234 : BitVec 32 := 0#32
  let v387 : BitVec 1 := Scalar.cmpi .ne v386 c0_i32_234
  let v391 : BitVec 1 := Scalar.andi v390 v387
  let v392 : BitVec 32 := Scalar.addi v386 v385
  let v393 : BitVec 32 := Scalar.select v391 v392 v386
  let c64_i32_237 : BitVec 32 := 64#32
  let v394 : BitVec 32 := Scalar.muli v393 c64_i32_237
  ![0, v383.toNat, v394.toNat]
def k1_off166 (v406 : BitVec 32) : Fin 2 → Nat :=
  let c0_i32_257 : BitVec 32 := 0#32
  ![v406.toNat, 0]

def k1_chk73 (v406 : BitVec 32) : Prop :=
  (∀ a, (k1_off166 v406) a + S1x64.size a ≤ S1000000x64.size a)
instance k1_chk73.dec : ∀ (v406 : BitVec 32), Decidable (k1_chk73 v406) := fun v406 => decidable_of_iff' _ (Iff.of_eq (k1_chk73.eq_1 v406))
theorem k1_off166_inb : ∀ (v406 : BitVec 32) (k1_hw73 : k1_chk73 v406), ∀ a, (k1_off166 v406) a + S1x64.size a ≤ S1000000x64.size a := fun v406 k1_hw73 => k1_hw73

def k1_off167 (k1_t9 : Fin k1_t9_loop.trips) (c8_i32 : BitVec 32) : Fin 3 → Nat :=
  let c0_i32_256 : BitVec 32 := 0#32
  let c0_i32_73 : BitVec 32 := 0#32
  let c1_i32_75 : BitVec 32 := 1#32
  let arg13 : BitVec 32 := Scf.iv c0_i32_73 c1_i32_75 k1_t9
  let c16_i32_241 : BitVec 32 := 16#32
  let v403 : BitVec 32 := Scalar.muli arg13 c16_i32_241
  let v404 : BitVec 32 := Scalar.addi v403 c8_i32
  let c0_i32_243 : BitVec 32 := 0#32
  let v408 : BitVec 1 := Scalar.cmpi .sgt v404 c0_i32_243
  let v409 : BitVec 32 := Scalar.extui v408
  let c0_i32_244 : BitVec 32 := 0#32
  let v410 : BitVec 1 := Scalar.cmpi .slt v404 c0_i32_244
  let v411 : BitVec 32 := Scalar.extui v410
  let v412 : BitVec 32 := Scalar.subi v409 v411
  let c20_i32_242 : BitVec 32 := 20#32
  let c0_i32_245 : BitVec 32 := 0#32
  let v413 : BitVec 1 := Scalar.cmpi .sgt c20_i32_242 c0_i32_245
  let v414 : BitVec 32 := Scalar.extui v413
  let c0_i32_246 : BitVec 32 := 0#32
  let v415 : BitVec 1 := Scalar.cmpi .slt c20_i32_242 c0_i32_246
  let v416 : BitVec 32 := Scalar.extui v415
  let v417 : BitVec 32 := Scalar.subi v414 v416
  let v418 : BitVec 1 := Scalar.cmpi .ne v412 v417
  let v419 : BitVec 32 := Scalar.remsi v404 c20_i32_242
  let c0_i32_247 : BitVec 32 := 0#32
  let v420 : BitVec 1 := Scalar.cmpi .ne v419 c0_i32_247
  let v421 : BitVec 1 := Scalar.andi v418 v420
  let v407 : BitVec 32 := Scalar.divsi v404 c20_i32_242
  let c1_i32_248 : BitVec 32 := 1#32
  let v422 : BitVec 32 := Scalar.subi v407 c1_i32_248
  let v423 : BitVec 32 := Scalar.select v421 v422 v407
  let c20_i32_249 : BitVec 32 := 20#32
  let c0_i32_250 : BitVec 32 := 0#32
  let v424 : BitVec 1 := Scalar.cmpi .eq c20_i32_249 c0_i32_250
  let c1_i32_251 : BitVec 32 := 1#32
  let v425 : BitVec 32 := Scalar.select v424 c1_i32_251 c20_i32_249
  let v426 : BitVec 32 := Scalar.remsi v404 v425
  let c0_i32_253 : BitVec 32 := 0#32
  let v428 : BitVec 1 := Scalar.cmpi .slt v426 c0_i32_253
  let c0_i32_254 : BitVec 32 := 0#32
  let v429 : BitVec 1 := Scalar.cmpi .slt v425 c0_i32_254
  let v430 : BitVec 1 := Scalar.xori v428 v429
  let c0_i32_252 : BitVec 32 := 0#32
  let v427 : BitVec 1 := Scalar.cmpi .ne v426 c0_i32_252
  let v431 : BitVec 1 := Scalar.andi v430 v427
  let v432 : BitVec 32 := Scalar.addi v426 v425
  let v433 : BitVec 32 := Scalar.select v431 v432 v426
  let c64_i32_255 : BitVec 32 := 64#32
  let v434 : BitVec 32 := Scalar.muli v433 c64_i32_255
  ![0, v423.toNat, v434.toNat]
def k1_off168 (v446 : BitVec 32) : Fin 2 → Nat :=
  let c0_i32_275 : BitVec 32 := 0#32
  ![v446.toNat, 0]

def k1_chk74 (v446 : BitVec 32) : Prop :=
  (∀ a, (k1_off168 v446) a + S1x64.size a ≤ S1000000x64.size a)
instance k1_chk74.dec : ∀ (v446 : BitVec 32), Decidable (k1_chk74 v446) := fun v446 => decidable_of_iff' _ (Iff.of_eq (k1_chk74.eq_1 v446))
theorem k1_off168_inb : ∀ (v446 : BitVec 32) (k1_hw74 : k1_chk74 v446), ∀ a, (k1_off168 v446) a + S1x64.size a ≤ S1000000x64.size a := fun v446 k1_hw74 => k1_hw74

def k1_off169 (k1_t9 : Fin k1_t9_loop.trips) (c9_i32 : BitVec 32) : Fin 3 → Nat :=
  let c0_i32_274 : BitVec 32 := 0#32
  let c0_i32_73 : BitVec 32 := 0#32
  let c1_i32_75 : BitVec 32 := 1#32
  let arg13 : BitVec 32 := Scf.iv c0_i32_73 c1_i32_75 k1_t9
  let c16_i32_259 : BitVec 32 := 16#32
  let v443 : BitVec 32 := Scalar.muli arg13 c16_i32_259
  let v444 : BitVec 32 := Scalar.addi v443 c9_i32
  let c0_i32_261 : BitVec 32 := 0#32
  let v448 : BitVec 1 := Scalar.cmpi .sgt v444 c0_i32_261
  let v449 : BitVec 32 := Scalar.extui v448
  let c0_i32_262 : BitVec 32 := 0#32
  let v450 : BitVec 1 := Scalar.cmpi .slt v444 c0_i32_262
  let v451 : BitVec 32 := Scalar.extui v450
  let v452 : BitVec 32 := Scalar.subi v449 v451
  let c20_i32_260 : BitVec 32 := 20#32
  let c0_i32_263 : BitVec 32 := 0#32
  let v453 : BitVec 1 := Scalar.cmpi .sgt c20_i32_260 c0_i32_263
  let v454 : BitVec 32 := Scalar.extui v453
  let c0_i32_264 : BitVec 32 := 0#32
  let v455 : BitVec 1 := Scalar.cmpi .slt c20_i32_260 c0_i32_264
  let v456 : BitVec 32 := Scalar.extui v455
  let v457 : BitVec 32 := Scalar.subi v454 v456
  let v458 : BitVec 1 := Scalar.cmpi .ne v452 v457
  let v459 : BitVec 32 := Scalar.remsi v444 c20_i32_260
  let c0_i32_265 : BitVec 32 := 0#32
  let v460 : BitVec 1 := Scalar.cmpi .ne v459 c0_i32_265
  let v461 : BitVec 1 := Scalar.andi v458 v460
  let v447 : BitVec 32 := Scalar.divsi v444 c20_i32_260
  let c1_i32_266 : BitVec 32 := 1#32
  let v462 : BitVec 32 := Scalar.subi v447 c1_i32_266
  let v463 : BitVec 32 := Scalar.select v461 v462 v447
  let c20_i32_267 : BitVec 32 := 20#32
  let c0_i32_268 : BitVec 32 := 0#32
  let v464 : BitVec 1 := Scalar.cmpi .eq c20_i32_267 c0_i32_268
  let c1_i32_269 : BitVec 32 := 1#32
  let v465 : BitVec 32 := Scalar.select v464 c1_i32_269 c20_i32_267
  let v466 : BitVec 32 := Scalar.remsi v444 v465
  let c0_i32_271 : BitVec 32 := 0#32
  let v468 : BitVec 1 := Scalar.cmpi .slt v466 c0_i32_271
  let c0_i32_272 : BitVec 32 := 0#32
  let v469 : BitVec 1 := Scalar.cmpi .slt v465 c0_i32_272
  let v470 : BitVec 1 := Scalar.xori v468 v469
  let c0_i32_270 : BitVec 32 := 0#32
  let v467 : BitVec 1 := Scalar.cmpi .ne v466 c0_i32_270
  let v471 : BitVec 1 := Scalar.andi v470 v467
  let v472 : BitVec 32 := Scalar.addi v466 v465
  let v473 : BitVec 32 := Scalar.select v471 v472 v466
  let c64_i32_273 : BitVec 32 := 64#32
  let v474 : BitVec 32 := Scalar.muli v473 c64_i32_273
  ![0, v463.toNat, v474.toNat]
def k1_off170 (v486 : BitVec 32) : Fin 2 → Nat :=
  let c0_i32_293 : BitVec 32 := 0#32
  ![v486.toNat, 0]

def k1_chk75 (v486 : BitVec 32) : Prop :=
  (∀ a, (k1_off170 v486) a + S1x64.size a ≤ S1000000x64.size a)
instance k1_chk75.dec : ∀ (v486 : BitVec 32), Decidable (k1_chk75 v486) := fun v486 => decidable_of_iff' _ (Iff.of_eq (k1_chk75.eq_1 v486))
theorem k1_off170_inb : ∀ (v486 : BitVec 32) (k1_hw75 : k1_chk75 v486), ∀ a, (k1_off170 v486) a + S1x64.size a ≤ S1000000x64.size a := fun v486 k1_hw75 => k1_hw75

def k1_off171 (k1_t9 : Fin k1_t9_loop.trips) (c10_i32 : BitVec 32) : Fin 3 → Nat :=
  let c0_i32_292 : BitVec 32 := 0#32
  let c0_i32_73 : BitVec 32 := 0#32
  let c1_i32_75 : BitVec 32 := 1#32
  let arg13 : BitVec 32 := Scf.iv c0_i32_73 c1_i32_75 k1_t9
  let c16_i32_277 : BitVec 32 := 16#32
  let v483 : BitVec 32 := Scalar.muli arg13 c16_i32_277
  let v484 : BitVec 32 := Scalar.addi v483 c10_i32
  let c0_i32_279 : BitVec 32 := 0#32
  let v488 : BitVec 1 := Scalar.cmpi .sgt v484 c0_i32_279
  let v489 : BitVec 32 := Scalar.extui v488
  let c0_i32_280 : BitVec 32 := 0#32
  let v490 : BitVec 1 := Scalar.cmpi .slt v484 c0_i32_280
  let v491 : BitVec 32 := Scalar.extui v490
  let v492 : BitVec 32 := Scalar.subi v489 v491
  let c20_i32_278 : BitVec 32 := 20#32
  let c0_i32_281 : BitVec 32 := 0#32
  let v493 : BitVec 1 := Scalar.cmpi .sgt c20_i32_278 c0_i32_281
  let v494 : BitVec 32 := Scalar.extui v493
  let c0_i32_282 : BitVec 32 := 0#32
  let v495 : BitVec 1 := Scalar.cmpi .slt c20_i32_278 c0_i32_282
  let v496 : BitVec 32 := Scalar.extui v495
  let v497 : BitVec 32 := Scalar.subi v494 v496
  let v498 : BitVec 1 := Scalar.cmpi .ne v492 v497
  let v499 : BitVec 32 := Scalar.remsi v484 c20_i32_278
  let c0_i32_283 : BitVec 32 := 0#32
  let v500 : BitVec 1 := Scalar.cmpi .ne v499 c0_i32_283
  let v501 : BitVec 1 := Scalar.andi v498 v500
  let v487 : BitVec 32 := Scalar.divsi v484 c20_i32_278
  let c1_i32_284 : BitVec 32 := 1#32
  let v502 : BitVec 32 := Scalar.subi v487 c1_i32_284
  let v503 : BitVec 32 := Scalar.select v501 v502 v487
  let c20_i32_285 : BitVec 32 := 20#32
  let c0_i32_286 : BitVec 32 := 0#32
  let v504 : BitVec 1 := Scalar.cmpi .eq c20_i32_285 c0_i32_286
  let c1_i32_287 : BitVec 32 := 1#32
  let v505 : BitVec 32 := Scalar.select v504 c1_i32_287 c20_i32_285
  let v506 : BitVec 32 := Scalar.remsi v484 v505
  let c0_i32_289 : BitVec 32 := 0#32
  let v508 : BitVec 1 := Scalar.cmpi .slt v506 c0_i32_289
  let c0_i32_290 : BitVec 32 := 0#32
  let v509 : BitVec 1 := Scalar.cmpi .slt v505 c0_i32_290
  let v510 : BitVec 1 := Scalar.xori v508 v509
  let c0_i32_288 : BitVec 32 := 0#32
  let v507 : BitVec 1 := Scalar.cmpi .ne v506 c0_i32_288
  let v511 : BitVec 1 := Scalar.andi v510 v507
  let v512 : BitVec 32 := Scalar.addi v506 v505
  let v513 : BitVec 32 := Scalar.select v511 v512 v506
  let c64_i32_291 : BitVec 32 := 64#32
  let v514 : BitVec 32 := Scalar.muli v513 c64_i32_291
  ![0, v503.toNat, v514.toNat]
def k1_off172 (v526 : BitVec 32) : Fin 2 → Nat :=
  let c0_i32_311 : BitVec 32 := 0#32
  ![v526.toNat, 0]

def k1_chk76 (v526 : BitVec 32) : Prop :=
  (∀ a, (k1_off172 v526) a + S1x64.size a ≤ S1000000x64.size a)
instance k1_chk76.dec : ∀ (v526 : BitVec 32), Decidable (k1_chk76 v526) := fun v526 => decidable_of_iff' _ (Iff.of_eq (k1_chk76.eq_1 v526))
theorem k1_off172_inb : ∀ (v526 : BitVec 32) (k1_hw76 : k1_chk76 v526), ∀ a, (k1_off172 v526) a + S1x64.size a ≤ S1000000x64.size a := fun v526 k1_hw76 => k1_hw76

def k1_off173 (k1_t9 : Fin k1_t9_loop.trips) (c11_i32 : BitVec 32) : Fin 3 → Nat :=
  let c0_i32_310 : BitVec 32 := 0#32
  let c0_i32_73 : BitVec 32 := 0#32
  let c1_i32_75 : BitVec 32 := 1#32
  let arg13 : BitVec 32 := Scf.iv c0_i32_73 c1_i32_75 k1_t9
  let c16_i32_295 : BitVec 32 := 16#32
  let v523 : BitVec 32 := Scalar.muli arg13 c16_i32_295
  let v524 : BitVec 32 := Scalar.addi v523 c11_i32
  let c0_i32_297 : BitVec 32 := 0#32
  let v528 : BitVec 1 := Scalar.cmpi .sgt v524 c0_i32_297
  let v529 : BitVec 32 := Scalar.extui v528
  let c0_i32_298 : BitVec 32 := 0#32
  let v530 : BitVec 1 := Scalar.cmpi .slt v524 c0_i32_298
  let v531 : BitVec 32 := Scalar.extui v530
  let v532 : BitVec 32 := Scalar.subi v529 v531
  let c20_i32_296 : BitVec 32 := 20#32
  let c0_i32_299 : BitVec 32 := 0#32
  let v533 : BitVec 1 := Scalar.cmpi .sgt c20_i32_296 c0_i32_299
  let v534 : BitVec 32 := Scalar.extui v533
  let c0_i32_300 : BitVec 32 := 0#32
  let v535 : BitVec 1 := Scalar.cmpi .slt c20_i32_296 c0_i32_300
  let v536 : BitVec 32 := Scalar.extui v535
  let v537 : BitVec 32 := Scalar.subi v534 v536
  let v538 : BitVec 1 := Scalar.cmpi .ne v532 v537
  let v539 : BitVec 32 := Scalar.remsi v524 c20_i32_296
  let c0_i32_301 : BitVec 32 := 0#32
  let v540 : BitVec 1 := Scalar.cmpi .ne v539 c0_i32_301
  let v541 : BitVec 1 := Scalar.andi v538 v540
  let v527 : BitVec 32 := Scalar.divsi v524 c20_i32_296
  let c1_i32_302 : BitVec 32 := 1#32
  let v542 : BitVec 32 := Scalar.subi v527 c1_i32_302
  let v543 : BitVec 32 := Scalar.select v541 v542 v527
  let c20_i32_303 : BitVec 32 := 20#32
  let c0_i32_304 : BitVec 32 := 0#32
  let v544 : BitVec 1 := Scalar.cmpi .eq c20_i32_303 c0_i32_304
  let c1_i32_305 : BitVec 32 := 1#32
  let v545 : BitVec 32 := Scalar.select v544 c1_i32_305 c20_i32_303
  let v546 : BitVec 32 := Scalar.remsi v524 v545
  let c0_i32_307 : BitVec 32 := 0#32
  let v548 : BitVec 1 := Scalar.cmpi .slt v546 c0_i32_307
  let c0_i32_308 : BitVec 32 := 0#32
  let v549 : BitVec 1 := Scalar.cmpi .slt v545 c0_i32_308
  let v550 : BitVec 1 := Scalar.xori v548 v549
  let c0_i32_306 : BitVec 32 := 0#32
  let v547 : BitVec 1 := Scalar.cmpi .ne v546 c0_i32_306
  let v551 : BitVec 1 := Scalar.andi v550 v547
  let v552 : BitVec 32 := Scalar.addi v546 v545
  let v553 : BitVec 32 := Scalar.select v551 v552 v546
  let c64_i32_309 : BitVec 32 := 64#32
  let v554 : BitVec 32 := Scalar.muli v553 c64_i32_309
  ![0, v543.toNat, v554.toNat]
def k1_off174 (v566 : BitVec 32) : Fin 2 → Nat :=
  let c0_i32_329 : BitVec 32 := 0#32
  ![v566.toNat, 0]

def k1_chk77 (v566 : BitVec 32) : Prop :=
  (∀ a, (k1_off174 v566) a + S1x64.size a ≤ S1000000x64.size a)
instance k1_chk77.dec : ∀ (v566 : BitVec 32), Decidable (k1_chk77 v566) := fun v566 => decidable_of_iff' _ (Iff.of_eq (k1_chk77.eq_1 v566))
theorem k1_off174_inb : ∀ (v566 : BitVec 32) (k1_hw77 : k1_chk77 v566), ∀ a, (k1_off174 v566) a + S1x64.size a ≤ S1000000x64.size a := fun v566 k1_hw77 => k1_hw77

def k1_off175 (k1_t9 : Fin k1_t9_loop.trips) (c12_i32 : BitVec 32) : Fin 3 → Nat :=
  let c0_i32_328 : BitVec 32 := 0#32
  let c0_i32_73 : BitVec 32 := 0#32
  let c1_i32_75 : BitVec 32 := 1#32
  let arg13 : BitVec 32 := Scf.iv c0_i32_73 c1_i32_75 k1_t9
  let c16_i32_313 : BitVec 32 := 16#32
  let v563 : BitVec 32 := Scalar.muli arg13 c16_i32_313
  let v564 : BitVec 32 := Scalar.addi v563 c12_i32
  let c0_i32_315 : BitVec 32 := 0#32
  let v568 : BitVec 1 := Scalar.cmpi .sgt v564 c0_i32_315
  let v569 : BitVec 32 := Scalar.extui v568
  let c0_i32_316 : BitVec 32 := 0#32
  let v570 : BitVec 1 := Scalar.cmpi .slt v564 c0_i32_316
  let v571 : BitVec 32 := Scalar.extui v570
  let v572 : BitVec 32 := Scalar.subi v569 v571
  let c20_i32_314 : BitVec 32 := 20#32
  let c0_i32_317 : BitVec 32 := 0#32
  let v573 : BitVec 1 := Scalar.cmpi .sgt c20_i32_314 c0_i32_317
  let v574 : BitVec 32 := Scalar.extui v573
  let c0_i32_318 : BitVec 32 := 0#32
  let v575 : BitVec 1 := Scalar.cmpi .slt c20_i32_314 c0_i32_318
  let v576 : BitVec 32 := Scalar.extui v575
  let v577 : BitVec 32 := Scalar.subi v574 v576
  let v578 : BitVec 1 := Scalar.cmpi .ne v572 v577
  let v579 : BitVec 32 := Scalar.remsi v564 c20_i32_314
  let c0_i32_319 : BitVec 32 := 0#32
  let v580 : BitVec 1 := Scalar.cmpi .ne v579 c0_i32_319
  let v581 : BitVec 1 := Scalar.andi v578 v580
  let v567 : BitVec 32 := Scalar.divsi v564 c20_i32_314
  let c1_i32_320 : BitVec 32 := 1#32
  let v582 : BitVec 32 := Scalar.subi v567 c1_i32_320
  let v583 : BitVec 32 := Scalar.select v581 v582 v567
  let c20_i32_321 : BitVec 32 := 20#32
  let c0_i32_322 : BitVec 32 := 0#32
  let v584 : BitVec 1 := Scalar.cmpi .eq c20_i32_321 c0_i32_322
  let c1_i32_323 : BitVec 32 := 1#32
  let v585 : BitVec 32 := Scalar.select v584 c1_i32_323 c20_i32_321
  let v586 : BitVec 32 := Scalar.remsi v564 v585
  let c0_i32_325 : BitVec 32 := 0#32
  let v588 : BitVec 1 := Scalar.cmpi .slt v586 c0_i32_325
  let c0_i32_326 : BitVec 32 := 0#32
  let v589 : BitVec 1 := Scalar.cmpi .slt v585 c0_i32_326
  let v590 : BitVec 1 := Scalar.xori v588 v589
  let c0_i32_324 : BitVec 32 := 0#32
  let v587 : BitVec 1 := Scalar.cmpi .ne v586 c0_i32_324
  let v591 : BitVec 1 := Scalar.andi v590 v587
  let v592 : BitVec 32 := Scalar.addi v586 v585
  let v593 : BitVec 32 := Scalar.select v591 v592 v586
  let c64_i32_327 : BitVec 32 := 64#32
  let v594 : BitVec 32 := Scalar.muli v593 c64_i32_327
  ![0, v583.toNat, v594.toNat]
def k1_off176 (v606 : BitVec 32) : Fin 2 → Nat :=
  let c0_i32_347 : BitVec 32 := 0#32
  ![v606.toNat, 0]

def k1_chk78 (v606 : BitVec 32) : Prop :=
  (∀ a, (k1_off176 v606) a + S1x64.size a ≤ S1000000x64.size a)
instance k1_chk78.dec : ∀ (v606 : BitVec 32), Decidable (k1_chk78 v606) := fun v606 => decidable_of_iff' _ (Iff.of_eq (k1_chk78.eq_1 v606))
theorem k1_off176_inb : ∀ (v606 : BitVec 32) (k1_hw78 : k1_chk78 v606), ∀ a, (k1_off176 v606) a + S1x64.size a ≤ S1000000x64.size a := fun v606 k1_hw78 => k1_hw78

def k1_off177 (k1_t9 : Fin k1_t9_loop.trips) (c13_i32 : BitVec 32) : Fin 3 → Nat :=
  let c0_i32_346 : BitVec 32 := 0#32
  let c0_i32_73 : BitVec 32 := 0#32
  let c1_i32_75 : BitVec 32 := 1#32
  let arg13 : BitVec 32 := Scf.iv c0_i32_73 c1_i32_75 k1_t9
  let c16_i32_331 : BitVec 32 := 16#32
  let v603 : BitVec 32 := Scalar.muli arg13 c16_i32_331
  let v604 : BitVec 32 := Scalar.addi v603 c13_i32
  let c0_i32_333 : BitVec 32 := 0#32
  let v608 : BitVec 1 := Scalar.cmpi .sgt v604 c0_i32_333
  let v609 : BitVec 32 := Scalar.extui v608
  let c0_i32_334 : BitVec 32 := 0#32
  let v610 : BitVec 1 := Scalar.cmpi .slt v604 c0_i32_334
  let v611 : BitVec 32 := Scalar.extui v610
  let v612 : BitVec 32 := Scalar.subi v609 v611
  let c20_i32_332 : BitVec 32 := 20#32
  let c0_i32_335 : BitVec 32 := 0#32
  let v613 : BitVec 1 := Scalar.cmpi .sgt c20_i32_332 c0_i32_335
  let v614 : BitVec 32 := Scalar.extui v613
  let c0_i32_336 : BitVec 32 := 0#32
  let v615 : BitVec 1 := Scalar.cmpi .slt c20_i32_332 c0_i32_336
  let v616 : BitVec 32 := Scalar.extui v615
  let v617 : BitVec 32 := Scalar.subi v614 v616
  let v618 : BitVec 1 := Scalar.cmpi .ne v612 v617
  let v619 : BitVec 32 := Scalar.remsi v604 c20_i32_332
  let c0_i32_337 : BitVec 32 := 0#32
  let v620 : BitVec 1 := Scalar.cmpi .ne v619 c0_i32_337
  let v621 : BitVec 1 := Scalar.andi v618 v620
  let v607 : BitVec 32 := Scalar.divsi v604 c20_i32_332
  let c1_i32_338 : BitVec 32 := 1#32
  let v622 : BitVec 32 := Scalar.subi v607 c1_i32_338
  let v623 : BitVec 32 := Scalar.select v621 v622 v607
  let c20_i32_339 : BitVec 32 := 20#32
  let c0_i32_340 : BitVec 32 := 0#32
  let v624 : BitVec 1 := Scalar.cmpi .eq c20_i32_339 c0_i32_340
  let c1_i32_341 : BitVec 32 := 1#32
  let v625 : BitVec 32 := Scalar.select v624 c1_i32_341 c20_i32_339
  let v626 : BitVec 32 := Scalar.remsi v604 v625
  let c0_i32_343 : BitVec 32 := 0#32
  let v628 : BitVec 1 := Scalar.cmpi .slt v626 c0_i32_343
  let c0_i32_344 : BitVec 32 := 0#32
  let v629 : BitVec 1 := Scalar.cmpi .slt v625 c0_i32_344
  let v630 : BitVec 1 := Scalar.xori v628 v629
  let c0_i32_342 : BitVec 32 := 0#32
  let v627 : BitVec 1 := Scalar.cmpi .ne v626 c0_i32_342
  let v631 : BitVec 1 := Scalar.andi v630 v627
  let v632 : BitVec 32 := Scalar.addi v626 v625
  let v633 : BitVec 32 := Scalar.select v631 v632 v626
  let c64_i32_345 : BitVec 32 := 64#32
  let v634 : BitVec 32 := Scalar.muli v633 c64_i32_345
  ![0, v623.toNat, v634.toNat]
def k1_off178 (v646 : BitVec 32) : Fin 2 → Nat :=
  let c0_i32_365 : BitVec 32 := 0#32
  ![v646.toNat, 0]

def k1_chk79 (v646 : BitVec 32) : Prop :=
  (∀ a, (k1_off178 v646) a + S1x64.size a ≤ S1000000x64.size a)
instance k1_chk79.dec : ∀ (v646 : BitVec 32), Decidable (k1_chk79 v646) := fun v646 => decidable_of_iff' _ (Iff.of_eq (k1_chk79.eq_1 v646))
theorem k1_off178_inb : ∀ (v646 : BitVec 32) (k1_hw79 : k1_chk79 v646), ∀ a, (k1_off178 v646) a + S1x64.size a ≤ S1000000x64.size a := fun v646 k1_hw79 => k1_hw79

def k1_off179 (k1_t9 : Fin k1_t9_loop.trips) (c14_i32 : BitVec 32) : Fin 3 → Nat :=
  let c0_i32_364 : BitVec 32 := 0#32
  let c0_i32_73 : BitVec 32 := 0#32
  let c1_i32_75 : BitVec 32 := 1#32
  let arg13 : BitVec 32 := Scf.iv c0_i32_73 c1_i32_75 k1_t9
  let c16_i32_349 : BitVec 32 := 16#32
  let v643 : BitVec 32 := Scalar.muli arg13 c16_i32_349
  let v644 : BitVec 32 := Scalar.addi v643 c14_i32
  let c0_i32_351 : BitVec 32 := 0#32
  let v648 : BitVec 1 := Scalar.cmpi .sgt v644 c0_i32_351
  let v649 : BitVec 32 := Scalar.extui v648
  let c0_i32_352 : BitVec 32 := 0#32
  let v650 : BitVec 1 := Scalar.cmpi .slt v644 c0_i32_352
  let v651 : BitVec 32 := Scalar.extui v650
  let v652 : BitVec 32 := Scalar.subi v649 v651
  let c20_i32_350 : BitVec 32 := 20#32
  let c0_i32_353 : BitVec 32 := 0#32
  let v653 : BitVec 1 := Scalar.cmpi .sgt c20_i32_350 c0_i32_353
  let v654 : BitVec 32 := Scalar.extui v653
  let c0_i32_354 : BitVec 32 := 0#32
  let v655 : BitVec 1 := Scalar.cmpi .slt c20_i32_350 c0_i32_354
  let v656 : BitVec 32 := Scalar.extui v655
  let v657 : BitVec 32 := Scalar.subi v654 v656
  let v658 : BitVec 1 := Scalar.cmpi .ne v652 v657
  let v659 : BitVec 32 := Scalar.remsi v644 c20_i32_350
  let c0_i32_355 : BitVec 32 := 0#32
  let v660 : BitVec 1 := Scalar.cmpi .ne v659 c0_i32_355
  let v661 : BitVec 1 := Scalar.andi v658 v660
  let v647 : BitVec 32 := Scalar.divsi v644 c20_i32_350
  let c1_i32_356 : BitVec 32 := 1#32
  let v662 : BitVec 32 := Scalar.subi v647 c1_i32_356
  let v663 : BitVec 32 := Scalar.select v661 v662 v647
  let c20_i32_357 : BitVec 32 := 20#32
  let c0_i32_358 : BitVec 32 := 0#32
  let v664 : BitVec 1 := Scalar.cmpi .eq c20_i32_357 c0_i32_358
  let c1_i32_359 : BitVec 32 := 1#32
  let v665 : BitVec 32 := Scalar.select v664 c1_i32_359 c20_i32_357
  let v666 : BitVec 32 := Scalar.remsi v644 v665
  let c0_i32_361 : BitVec 32 := 0#32
  let v668 : BitVec 1 := Scalar.cmpi .slt v666 c0_i32_361
  let c0_i32_362 : BitVec 32 := 0#32
  let v669 : BitVec 1 := Scalar.cmpi .slt v665 c0_i32_362
  let v670 : BitVec 1 := Scalar.xori v668 v669
  let c0_i32_360 : BitVec 32 := 0#32
  let v667 : BitVec 1 := Scalar.cmpi .ne v666 c0_i32_360
  let v671 : BitVec 1 := Scalar.andi v670 v667
  let v672 : BitVec 32 := Scalar.addi v666 v665
  let v673 : BitVec 32 := Scalar.select v671 v672 v666
  let c64_i32_363 : BitVec 32 := 64#32
  let v674 : BitVec 32 := Scalar.muli v673 c64_i32_363
  ![0, v663.toNat, v674.toNat]
def k1_off180 (v686 : BitVec 32) : Fin 2 → Nat :=
  let c0_i32_384 : BitVec 32 := 0#32
  ![v686.toNat, 0]

def k1_chk80 (v686 : BitVec 32) : Prop :=
  (∀ a, (k1_off180 v686) a + S1x64.size a ≤ S1000000x64.size a)
instance k1_chk80.dec : ∀ (v686 : BitVec 32), Decidable (k1_chk80 v686) := fun v686 => decidable_of_iff' _ (Iff.of_eq (k1_chk80.eq_1 v686))
theorem k1_off180_inb : ∀ (v686 : BitVec 32) (k1_hw80 : k1_chk80 v686), ∀ a, (k1_off180 v686) a + S1x64.size a ≤ S1000000x64.size a := fun v686 k1_hw80 => k1_hw80

def k1_off181 (k1_t9 : Fin k1_t9_loop.trips) : Fin 3 → Nat :=
  let c0_i32_383 : BitVec 32 := 0#32
  let c0_i32_73 : BitVec 32 := 0#32
  let c1_i32_75 : BitVec 32 := 1#32
  let arg13 : BitVec 32 := Scf.iv c0_i32_73 c1_i32_75 k1_t9
  let c16_i32_367 : BitVec 32 := 16#32
  let v683 : BitVec 32 := Scalar.muli arg13 c16_i32_367
  let c15_i32_368 : BitVec 32 := 15#32
  let v684 : BitVec 32 := Scalar.addi v683 c15_i32_368
  let c0_i32_370 : BitVec 32 := 0#32
  let v688 : BitVec 1 := Scalar.cmpi .sgt v684 c0_i32_370
  let v689 : BitVec 32 := Scalar.extui v688
  let c0_i32_371 : BitVec 32 := 0#32
  let v690 : BitVec 1 := Scalar.cmpi .slt v684 c0_i32_371
  let v691 : BitVec 32 := Scalar.extui v690
  let v692 : BitVec 32 := Scalar.subi v689 v691
  let c20_i32_369 : BitVec 32 := 20#32
  let c0_i32_372 : BitVec 32 := 0#32
  let v693 : BitVec 1 := Scalar.cmpi .sgt c20_i32_369 c0_i32_372
  let v694 : BitVec 32 := Scalar.extui v693
  let c0_i32_373 : BitVec 32 := 0#32
  let v695 : BitVec 1 := Scalar.cmpi .slt c20_i32_369 c0_i32_373
  let v696 : BitVec 32 := Scalar.extui v695
  let v697 : BitVec 32 := Scalar.subi v694 v696
  let v698 : BitVec 1 := Scalar.cmpi .ne v692 v697
  let v699 : BitVec 32 := Scalar.remsi v684 c20_i32_369
  let c0_i32_374 : BitVec 32 := 0#32
  let v700 : BitVec 1 := Scalar.cmpi .ne v699 c0_i32_374
  let v701 : BitVec 1 := Scalar.andi v698 v700
  let v687 : BitVec 32 := Scalar.divsi v684 c20_i32_369
  let c1_i32_375 : BitVec 32 := 1#32
  let v702 : BitVec 32 := Scalar.subi v687 c1_i32_375
  let v703 : BitVec 32 := Scalar.select v701 v702 v687
  let c20_i32_376 : BitVec 32 := 20#32
  let c0_i32_377 : BitVec 32 := 0#32
  let v704 : BitVec 1 := Scalar.cmpi .eq c20_i32_376 c0_i32_377
  let c1_i32_378 : BitVec 32 := 1#32
  let v705 : BitVec 32 := Scalar.select v704 c1_i32_378 c20_i32_376
  let v706 : BitVec 32 := Scalar.remsi v684 v705
  let c0_i32_380 : BitVec 32 := 0#32
  let v708 : BitVec 1 := Scalar.cmpi .slt v706 c0_i32_380
  let c0_i32_381 : BitVec 32 := 0#32
  let v709 : BitVec 1 := Scalar.cmpi .slt v705 c0_i32_381
  let v710 : BitVec 1 := Scalar.xori v708 v709
  let c0_i32_379 : BitVec 32 := 0#32
  let v707 : BitVec 1 := Scalar.cmpi .ne v706 c0_i32_379
  let v711 : BitVec 1 := Scalar.andi v710 v707
  let v712 : BitVec 32 := Scalar.addi v706 v705
  let v713 : BitVec 32 := Scalar.select v711 v712 v706
  let c64_i32_382 : BitVec 32 := 64#32
  let v714 : BitVec 32 := Scalar.muli v713 c64_i32_382
  ![0, v703.toNat, v714.toNat]
@[reducible] def k1_t10_loop : Scf.Loop 32 :=
  let c0_i32_80 : BitVec 32 := 0#32
  let c20_i32_81 : BitVec 32 := 20#32
  let v70 : BitVec 32 := Scalar.addi c0_i32_80 c20_i32_81
  let c1_i32_82 : BitVec 32 := 1#32
  ⟨c0_i32_80, v70, c1_i32_82⟩
def k1_off182 (k1_t10 : Fin k1_t10_loop.trips) (c0_i32_95 : BitVec 32) : Fin 3 → Nat :=
  let c1_i32_110 : BitVec 32 := 1#32
  let c0_i32_80 : BitVec 32 := 0#32
  let c1_i32_82 : BitVec 32 := 1#32
  let arg13 : BitVec 32 := Scf.iv c0_i32_80 c1_i32_82 k1_t10
  let c16_i32_94 : BitVec 32 := 16#32
  let v79 : BitVec 32 := Scalar.muli arg13 c16_i32_94
  let v80 : BitVec 32 := Scalar.addi v79 c0_i32_95
  let c0_i32_97 : BitVec 32 := 0#32
  let v82 : BitVec 1 := Scalar.cmpi .sgt v80 c0_i32_97
  let v83 : BitVec 32 := Scalar.extui v82
  let c0_i32_98 : BitVec 32 := 0#32
  let v84 : BitVec 1 := Scalar.cmpi .slt v80 c0_i32_98
  let v85 : BitVec 32 := Scalar.extui v84
  let v86 : BitVec 32 := Scalar.subi v83 v85
  let c20_i32_96 : BitVec 32 := 20#32
  let c0_i32_99 : BitVec 32 := 0#32
  let v87 : BitVec 1 := Scalar.cmpi .sgt c20_i32_96 c0_i32_99
  let v88 : BitVec 32 := Scalar.extui v87
  let c0_i32_100 : BitVec 32 := 0#32
  let v89 : BitVec 1 := Scalar.cmpi .slt c20_i32_96 c0_i32_100
  let v90 : BitVec 32 := Scalar.extui v89
  let v91 : BitVec 32 := Scalar.subi v88 v90
  let v92 : BitVec 1 := Scalar.cmpi .ne v86 v91
  let v93 : BitVec 32 := Scalar.remsi v80 c20_i32_96
  let c0_i32_101 : BitVec 32 := 0#32
  let v94 : BitVec 1 := Scalar.cmpi .ne v93 c0_i32_101
  let v95 : BitVec 1 := Scalar.andi v92 v94
  let v81 : BitVec 32 := Scalar.divsi v80 c20_i32_96
  let c1_i32_102 : BitVec 32 := 1#32
  let v96 : BitVec 32 := Scalar.subi v81 c1_i32_102
  let v97 : BitVec 32 := Scalar.select v95 v96 v81
  let c20_i32_103 : BitVec 32 := 20#32
  let c0_i32_104 : BitVec 32 := 0#32
  let v98 : BitVec 1 := Scalar.cmpi .eq c20_i32_103 c0_i32_104
  let c1_i32_105 : BitVec 32 := 1#32
  let v99 : BitVec 32 := Scalar.select v98 c1_i32_105 c20_i32_103
  let v100 : BitVec 32 := Scalar.remsi v80 v99
  let c0_i32_107 : BitVec 32 := 0#32
  let v102 : BitVec 1 := Scalar.cmpi .slt v100 c0_i32_107
  let c0_i32_108 : BitVec 32 := 0#32
  let v103 : BitVec 1 := Scalar.cmpi .slt v99 c0_i32_108
  let v104 : BitVec 1 := Scalar.xori v102 v103
  let c0_i32_106 : BitVec 32 := 0#32
  let v101 : BitVec 1 := Scalar.cmpi .ne v100 c0_i32_106
  let v105 : BitVec 1 := Scalar.andi v104 v101
  let v106 : BitVec 32 := Scalar.addi v100 v99
  let v107 : BitVec 32 := Scalar.select v105 v106 v100
  let c64_i32 : BitVec 32 := 64#32
  let v108 : BitVec 32 := Scalar.muli v107 c64_i32
  ![1, v97.toNat, v108.toNat]
def k1_mult4 (i : grid1.Coords) (k1_t7 : Fin k1_t7_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_0 : BitVec 32 := 512#32
  let v4 : BitVec 32 := Scalar.muli v1 c512_i32_0
  let c0_i32_45 : BitVec 32 := 0#32
  let c1_i32_46 : BitVec 32 := 1#32
  let arg12 : BitVec 32 := Scf.iv c0_i32_45 c1_i32_46 k1_t7
  let c2_i32_77 : BitVec 32 := 2#32
  let v68 : BitVec 32 := Scalar.muli arg12 c2_i32_77
  let c1_i32_78 : BitVec 32 := 1#32
  let v69 : BitVec 32 := Scalar.addi v68 c1_i32_78
  let c16_i32_84 : BitVec 32 := 16#32
  let v71 : BitVec 32 := Scalar.muli v69 c16_i32_84
  let v72 : BitVec 32 := Scalar.addi v4 v71
  v72
@[reducible] def k1_t11_loop : Scf.Loop 32 :=
  let c0_i32_90 : BitVec 32 := 0#32
  let c20_i32_91 : BitVec 32 := 20#32
  let v78 : BitVec 32 := Scalar.addi c0_i32_90 c20_i32_91
  let c1_i32_92 : BitVec 32 := 1#32
  ⟨c0_i32_90, v78, c1_i32_92⟩
def k1_off183 (k1_t11 : Fin k1_t11_loop.trips) : Fin 1 → Nat :=
  let c0_i32_90 : BitVec 32 := 0#32
  let c1_i32_92 : BitVec 32 := 1#32
  let arg13 : BitVec 32 := Scf.iv c0_i32_90 c1_i32_92 k1_t11
  let c16_i32_94 : BitVec 32 := 16#32
  let v79 : BitVec 32 := Scalar.muli arg13 c16_i32_94
  let v80 : Index := Scalar.indexCast v79
  ![v80.toNat]
def k1_off184 (k1_t11 : Fin k1_t11_loop.trips) : Fin 3 → Nat :=
  let c1_i32_110 : BitVec 32 := 1#32
  let c0_i32_90 : BitVec 32 := 0#32
  let c1_i32_92 : BitVec 32 := 1#32
  let arg13 : BitVec 32 := Scf.iv c0_i32_90 c1_i32_92 k1_t11
  let c16_i32_95 : BitVec 32 := 16#32
  let v83 : BitVec 32 := Scalar.muli arg13 c16_i32_95
  let c0_i32_96 : BitVec 32 := 0#32
  let v84 : BitVec 32 := Scalar.addi v83 c0_i32_96
  let c0_i32_98 : BitVec 32 := 0#32
  let v88 : BitVec 1 := Scalar.cmpi .sgt v84 c0_i32_98
  let v89 : BitVec 32 := Scalar.extui v88
  let c0_i32_99 : BitVec 32 := 0#32
  let v90 : BitVec 1 := Scalar.cmpi .slt v84 c0_i32_99
  let v91 : BitVec 32 := Scalar.extui v90
  let v92 : BitVec 32 := Scalar.subi v89 v91
  let c20_i32_97 : BitVec 32 := 20#32
  let c0_i32_100 : BitVec 32 := 0#32
  let v93 : BitVec 1 := Scalar.cmpi .sgt c20_i32_97 c0_i32_100
  let v94 : BitVec 32 := Scalar.extui v93
  let c0_i32_101 : BitVec 32 := 0#32
  let v95 : BitVec 1 := Scalar.cmpi .slt c20_i32_97 c0_i32_101
  let v96 : BitVec 32 := Scalar.extui v95
  let v97 : BitVec 32 := Scalar.subi v94 v96
  let v98 : BitVec 1 := Scalar.cmpi .ne v92 v97
  let v99 : BitVec 32 := Scalar.remsi v84 c20_i32_97
  let c0_i32_102 : BitVec 32 := 0#32
  let v100 : BitVec 1 := Scalar.cmpi .ne v99 c0_i32_102
  let v101 : BitVec 1 := Scalar.andi v98 v100
  let v87 : BitVec 32 := Scalar.divsi v84 c20_i32_97
  let c1_i32_103 : BitVec 32 := 1#32
  let v102 : BitVec 32 := Scalar.subi v87 c1_i32_103
  let v103 : BitVec 32 := Scalar.select v101 v102 v87
  let c20_i32_104 : BitVec 32 := 20#32
  let c0_i32_105 : BitVec 32 := 0#32
  let v104 : BitVec 1 := Scalar.cmpi .eq c20_i32_104 c0_i32_105
  let c1_i32_106 : BitVec 32 := 1#32
  let v105 : BitVec 32 := Scalar.select v104 c1_i32_106 c20_i32_104
  let v106 : BitVec 32 := Scalar.remsi v84 v105
  let c0_i32_108 : BitVec 32 := 0#32
  let v108 : BitVec 1 := Scalar.cmpi .slt v106 c0_i32_108
  let c0_i32_109 : BitVec 32 := 0#32
  let v109 : BitVec 1 := Scalar.cmpi .slt v105 c0_i32_109
  let v110 : BitVec 1 := Scalar.xori v108 v109
  let c0_i32_107 : BitVec 32 := 0#32
  let v107 : BitVec 1 := Scalar.cmpi .ne v106 c0_i32_107
  let v111 : BitVec 1 := Scalar.andi v110 v107
  let v112 : BitVec 32 := Scalar.addi v106 v105
  let v113 : BitVec 32 := Scalar.select v111 v112 v106
  let c64_i32 : BitVec 32 := 64#32
  let v114 : BitVec 32 := Scalar.muli v113 c64_i32
  ![1, v103.toNat, v114.toNat]
def k1_off185 (v86 : BitVec 32) : Fin 2 → Nat :=
  let c0_i32_111 : BitVec 32 := 0#32
  ![v86.toNat, 0]

def k1_chk81 (v86 : BitVec 32) : Prop :=
  (∀ a, (k1_off185 v86) a + S1x64.size a ≤ S1000000x64.size a)
instance k1_chk81.dec : ∀ (v86 : BitVec 32), Decidable (k1_chk81 v86) := fun v86 => decidable_of_iff' _ (Iff.of_eq (k1_chk81.eq_1 v86))
theorem k1_off185_inb : ∀ (v86 : BitVec 32) (k1_hw81 : k1_chk81 v86), ∀ a, (k1_off185 v86) a + S1x64.size a ≤ S1000000x64.size a := fun v86 k1_hw81 => k1_hw81

def k1_off186 (k1_t11 : Fin k1_t11_loop.trips) (c0_i32_96 : BitVec 32) : Fin 3 → Nat :=
  let c1_i32_110 : BitVec 32 := 1#32
  let c0_i32_90 : BitVec 32 := 0#32
  let c1_i32_92 : BitVec 32 := 1#32
  let arg13 : BitVec 32 := Scf.iv c0_i32_90 c1_i32_92 k1_t11
  let c16_i32_95 : BitVec 32 := 16#32
  let v83 : BitVec 32 := Scalar.muli arg13 c16_i32_95
  let v84 : BitVec 32 := Scalar.addi v83 c0_i32_96
  let c0_i32_98 : BitVec 32 := 0#32
  let v88 : BitVec 1 := Scalar.cmpi .sgt v84 c0_i32_98
  let v89 : BitVec 32 := Scalar.extui v88
  let c0_i32_99 : BitVec 32 := 0#32
  let v90 : BitVec 1 := Scalar.cmpi .slt v84 c0_i32_99
  let v91 : BitVec 32 := Scalar.extui v90
  let v92 : BitVec 32 := Scalar.subi v89 v91
  let c20_i32_97 : BitVec 32 := 20#32
  let c0_i32_100 : BitVec 32 := 0#32
  let v93 : BitVec 1 := Scalar.cmpi .sgt c20_i32_97 c0_i32_100
  let v94 : BitVec 32 := Scalar.extui v93
  let c0_i32_101 : BitVec 32 := 0#32
  let v95 : BitVec 1 := Scalar.cmpi .slt c20_i32_97 c0_i32_101
  let v96 : BitVec 32 := Scalar.extui v95
  let v97 : BitVec 32 := Scalar.subi v94 v96
  let v98 : BitVec 1 := Scalar.cmpi .ne v92 v97
  let v99 : BitVec 32 := Scalar.remsi v84 c20_i32_97
  let c0_i32_102 : BitVec 32 := 0#32
  let v100 : BitVec 1 := Scalar.cmpi .ne v99 c0_i32_102
  let v101 : BitVec 1 := Scalar.andi v98 v100
  let v87 : BitVec 32 := Scalar.divsi v84 c20_i32_97
  let c1_i32_103 : BitVec 32 := 1#32
  let v102 : BitVec 32 := Scalar.subi v87 c1_i32_103
  let v103 : BitVec 32 := Scalar.select v101 v102 v87
  let c20_i32_104 : BitVec 32 := 20#32
  let c0_i32_105 : BitVec 32 := 0#32
  let v104 : BitVec 1 := Scalar.cmpi .eq c20_i32_104 c0_i32_105
  let c1_i32_106 : BitVec 32 := 1#32
  let v105 : BitVec 32 := Scalar.select v104 c1_i32_106 c20_i32_104
  let v106 : BitVec 32 := Scalar.remsi v84 v105
  let c0_i32_108 : BitVec 32 := 0#32
  let v108 : BitVec 1 := Scalar.cmpi .slt v106 c0_i32_108
  let c0_i32_109 : BitVec 32 := 0#32
  let v109 : BitVec 1 := Scalar.cmpi .slt v105 c0_i32_109
  let v110 : BitVec 1 := Scalar.xori v108 v109
  let c0_i32_107 : BitVec 32 := 0#32
  let v107 : BitVec 1 := Scalar.cmpi .ne v106 c0_i32_107
  let v111 : BitVec 1 := Scalar.andi v110 v107
  let v112 : BitVec 32 := Scalar.addi v106 v105
  let v113 : BitVec 32 := Scalar.select v111 v112 v106
  let c64_i32 : BitVec 32 := 64#32
  let v114 : BitVec 32 := Scalar.muli v113 c64_i32
  ![1, v103.toNat, v114.toNat]
def k1_off187 (v126 : BitVec 32) : Fin 2 → Nat :=
  let c0_i32_130 : BitVec 32 := 0#32
  ![v126.toNat, 0]

def k1_chk82 (v126 : BitVec 32) : Prop :=
  (∀ a, (k1_off187 v126) a + S1x64.size a ≤ S1000000x64.size a)
instance k1_chk82.dec : ∀ (v126 : BitVec 32), Decidable (k1_chk82 v126) := fun v126 => decidable_of_iff' _ (Iff.of_eq (k1_chk82.eq_1 v126))
theorem k1_off187_inb : ∀ (v126 : BitVec 32) (k1_hw82 : k1_chk82 v126), ∀ a, (k1_off187 v126) a + S1x64.size a ≤ S1000000x64.size a := fun v126 k1_hw82 => k1_hw82

def k1_off188 (k1_t11 : Fin k1_t11_loop.trips) (c1_i32_114 : BitVec 32) : Fin 3 → Nat :=
  let c1_i32_129 : BitVec 32 := 1#32
  let c0_i32_90 : BitVec 32 := 0#32
  let c1_i32_92 : BitVec 32 := 1#32
  let arg13 : BitVec 32 := Scf.iv c0_i32_90 c1_i32_92 k1_t11
  let c16_i32_113 : BitVec 32 := 16#32
  let v123 : BitVec 32 := Scalar.muli arg13 c16_i32_113
  let v124 : BitVec 32 := Scalar.addi v123 c1_i32_114
  let c0_i32_116 : BitVec 32 := 0#32
  let v128 : BitVec 1 := Scalar.cmpi .sgt v124 c0_i32_116
  let v129 : BitVec 32 := Scalar.extui v128
  let c0_i32_117 : BitVec 32 := 0#32
  let v130 : BitVec 1 := Scalar.cmpi .slt v124 c0_i32_117
  let v131 : BitVec 32 := Scalar.extui v130
  let v132 : BitVec 32 := Scalar.subi v129 v131
  let c20_i32_115 : BitVec 32 := 20#32
  let c0_i32_118 : BitVec 32 := 0#32
  let v133 : BitVec 1 := Scalar.cmpi .sgt c20_i32_115 c0_i32_118
  let v134 : BitVec 32 := Scalar.extui v133
  let c0_i32_119 : BitVec 32 := 0#32
  let v135 : BitVec 1 := Scalar.cmpi .slt c20_i32_115 c0_i32_119
  let v136 : BitVec 32 := Scalar.extui v135
  let v137 : BitVec 32 := Scalar.subi v134 v136
  let v138 : BitVec 1 := Scalar.cmpi .ne v132 v137
  let v139 : BitVec 32 := Scalar.remsi v124 c20_i32_115
  let c0_i32_120 : BitVec 32 := 0#32
  let v140 : BitVec 1 := Scalar.cmpi .ne v139 c0_i32_120
  let v141 : BitVec 1 := Scalar.andi v138 v140
  let v127 : BitVec 32 := Scalar.divsi v124 c20_i32_115
  let c1_i32_121 : BitVec 32 := 1#32
  let v142 : BitVec 32 := Scalar.subi v127 c1_i32_121
  let v143 : BitVec 32 := Scalar.select v141 v142 v127
  let c20_i32_122 : BitVec 32 := 20#32
  let c0_i32_123 : BitVec 32 := 0#32
  let v144 : BitVec 1 := Scalar.cmpi .eq c20_i32_122 c0_i32_123
  let c1_i32_124 : BitVec 32 := 1#32
  let v145 : BitVec 32 := Scalar.select v144 c1_i32_124 c20_i32_122
  let v146 : BitVec 32 := Scalar.remsi v124 v145
  let c0_i32_126 : BitVec 32 := 0#32
  let v148 : BitVec 1 := Scalar.cmpi .slt v146 c0_i32_126
  let c0_i32_127 : BitVec 32 := 0#32
  let v149 : BitVec 1 := Scalar.cmpi .slt v145 c0_i32_127
  let v150 : BitVec 1 := Scalar.xori v148 v149
  let c0_i32_125 : BitVec 32 := 0#32
  let v147 : BitVec 1 := Scalar.cmpi .ne v146 c0_i32_125
  let v151 : BitVec 1 := Scalar.andi v150 v147
  let v152 : BitVec 32 := Scalar.addi v146 v145
  let v153 : BitVec 32 := Scalar.select v151 v152 v146
  let c64_i32_128 : BitVec 32 := 64#32
  let v154 : BitVec 32 := Scalar.muli v153 c64_i32_128
  ![1, v143.toNat, v154.toNat]
def k1_off189 (v166 : BitVec 32) : Fin 2 → Nat :=
  let c0_i32_149 : BitVec 32 := 0#32
  ![v166.toNat, 0]

def k1_chk83 (v166 : BitVec 32) : Prop :=
  (∀ a, (k1_off189 v166) a + S1x64.size a ≤ S1000000x64.size a)
instance k1_chk83.dec : ∀ (v166 : BitVec 32), Decidable (k1_chk83 v166) := fun v166 => decidable_of_iff' _ (Iff.of_eq (k1_chk83.eq_1 v166))
theorem k1_off189_inb : ∀ (v166 : BitVec 32) (k1_hw83 : k1_chk83 v166), ∀ a, (k1_off189 v166) a + S1x64.size a ≤ S1000000x64.size a := fun v166 k1_hw83 => k1_hw83

def k1_off190 (k1_t11 : Fin k1_t11_loop.trips) (c2_i32_133 : BitVec 32) : Fin 3 → Nat :=
  let c1_i32_148 : BitVec 32 := 1#32
  let c0_i32_90 : BitVec 32 := 0#32
  let c1_i32_92 : BitVec 32 := 1#32
  let arg13 : BitVec 32 := Scf.iv c0_i32_90 c1_i32_92 k1_t11
  let c16_i32_132 : BitVec 32 := 16#32
  let v163 : BitVec 32 := Scalar.muli arg13 c16_i32_132
  let v164 : BitVec 32 := Scalar.addi v163 c2_i32_133
  let c0_i32_135 : BitVec 32 := 0#32
  let v168 : BitVec 1 := Scalar.cmpi .sgt v164 c0_i32_135
  let v169 : BitVec 32 := Scalar.extui v168
  let c0_i32_136 : BitVec 32 := 0#32
  let v170 : BitVec 1 := Scalar.cmpi .slt v164 c0_i32_136
  let v171 : BitVec 32 := Scalar.extui v170
  let v172 : BitVec 32 := Scalar.subi v169 v171
  let c20_i32_134 : BitVec 32 := 20#32
  let c0_i32_137 : BitVec 32 := 0#32
  let v173 : BitVec 1 := Scalar.cmpi .sgt c20_i32_134 c0_i32_137
  let v174 : BitVec 32 := Scalar.extui v173
  let c0_i32_138 : BitVec 32 := 0#32
  let v175 : BitVec 1 := Scalar.cmpi .slt c20_i32_134 c0_i32_138
  let v176 : BitVec 32 := Scalar.extui v175
  let v177 : BitVec 32 := Scalar.subi v174 v176
  let v178 : BitVec 1 := Scalar.cmpi .ne v172 v177
  let v179 : BitVec 32 := Scalar.remsi v164 c20_i32_134
  let c0_i32_139 : BitVec 32 := 0#32
  let v180 : BitVec 1 := Scalar.cmpi .ne v179 c0_i32_139
  let v181 : BitVec 1 := Scalar.andi v178 v180
  let v167 : BitVec 32 := Scalar.divsi v164 c20_i32_134
  let c1_i32_140 : BitVec 32 := 1#32
  let v182 : BitVec 32 := Scalar.subi v167 c1_i32_140
  let v183 : BitVec 32 := Scalar.select v181 v182 v167
  let c20_i32_141 : BitVec 32 := 20#32
  let c0_i32_142 : BitVec 32 := 0#32
  let v184 : BitVec 1 := Scalar.cmpi .eq c20_i32_141 c0_i32_142
  let c1_i32_143 : BitVec 32 := 1#32
  let v185 : BitVec 32 := Scalar.select v184 c1_i32_143 c20_i32_141
  let v186 : BitVec 32 := Scalar.remsi v164 v185
  let c0_i32_145 : BitVec 32 := 0#32
  let v188 : BitVec 1 := Scalar.cmpi .slt v186 c0_i32_145
  let c0_i32_146 : BitVec 32 := 0#32
  let v189 : BitVec 1 := Scalar.cmpi .slt v185 c0_i32_146
  let v190 : BitVec 1 := Scalar.xori v188 v189
  let c0_i32_144 : BitVec 32 := 0#32
  let v187 : BitVec 1 := Scalar.cmpi .ne v186 c0_i32_144
  let v191 : BitVec 1 := Scalar.andi v190 v187
  let v192 : BitVec 32 := Scalar.addi v186 v185
  let v193 : BitVec 32 := Scalar.select v191 v192 v186
  let c64_i32_147 : BitVec 32 := 64#32
  let v194 : BitVec 32 := Scalar.muli v193 c64_i32_147
  ![1, v183.toNat, v194.toNat]
def k1_off191 (v206 : BitVec 32) : Fin 2 → Nat :=
  let c0_i32_167 : BitVec 32 := 0#32
  ![v206.toNat, 0]

def k1_chk84 (v206 : BitVec 32) : Prop :=
  (∀ a, (k1_off191 v206) a + S1x64.size a ≤ S1000000x64.size a)
instance k1_chk84.dec : ∀ (v206 : BitVec 32), Decidable (k1_chk84 v206) := fun v206 => decidable_of_iff' _ (Iff.of_eq (k1_chk84.eq_1 v206))
theorem k1_off191_inb : ∀ (v206 : BitVec 32) (k1_hw84 : k1_chk84 v206), ∀ a, (k1_off191 v206) a + S1x64.size a ≤ S1000000x64.size a := fun v206 k1_hw84 => k1_hw84

def k1_off192 (k1_t11 : Fin k1_t11_loop.trips) (c3_i32 : BitVec 32) : Fin 3 → Nat :=
  let c1_i32_166 : BitVec 32 := 1#32
  let c0_i32_90 : BitVec 32 := 0#32
  let c1_i32_92 : BitVec 32 := 1#32
  let arg13 : BitVec 32 := Scf.iv c0_i32_90 c1_i32_92 k1_t11
  let c16_i32_151 : BitVec 32 := 16#32
  let v203 : BitVec 32 := Scalar.muli arg13 c16_i32_151
  let v204 : BitVec 32 := Scalar.addi v203 c3_i32
  let c0_i32_153 : BitVec 32 := 0#32
  let v208 : BitVec 1 := Scalar.cmpi .sgt v204 c0_i32_153
  let v209 : BitVec 32 := Scalar.extui v208
  let c0_i32_154 : BitVec 32 := 0#32
  let v210 : BitVec 1 := Scalar.cmpi .slt v204 c0_i32_154
  let v211 : BitVec 32 := Scalar.extui v210
  let v212 : BitVec 32 := Scalar.subi v209 v211
  let c20_i32_152 : BitVec 32 := 20#32
  let c0_i32_155 : BitVec 32 := 0#32
  let v213 : BitVec 1 := Scalar.cmpi .sgt c20_i32_152 c0_i32_155
  let v214 : BitVec 32 := Scalar.extui v213
  let c0_i32_156 : BitVec 32 := 0#32
  let v215 : BitVec 1 := Scalar.cmpi .slt c20_i32_152 c0_i32_156
  let v216 : BitVec 32 := Scalar.extui v215
  let v217 : BitVec 32 := Scalar.subi v214 v216
  let v218 : BitVec 1 := Scalar.cmpi .ne v212 v217
  let v219 : BitVec 32 := Scalar.remsi v204 c20_i32_152
  let c0_i32_157 : BitVec 32 := 0#32
  let v220 : BitVec 1 := Scalar.cmpi .ne v219 c0_i32_157
  let v221 : BitVec 1 := Scalar.andi v218 v220
  let v207 : BitVec 32 := Scalar.divsi v204 c20_i32_152
  let c1_i32_158 : BitVec 32 := 1#32
  let v222 : BitVec 32 := Scalar.subi v207 c1_i32_158
  let v223 : BitVec 32 := Scalar.select v221 v222 v207
  let c20_i32_159 : BitVec 32 := 20#32
  let c0_i32_160 : BitVec 32 := 0#32
  let v224 : BitVec 1 := Scalar.cmpi .eq c20_i32_159 c0_i32_160
  let c1_i32_161 : BitVec 32 := 1#32
  let v225 : BitVec 32 := Scalar.select v224 c1_i32_161 c20_i32_159
  let v226 : BitVec 32 := Scalar.remsi v204 v225
  let c0_i32_163 : BitVec 32 := 0#32
  let v228 : BitVec 1 := Scalar.cmpi .slt v226 c0_i32_163
  let c0_i32_164 : BitVec 32 := 0#32
  let v229 : BitVec 1 := Scalar.cmpi .slt v225 c0_i32_164
  let v230 : BitVec 1 := Scalar.xori v228 v229
  let c0_i32_162 : BitVec 32 := 0#32
  let v227 : BitVec 1 := Scalar.cmpi .ne v226 c0_i32_162
  let v231 : BitVec 1 := Scalar.andi v230 v227
  let v232 : BitVec 32 := Scalar.addi v226 v225
  let v233 : BitVec 32 := Scalar.select v231 v232 v226
  let c64_i32_165 : BitVec 32 := 64#32
  let v234 : BitVec 32 := Scalar.muli v233 c64_i32_165
  ![1, v223.toNat, v234.toNat]
def k1_off193 (v246 : BitVec 32) : Fin 2 → Nat :=
  let c0_i32_185 : BitVec 32 := 0#32
  ![v246.toNat, 0]

def k1_chk85 (v246 : BitVec 32) : Prop :=
  (∀ a, (k1_off193 v246) a + S1x64.size a ≤ S1000000x64.size a)
instance k1_chk85.dec : ∀ (v246 : BitVec 32), Decidable (k1_chk85 v246) := fun v246 => decidable_of_iff' _ (Iff.of_eq (k1_chk85.eq_1 v246))
theorem k1_off193_inb : ∀ (v246 : BitVec 32) (k1_hw85 : k1_chk85 v246), ∀ a, (k1_off193 v246) a + S1x64.size a ≤ S1000000x64.size a := fun v246 k1_hw85 => k1_hw85

def k1_off194 (k1_t11 : Fin k1_t11_loop.trips) (c4_i32 : BitVec 32) : Fin 3 → Nat :=
  let c1_i32_184 : BitVec 32 := 1#32
  let c0_i32_90 : BitVec 32 := 0#32
  let c1_i32_92 : BitVec 32 := 1#32
  let arg13 : BitVec 32 := Scf.iv c0_i32_90 c1_i32_92 k1_t11
  let c16_i32_169 : BitVec 32 := 16#32
  let v243 : BitVec 32 := Scalar.muli arg13 c16_i32_169
  let v244 : BitVec 32 := Scalar.addi v243 c4_i32
  let c0_i32_171 : BitVec 32 := 0#32
  let v248 : BitVec 1 := Scalar.cmpi .sgt v244 c0_i32_171
  let v249 : BitVec 32 := Scalar.extui v248
  let c0_i32_172 : BitVec 32 := 0#32
  let v250 : BitVec 1 := Scalar.cmpi .slt v244 c0_i32_172
  let v251 : BitVec 32 := Scalar.extui v250
  let v252 : BitVec 32 := Scalar.subi v249 v251
  let c20_i32_170 : BitVec 32 := 20#32
  let c0_i32_173 : BitVec 32 := 0#32
  let v253 : BitVec 1 := Scalar.cmpi .sgt c20_i32_170 c0_i32_173
  let v254 : BitVec 32 := Scalar.extui v253
  let c0_i32_174 : BitVec 32 := 0#32
  let v255 : BitVec 1 := Scalar.cmpi .slt c20_i32_170 c0_i32_174
  let v256 : BitVec 32 := Scalar.extui v255
  let v257 : BitVec 32 := Scalar.subi v254 v256
  let v258 : BitVec 1 := Scalar.cmpi .ne v252 v257
  let v259 : BitVec 32 := Scalar.remsi v244 c20_i32_170
  let c0_i32_175 : BitVec 32 := 0#32
  let v260 : BitVec 1 := Scalar.cmpi .ne v259 c0_i32_175
  let v261 : BitVec 1 := Scalar.andi v258 v260
  let v247 : BitVec 32 := Scalar.divsi v244 c20_i32_170
  let c1_i32_176 : BitVec 32 := 1#32
  let v262 : BitVec 32 := Scalar.subi v247 c1_i32_176
  let v263 : BitVec 32 := Scalar.select v261 v262 v247
  let c20_i32_177 : BitVec 32 := 20#32
  let c0_i32_178 : BitVec 32 := 0#32
  let v264 : BitVec 1 := Scalar.cmpi .eq c20_i32_177 c0_i32_178
  let c1_i32_179 : BitVec 32 := 1#32
  let v265 : BitVec 32 := Scalar.select v264 c1_i32_179 c20_i32_177
  let v266 : BitVec 32 := Scalar.remsi v244 v265
  let c0_i32_181 : BitVec 32 := 0#32
  let v268 : BitVec 1 := Scalar.cmpi .slt v266 c0_i32_181
  let c0_i32_182 : BitVec 32 := 0#32
  let v269 : BitVec 1 := Scalar.cmpi .slt v265 c0_i32_182
  let v270 : BitVec 1 := Scalar.xori v268 v269
  let c0_i32_180 : BitVec 32 := 0#32
  let v267 : BitVec 1 := Scalar.cmpi .ne v266 c0_i32_180
  let v271 : BitVec 1 := Scalar.andi v270 v267
  let v272 : BitVec 32 := Scalar.addi v266 v265
  let v273 : BitVec 32 := Scalar.select v271 v272 v266
  let c64_i32_183 : BitVec 32 := 64#32
  let v274 : BitVec 32 := Scalar.muli v273 c64_i32_183
  ![1, v263.toNat, v274.toNat]
def k1_off195 (v286 : BitVec 32) : Fin 2 → Nat :=
  let c0_i32_203 : BitVec 32 := 0#32
  ![v286.toNat, 0]

def k1_chk86 (v286 : BitVec 32) : Prop :=
  (∀ a, (k1_off195 v286) a + S1x64.size a ≤ S1000000x64.size a)
instance k1_chk86.dec : ∀ (v286 : BitVec 32), Decidable (k1_chk86 v286) := fun v286 => decidable_of_iff' _ (Iff.of_eq (k1_chk86.eq_1 v286))
theorem k1_off195_inb : ∀ (v286 : BitVec 32) (k1_hw86 : k1_chk86 v286), ∀ a, (k1_off195 v286) a + S1x64.size a ≤ S1000000x64.size a := fun v286 k1_hw86 => k1_hw86

def k1_off196 (k1_t11 : Fin k1_t11_loop.trips) (c5_i32 : BitVec 32) : Fin 3 → Nat :=
  let c1_i32_202 : BitVec 32 := 1#32
  let c0_i32_90 : BitVec 32 := 0#32
  let c1_i32_92 : BitVec 32 := 1#32
  let arg13 : BitVec 32 := Scf.iv c0_i32_90 c1_i32_92 k1_t11
  let c16_i32_187 : BitVec 32 := 16#32
  let v283 : BitVec 32 := Scalar.muli arg13 c16_i32_187
  let v284 : BitVec 32 := Scalar.addi v283 c5_i32
  let c0_i32_189 : BitVec 32 := 0#32
  let v288 : BitVec 1 := Scalar.cmpi .sgt v284 c0_i32_189
  let v289 : BitVec 32 := Scalar.extui v288
  let c0_i32_190 : BitVec 32 := 0#32
  let v290 : BitVec 1 := Scalar.cmpi .slt v284 c0_i32_190
  let v291 : BitVec 32 := Scalar.extui v290
  let v292 : BitVec 32 := Scalar.subi v289 v291
  let c20_i32_188 : BitVec 32 := 20#32
  let c0_i32_191 : BitVec 32 := 0#32
  let v293 : BitVec 1 := Scalar.cmpi .sgt c20_i32_188 c0_i32_191
  let v294 : BitVec 32 := Scalar.extui v293
  let c0_i32_192 : BitVec 32 := 0#32
  let v295 : BitVec 1 := Scalar.cmpi .slt c20_i32_188 c0_i32_192
  let v296 : BitVec 32 := Scalar.extui v295
  let v297 : BitVec 32 := Scalar.subi v294 v296
  let v298 : BitVec 1 := Scalar.cmpi .ne v292 v297
  let v299 : BitVec 32 := Scalar.remsi v284 c20_i32_188
  let c0_i32_193 : BitVec 32 := 0#32
  let v300 : BitVec 1 := Scalar.cmpi .ne v299 c0_i32_193
  let v301 : BitVec 1 := Scalar.andi v298 v300
  let v287 : BitVec 32 := Scalar.divsi v284 c20_i32_188
  let c1_i32_194 : BitVec 32 := 1#32
  let v302 : BitVec 32 := Scalar.subi v287 c1_i32_194
  let v303 : BitVec 32 := Scalar.select v301 v302 v287
  let c20_i32_195 : BitVec 32 := 20#32
  let c0_i32_196 : BitVec 32 := 0#32
  let v304 : BitVec 1 := Scalar.cmpi .eq c20_i32_195 c0_i32_196
  let c1_i32_197 : BitVec 32 := 1#32
  let v305 : BitVec 32 := Scalar.select v304 c1_i32_197 c20_i32_195
  let v306 : BitVec 32 := Scalar.remsi v284 v305
  let c0_i32_199 : BitVec 32 := 0#32
  let v308 : BitVec 1 := Scalar.cmpi .slt v306 c0_i32_199
  let c0_i32_200 : BitVec 32 := 0#32
  let v309 : BitVec 1 := Scalar.cmpi .slt v305 c0_i32_200
  let v310 : BitVec 1 := Scalar.xori v308 v309
  let c0_i32_198 : BitVec 32 := 0#32
  let v307 : BitVec 1 := Scalar.cmpi .ne v306 c0_i32_198
  let v311 : BitVec 1 := Scalar.andi v310 v307
  let v312 : BitVec 32 := Scalar.addi v306 v305
  let v313 : BitVec 32 := Scalar.select v311 v312 v306
  let c64_i32_201 : BitVec 32 := 64#32
  let v314 : BitVec 32 := Scalar.muli v313 c64_i32_201
  ![1, v303.toNat, v314.toNat]
def k1_off197 (v326 : BitVec 32) : Fin 2 → Nat :=
  let c0_i32_221 : BitVec 32 := 0#32
  ![v326.toNat, 0]

def k1_chk87 (v326 : BitVec 32) : Prop :=
  (∀ a, (k1_off197 v326) a + S1x64.size a ≤ S1000000x64.size a)
instance k1_chk87.dec : ∀ (v326 : BitVec 32), Decidable (k1_chk87 v326) := fun v326 => decidable_of_iff' _ (Iff.of_eq (k1_chk87.eq_1 v326))
theorem k1_off197_inb : ∀ (v326 : BitVec 32) (k1_hw87 : k1_chk87 v326), ∀ a, (k1_off197 v326) a + S1x64.size a ≤ S1000000x64.size a := fun v326 k1_hw87 => k1_hw87

def k1_off198 (k1_t11 : Fin k1_t11_loop.trips) (c6_i32 : BitVec 32) : Fin 3 → Nat :=
  let c1_i32_220 : BitVec 32 := 1#32
  let c0_i32_90 : BitVec 32 := 0#32
  let c1_i32_92 : BitVec 32 := 1#32
  let arg13 : BitVec 32 := Scf.iv c0_i32_90 c1_i32_92 k1_t11
  let c16_i32_205 : BitVec 32 := 16#32
  let v323 : BitVec 32 := Scalar.muli arg13 c16_i32_205
  let v324 : BitVec 32 := Scalar.addi v323 c6_i32
  let c0_i32_207 : BitVec 32 := 0#32
  let v328 : BitVec 1 := Scalar.cmpi .sgt v324 c0_i32_207
  let v329 : BitVec 32 := Scalar.extui v328
  let c0_i32_208 : BitVec 32 := 0#32
  let v330 : BitVec 1 := Scalar.cmpi .slt v324 c0_i32_208
  let v331 : BitVec 32 := Scalar.extui v330
  let v332 : BitVec 32 := Scalar.subi v329 v331
  let c20_i32_206 : BitVec 32 := 20#32
  let c0_i32_209 : BitVec 32 := 0#32
  let v333 : BitVec 1 := Scalar.cmpi .sgt c20_i32_206 c0_i32_209
  let v334 : BitVec 32 := Scalar.extui v333
  let c0_i32_210 : BitVec 32 := 0#32
  let v335 : BitVec 1 := Scalar.cmpi .slt c20_i32_206 c0_i32_210
  let v336 : BitVec 32 := Scalar.extui v335
  let v337 : BitVec 32 := Scalar.subi v334 v336
  let v338 : BitVec 1 := Scalar.cmpi .ne v332 v337
  let v339 : BitVec 32 := Scalar.remsi v324 c20_i32_206
  let c0_i32_211 : BitVec 32 := 0#32
  let v340 : BitVec 1 := Scalar.cmpi .ne v339 c0_i32_211
  let v341 : BitVec 1 := Scalar.andi v338 v340
  let v327 : BitVec 32 := Scalar.divsi v324 c20_i32_206
  let c1_i32_212 : BitVec 32 := 1#32
  let v342 : BitVec 32 := Scalar.subi v327 c1_i32_212
  let v343 : BitVec 32 := Scalar.select v341 v342 v327
  let c20_i32_213 : BitVec 32 := 20#32
  let c0_i32_214 : BitVec 32 := 0#32
  let v344 : BitVec 1 := Scalar.cmpi .eq c20_i32_213 c0_i32_214
  let c1_i32_215 : BitVec 32 := 1#32
  let v345 : BitVec 32 := Scalar.select v344 c1_i32_215 c20_i32_213
  let v346 : BitVec 32 := Scalar.remsi v324 v345
  let c0_i32_217 : BitVec 32 := 0#32
  let v348 : BitVec 1 := Scalar.cmpi .slt v346 c0_i32_217
  let c0_i32_218 : BitVec 32 := 0#32
  let v349 : BitVec 1 := Scalar.cmpi .slt v345 c0_i32_218
  let v350 : BitVec 1 := Scalar.xori v348 v349
  let c0_i32_216 : BitVec 32 := 0#32
  let v347 : BitVec 1 := Scalar.cmpi .ne v346 c0_i32_216
  let v351 : BitVec 1 := Scalar.andi v350 v347
  let v352 : BitVec 32 := Scalar.addi v346 v345
  let v353 : BitVec 32 := Scalar.select v351 v352 v346
  let c64_i32_219 : BitVec 32 := 64#32
  let v354 : BitVec 32 := Scalar.muli v353 c64_i32_219
  ![1, v343.toNat, v354.toNat]
def k1_off199 (v366 : BitVec 32) : Fin 2 → Nat :=
  let c0_i32_239 : BitVec 32 := 0#32
  ![v366.toNat, 0]

def k1_chk88 (v366 : BitVec 32) : Prop :=
  (∀ a, (k1_off199 v366) a + S1x64.size a ≤ S1000000x64.size a)
instance k1_chk88.dec : ∀ (v366 : BitVec 32), Decidable (k1_chk88 v366) := fun v366 => decidable_of_iff' _ (Iff.of_eq (k1_chk88.eq_1 v366))
theorem k1_off199_inb : ∀ (v366 : BitVec 32) (k1_hw88 : k1_chk88 v366), ∀ a, (k1_off199 v366) a + S1x64.size a ≤ S1000000x64.size a := fun v366 k1_hw88 => k1_hw88

def k1_off200 (k1_t11 : Fin k1_t11_loop.trips) (c7_i32 : BitVec 32) : Fin 3 → Nat :=
  let c1_i32_238 : BitVec 32 := 1#32
  let c0_i32_90 : BitVec 32 := 0#32
  let c1_i32_92 : BitVec 32 := 1#32
  let arg13 : BitVec 32 := Scf.iv c0_i32_90 c1_i32_92 k1_t11
  let c16_i32_223 : BitVec 32 := 16#32
  let v363 : BitVec 32 := Scalar.muli arg13 c16_i32_223
  let v364 : BitVec 32 := Scalar.addi v363 c7_i32
  let c0_i32_225 : BitVec 32 := 0#32
  let v368 : BitVec 1 := Scalar.cmpi .sgt v364 c0_i32_225
  let v369 : BitVec 32 := Scalar.extui v368
  let c0_i32_226 : BitVec 32 := 0#32
  let v370 : BitVec 1 := Scalar.cmpi .slt v364 c0_i32_226
  let v371 : BitVec 32 := Scalar.extui v370
  let v372 : BitVec 32 := Scalar.subi v369 v371
  let c20_i32_224 : BitVec 32 := 20#32
  let c0_i32_227 : BitVec 32 := 0#32
  let v373 : BitVec 1 := Scalar.cmpi .sgt c20_i32_224 c0_i32_227
  let v374 : BitVec 32 := Scalar.extui v373
  let c0_i32_228 : BitVec 32 := 0#32
  let v375 : BitVec 1 := Scalar.cmpi .slt c20_i32_224 c0_i32_228
  let v376 : BitVec 32 := Scalar.extui v375
  let v377 : BitVec 32 := Scalar.subi v374 v376
  let v378 : BitVec 1 := Scalar.cmpi .ne v372 v377
  let v379 : BitVec 32 := Scalar.remsi v364 c20_i32_224
  let c0_i32_229 : BitVec 32 := 0#32
  let v380 : BitVec 1 := Scalar.cmpi .ne v379 c0_i32_229
  let v381 : BitVec 1 := Scalar.andi v378 v380
  let v367 : BitVec 32 := Scalar.divsi v364 c20_i32_224
  let c1_i32_230 : BitVec 32 := 1#32
  let v382 : BitVec 32 := Scalar.subi v367 c1_i32_230
  let v383 : BitVec 32 := Scalar.select v381 v382 v367
  let c20_i32_231 : BitVec 32 := 20#32
  let c0_i32_232 : BitVec 32 := 0#32
  let v384 : BitVec 1 := Scalar.cmpi .eq c20_i32_231 c0_i32_232
  let c1_i32_233 : BitVec 32 := 1#32
  let v385 : BitVec 32 := Scalar.select v384 c1_i32_233 c20_i32_231
  let v386 : BitVec 32 := Scalar.remsi v364 v385
  let c0_i32_235 : BitVec 32 := 0#32
  let v388 : BitVec 1 := Scalar.cmpi .slt v386 c0_i32_235
  let c0_i32_236 : BitVec 32 := 0#32
  let v389 : BitVec 1 := Scalar.cmpi .slt v385 c0_i32_236
  let v390 : BitVec 1 := Scalar.xori v388 v389
  let c0_i32_234 : BitVec 32 := 0#32
  let v387 : BitVec 1 := Scalar.cmpi .ne v386 c0_i32_234
  let v391 : BitVec 1 := Scalar.andi v390 v387
  let v392 : BitVec 32 := Scalar.addi v386 v385
  let v393 : BitVec 32 := Scalar.select v391 v392 v386
  let c64_i32_237 : BitVec 32 := 64#32
  let v394 : BitVec 32 := Scalar.muli v393 c64_i32_237
  ![1, v383.toNat, v394.toNat]
def k1_off201 (v406 : BitVec 32) : Fin 2 → Nat :=
  let c0_i32_257 : BitVec 32 := 0#32
  ![v406.toNat, 0]

def k1_chk89 (v406 : BitVec 32) : Prop :=
  (∀ a, (k1_off201 v406) a + S1x64.size a ≤ S1000000x64.size a)
instance k1_chk89.dec : ∀ (v406 : BitVec 32), Decidable (k1_chk89 v406) := fun v406 => decidable_of_iff' _ (Iff.of_eq (k1_chk89.eq_1 v406))
theorem k1_off201_inb : ∀ (v406 : BitVec 32) (k1_hw89 : k1_chk89 v406), ∀ a, (k1_off201 v406) a + S1x64.size a ≤ S1000000x64.size a := fun v406 k1_hw89 => k1_hw89

def k1_off202 (k1_t11 : Fin k1_t11_loop.trips) (c8_i32 : BitVec 32) : Fin 3 → Nat :=
  let c1_i32_256 : BitVec 32 := 1#32
  let c0_i32_90 : BitVec 32 := 0#32
  let c1_i32_92 : BitVec 32 := 1#32
  let arg13 : BitVec 32 := Scf.iv c0_i32_90 c1_i32_92 k1_t11
  let c16_i32_241 : BitVec 32 := 16#32
  let v403 : BitVec 32 := Scalar.muli arg13 c16_i32_241
  let v404 : BitVec 32 := Scalar.addi v403 c8_i32
  let c0_i32_243 : BitVec 32 := 0#32
  let v408 : BitVec 1 := Scalar.cmpi .sgt v404 c0_i32_243
  let v409 : BitVec 32 := Scalar.extui v408
  let c0_i32_244 : BitVec 32 := 0#32
  let v410 : BitVec 1 := Scalar.cmpi .slt v404 c0_i32_244
  let v411 : BitVec 32 := Scalar.extui v410
  let v412 : BitVec 32 := Scalar.subi v409 v411
  let c20_i32_242 : BitVec 32 := 20#32
  let c0_i32_245 : BitVec 32 := 0#32
  let v413 : BitVec 1 := Scalar.cmpi .sgt c20_i32_242 c0_i32_245
  let v414 : BitVec 32 := Scalar.extui v413
  let c0_i32_246 : BitVec 32 := 0#32
  let v415 : BitVec 1 := Scalar.cmpi .slt c20_i32_242 c0_i32_246
  let v416 : BitVec 32 := Scalar.extui v415
  let v417 : BitVec 32 := Scalar.subi v414 v416
  let v418 : BitVec 1 := Scalar.cmpi .ne v412 v417
  let v419 : BitVec 32 := Scalar.remsi v404 c20_i32_242
  let c0_i32_247 : BitVec 32 := 0#32
  let v420 : BitVec 1 := Scalar.cmpi .ne v419 c0_i32_247
  let v421 : BitVec 1 := Scalar.andi v418 v420
  let v407 : BitVec 32 := Scalar.divsi v404 c20_i32_242
  let c1_i32_248 : BitVec 32 := 1#32
  let v422 : BitVec 32 := Scalar.subi v407 c1_i32_248
  let v423 : BitVec 32 := Scalar.select v421 v422 v407
  let c20_i32_249 : BitVec 32 := 20#32
  let c0_i32_250 : BitVec 32 := 0#32
  let v424 : BitVec 1 := Scalar.cmpi .eq c20_i32_249 c0_i32_250
  let c1_i32_251 : BitVec 32 := 1#32
  let v425 : BitVec 32 := Scalar.select v424 c1_i32_251 c20_i32_249
  let v426 : BitVec 32 := Scalar.remsi v404 v425
  let c0_i32_253 : BitVec 32 := 0#32
  let v428 : BitVec 1 := Scalar.cmpi .slt v426 c0_i32_253
  let c0_i32_254 : BitVec 32 := 0#32
  let v429 : BitVec 1 := Scalar.cmpi .slt v425 c0_i32_254
  let v430 : BitVec 1 := Scalar.xori v428 v429
  let c0_i32_252 : BitVec 32 := 0#32
  let v427 : BitVec 1 := Scalar.cmpi .ne v426 c0_i32_252
  let v431 : BitVec 1 := Scalar.andi v430 v427
  let v432 : BitVec 32 := Scalar.addi v426 v425
  let v433 : BitVec 32 := Scalar.select v431 v432 v426
  let c64_i32_255 : BitVec 32 := 64#32
  let v434 : BitVec 32 := Scalar.muli v433 c64_i32_255
  ![1, v423.toNat, v434.toNat]
def k1_off203 (v446 : BitVec 32) : Fin 2 → Nat :=
  let c0_i32_275 : BitVec 32 := 0#32
  ![v446.toNat, 0]

def k1_chk90 (v446 : BitVec 32) : Prop :=
  (∀ a, (k1_off203 v446) a + S1x64.size a ≤ S1000000x64.size a)
instance k1_chk90.dec : ∀ (v446 : BitVec 32), Decidable (k1_chk90 v446) := fun v446 => decidable_of_iff' _ (Iff.of_eq (k1_chk90.eq_1 v446))
theorem k1_off203_inb : ∀ (v446 : BitVec 32) (k1_hw90 : k1_chk90 v446), ∀ a, (k1_off203 v446) a + S1x64.size a ≤ S1000000x64.size a := fun v446 k1_hw90 => k1_hw90

def k1_off204 (k1_t11 : Fin k1_t11_loop.trips) (c9_i32 : BitVec 32) : Fin 3 → Nat :=
  let c1_i32_274 : BitVec 32 := 1#32
  let c0_i32_90 : BitVec 32 := 0#32
  let c1_i32_92 : BitVec 32 := 1#32
  let arg13 : BitVec 32 := Scf.iv c0_i32_90 c1_i32_92 k1_t11
  let c16_i32_259 : BitVec 32 := 16#32
  let v443 : BitVec 32 := Scalar.muli arg13 c16_i32_259
  let v444 : BitVec 32 := Scalar.addi v443 c9_i32
  let c0_i32_261 : BitVec 32 := 0#32
  let v448 : BitVec 1 := Scalar.cmpi .sgt v444 c0_i32_261
  let v449 : BitVec 32 := Scalar.extui v448
  let c0_i32_262 : BitVec 32 := 0#32
  let v450 : BitVec 1 := Scalar.cmpi .slt v444 c0_i32_262
  let v451 : BitVec 32 := Scalar.extui v450
  let v452 : BitVec 32 := Scalar.subi v449 v451
  let c20_i32_260 : BitVec 32 := 20#32
  let c0_i32_263 : BitVec 32 := 0#32
  let v453 : BitVec 1 := Scalar.cmpi .sgt c20_i32_260 c0_i32_263
  let v454 : BitVec 32 := Scalar.extui v453
  let c0_i32_264 : BitVec 32 := 0#32
  let v455 : BitVec 1 := Scalar.cmpi .slt c20_i32_260 c0_i32_264
  let v456 : BitVec 32 := Scalar.extui v455
  let v457 : BitVec 32 := Scalar.subi v454 v456
  let v458 : BitVec 1 := Scalar.cmpi .ne v452 v457
  let v459 : BitVec 32 := Scalar.remsi v444 c20_i32_260
  let c0_i32_265 : BitVec 32 := 0#32
  let v460 : BitVec 1 := Scalar.cmpi .ne v459 c0_i32_265
  let v461 : BitVec 1 := Scalar.andi v458 v460
  let v447 : BitVec 32 := Scalar.divsi v444 c20_i32_260
  let c1_i32_266 : BitVec 32 := 1#32
  let v462 : BitVec 32 := Scalar.subi v447 c1_i32_266
  let v463 : BitVec 32 := Scalar.select v461 v462 v447
  let c20_i32_267 : BitVec 32 := 20#32
  let c0_i32_268 : BitVec 32 := 0#32
  let v464 : BitVec 1 := Scalar.cmpi .eq c20_i32_267 c0_i32_268
  let c1_i32_269 : BitVec 32 := 1#32
  let v465 : BitVec 32 := Scalar.select v464 c1_i32_269 c20_i32_267
  let v466 : BitVec 32 := Scalar.remsi v444 v465
  let c0_i32_271 : BitVec 32 := 0#32
  let v468 : BitVec 1 := Scalar.cmpi .slt v466 c0_i32_271
  let c0_i32_272 : BitVec 32 := 0#32
  let v469 : BitVec 1 := Scalar.cmpi .slt v465 c0_i32_272
  let v470 : BitVec 1 := Scalar.xori v468 v469
  let c0_i32_270 : BitVec 32 := 0#32
  let v467 : BitVec 1 := Scalar.cmpi .ne v466 c0_i32_270
  let v471 : BitVec 1 := Scalar.andi v470 v467
  let v472 : BitVec 32 := Scalar.addi v466 v465
  let v473 : BitVec 32 := Scalar.select v471 v472 v466
  let c64_i32_273 : BitVec 32 := 64#32
  let v474 : BitVec 32 := Scalar.muli v473 c64_i32_273
  ![1, v463.toNat, v474.toNat]
def k1_off205 (v486 : BitVec 32) : Fin 2 → Nat :=
  let c0_i32_293 : BitVec 32 := 0#32
  ![v486.toNat, 0]

def k1_chk91 (v486 : BitVec 32) : Prop :=
  (∀ a, (k1_off205 v486) a + S1x64.size a ≤ S1000000x64.size a)
instance k1_chk91.dec : ∀ (v486 : BitVec 32), Decidable (k1_chk91 v486) := fun v486 => decidable_of_iff' _ (Iff.of_eq (k1_chk91.eq_1 v486))
theorem k1_off205_inb : ∀ (v486 : BitVec 32) (k1_hw91 : k1_chk91 v486), ∀ a, (k1_off205 v486) a + S1x64.size a ≤ S1000000x64.size a := fun v486 k1_hw91 => k1_hw91

def k1_off206 (k1_t11 : Fin k1_t11_loop.trips) (c10_i32 : BitVec 32) : Fin 3 → Nat :=
  let c1_i32_292 : BitVec 32 := 1#32
  let c0_i32_90 : BitVec 32 := 0#32
  let c1_i32_92 : BitVec 32 := 1#32
  let arg13 : BitVec 32 := Scf.iv c0_i32_90 c1_i32_92 k1_t11
  let c16_i32_277 : BitVec 32 := 16#32
  let v483 : BitVec 32 := Scalar.muli arg13 c16_i32_277
  let v484 : BitVec 32 := Scalar.addi v483 c10_i32
  let c0_i32_279 : BitVec 32 := 0#32
  let v488 : BitVec 1 := Scalar.cmpi .sgt v484 c0_i32_279
  let v489 : BitVec 32 := Scalar.extui v488
  let c0_i32_280 : BitVec 32 := 0#32
  let v490 : BitVec 1 := Scalar.cmpi .slt v484 c0_i32_280
  let v491 : BitVec 32 := Scalar.extui v490
  let v492 : BitVec 32 := Scalar.subi v489 v491
  let c20_i32_278 : BitVec 32 := 20#32
  let c0_i32_281 : BitVec 32 := 0#32
  let v493 : BitVec 1 := Scalar.cmpi .sgt c20_i32_278 c0_i32_281
  let v494 : BitVec 32 := Scalar.extui v493
  let c0_i32_282 : BitVec 32 := 0#32
  let v495 : BitVec 1 := Scalar.cmpi .slt c20_i32_278 c0_i32_282
  let v496 : BitVec 32 := Scalar.extui v495
  let v497 : BitVec 32 := Scalar.subi v494 v496
  let v498 : BitVec 1 := Scalar.cmpi .ne v492 v497
  let v499 : BitVec 32 := Scalar.remsi v484 c20_i32_278
  let c0_i32_283 : BitVec 32 := 0#32
  let v500 : BitVec 1 := Scalar.cmpi .ne v499 c0_i32_283
  let v501 : BitVec 1 := Scalar.andi v498 v500
  let v487 : BitVec 32 := Scalar.divsi v484 c20_i32_278
  let c1_i32_284 : BitVec 32 := 1#32
  let v502 : BitVec 32 := Scalar.subi v487 c1_i32_284
  let v503 : BitVec 32 := Scalar.select v501 v502 v487
  let c20_i32_285 : BitVec 32 := 20#32
  let c0_i32_286 : BitVec 32 := 0#32
  let v504 : BitVec 1 := Scalar.cmpi .eq c20_i32_285 c0_i32_286
  let c1_i32_287 : BitVec 32 := 1#32
  let v505 : BitVec 32 := Scalar.select v504 c1_i32_287 c20_i32_285
  let v506 : BitVec 32 := Scalar.remsi v484 v505
  let c0_i32_289 : BitVec 32 := 0#32
  let v508 : BitVec 1 := Scalar.cmpi .slt v506 c0_i32_289
  let c0_i32_290 : BitVec 32 := 0#32
  let v509 : BitVec 1 := Scalar.cmpi .slt v505 c0_i32_290
  let v510 : BitVec 1 := Scalar.xori v508 v509
  let c0_i32_288 : BitVec 32 := 0#32
  let v507 : BitVec 1 := Scalar.cmpi .ne v506 c0_i32_288
  let v511 : BitVec 1 := Scalar.andi v510 v507
  let v512 : BitVec 32 := Scalar.addi v506 v505
  let v513 : BitVec 32 := Scalar.select v511 v512 v506
  let c64_i32_291 : BitVec 32 := 64#32
  let v514 : BitVec 32 := Scalar.muli v513 c64_i32_291
  ![1, v503.toNat, v514.toNat]
def k1_off207 (v526 : BitVec 32) : Fin 2 → Nat :=
  let c0_i32_311 : BitVec 32 := 0#32
  ![v526.toNat, 0]

def k1_chk92 (v526 : BitVec 32) : Prop :=
  (∀ a, (k1_off207 v526) a + S1x64.size a ≤ S1000000x64.size a)
instance k1_chk92.dec : ∀ (v526 : BitVec 32), Decidable (k1_chk92 v526) := fun v526 => decidable_of_iff' _ (Iff.of_eq (k1_chk92.eq_1 v526))
theorem k1_off207_inb : ∀ (v526 : BitVec 32) (k1_hw92 : k1_chk92 v526), ∀ a, (k1_off207 v526) a + S1x64.size a ≤ S1000000x64.size a := fun v526 k1_hw92 => k1_hw92

def k1_off208 (k1_t11 : Fin k1_t11_loop.trips) (c11_i32 : BitVec 32) : Fin 3 → Nat :=
  let c1_i32_310 : BitVec 32 := 1#32
  let c0_i32_90 : BitVec 32 := 0#32
  let c1_i32_92 : BitVec 32 := 1#32
  let arg13 : BitVec 32 := Scf.iv c0_i32_90 c1_i32_92 k1_t11
  let c16_i32_295 : BitVec 32 := 16#32
  let v523 : BitVec 32 := Scalar.muli arg13 c16_i32_295
  let v524 : BitVec 32 := Scalar.addi v523 c11_i32
  let c0_i32_297 : BitVec 32 := 0#32
  let v528 : BitVec 1 := Scalar.cmpi .sgt v524 c0_i32_297
  let v529 : BitVec 32 := Scalar.extui v528
  let c0_i32_298 : BitVec 32 := 0#32
  let v530 : BitVec 1 := Scalar.cmpi .slt v524 c0_i32_298
  let v531 : BitVec 32 := Scalar.extui v530
  let v532 : BitVec 32 := Scalar.subi v529 v531
  let c20_i32_296 : BitVec 32 := 20#32
  let c0_i32_299 : BitVec 32 := 0#32
  let v533 : BitVec 1 := Scalar.cmpi .sgt c20_i32_296 c0_i32_299
  let v534 : BitVec 32 := Scalar.extui v533
  let c0_i32_300 : BitVec 32 := 0#32
  let v535 : BitVec 1 := Scalar.cmpi .slt c20_i32_296 c0_i32_300
  let v536 : BitVec 32 := Scalar.extui v535
  let v537 : BitVec 32 := Scalar.subi v534 v536
  let v538 : BitVec 1 := Scalar.cmpi .ne v532 v537
  let v539 : BitVec 32 := Scalar.remsi v524 c20_i32_296
  let c0_i32_301 : BitVec 32 := 0#32
  let v540 : BitVec 1 := Scalar.cmpi .ne v539 c0_i32_301
  let v541 : BitVec 1 := Scalar.andi v538 v540
  let v527 : BitVec 32 := Scalar.divsi v524 c20_i32_296
  let c1_i32_302 : BitVec 32 := 1#32
  let v542 : BitVec 32 := Scalar.subi v527 c1_i32_302
  let v543 : BitVec 32 := Scalar.select v541 v542 v527
  let c20_i32_303 : BitVec 32 := 20#32
  let c0_i32_304 : BitVec 32 := 0#32
  let v544 : BitVec 1 := Scalar.cmpi .eq c20_i32_303 c0_i32_304
  let c1_i32_305 : BitVec 32 := 1#32
  let v545 : BitVec 32 := Scalar.select v544 c1_i32_305 c20_i32_303
  let v546 : BitVec 32 := Scalar.remsi v524 v545
  let c0_i32_307 : BitVec 32 := 0#32
  let v548 : BitVec 1 := Scalar.cmpi .slt v546 c0_i32_307
  let c0_i32_308 : BitVec 32 := 0#32
  let v549 : BitVec 1 := Scalar.cmpi .slt v545 c0_i32_308
  let v550 : BitVec 1 := Scalar.xori v548 v549
  let c0_i32_306 : BitVec 32 := 0#32
  let v547 : BitVec 1 := Scalar.cmpi .ne v546 c0_i32_306
  let v551 : BitVec 1 := Scalar.andi v550 v547
  let v552 : BitVec 32 := Scalar.addi v546 v545
  let v553 : BitVec 32 := Scalar.select v551 v552 v546
  let c64_i32_309 : BitVec 32 := 64#32
  let v554 : BitVec 32 := Scalar.muli v553 c64_i32_309
  ![1, v543.toNat, v554.toNat]
def k1_off209 (v566 : BitVec 32) : Fin 2 → Nat :=
  let c0_i32_329 : BitVec 32 := 0#32
  ![v566.toNat, 0]

def k1_chk93 (v566 : BitVec 32) : Prop :=
  (∀ a, (k1_off209 v566) a + S1x64.size a ≤ S1000000x64.size a)
instance k1_chk93.dec : ∀ (v566 : BitVec 32), Decidable (k1_chk93 v566) := fun v566 => decidable_of_iff' _ (Iff.of_eq (k1_chk93.eq_1 v566))
theorem k1_off209_inb : ∀ (v566 : BitVec 32) (k1_hw93 : k1_chk93 v566), ∀ a, (k1_off209 v566) a + S1x64.size a ≤ S1000000x64.size a := fun v566 k1_hw93 => k1_hw93

def k1_off210 (k1_t11 : Fin k1_t11_loop.trips) (c12_i32 : BitVec 32) : Fin 3 → Nat :=
  let c1_i32_328 : BitVec 32 := 1#32
  let c0_i32_90 : BitVec 32 := 0#32
  let c1_i32_92 : BitVec 32 := 1#32
  let arg13 : BitVec 32 := Scf.iv c0_i32_90 c1_i32_92 k1_t11
  let c16_i32_313 : BitVec 32 := 16#32
  let v563 : BitVec 32 := Scalar.muli arg13 c16_i32_313
  let v564 : BitVec 32 := Scalar.addi v563 c12_i32
  let c0_i32_315 : BitVec 32 := 0#32
  let v568 : BitVec 1 := Scalar.cmpi .sgt v564 c0_i32_315
  let v569 : BitVec 32 := Scalar.extui v568
  let c0_i32_316 : BitVec 32 := 0#32
  let v570 : BitVec 1 := Scalar.cmpi .slt v564 c0_i32_316
  let v571 : BitVec 32 := Scalar.extui v570
  let v572 : BitVec 32 := Scalar.subi v569 v571
  let c20_i32_314 : BitVec 32 := 20#32
  let c0_i32_317 : BitVec 32 := 0#32
  let v573 : BitVec 1 := Scalar.cmpi .sgt c20_i32_314 c0_i32_317
  let v574 : BitVec 32 := Scalar.extui v573
  let c0_i32_318 : BitVec 32 := 0#32
  let v575 : BitVec 1 := Scalar.cmpi .slt c20_i32_314 c0_i32_318
  let v576 : BitVec 32 := Scalar.extui v575
  let v577 : BitVec 32 := Scalar.subi v574 v576
  let v578 : BitVec 1 := Scalar.cmpi .ne v572 v577
  let v579 : BitVec 32 := Scalar.remsi v564 c20_i32_314
  let c0_i32_319 : BitVec 32 := 0#32
  let v580 : BitVec 1 := Scalar.cmpi .ne v579 c0_i32_319
  let v581 : BitVec 1 := Scalar.andi v578 v580
  let v567 : BitVec 32 := Scalar.divsi v564 c20_i32_314
  let c1_i32_320 : BitVec 32 := 1#32
  let v582 : BitVec 32 := Scalar.subi v567 c1_i32_320
  let v583 : BitVec 32 := Scalar.select v581 v582 v567
  let c20_i32_321 : BitVec 32 := 20#32
  let c0_i32_322 : BitVec 32 := 0#32
  let v584 : BitVec 1 := Scalar.cmpi .eq c20_i32_321 c0_i32_322
  let c1_i32_323 : BitVec 32 := 1#32
  let v585 : BitVec 32 := Scalar.select v584 c1_i32_323 c20_i32_321
  let v586 : BitVec 32 := Scalar.remsi v564 v585
  let c0_i32_325 : BitVec 32 := 0#32
  let v588 : BitVec 1 := Scalar.cmpi .slt v586 c0_i32_325
  let c0_i32_326 : BitVec 32 := 0#32
  let v589 : BitVec 1 := Scalar.cmpi .slt v585 c0_i32_326
  let v590 : BitVec 1 := Scalar.xori v588 v589
  let c0_i32_324 : BitVec 32 := 0#32
  let v587 : BitVec 1 := Scalar.cmpi .ne v586 c0_i32_324
  let v591 : BitVec 1 := Scalar.andi v590 v587
  let v592 : BitVec 32 := Scalar.addi v586 v585
  let v593 : BitVec 32 := Scalar.select v591 v592 v586
  let c64_i32_327 : BitVec 32 := 64#32
  let v594 : BitVec 32 := Scalar.muli v593 c64_i32_327
  ![1, v583.toNat, v594.toNat]
def k1_off211 (v606 : BitVec 32) : Fin 2 → Nat :=
  let c0_i32_347 : BitVec 32 := 0#32
  ![v606.toNat, 0]

def k1_chk94 (v606 : BitVec 32) : Prop :=
  (∀ a, (k1_off211 v606) a + S1x64.size a ≤ S1000000x64.size a)
instance k1_chk94.dec : ∀ (v606 : BitVec 32), Decidable (k1_chk94 v606) := fun v606 => decidable_of_iff' _ (Iff.of_eq (k1_chk94.eq_1 v606))
theorem k1_off211_inb : ∀ (v606 : BitVec 32) (k1_hw94 : k1_chk94 v606), ∀ a, (k1_off211 v606) a + S1x64.size a ≤ S1000000x64.size a := fun v606 k1_hw94 => k1_hw94

def k1_off212 (k1_t11 : Fin k1_t11_loop.trips) (c13_i32 : BitVec 32) : Fin 3 → Nat :=
  let c1_i32_346 : BitVec 32 := 1#32
  let c0_i32_90 : BitVec 32 := 0#32
  let c1_i32_92 : BitVec 32 := 1#32
  let arg13 : BitVec 32 := Scf.iv c0_i32_90 c1_i32_92 k1_t11
  let c16_i32_331 : BitVec 32 := 16#32
  let v603 : BitVec 32 := Scalar.muli arg13 c16_i32_331
  let v604 : BitVec 32 := Scalar.addi v603 c13_i32
  let c0_i32_333 : BitVec 32 := 0#32
  let v608 : BitVec 1 := Scalar.cmpi .sgt v604 c0_i32_333
  let v609 : BitVec 32 := Scalar.extui v608
  let c0_i32_334 : BitVec 32 := 0#32
  let v610 : BitVec 1 := Scalar.cmpi .slt v604 c0_i32_334
  let v611 : BitVec 32 := Scalar.extui v610
  let v612 : BitVec 32 := Scalar.subi v609 v611
  let c20_i32_332 : BitVec 32 := 20#32
  let c0_i32_335 : BitVec 32 := 0#32
  let v613 : BitVec 1 := Scalar.cmpi .sgt c20_i32_332 c0_i32_335
  let v614 : BitVec 32 := Scalar.extui v613
  let c0_i32_336 : BitVec 32 := 0#32
  let v615 : BitVec 1 := Scalar.cmpi .slt c20_i32_332 c0_i32_336
  let v616 : BitVec 32 := Scalar.extui v615
  let v617 : BitVec 32 := Scalar.subi v614 v616
  let v618 : BitVec 1 := Scalar.cmpi .ne v612 v617
  let v619 : BitVec 32 := Scalar.remsi v604 c20_i32_332
  let c0_i32_337 : BitVec 32 := 0#32
  let v620 : BitVec 1 := Scalar.cmpi .ne v619 c0_i32_337
  let v621 : BitVec 1 := Scalar.andi v618 v620
  let v607 : BitVec 32 := Scalar.divsi v604 c20_i32_332
  let c1_i32_338 : BitVec 32 := 1#32
  let v622 : BitVec 32 := Scalar.subi v607 c1_i32_338
  let v623 : BitVec 32 := Scalar.select v621 v622 v607
  let c20_i32_339 : BitVec 32 := 20#32
  let c0_i32_340 : BitVec 32 := 0#32
  let v624 : BitVec 1 := Scalar.cmpi .eq c20_i32_339 c0_i32_340
  let c1_i32_341 : BitVec 32 := 1#32
  let v625 : BitVec 32 := Scalar.select v624 c1_i32_341 c20_i32_339
  let v626 : BitVec 32 := Scalar.remsi v604 v625
  let c0_i32_343 : BitVec 32 := 0#32
  let v628 : BitVec 1 := Scalar.cmpi .slt v626 c0_i32_343
  let c0_i32_344 : BitVec 32 := 0#32
  let v629 : BitVec 1 := Scalar.cmpi .slt v625 c0_i32_344
  let v630 : BitVec 1 := Scalar.xori v628 v629
  let c0_i32_342 : BitVec 32 := 0#32
  let v627 : BitVec 1 := Scalar.cmpi .ne v626 c0_i32_342
  let v631 : BitVec 1 := Scalar.andi v630 v627
  let v632 : BitVec 32 := Scalar.addi v626 v625
  let v633 : BitVec 32 := Scalar.select v631 v632 v626
  let c64_i32_345 : BitVec 32 := 64#32
  let v634 : BitVec 32 := Scalar.muli v633 c64_i32_345
  ![1, v623.toNat, v634.toNat]
def k1_off213 (v646 : BitVec 32) : Fin 2 → Nat :=
  let c0_i32_365 : BitVec 32 := 0#32
  ![v646.toNat, 0]

def k1_chk95 (v646 : BitVec 32) : Prop :=
  (∀ a, (k1_off213 v646) a + S1x64.size a ≤ S1000000x64.size a)
instance k1_chk95.dec : ∀ (v646 : BitVec 32), Decidable (k1_chk95 v646) := fun v646 => decidable_of_iff' _ (Iff.of_eq (k1_chk95.eq_1 v646))
theorem k1_off213_inb : ∀ (v646 : BitVec 32) (k1_hw95 : k1_chk95 v646), ∀ a, (k1_off213 v646) a + S1x64.size a ≤ S1000000x64.size a := fun v646 k1_hw95 => k1_hw95

def k1_off214 (k1_t11 : Fin k1_t11_loop.trips) (c14_i32 : BitVec 32) : Fin 3 → Nat :=
  let c1_i32_364 : BitVec 32 := 1#32
  let c0_i32_90 : BitVec 32 := 0#32
  let c1_i32_92 : BitVec 32 := 1#32
  let arg13 : BitVec 32 := Scf.iv c0_i32_90 c1_i32_92 k1_t11
  let c16_i32_349 : BitVec 32 := 16#32
  let v643 : BitVec 32 := Scalar.muli arg13 c16_i32_349
  let v644 : BitVec 32 := Scalar.addi v643 c14_i32
  let c0_i32_351 : BitVec 32 := 0#32
  let v648 : BitVec 1 := Scalar.cmpi .sgt v644 c0_i32_351
  let v649 : BitVec 32 := Scalar.extui v648
  let c0_i32_352 : BitVec 32 := 0#32
  let v650 : BitVec 1 := Scalar.cmpi .slt v644 c0_i32_352
  let v651 : BitVec 32 := Scalar.extui v650
  let v652 : BitVec 32 := Scalar.subi v649 v651
  let c20_i32_350 : BitVec 32 := 20#32
  let c0_i32_353 : BitVec 32 := 0#32
  let v653 : BitVec 1 := Scalar.cmpi .sgt c20_i32_350 c0_i32_353
  let v654 : BitVec 32 := Scalar.extui v653
  let c0_i32_354 : BitVec 32 := 0#32
  let v655 : BitVec 1 := Scalar.cmpi .slt c20_i32_350 c0_i32_354
  let v656 : BitVec 32 := Scalar.extui v655
  let v657 : BitVec 32 := Scalar.subi v654 v656
  let v658 : BitVec 1 := Scalar.cmpi .ne v652 v657
  let v659 : BitVec 32 := Scalar.remsi v644 c20_i32_350
  let c0_i32_355 : BitVec 32 := 0#32
  let v660 : BitVec 1 := Scalar.cmpi .ne v659 c0_i32_355
  let v661 : BitVec 1 := Scalar.andi v658 v660
  let v647 : BitVec 32 := Scalar.divsi v644 c20_i32_350
  let c1_i32_356 : BitVec 32 := 1#32
  let v662 : BitVec 32 := Scalar.subi v647 c1_i32_356
  let v663 : BitVec 32 := Scalar.select v661 v662 v647
  let c20_i32_357 : BitVec 32 := 20#32
  let c0_i32_358 : BitVec 32 := 0#32
  let v664 : BitVec 1 := Scalar.cmpi .eq c20_i32_357 c0_i32_358
  let c1_i32_359 : BitVec 32 := 1#32
  let v665 : BitVec 32 := Scalar.select v664 c1_i32_359 c20_i32_357
  let v666 : BitVec 32 := Scalar.remsi v644 v665
  let c0_i32_361 : BitVec 32 := 0#32
  let v668 : BitVec 1 := Scalar.cmpi .slt v666 c0_i32_361
  let c0_i32_362 : BitVec 32 := 0#32
  let v669 : BitVec 1 := Scalar.cmpi .slt v665 c0_i32_362
  let v670 : BitVec 1 := Scalar.xori v668 v669
  let c0_i32_360 : BitVec 32 := 0#32
  let v667 : BitVec 1 := Scalar.cmpi .ne v666 c0_i32_360
  let v671 : BitVec 1 := Scalar.andi v670 v667
  let v672 : BitVec 32 := Scalar.addi v666 v665
  let v673 : BitVec 32 := Scalar.select v671 v672 v666
  let c64_i32_363 : BitVec 32 := 64#32
  let v674 : BitVec 32 := Scalar.muli v673 c64_i32_363
  ![1, v663.toNat, v674.toNat]
def k1_off215 (v686 : BitVec 32) : Fin 2 → Nat :=
  let c0_i32_384 : BitVec 32 := 0#32
  ![v686.toNat, 0]

def k1_chk96 (v686 : BitVec 32) : Prop :=
  (∀ a, (k1_off215 v686) a + S1x64.size a ≤ S1000000x64.size a)
instance k1_chk96.dec : ∀ (v686 : BitVec 32), Decidable (k1_chk96 v686) := fun v686 => decidable_of_iff' _ (Iff.of_eq (k1_chk96.eq_1 v686))
theorem k1_off215_inb : ∀ (v686 : BitVec 32) (k1_hw96 : k1_chk96 v686), ∀ a, (k1_off215 v686) a + S1x64.size a ≤ S1000000x64.size a := fun v686 k1_hw96 => k1_hw96

def k1_off216 (k1_t11 : Fin k1_t11_loop.trips) : Fin 3 → Nat :=
  let c1_i32_383 : BitVec 32 := 1#32
  let c0_i32_90 : BitVec 32 := 0#32
  let c1_i32_92 : BitVec 32 := 1#32
  let arg13 : BitVec 32 := Scf.iv c0_i32_90 c1_i32_92 k1_t11
  let c16_i32_367 : BitVec 32 := 16#32
  let v683 : BitVec 32 := Scalar.muli arg13 c16_i32_367
  let c15_i32_368 : BitVec 32 := 15#32
  let v684 : BitVec 32 := Scalar.addi v683 c15_i32_368
  let c0_i32_370 : BitVec 32 := 0#32
  let v688 : BitVec 1 := Scalar.cmpi .sgt v684 c0_i32_370
  let v689 : BitVec 32 := Scalar.extui v688
  let c0_i32_371 : BitVec 32 := 0#32
  let v690 : BitVec 1 := Scalar.cmpi .slt v684 c0_i32_371
  let v691 : BitVec 32 := Scalar.extui v690
  let v692 : BitVec 32 := Scalar.subi v689 v691
  let c20_i32_369 : BitVec 32 := 20#32
  let c0_i32_372 : BitVec 32 := 0#32
  let v693 : BitVec 1 := Scalar.cmpi .sgt c20_i32_369 c0_i32_372
  let v694 : BitVec 32 := Scalar.extui v693
  let c0_i32_373 : BitVec 32 := 0#32
  let v695 : BitVec 1 := Scalar.cmpi .slt c20_i32_369 c0_i32_373
  let v696 : BitVec 32 := Scalar.extui v695
  let v697 : BitVec 32 := Scalar.subi v694 v696
  let v698 : BitVec 1 := Scalar.cmpi .ne v692 v697
  let v699 : BitVec 32 := Scalar.remsi v684 c20_i32_369
  let c0_i32_374 : BitVec 32 := 0#32
  let v700 : BitVec 1 := Scalar.cmpi .ne v699 c0_i32_374
  let v701 : BitVec 1 := Scalar.andi v698 v700
  let v687 : BitVec 32 := Scalar.divsi v684 c20_i32_369
  let c1_i32_375 : BitVec 32 := 1#32
  let v702 : BitVec 32 := Scalar.subi v687 c1_i32_375
  let v703 : BitVec 32 := Scalar.select v701 v702 v687
  let c20_i32_376 : BitVec 32 := 20#32
  let c0_i32_377 : BitVec 32 := 0#32
  let v704 : BitVec 1 := Scalar.cmpi .eq c20_i32_376 c0_i32_377
  let c1_i32_378 : BitVec 32 := 1#32
  let v705 : BitVec 32 := Scalar.select v704 c1_i32_378 c20_i32_376
  let v706 : BitVec 32 := Scalar.remsi v684 v705
  let c0_i32_380 : BitVec 32 := 0#32
  let v708 : BitVec 1 := Scalar.cmpi .slt v706 c0_i32_380
  let c0_i32_381 : BitVec 32 := 0#32
  let v709 : BitVec 1 := Scalar.cmpi .slt v705 c0_i32_381
  let v710 : BitVec 1 := Scalar.xori v708 v709
  let c0_i32_379 : BitVec 32 := 0#32
  let v707 : BitVec 1 := Scalar.cmpi .ne v706 c0_i32_379
  let v711 : BitVec 1 := Scalar.andi v710 v707
  let v712 : BitVec 32 := Scalar.addi v706 v705
  let v713 : BitVec 32 := Scalar.select v711 v712 v706
  let c64_i32_382 : BitVec 32 := 64#32
  let v714 : BitVec 32 := Scalar.muli v713 c64_i32_382
  ![1, v703.toNat, v714.toNat]
@[reducible] def k1_t12_loop : Scf.Loop 32 :=
  let c0_i32_49 : BitVec 32 := 0#32
  let c20_i32_50 : BitVec 32 := 20#32
  let v51 : BitVec 32 := Scalar.addi c0_i32_49 c20_i32_50
  let c1_i32_51 : BitVec 32 := 1#32
  ⟨c0_i32_49, v51, c1_i32_51⟩
def k1_off217 (k1_t12 : Fin k1_t12_loop.trips) (c0_i32_61 : BitVec 32) : Fin 3 → Nat :=
  let c0_i32_76 : BitVec 32 := 0#32
  let c0_i32_49 : BitVec 32 := 0#32
  let c1_i32_51 : BitVec 32 := 1#32
  let arg12 : BitVec 32 := Scf.iv c0_i32_49 c1_i32_51 k1_t12
  let c16_i32_60 : BitVec 32 := 16#32
  let v57 : BitVec 32 := Scalar.muli arg12 c16_i32_60
  let v58 : BitVec 32 := Scalar.addi v57 c0_i32_61
  let c0_i32_63 : BitVec 32 := 0#32
  let v60 : BitVec 1 := Scalar.cmpi .sgt v58 c0_i32_63
  let v61 : BitVec 32 := Scalar.extui v60
  let c0_i32_64 : BitVec 32 := 0#32
  let v62 : BitVec 1 := Scalar.cmpi .slt v58 c0_i32_64
  let v63 : BitVec 32 := Scalar.extui v62
  let v64 : BitVec 32 := Scalar.subi v61 v63
  let c20_i32_62 : BitVec 32 := 20#32
  let c0_i32_65 : BitVec 32 := 0#32
  let v65 : BitVec 1 := Scalar.cmpi .sgt c20_i32_62 c0_i32_65
  let v66 : BitVec 32 := Scalar.extui v65
  let c0_i32_66 : BitVec 32 := 0#32
  let v67 : BitVec 1 := Scalar.cmpi .slt c20_i32_62 c0_i32_66
  let v68 : BitVec 32 := Scalar.extui v67
  let v69 : BitVec 32 := Scalar.subi v66 v68
  let v70 : BitVec 1 := Scalar.cmpi .ne v64 v69
  let v71 : BitVec 32 := Scalar.remsi v58 c20_i32_62
  let c0_i32_67 : BitVec 32 := 0#32
  let v72 : BitVec 1 := Scalar.cmpi .ne v71 c0_i32_67
  let v73 : BitVec 1 := Scalar.andi v70 v72
  let v59 : BitVec 32 := Scalar.divsi v58 c20_i32_62
  let c1_i32_68 : BitVec 32 := 1#32
  let v74 : BitVec 32 := Scalar.subi v59 c1_i32_68
  let v75 : BitVec 32 := Scalar.select v73 v74 v59
  let c20_i32_69 : BitVec 32 := 20#32
  let c0_i32_70 : BitVec 32 := 0#32
  let v76 : BitVec 1 := Scalar.cmpi .eq c20_i32_69 c0_i32_70
  let c1_i32_71 : BitVec 32 := 1#32
  let v77 : BitVec 32 := Scalar.select v76 c1_i32_71 c20_i32_69
  let v78 : BitVec 32 := Scalar.remsi v58 v77
  let c0_i32_73 : BitVec 32 := 0#32
  let v80 : BitVec 1 := Scalar.cmpi .slt v78 c0_i32_73
  let c0_i32_74 : BitVec 32 := 0#32
  let v81 : BitVec 1 := Scalar.cmpi .slt v77 c0_i32_74
  let v82 : BitVec 1 := Scalar.xori v80 v81
  let c0_i32_72 : BitVec 32 := 0#32
  let v79 : BitVec 1 := Scalar.cmpi .ne v78 c0_i32_72
  let v83 : BitVec 1 := Scalar.andi v82 v79
  let v84 : BitVec 32 := Scalar.addi v78 v77
  let v85 : BitVec 32 := Scalar.select v83 v84 v78
  let c64_i32 : BitVec 32 := 64#32
  let v86 : BitVec 32 := Scalar.muli v85 c64_i32
  ![0, v75.toNat, v86.toNat]
def k1_mult5 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_0 : BitVec 32 := 512#32
  let v4 : BitVec 32 := Scalar.muli v1 c512_i32_0
  let c480_i32 : BitVec 32 := 480#32
  let v52 : BitVec 32 := Scalar.addi v4 c480_i32
  v52
def k1_off218 (i : grid1.Coords) (c480_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_0 : BitVec 32 := 512#32
  let v4 : BitVec 32 := Scalar.muli v1 c512_i32_0
  let v52 : BitVec 32 := Scalar.addi v4 c480_i32
  let v53 : BitVec 32 := v52
  let c0_i32_62_r10 : BitVec 32 := 0#32
  ![v53.toNat, 0]
@[reducible] def k1_t13_loop : Scf.Loop 32 :=
  let c0_i32_55 : BitVec 32 := 0#32
  let c20_i32_56 : BitVec 32 := 20#32
  let v54 : BitVec 32 := Scalar.addi c0_i32_55 c20_i32_56
  let c1_i32_57 : BitVec 32 := 1#32
  ⟨c0_i32_55, v54, c1_i32_57⟩
def k1_off219 (k1_t13 : Fin k1_t13_loop.trips) (c0_i32_61 : BitVec 32) : Fin 3 → Nat :=
  let c1_i32_76 : BitVec 32 := 1#32
  let c0_i32_55 : BitVec 32 := 0#32
  let c1_i32_57 : BitVec 32 := 1#32
  let arg12 : BitVec 32 := Scf.iv c0_i32_55 c1_i32_57 k1_t13
  let c16_i32_60 : BitVec 32 := 16#32
  let v57 : BitVec 32 := Scalar.muli arg12 c16_i32_60
  let v58 : BitVec 32 := Scalar.addi v57 c0_i32_61
  let c0_i32_63 : BitVec 32 := 0#32
  let v60 : BitVec 1 := Scalar.cmpi .sgt v58 c0_i32_63
  let v61 : BitVec 32 := Scalar.extui v60
  let c0_i32_64 : BitVec 32 := 0#32
  let v62 : BitVec 1 := Scalar.cmpi .slt v58 c0_i32_64
  let v63 : BitVec 32 := Scalar.extui v62
  let v64 : BitVec 32 := Scalar.subi v61 v63
  let c20_i32_62 : BitVec 32 := 20#32
  let c0_i32_65 : BitVec 32 := 0#32
  let v65 : BitVec 1 := Scalar.cmpi .sgt c20_i32_62 c0_i32_65
  let v66 : BitVec 32 := Scalar.extui v65
  let c0_i32_66 : BitVec 32 := 0#32
  let v67 : BitVec 1 := Scalar.cmpi .slt c20_i32_62 c0_i32_66
  let v68 : BitVec 32 := Scalar.extui v67
  let v69 : BitVec 32 := Scalar.subi v66 v68
  let v70 : BitVec 1 := Scalar.cmpi .ne v64 v69
  let v71 : BitVec 32 := Scalar.remsi v58 c20_i32_62
  let c0_i32_67 : BitVec 32 := 0#32
  let v72 : BitVec 1 := Scalar.cmpi .ne v71 c0_i32_67
  let v73 : BitVec 1 := Scalar.andi v70 v72
  let v59 : BitVec 32 := Scalar.divsi v58 c20_i32_62
  let c1_i32_68 : BitVec 32 := 1#32
  let v74 : BitVec 32 := Scalar.subi v59 c1_i32_68
  let v75 : BitVec 32 := Scalar.select v73 v74 v59
  let c20_i32_69 : BitVec 32 := 20#32
  let c0_i32_70 : BitVec 32 := 0#32
  let v76 : BitVec 1 := Scalar.cmpi .eq c20_i32_69 c0_i32_70
  let c1_i32_71 : BitVec 32 := 1#32
  let v77 : BitVec 32 := Scalar.select v76 c1_i32_71 c20_i32_69
  let v78 : BitVec 32 := Scalar.remsi v58 v77
  let c0_i32_73 : BitVec 32 := 0#32
  let v80 : BitVec 1 := Scalar.cmpi .slt v78 c0_i32_73
  let c0_i32_74 : BitVec 32 := 0#32
  let v81 : BitVec 1 := Scalar.cmpi .slt v77 c0_i32_74
  let v82 : BitVec 1 := Scalar.xori v80 v81
  let c0_i32_72 : BitVec 32 := 0#32
  let v79 : BitVec 1 := Scalar.cmpi .ne v78 c0_i32_72
  let v83 : BitVec 1 := Scalar.andi v82 v79
  let v84 : BitVec 32 := Scalar.addi v78 v77
  let v85 : BitVec 32 := Scalar.select v83 v84 v78
  let c64_i32 : BitVec 32 := 64#32
  let v86 : BitVec 32 := Scalar.muli v85 c64_i32
  ![1, v75.toNat, v86.toNat]
def k1_mult6 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_0 : BitVec 32 := 512#32
  let v4 : BitVec 32 := Scalar.muli v1 c512_i32_0
  let c496_i32 : BitVec 32 := 496#32
  let v55 : BitVec 32 := Scalar.addi v4 c496_i32
  v55
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  h_S16 : 0 < S16.numel
  shapeCasts_S16_S16 : S16.ShapeCasts S16
  slices_S16_o0_S1 : S16.Slices ![0] S1
  inpos_S1_p0 : ∀ a, (![0] : Fin 1 → Nat) a < S1.size a
  squeezes_S1x1x64_S64 : S1x1x64.Squeezes S64
  squeezes_S1x64_S64 : S1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S1000000x64_S1x64_0_0 : ∀ a, (![0, 0] : Fin 2 → Nat) a + S1x64.size a ≤ S1000000x64.size a
  inb_S1x256x128_S1x256x128_0_0_0 : ∀ a, (![0, 0, 0] : Fin 3 → Nat) a + S1x256x128.size a ≤ S1x256x128.size a
  squeezes_S1x256x128_S256x128 : S1x256x128.Squeezes S256x128
  inb_S320_S256_0 : ∀ a, (![0] : Fin 1 → Nat) a + S256.size a ≤ S320.size a
  inb_S2x128x128_S1x128x128_0_0_0 : ∀ a, (![0, 0, 0] : Fin 3 → Nat) a + S1x128x128.size a ≤ S2x128x128.size a
  squeezes_S1x128x128_S128x128 : S1x128x128.Squeezes S128x128
  inb_S2x128x128_S1x128x128_1_0_0 : ∀ a, (![1, 0, 0] : Fin 3 → Nat) a + S1x128x128.size a ≤ S2x128x128.size a
  inb_S2x16x1280_S1x16x1280_0_0_0 : ∀ a, (![0, 0, 0] : Fin 3 → Nat) a + S1x16x1280.size a ≤ S2x16x1280.size a
  squeezes_S1x16x1280_S16x1280 : S1x16x1280.Squeezes S16x1280
  inb_S2x16x1280_S1x16x1280_1_0_0 : ∀ a, (![1, 0, 0] : Fin 3 → Nat) a + S1x16x1280.size a ≤ S2x16x1280.size a
  shapeCasts_S8192x128_S16384x64 : S8192x128.ShapeCasts S16384x64
  shapeCasts_S16384x1280_S16384x20x64 : S16384x1280.ShapeCasts S16384x20x64
  hcc0_scratch2 : 0 + S_.numel ≤ 17
  hcc0_scoped0 : 1 + S_.numel ≤ 17
  hcc0_scoped1 : 2 + S_.numel ≤ 17
  hcc1_scratch3 : 3 + S_.numel ≤ 17
  hcc1_scratch4 : 4 + S_.numel ≤ 17
  hcc1_scoped0 : 5 + S_.numel ≤ 17
  hcc1_scoped1 : 6 + S_.numel ≤ 17
  hcc1_scoped2 : 7 + S_.numel ≤ 17
  hcc1_scoped3 : 8 + S_.numel ≤ 17
  hcc1_scoped4 : 9 + S_.numel ≤ 17
  hcc1_scoped5 : 10 + S_.numel ≤ 17
  hcc1_scoped6 : 11 + S_.numel ≤ 17
  hcc1_scoped7 : 12 + S_.numel ≤ 17
  hcc1_scoped8 : 13 + S_.numel ≤ 17
  hcc1_scoped9 : 14 + S_.numel ≤ 17
  hcc1_scoped10 : 15 + S_.numel ≤ 17
  hcc1_scoped11 : 16 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S1x1x64.size a ≤ S1x256x128.size a
  k0_off5_inb : ∀ k0_t1 : Fin k0_t1_loop.trips, ∀ (r : Fin 2), ∀ a, (k0_off5 k0_t1 (BitVec.ofNat 32 r.val)) a + S1x1x64.size a ≤ S1x256x128.size a
  k0_off7_inb : ∀ k0_t1 : Fin k0_t1_loop.trips, ∀ (r : Fin 2), ∀ a, (k0_off7 k0_t1 (BitVec.ofNat 32 (1 + r.val))) a + S1x1x64.size a ≤ S1x256x128.size a
  k0_off9_inb : ∀ k0_t1 : Fin k0_t1_loop.trips, ∀ (r : Fin 2), ∀ a, (k0_off9 k0_t1 (BitVec.ofNat 32 (2 + r.val))) a + S1x1x64.size a ≤ S1x256x128.size a
  k0_off11_inb : ∀ k0_t1 : Fin k0_t1_loop.trips, ∀ (r : Fin 2), ∀ a, (k0_off11 k0_t1 (BitVec.ofNat 32 (3 + r.val))) a + S1x1x64.size a ≤ S1x256x128.size a
  k0_off13_inb : ∀ k0_t1 : Fin k0_t1_loop.trips, ∀ (r : Fin 2), ∀ a, (k0_off13 k0_t1 (BitVec.ofNat 32 (4 + r.val))) a + S1x1x64.size a ≤ S1x256x128.size a
  k0_off15_inb : ∀ k0_t1 : Fin k0_t1_loop.trips, ∀ (r : Fin 2), ∀ a, (k0_off15 k0_t1 (BitVec.ofNat 32 (5 + r.val))) a + S1x1x64.size a ≤ S1x256x128.size a
  k0_off17_inb : ∀ k0_t1 : Fin k0_t1_loop.trips, ∀ (r : Fin 2), ∀ a, (k0_off17 k0_t1 (BitVec.ofNat 32 (6 + r.val))) a + S1x1x64.size a ≤ S1x256x128.size a
  k0_off19_inb : ∀ k0_t1 : Fin k0_t1_loop.trips, ∀ (r : Fin 2), ∀ a, (k0_off19 k0_t1 (BitVec.ofNat 32 (7 + r.val))) a + S1x1x64.size a ≤ S1x256x128.size a
  k0_off21_inb : ∀ k0_t1 : Fin k0_t1_loop.trips, ∀ (r : Fin 2), ∀ a, (k0_off21 k0_t1 (BitVec.ofNat 32 (8 + r.val))) a + S1x1x64.size a ≤ S1x256x128.size a
  k0_off23_inb : ∀ k0_t1 : Fin k0_t1_loop.trips, ∀ (r : Fin 2), ∀ a, (k0_off23 k0_t1 (BitVec.ofNat 32 (9 + r.val))) a + S1x1x64.size a ≤ S1x256x128.size a
  k0_off25_inb : ∀ k0_t1 : Fin k0_t1_loop.trips, ∀ (r : Fin 2), ∀ a, (k0_off25 k0_t1 (BitVec.ofNat 32 (10 + r.val))) a + S1x1x64.size a ≤ S1x256x128.size a
  k0_off27_inb : ∀ k0_t1 : Fin k0_t1_loop.trips, ∀ (r : Fin 2), ∀ a, (k0_off27 k0_t1 (BitVec.ofNat 32 (11 + r.val))) a + S1x1x64.size a ≤ S1x256x128.size a
  k0_off29_inb : ∀ k0_t1 : Fin k0_t1_loop.trips, ∀ (r : Fin 2), ∀ a, (k0_off29 k0_t1 (BitVec.ofNat 32 (12 + r.val))) a + S1x1x64.size a ≤ S1x256x128.size a
  k0_off31_inb : ∀ k0_t1 : Fin k0_t1_loop.trips, ∀ (r : Fin 2), ∀ a, (k0_off31 k0_t1 (BitVec.ofNat 32 (13 + r.val))) a + S1x1x64.size a ≤ S1x256x128.size a
  k0_off33_inb : ∀ k0_t1 : Fin k0_t1_loop.trips, ∀ (r : Fin 2), ∀ a, (k0_off33 k0_t1 (BitVec.ofNat 32 (14 + r.val))) a + S1x1x64.size a ≤ S1x256x128.size a
  k0_off35_inb : ∀ k0_t1 : Fin k0_t1_loop.trips, ∀ a, (k0_off35 k0_t1) a + S1x1x64.size a ≤ S1x256x128.size a
  k0_t2_ok : k0_t2_loop.OK
  k0_off36_inb : ∀ k0_t2 : Fin k0_t2_loop.trips, ∀ (r : Fin 16), ∀ a, (k0_off36 k0_t2 (BitVec.ofNat 32 r.val)) a + S1x1x64.size a ≤ S1x256x128.size a
  k0_mult1_dvd : ∀ i : grid0.Coords, 8 ∣ (k0_mult1 i).toNat
  k0_off37_inb : ∀ i : grid0.Coords, ∀ a, (k0_off37 i) a + S256x128.size a ≤ S8192x128.size a
  hcore1 : grid1.bound 0 ≤ τ.nSC
  hsub1 : grid1.bound 1 ≤ τ.nSub
  k1_off1_inb : ∀ i : grid1.Coords, ∀ a, (k1_off1 i) a + S256.size a ≤ S16384.size a
  k1_t1_ok : k1_t1_loop.OK
  k1_off2_inb : ∀ k1_t1 : Fin k1_t1_loop.trips, ∀ a, (k1_off2 k1_t1) a + S16.size a ≤ S320.size a
  k1_off3_inb : ∀ k1_t1 : Fin k1_t1_loop.trips, ∀ a, (k1_off3 k1_t1) a + S1x1x64.size a ≤ S2x128x128.size a
  k1_off5_inb : ∀ k1_t1 : Fin k1_t1_loop.trips, ∀ (r : Fin 2), ∀ a, (k1_off5 k1_t1 (BitVec.ofNat 32 r.val)) a + S1x1x64.size a ≤ S2x128x128.size a
  k1_off7_inb : ∀ k1_t1 : Fin k1_t1_loop.trips, ∀ (r : Fin 2), ∀ a, (k1_off7 k1_t1 (BitVec.ofNat 32 (1 + r.val))) a + S1x1x64.size a ≤ S2x128x128.size a
  k1_off9_inb : ∀ k1_t1 : Fin k1_t1_loop.trips, ∀ (r : Fin 2), ∀ a, (k1_off9 k1_t1 (BitVec.ofNat 32 (2 + r.val))) a + S1x1x64.size a ≤ S2x128x128.size a
  k1_off11_inb : ∀ k1_t1 : Fin k1_t1_loop.trips, ∀ (r : Fin 2), ∀ a, (k1_off11 k1_t1 (BitVec.ofNat 32 (3 + r.val))) a + S1x1x64.size a ≤ S2x128x128.size a
  k1_off13_inb : ∀ k1_t1 : Fin k1_t1_loop.trips, ∀ (r : Fin 2), ∀ a, (k1_off13 k1_t1 (BitVec.ofNat 32 (4 + r.val))) a + S1x1x64.size a ≤ S2x128x128.size a
  k1_off15_inb : ∀ k1_t1 : Fin k1_t1_loop.trips, ∀ (r : Fin 2), ∀ a, (k1_off15 k1_t1 (BitVec.ofNat 32 (5 + r.val))) a + S1x1x64.size a ≤ S2x128x128.size a
  k1_off17_inb : ∀ k1_t1 : Fin k1_t1_loop.trips, ∀ (r : Fin 2), ∀ a, (k1_off17 k1_t1 (BitVec.ofNat 32 (6 + r.val))) a + S1x1x64.size a ≤ S2x128x128.size a
  k1_off19_inb : ∀ k1_t1 : Fin k1_t1_loop.trips, ∀ (r : Fin 2), ∀ a, (k1_off19 k1_t1 (BitVec.ofNat 32 (7 + r.val))) a + S1x1x64.size a ≤ S2x128x128.size a
  k1_off21_inb : ∀ k1_t1 : Fin k1_t1_loop.trips, ∀ (r : Fin 2), ∀ a, (k1_off21 k1_t1 (BitVec.ofNat 32 (8 + r.val))) a + S1x1x64.size a ≤ S2x128x128.size a
  k1_off23_inb : ∀ k1_t1 : Fin k1_t1_loop.trips, ∀ (r : Fin 2), ∀ a, (k1_off23 k1_t1 (BitVec.ofNat 32 (9 + r.val))) a + S1x1x64.size a ≤ S2x128x128.size a
  k1_off25_inb : ∀ k1_t1 : Fin k1_t1_loop.trips, ∀ (r : Fin 2), ∀ a, (k1_off25 k1_t1 (BitVec.ofNat 32 (10 + r.val))) a + S1x1x64.size a ≤ S2x128x128.size a
  k1_off27_inb : ∀ k1_t1 : Fin k1_t1_loop.trips, ∀ (r : Fin 2), ∀ a, (k1_off27 k1_t1 (BitVec.ofNat 32 (11 + r.val))) a + S1x1x64.size a ≤ S2x128x128.size a
  k1_off29_inb : ∀ k1_t1 : Fin k1_t1_loop.trips, ∀ (r : Fin 2), ∀ a, (k1_off29 k1_t1 (BitVec.ofNat 32 (12 + r.val))) a + S1x1x64.size a ≤ S2x128x128.size a
  k1_off31_inb : ∀ k1_t1 : Fin k1_t1_loop.trips, ∀ (r : Fin 2), ∀ a, (k1_off31 k1_t1 (BitVec.ofNat 32 (13 + r.val))) a + S1x1x64.size a ≤ S2x128x128.size a
  k1_off33_inb : ∀ k1_t1 : Fin k1_t1_loop.trips, ∀ (r : Fin 2), ∀ a, (k1_off33 k1_t1 (BitVec.ofNat 32 (14 + r.val))) a + S1x1x64.size a ≤ S2x128x128.size a
  k1_off35_inb : ∀ k1_t1 : Fin k1_t1_loop.trips, ∀ a, (k1_off35 k1_t1) a + S1x1x64.size a ≤ S2x128x128.size a
  k1_off36_inb : ∀ i : grid1.Coords, ∀ a, (k1_off36 i) a + S256.size a ≤ S16384.size a
  k1_t2_ok : k1_t2_loop.OK
  k1_off37_inb : ∀ k1_t2 : Fin k1_t2_loop.trips, ∀ a, (k1_off37 k1_t2) a + S16.size a ≤ S320.size a
  k1_off38_inb : ∀ k1_t2 : Fin k1_t2_loop.trips, ∀ a, (k1_off38 k1_t2) a + S1x1x64.size a ≤ S2x128x128.size a
  k1_off40_inb : ∀ k1_t2 : Fin k1_t2_loop.trips, ∀ (r : Fin 2), ∀ a, (k1_off40 k1_t2 (BitVec.ofNat 32 r.val)) a + S1x1x64.size a ≤ S2x128x128.size a
  k1_off42_inb : ∀ k1_t2 : Fin k1_t2_loop.trips, ∀ (r : Fin 2), ∀ a, (k1_off42 k1_t2 (BitVec.ofNat 32 (1 + r.val))) a + S1x1x64.size a ≤ S2x128x128.size a
  k1_off44_inb : ∀ k1_t2 : Fin k1_t2_loop.trips, ∀ (r : Fin 2), ∀ a, (k1_off44 k1_t2 (BitVec.ofNat 32 (2 + r.val))) a + S1x1x64.size a ≤ S2x128x128.size a
  k1_off46_inb : ∀ k1_t2 : Fin k1_t2_loop.trips, ∀ (r : Fin 2), ∀ a, (k1_off46 k1_t2 (BitVec.ofNat 32 (3 + r.val))) a + S1x1x64.size a ≤ S2x128x128.size a
  k1_off48_inb : ∀ k1_t2 : Fin k1_t2_loop.trips, ∀ (r : Fin 2), ∀ a, (k1_off48 k1_t2 (BitVec.ofNat 32 (4 + r.val))) a + S1x1x64.size a ≤ S2x128x128.size a
  k1_off50_inb : ∀ k1_t2 : Fin k1_t2_loop.trips, ∀ (r : Fin 2), ∀ a, (k1_off50 k1_t2 (BitVec.ofNat 32 (5 + r.val))) a + S1x1x64.size a ≤ S2x128x128.size a
  k1_off52_inb : ∀ k1_t2 : Fin k1_t2_loop.trips, ∀ (r : Fin 2), ∀ a, (k1_off52 k1_t2 (BitVec.ofNat 32 (6 + r.val))) a + S1x1x64.size a ≤ S2x128x128.size a
  k1_off54_inb : ∀ k1_t2 : Fin k1_t2_loop.trips, ∀ (r : Fin 2), ∀ a, (k1_off54 k1_t2 (BitVec.ofNat 32 (7 + r.val))) a + S1x1x64.size a ≤ S2x128x128.size a
  k1_off56_inb : ∀ k1_t2 : Fin k1_t2_loop.trips, ∀ (r : Fin 2), ∀ a, (k1_off56 k1_t2 (BitVec.ofNat 32 (8 + r.val))) a + S1x1x64.size a ≤ S2x128x128.size a
  k1_off58_inb : ∀ k1_t2 : Fin k1_t2_loop.trips, ∀ (r : Fin 2), ∀ a, (k1_off58 k1_t2 (BitVec.ofNat 32 (9 + r.val))) a + S1x1x64.size a ≤ S2x128x128.size a
  k1_off60_inb : ∀ k1_t2 : Fin k1_t2_loop.trips, ∀ (r : Fin 2), ∀ a, (k1_off60 k1_t2 (BitVec.ofNat 32 (10 + r.val))) a + S1x1x64.size a ≤ S2x128x128.size a
  k1_off62_inb : ∀ k1_t2 : Fin k1_t2_loop.trips, ∀ (r : Fin 2), ∀ a, (k1_off62 k1_t2 (BitVec.ofNat 32 (11 + r.val))) a + S1x1x64.size a ≤ S2x128x128.size a
  k1_off64_inb : ∀ k1_t2 : Fin k1_t2_loop.trips, ∀ (r : Fin 2), ∀ a, (k1_off64 k1_t2 (BitVec.ofNat 32 (12 + r.val))) a + S1x1x64.size a ≤ S2x128x128.size a
  k1_off66_inb : ∀ k1_t2 : Fin k1_t2_loop.trips, ∀ (r : Fin 2), ∀ a, (k1_off66 k1_t2 (BitVec.ofNat 32 (13 + r.val))) a + S1x1x64.size a ≤ S2x128x128.size a
  k1_off68_inb : ∀ k1_t2 : Fin k1_t2_loop.trips, ∀ (r : Fin 2), ∀ a, (k1_off68 k1_t2 (BitVec.ofNat 32 (14 + r.val))) a + S1x1x64.size a ≤ S2x128x128.size a
  k1_off70_inb : ∀ k1_t2 : Fin k1_t2_loop.trips, ∀ a, (k1_off70 k1_t2) a + S1x1x64.size a ≤ S2x128x128.size a
  k1_t3_ok : k1_t3_loop.OK
  k1_off71_inb : ∀ k1_t3 : Fin k1_t3_loop.trips, ∀ (r : Fin 16), ∀ a, (k1_off71 k1_t3 (BitVec.ofNat 32 r.val)) a + S1x1x64.size a ≤ S2x128x128.size a
  k1_mult1_dvd : ∀ i : grid1.Coords, 8 ∣ (k1_mult1 i).toNat
  k1_off72_inb : ∀ i : grid1.Coords, ∀ a, (k1_off72 i) a + S128x128.size a ≤ S8192x128.size a
  k1_off73_inb : ∀ i : grid1.Coords, ∀ a, (k1_off73 i) a + S320.size a ≤ S327680.size a
  k1_t4_ok : k1_t4_loop.OK
  k1_off74_inb : ∀ k1_t4 : Fin k1_t4_loop.trips, ∀ a, (k1_off74 k1_t4) a + S16.size a ≤ S320.size a
  k1_off75_inb : ∀ k1_t4 : Fin k1_t4_loop.trips, ∀ a, (k1_off75 k1_t4) a + S1x1x64.size a ≤ S2x16x1280.size a
  k1_off77_inb : ∀ k1_t4 : Fin k1_t4_loop.trips, ∀ (r : Fin 2), ∀ a, (k1_off77 k1_t4 (BitVec.ofNat 32 r.val)) a + S1x1x64.size a ≤ S2x16x1280.size a
  k1_off79_inb : ∀ k1_t4 : Fin k1_t4_loop.trips, ∀ (r : Fin 2), ∀ a, (k1_off79 k1_t4 (BitVec.ofNat 32 (1 + r.val))) a + S1x1x64.size a ≤ S2x16x1280.size a
  k1_off81_inb : ∀ k1_t4 : Fin k1_t4_loop.trips, ∀ (r : Fin 2), ∀ a, (k1_off81 k1_t4 (BitVec.ofNat 32 (2 + r.val))) a + S1x1x64.size a ≤ S2x16x1280.size a
  k1_off83_inb : ∀ k1_t4 : Fin k1_t4_loop.trips, ∀ (r : Fin 2), ∀ a, (k1_off83 k1_t4 (BitVec.ofNat 32 (3 + r.val))) a + S1x1x64.size a ≤ S2x16x1280.size a
  k1_off85_inb : ∀ k1_t4 : Fin k1_t4_loop.trips, ∀ (r : Fin 2), ∀ a, (k1_off85 k1_t4 (BitVec.ofNat 32 (4 + r.val))) a + S1x1x64.size a ≤ S2x16x1280.size a
  k1_off87_inb : ∀ k1_t4 : Fin k1_t4_loop.trips, ∀ (r : Fin 2), ∀ a, (k1_off87 k1_t4 (BitVec.ofNat 32 (5 + r.val))) a + S1x1x64.size a ≤ S2x16x1280.size a
  k1_off89_inb : ∀ k1_t4 : Fin k1_t4_loop.trips, ∀ (r : Fin 2), ∀ a, (k1_off89 k1_t4 (BitVec.ofNat 32 (6 + r.val))) a + S1x1x64.size a ≤ S2x16x1280.size a
  k1_off91_inb : ∀ k1_t4 : Fin k1_t4_loop.trips, ∀ (r : Fin 2), ∀ a, (k1_off91 k1_t4 (BitVec.ofNat 32 (7 + r.val))) a + S1x1x64.size a ≤ S2x16x1280.size a
  k1_off93_inb : ∀ k1_t4 : Fin k1_t4_loop.trips, ∀ (r : Fin 2), ∀ a, (k1_off93 k1_t4 (BitVec.ofNat 32 (8 + r.val))) a + S1x1x64.size a ≤ S2x16x1280.size a
  k1_off95_inb : ∀ k1_t4 : Fin k1_t4_loop.trips, ∀ (r : Fin 2), ∀ a, (k1_off95 k1_t4 (BitVec.ofNat 32 (9 + r.val))) a + S1x1x64.size a ≤ S2x16x1280.size a
  k1_off97_inb : ∀ k1_t4 : Fin k1_t4_loop.trips, ∀ (r : Fin 2), ∀ a, (k1_off97 k1_t4 (BitVec.ofNat 32 (10 + r.val))) a + S1x1x64.size a ≤ S2x16x1280.size a
  k1_off99_inb : ∀ k1_t4 : Fin k1_t4_loop.trips, ∀ (r : Fin 2), ∀ a, (k1_off99 k1_t4 (BitVec.ofNat 32 (11 + r.val))) a + S1x1x64.size a ≤ S2x16x1280.size a
  k1_off101_inb : ∀ k1_t4 : Fin k1_t4_loop.trips, ∀ (r : Fin 2), ∀ a, (k1_off101 k1_t4 (BitVec.ofNat 32 (12 + r.val))) a + S1x1x64.size a ≤ S2x16x1280.size a
  k1_off103_inb : ∀ k1_t4 : Fin k1_t4_loop.trips, ∀ (r : Fin 2), ∀ a, (k1_off103 k1_t4 (BitVec.ofNat 32 (13 + r.val))) a + S1x1x64.size a ≤ S2x16x1280.size a
  k1_off105_inb : ∀ k1_t4 : Fin k1_t4_loop.trips, ∀ (r : Fin 2), ∀ a, (k1_off105 k1_t4 (BitVec.ofNat 32 (14 + r.val))) a + S1x1x64.size a ≤ S2x16x1280.size a
  k1_off107_inb : ∀ k1_t4 : Fin k1_t4_loop.trips, ∀ a, (k1_off107 k1_t4) a + S1x1x64.size a ≤ S2x16x1280.size a
  k1_t5_ok : k1_t5_loop.OK
  k1_off108_inb : ∀ k1_t5 : Fin k1_t5_loop.trips, ∀ (r : Fin 16), ∀ a, (k1_off108 k1_t5 (BitVec.ofNat 32 r.val)) a + S1x1x64.size a ≤ S2x128x128.size a
  k1_mult2_dvd : ∀ i : grid1.Coords, 8 ∣ (k1_mult2 i).toNat
  k1_off109_inb : ∀ i : grid1.Coords, ∀ a, (k1_off109 i) a + S128x128.size a ≤ S8192x128.size a
  k1_off110_inb : ∀ i : grid1.Coords, ∀ a, (k1_off110 i) a + S320.size a ≤ S327680.size a
  k1_t6_ok : k1_t6_loop.OK
  k1_off111_inb : ∀ k1_t6 : Fin k1_t6_loop.trips, ∀ a, (k1_off111 k1_t6) a + S16.size a ≤ S320.size a
  k1_off112_inb : ∀ k1_t6 : Fin k1_t6_loop.trips, ∀ a, (k1_off112 k1_t6) a + S1x1x64.size a ≤ S2x16x1280.size a
  k1_off114_inb : ∀ k1_t6 : Fin k1_t6_loop.trips, ∀ (r : Fin 2), ∀ a, (k1_off114 k1_t6 (BitVec.ofNat 32 r.val)) a + S1x1x64.size a ≤ S2x16x1280.size a
  k1_off116_inb : ∀ k1_t6 : Fin k1_t6_loop.trips, ∀ (r : Fin 2), ∀ a, (k1_off116 k1_t6 (BitVec.ofNat 32 (1 + r.val))) a + S1x1x64.size a ≤ S2x16x1280.size a
  k1_off118_inb : ∀ k1_t6 : Fin k1_t6_loop.trips, ∀ (r : Fin 2), ∀ a, (k1_off118 k1_t6 (BitVec.ofNat 32 (2 + r.val))) a + S1x1x64.size a ≤ S2x16x1280.size a
  k1_off120_inb : ∀ k1_t6 : Fin k1_t6_loop.trips, ∀ (r : Fin 2), ∀ a, (k1_off120 k1_t6 (BitVec.ofNat 32 (3 + r.val))) a + S1x1x64.size a ≤ S2x16x1280.size a
  k1_off122_inb : ∀ k1_t6 : Fin k1_t6_loop.trips, ∀ (r : Fin 2), ∀ a, (k1_off122 k1_t6 (BitVec.ofNat 32 (4 + r.val))) a + S1x1x64.size a ≤ S2x16x1280.size a
  k1_off124_inb : ∀ k1_t6 : Fin k1_t6_loop.trips, ∀ (r : Fin 2), ∀ a, (k1_off124 k1_t6 (BitVec.ofNat 32 (5 + r.val))) a + S1x1x64.size a ≤ S2x16x1280.size a
  k1_off126_inb : ∀ k1_t6 : Fin k1_t6_loop.trips, ∀ (r : Fin 2), ∀ a, (k1_off126 k1_t6 (BitVec.ofNat 32 (6 + r.val))) a + S1x1x64.size a ≤ S2x16x1280.size a
  k1_off128_inb : ∀ k1_t6 : Fin k1_t6_loop.trips, ∀ (r : Fin 2), ∀ a, (k1_off128 k1_t6 (BitVec.ofNat 32 (7 + r.val))) a + S1x1x64.size a ≤ S2x16x1280.size a
  k1_off130_inb : ∀ k1_t6 : Fin k1_t6_loop.trips, ∀ (r : Fin 2), ∀ a, (k1_off130 k1_t6 (BitVec.ofNat 32 (8 + r.val))) a + S1x1x64.size a ≤ S2x16x1280.size a
  k1_off132_inb : ∀ k1_t6 : Fin k1_t6_loop.trips, ∀ (r : Fin 2), ∀ a, (k1_off132 k1_t6 (BitVec.ofNat 32 (9 + r.val))) a + S1x1x64.size a ≤ S2x16x1280.size a
  k1_off134_inb : ∀ k1_t6 : Fin k1_t6_loop.trips, ∀ (r : Fin 2), ∀ a, (k1_off134 k1_t6 (BitVec.ofNat 32 (10 + r.val))) a + S1x1x64.size a ≤ S2x16x1280.size a
  k1_off136_inb : ∀ k1_t6 : Fin k1_t6_loop.trips, ∀ (r : Fin 2), ∀ a, (k1_off136 k1_t6 (BitVec.ofNat 32 (11 + r.val))) a + S1x1x64.size a ≤ S2x16x1280.size a
  k1_off138_inb : ∀ k1_t6 : Fin k1_t6_loop.trips, ∀ (r : Fin 2), ∀ a, (k1_off138 k1_t6 (BitVec.ofNat 32 (12 + r.val))) a + S1x1x64.size a ≤ S2x16x1280.size a
  k1_off140_inb : ∀ k1_t6 : Fin k1_t6_loop.trips, ∀ (r : Fin 2), ∀ a, (k1_off140 k1_t6 (BitVec.ofNat 32 (13 + r.val))) a + S1x1x64.size a ≤ S2x16x1280.size a
  k1_off142_inb : ∀ k1_t6 : Fin k1_t6_loop.trips, ∀ (r : Fin 2), ∀ a, (k1_off142 k1_t6 (BitVec.ofNat 32 (14 + r.val))) a + S1x1x64.size a ≤ S2x16x1280.size a
  k1_off144_inb : ∀ k1_t6 : Fin k1_t6_loop.trips, ∀ a, (k1_off144 k1_t6) a + S1x1x64.size a ≤ S2x16x1280.size a
  k1_t7_ok : k1_t7_loop.OK
  k1_t8_ok : k1_t8_loop.OK
  k1_off145_inb : ∀ k1_t8 : Fin k1_t8_loop.trips, ∀ (r : Fin 16), ∀ a, (k1_off145 k1_t8 (BitVec.ofNat 32 r.val)) a + S1x1x64.size a ≤ S2x16x1280.size a
  k1_mult3_dvd : ∀ (i : grid1.Coords) (k1_t7 : Fin k1_t7_loop.trips), 8 ∣ (k1_mult3 i k1_t7).toNat
  k1_off146_inb : ∀ (i : grid1.Coords) (k1_t7 : Fin k1_t7_loop.trips), ∀ (r : Fin 2), ∀ a, (k1_off146 i k1_t7 (BitVec.ofNat 32 r.val)) a + S16x1280.size a ≤ S16384x1280.size a
  k1_off147_inb : ∀ (i : grid1.Coords) (k1_t7 : Fin k1_t7_loop.trips), ∀ (r : Fin 2), ∀ a, (k1_off147 i k1_t7 (BitVec.ofNat 32 r.val)) a + S320.size a ≤ S327680.size a
  k1_t9_ok : k1_t9_loop.OK
  k1_off148_inb : ∀ k1_t9 : Fin k1_t9_loop.trips, ∀ a, (k1_off148 k1_t9) a + S16.size a ≤ S320.size a
  k1_off149_inb : ∀ k1_t9 : Fin k1_t9_loop.trips, ∀ a, (k1_off149 k1_t9) a + S1x1x64.size a ≤ S2x16x1280.size a
  k1_off151_inb : ∀ k1_t9 : Fin k1_t9_loop.trips, ∀ (r : Fin 2), ∀ a, (k1_off151 k1_t9 (BitVec.ofNat 32 r.val)) a + S1x1x64.size a ≤ S2x16x1280.size a
  k1_off153_inb : ∀ k1_t9 : Fin k1_t9_loop.trips, ∀ (r : Fin 2), ∀ a, (k1_off153 k1_t9 (BitVec.ofNat 32 (1 + r.val))) a + S1x1x64.size a ≤ S2x16x1280.size a
  k1_off155_inb : ∀ k1_t9 : Fin k1_t9_loop.trips, ∀ (r : Fin 2), ∀ a, (k1_off155 k1_t9 (BitVec.ofNat 32 (2 + r.val))) a + S1x1x64.size a ≤ S2x16x1280.size a
  k1_off157_inb : ∀ k1_t9 : Fin k1_t9_loop.trips, ∀ (r : Fin 2), ∀ a, (k1_off157 k1_t9 (BitVec.ofNat 32 (3 + r.val))) a + S1x1x64.size a ≤ S2x16x1280.size a
  k1_off159_inb : ∀ k1_t9 : Fin k1_t9_loop.trips, ∀ (r : Fin 2), ∀ a, (k1_off159 k1_t9 (BitVec.ofNat 32 (4 + r.val))) a + S1x1x64.size a ≤ S2x16x1280.size a
  k1_off161_inb : ∀ k1_t9 : Fin k1_t9_loop.trips, ∀ (r : Fin 2), ∀ a, (k1_off161 k1_t9 (BitVec.ofNat 32 (5 + r.val))) a + S1x1x64.size a ≤ S2x16x1280.size a
  k1_off163_inb : ∀ k1_t9 : Fin k1_t9_loop.trips, ∀ (r : Fin 2), ∀ a, (k1_off163 k1_t9 (BitVec.ofNat 32 (6 + r.val))) a + S1x1x64.size a ≤ S2x16x1280.size a
  k1_off165_inb : ∀ k1_t9 : Fin k1_t9_loop.trips, ∀ (r : Fin 2), ∀ a, (k1_off165 k1_t9 (BitVec.ofNat 32 (7 + r.val))) a + S1x1x64.size a ≤ S2x16x1280.size a
  k1_off167_inb : ∀ k1_t9 : Fin k1_t9_loop.trips, ∀ (r : Fin 2), ∀ a, (k1_off167 k1_t9 (BitVec.ofNat 32 (8 + r.val))) a + S1x1x64.size a ≤ S2x16x1280.size a
  k1_off169_inb : ∀ k1_t9 : Fin k1_t9_loop.trips, ∀ (r : Fin 2), ∀ a, (k1_off169 k1_t9 (BitVec.ofNat 32 (9 + r.val))) a + S1x1x64.size a ≤ S2x16x1280.size a
  k1_off171_inb : ∀ k1_t9 : Fin k1_t9_loop.trips, ∀ (r : Fin 2), ∀ a, (k1_off171 k1_t9 (BitVec.ofNat 32 (10 + r.val))) a + S1x1x64.size a ≤ S2x16x1280.size a
  k1_off173_inb : ∀ k1_t9 : Fin k1_t9_loop.trips, ∀ (r : Fin 2), ∀ a, (k1_off173 k1_t9 (BitVec.ofNat 32 (11 + r.val))) a + S1x1x64.size a ≤ S2x16x1280.size a
  k1_off175_inb : ∀ k1_t9 : Fin k1_t9_loop.trips, ∀ (r : Fin 2), ∀ a, (k1_off175 k1_t9 (BitVec.ofNat 32 (12 + r.val))) a + S1x1x64.size a ≤ S2x16x1280.size a
  k1_off177_inb : ∀ k1_t9 : Fin k1_t9_loop.trips, ∀ (r : Fin 2), ∀ a, (k1_off177 k1_t9 (BitVec.ofNat 32 (13 + r.val))) a + S1x1x64.size a ≤ S2x16x1280.size a
  k1_off179_inb : ∀ k1_t9 : Fin k1_t9_loop.trips, ∀ (r : Fin 2), ∀ a, (k1_off179 k1_t9 (BitVec.ofNat 32 (14 + r.val))) a + S1x1x64.size a ≤ S2x16x1280.size a
  k1_off181_inb : ∀ k1_t9 : Fin k1_t9_loop.trips, ∀ a, (k1_off181 k1_t9) a + S1x1x64.size a ≤ S2x16x1280.size a
  k1_t10_ok : k1_t10_loop.OK
  k1_off182_inb : ∀ k1_t10 : Fin k1_t10_loop.trips, ∀ (r : Fin 16), ∀ a, (k1_off182 k1_t10 (BitVec.ofNat 32 r.val)) a + S1x1x64.size a ≤ S2x16x1280.size a
  k1_mult4_dvd : ∀ (i : grid1.Coords) (k1_t7 : Fin k1_t7_loop.trips), 8 ∣ (k1_mult4 i k1_t7).toNat
  k1_t11_ok : k1_t11_loop.OK
  k1_off183_inb : ∀ k1_t11 : Fin k1_t11_loop.trips, ∀ a, (k1_off183 k1_t11) a + S16.size a ≤ S320.size a
  k1_off184_inb : ∀ k1_t11 : Fin k1_t11_loop.trips, ∀ a, (k1_off184 k1_t11) a + S1x1x64.size a ≤ S2x16x1280.size a
  k1_off186_inb : ∀ k1_t11 : Fin k1_t11_loop.trips, ∀ (r : Fin 2), ∀ a, (k1_off186 k1_t11 (BitVec.ofNat 32 r.val)) a + S1x1x64.size a ≤ S2x16x1280.size a
  k1_off188_inb : ∀ k1_t11 : Fin k1_t11_loop.trips, ∀ (r : Fin 2), ∀ a, (k1_off188 k1_t11 (BitVec.ofNat 32 (1 + r.val))) a + S1x1x64.size a ≤ S2x16x1280.size a
  k1_off190_inb : ∀ k1_t11 : Fin k1_t11_loop.trips, ∀ (r : Fin 2), ∀ a, (k1_off190 k1_t11 (BitVec.ofNat 32 (2 + r.val))) a + S1x1x64.size a ≤ S2x16x1280.size a
  k1_off192_inb : ∀ k1_t11 : Fin k1_t11_loop.trips, ∀ (r : Fin 2), ∀ a, (k1_off192 k1_t11 (BitVec.ofNat 32 (3 + r.val))) a + S1x1x64.size a ≤ S2x16x1280.size a
  k1_off194_inb : ∀ k1_t11 : Fin k1_t11_loop.trips, ∀ (r : Fin 2), ∀ a, (k1_off194 k1_t11 (BitVec.ofNat 32 (4 + r.val))) a + S1x1x64.size a ≤ S2x16x1280.size a
  k1_off196_inb : ∀ k1_t11 : Fin k1_t11_loop.trips, ∀ (r : Fin 2), ∀ a, (k1_off196 k1_t11 (BitVec.ofNat 32 (5 + r.val))) a + S1x1x64.size a ≤ S2x16x1280.size a
  k1_off198_inb : ∀ k1_t11 : Fin k1_t11_loop.trips, ∀ (r : Fin 2), ∀ a, (k1_off198 k1_t11 (BitVec.ofNat 32 (6 + r.val))) a + S1x1x64.size a ≤ S2x16x1280.size a
  k1_off200_inb : ∀ k1_t11 : Fin k1_t11_loop.trips, ∀ (r : Fin 2), ∀ a, (k1_off200 k1_t11 (BitVec.ofNat 32 (7 + r.val))) a + S1x1x64.size a ≤ S2x16x1280.size a
  k1_off202_inb : ∀ k1_t11 : Fin k1_t11_loop.trips, ∀ (r : Fin 2), ∀ a, (k1_off202 k1_t11 (BitVec.ofNat 32 (8 + r.val))) a + S1x1x64.size a ≤ S2x16x1280.size a
  k1_off204_inb : ∀ k1_t11 : Fin k1_t11_loop.trips, ∀ (r : Fin 2), ∀ a, (k1_off204 k1_t11 (BitVec.ofNat 32 (9 + r.val))) a + S1x1x64.size a ≤ S2x16x1280.size a
  k1_off206_inb : ∀ k1_t11 : Fin k1_t11_loop.trips, ∀ (r : Fin 2), ∀ a, (k1_off206 k1_t11 (BitVec.ofNat 32 (10 + r.val))) a + S1x1x64.size a ≤ S2x16x1280.size a
  k1_off208_inb : ∀ k1_t11 : Fin k1_t11_loop.trips, ∀ (r : Fin 2), ∀ a, (k1_off208 k1_t11 (BitVec.ofNat 32 (11 + r.val))) a + S1x1x64.size a ≤ S2x16x1280.size a
  k1_off210_inb : ∀ k1_t11 : Fin k1_t11_loop.trips, ∀ (r : Fin 2), ∀ a, (k1_off210 k1_t11 (BitVec.ofNat 32 (12 + r.val))) a + S1x1x64.size a ≤ S2x16x1280.size a
  k1_off212_inb : ∀ k1_t11 : Fin k1_t11_loop.trips, ∀ (r : Fin 2), ∀ a, (k1_off212 k1_t11 (BitVec.ofNat 32 (13 + r.val))) a + S1x1x64.size a ≤ S2x16x1280.size a
  k1_off214_inb : ∀ k1_t11 : Fin k1_t11_loop.trips, ∀ (r : Fin 2), ∀ a, (k1_off214 k1_t11 (BitVec.ofNat 32 (14 + r.val))) a + S1x1x64.size a ≤ S2x16x1280.size a
  k1_off216_inb : ∀ k1_t11 : Fin k1_t11_loop.trips, ∀ a, (k1_off216 k1_t11) a + S1x1x64.size a ≤ S2x16x1280.size a
  k1_t12_ok : k1_t12_loop.OK
  k1_off217_inb : ∀ k1_t12 : Fin k1_t12_loop.trips, ∀ (r : Fin 16), ∀ a, (k1_off217 k1_t12 (BitVec.ofNat 32 r.val)) a + S1x1x64.size a ≤ S2x16x1280.size a
  k1_mult5_dvd : ∀ i : grid1.Coords, 8 ∣ (k1_mult5 i).toNat
  k1_off218_inb : ∀ i : grid1.Coords, ∀ (r : Fin 2), ∀ a, (k1_off218 i (BitVec.ofNat 32 (480 + 16 * r.val))) a + S16x1280.size a ≤ S16384x1280.size a
  k1_t13_ok : k1_t13_loop.OK
  k1_off219_inb : ∀ k1_t13 : Fin k1_t13_loop.trips, ∀ (r : Fin 16), ∀ a, (k1_off219 k1_t13 (BitVec.ofNat 32 r.val)) a + S1x1x64.size a ≤ S2x16x1280.size a
  k1_mult6_dvd : ∀ i : grid1.Coords, 8 ∣ (k1_mult6 i).toNat

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc1_scratch3 : DmaSems sig S_ := SemArray.consecutive 3 S_ hcc1_scratch3
abbrev cc1_scratch4 : DmaSems sig S_ := SemArray.consecutive 4 S_ hcc1_scratch4
abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
abbrev cc1_scoped4 : DmaSems sig S_ := SemArray.consecutive 9 S_ hcc1_scoped4
abbrev cc1_scoped5 : DmaSems sig S_ := SemArray.consecutive 10 S_ hcc1_scoped5
abbrev cc1_scoped6 : DmaSems sig S_ := SemArray.consecutive 11 S_ hcc1_scoped6
abbrev cc1_scoped7 : DmaSems sig S_ := SemArray.consecutive 12 S_ hcc1_scoped7
abbrev cc1_scoped8 : DmaSems sig S_ := SemArray.consecutive 13 S_ hcc1_scoped8
abbrev cc1_scoped9 : DmaSems sig S_ := SemArray.consecutive 14 S_ hcc1_scoped9
abbrev cc1_scoped10 : DmaSems sig S_ := SemArray.consecutive 15 S_ hcc1_scoped10
abbrev cc1_scoped11 : DmaSems sig S_ := SemArray.consecutive 16 S_ hcc1_scoped11

class Facts : Prop extends Facts₀ where

variable [Facts]
-- ==== ReferenceIdeal.lean ====
abbrev S16384 : Shape := ⟨1, ![16384]⟩
abbrev S327680 : Shape := ⟨1, ![327680]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S327680x1 : Shape := ⟨2, ![327680, 1]⟩
abbrev S327680x64 : Shape := ⟨2, ![327680, 64]⟩
abbrev S16384x20x64 : Shape := ⟨3, ![16384, 20, 64]⟩

abbrev nBuf : Space → Nat
  | .hbm => 75
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S327680, .i32⟩
  | .hbm, ⟨3, _⟩ => ⟨S1000000x64, .f32⟩
  | .hbm, ⟨4, _⟩ => ⟨S1000000x64, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x64, .f32⟩
  | .hbm, ⟨24, _⟩ => ⟨S16384x64, .i1⟩
  | .hbm, ⟨25, _⟩ => ⟨S_, .f32⟩
  | .hbm, ⟨26, _⟩ => ⟨S16384x64, .f32⟩
  | .hbm, ⟨27, _⟩ => ⟨S16384x64, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x64, .f32⟩
  | .hbm, ⟨47, _⟩ => ⟨S16384x64, .i1⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S_, .i32⟩
  | .hbm, ⟨52, _⟩ => ⟨S327680, .i32⟩
  | .hbm, ⟨53, _⟩ => ⟨S327680, .i1⟩
  | .hbm, ⟨54, _⟩ => ⟨S_, .i32⟩
  | .hbm, ⟨55, _⟩ => ⟨S327680, .i32⟩
  | .hbm, ⟨56, _⟩ => ⟨S327680, .i32⟩
  | .hbm, ⟨57, _⟩ => ⟨S327680, .i32⟩
  | .hbm, ⟨58, _⟩ => ⟨S327680x1, .i32⟩
  | .hbm, ⟨59, _⟩ => ⟨S1, .i32⟩
  | .hbm, ⟨60, _⟩ => ⟨S_, .i32⟩
  | .hbm, ⟨61, _⟩ => ⟨S327680x1, .i32⟩
  | .hbm, ⟨62, _⟩ => ⟨S327680x1, .i1⟩
  | .hbm, ⟨63, _⟩ => ⟨S1x1, .i32⟩
  | .hbm, ⟨64, _⟩ => ⟨S327680x1, .i32⟩
  | .hbm, ⟨65, _⟩ => ⟨S327680x1, .i1⟩
  | .hbm, ⟨66, _⟩ => ⟨S327680x1, .i1⟩
  | .hbm, ⟨67, _⟩ => ⟨S_, .i1⟩
  | .hbm, ⟨68, _⟩ => ⟨S327680, .i1⟩
  | .hbm, ⟨69, _⟩ => ⟨S327680x64, .f32⟩
  | .hbm, ⟨70, _⟩ => ⟨S327680x64, .i1⟩
  | .hbm, ⟨71, _⟩ => ⟨S_, .f32⟩
  | .hbm, ⟨72, _⟩ => ⟨S327680x64, .f32⟩
  | .hbm, ⟨73, _⟩ => ⟨S327680x64, .f32⟩
  | .hbm, ⟨74, _⟩ => ⟨S16384x20x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S_S327680 : S_.BroadcastsInDim S327680 (![] : Fin 0 → Fin S327680.rank)
  bcast_S327680_S327680x1_0 : S327680.BroadcastsInDim S327680x1 (![0] : Fin 1 → Fin S327680x1.rank)
  bcast_S_S327680x1 : S_.BroadcastsInDim S327680x1 (![] : Fin 0 → Fin S327680x1.rank)
  bcast_S1x1_S327680x1_0_1 : S1x1.BroadcastsInDim S327680x1 (![0, 1] : Fin 2 → Fin S327680x1.rank)
  reducesTo_S327680x1_S327680_d1 : S327680x1.ReducesTo [1] S327680
  bcast_S327680_S327680x64_0 : S327680.BroadcastsInDim S327680x64 (![0] : Fin 1 → Fin S327680x64.rank)
  bcast_S_S327680x64 : S_.BroadcastsInDim S327680x64 (![] : Fin 0 → Fin S327680x64.rank)
  shapeCasts_S327680x64_S16384x20x64 : S327680x64.ShapeCasts S16384x20x64
  gather_S1000000x64_S16384x1_S16384x64_1_0_n_n_0_1_164_wf : GatherDims.WF S1000000x64 S16384x1 S16384x64 [1] [0] [] [0] [] 1 ![1, 64]
  gather_S1000000x64_S327680x1_S327680x64_1_0_n_n_0_1_164_wf : GatherDims.WF S1000000x64 S327680x1 S327680x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000x64_S327680x1_S327680x64_1_0_n_n_0_1_164 : GatherDims S1000000x64 S327680x1 S327680x64 where
  offsetDims := [1]
  collapsedSliceDims := [0]
  operandBatchingDims := []
  startIndicesBatchingDims := []
  startIndexMap := [0]
  indexVectorDim := 1
  sliceSizes := ![1, 64]
  wf := gather_S1000000x64_S327680x1_S327680x64_1_0_n_n_0_1_164_wf

class Facts : Prop extends Facts₀ where

variable [Facts]
-- ==== Proof.Spec.lean ====
/-
  The three results as plain functions of the argument arrays.

  Each result is an embedding lookup: entry (b, j) of the first result is entry (input_words[b], j) of the first
  table; entry (b, j) of the second is entry (output_words[b], j) of the second table; entry (b, s, j) of the third is
  entry (noise_words[20 b + s], j) of the second table. A word is read as a row number by its value as a natural
  number, reduced modulo the table's 1,000,000 rows so that the function is total; on words below 1,000,000 (the
  precondition) the reduction is the identity.
-/
import Idealize.ShloMosaic.PureOps.Ideal
import Idealize.ShloMosaic.Lib.ValueIdx

namespace Cert.Proof.Spec

open Idealize.ShloMosaic Idealize.ShloMosaic.ValueIdx

/-- The row of a 1,000,000-row table a 32-bit word names. -/
def rowOf (w : BitVec 32) : Fin 1000000 := ⟨w.toNat % 1000000, Nat.mod_lt _ (by decide)⟩

theorem rowOf_val_of_lt {w : BitVec 32} (h : w.toNat < 1000000) : (rowOf w).val = w.toNat := Nat.mod_eq_of_lt h

/-- Position 20 b + s of the 327,680 noise words. -/
def noisePos (b : Fin 16384) (s : Fin 20) : Fin 327680 := ⟨20 * b.val + s.val, by have := b.isLt; have := s.isLt; omega⟩

/-- Entry (b, j) of a lookup of 16,384 words in a table of 64 columns. -/
def take2 {α : Type} (tbl : (⟨2, ![1000000, 64]⟩ : Shape).Idx → α) (idx : (⟨1, ![16384]⟩ : Shape).Idx → BitVec 32) :
    (⟨2, ![16384, 64]⟩ : Shape).Idx → α :=
  fun y => tbl (ix2 (rowOf (idx (ix1 (y 0)))) (y 1))

/-- Entry (b, s, j) of the lookup of the noise words, twenty per batch row. -/
def take3 {α : Type} (tbl : (⟨2, ![1000000, 64]⟩ : Shape).Idx → α) (idx : (⟨1, ![327680]⟩ : Shape).Idx → BitVec 32) :
    (⟨3, ![16384, 20, 64]⟩ : Shape).Idx → α :=
  fun y => tbl (ix2 (rowOf (idx (ix1 (noisePos (y 0) (y 1))))) (y 2))

end Cert.Proof.Spec
-- ==== Proof.KISetup.lean ====
/-
  The launch data of the idealized kernel program, shared by the two kernels' body proofs and the launch.

  The program is two SparseCore calls, each a vector-subcore kernel on 2 SparseCores x 16 vector subcores; worker
  w = 2 s + c (subcore s of SparseCore c) owns a block of consecutive rows of each output: rows 256 w .. 256 w + 255 of
  the first call's [8192, 128] output and of the second call's first output, rows 512 w .. 512 w + 511 of the second
  call's [16384, 1280] output. The index vectors and the tables are only read: every reader holds a read share of the
  whole array, the TensorCore keeps one of each for the end. Each output block travels to its worker at the launch
  contents and comes back at the lookup's values.
-/
import proofs.«215896_g38397007626377_fold_wed_m_942_26_alg».proof.KernelIdeal
import proofs.«215896_g38397007626377_fold_wed_m_942_26_alg».proof.Proof.Gen.KernelIdeal
import proofs.«215896_g38397007626377_fold_wed_m_942_26_alg».proof.Proof.Spec
import Idealize.ShloMosaic.Lib.SparseCore.Launch
import Idealize.ShloMosaic.Lib.Batch
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The launch memory and the arrays -/

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev o1Loc (d : Dev nD) : Loc nD τ sig := (SparseCore.T d).loc main_v0
abbrev o2Loc (d : Dev nD) : Loc nD τ sig := (SparseCore.T d).loc main_v1_0
abbrev o3Loc (d : Dev nD) : Loc nD τ sig := (SparseCore.T d).loc main_v1_1

/-- What the precondition gives the proof: every index word names a row of its table. -/
def PreOK : Prop := ∀ d : Dev nD,
  (∀ i, (m (a0Loc d) i).toNat < 1000000) ∧ (∀ i, (m (a1Loc d) i).toNat < 1000000) ∧ (∀ i, (m (a2Loc d) i).toNat < 1000000)

/-! ## Read shares -/

/-- The read share SparseCore number `c` gets of an array only read, and the one its subcore number `i` gets of that. -/
abbrev qC (c : ℕ) : PosShare TreeShare := Transfers.shareTokN fullShare c
abbrev qT (c i : ℕ) : PosShare TreeShare := Transfers.shareTokN (qC c) i
/-- What the TensorCore keeps. -/
abbrev qKeep : PosShare TreeShare := Transfers.shareDrop fullShare 2

/-! ## The workers' blocks of rows -/

/-- Worker 2 s + c. -/
def wid (c : Fin 2) (s : Fin 16) : Fin 32 := ⟨2 * s.val + c.val, by have := c.isLt; have := s.isLt; omega⟩

theorem hdivA : 32 ∣ S8192x128.size 0 := ⟨256, rfl⟩
theorem hdivB : 32 ∣ S16384x1280.size 0 := ⟨512, rfl⟩
/-- Worker `w`'s 256 rows of an [8192, 128] output; its 512 rows of the [16384, 1280] one. -/
abbrev blkA (w : Fin 32) : Finset S8192x128.Idx := (Rect.part (s := S8192x128) (a₀ := 0) hdivA w).set
abbrev blkB (w : Fin 32) : Finset S16384x1280.Idx := (Rect.part (s := S16384x1280) (a₀ := 0) hdivB w).set
/-- A SparseCore's rows: its sixteen workers'. -/
def coreA (c : Fin 2) : Finset S8192x128.Idx := (Finset.univ : Finset (Fin 16)).biUnion fun s => blkA (wid c s)
def coreB (c : Fin 2) : Finset S16384x1280.Idx := (Finset.univ : Finset (Fin 16)).biUnion fun s => blkB (wid c s)

/-! ## The results in the kernels' layout -/

/-- Row r of an [8192, 128] output holds lookups 2 r (columns 0..63) and 2 r + 1 (columns 64..127). -/
def pairPos (y : S8192x128.Idx) : Fin 16384 := ⟨2 * (y 0).val + (y 1).val / 64, by
  have h0 : (y 0).val < 8192 := (y 0).isLt; have h1 : (y 1).val < 128 := (y 1).isLt; omega⟩
def col64 (n : ℕ) (h : 0 < n) (j : Fin (n * 64)) : Fin 64 := ⟨j.val % 64, Nat.mod_lt _ (by decide)⟩
def packA {α : Type} (g : (⟨2, ![16384, 64]⟩ : Shape).Idx → α) : S8192x128.Idx → α :=
  fun y => g (ix2 (pairPos y) ⟨(y 1).val % 64, Nat.mod_lt _ (by decide)⟩)
/-- Row b of the [16384, 1280] output holds its twenty lookups side by side, 64 columns each. -/
def packB {α : Type} (g : (⟨3, ![16384, 20, 64]⟩ : Shape).Idx → α) : S16384x1280.Idx → α :=
  fun y => g (ix3 (y 0) ⟨(y 1).val / 64, by have h1 : (y 1).val < 1280 := (y 1).isLt; omega⟩ ⟨(y 1).val % 64, Nat.mod_lt _ (by decide)⟩)

def G1 (d : Dev nD) : Buf (Elt F) (o1Loc d) := packA (Spec.take2 (m (a3Loc d)) (m (a0Loc d)))
def G2 (d : Dev nD) : Buf (Elt F) (o2Loc d) := packA (Spec.take2 (m (a4Loc d)) (m (a1Loc d)))
def G3 (d : Dev nD) : Buf (Elt F) (o3Loc d) := packB (Spec.take3 (m (a4Loc d)) (m (a2Loc d)))

/-! ## What the handshakes carry -/

/-- Call 0 (the lookup of the input words) and call 1 (the output and noise words): to a SparseCore (`forCore`) or a
    worker (`forTile`) read shares of the arrays it reads and its rows of the outputs at contents `f`; back, the rows. -/
def inCore (q : Fin 2) (d : Dev nD) (c : Fin 2) : sProp 𝕄 :=
  match q with
  | 0 => iprop((a0Loc d ↦{qC c.val} m (a0Loc d)) ∗ (a3Loc d ↦{qC c.val} m (a3Loc d)) ∗ (o1Loc d ↦[coreA c]{fullShare} m (o1Loc d)))
  | 1 => iprop((a1Loc d ↦{qC c.val} m (a1Loc d)) ∗ (a2Loc d ↦{qC c.val} m (a2Loc d)) ∗ (a4Loc d ↦{qC c.val} m (a4Loc d))
      ∗ (o2Loc d ↦[coreA c]{fullShare} m (o2Loc d)) ∗ (o3Loc d ↦[coreB c]{fullShare} m (o3Loc d)))
def outCore (q : Fin 2) (d : Dev nD) (c : Fin 2) : sProp 𝕄 :=
  match q with
  | 0 => iprop(o1Loc d ↦[coreA c]{fullShare} G1 m d)
  | 1 => iprop((o2Loc d ↦[coreA c]{fullShare} G2 m d) ∗ (o3Loc d ↦[coreB c]{fullShare} G3 m d))
def inTile (q : Fin 2) (d : Dev nD) (c : Fin 2) (s : Fin 16) : sProp 𝕄 :=
  match q with
  | 0 => iprop((a0Loc d ↦{qT c.val s.val} m (a0Loc d)) ∗ (a3Loc d ↦{qT c.val s.val} m (a3Loc d)) ∗ (o1Loc d ↦[blkA (wid c s)]{fullShare} m (o1Loc d)))
  | 1 => iprop((a1Loc d ↦{qT c.val s.val} m (a1Loc d)) ∗ (a2Loc d ↦{qT c.val s.val} m (a2Loc d)) ∗ (a4Loc d ↦{qT c.val s.val} m (a4Loc d))
      ∗ (o2Loc d ↦[blkA (wid c s)]{fullShare} m (o2Loc d)) ∗ (o3Loc d ↦[blkB (wid c s)]{fullShare} m (o3Loc d)))
def outTile (q : Fin 2) (d : Dev nD) (c : Fin 2) (s : Fin 16) : sProp 𝕄 :=
  match q with
  | 0 => iprop(o1Loc d ↦[blkA (wid c s)]{fullShare} G1 m d)
  | 1 => iprop((o2Loc d ↦[blkA (wid c s)]{fullShare} G2 m d) ∗ (o3Loc d ↦[blkB (wid c s)]{fullShare} G3 m d))

def P : (K (F := F)).Pay (nD := nD) (Val := Elt F) (Name := ℕ) (U := UU) where
  st := fun q d c => inCore m q d (Fin.cast (nCore_eq q) c)
  dn := fun q d c => outCore m q d (Fin.cast (nCore_eq q) c)
  go := fun q d c i => inTile m q d (Fin.cast (nCore_eq q) c) (Fin.cast (nSub_eq q) i)
  td := fun q d c i => outTile m q d (Fin.cast (nCore_eq q) c) (Fin.cast (nSub_eq q) i)
  x := fun _ _ => iprop(emp)

instance inCore_storable (q : Fin 2) (d : Dev nD) (c : Fin 2) : BI.Storable (upEmb : UEmb _ 𝕄) (inCore m q d c) := by
  unfold inCore; fin_cases q <;> infer_instance
instance outCore_storable (q : Fin 2) (d : Dev nD) (c : Fin 2) : BI.Storable (upEmb : UEmb _ 𝕄) (outCore m q d c) := by
  unfold outCore; fin_cases q <;> infer_instance
instance inTile_storable (q : Fin 2) (d : Dev nD) (c : Fin 2) (s : Fin 16) : BI.Storable (upEmb : UEmb _ 𝕄) (inTile m q d c s) := by
  unfold inTile; fin_cases q <;> infer_instance
instance outTile_storable (q : Fin 2) (d : Dev nD) (c : Fin 2) (s : Fin 16) : BI.Storable (upEmb : UEmb _ 𝕄) (outTile m q d c s) := by
  unfold outTile; fin_cases q <;> infer_instance

instance P_storable : (P (F := F) m).IsStorable where
  st q d c := by unfold P; infer_instance
  dn q d c := by unfold P; infer_instance
  go q d c i := by unfold P; infer_instance
  td q d c i := by unfold P; infer_instance

end Cert.Proof.KI

end
-- ==== Proof.KILaunchSplit.lean ====
/-
  How a SparseCore's share of a call's operands splits among its sixteen vector subcores, and how their results join.

  A read share of an array only read splits into sixteen smaller read shares (the remainder is dropped: nothing has to
  come back). A SparseCore's rows of an output are by definition the union of its sixteen workers' blocks, which are
  pairwise disjoint because a worker's number determines its subcore.
-/
import proofs.«215896_g38397007626377_fold_wed_m_942_26_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ)

/-! ## The workers' blocks -/

theorem wid_injective (c : Fin 2) : Function.Injective (wid c) := by
  intro s s' h
  have := congrArg Fin.val h
  simp only [wid] at this
  exact Fin.ext (by omega)

theorem wid_inj2 {c c' : Fin 2} {s s' : Fin 16} (h : wid c s = wid c' s') : c = c' ∧ s = s' := by
  have := congrArg Fin.val h
  simp only [wid] at this
  have hc := c.isLt; have hc' := c'.isLt
  exact ⟨Fin.ext (by omega), Fin.ext (by omega)⟩

theorem blkA_disjoint (c : Fin 2) :
    ∀ s ∈ (Finset.univ : Finset (Fin 16)), ∀ s' ∈ (Finset.univ : Finset (Fin 16)), s ≠ s' → Disjoint (blkA (wid c s)) (blkA (wid c s')) :=
  fun _ _ _ _ h => Rect.part_disjoint hdivA fun e => h (wid_injective c e)
theorem blkB_disjoint (c : Fin 2) :
    ∀ s ∈ (Finset.univ : Finset (Fin 16)), ∀ s' ∈ (Finset.univ : Finset (Fin 16)), s ≠ s' → Disjoint (blkB (wid c s)) (blkB (wid c s')) :=
  fun _ _ _ _ h => Rect.part_disjoint hdivB fun e => h (wid_injective c e)

/-- A SparseCore's rows of each output, as its sixteen workers' blocks. -/
theorem o1_core (d : Dev nD) (c : Fin 2) (f : Buf (Elt F) (o1Loc d)) :
    (o1Loc d ↦[coreA c]{fullShare} f : sProp 𝕄) = bigSep Finset.univ fun s : Fin 16 => o1Loc d ↦[blkA (wid c s)]{fullShare} f :=
  pointsTo_biUnion Finset.univ (ℓ := o1Loc d) (fun s : Fin 16 => blkA (wid c s)) (blkA_disjoint c)
theorem o2_core (d : Dev nD) (c : Fin 2) (f : Buf (Elt F) (o2Loc d)) :
    (o2Loc d ↦[coreA c]{fullShare} f : sProp 𝕄) = bigSep Finset.univ fun s : Fin 16 => o2Loc d ↦[blkA (wid c s)]{fullShare} f :=
  pointsTo_biUnion Finset.univ (ℓ := o2Loc d) (fun s : Fin 16 => blkA (wid c s)) (blkA_disjoint c)
theorem o3_core (d : Dev nD) (c : Fin 2) (f : Buf (Elt F) (o3Loc d)) :
    (o3Loc d ↦[coreB c]{fullShare} f : sProp 𝕄) = bigSep Finset.univ fun s : Fin 16 => o3Loc d ↦[blkB (wid c s)]{fullShare} f :=
  pointsTo_biUnion Finset.univ (ℓ := o3Loc d) (fun s : Fin 16 => blkB (wid c s)) (blkB_disjoint c)

/-- A SparseCore's read share of a whole array, dealt to its sixteen subcores. -/
theorem read_deal {ℓ : Loc nD τ sig} (f : Buf (Elt F) ℓ) (c : ℕ) :
    (ℓ ↦{qC c} f : sProp 𝕄) ⊢ bigSep Finset.univ fun s : Fin 16 => ℓ ↦{qT c s.val} f :=
  (Transfers.pointsTo_toks_split (qC c) 16).trans sep_elim_right

/-! ## The two calls' splits over the subcores' own numbering -/

theorem split0 (d : Dev nD) (c : Fin 2) :
    inCore m 0 d c ⊢ |={Set.univ}=> iprop((bigSep Finset.univ fun s : Fin 16 => inTile m 0 d c s)
      ∗ ((bigSep Finset.univ fun s : Fin 16 => outTile m 0 d c s) -∗ outCore m 0 d c)) := by
  show iprop((a0Loc d ↦{qC c.val} m (a0Loc d)) ∗ (a3Loc d ↦{qC c.val} m (a3Loc d)) ∗ (o1Loc d ↦[coreA c]{fullShare} m (o1Loc d)))
    ⊢ |={Set.univ}=> iprop((bigSep Finset.univ fun s : Fin 16 =>
        iprop((a0Loc d ↦{qT c.val s.val} m (a0Loc d)) ∗ (a3Loc d ↦{qT c.val s.val} m (a3Loc d)) ∗ (o1Loc d ↦[blkA (wid c s)]{fullShare} m (o1Loc d))))
      ∗ ((bigSep Finset.univ fun s : Fin 16 => (o1Loc d ↦[blkA (wid c s)]{fullShare} G1 m d)) -∗ (o1Loc d ↦[coreA c]{fullShare} G1 m d)))
  rw [bigSep_sep', bigSep_sep', o1_core, o1_core]
  iintro ⟨H0, H3, Ho⟩
  ihave H0' := (read_deal (m (a0Loc d)) c.val) $$ H0
  ihave H3' := (read_deal (m (a3Loc d)) c.val) $$ H3
  imodintro
  isplitl [H0' H3' Ho]
  · isplitl [H0']; · iexact H0'
    isplitl [H3']; · iexact H3'
    iexact Ho
  iintro H; iexact H

theorem split1 (d : Dev nD) (c : Fin 2) :
    inCore m 1 d c ⊢ |={Set.univ}=> iprop((bigSep Finset.univ fun s : Fin 16 => inTile m 1 d c s)
      ∗ ((bigSep Finset.univ fun s : Fin 16 => outTile m 1 d c s) -∗ outCore m 1 d c)) := by
  show iprop((a1Loc d ↦{qC c.val} m (a1Loc d)) ∗ (a2Loc d ↦{qC c.val} m (a2Loc d)) ∗ (a4Loc d ↦{qC c.val} m (a4Loc d))
      ∗ (o2Loc d ↦[coreA c]{fullShare} m (o2Loc d)) ∗ (o3Loc d ↦[coreB c]{fullShare} m (o3Loc d)))
    ⊢ |={Set.univ}=> iprop((bigSep Finset.univ fun s : Fin 16 =>
        iprop((a1Loc d ↦{qT c.val s.val} m (a1Loc d)) ∗ (a2Loc d ↦{qT c.val s.val} m (a2Loc d)) ∗ (a4Loc d ↦{qT c.val s.val} m (a4Loc d))
          ∗ (o2Loc d ↦[blkA (wid c s)]{fullShare} m (o2Loc d)) ∗ (o3Loc d ↦[blkB (wid c s)]{fullShare} m (o3Loc d))))
      ∗ ((bigSep Finset.univ fun s : Fin 16 => iprop((o2Loc d ↦[blkA (wid c s)]{fullShare} G2 m d) ∗ (o3Loc d ↦[blkB (wid c s)]{fullShare} G3 m d)))
          -∗ iprop((o2Loc d ↦[coreA c]{fullShare} G2 m d) ∗ (o3Loc d ↦[coreB c]{fullShare} G3 m d))))
  rw [bigSep_sep', bigSep_sep', bigSep_sep', bigSep_sep', bigSep_sep', o2_core, o2_core, o3_core, o3_core]
  iintro ⟨H1, H2, H4, Ho2, Ho3⟩
  ihave H1' := (read_deal (m (a1Loc d)) c.val) $$ H1
  ihave H2' := (read_deal (m (a2Loc d)) c.val) $$ H2
  ihave H4' := (read_deal (m (a4Loc d)) c.val) $$ H4
  imodintro
  isplitl [H1' H2' H4' Ho2 Ho3]
  · isplitl [H1']; · iexact H1'
    isplitl [H2']; · iexact H2'
    isplitl [H4']; · iexact H4'
    isplitl [Ho2]; · iexact Ho2
    iexact Ho3
  iintro H; iexact H

/-! ## Over the launch theorem's numbering -/

theorem bigSep_tasks0 (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_tasks1 (Φ : Fin 16 → sProp 𝕄) :
    (bigSep Finset.univ fun i : Fin ((K (F := F)).nSub 1) => Φ (Fin.cast (nSub_eq 1) i)) = bigSep Finset.univ Φ :=
  bigSep_congr fun _ _ => congrArg Φ (Fin.ext rfl)

theorem vecSplit0 : (K (F := F)).VecSplit' (P m) 0 := by
  intro d c
  show inCore m 0 d (Fin.cast (nCore_eq 0) c) ⊢ |={Set.univ}=> iprop(
      (bigSep Finset.univ fun i : Fin ((K (F := F)).nSub 0) => inTile m 0 d (Fin.cast (nCore_eq 0) c) (Fin.cast (nSub_eq 0) i))
      ∗ ((bigSep Finset.univ fun i : Fin ((K (F := F)).nSub 0) => outTile m 0 d (Fin.cast (nCore_eq 0) c) (Fin.cast (nSub_eq 0) i))
          -∗ outCore m 0 d (Fin.cast (nCore_eq 0) c)))
  rw [bigSep_tasks0 (F := F) (fun s => inTile m 0 d (Fin.cast (nCore_eq 0) c) s),
    bigSep_tasks0 (F := F) (fun s => outTile m 0 d (Fin.cast (nCore_eq 0) c) s)]
  exact split0 m d _

theorem vecSplit1 : (K (F := F)).VecSplit' (P m) 1 := by
  intro d c
  show inCore m 1 d (Fin.cast (nCore_eq 1) c) ⊢ |={Set.univ}=> iprop(
      (bigSep Finset.univ fun i : Fin ((K (F := F)).nSub 1) => inTile m 1 d (Fin.cast (nCore_eq 1) c) (Fin.cast (nSub_eq 1) i))
      ∗ ((bigSep Finset.univ fun i : Fin ((K (F := F)).nSub 1) => outTile m 1 d (Fin.cast (nCore_eq 1) c) (Fin.cast (nSub_eq 1) i))
          -∗ outCore m 1 d (Fin.cast (nCore_eq 1) c)))
  rw [bigSep_tasks1 (F := F) (fun s => inTile m 1 d (Fin.cast (nCore_eq 1) c) s),
    bigSep_tasks1 (F := F) (fun s => outTile m 1 d (Fin.cast (nCore_eq 1) c) s)]
  exact split1 m d _

/-- Each call's operands for a SparseCore split into its sixteen tasks' and its results gather from theirs. -/
theorem vecSplit (q : Fin 2) : (K (F := F)).VecSplit' (P m) q :=
  match q with
  | 0 => vecSplit0 m
  | 1 => vecSplit1 m

end Cert.Proof.KI

end
-- ==== Proof.KIReshape.lean ====
/-
  The host reshapes read through the kernels' layout.

  An [8192, 128] array holds two lookups per row, the first in columns 0..63 and the second in columns 64..127; read in
  row-major order as [16384, 64] it is the lookups one per row. A [16384, 1280] array holds a batch row's twenty lookups
  side by side; read as [16384, 20, 64] it is the lookups by batch row and sample.
-/
import proofs.«215896_g38397007626377_fold_wed_m_942_26_alg».proof.Proof.KISetup
import Idealize.ShloMosaic.Lib.Pipeline.Value

namespace Cert.Proof.KI

open Cert.KernelIdeal

open Idealize.ShloMosaic
open Idealize.ShloMosaic.ValueIdx

/-- Entry (b, j) of the [16384, 64] reading is entry (b / 2, 64 (b % 2) + j) of the [8192, 128] array. -/
theorem shapeCast_packA {α : Type} (g : S16384x64.Idx → α) (h : S8192x128.ShapeCasts S16384x64) :
    shapeCast S16384x64 (packA g) h = g := by
  funext y
  have h0 : (y 0).val < 16384 := (y 0).isLt
  have h1 : (y 1).val < 64 := (y 1).isLt
  rw [shapeCast_apply (packA g) h y (ix2 (⟨(y 0).val / 2, by omega⟩ : Fin 8192) (⟨64 * ((y 0).val % 2) + (y 1).val, by omega⟩ : Fin 128))
    (by rw [Shape.rowMajor_val_two, Shape.rowMajor_val_two]
        show (y 0).val / 2 * 128 + (64 * ((y 0).val % 2) + (y 1).val) = (y 0).val * 64 + (y 1).val
        omega)]
  unfold packA
  refine congrArg g ?_
  funext a
  match a with
  | ⟨0, _⟩ =>
    refine Fin.ext ?_
    show 2 * ((y 0).val / 2) + (64 * ((y 0).val % 2) + (y 1).val) / 64 = (y 0).val
    omega
  | ⟨1, _⟩ =>
    refine Fin.ext ?_
    show (64 * ((y 0).val % 2) + (y 1).val) % 64 = (y 1).val
    omega

/-- Entry (b, s, j) of the [16384, 20, 64] reading is entry (b, 64 s + j) of the [16384, 1280] array. -/
theorem shapeCast_packB {α : Type} (g : S16384x20x64.Idx → α) (h : S16384x1280.ShapeCasts S16384x20x64) :
    shapeCast S16384x20x64 (packB g) h = g := by
  funext y
  have h1 : (y 1).val < 20 := (y 1).isLt
  have h2 : (y 2).val < 64 := (y 2).isLt
  rw [shapeCast_apply (packB g) h y (ix2 (y 0) (⟨64 * (y 1).val + (y 2).val, by omega⟩ : Fin 1280))
    (by rw [Shape.rowMajor_val_two, Shape.rowMajor_val_three]
        show (y 0).val * 1280 + (64 * (y 1).val + (y 2).val) = ((y 0).val * 20 + (y 1).val) * 64 + (y 2).val
        omega)]
  unfold packB
  refine congrArg g ?_
  funext a
  match a with
  | ⟨0, _⟩ => rfl
  | ⟨1, _⟩ =>
    refine Fin.ext ?_
    show (64 * (y 1).val + (y 2).val) / 64 = (y 1).val
    omega
  | ⟨2, _⟩ =>
    refine Fin.ext ?_
    show (64 * (y 1).val + (y 2).val) % 64 = (y 2).val
    omega

end Cert.Proof.KI
-- ==== Proof.KILaunchMain.lean ====
/-
  The launch element of the ghost state, and the program's own thread on the TensorCore.

  The TensorCore holds the eleven arrays whole. It keeps a read share of each argument and deals one to each SparseCore;
  each output of a call goes out as the two SparseCores' rows and comes back at the lookup's values in the kernels' layout;
  each host reshape then reads such an output in row-major order, which is the lookup itself.
-/
import proofs.«215896_g38397007626377_fold_wed_m_942_26_alg».proof.Proof.KISetup
import proofs.«215896_g38397007626377_fold_wed_m_942_26_alg».proof.Proof.KILaunchSplit
import proofs.«215896_g38397007626377_fold_wed_m_942_26_alg».proof.Proof.KIReshape
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held wp_hlo_within)

variable {F : FTy → Type}

local notation "𝕄" => MT nD τ sig (HIx 2) (Elt F) ℕ UU ℕ

variable [FloatOps F]
variable (m : (ℓ : Loc nD τ sig) → Buf (Elt F) ℓ) (ρ : Dev nD → PrngReg)

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The two SparseCores' rows make up an output -/

omit [FloatOps F] in
theorem coresA_disjoint : ∀ c ∈ (Finset.univ : Finset (Fin 2)), ∀ c' ∈ (Finset.univ : Finset (Fin 2)), c ≠ c' → Disjoint (coreA c) (coreA c') := by
  intro c _ c' _ h
  unfold coreA
  rw [Finset.disjoint_biUnion_left]; intro s _
  rw [Finset.disjoint_biUnion_right]; intro s' _
  exact Rect.part_disjoint hdivA fun e => h (wid_inj2 e).1
omit [FloatOps F] in
theorem coresB_disjoint : ∀ c ∈ (Finset.univ : Finset (Fin 2)), ∀ c' ∈ (Finset.univ : Finset (Fin 2)), c ≠ c' → Disjoint (coreB c) (coreB c') := by
  intro c _ c' _ h
  unfold coreB
  rw [Finset.disjoint_biUnion_left]; intro s _
  rw [Finset.disjoint_biUnion_right]; intro s' _
  exact Rect.part_disjoint hdivB fun e => h (wid_inj2 e).1

omit [FloatOps F] in
theorem wid_surj (w : Fin 32) : wid ⟨w.val % 2, Nat.mod_lt _ (by decide)⟩ ⟨w.val / 2, by have := w.isLt; omega⟩ = w :=
  Fin.ext (by simp only [wid]; omega)

omit [FloatOps F] in
theorem coresA_cover : (Finset.univ : Finset (Fin 2)).biUnion coreA = Finset.univ := by
  ext i
  simp only [Finset.mem_biUnion, Finset.mem_univ, true_and, iff_true]
  obtain ⟨w, hw⟩ := Rect.exists_mem_part hdivA i
  refine ⟨⟨w.val % 2, Nat.mod_lt _ (by decide)⟩, ?_⟩
  unfold coreA
  rw [Finset.mem_biUnion]
  refine ⟨⟨w.val / 2, by have := w.isLt; omega⟩, Finset.mem_univ _, ?_⟩
  rw [wid_surj w]; exact hw
omit [FloatOps F] in
theorem coresB_cover : (Finset.univ : Finset (Fin 2)).biUnion coreB = Finset.univ := by
  ext i
  simp only [Finset.mem_biUnion, Finset.mem_univ, true_and, iff_true]
  obtain ⟨w, hw⟩ := Rect.exists_mem_part hdivB i
  refine ⟨⟨w.val % 2, Nat.mod_lt _ (by decide)⟩, ?_⟩
  unfold coreB
  rw [Finset.mem_biUnion]
  refine ⟨⟨w.val / 2, by have := w.isLt; omega⟩, Finset.mem_univ _, ?_⟩
  rw [wid_surj w]; exact hw

omit [FloatOps F] in
theorem o1_cores (d : Dev nD) (f : Buf (Elt F) (o1Loc d)) :
    (o1Loc d ↦{fullShare} f : sProp 𝕄) = iprop((o1Loc d ↦[coreA 0]{fullShare} f) ∗ (o1Loc d ↦[coreA 1]{fullShare} f)) := by
  rw [← coresA_cover, pointsTo_biUnion Finset.univ (ℓ := o1Loc d) coreA coresA_disjoint, bigSep_univ_two]
omit [FloatOps F] in
theorem o2_cores (d : Dev nD) (f : Buf (Elt F) (o2Loc d)) :
    (o2Loc d ↦{fullShare} f : sProp 𝕄) = iprop((o2Loc d ↦[coreA 0]{fullShare} f) ∗ (o2Loc d ↦[coreA 1]{fullShare} f)) := by
  rw [← coresA_cover, pointsTo_biUnion Finset.univ (ℓ := o2Loc d) coreA coresA_disjoint, bigSep_univ_two]
omit [FloatOps F] in
theorem o3_cores (d : Dev nD) (f : Buf (Elt F) (o3Loc d)) :
    (o3Loc d ↦{fullShare} f : sProp 𝕄) = iprop((o3Loc d ↦[coreB 0]{fullShare} f) ∗ (o3Loc d ↦[coreB 1]{fullShare} f)) := by
  rw [← coresB_cover, pointsTo_biUnion Finset.univ (ℓ := o3Loc d) coreB coresB_disjoint, bigSep_univ_two]

omit [FloatOps F] in
/-- An argument's full share: what the TensorCore keeps, and a read share for each SparseCore. -/
theorem arg_deal {ℓ : Loc nD τ sig} (f : Buf (Elt F) ℓ) :
    (ℓ ↦{fullShare} f : sProp 𝕄) ⊢ iprop((ℓ ↦{qKeep} f) ∗ (ℓ ↦{qC 0} f) ∗ (ℓ ↦{qC 1} f)) := by
  refine (Transfers.pointsTo_toks_split fullShare 2).trans ?_
  rw [bigSep_univ_two]
  exact .rfl

/-! ## The TensorCore's arrays -/

abbrev r2Loc (d : Dev nD) : Loc nD τ sig := (SparseCore.T d).loc main_v2
abbrev r3Loc (d : Dev nD) : Loc nD τ sig := (SparseCore.T d).loc main_v3
abbrev r4Loc (d : Dev nD) : Loc nD τ sig := (SparseCore.T d).loc main_v4

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (a4Loc d ↦{fullShare} W main_arg4) ∗ (o1Loc d ↦{fullShare} W main_v0) ∗ (o2Loc d ↦{fullShare} W main_v1_0)
      ∗ (o3Loc d ↦{fullShare} W main_v1_1) ∗ (r2Loc d ↦{fullShare} W main_v2) ∗ (r3Loc d ↦{fullShare} W main_v3) ∗ (r4Loc d ↦{fullShare} W main_v4)) := by
  unfold unscopedBufs
  rw [show (Finset.univ.filter fun b : Ref sig .tc => ¬ b.isScoped)
      = {main_arg0, main_arg1, main_arg2, main_arg3, main_arg4, main_v0, main_v1_0, main_v1_1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## What a call takes for the two SparseCores, and what it hands back -/

theorem st0_eq (d : Dev nD) : (bigSep Finset.univ fun c : Fin ((K (F := F)).nCore 0) => (P m).st 0 d c)
    = iprop(((a0Loc d ↦{qC 0} m (a0Loc d)) ∗ (a3Loc d ↦{qC 0} m (a3Loc d)) ∗ (o1Loc d ↦[coreA 0]{fullShare} m (o1Loc d)))
      ∗ ((a0Loc d ↦{qC 1} m (a0Loc d)) ∗ (a3Loc d ↦{qC 1} m (a3Loc d)) ∗ (o1Loc d ↦[coreA 1]{fullShare} m (o1Loc d)))) := by
  show (bigSep (Finset.univ : Finset (Fin 2)) fun c => inCore m 0 d c) = _
  rw [bigSep_univ_two]; rfl
theorem dn0_eq (d : Dev nD) : (bigSep Finset.univ fun c : Fin ((K (F := F)).nCore 0) => (P m).dn 0 d c)
    = iprop((o1Loc d ↦[coreA 0]{fullShare} G1 m d) ∗ (o1Loc d ↦[coreA 1]{fullShare} G1 m d)) := by
  show (bigSep (Finset.univ : Finset (Fin 2)) fun c => outCore m 0 d c) = _
  rw [bigSep_univ_two]; rfl
theorem st1_eq (d : Dev nD) : (bigSep Finset.univ fun c : Fin ((K (F := F)).nCore 1) => (P m).st 1 d c)
    = iprop(((a1Loc d ↦{qC 0} m (a1Loc d)) ∗ (a2Loc d ↦{qC 0} m (a2Loc d)) ∗ (a4Loc d ↦{qC 0} m (a4Loc d))
        ∗ (o2Loc d ↦[coreA 0]{fullShare} m (o2Loc d)) ∗ (o3Loc d ↦[coreB 0]{fullShare} m (o3Loc d)))
      ∗ ((a1Loc d ↦{qC 1} m (a1Loc d)) ∗ (a2Loc d ↦{qC 1} m (a2Loc d)) ∗ (a4Loc d ↦{qC 1} m (a4Loc d))
        ∗ (o2Loc d ↦[coreA 1]{fullShare} m (o2Loc d)) ∗ (o3Loc d ↦[coreB 1]{fullShare} m (o3Loc d)))) := by
  show (bigSep (Finset.univ : Finset (Fin 2)) fun c => inCore m 1 d c) = _
  rw [bigSep_univ_two]; rfl
theorem dn1_eq (d : Dev nD) : (bigSep Finset.univ fun c : Fin ((K (F := F)).nCore 1) => (P m).dn 1 d c)
    = iprop(((o2Loc d ↦[coreA 0]{fullShare} G2 m d) ∗ (o3Loc d ↦[coreB 0]{fullShare} G3 m d))
      ∗ ((o2Loc d ↦[coreA 1]{fullShare} G2 m d) ∗ (o3Loc d ↦[coreB 1]{fullShare} G3 m d))) := by
  show (bigSep (Finset.univ : Finset (Fin 2)) fun c => outCore m 1 d c) = _
  rw [bigSep_univ_two]; rfl

end Cert.Proof.KI

end
-- ==== Proof.KILaunchTc.lean ====
/-
  The program's own thread on the TensorCore: the two SparseCore calls and the three host reshapes.
-/
import proofs.«215896_g38397007626377_fold_wed_m_942_26_alg».proof.Proof.KISetup
import proofs.«215896_g38397007626377_fold_wed_m_942_26_alg».proof.Proof.KILaunchMain

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held wp_hlo_within)

variable {F : FTy → Type}

local notation "𝕄" => MT nD τ sig (HIx 2) (Elt F) ℕ UU ℕ

variable [FloatOps F]
variable (m : (ℓ : Loc nD τ sig) → Buf (Elt F) ℓ) (ρ : Dev nD → PrngReg)

/-! ## A host reshape, over the two arrays it touches -/

section Reshape

variable {Λ' : Labels} {defs' : Defs nD τ sig (Elt F) Λ'}

include m in
/-- `y = reshape x` with `x` and `y` held whole: `y` ends at `x`'s elements in row-major order, `x` is kept. -/
theorem wp_reshape (d : Dev nD) (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (hne : (Proc.devRef .tc x : DevRef τ sig) ≠ Proc.devRef .tc y)
    (fx : Buf (Elt F) ((SparseCore.T d).loc x)) (fy : Buf (Elt F) ((SparseCore.T d).loc y)) (Q : PUnit → sProp 𝕄) :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx)
            ∗ ((SparseCore.T d).loc y ↦{fullShare} fun i => he ▸ shapeCast y.ty.shape fx hn i)) -∗ Q ⟨⟩)
        -∗ wp frame (wpE defs' 𝒱 (SparseCore.T d) none) Set.univ (hlo rfl (StableHlo.reshape x y he hn hx hy) fun _ => .ret ⟨⟩) Q) := by
  classical
  have hVx : Function.update (Function.update (fun b : DevRef τ sig => m (d, b)) (Proc.devRef .tc x) fx) (Proc.devRef .tc y) fy (Proc.devRef .tc x) = fx := by
    rw [Function.update_of_ne hne, Function.update_self]
  have hVy : Function.update (Function.update (fun b : DevRef τ sig => m (d, b)) (Proc.devRef .tc x) fx) (Proc.devRef .tc y) fy (Proc.devRef .tc y) = fy :=
    Function.update_self _ _ _
  have h := wp_hlo_within (defs := defs') 𝒱 (SparseCore.T d) none Set.univ (hp := rfl) (op := StableHlo.reshape x y he hn hx hy)
    (S := {(Proc.devRef .tc x : DevRef τ sig), Proc.devRef .tc y}) (Finset.Subset.refl _)
    (V := Function.update (Function.update (fun b : DevRef τ sig => m (d, b)) (Proc.devRef .tc x) fx) (Proc.devRef .tc y) fy)
    (k := fun _ => .ret ⟨⟩) (Q := Q)
  have hheld : ∀ W : Valuation τ sig (Elt F), (held (SparseCore.T d) {(Proc.devRef .tc x : DevRef τ sig), Proc.devRef .tc y} W : sProp 𝕄)
      = iprop(((SparseCore.T d).loc x ↦{fullShare} W (Proc.devRef .tc x)) ∗ ((SparseCore.T d).loc y ↦{fullShare} W (Proc.devRef .tc y))) := by
    intro W; unfold held
    rw [SparseCore.bigSep_insert' (by simpa using hne), bigSep_singleton]
  rw [hheld, hheld, HloOp.result_of_not_mem _ _ (b := Proc.devRef .tc x) (by simpa using hne), StableHlo.reshape_result, hVx, hVy] at h
  iintro H Hk
  iapply h $$ [H]
  · iexact H
  iintro H2
  rw [wp_ret]; imodintro
  iapply Hk; iexact H2

end Reshape

/-! ## @main on the TensorCore -/

/-- What @main leaves the claim: a read share of each argument at its launch contents, the three results whole at the
    lookups' values. -/
abbrev FIN (d : Dev nD) : sProp 𝕄 :=
  iprop((a0Loc d ↦{qKeep} m (a0Loc d)) ∗ (a1Loc d ↦{qKeep} m (a1Loc d)) ∗ (a2Loc d ↦{qKeep} m (a2Loc d))
    ∗ (a3Loc d ↦{qKeep} m (a3Loc d)) ∗ (a4Loc d ↦{qKeep} m (a4Loc d))
    ∗ (r2Loc d ↦{fullShare} Spec.take2 (m (a3Loc d)) (m (a0Loc d))) ∗ (r3Loc d ↦{fullShare} Spec.take2 (m (a4Loc d)) (m (a1Loc d)))
    ∗ (r4Loc d ↦{fullShare} Spec.take3 (m (a4Loc d)) (m (a2Loc d))))

omit [FloatOps F] in
/-- Each call's output in the kernels' layout, read in row-major order at the result's shape, is the lookup. -/
theorem res1 (d : Dev nD) (h : S8192x128.ShapeCasts S16384x64) :
    (shapeCast S16384x64 (G1 m d) h : Buf (Elt F) (r2Loc d)) = Spec.take2 (m (a3Loc d)) (m (a0Loc d)) := shapeCast_packA _ h
omit [FloatOps F] in
theorem res2 (d : Dev nD) (h : S8192x128.ShapeCasts S16384x64) :
    (shapeCast S16384x64 (G2 m d) h : Buf (Elt F) (r3Loc d)) = Spec.take2 (m (a4Loc d)) (m (a1Loc d)) := shapeCast_packA _ h
omit [FloatOps F] in
theorem res3 (d : Dev nD) (h : S16384x1280.ShapeCasts S16384x20x64) :
    (shapeCast S16384x20x64 (G3 m d) h : Buf (Elt F) (r4Loc d)) = Spec.take3 (m (a4Loc d)) (m (a2Loc d)) := shapeCast_packB _ h

omit [FloatOps F] in
theorem ne_v0_v2 : (Proc.devRef .tc (main_v0 : Ref sig .tc) : DevRef τ sig) ≠ Proc.devRef .tc (main_v2 : Ref sig .tc) := by decide
omit [FloatOps F] in
theorem ne_v10_v3 : (Proc.devRef .tc (main_v1_0 : Ref sig .tc) : DevRef τ sig) ≠ Proc.devRef .tc (main_v3 : Ref sig .tc) := by decide
omit [FloatOps F] in
theorem ne_v11_v4 : (Proc.devRef .tc (main_v1_1 : Ref sig .tc) : DevRef τ sig) ≠ Proc.devRef .tc (main_v4 : Ref sig .tc) := by decide

/-- @main on device `d`'s TensorCore: the two calls (each takes the SparseCores' read shares and rows and hands the rows
    back at the lookups' values), then the three reshapes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscopedBufs_eq]
  simp only [main, wp_bind, wp_pure]
  iintro ⟨#Hctx, Hst, ⟨Hb, ⟨Ha0, Ha1, Ha2, Ha3, Ha4, Ho1, Ho2, Ho3, Hr2, Hr3, Hr4⟩, -, -⟩, -⟩
  ihave Hd0 := (arg_deal _) $$ Ha0
  icases Hd0 with ⟨Hk0, Ha00, Ha01⟩
  ihave Hd1 := (arg_deal _) $$ Ha1
  icases Hd1 with ⟨Hk1, Ha10, Ha11⟩
  ihave Hd2 := (arg_deal _) $$ Ha2
  icases Hd2 with ⟨Hk2, Ha20, Ha21⟩
  ihave Hd3 := (arg_deal _) $$ Ha3
  icases Hd3 with ⟨Hk3, Ha30, Ha31⟩
  ihave Hd4 := (arg_deal _) $$ Ha4
  icases Hd4 with ⟨Hk4, Ha40, Ha41⟩
  ihave Hs1 := (Entails.of_eq (o1_cores d _)) $$ Ho1
  icases Hs1 with ⟨Ho10, Ho11⟩
  ihave Hs2 := (Entails.of_eq (o2_cores d _)) $$ Ho2
  icases Hs2 with ⟨Ho20, Ho21⟩
  ihave Hs3 := (Entails.of_eq (o3_cores d _)) $$ Ho3
  icases Hs3 with ⟨Ho30, Ho31⟩
  -- call 0
  iapply ((K (F := F)).wp_run (D (F := F)) 𝒱 (EH := EH) (P := P m) κ d 0)
  isplitr; · iexact Hctx
  isplitl [Hst]; · iexact Hst
  isplitl [Ha00 Ha01 Ha30 Ha31 Ho10 Ho11]
  · rw [st0_eq]
    isplitl [Ha00 Ha30 Ho10]
    · isplitl [Ha00]; · iexact Ha00
      isplitl [Ha30]; · iexact Ha30
      iexact Ho10
    · isplitl [Ha01]; · iexact Ha01
      isplitl [Ha31]; · iexact Ha31
      iexact Ho11
  iintro ⟨Hst, Hdn⟩
  ihave Hdn' := (Entails.of_eq (dn0_eq m d)) $$ Hdn
  ihave Ho1 := (Entails.of_eq (o1_cores d (G1 m d)).symm) $$ Hdn'
  -- call 1
  iapply ((K (F := F)).wp_run (D (F := F)) 𝒱 (EH := EH) (P := P m) κ d 1)
  isplitr; · iexact Hctx
  isplitl [Hst]; · iexact Hst
  isplitl [Ha10 Ha11 Ha20 Ha21 Ha40 Ha41 Ho20 Ho21 Ho30 Ho31]
  · rw [st1_eq]
    isplitl [Ha10 Ha20 Ha40 Ho20 Ho30]
    · isplitl [Ha10]; · iexact Ha10
      isplitl [Ha20]; · iexact Ha20
      isplitl [Ha40]; · iexact Ha40
      isplitl [Ho20]; · iexact Ho20
      iexact Ho30
    · isplitl [Ha11]; · iexact Ha11
      isplitl [Ha21]; · iexact Ha21
      isplitl [Ha41]; · iexact Ha41
      isplitl [Ho21]; · iexact Ho21
      iexact Ho31
  iintro ⟨Hst, Hdn⟩
  ihave Hdn' := (Entails.of_eq (dn1_eq m d)) $$ Hdn
  icases Hdn' with ⟨⟨Ho20, Ho30⟩, ⟨Ho21, Ho31⟩⟩
  ihave Ho2 := (Entails.of_eq (o2_cores d (G2 m d)).symm) $$ [Ho20 Ho21]
  · isplitl [Ho20]; · iexact Ho20
    iexact Ho21
  ihave Ho3 := (Entails.of_eq (o3_cores d (G3 m d)).symm) $$ [Ho30 Ho31]
  · isplitl [Ho30]; · iexact Ho30
    iexact Ho31
  -- the three reshapes
  iapply (wp_reshape m d main_v0 main_v2 rfl _ _ _ ne_v0_v2 (G1 m d) _ _) $$ [Hb Ho1 Hr2]
  · isplitl [Hb]; · iexact Hb
    isplitl [Ho1]; · iexact Ho1
    iexact Hr2
  iintro ⟨Hb, -, Hr2⟩
  ihave Hr2' := (Entails.of_eq (congrArg (fun f => (r2Loc d ↦{fullShare} f : sProp 𝕄)) (res1 m d _))) $$ Hr2
  iapply (wp_reshape m d main_v1_0 main_v3 rfl _ _ _ ne_v10_v3 (G2 m d) _ _) $$ [Hb Ho2 Hr3]
  · isplitl [Hb]; · iexact Hb
    isplitl [Ho2]; · iexact Ho2
    iexact Hr3
  iintro ⟨Hb, -, Hr3⟩
  ihave Hr3' := (Entails.of_eq (congrArg (fun f => (r3Loc d ↦{fullShare} f : sProp 𝕄)) (res2 m d _))) $$ Hr3
  iapply (wp_reshape m d main_v1_1 main_v4 rfl _ _ _ ne_v11_v4 (G3 m d) _ _) $$ [Hb Ho3 Hr4]
  · isplitl [Hb]; · iexact Hb
    isplitl [Ho3]; · iexact Ho3
    iexact Hr4
  iintro ⟨-, -, Hr4⟩
  ihave Hr4' := (Entails.of_eq (congrArg (fun f => (r4Loc d ↦{fullShare} f : sProp 𝕄)) (res3 m d _))) $$ Hr4
  imodintro
  isplitl [Hst]; · iexact Hst
  isplitl [Hk0]; · iexact Hk0
  isplitl [Hk1]; · iexact Hk1
  isplitl [Hk2]; · iexact Hk2
  isplitl [Hk3]; · iexact Hk3
  isplitl [Hk4]; · iexact Hk4
  isplitl [Hr2']; · iexact Hr2'
  isplitl [Hr3']; · iexact Hr3'
  iexact Hr4'

end Cert.Proof.KI

end
-- ==== Proof.KILaunchRun.lean ====
/-
  The whole program's run: every weakly fair execution of the TensorCore's thread and the SparseCores' subcores ends,
  with the arguments unchanged and the three results at the lookups' values, given the two kernels' bodies proved for
  every vector subcore.
-/
import proofs.«215896_g38397007626377_fold_wed_m_942_26_alg».proof.Proof.KISetup
import proofs.«215896_g38397007626377_fold_wed_m_942_26_alg».proof.Proof.KILaunchTc

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable [FloatOps F]
variable (m : (ℓ : Loc nD τ sig) → Buf (Elt F) ℓ) (ρ : Dev nD → PrngReg)

/-! ## What the final memory holds -/

omit [FloatOps F] in
/-- An array held at any share at contents `f` is at `f` in the memory. -/
theorem SI_read {ℓ : Loc nD τ sig} {q : PosShare TreeShare} (f : Buf (Elt F) ℓ) (s' : Phys nD τ sig (Elt F)) :
    iprop(SI s' ∗ ℓ ↦{q} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := q) (f := f))) $$ [HSI H]
  · isplitl [HSI] <;> iassumption
  icases H' with ⟨%h, HSI, -⟩
  isplitr
  · ipureintro; exact funext fun i => h i (Finset.mem_univ i)
  · iexact HSI

def fq (d : Dev nD) (s' : Phys nD τ sig (Elt F)) : Prop :=
  s'.mem.mem (r2Loc d) = Spec.take2 (m (a3Loc d)) (m (a0Loc d)) ∧ s'.mem.mem (r3Loc d) = Spec.take2 (m (a4Loc d)) (m (a1Loc d))
    ∧ s'.mem.mem (r4Loc d) = Spec.take3 (m (a4Loc d)) (m (a2Loc d))
    ∧ s'.mem.mem (a0Loc d) = m (a0Loc d) ∧ s'.mem.mem (a1Loc d) = m (a1Loc d) ∧ s'.mem.mem (a2Loc d) = m (a2Loc d)
    ∧ s'.mem.mem (a3Loc d) = m (a3Loc d) ∧ s'.mem.mem (a4Loc d) = m (a4Loc d)

omit [FloatOps F] in
theorem hfin (d : Dev nD) (s' : Phys nD τ sig (Elt F)) : iprop(FIN m d ∗ SI s') ⊢ (⌜fq m d s'⌝ : sProp 𝕄) := by
  iintro ⟨⟨H0, H1, H2, H3, H4, Hr2, Hr3, Hr4⟩, HSI⟩
  ihave X0 := (SI_read _ s') $$ [HSI H0]
  · isplitl [HSI] <;> iassumption
  icases X0 with ⟨%e0, HSI⟩
  ihave X1 := (SI_read _ s') $$ [HSI H1]
  · isplitl [HSI] <;> iassumption
  icases X1 with ⟨%e1, HSI⟩
  ihave X2 := (SI_read _ s') $$ [HSI H2]
  · isplitl [HSI] <;> iassumption
  icases X2 with ⟨%e2, HSI⟩
  ihave X3 := (SI_read _ s') $$ [HSI H3]
  · isplitl [HSI] <;> iassumption
  icases X3 with ⟨%e3, HSI⟩
  ihave X4 := (SI_read _ s') $$ [HSI H4]
  · isplitl [HSI] <;> iassumption
  icases X4 with ⟨%e4, HSI⟩
  ihave Y2 := (SI_read _ s') $$ [HSI Hr2]
  · isplitl [HSI] <;> iassumption
  icases Y2 with ⟨%f2, HSI⟩
  ihave Y3 := (SI_read _ s') $$ [HSI Hr3]
  · isplitl [HSI] <;> iassumption
  icases Y3 with ⟨%f3, HSI⟩
  ihave Y4 := (SI_read _ s') $$ [HSI Hr4]
  · isplitl [HSI] <;> iassumption
  icases Y4 with ⟨%f4, -⟩
  ipureintro; exact ⟨f2, f3, f4, e0, e1, e2, e3, e4⟩

/-! ## The program's run -/

def QC : PUnit × MemSt nD τ sig (Elt F) → Prop := fun r => ∀ c : Dev nD,
  r.2.mem ((c.tc : Thread nD τ).loc main_v2) = Spec.take2 (m (a3Loc c)) (m (a0Loc c))
    ∧ r.2.mem ((c.tc : Thread nD τ).loc main_v3) = Spec.take2 (m (a4Loc c)) (m (a1Loc c))
    ∧ r.2.mem ((c.tc : Thread nD τ).loc main_v4) = Spec.take3 (m (a4Loc c)) (m (a2Loc c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- From the two kernels' body obligations: the program runs, the arguments end unchanged, the results are the lookups. -/
theorem run_main [∀ e, Nonempty (Elt F e)] (hpre : PreOK m)
    (h0 : (K (F := F)).TileObl (D (F := F)) 𝒱 (P m) v₀ 0) (h1 : (K (F := F)).TileObl (D (F := F)) 𝒱 (P m) v₀ 1) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => h0 | 1 => h1)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h => h)

end Cert.Proof.KI

end
-- ==== Proof.RefPre.lean ====
/-
  The precondition read back: when the printed domain predicate evaluates to one, every index word of the three
  index arrays, read as a natural number, is below 1,000,000.

  The predicate is a conjunction of five whole-array reductions by "and": two say the tables' entries are finite
  (not used here), three say each word w of an index array satisfies 0 <= w and w <= 999999 as a signed 32-bit
  integer. A word that is nonnegative as a signed integer reads the same unsigned, so its value as a natural
  number is at most 999999.
-/
import proofs.«215896_g38397007626377_fold_wed_m_942_26_alg».proof.Pre_input_domain
import Idealize.ShloMosaic.Lib.ReduceAll

namespace Cert.Proof.Ref

open Idealize.ShloMosaic

/-- The shape with no axis has one index. -/
instance subsingleton_scalarIdx : Subsingleton Cert.Pre_input_domain.S_.Idx := ⟨fun a b => funext fun d => d.elim0⟩

/-- A word that is at least 0 and at most 999999 as a signed integer is below 1,000,000 as a natural number. -/
theorem toNat_lt_of_signed_range {w : BitVec 32} (h0 : IntOp.cmpi .sge w 0#32 = 1#1)
    (h1 : IntOp.cmpi .sle w 999999#32 = 1#1) : w.toNat < 1000000 := by
  rw [IntOp.cmpi_sge, show (0#32 : BitVec 32).toInt = 0 from by decide] at h0
  rw [IntOp.cmpi_sle, show (999999#32 : BitVec 32).toInt = 999999 from by decide] at h1
  rw [BitVec.toInt_eq_toNat_cond] at h0 h1
  split at h0 <;> omega

theorem words_lt {F : FTy → Type} [FloatOps F] [h : Cert.Pre_input_domain.Facts]
    (a0 : IVec Cert.Pre_input_domain.S16384 32) (a1 : IVec Cert.Pre_input_domain.S16384 32)
    (a2 : IVec Cert.Pre_input_domain.S327680 32)
    (a3 : FVec F Cert.Pre_input_domain.S1000000x64 .f32) (a4 : FVec F Cert.Pre_input_domain.S1000000x64 .f32)
    (hpre : Cert.Pre_input_domain.fn (F := F) a0 a1 a2 a3 a4 = (fun _ => 1#1)) :
    (∀ i, (a0 i).toNat < 1000000) ∧ (∀ i, (a1 i).toNat < 1000000) ∧ (∀ i, (a2 i).toNat < 1000000) := by
  have e := congrFun hpre (fun a => a.elim0)
  dsimp only [Cert.Pre_input_domain.fn, Cert.Pre_input_domain.fn_part1] at e
  change IntOp.andi (IntOp.andi (IntOp.andi (IntOp.andi _ _) _) _) _ = 1#1 at e
  obtain ⟨e, e2⟩ := IntOp.andi_eq_one.1 e
  obtain ⟨e, e1⟩ := IntOp.andi_eq_one.1 e
  obtain ⟨_, e0⟩ := IntOp.andi_eq_one.1 e
  refine ⟨fun i => ?_, fun i => ?_, fun i => ?_⟩
  · have hi := Host.reduce_andi_all _ _ _ _ _ e0 i
    change IntOp.andi (IntOp.cmpi .sge (a0 i) 0#32) (IntOp.cmpi .sle (a0 i) 999999#32) = 1#1 at hi
    obtain ⟨h0, h1⟩ := IntOp.andi_eq_one.1 hi
    exact toNat_lt_of_signed_range h0 h1
  · have hi := Host.reduce_andi_all _ _ _ _ _ e1 i
    change IntOp.andi (IntOp.cmpi .sge (a1 i) 0#32) (IntOp.cmpi .sle (a1 i) 999999#32) = 1#1 at hi
    obtain ⟨h0, h1⟩ := IntOp.andi_eq_one.1 hi
    exact toNat_lt_of_signed_range h0 h1
  · have hi := Host.reduce_andi_all _ _ _ _ _ e2 i
    change IntOp.andi (IntOp.cmpi .sge (a2 i) 0#32) (IntOp.cmpi .sle (a2 i) 999999#32) = 1#1 at hi
    obtain ⟨h0, h1⟩ := IntOp.andi_eq_one.1 hi
    exact toNat_lt_of_signed_range h0 h1

end Cert.Proof.Ref
-- ==== Proof.KIClaims.lean ====
/-
  The program's claims read off its run: the precondition as the launch needs it, and the frame (the arguments end
  unchanged) as the run with the results' values dropped.
-/
import proofs.«215896_g38397007626377_fold_wed_m_942_26_alg».proof.Proof.KISetup
import proofs.«215896_g38397007626377_fold_wed_m_942_26_alg».proof.Proof.KILaunchRun
import proofs.«215896_g38397007626377_fold_wed_m_942_26_alg».proof.Proof.RefPre

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable [FloatOps F]
variable (m : (ℓ : Loc nD τ sig) → Buf (Elt F) ℓ) (ρ : Dev nD → PrngReg)

/-- The printed domain predicate, all ones on every device, puts every index word below the tables' 1,000,000 rows. -/
theorem preOK_of_fn [Cert.Pre_input_domain.Facts]
    (h : ∀ c : Dev nD, Cert.Pre_input_domain.fn (F := F) (m (a0Loc c)) (m (a1Loc c)) (m (a2Loc c)) (m (a3Loc c)) (m (a4Loc c)) = (fun _ => 1#1)) :
    PreOK m :=
  fun c => Cert.Proof.Ref.words_lt (F := F) _ _ _ _ _ (h c)

/-- The frame: the program runs and its five arguments end unchanged. -/
theorem frame_of [∀ e, Nonempty (Elt F e)] (hpre : PreOK m)
    (h0 : (K (F := F)).TileObl (D (F := F)) 𝒱 (P m) v₀ 0) (h1 : (K (F := F)).TileObl (D (F := F)) 𝒱 (P m) v₀ 1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.KernelIdeal.defs _ _).mono (fun _ h c => (h c).2.2.2) (run_main m ρ hpre h0 h1)

end Cert.Proof.KI

end
-- ==== Proof.RefOps.lean ====
/-
  The reference program as a straight line: its three lookups, each outlined function unfolded at its call over that
  call's own buffers (the inner conditional, itself an outlined function of one select, in place), then the final
  reshape. Seventy operations in all; the program equals running them in order.
-/
import proofs.«215896_g38397007626377_fold_wed_m_942_26_alg».proof.ReferenceIdeal
import proofs.«215896_g38397007626377_fold_wed_m_942_26_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- One lookup of 16,384 words, over any table, index array and record of buffers: its twenty-three operations in
    order (the word normalised, the range mask, the gather of rows, the masked select). -/
abbrev takeOps (tbl : TRef sig ⟨S1000000x64, .f32⟩) (idx : TRef sig ⟨S16384, .i32⟩) (φ : fn_take.Bufs) :
    List (HloOp τ sig (Elt F)) :=
  [
    TRef.nullary φ.c (constantI S_ 32 0#32),
    TRef.unary φ.c φ.v0 (broadcastInDim S16384 ![] bcast_S_S16384),
    TRef.binary idx φ.v0 φ.v1 (cmpi .slt),
    TRef.nullary φ.c_0 (constantI S_ 32 1000000#32),
    TRef.unary φ.c_0 φ.v2 (broadcastInDim S16384 ![] bcast_S_S16384),
    TRef.binary idx φ.v2 φ.v3 addi,
    TRef.ternary φ.v1 φ.v3 idx φ.call0.v0 select,
    TRef.unary φ.call0.v0 φ.v5 (broadcastInDim S16384x1 ![0] bcast_S16384_S16384x1_0),
    TRef.nullary φ.c_1 (constantI S1 32 999999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary tbl φ.v5 φ.v13 (fun x i => Host.gather gather_S1000000x64_S16384x1_S16384x64_1_0_n_n_0_1_164 x i),
    TRef.unary φ.v12 φ.v14 (broadcastInDim S16384x64 ![0] bcast_S16384_S16384x64_0),
    TRef.nullary φ.cst (constant S_ .f32 0x7FC00000#32),
    TRef.unary φ.cst φ.v15 (broadcastInDim S16384x64 ![] bcast_S_S16384x64),
    TRef.ternary φ.v14 φ.v13 φ.v15 φ.v16 select ]

/-- The same for the lookup of 327,680 words. -/
abbrev takeOps0 (tbl : TRef sig ⟨S1000000x64, .f32⟩) (idx : TRef sig ⟨S327680, .i32⟩) (φ : fn_take_0.Bufs) :
    List (HloOp τ sig (Elt F)) :=
  [
    TRef.nullary φ.c (constantI S_ 32 0#32),
    TRef.unary φ.c φ.v0 (broadcastInDim S327680 ![] bcast_S_S327680),
    TRef.binary idx φ.v0 φ.v1 (cmpi .slt),
    TRef.nullary φ.c_0 (constantI S_ 32 1000000#32),
    TRef.unary φ.c_0 φ.v2 (broadcastInDim S327680 ![] bcast_S_S327680),
    TRef.binary idx φ.v2 φ.v3 addi,
    TRef.ternary φ.v1 φ.v3 idx φ.call0.v0 select,
    TRef.unary φ.call0.v0 φ.v5 (broadcastInDim S327680x1 ![0] bcast_S327680_S327680x1_0),
    TRef.nullary φ.c_1 (constantI S1 32 999999#32),
    TRef.nullary φ.c_2 (constantI S_ 32 0#32),
    TRef.unary φ.c_2 φ.v6 (broadcastInDim S327680x1 ![] bcast_S_S327680x1),
    TRef.binary φ.v5 φ.v6 φ.v7 (cmpi .sge),
    TRef.unary φ.c_1 φ.v8 (broadcastInDim S1x1 ![1] bcast_S1_S1x1_1),
    TRef.unary φ.v8 φ.v9 (broadcastInDim S327680x1 ![0, 1] bcast_S1x1_S327680x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S327680x1_S327680_d1 h_S_),
    TRef.binary tbl φ.v5 φ.v13 (fun x i => Host.gather gather_S1000000x64_S327680x1_S327680x64_1_0_n_n_0_1_164 x i),
    TRef.unary φ.v12 φ.v14 (broadcastInDim S327680x64 ![0] bcast_S327680_S327680x64_0),
    TRef.nullary φ.cst (constant S_ .f32 0x7FC00000#32),
    TRef.unary φ.cst φ.v15 (broadcastInDim S327680x64 ![] bcast_S_S327680x64),
    TRef.ternary φ.v14 φ.v13 φ.v15 φ.v16 select ]

/-- The outlined lookup is its straight line: the inner conditional unfolded, sequencing re-associated. -/
theorem take_eq (tbl : TRef sig ⟨S1000000x64, .f32⟩) (idx : TRef sig ⟨S16384, .i32⟩) (φ : fn_take.Bufs) :
    fn_take.body (F := F) tbl idx φ = seq (takeOps tbl idx φ) := by
  simp only [fn_take.body, fn_where.body, seq, bind_assoc, pure_bind]

theorem take0_eq (tbl : TRef sig ⟨S1000000x64, .f32⟩) (idx : TRef sig ⟨S327680, .i32⟩) (φ : fn_take_0.Bufs) :
    fn_take_0.body (F := F) tbl idx φ = seq (takeOps0 tbl idx φ) := by
  simp only [fn_take_0.body, fn_where_1.body, seq, bind_assoc, pure_bind]

/-- The program's seventy operations, in order: twenty-three per lookup, then the reshape of the third lookup's rows. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg4) main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    TRef.nullary main_call2.c (constantI S_ 32 0#32),
    TRef.unary main_call2.c main_call2.v0 (broadcastInDim S327680 ![] bcast_S_S327680),
    TRef.binary (.of main_arg2) main_call2.v0 main_call2.v1 (cmpi .slt),
    TRef.nullary main_call2.c_0 (constantI S_ 32 1000000#32),
    TRef.unary main_call2.c_0 main_call2.v2 (broadcastInDim S327680 ![] bcast_S_S327680),
    TRef.binary (.of main_arg2) main_call2.v2 main_call2.v3 addi,
    TRef.ternary main_call2.v1 main_call2.v3 (.of main_arg2) main_call2.call0.v0 select,
    TRef.unary main_call2.call0.v0 main_call2.v5 (broadcastInDim S327680x1 ![0] bcast_S327680_S327680x1_0),
    TRef.nullary main_call2.c_1 (constantI S1 32 999999#32),
    TRef.nullary main_call2.c_2 (constantI S_ 32 0#32),
    TRef.unary main_call2.c_2 main_call2.v6 (broadcastInDim S327680x1 ![] bcast_S_S327680x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S327680x1 ![0, 1] bcast_S1x1_S327680x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S327680x1_S327680_d1 h_S_),
    TRef.binary (.of main_arg4) main_call2.v5 main_call2.v13 (fun x i => Host.gather gather_S1000000x64_S327680x1_S327680x64_1_0_n_n_0_1_164 x i),
    TRef.unary main_call2.v12 main_call2.v14 (broadcastInDim S327680x64 ![0] bcast_S327680_S327680x64_0),
    TRef.nullary main_call2.cst (constant S_ .f32 0x7FC00000#32),
    TRef.unary main_call2.cst main_call2.v15 (broadcastInDim S327680x64 ![] bcast_S_S327680x64),
    TRef.ternary main_call2.v14 main_call2.v13 main_call2.v15 main_call2.v16 select,
    reshape main_v2 main_v3 rfl shapeCasts_S327680x64_S16384x20x64 ]

/-- The list is the three lookups' lines and the reshape, one after the other. -/
theorem ops_eq : (ops : List (HloOp τ sig (Elt F)))
    = takeOps (.of main_arg3) (.of main_arg0) main_call0 ++ (takeOps (.of main_arg4) (.of main_arg1) main_call1
      ++ (takeOps0 (.of main_arg4) (.of main_arg2) main_call2
        ++ [reshape main_v2 main_v3 rfl shapeCasts_S327680x64_S16384x20x64])) := rfl

/-- The program is that straight line. -/
theorem main_eq (c : Dev nD) : main (F := F) c = seq ops := by
  rw [ops_eq, seq_append, seq_append, seq_append, ← take_eq, ← take_eq, ← take0_eq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-- From any memory with zero counters every weakly fair execution of the program terminates, and every buffer ends at
    the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefTerms.lean ====
/-
  What each lookup's operations compute, as one function of the table and the index words.
-/
import proofs.«215896_g38397007626377_fold_wed_m_942_26_alg».proof.ReferenceIdeal
import proofs.«215896_g38397007626377_fold_wed_m_942_26_alg».proof.Proof.Gen.ReferenceIdeal

noncomputable section

namespace Cert.Proof.Ref

open Cert.ReferenceIdeal Cert.ReferenceIdeal.Gen Idealize.ShloMosaic

variable {F : FTy → Type} [FloatOps F]

/-- The index words with the negative ones wrapped (a negative word plus 1,000,000), 16384 words. -/
def normA (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The wrapped words as a column: the gather's start indices. -/
def colA (idx : IVec S16384 32) : IVec S16384x1 32 :=
  broadcastInDim S16384x1 ![0] bcast_S16384_S16384x1_0 (normA idx)

/-- Per word, whether it is a row of the table: 0 <= word <= 999999 (signed), reduced over the column's unit axis. -/
def maskA (idx : IVec S16384 32) : IVec S16384 1 :=
  Host.reduce IntOp.andi
    (andi (cmpi .sge (colA idx) (broadcastInDim S16384x1 ![] bcast_S_S16384x1 (constantI S_ 32 0#32)))
      (cmpi .sle (colA idx) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- One lookup, its operations composed: the gathered rows where the word is a row of the table, the quiet-NaN
    pattern elsewhere. -/
def lookupA (tbl : FVec F S1000000x64 .f32) (idx : IVec S16384 32) : FVec F S16384x64 .f32 :=
  select (broadcastInDim S16384x64 ![0] bcast_S16384_S16384x64_0 (maskA idx))
    (Host.gather gather_S1000000x64_S16384x1_S16384x64_1_0_n_n_0_1_164 tbl (colA idx))
    (broadcastInDim S16384x64 ![] bcast_S_S16384x64 (constant S_ .f32 0x7FC00000#32))

/-- The index words with the negative ones wrapped (a negative word plus 1,000,000), 327680 words. -/
def normB (idx : IVec S327680 32) : IVec S327680 32 :=
  select (cmpi .slt idx (broadcastInDim S327680 ![] bcast_S_S327680 (constantI S_ 32 0#32)))
    (addi idx (broadcastInDim S327680 ![] bcast_S_S327680 (constantI S_ 32 1000000#32))) idx

/-- The wrapped words as a column: the gather's start indices. -/
def colB (idx : IVec S327680 32) : IVec S327680x1 32 :=
  broadcastInDim S327680x1 ![0] bcast_S327680_S327680x1_0 (normB idx)

/-- Per word, whether it is a row of the table: 0 <= word <= 999999 (signed), reduced over the column's unit axis. -/
def maskB (idx : IVec S327680 32) : IVec S327680 1 :=
  Host.reduce IntOp.andi
    (andi (cmpi .sge (colB idx) (broadcastInDim S327680x1 ![] bcast_S_S327680x1 (constantI S_ 32 0#32)))
      (cmpi .sle (colB idx) (broadcastInDim S327680x1 ![0, 1] bcast_S1x1_S327680x1_0_1
        (broadcastInDim S1x1 ![1] bcast_S1_S1x1_1 (constantI S1 32 999999#32)))))
    (constantI S_ 1 1#1) reducesTo_S327680x1_S327680_d1 h_S_

/-- One lookup, its operations composed: the gathered rows where the word is a row of the table, the quiet-NaN
    pattern elsewhere. -/
def lookupB (tbl : FVec F S1000000x64 .f32) (idx : IVec S327680 32) : FVec F S327680x64 .f32 :=
  select (broadcastInDim S327680x64 ![0] bcast_S327680_S327680x64_0 (maskB idx))
    (Host.gather gather_S1000000x64_S327680x1_S327680x64_1_0_n_n_0_1_164 tbl (colB idx))
    (broadcastInDim S327680x64 ![] bcast_S_S327680x64 (constant S_ .f32 0x7FC00000#32))

/-- The third result: the 327,680 looked-up rows regrouped twenty per batch row. -/
def lookupB3 (tbl : FVec F S1000000x64 .f32) (idx : IVec S327680 32) : FVec F S16384x20x64 .f32 :=
  shapeCast S16384x20x64 (lookupB tbl idx) shapeCasts_S327680x64_S16384x20x64

end Cert.Proof.Ref

end
-- ==== Proof.RefRun.lean ====
/-
  The run of the reference read back: each result buffer ends at its lookup's composed operations applied to the
  argument arrays, and the argument arrays end unchanged.

  The fold of the seventy operations is unrolled at one buffer: each operation's result is read at its own buffer and
  passed over at any other (which buffer is which is decided on the literal references); what is left is the composed
  term by computation (the typed references' casts are the identity at literal references). The reduction and the gather
  stay folded meanwhile.
-/
import proofs.«215896_g38397007626377_fold_wed_m_942_26_alg».proof.Proof.RefOps
import proofs.«215896_g38397007626377_fold_wed_m_942_26_alg».proof.Proof.RefTerms

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
set_option maxRecDepth 8192 in
set_option maxHeartbeats 1000000 in
/-- The first result: the lookup of the first index array in the first table. -/
theorem after_v0 (V : Valuation τ sig (Elt F)) :
    after ops V (main_v0 : DevRef τ sig) = lookupA (V (main_arg3 : DevRef τ sig)) (V (main_arg0 : DevRef τ sig)) := by
  after_results_simp
  rfl

attribute [local irreducible] Host.reduce Host.gather in
set_option maxRecDepth 8192 in
set_option maxHeartbeats 1000000 in
/-- The second result: the lookup of the second index array in the second table. -/
theorem after_v1 (V : Valuation τ sig (Elt F)) :
    after ops V (main_v1 : DevRef τ sig) = lookupA (V (main_arg4 : DevRef τ sig)) (V (main_arg1 : DevRef τ sig)) := by
  after_results_simp
  rfl

attribute [local irreducible] Host.reduce Host.gather in
set_option maxRecDepth 8192 in
set_option maxHeartbeats 1000000 in
/-- The third result: the lookup of the noise words in the second table, regrouped twenty per batch row. -/
theorem after_v3 (V : Valuation τ sig (Elt F)) :
    after ops V (main_v3 : DevRef τ sig) = lookupB3 (V (main_arg4 : DevRef τ sig)) (V (main_arg2 : DevRef τ sig)) := by
  after_results_simp
  rfl

attribute [local irreducible] Host.reduce Host.gather in
set_option maxRecDepth 8192 in
set_option maxHeartbeats 1000000 in
/-- Argument 0 is written by no operation. -/
theorem after_arg0 (V : Valuation τ sig (Elt F)) :
    after ops V (main_arg0 : DevRef τ sig) = (V (main_arg0 : DevRef τ sig)) := by
  after_results_simp

attribute [local irreducible] Host.reduce Host.gather in
set_option maxRecDepth 8192 in
set_option maxHeartbeats 1000000 in
/-- Argument 1 is written by no operation. -/
theorem after_arg1 (V : Valuation τ sig (Elt F)) :
    after ops V (main_arg1 : DevRef τ sig) = (V (main_arg1 : DevRef τ sig)) := by
  after_results_simp

attribute [local irreducible] Host.reduce Host.gather in
set_option maxRecDepth 8192 in
set_option maxHeartbeats 1000000 in
/-- Argument 2 is written by no operation. -/
theorem after_arg2 (V : Valuation τ sig (Elt F)) :
    after ops V (main_arg2 : DevRef τ sig) = (V (main_arg2 : DevRef τ sig)) := by
  after_results_simp

attribute [local irreducible] Host.reduce Host.gather in
set_option maxRecDepth 8192 in
set_option maxHeartbeats 1000000 in
/-- Argument 3 is written by no operation. -/
theorem after_arg3 (V : Valuation τ sig (Elt F)) :
    after ops V (main_arg3 : DevRef τ sig) = (V (main_arg3 : DevRef τ sig)) := by
  after_results_simp

attribute [local irreducible] Host.reduce Host.gather in
set_option maxRecDepth 8192 in
set_option maxHeartbeats 1000000 in
/-- Argument 4 is written by no operation. -/
theorem after_arg4 (V : Valuation τ sig (Elt F)) :
    after ops V (main_arg4 : DevRef τ sig) = (V (main_arg4 : DevRef τ sig)) := by
  after_results_simp

/-- From any memory with zero counters, at any float instance: every weakly fair execution of the program terminates
    with the three results at the lookups' composed terms of the arguments, and the arguments unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = lookupA (m ((c.tc : Thread nD τ).loc main_arg3)) (m ((c.tc : Thread nD τ).loc main_arg0))
      ∧ r.2.mem ((c.tc : Thread nD τ).loc main_v1) = lookupA (m ((c.tc : Thread nD τ).loc main_arg4)) (m ((c.tc : Thread nD τ).loc main_arg1))
      ∧ r.2.mem ((c.tc : Thread nD τ).loc main_v3) = lookupB3 (m ((c.tc : Thread nD τ).loc main_arg4)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v0).trans (after_v0 _), (h c main_v1).trans (after_v1 _),
      (h c main_v3).trans (after_v3 _), (h c main_arg0).trans (after_arg0 _), (h c main_arg1).trans (after_arg1 _),
      (h c main_arg2).trans (after_arg2 _), (h c main_arg3).trans (after_arg3 _), (h c main_arg4).trans (after_arg4 _)⟩)
    (run_ops m ρ)

end Cert.Proof.Ref

end
-- ==== Proof.RefGather.lean ====
/-
  A gather of whole rows read at an index.

  The gather that a lookup of rows lowers to: the operand a table of 1,000,000 rows and 64 columns, the start indices an
  [N, 1] array (one row number per result row), the result [N, 64]; the row axis is collapsed, the column axis is the
  offset axis. Entry (b, j) of the result is entry (r, j) of the table, r the start index at (b, 0) read as a signed
  integer and clamped into [0, 999999].
-/
import Idealize.ShloMosaic.PureOps
import Idealize.ShloMosaic.Lib.ValueIdx

namespace Cert.Proof.Ref

open Idealize.ShloMosaic Idealize.ShloMosaic.ValueIdx

section Rows
variable {α : Type}

/-- The dimension numbers of a gather of whole rows of a [1000000, 64] table at an [N, 1] array of row numbers. -/
abbrev rowsDims (N : Nat)
    (wf : GatherDims.WF ⟨2, ![1000000, 64]⟩ ⟨2, ![N, 1]⟩ ⟨2, ![N, 64]⟩ [1] [0] [] [0] [] 1 ![1, 64]) :
    GatherDims ⟨2, ![1000000, 64]⟩ ⟨2, ![N, 1]⟩ ⟨2, ![N, 64]⟩ where
  offsetDims := [1]
  collapsedSliceDims := [0]
  operandBatchingDims := []
  startIndicesBatchingDims := []
  startIndexMap := [0]
  indexVectorDim := 1
  sliceSizes := ![1, 64]
  wf := wf

/-- The gather read at (b, j): the table at row "start index at (b, 0), read signed, clamped into [0, 999999]", column j. -/
theorem gather_rows_apply {N w : Nat}
    (wf : GatherDims.WF ⟨2, ![1000000, 64]⟩ ⟨2, ![N, 1]⟩ ⟨2, ![N, 64]⟩ [1] [0] [] [0] [] 1 ![1, 64])
    (x : (⟨2, ![1000000, 64]⟩ : Shape).Idx → α) (idx : IVec ⟨2, ![N, 1]⟩ w) (y : (⟨2, ![N, 64]⟩ : Shape).Idx) :
    Host.gather (rowsDims N wf) x idx y
      = x (ix2 ⟨min (idx (ix2 (y 0) (0 : Fin 1))).toInt.toNat 999999, by omega⟩ (y 1)) := by
  unfold Host.gather
  congr 1
  funext a
  refine Fin.ext ?_
  show (rowsDims N wf).start y idx a + (rowsDims N wf).batchCoord y a + (rowsDims N wf).offCoord y a = _
  rw [GatherDims.batchCoord_eq_zero _ _ _ List.not_mem_nil, Nat.add_zero]
  match a with
  | ⟨0, h0⟩ =>
    have hmem : (⟨0, h0⟩ : Fin 2) ∈ (rowsDims N wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hmem]
    have hsi : (rowsDims N wf).siIdx y ⟨List.idxOf (⟨0, h0⟩ : Fin 2) (rowsDims N wf).startIndexMap,
        List.idxOf_lt_length_iff.2 hmem⟩ = ix2 (y 0) (0 : Fin 1) := by
      funext b; refine Fin.ext ?_
      match b with
      | ⟨0, _⟩ => rfl
      | ⟨1, _⟩ => rfl
    rw [hsi]
    rfl
  | ⟨1, h1⟩ =>
    have hnot : (⟨1, h1⟩ : Fin 2) ∉ (rowsDims N wf).startIndexMap := fun h =>
      absurd (congrArg Fin.val (List.mem_singleton.mp h)) (show ¬ (1 : Nat) = 0 from Nat.one_ne_zero)
    have hkept : (⟨1, h1⟩ : Fin 2) ∈ (rowsDims N wf).sKept :=
      (GatherDims.mem_sKept _ _).mpr ⟨fun h => absurd (congrArg Fin.val (List.mem_singleton.mp h)) (show ¬ (1 : Nat) = 0 from Nat.one_ne_zero), List.not_mem_nil⟩
    unfold GatherDims.start GatherDims.offCoord
    rw [dif_neg hnot, dif_pos hkept, Nat.zero_add]
    rfl

/-- The same with the row named by the caller: any row number equal to the clamped start index. -/
theorem gather_rows_apply_of {N w : Nat}
    (wf : GatherDims.WF ⟨2, ![1000000, 64]⟩ ⟨2, ![N, 1]⟩ ⟨2, ![N, 64]⟩ [1] [0] [] [0] [] 1 ![1, 64])
    (x : (⟨2, ![1000000, 64]⟩ : Shape).Idx → α) (idx : IVec ⟨2, ![N, 1]⟩ w) (y : (⟨2, ![N, 64]⟩ : Shape).Idx)
    (r : Fin 1000000) (hr : r.val = min (idx (ix2 (y 0) (0 : Fin 1))).toInt.toNat 999999) :
    Host.gather (rowsDims N wf) x idx y = x (ix2 r (y 1)) := by
  rw [gather_rows_apply]
  exact congrArg (fun q => x (ix2 q (y 1))) (Fin.ext hr.symm)

end Rows

end Cert.Proof.Ref
-- ==== Proof.RefValue.lean ====
/-
  The lookups' composed operations are the plain lookups, when every index word is a row of the table.

  With 0 <= w <= 999999 for every word w: wrapping negative words changes nothing, the range mask is all ones, so the
  masked select returns the gathered row; the gather's clamp of the row number into [0, 999999] is the identity. The
  final regrouping [327680, 64] -> [16384, 20, 64] is row-major: entry (b, s, j) is entry (20 b + s, j).
-/
import proofs.«215896_g38397007626377_fold_wed_m_942_26_alg».proof.Proof.RefTerms
import proofs.«215896_g38397007626377_fold_wed_m_942_26_alg».proof.Proof.RefGather
import proofs.«215896_g38397007626377_fold_wed_m_942_26_alg».proof.Proof.Spec
import Idealize.ShloMosaic.Lib.Affine
import Idealize.ShloMosaic.PureOps.Reduce
import Idealize.ShloMosaic.Lib.ValueIdx
import Idealize.ShloMosaic.Lib.Pipeline.Value

namespace Cert.Proof.Ref

open Cert.ReferenceIdeal Cert.ReferenceIdeal.Gen Idealize.ShloMosaic Idealize.ShloMosaic.ValueIdx

/-! ### Words -/

/-- A word below 1,000,000 reads the same signed and unsigned. -/
theorem toInt_of_lt {w : BitVec 32} (h : w.toNat < 1000000) : w.toInt = (w.toNat : Int) := by
  rw [BitVec.toInt_eq_toNat_cond]
  split <;> omega

/-- Wrapping a negative word leaves a word below 1,000,000 alone. -/
theorem norm_word {w : BitVec 32} (h : w.toNat < 1000000) :
    Scalar.select (IntOp.cmpi .slt w 0#32) (IntOp.addi w 1000000#32) w = w := by
  have hn : ¬ IntOp.cmpi .slt w 0#32 = 1#1 := by
    rw [IntOp.cmpi_slt, toInt_of_lt h, show (0#32 : BitVec 32).toInt = 0 from by decide]
    omega
  exact if_neg hn

/-- A word below 1,000,000 passes the range test. -/
theorem in_range_word {w : BitVec 32} (h : w.toNat < 1000000) :
    IntOp.andi (IntOp.cmpi .sge w 0#32) (IntOp.cmpi .sle w 999999#32) = 1#1 := by
  rw [IntOp.andi_eq_one, IntOp.cmpi_sge, IntOp.cmpi_sle, toInt_of_lt h,
    show (0#32 : BitVec 32).toInt = 0 from by decide, show (999999#32 : BitVec 32).toInt = 999999 from by decide]
  omega

/-- The gather's clamp is the identity on a word below 1,000,000, and so is the reduction modulo 1,000,000. -/
theorem clamp_row {w : BitVec 32} (h : w.toNat < 1000000) : min w.toInt.toNat 999999 = (Spec.rowOf w).val := by
  have e := toInt_of_lt h
  show min w.toInt.toNat 999999 = w.toNat % 1000000
  omega

/-- A reduction by "and" of all ones from one is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx, show IntOp.andi 1#1 1#1 = 1#1 from by decide]
    exact ih

/-! ### The lookup of 16384 words -/

theorem normA_eq (idx : IVec S16384 32) (h : ∀ i, (idx i).toNat < 1000000) : normA idx = idx :=
  funext fun i => norm_word (h i)

theorem colA_apply (idx : IVec S16384 32) (j : S16384x1.Idx) : colA idx j = normA idx (ix1 (j 0)) := by
  unfold colA
  refine broadcastInDim_apply _ _ _ j _ fun a => ?_
  match a with
  | ⟨0, _⟩ => exact (if_neg (by decide : ¬ (16384 = 1))).symm

theorem maskA_eq (idx : IVec S16384 32) (h : ∀ i, (idx i).toNat < 1000000) : maskA idx = fun _ => 1#1 := by
  funext b
  unfold maskA
  refine reduce_andi_ones _ _ _ _ (fun j => ?_) (fun _ => rfl) b
  show IntOp.andi (IntOp.cmpi .sge (colA idx j) 0#32) (IntOp.cmpi .sle (colA idx j) 999999#32) = 1#1
  rw [colA_apply, normA_eq idx h]
  exact in_range_word (h _)

/-- Entry (p, j) of the lookup is entry (word p, j) of the table. -/
theorem lookupA_apply {F : FTy → Type} [FloatOps F] (tbl : FVec F S1000000x64 .f32) (idx : IVec S16384 32)
    (h : ∀ i, (idx i).toNat < 1000000) (y : S16384x64.Idx) :
    lookupA tbl idx y = tbl (ix2 (Spec.rowOf (idx (ix1 (y 0)))) (y 1)) := by
  unfold lookupA
  rw [maskA_eq idx h]
  show Scalar.select 1#1 (Host.gather (rowsDims 16384 _) tbl (colA idx) y) _ = _
  rw [select_one]
  refine gather_rows_apply_of _ tbl (colA idx) y _ ?_
  rw [colA_apply, normA_eq idx h]
  exact (clamp_row (h _)).symm

/-! ### The lookup of 327680 words -/

theorem normB_eq (idx : IVec S327680 32) (h : ∀ i, (idx i).toNat < 1000000) : normB idx = idx :=
  funext fun i => norm_word (h i)

theorem colB_apply (idx : IVec S327680 32) (j : S327680x1.Idx) : colB idx j = normB idx (ix1 (j 0)) := by
  unfold colB
  refine broadcastInDim_apply _ _ _ j _ fun a => ?_
  match a with
  | ⟨0, _⟩ => exact (if_neg (by decide : ¬ (327680 = 1))).symm

theorem maskB_eq (idx : IVec S327680 32) (h : ∀ i, (idx i).toNat < 1000000) : maskB idx = fun _ => 1#1 := by
  funext b
  unfold maskB
  refine reduce_andi_ones _ _ _ _ (fun j => ?_) (fun _ => rfl) b
  show IntOp.andi (IntOp.cmpi .sge (colB idx j) 0#32) (IntOp.cmpi .sle (colB idx j) 999999#32) = 1#1
  rw [colB_apply, normB_eq idx h]
  exact in_range_word (h _)

/-- Entry (p, j) of the lookup is entry (word p, j) of the table. -/
theorem lookupB_apply {F : FTy → Type} [FloatOps F] (tbl : FVec F S1000000x64 .f32) (idx : IVec S327680 32)
    (h : ∀ i, (idx i).toNat < 1000000) (y : S327680x64.Idx) :
    lookupB tbl idx y = tbl (ix2 (Spec.rowOf (idx (ix1 (y 0)))) (y 1)) := by
  unfold lookupB
  rw [maskB_eq idx h]
  show Scalar.select 1#1 (Host.gather (rowsDims 327680 _) tbl (colB idx) y) _ = _
  rw [select_one]
  refine gather_rows_apply_of _ tbl (colB idx) y _ ?_
  rw [colB_apply, normB_eq idx h]
  exact (clamp_row (h _)).symm

/-! ### The three results -/

theorem lookupA_eq {F : FTy → Type} [FloatOps F] (tbl : FVec F S1000000x64 .f32) (idx : IVec S16384 32)
    (h : ∀ i, (idx i).toNat < 1000000) : lookupA tbl idx = Spec.take2 tbl idx :=
  funext fun y => lookupA_apply tbl idx h y

theorem lookupB3_eq {F : FTy → Type} [FloatOps F] (tbl : FVec F S1000000x64 .f32) (idx : IVec S327680 32)
    (h : ∀ i, (idx i).toNat < 1000000) : lookupB3 tbl idx = Spec.take3 tbl idx := by
  funext y
  unfold lookupB3
  rw [shapeCast_apply (lookupB tbl idx) _ y (ix2 (Spec.noisePos (y 0) (y 1)) (y 2)) ?_, lookupB_apply tbl idx h]
  · rfl
  · rw [Shape.rowMajor_val_two, Shape.rowMajor_val_three]
    show (20 * (y 0).val + (y 1).val) * 64 + (y 2).val = ((y 0).val * 20 + (y 1).val) * 64 + (y 2).val
    omega

end Cert.Proof.Ref
-- ==== Proof.RefRange.lean ====
/-
  The index words of the reference's three index arrays are in range: read as natural numbers they are below the
  tables' 1,000,000 rows. This is what the precondition says of them.
-/
import proofs.«215896_g38397007626377_fold_wed_m_942_26_alg».proof.ReferenceIdeal
import proofs.«215896_g38397007626377_fold_wed_m_942_26_alg».proof.Pre_input_domain
import proofs.«215896_g38397007626377_fold_wed_m_942_26_alg».proof.Proof.RefPre
import Idealize.ShloMosaic.PureOps.Ideal

namespace Cert.Proof.Ref

open Idealize.ShloMosaic Idealize.SL.Sem

/-- Every word of the three index arrays, on every device, is below 1,000,000 as a natural number. -/
def InRange (m : (ℓ : Loc Cert.ReferenceIdeal.nD Cert.ReferenceIdeal.τ Cert.ReferenceIdeal.sig) → Buf (Elt Ideal) ℓ) : Prop :=
  ∀ c : Dev Cert.ReferenceIdeal.nD,
    (∀ i, (m ((c.tc : Thread Cert.ReferenceIdeal.nD Cert.ReferenceIdeal.τ).loc Cert.ReferenceIdeal.main_arg0) i).toNat < 1000000)
    ∧ (∀ i, (m ((c.tc : Thread Cert.ReferenceIdeal.nD Cert.ReferenceIdeal.τ).loc Cert.ReferenceIdeal.main_arg1) i).toNat < 1000000)
    ∧ (∀ i, (m ((c.tc : Thread Cert.ReferenceIdeal.nD Cert.ReferenceIdeal.τ).loc Cert.ReferenceIdeal.main_arg2) i).toNat < 1000000)

/-- The printed domain predicate, all ones on every device, puts the index words in range. -/
theorem inRange_of_pre [Cert.Pre_input_domain.Facts]
    (m : (ℓ : Loc Cert.ReferenceIdeal.nD Cert.ReferenceIdeal.τ Cert.ReferenceIdeal.sig) → Buf (Elt Ideal) ℓ)
    (h : ∀ c : Dev Cert.ReferenceIdeal.nD,
      (Cert.Pre_input_domain.fn (F := Ideal)
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))) = (fun _ => 1#1)) :
    InRange m :=
  fun c => words_lt (F := Ideal) _ _ _ _ _ (h c)

end Cert.Proof.Ref
-- ==== Proof.RefResult.lean ====
/-
  The reference's run at the ideal instance, under the precondition's range of the index words: the three results are
  the plain lookups of the argument arrays, and the arguments end unchanged.
-/
import proofs.«215896_g38397007626377_fold_wed_m_942_26_alg».proof.Proof.RefRun
import proofs.«215896_g38397007626377_fold_wed_m_942_26_alg».proof.Proof.RefValue
import proofs.«215896_g38397007626377_fold_wed_m_942_26_alg».proof.Proof.RefRange
import proofs.«215896_g38397007626377_fold_wed_m_942_26_alg».proof.Proof.Spec
import Idealize.ShloMosaic.PureOps.Ideal

noncomputable section

namespace Cert.Proof.Ref

open Idealize.ShloMosaic Idealize.SL.Sem

/-- With every index word below 1,000,000: every weakly fair execution of the reference terminates with the first
    result the lookup of the first index array in the first table, the second the lookup of the second index array in
    the second table, the third the lookup of the noise words in the second table, twenty per batch row; the five
    arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) (h : InRange m) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v0) = Spec.take2 (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v1) = Spec.take2 (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v3) = Spec.take3 (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono (fun _ hr c => by
      obtain ⟨h0, h1, h3, ha⟩ := hr c
      obtain ⟨r0, r1, r2⟩ := h c
      exact ⟨h0.trans (lookupA_eq _ _ r0), h1.trans (lookupA_eq _ _ r1), h3.trans (lookupB3_eq _ _ r2), ha⟩)
    (run_terms (F := Ideal) m ρ)

/-- From any memory: every weakly fair execution of the reference terminates with the five arguments unchanged. -/
theorem run_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono (fun _ hr c => (hr c).2.2.2) (run_terms (F := Ideal) m ρ)

end Cert.Proof.Ref

end
-- ==== Proof.KIAlgebraic.lean ====
/-
  The idealized program against the idealized reference: from memories that agree on the five arguments, under the
  precondition, both run; each leaves its arguments unchanged, and the three results of the one equal the three
  results of the other, element by element, because both are the same lookups of the same argument arrays.
-/
import proofs.«215896_g38397007626377_fold_wed_m_942_26_alg».proof.Proof.KIClaims
import proofs.«215896_g38397007626377_fold_wed_m_942_26_alg».proof.Proof.RefResult

noncomputable section

namespace Cert.Proof.KI

open Cert.KernelIdeal

open Idealize.ShloMosaic
open Idealize.SL.Sem

theorem algebraic_of [Cert.Pre_input_domain.Facts]
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1))
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h0 : (K (F := Ideal)).TileObl (D (F := Ideal)) 𝒱 (P m) v₀ 0) (h1 : (K (F := Ideal)).TileObl (D (F := Ideal)) 𝒱 (P m) v₀ 1) :
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  have hok : PreOK m := preOK_of_fn m hpre
  have hr : Cert.Proof.Ref.InRange m' := fun c => by
    obtain ⟨e0, e1, e2, -, -⟩ := hagree c
    obtain ⟨p0, p1, p2⟩ := hok c
    exact ⟨fun i => by rw [congrFun e0 i]; exact p0 i, fun i => by rw [congrFun e1 i]; exact p1 i,
      fun i => by rw [congrFun e2 i]; exact p2 i⟩
  refine ⟨fun c => Spec.take2 (m (a3Loc c)) (m (a0Loc c)), fun c => Spec.take2 (m (a4Loc c)) (m (a1Loc c)),
    fun c => Spec.take3 (m (a4Loc c)) (m (a2Loc c)), run_main m g hok h0 h1, ?_⟩
  refine (θ_run (Cert.ReferenceIdeal.defs (F := Ideal)) _ _).mono (fun _ hq c => ?_) (Cert.Proof.Ref.run m' g' hr)
  obtain ⟨e0, e1, e2, e3, e4⟩ := hagree c
  obtain ⟨q0, q1, q2, qa⟩ := hq c
  refine ⟨q0.trans ?_, q1.trans ?_, q2.trans ?_, qa⟩
  · rw [e3, e0]
  · rw [e4, e1]
  · rw [e4, e2]

end Cert.Proof.KI

end
-- ==== Proof.BwKISetup.lean ====
/-
  The launch data of the kernel program, shared by the two kernels' body proofs and the launch.

  The program is two SparseCore calls, each a vector-subcore kernel on 2 SparseCores x 16 vector subcores; worker
  w = 2 s + c (subcore s of SparseCore c) owns a block of consecutive rows of each output: rows 256 w .. 256 w + 255 of
  the first call's [8192, 128] output and of the second call's first output, rows 512 w .. 512 w + 511 of the second
  call's [16384, 1280] output. The index vectors and the tables are only read: every reader holds a read share of the
  whole array, the TensorCore keeps one of each for the end. Each output block travels to its worker at the launch
  contents and comes back at the lookup's values.
-/
import proofs.«215896_g38397007626377_fold_wed_m_942_26_alg».proof.Kernel
import proofs.«215896_g38397007626377_fold_wed_m_942_26_alg».proof.Proof.Gen.Kernel
import proofs.«215896_g38397007626377_fold_wed_m_942_26_alg».proof.Proof.Spec
import Idealize.ShloMosaic.Lib.SparseCore.Launch
import Idealize.ShloMosaic.Lib.Batch
import Idealize.ShloMosaic.Lib.Pipeline.Kit
import Idealize.ShloMosaic.Lib.Tactic

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The launch memory and the arrays -/

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev o1Loc (d : Dev nD) : Loc nD τ sig := (SparseCore.T d).loc main_v0
abbrev o2Loc (d : Dev nD) : Loc nD τ sig := (SparseCore.T d).loc main_v1_0
abbrev o3Loc (d : Dev nD) : Loc nD τ sig := (SparseCore.T d).loc main_v1_1

/-- What the precondition gives the proof: every index word names a row of its table. -/
def PreOK : Prop := ∀ d : Dev nD,
  (∀ i, (m (a0Loc d) i).toNat < 1000000) ∧ (∀ i, (m (a1Loc d) i).toNat < 1000000) ∧ (∀ i, (m (a2Loc d) i).toNat < 1000000)

/-! ## Read shares -/

/-- The read share SparseCore number `c` gets of an array only read, and the one its subcore number `i` gets of that. -/
abbrev qC (c : ℕ) : PosShare TreeShare := Transfers.shareTokN fullShare c
abbrev qT (c i : ℕ) : PosShare TreeShare := Transfers.shareTokN (qC c) i
/-- What the TensorCore keeps. -/
abbrev qKeep : PosShare TreeShare := Transfers.shareDrop fullShare 2

/-! ## The workers' blocks of rows -/

/-- Worker 2 s + c. -/
def wid (c : Fin 2) (s : Fin 16) : Fin 32 := ⟨2 * s.val + c.val, by have := c.isLt; have := s.isLt; omega⟩

theorem hdivA : 32 ∣ S8192x128.size 0 := ⟨256, rfl⟩
theorem hdivB : 32 ∣ S16384x1280.size 0 := ⟨512, rfl⟩
/-- Worker `w`'s 256 rows of an [8192, 128] output; its 512 rows of the [16384, 1280] one. -/
abbrev blkA (w : Fin 32) : Finset S8192x128.Idx := (Rect.part (s := S8192x128) (a₀ := 0) hdivA w).set
abbrev blkB (w : Fin 32) : Finset S16384x1280.Idx := (Rect.part (s := S16384x1280) (a₀ := 0) hdivB w).set
/-- A SparseCore's rows: its sixteen workers'. -/
def coreA (c : Fin 2) : Finset S8192x128.Idx := (Finset.univ : Finset (Fin 16)).biUnion fun s => blkA (wid c s)
def coreB (c : Fin 2) : Finset S16384x1280.Idx := (Finset.univ : Finset (Fin 16)).biUnion fun s => blkB (wid c s)

/-! ## The results in the kernels' layout -/

/-- Row r of an [8192, 128] output holds lookups 2 r (columns 0..63) and 2 r + 1 (columns 64..127). -/
def pairPos (y : S8192x128.Idx) : Fin 16384 := ⟨2 * (y 0).val + (y 1).val / 64, by
  have h0 : (y 0).val < 8192 := (y 0).isLt; have h1 : (y 1).val < 128 := (y 1).isLt; omega⟩
def col64 (n : ℕ) (h : 0 < n) (j : Fin (n * 64)) : Fin 64 := ⟨j.val % 64, Nat.mod_lt _ (by decide)⟩
def packA {α : Type} (g : (⟨2, ![16384, 64]⟩ : Shape).Idx → α) : S8192x128.Idx → α :=
  fun y => g (ix2 (pairPos y) ⟨(y 1).val % 64, Nat.mod_lt _ (by decide)⟩)
/-- Row b of the [16384, 1280] output holds its twenty lookups side by side, 64 columns each. -/
def packB {α : Type} (g : (⟨3, ![16384, 20, 64]⟩ : Shape).Idx → α) : S16384x1280.Idx → α :=
  fun y => g (ix3 (y 0) ⟨(y 1).val / 64, by have h1 : (y 1).val < 1280 := (y 1).isLt; omega⟩ ⟨(y 1).val % 64, Nat.mod_lt _ (by decide)⟩)

def G1 (d : Dev nD) : Buf (Elt F) (o1Loc d) := packA (Spec.take2 (m (a3Loc d)) (m (a0Loc d)))
def G2 (d : Dev nD) : Buf (Elt F) (o2Loc d) := packA (Spec.take2 (m (a4Loc d)) (m (a1Loc d)))
def G3 (d : Dev nD) : Buf (Elt F) (o3Loc d) := packB (Spec.take3 (m (a4Loc d)) (m (a2Loc d)))

/-! ## What the handshakes carry -/

/-- Call 0 (the lookup of the input words) and call 1 (the output and noise words): to a SparseCore (`forCore`) or a
    worker (`forTile`) read shares of the arrays it reads and its rows of the outputs at contents `f`; back, the rows. -/
def inCore (q : Fin 2) (d : Dev nD) (c : Fin 2) : sProp 𝕄 :=
  match q with
  | 0 => iprop((a0Loc d ↦{qC c.val} m (a0Loc d)) ∗ (a3Loc d ↦{qC c.val} m (a3Loc d)) ∗ (o1Loc d ↦[coreA c]{fullShare} m (o1Loc d)))
  | 1 => iprop((a1Loc d ↦{qC c.val} m (a1Loc d)) ∗ (a2Loc d ↦{qC c.val} m (a2Loc d)) ∗ (a4Loc d ↦{qC c.val} m (a4Loc d))
      ∗ (o2Loc d ↦[coreA c]{fullShare} m (o2Loc d)) ∗ (o3Loc d ↦[coreB c]{fullShare} m (o3Loc d)))
def outCore (q : Fin 2) (d : Dev nD) (c : Fin 2) : sProp 𝕄 :=
  match q with
  | 0 => iprop(o1Loc d ↦[coreA c]{fullShare} G1 m d)
  | 1 => iprop((o2Loc d ↦[coreA c]{fullShare} G2 m d) ∗ (o3Loc d ↦[coreB c]{fullShare} G3 m d))
def inTile (q : Fin 2) (d : Dev nD) (c : Fin 2) (s : Fin 16) : sProp 𝕄 :=
  match q with
  | 0 => iprop((a0Loc d ↦{qT c.val s.val} m (a0Loc d)) ∗ (a3Loc d ↦{qT c.val s.val} m (a3Loc d)) ∗ (o1Loc d ↦[blkA (wid c s)]{fullShare} m (o1Loc d)))
  | 1 => iprop((a1Loc d ↦{qT c.val s.val} m (a1Loc d)) ∗ (a2Loc d ↦{qT c.val s.val} m (a2Loc d)) ∗ (a4Loc d ↦{qT c.val s.val} m (a4Loc d))
      ∗ (o2Loc d ↦[blkA (wid c s)]{fullShare} m (o2Loc d)) ∗ (o3Loc d ↦[blkB (wid c s)]{fullShare} m (o3Loc d)))
def outTile (q : Fin 2) (d : Dev nD) (c : Fin 2) (s : Fin 16) : sProp 𝕄 :=
  match q with
  | 0 => iprop(o1Loc d ↦[blkA (wid c s)]{fullShare} G1 m d)
  | 1 => iprop((o2Loc d ↦[blkA (wid c s)]{fullShare} G2 m d) ∗ (o3Loc d ↦[blkB (wid c s)]{fullShare} G3 m d))

def P : (K (F := F)).Pay (nD := nD) (Val := Elt F) (Name := ℕ) (U := UU) where
  st := fun q d c => inCore m q d (Fin.cast (nCore_eq q) c)
  dn := fun q d c => outCore m q d (Fin.cast (nCore_eq q) c)
  go := fun q d c i => inTile m q d (Fin.cast (nCore_eq q) c) (Fin.cast (nSub_eq q) i)
  td := fun q d c i => outTile m q d (Fin.cast (nCore_eq q) c) (Fin.cast (nSub_eq q) i)
  x := fun _ _ => iprop(emp)

instance inCore_storable (q : Fin 2) (d : Dev nD) (c : Fin 2) : BI.Storable (upEmb : UEmb _ 𝕄) (inCore m q d c) := by
  unfold inCore; fin_cases q <;> infer_instance
instance outCore_storable (q : Fin 2) (d : Dev nD) (c : Fin 2) : BI.Storable (upEmb : UEmb _ 𝕄) (outCore m q d c) := by
  unfold outCore; fin_cases q <;> infer_instance
instance inTile_storable (q : Fin 2) (d : Dev nD) (c : Fin 2) (s : Fin 16) : BI.Storable (upEmb : UEmb _ 𝕄) (inTile m q d c s) := by
  unfold inTile; fin_cases q <;> infer_instance
instance outTile_storable (q : Fin 2) (d : Dev nD) (c : Fin 2) (s : Fin 16) : BI.Storable (upEmb : UEmb _ 𝕄) (outTile m q d c s) := by
  unfold outTile; fin_cases q <;> infer_instance

instance P_storable : (P (F := F) m).IsStorable where
  st q d c := by unfold P; infer_instance
  dn q d c := by unfold P; infer_instance
  go q d c i := by unfold P; infer_instance
  td q d c i := by unfold P; infer_instance

end Cert.Proof.KW

end
-- ==== Proof.BwKILaunchSplit.lean ====
/-
  How a SparseCore's share of a call's operands splits among its sixteen vector subcores, and how their results join.

  A read share of an array only read splits into sixteen smaller read shares (the remainder is dropped: nothing has to
  come back). A SparseCore's rows of an output are by definition the union of its sixteen workers' blocks, which are
  pairwise disjoint because a worker's number determines its subcore.
-/
import proofs.«215896_g38397007626377_fold_wed_m_942_26_alg».proof.Proof.BwKISetup

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ)

/-! ## The workers' blocks -/

theorem wid_injective (c : Fin 2) : Function.Injective (wid c) := by
  intro s s' h
  have := congrArg Fin.val h
  simp only [wid] at this
  exact Fin.ext (by omega)

theorem wid_inj2 {c c' : Fin 2} {s s' : Fin 16} (h : wid c s = wid c' s') : c = c' ∧ s = s' := by
  have := congrArg Fin.val h
  simp only [wid] at this
  have hc := c.isLt; have hc' := c'.isLt
  exact ⟨Fin.ext (by omega), Fin.ext (by omega)⟩

theorem blkA_disjoint (c : Fin 2) :
    ∀ s ∈ (Finset.univ : Finset (Fin 16)), ∀ s' ∈ (Finset.univ : Finset (Fin 16)), s ≠ s' → Disjoint (blkA (wid c s)) (blkA (wid c s')) :=
  fun _ _ _ _ h => Rect.part_disjoint hdivA fun e => h (wid_injective c e)
theorem blkB_disjoint (c : Fin 2) :
    ∀ s ∈ (Finset.univ : Finset (Fin 16)), ∀ s' ∈ (Finset.univ : Finset (Fin 16)), s ≠ s' → Disjoint (blkB (wid c s)) (blkB (wid c s')) :=
  fun _ _ _ _ h => Rect.part_disjoint hdivB fun e => h (wid_injective c e)

/-- A SparseCore's rows of each output, as its sixteen workers' blocks. -/
theorem o1_core (d : Dev nD) (c : Fin 2) (f : Buf (Elt F) (o1Loc d)) :
    (o1Loc d ↦[coreA c]{fullShare} f : sProp 𝕄) = bigSep Finset.univ fun s : Fin 16 => o1Loc d ↦[blkA (wid c s)]{fullShare} f :=
  pointsTo_biUnion Finset.univ (ℓ := o1Loc d) (fun s : Fin 16 => blkA (wid c s)) (blkA_disjoint c)
theorem o2_core (d : Dev nD) (c : Fin 2) (f : Buf (Elt F) (o2Loc d)) :
    (o2Loc d ↦[coreA c]{fullShare} f : sProp 𝕄) = bigSep Finset.univ fun s : Fin 16 => o2Loc d ↦[blkA (wid c s)]{fullShare} f :=
  pointsTo_biUnion Finset.univ (ℓ := o2Loc d) (fun s : Fin 16 => blkA (wid c s)) (blkA_disjoint c)
theorem o3_core (d : Dev nD) (c : Fin 2) (f : Buf (Elt F) (o3Loc d)) :
    (o3Loc d ↦[coreB c]{fullShare} f : sProp 𝕄) = bigSep Finset.univ fun s : Fin 16 => o3Loc d ↦[blkB (wid c s)]{fullShare} f :=
  pointsTo_biUnion Finset.univ (ℓ := o3Loc d) (fun s : Fin 16 => blkB (wid c s)) (blkB_disjoint c)

/-- A SparseCore's read share of a whole array, dealt to its sixteen subcores. -/
theorem read_deal {ℓ : Loc nD τ sig} (f : Buf (Elt F) ℓ) (c : ℕ) :
    (ℓ ↦{qC c} f : sProp 𝕄) ⊢ bigSep Finset.univ fun s : Fin 16 => ℓ ↦{qT c s.val} f :=
  (Transfers.pointsTo_toks_split (qC c) 16).trans sep_elim_right

/-! ## The two calls' splits over the subcores' own numbering -/

theorem split0 (d : Dev nD) (c : Fin 2) :
    inCore m 0 d c ⊢ |={Set.univ}=> iprop((bigSep Finset.univ fun s : Fin 16 => inTile m 0 d c s)
      ∗ ((bigSep Finset.univ fun s : Fin 16 => outTile m 0 d c s) -∗ outCore m 0 d c)) := by
  show iprop((a0Loc d ↦{qC c.val} m (a0Loc d)) ∗ (a3Loc d ↦{qC c.val} m (a3Loc d)) ∗ (o1Loc d ↦[coreA c]{fullShare} m (o1Loc d)))
    ⊢ |={Set.univ}=> iprop((bigSep Finset.univ fun s : Fin 16 =>
        iprop((a0Loc d ↦{qT c.val s.val} m (a0Loc d)) ∗ (a3Loc d ↦{qT c.val s.val} m (a3Loc d)) ∗ (o1Loc d ↦[blkA (wid c s)]{fullShare} m (o1Loc d))))
      ∗ ((bigSep Finset.univ fun s : Fin 16 => (o1Loc d ↦[blkA (wid c s)]{fullShare} G1 m d)) -∗ (o1Loc d ↦[coreA c]{fullShare} G1 m d)))
  rw [bigSep_sep', bigSep_sep', o1_core, o1_core]
  iintro ⟨H0, H3, Ho⟩
  ihave H0' := (read_deal (m (a0Loc d)) c.val) $$ H0
  ihave H3' := (read_deal (m (a3Loc d)) c.val) $$ H3
  imodintro
  isplitl [H0' H3' Ho]
  · isplitl [H0']; · iexact H0'
    isplitl [H3']; · iexact H3'
    iexact Ho
  iintro H; iexact H

theorem split1 (d : Dev nD) (c : Fin 2) :
    inCore m 1 d c ⊢ |={Set.univ}=> iprop((bigSep Finset.univ fun s : Fin 16 => inTile m 1 d c s)
      ∗ ((bigSep Finset.univ fun s : Fin 16 => outTile m 1 d c s) -∗ outCore m 1 d c)) := by
  show iprop((a1Loc d ↦{qC c.val} m (a1Loc d)) ∗ (a2Loc d ↦{qC c.val} m (a2Loc d)) ∗ (a4Loc d ↦{qC c.val} m (a4Loc d))
      ∗ (o2Loc d ↦[coreA c]{fullShare} m (o2Loc d)) ∗ (o3Loc d ↦[coreB c]{fullShare} m (o3Loc d)))
    ⊢ |={Set.univ}=> iprop((bigSep Finset.univ fun s : Fin 16 =>
        iprop((a1Loc d ↦{qT c.val s.val} m (a1Loc d)) ∗ (a2Loc d ↦{qT c.val s.val} m (a2Loc d)) ∗ (a4Loc d ↦{qT c.val s.val} m (a4Loc d))
          ∗ (o2Loc d ↦[blkA (wid c s)]{fullShare} m (o2Loc d)) ∗ (o3Loc d ↦[blkB (wid c s)]{fullShare} m (o3Loc d))))
      ∗ ((bigSep Finset.univ fun s : Fin 16 => iprop((o2Loc d ↦[blkA (wid c s)]{fullShare} G2 m d) ∗ (o3Loc d ↦[blkB (wid c s)]{fullShare} G3 m d)))
          -∗ iprop((o2Loc d ↦[coreA c]{fullShare} G2 m d) ∗ (o3Loc d ↦[coreB c]{fullShare} G3 m d))))
  rw [bigSep_sep', bigSep_sep', bigSep_sep', bigSep_sep', bigSep_sep', o2_core, o2_core, o3_core, o3_core]
  iintro ⟨H1, H2, H4, Ho2, Ho3⟩
  ihave H1' := (read_deal (m (a1Loc d)) c.val) $$ H1
  ihave H2' := (read_deal (m (a2Loc d)) c.val) $$ H2
  ihave H4' := (read_deal (m (a4Loc d)) c.val) $$ H4
  imodintro
  isplitl [H1' H2' H4' Ho2 Ho3]
  · isplitl [H1']; · iexact H1'
    isplitl [H2']; · iexact H2'
    isplitl [H4']; · iexact H4'
    isplitl [Ho2]; · iexact Ho2
    iexact Ho3
  iintro H; iexact H

/-! ## Over the launch theorem's numbering -/

theorem bigSep_tasks0 (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_tasks1 (Φ : Fin 16 → sProp 𝕄) :
    (bigSep Finset.univ fun i : Fin ((K (F := F)).nSub 1) => Φ (Fin.cast (nSub_eq 1) i)) = bigSep Finset.univ Φ :=
  bigSep_congr fun _ _ => congrArg Φ (Fin.ext rfl)

theorem vecSplit0 : (K (F := F)).VecSplit' (P m) 0 := by
  intro d c
  show inCore m 0 d (Fin.cast (nCore_eq 0) c) ⊢ |={Set.univ}=> iprop(
      (bigSep Finset.univ fun i : Fin ((K (F := F)).nSub 0) => inTile m 0 d (Fin.cast (nCore_eq 0) c) (Fin.cast (nSub_eq 0) i))
      ∗ ((bigSep Finset.univ fun i : Fin ((K (F := F)).nSub 0) => outTile m 0 d (Fin.cast (nCore_eq 0) c) (Fin.cast (nSub_eq 0) i))
          -∗ outCore m 0 d (Fin.cast (nCore_eq 0) c)))
  rw [bigSep_tasks0 (F := F) (fun s => inTile m 0 d (Fin.cast (nCore_eq 0) c) s),
    bigSep_tasks0 (F := F) (fun s => outTile m 0 d (Fin.cast (nCore_eq 0) c) s)]
  exact split0 m d _

theorem vecSplit1 : (K (F := F)).VecSplit' (P m) 1 := by
  intro d c
  show inCore m 1 d (Fin.cast (nCore_eq 1) c) ⊢ |={Set.univ}=> iprop(
      (bigSep Finset.univ fun i : Fin ((K (F := F)).nSub 1) => inTile m 1 d (Fin.cast (nCore_eq 1) c) (Fin.cast (nSub_eq 1) i))
      ∗ ((bigSep Finset.univ fun i : Fin ((K (F := F)).nSub 1) => outTile m 1 d (Fin.cast (nCore_eq 1) c) (Fin.cast (nSub_eq 1) i))
          -∗ outCore m 1 d (Fin.cast (nCore_eq 1) c)))
  rw [bigSep_tasks1 (F := F) (fun s => inTile m 1 d (Fin.cast (nCore_eq 1) c) s),
    bigSep_tasks1 (F := F) (fun s => outTile m 1 d (Fin.cast (nCore_eq 1) c) s)]
  exact split1 m d _

/-- Each call's operands for a SparseCore split into its sixteen tasks' and its results gather from theirs. -/
theorem vecSplit (q : Fin 2) : (K (F := F)).VecSplit' (P m) q :=
  match q with
  | 0 => vecSplit0 m
  | 1 => vecSplit1 m

end Cert.Proof.KW

end
-- ==== Proof.BwKIReshape.lean ====
/-
  The host reshapes read through the kernels' layout.

  An [8192, 128] array holds two lookups per row, the first in columns 0..63 and the second in columns 64..127; read in
  row-major order as [16384, 64] it is the lookups one per row. A [16384, 1280] array holds a batch row's twenty lookups
  side by side; read as [16384, 20, 64] it is the lookups by batch row and sample.
-/
import proofs.«215896_g38397007626377_fold_wed_m_942_26_alg».proof.Proof.BwKISetup
import Idealize.ShloMosaic.Lib.Pipeline.Value

namespace Cert.Proof.KW

open Cert.Kernel

open Idealize.ShloMosaic
open Idealize.ShloMosaic.ValueIdx

/-- Entry (b, j) of the [16384, 64] reading is entry (b / 2, 64 (b % 2) + j) of the [8192, 128] array. -/
theorem shapeCast_packA {α : Type} (g : S16384x64.Idx → α) (h : S8192x128.ShapeCasts S16384x64) :
    shapeCast S16384x64 (packA g) h = g := by
  funext y
  have h0 : (y 0).val < 16384 := (y 0).isLt
  have h1 : (y 1).val < 64 := (y 1).isLt
  rw [shapeCast_apply (packA g) h y (ix2 (⟨(y 0).val / 2, by omega⟩ : Fin 8192) (⟨64 * ((y 0).val % 2) + (y 1).val, by omega⟩ : Fin 128))
    (by rw [Shape.rowMajor_val_two, Shape.rowMajor_val_two]
        show (y 0).val / 2 * 128 + (64 * ((y 0).val % 2) + (y 1).val) = (y 0).val * 64 + (y 1).val
        omega)]
  unfold packA
  refine congrArg g ?_
  funext a
  match a with
  | ⟨0, _⟩ =>
    refine Fin.ext ?_
    show 2 * ((y 0).val / 2) + (64 * ((y 0).val % 2) + (y 1).val) / 64 = (y 0).val
    omega
  | ⟨1, _⟩ =>
    refine Fin.ext ?_
    show (64 * ((y 0).val % 2) + (y 1).val) % 64 = (y 1).val
    omega

/-- Entry (b, s, j) of the [16384, 20, 64] reading is entry (b, 64 s + j) of the [16384, 1280] array. -/
theorem shapeCast_packB {α : Type} (g : S16384x20x64.Idx → α) (h : S16384x1280.ShapeCasts S16384x20x64) :
    shapeCast S16384x20x64 (packB g) h = g := by
  funext y
  have h1 : (y 1).val < 20 := (y 1).isLt
  have h2 : (y 2).val < 64 := (y 2).isLt
  rw [shapeCast_apply (packB g) h y (ix2 (y 0) (⟨64 * (y 1).val + (y 2).val, by omega⟩ : Fin 1280))
    (by rw [Shape.rowMajor_val_two, Shape.rowMajor_val_three]
        show (y 0).val * 1280 + (64 * (y 1).val + (y 2).val) = ((y 0).val * 20 + (y 1).val) * 64 + (y 2).val
        omega)]
  unfold packB
  refine congrArg g ?_
  funext a
  match a with
  | ⟨0, _⟩ => rfl
  | ⟨1, _⟩ =>
    refine Fin.ext ?_
    show (64 * (y 1).val + (y 2).val) / 64 = (y 1).val
    omega
  | ⟨2, _⟩ =>
    refine Fin.ext ?_
    show (64 * (y 1).val + (y 2).val) % 64 = (y 2).val
    omega

end Cert.Proof.KW
-- ==== Proof.BwKILaunchMain.lean ====
/-
  The launch element of the ghost state, and the program's own thread on the TensorCore.

  The TensorCore holds the eleven arrays whole. It keeps a read share of each argument and deals one to each SparseCore;
  each output of a call goes out as the two SparseCores' rows and comes back at the lookup's values in the kernels' layout;
  each host reshape then reads such an output in row-major order, which is the lookup itself.
-/
import proofs.«215896_g38397007626377_fold_wed_m_942_26_alg».proof.Proof.BwKISetup
import proofs.«215896_g38397007626377_fold_wed_m_942_26_alg».proof.Proof.BwKILaunchSplit
import proofs.«215896_g38397007626377_fold_wed_m_942_26_alg».proof.Proof.BwKIReshape
import Idealize.ShloMosaic.Lib.StableHlo.Run

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held wp_hlo_within)

variable {F : FTy → Type}

local notation "𝕄" => MT nD τ sig (HIx 2) (Elt F) ℕ UU ℕ

variable [FloatOps F]
variable (m : (ℓ : Loc nD τ sig) → Buf (Elt F) ℓ) (ρ : Dev nD → PrngReg)

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The two SparseCores' rows make up an output -/

omit [FloatOps F] in
theorem coresA_disjoint : ∀ c ∈ (Finset.univ : Finset (Fin 2)), ∀ c' ∈ (Finset.univ : Finset (Fin 2)), c ≠ c' → Disjoint (coreA c) (coreA c') := by
  intro c _ c' _ h
  unfold coreA
  rw [Finset.disjoint_biUnion_left]; intro s _
  rw [Finset.disjoint_biUnion_right]; intro s' _
  exact Rect.part_disjoint hdivA fun e => h (wid_inj2 e).1
omit [FloatOps F] in
theorem coresB_disjoint : ∀ c ∈ (Finset.univ : Finset (Fin 2)), ∀ c' ∈ (Finset.univ : Finset (Fin 2)), c ≠ c' → Disjoint (coreB c) (coreB c') := by
  intro c _ c' _ h
  unfold coreB
  rw [Finset.disjoint_biUnion_left]; intro s _
  rw [Finset.disjoint_biUnion_right]; intro s' _
  exact Rect.part_disjoint hdivB fun e => h (wid_inj2 e).1

omit [FloatOps F] in
theorem wid_surj (w : Fin 32) : wid ⟨w.val % 2, Nat.mod_lt _ (by decide)⟩ ⟨w.val / 2, by have := w.isLt; omega⟩ = w :=
  Fin.ext (by simp only [wid]; omega)

omit [FloatOps F] in
theorem coresA_cover : (Finset.univ : Finset (Fin 2)).biUnion coreA = Finset.univ := by
  ext i
  simp only [Finset.mem_biUnion, Finset.mem_univ, true_and, iff_true]
  obtain ⟨w, hw⟩ := Rect.exists_mem_part hdivA i
  refine ⟨⟨w.val % 2, Nat.mod_lt _ (by decide)⟩, ?_⟩
  unfold coreA
  rw [Finset.mem_biUnion]
  refine ⟨⟨w.val / 2, by have := w.isLt; omega⟩, Finset.mem_univ _, ?_⟩
  rw [wid_surj w]; exact hw
omit [FloatOps F] in
theorem coresB_cover : (Finset.univ : Finset (Fin 2)).biUnion coreB = Finset.univ := by
  ext i
  simp only [Finset.mem_biUnion, Finset.mem_univ, true_and, iff_true]
  obtain ⟨w, hw⟩ := Rect.exists_mem_part hdivB i
  refine ⟨⟨w.val % 2, Nat.mod_lt _ (by decide)⟩, ?_⟩
  unfold coreB
  rw [Finset.mem_biUnion]
  refine ⟨⟨w.val / 2, by have := w.isLt; omega⟩, Finset.mem_univ _, ?_⟩
  rw [wid_surj w]; exact hw

omit [FloatOps F] in
theorem o1_cores (d : Dev nD) (f : Buf (Elt F) (o1Loc d)) :
    (o1Loc d ↦{fullShare} f : sProp 𝕄) = iprop((o1Loc d ↦[coreA 0]{fullShare} f) ∗ (o1Loc d ↦[coreA 1]{fullShare} f)) := by
  rw [← coresA_cover, pointsTo_biUnion Finset.univ (ℓ := o1Loc d) coreA coresA_disjoint, bigSep_univ_two]
omit [FloatOps F] in
theorem o2_cores (d : Dev nD) (f : Buf (Elt F) (o2Loc d)) :
    (o2Loc d ↦{fullShare} f : sProp 𝕄) = iprop((o2Loc d ↦[coreA 0]{fullShare} f) ∗ (o2Loc d ↦[coreA 1]{fullShare} f)) := by
  rw [← coresA_cover, pointsTo_biUnion Finset.univ (ℓ := o2Loc d) coreA coresA_disjoint, bigSep_univ_two]
omit [FloatOps F] in
theorem o3_cores (d : Dev nD) (f : Buf (Elt F) (o3Loc d)) :
    (o3Loc d ↦{fullShare} f : sProp 𝕄) = iprop((o3Loc d ↦[coreB 0]{fullShare} f) ∗ (o3Loc d ↦[coreB 1]{fullShare} f)) := by
  rw [← coresB_cover, pointsTo_biUnion Finset.univ (ℓ := o3Loc d) coreB coresB_disjoint, bigSep_univ_two]

omit [FloatOps F] in
/-- An argument's full share: what the TensorCore keeps, and a read share for each SparseCore. -/
theorem arg_deal {ℓ : Loc nD τ sig} (f : Buf (Elt F) ℓ) :
    (ℓ ↦{fullShare} f : sProp 𝕄) ⊢ iprop((ℓ ↦{qKeep} f) ∗ (ℓ ↦{qC 0} f) ∗ (ℓ ↦{qC 1} f)) := by
  refine (Transfers.pointsTo_toks_split fullShare 2).trans ?_
  rw [bigSep_univ_two]
  exact .rfl

/-! ## The TensorCore's arrays -/

abbrev r2Loc (d : Dev nD) : Loc nD τ sig := (SparseCore.T d).loc main_v2
abbrev r3Loc (d : Dev nD) : Loc nD τ sig := (SparseCore.T d).loc main_v3
abbrev r4Loc (d : Dev nD) : Loc nD τ sig := (SparseCore.T d).loc main_v4

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (a4Loc d ↦{fullShare} W main_arg4) ∗ (o1Loc d ↦{fullShare} W main_v0) ∗ (o2Loc d ↦{fullShare} W main_v1_0)
      ∗ (o3Loc d ↦{fullShare} W main_v1_1) ∗ (r2Loc d ↦{fullShare} W main_v2) ∗ (r3Loc d ↦{fullShare} W main_v3) ∗ (r4Loc d ↦{fullShare} W main_v4)) := by
  unfold unscopedBufs
  rw [show (Finset.univ.filter fun b : Ref sig .tc => ¬ b.isScoped)
      = {main_arg0, main_arg1, main_arg2, main_arg3, main_arg4, main_v0, main_v1_0, main_v1_1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## What a call takes for the two SparseCores, and what it hands back -/

theorem st0_eq (d : Dev nD) : (bigSep Finset.univ fun c : Fin ((K (F := F)).nCore 0) => (P m).st 0 d c)
    = iprop(((a0Loc d ↦{qC 0} m (a0Loc d)) ∗ (a3Loc d ↦{qC 0} m (a3Loc d)) ∗ (o1Loc d ↦[coreA 0]{fullShare} m (o1Loc d)))
      ∗ ((a0Loc d ↦{qC 1} m (a0Loc d)) ∗ (a3Loc d ↦{qC 1} m (a3Loc d)) ∗ (o1Loc d ↦[coreA 1]{fullShare} m (o1Loc d)))) := by
  show (bigSep (Finset.univ : Finset (Fin 2)) fun c => inCore m 0 d c) = _
  rw [bigSep_univ_two]; rfl
theorem dn0_eq (d : Dev nD) : (bigSep Finset.univ fun c : Fin ((K (F := F)).nCore 0) => (P m).dn 0 d c)
    = iprop((o1Loc d ↦[coreA 0]{fullShare} G1 m d) ∗ (o1Loc d ↦[coreA 1]{fullShare} G1 m d)) := by
  show (bigSep (Finset.univ : Finset (Fin 2)) fun c => outCore m 0 d c) = _
  rw [bigSep_univ_two]; rfl
theorem st1_eq (d : Dev nD) : (bigSep Finset.univ fun c : Fin ((K (F := F)).nCore 1) => (P m).st 1 d c)
    = iprop(((a1Loc d ↦{qC 0} m (a1Loc d)) ∗ (a2Loc d ↦{qC 0} m (a2Loc d)) ∗ (a4Loc d ↦{qC 0} m (a4Loc d))
        ∗ (o2Loc d ↦[coreA 0]{fullShare} m (o2Loc d)) ∗ (o3Loc d ↦[coreB 0]{fullShare} m (o3Loc d)))
      ∗ ((a1Loc d ↦{qC 1} m (a1Loc d)) ∗ (a2Loc d ↦{qC 1} m (a2Loc d)) ∗ (a4Loc d ↦{qC 1} m (a4Loc d))
        ∗ (o2Loc d ↦[coreA 1]{fullShare} m (o2Loc d)) ∗ (o3Loc d ↦[coreB 1]{fullShare} m (o3Loc d)))) := by
  show (bigSep (Finset.univ : Finset (Fin 2)) fun c => inCore m 1 d c) = _
  rw [bigSep_univ_two]; rfl
theorem dn1_eq (d : Dev nD) : (bigSep Finset.univ fun c : Fin ((K (F := F)).nCore 1) => (P m).dn 1 d c)
    = iprop(((o2Loc d ↦[coreA 0]{fullShare} G2 m d) ∗ (o3Loc d ↦[coreB 0]{fullShare} G3 m d))
      ∗ ((o2Loc d ↦[coreA 1]{fullShare} G2 m d) ∗ (o3Loc d ↦[coreB 1]{fullShare} G3 m d))) := by
  show (bigSep (Finset.univ : Finset (Fin 2)) fun c => outCore m 1 d c) = _
  rw [bigSep_univ_two]; rfl

end Cert.Proof.KW

end
-- ==== Proof.BwKILaunchTc.lean ====
/-
  The program's own thread on the TensorCore: the two SparseCore calls and the three host reshapes.
-/
import proofs.«215896_g38397007626377_fold_wed_m_942_26_alg».proof.Proof.BwKISetup
import proofs.«215896_g38397007626377_fold_wed_m_942_26_alg».proof.Proof.BwKILaunchMain

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held wp_hlo_within)

variable {F : FTy → Type}

local notation "𝕄" => MT nD τ sig (HIx 2) (Elt F) ℕ UU ℕ

variable [FloatOps F]
variable (m : (ℓ : Loc nD τ sig) → Buf (Elt F) ℓ) (ρ : Dev nD → PrngReg)

/-! ## A host reshape, over the two arrays it touches -/

section Reshape

variable {Λ' : Labels} {defs' : Defs nD τ sig (Elt F) Λ'}

include m in
/-- `y = reshape x` with `x` and `y` held whole: `y` ends at `x`'s elements in row-major order, `x` is kept. -/
theorem wp_reshape (d : Dev nD) (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (hne : (Proc.devRef .tc x : DevRef τ sig) ≠ Proc.devRef .tc y)
    (fx : Buf (Elt F) ((SparseCore.T d).loc x)) (fy : Buf (Elt F) ((SparseCore.T d).loc y)) (Q : PUnit → sProp 𝕄) :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx)
            ∗ ((SparseCore.T d).loc y ↦{fullShare} fun i => he ▸ shapeCast y.ty.shape fx hn i)) -∗ Q ⟨⟩)
        -∗ wp frame (wpE defs' 𝒱 (SparseCore.T d) none) Set.univ (hlo rfl (StableHlo.reshape x y he hn hx hy) fun _ => .ret ⟨⟩) Q) := by
  classical
  have hVx : Function.update (Function.update (fun b : DevRef τ sig => m (d, b)) (Proc.devRef .tc x) fx) (Proc.devRef .tc y) fy (Proc.devRef .tc x) = fx := by
    rw [Function.update_of_ne hne, Function.update_self]
  have hVy : Function.update (Function.update (fun b : DevRef τ sig => m (d, b)) (Proc.devRef .tc x) fx) (Proc.devRef .tc y) fy (Proc.devRef .tc y) = fy :=
    Function.update_self _ _ _
  have h := wp_hlo_within (defs := defs') 𝒱 (SparseCore.T d) none Set.univ (hp := rfl) (op := StableHlo.reshape x y he hn hx hy)
    (S := {(Proc.devRef .tc x : DevRef τ sig), Proc.devRef .tc y}) (Finset.Subset.refl _)
    (V := Function.update (Function.update (fun b : DevRef τ sig => m (d, b)) (Proc.devRef .tc x) fx) (Proc.devRef .tc y) fy)
    (k := fun _ => .ret ⟨⟩) (Q := Q)
  have hheld : ∀ W : Valuation τ sig (Elt F), (held (SparseCore.T d) {(Proc.devRef .tc x : DevRef τ sig), Proc.devRef .tc y} W : sProp 𝕄)
      = iprop(((SparseCore.T d).loc x ↦{fullShare} W (Proc.devRef .tc x)) ∗ ((SparseCore.T d).loc y ↦{fullShare} W (Proc.devRef .tc y))) := by
    intro W; unfold held
    rw [SparseCore.bigSep_insert' (by simpa using hne), bigSep_singleton]
  rw [hheld, hheld, HloOp.result_of_not_mem _ _ (b := Proc.devRef .tc x) (by simpa using hne), StableHlo.reshape_result, hVx, hVy] at h
  iintro H Hk
  iapply h $$ [H]
  · iexact H
  iintro H2
  rw [wp_ret]; imodintro
  iapply Hk; iexact H2

end Reshape

/-! ## @main on the TensorCore -/

/-- What @main leaves the claim: a read share of each argument at its launch contents, the three results whole at the
    lookups' values. -/
abbrev FIN (d : Dev nD) : sProp 𝕄 :=
  iprop((a0Loc d ↦{qKeep} m (a0Loc d)) ∗ (a1Loc d ↦{qKeep} m (a1Loc d)) ∗ (a2Loc d ↦{qKeep} m (a2Loc d))
    ∗ (a3Loc d ↦{qKeep} m (a3Loc d)) ∗ (a4Loc d ↦{qKeep} m (a4Loc d))
    ∗ (r2Loc d ↦{fullShare} Spec.take2 (m (a3Loc d)) (m (a0Loc d))) ∗ (r3Loc d ↦{fullShare} Spec.take2 (m (a4Loc d)) (m (a1Loc d)))
    ∗ (r4Loc d ↦{fullShare} Spec.take3 (m (a4Loc d)) (m (a2Loc d))))

omit [FloatOps F] in
/-- Each call's output in the kernels' layout, read in row-major order at the result's shape, is the lookup. -/
theorem res1 (d : Dev nD) (h : S8192x128.ShapeCasts S16384x64) :
    (shapeCast S16384x64 (G1 m d) h : Buf (Elt F) (r2Loc d)) = Spec.take2 (m (a3Loc d)) (m (a0Loc d)) := shapeCast_packA _ h
omit [FloatOps F] in
theorem res2 (d : Dev nD) (h : S8192x128.ShapeCasts S16384x64) :
    (shapeCast S16384x64 (G2 m d) h : Buf (Elt F) (r3Loc d)) = Spec.take2 (m (a4Loc d)) (m (a1Loc d)) := shapeCast_packA _ h
omit [FloatOps F] in
theorem res3 (d : Dev nD) (h : S16384x1280.ShapeCasts S16384x20x64) :
    (shapeCast S16384x20x64 (G3 m d) h : Buf (Elt F) (r4Loc d)) = Spec.take3 (m (a4Loc d)) (m (a2Loc d)) := shapeCast_packB _ h

omit [FloatOps F] in
theorem ne_v0_v2 : (Proc.devRef .tc (main_v0 : Ref sig .tc) : DevRef τ sig) ≠ Proc.devRef .tc (main_v2 : Ref sig .tc) := by decide
omit [FloatOps F] in
theorem ne_v10_v3 : (Proc.devRef .tc (main_v1_0 : Ref sig .tc) : DevRef τ sig) ≠ Proc.devRef .tc (main_v3 : Ref sig .tc) := by decide
omit [FloatOps F] in
theorem ne_v11_v4 : (Proc.devRef .tc (main_v1_1 : Ref sig .tc) : DevRef τ sig) ≠ Proc.devRef .tc (main_v4 : Ref sig .tc) := by decide

/-- @main on device `d`'s TensorCore: the two calls (each takes the SparseCores' read shares and rows and hands the rows
    back at the lookups' values), then the three reshapes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscopedBufs_eq]
  simp only [main, wp_bind, wp_pure]
  iintro ⟨#Hctx, Hst, ⟨Hb, ⟨Ha0, Ha1, Ha2, Ha3, Ha4, Ho1, Ho2, Ho3, Hr2, Hr3, Hr4⟩, -, -⟩, -⟩
  ihave Hd0 := (arg_deal _) $$ Ha0
  icases Hd0 with ⟨Hk0, Ha00, Ha01⟩
  ihave Hd1 := (arg_deal _) $$ Ha1
  icases Hd1 with ⟨Hk1, Ha10, Ha11⟩
  ihave Hd2 := (arg_deal _) $$ Ha2
  icases Hd2 with ⟨Hk2, Ha20, Ha21⟩
  ihave Hd3 := (arg_deal _) $$ Ha3
  icases Hd3 with ⟨Hk3, Ha30, Ha31⟩
  ihave Hd4 := (arg_deal _) $$ Ha4
  icases Hd4 with ⟨Hk4, Ha40, Ha41⟩
  ihave Hs1 := (Entails.of_eq (o1_cores d _)) $$ Ho1
  icases Hs1 with ⟨Ho10, Ho11⟩
  ihave Hs2 := (Entails.of_eq (o2_cores d _)) $$ Ho2
  icases Hs2 with ⟨Ho20, Ho21⟩
  ihave Hs3 := (Entails.of_eq (o3_cores d _)) $$ Ho3
  icases Hs3 with ⟨Ho30, Ho31⟩
  -- call 0
  iapply ((K (F := F)).wp_run (D (F := F)) 𝒱 (EH := EH) (P := P m) κ d 0)
  isplitr; · iexact Hctx
  isplitl [Hst]; · iexact Hst
  isplitl [Ha00 Ha01 Ha30 Ha31 Ho10 Ho11]
  · rw [st0_eq]
    isplitl [Ha00 Ha30 Ho10]
    · isplitl [Ha00]; · iexact Ha00
      isplitl [Ha30]; · iexact Ha30
      iexact Ho10
    · isplitl [Ha01]; · iexact Ha01
      isplitl [Ha31]; · iexact Ha31
      iexact Ho11
  iintro ⟨Hst, Hdn⟩
  ihave Hdn' := (Entails.of_eq (dn0_eq m d)) $$ Hdn
  ihave Ho1 := (Entails.of_eq (o1_cores d (G1 m d)).symm) $$ Hdn'
  -- call 1
  iapply ((K (F := F)).wp_run (D (F := F)) 𝒱 (EH := EH) (P := P m) κ d 1)
  isplitr; · iexact Hctx
  isplitl [Hst]; · iexact Hst
  isplitl [Ha10 Ha11 Ha20 Ha21 Ha40 Ha41 Ho20 Ho21 Ho30 Ho31]
  · rw [st1_eq]
    isplitl [Ha10 Ha20 Ha40 Ho20 Ho30]
    · isplitl [Ha10]; · iexact Ha10
      isplitl [Ha20]; · iexact Ha20
      isplitl [Ha40]; · iexact Ha40
      isplitl [Ho20]; · iexact Ho20
      iexact Ho30
    · isplitl [Ha11]; · iexact Ha11
      isplitl [Ha21]; · iexact Ha21
      isplitl [Ha41]; · iexact Ha41
      isplitl [Ho21]; · iexact Ho21
      iexact Ho31
  iintro ⟨Hst, Hdn⟩
  ihave Hdn' := (Entails.of_eq (dn1_eq m d)) $$ Hdn
  icases Hdn' with ⟨⟨Ho20, Ho30⟩, ⟨Ho21, Ho31⟩⟩
  ihave Ho2 := (Entails.of_eq (o2_cores d (G2 m d)).symm) $$ [Ho20 Ho21]
  · isplitl [Ho20]; · iexact Ho20
    iexact Ho21
  ihave Ho3 := (Entails.of_eq (o3_cores d (G3 m d)).symm) $$ [Ho30 Ho31]
  · isplitl [Ho30]; · iexact Ho30
    iexact Ho31
  -- the three reshapes
  iapply (wp_reshape m d main_v0 main_v2 rfl _ _ _ ne_v0_v2 (G1 m d) _ _) $$ [Hb Ho1 Hr2]
  · isplitl [Hb]; · iexact Hb
    isplitl [Ho1]; · iexact Ho1
    iexact Hr2
  iintro ⟨Hb, -, Hr2⟩
  ihave Hr2' := (Entails.of_eq (congrArg (fun f => (r2Loc d ↦{fullShare} f : sProp 𝕄)) (res1 m d _))) $$ Hr2
  iapply (wp_reshape m d main_v1_0 main_v3 rfl _ _ _ ne_v10_v3 (G2 m d) _ _) $$ [Hb Ho2 Hr3]
  · isplitl [Hb]; · iexact Hb
    isplitl [Ho2]; · iexact Ho2
    iexact Hr3
  iintro ⟨Hb, -, Hr3⟩
  ihave Hr3' := (Entails.of_eq (congrArg (fun f => (r3Loc d ↦{fullShare} f : sProp 𝕄)) (res2 m d _))) $$ Hr3
  iapply (wp_reshape m d main_v1_1 main_v4 rfl _ _ _ ne_v11_v4 (G3 m d) _ _) $$ [Hb Ho3 Hr4]
  · isplitl [Hb]; · iexact Hb
    isplitl [Ho3]; · iexact Ho3
    iexact Hr4
  iintro ⟨-, -, Hr4⟩
  ihave Hr4' := (Entails.of_eq (congrArg (fun f => (r4Loc d ↦{fullShare} f : sProp 𝕄)) (res3 m d _))) $$ Hr4
  imodintro
  isplitl [Hst]; · iexact Hst
  isplitl [Hk0]; · iexact Hk0
  isplitl [Hk1]; · iexact Hk1
  isplitl [Hk2]; · iexact Hk2
  isplitl [Hk3]; · iexact Hk3
  isplitl [Hk4]; · iexact Hk4
  isplitl [Hr2']; · iexact Hr2'
  isplitl [Hr3']; · iexact Hr3'
  iexact Hr4'

end Cert.Proof.KW

end
-- ==== Proof.BwKILaunchRun.lean ====
/-
  The whole program's run: every weakly fair execution of the TensorCore's thread and the SparseCores' subcores ends,
  with the arguments unchanged and the three results at the lookups' values, given the two kernels' bodies proved for
  every vector subcore.
-/
import proofs.«215896_g38397007626377_fold_wed_m_942_26_alg».proof.Proof.BwKISetup
import proofs.«215896_g38397007626377_fold_wed_m_942_26_alg».proof.Proof.BwKILaunchTc

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable [FloatOps F]
variable (m : (ℓ : Loc nD τ sig) → Buf (Elt F) ℓ) (ρ : Dev nD → PrngReg)

/-! ## What the final memory holds -/

omit [FloatOps F] in
/-- An array held at any share at contents `f` is at `f` in the memory. -/
theorem SI_read {ℓ : Loc nD τ sig} {q : PosShare TreeShare} (f : Buf (Elt F) ℓ) (s' : Phys nD τ sig (Elt F)) :
    iprop(SI s' ∗ ℓ ↦{q} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := q) (f := f))) $$ [HSI H]
  · isplitl [HSI] <;> iassumption
  icases H' with ⟨%h, HSI, -⟩
  isplitr
  · ipureintro; exact funext fun i => h i (Finset.mem_univ i)
  · iexact HSI

def fq (d : Dev nD) (s' : Phys nD τ sig (Elt F)) : Prop :=
  s'.mem.mem (r2Loc d) = Spec.take2 (m (a3Loc d)) (m (a0Loc d)) ∧ s'.mem.mem (r3Loc d) = Spec.take2 (m (a4Loc d)) (m (a1Loc d))
    ∧ s'.mem.mem (r4Loc d) = Spec.take3 (m (a4Loc d)) (m (a2Loc d))
    ∧ s'.mem.mem (a0Loc d) = m (a0Loc d) ∧ s'.mem.mem (a1Loc d) = m (a1Loc d) ∧ s'.mem.mem (a2Loc d) = m (a2Loc d)
    ∧ s'.mem.mem (a3Loc d) = m (a3Loc d) ∧ s'.mem.mem (a4Loc d) = m (a4Loc d)

omit [FloatOps F] in
theorem hfin (d : Dev nD) (s' : Phys nD τ sig (Elt F)) : iprop(FIN m d ∗ SI s') ⊢ (⌜fq m d s'⌝ : sProp 𝕄) := by
  iintro ⟨⟨H0, H1, H2, H3, H4, Hr2, Hr3, Hr4⟩, HSI⟩
  ihave X0 := (SI_read _ s') $$ [HSI H0]
  · isplitl [HSI] <;> iassumption
  icases X0 with ⟨%e0, HSI⟩
  ihave X1 := (SI_read _ s') $$ [HSI H1]
  · isplitl [HSI] <;> iassumption
  icases X1 with ⟨%e1, HSI⟩
  ihave X2 := (SI_read _ s') $$ [HSI H2]
  · isplitl [HSI] <;> iassumption
  icases X2 with ⟨%e2, HSI⟩
  ihave X3 := (SI_read _ s') $$ [HSI H3]
  · isplitl [HSI] <;> iassumption
  icases X3 with ⟨%e3, HSI⟩
  ihave X4 := (SI_read _ s') $$ [HSI H4]
  · isplitl [HSI] <;> iassumption
  icases X4 with ⟨%e4, HSI⟩
  ihave Y2 := (SI_read _ s') $$ [HSI Hr2]
  · isplitl [HSI] <;> iassumption
  icases Y2 with ⟨%f2, HSI⟩
  ihave Y3 := (SI_read _ s') $$ [HSI Hr3]
  · isplitl [HSI] <;> iassumption
  icases Y3 with ⟨%f3, HSI⟩
  ihave Y4 := (SI_read _ s') $$ [HSI Hr4]
  · isplitl [HSI] <;> iassumption
  icases Y4 with ⟨%f4, -⟩
  ipureintro; exact ⟨f2, f3, f4, e0, e1, e2, e3, e4⟩

/-! ## The program's run -/

def QC : PUnit × MemSt nD τ sig (Elt F) → Prop := fun r => ∀ c : Dev nD,
  r.2.mem ((c.tc : Thread nD τ).loc main_v2) = Spec.take2 (m (a3Loc c)) (m (a0Loc c))
    ∧ r.2.mem ((c.tc : Thread nD τ).loc main_v3) = Spec.take2 (m (a4Loc c)) (m (a1Loc c))
    ∧ r.2.mem ((c.tc : Thread nD τ).loc main_v4) = Spec.take3 (m (a4Loc c)) (m (a2Loc c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

/-- From the two kernels' body obligations: the program runs, the arguments end unchanged, the results are the lookups. -/
theorem run_main [∀ e, Nonempty (Elt F e)] (hpre : PreOK m)
    (h0 : (K (F := F)).TileObl (D (F := F)) 𝒱 (P m) v₀ 0) (h1 : (K (F := F)).TileObl (D (F := F)) 𝒱 (P m) v₀ 1) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => h0 | 1 => h1)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h => h)

end Cert.Proof.KW

end
-- ==== Proof.BwKIClaims.lean ====
/-
  The program's claims read off its run: the precondition as the launch needs it, and the frame (the arguments end
  unchanged) as the run with the results' values dropped.
-/
import proofs.«215896_g38397007626377_fold_wed_m_942_26_alg».proof.Proof.BwKISetup
import proofs.«215896_g38397007626377_fold_wed_m_942_26_alg».proof.Proof.BwKILaunchRun
import proofs.«215896_g38397007626377_fold_wed_m_942_26_alg».proof.Proof.RefPre

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable [FloatOps F]
variable (m : (ℓ : Loc nD τ sig) → Buf (Elt F) ℓ) (ρ : Dev nD → PrngReg)

/-- The printed domain predicate, all ones on every device, puts every index word below the tables' 1,000,000 rows. -/
theorem preOK_of_fn [Cert.Pre_input_domain.Facts]
    (h : ∀ c : Dev nD, Cert.Pre_input_domain.fn (F := F) (m (a0Loc c)) (m (a1Loc c)) (m (a2Loc c)) (m (a3Loc c)) (m (a4Loc c)) = (fun _ => 1#1)) :
    PreOK m :=
  fun c => Cert.Proof.Ref.words_lt (F := F) _ _ _ _ _ (h c)

/-- The frame: the program runs and its five arguments end unchanged. -/
theorem frame_of [∀ e, Nonempty (Elt F e)] (hpre : PreOK m)
    (h0 : (K (F := F)).TileObl (D (F := F)) 𝒱 (P m) v₀ 0) (h1 : (K (F := F)).TileObl (D (F := F)) 𝒱 (P m) v₀ 1) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.Kernel.defs _ _).mono (fun _ h c => (h c).2.2.2) (run_main m ρ hpre h0 h1)

end Cert.Proof.KW

end
-- ==== Proof.K0Views.lean ====
/-
  The first kernel's geometry: which 64 words of the row scratch copy number t = 16 k + u of the fire loop fills.

  The scratch is [1, 256, 128]: row r holds lookups 2 r (columns 0..63) and 2 r + 1 (columns 64..127), so copy t fills
  row t / 2 at columns 64 (t mod 2) .. 64 (t mod 2) + 63. The printed program computes that place by sixteen offset
  functions, one per unrolled copy of a trip; their closed forms are decided once over the 32 trips.
-/
import proofs.«215896_g38397007626377_fold_wed_m_942_26_alg».proof.Proof.KISetup

noncomputable section

namespace Cert.Proof.KI.K0

open Cert.KernelIdeal Cert.KernelIdeal.Gen Cert.Proof.KI
open Idealize.ShloMosaic

/-- Where copy `t` lands in the [1, 256, 128] scratch. -/
def pieceOff (t : ℕ) : Fin 3 → Nat := ![0, t / 2, (t % 2) * 64]

theorem pieceOff_inb (t : Fin 512) : ∀ a, pieceOff t.val a + S1x1x64.size a ≤ S1x256x128.size a := by
  have := t.isLt
  intro a; fin_cases a
  · show 0 + 1 ≤ 1; omega
  · show t.val / 2 + 1 ≤ 256; omega
  · show (t.val % 2) * 64 + 64 ≤ 128; omega

abbrev pieceRect (t : Fin 512) : Rect S1x256x128 := Rect.unit (s := S1x256x128) (pieceOff t.val) S1x1x64.size (pieceOff_inb t)
abbrev pieceSet (t : Fin 512) : Finset S1x256x128.Idx := (pieceRect t).set

/-- Copy 16 k + u. -/
def copyNo (k : Fin k0_t1_loop.trips) (u : Fin 16) : Fin 512 := ⟨16 * k.val + u.val, by
  have hk : k.val < 32 := k.isLt; have := u.isLt; omega⟩

/-! ## The printed offsets in closed form -/

theorem off_dst0 : ∀ k : Fin k0_t1_loop.trips, k0_off5 k 0#32 = ![0, 8 * k.val + 0, 0] := by decide +kernel
theorem off_dst1 : ∀ k : Fin k0_t1_loop.trips, k0_off7 k 1#32 = ![0, 8 * k.val + 0, 64] := by decide +kernel
theorem off_dst2 : ∀ k : Fin k0_t1_loop.trips, k0_off9 k 2#32 = ![0, 8 * k.val + 1, 0] := by decide +kernel
theorem off_dst3 : ∀ k : Fin k0_t1_loop.trips, k0_off11 k 3#32 = ![0, 8 * k.val + 1, 64] := by decide +kernel
theorem off_dst4 : ∀ k : Fin k0_t1_loop.trips, k0_off13 k 4#32 = ![0, 8 * k.val + 2, 0] := by decide +kernel
theorem off_dst5 : ∀ k : Fin k0_t1_loop.trips, k0_off15 k 5#32 = ![0, 8 * k.val + 2, 64] := by decide +kernel
theorem off_dst6 : ∀ k : Fin k0_t1_loop.trips, k0_off17 k 6#32 = ![0, 8 * k.val + 3, 0] := by decide +kernel
theorem off_dst7 : ∀ k : Fin k0_t1_loop.trips, k0_off19 k 7#32 = ![0, 8 * k.val + 3, 64] := by decide +kernel
theorem off_dst8 : ∀ k : Fin k0_t1_loop.trips, k0_off21 k 8#32 = ![0, 8 * k.val + 4, 0] := by decide +kernel
theorem off_dst9 : ∀ k : Fin k0_t1_loop.trips, k0_off23 k 9#32 = ![0, 8 * k.val + 4, 64] := by decide +kernel
theorem off_dst10 : ∀ k : Fin k0_t1_loop.trips, k0_off25 k 10#32 = ![0, 8 * k.val + 5, 0] := by decide +kernel
theorem off_dst11 : ∀ k : Fin k0_t1_loop.trips, k0_off27 k 11#32 = ![0, 8 * k.val + 5, 64] := by decide +kernel
theorem off_dst12 : ∀ k : Fin k0_t1_loop.trips, k0_off29 k 12#32 = ![0, 8 * k.val + 6, 0] := by decide +kernel
theorem off_dst13 : ∀ k : Fin k0_t1_loop.trips, k0_off31 k 13#32 = ![0, 8 * k.val + 6, 64] := by decide +kernel
theorem off_dst14 : ∀ k : Fin k0_t1_loop.trips, k0_off33 k 14#32 = ![0, 8 * k.val + 7, 0] := by decide +kernel
theorem off_dst15 : ∀ k : Fin k0_t1_loop.trips, k0_off35 k = ![0, 8 * k.val + 7, 64] := by decide +kernel

/-- A unit rectangle is determined by its offsets. -/
theorem rect_unit_congr {s : Shape} {off off' size : Fin s.rank → Nat} {inb inb'} (h : off = off') :
    Rect.unit (s := s) off size inb = Rect.unit (s := s) off' size inb' := by subst h; rfl

end Cert.Proof.KI.K0

end
-- ==== Proof.K0Fire.lean ====
/-
  The first kernel's fire loop, one copy at a time.

  The 512 copies of a worker (table row of word t -> 64 words of the row scratch) are one counted batch on the
  kernel's semaphore: the deliveries are fixed before the first issue — copy t delivers its piece of the scratch at
  the FINAL contents, entry (r, x) = table[word 2 r + x / 64, x mod 64] —, each issue consumes one read token of the
  table and one pending piece, and nothing is learnt until the last wait.
-/
import proofs.«215896_g38397007626377_fold_wed_m_942_26_alg».proof.Proof.K0Views
import proofs.«215896_g38397007626377_fold_wed_m_942_26_alg».proof.Proof.Gen.KernelIdeal.Skeleton

noncomputable section

namespace Cert.Proof.KI.K0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)
variable [FloatOps F]

local notation "a0W" => (Memref.whole Cert.KernelIdeal.main_arg0_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S1000000x64 EltTy.f32)
local notation "o1W" => (Memref.whole Cert.KernelIdeal.main_v0_scv : Memref Cert.KernelIdeal.sig Kind.scVector Space.hbm Cert.KernelIdeal.S8192x128 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S1x256x128 EltTy.f32)

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

omit [FloatOps F] in
theorem pts_a0 (q : PosShare TreeShare) (f : Buf (Elt F) (a0Loc d)) :
    ((a0W).view.loc (thr d L) ↦{q} f : sProp 𝕄) = a0Loc d ↦{q} f := by
  simp only [Memref.view_whole, View.set_whole]
omit [FloatOps F] in
theorem pts_a3 (q : PosShare TreeShare) (f : Buf (Elt F) (a3Loc d)) :
    ((a3W).view.loc (thr d L) ↦{q} f : sProp 𝕄) = a3Loc d ↦{q} f := by
  simp only [Memref.view_whole, View.set_whole]
omit [FloatOps F] in
theorem pts_sI (f : Buf (Elt F) ((thr d L).loc cc0_scratch0)) :
    ((sIW).view.loc (thr d L) ↦{fullShare} f : sProp 𝕄) = (thr d L).loc cc0_scratch0 ↦{fullShare} f := rfl
omit [FloatOps F] in
theorem pts_sR (f : Buf (Elt F) ((thr d L).loc cc0_scratch1)) :
    ((sRW).view.loc (thr d L) ↦{fullShare} f : sProp 𝕄) = (thr d L).loc cc0_scratch1 ↦{fullShare} f := rfl

open Idealize.ShloMosaic.ValueIdx

abbrev EC : UEmb Counters (MT nD τ sig (HIx 2) (Elt F) ℕ UU ℕ) := countersEmb

/-- One 64-word piece's credit. -/
abbrev N64 : ℕ := sig.dmaCredit .scVector (Kind.scVector.table .vmem) (cc0_scratch1 : Ref sig .scVector).idx S64 .f32

abbrev rowsLoc (d : Dev nD) (L : grid0.Coords) : Loc nD τ sig := (thr d L).loc cc0_scratch1
abbrev idxLoc (d : Dev nD) (L : grid0.Coords) : Loc nD τ sig := (thr d L).loc cc0_scratch0

/-- The source of a copy: row `w` of the table, as a 64-word memref. -/
abbrev srcRow (w : BitVec 32) (h : ∀ a, (![w.toNat, 0] : Fin 2 → Nat) a + S1x64.size a ≤ S1000000x64.size a) : Memref sig .scVector .hbm S64 .f32 :=
  ((a3W).slice (Rect.unit (s := S1000000x64) ![w.toNat, 0] S1x64.size h) (fun _ => rfl)).squeeze S64 squeezes_S1x64_S64
/-- The destination of copy `t`: its 64 words of the row scratch. -/
abbrev dstPiece (t : Fin 512) : Memref sig .scVector .vmem S64 .f32 :=
  ((sRW).slice (pieceRect t) (fun _ => rfl)).squeeze S64 squeezes_S1x1x64_S64

/-- The row scratch once every copy has landed: row r, column x holds column x mod 64 of the table row that word
    2 r + x / 64 of the fetched index words names. -/
def rowsFinal (fI : Buf (Elt F) (idxLoc d L)) : Buf (Elt F) (rowsLoc d L) :=
  fun y => m (a3Loc d) (ix2 (Spec.rowOf (fI (ix1 (⟨2 * (y 1).val + (y 2).val / 64, by
      have h1 : (y 1).val < 256 := (y 1).isLt; have h2 : (y 2).val < 128 := (y 2).isLt; omega⟩ : Fin 512))))
    (⟨(y 2).val % 64, Nat.mod_lt _ (by decide)⟩ : Fin 64))

/-- Copy `t`'s 64 words of the row scratch at contents `f`, held as the copy's destination names them. -/
abbrev pieceAt (t : Fin 512) (f : Buf (Elt F) (rowsLoc d L)) : sProp 𝕄 :=
  (dstPiece t).view.loc (thr d L) ↦[(dstPiece t).view.set]{fullShare} f

def deliv (fI : Buf (Elt F) (idxLoc d L)) (t : Fin 512) : sProp 𝕄 := pieceAt d L t (rowsFinal m d L fI)

instance deliv_storable (fI : Buf (Elt F) (idxLoc d L)) (t : Fin 512) : BI.Storable (upEmb : UEmb _ 𝕄) (deliv m d L fI t) := by
  unfold deliv; infer_instance

theorem chk1_of_lt (w : BitVec 32) (h : w.toNat < 1000000) : k0_chk1 w := by
  intro a; fin_cases a
  · show w.toNat + 1 ≤ 1000000; omega
  · show 0 + 64 ≤ 64; omega
theorem chk2_of_lt (w : BitVec 32) (h : w.toNat < 1000000) : k0_chk2 w := by
  intro a; fin_cases a
  · show w.toNat + 1 ≤ 1000000; omega
  · show 0 + 64 ≤ 64; omega
theorem chk3_of_lt (w : BitVec 32) (h : w.toNat < 1000000) : k0_chk3 w := by
  intro a; fin_cases a
  · show w.toNat + 1 ≤ 1000000; omega
  · show 0 + 64 ≤ 64; omega
theorem chk4_of_lt (w : BitVec 32) (h : w.toNat < 1000000) : k0_chk4 w := by
  intro a; fin_cases a
  · show w.toNat + 1 ≤ 1000000; omega
  · show 0 + 64 ≤ 64; omega
theorem chk5_of_lt (w : BitVec 32) (h : w.toNat < 1000000) : k0_chk5 w := by
  intro a; fin_cases a
  · show w.toNat + 1 ≤ 1000000; omega
  · show 0 + 64 ≤ 64; omega
theorem chk6_of_lt (w : BitVec 32) (h : w.toNat < 1000000) : k0_chk6 w := by
  intro a; fin_cases a
  · show w.toNat + 1 ≤ 1000000; omega
  · show 0 + 64 ≤ 64; omega
theorem chk7_of_lt (w : BitVec 32) (h : w.toNat < 1000000) : k0_chk7 w := by
  intro a; fin_cases a
  · show w.toNat + 1 ≤ 1000000; omega
  · show 0 + 64 ≤ 64; omega
theorem chk8_of_lt (w : BitVec 32) (h : w.toNat < 1000000) : k0_chk8 w := by
  intro a; fin_cases a
  · show w.toNat + 1 ≤ 1000000; omega
  · show 0 + 64 ≤ 64; omega
theorem chk9_of_lt (w : BitVec 32) (h : w.toNat < 1000000) : k0_chk9 w := by
  intro a; fin_cases a
  · show w.toNat + 1 ≤ 1000000; omega
  · show 0 + 64 ≤ 64; omega
theorem chk10_of_lt (w : BitVec 32) (h : w.toNat < 1000000) : k0_chk10 w := by
  intro a; fin_cases a
  · show w.toNat + 1 ≤ 1000000; omega
  · show 0 + 64 ≤ 64; omega
theorem chk11_of_lt (w : BitVec 32) (h : w.toNat < 1000000) : k0_chk11 w := by
  intro a; fin_cases a
  · show w.toNat + 1 ≤ 1000000; omega
  · show 0 + 64 ≤ 64; omega
theorem chk12_of_lt (w : BitVec 32) (h : w.toNat < 1000000) : k0_chk12 w := by
  intro a; fin_cases a
  · show w.toNat + 1 ≤ 1000000; omega
  · show 0 + 64 ≤ 64; omega
theorem chk13_of_lt (w : BitVec 32) (h : w.toNat < 1000000) : k0_chk13 w := by
  intro a; fin_cases a
  · show w.toNat + 1 ≤ 1000000; omega
  · show 0 + 64 ≤ 64; omega
theorem chk14_of_lt (w : BitVec 32) (h : w.toNat < 1000000) : k0_chk14 w := by
  intro a; fin_cases a
  · show w.toNat + 1 ≤ 1000000; omega
  · show 0 + 64 ≤ 64; omega
theorem chk15_of_lt (w : BitVec 32) (h : w.toNat < 1000000) : k0_chk15 w := by
  intro a; fin_cases a
  · show w.toNat + 1 ≤ 1000000; omega
  · show 0 + 64 ≤ 64; omega
theorem chk16_of_lt (w : BitVec 32) (h : w.toNat < 1000000) : k0_chk16 w := by
  intro a; fin_cases a
  · show w.toNat + 1 ≤ 1000000; omega
  · show 0 + 64 ≤ 64; omega

/-! ## One landed copy, read at an index -/

omit [FloatOps F] in
/-- A 64-word memref squeezed out of a [1, 1, 64] slice: word `x` is entry (0, 0, x). -/
theorem sq3_val (x : S64.Idx) :
    let y := Shape.reshapeEquiv (squeezes_S1x1x64_S64.numel_eq) x
    (y 0).val = 0 ∧ (y 1).val = 0 ∧ (y 2).val = (x 0).val := by
  intro y
  have h := Shape.rowMajor_reshapeEquiv (squeezes_S1x1x64_S64.numel_eq) x
  rw [Shape.rowMajor_val_three, Shape.rowMajor_val_one] at h
  have h0 : (y 0).val < 1 := (y 0).isLt
  have h1 : (y 1).val < 1 := (y 1).isLt
  have h2 : (y 2).val < 64 := (y 2).isLt
  have hx : (x 0).val < 64 := (x 0).isLt
  refine ⟨by omega, by omega, ?_⟩
  have e0 : (y 0).val = 0 := by omega
  have e1 : (y 1).val = 0 := by omega
  rw [e0, e1] at h
  simpa using h

omit [FloatOps F] in
/-- A 64-word memref squeezed out of a [1, 64] slice: word `x` is entry (0, x). -/
theorem sq2_val (x : S64.Idx) :
    let y := Shape.reshapeEquiv (squeezes_S1x64_S64.numel_eq) x
    (y 0).val = 0 ∧ (y 1).val = (x 0).val := by
  intro y
  have h := Shape.rowMajor_reshapeEquiv (squeezes_S1x64_S64.numel_eq) x
  rw [Shape.rowMajor_val_two, Shape.rowMajor_val_one] at h
  have h0 : (y 0).val < 1 := (y 0).isLt
  have e0 : (y 0).val = 0 := by omega
  refine ⟨e0, ?_⟩
  rw [e0] at h
  simpa using h

omit [FloatOps F] in
/-- Word `x` of copy `t`'s destination is entry (0, t / 2, 64 (t mod 2) + x) of the scratch. -/
theorem dst_emb_val (t : Fin 512) (x : S64.Idx) :
    (((dstPiece t).view.emb x) 1).val = t.val / 2 ∧ (((dstPiece t).view.emb x) 2).val = (t.val % 2) * 64 + (x 0).val := by
  obtain ⟨-, h1, h2⟩ := sq3_val x
  constructor
  · show (((pieceRect t).emb (Shape.reshapeEquiv (squeezes_S1x1x64_S64.numel_eq) x)) 1).val = _
    rw [Rect.emb_apply]; show t.val / 2 + 1 * _ = _; rw [h1]; omega
  · show (((pieceRect t).emb (Shape.reshapeEquiv (squeezes_S1x1x64_S64.numel_eq) x)) 2).val = _
    rw [Rect.emb_apply]; show (t.val % 2) * 64 + 1 * _ = _; rw [h2]; omega

omit [FloatOps F] in
/-- Word `x` of the source row of word `w` is entry (w, x) of the table. -/
theorem src_emb_val (w : BitVec 32) (hw : ∀ a, (![w.toNat, 0] : Fin 2 → Nat) a + S1x64.size a ≤ S1000000x64.size a) (x : S64.Idx) :
    (((srcRow w hw).view.emb x) 0).val = w.toNat ∧ (((srcRow w hw).view.emb x) 1).val = (x 0).val := by
  obtain ⟨h0, h1⟩ := sq2_val x
  constructor
  · show (((Rect.unit (s := S1000000x64) ![w.toNat, 0] S1x64.size hw).emb (Shape.reshapeEquiv (squeezes_S1x64_S64.numel_eq) x)) 0).val = _
    rw [Rect.emb_apply]; show w.toNat + 1 * _ = _; rw [h0]; omega
  · show (((Rect.unit (s := S1000000x64) ![w.toNat, 0] S1x64.size hw).emb (Shape.reshapeEquiv (squeezes_S1x64_S64.numel_eq) x)) 1).val = _
    rw [Rect.emb_apply]; show 0 + 1 * _ = _; rw [h1]; omega

/-- What copy `t` lands is the final scratch on its piece: the copied word (w, x) of the table is the scratch's entry
    there, `w` being word `t` of the fetched indices. -/
theorem landed_eq (fI : Buf (Elt F) (idxLoc d L)) (fr : Buf (Elt F) (rowsLoc d L)) (t : Fin 512) (w : BitVec 32)
    (hw : ∀ a, (![w.toNat, 0] : Fin 2 → Nat) a + S1x64.size a ≤ S1000000x64.size a) (hword : w = fI (ix1 t))
    (hI : ∀ x, (fI x).toNat < 1000000) :
    ∀ i ∈ (dstPiece t).view.set,
      (dstPiece t).view.write (Elt F) fr (ReadAs.same.apply ((srcRow w hw).view.read (Elt F) (m (a3Loc d)))) Finset.univ i
        = rowsFinal m d L fI i := by
  intro i hi
  obtain ⟨x, -, rfl⟩ := Finset.mem_map.mp hi
  rw [View.write_emb_of_mem _ _ (Finset.mem_univ x), ReadAs.apply_same, View.read_apply]
  obtain ⟨e1, e2⟩ := dst_emb_val t x
  obtain ⟨s0, s1⟩ := src_emb_val w hw x
  have hx : (x 0).val < 64 := (x 0).isLt
  unfold rowsFinal
  simp only [cast_eq]
  congr 1
  funext a
  apply Fin.ext
  fin_cases a
  · show (((srcRow w hw).view.emb x) 0).val = (Spec.rowOf _).val
    rw [s0, Spec.rowOf_val_of_lt]
    · congr 2; rw [hword]; congr 1; funext b; fin_cases b; apply Fin.ext; show t.val = 2 * _ + _ / 64; rw [e1, e2]; omega
    · exact hI _
  · show (((srcRow w hw).view.emb x) 1).val = _ % 64
    rw [s1, e2]; omega

/-- A destination piece as a copy's target on this subcore. -/
abbrev tgtOf (L : grid0.Coords) (dst : Memref sig .scVector .vmem S1x1x64 .f32) : DmaTarget nD τ sig (Proc.scVector (cV L) (jV L)) Space.vmem S64 EltTy.f32 :=
  DmaTarget.here (dst.squeeze S64 squeezes_S1x1x64_S64)

/-- ONE ISSUE. Copy `j` of the batch: its read token is cut down to the table row it reads, its destination piece is
    taken from the pending ones, and the batch goes from `j` issued to `j + 1`; what it will deliver is the final
    scratch on the piece (`landed_eq`). -/
theorem fire_step {α : Type} {Q : α → sProp 𝕄} (q : PosShare TreeShare) (fI : Buf (Elt F) (idxLoc d L)) (fr : Buf (Elt F) (rowsLoc d L))
    (j : ℕ) (hj : j < 512) (w : BitVec 32) (hw : ∀ a, (![w.toNat, 0] : Fin 2 → Nat) a + S1x64.size a ≤ S1000000x64.size a)
    (hword : w = fI (ix1 (⟨j, hj⟩ : Fin 512))) (hI : ∀ x, (fI x).toNat < 1000000)
    (dst : Memref sig .scVector .vmem S1x1x64 .f32) (hdst : dst = (sRW).slice (pieceRect ⟨j, hj⟩) (fun _ => rfl))
    {hs : (srcRow w hw).view.WordExact} {hd : (tgtOf L dst).view.WordExact}
    {ht : (tgtOf L dst).Typed Space.hbm (SemLoc.dma cc0_scratch2.sem)}
    {kk : PUnit → Prog (TpuEff nD τ sig (Elt F) Λ₀ (Proc.scVector (cV L) (jV L))) α} :
    iprop((bigSep (Transfers.pending (n := 512) j) fun t => a3Loc d ↦{Transfers.shareTok q 512 t} m (a3Loc d))
        ∗ (bigSep (Transfers.pending (n := 512) j) fun t => pieceAt d L t fr)
        ∗ Transfers.Batch (EC (F := F)) (thr d L) (.dma cc0_scratch2.sem) (none : HIx 2) N64 (deliv m d L fI) j 0)
      ⊢ iprop((iprop((bigSep (Transfers.pending (n := 512) (j + 1)) fun t => a3Loc d ↦{Transfers.shareTok q 512 t} m (a3Loc d))
            ∗ (bigSep (Transfers.pending (n := 512) (j + 1)) fun t => pieceAt d L t fr)
            ∗ Transfers.Batch (EC (F := F)) (thr d L) (.dma cc0_scratch2.sem) (none : HIx 2) N64 (deliv m d L fI) (j + 1) 0)
          -∗ wp frame (wpE (defs₀ (F := F)) 𝒱₀ (thr d L) none) Set.univ (kk ⟨⟩) Q)
        -∗ wp frame (wpE (defs₀ (F := F)) 𝒱₀ (thr d L) none) Set.univ
            (.op (TpuEff.enqueueDma (p := Proc.scVector (cV L) (jV L)) (srcRow w hw) (tgtOf L dst) (.dma cc0_scratch2.sem) hs hd ht) kk) Q) := by
  subst hdst
  rw [Transfers.bigSep_pending_step (fun t => a3Loc d ↦{Transfers.shareTok q 512 t} m (a3Loc d)) j hj,
    Transfers.bigSep_pending_step (fun t => pieceAt (F := F) d L t fr) j hj]
  iintro ⟨⟨Htk, Htoks⟩, ⟨Hp, Hpcs⟩, HB⟩ Hk
  ihave Hs := (pointsTo_split_subset (S := Finset.univ) (I := (srcRow w hw).view.set) (Finset.subset_univ _)).1 $$ Htk
  icases Hs with ⟨Hs, -⟩
  iapply (Transfers.wp_dmaBatch (EC (F := F)) 𝒱₀ (thr d L) none (src := srcRow w hw) (dst := dstPiece ⟨j, hj⟩)
    (q := Transfers.shareTok q 512 ⟨j, hj⟩) (fs := m (a3Loc d)) (fd := fr) (D := deliv m d L fI) (none : HIx 2) N64 rfl
    (Sd := (dstPiece ⟨j, hj⟩).view.set) (Finset.Subset.refl _) hj (Nat.zero_le _) ?hD) $$ [Hs Hp HB]
  case hD =>
    unfold deliv
    exact sep_elim_left.trans (Entails.of_eq (pointsTo_congr (landed_eq m d L fI fr ⟨j, hj⟩ w hw hword hI)))
  · isplitl [Hs]; · iexact Hs
    isplitl [Hp]; · iexact Hp
    iexact HB
  iintro HB
  iapply Hk
  isplitl [Htoks]; · iexact Htoks
  isplitl [Hpcs]; · iexact Hpcs
  iexact HB

end Cert.Proof.KI.K0

end
-- ==== Proof.K0FireLoop.lean ====
/-
  The first kernel's fire loop: trip k issues copies 16 k .. 16 k + 15.

  A trip loads sixteen of the fetched index words, and for each word w checks that it names a table row (it does: every
  fetched word is below 1,000,000) and issues the copy of row w to its piece of the scratch. Before trip k the copies
  below 16 k are issued; the read tokens and the pieces from 16 k on are still in hand.
-/
import proofs.«215896_g38397007626377_fold_wed_m_942_26_alg».proof.Proof.K0Fire
import proofs.«215896_g38397007626377_fold_wed_m_942_26_alg».proof.Proof.Gen.KernelIdeal.Skeleton
import Idealize.ShloMosaic.Lib.Pipeline.Value

noncomputable section

namespace Cert.Proof.KI.K0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable (m : (ℓ : Loc nD τ sig) → Buf (Elt F) ℓ)
variable [FloatOps F]

local notation "a0W" => (Memref.whole Cert.KernelIdeal.main_arg0_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S1000000x64 EltTy.f32)
local notation "o1W" => (Memref.whole Cert.KernelIdeal.main_v0_scv : Memref Cert.KernelIdeal.sig Kind.scVector Space.hbm Cert.KernelIdeal.S8192x128 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S1x256x128 EltTy.f32)

variable (d : Dev nD) (L : grid0.Coords)

omit [FloatOps F] in
/-- A slice through a unit rectangle is determined by the rectangle's offsets. -/
theorem slice_unit_congr {κ : Kind} {sp : Space} {s : Shape} {e : EltTy} {M : Memref sig κ sp s e} {off off' size : Fin s.rank → Nat}
    {inb inb'} {hr hr'} (h : off = off') :
    M.slice (Rect.unit (s := s) off size inb) hr = M.slice (Rect.unit (s := s) off' size inb') hr' := by subst h; rfl

/-- Word u of the sixteen a trip loads is word 16 k + u of the fetched index words. -/
theorem read_word (fI : Buf (Elt F) (idxLoc d L)) (k : Fin k0_t1_loop.trips) (u : Fin 16) :
    View.readAt (Elt F) (sIW).view (Rect.unit (s := S512) (k0_off2 k) S16.size (k0_off2_inb k)).toLoadRect fI (ix1 u)
      = fI (ix1 (⟨16 * k.val + u.val, by have hk : k.val < 32 := k.isLt; have := u.isLt; omega⟩ : Fin 512)) := by
  simp only [View.readAt_apply, Memref.view_whole, View.read_whole]
  congr 1
  funext a; fin_cases a; apply Fin.ext
  rw [LoadRect.idx_apply]
  show (k0_off2 k) 0 + 1 * u.val = 16 * k.val + u.val
  rw [k0_off2_eq]; simp

omit [FloatOps F] in
theorem word0 (v : Vec F S16 .i32) : extractAt ![0] (k0_pay2 v) inpos_S1_p0 = v (ix1 (0 : Fin 16)) := by
  simp only [k0_pay2, k0_pay1, extractAt, extractStridedSlice, shapeCast_self]
  congr 1; funext a; fin_cases a; apply Fin.ext; simp
omit [FloatOps F] in
theorem word1 (v : Vec F S16 .i32) : extractAt ![0] (k0_pay3 (k0_pay1 v)) inpos_S1_p0 = v (ix1 (1 : Fin 16)) := by
  simp only [k0_pay3, k0_pay1, extractAt, extractStridedSlice, shapeCast_self]
  congr 1; funext a; fin_cases a; apply Fin.ext; simp
omit [FloatOps F] in
theorem word2 (v : Vec F S16 .i32) : extractAt ![0] (k0_pay4 (k0_pay1 v)) inpos_S1_p0 = v (ix1 (2 : Fin 16)) := by
  simp only [k0_pay4, k0_pay1, extractAt, extractStridedSlice, shapeCast_self]
  congr 1; funext a; fin_cases a; apply Fin.ext; simp
omit [FloatOps F] in
theorem word3 (v : Vec F S16 .i32) : extractAt ![0] (k0_pay5 (k0_pay1 v)) inpos_S1_p0 = v (ix1 (3 : Fin 16)) := by
  simp only [k0_pay5, k0_pay1, extractAt, extractStridedSlice, shapeCast_self]
  congr 1; funext a; fin_cases a; apply Fin.ext; simp
omit [FloatOps F] in
theorem word4 (v : Vec F S16 .i32) : extractAt ![0] (k0_pay6 (k0_pay1 v)) inpos_S1_p0 = v (ix1 (4 : Fin 16)) := by
  simp only [k0_pay6, k0_pay1, extractAt, extractStridedSlice, shapeCast_self]
  congr 1; funext a; fin_cases a; apply Fin.ext; simp
omit [FloatOps F] in
theorem word5 (v : Vec F S16 .i32) : extractAt ![0] (k0_pay7 (k0_pay1 v)) inpos_S1_p0 = v (ix1 (5 : Fin 16)) := by
  simp only [k0_pay7, k0_pay1, extractAt, extractStridedSlice, shapeCast_self]
  congr 1; funext a; fin_cases a; apply Fin.ext; simp
omit [FloatOps F] in
theorem word6 (v : Vec F S16 .i32) : extractAt ![0] (k0_pay8 (k0_pay1 v)) inpos_S1_p0 = v (ix1 (6 : Fin 16)) := by
  simp only [k0_pay8, k0_pay1, extractAt, extractStridedSlice, shapeCast_self]
  congr 1; funext a; fin_cases a; apply Fin.ext; simp
omit [FloatOps F] in
theorem word7 (v : Vec F S16 .i32) : extractAt ![0] (k0_pay9 (k0_pay1 v)) inpos_S1_p0 = v (ix1 (7 : Fin 16)) := by
  simp only [k0_pay9, k0_pay1, extractAt, extractStridedSlice, shapeCast_self]
  congr 1; funext a; fin_cases a; apply Fin.ext; simp
omit [FloatOps F] in
theorem word8 (v : Vec F S16 .i32) : extractAt ![0] (k0_pay10 (k0_pay1 v)) inpos_S1_p0 = v (ix1 (8 : Fin 16)) := by
  simp only [k0_pay10, k0_pay1, extractAt, extractStridedSlice, shapeCast_self]
  congr 1; funext a; fin_cases a; apply Fin.ext; simp
omit [FloatOps F] in
theorem word9 (v : Vec F S16 .i32) : extractAt ![0] (k0_pay11 (k0_pay1 v)) inpos_S1_p0 = v (ix1 (9 : Fin 16)) := by
  simp only [k0_pay11, k0_pay1, extractAt, extractStridedSlice, shapeCast_self]
  congr 1; funext a; fin_cases a; apply Fin.ext; simp
omit [FloatOps F] in
theorem word10 (v : Vec F S16 .i32) : extractAt ![0] (k0_pay12 (k0_pay1 v)) inpos_S1_p0 = v (ix1 (10 : Fin 16)) := by
  simp only [k0_pay12, k0_pay1, extractAt, extractStridedSlice, shapeCast_self]
  congr 1; funext a; fin_cases a; apply Fin.ext; simp
omit [FloatOps F] in
theorem word11 (v : Vec F S16 .i32) : extractAt ![0] (k0_pay13 (k0_pay1 v)) inpos_S1_p0 = v (ix1 (11 : Fin 16)) := by
  simp only [k0_pay13, k0_pay1, extractAt, extractStridedSlice, shapeCast_self]
  congr 1; funext a; fin_cases a; apply Fin.ext; simp
omit [FloatOps F] in
theorem word12 (v : Vec F S16 .i32) : extractAt ![0] (k0_pay14 (k0_pay1 v)) inpos_S1_p0 = v (ix1 (12 : Fin 16)) := by
  simp only [k0_pay14, k0_pay1, extractAt, extractStridedSlice, shapeCast_self]
  congr 1; funext a; fin_cases a; apply Fin.ext; simp
omit [FloatOps F] in
theorem word13 (v : Vec F S16 .i32) : extractAt ![0] (k0_pay15 (k0_pay1 v)) inpos_S1_p0 = v (ix1 (13 : Fin 16)) := by
  simp only [k0_pay15, k0_pay1, extractAt, extractStridedSlice, shapeCast_self]
  congr 1; funext a; fin_cases a; apply Fin.ext; simp
omit [FloatOps F] in
theorem word14 (v : Vec F S16 .i32) : extractAt ![0] (k0_pay16 (k0_pay1 v)) inpos_S1_p0 = v (ix1 (14 : Fin 16)) := by
  simp only [k0_pay16, k0_pay1, extractAt, extractStridedSlice, shapeCast_self]
  congr 1; funext a; fin_cases a; apply Fin.ext; simp
omit [FloatOps F] in
theorem word15 (v : Vec F S16 .i32) : extractAt ![0] (k0_pay17 (k0_pay1 v)) inpos_S1_p0 = v (ix1 (15 : Fin 16)) := by
  simp only [k0_pay17, k0_pay1, extractAt, extractStridedSlice, shapeCast_self]
  congr 1; funext a; fin_cases a; apply Fin.ext; simp

omit [FloatOps F] in
theorem dst_eq0 (k : Fin k0_t1_loop.trips) (h : 16 * k.val + 0 < 512) :
    (sRW).slice (Rect.unit (s := S1x256x128) (k0_off5 k 0#32) S1x1x64.size (k0_off5_inb k 0)) (fun _ => rfl)
      = (sRW).slice (pieceRect ⟨16 * k.val + 0, h⟩) (fun _ => rfl) :=
  slice_unit_congr (by
    rw [off_dst0 k]; funext a; fin_cases a
    · rfl
    · show 8 * k.val + 0 = (16 * k.val + 0) / 2; omega
    · show 0 = (16 * k.val + 0) % 2 * 64; omega)
omit [FloatOps F] in
theorem dst_eq1 (k : Fin k0_t1_loop.trips) (h : 16 * k.val + 1 < 512) :
    (sRW).slice (Rect.unit (s := S1x256x128) (k0_off7 k 1#32) S1x1x64.size (k0_off7_inb k 0)) (fun _ => rfl)
      = (sRW).slice (pieceRect ⟨16 * k.val + 1, h⟩) (fun _ => rfl) :=
  slice_unit_congr (by
    rw [off_dst1 k]; funext a; fin_cases a
    · rfl
    · show 8 * k.val + 0 = (16 * k.val + 1) / 2; omega
    · show 64 = (16 * k.val + 1) % 2 * 64; omega)
omit [FloatOps F] in
theorem dst_eq2 (k : Fin k0_t1_loop.trips) (h : 16 * k.val + 2 < 512) :
    (sRW).slice (Rect.unit (s := S1x256x128) (k0_off9 k 2#32) S1x1x64.size (k0_off9_inb k 0)) (fun _ => rfl)
      = (sRW).slice (pieceRect ⟨16 * k.val + 2, h⟩) (fun _ => rfl) :=
  slice_unit_congr (by
    rw [off_dst2 k]; funext a; fin_cases a
    · rfl
    · show 8 * k.val + 1 = (16 * k.val + 2) / 2; omega
    · show 0 = (16 * k.val + 2) % 2 * 64; omega)
omit [FloatOps F] in
theorem dst_eq3 (k : Fin k0_t1_loop.trips) (h : 16 * k.val + 3 < 512) :
    (sRW).slice (Rect.unit (s := S1x256x128) (k0_off11 k 3#32) S1x1x64.size (k0_off11_inb k 0)) (fun _ => rfl)
      = (sRW).slice (pieceRect ⟨16 * k.val + 3, h⟩) (fun _ => rfl) :=
  slice_unit_congr (by
    rw [off_dst3 k]; funext a; fin_cases a
    · rfl
    · show 8 * k.val + 1 = (16 * k.val + 3) / 2; omega
    · show 64 = (16 * k.val + 3) % 2 * 64; omega)
omit [FloatOps F] in
theorem dst_eq4 (k : Fin k0_t1_loop.trips) (h : 16 * k.val + 4 < 512) :
    (sRW).slice (Rect.unit (s := S1x256x128) (k0_off13 k 4#32) S1x1x64.size (k0_off13_inb k 0)) (fun _ => rfl)
      = (sRW).slice (pieceRect ⟨16 * k.val + 4, h⟩) (fun _ => rfl) :=
  slice_unit_congr (by
    rw [off_dst4 k]; funext a; fin_cases a
    · rfl
    · show 8 * k.val + 2 = (16 * k.val + 4) / 2; omega
    · show 0 = (16 * k.val + 4) % 2 * 64; omega)
omit [FloatOps F] in
theorem dst_eq5 (k : Fin k0_t1_loop.trips) (h : 16 * k.val + 5 < 512) :
    (sRW).slice (Rect.unit (s := S1x256x128) (k0_off15 k 5#32) S1x1x64.size (k0_off15_inb k 0)) (fun _ => rfl)
      = (sRW).slice (pieceRect ⟨16 * k.val + 5, h⟩) (fun _ => rfl) :=
  slice_unit_congr (by
    rw [off_dst5 k]; funext a; fin_cases a
    · rfl
    · show 8 * k.val + 2 = (16 * k.val + 5) / 2; omega
    · show 64 = (16 * k.val + 5) % 2 * 64; omega)
omit [FloatOps F] in
theorem dst_eq6 (k : Fin k0_t1_loop.trips) (h : 16 * k.val + 6 < 512) :
    (sRW).slice (Rect.unit (s := S1x256x128) (k0_off17 k 6#32) S1x1x64.size (k0_off17_inb k 0)) (fun _ => rfl)
      = (sRW).slice (pieceRect ⟨16 * k.val + 6, h⟩) (fun _ => rfl) :=
  slice_unit_congr (by
    rw [off_dst6 k]; funext a; fin_cases a
    · rfl
    · show 8 * k.val + 3 = (16 * k.val + 6) / 2; omega
    · show 0 = (16 * k.val + 6) % 2 * 64; omega)
omit [FloatOps F] in
theorem dst_eq7 (k : Fin k0_t1_loop.trips) (h : 16 * k.val + 7 < 512) :
    (sRW).slice (Rect.unit (s := S1x256x128) (k0_off19 k 7#32) S1x1x64.size (k0_off19_inb k 0)) (fun _ => rfl)
      = (sRW).slice (pieceRect ⟨16 * k.val + 7, h⟩) (fun _ => rfl) :=
  slice_unit_congr (by
    rw [off_dst7 k]; funext a; fin_cases a
    · rfl
    · show 8 * k.val + 3 = (16 * k.val + 7) / 2; omega
    · show 64 = (16 * k.val + 7) % 2 * 64; omega)
omit [FloatOps F] in
theorem dst_eq8 (k : Fin k0_t1_loop.trips) (h : 16 * k.val + 8 < 512) :
    (sRW).slice (Rect.unit (s := S1x256x128) (k0_off21 k 8#32) S1x1x64.size (k0_off21_inb k 0)) (fun _ => rfl)
      = (sRW).slice (pieceRect ⟨16 * k.val + 8, h⟩) (fun _ => rfl) :=
  slice_unit_congr (by
    rw [off_dst8 k]; funext a; fin_cases a
    · rfl
    · show 8 * k.val + 4 = (16 * k.val + 8) / 2; omega
    · show 0 = (16 * k.val + 8) % 2 * 64; omega)
omit [FloatOps F] in
theorem dst_eq9 (k : Fin k0_t1_loop.trips) (h : 16 * k.val + 9 < 512) :
    (sRW).slice (Rect.unit (s := S1x256x128) (k0_off23 k 9#32) S1x1x64.size (k0_off23_inb k 0)) (fun _ => rfl)
      = (sRW).slice (pieceRect ⟨16 * k.val + 9, h⟩) (fun _ => rfl) :=
  slice_unit_congr (by
    rw [off_dst9 k]; funext a; fin_cases a
    · rfl
    · show 8 * k.val + 4 = (16 * k.val + 9) / 2; omega
    · show 64 = (16 * k.val + 9) % 2 * 64; omega)
omit [FloatOps F] in
theorem dst_eq10 (k : Fin k0_t1_loop.trips) (h : 16 * k.val + 10 < 512) :
    (sRW).slice (Rect.unit (s := S1x256x128) (k0_off25 k 10#32) S1x1x64.size (k0_off25_inb k 0)) (fun _ => rfl)
      = (sRW).slice (pieceRect ⟨16 * k.val + 10, h⟩) (fun _ => rfl) :=
  slice_unit_congr (by
    rw [off_dst10 k]; funext a; fin_cases a
    · rfl
    · show 8 * k.val + 5 = (16 * k.val + 10) / 2; omega
    · show 0 = (16 * k.val + 10) % 2 * 64; omega)
omit [FloatOps F] in
theorem dst_eq11 (k : Fin k0_t1_loop.trips) (h : 16 * k.val + 11 < 512) :
    (sRW).slice (Rect.unit (s := S1x256x128) (k0_off27 k 11#32) S1x1x64.size (k0_off27_inb k 0)) (fun _ => rfl)
      = (sRW).slice (pieceRect ⟨16 * k.val + 11, h⟩) (fun _ => rfl) :=
  slice_unit_congr (by
    rw [off_dst11 k]; funext a; fin_cases a
    · rfl
    · show 8 * k.val + 5 = (16 * k.val + 11) / 2; omega
    · show 64 = (16 * k.val + 11) % 2 * 64; omega)
omit [FloatOps F] in
theorem dst_eq12 (k : Fin k0_t1_loop.trips) (h : 16 * k.val + 12 < 512) :
    (sRW).slice (Rect.unit (s := S1x256x128) (k0_off29 k 12#32) S1x1x64.size (k0_off29_inb k 0)) (fun _ => rfl)
      = (sRW).slice (pieceRect ⟨16 * k.val + 12, h⟩) (fun _ => rfl) :=
  slice_unit_congr (by
    rw [off_dst12 k]; funext a; fin_cases a
    · rfl
    · show 8 * k.val + 6 = (16 * k.val + 12) / 2; omega
    · show 0 = (16 * k.val + 12) % 2 * 64; omega)
omit [FloatOps F] in
theorem dst_eq13 (k : Fin k0_t1_loop.trips) (h : 16 * k.val + 13 < 512) :
    (sRW).slice (Rect.unit (s := S1x256x128) (k0_off31 k 13#32) S1x1x64.size (k0_off31_inb k 0)) (fun _ => rfl)
      = (sRW).slice (pieceRect ⟨16 * k.val + 13, h⟩) (fun _ => rfl) :=
  slice_unit_congr (by
    rw [off_dst13 k]; funext a; fin_cases a
    · rfl
    · show 8 * k.val + 6 = (16 * k.val + 13) / 2; omega
    · show 64 = (16 * k.val + 13) % 2 * 64; omega)
omit [FloatOps F] in
theorem dst_eq14 (k : Fin k0_t1_loop.trips) (h : 16 * k.val + 14 < 512) :
    (sRW).slice (Rect.unit (s := S1x256x128) (k0_off33 k 14#32) S1x1x64.size (k0_off33_inb k 0)) (fun _ => rfl)
      = (sRW).slice (pieceRect ⟨16 * k.val + 14, h⟩) (fun _ => rfl) :=
  slice_unit_congr (by
    rw [off_dst14 k]; funext a; fin_cases a
    · rfl
    · show 8 * k.val + 7 = (16 * k.val + 14) / 2; omega
    · show 0 = (16 * k.val + 14) % 2 * 64; omega)
omit [FloatOps F] in
theorem dst_eq15 (k : Fin k0_t1_loop.trips) (h : 16 * k.val + 15 < 512) :
    (sRW).slice (Rect.unit (s := S1x256x128) (k0_off35 k) S1x1x64.size (k0_off35_inb k)) (fun _ => rfl)
      = (sRW).slice (pieceRect ⟨16 * k.val + 15, h⟩) (fun _ => rfl) :=
  slice_unit_congr (by
    rw [off_dst15 k]; funext a; fin_cases a
    · rfl
    · show 8 * k.val + 7 = (16 * k.val + 15) / 2; omega
    · show 64 = (16 * k.val + 15) % 2 * 64; omega)

/-- Before trip k: the index scratch, the read tokens and the pieces of the copies not yet issued, the batch with 16 k
    issued and nothing consumed. -/
def fireInv (q : PosShare TreeShare) (fI : Buf (Elt F) (idxLoc d L)) (fr : Buf (Elt F) (rowsLoc d L)) (k : Nat) (_ : Unit) : sProp 𝕄 :=
  iprop(((sIW).view.loc (thr d L) ↦{fullShare} fI)
    ∗ (bigSep (Transfers.pending (n := 512) (16 * k)) fun t => a3Loc d ↦{Transfers.shareTok q 512 t} m (a3Loc d))
    ∗ (bigSep (Transfers.pending (n := 512) (16 * k)) fun t => pieceAt (F := F) d L t fr)
    ∗ Transfers.Batch (EC (F := F)) (thr d L) (.dma cc0_scratch2.sem) (none : HIx 2) N64 (deliv m d L fI) (16 * k) 0)

set_option maxHeartbeats 4000000 in
theorem fire_trip (q : PosShare TreeShare) (fI : Buf (Elt F) (idxLoc d L)) (fr : Buf (Elt F) (rowsLoc d L))
    (hI : ∀ x, (fI x).toNat < 1000000) (k : Fin k0_t1_loop.trips) (acc : Unit) :
    fireInv m d L q fI fr k.val acc
      ⊢ wp frame (wpE (defs₀ (F := F)) 𝒱₀ (thr d L) none) Set.univ
          (k0_t1_body L a0W (Memref.isWhole_whole _) a3W (Memref.isWhole_whole _) o1W (Memref.isWhole_whole _)
            sIW (Memref.isWhole_whole _) sRW (Memref.isWhole_whole _) cc0_scratch2 cc0_scoped0 cc0_scoped1 k acc)
          (fireInv m d L q fI fr (k.val + 1)) := by
  have hk : k.val < 32 := k.isLt
  unfold k0_t1_body
  unfold fireInv
  iintro ⟨HsI, Htok, Hpc, HB⟩
  -- copy 0
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 0) (by omega) _ _ ((word0 _).trans (read_word d L fI k 0)) hI _ (dst_eq0 k (by omega))) $$ [Htok Hpc HB]
  · isplitl [Htok]; · iexact Htok
    isplitl [Hpc]; · iexact Hpc
    iexact HB
  iintro ⟨Htok, Hpc, HB⟩
  -- copy 1
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 1) (by omega) _ _ ((word1 _).trans (read_word d L fI k 1)) hI _ (dst_eq1 k (by omega))) $$ [Htok Hpc HB]
  · isplitl [Htok]; · iexact Htok
    isplitl [Hpc]; · iexact Hpc
    iexact HB
  iintro ⟨Htok, Hpc, HB⟩
  -- copy 2
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 2) (by omega) _ _ ((word2 _).trans (read_word d L fI k 2)) hI _ (dst_eq2 k (by omega))) $$ [Htok Hpc HB]
  · isplitl [Htok]; · iexact Htok
    isplitl [Hpc]; · iexact Hpc
    iexact HB
  iintro ⟨Htok, Hpc, HB⟩
  -- copy 3
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 3) (by omega) _ _ ((word3 _).trans (read_word d L fI k 3)) hI _ (dst_eq3 k (by omega))) $$ [Htok Hpc HB]
  · isplitl [Htok]; · iexact Htok
    isplitl [Hpc]; · iexact Hpc
    iexact HB
  iintro ⟨Htok, Hpc, HB⟩
  -- copy 4
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 4) (by omega) _ _ ((word4 _).trans (read_word d L fI k 4)) hI _ (dst_eq4 k (by omega))) $$ [Htok Hpc HB]
  · isplitl [Htok]; · iexact Htok
    isplitl [Hpc]; · iexact Hpc
    iexact HB
  iintro ⟨Htok, Hpc, HB⟩
  -- copy 5
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 5) (by omega) _ _ ((word5 _).trans (read_word d L fI k 5)) hI _ (dst_eq5 k (by omega))) $$ [Htok Hpc HB]
  · isplitl [Htok]; · iexact Htok
    isplitl [Hpc]; · iexact Hpc
    iexact HB
  iintro ⟨Htok, Hpc, HB⟩
  -- copy 6
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 6) (by omega) _ _ ((word6 _).trans (read_word d L fI k 6)) hI _ (dst_eq6 k (by omega))) $$ [Htok Hpc HB]
  · isplitl [Htok]; · iexact Htok
    isplitl [Hpc]; · iexact Hpc
    iexact HB
  iintro ⟨Htok, Hpc, HB⟩
  -- copy 7
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 7) (by omega) _ _ ((word7 _).trans (read_word d L fI k 7)) hI _ (dst_eq7 k (by omega))) $$ [Htok Hpc HB]
  · isplitl [Htok]; · iexact Htok
    isplitl [Hpc]; · iexact Hpc
    iexact HB
  iintro ⟨Htok, Hpc, HB⟩
  -- copy 8
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 8) (by omega) _ _ ((word8 _).trans (read_word d L fI k 8)) hI _ (dst_eq8 k (by omega))) $$ [Htok Hpc HB]
  · isplitl [Htok]; · iexact Htok
    isplitl [Hpc]; · iexact Hpc
    iexact HB
  iintro ⟨Htok, Hpc, HB⟩
  -- copy 9
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 9) (by omega) _ _ ((word9 _).trans (read_word d L fI k 9)) hI _ (dst_eq9 k (by omega))) $$ [Htok Hpc HB]
  · isplitl [Htok]; · iexact Htok
    isplitl [Hpc]; · iexact Hpc
    iexact HB
  iintro ⟨Htok, Hpc, HB⟩
  -- copy 10
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 10) (by omega) _ _ ((word10 _).trans (read_word d L fI k 10)) hI _ (dst_eq10 k (by omega))) $$ [Htok Hpc HB]
  · isplitl [Htok]; · iexact Htok
    isplitl [Hpc]; · iexact Hpc
    iexact HB
  iintro ⟨Htok, Hpc, HB⟩
  -- copy 11
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 11) (by omega) _ _ ((word11 _).trans (read_word d L fI k 11)) hI _ (dst_eq11 k (by omega))) $$ [Htok Hpc HB]
  · isplitl [Htok]; · iexact Htok
    isplitl [Hpc]; · iexact Hpc
    iexact HB
  iintro ⟨Htok, Hpc, HB⟩
  -- copy 12
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 12) (by omega) _ _ ((word12 _).trans (read_word d L fI k 12)) hI _ (dst_eq12 k (by omega))) $$ [Htok Hpc HB]
  · isplitl [Htok]; · iexact Htok
    isplitl [Hpc]; · iexact Hpc
    iexact HB
  iintro ⟨Htok, Hpc, HB⟩
  -- copy 13
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 13) (by omega) _ _ ((word13 _).trans (read_word d L fI k 13)) hI _ (dst_eq13 k (by omega))) $$ [Htok Hpc HB]
  · isplitl [Htok]; · iexact Htok
    isplitl [Hpc]; · iexact Hpc
    iexact HB
  iintro ⟨Htok, Hpc, HB⟩
  -- copy 14
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 14) (by omega) _ _ ((word14 _).trans (read_word d L fI k 14)) hI _ (dst_eq14 k (by omega))) $$ [Htok Hpc HB]
  · isplitl [Htok]; · iexact Htok
    isplitl [Hpc]; · iexact Hpc
    iexact HB
  iintro ⟨Htok, Hpc, HB⟩
  -- copy 15
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 15) (by omega) _ _ ((word15 _).trans (read_word d L fI k 15)) hI _ (dst_eq15 k (by omega))) $$ [Htok Hpc HB]
  · isplitl [Htok]; · iexact Htok
    isplitl [Hpc]; · iexact Hpc
    iexact HB
  iintro ⟨Htok, Hpc, HB⟩
  sl_exec
  sl_step
  isplitl [HsI]; · iexact HsI
  isplitl [Htok]; · iexact Htok
  isplitl [Hpc]; · iexact Hpc
  iexact HB

end Cert.Proof.KI.K0

end
-- ==== Proof.K0Drain.lean ====
/-
  The first kernel's drain loop, one wait at a time.

  Each wait takes one piece's credit off the batch's counter. With several copies paying in instalments on one
  counter, a wait that is not the last learns nothing about any destination; the wait that brings the units consumed
  to 512 pieces' worth knows every copy has landed and hands back every delivery, the counter at zero again.
-/
import proofs.«215896_g38397007626377_fold_wed_m_942_26_alg».proof.Proof.K0Fire

noncomputable section

namespace Cert.Proof.KI.K0

open Cert.KernelIdeal Cert.KernelIdeal.Gen Cert.Proof.KI

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)
variable [FloatOps F]
variable (d : Dev nD) (L : grid0.Coords)

omit [FloatOps F] in
theorem N64_pos : 0 < N64 := sig.dmaCredit_pos _ _ _ _ _ (by decide)

omit [FloatOps F] in
theorem hu_skip {a : ℕ} (h : a + 1 < 512) : a * N64 + N64 < N64 * 512 := by
  have hp := N64_pos
  nlinarith
omit [FloatOps F] in
theorem hu_last : 511 * N64 + N64 = N64 * 512 := by ring

/-- The waits recorded since the kernel began are its own (index none). -/
abbrev WOK (W W' : Waits sig (HIx 2)) : Prop := ∀ p ∈ W', p ∈ W ∨ p.2 = none

omit [FloatOps F] in
theorem WOK_insert {W W' : Waits sig (HIx 2)} (sm : SemLoc sig) (h : WOK W W') : WOK W (insert (sm, (none : HIx 2)) W') := by
  intro p hp
  rcases Finset.mem_insert.mp hp with rfl | hp
  · exact .inr rfl
  · exact h p hp

abbrev batchAt (fI : Buf (Elt F) (idxLoc d L)) (u : ℕ) : sProp 𝕄 :=
  Transfers.Batch (EC (F := F)) (thr d L) (.dma cc0_scratch2.sem) (none : HIx 2) N64 (deliv m d L fI) 512 u

/-- ONE WAIT that is not the last: `a` pieces' worth consumed before, `a + 1` after; nothing else changes. -/
theorem drain_step {α : Type} {Q : α → sProp 𝕄} (fI : Buf (Elt F) (idxLoc d L)) (a : ℕ) (ha : a + 1 < 512)
    (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact}
    {kk : PUnit → Prog (TpuEff nD τ sig (Elt F) Λ₀ (Proc.scVector (cV L) (jV L))) α} (hN : dstw.view.dmaCredit = N64) :
    iprop(levAts (K (F := F)).L (K (F := F)).lev ∗ batchAt m d L fI (a * N64) ∗ ∃ W', ⌜WOK W W'⌝ ∗ owes (thr d L) O W')
      ⊢ iprop((iprop(batchAt m d L fI ((a + 1) * N64) ∗ ∃ W', ⌜WOK W W'⌝ ∗ owes (thr d L) O W')
            -∗ wp frame (wpE (defs₀ (F := F)) 𝒱₀ (thr d L) none) Set.univ (kk ⟨⟩) Q)
          -∗ wp frame (wpE (defs₀ (F := F)) 𝒱₀ (thr d L) none) Set.univ
              (.op (TpuEff.waitDma2 (p := Proc.scVector (cV L) (jV L)) cc0_scratch2.sem srcw dstw hs hd) kk) Q) := by
  iintro ⟨#Hlv, HB, %W', %hW', HO⟩ Hk
  ihave Hmw := ((K (F := F)).mayWait_none (thr := thr d L) (SemLoc.dma cc0_scratch2.sem) hO) $$ Hlv
  iapply (Transfers.wp_waitBatchO (EC (F := F)) 𝒱₀ (thr d L) none (none : HIx 2) hN (D := deliv m d L fI) (u := a * N64) (hu_skip ha) (O := O) (W := W')) $$ [HB HO Hmw]
  · isplitl [HB]; · iexact HB
    isplitl [HO]; · iexact HO
    iexact Hmw
  iintro ⟨HB, HO⟩
  iapply Hk
  isplitl [HB]
  · rw [Nat.succ_mul]; iexact HB
  iexists _; isplitr
  · ipureintro; exact WOK_insert (SemLoc.dma cc0_scratch2.sem) hW'
  iexact HO

/-- THE LAST WAIT: every copy has landed; every delivery comes back, the counter at zero. -/
theorem drain_last {α : Type} {Q : α → sProp 𝕄} (fI : Buf (Elt F) (idxLoc d L))
    (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact}
    {kk : PUnit → Prog (TpuEff nD τ sig (Elt F) Λ₀ (Proc.scVector (cV L) (jV L))) α} (hN : dstw.view.dmaCredit = N64) :
    iprop(levAts (K (F := F)).L (K (F := F)).lev ∗ batchAt m d L fI (511 * N64) ∗ ∃ W', ⌜WOK W W'⌝ ∗ owes (thr d L) O W')
      ⊢ iprop((iprop((bigSep Finset.univ (deliv m d L fI)) ∗ semVal (thr d L, SemLoc.dma cc0_scratch2.sem) 0
              ∗ ∃ W', ⌜WOK W W'⌝ ∗ owes (thr d L) O W')
            -∗ wp frame (wpE (defs₀ (F := F)) 𝒱₀ (thr d L) none) Set.univ (kk ⟨⟩) Q)
          -∗ wp frame (wpE (defs₀ (F := F)) 𝒱₀ (thr d L) none) Set.univ
              (.op (TpuEff.waitDma2 (p := Proc.scVector (cV L) (jV L)) cc0_scratch2.sem srcw dstw hs hd) kk) Q) := by
  iintro ⟨#Hlv, HB, %W', %hW', HO⟩ Hk
  ihave Hmw := ((K (F := F)).mayWait_none (thr := thr d L) (SemLoc.dma cc0_scratch2.sem) hO) $$ Hlv
  iapply (Transfers.wp_waitBatchLastO (EC (F := F)) 𝒱₀ (thr d L) none (none : HIx 2) hN N64_pos (D := deliv m d L fI) (u := 511 * N64) hu_last (O := O) (W := W')) $$ [HB HO Hmw]
  · isplitl [HB]; · iexact HB
    isplitl [HO]; · iexact HO
    iexact Hmw
  iintro ⟨HD, Hv, HO⟩
  iapply Hk
  isplitl [HD]; · iexact HD
  isplitl [Hv]; · iexact Hv
  iexists _; isplitr
  · ipureintro; exact WOK_insert (SemLoc.dma cc0_scratch2.sem) hW'
  iexact HO

end Cert.Proof.KI.K0

end
-- ==== Proof.K0DrainLoop.lean ====
/-
  The first kernel's drain loop: trip k makes waits 16 k .. 16 k + 15 of the 512.

  Before trip k, 16 k pieces' worth of units have been consumed. The sixteenth wait of trip 31 is the 512th: it hands
  back every copy's delivery and the counter at zero.
-/
import proofs.«215896_g38397007626377_fold_wed_m_942_26_alg».proof.Proof.K0Drain
import proofs.«215896_g38397007626377_fold_wed_m_942_26_alg».proof.Proof.Gen.KernelIdeal.Skeleton

noncomputable section

namespace Cert.Proof.KI.K0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable (m : (ℓ : Loc nD τ sig) → Buf (Elt F) ℓ)
variable [FloatOps F]

local notation "a0W" => (Memref.whole Cert.KernelIdeal.main_arg0_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S1000000x64 EltTy.f32)
local notation "o1W" => (Memref.whole Cert.KernelIdeal.main_v0_scv : Memref Cert.KernelIdeal.sig Kind.scVector Space.hbm Cert.KernelIdeal.S8192x128 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S1x256x128 EltTy.f32)

variable (d : Dev nD) (L : grid0.Coords)

/-- Before trip k of the drain loop. After the last trip: every piece of the scratch at its final contents. -/
def drainInv (fI : Buf (Elt F) (idxLoc d L)) (O : CellTallies nD τ sig (HIx 2)) (W : Waits sig (HIx 2)) (k : Nat) (_ : Unit) : sProp 𝕄 :=
  iprop(levAts (K (F := F)).L (K (F := F)).lev
    ∗ (if k < 32 then batchAt m d L fI ((16 * k) * N64)
       else iprop((bigSep Finset.univ (deliv m d L fI)) ∗ semVal (thr d L, SemLoc.dma cc0_scratch2.sem) 0))
    ∗ ∃ W', ⌜WOK W W'⌝ ∗ owes (thr d L) O W')

set_option maxHeartbeats 4000000 in
theorem drain_trip_mid (fI : Buf (Elt F) (idxLoc d L)) (O : CellTallies nD τ sig (HIx 2)) (W : Waits sig (HIx 2)) (hO : ∀ g, O g none = 0)
    (k : Fin k0_t2_loop.trips) (K0 : ℕ) (hK : k.val = K0) (hmid : K0 + 1 < 32) (acc : Unit) :
    iprop(levAts (K (F := F)).L (K (F := F)).lev ∗ batchAt m d L fI ((16 * K0) * N64) ∗ ∃ W', ⌜WOK W W'⌝ ∗ owes (thr d L) O W')
      ⊢ wp frame (wpE (defs₀ (F := F)) 𝒱₀ (thr d L) none) Set.univ
          (k0_t2_body L a0W (Memref.isWhole_whole _) a3W (Memref.isWhole_whole _) o1W (Memref.isWhole_whole _)
            sIW (Memref.isWhole_whole _) sRW (Memref.isWhole_whole _) cc0_scratch2 cc0_scoped0 cc0_scoped1 k acc)
          (fun _ => iprop(levAts (K (F := F)).L (K (F := F)).lev ∗ batchAt m d L fI ((16 * (K0 + 1)) * N64) ∗ ∃ W', ⌜WOK W W'⌝ ∗ owes (thr d L) O W')) := by
  unfold k0_t2_body
  iintro ⟨#Hlv, HB, HW⟩
  ·
    -- wait 0
    sl_exec
    iapply (drain_step m d L fI (16 * K0 + 0) (by omega) O W hO rfl) $$ [HB HW]
    · isplitr; · iexact Hlv
      isplitl [HB]; · iexact HB
      iexact HW
    iintro ⟨HB, HW⟩
    -- wait 1
    sl_exec
    iapply (drain_step m d L fI (16 * K0 + 1) (by omega) O W hO rfl) $$ [HB HW]
    · isplitr; · iexact Hlv
      isplitl [HB]; · iexact HB
      iexact HW
    iintro ⟨HB, HW⟩
    -- wait 2
    sl_exec
    iapply (drain_step m d L fI (16 * K0 + 2) (by omega) O W hO rfl) $$ [HB HW]
    · isplitr; · iexact Hlv
      isplitl [HB]; · iexact HB
      iexact HW
    iintro ⟨HB, HW⟩
    -- wait 3
    sl_exec
    iapply (drain_step m d L fI (16 * K0 + 3) (by omega) O W hO rfl) $$ [HB HW]
    · isplitr; · iexact Hlv
      isplitl [HB]; · iexact HB
      iexact HW
    iintro ⟨HB, HW⟩
    -- wait 4
    sl_exec
    iapply (drain_step m d L fI (16 * K0 + 4) (by omega) O W hO rfl) $$ [HB HW]
    · isplitr; · iexact Hlv
      isplitl [HB]; · iexact HB
      iexact HW
    iintro ⟨HB, HW⟩
    -- wait 5
    sl_exec
    iapply (drain_step m d L fI (16 * K0 + 5) (by omega) O W hO rfl) $$ [HB HW]
    · isplitr; · iexact Hlv
      isplitl [HB]; · iexact HB
      iexact HW
    iintro ⟨HB, HW⟩
    -- wait 6
    sl_exec
    iapply (drain_step m d L fI (16 * K0 + 6) (by omega) O W hO rfl) $$ [HB HW]
    · isplitr; · iexact Hlv
      isplitl [HB]; · iexact HB
      iexact HW
    iintro ⟨HB, HW⟩
    -- wait 7
    sl_exec
    iapply (drain_step m d L fI (16 * K0 + 7) (by omega) O W hO rfl) $$ [HB HW]
    · isplitr; · iexact Hlv
      isplitl [HB]; · iexact HB
      iexact HW
    iintro ⟨HB, HW⟩
    -- wait 8
    sl_exec
    iapply (drain_step m d L fI (16 * K0 + 8) (by omega) O W hO rfl) $$ [HB HW]
    · isplitr; · iexact Hlv
      isplitl [HB]; · iexact HB
      iexact HW
    iintro ⟨HB, HW⟩
    -- wait 9
    sl_exec
    iapply (drain_step m d L fI (16 * K0 + 9) (by omega) O W hO rfl) $$ [HB HW]
    · isplitr; · iexact Hlv
      isplitl [HB]; · iexact HB
      iexact HW
    iintro ⟨HB, HW⟩
    -- wait 10
    sl_exec
    iapply (drain_step m d L fI (16 * K0 + 10) (by omega) O W hO rfl) $$ [HB HW]
    · isplitr; · iexact Hlv
      isplitl [HB]; · iexact HB
      iexact HW
    iintro ⟨HB, HW⟩
    -- wait 11
    sl_exec
    iapply (drain_step m d L fI (16 * K0 + 11) (by omega) O W hO rfl) $$ [HB HW]
    · isplitr; · iexact Hlv
      isplitl [HB]; · iexact HB
      iexact HW
    iintro ⟨HB, HW⟩
    -- wait 12
    sl_exec
    iapply (drain_step m d L fI (16 * K0 + 12) (by omega) O W hO rfl) $$ [HB HW]
    · isplitr; · iexact Hlv
      isplitl [HB]; · iexact HB
      iexact HW
    iintro ⟨HB, HW⟩
    -- wait 13
    sl_exec
    iapply (drain_step m d L fI (16 * K0 + 13) (by omega) O W hO rfl) $$ [HB HW]
    · isplitr; · iexact Hlv
      isplitl [HB]; · iexact HB
      iexact HW
    iintro ⟨HB, HW⟩
    -- wait 14
    sl_exec
    iapply (drain_step m d L fI (16 * K0 + 14) (by omega) O W hO rfl) $$ [HB HW]
    · isplitr; · iexact Hlv
      isplitl [HB]; · iexact HB
      iexact HW
    iintro ⟨HB, HW⟩
    -- wait 15
    sl_exec
    iapply (drain_step m d L fI (16 * K0 + 15) (by omega) O W hO rfl) $$ [HB HW]
    · isplitr; · iexact Hlv
      isplitl [HB]; · iexact HB
      iexact HW
    iintro ⟨HB, HW⟩
    sl_exec
    sl_step
    isplitr; · iexact Hlv
    isplitl [HB]; · iexact HB
    iexact HW

set_option maxHeartbeats 4000000 in
theorem drain_trip_last (fI : Buf (Elt F) (idxLoc d L)) (O : CellTallies nD τ sig (HIx 2)) (W : Waits sig (HIx 2)) (hO : ∀ g, O g none = 0)
    (k : Fin k0_t2_loop.trips) (K0 : ℕ) (hK : k.val = K0) (hlast : K0 = 31) (acc : Unit) :
    iprop(levAts (K (F := F)).L (K (F := F)).lev ∗ batchAt m d L fI ((16 * K0) * N64) ∗ ∃ W', ⌜WOK W W'⌝ ∗ owes (thr d L) O W')
      ⊢ wp frame (wpE (defs₀ (F := F)) 𝒱₀ (thr d L) none) Set.univ
          (k0_t2_body L a0W (Memref.isWhole_whole _) a3W (Memref.isWhole_whole _) o1W (Memref.isWhole_whole _)
            sIW (Memref.isWhole_whole _) sRW (Memref.isWhole_whole _) cc0_scratch2 cc0_scoped0 cc0_scoped1 k acc)
          (fun _ => iprop(levAts (K (F := F)).L (K (F := F)).lev
            ∗ iprop((bigSep Finset.univ (deliv m d L fI)) ∗ semVal (thr d L, SemLoc.dma cc0_scratch2.sem) 0)
            ∗ ∃ W', ⌜WOK W W'⌝ ∗ owes (thr d L) O W')) := by
  subst hlast
  unfold k0_t2_body
  iintro ⟨#Hlv, HB, HW⟩
  ·
    -- wait 0
    sl_exec
    iapply (drain_step m d L fI (16 * 31 + 0) (by omega) O W hO rfl) $$ [HB HW]
    · isplitr; · iexact Hlv
      isplitl [HB]; · iexact HB
      iexact HW
    iintro ⟨HB, HW⟩
    -- wait 1
    sl_exec
    iapply (drain_step m d L fI (16 * 31 + 1) (by omega) O W hO rfl) $$ [HB HW]
    · isplitr; · iexact Hlv
      isplitl [HB]; · iexact HB
      iexact HW
    iintro ⟨HB, HW⟩
    -- wait 2
    sl_exec
    iapply (drain_step m d L fI (16 * 31 + 2) (by omega) O W hO rfl) $$ [HB HW]
    · isplitr; · iexact Hlv
      isplitl [HB]; · iexact HB
      iexact HW
    iintro ⟨HB, HW⟩
    -- wait 3
    sl_exec
    iapply (drain_step m d L fI (16 * 31 + 3) (by omega) O W hO rfl) $$ [HB HW]
    · isplitr; · iexact Hlv
      isplitl [HB]; · iexact HB
      iexact HW
    iintro ⟨HB, HW⟩
    -- wait 4
    sl_exec
    iapply (drain_step m d L fI (16 * 31 + 4) (by omega) O W hO rfl) $$ [HB HW]
    · isplitr; · iexact Hlv
      isplitl [HB]; · iexact HB
      iexact HW
    iintro ⟨HB, HW⟩
    -- wait 5
    sl_exec
    iapply (drain_step m d L fI (16 * 31 + 5) (by omega) O W hO rfl) $$ [HB HW]
    · isplitr; · iexact Hlv
      isplitl [HB]; · iexact HB
      iexact HW
    iintro ⟨HB, HW⟩
    -- wait 6
    sl_exec
    iapply (drain_step m d L fI (16 * 31 + 6) (by omega) O W hO rfl) $$ [HB HW]
    · isplitr; · iexact Hlv
      isplitl [HB]; · iexact HB
      iexact HW
    iintro ⟨HB, HW⟩
    -- wait 7
    sl_exec
    iapply (drain_step m d L fI (16 * 31 + 7) (by omega) O W hO rfl) $$ [HB HW]
    · isplitr; · iexact Hlv
      isplitl [HB]; · iexact HB
      iexact HW
    iintro ⟨HB, HW⟩
    -- wait 8
    sl_exec
    iapply (drain_step m d L fI (16 * 31 + 8) (by omega) O W hO rfl) $$ [HB HW]
    · isplitr; · iexact Hlv
      isplitl [HB]; · iexact HB
      iexact HW
    iintro ⟨HB, HW⟩
    -- wait 9
    sl_exec
    iapply (drain_step m d L fI (16 * 31 + 9) (by omega) O W hO rfl) $$ [HB HW]
    · isplitr; · iexact Hlv
      isplitl [HB]; · iexact HB
      iexact HW
    iintro ⟨HB, HW⟩
    -- wait 10
    sl_exec
    iapply (drain_step m d L fI (16 * 31 + 10) (by omega) O W hO rfl) $$ [HB HW]
    · isplitr; · iexact Hlv
      isplitl [HB]; · iexact HB
      iexact HW
    iintro ⟨HB, HW⟩
    -- wait 11
    sl_exec
    iapply (drain_step m d L fI (16 * 31 + 11) (by omega) O W hO rfl) $$ [HB HW]
    · isplitr; · iexact Hlv
      isplitl [HB]; · iexact HB
      iexact HW
    iintro ⟨HB, HW⟩
    -- wait 12
    sl_exec
    iapply (drain_step m d L fI (16 * 31 + 12) (by omega) O W hO rfl) $$ [HB HW]
    · isplitr; · iexact Hlv
      isplitl [HB]; · iexact HB
      iexact HW
    iintro ⟨HB, HW⟩
    -- wait 13
    sl_exec
    iapply (drain_step m d L fI (16 * 31 + 13) (by omega) O W hO rfl) $$ [HB HW]
    · isplitr; · iexact Hlv
      isplitl [HB]; · iexact HB
      iexact HW
    iintro ⟨HB, HW⟩
    -- wait 14
    sl_exec
    iapply (drain_step m d L fI (16 * 31 + 14) (by omega) O W hO rfl) $$ [HB HW]
    · isplitr; · iexact Hlv
      isplitl [HB]; · iexact HB
      iexact HW
    iintro ⟨HB, HW⟩
    -- wait 15
    sl_exec
    iapply (drain_last m d L fI O W hO rfl) $$ [HB HW]
    · isplitr; · iexact Hlv
      isplitl [HB]; · iexact HB
      iexact HW
    iintro ⟨HD, Hv, HW⟩
    sl_exec
    sl_step
    isplitr; · iexact Hlv
    isplitl [HD Hv]
    · isplitl [HD]; · iexact HD
      iexact Hv
    iexact HW

theorem drain_trip (fI : Buf (Elt F) (idxLoc d L)) (O : CellTallies nD τ sig (HIx 2)) (W : Waits sig (HIx 2)) (hO : ∀ g, O g none = 0)
    (k : Fin k0_t2_loop.trips) (acc : Unit) :
    drainInv m d L fI O W k.val acc
      ⊢ wp frame (wpE (defs₀ (F := F)) 𝒱₀ (thr d L) none) Set.univ
          (k0_t2_body L a0W (Memref.isWhole_whole _) a3W (Memref.isWhole_whole _) o1W (Memref.isWhole_whole _)
            sIW (Memref.isWhole_whole _) sRW (Memref.isWhole_whole _) cc0_scratch2 cc0_scoped0 cc0_scoped1 k acc)
          (drainInv m d L fI O W (k.val + 1)) := by
  have hk : k.val < 32 := k.isLt
  unfold drainInv
  rw [if_pos hk]
  by_cases hmid : k.val + 1 < 32
  · rw [if_pos hmid]
    exact drain_trip_mid m d L fI O W hO k k.val rfl hmid acc
  · rw [if_neg hmid]
    exact drain_trip_last m d L fI O W hO k k.val rfl (by omega) acc

end Cert.Proof.KI.K0

end
-- ==== Proof.K0Geom.lean ====
/-
  The first kernel's geometry, second part: the 512 pieces tile the row scratch, and a worker's slice of the output is
  its block of 256 rows.
-/
import proofs.«215896_g38397007626377_fold_wed_m_942_26_alg».proof.Proof.K0Fire

noncomputable section

namespace Cert.Proof.KI.K0

open Cert.KernelIdeal Cert.KernelIdeal.Gen Cert.Proof.KI

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 2) (Elt F) ℕ UU ℕ

local notation "o1W" => (Memref.whole Cert.KernelIdeal.main_v0_scv : Memref Cert.KernelIdeal.sig Kind.scVector Space.hbm Cert.KernelIdeal.S8192x128 EltTy.f32)
local notation "a0W" => (Memref.whole Cert.KernelIdeal.main_arg0_scv : Memref Cert.KernelIdeal.sig Kind.scVector Space.hbm Cert.KernelIdeal.S16384 EltTy.i32)

variable (d : Dev nD) (L : grid0.Coords)

/-- The worker's SparseCore and subcore numbers. -/
abbrev cL (L : grid0.Coords) : Fin 2 := Fin.cast (by rfl) (L 0)
abbrev sL (L : grid0.Coords) : Fin 16 := Fin.cast (by rfl) (L 1)

/-- A piece's elements, as its memref names them, are the piece's rectangle. -/
theorem set_dstPiece (t : Fin 512) : (dstPiece t).view.set = pieceSet t := by
  show (((View.whole (cc0_scratch1 : Ref sig .scVector)).slice (pieceRect t)).reshape S64 squeezes_S1x1x64_S64.numel_eq).set = _
  rw [View.set_reshape]
  exact View.set_slice_whole _ _

theorem pieces_disjoint : ∀ t ∈ (Finset.univ : Finset (Fin 512)), ∀ t' ∈ (Finset.univ : Finset (Fin 512)), t ≠ t' →
    Disjoint (pieceSet t) (pieceSet t') := by
  intro t _ t' _ hne
  have hv : t.val ≠ t'.val := fun h => hne (Fin.ext h)
  by_cases h1 : t.val / 2 = t'.val / 2
  · refine Rect.unit_disjoint (2 : Fin 3) ?_
    show (t.val % 2) * 64 + 64 ≤ (t'.val % 2) * 64 ∨ (t'.val % 2) * 64 + 64 ≤ (t.val % 2) * 64
    omega
  · refine Rect.unit_disjoint (1 : Fin 3) ?_
    show t.val / 2 + 1 ≤ t'.val / 2 ∨ t'.val / 2 + 1 ≤ t.val / 2
    omega

theorem pieces_cover : (Finset.univ : Finset (Fin 512)).biUnion pieceSet = Finset.univ := by
  ext y
  simp only [Finset.mem_biUnion, Finset.mem_univ, true_and, iff_true]
  have h0 : (y 0).val < 1 := (y 0).isLt
  have h1 : (y 1).val < 256 := (y 1).isLt
  have h2 : (y 2).val < 128 := (y 2).isLt
  refine ⟨⟨2 * (y 1).val + (y 2).val / 64, by omega⟩, ?_⟩
  rw [Rect.mem_set_unit]
  intro a; fin_cases a
  · show 0 ≤ (y 0).val ∧ (y 0).val < 0 + 1; omega
  · show (2 * (y 1).val + (y 2).val / 64) / 2 ≤ (y 1).val ∧ (y 1).val < (2 * (y 1).val + (y 2).val / 64) / 2 + 1; omega
  · show (2 * (y 1).val + (y 2).val / 64) % 2 * 64 ≤ (y 2).val ∧ (y 2).val < (2 * (y 1).val + (y 2).val / 64) % 2 * 64 + 64; omega

/-- The whole scratch is its 512 pieces. -/
theorem rows_split (f : Buf (Elt F) (rowsLoc d L)) :
    (rowsLoc d L ↦{fullShare} f : sProp 𝕄) = bigSep Finset.univ fun t : Fin 512 => pieceAt (F := F) d L t f := by
  rw [show (bigSep Finset.univ fun t : Fin 512 => pieceAt (F := F) d L t f)
      = bigSep Finset.univ fun t : Fin 512 => (rowsLoc d L ↦[pieceSet t]{fullShare} f : sProp 𝕄) from
    bigSep_congr fun t _ => by show ((dstPiece t).view.loc (thr d L) ↦[(dstPiece t).view.set]{fullShare} f : sProp 𝕄) = _; rw [set_dstPiece],
    ← pointsTo_biUnion Finset.univ (ℓ := rowsLoc d L) pieceSet pieces_disjoint, pieces_cover]

/-- The worker's slice of the output, as the program names it. -/
abbrev o1Slice (L : grid0.Coords) : Memref sig .scVector .hbm S256x128 .f32 :=
  (o1W).slice (Rect.unit (s := S8192x128) (k0_off37 L) S256x128.size (k0_off37_inb L)) (fun _ => rfl)
/-- The worker's 512 index words, as the program names them. -/
abbrev a0Slice (L : grid0.Coords) : Memref sig .scVector .hbm S512 .i32 :=
  (a0W).slice (Rect.unit (s := S16384) (k0_off1 L) S512.size (k0_off1_inb L)) (fun _ => rfl)

theorem o1rect_eq : Rect.unit (s := S8192x128) (k0_off37 L) S256x128.size (k0_off37_inb L)
    = Rect.part (s := S8192x128) (a₀ := 0) hdivA (wid (cL L) (sL L)) := by
  unfold Rect.part Rect.block
  congr 1 <;> funext a
  · rw [k0_off37_eq]
    match a with
    | 0 =>
      show 512 * (L 1).val + 256 * (L 0).val = (2 * (L 1).val + (L 0).val) * (8192 / 32)
      omega
    | 1 => simp [Shape.partIx, Shape.partSize]
  · match a with
    | 0 => simp [Shape.partSize]
    | 1 => simp [Shape.partSize]

theorem set_o1Slice : (o1Slice L).view.set = blkA (wid (cL L) (sL L)) := by
  show ((View.whole (main_v0_scv : Ref sig .scVector)).slice _).set = _
  rw [View.set_slice_whole, o1rect_eq]

end Cert.Proof.KI.K0

end
-- ==== Proof.K0Out.lean ====
/-
  The first kernel's value on a worker's block: what the final copy writes is the lookup.

  The fetched index words are words 512 w .. 512 w + 511 of the input words (w the worker's number); the scratch's
  entry (r, x) is table[word 2 r + x / 64, x mod 64]; the final copy writes scratch row r to output row 256 w + r. So
  output entry (256 w + r, x) is table[input word 2 (256 w + r) + x / 64, x mod 64]: the lookup in the kernel's layout.
-/
import proofs.«215896_g38397007626377_fold_wed_m_942_26_alg».proof.Proof.K0Geom

noncomputable section

namespace Cert.Proof.KI.K0

open Cert.KernelIdeal Cert.KernelIdeal.Gen Cert.Proof.KI

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 2) (Elt F) ℕ UU ℕ
local notation "sRW" => (Memref.whole Cert.KernelIdeal.cc0_scratch1 : Memref Cert.KernelIdeal.sig Kind.scVector Space.vmem Cert.KernelIdeal.S1x256x128 EltTy.f32)

variable (m : (ℓ : Loc nD τ sig) → Buf (Elt F) ℓ)
variable (d : Dev nD) (L : grid0.Coords)

theorem wid_val (L : grid0.Coords) : (wid (cL L) (sL L)).val = 2 * (L 1).val + (L 0).val := rfl

/-- The index words the worker fetches: its 512 of the input words. -/
def fetched : Buf (Elt F) (idxLoc d L) := (a0Slice L).view.read (Elt F) (m (a0Loc d))

theorem fetched_apply (j : Fin 512) :
    fetched m d L (ix1 j) = m (a0Loc d) (ix1 (⟨512 * (wid (cL L) (sL L)).val + j.val, by
      have := (wid (cL L) (sL L)).isLt; have := j.isLt; omega⟩ : Fin 16384)) := by
  unfold fetched
  rw [View.read_apply]
  simp only [cast_eq]
  congr 1
  funext a; fin_cases a; apply Fin.ext
  show (((Rect.unit (s := S16384) (k0_off1 L) S512.size (k0_off1_inb L)).emb (ix1 j)) 0).val = _
  rw [Rect.emb_apply]
  show (k0_off1 L) 0 + 1 * j.val = 512 * (wid (cL L) (sL L)).val + j.val
  rw [k0_off1_eq, wid_val]
  show 1024 * (L 1).val + 512 * (L 0).val + 1 * j.val = 512 * (2 * (L 1).val + (L 0).val) + j.val
  omega

theorem fetched_lt (hpre : PreOK m) : ∀ x, (fetched m d L x).toNat < 1000000 := by
  intro x
  unfold fetched
  rw [View.read_apply]
  simp only [cast_eq]
  exact (hpre d).1 _

/-- The whole row scratch as the final copy's source names it. -/
abbrev rowsSrc : Memref sig .scVector .vmem S256x128 .f32 :=
  ((sRW).slice (Rect.unit (s := S1x256x128) ![0, 0, 0] S1x256x128.size inb_S1x256x128_S1x256x128_0_0_0) (fun _ => rfl)).squeeze S256x128 squeezes_S1x256x128_S256x128

theorem rowsSrc_emb_val (y : S256x128.Idx) :
    (((rowsSrc).view.emb y) 1).val = (y 0).val ∧ (((rowsSrc).view.emb y) 2).val = (y 1).val := by
  have e := Shape.reshapeEquiv_cons_one (n := 2) (d := ![256, 128]) (squeezes_S1x256x128_S256x128.numel_eq) y
  constructor
  · show (((Rect.unit (s := S1x256x128) ![0, 0, 0] S1x256x128.size inb_S1x256x128_S1x256x128_0_0_0).emb
        (Shape.reshapeEquiv (squeezes_S1x256x128_S256x128.numel_eq) y)) 1).val = _
    rw [Rect.emb_apply, e]; show 0 + 1 * (y 0).val = _; omega
  · show (((Rect.unit (s := S1x256x128) ![0, 0, 0] S1x256x128.size inb_S1x256x128_S1x256x128_0_0_0).emb
        (Shape.reshapeEquiv (squeezes_S1x256x128_S256x128.numel_eq) y)) 2).val = _
    rw [Rect.emb_apply, e]; show 0 + 1 * (y 1).val = _; omega

theorem o1Slice_emb_val (y : S256x128.Idx) :
    (((o1Slice L).view.emb y) 0).val = 256 * (wid (cL L) (sL L)).val + (y 0).val ∧ (((o1Slice L).view.emb y) 1).val = (y 1).val := by
  constructor
  · show (((Rect.unit (s := S8192x128) (k0_off37 L) S256x128.size (k0_off37_inb L)).emb y) 0).val = _
    rw [Rect.emb_apply]; show (k0_off37 L) 0 + 1 * (y 0).val = _
    rw [k0_off37_eq, wid_val]
    show 512 * (L 1).val + 256 * (L 0).val + 1 * (y 0).val = 256 * (2 * (L 1).val + (L 0).val) + (y 0).val
    omega
  · show (((Rect.unit (s := S8192x128) (k0_off37 L) S256x128.size (k0_off37_inb L)).emb y) 1).val = _
    rw [Rect.emb_apply]; show (k0_off37 L) 1 + 1 * (y 1).val = _
    rw [k0_off37_eq]; simp

/-- What the final copy leaves on the worker's block is the lookup. -/
theorem out_value (f : Buf (Elt F) (o1Loc d)) :
    ∀ i ∈ (o1Slice L).view.set,
      (o1Slice L).view.write (Elt F) f (ReadAs.same.apply ((rowsSrc).view.read (Elt F) (rowsFinal m d L (fetched m d L)))) Finset.univ i
        = G1 m d i := by
  intro i hi
  obtain ⟨y, -, rfl⟩ := Finset.mem_map.mp hi
  rw [View.write_emb_of_mem _ _ (Finset.mem_univ y), ReadAs.apply_same, View.read_apply]
  obtain ⟨r1, r2⟩ := rowsSrc_emb_val y
  obtain ⟨o0, o1⟩ := o1Slice_emb_val L y
  have h0 : (y 0).val < 256 := (y 0).isLt
  have h1 : (y 1).val < 128 := (y 1).isLt
  have hw := (wid (cL L) (sL L)).isLt
  simp only [cast_eq]
  unfold rowsFinal G1 packA Spec.take2 pairPos
  congr 1
  funext a; apply Fin.ext
  fin_cases a
  · show (Spec.rowOf _).val = (Spec.rowOf _).val
    congr 2
    rw [show (ix1 (⟨2 * (((rowsSrc).view.emb y) 1).val + (((rowsSrc).view.emb y) 2).val / 64, _⟩ : Fin 512))
        = ix1 (⟨2 * (y 0).val + (y 1).val / 64, by omega⟩ : Fin 512) from by
      congr 1; apply Fin.ext; show 2 * _ + _ / 64 = _; rw [r1, r2]]
    rw [fetched_apply]
    congr 1; funext b; fin_cases b; apply Fin.ext
    show 512 * (wid (cL L) (sL L)).val + (2 * (y 0).val + (y 1).val / 64) = 2 * (((o1Slice L).view.emb y) 0).val + (((o1Slice L).view.emb y) 1).val / 64
    rw [o0, o1]; omega
  · show (((rowsSrc).view.emb y) 2).val % 64 = (((o1Slice L).view.emb y) 1).val % 64
    rw [r2, o1]

end Cert.Proof.KI.K0

end
-- ==== Proof.K0Body.lean ====
/-
  The first kernel's task on one vector subcore, whole.

  Fetch the worker's 512 index words; issue the 512 row copies as one batch (the table share cut into 512 read tokens,
  the row scratch into its 512 pieces); drain the batch; the pieces, each at the final contents, are the whole scratch;
  write it out to the worker's block of the output. What the block then holds is the lookup.
-/
import proofs.«215896_g38397007626377_fold_wed_m_942_26_alg».proof.Proof.K0FireLoop
import proofs.«215896_g38397007626377_fold_wed_m_942_26_alg».proof.Proof.K0DrainLoop
import proofs.«215896_g38397007626377_fold_wed_m_942_26_alg».proof.Proof.K0Out
import proofs.«215896_g38397007626377_fold_wed_m_942_26_alg».proof.Proof.Gen.KernelIdeal.Skeleton

noncomputable section

namespace Cert.Proof.KI.K0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable (m : (ℓ : Loc nD τ sig) → Buf (Elt F) ℓ)
variable [FloatOps F]

local notation "a0W" => (Memref.whole Cert.KernelIdeal.main_arg0_scv : Memref Cert.KernelIdeal.sig Kind.scVector Space.hbm Cert.KernelIdeal.S16384 EltTy.i32)
local notation "a3W" => (Memref.whole Cert.KernelIdeal.main_arg3_scv : Memref Cert.KernelIdeal.sig Kind.scVector Space.hbm Cert.KernelIdeal.S1000000x64 EltTy.f32)
local notation "o1W" => (Memref.whole Cert.KernelIdeal.main_v0_scv : Memref Cert.KernelIdeal.sig Kind.scVector Space.hbm Cert.KernelIdeal.S8192x128 EltTy.f32)
local notation "sIW" => (Memref.whole Cert.KernelIdeal.cc0_scratch0 : Memref Cert.KernelIdeal.sig Kind.scVector Space.vmem Cert.KernelIdeal.S512 EltTy.i32)
local notation "sRW" => (Memref.whole Cert.KernelIdeal.cc0_scratch1 : Memref Cert.KernelIdeal.sig Kind.scVector Space.vmem Cert.KernelIdeal.S1x256x128 EltTy.f32)

variable (d : Dev nD) (L : grid0.Coords)

/-! ## The subcore's own semaphores and buffers -/

abbrev cSem (d : Dev nD) (c : Fin τ.nSC) (i : Fin τ.nSub) : GSem nD τ sig := (V d c i, .dma cc0_scratch2.sem)
abbrev cS0 (d : Dev nD) (c : Fin τ.nSC) (i : Fin τ.nSub) : GSem nD τ sig := (V d c i, .dma cc0_scoped0.sem)
abbrev cS1 (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cSem d (cV L) (jV L)) 0 ∗ semVal (cS0 d (cV L) (jV L)) 0 ∗ semVal (cS1 d (cV L) (jV L)) 0
          ∗ bigSep ((((ownCells (V d (cV L) (jV L))).erase (cSem d (cV L) (jV L))).erase (cS0 d (cV L) (jV L))).erase (cS1 d (cV L) (jV L)))
              fun g => semVal g 0) := by
  unfold SparseCore.Cfg.ownSems0
  rw [SparseCore.bigSep_erase' ((mem_ownCells (g := cSem d (cV L) (jV L))).mpr ⟨rfl, by
      show (SemLoc.dma cc0_scratch2.sem : SemLoc sig).isScoped .scVector = true; decide⟩),
    SparseCore.bigSep_erase' (Finset.mem_erase.mpr ⟨by simp [cSem, cS0]; decide, (mem_ownCells (g := cS0 d (cV L) (jV L))).mpr ⟨rfl, by
      show (SemLoc.dma cc0_scoped0.sem : SemLoc sig).isScoped .scVector = true; decide⟩⟩),
    SparseCore.bigSep_erase' (Finset.mem_erase.mpr ⟨by simp [cS0, cS1]; decide, Finset.mem_erase.mpr ⟨by simp [cSem, cS1]; decide,
      (mem_ownCells (g := cS1 d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

omit [FloatOps F] in
theorem trips1 : k0_t1_loop.trips = 32 := by decide
omit [FloatOps F] in
theorem trips2 : k0_t2_loop.trips = 32 := by decide

omit [FloatOps F] in
theorem pts_o1 (f : Buf (Elt F) (o1Loc d)) :
    ((o1Slice L).view.loc (thr d L) ↦[(o1Slice L).view.set]{fullShare} f : sProp 𝕄) = o1Loc d ↦[blkA (wid (cL L) (sL L))]{fullShare} f := by
  rw [set_o1Slice]

set_option maxHeartbeats 4000000 in
theorem tile_body (hpre : PreOK m) (O : CellTallies nD τ sig (HIx 2)) (W : Waits sig (HIx 2)) (hO : ∀ g, O g none = 0) :
    (iprop(levAts (K (F := F)).L (K (F := F)).lev ∗ emp
        ∗ ((a0Loc d ↦{qT (cL L).val (sL L).val} m (a0Loc d)) ∗ (a3Loc d ↦{qT (cL L).val (sL L).val} m (a3Loc d))
            ∗ (o1Loc d ↦[blkA (wid (cL L) (sL L))]{fullShare} m (o1Loc d)))
        ∗ scopedBufs (thr d L) ∗ scopedSems0 (thr d L) ∗ owes (thr d L) O W) : sProp 𝕄)
      ⊢ wp frame (wpE (defs₀ (F := F)) 𝒱₀ (thr d L) none) Set.univ
          (cc0__sc_gather_in L a0W (Memref.isWhole_whole _) a3W (Memref.isWhole_whole _) o1W (Memref.isWhole_whole _)
            sIW (Memref.isWhole_whole _) sRW (Memref.isWhole_whole _) cc0_scratch2 cc0_scoped0 cc0_scoped1)
          fun _ => iprop((o1Loc d ↦[blkA (wid (cL L) (sL L))]{fullShare} G1 m d) ∗ scopedBufs (thr d L) ∗ scopedSems0 (thr d L)
            ∗ ∃ W', ⌜WOK W W'⌝ ∗ owes (thr d L) O W') := by
  simp only [cc0__sc_gather_in_eq_skeleton]; unfold cc0__sc_gather_in_skel
  simp only [k0_part33_eq_skeleton]; unfold k0_part33_skel
  rw [(K (F := F)).scopedBufs_V (Val := Elt F) (Name := ℕ) (U := UU) (facts (F := F)) d (cV L) (jV L),
    SparseCore.Cfg.scopedSems0_V (Val := Elt F) (Name := ℕ) (U := UU) d (cV L) (jV L), ownSems0_V (F := F) d L, ownBufs_V (F := F) d L]
  iintro ⟨#Hlv, -, ⟨Ha0, Ha3, Ho1⟩, ⟨⟨%fi, HsI⟩, ⟨%fr, HsR⟩, Hbufs⟩, ⟨Hsem, Hsc0, Hsc1, Hsems⟩, HO⟩
  ihave Hmw := ((K (F := F)).mayWaits_none (thr := thr d L) hO) $$ Hlv
  -- the index fetch
  ihave Ha0' := (Entails.of_eq (pts_a0 (F := F) d L _ _).symm) $$ Ha0
  ihave HsI' := (Entails.of_eq (pts_sI (F := F) d L _).symm) $$ HsI
  sl_exec (disch := exact View.amount_pos _ _ (show 0 < S512.numel by decide))
  -- the index scratch holds the worker's 512 input words
  have hfI : (sIW).view.write (Elt F) fi (tile_body.sl.dma0 m d L) Finset.univ = fetched m d L := by
    show (View.whole (cc0_scratch0 : Ref sig .scVector)).write (Elt F) fi (tile_body.sl.dma0 m d L) Finset.univ = _
    rw [View.write_whole_univ]; rfl
  ihave HsI := (Entails.of_eq (congrArg (fun f => ((sIW).view.loc (thr d L) ↦{fullShare} f : sProp 𝕄)) hfI)) $$ HsI'
  -- the table share as 512 read tokens, the scratch as its 512 pieces, the batch
  ihave Htk := (Transfers.pointsTo_toks_split (qT (cL L).val (sL L).val) 512) $$ Ha3
  icases Htk with ⟨-, Htok⟩
  ihave Hpc := (Entails.of_eq (rows_split (F := F) d L fr)) $$ HsR
  imod (Transfers.batch_alloc' (Lvl := ℕ) (EC (F := F)) (thr d L) (none : HIx 2) N64 (deliv m d L (fetched m d L)) (sm := .dma cc0_scratch2.sem) (E := Set.univ)) $$ Hsem with HB
  rw [wp_bind]
  sl_for (fireInv m d L (qT (cL L).val (sL L).val) (fetched m d L) fr) $$ [HsI Htok Hpc HB]
  case region => exact fun k acc => fire_trip m d L _ _ fr (fetched_lt m d L hpre) k acc
  · unfold fireInv
    simp only [Nat.mul_zero]
    rw [← Transfers.bigSep_pending_zero, ← Transfers.bigSep_pending_zero]
    isplitl [HsI]; · iexact HsI
    isplitl [Htok]; · iexact Htok
    isplitl [Hpc]; · iexact Hpc
    iexact HB
  iintro %_ HI
  -- every copy issued: the batch at 512, nothing consumed
  have e1 : Scf.trips k0_t1_loop.lb k0_t1_loop.ub k0_t1_loop.st = 32 := by decide
  have eB : Transfers.Batch (EC (F := F)) (thr d L) (.dma cc0_scratch2.sem) (none : HIx 2) N64 (deliv m d L (fetched m d L))
      (16 * Scf.trips k0_t1_loop.lb k0_t1_loop.ub k0_t1_loop.st) 0 = batchAt m d L (fetched m d L) ((16 * 0) * N64) := by
    rw [e1]; simp
  unfold fireInv
  icases HI with ⟨HsI, -, -, HB⟩
  ihave HB' := (Entails.of_eq eB) $$ HB
  sl_for (drainInv m d L (fetched m d L) O W) $$ [HB' HO]
  case region => exact fun k acc => drain_trip m d L _ O W hO k acc
  · unfold drainInv
    rw [if_pos (by decide)]
    isplitr; · iexact Hlv
    isplitl [HB']; · iexact HB'
    iexists _; isplitr
    · ipureintro; exact WOK_insert (SemLoc.dma cc0_scoped0.sem) (fun p hp => Or.inl hp)
    iexact HO
  iintro %_ HI
  have e2 : ¬ Scf.trips k0_t2_loop.lb k0_t2_loop.ub k0_t2_loop.st < 32 := by decide
  unfold drainInv
  rw [if_neg e2]
  icases HI with ⟨-, ⟨HD, Hsem⟩, %W1, %hW1, HO⟩
  -- the 512 pieces, each at the final contents, are the whole scratch
  have eD : (bigSep Finset.univ (deliv m d L (fetched m d L)) : sProp 𝕄)
      = rowsLoc d L ↦{fullShare} rowsFinal m d L (fetched m d L) :=
    (congrArg (bigSep Finset.univ) (funext fun t => by unfold deliv; rfl)).trans (rows_split (F := F) d L (rowsFinal m d L (fetched m d L))).symm
  ihave HsR := (Entails.of_eq eD) $$ HD
  -- the write-out of the scratch to the worker's block
  ihave HsR' := (Entails.of_eq (pts_sR (F := F) d L _).symm) $$ HsR
  ihave Ho1' := (Entails.of_eq (pts_o1 (F := F) d L _).symm) $$ Ho1
  sl_exec (disch := exact View.amount_pos _ _ (show 0 < S256x128.numel by decide))
  sl_step
  -- what the block holds is the lookup
  have eV : ∀ i ∈ (o1Slice L).view.set,
      (o1Slice L).view.writes (Elt F) (m (o1Loc d)) [⟨Rect.whole S256x128, tile_body.sl.dma0_1 m d L⟩] i = G1 m d i := by
    intro i hi
    rw [← View.write_univ_eq_writes_whole (o1Slice L).view (m (o1Loc d)) [] (tile_body.sl.dma0_1 m d L)]
    exact out_value m d L (m (o1Loc d)) i hi
  isplitl [Ho1']
  · ihave H := (Entails.of_eq ((pointsTo_congr eV).trans (pts_o1 (F := F) d L _))) $$ Ho1'
    iexact H
  isplitl [HsI HsR' Hbufs]
  · isplitl [HsI]
    · iexists _; iapply (Entails.of_eq (pts_sI (F := F) d L _)); iexact HsI
    isplitl [HsR']
    · iexists _; iapply (Entails.of_eq (pts_sR (F := F) d L _)); iexact HsR'
    iexact Hbufs
  isplitl [Hsem Hsc0 Hsc1 Hsems]
  · isplitl [Hsem]; · iexact Hsem
    isplitl [Hsc0]; · iexact Hsc0
    isplitl [Hsc1]; · iexact Hsc1
    iexact Hsems
  iexists _; isplitr
  · ipureintro; exact WOK_insert (SemLoc.dma cc0_scoped1.sem) hW1
  iexact HO

/-! ## The launch theorem's obligation for call 0 -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__sc_gather_in (coordsV c s)
          a0W (Memref.isWhole_whole _) a3W (Memref.isWhole_whole _) o1W (Memref.isWhole_whole _)
          sIW (Memref.isWhole_whole _) sRW (Memref.isWhole_whole _) cc0_scratch2 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body m d (coordsV ⟨_, hc.1⟩ ⟨_, hc.2⟩) hpre O W hO).trans (wp_mono frame _ _ fun _ => obl_post)

end Cert.Proof.KI.K0

end
-- ==== Proof.BwK0Views.lean ====
/-
  The first kernel's geometry: which 64 words of the row scratch copy number t = 16 k + u of the fire loop fills.

  The scratch is [1, 256, 128]: row r holds lookups 2 r (columns 0..63) and 2 r + 1 (columns 64..127), so copy t fills
  row t / 2 at columns 64 (t mod 2) .. 64 (t mod 2) + 63. The printed program computes that place by sixteen offset
  functions, one per unrolled copy of a trip; their closed forms are decided once over the 32 trips.
-/
import proofs.«215896_g38397007626377_fold_wed_m_942_26_alg».proof.Proof.BwKISetup

noncomputable section

namespace Cert.Proof.KW.K0

open Cert.Kernel Cert.Kernel.Gen Cert.Proof.KW
open Idealize.ShloMosaic

/-- Where copy `t` lands in the [1, 256, 128] scratch. -/
def pieceOff (t : ℕ) : Fin 3 → Nat := ![0, t / 2, (t % 2) * 64]

theorem pieceOff_inb (t : Fin 512) : ∀ a, pieceOff t.val a + S1x1x64.size a ≤ S1x256x128.size a := by
  have := t.isLt
  intro a; fin_cases a
  · show 0 + 1 ≤ 1; omega
  · show t.val / 2 + 1 ≤ 256; omega
  · show (t.val % 2) * 64 + 64 ≤ 128; omega

abbrev pieceRect (t : Fin 512) : Rect S1x256x128 := Rect.unit (s := S1x256x128) (pieceOff t.val) S1x1x64.size (pieceOff_inb t)
abbrev pieceSet (t : Fin 512) : Finset S1x256x128.Idx := (pieceRect t).set

/-- Copy 16 k + u. -/
def copyNo (k : Fin k0_t1_loop.trips) (u : Fin 16) : Fin 512 := ⟨16 * k.val + u.val, by
  have hk : k.val < 32 := k.isLt; have := u.isLt; omega⟩

/-! ## The printed offsets in closed form -/

theorem off_dst0 : ∀ k : Fin k0_t1_loop.trips, k0_off5 k 0#32 = ![0, 8 * k.val + 0, 0] := by decide +kernel
theorem off_dst1 : ∀ k : Fin k0_t1_loop.trips, k0_off7 k 1#32 = ![0, 8 * k.val + 0, 64] := by decide +kernel
theorem off_dst2 : ∀ k : Fin k0_t1_loop.trips, k0_off9 k 2#32 = ![0, 8 * k.val + 1, 0] := by decide +kernel
theorem off_dst3 : ∀ k : Fin k0_t1_loop.trips, k0_off11 k 3#32 = ![0, 8 * k.val + 1, 64] := by decide +kernel
theorem off_dst4 : ∀ k : Fin k0_t1_loop.trips, k0_off13 k 4#32 = ![0, 8 * k.val + 2, 0] := by decide +kernel
theorem off_dst5 : ∀ k : Fin k0_t1_loop.trips, k0_off15 k 5#32 = ![0, 8 * k.val + 2, 64] := by decide +kernel
theorem off_dst6 : ∀ k : Fin k0_t1_loop.trips, k0_off17 k 6#32 = ![0, 8 * k.val + 3, 0] := by decide +kernel
theorem off_dst7 : ∀ k : Fin k0_t1_loop.trips, k0_off19 k 7#32 = ![0, 8 * k.val + 3, 64] := by decide +kernel
theorem off_dst8 : ∀ k : Fin k0_t1_loop.trips, k0_off21 k 8#32 = ![0, 8 * k.val + 4, 0] := by decide +kernel
theorem off_dst9 : ∀ k : Fin k0_t1_loop.trips, k0_off23 k 9#32 = ![0, 8 * k.val + 4, 64] := by decide +kernel
theorem off_dst10 : ∀ k : Fin k0_t1_loop.trips, k0_off25 k 10#32 = ![0, 8 * k.val + 5, 0] := by decide +kernel
theorem off_dst11 : ∀ k : Fin k0_t1_loop.trips, k0_off27 k 11#32 = ![0, 8 * k.val + 5, 64] := by decide +kernel
theorem off_dst12 : ∀ k : Fin k0_t1_loop.trips, k0_off29 k 12#32 = ![0, 8 * k.val + 6, 0] := by decide +kernel
theorem off_dst13 : ∀ k : Fin k0_t1_loop.trips, k0_off31 k 13#32 = ![0, 8 * k.val + 6, 64] := by decide +kernel
theorem off_dst14 : ∀ k : Fin k0_t1_loop.trips, k0_off33 k 14#32 = ![0, 8 * k.val + 7, 0] := by decide +kernel
theorem off_dst15 : ∀ k : Fin k0_t1_loop.trips, k0_off35 k = ![0, 8 * k.val + 7, 64] := by decide +kernel

/-- A unit rectangle is determined by its offsets. -/
theorem rect_unit_congr {s : Shape} {off off' size : Fin s.rank → Nat} {inb inb'} (h : off = off') :
    Rect.unit (s := s) off size inb = Rect.unit (s := s) off' size inb' := by subst h; rfl

end Cert.Proof.KW.K0

end
-- ==== Proof.BwK0Fire.lean ====
/-
  The first kernel's fire loop, one copy at a time.

  The 512 copies of a worker (table row of word t -> 64 words of the row scratch) are one counted batch on the
  kernel's semaphore: the deliveries are fixed before the first issue — copy t delivers its piece of the scratch at
  the FINAL contents, entry (r, x) = table[word 2 r + x / 64, x mod 64] —, each issue consumes one read token of the
  table and one pending piece, and nothing is learnt until the last wait.
-/
import proofs.«215896_g38397007626377_fold_wed_m_942_26_alg».proof.Proof.BwK0Views
import proofs.«215896_g38397007626377_fold_wed_m_942_26_alg».proof.Proof.Gen.Kernel.Skeleton

noncomputable section

namespace Cert.Proof.KW.K0

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)
variable [FloatOps F]

local notation "a0W" => (Memref.whole Cert.Kernel.main_arg0_scv : Memref Cert.Kernel.sig Kind.scVector Space.hbm Cert.Kernel.S16384 EltTy.i32)
local notation "a3W" => (Memref.whole Cert.Kernel.main_arg3_scv : Memref Cert.Kernel.sig Kind.scVector Space.hbm Cert.Kernel.S1000000x64 EltTy.f32)
local notation "o1W" => (Memref.whole Cert.Kernel.main_v0_scv : Memref Cert.Kernel.sig Kind.scVector Space.hbm Cert.Kernel.S8192x128 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S1x256x128 EltTy.f32)

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

omit [FloatOps F] in
theorem pts_a0 (q : PosShare TreeShare) (f : Buf (Elt F) (a0Loc d)) :
    ((a0W).view.loc (thr d L) ↦{q} f : sProp 𝕄) = a0Loc d ↦{q} f := by
  simp only [Memref.view_whole, View.set_whole]
omit [FloatOps F] in
theorem pts_a3 (q : PosShare TreeShare) (f : Buf (Elt F) (a3Loc d)) :
    ((a3W).view.loc (thr d L) ↦{q} f : sProp 𝕄) = a3Loc d ↦{q} f := by
  simp only [Memref.view_whole, View.set_whole]
omit [FloatOps F] in
theorem pts_sI (f : Buf (Elt F) ((thr d L).loc cc0_scratch0)) :
    ((sIW).view.loc (thr d L) ↦{fullShare} f : sProp 𝕄) = (thr d L).loc cc0_scratch0 ↦{fullShare} f := rfl
omit [FloatOps F] in
theorem pts_sR (f : Buf (Elt F) ((thr d L).loc cc0_scratch1)) :
    ((sRW).view.loc (thr d L) ↦{fullShare} f : sProp 𝕄) = (thr d L).loc cc0_scratch1 ↦{fullShare} f := rfl

open Idealize.ShloMosaic.ValueIdx

abbrev EC : UEmb Counters (MT nD τ sig (HIx 2) (Elt F) ℕ UU ℕ) := countersEmb

/-- One 64-word piece's credit. -/
abbrev N64 : ℕ := sig.dmaCredit .scVector (Kind.scVector.table .vmem) (cc0_scratch1 : Ref sig .scVector).idx S64 .f32

abbrev rowsLoc (d : Dev nD) (L : grid0.Coords) : Loc nD τ sig := (thr d L).loc cc0_scratch1
abbrev idxLoc (d : Dev nD) (L : grid0.Coords) : Loc nD τ sig := (thr d L).loc cc0_scratch0

/-- The source of a copy: row `w` of the table, as a 64-word memref. -/
abbrev srcRow (w : BitVec 32) (h : ∀ a, (![w.toNat, 0] : Fin 2 → Nat) a + S1x64.size a ≤ S1000000x64.size a) : Memref sig .scVector .hbm S64 .f32 :=
  ((a3W).slice (Rect.unit (s := S1000000x64) ![w.toNat, 0] S1x64.size h) (fun _ => rfl)).squeeze S64 squeezes_S1x64_S64
/-- The destination of copy `t`: its 64 words of the row scratch. -/
abbrev dstPiece (t : Fin 512) : Memref sig .scVector .vmem S64 .f32 :=
  ((sRW).slice (pieceRect t) (fun _ => rfl)).squeeze S64 squeezes_S1x1x64_S64

/-- The row scratch once every copy has landed: row r, column x holds column x mod 64 of the table row that word
    2 r + x / 64 of the fetched index words names. -/
def rowsFinal (fI : Buf (Elt F) (idxLoc d L)) : Buf (Elt F) (rowsLoc d L) :=
  fun y => m (a3Loc d) (ix2 (Spec.rowOf (fI (ix1 (⟨2 * (y 1).val + (y 2).val / 64, by
      have h1 : (y 1).val < 256 := (y 1).isLt; have h2 : (y 2).val < 128 := (y 2).isLt; omega⟩ : Fin 512))))
    (⟨(y 2).val % 64, Nat.mod_lt _ (by decide)⟩ : Fin 64))

/-- Copy `t`'s 64 words of the row scratch at contents `f`, held as the copy's destination names them. -/
abbrev pieceAt (t : Fin 512) (f : Buf (Elt F) (rowsLoc d L)) : sProp 𝕄 :=
  (dstPiece t).view.loc (thr d L) ↦[(dstPiece t).view.set]{fullShare} f

def deliv (fI : Buf (Elt F) (idxLoc d L)) (t : Fin 512) : sProp 𝕄 := pieceAt d L t (rowsFinal m d L fI)

instance deliv_storable (fI : Buf (Elt F) (idxLoc d L)) (t : Fin 512) : BI.Storable (upEmb : UEmb _ 𝕄) (deliv m d L fI t) := by
  unfold deliv; infer_instance

theorem chk1_of_lt (w : BitVec 32) (h : w.toNat < 1000000) : k0_chk1 w := by
  intro a; fin_cases a
  · show w.toNat + 1 ≤ 1000000; omega
  · show 0 + 64 ≤ 64; omega
theorem chk2_of_lt (w : BitVec 32) (h : w.toNat < 1000000) : k0_chk2 w := by
  intro a; fin_cases a
  · show w.toNat + 1 ≤ 1000000; omega
  · show 0 + 64 ≤ 64; omega
theorem chk3_of_lt (w : BitVec 32) (h : w.toNat < 1000000) : k0_chk3 w := by
  intro a; fin_cases a
  · show w.toNat + 1 ≤ 1000000; omega
  · show 0 + 64 ≤ 64; omega
theorem chk4_of_lt (w : BitVec 32) (h : w.toNat < 1000000) : k0_chk4 w := by
  intro a; fin_cases a
  · show w.toNat + 1 ≤ 1000000; omega
  · show 0 + 64 ≤ 64; omega
theorem chk5_of_lt (w : BitVec 32) (h : w.toNat < 1000000) : k0_chk5 w := by
  intro a; fin_cases a
  · show w.toNat + 1 ≤ 1000000; omega
  · show 0 + 64 ≤ 64; omega
theorem chk6_of_lt (w : BitVec 32) (h : w.toNat < 1000000) : k0_chk6 w := by
  intro a; fin_cases a
  · show w.toNat + 1 ≤ 1000000; omega
  · show 0 + 64 ≤ 64; omega
theorem chk7_of_lt (w : BitVec 32) (h : w.toNat < 1000000) : k0_chk7 w := by
  intro a; fin_cases a
  · show w.toNat + 1 ≤ 1000000; omega
  · show 0 + 64 ≤ 64; omega
theorem chk8_of_lt (w : BitVec 32) (h : w.toNat < 1000000) : k0_chk8 w := by
  intro a; fin_cases a
  · show w.toNat + 1 ≤ 1000000; omega
  · show 0 + 64 ≤ 64; omega
theorem chk9_of_lt (w : BitVec 32) (h : w.toNat < 1000000) : k0_chk9 w := by
  intro a; fin_cases a
  · show w.toNat + 1 ≤ 1000000; omega
  · show 0 + 64 ≤ 64; omega
theorem chk10_of_lt (w : BitVec 32) (h : w.toNat < 1000000) : k0_chk10 w := by
  intro a; fin_cases a
  · show w.toNat + 1 ≤ 1000000; omega
  · show 0 + 64 ≤ 64; omega
theorem chk11_of_lt (w : BitVec 32) (h : w.toNat < 1000000) : k0_chk11 w := by
  intro a; fin_cases a
  · show w.toNat + 1 ≤ 1000000; omega
  · show 0 + 64 ≤ 64; omega
theorem chk12_of_lt (w : BitVec 32) (h : w.toNat < 1000000) : k0_chk12 w := by
  intro a; fin_cases a
  · show w.toNat + 1 ≤ 1000000; omega
  · show 0 + 64 ≤ 64; omega
theorem chk13_of_lt (w : BitVec 32) (h : w.toNat < 1000000) : k0_chk13 w := by
  intro a; fin_cases a
  · show w.toNat + 1 ≤ 1000000; omega
  · show 0 + 64 ≤ 64; omega
theorem chk14_of_lt (w : BitVec 32) (h : w.toNat < 1000000) : k0_chk14 w := by
  intro a; fin_cases a
  · show w.toNat + 1 ≤ 1000000; omega
  · show 0 + 64 ≤ 64; omega
theorem chk15_of_lt (w : BitVec 32) (h : w.toNat < 1000000) : k0_chk15 w := by
  intro a; fin_cases a
  · show w.toNat + 1 ≤ 1000000; omega
  · show 0 + 64 ≤ 64; omega
theorem chk16_of_lt (w : BitVec 32) (h : w.toNat < 1000000) : k0_chk16 w := by
  intro a; fin_cases a
  · show w.toNat + 1 ≤ 1000000; omega
  · show 0 + 64 ≤ 64; omega

/-! ## One landed copy, read at an index -/

omit [FloatOps F] in
/-- A 64-word memref squeezed out of a [1, 1, 64] slice: word `x` is entry (0, 0, x). -/
theorem sq3_val (x : S64.Idx) :
    let y := Shape.reshapeEquiv (squeezes_S1x1x64_S64.numel_eq) x
    (y 0).val = 0 ∧ (y 1).val = 0 ∧ (y 2).val = (x 0).val := by
  intro y
  have h := Shape.rowMajor_reshapeEquiv (squeezes_S1x1x64_S64.numel_eq) x
  rw [Shape.rowMajor_val_three, Shape.rowMajor_val_one] at h
  have h0 : (y 0).val < 1 := (y 0).isLt
  have h1 : (y 1).val < 1 := (y 1).isLt
  have h2 : (y 2).val < 64 := (y 2).isLt
  have hx : (x 0).val < 64 := (x 0).isLt
  refine ⟨by omega, by omega, ?_⟩
  have e0 : (y 0).val = 0 := by omega
  have e1 : (y 1).val = 0 := by omega
  rw [e0, e1] at h
  simpa using h

omit [FloatOps F] in
/-- A 64-word memref squeezed out of a [1, 64] slice: word `x` is entry (0, x). -/
theorem sq2_val (x : S64.Idx) :
    let y := Shape.reshapeEquiv (squeezes_S1x64_S64.numel_eq) x
    (y 0).val = 0 ∧ (y 1).val = (x 0).val := by
  intro y
  have h := Shape.rowMajor_reshapeEquiv (squeezes_S1x64_S64.numel_eq) x
  rw [Shape.rowMajor_val_two, Shape.rowMajor_val_one] at h
  have h0 : (y 0).val < 1 := (y 0).isLt
  have e0 : (y 0).val = 0 := by omega
  refine ⟨e0, ?_⟩
  rw [e0] at h
  simpa using h

omit [FloatOps F] in
/-- Word `x` of copy `t`'s destination is entry (0, t / 2, 64 (t mod 2) + x) of the scratch. -/
theorem dst_emb_val (t : Fin 512) (x : S64.Idx) :
    (((dstPiece t).view.emb x) 1).val = t.val / 2 ∧ (((dstPiece t).view.emb x) 2).val = (t.val % 2) * 64 + (x 0).val := by
  obtain ⟨-, h1, h2⟩ := sq3_val x
  constructor
  · show (((pieceRect t).emb (Shape.reshapeEquiv (squeezes_S1x1x64_S64.numel_eq) x)) 1).val = _
    rw [Rect.emb_apply]; show t.val / 2 + 1 * _ = _; rw [h1]; omega
  · show (((pieceRect t).emb (Shape.reshapeEquiv (squeezes_S1x1x64_S64.numel_eq) x)) 2).val = _
    rw [Rect.emb_apply]; show (t.val % 2) * 64 + 1 * _ = _; rw [h2]; omega

omit [FloatOps F] in
/-- Word `x` of the source row of word `w` is entry (w, x) of the table. -/
theorem src_emb_val (w : BitVec 32) (hw : ∀ a, (![w.toNat, 0] : Fin 2 → Nat) a + S1x64.size a ≤ S1000000x64.size a) (x : S64.Idx) :
    (((srcRow w hw).view.emb x) 0).val = w.toNat ∧ (((srcRow w hw).view.emb x) 1).val = (x 0).val := by
  obtain ⟨h0, h1⟩ := sq2_val x
  constructor
  · show (((Rect.unit (s := S1000000x64) ![w.toNat, 0] S1x64.size hw).emb (Shape.reshapeEquiv (squeezes_S1x64_S64.numel_eq) x)) 0).val = _
    rw [Rect.emb_apply]; show w.toNat + 1 * _ = _; rw [h0]; omega
  · show (((Rect.unit (s := S1000000x64) ![w.toNat, 0] S1x64.size hw).emb (Shape.reshapeEquiv (squeezes_S1x64_S64.numel_eq) x)) 1).val = _
    rw [Rect.emb_apply]; show 0 + 1 * _ = _; rw [h1]; omega

/-- What copy `t` lands is the final scratch on its piece: the copied word (w, x) of the table is the scratch's entry
    there, `w` being word `t` of the fetched indices. -/
theorem landed_eq (fI : Buf (Elt F) (idxLoc d L)) (fr : Buf (Elt F) (rowsLoc d L)) (t : Fin 512) (w : BitVec 32)
    (hw : ∀ a, (![w.toNat, 0] : Fin 2 → Nat) a + S1x64.size a ≤ S1000000x64.size a) (hword : w = fI (ix1 t))
    (hI : ∀ x, (fI x).toNat < 1000000) :
    ∀ i ∈ (dstPiece t).view.set,
      (dstPiece t).view.write (Elt F) fr (ReadAs.same.apply ((srcRow w hw).view.read (Elt F) (m (a3Loc d)))) Finset.univ i
        = rowsFinal m d L fI i := by
  intro i hi
  obtain ⟨x, -, rfl⟩ := Finset.mem_map.mp hi
  rw [View.write_emb_of_mem _ _ (Finset.mem_univ x), ReadAs.apply_same, View.read_apply]
  obtain ⟨e1, e2⟩ := dst_emb_val t x
  obtain ⟨s0, s1⟩ := src_emb_val w hw x
  have hx : (x 0).val < 64 := (x 0).isLt
  unfold rowsFinal
  simp only [cast_eq]
  congr 1
  funext a
  apply Fin.ext
  fin_cases a
  · show (((srcRow w hw).view.emb x) 0).val = (Spec.rowOf _).val
    rw [s0, Spec.rowOf_val_of_lt]
    · congr 2; rw [hword]; congr 1; funext b; fin_cases b; apply Fin.ext; show t.val = 2 * _ + _ / 64; rw [e1, e2]; omega
    · exact hI _
  · show (((srcRow w hw).view.emb x) 1).val = _ % 64
    rw [s1, e2]; omega

/-- A destination piece as a copy's target on this subcore. -/
abbrev tgtOf (L : grid0.Coords) (dst : Memref sig .scVector .vmem S1x1x64 .f32) : DmaTarget nD τ sig (Proc.scVector (cV L) (jV L)) Space.vmem S64 EltTy.f32 :=
  DmaTarget.here (dst.squeeze S64 squeezes_S1x1x64_S64)

/-- ONE ISSUE. Copy `j` of the batch: its read token is cut down to the table row it reads, its destination piece is
    taken from the pending ones, and the batch goes from `j` issued to `j + 1`; what it will deliver is the final
    scratch on the piece (`landed_eq`). -/
theorem fire_step {α : Type} {Q : α → sProp 𝕄} (q : PosShare TreeShare) (fI : Buf (Elt F) (idxLoc d L)) (fr : Buf (Elt F) (rowsLoc d L))
    (j : ℕ) (hj : j < 512) (w : BitVec 32) (hw : ∀ a, (![w.toNat, 0] : Fin 2 → Nat) a + S1x64.size a ≤ S1000000x64.size a)
    (hword : w = fI (ix1 (⟨j, hj⟩ : Fin 512))) (hI : ∀ x, (fI x).toNat < 1000000)
    (dst : Memref sig .scVector .vmem S1x1x64 .f32) (hdst : dst = (sRW).slice (pieceRect ⟨j, hj⟩) (fun _ => rfl))
    {hs : (srcRow w hw).view.WordExact} {hd : (tgtOf L dst).view.WordExact}
    {ht : (tgtOf L dst).Typed Space.hbm (SemLoc.dma cc0_scratch2.sem)}
    {kk : PUnit → Prog (TpuEff nD τ sig (Elt F) Λ₀ (Proc.scVector (cV L) (jV L))) α} :
    iprop((bigSep (Transfers.pending (n := 512) j) fun t => a3Loc d ↦{Transfers.shareTok q 512 t} m (a3Loc d))
        ∗ (bigSep (Transfers.pending (n := 512) j) fun t => pieceAt d L t fr)
        ∗ Transfers.Batch (EC (F := F)) (thr d L) (.dma cc0_scratch2.sem) (none : HIx 2) N64 (deliv m d L fI) j 0)
      ⊢ iprop((iprop((bigSep (Transfers.pending (n := 512) (j + 1)) fun t => a3Loc d ↦{Transfers.shareTok q 512 t} m (a3Loc d))
            ∗ (bigSep (Transfers.pending (n := 512) (j + 1)) fun t => pieceAt d L t fr)
            ∗ Transfers.Batch (EC (F := F)) (thr d L) (.dma cc0_scratch2.sem) (none : HIx 2) N64 (deliv m d L fI) (j + 1) 0)
          -∗ wp frame (wpE (defs₀ (F := F)) 𝒱₀ (thr d L) none) Set.univ (kk ⟨⟩) Q)
        -∗ wp frame (wpE (defs₀ (F := F)) 𝒱₀ (thr d L) none) Set.univ
            (.op (TpuEff.enqueueDma (p := Proc.scVector (cV L) (jV L)) (srcRow w hw) (tgtOf L dst) (.dma cc0_scratch2.sem) hs hd ht) kk) Q) := by
  subst hdst
  rw [Transfers.bigSep_pending_step (fun t => a3Loc d ↦{Transfers.shareTok q 512 t} m (a3Loc d)) j hj,
    Transfers.bigSep_pending_step (fun t => pieceAt (F := F) d L t fr) j hj]
  iintro ⟨⟨Htk, Htoks⟩, ⟨Hp, Hpcs⟩, HB⟩ Hk
  ihave Hs := (pointsTo_split_subset (S := Finset.univ) (I := (srcRow w hw).view.set) (Finset.subset_univ _)).1 $$ Htk
  icases Hs with ⟨Hs, -⟩
  iapply (Transfers.wp_dmaBatch (EC (F := F)) 𝒱₀ (thr d L) none (src := srcRow w hw) (dst := dstPiece ⟨j, hj⟩)
    (q := Transfers.shareTok q 512 ⟨j, hj⟩) (fs := m (a3Loc d)) (fd := fr) (D := deliv m d L fI) (none : HIx 2) N64 rfl
    (Sd := (dstPiece ⟨j, hj⟩).view.set) (Finset.Subset.refl _) hj (Nat.zero_le _) ?hD) $$ [Hs Hp HB]
  case hD =>
    unfold deliv
    exact sep_elim_left.trans (Entails.of_eq (pointsTo_congr (landed_eq m d L fI fr ⟨j, hj⟩ w hw hword hI)))
  · isplitl [Hs]; · iexact Hs
    isplitl [Hp]; · iexact Hp
    iexact HB
  iintro HB
  iapply Hk
  isplitl [Htoks]; · iexact Htoks
  isplitl [Hpcs]; · iexact Hpcs
  iexact HB

end Cert.Proof.KW.K0

end
-- ==== Proof.BwK0FireLoop.lean ====
/-
  The first kernel's fire loop: trip k issues copies 16 k .. 16 k + 15.

  A trip loads sixteen of the fetched index words, and for each word w checks that it names a table row (it does: every
  fetched word is below 1,000,000) and issues the copy of row w to its piece of the scratch. Before trip k the copies
  below 16 k are issued; the read tokens and the pieces from 16 k on are still in hand.
-/
import proofs.«215896_g38397007626377_fold_wed_m_942_26_alg».proof.Proof.BwK0Fire
import proofs.«215896_g38397007626377_fold_wed_m_942_26_alg».proof.Proof.Gen.Kernel.Skeleton
import Idealize.ShloMosaic.Lib.Pipeline.Value

noncomputable section

namespace Cert.Proof.KW.K0

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable (m : (ℓ : Loc nD τ sig) → Buf (Elt F) ℓ)
variable [FloatOps F]

local notation "a0W" => (Memref.whole Cert.Kernel.main_arg0_scv : Memref Cert.Kernel.sig Kind.scVector Space.hbm Cert.Kernel.S16384 EltTy.i32)
local notation "a3W" => (Memref.whole Cert.Kernel.main_arg3_scv : Memref Cert.Kernel.sig Kind.scVector Space.hbm Cert.Kernel.S1000000x64 EltTy.f32)
local notation "o1W" => (Memref.whole Cert.Kernel.main_v0_scv : Memref Cert.Kernel.sig Kind.scVector Space.hbm Cert.Kernel.S8192x128 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S1x256x128 EltTy.f32)

variable (d : Dev nD) (L : grid0.Coords)

omit [FloatOps F] in
/-- A slice through a unit rectangle is determined by the rectangle's offsets. -/
theorem slice_unit_congr {κ : Kind} {sp : Space} {s : Shape} {e : EltTy} {M : Memref sig κ sp s e} {off off' size : Fin s.rank → Nat}
    {inb inb'} {hr hr'} (h : off = off') :
    M.slice (Rect.unit (s := s) off size inb) hr = M.slice (Rect.unit (s := s) off' size inb') hr' := by subst h; rfl

/-- Word u of the sixteen a trip loads is word 16 k + u of the fetched index words. -/
theorem read_word (fI : Buf (Elt F) (idxLoc d L)) (k : Fin k0_t1_loop.trips) (u : Fin 16) :
    View.readAt (Elt F) (sIW).view (Rect.unit (s := S512) (k0_off2 k) S16.size (k0_off2_inb k)).toLoadRect fI (ix1 u)
      = fI (ix1 (⟨16 * k.val + u.val, by have hk : k.val < 32 := k.isLt; have := u.isLt; omega⟩ : Fin 512)) := by
  simp only [View.readAt_apply, Memref.view_whole, View.read_whole]
  congr 1
  funext a; fin_cases a; apply Fin.ext
  rw [LoadRect.idx_apply]
  show (k0_off2 k) 0 + 1 * u.val = 16 * k.val + u.val
  rw [k0_off2_eq]; simp

omit [FloatOps F] in
theorem word0 (v : Vec F S16 .i32) : extractAt ![0] (k0_pay2 v) inpos_S1_p0 = v (ix1 (0 : Fin 16)) := by
  simp only [k0_pay2, k0_pay1, extractAt, extractStridedSlice, shapeCast_self]
  congr 1; funext a; fin_cases a; apply Fin.ext; simp
omit [FloatOps F] in
theorem word1 (v : Vec F S16 .i32) : extractAt ![0] (k0_pay3 (k0_pay1 v)) inpos_S1_p0 = v (ix1 (1 : Fin 16)) := by
  simp only [k0_pay3, k0_pay1, extractAt, extractStridedSlice, shapeCast_self]
  congr 1; funext a; fin_cases a; apply Fin.ext; simp
omit [FloatOps F] in
theorem word2 (v : Vec F S16 .i32) : extractAt ![0] (k0_pay4 (k0_pay1 v)) inpos_S1_p0 = v (ix1 (2 : Fin 16)) := by
  simp only [k0_pay4, k0_pay1, extractAt, extractStridedSlice, shapeCast_self]
  congr 1; funext a; fin_cases a; apply Fin.ext; simp
omit [FloatOps F] in
theorem word3 (v : Vec F S16 .i32) : extractAt ![0] (k0_pay5 (k0_pay1 v)) inpos_S1_p0 = v (ix1 (3 : Fin 16)) := by
  simp only [k0_pay5, k0_pay1, extractAt, extractStridedSlice, shapeCast_self]
  congr 1; funext a; fin_cases a; apply Fin.ext; simp
omit [FloatOps F] in
theorem word4 (v : Vec F S16 .i32) : extractAt ![0] (k0_pay6 (k0_pay1 v)) inpos_S1_p0 = v (ix1 (4 : Fin 16)) := by
  simp only [k0_pay6, k0_pay1, extractAt, extractStridedSlice, shapeCast_self]
  congr 1; funext a; fin_cases a; apply Fin.ext; simp
omit [FloatOps F] in
theorem word5 (v : Vec F S16 .i32) : extractAt ![0] (k0_pay7 (k0_pay1 v)) inpos_S1_p0 = v (ix1 (5 : Fin 16)) := by
  simp only [k0_pay7, k0_pay1, extractAt, extractStridedSlice, shapeCast_self]
  congr 1; funext a; fin_cases a; apply Fin.ext; simp
omit [FloatOps F] in
theorem word6 (v : Vec F S16 .i32) : extractAt ![0] (k0_pay8 (k0_pay1 v)) inpos_S1_p0 = v (ix1 (6 : Fin 16)) := by
  simp only [k0_pay8, k0_pay1, extractAt, extractStridedSlice, shapeCast_self]
  congr 1; funext a; fin_cases a; apply Fin.ext; simp
omit [FloatOps F] in
theorem word7 (v : Vec F S16 .i32) : extractAt ![0] (k0_pay9 (k0_pay1 v)) inpos_S1_p0 = v (ix1 (7 : Fin 16)) := by
  simp only [k0_pay9, k0_pay1, extractAt, extractStridedSlice, shapeCast_self]
  congr 1; funext a; fin_cases a; apply Fin.ext; simp
omit [FloatOps F] in
theorem word8 (v : Vec F S16 .i32) : extractAt ![0] (k0_pay10 (k0_pay1 v)) inpos_S1_p0 = v (ix1 (8 : Fin 16)) := by
  simp only [k0_pay10, k0_pay1, extractAt, extractStridedSlice, shapeCast_self]
  congr 1; funext a; fin_cases a; apply Fin.ext; simp
omit [FloatOps F] in
theorem word9 (v : Vec F S16 .i32) : extractAt ![0] (k0_pay11 (k0_pay1 v)) inpos_S1_p0 = v (ix1 (9 : Fin 16)) := by
  simp only [k0_pay11, k0_pay1, extractAt, extractStridedSlice, shapeCast_self]
  congr 1; funext a; fin_cases a; apply Fin.ext; simp
omit [FloatOps F] in
theorem word10 (v : Vec F S16 .i32) : extractAt ![0] (k0_pay12 (k0_pay1 v)) inpos_S1_p0 = v (ix1 (10 : Fin 16)) := by
  simp only [k0_pay12, k0_pay1, extractAt, extractStridedSlice, shapeCast_self]
  congr 1; funext a; fin_cases a; apply Fin.ext; simp
omit [FloatOps F] in
theorem word11 (v : Vec F S16 .i32) : extractAt ![0] (k0_pay13 (k0_pay1 v)) inpos_S1_p0 = v (ix1 (11 : Fin 16)) := by
  simp only [k0_pay13, k0_pay1, extractAt, extractStridedSlice, shapeCast_self]
  congr 1; funext a; fin_cases a; apply Fin.ext; simp
omit [FloatOps F] in
theorem word12 (v : Vec F S16 .i32) : extractAt ![0] (k0_pay14 (k0_pay1 v)) inpos_S1_p0 = v (ix1 (12 : Fin 16)) := by
  simp only [k0_pay14, k0_pay1, extractAt, extractStridedSlice, shapeCast_self]
  congr 1; funext a; fin_cases a; apply Fin.ext; simp
omit [FloatOps F] in
theorem word13 (v : Vec F S16 .i32) : extractAt ![0] (k0_pay15 (k0_pay1 v)) inpos_S1_p0 = v (ix1 (13 : Fin 16)) := by
  simp only [k0_pay15, k0_pay1, extractAt, extractStridedSlice, shapeCast_self]
  congr 1; funext a; fin_cases a; apply Fin.ext; simp
omit [FloatOps F] in
theorem word14 (v : Vec F S16 .i32) : extractAt ![0] (k0_pay16 (k0_pay1 v)) inpos_S1_p0 = v (ix1 (14 : Fin 16)) := by
  simp only [k0_pay16, k0_pay1, extractAt, extractStridedSlice, shapeCast_self]
  congr 1; funext a; fin_cases a; apply Fin.ext; simp
omit [FloatOps F] in
theorem word15 (v : Vec F S16 .i32) : extractAt ![0] (k0_pay17 (k0_pay1 v)) inpos_S1_p0 = v (ix1 (15 : Fin 16)) := by
  simp only [k0_pay17, k0_pay1, extractAt, extractStridedSlice, shapeCast_self]
  congr 1; funext a; fin_cases a; apply Fin.ext; simp

omit [FloatOps F] in
theorem dst_eq0 (k : Fin k0_t1_loop.trips) (h : 16 * k.val + 0 < 512) :
    (sRW).slice (Rect.unit (s := S1x256x128) (k0_off5 k 0#32) S1x1x64.size (k0_off5_inb k 0)) (fun _ => rfl)
      = (sRW).slice (pieceRect ⟨16 * k.val + 0, h⟩) (fun _ => rfl) :=
  slice_unit_congr (by
    rw [off_dst0 k]; funext a; fin_cases a
    · rfl
    · show 8 * k.val + 0 = (16 * k.val + 0) / 2; omega
    · show 0 = (16 * k.val + 0) % 2 * 64; omega)
omit [FloatOps F] in
theorem dst_eq1 (k : Fin k0_t1_loop.trips) (h : 16 * k.val + 1 < 512) :
    (sRW).slice (Rect.unit (s := S1x256x128) (k0_off7 k 1#32) S1x1x64.size (k0_off7_inb k 0)) (fun _ => rfl)
      = (sRW).slice (pieceRect ⟨16 * k.val + 1, h⟩) (fun _ => rfl) :=
  slice_unit_congr (by
    rw [off_dst1 k]; funext a; fin_cases a
    · rfl
    · show 8 * k.val + 0 = (16 * k.val + 1) / 2; omega
    · show 64 = (16 * k.val + 1) % 2 * 64; omega)
omit [FloatOps F] in
theorem dst_eq2 (k : Fin k0_t1_loop.trips) (h : 16 * k.val + 2 < 512) :
    (sRW).slice (Rect.unit (s := S1x256x128) (k0_off9 k 2#32) S1x1x64.size (k0_off9_inb k 0)) (fun _ => rfl)
      = (sRW).slice (pieceRect ⟨16 * k.val + 2, h⟩) (fun _ => rfl) :=
  slice_unit_congr (by
    rw [off_dst2 k]; funext a; fin_cases a
    · rfl
    · show 8 * k.val + 1 = (16 * k.val + 2) / 2; omega
    · show 0 = (16 * k.val + 2) % 2 * 64; omega)
omit [FloatOps F] in
theorem dst_eq3 (k : Fin k0_t1_loop.trips) (h : 16 * k.val + 3 < 512) :
    (sRW).slice (Rect.unit (s := S1x256x128) (k0_off11 k 3#32) S1x1x64.size (k0_off11_inb k 0)) (fun _ => rfl)
      = (sRW).slice (pieceRect ⟨16 * k.val + 3, h⟩) (fun _ => rfl) :=
  slice_unit_congr (by
    rw [off_dst3 k]; funext a; fin_cases a
    · rfl
    · show 8 * k.val + 1 = (16 * k.val + 3) / 2; omega
    · show 64 = (16 * k.val + 3) % 2 * 64; omega)
omit [FloatOps F] in
theorem dst_eq4 (k : Fin k0_t1_loop.trips) (h : 16 * k.val + 4 < 512) :
    (sRW).slice (Rect.unit (s := S1x256x128) (k0_off13 k 4#32) S1x1x64.size (k0_off13_inb k 0)) (fun _ => rfl)
      = (sRW).slice (pieceRect ⟨16 * k.val + 4, h⟩) (fun _ => rfl) :=
  slice_unit_congr (by
    rw [off_dst4 k]; funext a; fin_cases a
    · rfl
    · show 8 * k.val + 2 = (16 * k.val + 4) / 2; omega
    · show 0 = (16 * k.val + 4) % 2 * 64; omega)
omit [FloatOps F] in
theorem dst_eq5 (k : Fin k0_t1_loop.trips) (h : 16 * k.val + 5 < 512) :
    (sRW).slice (Rect.unit (s := S1x256x128) (k0_off15 k 5#32) S1x1x64.size (k0_off15_inb k 0)) (fun _ => rfl)
      = (sRW).slice (pieceRect ⟨16 * k.val + 5, h⟩) (fun _ => rfl) :=
  slice_unit_congr (by
    rw [off_dst5 k]; funext a; fin_cases a
    · rfl
    · show 8 * k.val + 2 = (16 * k.val + 5) / 2; omega
    · show 64 = (16 * k.val + 5) % 2 * 64; omega)
omit [FloatOps F] in
theorem dst_eq6 (k : Fin k0_t1_loop.trips) (h : 16 * k.val + 6 < 512) :
    (sRW).slice (Rect.unit (s := S1x256x128) (k0_off17 k 6#32) S1x1x64.size (k0_off17_inb k 0)) (fun _ => rfl)
      = (sRW).slice (pieceRect ⟨16 * k.val + 6, h⟩) (fun _ => rfl) :=
  slice_unit_congr (by
    rw [off_dst6 k]; funext a; fin_cases a
    · rfl
    · show 8 * k.val + 3 = (16 * k.val + 6) / 2; omega
    · show 0 = (16 * k.val + 6) % 2 * 64; omega)
omit [FloatOps F] in
theorem dst_eq7 (k : Fin k0_t1_loop.trips) (h : 16 * k.val + 7 < 512) :
    (sRW).slice (Rect.unit (s := S1x256x128) (k0_off19 k 7#32) S1x1x64.size (k0_off19_inb k 0)) (fun _ => rfl)
      = (sRW).slice (pieceRect ⟨16 * k.val + 7, h⟩) (fun _ => rfl) :=
  slice_unit_congr (by
    rw [off_dst7 k]; funext a; fin_cases a
    · rfl
    · show 8 * k.val + 3 = (16 * k.val + 7) / 2; omega
    · show 64 = (16 * k.val + 7) % 2 * 64; omega)
omit [FloatOps F] in
theorem dst_eq8 (k : Fin k0_t1_loop.trips) (h : 16 * k.val + 8 < 512) :
    (sRW).slice (Rect.unit (s := S1x256x128) (k0_off21 k 8#32) S1x1x64.size (k0_off21_inb k 0)) (fun _ => rfl)
      = (sRW).slice (pieceRect ⟨16 * k.val + 8, h⟩) (fun _ => rfl) :=
  slice_unit_congr (by
    rw [off_dst8 k]; funext a; fin_cases a
    · rfl
    · show 8 * k.val + 4 = (16 * k.val + 8) / 2; omega
    · show 0 = (16 * k.val + 8) % 2 * 64; omega)
omit [FloatOps F] in
theorem dst_eq9 (k : Fin k0_t1_loop.trips) (h : 16 * k.val + 9 < 512) :
    (sRW).slice (Rect.unit (s := S1x256x128) (k0_off23 k 9#32) S1x1x64.size (k0_off23_inb k 0)) (fun _ => rfl)
      = (sRW).slice (pieceRect ⟨16 * k.val + 9, h⟩) (fun _ => rfl) :=
  slice_unit_congr (by
    rw [off_dst9 k]; funext a; fin_cases a
    · rfl
    · show 8 * k.val + 4 = (16 * k.val + 9) / 2; omega
    · show 64 = (16 * k.val + 9) % 2 * 64; omega)
omit [FloatOps F] in
theorem dst_eq10 (k : Fin k0_t1_loop.trips) (h : 16 * k.val + 10 < 512) :
    (sRW).slice (Rect.unit (s := S1x256x128) (k0_off25 k 10#32) S1x1x64.size (k0_off25_inb k 0)) (fun _ => rfl)
      = (sRW).slice (pieceRect ⟨16 * k.val + 10, h⟩) (fun _ => rfl) :=
  slice_unit_congr (by
    rw [off_dst10 k]; funext a; fin_cases a
    · rfl
    · show 8 * k.val + 5 = (16 * k.val + 10) / 2; omega
    · show 0 = (16 * k.val + 10) % 2 * 64; omega)
omit [FloatOps F] in
theorem dst_eq11 (k : Fin k0_t1_loop.trips) (h : 16 * k.val + 11 < 512) :
    (sRW).slice (Rect.unit (s := S1x256x128) (k0_off27 k 11#32) S1x1x64.size (k0_off27_inb k 0)) (fun _ => rfl)
      = (sRW).slice (pieceRect ⟨16 * k.val + 11, h⟩) (fun _ => rfl) :=
  slice_unit_congr (by
    rw [off_dst11 k]; funext a; fin_cases a
    · rfl
    · show 8 * k.val + 5 = (16 * k.val + 11) / 2; omega
    · show 64 = (16 * k.val + 11) % 2 * 64; omega)
omit [FloatOps F] in
theorem dst_eq12 (k : Fin k0_t1_loop.trips) (h : 16 * k.val + 12 < 512) :
    (sRW).slice (Rect.unit (s := S1x256x128) (k0_off29 k 12#32) S1x1x64.size (k0_off29_inb k 0)) (fun _ => rfl)
      = (sRW).slice (pieceRect ⟨16 * k.val + 12, h⟩) (fun _ => rfl) :=
  slice_unit_congr (by
    rw [off_dst12 k]; funext a; fin_cases a
    · rfl
    · show 8 * k.val + 6 = (16 * k.val + 12) / 2; omega
    · show 0 = (16 * k.val + 12) % 2 * 64; omega)
omit [FloatOps F] in
theorem dst_eq13 (k : Fin k0_t1_loop.trips) (h : 16 * k.val + 13 < 512) :
    (sRW).slice (Rect.unit (s := S1x256x128) (k0_off31 k 13#32) S1x1x64.size (k0_off31_inb k 0)) (fun _ => rfl)
      = (sRW).slice (pieceRect ⟨16 * k.val + 13, h⟩) (fun _ => rfl) :=
  slice_unit_congr (by
    rw [off_dst13 k]; funext a; fin_cases a
    · rfl
    · show 8 * k.val + 6 = (16 * k.val + 13) / 2; omega
    · show 64 = (16 * k.val + 13) % 2 * 64; omega)
omit [FloatOps F] in
theorem dst_eq14 (k : Fin k0_t1_loop.trips) (h : 16 * k.val + 14 < 512) :
    (sRW).slice (Rect.unit (s := S1x256x128) (k0_off33 k 14#32) S1x1x64.size (k0_off33_inb k 0)) (fun _ => rfl)
      = (sRW).slice (pieceRect ⟨16 * k.val + 14, h⟩) (fun _ => rfl) :=
  slice_unit_congr (by
    rw [off_dst14 k]; funext a; fin_cases a
    · rfl
    · show 8 * k.val + 7 = (16 * k.val + 14) / 2; omega
    · show 0 = (16 * k.val + 14) % 2 * 64; omega)
omit [FloatOps F] in
theorem dst_eq15 (k : Fin k0_t1_loop.trips) (h : 16 * k.val + 15 < 512) :
    (sRW).slice (Rect.unit (s := S1x256x128) (k0_off35 k) S1x1x64.size (k0_off35_inb k)) (fun _ => rfl)
      = (sRW).slice (pieceRect ⟨16 * k.val + 15, h⟩) (fun _ => rfl) :=
  slice_unit_congr (by
    rw [off_dst15 k]; funext a; fin_cases a
    · rfl
    · show 8 * k.val + 7 = (16 * k.val + 15) / 2; omega
    · show 64 = (16 * k.val + 15) % 2 * 64; omega)

/-- Before trip k: the index scratch, the read tokens and the pieces of the copies not yet issued, the batch with 16 k
    issued and nothing consumed. -/
def fireInv (q : PosShare TreeShare) (fI : Buf (Elt F) (idxLoc d L)) (fr : Buf (Elt F) (rowsLoc d L)) (k : Nat) (_ : Unit) : sProp 𝕄 :=
  iprop(((sIW).view.loc (thr d L) ↦{fullShare} fI)
    ∗ (bigSep (Transfers.pending (n := 512) (16 * k)) fun t => a3Loc d ↦{Transfers.shareTok q 512 t} m (a3Loc d))
    ∗ (bigSep (Transfers.pending (n := 512) (16 * k)) fun t => pieceAt (F := F) d L t fr)
    ∗ Transfers.Batch (EC (F := F)) (thr d L) (.dma cc0_scratch2.sem) (none : HIx 2) N64 (deliv m d L fI) (16 * k) 0)

set_option maxHeartbeats 4000000 in
theorem fire_trip (q : PosShare TreeShare) (fI : Buf (Elt F) (idxLoc d L)) (fr : Buf (Elt F) (rowsLoc d L))
    (hI : ∀ x, (fI x).toNat < 1000000) (k : Fin k0_t1_loop.trips) (acc : Unit) :
    fireInv m d L q fI fr k.val acc
      ⊢ wp frame (wpE (defs₀ (F := F)) 𝒱₀ (thr d L) none) Set.univ
          (k0_t1_body L a0W (Memref.isWhole_whole _) a3W (Memref.isWhole_whole _) o1W (Memref.isWhole_whole _)
            sIW (Memref.isWhole_whole _) sRW (Memref.isWhole_whole _) cc0_scratch2 cc0_scoped0 cc0_scoped1 k acc)
          (fireInv m d L q fI fr (k.val + 1)) := by
  have hk : k.val < 32 := k.isLt
  unfold k0_t1_body
  unfold fireInv
  iintro ⟨HsI, Htok, Hpc, HB⟩
  -- copy 0
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 0) (by omega) _ _ ((word0 _).trans (read_word d L fI k 0)) hI _ (dst_eq0 k (by omega))) $$ [Htok Hpc HB]
  · isplitl [Htok]; · iexact Htok
    isplitl [Hpc]; · iexact Hpc
    iexact HB
  iintro ⟨Htok, Hpc, HB⟩
  -- copy 1
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 1) (by omega) _ _ ((word1 _).trans (read_word d L fI k 1)) hI _ (dst_eq1 k (by omega))) $$ [Htok Hpc HB]
  · isplitl [Htok]; · iexact Htok
    isplitl [Hpc]; · iexact Hpc
    iexact HB
  iintro ⟨Htok, Hpc, HB⟩
  -- copy 2
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 2) (by omega) _ _ ((word2 _).trans (read_word d L fI k 2)) hI _ (dst_eq2 k (by omega))) $$ [Htok Hpc HB]
  · isplitl [Htok]; · iexact Htok
    isplitl [Hpc]; · iexact Hpc
    iexact HB
  iintro ⟨Htok, Hpc, HB⟩
  -- copy 3
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 3) (by omega) _ _ ((word3 _).trans (read_word d L fI k 3)) hI _ (dst_eq3 k (by omega))) $$ [Htok Hpc HB]
  · isplitl [Htok]; · iexact Htok
    isplitl [Hpc]; · iexact Hpc
    iexact HB
  iintro ⟨Htok, Hpc, HB⟩
  -- copy 4
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 4) (by omega) _ _ ((word4 _).trans (read_word d L fI k 4)) hI _ (dst_eq4 k (by omega))) $$ [Htok Hpc HB]
  · isplitl [Htok]; · iexact Htok
    isplitl [Hpc]; · iexact Hpc
    iexact HB
  iintro ⟨Htok, Hpc, HB⟩
  -- copy 5
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 5) (by omega) _ _ ((word5 _).trans (read_word d L fI k 5)) hI _ (dst_eq5 k (by omega))) $$ [Htok Hpc HB]
  · isplitl [Htok]; · iexact Htok
    isplitl [Hpc]; · iexact Hpc
    iexact HB
  iintro ⟨Htok, Hpc, HB⟩
  -- copy 6
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 6) (by omega) _ _ ((word6 _).trans (read_word d L fI k 6)) hI _ (dst_eq6 k (by omega))) $$ [Htok Hpc HB]
  · isplitl [Htok]; · iexact Htok
    isplitl [Hpc]; · iexact Hpc
    iexact HB
  iintro ⟨Htok, Hpc, HB⟩
  -- copy 7
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 7) (by omega) _ _ ((word7 _).trans (read_word d L fI k 7)) hI _ (dst_eq7 k (by omega))) $$ [Htok Hpc HB]
  · isplitl [Htok]; · iexact Htok
    isplitl [Hpc]; · iexact Hpc
    iexact HB
  iintro ⟨Htok, Hpc, HB⟩
  -- copy 8
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 8) (by omega) _ _ ((word8 _).trans (read_word d L fI k 8)) hI _ (dst_eq8 k (by omega))) $$ [Htok Hpc HB]
  · isplitl [Htok]; · iexact Htok
    isplitl [Hpc]; · iexact Hpc
    iexact HB
  iintro ⟨Htok, Hpc, HB⟩
  -- copy 9
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 9) (by omega) _ _ ((word9 _).trans (read_word d L fI k 9)) hI _ (dst_eq9 k (by omega))) $$ [Htok Hpc HB]
  · isplitl [Htok]; · iexact Htok
    isplitl [Hpc]; · iexact Hpc
    iexact HB
  iintro ⟨Htok, Hpc, HB⟩
  -- copy 10
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 10) (by omega) _ _ ((word10 _).trans (read_word d L fI k 10)) hI _ (dst_eq10 k (by omega))) $$ [Htok Hpc HB]
  · isplitl [Htok]; · iexact Htok
    isplitl [Hpc]; · iexact Hpc
    iexact HB
  iintro ⟨Htok, Hpc, HB⟩
  -- copy 11
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 11) (by omega) _ _ ((word11 _).trans (read_word d L fI k 11)) hI _ (dst_eq11 k (by omega))) $$ [Htok Hpc HB]
  · isplitl [Htok]; · iexact Htok
    isplitl [Hpc]; · iexact Hpc
    iexact HB
  iintro ⟨Htok, Hpc, HB⟩
  -- copy 12
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 12) (by omega) _ _ ((word12 _).trans (read_word d L fI k 12)) hI _ (dst_eq12 k (by omega))) $$ [Htok Hpc HB]
  · isplitl [Htok]; · iexact Htok
    isplitl [Hpc]; · iexact Hpc
    iexact HB
  iintro ⟨Htok, Hpc, HB⟩
  -- copy 13
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 13) (by omega) _ _ ((word13 _).trans (read_word d L fI k 13)) hI _ (dst_eq13 k (by omega))) $$ [Htok Hpc HB]
  · isplitl [Htok]; · iexact Htok
    isplitl [Hpc]; · iexact Hpc
    iexact HB
  iintro ⟨Htok, Hpc, HB⟩
  -- copy 14
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 14) (by omega) _ _ ((word14 _).trans (read_word d L fI k 14)) hI _ (dst_eq14 k (by omega))) $$ [Htok Hpc HB]
  · isplitl [Htok]; · iexact Htok
    isplitl [Hpc]; · iexact Hpc
    iexact HB
  iintro ⟨Htok, Hpc, HB⟩
  -- copy 15
  sl_exec (disch := first | exact chk1_of_lt _ (hI _) | exact chk2_of_lt _ (hI _) | exact chk3_of_lt _ (hI _) | exact chk4_of_lt _ (hI _) | exact chk5_of_lt _ (hI _) | exact chk6_of_lt _ (hI _) | exact chk7_of_lt _ (hI _) | exact chk8_of_lt _ (hI _) | exact chk9_of_lt _ (hI _) | exact chk10_of_lt _ (hI _) | exact chk11_of_lt _ (hI _) | exact chk12_of_lt _ (hI _) | exact chk13_of_lt _ (hI _) | exact chk14_of_lt _ (hI _) | exact chk15_of_lt _ (hI _) | exact chk16_of_lt _ (hI _))
  iapply (fire_step m d L q fI fr (16 * k.val + 15) (by omega) _ _ ((word15 _).trans (read_word d L fI k 15)) hI _ (dst_eq15 k (by omega))) $$ [Htok Hpc HB]
  · isplitl [Htok]; · iexact Htok
    isplitl [Hpc]; · iexact Hpc
    iexact HB
  iintro ⟨Htok, Hpc, HB⟩
  sl_exec
  sl_step
  isplitl [HsI]; · iexact HsI
  isplitl [Htok]; · iexact Htok
  isplitl [Hpc]; · iexact Hpc
  iexact HB

end Cert.Proof.KW.K0

end
-- ==== Proof.BwK0Drain.lean ====
/-
  The first kernel's drain loop, one wait at a time.

  Each wait takes one piece's credit off the batch's counter. With several copies paying in instalments on one
  counter, a wait that is not the last learns nothing about any destination; the wait that brings the units consumed
  to 512 pieces' worth knows every copy has landed and hands back every delivery, the counter at zero again.
-/
import proofs.«215896_g38397007626377_fold_wed_m_942_26_alg».proof.Proof.BwK0Fire

noncomputable section

namespace Cert.Proof.KW.K0

open Cert.Kernel Cert.Kernel.Gen Cert.Proof.KW

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)
variable [FloatOps F]
variable (d : Dev nD) (L : grid0.Coords)

omit [FloatOps F] in
theorem N64_pos : 0 < N64 := sig.dmaCredit_pos _ _ _ _ _ (by decide)

omit [FloatOps F] in
theorem hu_skip {a : ℕ} (h : a + 1 < 512) : a * N64 + N64 < N64 * 512 := by
  have hp := N64_pos
  nlinarith
omit [FloatOps F] in
theorem hu_last : 511 * N64 + N64 = N64 * 512 := by ring

/-- The waits recorded since the kernel began are its own (index none). -/
abbrev WOK (W W' : Waits sig (HIx 2)) : Prop := ∀ p ∈ W', p ∈ W ∨ p.2 = none

omit [FloatOps F] in
theorem WOK_insert {W W' : Waits sig (HIx 2)} (sm : SemLoc sig) (h : WOK W W') : WOK W (insert (sm, (none : HIx 2)) W') := by
  intro p hp
  rcases Finset.mem_insert.mp hp with rfl | hp
  · exact .inr rfl
  · exact h p hp

abbrev batchAt (fI : Buf (Elt F) (idxLoc d L)) (u : ℕ) : sProp 𝕄 :=
  Transfers.Batch (EC (F := F)) (thr d L) (.dma cc0_scratch2.sem) (none : HIx 2) N64 (deliv m d L fI) 512 u

/-- ONE WAIT that is not the last: `a` pieces' worth consumed before, `a + 1` after; nothing else changes. -/
theorem drain_step {α : Type} {Q : α → sProp 𝕄} (fI : Buf (Elt F) (idxLoc d L)) (a : ℕ) (ha : a + 1 < 512)
    (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact}
    {kk : PUnit → Prog (TpuEff nD τ sig (Elt F) Λ₀ (Proc.scVector (cV L) (jV L))) α} (hN : dstw.view.dmaCredit = N64) :
    iprop(levAts (K (F := F)).L (K (F := F)).lev ∗ batchAt m d L fI (a * N64) ∗ ∃ W', ⌜WOK W W'⌝ ∗ owes (thr d L) O W')
      ⊢ iprop((iprop(batchAt m d L fI ((a + 1) * N64) ∗ ∃ W', ⌜WOK W W'⌝ ∗ owes (thr d L) O W')
            -∗ wp frame (wpE (defs₀ (F := F)) 𝒱₀ (thr d L) none) Set.univ (kk ⟨⟩) Q)
          -∗ wp frame (wpE (defs₀ (F := F)) 𝒱₀ (thr d L) none) Set.univ
              (.op (TpuEff.waitDma2 (p := Proc.scVector (cV L) (jV L)) cc0_scratch2.sem srcw dstw hs hd) kk) Q) := by
  iintro ⟨#Hlv, HB, %W', %hW', HO⟩ Hk
  ihave Hmw := ((K (F := F)).mayWait_none (thr := thr d L) (SemLoc.dma cc0_scratch2.sem) hO) $$ Hlv
  iapply (Transfers.wp_waitBatchO (EC (F := F)) 𝒱₀ (thr d L) none (none : HIx 2) hN (D := deliv m d L fI) (u := a * N64) (hu_skip ha) (O := O) (W := W')) $$ [HB HO Hmw]
  · isplitl [HB]; · iexact HB
    isplitl [HO]; · iexact HO
    iexact Hmw
  iintro ⟨HB, HO⟩
  iapply Hk
  isplitl [HB]
  · rw [Nat.succ_mul]; iexact HB
  iexists _; isplitr
  · ipureintro; exact WOK_insert (SemLoc.dma cc0_scratch2.sem) hW'
  iexact HO

/-- THE LAST WAIT: every copy has landed; every delivery comes back, the counter at zero. -/
theorem drain_last {α : Type} {Q : α → sProp 𝕄} (fI : Buf (Elt F) (idxLoc d L))
    (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact}
    {kk : PUnit → Prog (TpuEff nD τ sig (Elt F) Λ₀ (Proc.scVector (cV L) (jV L))) α} (hN : dstw.view.dmaCredit = N64) :
    iprop(levAts (K (F := F)).L (K (F := F)).lev ∗ batchAt m d L fI (511 * N64) ∗ ∃ W', ⌜WOK W W'⌝ ∗ owes (thr d L) O W')
      ⊢ iprop((iprop((bigSep Finset.univ (deliv m d L fI)) ∗ semVal (thr d L, SemLoc.dma cc0_scratch2.sem) 0
              ∗ ∃ W', ⌜WOK W W'⌝ ∗ owes (thr d L) O W')
            -∗ wp frame (wpE (defs₀ (F := F)) 𝒱₀ (thr d L) none) Set.univ (kk ⟨⟩) Q)
          -∗ wp frame (wpE (defs₀ (F := F)) 𝒱₀ (thr d L) none) Set.univ
              (.op (TpuEff.waitDma2 (p := Proc.scVector (cV L) (jV L)) cc0_scratch2.sem srcw dstw hs hd) kk) Q) := by
  iintro ⟨#Hlv, HB, %W', %hW', HO⟩ Hk
  ihave Hmw := ((K (F := F)).mayWait_none (thr := thr d L) (SemLoc.dma cc0_scratch2.sem) hO) $$ Hlv
  iapply (Transfers.wp_waitBatchLastO (EC (F := F)) 𝒱₀ (thr d L) none (none : HIx 2) hN N64_pos (D := deliv m d L fI) (u := 511 * N64) hu_last (O := O) (W := W')) $$ [HB HO Hmw]
  · isplitl [HB]; · iexact HB
    isplitl [HO]; · iexact HO
    iexact Hmw
  iintro ⟨HD, Hv, HO⟩
  iapply Hk
  isplitl [HD]; · iexact HD
  isplitl [Hv]; · iexact Hv
  iexists _; isplitr
  · ipureintro; exact WOK_insert (SemLoc.dma cc0_scratch2.sem) hW'
  iexact HO

end Cert.Proof.KW.K0

end
-- ==== Proof.BwK0DrainLoop.lean ====
/-
  The first kernel's drain loop: trip k makes waits 16 k .. 16 k + 15 of the 512.

  Before trip k, 16 k pieces' worth of units have been consumed. The sixteenth wait of trip 31 is the 512th: it hands
  back every copy's delivery and the counter at zero.
-/
import proofs.«215896_g38397007626377_fold_wed_m_942_26_alg».proof.Proof.BwK0Drain
import proofs.«215896_g38397007626377_fold_wed_m_942_26_alg».proof.Proof.Gen.Kernel.Skeleton

noncomputable section

namespace Cert.Proof.KW.K0

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable (m : (ℓ : Loc nD τ sig) → Buf (Elt F) ℓ)
variable [FloatOps F]

local notation "a0W" => (Memref.whole Cert.Kernel.main_arg0_scv : Memref Cert.Kernel.sig Kind.scVector Space.hbm Cert.Kernel.S16384 EltTy.i32)
local notation "a3W" => (Memref.whole Cert.Kernel.main_arg3_scv : Memref Cert.Kernel.sig Kind.scVector Space.hbm Cert.Kernel.S1000000x64 EltTy.f32)
local notation "o1W" => (Memref.whole Cert.Kernel.main_v0_scv : Memref Cert.Kernel.sig Kind.scVector Space.hbm Cert.Kernel.S8192x128 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S1x256x128 EltTy.f32)

variable (d : Dev nD) (L : grid0.Coords)

/-- Before trip k of the drain loop. After the last trip: every piece of the scratch at its final contents. -/
def drainInv (fI : Buf (Elt F) (idxLoc d L)) (O : CellTallies nD τ sig (HIx 2)) (W : Waits sig (HIx 2)) (k : Nat) (_ : Unit) : sProp 𝕄 :=
  iprop(levAts (K (F := F)).L (K (F := F)).lev
    ∗ (if k < 32 then batchAt m d L fI ((16 * k) * N64)
       else iprop((bigSep Finset.univ (deliv m d L fI)) ∗ semVal (thr d L, SemLoc.dma cc0_scratch2.sem) 0))
    ∗ ∃ W', ⌜WOK W W'⌝ ∗ owes (thr d L) O W')

set_option maxHeartbeats 4000000 in
theorem drain_trip_mid (fI : Buf (Elt F) (idxLoc d L)) (O : CellTallies nD τ sig (HIx 2)) (W : Waits sig (HIx 2)) (hO : ∀ g, O g none = 0)
    (k : Fin k0_t2_loop.trips) (K0 : ℕ) (hK : k.val = K0) (hmid : K0 + 1 < 32) (acc : Unit) :
    iprop(levAts (K (F := F)).L (K (F := F)).lev ∗ batchAt m d L fI ((16 * K0) * N64) ∗ ∃ W', ⌜WOK W W'⌝ ∗ owes (thr d L) O W')
      ⊢ wp frame (wpE (defs₀ (F := F)) 𝒱₀ (thr d L) none) Set.univ
          (k0_t2_body L a0W (Memref.isWhole_whole _) a3W (Memref.isWhole_whole _) o1W (Memref.isWhole_whole _)
            sIW (Memref.isWhole_whole _) sRW (Memref.isWhole_whole _) cc0_scratch2 cc0_scoped0 cc0_scoped1 k acc)
          (fun _ => iprop(levAts (K (F := F)).L (K (F := F)).lev ∗ batchAt m d L fI ((16 * (K0 + 1)) * N64) ∗ ∃ W', ⌜WOK W W'⌝ ∗ owes (thr d L) O W')) := by
  unfold k0_t2_body
  iintro ⟨#Hlv, HB, HW⟩
  ·
    -- wait 0
    sl_exec
    iapply (drain_step m d L fI (16 * K0 + 0) (by omega) O W hO rfl) $$ [HB HW]
    · isplitr; · iexact Hlv
      isplitl [HB]; · iexact HB
      iexact HW
    iintro ⟨HB, HW⟩
    -- wait 1
    sl_exec
    iapply (drain_step m d L fI (16 * K0 + 1) (by omega) O W hO rfl) $$ [HB HW]
    · isplitr; · iexact Hlv
      isplitl [HB]; · iexact HB
      iexact HW
    iintro ⟨HB, HW⟩
    -- wait 2
    sl_exec
    iapply (drain_step m d L fI (16 * K0 + 2) (by omega) O W hO rfl) $$ [HB HW]
    · isplitr; · iexact Hlv
      isplitl [HB]; · iexact HB
      iexact HW
    iintro ⟨HB, HW⟩
    -- wait 3
    sl_exec
    iapply (drain_step m d L fI (16 * K0 + 3) (by omega) O W hO rfl) $$ [HB HW]
    · isplitr; · iexact Hlv
      isplitl [HB]; · iexact HB
      iexact HW
    iintro ⟨HB, HW⟩
    -- wait 4
    sl_exec
    iapply (drain_step m d L fI (16 * K0 + 4) (by omega) O W hO rfl) $$ [HB HW]
    · isplitr; · iexact Hlv
      isplitl [HB]; · iexact HB
      iexact HW
    iintro ⟨HB, HW⟩
    -- wait 5
    sl_exec
    iapply (drain_step m d L fI (16 * K0 + 5) (by omega) O W hO rfl) $$ [HB HW]
    · isplitr; · iexact Hlv
      isplitl [HB]; · iexact HB
      iexact HW
    iintro ⟨HB, HW⟩
    -- wait 6
    sl_exec
    iapply (drain_step m d L fI (16 * K0 + 6) (by omega) O W hO rfl) $$ [HB HW]
    · isplitr; · iexact Hlv
      isplitl [HB]; · iexact HB
      iexact HW
    iintro ⟨HB, HW⟩
    -- wait 7
    sl_exec
    iapply (drain_step m d L fI (16 * K0 + 7) (by omega) O W hO rfl) $$ [HB HW]
    · isplitr; · iexact Hlv
      isplitl [HB]; · iexact HB
      iexact HW
    iintro ⟨HB, HW⟩
    -- wait 8
    sl_exec
    iapply (drain_step m d L fI (16 * K0 + 8) (by omega) O W hO rfl) $$ [HB HW]
    · isplitr; · iexact Hlv
      isplitl [HB]; · iexact HB
      iexact HW
    iintro ⟨HB, HW⟩
    -- wait 9
    sl_exec
    iapply (drain_step m d L fI (16 * K0 + 9) (by omega) O W hO rfl) $$ [HB HW]
    · isplitr; · iexact Hlv
      isplitl [HB]; · iexact HB
      iexact HW
    iintro ⟨HB, HW⟩
    -- wait 10
    sl_exec
    iapply (drain_step m d L fI (16 * K0 + 10) (by omega) O W hO rfl) $$ [HB HW]
    · isplitr; · iexact Hlv
      isplitl [HB]; · iexact HB
      iexact HW
    iintro ⟨HB, HW⟩
    -- wait 11
    sl_exec
    iapply (drain_step m d L fI (16 * K0 + 11) (by omega) O W hO rfl) $$ [HB HW]
    · isplitr; · iexact Hlv
      isplitl [HB]; · iexact HB
      iexact HW
    iintro ⟨HB, HW⟩
    -- wait 12
    sl_exec
    iapply (drain_step m d L fI (16 * K0 + 12) (by omega) O W hO rfl) $$ [HB HW]
    · isplitr; · iexact Hlv
      isplitl [HB]; · iexact HB
      iexact HW
    iintro ⟨HB, HW⟩
    -- wait 13
    sl_exec
    iapply (drain_step m d L fI (16 * K0 + 13) (by omega) O W hO rfl) $$ [HB HW]
    · isplitr; · iexact Hlv
      isplitl [HB]; · iexact HB
      iexact HW
    iintro ⟨HB, HW⟩
    -- wait 14
    sl_exec
    iapply (drain_step m d L fI (16 * K0 + 14) (by omega) O W hO rfl) $$ [HB HW]
    · isplitr; · iexact Hlv
      isplitl [HB]; · iexact HB
      iexact HW
    iintro ⟨HB, HW⟩
    -- wait 15
    sl_exec
    iapply (drain_step m d L fI (16 * K0 + 15) (by omega) O W hO rfl) $$ [HB HW]
    · isplitr; · iexact Hlv
      isplitl [HB]; · iexact HB
      iexact HW
    iintro ⟨HB, HW⟩
    sl_exec
    sl_step
    isplitr; · iexact Hlv
    isplitl [HB]; · iexact HB
    iexact HW

set_option maxHeartbeats 4000000 in
theorem drain_trip_last (fI : Buf (Elt F) (idxLoc d L)) (O : CellTallies nD τ sig (HIx 2)) (W : Waits sig (HIx 2)) (hO : ∀ g, O g none = 0)
    (k : Fin k0_t2_loop.trips) (K0 : ℕ) (hK : k.val = K0) (hlast : K0 = 31) (acc : Unit) :
    iprop(levAts (K (F := F)).L (K (F := F)).lev ∗ batchAt m d L fI ((16 * K0) * N64) ∗ ∃ W', ⌜WOK W W'⌝ ∗ owes (thr d L) O W')
      ⊢ wp frame (wpE (defs₀ (F := F)) 𝒱₀ (thr d L) none) Set.univ
          (k0_t2_body L a0W (Memref.isWhole_whole _) a3W (Memref.isWhole_whole _) o1W (Memref.isWhole_whole _)
            sIW (Memref.isWhole_whole _) sRW (Memref.isWhole_whole _) cc0_scratch2 cc0_scoped0 cc0_scoped1 k acc)
          (fun _ => iprop(levAts (K (F := F)).L (K (F := F)).lev
            ∗ iprop((bigSep Finset.univ (deliv m d L fI)) ∗ semVal (thr d L, SemLoc.dma cc0_scratch2.sem) 0)
            ∗ ∃ W', ⌜WOK W W'⌝ ∗ owes (thr d L) O W')) := by
  subst hlast
  unfold k0_t2_body
  iintro ⟨#Hlv, HB, HW⟩
  ·
    -- wait 0
    sl_exec
    iapply (drain_step m d L fI (16 * 31 + 0) (by omega) O W hO rfl) $$ [HB HW]
    · isplitr; · iexact Hlv
      isplitl [HB]; · iexact HB
      iexact HW
    iintro ⟨HB, HW⟩
    -- wait 1
    sl_exec
    iapply (drain_step m d L fI (16 * 31 + 1) (by omega) O W hO rfl) $$ [HB HW]
    · isplitr; · iexact Hlv
      isplitl [HB]; · iexact HB
      iexact HW
    iintro ⟨HB, HW⟩
    -- wait 2
    sl_exec
    iapply (drain_step m d L fI (16 * 31 + 2) (by omega) O W hO rfl) $$ [HB HW]
    · isplitr; · iexact Hlv
      isplitl [HB]; · iexact HB
      iexact HW
    iintro ⟨HB, HW⟩
    -- wait 3
    sl_exec
    iapply (drain_step m d L fI (16 * 31 + 3) (by omega) O W hO rfl) $$ [HB HW]
    · isplitr; · iexact Hlv
      isplitl [HB]; · iexact HB
      iexact HW
    iintro ⟨HB, HW⟩
    -- wait 4
    sl_exec
    iapply (drain_step m d L fI (16 * 31 + 4) (by omega) O W hO rfl) $$ [HB HW]
    · isplitr; · iexact Hlv
      isplitl [HB]; · iexact HB
      iexact HW
    iintro ⟨HB, HW⟩
    -- wait 5
    sl_exec
    iapply (drain_step m d L fI (16 * 31 + 5) (by omega) O W hO rfl) $$ [HB HW]
    · isplitr; · iexact Hlv
      isplitl [HB]; · iexact HB
      iexact HW
    iintro ⟨HB, HW⟩
    -- wait 6
    sl_exec
    iapply (drain_step m d L fI (16 * 31 + 6) (by omega) O W hO rfl) $$ [HB HW]
    · isplitr; · iexact Hlv
      isplitl [HB]; · iexact HB
      iexact HW
    iintro ⟨HB, HW⟩
    -- wait 7
    sl_exec
    iapply (drain_step m d L fI (16 * 31 + 7) (by omega) O W hO rfl) $$ [HB HW]
    · isplitr; · iexact Hlv
      isplitl [HB]; · iexact HB
      iexact HW
    iintro ⟨HB, HW⟩
    -- wait 8
    sl_exec
    iapply (drain_step m d L fI (16 * 31 + 8) (by omega) O W hO rfl) $$ [HB HW]
    · isplitr; · iexact Hlv
      isplitl [HB]; · iexact HB
      iexact HW
    iintro ⟨HB, HW⟩
    -- wait 9
    sl_exec
    iapply (drain_step m d L fI (16 * 31 + 9) (by omega) O W hO rfl) $$ [HB HW]
    · isplitr; · iexact Hlv
      isplitl [HB]; · iexact HB
      iexact HW
    iintro ⟨HB, HW⟩
    -- wait 10
    sl_exec
    iapply (drain_step m d L fI (16 * 31 + 10) (by omega) O W hO rfl) $$ [HB HW]
    · isplitr; · iexact Hlv
      isplitl [HB]; · iexact HB
      iexact HW
    iintro ⟨HB, HW⟩
    -- wait 11
    sl_exec
    iapply (drain_step m d L fI (16 * 31 + 11) (by omega) O W hO rfl) $$ [HB HW]
    · isplitr; · iexact Hlv
      isplitl [HB]; · iexact HB
      iexact HW
    iintro ⟨HB, HW⟩
    -- wait 12
    sl_exec
    iapply (drain_step m d L fI (16 * 31 + 12) (by omega) O W hO rfl) $$ [HB HW]
    · isplitr; · iexact Hlv
      isplitl [HB]; · iexact HB
      iexact HW
    iintro ⟨HB, HW⟩
    -- wait 13
    sl_exec
    iapply (drain_step m d L fI (16 * 31 + 13) (by omega) O W hO rfl) $$ [HB HW]
    · isplitr; · iexact Hlv
      isplitl [HB]; · iexact HB
      iexact HW
    iintro ⟨HB, HW⟩
    -- wait 14
    sl_exec
    iapply (drain_step m d L fI (16 * 31 + 14) (by omega) O W hO rfl) $$ [HB HW]
    · isplitr; · iexact Hlv
      isplitl [HB]; · iexact HB
      iexact HW
    iintro ⟨HB, HW⟩
    -- wait 15
    sl_exec
    iapply (drain_last m d L fI O W hO rfl) $$ [HB HW]
    · isplitr; · iexact Hlv
      isplitl [HB]; · iexact HB
      iexact HW
    iintro ⟨HD, Hv, HW⟩
    sl_exec
    sl_step
    isplitr; · iexact Hlv
    isplitl [HD Hv]
    · isplitl [HD]; · iexact HD
      iexact Hv
    iexact HW

theorem drain_trip (fI : Buf (Elt F) (idxLoc d L)) (O : CellTallies nD τ sig (HIx 2)) (W : Waits sig (HIx 2)) (hO : ∀ g, O g none = 0)
    (k : Fin k0_t2_loop.trips) (acc : Unit) :
    drainInv m d L fI O W k.val acc
      ⊢ wp frame (wpE (defs₀ (F := F)) 𝒱₀ (thr d L) none) Set.univ
          (k0_t2_body L a0W (Memref.isWhole_whole _) a3W (Memref.isWhole_whole _) o1W (Memref.isWhole_whole _)
            sIW (Memref.isWhole_whole _) sRW (Memref.isWhole_whole _) cc0_scratch2 cc0_scoped0 cc0_scoped1 k acc)
          (drainInv m d L fI O W (k.val + 1)) := by
  have hk : k.val < 32 := k.isLt
  unfold drainInv
  rw [if_pos hk]
  by_cases hmid : k.val + 1 < 32
  · rw [if_pos hmid]
    exact drain_trip_mid m d L fI O W hO k k.val rfl hmid acc
  · rw [if_neg hmid]
    exact drain_trip_last m d L fI O W hO k k.val rfl (by omega) acc

end Cert.Proof.KW.K0

end
-- ==== Proof.BwK0Geom.lean ====
/-
  The first kernel's geometry, second part: the 512 pieces tile the row scratch, and a worker's slice of the output is
  its block of 256 rows.
-/
import proofs.«215896_g38397007626377_fold_wed_m_942_26_alg».proof.Proof.BwK0Fire

noncomputable section

namespace Cert.Proof.KW.K0

open Cert.Kernel Cert.Kernel.Gen Cert.Proof.KW

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 2) (Elt F) ℕ UU ℕ

local notation "o1W" => (Memref.whole Cert.Kernel.main_v0_scv : Memref Cert.Kernel.sig Kind.scVector Space.hbm Cert.Kernel.S8192x128 EltTy.f32)
local notation "a0W" => (Memref.whole Cert.Kernel.main_arg0_scv : Memref Cert.Kernel.sig Kind.scVector Space.hbm Cert.Kernel.S16384 EltTy.i32)

variable (d : Dev nD) (L : grid0.Coords)

/-- The worker's SparseCore and subcore numbers. -/
abbrev cL (L : grid0.Coords) : Fin 2 := Fin.cast (by rfl) (L 0)
abbrev sL (L : grid0.Coords) : Fin 16 := Fin.cast (by rfl) (L 1)

/-- A piece's elements, as its memref names them, are the piece's rectangle. -/
theorem set_dstPiece (t : Fin 512) : (dstPiece t).view.set = pieceSet t := by
  show (((View.whole (cc0_scratch1 : Ref sig .scVector)).slice (pieceRect t)).reshape S64 squeezes_S1x1x64_S64.numel_eq).set = _
  rw [View.set_reshape]
  exact View.set_slice_whole _ _

theorem pieces_disjoint : ∀ t ∈ (Finset.univ : Finset (Fin 512)), ∀ t' ∈ (Finset.univ : Finset (Fin 512)), t ≠ t' →
    Disjoint (pieceSet t) (pieceSet t') := by
  intro t _ t' _ hne
  have hv : t.val ≠ t'.val := fun h => hne (Fin.ext h)
  by_cases h1 : t.val / 2 = t'.val / 2
  · refine Rect.unit_disjoint (2 : Fin 3) ?_
    show (t.val % 2) * 64 + 64 ≤ (t'.val % 2) * 64 ∨ (t'.val % 2) * 64 + 64 ≤ (t.val % 2) * 64
    omega
  · refine Rect.unit_disjoint (1 : Fin 3) ?_
    show t.val / 2 + 1 ≤ t'.val / 2 ∨ t'.val / 2 + 1 ≤ t.val / 2
    omega

theorem pieces_cover : (Finset.univ : Finset (Fin 512)).biUnion pieceSet = Finset.univ := by
  ext y
  simp only [Finset.mem_biUnion, Finset.mem_univ, true_and, iff_true]
  have h0 : (y 0).val < 1 := (y 0).isLt
  have h1 : (y 1).val < 256 := (y 1).isLt
  have h2 : (y 2).val < 128 := (y 2).isLt
  refine ⟨⟨2 * (y 1).val + (y 2).val / 64, by omega⟩, ?_⟩
  rw [Rect.mem_set_unit]
  intro a; fin_cases a
  · show 0 ≤ (y 0).val ∧ (y 0).val < 0 + 1; omega
  · show (2 * (y 1).val + (y 2).val / 64) / 2 ≤ (y 1).val ∧ (y 1).val < (2 * (y 1).val + (y 2).val / 64) / 2 + 1; omega
  · show (2 * (y 1).val + (y 2).val / 64) % 2 * 64 ≤ (y 2).val ∧ (y 2).val < (2 * (y 1).val + (y 2).val / 64) % 2 * 64 + 64; omega

/-- The whole scratch is its 512 pieces. -/
theorem rows_split (f : Buf (Elt F) (rowsLoc d L)) :
    (rowsLoc d L ↦{fullShare} f : sProp 𝕄) = bigSep Finset.univ fun t : Fin 512 => pieceAt (F := F) d L t f := by
  rw [show (bigSep Finset.univ fun t : Fin 512 => pieceAt (F := F) d L t f)
      = bigSep Finset.univ fun t : Fin 512 => (rowsLoc d L ↦[pieceSet t]{fullShare} f : sProp 𝕄) from
    bigSep_congr fun t _ => by show ((dstPiece t).view.loc (thr d L) ↦[(dstPiece t).view.set]{fullShare} f : sProp 𝕄) = _; rw [set_dstPiece],
    ← pointsTo_biUnion Finset.univ (ℓ := rowsLoc d L) pieceSet pieces_disjoint, pieces_cover]

/-- The worker's slice of the output, as the program names it. -/
abbrev o1Slice (L : grid0.Coords) : Memref sig .scVector .hbm S256x128 .f32 :=
  (o1W).slice (Rect.unit (s := S8192x128) (k0_off37 L) S256x128.size (k0_off37_inb L)) (fun _ => rfl)
/-- The worker's 512 index words, as the program names them. -/
abbrev a0Slice (L : grid0.Coords) : Memref sig .scVector .hbm S512 .i32 :=
  (a0W).slice (Rect.unit (s := S16384) (k0_off1 L) S512.size (k0_off1_inb L)) (fun _ => rfl)

theorem o1rect_eq : Rect.unit (s := S8192x128) (k0_off37 L) S256x128.size (k0_off37_inb L)
    = Rect.part (s := S8192x128) (a₀ := 0) hdivA (wid (cL L) (sL L)) := by
  unfold Rect.part Rect.block
  congr 1 <;> funext a
  · rw [k0_off37_eq]
    match a with
    | 0 =>
      show 512 * (L 1).val + 256 * (L 0).val = (2 * (L 1).val + (L 0).val) * (8192 / 32)
      omega
    | 1 => simp [Shape.partIx, Shape.partSize]
  · match a with
    | 0 => simp [Shape.partSize]
    | 1 => simp [Shape.partSize]

theorem set_o1Slice : (o1Slice L).view.set = blkA (wid (cL L) (sL L)) := by
  show ((View.whole (main_v0_scv : Ref sig .scVector)).slice _).set = _
  rw [View.set_slice_whole, o1rect_eq]

end Cert.Proof.KW.K0

end
-- ==== Proof.BwK0Out.lean ====
/-
  The first kernel's value on a worker's block: what the final copy writes is the lookup.

  The fetched index words are words 512 w .. 512 w + 511 of the input words (w the worker's number); the scratch's
  entry (r, x) is table[word 2 r + x / 64, x mod 64]; the final copy writes scratch row r to output row 256 w + r. So
  output entry (256 w + r, x) is table[input word 2 (256 w + r) + x / 64, x mod 64]: the lookup in the kernel's layout.
-/
import proofs.«215896_g38397007626377_fold_wed_m_942_26_alg».proof.Proof.BwK0Geom

noncomputable section

namespace Cert.Proof.KW.K0

open Cert.Kernel Cert.Kernel.Gen Cert.Proof.KW

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 2) (Elt F) ℕ UU ℕ
local notation "sRW" => (Memref.whole Cert.Kernel.cc0_scratch1 : Memref Cert.Kernel.sig Kind.scVector Space.vmem Cert.Kernel.S1x256x128 EltTy.f32)

variable (m : (ℓ : Loc nD τ sig) → Buf (Elt F) ℓ)
variable (d : Dev nD) (L : grid0.Coords)

theorem wid_val (L : grid0.Coords) : (wid (cL L) (sL L)).val = 2 * (L 1).val + (L 0).val := rfl

/-- The index words the worker fetches: its 512 of the input words. -/
def fetched : Buf (Elt F) (idxLoc d L) := (a0Slice L).view.read (Elt F) (m (a0Loc d))

theorem fetched_apply (j : Fin 512) :
    fetched m d L (ix1 j) = m (a0Loc d) (ix1 (⟨512 * (wid (cL L) (sL L)).val + j.val, by
      have := (wid (cL L) (sL L)).isLt; have := j.isLt; omega⟩ : Fin 16384)) := by
  unfold fetched
  rw [View.read_apply]
  simp only [cast_eq]
  congr 1
  funext a; fin_cases a; apply Fin.ext
  show (((Rect.unit (s := S16384) (k0_off1 L) S512.size (k0_off1_inb L)).emb (ix1 j)) 0).val = _
  rw [Rect.emb_apply]
  show (k0_off1 L) 0 + 1 * j.val = 512 * (wid (cL L) (sL L)).val + j.val
  rw [k0_off1_eq, wid_val]
  show 1024 * (L 1).val + 512 * (L 0).val + 1 * j.val = 512 * (2 * (L 1).val + (L 0).val) + j.val
  omega

theorem fetched_lt (hpre : PreOK m) : ∀ x, (fetched m d L x).toNat < 1000000 := by
  intro x
  unfold fetched
  rw [View.read_apply]
  simp only [cast_eq]
  exact (hpre d).1 _

/-- The whole row scratch as the final copy's source names it. -/
abbrev rowsSrc : Memref sig .scVector .vmem S256x128 .f32 :=
  ((sRW).slice (Rect.unit (s := S1x256x128) ![0, 0, 0] S1x256x128.size inb_S1x256x128_S1x256x128_0_0_0) (fun _ => rfl)).squeeze S256x128 squeezes_S1x256x128_S256x128

theorem rowsSrc_emb_val (y : S256x128.Idx) :
    (((rowsSrc).view.emb y) 1).val = (y 0).val ∧ (((rowsSrc).view.emb y) 2).val = (y 1).val := by
  have e := Shape.reshapeEquiv_cons_one (n := 2) (d := ![256, 128]) (squeezes_S1x256x128_S256x128.numel_eq) y
  constructor
  · show (((Rect.unit (s := S1x256x128) ![0, 0, 0] S1x256x128.size inb_S1x256x128_S1x256x128_0_0_0).emb
        (Shape.reshapeEquiv (squeezes_S1x256x128_S256x128.numel_eq) y)) 1).val = _
    rw [Rect.emb_apply, e]; show 0 + 1 * (y 0).val = _; omega
  · show (((Rect.unit (s := S1x256x128) ![0, 0, 0] S1x256x128.size inb_S1x256x128_S1x256x128_0_0_0).emb
        (Shape.reshapeEquiv (squeezes_S1x256x128_S256x128.numel_eq) y)) 2).val = _
    rw [Rect.emb_apply, e]; show 0 + 1 * (y 1).val = _; omega

theorem o1Slice_emb_val (y : S256x128.Idx) :
    (((o1Slice L).view.emb y) 0).val = 256 * (wid (cL L) (sL L)).val + (y 0).val ∧ (((o1Slice L).view.emb y) 1).val = (y 1).val := by
  constructor
  · show (((Rect.unit (s := S8192x128) (k0_off37 L) S256x128.size (k0_off37_inb L)).emb y) 0).val = _
    rw [Rect.emb_apply]; show (k0_off37 L) 0 + 1 * (y 0).val = _
    rw [k0_off37_eq, wid_val]
    show 512 * (L 1).val + 256 * (L 0).val + 1 * (y 0).val = 256 * (2 * (L 1).val + (L 0).val) + (y 0).val
    omega
  · show (((Rect.unit (s := S8192x128) (k0_off37 L) S256x128.size (k0_off37_inb L)).emb y) 1).val = _
    rw [Rect.emb_apply]; show (k0_off37 L) 1 + 1 * (y 1).val = _
    rw [k0_off37_eq]; simp

/-- What the final copy leaves on the worker's block is the lookup. -/
theorem out_value (f : Buf (Elt F) (o1Loc d)) :
    ∀ i ∈ (o1Slice L).view.set,
      (o1Slice L).view.write (Elt F) f (ReadAs.same.apply ((rowsSrc).view.read (Elt F) (rowsFinal m d L (fetched m d L)))) Finset.univ i
        = G1 m d i := by
  intro i hi
  obtain ⟨y, -, rfl⟩ := Finset.mem_map.mp hi
  rw [View.write_emb_of_mem _ _ (Finset.mem_univ y), ReadAs.apply_same, View.read_apply]
  obtain ⟨r1, r2⟩ := rowsSrc_emb_val y
  obtain ⟨o0, o1⟩ := o1Slice_emb_val L y
  have h0 : (y 0).val < 256 := (y 0).isLt
  have h1 : (y 1).val < 128 := (y 1).isLt
  have hw := (wid (cL L) (sL L)).isLt
  simp only [cast_eq]
  unfold rowsFinal G1 packA Spec.take2 pairPos
  congr 1
  funext a; apply Fin.ext
  fin_cases a
  · show (Spec.rowOf _).val = (Spec.rowOf _).val
    congr 2
    rw [show (ix1 (⟨2 * (((rowsSrc).view.emb y) 1).val + (((rowsSrc).view.emb y) 2).val / 64, _⟩ : Fin 512))
        = ix1 (⟨2 * (y 0).val + (y 1).val / 64, by omega⟩ : Fin 512) from by
      congr 1; apply Fin.ext; show 2 * _ + _ / 64 = _; rw [r1, r2]]
    rw [fetched_apply]
    congr 1; funext b; fin_cases b; apply Fin.ext
    show 512 * (wid (cL L) (sL L)).val + (2 * (y 0).val + (y 1).val / 64) = 2 * (((o1Slice L).view.emb y) 0).val + (((o1Slice L).view.emb y) 1).val / 64
    rw [o0, o1]; omega
  · show (((rowsSrc).view.emb y) 2).val % 64 = (((o1Slice L).view.emb y) 1).val % 64
    rw [r2, o1]

end Cert.Proof.KW.K0

end
-- ==== Proof.BwK0Body.lean ====
/-
  The first kernel's task on one vector subcore, whole.

  Fetch the worker's 512 index words; issue the 512 row copies as one batch (the table share cut into 512 read tokens,
  the row scratch into its 512 pieces); drain the batch; the pieces, each at the final contents, are the whole scratch;
  write it out to the worker's block of the output. What the block then holds is the lookup.
-/
import proofs.«215896_g38397007626377_fold_wed_m_942_26_alg».proof.Proof.BwK0FireLoop
import proofs.«215896_g38397007626377_fold_wed_m_942_26_alg».proof.Proof.BwK0DrainLoop
import proofs.«215896_g38397007626377_fold_wed_m_942_26_alg».proof.Proof.BwK0Out
import proofs.«215896_g38397007626377_fold_wed_m_942_26_alg».proof.Proof.Gen.Kernel.Skeleton

noncomputable section

namespace Cert.Proof.KW.K0

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable (m : (ℓ : Loc nD τ sig) → Buf (Elt F) ℓ)
variable [FloatOps F]

local notation "a0W" => (Memref.whole Cert.Kernel.main_arg0_scv : Memref Cert.Kernel.sig Kind.scVector Space.hbm Cert.Kernel.S16384 EltTy.i32)
local notation "a3W" => (Memref.whole Cert.Kernel.main_arg3_scv : Memref Cert.Kernel.sig Kind.scVector Space.hbm Cert.Kernel.S1000000x64 EltTy.f32)
local notation "o1W" => (Memref.whole Cert.Kernel.main_v0_scv : Memref Cert.Kernel.sig Kind.scVector Space.hbm Cert.Kernel.S8192x128 EltTy.f32)
local notation "sIW" => (Memref.whole Cert.Kernel.cc0_scratch0 : Memref Cert.Kernel.sig Kind.scVector Space.vmem Cert.Kernel.S512 EltTy.i32)
local notation "sRW" => (Memref.whole Cert.Kernel.cc0_scratch1 : Memref Cert.Kernel.sig Kind.scVector Space.vmem Cert.Kernel.S1x256x128 EltTy.f32)

variable (d : Dev nD) (L : grid0.Coords)

/-! ## The subcore's own semaphores and buffers -/

abbrev cSem (d : Dev nD) (c : Fin τ.nSC) (i : Fin τ.nSub) : GSem nD τ sig := (V d c i, .dma cc0_scratch2.sem)
abbrev cS0 (d : Dev nD) (c : Fin τ.nSC) (i : Fin τ.nSub) : GSem nD τ sig := (V d c i, .dma cc0_scoped0.sem)
abbrev cS1 (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cSem d (cV L) (jV L)) 0 ∗ semVal (cS0 d (cV L) (jV L)) 0 ∗ semVal (cS1 d (cV L) (jV L)) 0
          ∗ bigSep ((((ownCells (V d (cV L) (jV L))).erase (cSem d (cV L) (jV L))).erase (cS0 d (cV L) (jV L))).erase (cS1 d (cV L) (jV L)))
              fun g => semVal g 0) := by
  unfold SparseCore.Cfg.ownSems0
  rw [SparseCore.bigSep_erase' ((mem_ownCells (g := cSem d (cV L) (jV L))).mpr ⟨rfl, by
      show (SemLoc.dma cc0_scratch2.sem : SemLoc sig).isScoped .scVector = true; decide⟩),
    SparseCore.bigSep_erase' (Finset.mem_erase.mpr ⟨by simp [cSem, cS0]; decide, (mem_ownCells (g := cS0 d (cV L) (jV L))).mpr ⟨rfl, by
      show (SemLoc.dma cc0_scoped0.sem : SemLoc sig).isScoped .scVector = true; decide⟩⟩),
    SparseCore.bigSep_erase' (Finset.mem_erase.mpr ⟨by simp [cS0, cS1]; decide, Finset.mem_erase.mpr ⟨by simp [cSem, cS1]; decide,
      (mem_ownCells (g := cS1 d (cV L) (jV L))).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

omit [FloatOps F] in
theorem trips1 : k0_t1_loop.trips = 32 := by decide
omit [FloatOps F] in
theorem trips2 : k0_t2_loop.trips = 32 := by decide

omit [FloatOps F] in
theorem pts_o1 (f : Buf (Elt F) (o1Loc d)) :
    ((o1Slice L).view.loc (thr d L) ↦[(o1Slice L).view.set]{fullShare} f : sProp 𝕄) = o1Loc d ↦[blkA (wid (cL L) (sL L))]{fullShare} f := by
  rw [set_o1Slice]

set_option maxHeartbeats 4000000 in
theorem tile_body (hpre : PreOK m) (O : CellTallies nD τ sig (HIx 2)) (W : Waits sig (HIx 2)) (hO : ∀ g, O g none = 0) :
    (iprop(levAts (K (F := F)).L (K (F := F)).lev ∗ emp
        ∗ ((a0Loc d ↦{qT (cL L).val (sL L).val} m (a0Loc d)) ∗ (a3Loc d ↦{qT (cL L).val (sL L).val} m (a3Loc d))
            ∗ (o1Loc d ↦[blkA (wid (cL L) (sL L))]{fullShare} m (o1Loc d)))
        ∗ scopedBufs (thr d L) ∗ scopedSems0 (thr d L) ∗ owes (thr d L) O W) : sProp 𝕄)
      ⊢ wp frame (wpE (defs₀ (F := F)) 𝒱₀ (thr d L) none) Set.univ
          (cc0__sc_gather_in L a0W (Memref.isWhole_whole _) a3W (Memref.isWhole_whole _) o1W (Memref.isWhole_whole _)
            sIW (Memref.isWhole_whole _) sRW (Memref.isWhole_whole _) cc0_scratch2 cc0_scoped0 cc0_scoped1)
          fun _ => iprop((o1Loc d ↦[blkA (wid (cL L) (sL L))]{fullShare} G1 m d) ∗ scopedBufs (thr d L) ∗ scopedSems0 (thr d L)
            ∗ ∃ W', ⌜WOK W W'⌝ ∗ owes (thr d L) O W') := by
  simp only [cc0__sc_gather_in_eq_skeleton]; unfold cc0__sc_gather_in_skel
  simp only [k0_part33_eq_skeleton]; unfold k0_part33_skel
  rw [(K (F := F)).scopedBufs_V (Val := Elt F) (Name := ℕ) (U := UU) (facts (F := F)) d (cV L) (jV L),
    SparseCore.Cfg.scopedSems0_V (Val := Elt F) (Name := ℕ) (U := UU) d (cV L) (jV L), ownSems0_V (F := F) d L, ownBufs_V (F := F) d L]
  iintro ⟨#Hlv, -, ⟨Ha0, Ha3, Ho1⟩, ⟨⟨%fi, HsI⟩, ⟨%fr, HsR⟩, Hbufs⟩, ⟨Hsem, Hsc0, Hsc1, Hsems⟩, HO⟩
  ihave Hmw := ((K (F := F)).mayWaits_none (thr := thr d L) hO) $$ Hlv
  -- the index fetch
  ihave Ha0' := (Entails.of_eq (pts_a0 (F := F) d L _ _).symm) $$ Ha0
  ihave HsI' := (Entails.of_eq (pts_sI (F := F) d L _).symm) $$ HsI
  sl_exec (disch := exact View.amount_pos _ _ (show 0 < S512.numel by decide))
  -- the index scratch holds the worker's 512 input words
  have hfI : (sIW).view.write (Elt F) fi (tile_body.sl.dma0 m d L) Finset.univ = fetched m d L := by
    show (View.whole (cc0_scratch0 : Ref sig .scVector)).write (Elt F) fi (tile_body.sl.dma0 m d L) Finset.univ = _
    rw [View.write_whole_univ]; rfl
  ihave HsI := (Entails.of_eq (congrArg (fun f => ((sIW).view.loc (thr d L) ↦{fullShare} f : sProp 𝕄)) hfI)) $$ HsI'
  -- the table share as 512 read tokens, the scratch as its 512 pieces, the batch
  ihave Htk := (Transfers.pointsTo_toks_split (qT (cL L).val (sL L).val) 512) $$ Ha3
  icases Htk with ⟨-, Htok⟩
  ihave Hpc := (Entails.of_eq (rows_split (F := F) d L fr)) $$ HsR
  imod (Transfers.batch_alloc' (Lvl := ℕ) (EC (F := F)) (thr d L) (none : HIx 2) N64 (deliv m d L (fetched m d L)) (sm := .dma cc0_scratch2.sem) (E := Set.univ)) $$ Hsem with HB
  rw [wp_bind]
  sl_for (fireInv m d L (qT (cL L).val (sL L).val) (fetched m d L) fr) $$ [HsI Htok Hpc HB]
  case region => exact fun k acc => fire_trip m d L _ _ fr (fetched_lt m d L hpre) k acc
  · unfold fireInv
    simp only [Nat.mul_zero]
    rw [← Transfers.bigSep_pending_zero, ← Transfers.bigSep_pending_zero]
    isplitl [HsI]; · iexact HsI
    isplitl [Htok]; · iexact Htok
    isplitl [Hpc]; · iexact Hpc
    iexact HB
  iintro %_ HI
  -- every copy issued: the batch at 512, nothing consumed
  have e1 : Scf.trips k0_t1_loop.lb k0_t1_loop.ub k0_t1_loop.st = 32 := by decide
  have eB : Transfers.Batch (EC (F := F)) (thr d L) (.dma cc0_scratch2.sem) (none : HIx 2) N64 (deliv m d L (fetched m d L))
      (16 * Scf.trips k0_t1_loop.lb k0_t1_loop.ub k0_t1_loop.st) 0 = batchAt m d L (fetched m d L) ((16 * 0) * N64) := by
    rw [e1]; simp
  unfold fireInv
  icases HI with ⟨HsI, -, -, HB⟩
  ihave HB' := (Entails.of_eq eB) $$ HB
  sl_for (drainInv m d L (fetched m d L) O W) $$ [HB' HO]
  case region => exact fun k acc => drain_trip m d L _ O W hO k acc
  · unfold drainInv
    rw [if_pos (by decide)]
    isplitr; · iexact Hlv
    isplitl [HB']; · iexact HB'
    iexists _; isplitr
    · ipureintro; exact WOK_insert (SemLoc.dma cc0_scoped0.sem) (fun p hp => Or.inl hp)
    iexact HO
  iintro %_ HI
  have e2 : ¬ Scf.trips k0_t2_loop.lb k0_t2_loop.ub k0_t2_loop.st < 32 := by decide
  unfold drainInv
  rw [if_neg e2]
  icases HI with ⟨-, ⟨HD, Hsem⟩, %W1, %hW1, HO⟩
  -- the 512 pieces, each at the final contents, are the whole scratch
  have eD : (bigSep Finset.univ (deliv m d L (fetched m d L)) : sProp 𝕄)
      = rowsLoc d L ↦{fullShare} rowsFinal m d L (fetched m d L) :=
    (congrArg (bigSep Finset.univ) (funext fun t => by unfold deliv; rfl)).trans (rows_split (F := F) d L (rowsFinal m d L (fetched m d L))).symm
  ihave HsR := (Entails.of_eq eD) $$ HD
  -- the write-out of the scratch to the worker's block
  ihave HsR' := (Entails.of_eq (pts_sR (F := F) d L _).symm) $$ HsR
  ihave Ho1' := (Entails.of_eq (pts_o1 (F := F) d L _).symm) $$ Ho1
  sl_exec (disch := exact View.amount_pos _ _ (show 0 < S256x128.numel by decide))
  sl_step
  -- what the block holds is the lookup
  have eV : ∀ i ∈ (o1Slice L).view.set,
      (o1Slice L).view.writes (Elt F) (m (o1Loc d)) [⟨Rect.whole S256x128, tile_body.sl.dma0_1 m d L⟩] i = G1 m d i := by
    intro i hi
    rw [← View.write_univ_eq_writes_whole (o1Slice L).view (m (o1Loc d)) [] (tile_body.sl.dma0_1 m d L)]
    exact out_value m d L (m (o1Loc d)) i hi
  isplitl [Ho1']
  · ihave H := (Entails.of_eq ((pointsTo_congr eV).trans (pts_o1 (F := F) d L _))) $$ Ho1'
    iexact H
  isplitl [HsI HsR' Hbufs]
  · isplitl [HsI]
    · iexists _; iapply (Entails.of_eq (pts_sI (F := F) d L _)); iexact HsI
    isplitl [HsR']
    · iexists _; iapply (Entails.of_eq (pts_sR (F := F) d L _)); iexact HsR'
    iexact Hbufs
  isplitl [Hsem Hsc0 Hsc1 Hsems]
  · isplitl [Hsem]; · iexact Hsem
    isplitl [Hsc0]; · iexact Hsc0
    isplitl [Hsc1]; · iexact Hsc1
    iexact Hsems
  iexists _; isplitr
  · ipureintro; exact WOK_insert (SemLoc.dma cc0_scoped1.sem) hW1
  iexact HO

/-! ## The launch theorem's obligation for call 0 -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__sc_gather_in (coordsV c s)
          a0W (Memref.isWhole_whole _) a3W (Memref.isWhole_whole _) o1W (Memref.isWhole_whole _)
          sIW (Memref.isWhole_whole _) sRW (Memref.isWhole_whole _) cc0_scratch2 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body m d (coordsV ⟨_, hc.1⟩ ⟨_, hc.2⟩) hpre O W hO).trans (wp_mono frame _ _ fun _ => obl_post)

end Cert.Proof.KW.K0

end
-- ==== Proof.K1Common.lean ====
import proofs.«215896_g38397007626377_fold_wed_m_942_26_alg».proof.Proof.KISetup
import proofs.«215896_g38397007626377_fold_wed_m_942_26_alg».proof.Proof.Gen.KernelIdeal.Skeleton
import Idealize.ShloMosaic.Lib.Pipeline.Value

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

abbrev thr (d : Dev nD) (L : grid1.Coords) : Thread nD τ := V d ((L 0).castLE hcore1) ((L 1).castLE hsub1)

/-! ## A 64-word destination piece of a rows scratch and a row of the table, as the body slices them -/

section Views

variable (d : Dev nD) (cc : Fin τ.nSC) (jj : Fin τ.nSub)

/-- The 64 words at row r, columns x0 .. x0+63 of slot b of the [2,128,128] scratch. -/
abbrev dstA (off : Fin 3 → ℕ) (hin : ∀ a, off a + S1x1x64.size a ≤ S2x128x128.size a) : Memref sig .scVector .vmem S64 .f32 :=
  ((rAW).slice (Rect.unit (s := S2x128x128) off S1x1x64.size hin) (fun _ => rfl)).squeeze S64 squeezes_S1x1x64_S64
/-- The same of the [2,16,1280] scratch. -/
abbrev dstB (off : Fin 3 → ℕ) (hin : ∀ a, off a + S1x1x64.size a ≤ S2x16x1280.size a) : Memref sig .scVector .vmem S64 .f32 :=
  ((rBW).slice (Rect.unit (s := S2x16x1280) off S1x1x64.size hin) (fun _ => rfl)).squeeze S64 squeezes_S1x1x64_S64
/-- Row v of the table. -/
abbrev srcT (soff : Fin 2 → ℕ) (hin : ∀ a, soff a + S1x64.size a ≤ S1000000x64.size a) : Memref sig .scVector .hbm S64 .f32 :=
  ((tbW).slice (Rect.unit (s := S1000000x64) soff S1x64.size hin) (fun _ => rfl)).squeeze S64 squeezes_S1x64_S64

theorem dstA_set (off : Fin 3 → ℕ) (hin) : (dstA off hin).view.set = (Rect.unit (s := S2x128x128) off S1x1x64.size hin).set :=
  (View.set_reshape _ _).trans (View.set_slice_whole _ _)
theorem dstB_set (off : Fin 3 → ℕ) (hin) : (dstB off hin).view.set = (Rect.unit (s := S2x16x1280) off S1x1x64.size hin).set :=
  (View.set_reshape _ _).trans (View.set_slice_whole _ _)

theorem srcT_set (soff : Fin 2 → ℕ) (hin) : (srcT soff hin).view.set = (Rect.unit (s := S1000000x64) soff S1x64.size hin).set :=
  (View.set_reshape _ _).trans (View.set_slice_whole _ _)

theorem sq3 (x : S64.Idx) : Shape.reshapeEquiv (s := S1x1x64) (s' := S64) squeezes_S1x1x64_S64.numel_eq x
    = (fun a => if h : a = 2 then ⟨(x 0).val, by subst h; exact (x 0).isLt⟩ else ⟨0, by fin_cases a <;> first | exact absurd rfl h | decide⟩ : S1x1x64.Idx) := by
  apply Shape.reshapeEquiv_eq_of_rowMajor
  rw [Shape.rowMajor_val_three, Shape.rowMajor_val_one]
  simp

theorem dstA_emb (off : Fin 3 → ℕ) (hin) (x : S64.Idx) (a : Fin 3) :
    (((dstA off hin).view.emb x) a).val = off a + (if a = 2 then (x 0).val else 0) := by
  show ((Rect.unit (s := S2x128x128) off S1x1x64.size hin).emb (Shape.reshapeEquiv squeezes_S1x1x64_S64.numel_eq x) a : ℕ) = _
  rw [Rect.emb_apply, sq3]
  fin_cases a <;> simp
theorem dstB_emb (off : Fin 3 → ℕ) (hin) (x : S64.Idx) (a : Fin 3) :
    (((dstB off hin).view.emb x) a).val = off a + (if a = 2 then (x 0).val else 0) := by
  show ((Rect.unit (s := S2x16x1280) off S1x1x64.size hin).emb (Shape.reshapeEquiv squeezes_S1x1x64_S64.numel_eq x) a : ℕ) = _
  rw [Rect.emb_apply, sq3]
  fin_cases a <;> simp

theorem srcT_emb (soff : Fin 2 → ℕ) (hin) (x : S64.Idx) (a : Fin 2) :
    (((srcT soff hin).view.emb x) a).val = soff a + (if a = 1 then (x 0).val else 0) := by
  have hx : (x 0).val < 64 := (x 0).isLt
  have hz : Shape.reshapeEquiv (s := S1x64) (s' := S64) squeezes_S1x64_S64.numel_eq x = (fun a => if h : a = 1 then ⟨(x 0).val, by subst h; exact hx⟩ else ⟨0, by fin_cases a <;> first | exact absurd rfl h | decide⟩ : S1x64.Idx) := by
    apply Shape.reshapeEquiv_eq_of_rowMajor
    rw [Shape.rowMajor_val_two, Shape.rowMajor_val_one]
    simp
  show ((Rect.unit (s := S1000000x64) soff S1x64.size hin).emb (Shape.reshapeEquiv squeezes_S1x64_S64.numel_eq x) a : ℕ) = _
  rw [Rect.emb_apply, hz]
  fin_cases a <;> simp

/-- What a copy of a table row into a piece leaves at the piece's x-th word: the row's x-th word. -/
theorem write_valA (off : Fin 3 → ℕ) (hin) (soff : Fin 2 → ℕ) (hsin)
    (fd : Buf (Elt F) ((V d cc jj).loc cc1_scratch1)) (tbl : Buf (Elt F) (a4Loc d)) (x : S64.Idx) :
    ((dstA off hin).view.write (Elt F) fd ((ReadAs.same : ReadAs (Elt F) S64 .f32 S64 .f32).apply ((srcT soff hsin).view.read (Elt F) tbl)) Finset.univ ((dstA off hin).view.emb x) : Elt F .f32)
      = tbl ((srcT soff hsin).view.emb x) := by
  rw [View.write_emb_of_mem _ _ (Finset.mem_univ x)]
  rfl
theorem write_valB (off : Fin 3 → ℕ) (hin) (soff : Fin 2 → ℕ) (hsin)
    (fd : Buf (Elt F) ((V d cc jj).loc cc1_scratch2)) (tbl : Buf (Elt F) (a4Loc d)) (x : S64.Idx) :
    ((dstB off hin).view.write (Elt F) fd ((ReadAs.same : ReadAs (Elt F) S64 .f32 S64 .f32).apply ((srcT soff hsin).view.read (Elt F) tbl)) Finset.univ ((dstB off hin).view.emb x) : Elt F .f32)
      = tbl ((srcT soff hsin).view.emb x) := by
  rw [View.write_emb_of_mem _ _ (Finset.mem_univ x)]
  rfl
end Views

/-! ## One issue of a batch's next transfer: a table row into a piece of a rows scratch -/

section Issue

variable (d : Dev nD) (cc : Fin τ.nSC) (jj : Fin τ.nSub)

theorem issueA {n : ℕ} {α : Type} (sem : DmaSem sig) (N : ℕ) (off : Fin 3 → ℕ) (hin) (soff : Fin 2 → ℕ) (hsin)
    (hN : (dstA off hin).view.dmaCredit = N)
    (D : Fin n → sProp 𝕄) (j u : ℕ) (hj : j < n) (hu : u ≤ j * N)
    (R : Finset (Idx ((V d cc jj).loc cc1_scratch1))) (hsub : (dstA off hin).view.set ⊆ R)
    (q : PosShare TreeShare) (tbl : Buf (Elt F) (a4Loc d)) (f0 : Buf (Elt F) ((V d cc jj).loc cc1_scratch1))
    (hD : ((V d cc jj).loc cc1_scratch1 ↦[(dstA off hin).view.set]{fullShare}
            ((dstA off hin).view.write (Elt F) f0 ((ReadAs.same : ReadAs (Elt F) S64 .f32 S64 .f32).apply ((srcT soff hsin).view.read (Elt F) tbl)) Finset.univ) : sProp 𝕄) ⊢ D ⟨j, hj⟩)
    {hs hd ht} {k : PUnit → Prog (TpuEff nD τ sig (Elt F) Λ₀ (V d cc jj).2) α} {Q : α → sProp 𝕄} :
    iprop((a4Loc d ↦{q} tbl) ∗ ((V d cc jj).loc cc1_scratch1 ↦[R]{fullShare} f0)
        ∗ Transfers.Batch countersEmb (V d cc jj) (.dma sem) (none : HIx 2) N D j u)
      ⊢ iprop((iprop((a4Loc d ↦{q.left} tbl) ∗ ((V d cc jj).loc cc1_scratch1 ↦[R \ (dstA off hin).view.set]{fullShare} f0)
            ∗ Transfers.Batch countersEmb (V d cc jj) (.dma sem) (none : HIx 2) N D (j + 1) u)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstA off hin)) .same (.dma sem) hs hd ht) k) Q) := by
  iintro ⟨Ht, Hr, HB⟩ Hk
  ihave Ht2 := (pointsTo_share (PosShare.mem_left_op_right q)).1 $$ Ht
  icases Ht2 with ⟨Htl, Htr⟩
  ihave Hs := (pointsTo_split_subset (Finset.subset_univ (srcT soff hsin).view.set)).1 $$ Htr
  icases Hs with ⟨Hs, -⟩
  ihave Hr2 := (pointsTo_split_subset hsub).1 $$ Hr
  icases Hr2 with ⟨Hd, Hrest⟩
  iapply (Transfers.wp_dmaBatch countersEmb 𝒱₀ (V d cc jj) none (none : HIx 2) N
    (dst := dstA off hin) (src := srcT soff hsin) (sm := .dma sem) (show (dstA off hin).view.amount (.dma sem) = N from hN) (Finset.Subset.refl _) hj hu
    (q := q.right) (fs := tbl) (fd := f0) ?hD) $$ [Hs Hd HB]
  case hD =>
    iintro ⟨Hd, -⟩
    iapply hD; iexact Hd
  · isplitl [Hs]; · iexact Hs
    isplitl [Hd]; · iexact Hd
    iexact HB
  iintro HB
  iapply Hk
  isplitl [Htl]; · iexact Htl
  isplitl [Hrest]; · iexact Hrest
  iexact HB

theorem issueB {n : ℕ} {α : Type} (sem : DmaSem sig) (N : ℕ) (off : Fin 3 → ℕ) (hin) (soff : Fin 2 → ℕ) (hsin)
    (hN : (dstB off hin).view.dmaCredit = N)
    (D : Fin n → sProp 𝕄) (j u : ℕ) (hj : j < n) (hu : u ≤ j * N)
    (R : Finset (Idx ((V d cc jj).loc cc1_scratch2))) (hsub : (dstB off hin).view.set ⊆ R)
    (q : PosShare TreeShare) (tbl : Buf (Elt F) (a4Loc d)) (f0 : Buf (Elt F) ((V d cc jj).loc cc1_scratch2))
    (hD : ((V d cc jj).loc cc1_scratch2 ↦[(dstB off hin).view.set]{fullShare}
            ((dstB off hin).view.write (Elt F) f0 ((ReadAs.same : ReadAs (Elt F) S64 .f32 S64 .f32).apply ((srcT soff hsin).view.read (Elt F) tbl)) Finset.univ) : sProp 𝕄) ⊢ D ⟨j, hj⟩)
    {hs hd ht} {k : PUnit → Prog (TpuEff nD τ sig (Elt F) Λ₀ (V d cc jj).2) α} {Q : α → sProp 𝕄} :
    iprop((a4Loc d ↦{q} tbl) ∗ ((V d cc jj).loc cc1_scratch2 ↦[R]{fullShare} f0)
        ∗ Transfers.Batch countersEmb (V d cc jj) (.dma sem) (none : HIx 2) N D j u)
      ⊢ iprop((iprop((a4Loc d ↦{q.left} tbl) ∗ ((V d cc jj).loc cc1_scratch2 ↦[R \ (dstB off hin).view.set]{fullShare} f0)
            ∗ Transfers.Batch countersEmb (V d cc jj) (.dma sem) (none : HIx 2) N D (j + 1) u)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstB off hin)) .same (.dma sem) hs hd ht) k) Q) := by
  iintro ⟨Ht, Hr, HB⟩ Hk
  ihave Ht2 := (pointsTo_share (PosShare.mem_left_op_right q)).1 $$ Ht
  icases Ht2 with ⟨Htl, Htr⟩
  ihave Hs := (pointsTo_split_subset (Finset.subset_univ (srcT soff hsin).view.set)).1 $$ Htr
  icases Hs with ⟨Hs, -⟩
  ihave Hr2 := (pointsTo_split_subset hsub).1 $$ Hr
  icases Hr2 with ⟨Hd, Hrest⟩
  iapply (Transfers.wp_dmaBatch countersEmb 𝒱₀ (V d cc jj) none (none : HIx 2) N
    (dst := dstB off hin) (src := srcT soff hsin) (sm := .dma sem) (show (dstB off hin).view.amount (.dma sem) = N from hN) (Finset.Subset.refl _) hj hu
    (q := q.right) (fs := tbl) (fd := f0) ?hD) $$ [Hs Hd HB]
  case hD =>
    iintro ⟨Hd, -⟩
    iapply hD; iexact Hd
  · isplitl [Hs]; · iexact Hs
    isplitl [Hd]; · iexact Hd
    iexact HB
  iintro HB
  iapply Hk
  isplitl [Htl]; · iexact Htl
  isplitl [Hrest]; · iexact Hrest
  iexact HB

end Issue

/-! ## One wait of a batch: not the last (nothing learnt), and the last (every delivery back) -/

section Wait

variable (c : Thread nD τ)

/-- What the thread owes, with the waits at index none it has made since the start recorded. -/
abbrev owesN (O : CellTallies nD τ sig (HIx 2)) (W : Waits sig (HIx 2)) : sProp 𝕄 :=
  iprop(∃ W', ⌜∀ p ∈ W', p ∈ W ∨ p.2 = none⌝ ∗ owes c O W')

theorem owesN_intro (O : CellTallies nD τ sig (HIx 2)) (W : Waits sig (HIx 2)) : (owes c O W : sProp 𝕄) ⊢ owesN (F := F) c O W := by
  iintro HO; iexists W; isplitr
  · ipureintro; exact fun p hp => .inl hp
  · iexact HO

theorem owesN_insert (O : CellTallies nD τ sig (HIx 2)) (W W' : Waits sig (HIx 2)) (sm : SemLoc sig) (hW : ∀ p ∈ W', p ∈ W ∨ p.2 = none) :
    (owes c O (insert (sm, (none : HIx 2)) W') : sProp 𝕄) ⊢ owesN (F := F) c O W := by
  iintro HO; iexists (insert (sm, (none : HIx 2)) W'); isplitr
  · ipureintro; intro p hp
    rcases Finset.mem_insert.mp hp with hp | hp
    · subst hp; exact .inr rfl
    · exact hW p hp
  · iexact HO

theorem waitSkip {n : ℕ} {α : Type} (sem : DmaSem sig) (N : ℕ) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (D : Fin n → sProp 𝕄) (u : ℕ) (hu : u + N < N * n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n u ∗ owesN (F := F) c O W)
      ⊢ iprop((iprop(Transfers.Batch countersEmb c (.dma sem) (none : HIx 2) N D n (u + N) ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) := by
  iintro ⟨#Hlv, HB, %W', %hW', HO⟩ Hk
  iapply (Transfers.wp_waitBatchO countersEmb 𝒱₀ c none (none : HIx 2) hN hu (O := O) (W := W')) $$ [HB HO]
  · isplitl [HB]; · iexact HB
    isplitl [HO]; · iexact HO
    iapply ((K (F := F)).mayWait_none (SemLoc.dma sem) hO); iexact Hlv
  iintro ⟨HB, HO⟩
  iapply Hk
  isplitl [HB]; · iexact HB
  iapply (owesN_insert (F := F) c O W W' (SemLoc.dma sem) hW'); iexact HO

theorem waitLast {n : ℕ} {α : Type} (sem : DmaSem sig) (N : ℕ) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (hN0 : 0 < N) (D : Fin n → sProp 𝕄) (u : ℕ) (hu : u + N = N * n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n u ∗ owesN (F := F) c O W)
      ⊢ iprop((iprop(bigSep Finset.univ D ∗ semVal (c, SemLoc.dma sem) 0 ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) := by
  iintro ⟨#Hlv, HB, %W', %hW', HO⟩ Hk
  iapply (Transfers.wp_waitBatchLastO countersEmb 𝒱₀ c none (none : HIx 2) hN hN0 hu (O := O) (W := W')) $$ [HB HO]
  · isplitl [HB]; · iexact HB
    isplitl [HO]; · iexact HO
    iapply ((K (F := F)).mayWait_none (SemLoc.dma sem) hO); iexact Hlv
  iintro ⟨HD, Hv, HO⟩
  iapply Hk
  isplitl [HD]; · iexact HD
  isplitl [Hv]; · iexact Hv
  iapply (owesN_insert (F := F) c O W W' (SemLoc.dma sem) hW'); iexact HO

end Wait

/-! ## The pieces of a slot, by transfer number -/

section Sets

/-- The number of the transfer whose piece holds an element: of the [2,128,128] scratch, row r columns 64 h .. 64 h + 63 is
    piece 2 r + h; of the [2,16,1280] scratch, row r columns 64 s .. is piece 20 r + s. -/
def pieceNoA (y : S2x128x128.Idx) : ℕ := 2 * (y 1).val + (y 2).val / 64
def pieceNoB (y : S2x16x1280.Idx) : ℕ := 20 * (y 1).val + (y 2).val / 64

def pieceA (b t : ℕ) : Finset S2x128x128.Idx := Finset.univ.filter fun y => (y 0).val = b ∧ pieceNoA y = t
def remA (b t : ℕ) : Finset S2x128x128.Idx := Finset.univ.filter fun y => (y 0).val = b ∧ t ≤ pieceNoA y
def pieceB (b t : ℕ) : Finset S2x16x1280.Idx := Finset.univ.filter fun y => (y 0).val = b ∧ pieceNoB y = t
def remB (b t : ℕ) : Finset S2x16x1280.Idx := Finset.univ.filter fun y => (y 0).val = b ∧ t ≤ pieceNoB y

theorem mem_pieceA (b t : ℕ) (y : S2x128x128.Idx) : y ∈ pieceA b t ↔ ((y 0).val = b ∧ 2 * (y 1).val + (y 2).val / 64 = t) := by
  unfold pieceA pieceNoA; rw [Finset.mem_filter]; simp only [Finset.mem_univ, true_and]
theorem mem_remA (b t : ℕ) (y : S2x128x128.Idx) : y ∈ remA b t ↔ ((y 0).val = b ∧ t ≤ 2 * (y 1).val + (y 2).val / 64) := by
  unfold remA pieceNoA; rw [Finset.mem_filter]; simp only [Finset.mem_univ, true_and]
theorem mem_pieceB (b t : ℕ) (y : S2x16x1280.Idx) : y ∈ pieceB b t ↔ ((y 0).val = b ∧ 20 * (y 1).val + (y 2).val / 64 = t) := by
  unfold pieceB pieceNoB; rw [Finset.mem_filter]; simp only [Finset.mem_univ, true_and]
theorem mem_remB (b t : ℕ) (y : S2x16x1280.Idx) : y ∈ remB b t ↔ ((y 0).val = b ∧ t ≤ 20 * (y 1).val + (y 2).val / 64) := by
  unfold remB pieceNoB; rw [Finset.mem_filter]; simp only [Finset.mem_univ, true_and]

theorem rectA_eq (b t : ℕ) (hin) : (Rect.unit (s := S2x128x128) ![b, t / 2, (t % 2) * 64] S1x1x64.size hin).set = pieceA b t := by
  ext y
  have h2 : (y 2).val < 128 := (y 2).isLt
  rw [Rect.mem_set_unit, mem_pieceA]
  constructor
  · intro H
    have a0 : b ≤ (y 0).val ∧ (y 0).val < b + 1 := H 0
    have a1 : t / 2 ≤ (y 1).val ∧ (y 1).val < t / 2 + 1 := H 1
    have a2 : (t % 2) * 64 ≤ (y 2).val ∧ (y 2).val < (t % 2) * 64 + 64 := H 2
    omega
  · intro H a; fin_cases a
    · show b ≤ (y 0).val ∧ (y 0).val < b + 1; omega
    · show t / 2 ≤ (y 1).val ∧ (y 1).val < t / 2 + 1; omega
    · show (t % 2) * 64 ≤ (y 2).val ∧ (y 2).val < (t % 2) * 64 + 64; omega

theorem rectB_eq (b t : ℕ) (hin) : (Rect.unit (s := S2x16x1280) ![b, t / 20, (t % 20) * 64] S1x1x64.size hin).set = pieceB b t := by
  ext y
  have h2 : (y 2).val < 1280 := (y 2).isLt
  rw [Rect.mem_set_unit, mem_pieceB]
  constructor
  · intro H
    have a0 : b ≤ (y 0).val ∧ (y 0).val < b + 1 := H 0
    have a1 : t / 20 ≤ (y 1).val ∧ (y 1).val < t / 20 + 1 := H 1
    have a2 : (t % 20) * 64 ≤ (y 2).val ∧ (y 2).val < (t % 20) * 64 + 64 := H 2
    omega
  · intro H a; fin_cases a
    · show b ≤ (y 0).val ∧ (y 0).val < b + 1; omega
    · show t / 20 ≤ (y 1).val ∧ (y 1).val < t / 20 + 1; omega
    · show (t % 20) * 64 ≤ (y 2).val ∧ (y 2).val < (t % 20) * 64 + 64; omega

theorem pieceA_sub (b t : ℕ) : pieceA b t ⊆ remA b t := by
  intro y; rw [mem_pieceA, mem_remA]; omega
theorem remA_step (b t : ℕ) : remA b t \ pieceA b t = remA b (t + 1) := by
  ext y; rw [Finset.mem_sdiff, mem_pieceA, mem_remA, mem_remA]; omega
theorem pieceB_sub (b t : ℕ) : pieceB b t ⊆ remB b t := by
  intro y; rw [mem_pieceB, mem_remB]; omega
theorem remB_step (b t : ℕ) : remB b t \ pieceB b t = remB b (t + 1) := by
  ext y; rw [Finset.mem_sdiff, mem_pieceB, mem_remB, mem_remB]; omega

end Sets

/-! ## The index words a trip reads -/

section Words

/-- Lane u of a 16-word vector, as the body extracts it. -/
theorem lane_eq (v : S16.Idx → BitVec 32) (u : ℕ) (hu : u < 16) (hc : S16.ShapeCasts S16) (hs : S16.Slices ![u] S1) (hp : ∀ a, (![0] : Fin 1 → ℕ) a < S1.size a) :
    extractAt ![0] (extractStridedSlice S1 ![u] (shapeCast S16 v hc) hs) hp = v (ValueIdx.ix1 (⟨u, hu⟩ : Fin 16)) := by
  unfold extractAt
  rw [extractStridedSlice_apply ![u] _ hs _ (ValueIdx.ix1 (⟨u, hu⟩ : Fin 16)) (by intro a; fin_cases a; simp [ValueIdx.ix1]), shapeCast_self]

/-- A word below 1,000,000 names a row of the table: the body's check of the row slice passes. -/
theorem chk_of_lt (v : BitVec 32) (hv : v.toNat < 1000000) : ∀ a, (![v.toNat, 0] : Fin 2 → ℕ) a + S1x64.size a ≤ S1000000x64.size a := by
  intro a; fin_cases a
  · show v.toNat + 1 ≤ 1000000; omega
  · show 0 + 64 ≤ 64; omega

end Words

end Cert.Proof.KI.K1

end
-- ==== Proof.K1A.lean ====
import proofs.«215896_g38397007626377_fold_wed_m_942_26_alg».proof.Proof.KISetup
import proofs.«215896_g38397007626377_fold_wed_m_942_26_alg».proof.Proof.Gen.KernelIdeal.Skeleton
import proofs.«215896_g38397007626377_fold_wed_m_942_26_alg».proof.Proof.K1Common

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

/-! ## The destination pieces' offsets in closed form: copy 16 k + u of a chunk lands at row (16 k + u) / 2, half (16 k + u) % 2 -/

section Offsets
theorem off_t1_0 : ∀ k : Fin k1_t1_loop.trips, k1_off5 k 0#32 = ![0, (16 * k.val + 0) / 2, ((16 * k.val + 0) % 2) * 64] := by decide +kernel
theorem off_t1_1 : ∀ k : Fin k1_t1_loop.trips, k1_off7 k 1#32 = ![0, (16 * k.val + 1) / 2, ((16 * k.val + 1) % 2) * 64] := by decide +kernel
theorem off_t1_2 : ∀ k : Fin k1_t1_loop.trips, k1_off9 k 2#32 = ![0, (16 * k.val + 2) / 2, ((16 * k.val + 2) % 2) * 64] := by decide +kernel
theorem off_t1_3 : ∀ k : Fin k1_t1_loop.trips, k1_off11 k 3#32 = ![0, (16 * k.val + 3) / 2, ((16 * k.val + 3) % 2) * 64] := by decide +kernel
theorem off_t1_4 : ∀ k : Fin k1_t1_loop.trips, k1_off13 k 4#32 = ![0, (16 * k.val + 4) / 2, ((16 * k.val + 4) % 2) * 64] := by decide +kernel
theorem off_t1_5 : ∀ k : Fin k1_t1_loop.trips, k1_off15 k 5#32 = ![0, (16 * k.val + 5) / 2, ((16 * k.val + 5) % 2) * 64] := by decide +kernel
theorem off_t1_6 : ∀ k : Fin k1_t1_loop.trips, k1_off17 k 6#32 = ![0, (16 * k.val + 6) / 2, ((16 * k.val + 6) % 2) * 64] := by decide +kernel
theorem off_t1_7 : ∀ k : Fin k1_t1_loop.trips, k1_off19 k 7#32 = ![0, (16 * k.val + 7) / 2, ((16 * k.val + 7) % 2) * 64] := by decide +kernel
theorem off_t1_8 : ∀ k : Fin k1_t1_loop.trips, k1_off21 k 8#32 = ![0, (16 * k.val + 8) / 2, ((16 * k.val + 8) % 2) * 64] := by decide +kernel
theorem off_t1_9 : ∀ k : Fin k1_t1_loop.trips, k1_off23 k 9#32 = ![0, (16 * k.val + 9) / 2, ((16 * k.val + 9) % 2) * 64] := by decide +kernel
theorem off_t1_10 : ∀ k : Fin k1_t1_loop.trips, k1_off25 k 10#32 = ![0, (16 * k.val + 10) / 2, ((16 * k.val + 10) % 2) * 64] := by decide +kernel
theorem off_t1_11 : ∀ k : Fin k1_t1_loop.trips, k1_off27 k 11#32 = ![0, (16 * k.val + 11) / 2, ((16 * k.val + 11) % 2) * 64] := by decide +kernel
theorem off_t1_12 : ∀ k : Fin k1_t1_loop.trips, k1_off29 k 12#32 = ![0, (16 * k.val + 12) / 2, ((16 * k.val + 12) % 2) * 64] := by decide +kernel
theorem off_t1_13 : ∀ k : Fin k1_t1_loop.trips, k1_off31 k 13#32 = ![0, (16 * k.val + 13) / 2, ((16 * k.val + 13) % 2) * 64] := by decide +kernel
theorem off_t1_14 : ∀ k : Fin k1_t1_loop.trips, k1_off33 k 14#32 = ![0, (16 * k.val + 14) / 2, ((16 * k.val + 14) % 2) * 64] := by decide +kernel
theorem off_t1_15 : ∀ k : Fin k1_t1_loop.trips, k1_off35 k = ![0, (16 * k.val + 15) / 2, ((16 * k.val + 15) % 2) * 64] := by decide +kernel
theorem off_t2_0 : ∀ k : Fin k1_t2_loop.trips, k1_off40 k 0#32 = ![1, (16 * k.val + 0) / 2, ((16 * k.val + 0) % 2) * 64] := by decide +kernel
theorem off_t2_1 : ∀ k : Fin k1_t2_loop.trips, k1_off42 k 1#32 = ![1, (16 * k.val + 1) / 2, ((16 * k.val + 1) % 2) * 64] := by decide +kernel
theorem off_t2_2 : ∀ k : Fin k1_t2_loop.trips, k1_off44 k 2#32 = ![1, (16 * k.val + 2) / 2, ((16 * k.val + 2) % 2) * 64] := by decide +kernel
theorem off_t2_3 : ∀ k : Fin k1_t2_loop.trips, k1_off46 k 3#32 = ![1, (16 * k.val + 3) / 2, ((16 * k.val + 3) % 2) * 64] := by decide +kernel
theorem off_t2_4 : ∀ k : Fin k1_t2_loop.trips, k1_off48 k 4#32 = ![1, (16 * k.val + 4) / 2, ((16 * k.val + 4) % 2) * 64] := by decide +kernel
theorem off_t2_5 : ∀ k : Fin k1_t2_loop.trips, k1_off50 k 5#32 = ![1, (16 * k.val + 5) / 2, ((16 * k.val + 5) % 2) * 64] := by decide +kernel
theorem off_t2_6 : ∀ k : Fin k1_t2_loop.trips, k1_off52 k 6#32 = ![1, (16 * k.val + 6) / 2, ((16 * k.val + 6) % 2) * 64] := by decide +kernel
theorem off_t2_7 : ∀ k : Fin k1_t2_loop.trips, k1_off54 k 7#32 = ![1, (16 * k.val + 7) / 2, ((16 * k.val + 7) % 2) * 64] := by decide +kernel
theorem off_t2_8 : ∀ k : Fin k1_t2_loop.trips, k1_off56 k 8#32 = ![1, (16 * k.val + 8) / 2, ((16 * k.val + 8) % 2) * 64] := by decide +kernel
theorem off_t2_9 : ∀ k : Fin k1_t2_loop.trips, k1_off58 k 9#32 = ![1, (16 * k.val + 9) / 2, ((16 * k.val + 9) % 2) * 64] := by decide +kernel
theorem off_t2_10 : ∀ k : Fin k1_t2_loop.trips, k1_off60 k 10#32 = ![1, (16 * k.val + 10) / 2, ((16 * k.val + 10) % 2) * 64] := by decide +kernel
theorem off_t2_11 : ∀ k : Fin k1_t2_loop.trips, k1_off62 k 11#32 = ![1, (16 * k.val + 11) / 2, ((16 * k.val + 11) % 2) * 64] := by decide +kernel
theorem off_t2_12 : ∀ k : Fin k1_t2_loop.trips, k1_off64 k 12#32 = ![1, (16 * k.val + 12) / 2, ((16 * k.val + 12) % 2) * 64] := by decide +kernel
theorem off_t2_13 : ∀ k : Fin k1_t2_loop.trips, k1_off66 k 13#32 = ![1, (16 * k.val + 13) / 2, ((16 * k.val + 13) % 2) * 64] := by decide +kernel
theorem off_t2_14 : ∀ k : Fin k1_t2_loop.trips, k1_off68 k 14#32 = ![1, (16 * k.val + 14) / 2, ((16 * k.val + 14) % 2) * 64] := by decide +kernel
theorem off_t2_15 : ∀ k : Fin k1_t2_loop.trips, k1_off70 k = ![1, (16 * k.val + 15) / 2, ((16 * k.val + 15) % 2) * 64] := by decide +kernel

end Offsets

/-! ## What the rows scratch holds when a chunk has landed -/

section Final

variable (m : (ℓ : Loc nD τ sig) → Buf (Elt F) ℓ) (d : Dev nD) (cc : Fin τ.nSC) (jj : Fin τ.nSub)

theorem inb000 : ∀ a, (![0, 0, 0] : Fin 3 → ℕ) a + S1x1x64.size a ≤ S2x128x128.size a := by decide
/-- What one piece's copy credits its semaphore. -/
def NA : ℕ := (dstA ![0, 0, 0] inb000).view.dmaCredit

/-- Slot b, row r of the scratch is row 256 w + 128 b + r of the worker's block of the [8192,128] result. -/
def FA (w : ℕ) : Buf (Elt F) ((V d cc jj).loc cc1_scratch1) :=
  fun y => G2 m d (ValueIdx.ix2 (⟨(256 * w + 128 * (y 0).val + (y 1).val) % 8192, Nat.mod_lt _ (by decide)⟩ : Fin 8192) (⟨(y 2).val, (y 2).isLt⟩ : Fin 128))

/-- The deliveries of a chunk's batch, by transfer number: piece t of slot b at the final contents. -/
def DA (w b : ℕ) : Fin 256 → sProp 𝕄 := fun t => (V d cc jj).loc cc1_scratch1 ↦[pieceA b t.val]{fullShare} FA m d cc jj w

/-- The index scratch holds the chunk's words: word i is word s + i of the output words. -/
def IdxHoldsA (s : ℕ) (fI : Buf (Elt F) ((V d cc jj).loc cc1_scratch0)) : Prop :=
  ∀ i : Fin 320, i.val < 256 → fI (ValueIdx.ix1 i) = m (a1Loc d) (ValueIdx.ix1 (⟨(s + i.val) % 16384, Nat.mod_lt _ (by decide)⟩ : Fin 16384))

end Final

/-! ## The value a piece's copy lands, and the issue with everything spelt for a chunk of the output words -/

section IssueA

variable (m : (ℓ : Loc nD τ sig) → Buf (Elt F) ℓ) (d : Dev nD) (cc : Fin τ.nSC) (jj : Fin τ.nSub)

theorem valueA (w b t : ℕ) (hw : w < 32) (hb : b < 2) (ht : t < 256) (hin) (v : BitVec 32) (hsin)
    (hv : v = m (a1Loc d) (ValueIdx.ix1 (⟨(512 * w + 256 * b + t) % 16384, Nat.mod_lt _ (by decide)⟩ : Fin 16384))) (hlt : v.toNat < 1000000)
    (f0 : Buf (Elt F) ((V d cc jj).loc cc1_scratch1)) (y : (dstA ![b, t / 2, (t % 2) * 64] hin).view.ty.Idx)
    (hy : y ∈ (dstA ![b, t / 2, (t % 2) * 64] hin).view.set) :
    ((dstA ![b, t / 2, (t % 2) * 64] hin).view.write (Elt F) f0
        ((ReadAs.same : ReadAs (Elt F) S64 .f32 S64 .f32).apply ((srcT ![v.toNat, 0] hsin).view.read (Elt F) (m (a4Loc d)))) Finset.univ y : Elt F .f32)
      = FA m d cc jj w y := by
  obtain ⟨x, -, rfl⟩ := Finset.mem_map.mp hy
  have hx : (x 0).val < 64 := (x 0).isLt
  rw [write_valA]
  have e0 : (((dstA ![b, t / 2, (t % 2) * 64] hin).view.emb x) 0).val = b := by rw [dstA_emb]; simp
  have e1 : (((dstA ![b, t / 2, (t % 2) * 64] hin).view.emb x) 1).val = t / 2 := by rw [dstA_emb]; simp
  have e2 : (((dstA ![b, t / 2, (t % 2) * 64] hin).view.emb x) 2).val = (t % 2) * 64 + (x 0).val := by rw [dstA_emb]; simp
  have s0 : (((srcT ![v.toNat, 0] hsin).view.emb x) 0).val = v.toNat := by rw [srcT_emb]; simp
  have s1 : (((srcT ![v.toNat, 0] hsin).view.emb x) 1).val = (x 0).val := by rw [srcT_emb]; simp
  have hP : pairPos (ValueIdx.ix2 (⟨(256 * w + 128 * (((dstA ![b, t / 2, (t % 2) * 64] hin).view.emb x) 0).val + (((dstA ![b, t / 2, (t % 2) * 64] hin).view.emb x) 1).val) % 8192, Nat.mod_lt _ (by decide)⟩ : Fin 8192)
        (⟨(((dstA ![b, t / 2, (t % 2) * 64] hin).view.emb x) 2).val, Fin.isLt _⟩ : Fin 128))
      = (⟨(512 * w + 256 * b + t) % 16384, Nat.mod_lt _ (by decide)⟩ : Fin 16384) := by
    apply Fin.ext
    show 2 * ((256 * w + 128 * (((dstA ![b, t / 2, (t % 2) * 64] hin).view.emb x) 0).val + (((dstA ![b, t / 2, (t % 2) * 64] hin).view.emb x) 1).val) % 8192)
      + (((dstA ![b, t / 2, (t % 2) * 64] hin).view.emb x) 2).val / 64 = (512 * w + 256 * b + t) % 16384
    rw [e0, e1, e2]; omega
  unfold FA G2 packA Spec.take2
  refine congrArg (m (a4Loc d)) (funext fun a => Fin.ext ?_)
  fin_cases a
  · show (((srcT ![v.toNat, 0] hsin).view.emb x) 0).val = (Spec.rowOf (m (a1Loc d) (ValueIdx.ix1 (pairPos _)))).val
    rw [s0, hP, ← hv, Spec.rowOf_val_of_lt hlt]
  · show (((srcT ![v.toNat, 0] hsin).view.emb x) 1).val = (((dstA ![b, t / 2, (t % 2) * 64] hin).view.emb x) 2).val % 64
    rw [s1, e2]; omega

theorem NA_eq (off : Fin 3 → ℕ) (hin) : (dstA off hin).view.dmaCredit = NA := rfl

/-- The issue of copy t of slot b's chunk: the table row the chunk's t-th word names into piece t. -/
theorem issueA' {α : Type} (w b t : ℕ) (hw : w < 32) (hb : b < 2) (ht : t < 256) (sem : DmaSem sig)
    (off : Fin 3 → ℕ) (hin) (soff : Fin 2 → ℕ) (hsin) (v : BitVec 32) (j : ℕ) (hjt : j = t)
    (hoff : off = ![b, t / 2, (t % 2) * 64]) (hsoff : soff = ![v.toNat, 0])
    (hv : v = m (a1Loc d) (ValueIdx.ix1 (⟨(512 * w + 256 * b + t) % 16384, Nat.mod_lt _ (by decide)⟩ : Fin 16384))) (hlt : v.toNat < 1000000)
    (q : PosShare TreeShare) (f0 : Buf (Elt F) ((V d cc jj).loc cc1_scratch1))
    {hs hd ht'} {k : PUnit → Prog (TpuEff nD τ sig (Elt F) Λ₀ (V d cc jj).2) α} {Q : α → sProp 𝕄} :
    iprop((a4Loc d ↦{q} m (a4Loc d)) ∗ ((V d cc jj).loc cc1_scratch1 ↦[remA b j]{fullShare} f0)
        ∗ Transfers.Batch countersEmb (V d cc jj) (.dma sem) (none : HIx 2) NA (DA m d cc jj w b) j 0)
      ⊢ iprop((iprop((a4Loc d ↦{q.left} m (a4Loc d)) ∗ ((V d cc jj).loc cc1_scratch1 ↦[remA b (j + 1)]{fullShare} f0)
            ∗ Transfers.Batch countersEmb (V d cc jj) (.dma sem) (none : HIx 2) NA (DA m d cc jj w b) (j + 1) 0)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstA off hin)) .same (.dma sem) hs hd ht') k) Q) := by
  subst hjt hoff hsoff
  have hset : (dstA ![b, j / 2, (j % 2) * 64] hin).view.set = pieceA b j := (dstA_set _ hin).trans (rectA_eq b j hin)
  iintro H Hk
  iapply (issueA d cc jj sem NA _ hin _ hsin (NA_eq _ hin) (DA m d cc jj w b) j 0 ht (Nat.zero_le _) (remA b j) (hset ▸ pieceA_sub b j) q (m (a4Loc d)) f0 ?hD) $$ H
  case hD =>
    refine (Entails.of_eq (pointsTo_congr fun y hy => valueA m d cc jj w b j hw hb ht hin v hsin hv hlt f0 y hy)).trans ?_
    rw [hset]; exact .rfl
  iintro ⟨Ht, Hr, HB⟩
  iapply Hk
  isplitl [Ht]; · iexact Ht
  isplitl [Hr]
  · rw [← remA_step b j, ← hset]; iexact Hr
  iexact HB

/-- The words a trip loads: lane u of the 16 words at 16 k of an index scratch that holds the chunk. -/
theorem wordA (s : ℕ) (fI : Buf (Elt F) ((V d cc jj).loc cc1_scratch0)) (hI : IdxHoldsA m d cc jj s fI)
    (k : ℕ) (hk : k < 16) (off : Fin 1 → ℕ) (hoff : off = ![16 * k]) (hin) (u : ℕ) (hu : u < 16) :
    (idW).view.readAt (Elt F) (Rect.unit (s := S320) off S16.size hin).toLoadRect fI (ValueIdx.ix1 (⟨u, hu⟩ : Fin 16))
      = m (a1Loc d) (ValueIdx.ix1 (⟨(s + (16 * k + u)) % 16384, Nat.mod_lt _ (by decide)⟩ : Fin 16384)) := by
  subst hoff
  have hidx : (Rect.unit (s := S320) ![16 * k] S16.size hin).toLoadRect.idx (ValueIdx.ix1 (⟨u, hu⟩ : Fin 16)) = ValueIdx.ix1 (⟨16 * k + u, by omega⟩ : Fin 320) := by
    funext a; apply Fin.ext; rw [LoadRect.idx_apply]; fin_cases a; simp [ValueIdx.ix1]
  show fI ((Rect.unit (s := S320) ![16 * k] S16.size hin).toLoadRect.idx (ValueIdx.ix1 (⟨u, hu⟩ : Fin 16))) = _
  rw [hidx, hI ⟨16 * k + u, by omega⟩ (by show 16 * k + u < 256; omega)]

end IssueA

section W0
/-- Worker 2 s + c. -/
def widL (L : grid1.Coords) : ℕ := 2 * (L 1).val + (L 0).val
theorem widL_lt (L : grid1.Coords) : widL L < 32 := by
  have h0 : (L 0).val < 2 := (L 0).isLt
  have h1 : (L 1).val < 16 := (L 1).isLt
  unfold widL; omega
end W0

/-! ## A wait of a batch with the consumed units counted in transfers -/

section Waits'

variable (c : Thread nD τ)

theorem skip_lt (N cnt n : ℕ) (hN : 0 < N) (h : cnt + 1 < n) : cnt * N + N < N * n := by
  have h2 := Nat.mul_le_mul_right N (Nat.succ_le_of_lt h)
  nlinarith [h2, hN]
theorem last_eq (N cnt n : ℕ) (h : cnt + 1 = n) : cnt * N + N = N * n := by subst h; ring

theorem waitSkip' {n : ℕ} {α : Type} (sem : DmaSem sig) (N : ℕ) (hN0 : 0 < N) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (D : Fin n → sProp 𝕄) (cnt : ℕ) (hc : cnt + 1 < n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n (cnt * N) ∗ owesN (F := F) c O W)
      ⊢ iprop((iprop(Transfers.Batch countersEmb c (.dma sem) (none : HIx 2) N D n ((cnt + 1) * N) ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) := by
  rw [show (cnt + 1) * N = cnt * N + N from Nat.succ_mul cnt N]
  exact waitSkip c sem N hN D (cnt * N) (skip_lt N cnt n hN0 hc) O hO W

theorem waitLast' {n : ℕ} {α : Type} (sem : DmaSem sig) (N : ℕ) (hN0 : 0 < N) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (D : Fin n → sProp 𝕄) (cnt : ℕ) (hc : cnt + 1 = n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n (cnt * N) ∗ owesN (F := F) c O W)
      ⊢ iprop((iprop(bigSep Finset.univ D ∗ semVal (c, SemLoc.dma sem) 0 ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) :=
  waitLast c sem N hN hN0 D (cnt * N) (last_eq N cnt n hc) O hO W

theorem NA_pos : 0 < NA := View.dmaCredit_pos _ (show 0 < S64.numel by decide)

end Waits'

/-! ## A copy and its wait, on a semaphore of its own held at zero -/

section Sync

variable (d : Dev nD) (cc : Fin τ.nSC) (jj : Fin τ.nSub)

theorem syncCopy {α : Type} {sp sp' : Space} {s : Shape} {e : EltTy}
    {src : Memref sig (V d cc jj).2.kind sp s e} {dst : Memref sig (V d cc jj).2.kind sp' s e}
    {srcw : Memref sig (V d cc jj).2.kind sp s e} {dstw : Memref sig (V d cc jj).2.kind sp' s e}
    (sem : DmaSem sig) (N : ℕ) (hN : dst.view.dmaCredit = N) (hN0 : 0 < N) (hNw : dstw.view.dmaCredit = N)
    (Sd : Finset (Idx (dst.view.loc (V d cc jj)))) (hSd : dst.view.set ⊆ Sd)
    (q : PosShare TreeShare) (fs : Buf (Elt F) (src.view.loc (V d cc jj))) (fd : Buf (Elt F) (dst.view.loc (V d cc jj)))
    (O : CellTallies nD τ sig (HIx 2)) (hO : ∀ g, O g none = 0) (W : Waits sig (HIx 2))
    {hs hd ht hs' hd'} {k : PUnit → Prog (TpuEff nD τ sig (Elt F) Λ₀ (V d cc jj).2) α} {Q : α → sProp 𝕄} :
    iprop(levAts (K (F := F)).L (K (F := F)).lev ∗ (src.view.loc (V d cc jj) ↦[src.view.set]{q} fs) ∗ (dst.view.loc (V d cc jj) ↦[Sd]{fullShare} fd)
        ∗ semVal ((V d cc jj), SemLoc.dma sem) 0 ∗ owesN (F := F) (V d cc jj) O W)
      ⊢ iprop((iprop((dst.view.loc (V d cc jj) ↦[Sd]{fullShare} (dst.view.write (Elt F) fd ((ReadAs.same : ReadAs (Elt F) s e s e).apply (src.view.read (Elt F) fs)) Finset.univ))
            ∗ (src.view.loc (V d cc jj) ↦[src.view.set]{q} fs) ∗ semVal ((V d cc jj), SemLoc.dma sem) 0 ∗ owesN (F := F) (V d cc jj) O W)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs src (.here dst) .same (.dma sem) hs hd ht) fun _ => .op (.waitDma2 sem srcw dstw hs' hd') k) Q) := by
  iintro ⟨#Hlv, Hs, Hd, Hsem, %W', %hW', HO⟩ Hk
  iapply (Transfers.wp_dmaLocal countersEmb 𝒱₀ (V d cc jj) none (none : HIx 2) N
    (dst := dst) (src := src) (sm := .dma sem) (show dst.view.amount (.dma sem) = N from hN) hN0 hSd (q := q) (fs := fs) (fd := fd)) $$ [Hs Hd Hsem]
  · isplitl [Hs]; · iexact Hs
    isplitl [Hd]; · iexact Hd
    iexact Hsem
  iintro HF
  iapply (Transfers.wp_waitLocalO countersEmb 𝒱₀ (V d cc jj) none (none : HIx 2) hNw (O := O) (W := W')) $$ [HF HO]
  · isplitl [HF]; · iexact HF
    isplitl [HO]; · iexact HO
    iapply ((K (F := F)).mayWait_none (SemLoc.dma sem) hO); iexact Hlv
  iintro ⟨⟨Hd, Hs⟩, Hsem, HO⟩
  iapply Hk
  isplitl [Hd]; · iexact Hd
  isplitl [Hs]; · iexact Hs
  isplitl [Hsem]; · iexact Hsem
  iapply (owesN_insert (F := F) (V d cc jj) O W W' (SemLoc.dma sem) hW'); iexact HO

end Sync

/-! ## The index fetch and the store of a slot, as the body slices them -/

section SyncViews

variable (m : (ℓ : Loc nD τ sig) → Buf (Elt F) ℓ) (d : Dev nD) (cc : Fin τ.nSC) (jj : Fin τ.nSub)

/-- 256 consecutive output words. -/
abbrev idxSrcA (off : Fin 1 → ℕ) (hin : ∀ a, off a + S256.size a ≤ S16384.size a) : Memref sig .scVector .hbm S256 .i32 :=
  (a1W).slice (Rect.unit (s := S16384) off S256.size hin) (fun _ => rfl)
/-- The first 256 words of the index scratch. -/
abbrev idxDstA : Memref sig .scVector .vmem S256 .i32 :=
  (idW).slice (Rect.unit (s := S320) ![0] S256.size inb_S320_S256_0) (fun _ => rfl)

theorem idxSrcA_emb (off : Fin 1 → ℕ) (hin) (x : S256.Idx) : (((idxSrcA off hin).view.emb x) 0).val = off 0 + (x 0).val := by
  show ((Rect.unit (s := S16384) off S256.size hin).emb x 0 : ℕ) = _
  rw [Rect.emb_apply]; simp
theorem idxDstA_emb (x : S256.Idx) : (((idxDstA).view.emb x) 0).val = (x 0).val := by
  show ((Rect.unit (s := S320) ![0] S256.size inb_S320_S256_0).emb x 0 : ℕ) = _
  rw [Rect.emb_apply]; simp

/-- After the fetch of the chunk at word s, the index scratch holds the chunk. -/
theorem idxA_holds (s : ℕ) (hs : s + 256 ≤ 16384) (off : Fin 1 → ℕ) (hoff : off = ![s]) (hin)
    (fI0 : Buf (Elt F) ((V d cc jj).loc cc1_scratch0)) :
    IdxHoldsA m d cc jj s ((idxDstA).view.write (Elt F) fI0
      ((ReadAs.same : ReadAs (Elt F) S256 .i32 S256 .i32).apply ((idxSrcA off hin).view.read (Elt F) (m (a1Loc d)))) Finset.univ) := by
  subst hoff
  intro i hi
  have hx : ValueIdx.ix1 i = (idxDstA).view.emb (ValueIdx.ix1 (⟨i.val, hi⟩ : Fin 256)) := by
    funext a; apply Fin.ext; fin_cases a
    show (ValueIdx.ix1 i 0).val = ((idxDstA).view.emb (ValueIdx.ix1 (⟨i.val, hi⟩ : Fin 256)) 0).val
    rw [idxDstA_emb]
  rw [hx, View.write_emb_of_mem _ _ (Finset.mem_univ _)]
  show m (a1Loc d) ((idxSrcA ![s] hin).view.emb (ValueIdx.ix1 (⟨i.val, hi⟩ : Fin 256))) = _
  refine congrArg (m (a1Loc d)) (funext fun a => Fin.ext ?_)
  fin_cases a
  show (((idxSrcA ![s] hin).view.emb (ValueIdx.ix1 (⟨i.val, hi⟩ : Fin 256))) 0).val = (s + i.val) % 16384
  rw [idxSrcA_emb]
  show s + i.val = (s + i.val) % 16384
  omega

end SyncViews

/-! ## The store of a slot of the rows scratch into the worker's rows of the [8192,128] result -/

section StoreViews

variable (m : (ℓ : Loc nD τ sig) → Buf (Elt F) ℓ) (d : Dev nD) (cc : Fin τ.nSC) (jj : Fin τ.nSub)

/-- Slot b of the rows scratch, as [128,128]. -/
abbrev slotSrcA (off : Fin 3 → ℕ) (hin : ∀ a, off a + S1x128x128.size a ≤ S2x128x128.size a) : Memref sig .scVector .vmem S128x128 .f32 :=
  ((rAW).slice (Rect.unit (s := S2x128x128) off S1x128x128.size hin) (fun _ => rfl)).squeeze S128x128 squeezes_S1x128x128_S128x128
/-- 128 rows of the [8192,128] result. -/
abbrev outDstA (off : Fin 2 → ℕ) (hin : ∀ a, off a + S128x128.size a ≤ S8192x128.size a) : Memref sig .scVector .hbm S128x128 .f32 :=
  (o2W).slice (Rect.unit (s := S8192x128) off S128x128.size hin) (fun _ => rfl)

/-- Rows r0 .. r0 + 127 of the [8192,128] result. -/
def rowsA (r0 : ℕ) : Finset S8192x128.Idx := Finset.univ.filter fun y => r0 ≤ (y 0).val ∧ (y 0).val < r0 + 128
theorem mem_rowsA (r0 : ℕ) (y : S8192x128.Idx) : y ∈ rowsA r0 ↔ (r0 ≤ (y 0).val ∧ (y 0).val < r0 + 128) := by
  unfold rowsA; rw [Finset.mem_filter]; simp only [Finset.mem_univ, true_and]

theorem slotSrcA_set (b : ℕ) (hin) : (slotSrcA ![b, 0, 0] hin).view.set = remA b 0 := by
  refine ((View.set_reshape _ _).trans (View.set_slice_whole _ _)).trans ?_
  ext y
  have h1 : (y 1).val < 128 := (y 1).isLt
  have h2 : (y 2).val < 128 := (y 2).isLt
  rw [Rect.mem_set_unit, mem_remA]
  constructor
  · intro H
    have a0 : b ≤ (y 0).val ∧ (y 0).val < b + 1 := H 0
    omega
  · intro H a; fin_cases a
    · show b ≤ (y 0).val ∧ (y 0).val < b + 1; omega
    · show 0 ≤ (y 1).val ∧ (y 1).val < 0 + 128; omega
    · show 0 ≤ (y 2).val ∧ (y 2).val < 0 + 128; omega

theorem outDstA_set (r0 : ℕ) (hin) : (outDstA ![r0, 0] hin).view.set = rowsA r0 := by
  refine (View.set_slice_whole _ _).trans ?_
  ext y
  have h1 : (y 1).val < 128 := (y 1).isLt
  rw [Rect.mem_set_unit, mem_rowsA]
  constructor
  · intro H
    have a0 : r0 ≤ (y 0).val ∧ (y 0).val < r0 + 128 := H 0
    omega
  · intro H a; fin_cases a
    · show r0 ≤ (y 0).val ∧ (y 0).val < r0 + 128; omega
    · show 0 ≤ (y 1).val ∧ (y 1).val < 0 + 128; omega

theorem sq128 (x : S128x128.Idx) : Shape.reshapeEquiv (s := S1x128x128) (s' := S128x128) squeezes_S1x128x128_S128x128.numel_eq x
    = (fun a => if h : a = 0 then ⟨0, by subst h; decide⟩ else if h1 : a = 1 then ⟨(x 0).val, by subst h1; exact (x 0).isLt⟩ else ⟨(x 1).val, by
        have : a = 2 := by fin_cases a <;> first | exact absurd rfl h | exact absurd rfl h1 | rfl
        subst this; exact (x 1).isLt⟩ : S1x128x128.Idx) := by
  apply Shape.reshapeEquiv_eq_of_rowMajor
  rw [Shape.rowMajor_val_three, Shape.rowMajor_val_two]
  simp

theorem slotSrcA_emb (off : Fin 3 → ℕ) (hin) (x : S128x128.Idx) (a : Fin 3) :
    (((slotSrcA off hin).view.emb x) a).val = off a + (if a = 0 then 0 else if a = 1 then (x 0).val else (x 1).val) := by
  show ((Rect.unit (s := S2x128x128) off S1x128x128.size hin).emb (Shape.reshapeEquiv squeezes_S1x128x128_S128x128.numel_eq x) a : ℕ) = _
  rw [Rect.emb_apply, sq128]
  fin_cases a <;> simp
theorem outDstA_emb (off : Fin 2 → ℕ) (hin) (x : S128x128.Idx) (a : Fin 2) :
    (((outDstA off hin).view.emb x) a).val = off a + (x a).val := by
  show ((Rect.unit (s := S8192x128) off S128x128.size hin).emb x a : ℕ) = _
  rw [Rect.emb_apply]; simp

/-- What the store of slot b leaves in the result's rows 256 w + 128 b ..: the lookup's values. -/
theorem storeA_val (w b : ℕ) (hw : w < 32) (hb : b < 2) (hin) (hin')
    (f0 : Buf (Elt F) (o2Loc d)) (y : (outDstA ![256 * w + 128 * b, 0] hin').view.ty.Idx)
    (hy : y ∈ (outDstA ![256 * w + 128 * b, 0] hin').view.set) :
    ((outDstA ![256 * w + 128 * b, 0] hin').view.write (Elt F) f0
        ((ReadAs.same : ReadAs (Elt F) S128x128 .f32 S128x128 .f32).apply ((slotSrcA ![b, 0, 0] hin).view.read (Elt F) (FA m d cc jj w))) Finset.univ y : Elt F .f32)
      = G2 m d y := by
  obtain ⟨x, -, rfl⟩ := Finset.mem_map.mp hy
  have hx0 : (x 0).val < 128 := (x 0).isLt
  rw [View.write_emb_of_mem _ _ (Finset.mem_univ x)]
  show FA m d cc jj w ((slotSrcA ![b, 0, 0] hin).view.emb x) = _
  have e0 : (((slotSrcA ![b, 0, 0] hin).view.emb x) 0).val = b := by rw [slotSrcA_emb]; simp
  have e1 : (((slotSrcA ![b, 0, 0] hin).view.emb x) 1).val = (x 0).val := by rw [slotSrcA_emb]; simp
  have e2 : (((slotSrcA ![b, 0, 0] hin).view.emb x) 2).val = (x 1).val := by rw [slotSrcA_emb]; simp
  have o0 : (((outDstA ![256 * w + 128 * b, 0] hin').view.emb x) 0).val = 256 * w + 128 * b + (x 0).val := by rw [outDstA_emb]; simp
  have o1 : (((outDstA ![256 * w + 128 * b, 0] hin').view.emb x) 1).val = (x 1).val := by rw [outDstA_emb]; simp
  unfold FA
  refine congrArg (G2 m d) (funext fun a => Fin.ext ?_)
  fin_cases a
  · show (256 * w + 128 * (((slotSrcA ![b, 0, 0] hin).view.emb x) 0).val + (((slotSrcA ![b, 0, 0] hin).view.emb x) 1).val) % 8192
      = (((outDstA ![256 * w + 128 * b, 0] hin').view.emb x) 0).val
    rw [e0, e1, o0]; omega
  · show (((slotSrcA ![b, 0, 0] hin).view.emb x) 2).val = (((outDstA ![256 * w + 128 * b, 0] hin').view.emb x) 1).val
    rw [e2, o1]

end StoreViews

end Cert.Proof.KI.K1

end
-- ==== Proof.K1AJoin.lean ====
import proofs.«215896_g38397007626377_fold_wed_m_942_26_alg».proof.Proof.KISetup
import proofs.«215896_g38397007626377_fold_wed_m_942_26_alg».proof.Proof.Gen.KernelIdeal.Skeleton
import proofs.«215896_g38397007626377_fold_wed_m_942_26_alg».proof.Proof.K1A

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

/-! ## Every piece of a slot together; the two slots; the worker's rows in two halves -/

section JoinA

variable (m : (ℓ : Loc nD τ sig) → Buf (Elt F) ℓ) (d : Dev nD) (cc : Fin τ.nSC) (jj : Fin τ.nSub)

instance DA_storable (w b : ℕ) (t : Fin 256) : BI.Storable (upEmb : UEmb _ 𝕄) (DA m d cc jj w b t) := by
  unfold DA; infer_instance

theorem pieceA_disjoint (b : ℕ) {t t' : ℕ} (h : t ≠ t') : Disjoint (pieceA b t) (pieceA b t') := by
  rw [Finset.disjoint_left]; intro y hy hy'
  rw [mem_pieceA] at hy hy'; omega

theorem slotA_cover (b : ℕ) : (Finset.univ : Finset (Fin 256)).biUnion (fun t => pieceA b t.val) = remA b 0 := by
  ext y
  have h1 : (y 1).val < 128 := (y 1).isLt
  have h2 : (y 2).val < 128 := (y 2).isLt
  simp only [Finset.mem_biUnion, Finset.mem_univ, true_and]
  rw [mem_remA]
  constructor
  · rintro ⟨t, ht⟩; rw [mem_pieceA] at ht; exact ⟨ht.1, Nat.zero_le _⟩
  · intro hb
    exact ⟨⟨2 * (y 1).val + (y 2).val / 64, by omega⟩, by rw [mem_pieceA]; exact ⟨hb.1, rfl⟩⟩

/-- Every delivery of a chunk together: the slot at the final contents. -/
theorem joinA (w b : ℕ) :
    (bigSep Finset.univ (DA m d cc jj w b) : sProp 𝕄) = ((V d cc jj).loc cc1_scratch1 ↦[remA b 0]{fullShare} FA m d cc jj w) := by
  rw [← slotA_cover b]
  exact (pointsTo_biUnion (ℓ := (V d cc jj).loc cc1_scratch1) (q := fullShare) (f := FA m d cc jj w) Finset.univ
    (fun t : Fin 256 => pieceA b t.val) (fun t _ t' _ h => pieceA_disjoint b (fun e => h (Fin.ext e)))).symm

/-- The scratch is its two slots. -/
theorem slots_univ : (Finset.univ : Finset S2x128x128.Idx) \ remA 0 0 = remA 1 0 := by
  ext y
  have h0 : (y 0).val < 2 := (y 0).isLt
  rw [Finset.mem_sdiff, mem_remA, mem_remA]
  simp only [Finset.mem_univ, true_and]
  omega

theorem rowsA_disjoint (r0 : ℕ) : Disjoint (rowsA r0) (rowsA (r0 + 128)) := by
  rw [Finset.disjoint_left]; intro y hy hy'
  rw [mem_rowsA] at hy hy'; omega

theorem mem_blkA (w : Fin 32) (y : S8192x128.Idx) : y ∈ blkA w ↔ (256 * w.val ≤ (y 0).val ∧ (y 0).val < 256 * w.val + 256) := by
  have h1 : (y 1).val < 128 := (y 1).isLt
  have hw : w.val < 32 := w.isLt
  show y ∈ (Rect.part (s := S8192x128) (a₀ := 0) hdivA w).set ↔ _
  unfold Rect.part Rect.block
  rw [Rect.mem_set_unit]
  constructor
  · intro H
    have a0 := H 0
    simp [Shape.partIx, Shape.partSize] at a0
    omega
  · intro H a
    fin_cases a
    · simp [Shape.partIx, Shape.partSize]; omega
    · simp [Shape.partIx, Shape.partSize]; omega

theorem rowsA_union (w : Fin 32) : rowsA (256 * w.val) ∪ rowsA (256 * w.val + 128) = blkA w := by
  ext y
  rw [Finset.mem_union, mem_rowsA, mem_rowsA, mem_blkA]; omega

end JoinA

/-! ## The subcore's own semaphores and buffers -/

section Own

variable (d : Dev nD) (cc : Fin τ.nSC) (jj : Fin τ.nSub)

abbrev cellOf (s : DmaSem sig) : GSem nD τ sig := (V d cc jj, SemLoc.dma s)

theorem cell_ne {s s' : DmaSem sig} (h : s ≠ s') : cellOf d cc jj s ≠ cellOf d cc jj s' :=
  fun e => h (by have := congrArg Prod.snd e; exact SemLoc.dma.inj this)

theorem ownSems0_V :
    (ownSems0 (V d cc jj) : sProp 𝕄)
      = iprop(semVal (cellOf d cc jj cc1_scratch3.sem) 0 ∗ semVal (cellOf d cc jj cc1_scratch4.sem) 0 ∗ semVal (cellOf d cc jj cc1_scoped0.sem) 0 ∗ semVal (cellOf d cc jj cc1_scoped1.sem) 0 ∗ semVal (cellOf d cc jj cc1_scoped2.sem) 0 ∗ semVal (cellOf d cc jj cc1_scoped3.sem) 0 ∗ semVal (cellOf d cc jj cc1_scoped4.sem) 0 ∗ semVal (cellOf d cc jj cc1_scoped5.sem) 0 ∗ semVal (cellOf d cc jj cc1_scoped6.sem) 0 ∗ semVal (cellOf d cc jj cc1_scoped7.sem) 0 ∗ semVal (cellOf d cc jj cc1_scoped8.sem) 0 ∗ semVal (cellOf d cc jj cc1_scoped9.sem) 0 ∗ semVal (cellOf d cc jj cc1_scoped10.sem) 0 ∗ semVal (cellOf d cc jj cc1_scoped11.sem) 0
          ∗ bigSep (((((((((((((((ownCells (V d cc jj)).erase (cellOf d cc jj cc1_scratch3.sem)).erase (cellOf d cc jj cc1_scratch4.sem)).erase (cellOf d cc jj cc1_scoped0.sem)).erase (cellOf d cc jj cc1_scoped1.sem)).erase (cellOf d cc jj cc1_scoped2.sem)).erase (cellOf d cc jj cc1_scoped3.sem)).erase (cellOf d cc jj cc1_scoped4.sem)).erase (cellOf d cc jj cc1_scoped5.sem)).erase (cellOf d cc jj cc1_scoped6.sem)).erase (cellOf d cc jj cc1_scoped7.sem)).erase (cellOf d cc jj cc1_scoped8.sem)).erase (cellOf d cc jj cc1_scoped9.sem)).erase (cellOf d cc jj cc1_scoped10.sem)).erase (cellOf d cc jj cc1_scoped11.sem)) fun g => semVal g 0) := by
  unfold SparseCore.Cfg.ownSems0
  rw [SparseCore.bigSep_erase' ((mem_ownCells (g := cellOf d cc jj cc1_scratch3.sem)).mpr ⟨rfl, by show (SemLoc.dma cc1_scratch3.sem : SemLoc sig).isScoped .scVector = true; decide⟩),
    SparseCore.bigSep_erase' (Finset.mem_erase.mpr ⟨cell_ne d cc jj (by decide), (mem_ownCells (g := cellOf d cc jj cc1_scratch4.sem)).mpr ⟨rfl, by show (SemLoc.dma cc1_scratch4.sem : SemLoc sig).isScoped .scVector = true; decide⟩⟩),
    SparseCore.bigSep_erase' (Finset.mem_erase.mpr ⟨cell_ne d cc jj (by decide), Finset.mem_erase.mpr ⟨cell_ne d cc jj (by decide), (mem_ownCells (g := cellOf d cc jj cc1_scoped0.sem)).mpr ⟨rfl, by show (SemLoc.dma cc1_scoped0.sem : SemLoc sig).isScoped .scVector = true; decide⟩⟩⟩),
    SparseCore.bigSep_erase' (Finset.mem_erase.mpr ⟨cell_ne d cc jj (by decide), Finset.mem_erase.mpr ⟨cell_ne d cc jj (by decide), Finset.mem_erase.mpr ⟨cell_ne d cc jj (by decide), (mem_ownCells (g := cellOf d cc jj cc1_scoped1.sem)).mpr ⟨rfl, by show (SemLoc.dma cc1_scoped1.sem : SemLoc sig).isScoped .scVector = true; decide⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped2.sem)).mpr ⟨rfl, by show (SemLoc.dma cc1_scoped2.sem : SemLoc sig).isScoped .scVector = true; decide⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped3.sem)).mpr ⟨rfl, by show (SemLoc.dma cc1_scoped3.sem : SemLoc sig).isScoped .scVector = true; decide⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped4.sem)).mpr ⟨rfl, by show (SemLoc.dma cc1_scoped4.sem : SemLoc sig).isScoped .scVector = true; decide⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped5.sem)).mpr ⟨rfl, by show (SemLoc.dma cc1_scoped5.sem : SemLoc sig).isScoped .scVector = true; decide⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped6.sem)).mpr ⟨rfl, by show (SemLoc.dma cc1_scoped6.sem : SemLoc sig).isScoped .scVector = true; decide⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped7.sem)).mpr ⟨rfl, by show (SemLoc.dma cc1_scoped7.sem : SemLoc sig).isScoped .scVector = true; decide⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped8.sem)).mpr ⟨rfl, by show (SemLoc.dma cc1_scoped8.sem : SemLoc sig).isScoped .scVector = true; decide⟩⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped9.sem)).mpr ⟨rfl, by show (SemLoc.dma cc1_scoped9.sem : SemLoc sig).isScoped .scVector = true; decide⟩⟩⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped10.sem)).mpr ⟨rfl, by show (SemLoc.dma cc1_scoped10.sem : SemLoc sig).isScoped .scVector = true; decide⟩⟩⟩⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped11.sem)).mpr ⟨rfl, by show (SemLoc.dma cc1_scoped11.sem : SemLoc sig).isScoped .scVector = true; decide⟩⟩⟩⟩⟩⟩⟩⟩⟩⟩⟩⟩⟩⟩)]

theorem ownBufs_V :
    (ownBufs (V d cc jj) : sProp 𝕄)
      = iprop((∃ f, (V d cc jj).loc cc1_scratch0 ↦{fullShare} f) ∗ (∃ f, (V d cc jj).loc cc1_scratch1 ↦{fullShare} f) ∗ (∃ f, (V d cc jj).loc cc1_scratch2 ↦{fullShare} f)
          ∗ bigSep ((((ownRefs (τ := τ) (.scVector cc jj)).erase ((Proc.scVector cc jj).devRef cc1_scratch0)).erase ((Proc.scVector cc jj).devRef cc1_scratch1)).erase ((Proc.scVector cc jj).devRef cc1_scratch2)) fun b => iprop(∃ f, ((d, b) : Loc nD τ sig) ↦{fullShare} f)) := by
  unfold SparseCore.Cfg.ownBufs
  refine (SparseCore.bigSep_erase' (SparseCore.Cfg.mem_ownRefs_of_owner (p := Proc.scVector cc jj) (b := (Proc.scVector cc jj).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector cc jj) (b := (Proc.scVector cc jj).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector cc jj) (b := (Proc.scVector cc jj).devRef cc1_scratch2) rfl⟩⟩)]

end Own

end Cert.Proof.KI.K1

end
-- ==== Proof.K1AFire0.lean ====
import proofs.«215896_g38397007626377_fold_wed_m_942_26_alg».proof.Proof.KISetup
import proofs.«215896_g38397007626377_fold_wed_m_942_26_alg».proof.Proof.Gen.KernelIdeal.Skeleton
import proofs.«215896_g38397007626377_fold_wed_m_942_26_alg».proof.Proof.K1A

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

/-! ## The chunks' fire loops: one trip issues copies 16 k .. 16 k + 15 -/

section FireA

variable (m : (ℓ : Loc nD τ sig) → Buf (Elt F) ℓ) (d : Dev nD) (L : grid1.Coords)

/-- The 16 words trip k loads. -/
abbrev XA0 (fI : Buf (Elt F) ((thr d L).loc cc1_scratch0)) (k : Fin k1_t1_loop.trips) : S16.Idx → BitVec 32 :=
  (idW).view.readAt (Elt F) (Rect.unit (s := S320) (k1_off2 k) S16.size (k1_off2_inb k)).toLoadRect fI

def fireInvA0 (fI : Buf (Elt F) ((thr d L).loc cc1_scratch0)) (f0 : Buf (Elt F) ((thr d L).loc cc1_scratch1)) (k : ℕ) (_ : Unit) : sProp 𝕄 :=
  iprop(((thr d L).loc cc1_scratch0 ↦{fullShare} fI) ∗ (∃ q, a4Loc d ↦{q} m (a4Loc d))
    ∗ ((thr d L).loc cc1_scratch1 ↦[remA 0 (16 * k)]{fullShare} f0)
    ∗ Transfers.Batch countersEmb (thr d L) (.dma cc1_scratch3.sem) (none : HIx 2) NA (DA m d ((L 0).castLE hcore1) ((L 1).castLE hsub1) (widL L) 0) (16 * k) 0)

set_option maxHeartbeats 4000000 in
theorem fireA0_step (fI : Buf (Elt F) ((thr d L).loc cc1_scratch0)) (hI : IdxHoldsA m d ((L 0).castLE hcore1) ((L 1).castLE hsub1) (512 * widL L + 256 * 0) fI) (hpre : PreOK m)
    (f0 : Buf (Elt F) ((thr d L).loc cc1_scratch1)) (k : Fin k1_t1_loop.trips) (acc : Unit) :
    fireInvA0 m d L fI f0 k acc ⊢ wp frame (wpE (defs₀ (F := F)) 𝒱₀ (thr d L) none) Set.univ
      (k1_t1_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 k acc)
      (fireInvA0 m d L fI f0 (k.val + 1)) := by
  have hk : k.val < 16 := Nat.lt_of_lt_of_le k.isLt k1_t1_abs.2.1
  have hwid : widL L < 32 := widL_lt L
  have hW : ∀ (u : ℕ) (hu : u < 16), XA0 (F := F) d L fI k (ValueIdx.ix1 (⟨u, hu⟩ : Fin 16))
      = m (a1Loc d) (ValueIdx.ix1 (⟨(512 * widL L + 256 * 0 + (16 * k.val + u)) % 16384, Nat.mod_lt _ (by decide)⟩ : Fin 16384)) :=
    fun u hu => wordA m d _ _ (512 * widL L + 256 * 0) fI hI k.val hk (k1_off2 k) (k1_off2_eq k) (k1_off2_inb k) u hu
  unfold k1_t1_body
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel
  simp only [Prog.lift, Prog.bind_op, Prog.bind_ret, Prog.pure_eq_ret]
  unfold fireInvA0
  iintro ⟨Hidx, ⟨%q, Htbl⟩, Hrem, HB⟩
  iapply (wp_load 𝒱₀ (thr d L) none Set.univ (m := idW) (S := Finset.univ) (q := fullShare) (f := fI) (Finset.subset_univ _)) $$ Hidx; iintro Hidx
  have hv0 : (extractAt ![0] (k1_pay2 (F := F) (XA0 (F := F) d L fI k)) inpos_S1_p0 : BitVec 32) = m (a1Loc d) (ValueIdx.ix1 (⟨(512 * widL L + 256 * 0 + (16 * k.val + 0)) % 16384, Nat.mod_lt _ (by decide)⟩ : Fin 16384)) :=
    (lane_eq (XA0 (F := F) d L fI k) 0 (by decide) shapeCasts_S16_S16 slices_S16_o0_S1 inpos_S1_p0).trans (hW 0 (by decide))
  have hl0 : (extractAt ![0] (k1_pay2 (F := F) (XA0 (F := F) d L fI k)) inpos_S1_p0 : BitVec 32).toNat < 1000000 := by rw [hv0]; exact (hpre d).2.1 _
  iapply (wp_assume 𝒱₀ (thr d L) none Set.univ (show k1_chk1 _ from chk_of_lt _ hl0))
  iapply (issueA' m d _ _ (widL L) 0 (16 * k.val + 0) hwid (by decide) (by omega) cc1_scratch3.sem _ _ _ _ _ (16 * k.val) (by omega) (off_t1_0 k) rfl hv0 hl0 _ f0) $$ [Htbl Hrem HB]
  · isplitl [Htbl]; · iexact Htbl
    isplitl [Hrem]; · iexact Hrem
    iexact HB
  iintro ⟨Htbl, Hrem, HB⟩
  have hv1 : (extractAt ![0] (k1_pay3 (k1_pay1 (F := F) (XA0 (F := F) d L fI k))) inpos_S1_p0 : BitVec 32) = m (a1Loc d) (ValueIdx.ix1 (⟨(512 * widL L + 256 * 0 + (16 * k.val + 1)) % 16384, Nat.mod_lt _ (by decide)⟩ : Fin 16384)) :=
    (lane_eq (XA0 (F := F) d L fI k) 1 (by decide) shapeCasts_S16_S16 slices_S16_o1_S1 inpos_S1_p0).trans (hW 1 (by decide))
  have hl1 : (extractAt ![0] (k1_pay3 (k1_pay1 (F := F) (XA0 (F := F) d L fI k))) inpos_S1_p0 : BitVec 32).toNat < 1000000 := by rw [hv1]; exact (hpre d).2.1 _
  iapply (wp_assume 𝒱₀ (thr d L) none Set.univ (show k1_chk2 _ from chk_of_lt _ hl1))
  iapply (issueA' m d _ _ (widL L) 0 (16 * k.val + 1) hwid (by decide) (by omega) cc1_scratch3.sem _ _ _ _ _ (16 * k.val + 1) (by omega) (off_t1_1 k) rfl hv1 hl1 _ f0) $$ [Htbl Hrem HB]
  · isplitl [Htbl]; · iexact Htbl
    isplitl [Hrem]; · iexact Hrem
    iexact HB
  iintro ⟨Htbl, Hrem, HB⟩
  have hv2 : (extractAt ![0] (k1_pay4 (k1_pay1 (F := F) (XA0 (F := F) d L fI k))) inpos_S1_p0 : BitVec 32) = m (a1Loc d) (ValueIdx.ix1 (⟨(512 * widL L + 256 * 0 + (16 * k.val + 2)) % 16384, Nat.mod_lt _ (by decide)⟩ : Fin 16384)) :=
    (lane_eq (XA0 (F := F) d L fI k) 2 (by decide) shapeCasts_S16_S16 slices_S16_o2_S1 inpos_S1_p0).trans (hW 2 (by decide))
  have hl2 : (extractAt ![0] (k1_pay4 (k1_pay1 (F := F) (XA0 (F := F) d L fI k))) inpos_S1_p0 : BitVec 32).toNat < 1000000 := by rw [hv2]; exact (hpre d).2.1 _
  iapply (wp_assume 𝒱₀ (thr d L) none Set.univ (show k1_chk3 _ from chk_of_lt _ hl2))
  iapply (issueA' m d _ _ (widL L) 0 (16 * k.val + 2) hwid (by decide) (by omega) cc1_scratch3.sem _ _ _ _ _ (16 * k.val + 1 + 1) (by omega) (off_t1_2 k) rfl hv2 hl2 _ f0) $$ [Htbl Hrem HB]
  · isplitl [Htbl]; · iexact Htbl
    isplitl [Hrem]; · iexact Hrem
    iexact HB
  iintro ⟨Htbl, Hrem, HB⟩
  have hv3 : (extractAt ![0] (k1_pay5 (k1_pay1 (F := F) (XA0 (F := F) d L fI k))) inpos_S1_p0 : BitVec 32) = m (a1Loc d) (ValueIdx.ix1 (⟨(512 * widL L + 256 * 0 + (16 * k.val + 3)) % 16384, Nat.mod_lt _ (by decide)⟩ : Fin 16384)) :=
    (lane_eq (XA0 (F := F) d L fI k) 3 (by decide) shapeCasts_S16_S16 slices_S16_o3_S1 inpos_S1_p0).trans (hW 3 (by decide))
  have hl3 : (extractAt ![0] (k1_pay5 (k1_pay1 (F := F) (XA0 (F := F) d L fI k))) inpos_S1_p0 : BitVec 32).toNat < 1000000 := by rw [hv3]; exact (hpre d).2.1 _
  iapply (wp_assume 𝒱₀ (thr d L) none Set.univ (show k1_chk4 _ from chk_of_lt _ hl3))
  iapply (issueA' m d _ _ (widL L) 0 (16 * k.val + 3) hwid (by decide) (by omega) cc1_scratch3.sem _ _ _ _ _ (16 * k.val + 1 + 1 + 1) (by omega) (off_t1_3 k) rfl hv3 hl3 _ f0) $$ [Htbl Hrem HB]
  · isplitl [Htbl]; · iexact Htbl
    isplitl [Hrem]; · iexact Hrem
    iexact HB
  iintro ⟨Htbl, Hrem, HB⟩
  have hv4 : (extractAt ![0] (k1_pay6 (k1_pay1 (F := F) (XA0 (F := F) d L fI k))) inpos_S1_p0 : BitVec 32) = m (a1Loc d) (ValueIdx.ix1 (⟨(512 * widL L + 256 * 0 + (16 * k.val + 4)) % 16384, Nat.mod_lt _ (by decide)⟩ : Fin 16384)) :=
    (lane_eq (XA0 (F := F) d L fI k) 4 (by decide) shapeCasts_S16_S16 slices_S16_o4_S1 inpos_S1_p0).trans (hW 4 (by decide))
  have hl4 : (extractAt ![0] (k1_pay6 (k1_pay1 (F := F) (XA0 (F := F) d L fI k))) inpos_S1_p0 : BitVec 32).toNat < 1000000 := by rw [hv4]; exact (hpre d).2.1 _
  iapply (wp_assume 𝒱₀ (thr d L) none Set.univ (show k1_chk5 _ from chk_of_lt _ hl4))
  iapply (issueA' m d _ _ (widL L) 0 (16 * k.val + 4) hwid (by decide) (by omega) cc1_scratch3.sem _ _ _ _ _ (16 * k.val + 1 + 1 + 1 + 1) (by omega) (off_t1_4 k) rfl hv4 hl4 _ f0) $$ [Htbl Hrem HB]
  · isplitl [Htbl]; · iexact Htbl
    isplitl [Hrem]; · iexact Hrem
    iexact HB
  iintro ⟨Htbl, Hrem, HB⟩
  have hv5 : (extractAt ![0] (k1_pay7 (k1_pay1 (F := F) (XA0 (F := F) d L fI k))) inpos_S1_p0 : BitVec 32) = m (a1Loc d) (ValueIdx.ix1 (⟨(512 * widL L + 256 * 0 + (16 * k.val + 5)) % 16384, Nat.mod_lt _ (by decide)⟩ : Fin 16384)) :=
    (lane_eq (XA0 (F := F) d L fI k) 5 (by decide) shapeCasts_S16_S16 slices_S16_o5_S1 inpos_S1_p0).trans (hW 5 (by decide))
  have hl5 : (extractAt ![0] (k1_pay7 (k1_pay1 (F := F) (XA0 (F := F) d L fI k))) inpos_S1_p0 : BitVec 32).toNat < 1000000 := by rw [hv5]; exact (hpre d).2.1 _
  iapply (wp_assume 𝒱₀ (thr d L) none Set.univ (show k1_chk6 _ from chk_of_lt _ hl5))
  iapply (issueA' m d _ _ (widL L) 0 (16 * k.val + 5) hwid (by decide) (by omega) cc1_scratch3.sem _ _ _ _ _ (16 * k.val + 1 + 1 + 1 + 1 + 1) (by omega) (off_t1_5 k) rfl hv5 hl5 _ f0) $$ [Htbl Hrem HB]
  · isplitl [Htbl]; · iexact Htbl
    isplitl [Hrem]; · iexact Hrem
    iexact HB
  iintro ⟨Htbl, Hrem, HB⟩
  have hv6 : (extractAt ![0] (k1_pay8 (k1_pay1 (F := F) (XA0 (F := F) d L fI k))) inpos_S1_p0 : BitVec 32) = m (a1Loc d) (ValueIdx.ix1 (⟨(512 * widL L + 256 * 0 + (16 * k.val + 6)) % 16384, Nat.mod_lt _ (by decide)⟩ : Fin 16384)) :=
    (lane_eq (XA0 (F := F) d L fI k) 6 (by decide) shapeCasts_S16_S16 slices_S16_o6_S1 inpos_S1_p0).trans (hW 6 (by decide))
  have hl6 : (extractAt ![0] (k1_pay8 (k1_pay1 (F := F) (XA0 (F := F) d L fI k))) inpos_S1_p0 : BitVec 32).toNat < 1000000 := by rw [hv6]; exact (hpre d).2.1 _
  iapply (wp_assume 𝒱₀ (thr d L) none Set.univ (show k1_chk7 _ from chk_of_lt _ hl6))
  iapply (issueA' m d _ _ (widL L) 0 (16 * k.val + 6) hwid (by decide) (by omega) cc1_scratch3.sem _ _ _ _ _ (16 * k.val + 1 + 1 + 1 + 1 + 1 + 1) (by omega) (off_t1_6 k) rfl hv6 hl6 _ f0) $$ [Htbl Hrem HB]
  · isplitl [Htbl]; · iexact Htbl
    isplitl [Hrem]; · iexact Hrem
    iexact HB
  iintro ⟨Htbl, Hrem, HB⟩
  have hv7 : (extractAt ![0] (k1_pay9 (k1_pay1 (F := F) (XA0 (F := F) d L fI k))) inpos_S1_p0 : BitVec 32) = m (a1Loc d) (ValueIdx.ix1 (⟨(512 * widL L + 256 * 0 + (16 * k.val + 7)) % 16384, Nat.mod_lt _ (by decide)⟩ : Fin 16384)) :=
    (lane_eq (XA0 (F := F) d L fI k) 7 (by decide) shapeCasts_S16_S16 slices_S16_o7_S1 inpos_S1_p0).trans (hW 7 (by decide))
  have hl7 : (extractAt ![0] (k1_pay9 (k1_pay1 (F := F) (XA0 (F := F) d L fI k))) inpos_S1_p0 : BitVec 32).toNat < 1000000 := by rw [hv7]; exact (hpre d).2.1 _
  iapply (wp_assume 𝒱₀ (thr d L) none Set.univ (show k1_chk8 _ from chk_of_lt _ hl7))
  iapply (issueA' m d _ _ (widL L) 0 (16 * k.val + 7) hwid (by decide) (by omega) cc1_scratch3.sem _ _ _ _ _ (16 * k.val + 1 + 1 + 1 + 1 + 1 + 1 + 1) (by omega) (off_t1_7 k) rfl hv7 hl7 _ f0) $$ [Htbl Hrem HB]
  · isplitl [Htbl]; · iexact Htbl
    isplitl [Hrem]; · iexact Hrem
    iexact HB
  iintro ⟨Htbl, Hrem, HB⟩
  have hv8 : (extractAt ![0] (k1_pay10 (k1_pay1 (F := F) (XA0 (F := F) d L fI k))) inpos_S1_p0 : BitVec 32) = m (a1Loc d) (ValueIdx.ix1 (⟨(512 * widL L + 256 * 0 + (16 * k.val + 8)) % 16384, Nat.mod_lt _ (by decide)⟩ : Fin 16384)) :=
    (lane_eq (XA0 (F := F) d L fI k) 8 (by decide) shapeCasts_S16_S16 slices_S16_o8_S1 inpos_S1_p0).trans (hW 8 (by decide))
  have hl8 : (extractAt ![0] (k1_pay10 (k1_pay1 (F := F) (XA0 (F := F) d L fI k))) inpos_S1_p0 : BitVec 32).toNat < 1000000 := by rw [hv8]; exact (hpre d).2.1 _
  iapply (wp_assume 𝒱₀ (thr d L) none Set.univ (show k1_chk9 _ from chk_of_lt _ hl8))
  iapply (issueA' m d _ _ (widL L) 0 (16 * k.val + 8) hwid (by decide) (by omega) cc1_scratch3.sem _ _ _ _ _ (16 * k.val + 1 + 1 + 1 + 1 + 1 + 1 + 1 + 1) (by omega) (off_t1_8 k) rfl hv8 hl8 _ f0) $$ [Htbl Hrem HB]
  · isplitl [Htbl]; · iexact Htbl
    isplitl [Hrem]; · iexact Hrem
    iexact HB
  iintro ⟨Htbl, Hrem, HB⟩
  have hv9 : (extractAt ![0] (k1_pay11 (k1_pay1 (F := F) (XA0 (F := F) d L fI k))) inpos_S1_p0 : BitVec 32) = m (a1Loc d) (ValueIdx.ix1 (⟨(512 * widL L + 256 * 0 + (16 * k.val + 9)) % 16384, Nat.mod_lt _ (by decide)⟩ : Fin 16384)) :=
    (lane_eq (XA0 (F := F) d L fI k) 9 (by decide) shapeCasts_S16_S16 slices_S16_o9_S1 inpos_S1_p0).trans (hW 9 (by decide))
  have hl9 : (extractAt ![0] (k1_pay11 (k1_pay1 (F := F) (XA0 (F := F) d L fI k))) inpos_S1_p0 : BitVec 32).toNat < 1000000 := by rw [hv9]; exact (hpre d).2.1 _
  iapply (wp_assume 𝒱₀ (thr d L) none Set.univ (show k1_chk10 _ from chk_of_lt _ hl9))
  iapply (issueA' m d _ _ (widL L) 0 (16 * k.val + 9) hwid (by decide) (by omega) cc1_scratch3.sem _ _ _ _ _ (16 * k.val + 1 + 1 + 1 + 1 + 1 + 1 + 1 + 1 + 1) (by omega) (off_t1_9 k) rfl hv9 hl9 _ f0) $$ [Htbl Hrem HB]
  · isplitl [Htbl]; · iexact Htbl
    isplitl [Hrem]; · iexact Hrem
    iexact HB
  iintro ⟨Htbl, Hrem, HB⟩
  have hv10 : (extractAt ![0] (k1_pay12 (k1_pay1 (F := F) (XA0 (F := F) d L fI k))) inpos_S1_p0 : BitVec 32) = m (a1Loc d) (ValueIdx.ix1 (⟨(512 * widL L + 256 * 0 + (16 * k.val + 10)) % 16384, Nat.mod_lt _ (by decide)⟩ : Fin 16384)) :=
    (lane_eq (XA0 (F := F) d L fI k) 10 (by decide) shapeCasts_S16_S16 slices_S16_o10_S1 inpos_S1_p0).trans (hW 10 (by decide))
  have hl10 : (extractAt ![0] (k1_pay12 (k1_pay1 (F := F) (XA0 (F := F) d L fI k))) inpos_S1_p0 : BitVec 32).toNat < 1000000 := by rw [hv10]; exact (hpre d).2.1 _
  iapply (wp_assume 𝒱₀ (thr d L) none Set.univ (show k1_chk11 _ from chk_of_lt _ hl10))
  iapply (issueA' m d _ _ (widL L) 0 (16 * k.val + 10) hwid (by decide) (by omega) cc1_scratch3.sem _ _ _ _ _ (16 * k.val + 1 + 1 + 1 + 1 + 1 + 1 + 1 + 1 + 1 + 1) (by omega) (off_t1_10 k) rfl hv10 hl10 _ f0) $$ [Htbl Hrem HB]
  · isplitl [Htbl]; · iexact Htbl
    isplitl [Hrem]; · iexact Hrem
    iexact HB
  iintro ⟨Htbl, Hrem, HB⟩
  have hv11 : (extractAt ![0] (k1_pay13 (k1_pay1 (F := F) (XA0 (F := F) d L fI k))) inpos_S1_p0 : BitVec 32) = m (a1Loc d) (ValueIdx.ix1 (⟨(512 * widL L + 256 * 0 + (16 * k.val + 11)) % 16384, Nat.mod_lt _ (by decide)⟩ : Fin 16384)) :=
    (lane_eq (XA0 (F := F) d L fI k) 11 (by decide) shapeCasts_S16_S16 slices_S16_o11_S1 inpos_S1_p0).trans (hW 11 (by decide))
  have hl11 : (extractAt ![0] (k1_pay13 (k1_pay1 (F := F) (XA0 (F := F) d L fI k))) inpos_S1_p0 : BitVec 32).toNat < 1000000 := by rw [hv11]; exact (hpre d).2.1 _
  iapply (wp_assume 𝒱₀ (thr d L) none Set.univ (show k1_chk12 _ from chk_of_lt _ hl11))
  iapply (issueA' m d _ _ (widL L) 0 (16 * k.val + 11) hwid (by decide) (by omega) cc1_scratch3.sem _ _ _ _ _ (16 * k.val + 1 + 1 + 1 + 1 + 1 + 1 + 1 + 1 + 1 + 1 + 1) (by omega) (off_t1_11 k) rfl hv11 hl11 _ f0) $$ [Htbl Hrem HB]
  · isplitl [Htbl]; · iexact Htbl
    isplitl [Hrem]; · iexact Hrem
    iexact HB
  iintro ⟨Htbl, Hrem, HB⟩
  have hv12 : (extractAt ![0] (k1_pay14 (k1_pay1 (F := F) (XA0 (F := F) d L fI k))) inpos_S1_p0 : BitVec 32) = m (a1Loc d) (ValueIdx.ix1 (⟨(512 * widL L + 256 * 0 + (16 * k.val + 12)) % 16384, Nat.mod_lt _ (by decide)⟩ : Fin 16384)) :=
    (lane_eq (XA0 (F := F) d L fI k) 12 (by decide) shapeCasts_S16_S16 slices_S16_o12_S1 inpos_S1_p0).trans (hW 12 (by decide))
  have hl12 : (extractAt ![0] (k1_pay14 (k1_pay1 (F := F) (XA0 (F := F) d L fI k))) inpos_S1_p0 : BitVec 32).toNat < 1000000 := by rw [hv12]; exact (hpre d).2.1 _
  iapply (wp_assume 𝒱₀ (thr d L) none Set.univ (show k1_chk13 _ from chk_of_lt _ hl12))
  iapply (issueA' m d _ _ (widL L) 0 (16 * k.val + 12) hwid (by decide) (by omega) cc1_scratch3.sem _ _ _ _ _ (16 * k.val + 1 + 1 + 1 + 1 + 1 + 1 + 1 + 1 + 1 + 1 + 1 + 1) (by omega) (off_t1_12 k) rfl hv12 hl12 _ f0) $$ [Htbl Hrem HB]
  · isplitl [Htbl]; · iexact Htbl
    isplitl [Hrem]; · iexact Hrem
    iexact HB
  iintro ⟨Htbl, Hrem, HB⟩
  have hv13 : (extractAt ![0] (k1_pay15 (k1_pay1 (F := F) (XA0 (F := F) d L fI k))) inpos_S1_p0 : BitVec 32) = m (a1Loc d) (ValueIdx.ix1 (⟨(512 * widL L + 256 * 0 + (16 * k.val + 13)) % 16384, Nat.mod_lt _ (by decide)⟩ : Fin 16384)) :=
    (lane_eq (XA0 (F := F) d L fI k) 13 (by decide) shapeCasts_S16_S16 slices_S16_o13_S1 inpos_S1_p0).trans (hW 13 (by decide))
  have hl13 : (extractAt ![0] (k1_pay15 (k1_pay1 (F := F) (XA0 (F := F) d L fI k))) inpos_S1_p0 : BitVec 32).toNat < 1000000 := by rw [hv13]; exact (hpre d).2.1 _
  iapply (wp_assume 𝒱₀ (thr d L) none Set.univ (show k1_chk14 _ from chk_of_lt _ hl13))
  iapply (issueA' m d _ _ (widL L) 0 (16 * k.val + 13) hwid (by decide) (by omega) cc1_scratch3.sem _ _ _ _ _ (16 * k.val + 1 + 1 + 1 + 1 + 1 + 1 + 1 + 1 + 1 + 1 + 1 + 1 + 1) (by omega) (off_t1_13 k) rfl hv13 hl13 _ f0) $$ [Htbl Hrem HB]
  · isplitl [Htbl]; · iexact Htbl
    isplitl [Hrem]; · iexact Hrem
    iexact HB
  iintro ⟨Htbl, Hrem, HB⟩
  have hv14 : (extractAt ![0] (k1_pay16 (k1_pay1 (F := F) (XA0 (F := F) d L fI k))) inpos_S1_p0 : BitVec 32) = m (a1Loc d) (ValueIdx.ix1 (⟨(512 * widL L + 256 * 0 + (16 * k.val + 14)) % 16384, Nat.mod_lt _ (by decide)⟩ : Fin 16384)) :=
    (lane_eq (XA0 (F := F) d L fI k) 14 (by decide) shapeCasts_S16_S16 slices_S16_o14_S1 inpos_S1_p0).trans (hW 14 (by decide))
  have hl14 : (extractAt ![0] (k1_pay16 (k1_pay1 (F := F) (XA0 (F := F) d L fI k))) inpos_S1_p0 : BitVec 32).toNat < 1000000 := by rw [hv14]; exact (hpre d).2.1 _
  iapply (wp_assume 𝒱₀ (thr d L) none Set.univ (show k1_chk15 _ from chk_of_lt _ hl14))
  iapply (issueA' m d _ _ (widL L) 0 (16 * k.val + 14) hwid (by decide) (by omega) cc1_scratch3.sem _ _ _ _ _ (16 * k.val + 1 + 1 + 1 + 1 + 1 + 1 + 1 + 1 + 1 + 1 + 1 + 1 + 1 + 1) (by omega) (off_t1_14 k) rfl hv14 hl14 _ f0) $$ [Htbl Hrem HB]
  · isplitl [Htbl]; · iexact Htbl
    isplitl [Hrem]; · iexact Hrem
    iexact HB
  iintro ⟨Htbl, Hrem, HB⟩
  have hv15 : (extractAt ![0] (k1_pay17 (k1_pay1 (F := F) (XA0 (F := F) d L fI k))) inpos_S1_p0 : BitVec 32) = m (a1Loc d) (ValueIdx.ix1 (⟨(512 * widL L + 256 * 0 + (16 * k.val + 15)) % 16384, Nat.mod_lt _ (by decide)⟩ : Fin 16384)) :=
    (lane_eq (XA0 (F := F) d L fI k) 15 (by decide) shapeCasts_S16_S16 slices_S16_o15_S1 inpos_S1_p0).trans (hW 15 (by decide))
  have hl15 : (extractAt ![0] (k1_pay17 (k1_pay1 (F := F) (XA0 (F := F) d L fI k))) inpos_S1_p0 : BitVec 32).toNat < 1000000 := by rw [hv15]; exact (hpre d).2.1 _
  iapply (wp_assume 𝒱₀ (thr d L) none Set.univ (show k1_chk16 _ from chk_of_lt _ hl15))
  iapply (issueA' m d _ _ (widL L) 0 (16 * k.val + 15) hwid (by decide) (by omega) cc1_scratch3.sem _ _ _ _ _ (16 * k.val + 1 + 1 + 1 + 1 + 1 + 1 + 1 + 1 + 1 + 1 + 1 + 1 + 1 + 1 + 1) (by omega) (off_t1_15 k) rfl hv15 hl15 _ f0) $$ [Htbl Hrem HB]
  · isplitl [Htbl]; · iexact Htbl
    isplitl [Hrem]; · iexact Hrem
    iexact HB
  iintro ⟨Htbl, Hrem, HB⟩
  rw [wp_ret]; imodintro
  isplitl [Hidx]; · iexact Hidx
  isplitl [Htbl]; · iexists _; iexact Htbl
  isplitl [Hrem]
  · rw [show 16 * (k.val + 1) = 16 * k.val + 1 + 1 + 1 + 1 + 1 + 1 + 1 + 1 + 1 + 1 + 1 + 1 + 1 + 1 + 1 + 1 from by omega]; iexact Hrem
  rw [show 16 * (k.val + 1) = 16 * k.val + 1 + 1 + 1 + 1 + 1 + 1 + 1 + 1 + 1 + 1 + 1 + 1 + 1 + 1 + 1 + 1 from by omega]; iexact HB

end FireA

end Cert.Proof.KI.K1

end
-- ==== Proof.K1AFire1.lean ====
import proofs.«215896_g38397007626377_fold_wed_m_942_26_alg».proof.Proof.KISetup
import proofs.«215896_g38397007626377_fold_wed_m_942_26_alg».proof.Proof.Gen.KernelIdeal.Skeleton
import proofs.«215896_g38397007626377_fold_wed_m_942_26_alg».proof.Proof.K1A

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

section FireA
variable (m : (ℓ : Loc nD τ sig) → Buf (Elt F) ℓ) (d : Dev nD) (L : grid1.Coords)

/-- The 16 words trip k loads. -/
abbrev XA1 (fI : Buf (Elt F) ((thr d L).loc cc1_scratch0)) (k : Fin k1_t2_loop.trips) : S16.Idx → BitVec 32 :=
  (idW).view.readAt (Elt F) (Rect.unit (s := S320) (k1_off37 k) S16.size (k1_off37_inb k)).toLoadRect fI

def fireInvA1 (fI : Buf (Elt F) ((thr d L).loc cc1_scratch0)) (f0 : Buf (Elt F) ((thr d L).loc cc1_scratch1)) (k : ℕ) (_ : Unit) : sProp 𝕄 :=
  iprop(((thr d L).loc cc1_scratch0 ↦{fullShare} fI) ∗ (∃ q, a4Loc d ↦{q} m (a4Loc d))
    ∗ ((thr d L).loc cc1_scratch1 ↦[remA 1 (16 * k)]{fullShare} f0)
    ∗ Transfers.Batch countersEmb (thr d L) (.dma cc1_scratch4.sem) (none : HIx 2) NA (DA m d ((L 0).castLE hcore1) ((L 1).castLE hsub1) (widL L) 1) (16 * k) 0)

set_option maxHeartbeats 4000000 in
theorem fireA1_step (fI : Buf (Elt F) ((thr d L).loc cc1_scratch0)) (hI : IdxHoldsA m d ((L 0).castLE hcore1) ((L 1).castLE hsub1) (512 * widL L + 256 * 1) fI) (hpre : PreOK m)
    (f0 : Buf (Elt F) ((thr d L).loc cc1_scratch1)) (k : Fin k1_t2_loop.trips) (acc : Unit) :
    fireInvA1 m d L fI f0 k acc ⊢ wp frame (wpE (defs₀ (F := F)) 𝒱₀ (thr d L) none) Set.univ
      (k1_t2_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 k acc)
      (fireInvA1 m d L fI f0 (k.val + 1)) := by
  have hk : k.val < 16 := Nat.lt_of_lt_of_le k.isLt k1_t2_abs.2.1
  have hwid : widL L < 32 := widL_lt L
  have hW : ∀ (u : ℕ) (hu : u < 16), XA1 (F := F) d L fI k (ValueIdx.ix1 (⟨u, hu⟩ : Fin 16))
      = m (a1Loc d) (ValueIdx.ix1 (⟨(512 * widL L + 256 * 1 + (16 * k.val + u)) % 16384, Nat.mod_lt _ (by decide)⟩ : Fin 16384)) :=
    fun u hu => wordA m d _ _ (512 * widL L + 256 * 1) fI hI k.val hk (k1_off37 k) (k1_off37_eq k) (k1_off37_inb k) u hu
  unfold k1_t2_body
  simp only [k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton]
  unfold k1_part17_skel k1_part18_skel k1_part19_skel k1_part20_skel k1_part21_skel k1_part22_skel k1_part23_skel k1_part24_skel k1_part25_skel k1_part26_skel k1_part27_skel k1_part28_skel k1_part29_skel k1_part30_skel k1_part31_skel k1_part32_skel
  simp only [Prog.lift, Prog.bind_op, Prog.bind_ret, Prog.pure_eq_ret]
  unfold fireInvA1
  iintro ⟨Hidx, ⟨%q, Htbl⟩, Hrem, HB⟩
  iapply (wp_load 𝒱₀ (thr d L) none Set.univ (m := idW) (S := Finset.univ) (q := fullShare) (f := fI) (Finset.subset_univ _)) $$ Hidx; iintro Hidx
  have hv0 : (extractAt ![0] (k1_pay19 (F := F) (XA1 (F := F) d L fI k)) inpos_S1_p0 : BitVec 32) = m (a1Loc d) (ValueIdx.ix1 (⟨(512 * widL L + 256 * 1 + (16 * k.val + 0)) % 16384, Nat.mod_lt _ (by decide)⟩ : Fin 16384)) :=
    (lane_eq (XA1 (F := F) d L fI k) 0 (by decide) shapeCasts_S16_S16 slices_S16_o0_S1 inpos_S1_p0).trans (hW 0 (by decide))
  have hl0 : (extractAt ![0] (k1_pay19 (F := F) (XA1 (F := F) d L fI k)) inpos_S1_p0 : BitVec 32).toNat < 1000000 := by rw [hv0]; exact (hpre d).2.1 _
  iapply (wp_assume 𝒱₀ (thr d L) none Set.univ (show k1_chk17 _ from chk_of_lt _ hl0))
  iapply (issueA' m d _ _ (widL L) 1 (16 * k.val + 0) hwid (by decide) (by omega) cc1_scratch4.sem _ _ _ _ _ (16 * k.val) (by omega) (off_t2_0 k) rfl hv0 hl0 _ f0) $$ [Htbl Hrem HB]
  · isplitl [Htbl]; · iexact Htbl
    isplitl [Hrem]; · iexact Hrem
    iexact HB
  iintro ⟨Htbl, Hrem, HB⟩
  have hv1 : (extractAt ![0] (k1_pay20 (k1_pay18 (F := F) (XA1 (F := F) d L fI k))) inpos_S1_p0 : BitVec 32) = m (a1Loc d) (ValueIdx.ix1 (⟨(512 * widL L + 256 * 1 + (16 * k.val + 1)) % 16384, Nat.mod_lt _ (by decide)⟩ : Fin 16384)) :=
    (lane_eq (XA1 (F := F) d L fI k) 1 (by decide) shapeCasts_S16_S16 slices_S16_o1_S1 inpos_S1_p0).trans (hW 1 (by decide))
  have hl1 : (extractAt ![0] (k1_pay20 (k1_pay18 (F := F) (XA1 (F := F) d L fI k))) inpos_S1_p0 : BitVec 32).toNat < 1000000 := by rw [hv1]; exact (hpre d).2.1 _
  iapply (wp_assume 𝒱₀ (thr d L) none Set.univ (show k1_chk18 _ from chk_of_lt _ hl1))
  iapply (issueA' m d _ _ (widL L) 1 (16 * k.val + 1) hwid (by decide) (by omega) cc1_scratch4.sem _ _ _ _ _ (16 * k.val + 1) (by omega) (off_t2_1 k) rfl hv1 hl1 _ f0) $$ [Htbl Hrem HB]
  · isplitl [Htbl]; · iexact Htbl
    isplitl [Hrem]; · iexact Hrem
    iexact HB
  iintro ⟨Htbl, Hrem, HB⟩
  have hv2 : (extractAt ![0] (k1_pay21 (k1_pay18 (F := F) (XA1 (F := F) d L fI k))) inpos_S1_p0 : BitVec 32) = m (a1Loc d) (ValueIdx.ix1 (⟨(512 * widL L + 256 * 1 + (16 * k.val + 2)) % 16384, Nat.mod_lt _ (by decide)⟩ : Fin 16384)) :=
    (lane_eq (XA1 (F := F) d L fI k) 2 (by decide) shapeCasts_S16_S16 slices_S16_o2_S1 inpos_S1_p0).trans (hW 2 (by decide))
  have hl2 : (extractAt ![0] (k1_pay21 (k1_pay18 (F := F) (XA1 (F := F) d L fI k))) inpos_S1_p0 : BitVec 32).toNat < 1000000 := by rw [hv2]; exact (hpre d).2.1 _
  iapply (wp_assume 𝒱₀ (thr d L) none Set.univ (show k1_chk19 _ from chk_of_lt _ hl2))
  iapply (issueA' m d _ _ (widL L) 1 (16 * k.val + 2) hwid (by decide) (by omega) cc1_scratch4.sem _ _ _ _ _ (16 * k.val + 1 + 1) (by omega) (off_t2_2 k) rfl hv2 hl2 _ f0) $$ [Htbl Hrem HB]
  · isplitl [Htbl]; · iexact Htbl
    isplitl [Hrem]; · iexact Hrem
    iexact HB
  iintro ⟨Htbl, Hrem, HB⟩
  have hv3 : (extractAt ![0] (k1_pay22 (k1_pay18 (F := F) (XA1 (F := F) d L fI k))) inpos_S1_p0 : BitVec 32) = m (a1Loc d) (ValueIdx.ix1 (⟨(512 * widL L + 256 * 1 + (16 * k.val + 3)) % 16384, Nat.mod_lt _ (by decide)⟩ : Fin 16384)) :=
    (lane_eq (XA1 (F := F) d L fI k) 3 (by decide) shapeCasts_S16_S16 slices_S16_o3_S1 inpos_S1_p0).trans (hW 3 (by decide))
  have hl3 : (extractAt ![0] (k1_pay22 (k1_pay18 (F := F) (XA1 (F := F) d L fI k))) inpos_S1_p0 : BitVec 32).toNat < 1000000 := by rw [hv3]; exact (hpre d).2.1 _
  iapply (wp_assume 𝒱₀ (thr d L) none Set.univ (show k1_chk20 _ from chk_of_lt _ hl3))
  iapply (issueA' m d _ _ (widL L) 1 (16 * k.val + 3) hwid (by decide) (by omega) cc1_scratch4.sem _ _ _ _ _ (16 * k.val + 1 + 1 + 1) (by omega) (off_t2_3 k) rfl hv3 hl3 _ f0) $$ [Htbl Hrem HB]
  · isplitl [Htbl]; · iexact Htbl
    isplitl [Hrem]; · iexact Hrem
    iexact HB
  iintro ⟨Htbl, Hrem, HB⟩
  have hv4 : (extractAt ![0] (k1_pay23 (k1_pay18 (F := F) (XA1 (F := F) d L fI k))) inpos_S1_p0 : BitVec 32) = m (a1Loc d) (ValueIdx.ix1 (⟨(512 * widL L + 256 * 1 + (16 * k.val + 4)) % 16384, Nat.mod_lt _ (by decide)⟩ : Fin 16384)) :=
    (lane_eq (XA1 (F := F) d L fI k) 4 (by decide) shapeCasts_S16_S16 slices_S16_o4_S1 inpos_S1_p0).trans (hW 4 (by decide))
  have hl4 : (extractAt ![0] (k1_pay23 (k1_pay18 (F := F) (XA1 (F := F) d L fI k))) inpos_S1_p0 : BitVec 32).toNat < 1000000 := by rw [hv4]; exact (hpre d).2.1 _
  iapply (wp_assume 𝒱₀ (thr d L) none Set.univ (show k1_chk21 _ from chk_of_lt _ hl4))
  iapply (issueA' m d _ _ (widL L) 1 (16 * k.val + 4) hwid (by decide) (by omega) cc1_scratch4.sem _ _ _ _ _ (16 * k.val + 1 + 1 + 1 + 1) (by omega) (off_t2_4 k) rfl hv4 hl4 _ f0) $$ [Htbl Hrem HB]
  · isplitl [Htbl]; · iexact Htbl
    isplitl [Hrem]; · iexact Hrem
    iexact HB
  iintro ⟨Htbl, Hrem, HB⟩
  have hv5 : (extractAt ![0] (k1_pay24 (k1_pay18 (F := F) (XA1 (F := F) d L fI k))) inpos_S1_p0 : BitVec 32) = m (a1Loc d) (ValueIdx.ix1 (⟨(512 * widL L + 256 * 1 + (16 * k.val + 5)) % 16384, Nat.mod_lt _ (by decide)⟩ : Fin 16384)) :=
    (lane_eq (XA1 (F := F) d L fI k) 5 (by decide) shapeCasts_S16_S16 slices_S16_o5_S1 inpos_S1_p0).trans (hW 5 (by decide))
  have hl5 : (extractAt ![0] (k1_pay24 (k1_pay18 (F := F) (XA1 (F := F) d L fI k))) inpos_S1_p0 : BitVec 32).toNat < 1000000 := by rw [hv5]; exact (hpre d).2.1 _
  iapply (wp_assume 𝒱₀ (thr d L) none Set.univ (show k1_chk22 _ from chk_of_lt _ hl5))
  iapply (issueA' m d _ _ (widL L) 1 (16 * k.val + 5) hwid (by decide) (by omega) cc1_scratch4.sem _ _ _ _ _ (16 * k.val + 1 + 1 + 1 + 1 + 1) (by omega) (off_t2_5 k) rfl hv5 hl5 _ f0) $$ [Htbl Hrem HB]
  · isplitl [Htbl]; · iexact Htbl
    isplitl [Hrem]; · iexact Hrem
    iexact HB
  iintro ⟨Htbl, Hrem, HB⟩
  have hv6 : (extractAt ![0] (k1_pay25 (k1_pay18 (F := F) (XA1 (F := F) d L fI k))) inpos_S1_p0 : BitVec 32) = m (a1Loc d) (ValueIdx.ix1 (⟨(512 * widL L + 256 * 1 + (16 * k.val + 6)) % 16384, Nat.mod_lt _ (by decide)⟩ : Fin 16384)) :=
    (lane_eq (XA1 (F := F) d L fI k) 6 (by decide) shapeCasts_S16_S16 slices_S16_o6_S1 inpos_S1_p0).trans (hW 6 (by decide))
  have hl6 : (extractAt ![0] (k1_pay25 (k1_pay18 (F := F) (XA1 (F := F) d L fI k))) inpos_S1_p0 : BitVec 32).toNat < 1000000 := by rw [hv6]; exact (hpre d).2.1 _
  iapply (wp_assume 𝒱₀ (thr d L) none Set.univ (show k1_chk23 _ from chk_of_lt _ hl6))
  iapply (issueA' m d _ _ (widL L) 1 (16 * k.val + 6) hwid (by decide) (by omega) cc1_scratch4.sem _ _ _ _ _ (16 * k.val + 1 + 1 + 1 + 1 + 1 + 1) (by omega) (off_t2_6 k) rfl hv6 hl6 _ f0) $$ [Htbl Hrem HB]
  · isplitl [Htbl]; · iexact Htbl
    isplitl [Hrem]; · iexact Hrem
    iexact HB
  iintro ⟨Htbl, Hrem, HB⟩
  have hv7 : (extractAt ![0] (k1_pay26 (k1_pay18 (F := F) (XA1 (F := F) d L fI k))) inpos_S1_p0 : BitVec 32) = m (a1Loc d) (ValueIdx.ix1 (⟨(512 * widL L + 256 * 1 + (16 * k.val + 7)) % 16384, Nat.mod_lt _ (by decide)⟩ : Fin 16384)) :=
    (lane_eq (XA1 (F := F) d L fI k) 7 (by decide) shapeCasts_S16_S16 slices_S16_o7_S1 inpos_S1_p0).trans (hW 7 (by decide))
  have hl7 : (extractAt ![0] (k1_pay26 (k1_pay18 (F := F) (XA1 (F := F) d L fI k))) inpos_S1_p0 : BitVec 32).toNat < 1000000 := by rw [hv7]; exact (hpre d).2.1 _
  iapply (wp_assume 𝒱₀ (thr d L) none Set.univ (show k1_chk24 _ from chk_of_lt _ hl7))
  iapply (issueA' m d _ _ (widL L) 1 (16 * k.val + 7) hwid (by decide) (by omega) cc1_scratch4.sem _ _ _ _ _ (16 * k.val + 1 + 1 + 1 + 1 + 1 + 1 + 1) (by omega) (off_t2_7 k) rfl hv7 hl7 _ f0) $$ [Htbl Hrem HB]
  · isplitl [Htbl]; · iexact Htbl
    isplitl [Hrem]; · iexact Hrem
    iexact HB
  iintro ⟨Htbl, Hrem, HB⟩
  have hv8 : (extractAt ![0] (k1_pay27 (k1_pay18 (F := F) (XA1 (F := F) d L fI k))) inpos_S1_p0 : BitVec 32) = m (a1Loc d) (ValueIdx.ix1 (⟨(512 * widL L + 256 * 1 + (16 * k.val + 8)) % 16384, Nat.mod_lt _ (by decide)⟩ : Fin 16384)) :=
    (lane_eq (XA1 (F := F) d L fI k) 8 (by decide) shapeCasts_S16_S16 slices_S16_o8_S1 inpos_S1_p0).trans (hW 8 (by decide))
  have hl8 : (extractAt ![0] (k1_pay27 (k1_pay18 (F := F) (XA1 (F := F) d L fI k))) inpos_S1_p0 : BitVec 32).toNat < 1000000 := by rw [hv8]; exact (hpre d).2.1 _
  iapply (wp_assume 𝒱₀ (thr d L) none Set.univ (show k1_chk25 _ from chk_of_lt _ hl8))
  iapply (issueA' m d _ _ (widL L) 1 (16 * k.val + 8) hwid (by decide) (by omega) cc1_scratch4.sem _ _ _ _ _ (16 * k.val + 1 + 1 + 1 + 1 + 1 + 1 + 1 + 1) (by omega) (off_t2_8 k) rfl hv8 hl8 _ f0) $$ [Htbl Hrem HB]
  · isplitl [Htbl]; · iexact Htbl
    isplitl [Hrem]; · iexact Hrem
    iexact HB
  iintro ⟨Htbl, Hrem, HB⟩
  have hv9 : (extractAt ![0] (k1_pay28 (k1_pay18 (F := F) (XA1 (F := F) d L fI k))) inpos_S1_p0 : BitVec 32) = m (a1Loc d) (ValueIdx.ix1 (⟨(512 * widL L + 256 * 1 + (16 * k.val + 9)) % 16384, Nat.mod_lt _ (by decide)⟩ : Fin 16384)) :=
    (lane_eq (XA1 (F := F) d L fI k) 9 (by decide) shapeCasts_S16_S16 slices_S16_o9_S1 inpos_S1_p0).trans (hW 9 (by decide))
  have hl9 : (extractAt ![0] (k1_pay28 (k1_pay18 (F := F) (XA1 (F := F) d L fI k))) inpos_S1_p0 : BitVec 32).toNat < 1000000 := by rw [hv9]; exact (hpre d).2.1 _
  iapply (wp_assume 𝒱₀ (thr d L) none Set.univ (show k1_chk26 _ from chk_of_lt _ hl9))
  iapply (issueA' m d _ _ (widL L) 1 (16 * k.val + 9) hwid (by decide) (by omega) cc1_scratch4.sem _ _ _ _ _ (16 * k.val + 1 + 1 + 1 + 1 + 1 + 1 + 1 + 1 + 1) (by omega) (off_t2_9 k) rfl hv9 hl9 _ f0) $$ [Htbl Hrem HB]
  · isplitl [Htbl]; · iexact Htbl
    isplitl [Hrem]; · iexact Hrem
    iexact HB
  iintro ⟨Htbl, Hrem, HB⟩
  have hv10 : (extractAt ![0] (k1_pay29 (k1_pay18 (F := F) (XA1 (F := F) d L fI k))) inpos_S1_p0 : BitVec 32) = m (a1Loc d) (ValueIdx.ix1 (⟨(512 * widL L + 256 * 1 + (16 * k.val + 10)) % 16384, Nat.mod_lt _ (by decide)⟩ : Fin 16384)) :=
    (lane_eq (XA1 (F := F) d L fI k) 10 (by decide) shapeCasts_S16_S16 slices_S16_o10_S1 inpos_S1_p0).trans (hW 10 (by decide))
  have hl10 : (extractAt ![0] (k1_pay29 (k1_pay18 (F := F) (XA1 (F := F) d L fI k))) inpos_S1_p0 : BitVec 32).toNat < 1000000 := by rw [hv10]; exact (hpre d).2.1 _
  iapply (wp_assume 𝒱₀ (thr d L) none Set.univ (show k1_chk27 _ from chk_of_lt _ hl10))
  iapply (issueA' m d _ _ (widL L) 1 (16 * k.val + 10) hwid (by decide) (by omega) cc1_scratch4.sem _ _ _ _ _ (16 * k.val + 1 + 1 + 1 + 1 + 1 + 1 + 1 + 1 + 1 + 1) (by omega) (off_t2_10 k) rfl hv10 hl10 _ f0) $$ [Htbl Hrem HB]
  · isplitl [Htbl]; · iexact Htbl
    isplitl [Hrem]; · iexact Hrem
    iexact HB
  iintro ⟨Htbl, Hrem, HB⟩
  have hv11 : (extractAt ![0] (k1_pay30 (k1_pay18 (F := F) (XA1 (F := F) d L fI k))) inpos_S1_p0 : BitVec 32) = m (a1Loc d) (ValueIdx.ix1 (⟨(512 * widL L + 256 * 1 + (16 * k.val + 11)) % 16384, Nat.mod_lt _ (by decide)⟩ : Fin 16384)) :=
    (lane_eq (XA1 (F := F) d L fI k) 11 (by decide) shapeCasts_S16_S16 slices_S16_o11_S1 inpos_S1_p0).trans (hW 11 (by decide))
  have hl11 : (extractAt ![0] (k1_pay30 (k1_pay18 (F := F) (XA1 (F := F) d L fI k))) inpos_S1_p0 : BitVec 32).toNat < 1000000 := by rw [hv11]; exact (hpre d).2.1 _
  iapply (wp_assume 𝒱₀ (thr d L) none Set.univ (show k1_chk28 _ from chk_of_lt _ hl11))
  iapply (issueA' m d _ _ (widL L) 1 (16 * k.val + 11) hwid (by decide) (by omega) cc1_scratch4.sem _ _ _ _ _ (16 * k.val + 1 + 1 + 1 + 1 + 1 + 1 + 1 + 1 + 1 + 1 + 1) (by omega) (off_t2_11 k) rfl hv11 hl11 _ f0) $$ [Htbl Hrem HB]
  · isplitl [Htbl]; · iexact Htbl
    isplitl [Hrem]; · iexact Hrem
    iexact HB
  iintro ⟨Htbl, Hrem, HB⟩
  have hv12 : (extractAt ![0] (k1_pay31 (k1_pay18 (F := F) (XA1 (F := F) d L fI k))) inpos_S1_p0 : BitVec 32) = m (a1Loc d) (ValueIdx.ix1 (⟨(512 * widL L + 256 * 1 + (16 * k.val + 12)) % 16384, Nat.mod_lt _ (by decide)⟩ : Fin 16384)) :=
    (lane_eq (XA1 (F := F) d L fI k) 12 (by decide) shapeCasts_S16_S16 slices_S16_o12_S1 inpos_S1_p0).trans (hW 12 (by decide))
  have hl12 : (extractAt ![0] (k1_pay31 (k1_pay18 (F := F) (XA1 (F := F) d L fI k))) inpos_S1_p0 : BitVec 32).toNat < 1000000 := by rw [hv12]; exact (hpre d).2.1 _
  iapply (wp_assume 𝒱₀ (thr d L) none Set.univ (show k1_chk29 _ from chk_of_lt _ hl12))
  iapply (issueA' m d _ _ (widL L) 1 (16 * k.val + 12) hwid (by decide) (by omega) cc1_scratch4.sem _ _ _ _ _ (16 * k.val + 1 + 1 + 1 + 1 + 1 + 1 + 1 + 1 + 1 + 1 + 1 + 1) (by omega) (off_t2_12 k) rfl hv12 hl12 _ f0) $$ [Htbl Hrem HB]
  · isplitl [Htbl]; · iexact Htbl
    isplitl [Hrem]; · iexact Hrem
    iexact HB
  iintro ⟨Htbl, Hrem, HB⟩
  have hv13 : (extractAt ![0] (k1_pay32 (k1_pay18 (F := F) (XA1 (F := F) d L fI k))) inpos_S1_p0 : BitVec 32) = m (a1Loc d) (ValueIdx.ix1 (⟨(512 * widL L + 256 * 1 + (16 * k.val + 13)) % 16384, Nat.mod_lt _ (by decide)⟩ : Fin 16384)) :=
    (lane_eq (XA1 (F := F) d L fI k) 13 (by decide) shapeCasts_S16_S16 slices_S16_o13_S1 inpos_S1_p0).trans (hW 13 (by decide))
  have hl13 : (extractAt ![0] (k1_pay32 (k1_pay18 (F := F) (XA1 (F := F) d L fI k))) inpos_S1_p0 : BitVec 32).toNat < 1000000 := by rw [hv13]; exact (hpre d).2.1 _
  iapply (wp_assume 𝒱₀ (thr d L) none Set.univ (show k1_chk30 _ from chk_of_lt _ hl13))
  iapply (issueA' m d _ _ (widL L) 1 (16 * k.val + 13) hwid (by decide) (by omega) cc1_scratch4.sem _ _ _ _ _ (16 * k.val + 1 + 1 + 1 + 1 + 1 + 1 + 1 + 1 + 1 + 1 + 1 + 1 + 1) (by omega) (off_t2_13 k) rfl hv13 hl13 _ f0) $$ [Htbl Hrem HB]
  · isplitl [Htbl]; · iexact Htbl
    isplitl [Hrem]; · iexact Hrem
    iexact HB
  iintro ⟨Htbl, Hrem, HB⟩
  have hv14 : (extractAt ![0] (k1_pay33 (k1_pay18 (F := F) (XA1 (F := F) d L fI k))) inpos_S1_p0 : BitVec 32) = m (a1Loc d) (ValueIdx.ix1 (⟨(512 * widL L + 256 * 1 + (16 * k.val + 14)) % 16384, Nat.mod_lt _ (by decide)⟩ : Fin 16384)) :=
    (lane_eq (XA1 (F := F) d L fI k) 14 (by decide) shapeCasts_S16_S16 slices_S16_o14_S1 inpos_S1_p0).trans (hW 14 (by decide))
  have hl14 : (extractAt ![0] (k1_pay33 (k1_pay18 (F := F) (XA1 (F := F) d L fI k))) inpos_S1_p0 : BitVec 32).toNat < 1000000 := by rw [hv14]; exact (hpre d).2.1 _
  iapply (wp_assume 𝒱₀ (thr d L) none Set.univ (show k1_chk31 _ from chk_of_lt _ hl14))
  iapply (issueA' m d _ _ (widL L) 1 (16 * k.val + 14) hwid (by decide) (by omega) cc1_scratch4.sem _ _ _ _ _ (16 * k.val + 1 + 1 + 1 + 1 + 1 + 1 + 1 + 1 + 1 + 1 + 1 + 1 + 1 + 1) (by omega) (off_t2_14 k) rfl hv14 hl14 _ f0) $$ [Htbl Hrem HB]
  · isplitl [Htbl]; · iexact Htbl
    isplitl [Hrem]; · iexact Hrem
    iexact HB
  iintro ⟨Htbl, Hrem, HB⟩
  have hv15 : (extractAt ![0] (k1_pay34 (k1_pay18 (F := F) (XA1 (F := F) d L fI k))) inpos_S1_p0 : BitVec 32) = m (a1Loc d) (ValueIdx.ix1 (⟨(512 * widL L + 256 * 1 + (16 * k.val + 15)) % 16384, Nat.mod_lt _ (by decide)⟩ : Fin 16384)) :=
    (lane_eq (XA1 (F := F) d L fI k) 15 (by decide) shapeCasts_S16_S16 slices_S16_o15_S1 inpos_S1_p0).trans (hW 15 (by decide))
  have hl15 : (extractAt ![0] (k1_pay34 (k1_pay18 (F := F) (XA1 (F := F) d L fI k))) inpos_S1_p0 : BitVec 32).toNat < 1000000 := by rw [hv15]; exact (hpre d).2.1 _
  iapply (wp_assume 𝒱₀ (thr d L) none Set.univ (show k1_chk32 _ from chk_of_lt _ hl15))
  iapply (issueA' m d _ _ (widL L) 1 (16 * k.val + 15) hwid (by decide) (by omega) cc1_scratch4.sem _ _ _ _ _ (16 * k.val + 1 + 1 + 1 + 1 + 1 + 1 + 1 + 1 + 1 + 1 + 1 + 1 + 1 + 1 + 1) (by omega) (off_t2_15 k) rfl hv15 hl15 _ f0) $$ [Htbl Hrem HB]
  · isplitl [Htbl]; · iexact Htbl
    isplitl [Hrem]; · iexact Hrem
    iexact HB
  iintro ⟨Htbl, Hrem, HB⟩
  rw [wp_ret]; imodintro
  isplitl [Hidx]; · iexact Hidx
  isplitl [Htbl]; · iexists _; iexact Htbl
  isplitl [Hrem]
  · rw [show 16 * (k.val + 1) = 16 * k.val + 1 + 1 + 1 + 1 + 1 + 1 + 1 + 1 + 1 + 1 + 1 + 1 + 1 + 1 + 1 + 1 from by omega]; iexact Hrem
  rw [show 16 * (k.val + 1) = 16 * k.val + 1 + 1 + 1 + 1 + 1 + 1 + 1 + 1 + 1 + 1 + 1 + 1 + 1 + 1 + 1 + 1 from by omega]; iexact HB

end FireA

end Cert.Proof.KI.K1

end
-- ==== Proof.K1AP195.lean ====
import proofs.«215896_g38397007626377_fold_wed_m_942_26_alg».proof.Proof.KISetup
import proofs.«215896_g38397007626377_fold_wed_m_942_26_alg».proof.Proof.Gen.KernelIdeal.Skeleton
import proofs.«215896_g38397007626377_fold_wed_m_942_26_alg».proof.Proof.K1A
import proofs.«215896_g38397007626377_fold_wed_m_942_26_alg».proof.Proof.K1AFire0
import proofs.«215896_g38397007626377_fold_wed_m_942_26_alg».proof.Proof.K1AFire1
import proofs.«215896_g38397007626377_fold_wed_m_942_26_alg».proof.Proof.K1AJoin

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

/-! ## The program's first part: both chunks of the output words fetched and fired -/

section Part195

variable (m : (ℓ : Loc nD τ sig) → Buf (Elt F) ℓ) (d : Dev nD) (L : grid1.Coords)

/-- What the index fetch's copy credits. -/
def NI : ℕ := (idxDstA).view.dmaCredit
theorem NI_pos : 0 < NI := View.dmaCredit_pos _ (show 0 < S256.numel by decide)

theorem off1_eq : k1_off1 L = ![512 * widL L + 256 * 0] :=
  (k1_off1_eq L).trans (congrArg (fun x => (![x] : Fin 1 → ℕ)) (by unfold widL; omega))
theorem off36_eq : k1_off36 L = ![512 * widL L + 256 * 1] :=
  (k1_off36_eq L).trans (congrArg (fun x => (![x] : Fin 1 → ℕ)) (by unfold widL; omega))

theorem trips_t1 : Scf.trips k1_t1_loop.lb k1_t1_loop.ub k1_t1_loop.st = 16 := by decide
theorem trips_t2 : Scf.trips k1_t2_loop.lb k1_t2_loop.ub k1_t2_loop.st = 16 := by decide

set_option maxHeartbeats 4000000 in
theorem wp_part195 (hpre : PreOK m) (O : CellTallies nD τ sig (HIx 2)) (hO : ∀ g, O g none = 0) (W : Waits sig (HIx 2))
    (q1 : PosShare TreeShare) (fi : Buf (Elt F) ((thr d L).loc cc1_scratch0)) (fA : Buf (Elt F) ((thr d L).loc cc1_scratch1)) :
    iprop(levAts (K (F := F)).L (K (F := F)).lev ∗ owesN (F := F) (thr d L) O W
        ∗ (a1Loc d ↦{q1} m (a1Loc d)) ∗ (∃ q, a4Loc d ↦{q} m (a4Loc d))
        ∗ ((thr d L).loc cc1_scratch0 ↦{fullShare} fi) ∗ ((thr d L).loc cc1_scratch1 ↦{fullShare} fA)
        ∗ semVal (thr d L, SemLoc.dma cc1_scratch3.sem) 0 ∗ semVal (thr d L, SemLoc.dma cc1_scratch4.sem) 0
        ∗ semVal (thr d L, SemLoc.dma cc1_scoped0.sem) 0 ∗ semVal (thr d L, SemLoc.dma cc1_scoped1.sem) 0)
      ⊢ wp frame (wpE (defs₀ (F := F)) 𝒱₀ (thr d L) none) Set.univ
          (k1_part195 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
          (fun _ => iprop(owesN (F := F) (thr d L) O W ∗ (∃ q, a4Loc d ↦{q} m (a4Loc d))
            ∗ (∃ f, (thr d L).loc cc1_scratch0 ↦{fullShare} f)
            ∗ Transfers.Batch countersEmb (thr d L) (.dma cc1_scratch3.sem) (none : HIx 2) NA (DA m d ((L 0).castLE hcore1) ((L 1).castLE hsub1) (widL L) 0) 256 0
            ∗ Transfers.Batch countersEmb (thr d L) (.dma cc1_scratch4.sem) (none : HIx 2) NA (DA m d ((L 0).castLE hcore1) ((L 1).castLE hsub1) (widL L) 1) 256 0
            ∗ semVal (thr d L, SemLoc.dma cc1_scoped0.sem) 0 ∗ semVal (thr d L, SemLoc.dma cc1_scoped1.sem) 0)) := by
  have hw := widL_lt L
  simp only [k1_part195_eq_skeleton]; unfold k1_part195_skel
  simp only [Prog.lift, Prog.bind_op, Prog.bind_ret, Prog.pure_eq_ret, Prog.bind_assoc]
  iintro ⟨#Hlv, HO, Ha1, ⟨%q, Ha4⟩, HsI, HsA, Hs3, Hs4, Hc0, Hc1⟩
  -- the first chunk's index fetch
  ihave Hs := (pointsTo_split_subset (ℓ := a1Loc d) (q := q1) (f := m (a1Loc d)) (Finset.subset_univ (idxSrcA (k1_off1 L) (k1_off1_inb L)).view.set)).1 $$ Ha1
  icases Hs with ⟨Hsrc, Ha1r⟩
  iapply (syncCopy d _ _ cc1_scoped0.sem NI rfl NI_pos rfl Finset.univ (Finset.subset_univ _) q1 (m (a1Loc d)) fi O hO W
    (src := idxSrcA (k1_off1 L) (k1_off1_inb L)) (dst := idxDstA)) $$ [Hsrc HsI Hc0 HO]
  · isplitr; · iexact Hlv
    isplitl [Hsrc]; · iexact Hsrc
    isplitl [HsI]; · iexact HsI
    isplitl [Hc0]; · iexact Hc0
    iexact HO
  iintro ⟨HsI, Hsrc, Hc0, HO⟩
  ihave Ha1 := (pointsTo_split_subset (ℓ := a1Loc d) (q := q1) (f := m (a1Loc d)) (Finset.subset_univ (idxSrcA (k1_off1 L) (k1_off1_inb L)).view.set)).2 $$ [Hsrc Ha1r]
  · isplitl [Hsrc]; · iexact Hsrc
    iexact Ha1r
  have hI0 := idxA_holds m d ((L 0).castLE hcore1) ((L 1).castLE hsub1) (512 * widL L + 256 * 0) (by omega) (k1_off1 L) (off1_eq L) (k1_off1_inb L) fi
  -- the rows scratch as its two slots; the first chunk's batch
  ihave Hr := (pointsTo_split_subset (ℓ := (thr d L).loc cc1_scratch1) (q := fullShare) (f := fA) (Finset.subset_univ (remA 0 0))).1 $$ HsA
  icases Hr with ⟨Hr0, Hr1⟩
  imod (Transfers.batch_alloc' (Lvl := ℕ) countersEmb (thr d L) (none : HIx 2) NA (DA m d ((L 0).castLE hcore1) ((L 1).castLE hsub1) (widL L) 0) (sm := .dma cc1_scratch3.sem) (E := Set.univ)) $$ Hs3 with HB0
  sl_for (fireInvA0 m d L _ fA) $$ [HsI Ha4 Hr0 HB0]
  case region => exact fun k acc => fireA0_step m d L _ hI0 hpre fA k acc
  · unfold fireInvA0
    rw [Nat.mul_zero]
    isplitl [HsI]; · iexact HsI
    isplitl [Ha4]; · iexists _; iexact Ha4
    isplitl [Hr0]; · iexact Hr0
    iexact HB0
  iintro %_ HI
  unfold fireInvA0
  rw [trips_t1]
  icases HI with ⟨HsI, ⟨%q', Ha4⟩, -, HB0⟩
  unfold wp_part195.sl.prog.cont_1
  -- the second chunk's index fetch
  ihave Hs := (pointsTo_split_subset (ℓ := a1Loc d) (q := q1) (f := m (a1Loc d)) (Finset.subset_univ (idxSrcA (k1_off36 L) (k1_off36_inb L)).view.set)).1 $$ Ha1
  icases Hs with ⟨Hsrc, Ha1r⟩
  iapply (syncCopy d _ _ cc1_scoped1.sem NI rfl NI_pos rfl Finset.univ (Finset.subset_univ _) q1 (m (a1Loc d)) _ O hO W
    (src := idxSrcA (k1_off36 L) (k1_off36_inb L)) (dst := idxDstA)) $$ [Hsrc HsI Hc1 HO]
  · isplitr; · iexact Hlv
    isplitl [Hsrc]; · iexact Hsrc
    isplitl [HsI]; · iexact HsI
    isplitl [Hc1]; · iexact Hc1
    iexact HO
  iintro ⟨HsI, -, Hc1, HO⟩
  have hI1 := idxA_holds m d ((L 0).castLE hcore1) ((L 1).castLE hsub1) (512 * widL L + 256 * 1) (by omega) (k1_off36 L) (off36_eq L) (k1_off36_inb L)
    (View.write (Elt F) idxDstA.view fi ((ReadAs.same : ReadAs (Elt F) S256 .i32 S256 .i32).apply (View.read (Elt F) (idxSrcA (k1_off1 L) (k1_off1_inb L)).view (m (a1Loc d)))) Finset.univ)
  imod (Transfers.batch_alloc' (Lvl := ℕ) countersEmb (thr d L) (none : HIx 2) NA (DA m d ((L 0).castLE hcore1) ((L 1).castLE hsub1) (widL L) 1) (sm := .dma cc1_scratch4.sem) (E := Set.univ)) $$ Hs4 with HB1
  ihave Hr1' := (Entails.of_eq (congrArg (fun S => ((thr d L).loc cc1_scratch1 ↦[S]{fullShare} fA : sProp 𝕄)) slots_univ)) $$ Hr1
  sl_for (fireInvA1 m d L _ fA) $$ [HsI Ha4 Hr1' HB1]
  case region => exact fun k acc => fireA1_step m d L _ hI1 hpre fA k acc
  · unfold fireInvA1
    rw [Nat.mul_zero]
    isplitl [HsI]; · iexact HsI
    isplitl [Ha4]; · iexists _; iexact Ha4
    isplitl [Hr1']; · iexact Hr1'
    iexact HB1
  iintro %_ HI
  unfold fireInvA1
  rw [trips_t2]
  icases HI with ⟨HsI, ⟨%q'', Ha4⟩, -, HB1⟩
  unfold wp_part195.sl.prog.cont_2
  rw [wp_ret]; imodintro
  isplitl [HO]; · iexact HO
  isplitl [Ha4]; · iexists _; iexact Ha4
  isplitl [HsI]; · iexists _; iexact HsI
  isplitl [HB0]; · iexact HB0
  isplitl [HB1]; · iexact HB1
  isplitl [Hc0]; · iexact Hc0
  iexact Hc1

end Part195

end Cert.Proof.KI.K1

end
-- ==== Proof.K1BViews.lean ====
/-
  The second kernel's noise-word phase: where each copy lands.

  The rows scratch is [2, 16, 1280]: slot b, batch row r, twenty lookups of 64 columns side by side. Copy t = 16 k + u
  of a chunk (trip k of a fire loop, unrolled copy u) fills slot b, row t / 20, columns 64 (t mod 20) .. + 63; the
  drain loops name the same places. The printed program computes each place by an offset function per unrolled copy;
  their closed forms are decided once over the twenty trips.
-/
import proofs.«215896_g38397007626377_fold_wed_m_942_26_alg».proof.Proof.KISetup

namespace Cert.Proof.KI.K1

open Cert.KernelIdeal Cert.KernelIdeal.Gen Cert.Proof.KI
open Idealize.ShloMosaic

theorem trips_t4 : k1_t4_loop.trips = 20 := by decide
theorem trips_t6 : k1_t6_loop.trips = 20 := by decide
theorem trips_t8 : k1_t8_loop.trips = 20 := by decide
theorem trips_t9 : k1_t9_loop.trips = 20 := by decide
theorem trips_t10 : k1_t10_loop.trips = 20 := by decide
theorem trips_t11 : k1_t11_loop.trips = 20 := by decide
theorem trips_t12 : k1_t12_loop.trips = 20 := by decide
theorem trips_t13 : k1_t13_loop.trips = 20 := by decide
theorem trips_t7 : k1_t7_loop.trips = 15 := by decide

/-! ### Fire loop k1_t4 (slot 0) -/
theorem t4_dst0 : ∀ k : Fin k1_t4_loop.trips, k1_off77 k 0#32 = ![0, (16 * k.val + 0) / 20, ((16 * k.val + 0) % 20) * 64] := by decide +kernel
theorem t4_dst1 : ∀ k : Fin k1_t4_loop.trips, k1_off79 k 1#32 = ![0, (16 * k.val + 1) / 20, ((16 * k.val + 1) % 20) * 64] := by decide +kernel
theorem t4_dst2 : ∀ k : Fin k1_t4_loop.trips, k1_off81 k 2#32 = ![0, (16 * k.val + 2) / 20, ((16 * k.val + 2) % 20) * 64] := by decide +kernel
theorem t4_dst3 : ∀ k : Fin k1_t4_loop.trips, k1_off83 k 3#32 = ![0, (16 * k.val + 3) / 20, ((16 * k.val + 3) % 20) * 64] := by decide +kernel
theorem t4_dst4 : ∀ k : Fin k1_t4_loop.trips, k1_off85 k 4#32 = ![0, (16 * k.val + 4) / 20, ((16 * k.val + 4) % 20) * 64] := by decide +kernel
theorem t4_dst5 : ∀ k : Fin k1_t4_loop.trips, k1_off87 k 5#32 = ![0, (16 * k.val + 5) / 20, ((16 * k.val + 5) % 20) * 64] := by decide +kernel
theorem t4_dst6 : ∀ k : Fin k1_t4_loop.trips, k1_off89 k 6#32 = ![0, (16 * k.val + 6) / 20, ((16 * k.val + 6) % 20) * 64] := by decide +kernel
theorem t4_dst7 : ∀ k : Fin k1_t4_loop.trips, k1_off91 k 7#32 = ![0, (16 * k.val + 7) / 20, ((16 * k.val + 7) % 20) * 64] := by decide +kernel
theorem t4_dst8 : ∀ k : Fin k1_t4_loop.trips, k1_off93 k 8#32 = ![0, (16 * k.val + 8) / 20, ((16 * k.val + 8) % 20) * 64] := by decide +kernel
theorem t4_dst9 : ∀ k : Fin k1_t4_loop.trips, k1_off95 k 9#32 = ![0, (16 * k.val + 9) / 20, ((16 * k.val + 9) % 20) * 64] := by decide +kernel
theorem t4_dst10 : ∀ k : Fin k1_t4_loop.trips, k1_off97 k 10#32 = ![0, (16 * k.val + 10) / 20, ((16 * k.val + 10) % 20) * 64] := by decide +kernel
theorem t4_dst11 : ∀ k : Fin k1_t4_loop.trips, k1_off99 k 11#32 = ![0, (16 * k.val + 11) / 20, ((16 * k.val + 11) % 20) * 64] := by decide +kernel
theorem t4_dst12 : ∀ k : Fin k1_t4_loop.trips, k1_off101 k 12#32 = ![0, (16 * k.val + 12) / 20, ((16 * k.val + 12) % 20) * 64] := by decide +kernel
theorem t4_dst13 : ∀ k : Fin k1_t4_loop.trips, k1_off103 k 13#32 = ![0, (16 * k.val + 13) / 20, ((16 * k.val + 13) % 20) * 64] := by decide +kernel
theorem t4_dst14 : ∀ k : Fin k1_t4_loop.trips, k1_off105 k 14#32 = ![0, (16 * k.val + 14) / 20, ((16 * k.val + 14) % 20) * 64] := by decide +kernel
theorem t4_dst15 : ∀ k : Fin k1_t4_loop.trips, k1_off107 k = ![0, (16 * k.val + 15) / 20, ((16 * k.val + 15) % 20) * 64] := by decide +kernel
/-! ### Fire loop k1_t6 (slot 1) -/
theorem t6_dst0 : ∀ k : Fin k1_t6_loop.trips, k1_off114 k 0#32 = ![1, (16 * k.val + 0) / 20, ((16 * k.val + 0) % 20) * 64] := by decide +kernel
theorem t6_dst1 : ∀ k : Fin k1_t6_loop.trips, k1_off116 k 1#32 = ![1, (16 * k.val + 1) / 20, ((16 * k.val + 1) % 20) * 64] := by decide +kernel
theorem t6_dst2 : ∀ k : Fin k1_t6_loop.trips, k1_off118 k 2#32 = ![1, (16 * k.val + 2) / 20, ((16 * k.val + 2) % 20) * 64] := by decide +kernel
theorem t6_dst3 : ∀ k : Fin k1_t6_loop.trips, k1_off120 k 3#32 = ![1, (16 * k.val + 3) / 20, ((16 * k.val + 3) % 20) * 64] := by decide +kernel
theorem t6_dst4 : ∀ k : Fin k1_t6_loop.trips, k1_off122 k 4#32 = ![1, (16 * k.val + 4) / 20, ((16 * k.val + 4) % 20) * 64] := by decide +kernel
theorem t6_dst5 : ∀ k : Fin k1_t6_loop.trips, k1_off124 k 5#32 = ![1, (16 * k.val + 5) / 20, ((16 * k.val + 5) % 20) * 64] := by decide +kernel
theorem t6_dst6 : ∀ k : Fin k1_t6_loop.trips, k1_off126 k 6#32 = ![1, (16 * k.val + 6) / 20, ((16 * k.val + 6) % 20) * 64] := by decide +kernel
theorem t6_dst7 : ∀ k : Fin k1_t6_loop.trips, k1_off128 k 7#32 = ![1, (16 * k.val + 7) / 20, ((16 * k.val + 7) % 20) * 64] := by decide +kernel
theorem t6_dst8 : ∀ k : Fin k1_t6_loop.trips, k1_off130 k 8#32 = ![1, (16 * k.val + 8) / 20, ((16 * k.val + 8) % 20) * 64] := by decide +kernel
theorem t6_dst9 : ∀ k : Fin k1_t6_loop.trips, k1_off132 k 9#32 = ![1, (16 * k.val + 9) / 20, ((16 * k.val + 9) % 20) * 64] := by decide +kernel
theorem t6_dst10 : ∀ k : Fin k1_t6_loop.trips, k1_off134 k 10#32 = ![1, (16 * k.val + 10) / 20, ((16 * k.val + 10) % 20) * 64] := by decide +kernel
theorem t6_dst11 : ∀ k : Fin k1_t6_loop.trips, k1_off136 k 11#32 = ![1, (16 * k.val + 11) / 20, ((16 * k.val + 11) % 20) * 64] := by decide +kernel
theorem t6_dst12 : ∀ k : Fin k1_t6_loop.trips, k1_off138 k 12#32 = ![1, (16 * k.val + 12) / 20, ((16 * k.val + 12) % 20) * 64] := by decide +kernel
theorem t6_dst13 : ∀ k : Fin k1_t6_loop.trips, k1_off140 k 13#32 = ![1, (16 * k.val + 13) / 20, ((16 * k.val + 13) % 20) * 64] := by decide +kernel
theorem t6_dst14 : ∀ k : Fin k1_t6_loop.trips, k1_off142 k 14#32 = ![1, (16 * k.val + 14) / 20, ((16 * k.val + 14) % 20) * 64] := by decide +kernel
theorem t6_dst15 : ∀ k : Fin k1_t6_loop.trips, k1_off144 k = ![1, (16 * k.val + 15) / 20, ((16 * k.val + 15) % 20) * 64] := by decide +kernel
/-! ### Fire loop k1_t9 (slot 0) -/
theorem t9_dst0 : ∀ k : Fin k1_t9_loop.trips, k1_off151 k 0#32 = ![0, (16 * k.val + 0) / 20, ((16 * k.val + 0) % 20) * 64] := by decide +kernel
theorem t9_dst1 : ∀ k : Fin k1_t9_loop.trips, k1_off153 k 1#32 = ![0, (16 * k.val + 1) / 20, ((16 * k.val + 1) % 20) * 64] := by decide +kernel
theorem t9_dst2 : ∀ k : Fin k1_t9_loop.trips, k1_off155 k 2#32 = ![0, (16 * k.val + 2) / 20, ((16 * k.val + 2) % 20) * 64] := by decide +kernel
theorem t9_dst3 : ∀ k : Fin k1_t9_loop.trips, k1_off157 k 3#32 = ![0, (16 * k.val + 3) / 20, ((16 * k.val + 3) % 20) * 64] := by decide +kernel
theorem t9_dst4 : ∀ k : Fin k1_t9_loop.trips, k1_off159 k 4#32 = ![0, (16 * k.val + 4) / 20, ((16 * k.val + 4) % 20) * 64] := by decide +kernel
theorem t9_dst5 : ∀ k : Fin k1_t9_loop.trips, k1_off161 k 5#32 = ![0, (16 * k.val + 5) / 20, ((16 * k.val + 5) % 20) * 64] := by decide +kernel
theorem t9_dst6 : ∀ k : Fin k1_t9_loop.trips, k1_off163 k 6#32 = ![0, (16 * k.val + 6) / 20, ((16 * k.val + 6) % 20) * 64] := by decide +kernel
theorem t9_dst7 : ∀ k : Fin k1_t9_loop.trips, k1_off165 k 7#32 = ![0, (16 * k.val + 7) / 20, ((16 * k.val + 7) % 20) * 64] := by decide +kernel
theorem t9_dst8 : ∀ k : Fin k1_t9_loop.trips, k1_off167 k 8#32 = ![0, (16 * k.val + 8) / 20, ((16 * k.val + 8) % 20) * 64] := by decide +kernel
theorem t9_dst9 : ∀ k : Fin k1_t9_loop.trips, k1_off169 k 9#32 = ![0, (16 * k.val + 9) / 20, ((16 * k.val + 9) % 20) * 64] := by decide +kernel
theorem t9_dst10 : ∀ k : Fin k1_t9_loop.trips, k1_off171 k 10#32 = ![0, (16 * k.val + 10) / 20, ((16 * k.val + 10) % 20) * 64] := by decide +kernel
theorem t9_dst11 : ∀ k : Fin k1_t9_loop.trips, k1_off173 k 11#32 = ![0, (16 * k.val + 11) / 20, ((16 * k.val + 11) % 20) * 64] := by decide +kernel
theorem t9_dst12 : ∀ k : Fin k1_t9_loop.trips, k1_off175 k 12#32 = ![0, (16 * k.val + 12) / 20, ((16 * k.val + 12) % 20) * 64] := by decide +kernel
theorem t9_dst13 : ∀ k : Fin k1_t9_loop.trips, k1_off177 k 13#32 = ![0, (16 * k.val + 13) / 20, ((16 * k.val + 13) % 20) * 64] := by decide +kernel
theorem t9_dst14 : ∀ k : Fin k1_t9_loop.trips, k1_off179 k 14#32 = ![0, (16 * k.val + 14) / 20, ((16 * k.val + 14) % 20) * 64] := by decide +kernel
theorem t9_dst15 : ∀ k : Fin k1_t9_loop.trips, k1_off181 k = ![0, (16 * k.val + 15) / 20, ((16 * k.val + 15) % 20) * 64] := by decide +kernel
/-! ### Fire loop k1_t11 (slot 1) -/
theorem t11_dst0 : ∀ k : Fin k1_t11_loop.trips, k1_off186 k 0#32 = ![1, (16 * k.val + 0) / 20, ((16 * k.val + 0) % 20) * 64] := by decide +kernel
theorem t11_dst1 : ∀ k : Fin k1_t11_loop.trips, k1_off188 k 1#32 = ![1, (16 * k.val + 1) / 20, ((16 * k.val + 1) % 20) * 64] := by decide +kernel
theorem t11_dst2 : ∀ k : Fin k1_t11_loop.trips, k1_off190 k 2#32 = ![1, (16 * k.val + 2) / 20, ((16 * k.val + 2) % 20) * 64] := by decide +kernel
theorem t11_dst3 : ∀ k : Fin k1_t11_loop.trips, k1_off192 k 3#32 = ![1, (16 * k.val + 3) / 20, ((16 * k.val + 3) % 20) * 64] := by decide +kernel
theorem t11_dst4 : ∀ k : Fin k1_t11_loop.trips, k1_off194 k 4#32 = ![1, (16 * k.val + 4) / 20, ((16 * k.val + 4) % 20) * 64] := by decide +kernel
theorem t11_dst5 : ∀ k : Fin k1_t11_loop.trips, k1_off196 k 5#32 = ![1, (16 * k.val + 5) / 20, ((16 * k.val + 5) % 20) * 64] := by decide +kernel
theorem t11_dst6 : ∀ k : Fin k1_t11_loop.trips, k1_off198 k 6#32 = ![1, (16 * k.val + 6) / 20, ((16 * k.val + 6) % 20) * 64] := by decide +kernel
theorem t11_dst7 : ∀ k : Fin k1_t11_loop.trips, k1_off200 k 7#32 = ![1, (16 * k.val + 7) / 20, ((16 * k.val + 7) % 20) * 64] := by decide +kernel
theorem t11_dst8 : ∀ k : Fin k1_t11_loop.trips, k1_off202 k 8#32 = ![1, (16 * k.val + 8) / 20, ((16 * k.val + 8) % 20) * 64] := by decide +kernel
theorem t11_dst9 : ∀ k : Fin k1_t11_loop.trips, k1_off204 k 9#32 = ![1, (16 * k.val + 9) / 20, ((16 * k.val + 9) % 20) * 64] := by decide +kernel
theorem t11_dst10 : ∀ k : Fin k1_t11_loop.trips, k1_off206 k 10#32 = ![1, (16 * k.val + 10) / 20, ((16 * k.val + 10) % 20) * 64] := by decide +kernel
theorem t11_dst11 : ∀ k : Fin k1_t11_loop.trips, k1_off208 k 11#32 = ![1, (16 * k.val + 11) / 20, ((16 * k.val + 11) % 20) * 64] := by decide +kernel
theorem t11_dst12 : ∀ k : Fin k1_t11_loop.trips, k1_off210 k 12#32 = ![1, (16 * k.val + 12) / 20, ((16 * k.val + 12) % 20) * 64] := by decide +kernel
theorem t11_dst13 : ∀ k : Fin k1_t11_loop.trips, k1_off212 k 13#32 = ![1, (16 * k.val + 13) / 20, ((16 * k.val + 13) % 20) * 64] := by decide +kernel
theorem t11_dst14 : ∀ k : Fin k1_t11_loop.trips, k1_off214 k 14#32 = ![1, (16 * k.val + 14) / 20, ((16 * k.val + 14) % 20) * 64] := by decide +kernel
theorem t11_dst15 : ∀ k : Fin k1_t11_loop.trips, k1_off216 k = ![1, (16 * k.val + 15) / 20, ((16 * k.val + 15) % 20) * 64] := by decide +kernel
/-! ### Drain loop k1_t8 (slot 0) -/
theorem t8_dst0 : ∀ k : Fin k1_t8_loop.trips, k1_off145 k 0#32 = ![0, (16 * k.val + 0) / 20, ((16 * k.val + 0) % 20) * 64] := by decide +kernel
theorem t8_dst1 : ∀ k : Fin k1_t8_loop.trips, k1_off145 k 1#32 = ![0, (16 * k.val + 1) / 20, ((16 * k.val + 1) % 20) * 64] := by decide +kernel
theorem t8_dst2 : ∀ k : Fin k1_t8_loop.trips, k1_off145 k 2#32 = ![0, (16 * k.val + 2) / 20, ((16 * k.val + 2) % 20) * 64] := by decide +kernel
theorem t8_dst3 : ∀ k : Fin k1_t8_loop.trips, k1_off145 k 3#32 = ![0, (16 * k.val + 3) / 20, ((16 * k.val + 3) % 20) * 64] := by decide +kernel
theorem t8_dst4 : ∀ k : Fin k1_t8_loop.trips, k1_off145 k 4#32 = ![0, (16 * k.val + 4) / 20, ((16 * k.val + 4) % 20) * 64] := by decide +kernel
theorem t8_dst5 : ∀ k : Fin k1_t8_loop.trips, k1_off145 k 5#32 = ![0, (16 * k.val + 5) / 20, ((16 * k.val + 5) % 20) * 64] := by decide +kernel
theorem t8_dst6 : ∀ k : Fin k1_t8_loop.trips, k1_off145 k 6#32 = ![0, (16 * k.val + 6) / 20, ((16 * k.val + 6) % 20) * 64] := by decide +kernel
theorem t8_dst7 : ∀ k : Fin k1_t8_loop.trips, k1_off145 k 7#32 = ![0, (16 * k.val + 7) / 20, ((16 * k.val + 7) % 20) * 64] := by decide +kernel
theorem t8_dst8 : ∀ k : Fin k1_t8_loop.trips, k1_off145 k 8#32 = ![0, (16 * k.val + 8) / 20, ((16 * k.val + 8) % 20) * 64] := by decide +kernel
theorem t8_dst9 : ∀ k : Fin k1_t8_loop.trips, k1_off145 k 9#32 = ![0, (16 * k.val + 9) / 20, ((16 * k.val + 9) % 20) * 64] := by decide +kernel
theorem t8_dst10 : ∀ k : Fin k1_t8_loop.trips, k1_off145 k 10#32 = ![0, (16 * k.val + 10) / 20, ((16 * k.val + 10) % 20) * 64] := by decide +kernel
theorem t8_dst11 : ∀ k : Fin k1_t8_loop.trips, k1_off145 k 11#32 = ![0, (16 * k.val + 11) / 20, ((16 * k.val + 11) % 20) * 64] := by decide +kernel
theorem t8_dst12 : ∀ k : Fin k1_t8_loop.trips, k1_off145 k 12#32 = ![0, (16 * k.val + 12) / 20, ((16 * k.val + 12) % 20) * 64] := by decide +kernel
theorem t8_dst13 : ∀ k : Fin k1_t8_loop.trips, k1_off145 k 13#32 = ![0, (16 * k.val + 13) / 20, ((16 * k.val + 13) % 20) * 64] := by decide +kernel
theorem t8_dst14 : ∀ k : Fin k1_t8_loop.trips, k1_off145 k 14#32 = ![0, (16 * k.val + 14) / 20, ((16 * k.val + 14) % 20) * 64] := by decide +kernel
theorem t8_dst15 : ∀ k : Fin k1_t8_loop.trips, k1_off145 k 15#32 = ![0, (16 * k.val + 15) / 20, ((16 * k.val + 15) % 20) * 64] := by decide +kernel
/-! ### Drain loop k1_t10 (slot 1) -/
theorem t10_dst0 : ∀ k : Fin k1_t10_loop.trips, k1_off182 k 0#32 = ![1, (16 * k.val + 0) / 20, ((16 * k.val + 0) % 20) * 64] := by decide +kernel
theorem t10_dst1 : ∀ k : Fin k1_t10_loop.trips, k1_off182 k 1#32 = ![1, (16 * k.val + 1) / 20, ((16 * k.val + 1) % 20) * 64] := by decide +kernel
theorem t10_dst2 : ∀ k : Fin k1_t10_loop.trips, k1_off182 k 2#32 = ![1, (16 * k.val + 2) / 20, ((16 * k.val + 2) % 20) * 64] := by decide +kernel
theorem t10_dst3 : ∀ k : Fin k1_t10_loop.trips, k1_off182 k 3#32 = ![1, (16 * k.val + 3) / 20, ((16 * k.val + 3) % 20) * 64] := by decide +kernel
theorem t10_dst4 : ∀ k : Fin k1_t10_loop.trips, k1_off182 k 4#32 = ![1, (16 * k.val + 4) / 20, ((16 * k.val + 4) % 20) * 64] := by decide +kernel
theorem t10_dst5 : ∀ k : Fin k1_t10_loop.trips, k1_off182 k 5#32 = ![1, (16 * k.val + 5) / 20, ((16 * k.val + 5) % 20) * 64] := by decide +kernel
theorem t10_dst6 : ∀ k : Fin k1_t10_loop.trips, k1_off182 k 6#32 = ![1, (16 * k.val + 6) / 20, ((16 * k.val + 6) % 20) * 64] := by decide +kernel
theorem t10_dst7 : ∀ k : Fin k1_t10_loop.trips, k1_off182 k 7#32 = ![1, (16 * k.val + 7) / 20, ((16 * k.val + 7) % 20) * 64] := by decide +kernel
theorem t10_dst8 : ∀ k : Fin k1_t10_loop.trips, k1_off182 k 8#32 = ![1, (16 * k.val + 8) / 20, ((16 * k.val + 8) % 20) * 64] := by decide +kernel
theorem t10_dst9 : ∀ k : Fin k1_t10_loop.trips, k1_off182 k 9#32 = ![1, (16 * k.val + 9) / 20, ((16 * k.val + 9) % 20) * 64] := by decide +kernel
theorem t10_dst10 : ∀ k : Fin k1_t10_loop.trips, k1_off182 k 10#32 = ![1, (16 * k.val + 10) / 20, ((16 * k.val + 10) % 20) * 64] := by decide +kernel
theorem t10_dst11 : ∀ k : Fin k1_t10_loop.trips, k1_off182 k 11#32 = ![1, (16 * k.val + 11) / 20, ((16 * k.val + 11) % 20) * 64] := by decide +kernel
theorem t10_dst12 : ∀ k : Fin k1_t10_loop.trips, k1_off182 k 12#32 = ![1, (16 * k.val + 12) / 20, ((16 * k.val + 12) % 20) * 64] := by decide +kernel
theorem t10_dst13 : ∀ k : Fin k1_t10_loop.trips, k1_off182 k 13#32 = ![1, (16 * k.val + 13) / 20, ((16 * k.val + 13) % 20) * 64] := by decide +kernel
theorem t10_dst14 : ∀ k : Fin k1_t10_loop.trips, k1_off182 k 14#32 = ![1, (16 * k.val + 14) / 20, ((16 * k.val + 14) % 20) * 64] := by decide +kernel
theorem t10_dst15 : ∀ k : Fin k1_t10_loop.trips, k1_off182 k 15#32 = ![1, (16 * k.val + 15) / 20, ((16 * k.val + 15) % 20) * 64] := by decide +kernel
/-! ### Drain loop k1_t12 (slot 0) -/
theorem t12_dst0 : ∀ k : Fin k1_t12_loop.trips, k1_off217 k 0#32 = ![0, (16 * k.val + 0) / 20, ((16 * k.val + 0) % 20) * 64] := by decide +kernel
theorem t12_dst1 : ∀ k : Fin k1_t12_loop.trips, k1_off217 k 1#32 = ![0, (16 * k.val + 1) / 20, ((16 * k.val + 1) % 20) * 64] := by decide +kernel
theorem t12_dst2 : ∀ k : Fin k1_t12_loop.trips, k1_off217 k 2#32 = ![0, (16 * k.val + 2) / 20, ((16 * k.val + 2) % 20) * 64] := by decide +kernel
theorem t12_dst3 : ∀ k : Fin k1_t12_loop.trips, k1_off217 k 3#32 = ![0, (16 * k.val + 3) / 20, ((16 * k.val + 3) % 20) * 64] := by decide +kernel
theorem t12_dst4 : ∀ k : Fin k1_t12_loop.trips, k1_off217 k 4#32 = ![0, (16 * k.val + 4) / 20, ((16 * k.val + 4) % 20) * 64] := by decide +kernel
theorem t12_dst5 : ∀ k : Fin k1_t12_loop.trips, k1_off217 k 5#32 = ![0, (16 * k.val + 5) / 20, ((16 * k.val + 5) % 20) * 64] := by decide +kernel
theorem t12_dst6 : ∀ k : Fin k1_t12_loop.trips, k1_off217 k 6#32 = ![0, (16 * k.val + 6) / 20, ((16 * k.val + 6) % 20) * 64] := by decide +kernel
theorem t12_dst7 : ∀ k : Fin k1_t12_loop.trips, k1_off217 k 7#32 = ![0, (16 * k.val + 7) / 20, ((16 * k.val + 7) % 20) * 64] := by decide +kernel
theorem t12_dst8 : ∀ k : Fin k1_t12_loop.trips, k1_off217 k 8#32 = ![0, (16 * k.val + 8) / 20, ((16 * k.val + 8) % 20) * 64] := by decide +kernel
theorem t12_dst9 : ∀ k : Fin k1_t12_loop.trips, k1_off217 k 9#32 = ![0, (16 * k.val + 9) / 20, ((16 * k.val + 9) % 20) * 64] := by decide +kernel
theorem t12_dst10 : ∀ k : Fin k1_t12_loop.trips, k1_off217 k 10#32 = ![0, (16 * k.val + 10) / 20, ((16 * k.val + 10) % 20) * 64] := by decide +kernel
theorem t12_dst11 : ∀ k : Fin k1_t12_loop.trips, k1_off217 k 11#32 = ![0, (16 * k.val + 11) / 20, ((16 * k.val + 11) % 20) * 64] := by decide +kernel
theorem t12_dst12 : ∀ k : Fin k1_t12_loop.trips, k1_off217 k 12#32 = ![0, (16 * k.val + 12) / 20, ((16 * k.val + 12) % 20) * 64] := by decide +kernel
theorem t12_dst13 : ∀ k : Fin k1_t12_loop.trips, k1_off217 k 13#32 = ![0, (16 * k.val + 13) / 20, ((16 * k.val + 13) % 20) * 64] := by decide +kernel
theorem t12_dst14 : ∀ k : Fin k1_t12_loop.trips, k1_off217 k 14#32 = ![0, (16 * k.val + 14) / 20, ((16 * k.val + 14) % 20) * 64] := by decide +kernel
theorem t12_dst15 : ∀ k : Fin k1_t12_loop.trips, k1_off217 k 15#32 = ![0, (16 * k.val + 15) / 20, ((16 * k.val + 15) % 20) * 64] := by decide +kernel
/-! ### Drain loop k1_t13 (slot 1) -/
theorem t13_dst0 : ∀ k : Fin k1_t13_loop.trips, k1_off219 k 0#32 = ![1, (16 * k.val + 0) / 20, ((16 * k.val + 0) % 20) * 64] := by decide +kernel
theorem t13_dst1 : ∀ k : Fin k1_t13_loop.trips, k1_off219 k 1#32 = ![1, (16 * k.val + 1) / 20, ((16 * k.val + 1) % 20) * 64] := by decide +kernel
theorem t13_dst2 : ∀ k : Fin k1_t13_loop.trips, k1_off219 k 2#32 = ![1, (16 * k.val + 2) / 20, ((16 * k.val + 2) % 20) * 64] := by decide +kernel
theorem t13_dst3 : ∀ k : Fin k1_t13_loop.trips, k1_off219 k 3#32 = ![1, (16 * k.val + 3) / 20, ((16 * k.val + 3) % 20) * 64] := by decide +kernel
theorem t13_dst4 : ∀ k : Fin k1_t13_loop.trips, k1_off219 k 4#32 = ![1, (16 * k.val + 4) / 20, ((16 * k.val + 4) % 20) * 64] := by decide +kernel
theorem t13_dst5 : ∀ k : Fin k1_t13_loop.trips, k1_off219 k 5#32 = ![1, (16 * k.val + 5) / 20, ((16 * k.val + 5) % 20) * 64] := by decide +kernel
theorem t13_dst6 : ∀ k : Fin k1_t13_loop.trips, k1_off219 k 6#32 = ![1, (16 * k.val + 6) / 20, ((16 * k.val + 6) % 20) * 64] := by decide +kernel
theorem t13_dst7 : ∀ k : Fin k1_t13_loop.trips, k1_off219 k 7#32 = ![1, (16 * k.val + 7) / 20, ((16 * k.val + 7) % 20) * 64] := by decide +kernel
theorem t13_dst8 : ∀ k : Fin k1_t13_loop.trips, k1_off219 k 8#32 = ![1, (16 * k.val + 8) / 20, ((16 * k.val + 8) % 20) * 64] := by decide +kernel
theorem t13_dst9 : ∀ k : Fin k1_t13_loop.trips, k1_off219 k 9#32 = ![1, (16 * k.val + 9) / 20, ((16 * k.val + 9) % 20) * 64] := by decide +kernel
theorem t13_dst10 : ∀ k : Fin k1_t13_loop.trips, k1_off219 k 10#32 = ![1, (16 * k.val + 10) / 20, ((16 * k.val + 10) % 20) * 64] := by decide +kernel
theorem t13_dst11 : ∀ k : Fin k1_t13_loop.trips, k1_off219 k 11#32 = ![1, (16 * k.val + 11) / 20, ((16 * k.val + 11) % 20) * 64] := by decide +kernel
theorem t13_dst12 : ∀ k : Fin k1_t13_loop.trips, k1_off219 k 12#32 = ![1, (16 * k.val + 12) / 20, ((16 * k.val + 12) % 20) * 64] := by decide +kernel
theorem t13_dst13 : ∀ k : Fin k1_t13_loop.trips, k1_off219 k 13#32 = ![1, (16 * k.val + 13) / 20, ((16 * k.val + 13) % 20) * 64] := by decide +kernel
theorem t13_dst14 : ∀ k : Fin k1_t13_loop.trips, k1_off219 k 14#32 = ![1, (16 * k.val + 14) / 20, ((16 * k.val + 14) % 20) * 64] := by decide +kernel
theorem t13_dst15 : ∀ k : Fin k1_t13_loop.trips, k1_off219 k 15#32 = ![1, (16 * k.val + 15) / 20, ((16 * k.val + 15) % 20) * 64] := by decide +kernel

end Cert.Proof.KI.K1
-- ==== Proof.K1BFire.lean ====
/-
  The noise-word phase, one copy at a time.

  The 320 copies of a chunk (table row of word t -> the 64 words of slot b, batch row t / 20, lookup t mod 20 of the
  rows scratch) are one counted batch on the slot's semaphore. The deliveries are fixed before the first issue: copy t
  delivers its piece at the FINAL contents, entry (r, x) = table[word 20 r + x / 64, x mod 64]; each issue takes its
  piece out of the part of the slot not yet handed to a copy.
-/
import proofs.«215896_g38397007626377_fold_wed_m_942_26_alg».proof.Proof.K1Common
import proofs.«215896_g38397007626377_fold_wed_m_942_26_alg».proof.Proof.K1BViews

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

section FireB

variable (d : Dev nD) (cc : Fin τ.nSC) (jj : Fin τ.nSub)

abbrev idxLocV : Loc nD τ sig := (V d cc jj).loc cc1_scratch0
abbrev rowsBLocV : Loc nD τ sig := (V d cc jj).loc cc1_scratch2

/-- The [2, 16, 1280] scratch once every copy of a chunk has landed (either slot): row r, column x holds column
    x mod 64 of the table row named by word 20 r + x / 64 of the fetched index words. -/
def FB (tbl : Buf (Elt F) (a4Loc d)) (fI : Buf (Elt F) (idxLocV d cc jj)) : Buf (Elt F) (rowsBLocV d cc jj) :=
  fun y => tbl (ix2 (Spec.rowOf (fI (ix1 (⟨20 * (y 1).val + (y 2).val / 64, by
      have h1 : (y 1).val < 16 := (y 1).isLt; have h2 : (y 2).val < 1280 := (y 2).isLt; omega⟩ : Fin 320))))
    (⟨(y 2).val % 64, Nat.mod_lt _ (by decide)⟩ : Fin 64))

/-- What copy t of slot b delivers: its piece at the final contents. -/
def DB (b : ℕ) (tbl : Buf (Elt F) (a4Loc d)) (fI : Buf (Elt F) (idxLocV d cc jj)) (t : Fin 320) : sProp 𝕄 :=
  rowsBLocV d cc jj ↦[pieceB b t.val]{fullShare} FB d cc jj tbl fI

instance DB_storable (b : ℕ) (tbl : Buf (Elt F) (a4Loc d)) (fI : Buf (Elt F) (idxLocV d cc jj)) (t : Fin 320) :
    BI.Storable (upEmb : UEmb _ 𝕄) (DB d cc jj b tbl fI t) := by
  unfold DB; infer_instance

/-- The destination of copy t of slot b is its piece. -/
theorem dstB_piece (b t : ℕ) (off : Fin 3 → ℕ) (hin) (hoff : off = ![b, t / 20, (t % 20) * 64]) :
    (dstB off hin).view.set = pieceB b t := by
  subst hoff
  rw [dstB_set, rectB_eq]

/-- What copy t lands is the final scratch on its piece: the copied word (w, x) of the table is the final scratch's
    entry there, w being word t of the fetched indices. -/
theorem landedB (tbl : Buf (Elt F) (a4Loc d)) (fI : Buf (Elt F) (idxLocV d cc jj)) (f0 : Buf (Elt F) (rowsBLocV d cc jj))
    (b : ℕ) (t : Fin 320) (off : Fin 3 → ℕ) (hin) (hoff : off = ![b, t.val / 20, (t.val % 20) * 64])
    (w : BitVec 32) (soff : Fin 2 → ℕ) (hsin) (hsoff : soff = ![w.toNat, 0]) (hword : w = fI (ix1 t))
    (hI : ∀ x, (fI x).toNat < 1000000) :
    ∀ i ∈ (dstB off hin).view.set,
      (dstB off hin).view.write (Elt F) f0 ((ReadAs.same : ReadAs (Elt F) S64 .f32 S64 .f32).apply ((srcT soff hsin).view.read (Elt F) tbl)) Finset.univ i
        = FB d cc jj tbl fI i := by
  intro i hi
  obtain ⟨x, -, rfl⟩ := Finset.mem_map.mp hi
  rw [write_valB]
  have hx : (x 0).val < 64 := (x 0).isLt
  have ht : t.val < 320 := t.isLt
  have e1 : (((dstB off hin).view.emb x) 1).val = t.val / 20 := by
    have h := dstB_emb off hin x 1
    rw [if_neg (by decide)] at h
    rw [h, hoff]; rfl
  have e2 : (((dstB off hin).view.emb x) 2).val = (t.val % 20) * 64 + (x 0).val := by
    have h := dstB_emb off hin x 2
    rw [if_pos rfl] at h
    rw [h, hoff]; rfl
  have s0 : (((srcT soff hsin).view.emb x) 0).val = w.toNat := by
    have h := srcT_emb soff hsin x 0
    rw [if_neg (by decide)] at h
    rw [h, hsoff]; rfl
  have s1 : (((srcT soff hsin).view.emb x) 1).val = (x 0).val := by
    have h := srcT_emb soff hsin x 1
    rw [if_pos rfl] at h
    rw [h, hsoff]; show 0 + (x 0).val = _; omega
  unfold FB
  refine congrArg tbl (funext fun a => Fin.ext ?_)
  match a with
  | ⟨0, _⟩ =>
    show (((srcT soff hsin).view.emb x) 0).val = (Spec.rowOf _).val
    rw [s0, Spec.rowOf_val_of_lt (hI _), hword]
    refine congrArg (fun i : Fin 320 => (fI (ix1 i)).toNat) (Fin.ext ?_)
    show t.val = 20 * (((dstB off hin).view.emb x) 1).val + (((dstB off hin).view.emb x) 2).val / 64
    rw [e1, e2]; omega
  | ⟨1, _⟩ =>
    show (((srcT soff hsin).view.emb x) 1).val = (((dstB off hin).view.emb x) 2).val % 64
    rw [s1, e2]; omega

/-- ONE ISSUE of a chunk's batch: copy j takes its piece out of what is left of the slot, and the batch goes from j
    issued to j + 1; what it will deliver is the final scratch on the piece. The table's read share is halved. -/
theorem fireStepB {α : Type} (sem : DmaSem sig) (N : ℕ) (b : ℕ) (tbl : Buf (Elt F) (a4Loc d)) (fI : Buf (Elt F) (idxLocV d cc jj))
    (f0 : Buf (Elt F) (rowsBLocV d cc jj)) (j : ℕ) (hj : j < 320)
    (off : Fin 3 → ℕ) (hin) (hoff : off = ![b, j / 20, (j % 20) * 64])
    (w : BitVec 32) (soff : Fin 2 → ℕ) (hsin) (hsoff : soff = ![w.toNat, 0]) (hword : w = fI (ix1 (⟨j, hj⟩ : Fin 320)))
    (hI : ∀ x, (fI x).toNat < 1000000) (hN : (dstB off hin).view.dmaCredit = N)
    {hs hd ht} {k : PUnit → Prog (TpuEff nD τ sig (Elt F) Λ₀ (V d cc jj).2) α} {Q : α → sProp 𝕄} :
    iprop((∃ q : PosShare TreeShare, a4Loc d ↦{q} tbl) ∗ (rowsBLocV d cc jj ↦[remB b j]{fullShare} f0)
        ∗ Transfers.Batch countersEmb (V d cc jj) (.dma sem) (none : HIx 2) N (DB d cc jj b tbl fI) j 0)
      ⊢ iprop((iprop((∃ q : PosShare TreeShare, a4Loc d ↦{q} tbl) ∗ (rowsBLocV d cc jj ↦[remB b (j + 1)]{fullShare} f0)
            ∗ Transfers.Batch countersEmb (V d cc jj) (.dma sem) (none : HIx 2) N (DB d cc jj b tbl fI) (j + 1) 0)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstB off hin)) .same (.dma sem) hs hd ht) k) Q) := by
  have hset : (dstB off hin).view.set = pieceB b j := dstB_piece b j off hin hoff
  iintro ⟨⟨%q, Ht⟩, Hr, HB⟩ Hk
  iapply (issueB (F := F) d cc jj sem N off hin soff hsin hN (DB d cc jj b tbl fI) j 0 hj (Nat.zero_le _) (remB b j)
    (by rw [hset]; exact pieceB_sub b j) q tbl f0 ?hD) $$ [Ht Hr HB]
  case hD =>
    unfold DB
    rw [← hset]
    exact Entails.of_eq (pointsTo_congr (landedB d cc jj tbl fI f0 b ⟨j, hj⟩ off hin hoff w soff hsin hsoff hword hI))
  · isplitl [Ht]; · iexact Ht
    isplitl [Hr]; · iexact Hr
    iexact HB
  iintro ⟨Ht, Hr, HB⟩
  iapply Hk
  isplitl [Ht]; · iexists _; iexact Ht
  isplitl [Hr]
  · rw [hset, remB_step]; iexact Hr
  iexact HB

end FireB

/-! ## A fire loop's invariant, and the words a trip loads -/

section Trips

variable (d : Dev nD) (L : grid1.Coords)

abbrev cV (L : grid1.Coords) : Fin τ.nSC := (L 0).castLE hcore1
abbrev jV (L : grid1.Coords) : Fin τ.nSub := (L 1).castLE hsub1

/-- One 64-word piece's credit. -/
abbrev NB : ℕ := sig.dmaCredit .scVector (Kind.scVector.table .vmem) (cc1_scratch2 : Ref sig .scVector).idx S64 .f32

theorem NB_pos : 0 < NB := sig.dmaCredit_pos _ _ _ _ _ (by decide)

/-- Before trip k of a fire loop of slot b on semaphore sem: the index scratch at the chunk's words, a read share of
    the table, the part of the slot not yet handed to a copy, the batch with 16 k issued and nothing consumed. -/
def fireInvB (b : ℕ) (sem : DmaSem sig) (tbl : Buf (Elt F) (a4Loc d)) (fI : Buf (Elt F) (idxLocV d (cV L) (jV L)))
    (f0 : Buf (Elt F) (rowsBLocV d (cV L) (jV L))) (k : ℕ) (_ : Unit) : sProp 𝕄 :=
  iprop(((idW).view.loc (thr d L) ↦{fullShare} fI)
    ∗ (∃ q : PosShare TreeShare, a4Loc d ↦{q} tbl)
    ∗ (rowsBLocV d (cV L) (jV L) ↦[remB b (16 * k)]{fullShare} f0)
    ∗ Transfers.Batch countersEmb (thr d L) (.dma sem) (none : HIx 2) NB (DB d (cV L) (jV L) b tbl fI) (16 * k) 0)

/-- Word u of the sixteen a trip loads is word 16 k + u of the fetched index words. -/
theorem read_wordB (fI : Buf (Elt F) (idxLocV d (cV L) (jV L))) (off : Fin 1 → ℕ) (hin : ∀ a, off a + S16.size a ≤ S320.size a)
    (k : ℕ) (hoff : off = ![16 * k]) (u : Fin 16) (h : 16 * k + u.val < 320) :
    View.readAt (Elt F) (idW).view (Rect.unit (s := S320) off S16.size hin).toLoadRect fI (ix1 u)
      = fI (ix1 (⟨16 * k + u.val, h⟩ : Fin 320)) := by
  subst hoff
  simp only [View.readAt_apply, Memref.view_whole, View.read_whole]
  congr 1
  funext a; fin_cases a; apply Fin.ext
  rw [LoadRect.idx_apply]
  show (![16 * k] : Fin 1 → ℕ) 0 + 1 * u.val = 16 * k + u.val
  simp

end Trips

end Cert.Proof.KI.K1

end
-- ==== Proof.K1BTripT4.lean ====
/-
  The fire loop k1_t4 of the noise-word phase (slot 0): one trip issues its sixteen copies, in order.
-/
import proofs.«215896_g38397007626377_fold_wed_m_942_26_alg».proof.Proof.K1BFire

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

omit [FloatOps F] in
theorem t4_word0 (v : Vec F S16 .i32) : extractAt ![0] (k1_pay36 v) inpos_S1_p0 = v (ix1 (0 : Fin 16)) := lane_eq v 0 (by decide) shapeCasts_S16_S16 slices_S16_o0_S1 inpos_S1_p0
omit [FloatOps F] in
theorem t4_word1 (v : Vec F S16 .i32) : extractAt ![0] (k1_pay37 (k1_pay35 v)) inpos_S1_p0 = v (ix1 (1 : Fin 16)) := lane_eq v 1 (by decide) shapeCasts_S16_S16 slices_S16_o1_S1 inpos_S1_p0
omit [FloatOps F] in
theorem t4_word2 (v : Vec F S16 .i32) : extractAt ![0] (k1_pay38 (k1_pay35 v)) inpos_S1_p0 = v (ix1 (2 : Fin 16)) := lane_eq v 2 (by decide) shapeCasts_S16_S16 slices_S16_o2_S1 inpos_S1_p0
omit [FloatOps F] in
theorem t4_word3 (v : Vec F S16 .i32) : extractAt ![0] (k1_pay39 (k1_pay35 v)) inpos_S1_p0 = v (ix1 (3 : Fin 16)) := lane_eq v 3 (by decide) shapeCasts_S16_S16 slices_S16_o3_S1 inpos_S1_p0
omit [FloatOps F] in
theorem t4_word4 (v : Vec F S16 .i32) : extractAt ![0] (k1_pay40 (k1_pay35 v)) inpos_S1_p0 = v (ix1 (4 : Fin 16)) := lane_eq v 4 (by decide) shapeCasts_S16_S16 slices_S16_o4_S1 inpos_S1_p0
omit [FloatOps F] in
theorem t4_word5 (v : Vec F S16 .i32) : extractAt ![0] (k1_pay41 (k1_pay35 v)) inpos_S1_p0 = v (ix1 (5 : Fin 16)) := lane_eq v 5 (by decide) shapeCasts_S16_S16 slices_S16_o5_S1 inpos_S1_p0
omit [FloatOps F] in
theorem t4_word6 (v : Vec F S16 .i32) : extractAt ![0] (k1_pay42 (k1_pay35 v)) inpos_S1_p0 = v (ix1 (6 : Fin 16)) := lane_eq v 6 (by decide) shapeCasts_S16_S16 slices_S16_o6_S1 inpos_S1_p0
omit [FloatOps F] in
theorem t4_word7 (v : Vec F S16 .i32) : extractAt ![0] (k1_pay43 (k1_pay35 v)) inpos_S1_p0 = v (ix1 (7 : Fin 16)) := lane_eq v 7 (by decide) shapeCasts_S16_S16 slices_S16_o7_S1 inpos_S1_p0
omit [FloatOps F] in
theorem t4_word8 (v : Vec F S16 .i32) : extractAt ![0] (k1_pay44 (k1_pay35 v)) inpos_S1_p0 = v (ix1 (8 : Fin 16)) := lane_eq v 8 (by decide) shapeCasts_S16_S16 slices_S16_o8_S1 inpos_S1_p0
omit [FloatOps F] in
theorem t4_word9 (v : Vec F S16 .i32) : extractAt ![0] (k1_pay45 (k1_pay35 v)) inpos_S1_p0 = v (ix1 (9 : Fin 16)) := lane_eq v 9 (by decide) shapeCasts_S16_S16 slices_S16_o9_S1 inpos_S1_p0
omit [FloatOps F] in
theorem t4_word10 (v : Vec F S16 .i32) : extractAt ![0] (k1_pay46 (k1_pay35 v)) inpos_S1_p0 = v (ix1 (10 : Fin 16)) := lane_eq v 10 (by decide) shapeCasts_S16_S16 slices_S16_o10_S1 inpos_S1_p0
omit [FloatOps F] in
theorem t4_word11 (v : Vec F S16 .i32) : extractAt ![0] (k1_pay47 (k1_pay35 v)) inpos_S1_p0 = v (ix1 (11 : Fin 16)) := lane_eq v 11 (by decide) shapeCasts_S16_S16 slices_S16_o11_S1 inpos_S1_p0
omit [FloatOps F] in
theorem t4_word12 (v : Vec F S16 .i32) : extractAt ![0] (k1_pay48 (k1_pay35 v)) inpos_S1_p0 = v (ix1 (12 : Fin 16)) := lane_eq v 12 (by decide) shapeCasts_S16_S16 slices_S16_o12_S1 inpos_S1_p0
omit [FloatOps F] in
theorem t4_word13 (v : Vec F S16 .i32) : extractAt ![0] (k1_pay49 (k1_pay35 v)) inpos_S1_p0 = v (ix1 (13 : Fin 16)) := lane_eq v 13 (by decide) shapeCasts_S16_S16 slices_S16_o13_S1 inpos_S1_p0
omit [FloatOps F] in
theorem t4_word14 (v : Vec F S16 .i32) : extractAt ![0] (k1_pay50 (k1_pay35 v)) inpos_S1_p0 = v (ix1 (14 : Fin 16)) := lane_eq v 14 (by decide) shapeCasts_S16_S16 slices_S16_o14_S1 inpos_S1_p0
omit [FloatOps F] in
theorem t4_word15 (v : Vec F S16 .i32) : extractAt ![0] (k1_pay51 (k1_pay35 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t4 (tbl : Buf (Elt F) (a4Loc d)) (fI : Buf (Elt F) (idxLocV d (cV L) (jV L)))
    (f0 : Buf (Elt F) (rowsBLocV d (cV L) (jV L))) (hI : ∀ x, (fI x).toNat < 1000000) (v2 : BitVec 32)
    (k : Fin k1_t4_loop.trips) (acc : Unit) :
    fireInvB d L 0 cc1_scratch3.sem tbl fI f0 k.val acc
      ⊢ wp frame (wpE (defs₀ (F := F)) 𝒱₀ (thr d L) none) Set.univ
          (k1_t4_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 k acc)
          (fireInvB d L 0 cc1_scratch3.sem tbl fI f0 (k.val + 1)) := by
  have hk : k.val < 20 := k.isLt
  unfold k1_t4_body
  unfold fireInvB
  iintro ⟨HsI, Htb, Hr, HB⟩
  -- copy 0
  sl_exec (disch := exact chk_of_lt _ (hI _))
  iapply (fireStepB (F := F) d (cV L) (jV L) cc1_scratch3.sem NB 0 tbl fI f0 (16 * k.val + 0) (by omega) _ _ (t4_dst0 k) _ _ _ rfl
    ((t4_word0 _).trans (read_wordB d L fI _ _ k.val (k1_off74_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch3.sem NB 0 tbl fI f0 (16 * k.val + 1) (by omega) _ _ (t4_dst1 k) _ _ _ rfl
    ((t4_word1 _).trans (read_wordB d L fI _ _ k.val (k1_off74_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch3.sem NB 0 tbl fI f0 (16 * k.val + 2) (by omega) _ _ (t4_dst2 k) _ _ _ rfl
    ((t4_word2 _).trans (read_wordB d L fI _ _ k.val (k1_off74_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch3.sem NB 0 tbl fI f0 (16 * k.val + 3) (by omega) _ _ (t4_dst3 k) _ _ _ rfl
    ((t4_word3 _).trans (read_wordB d L fI _ _ k.val (k1_off74_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch3.sem NB 0 tbl fI f0 (16 * k.val + 4) (by omega) _ _ (t4_dst4 k) _ _ _ rfl
    ((t4_word4 _).trans (read_wordB d L fI _ _ k.val (k1_off74_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch3.sem NB 0 tbl fI f0 (16 * k.val + 5) (by omega) _ _ (t4_dst5 k) _ _ _ rfl
    ((t4_word5 _).trans (read_wordB d L fI _ _ k.val (k1_off74_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch3.sem NB 0 tbl fI f0 (16 * k.val + 6) (by omega) _ _ (t4_dst6 k) _ _ _ rfl
    ((t4_word6 _).trans (read_wordB d L fI _ _ k.val (k1_off74_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch3.sem NB 0 tbl fI f0 (16 * k.val + 7) (by omega) _ _ (t4_dst7 k) _ _ _ rfl
    ((t4_word7 _).trans (read_wordB d L fI _ _ k.val (k1_off74_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch3.sem NB 0 tbl fI f0 (16 * k.val + 8) (by omega) _ _ (t4_dst8 k) _ _ _ rfl
    ((t4_word8 _).trans (read_wordB d L fI _ _ k.val (k1_off74_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch3.sem NB 0 tbl fI f0 (16 * k.val + 9) (by omega) _ _ (t4_dst9 k) _ _ _ rfl
    ((t4_word9 _).trans (read_wordB d L fI _ _ k.val (k1_off74_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch3.sem NB 0 tbl fI f0 (16 * k.val + 10) (by omega) _ _ (t4_dst10 k) _ _ _ rfl
    ((t4_word10 _).trans (read_wordB d L fI _ _ k.val (k1_off74_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch3.sem NB 0 tbl fI f0 (16 * k.val + 11) (by omega) _ _ (t4_dst11 k) _ _ _ rfl
    ((t4_word11 _).trans (read_wordB d L fI _ _ k.val (k1_off74_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch3.sem NB 0 tbl fI f0 (16 * k.val + 12) (by omega) _ _ (t4_dst12 k) _ _ _ rfl
    ((t4_word12 _).trans (read_wordB d L fI _ _ k.val (k1_off74_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch3.sem NB 0 tbl fI f0 (16 * k.val + 13) (by omega) _ _ (t4_dst13 k) _ _ _ rfl
    ((t4_word13 _).trans (read_wordB d L fI _ _ k.val (k1_off74_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch3.sem NB 0 tbl fI f0 (16 * k.val + 14) (by omega) _ _ (t4_dst14 k) _ _ _ rfl
    ((t4_word14 _).trans (read_wordB d L fI _ _ k.val (k1_off74_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch3.sem NB 0 tbl fI f0 (16 * k.val + 15) (by omega) _ _ (t4_dst15 k) _ _ _ rfl
    ((t4_word15 _).trans (read_wordB d L fI _ _ k.val (k1_off74_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KI.K1

end
-- ==== Proof.K1BTripT6.lean ====
/-
  The fire loop k1_t6 of the noise-word phase (slot 1): one trip issues its sixteen copies, in order.
-/
import proofs.«215896_g38397007626377_fold_wed_m_942_26_alg».proof.Proof.K1BFire

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

omit [FloatOps F] in
theorem t6_word0 (v : Vec F S16 .i32) : extractAt ![0] (k1_pay53 v) inpos_S1_p0 = v (ix1 (0 : Fin 16)) := lane_eq v 0 (by decide) shapeCasts_S16_S16 slices_S16_o0_S1 inpos_S1_p0
omit [FloatOps F] in
theorem t6_word1 (v : Vec F S16 .i32) : extractAt ![0] (k1_pay54 (k1_pay52 v)) inpos_S1_p0 = v (ix1 (1 : Fin 16)) := lane_eq v 1 (by decide) shapeCasts_S16_S16 slices_S16_o1_S1 inpos_S1_p0
omit [FloatOps F] in
theorem t6_word2 (v : Vec F S16 .i32) : extractAt ![0] (k1_pay55 (k1_pay52 v)) inpos_S1_p0 = v (ix1 (2 : Fin 16)) := lane_eq v 2 (by decide) shapeCasts_S16_S16 slices_S16_o2_S1 inpos_S1_p0
omit [FloatOps F] in
theorem t6_word3 (v : Vec F S16 .i32) : extractAt ![0] (k1_pay56 (k1_pay52 v)) inpos_S1_p0 = v (ix1 (3 : Fin 16)) := lane_eq v 3 (by decide) shapeCasts_S16_S16 slices_S16_o3_S1 inpos_S1_p0
omit [FloatOps F] in
theorem t6_word4 (v : Vec F S16 .i32) : extractAt ![0] (k1_pay57 (k1_pay52 v)) inpos_S1_p0 = v (ix1 (4 : Fin 16)) := lane_eq v 4 (by decide) shapeCasts_S16_S16 slices_S16_o4_S1 inpos_S1_p0
omit [FloatOps F] in
theorem t6_word5 (v : Vec F S16 .i32) : extractAt ![0] (k1_pay58 (k1_pay52 v)) inpos_S1_p0 = v (ix1 (5 : Fin 16)) := lane_eq v 5 (by decide) shapeCasts_S16_S16 slices_S16_o5_S1 inpos_S1_p0
omit [FloatOps F] in
theorem t6_word6 (v : Vec F S16 .i32) : extractAt ![0] (k1_pay59 (k1_pay52 v)) inpos_S1_p0 = v (ix1 (6 : Fin 16)) := lane_eq v 6 (by decide) shapeCasts_S16_S16 slices_S16_o6_S1 inpos_S1_p0
omit [FloatOps F] in
theorem t6_word7 (v : Vec F S16 .i32) : extractAt ![0] (k1_pay60 (k1_pay52 v)) inpos_S1_p0 = v (ix1 (7 : Fin 16)) := lane_eq v 7 (by decide) shapeCasts_S16_S16 slices_S16_o7_S1 inpos_S1_p0
omit [FloatOps F] in
theorem t6_word8 (v : Vec F S16 .i32) : extractAt ![0] (k1_pay61 (k1_pay52 v)) inpos_S1_p0 = v (ix1 (8 : Fin 16)) := lane_eq v 8 (by decide) shapeCasts_S16_S16 slices_S16_o8_S1 inpos_S1_p0
omit [FloatOps F] in
theorem t6_word9 (v : Vec F S16 .i32) : extractAt ![0] (k1_pay62 (k1_pay52 v)) inpos_S1_p0 = v (ix1 (9 : Fin 16)) := lane_eq v 9 (by decide) shapeCasts_S16_S16 slices_S16_o9_S1 inpos_S1_p0
omit [FloatOps F] in
theorem t6_word10 (v : Vec F S16 .i32) : extractAt ![0] (k1_pay63 (k1_pay52 v)) inpos_S1_p0 = v (ix1 (10 : Fin 16)) := lane_eq v 10 (by decide) shapeCasts_S16_S16 slices_S16_o10_S1 inpos_S1_p0
omit [FloatOps F] in
theorem t6_word11 (v : Vec F S16 .i32) : extractAt ![0] (k1_pay64 (k1_pay52 v)) inpos_S1_p0 = v (ix1 (11 : Fin 16)) := lane_eq v 11 (by decide) shapeCasts_S16_S16 slices_S16_o11_S1 inpos_S1_p0
omit [FloatOps F] in
theorem t6_word12 (v : Vec F S16 .i32) : extractAt ![0] (k1_pay65 (k1_pay52 v)) inpos_S1_p0 = v (ix1 (12 : Fin 16)) := lane_eq v 12 (by decide) shapeCasts_S16_S16 slices_S16_o12_S1 inpos_S1_p0
omit [FloatOps F] in
theorem t6_word13 (v : Vec F S16 .i32) : extractAt ![0] (k1_pay66 (k1_pay52 v)) inpos_S1_p0 = v (ix1 (13 : Fin 16)) := lane_eq v 13 (by decide) shapeCasts_S16_S16 slices_S16_o13_S1 inpos_S1_p0
omit [FloatOps F] in
theorem t6_word14 (v : Vec F S16 .i32) : extractAt ![0] (k1_pay67 (k1_pay52 v)) inpos_S1_p0 = v (ix1 (14 : Fin 16)) := lane_eq v 14 (by decide) shapeCasts_S16_S16 slices_S16_o14_S1 inpos_S1_p0
omit [FloatOps F] in
theorem t6_word15 (v : Vec F S16 .i32) : extractAt ![0] (k1_pay68 (k1_pay52 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t6 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32)
    (k : Fin k1_t6_loop.trips) (acc : Unit) :
    fireInvB d L 1 cc1_scratch4.sem tbl fI f0 k.val acc
      ⊢ wp frame (wpE (defs₀ (F := F)) 𝒱₀ (thr d L) none) Set.univ
          (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (fireInvB d L 1 cc1_scratch4.sem tbl fI f0 (k.val + 1)) := by
  have hk : k.val < 20 := k.isLt
  unfold k1_t6_body
  unfold fireInvB
  iintro ⟨HsI, Htb, Hr, HB⟩
  -- copy 0
  sl_exec (disch := exact chk_of_lt _ (hI _))
  iapply (fireStepB (F := F) d (cV L) (jV L) cc1_scratch4.sem NB 1 tbl fI f0 (16 * k.val + 0) (by omega) _ _ (t6_dst0 k) _ _ _ rfl
    ((t6_word0 _).trans (read_wordB d L fI _ _ k.val (k1_off111_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch4.sem NB 1 tbl fI f0 (16 * k.val + 1) (by omega) _ _ (t6_dst1 k) _ _ _ rfl
    ((t6_word1 _).trans (read_wordB d L fI _ _ k.val (k1_off111_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch4.sem NB 1 tbl fI f0 (16 * k.val + 2) (by omega) _ _ (t6_dst2 k) _ _ _ rfl
    ((t6_word2 _).trans (read_wordB d L fI _ _ k.val (k1_off111_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch4.sem NB 1 tbl fI f0 (16 * k.val + 3) (by omega) _ _ (t6_dst3 k) _ _ _ rfl
    ((t6_word3 _).trans (read_wordB d L fI _ _ k.val (k1_off111_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch4.sem NB 1 tbl fI f0 (16 * k.val + 4) (by omega) _ _ (t6_dst4 k) _ _ _ rfl
    ((t6_word4 _).trans (read_wordB d L fI _ _ k.val (k1_off111_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch4.sem NB 1 tbl fI f0 (16 * k.val + 5) (by omega) _ _ (t6_dst5 k) _ _ _ rfl
    ((t6_word5 _).trans (read_wordB d L fI _ _ k.val (k1_off111_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch4.sem NB 1 tbl fI f0 (16 * k.val + 6) (by omega) _ _ (t6_dst6 k) _ _ _ rfl
    ((t6_word6 _).trans (read_wordB d L fI _ _ k.val (k1_off111_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch4.sem NB 1 tbl fI f0 (16 * k.val + 7) (by omega) _ _ (t6_dst7 k) _ _ _ rfl
    ((t6_word7 _).trans (read_wordB d L fI _ _ k.val (k1_off111_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch4.sem NB 1 tbl fI f0 (16 * k.val + 8) (by omega) _ _ (t6_dst8 k) _ _ _ rfl
    ((t6_word8 _).trans (read_wordB d L fI _ _ k.val (k1_off111_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch4.sem NB 1 tbl fI f0 (16 * k.val + 9) (by omega) _ _ (t6_dst9 k) _ _ _ rfl
    ((t6_word9 _).trans (read_wordB d L fI _ _ k.val (k1_off111_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch4.sem NB 1 tbl fI f0 (16 * k.val + 10) (by omega) _ _ (t6_dst10 k) _ _ _ rfl
    ((t6_word10 _).trans (read_wordB d L fI _ _ k.val (k1_off111_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch4.sem NB 1 tbl fI f0 (16 * k.val + 11) (by omega) _ _ (t6_dst11 k) _ _ _ rfl
    ((t6_word11 _).trans (read_wordB d L fI _ _ k.val (k1_off111_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch4.sem NB 1 tbl fI f0 (16 * k.val + 12) (by omega) _ _ (t6_dst12 k) _ _ _ rfl
    ((t6_word12 _).trans (read_wordB d L fI _ _ k.val (k1_off111_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch4.sem NB 1 tbl fI f0 (16 * k.val + 13) (by omega) _ _ (t6_dst13 k) _ _ _ rfl
    ((t6_word13 _).trans (read_wordB d L fI _ _ k.val (k1_off111_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch4.sem NB 1 tbl fI f0 (16 * k.val + 14) (by omega) _ _ (t6_dst14 k) _ _ _ rfl
    ((t6_word14 _).trans (read_wordB d L fI _ _ k.val (k1_off111_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch4.sem NB 1 tbl fI f0 (16 * k.val + 15) (by omega) _ _ (t6_dst15 k) _ _ _ rfl
    ((t6_word15 _).trans (read_wordB d L fI _ _ k.val (k1_off111_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KI.K1

end
-- ==== Proof.K1BTripT9.lean ====
/-
  The fire loop k1_t9 of the noise-word phase (slot 0): one trip issues its sixteen copies, in order.
-/
import proofs.«215896_g38397007626377_fold_wed_m_942_26_alg».proof.Proof.K1BFire

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

omit [FloatOps F] in
theorem t9_word0 (v : Vec F S16 .i32) : extractAt ![0] (k1_pay70 v) inpos_S1_p0 = v (ix1 (0 : Fin 16)) := lane_eq v 0 (by decide) shapeCasts_S16_S16 slices_S16_o0_S1 inpos_S1_p0
omit [FloatOps F] in
theorem t9_word1 (v : Vec F S16 .i32) : extractAt ![0] (k1_pay71 (k1_pay69 v)) inpos_S1_p0 = v (ix1 (1 : Fin 16)) := lane_eq v 1 (by decide) shapeCasts_S16_S16 slices_S16_o1_S1 inpos_S1_p0
omit [FloatOps F] in
theorem t9_word2 (v : Vec F S16 .i32) : extractAt ![0] (k1_pay72 (k1_pay69 v)) inpos_S1_p0 = v (ix1 (2 : Fin 16)) := lane_eq v 2 (by decide) shapeCasts_S16_S16 slices_S16_o2_S1 inpos_S1_p0
omit [FloatOps F] in
theorem t9_word3 (v : Vec F S16 .i32) : extractAt ![0] (k1_pay73 (k1_pay69 v)) inpos_S1_p0 = v (ix1 (3 : Fin 16)) := lane_eq v 3 (by decide) shapeCasts_S16_S16 slices_S16_o3_S1 inpos_S1_p0
omit [FloatOps F] in
theorem t9_word4 (v : Vec F S16 .i32) : extractAt ![0] (k1_pay74 (k1_pay69 v)) inpos_S1_p0 = v (ix1 (4 : Fin 16)) := lane_eq v 4 (by decide) shapeCasts_S16_S16 slices_S16_o4_S1 inpos_S1_p0
omit [FloatOps F] in
theorem t9_word5 (v : Vec F S16 .i32) : extractAt ![0] (k1_pay75 (k1_pay69 v)) inpos_S1_p0 = v (ix1 (5 : Fin 16)) := lane_eq v 5 (by decide) shapeCasts_S16_S16 slices_S16_o5_S1 inpos_S1_p0
omit [FloatOps F] in
theorem t9_word6 (v : Vec F S16 .i32) : extractAt ![0] (k1_pay76 (k1_pay69 v)) inpos_S1_p0 = v (ix1 (6 : Fin 16)) := lane_eq v 6 (by decide) shapeCasts_S16_S16 slices_S16_o6_S1 inpos_S1_p0
omit [FloatOps F] in
theorem t9_word7 (v : Vec F S16 .i32) : extractAt ![0] (k1_pay77 (k1_pay69 v)) inpos_S1_p0 = v (ix1 (7 : Fin 16)) := lane_eq v 7 (by decide) shapeCasts_S16_S16 slices_S16_o7_S1 inpos_S1_p0
omit [FloatOps F] in
theorem t9_word8 (v : Vec F S16 .i32) : extractAt ![0] (k1_pay78 (k1_pay69 v)) inpos_S1_p0 = v (ix1 (8 : Fin 16)) := lane_eq v 8 (by decide) shapeCasts_S16_S16 slices_S16_o8_S1 inpos_S1_p0
omit [FloatOps F] in
theorem t9_word9 (v : Vec F S16 .i32) : extractAt ![0] (k1_pay79 (k1_pay69 v)) inpos_S1_p0 = v (ix1 (9 : Fin 16)) := lane_eq v 9 (by decide) shapeCasts_S16_S16 slices_S16_o9_S1 inpos_S1_p0
omit [FloatOps F] in
theorem t9_word10 (v : Vec F S16 .i32) : extractAt ![0] (k1_pay80 (k1_pay69 v)) inpos_S1_p0 = v (ix1 (10 : Fin 16)) := lane_eq v 10 (by decide) shapeCasts_S16_S16 slices_S16_o10_S1 inpos_S1_p0
omit [FloatOps F] in
theorem t9_word11 (v : Vec F S16 .i32) : extractAt ![0] (k1_pay81 (k1_pay69 v)) inpos_S1_p0 = v (ix1 (11 : Fin 16)) := lane_eq v 11 (by decide) shapeCasts_S16_S16 slices_S16_o11_S1 inpos_S1_p0
omit [FloatOps F] in
theorem t9_word12 (v : Vec F S16 .i32) : extractAt ![0] (k1_pay82 (k1_pay69 v)) inpos_S1_p0 = v (ix1 (12 : Fin 16)) := lane_eq v 12 (by decide) shapeCasts_S16_S16 slices_S16_o12_S1 inpos_S1_p0
omit [FloatOps F] in
theorem t9_word13 (v : Vec F S16 .i32) : extractAt ![0] (k1_pay83 (k1_pay69 v)) inpos_S1_p0 = v (ix1 (13 : Fin 16)) := lane_eq v 13 (by decide) shapeCasts_S16_S16 slices_S16_o13_S1 inpos_S1_p0
omit [FloatOps F] in
theorem t9_word14 (v : Vec F S16 .i32) : extractAt ![0] (k1_pay84 (k1_pay69 v)) inpos_S1_p0 = v (ix1 (14 : Fin 16)) := lane_eq v 14 (by decide) shapeCasts_S16_S16 slices_S16_o14_S1 inpos_S1_p0
omit [FloatOps F] in
theorem t9_word15 (v : Vec F S16 .i32) : extractAt ![0] (k1_pay85 (k1_pay69 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t9 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32) (k7 : Fin k1_t7_loop.trips) (arg12 c0_i32_73 : BitVec 32)
    (k : Fin k1_t9_loop.trips) (acc : Unit) :
    fireInvB d L 0 cc1_scratch3.sem tbl fI f0 k.val acc
      ⊢ wp frame (wpE (defs₀ (F := F)) 𝒱₀ (thr d L) none) Set.univ
          (k1_t9_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (fireInvB d L 0 cc1_scratch3.sem tbl fI f0 (k.val + 1)) := by
  have hk : k.val < 20 := k.isLt
  unfold k1_t9_body
  unfold fireInvB
  iintro ⟨HsI, Htb, Hr, HB⟩
  -- copy 0
  sl_exec (disch := exact chk_of_lt _ (hI _))
  iapply (fireStepB (F := F) d (cV L) (jV L) cc1_scratch3.sem NB 0 tbl fI f0 (16 * k.val + 0) (by omega) _ _ (t9_dst0 k) _ _ _ rfl
    ((t9_word0 _).trans (read_wordB d L fI _ _ k.val (k1_off148_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch3.sem NB 0 tbl fI f0 (16 * k.val + 1) (by omega) _ _ (t9_dst1 k) _ _ _ rfl
    ((t9_word1 _).trans (read_wordB d L fI _ _ k.val (k1_off148_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch3.sem NB 0 tbl fI f0 (16 * k.val + 2) (by omega) _ _ (t9_dst2 k) _ _ _ rfl
    ((t9_word2 _).trans (read_wordB d L fI _ _ k.val (k1_off148_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch3.sem NB 0 tbl fI f0 (16 * k.val + 3) (by omega) _ _ (t9_dst3 k) _ _ _ rfl
    ((t9_word3 _).trans (read_wordB d L fI _ _ k.val (k1_off148_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch3.sem NB 0 tbl fI f0 (16 * k.val + 4) (by omega) _ _ (t9_dst4 k) _ _ _ rfl
    ((t9_word4 _).trans (read_wordB d L fI _ _ k.val (k1_off148_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch3.sem NB 0 tbl fI f0 (16 * k.val + 5) (by omega) _ _ (t9_dst5 k) _ _ _ rfl
    ((t9_word5 _).trans (read_wordB d L fI _ _ k.val (k1_off148_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch3.sem NB 0 tbl fI f0 (16 * k.val + 6) (by omega) _ _ (t9_dst6 k) _ _ _ rfl
    ((t9_word6 _).trans (read_wordB d L fI _ _ k.val (k1_off148_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch3.sem NB 0 tbl fI f0 (16 * k.val + 7) (by omega) _ _ (t9_dst7 k) _ _ _ rfl
    ((t9_word7 _).trans (read_wordB d L fI _ _ k.val (k1_off148_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch3.sem NB 0 tbl fI f0 (16 * k.val + 8) (by omega) _ _ (t9_dst8 k) _ _ _ rfl
    ((t9_word8 _).trans (read_wordB d L fI _ _ k.val (k1_off148_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch3.sem NB 0 tbl fI f0 (16 * k.val + 9) (by omega) _ _ (t9_dst9 k) _ _ _ rfl
    ((t9_word9 _).trans (read_wordB d L fI _ _ k.val (k1_off148_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch3.sem NB 0 tbl fI f0 (16 * k.val + 10) (by omega) _ _ (t9_dst10 k) _ _ _ rfl
    ((t9_word10 _).trans (read_wordB d L fI _ _ k.val (k1_off148_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch3.sem NB 0 tbl fI f0 (16 * k.val + 11) (by omega) _ _ (t9_dst11 k) _ _ _ rfl
    ((t9_word11 _).trans (read_wordB d L fI _ _ k.val (k1_off148_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch3.sem NB 0 tbl fI f0 (16 * k.val + 12) (by omega) _ _ (t9_dst12 k) _ _ _ rfl
    ((t9_word12 _).trans (read_wordB d L fI _ _ k.val (k1_off148_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch3.sem NB 0 tbl fI f0 (16 * k.val + 13) (by omega) _ _ (t9_dst13 k) _ _ _ rfl
    ((t9_word13 _).trans (read_wordB d L fI _ _ k.val (k1_off148_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch3.sem NB 0 tbl fI f0 (16 * k.val + 14) (by omega) _ _ (t9_dst14 k) _ _ _ rfl
    ((t9_word14 _).trans (read_wordB d L fI _ _ k.val (k1_off148_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch3.sem NB 0 tbl fI f0 (16 * k.val + 15) (by omega) _ _ (t9_dst15 k) _ _ _ rfl
    ((t9_word15 _).trans (read_wordB d L fI _ _ k.val (k1_off148_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KI.K1

end
-- ==== Proof.K1BTripT11.lean ====
/-
  The fire loop k1_t11 of the noise-word phase (slot 1): one trip issues its sixteen copies, in order.
-/
import proofs.«215896_g38397007626377_fold_wed_m_942_26_alg».proof.Proof.K1BFire

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

omit [FloatOps F] in
theorem t11_word0 (v : Vec F S16 .i32) : extractAt ![0] (k1_pay87 v) inpos_S1_p0 = v (ix1 (0 : Fin 16)) := lane_eq v 0 (by decide) shapeCasts_S16_S16 slices_S16_o0_S1 inpos_S1_p0
omit [FloatOps F] in
theorem t11_word1 (v : Vec F S16 .i32) : extractAt ![0] (k1_pay88 (k1_pay86 v)) inpos_S1_p0 = v (ix1 (1 : Fin 16)) := lane_eq v 1 (by decide) shapeCasts_S16_S16 slices_S16_o1_S1 inpos_S1_p0
omit [FloatOps F] in
theorem t11_word2 (v : Vec F S16 .i32) : extractAt ![0] (k1_pay89 (k1_pay86 v)) inpos_S1_p0 = v (ix1 (2 : Fin 16)) := lane_eq v 2 (by decide) shapeCasts_S16_S16 slices_S16_o2_S1 inpos_S1_p0
omit [FloatOps F] in
theorem t11_word3 (v : Vec F S16 .i32) : extractAt ![0] (k1_pay90 (k1_pay86 v)) inpos_S1_p0 = v (ix1 (3 : Fin 16)) := lane_eq v 3 (by decide) shapeCasts_S16_S16 slices_S16_o3_S1 inpos_S1_p0
omit [FloatOps F] in
theorem t11_word4 (v : Vec F S16 .i32) : extractAt ![0] (k1_pay91 (k1_pay86 v)) inpos_S1_p0 = v (ix1 (4 : Fin 16)) := lane_eq v 4 (by decide) shapeCasts_S16_S16 slices_S16_o4_S1 inpos_S1_p0
omit [FloatOps F] in
theorem t11_word5 (v : Vec F S16 .i32) : extractAt ![0] (k1_pay92 (k1_pay86 v)) inpos_S1_p0 = v (ix1 (5 : Fin 16)) := lane_eq v 5 (by decide) shapeCasts_S16_S16 slices_S16_o5_S1 inpos_S1_p0
omit [FloatOps F] in
theorem t11_word6 (v : Vec F S16 .i32) : extractAt ![0] (k1_pay93 (k1_pay86 v)) inpos_S1_p0 = v (ix1 (6 : Fin 16)) := lane_eq v 6 (by decide) shapeCasts_S16_S16 slices_S16_o6_S1 inpos_S1_p0
omit [FloatOps F] in
theorem t11_word7 (v : Vec F S16 .i32) : extractAt ![0] (k1_pay94 (k1_pay86 v)) inpos_S1_p0 = v (ix1 (7 : Fin 16)) := lane_eq v 7 (by decide) shapeCasts_S16_S16 slices_S16_o7_S1 inpos_S1_p0
omit [FloatOps F] in
theorem t11_word8 (v : Vec F S16 .i32) : extractAt ![0] (k1_pay95 (k1_pay86 v)) inpos_S1_p0 = v (ix1 (8 : Fin 16)) := lane_eq v 8 (by decide) shapeCasts_S16_S16 slices_S16_o8_S1 inpos_S1_p0
omit [FloatOps F] in
theorem t11_word9 (v : Vec F S16 .i32) : extractAt ![0] (k1_pay96 (k1_pay86 v)) inpos_S1_p0 = v (ix1 (9 : Fin 16)) := lane_eq v 9 (by decide) shapeCasts_S16_S16 slices_S16_o9_S1 inpos_S1_p0
omit [FloatOps F] in
theorem t11_word10 (v : Vec F S16 .i32) : extractAt ![0] (k1_pay97 (k1_pay86 v)) inpos_S1_p0 = v (ix1 (10 : Fin 16)) := lane_eq v 10 (by decide) shapeCasts_S16_S16 slices_S16_o10_S1 inpos_S1_p0
omit [FloatOps F] in
theorem t11_word11 (v : Vec F S16 .i32) : extractAt ![0] (k1_pay98 (k1_pay86 v)) inpos_S1_p0 = v (ix1 (11 : Fin 16)) := lane_eq v 11 (by decide) shapeCasts_S16_S16 slices_S16_o11_S1 inpos_S1_p0
omit [FloatOps F] in
theorem t11_word12 (v : Vec F S16 .i32) : extractAt ![0] (k1_pay99 (k1_pay86 v)) inpos_S1_p0 = v (ix1 (12 : Fin 16)) := lane_eq v 12 (by decide) shapeCasts_S16_S16 slices_S16_o12_S1 inpos_S1_p0
omit [FloatOps F] in
theorem t11_word13 (v : Vec F S16 .i32) : extractAt ![0] (k1_pay100 (k1_pay86 v)) inpos_S1_p0 = v (ix1 (13 : Fin 16)) := lane_eq v 13 (by decide) shapeCasts_S16_S16 slices_S16_o13_S1 inpos_S1_p0
omit [FloatOps F] in
theorem t11_word14 (v : Vec F S16 .i32) : extractAt ![0] (k1_pay101 (k1_pay86 v)) inpos_S1_p0 = v (ix1 (14 : Fin 16)) := lane_eq v 14 (by decide) shapeCasts_S16_S16 slices_S16_o14_S1 inpos_S1_p0
omit [FloatOps F] in
theorem t11_word15 (v : Vec F S16 .i32) : extractAt ![0] (k1_pay102 (k1_pay86 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t11 (tbl : Buf (Elt F) (a4Loc d)) (fI : Buf (Elt F) (idxLocV d (cV L) (jV L)))
    (f0 : Buf (Elt F) (rowsBLocV d (cV L) (jV L))) (hI : ∀ x, (fI x).toNat < 1000000) (v3 v4 c0_i32_90 : BitVec 32)
    (k : Fin k1_t11_loop.trips) (acc : Unit) :
    fireInvB d L 1 cc1_scratch4.sem tbl fI f0 k.val acc
      ⊢ wp frame (wpE (defs₀ (F := F)) 𝒱₀ (thr d L) none) Set.univ
          (k1_t11_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_90 k acc)
          (fireInvB d L 1 cc1_scratch4.sem tbl fI f0 (k.val + 1)) := by
  have hk : k.val < 20 := k.isLt
  unfold k1_t11_body
  unfold fireInvB
  iintro ⟨HsI, Htb, Hr, HB⟩
  -- copy 0
  sl_exec (disch := exact chk_of_lt _ (hI _))
  iapply (fireStepB (F := F) d (cV L) (jV L) cc1_scratch4.sem NB 1 tbl fI f0 (16 * k.val + 0) (by omega) _ _ (t11_dst0 k) _ _ _ rfl
    ((t11_word0 _).trans (read_wordB d L fI _ _ k.val (k1_off183_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch4.sem NB 1 tbl fI f0 (16 * k.val + 1) (by omega) _ _ (t11_dst1 k) _ _ _ rfl
    ((t11_word1 _).trans (read_wordB d L fI _ _ k.val (k1_off183_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch4.sem NB 1 tbl fI f0 (16 * k.val + 2) (by omega) _ _ (t11_dst2 k) _ _ _ rfl
    ((t11_word2 _).trans (read_wordB d L fI _ _ k.val (k1_off183_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch4.sem NB 1 tbl fI f0 (16 * k.val + 3) (by omega) _ _ (t11_dst3 k) _ _ _ rfl
    ((t11_word3 _).trans (read_wordB d L fI _ _ k.val (k1_off183_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch4.sem NB 1 tbl fI f0 (16 * k.val + 4) (by omega) _ _ (t11_dst4 k) _ _ _ rfl
    ((t11_word4 _).trans (read_wordB d L fI _ _ k.val (k1_off183_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch4.sem NB 1 tbl fI f0 (16 * k.val + 5) (by omega) _ _ (t11_dst5 k) _ _ _ rfl
    ((t11_word5 _).trans (read_wordB d L fI _ _ k.val (k1_off183_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch4.sem NB 1 tbl fI f0 (16 * k.val + 6) (by omega) _ _ (t11_dst6 k) _ _ _ rfl
    ((t11_word6 _).trans (read_wordB d L fI _ _ k.val (k1_off183_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch4.sem NB 1 tbl fI f0 (16 * k.val + 7) (by omega) _ _ (t11_dst7 k) _ _ _ rfl
    ((t11_word7 _).trans (read_wordB d L fI _ _ k.val (k1_off183_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch4.sem NB 1 tbl fI f0 (16 * k.val + 8) (by omega) _ _ (t11_dst8 k) _ _ _ rfl
    ((t11_word8 _).trans (read_wordB d L fI _ _ k.val (k1_off183_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch4.sem NB 1 tbl fI f0 (16 * k.val + 9) (by omega) _ _ (t11_dst9 k) _ _ _ rfl
    ((t11_word9 _).trans (read_wordB d L fI _ _ k.val (k1_off183_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch4.sem NB 1 tbl fI f0 (16 * k.val + 10) (by omega) _ _ (t11_dst10 k) _ _ _ rfl
    ((t11_word10 _).trans (read_wordB d L fI _ _ k.val (k1_off183_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch4.sem NB 1 tbl fI f0 (16 * k.val + 11) (by omega) _ _ (t11_dst11 k) _ _ _ rfl
    ((t11_word11 _).trans (read_wordB d L fI _ _ k.val (k1_off183_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch4.sem NB 1 tbl fI f0 (16 * k.val + 12) (by omega) _ _ (t11_dst12 k) _ _ _ rfl
    ((t11_word12 _).trans (read_wordB d L fI _ _ k.val (k1_off183_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch4.sem NB 1 tbl fI f0 (16 * k.val + 13) (by omega) _ _ (t11_dst13 k) _ _ _ rfl
    ((t11_word13 _).trans (read_wordB d L fI _ _ k.val (k1_off183_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch4.sem NB 1 tbl fI f0 (16 * k.val + 14) (by omega) _ _ (t11_dst14 k) _ _ _ rfl
    ((t11_word14 _).trans (read_wordB d L fI _ _ k.val (k1_off183_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch4.sem NB 1 tbl fI f0 (16 * k.val + 15) (by omega) _ _ (t11_dst15 k) _ _ _ rfl
    ((t11_word15 _).trans (read_wordB d L fI _ _ k.val (k1_off183_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KI.K1

end
-- ==== Proof.K1BDrain.lean ====
/-
  The noise-word phase's drain loops, one wait at a time.

  Each wait takes one piece's credit off the chunk's batch. With several copies paying in instalments on one counter,
  a wait that is not the last learns nothing about any destination; the wait that brings the units consumed to 320
  pieces' worth knows every copy has landed and hands back every delivery, the counter at zero again.
-/
import proofs.«215896_g38397007626377_fold_wed_m_942_26_alg».proof.Proof.K1BFire

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

section DrainB

variable (d : Dev nD) (cc : Fin τ.nSC) (jj : Fin τ.nSub)

theorem hu_skipB {a : ℕ} (h : a + 1 < 320) : a * NB + NB < NB * 320 := by
  have hp := NB_pos
  nlinarith
theorem hu_lastB : 319 * NB + NB = NB * 320 := by ring

/-- ONE WAIT that is not the last: a pieces' worth consumed before, a + 1 after; nothing else changes. -/
theorem drainStepB {α : Type} (sem : DmaSem sig) (b : ℕ) (tbl : Buf (Elt F) (a4Loc d)) (fI : Buf (Elt F) (idxLocV d cc jj))
    (a : ℕ) (ha : a + 1 < 320) (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact} (hN : dstw.view.dmaCredit = NB)
    {k : PUnit → Prog (TpuEff nD τ sig (Elt F) Λ₀ (V d cc jj).2) α} {Q : α → sProp 𝕄} :
    iprop(levAts (K (F := F)).L (K (F := F)).lev
        ∗ Transfers.Batch countersEmb (V d cc jj) (.dma sem) (none : HIx 2) NB (DB d cc jj b tbl fI) 320 (a * NB)
        ∗ owesN (F := F) (V d cc jj) O W)
      ⊢ iprop((iprop(Transfers.Batch countersEmb (V d cc jj) (.dma sem) (none : HIx 2) NB (DB d cc jj b tbl fI) 320 ((a + 1) * NB)
            ∗ owesN (F := F) (V d cc jj) O W)
          -∗ wp frame (wpE (defs₀ (F := F)) 𝒱₀ (V d cc jj) none) Set.univ (k ⟨⟩) Q)
        -∗ wp frame (wpE (defs₀ (F := F)) 𝒱₀ (V d cc jj) none) Set.univ (.op (.waitDma2 sem srcw dstw hs hd) k) Q) := by
  rw [Nat.succ_mul]
  exact waitSkip (F := F) (V d cc jj) sem NB hN (DB d cc jj b tbl fI) (a * NB) (hu_skipB ha) O hO W

/-- THE LAST WAIT: every copy has landed; every delivery comes back, the counter at zero. -/
theorem drainLastB {α : Type} (sem : DmaSem sig) (b : ℕ) (tbl : Buf (Elt F) (a4Loc d)) (fI : Buf (Elt F) (idxLocV d cc jj))
    (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact} (hN : dstw.view.dmaCredit = NB)
    {k : PUnit → Prog (TpuEff nD τ sig (Elt F) Λ₀ (V d cc jj).2) α} {Q : α → sProp 𝕄} :
    iprop(levAts (K (F := F)).L (K (F := F)).lev
        ∗ Transfers.Batch countersEmb (V d cc jj) (.dma sem) (none : HIx 2) NB (DB d cc jj b tbl fI) 320 ((16 * 19 + 15) * NB)
        ∗ owesN (F := F) (V d cc jj) O W)
      ⊢ iprop((iprop(bigSep Finset.univ (DB d cc jj b tbl fI) ∗ semVal (V d cc jj, SemLoc.dma sem) 0 ∗ owesN (F := F) (V d cc jj) O W)
          -∗ wp frame (wpE (defs₀ (F := F)) 𝒱₀ (V d cc jj) none) Set.univ (k ⟨⟩) Q)
        -∗ wp frame (wpE (defs₀ (F := F)) 𝒱₀ (V d cc jj) none) Set.univ (.op (.waitDma2 sem srcw dstw hs hd) k) Q) :=
  waitLast (F := F) (V d cc jj) sem NB hN NB_pos (DB d cc jj b tbl fI) ((16 * 19 + 15) * NB) hu_lastB O hO W

end DrainB

section DrainInv

variable (d : Dev nD) (L : grid1.Coords)

/-- A chunk's batch with everything issued and u units consumed. -/
abbrev batchAtB (b : ℕ) (sem : DmaSem sig) (tbl : Buf (Elt F) (a4Loc d)) (fI : Buf (Elt F) (idxLocV d (cV L) (jV L))) (u : ℕ) : sProp 𝕄 :=
  Transfers.Batch countersEmb (thr d L) (.dma sem) (none : HIx 2) NB (DB d (cV L) (jV L) b tbl fI) 320 u

/-- Before trip k of a drain loop; after the last trip every piece of the slot is back at its final contents. -/
def drainInvB (b : ℕ) (sem : DmaSem sig) (tbl : Buf (Elt F) (a4Loc d)) (fI : Buf (Elt F) (idxLocV d (cV L) (jV L)))
    (O : CellTallies nD τ sig (HIx 2)) (W : Waits sig (HIx 2)) (k : ℕ) (_ : Unit) : sProp 𝕄 :=
  iprop(levAts (K (F := F)).L (K (F := F)).lev
    ∗ (if k < 20 then batchAtB d L b sem tbl fI ((16 * k) * NB)
       else iprop((bigSep Finset.univ (DB d (cV L) (jV L) b tbl fI)) ∗ semVal (thr d L, SemLoc.dma sem) 0))
    ∗ owesN (F := F) (thr d L) O W)

end DrainInv

end Cert.Proof.KI.K1

end
-- ==== Proof.K1BDrainT8.lean ====
/-
  The drain loop k1_t8 of the noise-word phase (slot 0): its trips, sixteen waits each.
-/
import proofs.«215896_g38397007626377_fold_wed_m_942_26_alg».proof.Proof.K1BDrain

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

set_option maxHeartbeats 4000000 in
/-- A trip of the drain loop that is not the last: sixteen waits, each taking one piece's credit, none learning anything. -/
theorem drain_trip_t8_mid (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips)
    (k : Fin k1_t8_loop.trips) (K0 : ℕ) (hK : k.val = K0) (hmid : K0 + 1 < 20) (acc : Unit) :
    iprop(levAts (K (F := F)).L (K (F := F)).lev ∗ batchAtB d L 0 cc1_scratch3.sem tbl fI ((16 * K0) * NB) ∗ owesN (F := F) (thr d L) O W)
      ⊢ wp frame (wpE (defs₀ (F := F)) 𝒱₀ (thr d L) none) Set.univ
          (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7 k acc)
          (fun _ => iprop(levAts (K (F := F)).L (K (F := F)).lev ∗ batchAtB d L 0 cc1_scratch3.sem tbl fI ((16 * (K0 + 1)) * NB) ∗ owesN (F := F) (thr d L) O W)) := by
  unfold k1_t8_body
  iintro ⟨#Hlv, HB, HW⟩
  -- wait 0
  sl_exec
  iapply (drainStepB (F := F) d (cV L) (jV L) cc1_scratch3.sem 0 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch3.sem 0 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t8_last (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips)
    (k : Fin k1_t8_loop.trips) (hlast : k.val = 19) (acc : Unit) :
    iprop(levAts (K (F := F)).L (K (F := F)).lev ∗ batchAtB d L 0 cc1_scratch3.sem tbl fI ((16 * 19) * NB) ∗ owesN (F := F) (thr d L) O W)
      ⊢ wp frame (wpE (defs₀ (F := F)) 𝒱₀ (thr d L) none) Set.univ
          (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7 k acc)
          (fun _ => iprop(levAts (K (F := F)).L (K (F := F)).lev
            ∗ iprop((bigSep Finset.univ (DB d (cV L) (jV L) 0 tbl fI)) ∗ semVal (thr d L, SemLoc.dma cc1_scratch3.sem) 0)
            ∗ owesN (F := F) (thr d L) O W)) := by
  unfold k1_t8_body
  iintro ⟨#Hlv, HB, HW⟩
  -- wait 0
  sl_exec
  iapply (drainStepB (F := F) d (cV L) (jV L) cc1_scratch3.sem 0 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch3.sem 0 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KI.K1

end
-- ==== Proof.K1BDrainT10.lean ====
/-
  The drain loop k1_t10 of the noise-word phase (slot 1): its trips, sixteen waits each.
-/
import proofs.«215896_g38397007626377_fold_wed_m_942_26_alg».proof.Proof.K1BDrain

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

set_option maxHeartbeats 4000000 in
/-- A trip of the drain loop that is not the last: sixteen waits, each taking one piece's credit, none learning anything. -/
theorem drain_trip_t10_mid (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32)
    (k : Fin k1_t10_loop.trips) (K0 : ℕ) (hK : k.val = K0) (hmid : K0 + 1 < 20) (acc : Unit) :
    iprop(levAts (K (F := F)).L (K (F := F)).lev ∗ batchAtB d L 1 cc1_scratch4.sem tbl fI ((16 * K0) * NB) ∗ owesN (F := F) (thr d L) O W)
      ⊢ wp frame (wpE (defs₀ (F := F)) 𝒱₀ (thr d L) none) Set.univ
          (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (fun _ => iprop(levAts (K (F := F)).L (K (F := F)).lev ∗ batchAtB d L 1 cc1_scratch4.sem tbl fI ((16 * (K0 + 1)) * NB) ∗ owesN (F := F) (thr d L) O W)) := by
  unfold k1_t10_body
  iintro ⟨#Hlv, HB, HW⟩
  -- wait 0
  sl_exec
  iapply (drainStepB (F := F) d (cV L) (jV L) cc1_scratch4.sem 1 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch4.sem 1 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t10_last (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32)
    (k : Fin k1_t10_loop.trips) (hlast : k.val = 19) (acc : Unit) :
    iprop(levAts (K (F := F)).L (K (F := F)).lev ∗ batchAtB d L 1 cc1_scratch4.sem tbl fI ((16 * 19) * NB) ∗ owesN (F := F) (thr d L) O W)
      ⊢ wp frame (wpE (defs₀ (F := F)) 𝒱₀ (thr d L) none) Set.univ
          (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (fun _ => iprop(levAts (K (F := F)).L (K (F := F)).lev
            ∗ iprop((bigSep Finset.univ (DB d (cV L) (jV L) 1 tbl fI)) ∗ semVal (thr d L, SemLoc.dma cc1_scratch4.sem) 0)
            ∗ owesN (F := F) (thr d L) O W)) := by
  unfold k1_t10_body
  iintro ⟨#Hlv, HB, HW⟩
  -- wait 0
  sl_exec
  iapply (drainStepB (F := F) d (cV L) (jV L) cc1_scratch4.sem 1 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch4.sem 1 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KI.K1

end
-- ==== Proof.K1BDrainT12.lean ====
/-
  The drain loop k1_t12 of the noise-word phase (slot 0): its trips, sixteen waits each.
-/
import proofs.«215896_g38397007626377_fold_wed_m_942_26_alg».proof.Proof.K1BDrain

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

set_option maxHeartbeats 4000000 in
/-- A trip of the drain loop that is not the last: sixteen waits, each taking one piece's credit, none learning anything. -/
theorem drain_trip_t12_mid (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32)
    (k : Fin k1_t12_loop.trips) (K0 : ℕ) (hK : k.val = K0) (hmid : K0 + 1 < 20) (acc : Unit) :
    iprop(levAts (K (F := F)).L (K (F := F)).lev ∗ batchAtB d L 0 cc1_scratch3.sem tbl fI ((16 * K0) * NB) ∗ owesN (F := F) (thr d L) O W)
      ⊢ wp frame (wpE (defs₀ (F := F)) 𝒱₀ (thr d L) none) Set.univ
          (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (fun _ => iprop(levAts (K (F := F)).L (K (F := F)).lev ∗ batchAtB d L 0 cc1_scratch3.sem tbl fI ((16 * (K0 + 1)) * NB) ∗ owesN (F := F) (thr d L) O W)) := by
  unfold k1_t12_body
  iintro ⟨#Hlv, HB, HW⟩
  -- wait 0
  sl_exec
  iapply (drainStepB (F := F) d (cV L) (jV L) cc1_scratch3.sem 0 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch3.sem 0 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t12_last (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32)
    (k : Fin k1_t12_loop.trips) (hlast : k.val = 19) (acc : Unit) :
    iprop(levAts (K (F := F)).L (K (F := F)).lev ∗ batchAtB d L 0 cc1_scratch3.sem tbl fI ((16 * 19) * NB) ∗ owesN (F := F) (thr d L) O W)
      ⊢ wp frame (wpE (defs₀ (F := F)) 𝒱₀ (thr d L) none) Set.univ
          (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (fun _ => iprop(levAts (K (F := F)).L (K (F := F)).lev
            ∗ iprop((bigSep Finset.univ (DB d (cV L) (jV L) 0 tbl fI)) ∗ semVal (thr d L, SemLoc.dma cc1_scratch3.sem) 0)
            ∗ owesN (F := F) (thr d L) O W)) := by
  unfold k1_t12_body
  iintro ⟨#Hlv, HB, HW⟩
  -- wait 0
  sl_exec
  iapply (drainStepB (F := F) d (cV L) (jV L) cc1_scratch3.sem 0 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch3.sem 0 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KI.K1

end
-- ==== Proof.K1BDrainT13.lean ====
/-
  The drain loop k1_t13 of the noise-word phase (slot 1): its trips, sixteen waits each.
-/
import proofs.«215896_g38397007626377_fold_wed_m_942_26_alg».proof.Proof.K1BDrain

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

set_option maxHeartbeats 4000000 in
/-- A trip of the drain loop that is not the last: sixteen waits, each taking one piece's credit, none learning anything. -/
theorem drain_trip_t13_mid (tbl : Buf (Elt F) (a4Loc d)) (fI : Buf (Elt F) (idxLocV d (cV L) (jV L)))
    (O : CellTallies nD τ sig (HIx 2)) (W : Waits sig (HIx 2)) (hO : ∀ g, O g none = 0)
    (k : Fin k1_t13_loop.trips) (K0 : ℕ) (hK : k.val = K0) (hmid : K0 + 1 < 20) (acc : Unit) :
    iprop(levAts (K (F := F)).L (K (F := F)).lev ∗ batchAtB d L 1 cc1_scratch4.sem tbl fI ((16 * K0) * NB) ∗ owesN (F := F) (thr d L) O W)
      ⊢ wp frame (wpE (defs₀ (F := F)) 𝒱₀ (thr d L) none) Set.univ
          (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11  k acc)
          (fun _ => iprop(levAts (K (F := F)).L (K (F := F)).lev ∗ batchAtB d L 1 cc1_scratch4.sem tbl fI ((16 * (K0 + 1)) * NB) ∗ owesN (F := F) (thr d L) O W)) := by
  unfold k1_t13_body
  iintro ⟨#Hlv, HB, HW⟩
  -- wait 0
  sl_exec
  iapply (drainStepB (F := F) d (cV L) (jV L) cc1_scratch4.sem 1 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch4.sem 1 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t13_last (tbl : Buf (Elt F) (a4Loc d)) (fI : Buf (Elt F) (idxLocV d (cV L) (jV L)))
    (O : CellTallies nD τ sig (HIx 2)) (W : Waits sig (HIx 2)) (hO : ∀ g, O g none = 0)
    (k : Fin k1_t13_loop.trips) (hlast : k.val = 19) (acc : Unit) :
    iprop(levAts (K (F := F)).L (K (F := F)).lev ∗ batchAtB d L 1 cc1_scratch4.sem tbl fI ((16 * 19) * NB) ∗ owesN (F := F) (thr d L) O W)
      ⊢ wp frame (wpE (defs₀ (F := F)) 𝒱₀ (thr d L) none) Set.univ
          (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11  k acc)
          (fun _ => iprop(levAts (K (F := F)).L (K (F := F)).lev
            ∗ iprop((bigSep Finset.univ (DB d (cV L) (jV L) 1 tbl fI)) ∗ semVal (thr d L, SemLoc.dma cc1_scratch4.sem) 0)
            ∗ owesN (F := F) (thr d L) O W)) := by
  unfold k1_t13_body
  iintro ⟨#Hlv, HB, HW⟩
  -- wait 0
  sl_exec
  iapply (drainStepB (F := F) d (cV L) (jV L) cc1_scratch4.sem 1 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch4.sem 1 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KI.K1

end
-- ==== Proof.K1BJoin.lean ====
/-
  The 320 pieces of a slot are the slot: every copy's delivery together is the whole slot at the final contents.
-/
import proofs.«215896_g38397007626377_fold_wed_m_942_26_alg».proof.Proof.K1BDrain

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

section JoinB

variable (d : Dev nD) (cc : Fin τ.nSC) (jj : Fin τ.nSub)

theorem pieceB_disjoint (b : ℕ) {t t' : ℕ} (h : t ≠ t') : Disjoint (pieceB b t) (pieceB b t') := by
  rw [Finset.disjoint_left]
  intro y h1 h2
  rw [mem_pieceB] at h1 h2
  omega

/-- Slot b is the union of its 320 pieces. -/
theorem slotB_cover (b : ℕ) : (Finset.univ : Finset (Fin 320)).biUnion (fun t => pieceB b t.val) = remB b 0 := by
  ext y
  rw [Finset.mem_biUnion, mem_remB]
  constructor
  · rintro ⟨t, -, ht⟩
    rw [mem_pieceB] at ht
    exact ⟨ht.1, Nat.zero_le _⟩
  · rintro ⟨hb, -⟩
    have h1 : (y 1).val < 16 := (y 1).isLt
    have h2 : (y 2).val < 1280 := (y 2).isLt
    exact ⟨⟨20 * (y 1).val + (y 2).val / 64, by omega⟩, Finset.mem_univ _, by rw [mem_pieceB]; exact ⟨hb, rfl⟩⟩

/-- Every delivery of a chunk together: the slot at the final contents. -/
theorem joinB (b : ℕ) (tbl : Buf (Elt F) (a4Loc d)) (fI : Buf (Elt F) (idxLocV d cc jj)) :
    (bigSep Finset.univ (DB d cc jj b tbl fI) : sProp 𝕄) = (rowsBLocV d cc jj ↦[remB b 0]{fullShare} FB d cc jj tbl fI) := by
  rw [← slotB_cover b]
  exact (pointsTo_biUnion (ℓ := rowsBLocV d cc jj) (q := fullShare) (f := FB d cc jj tbl fI) Finset.univ
    (fun t : Fin 320 => pieceB b t.val) (fun t _ t' _ h => pieceB_disjoint b (fun e => h (Fin.ext e)))).symm

end JoinB

end Cert.Proof.KI.K1

end
-- ==== Proof.K1BLoops.lean ====
/-
  The noise-word phase's loops whole: each fire loop issues a chunk's 320 copies, each drain loop waits for them all
  and gets every piece back.
-/
import proofs.«215896_g38397007626377_fold_wed_m_942_26_alg».proof.Proof.K1BTripT4
import proofs.«215896_g38397007626377_fold_wed_m_942_26_alg».proof.Proof.K1BTripT6
import proofs.«215896_g38397007626377_fold_wed_m_942_26_alg».proof.Proof.K1BTripT9
import proofs.«215896_g38397007626377_fold_wed_m_942_26_alg».proof.Proof.K1BTripT11
import proofs.«215896_g38397007626377_fold_wed_m_942_26_alg».proof.Proof.K1BDrainT8
import proofs.«215896_g38397007626377_fold_wed_m_942_26_alg».proof.Proof.K1BDrainT10
import proofs.«215896_g38397007626377_fold_wed_m_942_26_alg».proof.Proof.K1BDrainT12
import proofs.«215896_g38397007626377_fold_wed_m_942_26_alg».proof.Proof.K1BDrainT13
import proofs.«215896_g38397007626377_fold_wed_m_942_26_alg».proof.Proof.K1BJoin

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (d : Dev nD) (L : grid1.Coords)

/-- The fire loop k1_t4 whole: from nothing issued to all 320 issued. -/
theorem fire_loop_t4 (tbl : Buf (Elt F) (a4Loc d)) (fI : Buf (Elt F) (idxLocV d (cV L) (jV L)))
    (f0 : Buf (Elt F) (rowsBLocV d (cV L) (jV L))) (hI : ∀ x, (fI x).toNat < 1000000) (v2 : BitVec 32) :
    fireInvB d L 0 cc1_scratch3.sem tbl fI f0 0 ()
      ⊢ wp frame (wpE (defs₀ (F := F)) 𝒱₀ (thr d L) none) Set.univ
          (Scf.Loop.for k1_t4_loop k1_t4_ok ⟨⟩ (k1_t4_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2))
          (fun _ => fireInvB d L 0 cc1_scratch3.sem tbl fI f0 20 ()) := by
  iintro HI
  iapply (Scf.wp_for frame (wpE (defs₀ (F := F)) 𝒱₀ (thr d L) none) Set.univ _ _ _ k1_t4_ok ⟨⟩ _
    (fireInvB d L 0 cc1_scratch3.sem tbl fI f0) (fun k acc => fire_trip_t4 d L tbl fI f0 hI v2 k acc))
  isplitl [HI]
  · iexact HI
  · iintro %acc H
    iexact H

/-- The fire loop k1_t6 whole: from nothing issued to all 320 issued. -/
theorem fire_loop_t6 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32) :
    fireInvB d L 1 cc1_scratch4.sem tbl fI f0 0 ()
      ⊢ wp frame (wpE (defs₀ (F := F)) 𝒱₀ (thr d L) none) Set.univ
          (Scf.Loop.for k1_t6_loop k1_t6_ok ⟨⟩ (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4))
          (fun _ => fireInvB d L 1 cc1_scratch4.sem tbl fI f0 20 ()) := by
  iintro HI
  iapply (Scf.wp_for frame (wpE (defs₀ (F := F)) 𝒱₀ (thr d L) none) Set.univ _ _ _ k1_t6_ok ⟨⟩ _
    (fireInvB d L 1 cc1_scratch4.sem tbl fI f0) (fun k acc => fire_trip_t6 d L tbl fI f0 hI v3 v4 k acc))
  isplitl [HI]
  · iexact HI
  · iintro %acc H
    iexact H

/-- The fire loop k1_t9 whole: from nothing issued to all 320 issued. -/
theorem fire_loop_t9 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32) (k7 : Fin k1_t7_loop.trips) (arg12 c0_i32_73 : BitVec 32) :
    fireInvB d L 0 cc1_scratch3.sem tbl fI f0 0 ()
      ⊢ wp frame (wpE (defs₀ (F := F)) 𝒱₀ (thr d L) none) Set.univ
          (Scf.Loop.for k1_t9_loop k1_t9_ok ⟨⟩ (k1_t9_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73))
          (fun _ => fireInvB d L 0 cc1_scratch3.sem tbl fI f0 20 ()) := by
  iintro HI
  iapply (Scf.wp_for frame (wpE (defs₀ (F := F)) 𝒱₀ (thr d L) none) Set.univ _ _ _ k1_t9_ok ⟨⟩ _
    (fireInvB d L 0 cc1_scratch3.sem tbl fI f0) (fun k acc => fire_trip_t9 d L tbl fI f0 hI v3 v4 k7 arg12 c0_i32_73 k acc))
  isplitl [HI]
  · iexact HI
  · iintro %acc H
    iexact H

/-- The fire loop k1_t11 whole: from nothing issued to all 320 issued. -/
theorem fire_loop_t11 (tbl : Buf (Elt F) (a4Loc d)) (fI : Buf (Elt F) (idxLocV d (cV L) (jV L)))
    (f0 : Buf (Elt F) (rowsBLocV d (cV L) (jV L))) (hI : ∀ x, (fI x).toNat < 1000000) (v3 v4 c0_i32_90 : BitVec 32) :
    fireInvB d L 1 cc1_scratch4.sem tbl fI f0 0 ()
      ⊢ wp frame (wpE (defs₀ (F := F)) 𝒱₀ (thr d L) none) Set.univ
          (Scf.Loop.for k1_t11_loop k1_t11_ok ⟨⟩ (k1_t11_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_90))
          (fun _ => fireInvB d L 1 cc1_scratch4.sem tbl fI f0 20 ()) := by
  iintro HI
  iapply (Scf.wp_for frame (wpE (defs₀ (F := F)) 𝒱₀ (thr d L) none) Set.univ _ _ _ k1_t11_ok ⟨⟩ _
    (fireInvB d L 1 cc1_scratch4.sem tbl fI f0) (fun k acc => fire_trip_t11 d L tbl fI f0 hI v3 v4 c0_i32_90 k acc))
  isplitl [HI]
  · iexact HI
  · iintro %acc H
    iexact H

/-- One trip of the drain loop k1_t8, whichever it is. -/
theorem drain_trip_t8 (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips)
    (k : Fin k1_t8_loop.trips) (acc : Unit) :
    drainInvB d L 0 cc1_scratch3.sem tbl fI O W k.val acc
      ⊢ wp frame (wpE (defs₀ (F := F)) 𝒱₀ (thr d L) none) Set.univ
          (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7 k acc)
          (drainInvB d L 0 cc1_scratch3.sem tbl fI O W (k.val + 1)) := by
  have hk : k.val < 20 := k.isLt
  by_cases hmid : k.val + 1 < 20
  · unfold drainInvB
    rw [if_pos hk, if_pos hmid]
    exact drain_trip_t8_mid d L tbl fI O W hO v3 v4 c0_i32_45 c1_i32_46 k7 k k.val rfl hmid acc
  · have hlast : k.val = 19 := by omega
    unfold drainInvB
    rw [if_pos hk, if_neg hmid, hlast]
    exact drain_trip_t8_last d L tbl fI O W hO v3 v4 c0_i32_45 c1_i32_46 k7 k hlast acc

/-- The drain loop k1_t8 whole: from everything issued and nothing consumed to every delivery back. -/
theorem drain_loop_t8 (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips) :
    drainInvB d L 0 cc1_scratch3.sem tbl fI O W 0 ()
      ⊢ wp frame (wpE (defs₀ (F := F)) 𝒱₀ (thr d L) none) Set.univ
          (Scf.Loop.for k1_t8_loop k1_t8_ok ⟨⟩ (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7))
          (fun _ => drainInvB d L 0 cc1_scratch3.sem tbl fI O W 20 ()) := by
  iintro HI
  iapply (Scf.wp_for frame (wpE (defs₀ (F := F)) 𝒱₀ (thr d L) none) Set.univ _ _ _ k1_t8_ok ⟨⟩ _
    (drainInvB d L 0 cc1_scratch3.sem tbl fI O W) (fun k acc => drain_trip_t8 d L tbl fI O W hO v3 v4 c0_i32_45 c1_i32_46 k7 k acc))
  isplitl [HI]
  · iexact HI
  · iintro %acc H
    iexact H

/-- One trip of the drain loop k1_t10, whichever it is. -/
theorem drain_trip_t10 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32)
    (k : Fin k1_t10_loop.trips) (acc : Unit) :
    drainInvB d L 1 cc1_scratch4.sem tbl fI O W k.val acc
      ⊢ wp frame (wpE (defs₀ (F := F)) 𝒱₀ (thr d L) none) Set.univ
          (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (drainInvB d L 1 cc1_scratch4.sem tbl fI O W (k.val + 1)) := by
  have hk : k.val < 20 := k.isLt
  by_cases hmid : k.val + 1 < 20
  · unfold drainInvB
    rw [if_pos hk, if_pos hmid]
    exact drain_trip_t10_mid d L tbl fI O W hO v3 v4 k7 arg12 c0_i32_73 k k.val rfl hmid acc
  · have hlast : k.val = 19 := by omega
    unfold drainInvB
    rw [if_pos hk, if_neg hmid, hlast]
    exact drain_trip_t10_last d L tbl fI O W hO v3 v4 k7 arg12 c0_i32_73 k hlast acc

/-- The drain loop k1_t10 whole: from everything issued and nothing consumed to every delivery back. -/
theorem drain_loop_t10 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32) :
    drainInvB d L 1 cc1_scratch4.sem tbl fI O W 0 ()
      ⊢ wp frame (wpE (defs₀ (F := F)) 𝒱₀ (thr d L) none) Set.univ
          (Scf.Loop.for k1_t10_loop k1_t10_ok ⟨⟩ (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73))
          (fun _ => drainInvB d L 1 cc1_scratch4.sem tbl fI O W 20 ()) := by
  iintro HI
  iapply (Scf.wp_for frame (wpE (defs₀ (F := F)) 𝒱₀ (thr d L) none) Set.univ _ _ _ k1_t10_ok ⟨⟩ _
    (drainInvB d L 1 cc1_scratch4.sem tbl fI O W) (fun k acc => drain_trip_t10 d L tbl fI O W hO v3 v4 k7 arg12 c0_i32_73 k acc))
  isplitl [HI]
  · iexact HI
  · iintro %acc H
    iexact H

/-- One trip of the drain loop k1_t12, whichever it is. -/
theorem drain_trip_t12 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32)
    (k : Fin k1_t12_loop.trips) (acc : Unit) :
    drainInvB d L 0 cc1_scratch3.sem tbl fI O W k.val acc
      ⊢ wp frame (wpE (defs₀ (F := F)) 𝒱₀ (thr d L) none) Set.univ
          (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (drainInvB d L 0 cc1_scratch3.sem tbl fI O W (k.val + 1)) := by
  have hk : k.val < 20 := k.isLt
  by_cases hmid : k.val + 1 < 20
  · unfold drainInvB
    rw [if_pos hk, if_pos hmid]
    exact drain_trip_t12_mid d L tbl fI O W hO v3 v4 k k.val rfl hmid acc
  · have hlast : k.val = 19 := by omega
    unfold drainInvB
    rw [if_pos hk, if_neg hmid, hlast]
    exact drain_trip_t12_last d L tbl fI O W hO v3 v4 k hlast acc

/-- The drain loop k1_t12 whole: from everything issued and nothing consumed to every delivery back. -/
theorem drain_loop_t12 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) :
    drainInvB d L 0 cc1_scratch3.sem tbl fI O W 0 ()
      ⊢ wp frame (wpE (defs₀ (F := F)) 𝒱₀ (thr d L) none) Set.univ
          (Scf.Loop.for k1_t12_loop k1_t12_ok ⟨⟩ (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4))
          (fun _ => drainInvB d L 0 cc1_scratch3.sem tbl fI O W 20 ()) := by
  iintro HI
  iapply (Scf.wp_for frame (wpE (defs₀ (F := F)) 𝒱₀ (thr d L) none) Set.univ _ _ _ k1_t12_ok ⟨⟩ _
    (drainInvB d L 0 cc1_scratch3.sem tbl fI O W) (fun k acc => drain_trip_t12 d L tbl fI O W hO v3 v4 k acc))
  isplitl [HI]
  · iexact HI
  · iintro %acc H
    iexact H

/-- One trip of the drain loop k1_t13, whichever it is. -/
theorem drain_trip_t13 (tbl : Buf (Elt F) (a4Loc d)) (fI : Buf (Elt F) (idxLocV d (cV L) (jV L)))
    (O : CellTallies nD τ sig (HIx 2)) (W : Waits sig (HIx 2)) (hO : ∀ g, O g none = 0)
    (k : Fin k1_t13_loop.trips) (acc : Unit) :
    drainInvB d L 1 cc1_scratch4.sem tbl fI O W k.val acc
      ⊢ wp frame (wpE (defs₀ (F := F)) 𝒱₀ (thr d L) none) Set.univ
          (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11  k acc)
          (drainInvB d L 1 cc1_scratch4.sem tbl fI O W (k.val + 1)) := by
  have hk : k.val < 20 := k.isLt
  by_cases hmid : k.val + 1 < 20
  · unfold drainInvB
    rw [if_pos hk, if_pos hmid]
    exact drain_trip_t13_mid d L tbl fI O W hO  k k.val rfl hmid acc
  · have hlast : k.val = 19 := by omega
    unfold drainInvB
    rw [if_pos hk, if_neg hmid, hlast]
    exact drain_trip_t13_last d L tbl fI O W hO  k hlast acc

/-- The drain loop k1_t13 whole: from everything issued and nothing consumed to every delivery back. -/
theorem drain_loop_t13 (tbl : Buf (Elt F) (a4Loc d)) (fI : Buf (Elt F) (idxLocV d (cV L) (jV L)))
    (O : CellTallies nD τ sig (HIx 2)) (W : Waits sig (HIx 2)) (hO : ∀ g, O g none = 0)  :
    drainInvB d L 1 cc1_scratch4.sem tbl fI O W 0 ()
      ⊢ wp frame (wpE (defs₀ (F := F)) 𝒱₀ (thr d L) none) Set.univ
          (Scf.Loop.for k1_t13_loop k1_t13_ok ⟨⟩ (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 ))
          (fun _ => drainInvB d L 1 cc1_scratch4.sem tbl fI O W 20 ()) := by
  iintro HI
  iapply (Scf.wp_for frame (wpE (defs₀ (F := F)) 𝒱₀ (thr d L) none) Set.univ _ _ _ k1_t13_ok ⟨⟩ _
    (drainInvB d L 1 cc1_scratch4.sem tbl fI O W) (fun k acc => drain_trip_t13 d L tbl fI O W hO  k acc))
  isplitl [HI]
  · iexact HI
  · iintro %acc H
    iexact H

end Cert.Proof.KI.K1

end
-- ==== Proof.K1BStore.lean ====
/-
  The noise-word phase's synchronous copies read back: the fetch of a chunk's 320 index words into the index scratch,
  and the store of a slot's 16 rows into the output.

  A chunk's words: word i of chunk j of worker w is noise word 10240 w + 320 j + i. The slot at the final contents of
  those words, stored at output rows 512 w + 16 j .., is the lookup's value there: entry (R + r, x) of the output is
  table[noise word 20 (R + r) + x / 64, x mod 64], and 20 R is the chunk's first word.
-/
import proofs.«215896_g38397007626377_fold_wed_m_942_26_alg».proof.Proof.K1BJoin

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable (m : (ℓ : Loc nD τ sig) → Buf (Elt F) ℓ)

section StoreB

variable (d : Dev nD) (cc : Fin τ.nSC) (jj : Fin τ.nSub)

/-- Slot b of the rows scratch as the 16 x 1280 memref a store reads. -/
abbrev slotM (b : ℕ) (hin : ∀ a, (![b, 0, 0] : Fin 3 → ℕ) a + S1x16x1280.size a ≤ S2x16x1280.size a) : Memref sig .scVector .vmem S16x1280 .f32 :=
  ((rBW).slice (Rect.unit (s := S2x16x1280) ![b, 0, 0] S1x16x1280.size hin) (fun _ => rfl)).squeeze S16x1280 squeezes_S1x16x1280_S16x1280
/-- Sixteen rows of the output from row off 0. -/
abbrev o3Chunk (off : Fin 2 → ℕ) (hin : ∀ a, off a + S16x1280.size a ≤ S16384x1280.size a) : Memref sig .scVector .hbm S16x1280 .f32 :=
  (o3W).slice (Rect.unit (s := S16384x1280) off S16x1280.size hin) (fun _ => rfl)
/-- 320 of the noise words from word off 0. -/
abbrev a2Slice (off : Fin 1 → ℕ) (hin : ∀ a, off a + S320.size a ≤ S327680.size a) : Memref sig .scVector .hbm S320 .i32 :=
  (a2W).slice (Rect.unit (s := S327680) off S320.size hin) (fun _ => rfl)

/-- The 320 noise words from word o, as the index scratch holds them. -/
def wordsAt (nz : Buf (Elt F) (a2Loc d)) (o : ℕ) (h : o + 320 ≤ 327680) : Buf (Elt F) (idxLocV d cc jj) :=
  fun x => nz (ix1 (⟨o + (x 0).val, by have hx : (x 0).val < 320 := (x 0).isLt; omega⟩ : Fin 327680))

theorem wordsAt_lt (nz : Buf (Elt F) (a2Loc d)) (o : ℕ) (h : o + 320 ≤ 327680) (hnz : ∀ i, (nz i).toNat < 1000000) :
    ∀ x, (wordsAt d cc jj nz o h x).toNat < 1000000 := fun x => hnz _

/-- The slot memref's elements are the slot. -/
theorem slotM_set (b : ℕ) (hin) : (slotM b hin).view.set = remB b 0 := by
  rw [show (slotM b hin).view.set = (Rect.unit (s := S2x16x1280) ![b, 0, 0] S1x16x1280.size hin).set from
    (View.set_reshape _ _).trans (View.set_slice_whole _ _)]
  ext y
  have h1 : (y 1).val < 16 := (y 1).isLt
  have h2 : (y 2).val < 1280 := (y 2).isLt
  rw [Rect.mem_set_unit, mem_remB]
  constructor
  · intro H
    have a0 : b ≤ (y 0).val ∧ (y 0).val < b + 1 := H 0
    exact ⟨by omega, Nat.zero_le _⟩
  · rintro ⟨hb, -⟩ a
    fin_cases a
    · show b ≤ (y 0).val ∧ (y 0).val < b + 1; omega
    · show 0 ≤ (y 1).val ∧ (y 1).val < 0 + 16; omega
    · show 0 ≤ (y 2).val ∧ (y 2).val < 0 + 1280; omega

/-- What the fetch leaves in the index scratch: the chunk's words. -/
theorem fetch_val (nz : Buf (Elt F) (a2Loc d)) (fIo : Buf (Elt F) (idxLocV d cc jj)) (off : Fin 1 → ℕ) (hin)
    (o : ℕ) (h : o + 320 ≤ 327680) (hoff : off = ![o]) :
    View.write (Elt F) (idW).view fIo ((ReadAs.same : ReadAs (Elt F) S320 .i32 S320 .i32).apply (View.read (Elt F) (a2Slice off hin).view nz)) Finset.univ
      = wordsAt d cc jj nz o h := by
  subst hoff
  refine (View.write_whole_univ cc1_scratch0 fIo _).trans ?_
  funext x
  rw [ReadAs.apply_same, View.read_apply]
  unfold wordsAt
  simp only [cast_eq]
  refine congrArg nz (funext fun a => Fin.ext ?_)
  match a with
  | ⟨0, _⟩ =>
    show (((Rect.unit (s := S327680) ![o] S320.size hin).emb x) 0).val = o + (x 0).val
    rw [Rect.emb_apply]
    show o + 1 * (x 0).val = _
    omega

/-- Entry x of the slot memref is entry (b, x 0, x 1) of the scratch. -/
theorem slotM_emb (b : ℕ) (hin) (x : S16x1280.Idx) :
    (((slotM b hin).view.emb x) 1).val = (x 0).val ∧ (((slotM b hin).view.emb x) 2).val = (x 1).val := by
  have key : ∀ y : S1x16x1280.Idx, (S1x16x1280.rowMajor y).val = (S16x1280.rowMajor x).val →
      (y 1).val = (x 0).val ∧ (y 2).val = (x 1).val := by
    intro y h
    rw [Shape.rowMajor_val_three, Shape.rowMajor_val_two] at h
    have h0 : (y 0).val < 1 := (y 0).isLt
    have h1 : (y 1).val < 16 := (y 1).isLt
    have h2 : (y 2).val < 1280 := (y 2).isLt
    have hx0 : (x 0).val < 16 := (x 0).isLt
    have hx1 : (x 1).val < 1280 := (x 1).isLt
    have hh : ((y 0).val * 16 + (y 1).val) * 1280 + (y 2).val = (x 0).val * 1280 + (x 1).val := h
    omega
  obtain ⟨k1, k2⟩ := key _ (Shape.rowMajor_reshapeEquiv (squeezes_S1x16x1280_S16x1280.numel_eq) x)
  constructor
  · show (((Rect.unit (s := S2x16x1280) ![b, 0, 0] S1x16x1280.size hin).emb (Shape.reshapeEquiv (squeezes_S1x16x1280_S16x1280.numel_eq) x)) 1).val = _
    rw [Rect.emb_apply]; show 0 + 1 * _ = _; rw [k1]; omega
  · show (((Rect.unit (s := S2x16x1280) ![b, 0, 0] S1x16x1280.size hin).emb (Shape.reshapeEquiv (squeezes_S1x16x1280_S16x1280.numel_eq) x)) 2).val = _
    rw [Rect.emb_apply]; show 0 + 1 * _ = _; rw [k2]; omega

/-- Entry x of sixteen output rows from row R is entry (R + x 0, x 1) of the output. -/
theorem o3Chunk_emb (off : Fin 2 → ℕ) (hin) (R : ℕ) (hoff : off = ![R, 0]) (x : S16x1280.Idx) :
    (((o3Chunk off hin).view.emb x) 0).val = R + (x 0).val ∧ (((o3Chunk off hin).view.emb x) 1).val = (x 1).val := by
  subst hoff
  constructor
  · show (((Rect.unit (s := S16384x1280) ![R, 0] S16x1280.size hin).emb x) 0).val = _
    rw [Rect.emb_apply]; show R + 1 * _ = _; omega
  · show (((Rect.unit (s := S16384x1280) ![R, 0] S16x1280.size hin).emb x) 1).val = _
    rw [Rect.emb_apply]; show 0 + 1 * _ = _; omega

/-- What the store leaves in the sixteen output rows: the lookup's values there. -/
theorem store_val (b : ℕ) (hb) (off : Fin 2 → ℕ) (hin) (R o : ℕ) (ho : o + 320 ≤ 327680) (hoff : off = ![R, 0]) (hRo : 20 * R = o)
    (f3 : Buf (Elt F) (o3Loc d)) :
    ∀ i ∈ (o3Chunk off hin).view.set,
      (o3Chunk off hin).view.writes (Elt F) f3 [⟨Rect.whole S16x1280,
        (ReadAs.same : ReadAs (Elt F) S16x1280 .f32 S16x1280 .f32).apply (View.read (Elt F) (slotM b hb).view
          (FB d cc jj (m (a4Loc d)) (wordsAt d cc jj (m (a2Loc d)) o ho)))⟩] i = G3 m d i := by
  intro i hi
  obtain ⟨x, -, rfl⟩ := Finset.mem_map.mp hi
  obtain ⟨s1, s2⟩ := slotM_emb b hb x
  obtain ⟨c0, c1⟩ := o3Chunk_emb off hin R hoff x
  have hx0 : (x 0).val < 16 := (x 0).isLt
  have hx1 : (x 1).val < 1280 := (x 1).isLt
  rw [View.writes_singleton]
  have he : ((o3Chunk off hin).view.slice (Rect.whole S16x1280)).emb x = (o3Chunk off hin).view.emb x :=
    congrArg (o3Chunk off hin).view.emb (Rect.emb_whole_apply S16x1280 x)
  have e1 := fun p => View.write_emb_of_mem (Val := Elt F) (v := (o3Chunk off hin).view.slice (Rect.whole S16x1280)) f3 p (M := Finset.univ) (Finset.mem_univ x)
  rw [he] at e1
  rw [e1, ReadAs.apply_same, View.read_apply]
  simp only [cast_eq]
  unfold FB G3 packB Spec.take3 wordsAt
  refine congrArg (m (a4Loc d)) (funext fun a => Fin.ext ?_)
  match a with
  | ⟨0, _⟩ =>
    refine congrArg (fun q : Fin 327680 => (Spec.rowOf (m (a2Loc d) (ix1 q))).val) (Fin.ext ?_)
    show o + (20 * (((slotM b hb).view.emb x) 1).val + (((slotM b hb).view.emb x) 2).val / 64)
      = 20 * (((o3Chunk off hin).view.emb x) 0).val + (((o3Chunk off hin).view.emb x) 1).val / 64
    rw [s1, s2, c0, c1]; omega
  | ⟨1, _⟩ =>
    show (((slotM b hb).view.emb x) 2).val % 64 = (((o3Chunk off hin).view.emb x) 1).val % 64
    rw [s2, c1]

end StoreB

end Cert.Proof.KI.K1

end
-- ==== Proof.K1BChunks.lean ====
/-
  The worker's 512 rows of the [16384, 1280] output, cut into its 32 chunks of sixteen rows.

  Worker w (subcore s of SparseCore c, w = 2 s + c) owns rows 512 w .. 512 w + 511; chunk j of the worker is rows
  512 w + 16 j .. + 15, and its 320 index words are noise words 10240 w + 320 j .. + 319 (twenty per row).
-/
import proofs.«215896_g38397007626377_fold_wed_m_942_26_alg».proof.Proof.K1BStore

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

section Chunks

variable (d : Dev nD) (L : grid1.Coords)

abbrev cL (L : grid1.Coords) : Fin 2 := Fin.cast (by rfl) (L 0)
abbrev sL (L : grid1.Coords) : Fin 16 := Fin.cast (by rfl) (L 1)

/-- The worker's first row, and its first noise word. -/
def W0 (L : grid1.Coords) : ℕ := 1024 * (L 1).val + 512 * (L 0).val
def B0 (L : grid1.Coords) : ℕ := 20480 * (L 1).val + 10240 * (L 0).val

theorem L_lt (L : grid1.Coords) : (L 0).val < 2 ∧ (L 1).val < 16 := ⟨(L 0).isLt, (L 1).isLt⟩

theorem B0_eq (L : grid1.Coords) (j : ℕ) : 20 * (W0 L + 16 * j) = B0 L + 320 * j := by unfold W0 B0; omega
theorem B0_le (L : grid1.Coords) (j : ℕ) (hj : j < 32) : B0 L + 320 * j + 320 ≤ 327680 := by
  obtain ⟨h0, h1⟩ := L_lt L; unfold B0; omega
theorem W0_le (L : grid1.Coords) (j : ℕ) (hj : j < 32) : W0 L + 16 * j + 16 ≤ 16384 := by
  obtain ⟨h0, h1⟩ := L_lt L; unfold W0; omega

/-- The rows lo .. hi - 1 of the output. -/
def rowsFrom (lo hi : ℕ) : Finset S16384x1280.Idx := Finset.univ.filter fun y => lo ≤ (y 0).val ∧ (y 0).val < hi

theorem mem_rowsFrom (lo hi : ℕ) (y : S16384x1280.Idx) : y ∈ rowsFrom lo hi ↔ (lo ≤ (y 0).val ∧ (y 0).val < hi) := by
  unfold rowsFrom; rw [Finset.mem_filter]; simp only [Finset.mem_univ, true_and]

theorem rowsFrom_sub (lo mid hi : ℕ) (h : mid ≤ hi) : rowsFrom lo mid ⊆ rowsFrom lo hi := by
  intro y; rw [mem_rowsFrom, mem_rowsFrom]; omega
theorem rowsFrom_sdiff (lo mid hi : ℕ) (h : lo ≤ mid) : rowsFrom lo hi \ rowsFrom lo mid = rowsFrom mid hi := by
  ext y; rw [Finset.mem_sdiff, mem_rowsFrom, mem_rowsFrom, mem_rowsFrom]; omega
theorem rowsFrom_union (lo mid hi : ℕ) (h1 : lo ≤ mid) (h2 : mid ≤ hi) : rowsFrom lo mid ∪ rowsFrom mid hi = rowsFrom lo hi := by
  ext y; rw [Finset.mem_union, mem_rowsFrom, mem_rowsFrom, mem_rowsFrom]; omega
theorem rowsFrom_disjoint (lo mid hi : ℕ) : Disjoint (rowsFrom lo mid) (rowsFrom mid hi) := by
  rw [Finset.disjoint_left]; intro y h1 h2; rw [mem_rowsFrom] at h1 h2; omega
theorem rowsFrom_empty (lo : ℕ) : rowsFrom lo lo = ∅ := by
  ext y; rw [mem_rowsFrom]; simp only [Finset.notMem_empty, iff_false]; omega

/-- Sixteen rows from row R, as a store names them. -/
theorem o3Chunk_set (off : Fin 2 → ℕ) (hin) (R : ℕ) (hoff : off = ![R, 0]) : (o3Chunk off hin).view.set = rowsFrom R (R + 16) := by
  subst hoff
  rw [show (o3Chunk ![R, 0] hin).view.set = (Rect.unit (s := S16384x1280) ![R, 0] S16x1280.size hin).set from View.set_slice_whole _ _]
  ext y
  have h1 : (y 1).val < 1280 := (y 1).isLt
  rw [Rect.mem_set_unit, mem_rowsFrom]
  constructor
  · intro H
    have a0 : R ≤ (y 0).val ∧ (y 0).val < R + 16 := H 0
    exact a0
  · intro H a
    fin_cases a
    · show R ≤ (y 0).val ∧ (y 0).val < R + 16; exact H
    · show 0 ≤ (y 1).val ∧ (y 1).val < 0 + 1280; omega

/-- The worker's block is its 512 rows. -/
theorem blkB_eq (L : grid1.Coords) : blkB (wid (cL L) (sL L)) = rowsFrom (W0 L) (W0 L + 512) := by
  ext y
  have h1 : (y 1).val < 1280 := (y 1).isLt
  have e : Rect.part (s := S16384x1280) (a₀ := 0) hdivB (wid (cL L) (sL L))
      = Rect.unit (s := S16384x1280) ![W0 L, 0] ![512, 1280] (by
          obtain ⟨h0, h1⟩ := L_lt L
          intro a; fin_cases a
          · show W0 L + 512 ≤ 16384; unfold W0; omega
          · show 0 + 1280 ≤ 1280; omega) := by
    unfold Rect.part Rect.block
    congr 1 <;> funext a
    · match a with
      | 0 =>
        show (2 * (L 1).val + (L 0).val) * (16384 / 32) = W0 L
        unfold W0; omega
      | 1 => simp [Shape.partIx, Shape.partSize]
    · match a with
      | 0 => simp [Shape.partSize]
      | 1 => simp [Shape.partSize]
  show y ∈ (Rect.part (s := S16384x1280) (a₀ := 0) hdivB (wid (cL L) (sL L))).set ↔ _
  rw [e, Rect.mem_set_unit, mem_rowsFrom]
  constructor
  · intro H
    have a0 : W0 L ≤ (y 0).val ∧ (y 0).val < W0 L + 512 := H 0
    exact a0
  · intro H a
    fin_cases a
    · show W0 L ≤ (y 0).val ∧ (y 0).val < W0 L + 512; exact H
    · show 0 ≤ (y 1).val ∧ (y 1).val < 0 + 1280; omega

end Chunks

end Cert.Proof.KI.K1

end
-- ==== Proof.K1BPair.lean ====
/-
  The pair loop of the noise-word phase: one trip finishes chunks 2 t (slot 0) and 2 t + 1 (slot 1) and starts chunks
  2 t + 2 and 2 t + 3.
-/
import proofs.«215896_g38397007626377_fold_wed_m_942_26_alg».proof.Proof.K1BLoops
import proofs.«215896_g38397007626377_fold_wed_m_942_26_alg».proof.Proof.K1BChunks

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (m : (ℓ : Loc nD τ sig) → Buf (Elt F) ℓ)
variable (d : Dev nD) (L : grid1.Coords)

/-- Chunk j's 320 index words (zero past the worker's 32 chunks). -/
def chunkW (j : ℕ) : Buf (Elt F) (idxLocV d (cV L) (jV L)) :=
  if h : j < 32 then wordsAt d (cV L) (jV L) (m (a2Loc d)) (B0 L + 320 * j) (B0_le L j h) else fun _ => 0#32

omit [FloatOps F] in
theorem chunkW_eq (j : ℕ) (h : j < 32) : chunkW m d L j = wordsAt d (cV L) (jV L) (m (a2Loc d)) (B0 L + 320 * j) (B0_le L j h) := dif_pos h

omit [FloatOps F] in
theorem chunkW_lt (hnz : ∀ i, (m (a2Loc d) i).toNat < 1000000) (j : ℕ) : ∀ x, (chunkW m d L j x).toNat < 1000000 := by
  unfold chunkW
  split
  · exact wordsAt_lt d (cV L) (jV L) _ _ _ hnz
  · intro x; show (0#32 : BitVec 32).toNat < 1000000; decide

/-- Before trip t of the pair loop: chunks 2 t and 2 t + 1 all issued, none waited for; the rows of the chunks before
    them at the lookup's values, the rest as at the launch. -/
def pairInv (O : CellTallies nD τ sig (HIx 2)) (W : Waits sig (HIx 2)) (q2 : PosShare TreeShare) (t : ℕ) (_ : Unit) : sProp 𝕄 :=
  iprop(levAts (K (F := F)).L (K (F := F)).lev ∗ owesN (F := F) (thr d L) O W
    ∗ batchAtB d L 0 cc1_scratch3.sem (m (a4Loc d)) (chunkW m d L (2 * t)) 0
    ∗ batchAtB d L 1 cc1_scratch4.sem (m (a4Loc d)) (chunkW m d L (2 * t + 1)) 0
    ∗ (∃ f, (idW).view.loc (thr d L) ↦{fullShare} f)
    ∗ (∃ q : PosShare TreeShare, a4Loc d ↦{q} m (a4Loc d))
    ∗ ((a2W).view.loc (thr d L) ↦{q2} m (a2Loc d))
    ∗ (o3Loc d ↦[rowsFrom (W0 L) (W0 L + 16 * (2 * t))]{fullShare} G3 m d)
    ∗ (o3Loc d ↦[rowsFrom (W0 L + 16 * (2 * t)) (W0 L + 512)]{fullShare} m (o3Loc d))
    ∗ semVal (thr d L, SemLoc.dma cc1_scoped6.sem) 0 ∗ semVal (thr d L, SemLoc.dma cc1_scoped7.sem) 0
    ∗ semVal (thr d L, SemLoc.dma cc1_scoped8.sem) 0 ∗ semVal (thr d L, SemLoc.dma cc1_scoped9.sem) 0)

omit [FloatOps F] in
theorem wordsAt_congr (cc : Fin τ.nSC) (jj : Fin τ.nSub) (nz : Buf (Elt F) (a2Loc d)) {o o' : ℕ} (e : o = o') (h) (h') :
    wordsAt d cc jj nz o h = wordsAt d cc jj nz o' h' := by subst e; rfl

omit [FloatOps F] in
theorem wok_ins2 {W W1 : Waits sig (HIx 2)} (h : ∀ p ∈ W1, p ∈ W ∨ p.2 = none) (a b : SemLoc sig) :
    ∀ p ∈ insert (a, (default : HIx 2)) (insert (b, (default : HIx 2)) W1), p ∈ W ∨ p.2 = none := by
  intro p hp
  rcases Finset.mem_insert.mp hp with rfl | hp
  · exact .inr rfl
  rcases Finset.mem_insert.mp hp with rfl | hp
  · exact .inr rfl
  exact h p hp

omit [FloatOps F] in
theorem pts_slot (b : ℕ) (hin) (f : Buf (Elt F) (rowsBLocV d (cV L) (jV L))) :
    ((slotM b hin).view.loc (thr d L) ↦[(slotM b hin).view.set]{fullShare} f : sProp 𝕄)
      = rowsBLocV d (cV L) (jV L) ↦[remB b 0]{fullShare} f := by
  rw [slotM_set]
omit [FloatOps F] in
theorem pts_chunk (off : Fin 2 → ℕ) (hin) (R : ℕ) (hoff : off = ![R, 0]) (f : Buf (Elt F) (o3Loc d)) :
    ((o3Chunk off hin).view.loc (thr d L) ↦[(o3Chunk off hin).view.set]{fullShare} f : sProp 𝕄)
      = o3Loc d ↦[rowsFrom R (R + 16)]{fullShare} f := by
  rw [o3Chunk_set off hin R hoff]

omit [FloatOps F] in
theorem off146_0 (k7 : Fin k1_t7_loop.trips) : k1_off146 L k7 0#32 = ![W0 L + 16 * (2 * k7.val), 0] := by
  rw [show (0#32 : BitVec 32) = BitVec.ofNat 32 (0 : Fin 2).val from rfl, k1_off146_eq L k7 0]
  rw [show 1024 * (L 1).val + 512 * (L 0).val + 32 * k7.val + 16 * (0 : Fin 2).val = W0 L + 16 * (2 * k7.val) from by
    show 1024 * (L 1).val + 512 * (L 0).val + 32 * k7.val + 16 * 0 = _; unfold W0; omega]
omit [FloatOps F] in
theorem off146_1 (k7 : Fin k1_t7_loop.trips) : k1_off146 L k7 1#32 = ![W0 L + 16 * (2 * k7.val + 1), 0] := by
  rw [show (1#32 : BitVec 32) = BitVec.ofNat 32 (1 : Fin 2).val from rfl, k1_off146_eq L k7 1]
  rw [show 1024 * (L 1).val + 512 * (L 0).val + 32 * k7.val + 16 * (1 : Fin 2).val = W0 L + 16 * (2 * k7.val + 1) from by
    show 1024 * (L 1).val + 512 * (L 0).val + 32 * k7.val + 16 * 1 = _; unfold W0; omega]
omit [FloatOps F] in
theorem off147_0 (k7 : Fin k1_t7_loop.trips) : k1_off147 L k7 0#32 = ![B0 L + 320 * (2 * k7.val + 2)] := by
  rw [show (0#32 : BitVec 32) = BitVec.ofNat 32 (0 : Fin 2).val from rfl, k1_off147_eq L k7 0]
  rw [show 20480 * (L 1).val + 10240 * (L 0).val + 640 * k7.val + 320 * (0 : Fin 2).val + 640 = B0 L + 320 * (2 * k7.val + 2) from by
    show 20480 * (L 1).val + 10240 * (L 0).val + 640 * k7.val + 320 * 0 + 640 = _; unfold B0; omega]
omit [FloatOps F] in
theorem off147_1 (k7 : Fin k1_t7_loop.trips) : k1_off147 L k7 1#32 = ![B0 L + 320 * (2 * k7.val + 3)] := by
  rw [show (1#32 : BitVec 32) = BitVec.ofNat 32 (1 : Fin 2).val from rfl, k1_off147_eq L k7 1]
  rw [show 20480 * (L 1).val + 10240 * (L 0).val + 640 * k7.val + 320 * (1 : Fin 2).val + 640 = B0 L + 320 * (2 * k7.val + 3) from by
    show 20480 * (L 1).val + 10240 * (L 0).val + 640 * k7.val + 320 * 1 + 640 = _; unfold B0; omega]

set_option maxHeartbeats 4000000 in
theorem pair_trip (hnz : ∀ i, (m (a2Loc d) i).toNat < 1000000) (O : CellTallies nD τ sig (HIx 2)) (W : Waits sig (HIx 2))
    (hO : ∀ g, O g none = 0) (q2 : PosShare TreeShare) (v3 v4 : BitVec 32) (k7 : Fin k1_t7_loop.trips) (acc : Unit) :
    pairInv m d L O W q2 k7.val acc
      ⊢ wp frame (wpE (defs₀ (F := F)) 𝒱₀ (thr d L) none) Set.univ
          (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 acc)
          (pairInv m d L O W q2 (k7.val + 1)) := by
  have hk : k7.val < 15 := k7.isLt
  have e0 : ((16 * 0) * NB) = 0 := by simp
  have e8 : ¬ Scf.trips k1_t8_loop.lb k1_t8_loop.ub k1_t8_loop.st < 20 := by decide
  have e10 : ¬ Scf.trips k1_t10_loop.lb k1_t10_loop.ub k1_t10_loop.st < 20 := by decide
  have eW0 := chunkW_eq m d L (2 * k7.val) (by omega)
  have eW1 := chunkW_eq m d L (2 * k7.val + 1) (by omega)
  unfold k1_t7_body
  simp only [k1_part161_eq_skeleton, k1_part162_eq_skeleton]
  unfold k1_part161_skel k1_part162_skel
  unfold pairInv
  iintro ⟨#Hlv, HO, HB0, HB1, ⟨%fi, Hidx⟩, Htb, Ha2, Hdone, Htodo, Hs6, Hs7, Hs8, Hs9⟩
  ihave Hmw := ((K (F := F)).mayWaits_none (thr := thr d L) hO) $$ Hlv
  sl_exec
  rw [wp_bind]
  -- the copies of chunk 2 t have all landed in slot 0
  sl_for (drainInvB d L 0 cc1_scratch3.sem (m (a4Loc d)) (chunkW m d L (2 * k7.val)) O W) $$ [HB0 HO]
  case region => exact fun k acc => drain_trip_t8 d L _ _ O W hO v3 v4 0#32 1#32 k7 k acc
  · unfold drainInvB
    rw [if_pos (by decide), e0]
    isplitr; · iexact Hlv
    isplitl [HB0]; · iexact HB0
    iexact HO
  iintro %_ HI
  unfold drainInvB
  rw [if_neg e8]
  icases HI with ⟨-, ⟨HD, Hsem3⟩, %W1, %hW1, HO⟩
  ihave Hslot := (Entails.of_eq (joinB (F := F) d (cV L) (jV L) 0 _ _)) $$ HD
  rw [eW0]
  ihave Hslot' := (Entails.of_eq (pts_slot (F := F) d L 0 inb_S2x16x1280_S1x16x1280_0_0_0 _).symm) $$ Hslot
  -- its sixteen rows of the output
  ihave Hsp := (pointsTo_split_subset (rowsFrom_sub (W0 L + 16 * (2 * k7.val)) (W0 L + 16 * (2 * k7.val) + 16) (W0 L + 512) (by omega))).1 $$ Htodo
  icases Hsp with ⟨Hchunk, Htodo⟩
  rw [rowsFrom_sdiff (W0 L + 16 * (2 * k7.val)) (W0 L + 16 * (2 * k7.val) + 16) (W0 L + 512) (by omega)]
  ihave Hchunk' := (Entails.of_eq (pts_chunk (F := F) d L (k1_off146 L k7 0#32) (k1_off146_inb L k7 0) _ (off146_0 L k7) _).symm) $$ Hchunk
  sl_exec (disch := first | exact View.amount_pos _ _ (show 0 < S320.numel by decide) | exact View.amount_pos _ _ (show 0 < S16x1280.numel by decide))
  unfold pair_trip.sl.dma0 pair_trip.sl.dma0_1
  -- what the store left in the sixteen rows, and the fetch in the index scratch
  ihave Hchunk := (Entails.of_eq ((pointsTo_congr (store_val m d (cV L) (jV L) 0 inb_S2x16x1280_S1x16x1280_0_0_0 (k1_off146 L k7 0#32) (k1_off146_inb L k7 0)
      (W0 L + 16 * (2 * k7.val)) (B0 L + 320 * (2 * k7.val)) (B0_le L _ (by omega)) (off146_0 L k7) (B0_eq L _) _)).trans
      (pts_chunk (F := F) d L (k1_off146 L k7 0#32) (k1_off146_inb L k7 0) _ (off146_0 L k7) (G3 m d)))) $$ Hchunk'
  icombine Hdone Hchunk as Hdc
  ihave Hdone := (pointsTo_union (rowsFrom_disjoint (W0 L) (W0 L + 16 * (2 * k7.val)) (W0 L + 16 * (2 * k7.val) + 16))).2 $$ Hdc
  rw [rowsFrom_union (W0 L) (W0 L + 16 * (2 * k7.val)) (W0 L + 16 * (2 * k7.val) + 16) (by omega) (by omega)]
  have hfI := fetch_val (F := F) d (cV L) (jV L) (m (a2Loc d)) fi (k1_off147 L k7 0#32) (k1_off147_inb L k7 0)
    (B0 L + 320 * (2 * k7.val + 2)) (B0_le L _ (by omega)) (off147_0 L k7)
  ihave Hidx2 := (Entails.of_eq (congrArg (fun f => ((idW).view.loc (thr d L) ↦{fullShare} f : sProp 𝕄)) hfI)) $$ Hidx
  ihave Hslot := (Entails.of_eq (pts_slot (F := F) d L 0 inb_S2x16x1280_S1x16x1280_0_0_0 _)) $$ Hslot'
  -- chunk 2 t + 2 into slot 0
  imod (Transfers.batch_alloc' (Lvl := ℕ) countersEmb (thr d L) (none : HIx 2) NB
    (DB d (cV L) (jV L) 0 (m (a4Loc d)) (wordsAt d (cV L) (jV L) (m (a2Loc d)) (B0 L + 320 * (2 * k7.val + 2)) (B0_le L _ (by omega))))
    (sm := .dma cc1_scratch3.sem) (E := Set.univ)) $$ Hsem3 with HB0
  rw [wp_bind]
  sl_for (fireInvB d L 0 cc1_scratch3.sem (m (a4Loc d)) (wordsAt d (cV L) (jV L) (m (a2Loc d)) (B0 L + 320 * (2 * k7.val + 2)) (B0_le L _ (by omega)))
      (FB d (cV L) (jV L) (m (a4Loc d)) (wordsAt d (cV L) (jV L) (m (a2Loc d)) (B0 L + 320 * (2 * k7.val)) (B0_le L _ (by omega))))) $$ [Hidx2 Htb Hslot HB0]
  case region => exact fun k acc => fire_trip_t9 d L _ _ _ (wordsAt_lt d (cV L) (jV L) _ _ _ hnz) v3 v4 k7 _ _ k acc
  · unfold fireInvB
    simp only [Nat.mul_zero]
    isplitl [Hidx2]; · iexact Hidx2
    isplitl [Htb]; · iexact Htb
    isplitl [Hslot]; · iexact Hslot
    iexact HB0
  iintro %_ HI
  unfold fireInvB
  icases HI with ⟨Hidx, Htb, -, HB0⟩
  have e9 : Scf.trips k1_t9_loop.lb k1_t9_loop.ub k1_t9_loop.st = 20 := by decide
  rw [e9]
  -- the copies of chunk 2 t + 1 have all landed in slot 1
  sl_for (drainInvB d L 1 cc1_scratch4.sem (m (a4Loc d)) (chunkW m d L (2 * k7.val + 1)) O W) $$ [HB1 HO]
  case region => exact fun k acc => drain_trip_t10 d L _ _ O W hO v3 v4 k7 _ _ k acc
  · unfold drainInvB
    rw [if_pos (by decide), e0]
    isplitr; · iexact Hlv
    isplitl [HB1]; · iexact HB1
    iexists _; isplitr
    rotate_left
    · iexact HO
    · ipureintro; exact wok_ins2 hW1 _ _
  iintro %_ HI
  unfold drainInvB
  rw [if_neg e10]
  icases HI with ⟨-, ⟨HD, Hsem4⟩, %W2, %hW2, HO⟩
  ihave Hslot := (Entails.of_eq (joinB (F := F) d (cV L) (jV L) 1 _ _)) $$ HD
  rw [eW1]
  ihave Hslot' := (Entails.of_eq (pts_slot (F := F) d L 1 inb_S2x16x1280_S1x16x1280_1_0_0 _).symm) $$ Hslot
  rw [show W0 L + 16 * (2 * k7.val) + 16 = W0 L + 16 * (2 * k7.val + 1) from by omega]
  ihave Hsp := (pointsTo_split_subset (rowsFrom_sub (W0 L + 16 * (2 * k7.val + 1)) (W0 L + 16 * (2 * k7.val + 1) + 16) (W0 L + 512) (by omega))).1 $$ Htodo
  icases Hsp with ⟨Hchunk, Htodo⟩
  rw [rowsFrom_sdiff (W0 L + 16 * (2 * k7.val + 1)) (W0 L + 16 * (2 * k7.val + 1) + 16) (W0 L + 512) (by omega)]
  ihave Hchunk' := (Entails.of_eq (pts_chunk (F := F) d L (k1_off146 L k7 1#32) (k1_off146_inb L k7 1) _ (off146_1 L k7) _).symm) $$ Hchunk
  sl_exec (disch := first | exact View.amount_pos _ _ (show 0 < S320.numel by decide) | exact View.amount_pos _ _ (show 0 < S16x1280.numel by decide))
  unfold pair_trip.sl.dma0_2 pair_trip.sl.dma0_3
  ihave Hchunk := (Entails.of_eq ((pointsTo_congr (store_val m d (cV L) (jV L) 1 inb_S2x16x1280_S1x16x1280_1_0_0 (k1_off146 L k7 1#32) (k1_off146_inb L k7 1)
      (W0 L + 16 * (2 * k7.val + 1)) (B0 L + 320 * (2 * k7.val + 1)) (B0_le L _ (by omega)) (off146_1 L k7) (B0_eq L _) _)).trans
      (pts_chunk (F := F) d L (k1_off146 L k7 1#32) (k1_off146_inb L k7 1) _ (off146_1 L k7) (G3 m d)))) $$ Hchunk'
  icombine Hdone Hchunk as Hdc
  ihave Hdone := (pointsTo_union (rowsFrom_disjoint (W0 L) (W0 L + 16 * (2 * k7.val + 1)) (W0 L + 16 * (2 * k7.val + 1) + 16))).2 $$ Hdc
  rw [rowsFrom_union (W0 L) (W0 L + 16 * (2 * k7.val + 1)) (W0 L + 16 * (2 * k7.val + 1) + 16) (by omega) (by omega)]
  have hfI3 := fetch_val (F := F) d (cV L) (jV L) (m (a2Loc d))
    (wordsAt d (cV L) (jV L) (m (a2Loc d)) (B0 L + 320 * (2 * k7.val + 2)) (B0_le L _ (by omega)))
    (k1_off147 L k7 1#32) (k1_off147_inb L k7 1) (B0 L + 320 * (2 * k7.val + 3)) (B0_le L _ (by omega)) (off147_1 L k7)
  ihave Hidx3 := (Entails.of_eq (congrArg (fun f => ((idW).view.loc (thr d L) ↦{fullShare} f : sProp 𝕄)) hfI3)) $$ Hidx
  ihave Hslot := (Entails.of_eq (pts_slot (F := F) d L 1 inb_S2x16x1280_S1x16x1280_1_0_0 _)) $$ Hslot'
  -- chunk 2 t + 3 into slot 1
  imod (Transfers.batch_alloc' (Lvl := ℕ) countersEmb (thr d L) (none : HIx 2) NB
    (DB d (cV L) (jV L) 1 (m (a4Loc d)) (wordsAt d (cV L) (jV L) (m (a2Loc d)) (B0 L + 320 * (2 * k7.val + 3)) (B0_le L _ (by omega))))
    (sm := .dma cc1_scratch4.sem) (E := Set.univ)) $$ Hsem4 with HB1
  sl_for (fireInvB d L 1 cc1_scratch4.sem (m (a4Loc d)) (wordsAt d (cV L) (jV L) (m (a2Loc d)) (B0 L + 320 * (2 * k7.val + 3)) (B0_le L _ (by omega)))
      (FB d (cV L) (jV L) (m (a4Loc d)) (wordsAt d (cV L) (jV L) (m (a2Loc d)) (B0 L + 320 * (2 * k7.val + 1)) (B0_le L _ (by omega))))) $$ [Hidx3 Htb Hslot HB1]
  case region => exact fun k acc => fire_trip_t11 d L _ _ _ (wordsAt_lt d (cV L) (jV L) _ _ _ hnz) v3 v4 _ k acc
  · unfold fireInvB
    simp only [Nat.mul_zero]
    isplitl [Hidx3]; · iexact Hidx3
    isplitl [Htb]; · iexact Htb
    isplitl [Hslot]; · iexact Hslot
    iexact HB1
  iintro %_ HI
  unfold fireInvB
  icases HI with ⟨Hidx, Htb, -, HB1⟩
  have e11 : Scf.trips k1_t11_loop.lb k1_t11_loop.ub k1_t11_loop.st = 20 := by decide
  rw [e11]
  sl_exec
  sl_step
  -- the invariant at t + 1
  have eA : chunkW m d L (2 * (k7.val + 1)) = wordsAt d (cV L) (jV L) (m (a2Loc d)) (B0 L + 320 * (2 * k7.val + 2)) (B0_le L _ (by omega)) :=
    (chunkW_eq m d L _ (by omega)).trans (wordsAt_congr (F := F) d (cV L) (jV L) _ (by omega) _ _)
  have eB : chunkW m d L (2 * (k7.val + 1) + 1) = wordsAt d (cV L) (jV L) (m (a2Loc d)) (B0 L + 320 * (2 * k7.val + 3)) (B0_le L _ (by omega)) :=
    (chunkW_eq m d L _ (by omega)).trans (wordsAt_congr (F := F) d (cV L) (jV L) _ (by omega) _ _)
  rw [eA, eB, show W0 L + 16 * (2 * (k7.val + 1)) = W0 L + 16 * (2 * k7.val + 1) + 16 from by omega]
  isplitr; · iexact Hlv
  isplitl [HO]
  · iexists _; isplitr
    rotate_left
    · iexact HO
    · ipureintro; exact wok_ins2 hW2 _ _
  isplitl [HB0]; · iexact HB0
  isplitl [HB1]; · iexact HB1
  isplitl [Hidx]; · iexists _; iexact Hidx
  isplitl [Htb]; · iexact Htb
  isplitl [Ha2]; · iexact Ha2
  isplitl [Hdone]; · iexact Hdone
  isplitl [Htodo]; · iexact Htodo
  isplitl [Hs6]; · iexact Hs6
  isplitl [Hs7]; · iexact Hs7
  isplitl [Hs8]; · iexact Hs8
  iexact Hs9

/-- The pair loop whole: from chunks 0 and 1 in flight to chunks 30 and 31 in flight, the rows of chunks 0 .. 29 done. -/
theorem pair_loop (hnz : ∀ i, (m (a2Loc d) i).toNat < 1000000) (O : CellTallies nD τ sig (HIx 2)) (W : Waits sig (HIx 2))
    (hO : ∀ g, O g none = 0) (q2 : PosShare TreeShare) (v3 v4 : BitVec 32) :
    pairInv m d L O W q2 0 ()
      ⊢ wp frame (wpE (defs₀ (F := F)) 𝒱₀ (thr d L) none) Set.univ
          (Scf.Loop.for k1_t7_loop k1_t7_ok ⟨⟩ (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4))
          (fun _ => pairInv m d L O W q2 15 ()) := by
  iintro HI
  iapply (Scf.wp_for frame (wpE (defs₀ (F := F)) 𝒱₀ (thr d L) none) Set.univ _ _ _ k1_t7_ok ⟨⟩ _
    (pairInv m d L O W q2) (fun k acc => pair_trip m d L hnz O W hO q2 v3 v4 k acc))
  isplitl [HI]
  · iexact HI
  · iintro %acc H
    iexact H

end Cert.Proof.KI.K1

end
-- ==== Proof.K1BEnd.lean ====
/-
  The noise-word phase from the second chunk's index fetch to the end: the second chunk fired, the pair loop, the last
  two chunks drained and stored. When it ends the worker's 512 rows of the output hold the lookup's values.
-/
import proofs.«215896_g38397007626377_fold_wed_m_942_26_alg».proof.Proof.K1BPair

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (m : (ℓ : Loc nD τ sig) → Buf (Elt F) ℓ)
variable (d : Dev nD) (L : grid1.Coords)

/-- The program from the second chunk's index fetch on, as the kernel's text spells it. -/
def restB (L : grid1.Coords) (v3 v4 : BitVec 32) : Prog (TpuEff nD τ sig (Elt F) Λ₀ (.scVector ((L 0).castLE hcore1) ((L 1).castLE hsub1))) PUnit := do
  (do
    Prog.lift (.enqueueDma (a2Slice (k1_off110 L) (k1_off110_inb L)) (.here idW) (.dma cc1_scoped5.sem) (View.wordExact_bits rfl) (Memref.isWhole_whole _).wordExact ⟨Or.inl rfl, trivial⟩)
    Prog.lift (.waitDma2 cc1_scoped5.sem (a2Slice (k1_off110 L) (k1_off110_inb L)) idW (View.wordExact_bits rfl) (Memref.isWhole_whole _).wordExact)
    Scf.Loop.for k1_t6_loop k1_t6_ok ⟨⟩ (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t7_loop k1_t7_ok ⟨⟩ (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t12_loop k1_t12_ok ⟨⟩ (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Prog.lift (.enqueueDma (slotM 0 inb_S2x16x1280_S1x16x1280_0_0_0) (.here (o3Chunk (k1_off218 L 480#32) (k1_off218_inb L 0))) (.dma cc1_scoped10.sem) ((View.wordExact_bits rfl).reshape _ _) (View.wordExact_bits rfl) ⟨Or.inl rfl, trivial⟩)
    pure (⟨⟩ : PUnit))
  Prog.lift (.waitDma2 cc1_scoped10.sem (slotM 0 inb_S2x16x1280_S1x16x1280_0_0_0) (o3Chunk (k1_off218 L 480#32) (k1_off218_inb L 0)) ((View.wordExact_bits rfl).reshape _ _) (View.wordExact_bits rfl))
  Scf.Loop.for k1_t13_loop k1_t13_ok ⟨⟩ (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
  Prog.lift (.enqueueDma (slotM 1 inb_S2x16x1280_S1x16x1280_1_0_0) (.here (o3Chunk (k1_off218 L 496#32) (k1_off218_inb L 1))) (.dma cc1_scoped11.sem) ((View.wordExact_bits rfl).reshape _ _) (View.wordExact_bits rfl) ⟨Or.inl rfl, trivial⟩)
  Prog.lift (.waitDma2 cc1_scoped11.sem (slotM 1 inb_S2x16x1280_S1x16x1280_1_0_0) (o3Chunk (k1_off218 L 496#32) (k1_off218_inb L 1)) ((View.wordExact_bits rfl).reshape _ _) (View.wordExact_bits rfl))
  pure ⟨⟩

omit [FloatOps F] in
theorem off110 : k1_off110 L = ![B0 L + 320 * (2 * 0 + 1)] := by
  rw [k1_off110_eq L]
  rw [show 20480 * (L 1).val + 10240 * (L 0).val + 320 = B0 L + 320 * (2 * 0 + 1) from by unfold B0; omega]
omit [FloatOps F] in
theorem off218_0 : k1_off218 L 480#32 = ![W0 L + 16 * (2 * 15), 0] := by
  rw [show (480#32 : BitVec 32) = BitVec.ofNat 32 (480 + 16 * (0 : Fin 2).val) from rfl, k1_off218_eq L 0]
  rw [show 1024 * (L 1).val + 512 * (L 0).val + 16 * (0 : Fin 2).val + 480 = W0 L + 16 * (2 * 15) from by
    show 1024 * (L 1).val + 512 * (L 0).val + 16 * 0 + 480 = _; unfold W0; omega]
omit [FloatOps F] in
theorem off218_1 : k1_off218 L 496#32 = ![W0 L + 16 * (2 * 15 + 1), 0] := by
  rw [show (496#32 : BitVec 32) = BitVec.ofNat 32 (480 + 16 * (1 : Fin 2).val) from rfl, k1_off218_eq L 1]
  rw [show 1024 * (L 1).val + 512 * (L 0).val + 16 * (1 : Fin 2).val + 480 = W0 L + 16 * (2 * 15 + 1) from by
    show 1024 * (L 1).val + 512 * (L 0).val + 16 * 1 + 480 = _; unfold W0; omega]

omit [FloatOps F] in
theorem wok_ins1 {W W1 : Waits sig (HIx 2)} (h : ∀ p ∈ W1, p ∈ W ∨ p.2 = none) (a : SemLoc sig) :
    ∀ p ∈ insert (a, (default : HIx 2)) W1, p ∈ W ∨ p.2 = none := by
  intro p hp
  rcases Finset.mem_insert.mp hp with rfl | hp
  · exact .inr rfl
  exact h p hp

set_option maxHeartbeats 4000000 in
theorem rest_from_r5 (hnz : ∀ i, (m (a2Loc d) i).toNat < 1000000) (O : CellTallies nD τ sig (HIx 2)) (W : Waits sig (HIx 2))
    (hO : ∀ g, O g none = 0) (q2 : PosShare TreeShare) (v3 v4 : BitVec 32) (f1 : Buf (Elt F) (rowsBLocV d (cV L) (jV L))) :
    iprop(levAts (K (F := F)).L (K (F := F)).lev ∗ owesN (F := F) (thr d L) O W
        ∗ ((a2W).view.loc (thr d L) ↦{q2} m (a2Loc d)) ∗ (∃ q : PosShare TreeShare, a4Loc d ↦{q} m (a4Loc d))
        ∗ (∃ f, (idW).view.loc (thr d L) ↦{fullShare} f)
        ∗ batchAtB d L 0 cc1_scratch3.sem (m (a4Loc d)) (chunkW m d L 0) 0
        ∗ (rowsBLocV d (cV L) (jV L) ↦[remB 1 0]{fullShare} f1) ∗ semVal (thr d L, SemLoc.dma cc1_scratch4.sem) 0
        ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
        ∗ (o3Loc d ↦[rowsFrom (W0 L) (W0 L + 512)]{fullShare} m (o3Loc d)))
      ⊢ wp frame (wpE (defs₀ (F := F)) 𝒱₀ (thr d L) none) Set.univ (restB (F := F) L v3 v4)
          (fun _ => iprop((o3Loc d ↦[rowsFrom (W0 L) (W0 L + 512)]{fullShare} G3 m d)
            ∗ (∃ f, rowsBLocV d (cV L) (jV L) ↦[remB 0 0]{fullShare} f) ∗ (∃ f, rowsBLocV d (cV L) (jV L) ↦[remB 1 0]{fullShare} f)
            ∗ (∃ f, (idW).view.loc (thr d L) ↦{fullShare} f)
            ∗ ((a2W).view.loc (thr d L) ↦{q2} m (a2Loc d)) ∗ (∃ q : PosShare TreeShare, a4Loc d ↦{q} m (a4Loc d))
            ∗ semVal (thr d L, SemLoc.dma cc1_scratch3.sem) 0 ∗ semVal (thr d L, SemLoc.dma cc1_scratch4.sem) 0
            ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
            ∗ owesN (F := F) (thr d L) O W)) := by
  have e0 : ((16 * 0) * NB) = 0 := by simp
  have e6 : Scf.trips k1_t6_loop.lb k1_t6_loop.ub k1_t6_loop.st = 20 := by decide
  have e7 : Scf.trips k1_t7_loop.lb k1_t7_loop.ub k1_t7_loop.st = 15 := by decide
  have e12 : ¬ Scf.trips k1_t12_loop.lb k1_t12_loop.ub k1_t12_loop.st < 20 := by decide
  have e13 : ¬ Scf.trips k1_t13_loop.lb k1_t13_loop.ub k1_t13_loop.st < 20 := by decide
  have eW1 := chunkW_eq m d L (2 * 0 + 1) (by omega)
  have eW30 := chunkW_eq m d L (2 * 15) (by omega)
  have eW31 := chunkW_eq m d L (2 * 15 + 1) (by omega)
  unfold restB
  iintro ⟨#Hlv, ⟨%Wa, %hWa, HO⟩, Ha2, Htb, ⟨%fi, Hidx⟩, HB0, Hslot1, Hsem4, Hs5, Hs6, Hs7, Hs8, Hs9, Hs10, Hs11, Ho3⟩
  ihave Hmw := ((K (F := F)).mayWaits_none (thr := thr d L) hO) $$ Hlv
  -- the second chunk's index words
  sl_exec (disch := first | exact View.amount_pos _ _ (show 0 < S320.numel by decide) | exact View.amount_pos _ _ (show 0 < S16x1280.numel by decide))
  unfold rest_from_r5.sl.dma0
  have hfI1 := fetch_val (F := F) d (cV L) (jV L) (m (a2Loc d)) fi (k1_off110 L) (k1_off110_inb L)
    (B0 L + 320 * (2 * 0 + 1)) (B0_le L _ (by omega)) (off110 L)
  ihave Hidx1 := (Entails.of_eq (congrArg (fun f => ((idW).view.loc (thr d L) ↦{fullShare} f : sProp 𝕄)) hfI1)) $$ Hidx
  -- chunk 1 into slot 1
  imod (Transfers.batch_alloc' (Lvl := ℕ) countersEmb (thr d L) (none : HIx 2) NB
    (DB d (cV L) (jV L) 1 (m (a4Loc d)) (wordsAt d (cV L) (jV L) (m (a2Loc d)) (B0 L + 320 * (2 * 0 + 1)) (B0_le L _ (by omega))))
    (sm := .dma cc1_scratch4.sem) (E := Set.univ)) $$ Hsem4 with HB1
  rw [wp_bind]
  sl_for (fireInvB d L 1 cc1_scratch4.sem (m (a4Loc d)) (wordsAt d (cV L) (jV L) (m (a2Loc d)) (B0 L + 320 * (2 * 0 + 1)) (B0_le L _ (by omega))) f1) $$ [Hidx1 Htb Hslot1 HB1]
  case region => exact fun k acc => fire_trip_t6 d L _ _ _ (wordsAt_lt d (cV L) (jV L) _ _ _ hnz) v3 v4 k acc
  · unfold fireInvB
    simp only [Nat.mul_zero]
    isplitl [Hidx1]; · iexact Hidx1
    isplitl [Htb]; · iexact Htb
    isplitl [Hslot1]; · iexact Hslot1
    iexact HB1
  iintro %_ HI
  unfold fireInvB
  icases HI with ⟨Hidx, Htb, -, HB1⟩
  rw [e6]
  -- the pair loop
  sl_for (pairInv m d L O W q2) $$ [HO HB0 HB1 Hidx Htb Ha2 Ho3 Hs6 Hs7 Hs8 Hs9]
  case region => exact fun k acc => pair_trip m d L hnz O W hO q2 v3 v4 k acc
  · unfold pairInv
    rw [eW1, show W0 L + 16 * (2 * 0) = W0 L from by omega, rowsFrom_empty, pointsTo_empty]
    isplitr; · iexact Hlv
    isplitl [HO]
    · iexists _; isplitr
      rotate_left
      · iexact HO
      · ipureintro; exact wok_ins1 hWa _
    isplitl [HB0]; · iexact HB0
    isplitl [HB1]; · iexact HB1
    isplitl [Hidx]; · iexists _; iexact Hidx
    isplitl [Htb]; · iexact Htb
    isplitl [Ha2]; · iexact Ha2
    isplitr; · iempintro
    isplitl [Ho3]; · iexact Ho3
    isplitl [Hs6]; · iexact Hs6
    isplitl [Hs7]; · iexact Hs7
    isplitl [Hs8]; · iexact Hs8
    iexact Hs9
  iintro %_ HI
  unfold pairInv
  rw [e7]
  icases HI with ⟨-, HO, HB0, HB1, ⟨%fi2, Hidx⟩, Htb, Ha2, Hdone, Htodo, Hs6, Hs7, Hs8, Hs9⟩
  -- chunk 30: drained, stored
  sl_for (drainInvB d L 0 cc1_scratch3.sem (m (a4Loc d)) (chunkW m d L (2 * 15)) O W) $$ [HB0 HO]
  case region => exact fun k acc => drain_trip_t12 d L _ _ O W hO v3 v4 k acc
  · unfold drainInvB
    rw [if_pos (by decide), e0]
    isplitr; · iexact Hlv
    isplitl [HB0]; · iexact HB0
    iexact HO
  iintro %_ HI
  unfold drainInvB
  rw [if_neg e12]
  icases HI with ⟨-, ⟨HD, Hsem3⟩, %W1, %hW1, HO⟩
  ihave Hslot := (Entails.of_eq (joinB (F := F) d (cV L) (jV L) 0 _ _)) $$ HD
  rw [eW30]
  ihave Hslot' := (Entails.of_eq (pts_slot (F := F) d L 0 inb_S2x16x1280_S1x16x1280_0_0_0 _).symm) $$ Hslot
  ihave Hsp := (pointsTo_split_subset (rowsFrom_sub (W0 L + 16 * (2 * 15)) (W0 L + 16 * (2 * 15) + 16) (W0 L + 512) (by omega))).1 $$ Htodo
  icases Hsp with ⟨Hchunk, Htodo⟩
  rw [rowsFrom_sdiff (W0 L + 16 * (2 * 15)) (W0 L + 16 * (2 * 15) + 16) (W0 L + 512) (by omega)]
  ihave Hchunk' := (Entails.of_eq (pts_chunk (F := F) d L (k1_off218 L 480#32) (k1_off218_inb L 0) _ (off218_0 L) _).symm) $$ Hchunk
  sl_exec (disch := first | exact View.amount_pos _ _ (show 0 < S320.numel by decide) | exact View.amount_pos _ _ (show 0 < S16x1280.numel by decide))
  unfold rest_from_r5.sl.dma0_1
  ihave Hchunk := (Entails.of_eq ((pointsTo_congr (store_val m d (cV L) (jV L) 0 inb_S2x16x1280_S1x16x1280_0_0_0 (k1_off218 L 480#32) (k1_off218_inb L 0)
      (W0 L + 16 * (2 * 15)) (B0 L + 320 * (2 * 15)) (B0_le L _ (by omega)) (off218_0 L) (B0_eq L _) _)).trans
      (pts_chunk (F := F) d L (k1_off218 L 480#32) (k1_off218_inb L 0) _ (off218_0 L) (G3 m d)))) $$ Hchunk'
  icombine Hdone Hchunk as Hdc
  ihave Hdone := (pointsTo_union (rowsFrom_disjoint (W0 L) (W0 L + 16 * (2 * 15)) (W0 L + 16 * (2 * 15) + 16))).2 $$ Hdc
  rw [rowsFrom_union (W0 L) (W0 L + 16 * (2 * 15)) (W0 L + 16 * (2 * 15) + 16) (by omega) (by omega)]
  ihave Hslot0 := (Entails.of_eq (pts_slot (F := F) d L 0 inb_S2x16x1280_S1x16x1280_0_0_0 _)) $$ Hslot'
  -- chunk 31: drained, stored
  sl_for (drainInvB d L 1 cc1_scratch4.sem (m (a4Loc d)) (chunkW m d L (2 * 15 + 1)) O W) $$ [HB1 HO]
  case region => exact fun k acc => drain_trip_t13 d L _ _ O W hO k acc
  · unfold drainInvB
    rw [if_pos (by decide), e0]
    isplitr; · iexact Hlv
    isplitl [HB1]; · iexact HB1
    iexists _; isplitr
    rotate_left
    · iexact HO
    · ipureintro; exact wok_ins1 hW1 _
  iintro %_ HI
  unfold drainInvB
  rw [if_neg e13]
  icases HI with ⟨-, ⟨HD, Hsem4⟩, %W2, %hW2, HO⟩
  ihave Hslot := (Entails.of_eq (joinB (F := F) d (cV L) (jV L) 1 _ _)) $$ HD
  rw [eW31]
  ihave Hslot' := (Entails.of_eq (pts_slot (F := F) d L 1 inb_S2x16x1280_S1x16x1280_1_0_0 _).symm) $$ Hslot
  rw [show W0 L + 16 * (2 * 15) + 16 = W0 L + 16 * (2 * 15 + 1) from by omega]
  ihave Hsp := (pointsTo_split_subset (rowsFrom_sub (W0 L + 16 * (2 * 15 + 1)) (W0 L + 16 * (2 * 15 + 1) + 16) (W0 L + 512) (by omega))).1 $$ Htodo
  icases Hsp with ⟨Hchunk, -⟩
  ihave Hchunk' := (Entails.of_eq (pts_chunk (F := F) d L (k1_off218 L 496#32) (k1_off218_inb L 1) _ (off218_1 L) _).symm) $$ Hchunk
  sl_exec (disch := first | exact View.amount_pos _ _ (show 0 < S320.numel by decide) | exact View.amount_pos _ _ (show 0 < S16x1280.numel by decide))
  sl_step
  unfold rest_from_r5.sl.dma0_2
  ihave Hchunk := (Entails.of_eq ((pointsTo_congr (store_val m d (cV L) (jV L) 1 inb_S2x16x1280_S1x16x1280_1_0_0 (k1_off218 L 496#32) (k1_off218_inb L 1)
      (W0 L + 16 * (2 * 15 + 1)) (B0 L + 320 * (2 * 15 + 1)) (B0_le L _ (by omega)) (off218_1 L) (B0_eq L _) _)).trans
      (pts_chunk (F := F) d L (k1_off218 L 496#32) (k1_off218_inb L 1) _ (off218_1 L) (G3 m d)))) $$ Hchunk'
  icombine Hdone Hchunk as Hdc
  ihave Hdone := (pointsTo_union (rowsFrom_disjoint (W0 L) (W0 L + 16 * (2 * 15 + 1)) (W0 L + 16 * (2 * 15 + 1) + 16))).2 $$ Hdc
  rw [rowsFrom_union (W0 L) (W0 L + 16 * (2 * 15 + 1)) (W0 L + 16 * (2 * 15 + 1) + 16) (by omega) (by omega),
    show W0 L + 16 * (2 * 15 + 1) + 16 = W0 L + 512 from by omega]
  ihave Hslot1 := (Entails.of_eq (pts_slot (F := F) d L 1 inb_S2x16x1280_S1x16x1280_1_0_0 _)) $$ Hslot'
  isplitl [Hdone]; · iexact Hdone
  isplitl [Hslot0]; · iexists _; iexact Hslot0
  isplitl [Hslot1]; · iexists _; iexact Hslot1
  isplitl [Hidx]; · iexists _; iexact Hidx
  isplitl [Ha2]; · iexact Ha2
  isplitl [Htb]; · iexact Htb
  isplitl [Hsem3]; · iexact Hsem3
  isplitl [Hsem4]; · iexact Hsem4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iexists _; isplitr
  rotate_left
  · iexact HO
  · ipureintro; exact wok_ins1 hW2 _

omit [FloatOps F] in
theorem pts_a2 (q : PosShare TreeShare) (f : Buf (Elt F) (a2Loc d)) :
    ((a2W).view.loc (thr d L) ↦{q} f : sProp 𝕄) = a2Loc d ↦{q} f := by
  simp only [Memref.view_whole, View.set_whole]

/-- The same, stated over the worker's block of rows, the noise words' own location and the first chunk's batch as
    the fire loop leaves it. -/
theorem rest_from_r5' (hnz : ∀ i, (m (a2Loc d) i).toNat < 1000000) (O : CellTallies nD τ sig (HIx 2)) (W : Waits sig (HIx 2))
    (hO : ∀ g, O g none = 0) (q2 : PosShare TreeShare) (v3 v4 : BitVec 32) (fB : Buf (Elt F) (rowsBLocV d (cV L) (jV L))) :
    iprop(levAts (K (F := F)).L (K (F := F)).lev ∗ owesN (F := F) (thr d L) O W
        ∗ (a2Loc d ↦{q2} m (a2Loc d)) ∗ (∃ q : PosShare TreeShare, a4Loc d ↦{q} m (a4Loc d))
        ∗ (∃ f, (idW).view.loc (thr d L) ↦{fullShare} f)
        ∗ Transfers.Batch countersEmb (thr d L) (.dma cc1_scratch3.sem) (none : HIx 2) NB
            (DB d (cV L) (jV L) 0 (m (a4Loc d)) (wordsAt d (cV L) (jV L) (m (a2Loc d)) (B0 L + 320 * 0) (B0_le L 0 (by omega)))) (16 * 20) 0
        ∗ (rowsBLocV d (cV L) (jV L) ↦[remB 1 0]{fullShare} fB) ∗ semVal (thr d L, SemLoc.dma cc1_scratch4.sem) 0
        ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
        ∗ (o3Loc d ↦[blkB (wid (cL L) (sL L))]{fullShare} m (o3Loc d)))
      ⊢ wp frame (wpE (defs₀ (F := F)) 𝒱₀ (thr d L) none) Set.univ (restB (F := F) L v3 v4)
          (fun _ => iprop((o3Loc d ↦[blkB (wid (cL L) (sL L))]{fullShare} G3 m d)
            ∗ (∃ f, rowsBLocV d (cV L) (jV L) ↦[remB 0 0]{fullShare} f) ∗ (∃ f, rowsBLocV d (cV L) (jV L) ↦[remB 1 0]{fullShare} f)
            ∗ (∃ f, (idW).view.loc (thr d L) ↦{fullShare} f)
            ∗ (a2Loc d ↦{q2} m (a2Loc d)) ∗ (∃ q : PosShare TreeShare, a4Loc d ↦{q} m (a4Loc d))
            ∗ semVal (thr d L, SemLoc.dma cc1_scratch3.sem) 0 ∗ semVal (thr d L, SemLoc.dma cc1_scratch4.sem) 0
            ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
            ∗ owesN (F := F) (thr d L) O W)) := by
  rw [blkB_eq L, ← chunkW_eq m d L 0 (by omega), ← pts_a2 (F := F) d L q2 (m (a2Loc d))]
  exact rest_from_r5 m d L hnz O W hO q2 v3 v4 fB

end Cert.Proof.KI.K1

end
-- ==== Proof.K1BEndEq.lean ====
/-
  The stretch's program text is the kernel's own: the kernel's text is its first three parts, then the fourth part,
  which is one wait and then the stretch's inner block, then the tail; the stretch is the inner block and the tail.
-/
import proofs.«215896_g38397007626377_fold_wed_m_942_26_alg».proof.Proof.K1BEnd

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (L : grid1.Coords)

def innerB (L : grid1.Coords) (v3 v4 : BitVec 32) : Prog (TpuEff nD τ sig (Elt F) Λ₀ (.scVector ((L 0).castLE hcore1) ((L 1).castLE hsub1))) PUnit := do
    Prog.lift (.enqueueDma (a2Slice (k1_off110 L) (k1_off110_inb L)) (.here idW) (.dma cc1_scoped5.sem) (View.wordExact_bits rfl) (Memref.isWhole_whole _).wordExact ⟨Or.inl rfl, trivial⟩)
    Prog.lift (.waitDma2 cc1_scoped5.sem (a2Slice (k1_off110 L) (k1_off110_inb L)) idW (View.wordExact_bits rfl) (Memref.isWhole_whole _).wordExact)
    Scf.Loop.for k1_t6_loop k1_t6_ok ⟨⟩ (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t7_loop k1_t7_ok ⟨⟩ (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t12_loop k1_t12_ok ⟨⟩ (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Prog.lift (.enqueueDma (slotM 0 inb_S2x16x1280_S1x16x1280_0_0_0) (.here (o3Chunk (k1_off218 L 480#32) (k1_off218_inb L 0))) (.dma cc1_scoped10.sem) ((View.wordExact_bits rfl).reshape _ _) (View.wordExact_bits rfl) ⟨Or.inl rfl, trivial⟩)
    pure (⟨⟩ : PUnit)

def tailB (L : grid1.Coords) : Prog (TpuEff nD τ sig (Elt F) Λ₀ (.scVector ((L 0).castLE hcore1) ((L 1).castLE hsub1))) PUnit := do
  Prog.lift (.waitDma2 cc1_scoped10.sem (slotM 0 inb_S2x16x1280_S1x16x1280_0_0_0) (o3Chunk (k1_off218 L 480#32) (k1_off218_inb L 0)) ((View.wordExact_bits rfl).reshape _ _) (View.wordExact_bits rfl))
  Scf.Loop.for k1_t13_loop k1_t13_ok ⟨⟩ (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
  Prog.lift (.enqueueDma (slotM 1 inb_S2x16x1280_S1x16x1280_1_0_0) (.here (o3Chunk (k1_off218 L 496#32) (k1_off218_inb L 1))) (.dma cc1_scoped11.sem) ((View.wordExact_bits rfl).reshape _ _) (View.wordExact_bits rfl) ⟨Or.inl rfl, trivial⟩)
  Prog.lift (.waitDma2 cc1_scoped11.sem (slotM 1 inb_S2x16x1280_S1x16x1280_1_0_0) (o3Chunk (k1_off218 L 496#32) (k1_off218_inb L 1)) ((View.wordExact_bits rfl).reshape _ _) (View.wordExact_bits rfl))
  pure ⟨⟩

theorem restB_eq (v3 v4 : BitVec 32) : restB (F := F) L v3 v4 = (innerB (F := F) L v3 v4 >>= fun _ => tailB (F := F) L) := rfl

set_option maxRecDepth 65536 in
theorem part198_eq (v3 v4 : BitVec 32) :
    k1_part198_skel (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4
      = (do
          Prog.lift (.waitDma2 cc1_scoped4.sem
            (((rAW).slice (Rect.unit (s := S2x128x128) ![1, 0, 0] S1x128x128.size inb_S2x128x128_S1x128x128_1_0_0) (fun _ => rfl)).squeeze S128x128 squeezes_S1x128x128_S128x128)
            ((o2W).slice (Rect.unit (s := S8192x128) (k1_off109 L) S128x128.size (k1_off109_inb L)) (fun _ => rfl))
            ((View.wordExact_bits rfl).reshape _ _) (View.wordExact_bits rfl))
          innerB (F := F) L v3 v4) := rfl

set_option maxRecDepth 65536 in
theorem cc1_eq :
    cc1__sc_gather_out_skel (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11
      = (do
          let ⟨v2, v3, v4, c0_i32_9, c1_i32_11⟩ : Σ' (v2 : BitVec 32) (v3 : BitVec 32) (v4 : BitVec 32) (c0_i32_9 : BitVec 32), BitVec 32 ← k1_part195 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11
          k1_part196 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 c0_i32_9 c1_i32_11
          k1_part197 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2
          k1_part198 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4
          tailB (F := F) L) := rfl

/-- The wait that opens the kernel's fourth part: the second output-word chunk's store. -/
def r4wait (L : grid1.Coords) : Prog (TpuEff nD τ sig (Elt F) Λ₀ (.scVector ((L 0).castLE hcore1) ((L 1).castLE hsub1))) PUnit :=
  Prog.lift (.waitDma2 cc1_scoped4.sem
    (((rAW).slice (Rect.unit (s := S2x128x128) ![1, 0, 0] S1x128x128.size inb_S2x128x128_S1x128x128_1_0_0) (fun _ => rfl)).squeeze S128x128 squeezes_S1x128x128_S128x128)
    ((o2W).slice (Rect.unit (s := S8192x128) (k1_off109 L) S128x128.size (k1_off109_inb L)) (fun _ => rfl))
    ((View.wordExact_bits rfl).reshape _ _) (View.wordExact_bits rfl))

/-- The fourth part and the tail, re-associated: the opening wait, then the stretch. -/
theorem part198_tail_eq (v3 v4 : BitVec 32) :
    (k1_part198 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 >>= fun _ => tailB (F := F) L)
      = (r4wait (F := F) L >>= fun _ => restB (F := F) L v3 v4) := by
  rw [k1_part198_eq_skeleton, part198_eq, restB_eq]
  unfold r4wait
  simp only [bind_assoc]

end Cert.Proof.KI.K1

end
-- ==== Proof.K1ADrain.lean ====
import proofs.«215896_g38397007626377_fold_wed_m_942_26_alg».proof.Proof.KISetup
import proofs.«215896_g38397007626377_fold_wed_m_942_26_alg».proof.Proof.Gen.KernelIdeal.Skeleton
import proofs.«215896_g38397007626377_fold_wed_m_942_26_alg».proof.Proof.K1A

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

/-! ## The chunks' drain loops: one trip waits 16 times; the 256th wait hands every piece back -/

section DrainA

variable (m : (ℓ : Loc nD τ sig) → Buf (Elt F) ℓ) (d : Dev nD) (L : grid1.Coords)

/-- Before trip k of the drain loop: the batch with 16 k waits' units consumed, or, after the last, the semaphore at zero and every piece at its final contents. -/
def drainInvA0 (O : CellTallies nD τ sig (HIx 2)) (W : Waits sig (HIx 2)) (k : ℕ) (_ : Unit) : sProp 𝕄 :=
  iprop(levAts (K (F := F)).L (K (F := F)).lev ∗ ⌜k ≤ 16⌝ ∗ owesN (F := F) (thr d L) O W
    ∗ (if k < 16 then Transfers.Batch countersEmb (thr d L) (.dma cc1_scratch3.sem) (none : HIx 2) NA (DA m d ((L 0).castLE hcore1) ((L 1).castLE hsub1) (widL L) 0) 256 ((16 * k) * NA)
       else iprop(semVal (thr d L, SemLoc.dma cc1_scratch3.sem) 0 ∗ bigSep Finset.univ (DA m d ((L 0).castLE hcore1) ((L 1).castLE hsub1) (widL L) 0))))

set_option maxHeartbeats 4000000 in
theorem drainA0_step (O : CellTallies nD τ sig (HIx 2)) (hO : ∀ g, O g none = 0) (W : Waits sig (HIx 2)) (v2 c0 c1 : BitVec 32)
    (k : Fin k1_t3_loop.trips) (acc : Unit) :
    drainInvA0 m d L O W k acc ⊢ wp frame (wpE (defs₀ (F := F)) 𝒱₀ (thr d L) none) Set.univ
      (k1_t3_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 c0 c1 k acc)
      (drainInvA0 m d L O W (k.val + 1)) := by
  have hk : k.val < 16 := Nat.lt_of_lt_of_le k.isLt k1_t3_abs.2.1
  unfold k1_t3_body
  simp only [k1_part48_eq_skeleton]; unfold k1_part48_skel
  simp only [k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold k1_part33_skel k1_part34_skel k1_part35_skel k1_part36_skel k1_part37_skel k1_part38_skel k1_part39_skel k1_part40_skel k1_part41_skel k1_part42_skel k1_part43_skel k1_part44_skel k1_part45_skel k1_part46_skel k1_part47_skel
  simp only [Prog.lift, Prog.bind_op, Prog.bind_ret, Prog.pure_eq_ret]
  unfold drainInvA0
  simp only [if_pos hk]
  rw [show 16 * k.val = 16 * k.val + 0 from rfl]
  rcases Nat.lt_or_ge (k.val + 1) 16 with h1 | h1
  · simp only [if_pos h1]
    iintro ⟨#Hlv, -, HO, HB⟩
    iapply (waitSkip' (thr d L) cc1_scratch3.sem NA NA_pos (NA_eq _ _) (DA m d ((L 0).castLE hcore1) ((L 1).castLE hsub1) (widL L) 0) (16 * k.val + 0) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 1) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 2) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 3) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 4) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 5) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 6) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 7) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 8) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 9) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 10) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 11) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 12) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 13) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 14) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 15) (by omega) O hO W) $$ [HB HO]
    · isplitr; · iexact Hlv
      isplitl [HB]; · iexact HB
      iexact HO
    iintro ⟨HB, HO⟩
    rw [wp_ret]; imodintro
    isplitr; · iexact Hlv
    isplitr; · ipureintro; omega
    isplitl [HO]; · iexact HO
    rw [show 16 * (k.val + 1) = 16 * k.val + 15 + 1 from by omega]; iexact HB
  · simp only [if_neg (Nat.not_lt.mpr h1)]
    iintro ⟨#Hlv, -, HO, HB⟩
    iapply (waitSkip' (thr d L) cc1_scratch3.sem NA NA_pos (NA_eq _ _) (DA m d ((L 0).castLE hcore1) ((L 1).castLE hsub1) (widL L) 0) (16 * k.val + 0) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 1) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 2) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 3) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 4) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 5) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 6) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 7) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 8) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 9) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 10) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 11) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 12) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 13) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 14) (by omega) O hO W) $$ [HB HO]
    · isplitr; · iexact Hlv
      isplitl [HB]; · iexact HB
      iexact HO
    iintro ⟨HB, HO⟩
    iapply (waitLast' (thr d L) cc1_scratch3.sem NA NA_pos (NA_eq _ _) (DA m d ((L 0).castLE hcore1) ((L 1).castLE hsub1) (widL L) 0) (16 * k.val + 15) (by omega) O hO W) $$ [HB HO]
    · isplitr; · iexact Hlv
      isplitl [HB]; · iexact HB
      iexact HO
    iintro ⟨HD, Hsem, HO⟩
    rw [wp_ret]; imodintro
    isplitr; · iexact Hlv
    isplitr; · ipureintro; omega
    isplitl [HO]; · iexact HO
    isplitl [Hsem]; · iexact Hsem
    iexact HD

end DrainA

section DrainA1
variable (m : (ℓ : Loc nD τ sig) → Buf (Elt F) ℓ) (d : Dev nD) (L : grid1.Coords)

/-- Before trip k of the drain loop: the batch with 16 k waits' units consumed, or, after the last, the semaphore at zero and every piece at its final contents. -/
def drainInvA1 (O : CellTallies nD τ sig (HIx 2)) (W : Waits sig (HIx 2)) (k : ℕ) (_ : Unit) : sProp 𝕄 :=
  iprop(levAts (K (F := F)).L (K (F := F)).lev ∗ ⌜k ≤ 16⌝ ∗ owesN (F := F) (thr d L) O W
    ∗ (if k < 16 then Transfers.Batch countersEmb (thr d L) (.dma cc1_scratch4.sem) (none : HIx 2) NA (DA m d ((L 0).castLE hcore1) ((L 1).castLE hsub1) (widL L) 1) 256 ((16 * k) * NA)
       else iprop(semVal (thr d L, SemLoc.dma cc1_scratch4.sem) 0 ∗ bigSep Finset.univ (DA m d ((L 0).castLE hcore1) ((L 1).castLE hsub1) (widL L) 1))))

set_option maxHeartbeats 4000000 in
theorem drainA1_step (O : CellTallies nD τ sig (HIx 2)) (hO : ∀ g, O g none = 0) (W : Waits sig (HIx 2)) (v2 c0 c1 : BitVec 32)
    (k : Fin k1_t5_loop.trips) (acc : Unit) :
    drainInvA1 m d L O W k acc ⊢ wp frame (wpE (defs₀ (F := F)) 𝒱₀ (thr d L) none) Set.univ
      (k1_t5_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 k acc)
      (drainInvA1 m d L O W (k.val + 1)) := by
  have hk : k.val < 16 := Nat.lt_of_lt_of_le k.isLt k1_t5_abs.2.1
  unfold k1_t5_body
  simp only [k1_part80_eq_skeleton]; unfold k1_part80_skel
  simp only [k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton]
  unfold k1_part65_skel k1_part66_skel k1_part67_skel k1_part68_skel k1_part69_skel k1_part70_skel k1_part71_skel k1_part72_skel k1_part73_skel k1_part74_skel k1_part75_skel k1_part76_skel k1_part77_skel k1_part78_skel k1_part79_skel
  simp only [Prog.lift, Prog.bind_op, Prog.bind_ret, Prog.pure_eq_ret]
  unfold drainInvA1
  simp only [if_pos hk]
  rw [show 16 * k.val = 16 * k.val + 0 from rfl]
  rcases Nat.lt_or_ge (k.val + 1) 16 with h1 | h1
  · simp only [if_pos h1]
    iintro ⟨#Hlv, -, HO, HB⟩
    iapply (waitSkip' (thr d L) cc1_scratch4.sem NA NA_pos (NA_eq _ _) (DA m d ((L 0).castLE hcore1) ((L 1).castLE hsub1) (widL L) 1) (16 * k.val + 0) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 1) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 2) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 3) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 4) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 5) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 6) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 7) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 8) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 9) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 10) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 11) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 12) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 13) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 14) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 15) (by omega) O hO W) $$ [HB HO]
    · isplitr; · iexact Hlv
      isplitl [HB]; · iexact HB
      iexact HO
    iintro ⟨HB, HO⟩
    rw [wp_ret]; imodintro
    isplitr; · iexact Hlv
    isplitr; · ipureintro; omega
    isplitl [HO]; · iexact HO
    rw [show 16 * (k.val + 1) = 16 * k.val + 15 + 1 from by omega]; iexact HB
  · simp only [if_neg (Nat.not_lt.mpr h1)]
    iintro ⟨#Hlv, -, HO, HB⟩
    iapply (waitSkip' (thr d L) cc1_scratch4.sem NA NA_pos (NA_eq _ _) (DA m d ((L 0).castLE hcore1) ((L 1).castLE hsub1) (widL L) 1) (16 * k.val + 0) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 1) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 2) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 3) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 4) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 5) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 6) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 7) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 8) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 9) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 10) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 11) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 12) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 13) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 14) (by omega) O hO W) $$ [HB HO]
    · isplitr; · iexact Hlv
      isplitl [HB]; · iexact HB
      iexact HO
    iintro ⟨HB, HO⟩
    iapply (waitLast' (thr d L) cc1_scratch4.sem NA NA_pos (NA_eq _ _) (DA m d ((L 0).castLE hcore1) ((L 1).castLE hsub1) (widL L) 1) (16 * k.val + 15) (by omega) O hO W) $$ [HB HO]
    · isplitr; · iexact Hlv
      isplitl [HB]; · iexact HB
      iexact HO
    iintro ⟨HD, Hsem, HO⟩
    rw [wp_ret]; imodintro
    isplitr; · iexact Hlv
    isplitr; · ipureintro; omega
    isplitl [HO]; · iexact HO
    isplitl [Hsem]; · iexact Hsem
    iexact HD

end DrainA1

end Cert.Proof.KI.K1

end
-- ==== Proof.K1BEnd197.lean ====
/-
  The kernel from its third part to the end: the first noise-word chunk fired, the second output-word chunk drained and
  stored, then the noise-word stretch. When it ends the second half of the worker's output-word rows and all of its
  noise-word rows hold the lookups' values.
-/
import proofs.«215896_g38397007626377_fold_wed_m_942_26_alg».proof.Proof.K1BEndEq
import proofs.«215896_g38397007626377_fold_wed_m_942_26_alg».proof.Proof.K1ADrain
import proofs.«215896_g38397007626377_fold_wed_m_942_26_alg».proof.Proof.K1AJoin

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (m : (ℓ : Loc nD τ sig) → Buf (Elt F) ℓ)
variable (d : Dev nD) (L : grid1.Coords)

omit [FloatOps F] in
theorem slotsB_sdiff : (Finset.univ : Finset S2x16x1280.Idx) \ remB 0 0 = remB 1 0 := by
  ext y
  have h0 : (y 0).val < 2 := (y 0).isLt
  rw [Finset.mem_sdiff, mem_remB, mem_remB]
  simp only [Finset.mem_univ, true_and]
  omega
omit [FloatOps F] in
theorem slotsB_union : remB 0 0 ∪ remB 1 0 = (Finset.univ : Finset S2x16x1280.Idx) := by
  ext y
  have h0 : (y 0).val < 2 := (y 0).isLt
  rw [Finset.mem_union, mem_remB, mem_remB]
  simp only [Finset.mem_univ, iff_true]
  omega
omit [FloatOps F] in
theorem slotsB_disjoint : Disjoint (remB 0 0) (remB 1 0) := by
  rw [Finset.disjoint_left]; intro y h1 h2; rw [mem_remB] at h1 h2; omega

omit [FloatOps F] in
theorem pts_slotA (b : ℕ) (hin) (f : Buf (Elt F) ((thr d L).loc cc1_scratch1)) :
    ((slotSrcA ![b, 0, 0] hin).view.loc (thr d L) ↦[(slotSrcA ![b, 0, 0] hin).view.set]{fullShare} f : sProp 𝕄)
      = (thr d L).loc cc1_scratch1 ↦[remA b 0]{fullShare} f := by
  rw [slotSrcA_set]
omit [FloatOps F] in
theorem pts_rowsA (off : Fin 2 → ℕ) (hin) (r0 : ℕ) (hoff : off = ![r0, 0]) (f : Buf (Elt F) (o2Loc d)) :
    ((outDstA off hin).view.loc (thr d L) ↦[(outDstA off hin).view.set]{fullShare} f : sProp 𝕄)
      = o2Loc d ↦[rowsA r0]{fullShare} f := by
  subst hoff
  rw [outDstA_set]
omit [FloatOps F] in
theorem off109 : k1_off109 L = ![256 * widL L + 128 * 1, 0] := by
  rw [k1_off109_eq L]
  rw [show 512 * (L 1).val + 256 * (L 0).val + 128 = 256 * widL L + 128 * 1 from by unfold widL; omega]

/-- What the store of slot b leaves in its 128 rows, read where the store names them. -/
theorem store_rowsA (w b : ℕ) (hw : w < 32) (hb : b < 2) (off : Fin 2 → ℕ) (hoff : off = ![256 * w + 128 * b, 0]) (hin) (hin')
    (f0 : Buf (Elt F) (o2Loc d)) :
    ∀ y ∈ (outDstA off hin').view.set,
      (outDstA off hin').view.writes (Elt F) f0 [⟨Rect.whole S128x128,
        (ReadAs.same : ReadAs (Elt F) S128x128 .f32 S128x128 .f32).apply (View.read (Elt F) (slotSrcA ![b, 0, 0] hin).view (FA m d (cV L) (jV L) w))⟩] y
        = G2 m d y := by
  subst hoff
  intro y hy
  obtain ⟨x, -, rfl⟩ := Finset.mem_map.mp hy
  rw [View.writes_singleton]
  have he : ((outDstA ![256 * w + 128 * b, 0] hin').view.slice (Rect.whole S128x128)).emb x = (outDstA ![256 * w + 128 * b, 0] hin').view.emb x :=
    congrArg (outDstA ![256 * w + 128 * b, 0] hin').view.emb (Rect.emb_whole_apply S128x128 x)
  have e1 := fun p => View.write_emb_of_mem (Val := Elt F) (v := (outDstA ![256 * w + 128 * b, 0] hin').view.slice (Rect.whole S128x128)) f0 p (M := Finset.univ) (Finset.mem_univ x)
  rw [he] at e1
  have e2 := storeA_val m d (cV L) (jV L) w b hw hb hin hin' f0 _ hy
  rw [View.write_emb_of_mem _ _ (Finset.mem_univ x)] at e2
  rw [e1]
  exact e2

set_option maxHeartbeats 4000000 in
theorem rest_from_197 (hpre : PreOK m) (O : CellTallies nD τ sig (HIx 2)) (W : Waits sig (HIx 2))
    (hO : ∀ g, O g none = 0) (q2 : PosShare TreeShare) (v2 v3 v4 : BitVec 32) (fB : Buf (Elt F) ((thr d L).loc cc1_scratch2)) :
    iprop(levAts (K (F := F)).L (K (F := F)).lev ∗ owesN (F := F) (thr d L) O W
        ∗ ((thr d L).loc cc1_scratch0 ↦{fullShare} wordsAt d (cV L) (jV L) (m (a2Loc d)) (B0 L + 320 * 0) (B0_le L 0 (by omega)))
        ∗ (∃ q : PosShare TreeShare, a4Loc d ↦{q} m (a4Loc d)) ∗ (a2Loc d ↦{q2} m (a2Loc d))
        ∗ semVal (thr d L, SemLoc.dma cc1_scratch3.sem) 0
        ∗ Transfers.Batch countersEmb (thr d L) (.dma cc1_scratch4.sem) (none : HIx 2) NA (DA m d (cV L) (jV L) (widL L) 1) 256 0
        ∗ ((thr d L).loc cc1_scratch2 ↦{fullShare} fB)
        ∗ (o2Loc d ↦[rowsA (256 * widL L + 128 * 1)]{fullShare} m (o2Loc d))
        ∗ (o3Loc d ↦[blkB (wid (cL L) (sL L))]{fullShare} m (o3Loc d))
        ∗ semVal (thr d L, SemLoc.dma cc1_scoped4.sem) 0 ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0)
      ⊢ wp frame (wpE (defs₀ (F := F)) 𝒱₀ (thr d L) none) Set.univ
          (k1_part197 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 >>= fun _ => k1_part198 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 >>= fun _ => tailB (F := F) L)
          (fun _ => iprop((o2Loc d ↦[rowsA (256 * widL L + 128 * 1)]{fullShare} G2 m d)
            ∗ (∃ f, (thr d L).loc cc1_scratch1 ↦[remA 1 0]{fullShare} f)
            ∗ (o3Loc d ↦[blkB (wid (cL L) (sL L))]{fullShare} G3 m d)
            ∗ (∃ f, (thr d L).loc cc1_scratch2 ↦{fullShare} f) ∗ (∃ f, (thr d L).loc cc1_scratch0 ↦{fullShare} f)
            ∗ semVal (thr d L, SemLoc.dma cc1_scratch3.sem) 0 ∗ semVal (thr d L, SemLoc.dma cc1_scratch4.sem) 0
            ∗ semVal (thr d L, SemLoc.dma cc1_scoped4.sem) 0 ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
            ∗ owesN (F := F) (thr d L) O W)) := by
  have hnz : ∀ i, (m (a2Loc d) i).toNat < 1000000 := (hpre d).2.2
  have e4 : Scf.trips k1_t4_loop.lb k1_t4_loop.ub k1_t4_loop.st = 20 := by decide
  have e5 : ¬ Scf.trips k1_t5_loop.lb k1_t5_loop.ub k1_t5_loop.st < 16 := by decide
  rw [part198_tail_eq]
  simp only [k1_part197_eq_skeleton]
  unfold k1_part197_skel r4wait restB
  rw [blkB_eq L, ← pts_a2 (F := F) d L q2 (m (a2Loc d))]
  have e0 : ((16 * 0) * NB) = 0 := by simp
  have e6 : Scf.trips k1_t6_loop.lb k1_t6_loop.ub k1_t6_loop.st = 20 := by decide
  have e7 : Scf.trips k1_t7_loop.lb k1_t7_loop.ub k1_t7_loop.st = 15 := by decide
  have e12 : ¬ Scf.trips k1_t12_loop.lb k1_t12_loop.ub k1_t12_loop.st < 20 := by decide
  have e13 : ¬ Scf.trips k1_t13_loop.lb k1_t13_loop.ub k1_t13_loop.st < 20 := by decide
  have eW1 := chunkW_eq m d L (2 * 0 + 1) (by omega)
  have eW30 := chunkW_eq m d L (2 * 15) (by omega)
  have eW31 := chunkW_eq m d L (2 * 15 + 1) (by omega)
  iintro ⟨#Hlv, HO, Hidx, Htb, Ha2, Hsem3, HBA, HrB, Ho2, Ho3, Hs4, Hs5, Hs6, Hs7, Hs8, Hs9, Hs10, Hs11⟩
  ihave Hmw := ((K (F := F)).mayWaits_none (thr := thr d L) hO) $$ Hlv
  -- the rows scratch of the noise words: its two slots
  ihave HrB' := (pointsTo_split_subset (S := Finset.univ) (I := remB 0 0) (Finset.subset_univ _)).1 $$ HrB
  icases HrB' with ⟨Hslot0, Hslot1⟩
  rw [slotsB_sdiff]
  -- the first noise-word chunk into slot 0
  imod (Transfers.batch_alloc' (Lvl := ℕ) countersEmb (thr d L) (none : HIx 2) NB
    (DB d (cV L) (jV L) 0 (m (a4Loc d)) (wordsAt d (cV L) (jV L) (m (a2Loc d)) (B0 L + 320 * 0) (B0_le L 0 (by omega))))
    (sm := .dma cc1_scratch3.sem) (E := Set.univ)) $$ Hsem3 with HB0
  rw [wp_bind]
  sl_for (fireInvB d L 0 cc1_scratch3.sem (m (a4Loc d)) (wordsAt d (cV L) (jV L) (m (a2Loc d)) (B0 L + 320 * 0) (B0_le L 0 (by omega))) fB) $$ [Hidx Htb Hslot0 HB0]
  case region => exact fun k acc => fire_trip_t4 d L _ _ _ (wordsAt_lt d (cV L) (jV L) _ _ _ hnz) v2 k acc
  · unfold fireInvB
    simp only [Nat.mul_zero]
    isplitl [Hidx]; · iexact Hidx
    isplitl [Htb]; · iexact Htb
    isplitl [Hslot0]; · iexact Hslot0
    iexact HB0
  iintro %_ HI
  unfold fireInvB
  icases HI with ⟨Hidx, Htb, -, HB0⟩
  rw [e4]
  -- the second output-word chunk: its copies have all landed in slot 1
  sl_for (drainInvA1 m d L O W) $$ [HBA HO]
  case region => exact fun k acc => drainA1_step m d L O hO W v2 0#32 0#32 k acc
  · unfold drainInvA1
    rw [if_pos (by decide), show (16 * 0) * NA = 0 from by simp]
    isplitr; · iexact Hlv
    isplitr; · ipureintro; omega
    isplitl [HO]; · iexact HO
    iexact HBA
  iintro %_ HI
  unfold drainInvA1
  rw [if_neg e5]
  icases HI with ⟨-, -, ⟨%W1, %hW1, HO⟩, Hsem4, HD⟩
  ihave HslotA := (Entails.of_eq (joinA (F := F) m d (cV L) (jV L) (widL L) 1)) $$ HD
  ihave HslotA' := (Entails.of_eq (pts_slotA (F := F) d L 1 inb_S2x128x128_S1x128x128_1_0_0 _).symm) $$ HslotA
  ihave Ho2' := (Entails.of_eq (pts_rowsA (F := F) d L (k1_off109 L) (k1_off109_inb L) _ (off109 L) _).symm) $$ Ho2
  sl_exec (disch := first | exact View.amount_pos _ _ (show 0 < S320.numel by decide) | exact View.amount_pos _ _ (show 0 < S16x1280.numel by decide) | exact View.amount_pos _ _ (show 0 < S128x128.numel by decide))
  unfold rest_from_197.sl.dma0
  -- the rows of the second output-word chunk at the lookup's values
  ihave Ho2 := (Entails.of_eq ((pointsTo_congr (store_rowsA m d L (widL L) 1 (widL_lt L) (by omega) (k1_off109 L) (off109 L) inb_S2x128x128_S1x128x128_1_0_0 (k1_off109_inb L) _)).trans
      (pts_rowsA (F := F) d L (k1_off109 L) (k1_off109_inb L) _ (off109 L) (G2 m d)))) $$ Ho2'
  ihave HslotA := (Entails.of_eq (pts_slotA (F := F) d L 1 inb_S2x128x128_S1x128x128_1_0_0 _)) $$ HslotA'
  -- the noise-word stretch
  unfold rest_from_197.sl.dma0_1
  have hfI1 := fetch_val (F := F) d (cV L) (jV L) (m (a2Loc d)) (wordsAt d (cV L) (jV L) (m (a2Loc d)) (B0 L + 320 * 0) (B0_le L 0 (by omega))) (k1_off110 L) (k1_off110_inb L)
    (B0 L + 320 * (2 * 0 + 1)) (B0_le L _ (by omega)) (off110 L)
  ihave Hidx1 := (Entails.of_eq (congrArg (fun f => ((idW).view.loc (thr d L) ↦{fullShare} f : sProp 𝕄)) hfI1)) $$ Hidx
  -- chunk 1 into slot 1
  imod (Transfers.batch_alloc' (Lvl := ℕ) countersEmb (thr d L) (none : HIx 2) NB
    (DB d (cV L) (jV L) 1 (m (a4Loc d)) (wordsAt d (cV L) (jV L) (m (a2Loc d)) (B0 L + 320 * (2 * 0 + 1)) (B0_le L _ (by omega))))
    (sm := .dma cc1_scratch4.sem) (E := Set.univ)) $$ Hsem4 with HB1
  rw [wp_bind]
  sl_for (fireInvB d L 1 cc1_scratch4.sem (m (a4Loc d)) (wordsAt d (cV L) (jV L) (m (a2Loc d)) (B0 L + 320 * (2 * 0 + 1)) (B0_le L _ (by omega))) fB) $$ [Hidx1 Htb Hslot1 HB1]
  case region => exact fun k acc => fire_trip_t6 d L _ _ _ (wordsAt_lt d (cV L) (jV L) _ _ _ hnz) v3 v4 k acc
  · unfold fireInvB
    simp only [Nat.mul_zero]
    isplitl [Hidx1]; · iexact Hidx1
    isplitl [Htb]; · iexact Htb
    isplitl [Hslot1]; · iexact Hslot1
    iexact HB1
  iintro %_ HI
  unfold fireInvB
  icases HI with ⟨Hidx, Htb, -, HB1⟩
  rw [e6]
  -- the pair loop
  sl_for (pairInv m d L O W q2) $$ [HO HB0 HB1 Hidx Htb Ha2 Ho3 Hs6 Hs7 Hs8 Hs9]
  case region => exact fun k acc => pair_trip m d L hnz O W hO q2 v3 v4 k acc
  · unfold pairInv
    rw [eW1, chunkW_eq m d L (2 * 0) (by omega), show W0 L + 16 * (2 * 0) = W0 L from by omega, rowsFrom_empty, pointsTo_empty]
    isplitr; · iexact Hlv
    isplitl [HO]
    · iexists _; isplitr
      rotate_left
      · iexact HO
      · ipureintro; exact wok_ins2 hW1 _ _
    isplitl [HB0]; · iexact HB0
    isplitl [HB1]; · iexact HB1
    isplitl [Hidx]; · iexists _; iexact Hidx
    isplitl [Htb]; · iexact Htb
    isplitl [Ha2]; · iexact Ha2
    isplitr; · iempintro
    isplitl [Ho3]; · iexact Ho3
    isplitl [Hs6]; · iexact Hs6
    isplitl [Hs7]; · iexact Hs7
    isplitl [Hs8]; · iexact Hs8
    iexact Hs9
  iintro %_ HI
  unfold pairInv
  rw [e7]
  icases HI with ⟨-, HO, HB0, HB1, ⟨%fi2, Hidx⟩, Htb, Ha2, Hdone, Htodo, Hs6, Hs7, Hs8, Hs9⟩
  -- chunk 30: drained, stored
  sl_for (drainInvB d L 0 cc1_scratch3.sem (m (a4Loc d)) (chunkW m d L (2 * 15)) O W) $$ [HB0 HO]
  case region => exact fun k acc => drain_trip_t12 d L _ _ O W hO v3 v4 k acc
  · unfold drainInvB
    rw [if_pos (by decide), e0]
    isplitr; · iexact Hlv
    isplitl [HB0]; · iexact HB0
    iexact HO
  iintro %_ HI
  unfold drainInvB
  rw [if_neg e12]
  icases HI with ⟨-, ⟨HD, Hsem3⟩, %W1, %hW1, HO⟩
  ihave Hslot := (Entails.of_eq (joinB (F := F) d (cV L) (jV L) 0 _ _)) $$ HD
  rw [eW30]
  ihave Hslot' := (Entails.of_eq (pts_slot (F := F) d L 0 inb_S2x16x1280_S1x16x1280_0_0_0 _).symm) $$ Hslot
  ihave Hsp := (pointsTo_split_subset (rowsFrom_sub (W0 L + 16 * (2 * 15)) (W0 L + 16 * (2 * 15) + 16) (W0 L + 512) (by omega))).1 $$ Htodo
  icases Hsp with ⟨Hchunk, Htodo⟩
  rw [rowsFrom_sdiff (W0 L + 16 * (2 * 15)) (W0 L + 16 * (2 * 15) + 16) (W0 L + 512) (by omega)]
  ihave Hchunk' := (Entails.of_eq (pts_chunk (F := F) d L (k1_off218 L 480#32) (k1_off218_inb L 0) _ (off218_0 L) _).symm) $$ Hchunk
  sl_exec (disch := first | exact View.amount_pos _ _ (show 0 < S320.numel by decide) | exact View.amount_pos _ _ (show 0 < S16x1280.numel by decide))
  unfold rest_from_197.sl.dma0_2
  ihave Hchunk := (Entails.of_eq ((pointsTo_congr (store_val m d (cV L) (jV L) 0 inb_S2x16x1280_S1x16x1280_0_0_0 (k1_off218 L 480#32) (k1_off218_inb L 0)
      (W0 L + 16 * (2 * 15)) (B0 L + 320 * (2 * 15)) (B0_le L _ (by omega)) (off218_0 L) (B0_eq L _) _)).trans
      (pts_chunk (F := F) d L (k1_off218 L 480#32) (k1_off218_inb L 0) _ (off218_0 L) (G3 m d)))) $$ Hchunk'
  icombine Hdone Hchunk as Hdc
  ihave Hdone := (pointsTo_union (rowsFrom_disjoint (W0 L) (W0 L + 16 * (2 * 15)) (W0 L + 16 * (2 * 15) + 16))).2 $$ Hdc
  rw [rowsFrom_union (W0 L) (W0 L + 16 * (2 * 15)) (W0 L + 16 * (2 * 15) + 16) (by omega) (by omega)]
  ihave Hslot0 := (Entails.of_eq (pts_slot (F := F) d L 0 inb_S2x16x1280_S1x16x1280_0_0_0 _)) $$ Hslot'
  -- chunk 31: drained, stored
  sl_for (drainInvB d L 1 cc1_scratch4.sem (m (a4Loc d)) (chunkW m d L (2 * 15 + 1)) O W) $$ [HB1 HO]
  case region => exact fun k acc => drain_trip_t13 d L _ _ O W hO k acc
  · unfold drainInvB
    rw [if_pos (by decide), e0]
    isplitr; · iexact Hlv
    isplitl [HB1]; · iexact HB1
    iexists _; isplitr
    rotate_left
    · iexact HO
    · ipureintro; exact wok_ins1 hW1 _
  iintro %_ HI
  unfold drainInvB
  rw [if_neg e13]
  icases HI with ⟨-, ⟨HD, Hsem4⟩, %W2, %hW2, HO⟩
  ihave Hslot := (Entails.of_eq (joinB (F := F) d (cV L) (jV L) 1 _ _)) $$ HD
  rw [eW31]
  ihave Hslot' := (Entails.of_eq (pts_slot (F := F) d L 1 inb_S2x16x1280_S1x16x1280_1_0_0 _).symm) $$ Hslot
  rw [show W0 L + 16 * (2 * 15) + 16 = W0 L + 16 * (2 * 15 + 1) from by omega]
  ihave Hsp := (pointsTo_split_subset (rowsFrom_sub (W0 L + 16 * (2 * 15 + 1)) (W0 L + 16 * (2 * 15 + 1) + 16) (W0 L + 512) (by omega))).1 $$ Htodo
  icases Hsp with ⟨Hchunk, -⟩
  ihave Hchunk' := (Entails.of_eq (pts_chunk (F := F) d L (k1_off218 L 496#32) (k1_off218_inb L 1) _ (off218_1 L) _).symm) $$ Hchunk
  sl_exec (disch := first | exact View.amount_pos _ _ (show 0 < S320.numel by decide) | exact View.amount_pos _ _ (show 0 < S16x1280.numel by decide))
  sl_step
  unfold rest_from_197.sl.dma0_3
  ihave Hchunk := (Entails.of_eq ((pointsTo_congr (store_val m d (cV L) (jV L) 1 inb_S2x16x1280_S1x16x1280_1_0_0 (k1_off218 L 496#32) (k1_off218_inb L 1)
      (W0 L + 16 * (2 * 15 + 1)) (B0 L + 320 * (2 * 15 + 1)) (B0_le L _ (by omega)) (off218_1 L) (B0_eq L _) _)).trans
      (pts_chunk (F := F) d L (k1_off218 L 496#32) (k1_off218_inb L 1) _ (off218_1 L) (G3 m d)))) $$ Hchunk'
  icombine Hdone Hchunk as Hdc
  ihave Hdone := (pointsTo_union (rowsFrom_disjoint (W0 L) (W0 L + 16 * (2 * 15 + 1)) (W0 L + 16 * (2 * 15 + 1) + 16))).2 $$ Hdc
  rw [rowsFrom_union (W0 L) (W0 L + 16 * (2 * 15 + 1)) (W0 L + 16 * (2 * 15 + 1) + 16) (by omega) (by omega),
    show W0 L + 16 * (2 * 15 + 1) + 16 = W0 L + 512 from by omega]
  ihave Hslot1 := (Entails.of_eq (pts_slot (F := F) d L 1 inb_S2x16x1280_S1x16x1280_1_0_0 _)) $$ Hslot'
  icombine Hslot0 Hslot1 as Hg
  ihave HrB := (pointsTo_join slotsB_disjoint) $$ Hg
  rw [slotsB_union, ← blkB_eq L]
  isplitl [Ho2]; · iexact Ho2
  isplitl [HslotA]; · iexists _; iexact HslotA
  isplitl [Hdone]; · iexact Hdone
  isplitl [HrB]; · iexists _; iexact HrB
  isplitl [Hidx]; · iexists _; iexact Hidx
  isplitl [Hsem3]; · iexact Hsem3
  isplitl [Hsem4]; · iexact Hsem4
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iexists _; isplitr
  rotate_left
  · iexact HO
  · ipureintro; exact wok_ins1 hW2 _

end Cert.Proof.KI.K1

end
-- ==== Proof.K1BPart196.lean ====
/-
  The kernel's second part: the first output-word chunk drained and stored, the first noise-word chunk's index words
  fetched.
-/
import proofs.«215896_g38397007626377_fold_wed_m_942_26_alg».proof.Proof.K1BEnd197

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable [FloatOps F]
variable (m : (ℓ : Loc nD τ sig) → Buf (Elt F) ℓ)
variable (d : Dev nD) (L : grid1.Coords)

omit [FloatOps F] in
theorem off72 : k1_off72 L = ![256 * widL L + 128 * 0, 0] := by
  rw [k1_off72_eq L]
  rw [show 512 * (L 1).val + 256 * (L 0).val = 256 * widL L + 128 * 0 from by unfold widL; omega]
omit [FloatOps F] in
theorem off73 : k1_off73 L = ![B0 L + 320 * 0] := by
  rw [k1_off73_eq L]
  rw [show 20480 * (L 1).val + 10240 * (L 0).val = B0 L + 320 * 0 from by unfold B0; omega]

omit [FloatOps F] in
theorem pts_idx (f : Buf (Elt F) ((thr d L).loc cc1_scratch0)) :
    ((idW).view.loc (thr d L) ↦{fullShare} f : sProp 𝕄) = (thr d L).loc cc1_scratch0 ↦{fullShare} f := rfl

set_option maxHeartbeats 4000000 in
theorem wp_part196 (O : CellTallies nD τ sig (HIx 2)) (hO : ∀ g, O g none = 0) (W : Waits sig (HIx 2)) (v2 c0 c1 : BitVec 32)
    (q2 : PosShare TreeShare) (fI : Buf (Elt F) ((thr d L).loc cc1_scratch0)) :
    iprop(levAts (K (F := F)).L (K (F := F)).lev ∗ owesN (F := F) (thr d L) O W
        ∗ Transfers.Batch countersEmb (thr d L) (.dma cc1_scratch3.sem) (none : HIx 2) NA (DA m d (cV L) (jV L) (widL L) 0) 256 0
        ∗ (o2Loc d ↦[rowsA (256 * widL L + 128 * 0)]{fullShare} m (o2Loc d))
        ∗ ((thr d L).loc cc1_scratch0 ↦{fullShare} fI)
        ∗ (a2Loc d ↦{q2} m (a2Loc d))
        ∗ semVal (thr d L, SemLoc.dma cc1_scoped2.sem) 0 ∗ semVal (thr d L, SemLoc.dma cc1_scoped3.sem) 0)
      ⊢ wp frame (wpE (defs₀ (F := F)) 𝒱₀ (thr d L) none) Set.univ
          (k1_part196 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 c0 c1)
          (fun _ => iprop(owesN (F := F) (thr d L) O W
            ∗ semVal (thr d L, SemLoc.dma cc1_scratch3.sem) 0
            ∗ ((thr d L).loc cc1_scratch1 ↦[remA 0 0]{fullShare} FA m d (cV L) (jV L) (widL L))
            ∗ (o2Loc d ↦[rowsA (256 * widL L + 128 * 0)]{fullShare} G2 m d)
            ∗ ((thr d L).loc cc1_scratch0 ↦{fullShare} wordsAt d (cV L) (jV L) (m (a2Loc d)) (B0 L + 320 * 0) (B0_le L 0 (by omega)))
            ∗ (a2Loc d ↦{q2} m (a2Loc d))
            ∗ semVal (thr d L, SemLoc.dma cc1_scoped2.sem) 0 ∗ semVal (thr d L, SemLoc.dma cc1_scoped3.sem) 0)) := by
  have e3 : ¬ Scf.trips k1_t3_loop.lb k1_t3_loop.ub k1_t3_loop.st < 16 := by decide
  simp only [k1_part196_eq_skeleton]
  unfold k1_part196_skel
  rw [← pts_a2 (F := F) d L q2 (m (a2Loc d))]
  iintro ⟨#Hlv, HO, HBA, Ho2, Hidx, Ha2, Hs2, Hs3⟩
  ihave Hmw := ((K (F := F)).mayWaits_none (thr := thr d L) hO) $$ Hlv
  -- the first output-word chunk: its copies have all landed in slot 0
  sl_for (drainInvA0 m d L O W) $$ [HBA HO]
  case region => exact fun k acc => drainA0_step m d L O hO W v2 c0 c1 k acc
  · unfold drainInvA0
    rw [if_pos (by decide), show (16 * 0) * NA = 0 from by simp]
    isplitr; · iexact Hlv
    isplitr; · ipureintro; omega
    isplitl [HO]; · iexact HO
    iexact HBA
  iintro %_ HI
  unfold drainInvA0
  rw [if_neg e3]
  icases HI with ⟨-, -, ⟨%W1, %hW1, HO⟩, Hsem3, HD⟩
  ihave HslotA := (Entails.of_eq (joinA (F := F) m d (cV L) (jV L) (widL L) 0)) $$ HD
  ihave HslotA' := (Entails.of_eq (pts_slotA (F := F) d L 0 inb_S2x128x128_S1x128x128_0_0_0 _).symm) $$ HslotA
  ihave Ho2' := (Entails.of_eq (pts_rowsA (F := F) d L (k1_off72 L) (k1_off72_inb L) _ (off72 L) _).symm) $$ Ho2
  ihave Hidx' := (Entails.of_eq (pts_idx (F := F) d L fI).symm) $$ Hidx
  sl_exec (disch := first | exact View.amount_pos _ _ (show 0 < S320.numel by decide) | exact View.amount_pos _ _ (show 0 < S16x1280.numel by decide) | exact View.amount_pos _ _ (show 0 < S128x128.numel by decide))
  sl_step
  unfold wp_part196.sl.dma0 wp_part196.sl.dma0_1
  -- the rows of the first chunk at the lookup's values; the index scratch at the first noise-word chunk's words
  ihave Ho2 := (Entails.of_eq ((pointsTo_congr (store_rowsA m d L (widL L) 0 (widL_lt L) (by omega) (k1_off72 L) (off72 L) inb_S2x128x128_S1x128x128_0_0_0 (k1_off72_inb L) _)).trans
      (pts_rowsA (F := F) d L (k1_off72 L) (k1_off72_inb L) _ (off72 L) (G2 m d)))) $$ Ho2'
  ihave HslotA := (Entails.of_eq (pts_slotA (F := F) d L 0 inb_S2x128x128_S1x128x128_0_0_0 _)) $$ HslotA'
  have hfI := fetch_val (F := F) d (cV L) (jV L) (m (a2Loc d)) fI (k1_off73 L) (k1_off73_inb L)
    (B0 L + 320 * 0) (B0_le L 0 (by omega)) (off73 L)
  ihave Hidx := (Entails.of_eq (congrArg (fun f => ((idW).view.loc (thr d L) ↦{fullShare} f : sProp 𝕄)) hfI)) $$ Hidx'
  isplitl [HO]
  · iexists _; isplitr
    rotate_left
    · iexact HO
    · ipureintro; exact wok_ins2 hW1 _ _
  isplitl [Hsem3]; · iexact Hsem3
  isplitl [HslotA]; · iexact HslotA
  isplitl [Ho2]; · iexact Ho2
  isplitl [Hidx]; · iexact Hidx
  isplitl [Ha2]; · iexact Ha2
  isplitl [Hs2]; · iexact Hs2
  iexact Hs3

end Cert.Proof.KI.K1

end
-- ==== Proof.K1Body.lean ====
/-
  The second kernel's task on one vector subcore, whole: the two chunks of the output words fetched and fired, each
  drained and stored into its half of the worker's rows of the first result while the noise words' chunks go through
  the two slots of the wide scratch into the worker's rows of the second result.
-/
import proofs.«215896_g38397007626377_fold_wed_m_942_26_alg».proof.Proof.KISetup
import proofs.«215896_g38397007626377_fold_wed_m_942_26_alg».proof.Proof.Gen.KernelIdeal.Skeleton
import proofs.«215896_g38397007626377_fold_wed_m_942_26_alg».proof.Proof.K1A
import proofs.«215896_g38397007626377_fold_wed_m_942_26_alg».proof.Proof.K1AJoin
import proofs.«215896_g38397007626377_fold_wed_m_942_26_alg».proof.Proof.K1AP195
import proofs.«215896_g38397007626377_fold_wed_m_942_26_alg».proof.Proof.K1BPart196
import proofs.«215896_g38397007626377_fold_wed_m_942_26_alg».proof.Proof.K1BEndEq
import proofs.«215896_g38397007626377_fold_wed_m_942_26_alg».proof.Proof.K1BEnd197

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

/-! ## The task on one vector subcore, whole -/

section Body

variable (m : (ℓ : Loc nD τ sig) → Buf (Elt F) ℓ) [FloatOps F]

omit [FloatOps F] in
theorem slots_union : remA 0 0 ∪ remA 1 0 = (Finset.univ : Finset S2x128x128.Idx) := by
  ext y
  have h0 : (y 0).val < 2 := (y 0).isLt
  rw [Finset.mem_union, mem_remA, mem_remA]
  simp only [Finset.mem_univ, iff_true]
  omega
omit [FloatOps F] in
theorem slots_disjoint : Disjoint (remA 0 0) (remA 1 0) := by
  rw [Finset.disjoint_left]; intro y hy hy'
  rw [mem_remA] at hy hy'; omega

set_option maxHeartbeats 4000000 in
theorem tile_body (hpre : PreOK m) (d : Dev nD) (L : grid1.Coords) (O : CellTallies nD τ sig (HIx 2)) (W : Waits sig (HIx 2)) (hO : ∀ g, O g none = 0) :
  iprop(levAts (K (F := F)).L (K (F := F)).lev ∗ emp ∗ inTile m 1 d (cL L) (sL L) ∗ scopedBufs (thr d L) ∗ scopedSems0 (thr d L) ∗ owes (thr d L) O W)
    ⊢ wp frame (wpE (defs₀ (F := F)) 𝒱₀ (thr d L) none) Set.univ
        (cc1__sc_gather_out L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
        fun _ => iprop(outTile m 1 d (cL L) (sL L) ∗ scopedBufs (thr d L) ∗ scopedSems0 (thr d L) ∗ ∃ W', ⌜∀ p ∈ W', p ∈ W ∨ p.2 = none⌝ ∗ owes (thr d L) O W') := by
  have hw := widL_lt L
  simp only [cc1__sc_gather_out_eq_skeleton]
  rw [cc1_eq (F := F) L]
  rw [(K (F := F)).scopedBufs_V (Val := Elt F) (Name := ℕ) (U := UU) (facts (F := F)) d ((L 0).castLE hcore1) ((L 1).castLE hsub1),
    SparseCore.Cfg.scopedSems0_V (Val := Elt F) (Name := ℕ) (U := UU) d ((L 0).castLE hcore1) ((L 1).castLE hsub1),
    ownSems0_V (F := F) d ((L 0).castLE hcore1) ((L 1).castLE hsub1), ownBufs_V (F := F) d ((L 0).castLE hcore1) ((L 1).castLE hsub1)]
  show iprop(_ ∗ _ ∗ ((a1Loc d ↦{qT (cL L).val (sL L).val} m (a1Loc d)) ∗ (a2Loc d ↦{qT (cL L).val (sL L).val} m (a2Loc d)) ∗ (a4Loc d ↦{qT (cL L).val (sL L).val} m (a4Loc d))
      ∗ (o2Loc d ↦[blkA (wid (cL L) (sL L))]{fullShare} m (o2Loc d)) ∗ (o3Loc d ↦[blkB (wid (cL L) (sL L))]{fullShare} m (o3Loc d))) ∗ _) ⊢ wp _ _ _ _
    (fun _ => iprop(((o2Loc d ↦[blkA (wid (cL L) (sL L))]{fullShare} G2 m d) ∗ (o3Loc d ↦[blkB (wid (cL L) (sL L))]{fullShare} G3 m d)) ∗ _))
  iintro ⟨#Hlv, -, ⟨Ha1, Ha2, Ha4, Ho2, Ho3⟩, ⟨⟨%fi, HsI⟩, ⟨%fA, HsA⟩, ⟨%fB, HsB⟩, Hbufs⟩,
    ⟨Hs3, Hs4, Hc0, Hc1, Hc2, Hc3, Hc4, Hc5, Hc6, Hc7, Hc8, Hc9, Hc10, Hc11, Hsems⟩, HO⟩
  ihave HO := (owesN_intro (F := F) (thr d L) O W) $$ HO
  -- the output block as its two row ranges
  ihave Ho2' := (Entails.of_eq (congrArg (fun S => (o2Loc d ↦[S]{fullShare} m (o2Loc d) : sProp 𝕄)) (rowsA_union (wid (cL L) (sL L))).symm)) $$ Ho2
  ihave Ho2s := (pointsTo_union (ℓ := o2Loc d) (q := fullShare) (f := m (o2Loc d)) (rowsA_disjoint (256 * (wid (cL L) (sL L)).val))).1 $$ Ho2'
  icases Ho2s with ⟨Ho2a, Ho2b⟩
  -- the first part
  rw [wp_bind]
  iapply (wp_wand_r frame (wpE (defs₀ (F := F)) 𝒱₀ (thr d L) none) Set.univ)
  isplitl [HO Ha1 Ha4 HsI HsA Hs3 Hs4 Hc0 Hc1]
  · iapply (wp_part195 m d L hpre O hO W _ fi fA)
    isplitr; · iexact Hlv
    isplitl [HO]; · iexact HO
    isplitl [Ha1]; · iexact Ha1
    isplitl [Ha4]; · iexists _; iexact Ha4
    isplitl [HsI]; · iexact HsI
    isplitl [HsA]; · iexact HsA
    isplitl [Hs3]; · iexact Hs3
    isplitl [Hs4]; · iexact Hs4
    isplitl [Hc0]; · iexact Hc0
    iexact Hc1
  iintro %r H
  obtain ⟨v2, v3, v4, c0, c1⟩ := r
  icases H with ⟨HO, Ha4, ⟨%fI1, HsI⟩, HB0, HB1, Hc0, Hc1⟩
  dsimp only
  -- the second part
  rw [wp_bind]
  iapply (wp_wand_r frame (wpE (defs₀ (F := F)) 𝒱₀ (thr d L) none) Set.univ)
  isplitl [HO HB0 Ho2a HsI Ha2 Hc2 Hc3]
  · iapply (wp_part196 m d L O hO W v2 c0 c1 _ fI1)
    isplitr; · iexact Hlv
    isplitl [HO]; · iexact HO
    isplitl [HB0]; · iexact HB0
    isplitl [Ho2a]; · iexact Ho2a
    isplitl [HsI]; · iexact HsI
    isplitl [Ha2]; · iexact Ha2
    isplitl [Hc2]; · iexact Hc2
    iexact Hc3
  iintro %_ H
  icases H with ⟨HO, Hs3, HslotA0, Ho2a, HsI, Ha2, Hc2, Hc3⟩
  -- from the third part to the end
  iapply (wp_wand_r frame (wpE (defs₀ (F := F)) 𝒱₀ (thr d L) none) Set.univ)
  isplitl [HO HsI Ha4 Ha2 Hs3 HB1 HsB Ho2b Ho3 Hc4 Hc5 Hc6 Hc7 Hc8 Hc9 Hc10 Hc11]
  · iapply (rest_from_197 m d L hpre O W hO _ v2 v3 v4 fB)
    isplitr; · iexact Hlv
    isplitl [HO]; · iexact HO
    isplitl [HsI]; · iexact HsI
    isplitl [Ha4]; · iexact Ha4
    isplitl [Ha2]; · iexact Ha2
    isplitl [Hs3]; · iexact Hs3
    isplitl [HB1]; · iexact HB1
    isplitl [HsB]; · iexact HsB
    isplitl [Ho2b]; · iexact Ho2b
    isplitl [Ho3]; · iexact Ho3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hc11
  iintro %_ H
  icases H with ⟨Ho2b, ⟨%fA1, HslotA1⟩, Ho3, HsB, HsI, Hs3, Hs4, Hc4, Hc5, Hc6, Hc7, Hc8, Hc9, Hc10, Hc11, HO⟩
  -- the result's block whole, the rows scratch whole
  ihave Ho2 := (pointsTo_union (ℓ := o2Loc d) (q := fullShare) (f := G2 m d) (rowsA_disjoint (256 * (wid (cL L) (sL L)).val))).2 $$ [Ho2a Ho2b]
  · isplitl [Ho2a]; · iexact Ho2a
    iexact Ho2b
  ihave Ho2' := (Entails.of_eq (congrArg (fun S => (o2Loc d ↦[S]{fullShare} G2 m d : sProp 𝕄)) (rowsA_union (wid (cL L) (sL L))))) $$ Ho2
  ihave HsA := (pointsTo_join (ℓ := (thr d L).loc cc1_scratch1) (q := fullShare) slots_disjoint) $$ [HslotA0 HslotA1]
  · isplitl [HslotA0]; · iexact HslotA0
    iexact HslotA1
  ihave HsA' := (Entails.of_eq (congrArg (fun S => ((thr d L).loc cc1_scratch1 ↦[S]{fullShare} (remA 1 0).piecewise fA1 (FA m d ((L 0).castLE hcore1) ((L 1).castLE hsub1) (widL L)) : sProp 𝕄)) slots_union)) $$ HsA
  isplitl [Ho2' Ho3]
  · isplitl [Ho2']; · iexact Ho2'
    iexact Ho3
  isplitl [HsI HsA' HsB Hbufs]
  · isplitl [HsI]; · iexact HsI
    isplitl [HsA']; · iexists _; iexact HsA'
    isplitl [HsB]; · iexact HsB
    iexact Hbufs
  isplitl [Hs3 Hs4 Hc0 Hc1 Hc2 Hc3 Hc4 Hc5 Hc6 Hc7 Hc8 Hc9 Hc10 Hc11 Hsems]
  · isplitl [Hs3]; · iexact Hs3
    isplitl [Hs4]; · iexact Hs4
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexact Hsems
  iexact HO

end Body

end Cert.Proof.KI.K1

end
-- ==== Proof.K1Obl.lean ====
/-
  The second kernel's task as the launch asks for it: for every vector subcore of the call's grid, from the task's
  operands (read shares of the two index arrays and of the table, the worker's blocks of the two outputs) to its results
  (the blocks at the lookups' values), the subcore's own storage handed back.
-/
import proofs.«215896_g38397007626377_fold_wed_m_942_26_alg».proof.Proof.K1Body
import proofs.«215896_g38397007626377_fold_wed_m_942_26_alg».proof.Proof.Gen.KernelIdeal.Skeleton

noncomputable section

namespace Cert.Proof.KI.K1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.KernelIdeal.main_arg1_scv : Memref Cert.KernelIdeal.sig Kind.scVector Space.hbm Cert.KernelIdeal.S16384 EltTy.i32)
local notation "a2W" => (Memref.whole Cert.KernelIdeal.main_arg2_scv : Memref Cert.KernelIdeal.sig Kind.scVector Space.hbm Cert.KernelIdeal.S327680 EltTy.i32)
local notation "tbW" => (Memref.whole Cert.KernelIdeal.main_arg4_scv : Memref Cert.KernelIdeal.sig Kind.scVector Space.hbm Cert.KernelIdeal.S1000000x64 EltTy.f32)
local notation "o2W" => (Memref.whole Cert.KernelIdeal.main_v1_0_scv : Memref Cert.KernelIdeal.sig Kind.scVector Space.hbm Cert.KernelIdeal.S8192x128 EltTy.f32)
local notation "o3W" => (Memref.whole Cert.KernelIdeal.main_v1_1_scv : Memref Cert.KernelIdeal.sig Kind.scVector Space.hbm Cert.KernelIdeal.S16384x1280 EltTy.f32)
local notation "idW" => (Memref.whole Cert.KernelIdeal.cc1_scratch0 : Memref Cert.KernelIdeal.sig Kind.scVector Space.vmem Cert.KernelIdeal.S320 EltTy.i32)
local notation "rAW" => (Memref.whole Cert.KernelIdeal.cc1_scratch1 : Memref Cert.KernelIdeal.sig Kind.scVector Space.vmem Cert.KernelIdeal.S2x128x128 EltTy.f32)
local notation "rBW" => (Memref.whole Cert.KernelIdeal.cc1_scratch2 : Memref Cert.KernelIdeal.sig Kind.scVector Space.vmem Cert.KernelIdeal.S2x16x1280 EltTy.f32)

variable (m : (ℓ : Loc nD τ sig) → Buf (Elt F) ℓ)
variable [FloatOps F]

/-! ## The launch theorem's obligation for call 1 -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__sc_gather_out (coordsV c s)
          a1W (Memref.isWhole_whole _) a2W (Memref.isWhole_whole _) tbW (Memref.isWhole_whole _)
          o2W (Memref.isWhole_whole _) o3W (Memref.isWhole_whole _) idW (Memref.isWhole_whole _) rAW (Memref.isWhole_whole _)
          rBW (Memref.isWhole_whole _) cc1_scratch3 cc1_scratch4 cc1_scoped0 cc1_scoped1 cc1_scoped2 cc1_scoped3 cc1_scoped4 cc1_scoped5
          cc1_scoped6 cc1_scoped7 cc1_scoped8 cc1_scoped9 cc1_scoped10 cc1_scoped11) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile_body m hpre d (coordsV ⟨_, hc.1⟩ ⟨_, hc.2⟩) O W hO).trans (wp_mono frame _ _ fun _ => obl_post)

end Cert.Proof.KI.K1

end
-- ==== Proof.BwK1Common.lean ====
import proofs.«215896_g38397007626377_fold_wed_m_942_26_alg».proof.Proof.BwKISetup
import proofs.«215896_g38397007626377_fold_wed_m_942_26_alg».proof.Proof.Gen.Kernel.Skeleton
import Idealize.ShloMosaic.Lib.Pipeline.Value

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

abbrev thr (d : Dev nD) (L : grid1.Coords) : Thread nD τ := V d ((L 0).castLE hcore1) ((L 1).castLE hsub1)

/-! ## A 64-word destination piece of a rows scratch and a row of the table, as the body slices them -/

section Views

variable (d : Dev nD) (cc : Fin τ.nSC) (jj : Fin τ.nSub)

/-- The 64 words at row r, columns x0 .. x0+63 of slot b of the [2,128,128] scratch. -/
abbrev dstA (off : Fin 3 → ℕ) (hin : ∀ a, off a + S1x1x64.size a ≤ S2x128x128.size a) : Memref sig .scVector .vmem S64 .f32 :=
  ((rAW).slice (Rect.unit (s := S2x128x128) off S1x1x64.size hin) (fun _ => rfl)).squeeze S64 squeezes_S1x1x64_S64
/-- The same of the [2,16,1280] scratch. -/
abbrev dstB (off : Fin 3 → ℕ) (hin : ∀ a, off a + S1x1x64.size a ≤ S2x16x1280.size a) : Memref sig .scVector .vmem S64 .f32 :=
  ((rBW).slice (Rect.unit (s := S2x16x1280) off S1x1x64.size hin) (fun _ => rfl)).squeeze S64 squeezes_S1x1x64_S64
/-- Row v of the table. -/
abbrev srcT (soff : Fin 2 → ℕ) (hin : ∀ a, soff a + S1x64.size a ≤ S1000000x64.size a) : Memref sig .scVector .hbm S64 .f32 :=
  ((tbW).slice (Rect.unit (s := S1000000x64) soff S1x64.size hin) (fun _ => rfl)).squeeze S64 squeezes_S1x64_S64

theorem dstA_set (off : Fin 3 → ℕ) (hin) : (dstA off hin).view.set = (Rect.unit (s := S2x128x128) off S1x1x64.size hin).set :=
  (View.set_reshape _ _).trans (View.set_slice_whole _ _)
theorem dstB_set (off : Fin 3 → ℕ) (hin) : (dstB off hin).view.set = (Rect.unit (s := S2x16x1280) off S1x1x64.size hin).set :=
  (View.set_reshape _ _).trans (View.set_slice_whole _ _)

theorem srcT_set (soff : Fin 2 → ℕ) (hin) : (srcT soff hin).view.set = (Rect.unit (s := S1000000x64) soff S1x64.size hin).set :=
  (View.set_reshape _ _).trans (View.set_slice_whole _ _)

theorem sq3 (x : S64.Idx) : Shape.reshapeEquiv (s := S1x1x64) (s' := S64) squeezes_S1x1x64_S64.numel_eq x
    = (fun a => if h : a = 2 then ⟨(x 0).val, by subst h; exact (x 0).isLt⟩ else ⟨0, by fin_cases a <;> first | exact absurd rfl h | decide⟩ : S1x1x64.Idx) := by
  apply Shape.reshapeEquiv_eq_of_rowMajor
  rw [Shape.rowMajor_val_three, Shape.rowMajor_val_one]
  simp

theorem dstA_emb (off : Fin 3 → ℕ) (hin) (x : S64.Idx) (a : Fin 3) :
    (((dstA off hin).view.emb x) a).val = off a + (if a = 2 then (x 0).val else 0) := by
  show ((Rect.unit (s := S2x128x128) off S1x1x64.size hin).emb (Shape.reshapeEquiv squeezes_S1x1x64_S64.numel_eq x) a : ℕ) = _
  rw [Rect.emb_apply, sq3]
  fin_cases a <;> simp
theorem dstB_emb (off : Fin 3 → ℕ) (hin) (x : S64.Idx) (a : Fin 3) :
    (((dstB off hin).view.emb x) a).val = off a + (if a = 2 then (x 0).val else 0) := by
  show ((Rect.unit (s := S2x16x1280) off S1x1x64.size hin).emb (Shape.reshapeEquiv squeezes_S1x1x64_S64.numel_eq x) a : ℕ) = _
  rw [Rect.emb_apply, sq3]
  fin_cases a <;> simp

theorem srcT_emb (soff : Fin 2 → ℕ) (hin) (x : S64.Idx) (a : Fin 2) :
    (((srcT soff hin).view.emb x) a).val = soff a + (if a = 1 then (x 0).val else 0) := by
  have hx : (x 0).val < 64 := (x 0).isLt
  have hz : Shape.reshapeEquiv (s := S1x64) (s' := S64) squeezes_S1x64_S64.numel_eq x = (fun a => if h : a = 1 then ⟨(x 0).val, by subst h; exact hx⟩ else ⟨0, by fin_cases a <;> first | exact absurd rfl h | decide⟩ : S1x64.Idx) := by
    apply Shape.reshapeEquiv_eq_of_rowMajor
    rw [Shape.rowMajor_val_two, Shape.rowMajor_val_one]
    simp
  show ((Rect.unit (s := S1000000x64) soff S1x64.size hin).emb (Shape.reshapeEquiv squeezes_S1x64_S64.numel_eq x) a : ℕ) = _
  rw [Rect.emb_apply, hz]
  fin_cases a <;> simp

/-- What a copy of a table row into a piece leaves at the piece's x-th word: the row's x-th word. -/
theorem write_valA (off : Fin 3 → ℕ) (hin) (soff : Fin 2 → ℕ) (hsin)
    (fd : Buf (Elt F) ((V d cc jj).loc cc1_scratch1)) (tbl : Buf (Elt F) (a4Loc d)) (x : S64.Idx) :
    ((dstA off hin).view.write (Elt F) fd ((ReadAs.same : ReadAs (Elt F) S64 .f32 S64 .f32).apply ((srcT soff hsin).view.read (Elt F) tbl)) Finset.univ ((dstA off hin).view.emb x) : Elt F .f32)
      = tbl ((srcT soff hsin).view.emb x) := by
  rw [View.write_emb_of_mem _ _ (Finset.mem_univ x)]
  rfl
theorem write_valB (off : Fin 3 → ℕ) (hin) (soff : Fin 2 → ℕ) (hsin)
    (fd : Buf (Elt F) ((V d cc jj).loc cc1_scratch2)) (tbl : Buf (Elt F) (a4Loc d)) (x : S64.Idx) :
    ((dstB off hin).view.write (Elt F) fd ((ReadAs.same : ReadAs (Elt F) S64 .f32 S64 .f32).apply ((srcT soff hsin).view.read (Elt F) tbl)) Finset.univ ((dstB off hin).view.emb x) : Elt F .f32)
      = tbl ((srcT soff hsin).view.emb x) := by
  rw [View.write_emb_of_mem _ _ (Finset.mem_univ x)]
  rfl
end Views

/-! ## One issue of a batch's next transfer: a table row into a piece of a rows scratch -/

section Issue

variable (d : Dev nD) (cc : Fin τ.nSC) (jj : Fin τ.nSub)

theorem issueA {n : ℕ} {α : Type} (sem : DmaSem sig) (N : ℕ) (off : Fin 3 → ℕ) (hin) (soff : Fin 2 → ℕ) (hsin)
    (hN : (dstA off hin).view.dmaCredit = N)
    (D : Fin n → sProp 𝕄) (j u : ℕ) (hj : j < n) (hu : u ≤ j * N)
    (R : Finset (Idx ((V d cc jj).loc cc1_scratch1))) (hsub : (dstA off hin).view.set ⊆ R)
    (q : PosShare TreeShare) (tbl : Buf (Elt F) (a4Loc d)) (f0 : Buf (Elt F) ((V d cc jj).loc cc1_scratch1))
    (hD : ((V d cc jj).loc cc1_scratch1 ↦[(dstA off hin).view.set]{fullShare}
            ((dstA off hin).view.write (Elt F) f0 ((ReadAs.same : ReadAs (Elt F) S64 .f32 S64 .f32).apply ((srcT soff hsin).view.read (Elt F) tbl)) Finset.univ) : sProp 𝕄) ⊢ D ⟨j, hj⟩)
    {hs hd ht} {k : PUnit → Prog (TpuEff nD τ sig (Elt F) Λ₀ (V d cc jj).2) α} {Q : α → sProp 𝕄} :
    iprop((a4Loc d ↦{q} tbl) ∗ ((V d cc jj).loc cc1_scratch1 ↦[R]{fullShare} f0)
        ∗ Transfers.Batch countersEmb (V d cc jj) (.dma sem) (none : HIx 2) N D j u)
      ⊢ iprop((iprop((a4Loc d ↦{q.left} tbl) ∗ ((V d cc jj).loc cc1_scratch1 ↦[R \ (dstA off hin).view.set]{fullShare} f0)
            ∗ Transfers.Batch countersEmb (V d cc jj) (.dma sem) (none : HIx 2) N D (j + 1) u)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstA off hin)) .same (.dma sem) hs hd ht) k) Q) := by
  iintro ⟨Ht, Hr, HB⟩ Hk
  ihave Ht2 := (pointsTo_share (PosShare.mem_left_op_right q)).1 $$ Ht
  icases Ht2 with ⟨Htl, Htr⟩
  ihave Hs := (pointsTo_split_subset (Finset.subset_univ (srcT soff hsin).view.set)).1 $$ Htr
  icases Hs with ⟨Hs, -⟩
  ihave Hr2 := (pointsTo_split_subset hsub).1 $$ Hr
  icases Hr2 with ⟨Hd, Hrest⟩
  iapply (Transfers.wp_dmaBatch countersEmb 𝒱₀ (V d cc jj) none (none : HIx 2) N
    (dst := dstA off hin) (src := srcT soff hsin) (sm := .dma sem) (show (dstA off hin).view.amount (.dma sem) = N from hN) (Finset.Subset.refl _) hj hu
    (q := q.right) (fs := tbl) (fd := f0) ?hD) $$ [Hs Hd HB]
  case hD =>
    iintro ⟨Hd, -⟩
    iapply hD; iexact Hd
  · isplitl [Hs]; · iexact Hs
    isplitl [Hd]; · iexact Hd
    iexact HB
  iintro HB
  iapply Hk
  isplitl [Htl]; · iexact Htl
  isplitl [Hrest]; · iexact Hrest
  iexact HB

theorem issueB {n : ℕ} {α : Type} (sem : DmaSem sig) (N : ℕ) (off : Fin 3 → ℕ) (hin) (soff : Fin 2 → ℕ) (hsin)
    (hN : (dstB off hin).view.dmaCredit = N)
    (D : Fin n → sProp 𝕄) (j u : ℕ) (hj : j < n) (hu : u ≤ j * N)
    (R : Finset (Idx ((V d cc jj).loc cc1_scratch2))) (hsub : (dstB off hin).view.set ⊆ R)
    (q : PosShare TreeShare) (tbl : Buf (Elt F) (a4Loc d)) (f0 : Buf (Elt F) ((V d cc jj).loc cc1_scratch2))
    (hD : ((V d cc jj).loc cc1_scratch2 ↦[(dstB off hin).view.set]{fullShare}
            ((dstB off hin).view.write (Elt F) f0 ((ReadAs.same : ReadAs (Elt F) S64 .f32 S64 .f32).apply ((srcT soff hsin).view.read (Elt F) tbl)) Finset.univ) : sProp 𝕄) ⊢ D ⟨j, hj⟩)
    {hs hd ht} {k : PUnit → Prog (TpuEff nD τ sig (Elt F) Λ₀ (V d cc jj).2) α} {Q : α → sProp 𝕄} :
    iprop((a4Loc d ↦{q} tbl) ∗ ((V d cc jj).loc cc1_scratch2 ↦[R]{fullShare} f0)
        ∗ Transfers.Batch countersEmb (V d cc jj) (.dma sem) (none : HIx 2) N D j u)
      ⊢ iprop((iprop((a4Loc d ↦{q.left} tbl) ∗ ((V d cc jj).loc cc1_scratch2 ↦[R \ (dstB off hin).view.set]{fullShare} f0)
            ∗ Transfers.Batch countersEmb (V d cc jj) (.dma sem) (none : HIx 2) N D (j + 1) u)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstB off hin)) .same (.dma sem) hs hd ht) k) Q) := by
  iintro ⟨Ht, Hr, HB⟩ Hk
  ihave Ht2 := (pointsTo_share (PosShare.mem_left_op_right q)).1 $$ Ht
  icases Ht2 with ⟨Htl, Htr⟩
  ihave Hs := (pointsTo_split_subset (Finset.subset_univ (srcT soff hsin).view.set)).1 $$ Htr
  icases Hs with ⟨Hs, -⟩
  ihave Hr2 := (pointsTo_split_subset hsub).1 $$ Hr
  icases Hr2 with ⟨Hd, Hrest⟩
  iapply (Transfers.wp_dmaBatch countersEmb 𝒱₀ (V d cc jj) none (none : HIx 2) N
    (dst := dstB off hin) (src := srcT soff hsin) (sm := .dma sem) (show (dstB off hin).view.amount (.dma sem) = N from hN) (Finset.Subset.refl _) hj hu
    (q := q.right) (fs := tbl) (fd := f0) ?hD) $$ [Hs Hd HB]
  case hD =>
    iintro ⟨Hd, -⟩
    iapply hD; iexact Hd
  · isplitl [Hs]; · iexact Hs
    isplitl [Hd]; · iexact Hd
    iexact HB
  iintro HB
  iapply Hk
  isplitl [Htl]; · iexact Htl
  isplitl [Hrest]; · iexact Hrest
  iexact HB

end Issue

/-! ## One wait of a batch: not the last (nothing learnt), and the last (every delivery back) -/

section Wait

variable (c : Thread nD τ)

/-- What the thread owes, with the waits at index none it has made since the start recorded. -/
abbrev owesN (O : CellTallies nD τ sig (HIx 2)) (W : Waits sig (HIx 2)) : sProp 𝕄 :=
  iprop(∃ W', ⌜∀ p ∈ W', p ∈ W ∨ p.2 = none⌝ ∗ owes c O W')

theorem owesN_intro (O : CellTallies nD τ sig (HIx 2)) (W : Waits sig (HIx 2)) : (owes c O W : sProp 𝕄) ⊢ owesN (F := F) c O W := by
  iintro HO; iexists W; isplitr
  · ipureintro; exact fun p hp => .inl hp
  · iexact HO

theorem owesN_insert (O : CellTallies nD τ sig (HIx 2)) (W W' : Waits sig (HIx 2)) (sm : SemLoc sig) (hW : ∀ p ∈ W', p ∈ W ∨ p.2 = none) :
    (owes c O (insert (sm, (none : HIx 2)) W') : sProp 𝕄) ⊢ owesN (F := F) c O W := by
  iintro HO; iexists (insert (sm, (none : HIx 2)) W'); isplitr
  · ipureintro; intro p hp
    rcases Finset.mem_insert.mp hp with hp | hp
    · subst hp; exact .inr rfl
    · exact hW p hp
  · iexact HO

theorem waitSkip {n : ℕ} {α : Type} (sem : DmaSem sig) (N : ℕ) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (D : Fin n → sProp 𝕄) (u : ℕ) (hu : u + N < N * n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n u ∗ owesN (F := F) c O W)
      ⊢ iprop((iprop(Transfers.Batch countersEmb c (.dma sem) (none : HIx 2) N D n (u + N) ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) := by
  iintro ⟨#Hlv, HB, %W', %hW', HO⟩ Hk
  iapply (Transfers.wp_waitBatchO countersEmb 𝒱₀ c none (none : HIx 2) hN hu (O := O) (W := W')) $$ [HB HO]
  · isplitl [HB]; · iexact HB
    isplitl [HO]; · iexact HO
    iapply ((K (F := F)).mayWait_none (SemLoc.dma sem) hO); iexact Hlv
  iintro ⟨HB, HO⟩
  iapply Hk
  isplitl [HB]; · iexact HB
  iapply (owesN_insert (F := F) c O W W' (SemLoc.dma sem) hW'); iexact HO

theorem waitLast {n : ℕ} {α : Type} (sem : DmaSem sig) (N : ℕ) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (hN0 : 0 < N) (D : Fin n → sProp 𝕄) (u : ℕ) (hu : u + N = N * n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n u ∗ owesN (F := F) c O W)
      ⊢ iprop((iprop(bigSep Finset.univ D ∗ semVal (c, SemLoc.dma sem) 0 ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) := by
  iintro ⟨#Hlv, HB, %W', %hW', HO⟩ Hk
  iapply (Transfers.wp_waitBatchLastO countersEmb 𝒱₀ c none (none : HIx 2) hN hN0 hu (O := O) (W := W')) $$ [HB HO]
  · isplitl [HB]; · iexact HB
    isplitl [HO]; · iexact HO
    iapply ((K (F := F)).mayWait_none (SemLoc.dma sem) hO); iexact Hlv
  iintro ⟨HD, Hv, HO⟩
  iapply Hk
  isplitl [HD]; · iexact HD
  isplitl [Hv]; · iexact Hv
  iapply (owesN_insert (F := F) c O W W' (SemLoc.dma sem) hW'); iexact HO

end Wait

/-! ## The pieces of a slot, by transfer number -/

section Sets

/-- The number of the transfer whose piece holds an element: of the [2,128,128] scratch, row r columns 64 h .. 64 h + 63 is
    piece 2 r + h; of the [2,16,1280] scratch, row r columns 64 s .. is piece 20 r + s. -/
def pieceNoA (y : S2x128x128.Idx) : ℕ := 2 * (y 1).val + (y 2).val / 64
def pieceNoB (y : S2x16x1280.Idx) : ℕ := 20 * (y 1).val + (y 2).val / 64

def pieceA (b t : ℕ) : Finset S2x128x128.Idx := Finset.univ.filter fun y => (y 0).val = b ∧ pieceNoA y = t
def remA (b t : ℕ) : Finset S2x128x128.Idx := Finset.univ.filter fun y => (y 0).val = b ∧ t ≤ pieceNoA y
def pieceB (b t : ℕ) : Finset S2x16x1280.Idx := Finset.univ.filter fun y => (y 0).val = b ∧ pieceNoB y = t
def remB (b t : ℕ) : Finset S2x16x1280.Idx := Finset.univ.filter fun y => (y 0).val = b ∧ t ≤ pieceNoB y

theorem mem_pieceA (b t : ℕ) (y : S2x128x128.Idx) : y ∈ pieceA b t ↔ ((y 0).val = b ∧ 2 * (y 1).val + (y 2).val / 64 = t) := by
  unfold pieceA pieceNoA; rw [Finset.mem_filter]; simp only [Finset.mem_univ, true_and]
theorem mem_remA (b t : ℕ) (y : S2x128x128.Idx) : y ∈ remA b t ↔ ((y 0).val = b ∧ t ≤ 2 * (y 1).val + (y 2).val / 64) := by
  unfold remA pieceNoA; rw [Finset.mem_filter]; simp only [Finset.mem_univ, true_and]
theorem mem_pieceB (b t : ℕ) (y : S2x16x1280.Idx) : y ∈ pieceB b t ↔ ((y 0).val = b ∧ 20 * (y 1).val + (y 2).val / 64 = t) := by
  unfold pieceB pieceNoB; rw [Finset.mem_filter]; simp only [Finset.mem_univ, true_and]
theorem mem_remB (b t : ℕ) (y : S2x16x1280.Idx) : y ∈ remB b t ↔ ((y 0).val = b ∧ t ≤ 20 * (y 1).val + (y 2).val / 64) := by
  unfold remB pieceNoB; rw [Finset.mem_filter]; simp only [Finset.mem_univ, true_and]

theorem rectA_eq (b t : ℕ) (hin) : (Rect.unit (s := S2x128x128) ![b, t / 2, (t % 2) * 64] S1x1x64.size hin).set = pieceA b t := by
  ext y
  have h2 : (y 2).val < 128 := (y 2).isLt
  rw [Rect.mem_set_unit, mem_pieceA]
  constructor
  · intro H
    have a0 : b ≤ (y 0).val ∧ (y 0).val < b + 1 := H 0
    have a1 : t / 2 ≤ (y 1).val ∧ (y 1).val < t / 2 + 1 := H 1
    have a2 : (t % 2) * 64 ≤ (y 2).val ∧ (y 2).val < (t % 2) * 64 + 64 := H 2
    omega
  · intro H a; fin_cases a
    · show b ≤ (y 0).val ∧ (y 0).val < b + 1; omega
    · show t / 2 ≤ (y 1).val ∧ (y 1).val < t / 2 + 1; omega
    · show (t % 2) * 64 ≤ (y 2).val ∧ (y 2).val < (t % 2) * 64 + 64; omega

theorem rectB_eq (b t : ℕ) (hin) : (Rect.unit (s := S2x16x1280) ![b, t / 20, (t % 20) * 64] S1x1x64.size hin).set = pieceB b t := by
  ext y
  have h2 : (y 2).val < 1280 := (y 2).isLt
  rw [Rect.mem_set_unit, mem_pieceB]
  constructor
  · intro H
    have a0 : b ≤ (y 0).val ∧ (y 0).val < b + 1 := H 0
    have a1 : t / 20 ≤ (y 1).val ∧ (y 1).val < t / 20 + 1 := H 1
    have a2 : (t % 20) * 64 ≤ (y 2).val ∧ (y 2).val < (t % 20) * 64 + 64 := H 2
    omega
  · intro H a; fin_cases a
    · show b ≤ (y 0).val ∧ (y 0).val < b + 1; omega
    · show t / 20 ≤ (y 1).val ∧ (y 1).val < t / 20 + 1; omega
    · show (t % 20) * 64 ≤ (y 2).val ∧ (y 2).val < (t % 20) * 64 + 64; omega

theorem pieceA_sub (b t : ℕ) : pieceA b t ⊆ remA b t := by
  intro y; rw [mem_pieceA, mem_remA]; omega
theorem remA_step (b t : ℕ) : remA b t \ pieceA b t = remA b (t + 1) := by
  ext y; rw [Finset.mem_sdiff, mem_pieceA, mem_remA, mem_remA]; omega
theorem pieceB_sub (b t : ℕ) : pieceB b t ⊆ remB b t := by
  intro y; rw [mem_pieceB, mem_remB]; omega
theorem remB_step (b t : ℕ) : remB b t \ pieceB b t = remB b (t + 1) := by
  ext y; rw [Finset.mem_sdiff, mem_pieceB, mem_remB, mem_remB]; omega

end Sets

/-! ## The index words a trip reads -/

section Words

/-- Lane u of a 16-word vector, as the body extracts it. -/
theorem lane_eq (v : S16.Idx → BitVec 32) (u : ℕ) (hu : u < 16) (hc : S16.ShapeCasts S16) (hs : S16.Slices ![u] S1) (hp : ∀ a, (![0] : Fin 1 → ℕ) a < S1.size a) :
    extractAt ![0] (extractStridedSlice S1 ![u] (shapeCast S16 v hc) hs) hp = v (ValueIdx.ix1 (⟨u, hu⟩ : Fin 16)) := by
  unfold extractAt
  rw [extractStridedSlice_apply ![u] _ hs _ (ValueIdx.ix1 (⟨u, hu⟩ : Fin 16)) (by intro a; fin_cases a; simp [ValueIdx.ix1]), shapeCast_self]

/-- A word below 1,000,000 names a row of the table: the body's check of the row slice passes. -/
theorem chk_of_lt (v : BitVec 32) (hv : v.toNat < 1000000) : ∀ a, (![v.toNat, 0] : Fin 2 → ℕ) a + S1x64.size a ≤ S1000000x64.size a := by
  intro a; fin_cases a
  · show v.toNat + 1 ≤ 1000000; omega
  · show 0 + 64 ≤ 64; omega

end Words

end Cert.Proof.KW.K1

end
-- ==== Proof.BwK1A.lean ====
import proofs.«215896_g38397007626377_fold_wed_m_942_26_alg».proof.Proof.BwKISetup
import proofs.«215896_g38397007626377_fold_wed_m_942_26_alg».proof.Proof.Gen.Kernel.Skeleton
import proofs.«215896_g38397007626377_fold_wed_m_942_26_alg».proof.Proof.BwK1Common

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

/-! ## The destination pieces' offsets in closed form: copy 16 k + u of a chunk lands at row (16 k + u) / 2, half (16 k + u) % 2 -/

section Offsets
theorem off_t1_0 : ∀ k : Fin k1_t1_loop.trips, k1_off5 k 0#32 = ![0, (16 * k.val + 0) / 2, ((16 * k.val + 0) % 2) * 64] := by decide +kernel
theorem off_t1_1 : ∀ k : Fin k1_t1_loop.trips, k1_off7 k 1#32 = ![0, (16 * k.val + 1) / 2, ((16 * k.val + 1) % 2) * 64] := by decide +kernel
theorem off_t1_2 : ∀ k : Fin k1_t1_loop.trips, k1_off9 k 2#32 = ![0, (16 * k.val + 2) / 2, ((16 * k.val + 2) % 2) * 64] := by decide +kernel
theorem off_t1_3 : ∀ k : Fin k1_t1_loop.trips, k1_off11 k 3#32 = ![0, (16 * k.val + 3) / 2, ((16 * k.val + 3) % 2) * 64] := by decide +kernel
theorem off_t1_4 : ∀ k : Fin k1_t1_loop.trips, k1_off13 k 4#32 = ![0, (16 * k.val + 4) / 2, ((16 * k.val + 4) % 2) * 64] := by decide +kernel
theorem off_t1_5 : ∀ k : Fin k1_t1_loop.trips, k1_off15 k 5#32 = ![0, (16 * k.val + 5) / 2, ((16 * k.val + 5) % 2) * 64] := by decide +kernel
theorem off_t1_6 : ∀ k : Fin k1_t1_loop.trips, k1_off17 k 6#32 = ![0, (16 * k.val + 6) / 2, ((16 * k.val + 6) % 2) * 64] := by decide +kernel
theorem off_t1_7 : ∀ k : Fin k1_t1_loop.trips, k1_off19 k 7#32 = ![0, (16 * k.val + 7) / 2, ((16 * k.val + 7) % 2) * 64] := by decide +kernel
theorem off_t1_8 : ∀ k : Fin k1_t1_loop.trips, k1_off21 k 8#32 = ![0, (16 * k.val + 8) / 2, ((16 * k.val + 8) % 2) * 64] := by decide +kernel
theorem off_t1_9 : ∀ k : Fin k1_t1_loop.trips, k1_off23 k 9#32 = ![0, (16 * k.val + 9) / 2, ((16 * k.val + 9) % 2) * 64] := by decide +kernel
theorem off_t1_10 : ∀ k : Fin k1_t1_loop.trips, k1_off25 k 10#32 = ![0, (16 * k.val + 10) / 2, ((16 * k.val + 10) % 2) * 64] := by decide +kernel
theorem off_t1_11 : ∀ k : Fin k1_t1_loop.trips, k1_off27 k 11#32 = ![0, (16 * k.val + 11) / 2, ((16 * k.val + 11) % 2) * 64] := by decide +kernel
theorem off_t1_12 : ∀ k : Fin k1_t1_loop.trips, k1_off29 k 12#32 = ![0, (16 * k.val + 12) / 2, ((16 * k.val + 12) % 2) * 64] := by decide +kernel
theorem off_t1_13 : ∀ k : Fin k1_t1_loop.trips, k1_off31 k 13#32 = ![0, (16 * k.val + 13) / 2, ((16 * k.val + 13) % 2) * 64] := by decide +kernel
theorem off_t1_14 : ∀ k : Fin k1_t1_loop.trips, k1_off33 k 14#32 = ![0, (16 * k.val + 14) / 2, ((16 * k.val + 14) % 2) * 64] := by decide +kernel
theorem off_t1_15 : ∀ k : Fin k1_t1_loop.trips, k1_off35 k = ![0, (16 * k.val + 15) / 2, ((16 * k.val + 15) % 2) * 64] := by decide +kernel
theorem off_t2_0 : ∀ k : Fin k1_t2_loop.trips, k1_off40 k 0#32 = ![1, (16 * k.val + 0) / 2, ((16 * k.val + 0) % 2) * 64] := by decide +kernel
theorem off_t2_1 : ∀ k : Fin k1_t2_loop.trips, k1_off42 k 1#32 = ![1, (16 * k.val + 1) / 2, ((16 * k.val + 1) % 2) * 64] := by decide +kernel
theorem off_t2_2 : ∀ k : Fin k1_t2_loop.trips, k1_off44 k 2#32 = ![1, (16 * k.val + 2) / 2, ((16 * k.val + 2) % 2) * 64] := by decide +kernel
theorem off_t2_3 : ∀ k : Fin k1_t2_loop.trips, k1_off46 k 3#32 = ![1, (16 * k.val + 3) / 2, ((16 * k.val + 3) % 2) * 64] := by decide +kernel
theorem off_t2_4 : ∀ k : Fin k1_t2_loop.trips, k1_off48 k 4#32 = ![1, (16 * k.val + 4) / 2, ((16 * k.val + 4) % 2) * 64] := by decide +kernel
theorem off_t2_5 : ∀ k : Fin k1_t2_loop.trips, k1_off50 k 5#32 = ![1, (16 * k.val + 5) / 2, ((16 * k.val + 5) % 2) * 64] := by decide +kernel
theorem off_t2_6 : ∀ k : Fin k1_t2_loop.trips, k1_off52 k 6#32 = ![1, (16 * k.val + 6) / 2, ((16 * k.val + 6) % 2) * 64] := by decide +kernel
theorem off_t2_7 : ∀ k : Fin k1_t2_loop.trips, k1_off54 k 7#32 = ![1, (16 * k.val + 7) / 2, ((16 * k.val + 7) % 2) * 64] := by decide +kernel
theorem off_t2_8 : ∀ k : Fin k1_t2_loop.trips, k1_off56 k 8#32 = ![1, (16 * k.val + 8) / 2, ((16 * k.val + 8) % 2) * 64] := by decide +kernel
theorem off_t2_9 : ∀ k : Fin k1_t2_loop.trips, k1_off58 k 9#32 = ![1, (16 * k.val + 9) / 2, ((16 * k.val + 9) % 2) * 64] := by decide +kernel
theorem off_t2_10 : ∀ k : Fin k1_t2_loop.trips, k1_off60 k 10#32 = ![1, (16 * k.val + 10) / 2, ((16 * k.val + 10) % 2) * 64] := by decide +kernel
theorem off_t2_11 : ∀ k : Fin k1_t2_loop.trips, k1_off62 k 11#32 = ![1, (16 * k.val + 11) / 2, ((16 * k.val + 11) % 2) * 64] := by decide +kernel
theorem off_t2_12 : ∀ k : Fin k1_t2_loop.trips, k1_off64 k 12#32 = ![1, (16 * k.val + 12) / 2, ((16 * k.val + 12) % 2) * 64] := by decide +kernel
theorem off_t2_13 : ∀ k : Fin k1_t2_loop.trips, k1_off66 k 13#32 = ![1, (16 * k.val + 13) / 2, ((16 * k.val + 13) % 2) * 64] := by decide +kernel
theorem off_t2_14 : ∀ k : Fin k1_t2_loop.trips, k1_off68 k 14#32 = ![1, (16 * k.val + 14) / 2, ((16 * k.val + 14) % 2) * 64] := by decide +kernel
theorem off_t2_15 : ∀ k : Fin k1_t2_loop.trips, k1_off70 k = ![1, (16 * k.val + 15) / 2, ((16 * k.val + 15) % 2) * 64] := by decide +kernel

end Offsets

/-! ## What the rows scratch holds when a chunk has landed -/

section Final

variable (m : (ℓ : Loc nD τ sig) → Buf (Elt F) ℓ) (d : Dev nD) (cc : Fin τ.nSC) (jj : Fin τ.nSub)

theorem inb000 : ∀ a, (![0, 0, 0] : Fin 3 → ℕ) a + S1x1x64.size a ≤ S2x128x128.size a := by decide
/-- What one piece's copy credits its semaphore. -/
def NA : ℕ := (dstA ![0, 0, 0] inb000).view.dmaCredit

/-- Slot b, row r of the scratch is row 256 w + 128 b + r of the worker's block of the [8192,128] result. -/
def FA (w : ℕ) : Buf (Elt F) ((V d cc jj).loc cc1_scratch1) :=
  fun y => G2 m d (ValueIdx.ix2 (⟨(256 * w + 128 * (y 0).val + (y 1).val) % 8192, Nat.mod_lt _ (by decide)⟩ : Fin 8192) (⟨(y 2).val, (y 2).isLt⟩ : Fin 128))

/-- The deliveries of a chunk's batch, by transfer number: piece t of slot b at the final contents. -/
def DA (w b : ℕ) : Fin 256 → sProp 𝕄 := fun t => (V d cc jj).loc cc1_scratch1 ↦[pieceA b t.val]{fullShare} FA m d cc jj w

/-- The index scratch holds the chunk's words: word i is word s + i of the output words. -/
def IdxHoldsA (s : ℕ) (fI : Buf (Elt F) ((V d cc jj).loc cc1_scratch0)) : Prop :=
  ∀ i : Fin 320, i.val < 256 → fI (ValueIdx.ix1 i) = m (a1Loc d) (ValueIdx.ix1 (⟨(s + i.val) % 16384, Nat.mod_lt _ (by decide)⟩ : Fin 16384))

end Final

/-! ## The value a piece's copy lands, and the issue with everything spelt for a chunk of the output words -/

section IssueA

variable (m : (ℓ : Loc nD τ sig) → Buf (Elt F) ℓ) (d : Dev nD) (cc : Fin τ.nSC) (jj : Fin τ.nSub)

theorem valueA (w b t : ℕ) (hw : w < 32) (hb : b < 2) (ht : t < 256) (hin) (v : BitVec 32) (hsin)
    (hv : v = m (a1Loc d) (ValueIdx.ix1 (⟨(512 * w + 256 * b + t) % 16384, Nat.mod_lt _ (by decide)⟩ : Fin 16384))) (hlt : v.toNat < 1000000)
    (f0 : Buf (Elt F) ((V d cc jj).loc cc1_scratch1)) (y : (dstA ![b, t / 2, (t % 2) * 64] hin).view.ty.Idx)
    (hy : y ∈ (dstA ![b, t / 2, (t % 2) * 64] hin).view.set) :
    ((dstA ![b, t / 2, (t % 2) * 64] hin).view.write (Elt F) f0
        ((ReadAs.same : ReadAs (Elt F) S64 .f32 S64 .f32).apply ((srcT ![v.toNat, 0] hsin).view.read (Elt F) (m (a4Loc d)))) Finset.univ y : Elt F .f32)
      = FA m d cc jj w y := by
  obtain ⟨x, -, rfl⟩ := Finset.mem_map.mp hy
  have hx : (x 0).val < 64 := (x 0).isLt
  rw [write_valA]
  have e0 : (((dstA ![b, t / 2, (t % 2) * 64] hin).view.emb x) 0).val = b := by rw [dstA_emb]; simp
  have e1 : (((dstA ![b, t / 2, (t % 2) * 64] hin).view.emb x) 1).val = t / 2 := by rw [dstA_emb]; simp
  have e2 : (((dstA ![b, t / 2, (t % 2) * 64] hin).view.emb x) 2).val = (t % 2) * 64 + (x 0).val := by rw [dstA_emb]; simp
  have s0 : (((srcT ![v.toNat, 0] hsin).view.emb x) 0).val = v.toNat := by rw [srcT_emb]; simp
  have s1 : (((srcT ![v.toNat, 0] hsin).view.emb x) 1).val = (x 0).val := by rw [srcT_emb]; simp
  have hP : pairPos (ValueIdx.ix2 (⟨(256 * w + 128 * (((dstA ![b, t / 2, (t % 2) * 64] hin).view.emb x) 0).val + (((dstA ![b, t / 2, (t % 2) * 64] hin).view.emb x) 1).val) % 8192, Nat.mod_lt _ (by decide)⟩ : Fin 8192)
        (⟨(((dstA ![b, t / 2, (t % 2) * 64] hin).view.emb x) 2).val, Fin.isLt _⟩ : Fin 128))
      = (⟨(512 * w + 256 * b + t) % 16384, Nat.mod_lt _ (by decide)⟩ : Fin 16384) := by
    apply Fin.ext
    show 2 * ((256 * w + 128 * (((dstA ![b, t / 2, (t % 2) * 64] hin).view.emb x) 0).val + (((dstA ![b, t / 2, (t % 2) * 64] hin).view.emb x) 1).val) % 8192)
      + (((dstA ![b, t / 2, (t % 2) * 64] hin).view.emb x) 2).val / 64 = (512 * w + 256 * b + t) % 16384
    rw [e0, e1, e2]; omega
  unfold FA G2 packA Spec.take2
  refine congrArg (m (a4Loc d)) (funext fun a => Fin.ext ?_)
  fin_cases a
  · show (((srcT ![v.toNat, 0] hsin).view.emb x) 0).val = (Spec.rowOf (m (a1Loc d) (ValueIdx.ix1 (pairPos _)))).val
    rw [s0, hP, ← hv, Spec.rowOf_val_of_lt hlt]
  · show (((srcT ![v.toNat, 0] hsin).view.emb x) 1).val = (((dstA ![b, t / 2, (t % 2) * 64] hin).view.emb x) 2).val % 64
    rw [s1, e2]; omega

theorem NA_eq (off : Fin 3 → ℕ) (hin) : (dstA off hin).view.dmaCredit = NA := rfl

/-- The issue of copy t of slot b's chunk: the table row the chunk's t-th word names into piece t. -/
theorem issueA' {α : Type} (w b t : ℕ) (hw : w < 32) (hb : b < 2) (ht : t < 256) (sem : DmaSem sig)
    (off : Fin 3 → ℕ) (hin) (soff : Fin 2 → ℕ) (hsin) (v : BitVec 32) (j : ℕ) (hjt : j = t)
    (hoff : off = ![b, t / 2, (t % 2) * 64]) (hsoff : soff = ![v.toNat, 0])
    (hv : v = m (a1Loc d) (ValueIdx.ix1 (⟨(512 * w + 256 * b + t) % 16384, Nat.mod_lt _ (by decide)⟩ : Fin 16384))) (hlt : v.toNat < 1000000)
    (q : PosShare TreeShare) (f0 : Buf (Elt F) ((V d cc jj).loc cc1_scratch1))
    {hs hd ht'} {k : PUnit → Prog (TpuEff nD τ sig (Elt F) Λ₀ (V d cc jj).2) α} {Q : α → sProp 𝕄} :
    iprop((a4Loc d ↦{q} m (a4Loc d)) ∗ ((V d cc jj).loc cc1_scratch1 ↦[remA b j]{fullShare} f0)
        ∗ Transfers.Batch countersEmb (V d cc jj) (.dma sem) (none : HIx 2) NA (DA m d cc jj w b) j 0)
      ⊢ iprop((iprop((a4Loc d ↦{q.left} m (a4Loc d)) ∗ ((V d cc jj).loc cc1_scratch1 ↦[remA b (j + 1)]{fullShare} f0)
            ∗ Transfers.Batch countersEmb (V d cc jj) (.dma sem) (none : HIx 2) NA (DA m d cc jj w b) (j + 1) 0)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstA off hin)) .same (.dma sem) hs hd ht') k) Q) := by
  subst hjt hoff hsoff
  have hset : (dstA ![b, j / 2, (j % 2) * 64] hin).view.set = pieceA b j := (dstA_set _ hin).trans (rectA_eq b j hin)
  iintro H Hk
  iapply (issueA d cc jj sem NA _ hin _ hsin (NA_eq _ hin) (DA m d cc jj w b) j 0 ht (Nat.zero_le _) (remA b j) (hset ▸ pieceA_sub b j) q (m (a4Loc d)) f0 ?hD) $$ H
  case hD =>
    refine (Entails.of_eq (pointsTo_congr fun y hy => valueA m d cc jj w b j hw hb ht hin v hsin hv hlt f0 y hy)).trans ?_
    rw [hset]; exact .rfl
  iintro ⟨Ht, Hr, HB⟩
  iapply Hk
  isplitl [Ht]; · iexact Ht
  isplitl [Hr]
  · rw [← remA_step b j, ← hset]; iexact Hr
  iexact HB

/-- The words a trip loads: lane u of the 16 words at 16 k of an index scratch that holds the chunk. -/
theorem wordA (s : ℕ) (fI : Buf (Elt F) ((V d cc jj).loc cc1_scratch0)) (hI : IdxHoldsA m d cc jj s fI)
    (k : ℕ) (hk : k < 16) (off : Fin 1 → ℕ) (hoff : off = ![16 * k]) (hin) (u : ℕ) (hu : u < 16) :
    (idW).view.readAt (Elt F) (Rect.unit (s := S320) off S16.size hin).toLoadRect fI (ValueIdx.ix1 (⟨u, hu⟩ : Fin 16))
      = m (a1Loc d) (ValueIdx.ix1 (⟨(s + (16 * k + u)) % 16384, Nat.mod_lt _ (by decide)⟩ : Fin 16384)) := by
  subst hoff
  have hidx : (Rect.unit (s := S320) ![16 * k] S16.size hin).toLoadRect.idx (ValueIdx.ix1 (⟨u, hu⟩ : Fin 16)) = ValueIdx.ix1 (⟨16 * k + u, by omega⟩ : Fin 320) := by
    funext a; apply Fin.ext; rw [LoadRect.idx_apply]; fin_cases a; simp [ValueIdx.ix1]
  show fI ((Rect.unit (s := S320) ![16 * k] S16.size hin).toLoadRect.idx (ValueIdx.ix1 (⟨u, hu⟩ : Fin 16))) = _
  rw [hidx, hI ⟨16 * k + u, by omega⟩ (by show 16 * k + u < 256; omega)]

end IssueA

section W0
/-- Worker 2 s + c. -/
def widL (L : grid1.Coords) : ℕ := 2 * (L 1).val + (L 0).val
theorem widL_lt (L : grid1.Coords) : widL L < 32 := by
  have h0 : (L 0).val < 2 := (L 0).isLt
  have h1 : (L 1).val < 16 := (L 1).isLt
  unfold widL; omega
end W0

/-! ## A wait of a batch with the consumed units counted in transfers -/

section Waits'

variable (c : Thread nD τ)

theorem skip_lt (N cnt n : ℕ) (hN : 0 < N) (h : cnt + 1 < n) : cnt * N + N < N * n := by
  have h2 := Nat.mul_le_mul_right N (Nat.succ_le_of_lt h)
  nlinarith [h2, hN]
theorem last_eq (N cnt n : ℕ) (h : cnt + 1 = n) : cnt * N + N = N * n := by subst h; ring

theorem waitSkip' {n : ℕ} {α : Type} (sem : DmaSem sig) (N : ℕ) (hN0 : 0 < N) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (D : Fin n → sProp 𝕄) (cnt : ℕ) (hc : cnt + 1 < n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n (cnt * N) ∗ owesN (F := F) c O W)
      ⊢ iprop((iprop(Transfers.Batch countersEmb c (.dma sem) (none : HIx 2) N D n ((cnt + 1) * N) ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) := by
  rw [show (cnt + 1) * N = cnt * N + N from Nat.succ_mul cnt N]
  exact waitSkip c sem N hN D (cnt * N) (skip_lt N cnt n hN0 hc) O hO W

theorem waitLast' {n : ℕ} {α : Type} (sem : DmaSem sig) (N : ℕ) (hN0 : 0 < N) {sp sp' : Space} {s s' : Shape} {e e' : EltTy} {κ' : Kind}
    {srcw : Memref sig c.2.kind sp' s' e'} {dstw : Memref sig κ' sp s e} {hs : srcw.view.WordExact} {hd : dstw.view.WordExact}
    (hN : dstw.view.dmaCredit = N) (D : Fin n → sProp 𝕄) (cnt : ℕ) (hc : cnt + 1 = n)
    (O : CellTallies nD τ sig (HIx 2)) (hO : ∀ g, O g none = 0) (W : Waits sig (HIx 2))
    {k : PUnit → Prog (TpuEff nD τ sig (Elt F) Λ₀ c.2) α} {Q : α → sProp 𝕄} :
    iprop(levAts (K (F := F)).L (K (F := F)).lev ∗ Transfers.Batch countersEmb c (.dma sem) (none : HIx 2) N D n (cnt * N) ∗ owesN (F := F) c O W)
      ⊢ iprop((iprop(bigSep Finset.univ D ∗ semVal (c, SemLoc.dma sem) 0 ∗ owesN (F := F) c O W)
          -∗ wp frame (wpE (defs₀ (F := F)) 𝒱₀ c none) Set.univ (k ⟨⟩) Q)
        -∗ wp frame (wpE (defs₀ (F := F)) 𝒱₀ c none) Set.univ (.op (.waitDma2 sem srcw dstw hs hd) k) Q) :=
  waitLast c sem N hN hN0 D (cnt * N) (last_eq N cnt n hc) O hO W

theorem NA_pos : 0 < NA := View.dmaCredit_pos _ (show 0 < S64.numel by decide)

end Waits'

/-! ## A copy and its wait, on a semaphore of its own held at zero -/

section Sync

variable (d : Dev nD) (cc : Fin τ.nSC) (jj : Fin τ.nSub)

theorem syncCopy {α : Type} {sp sp' : Space} {s : Shape} {e : EltTy}
    {src : Memref sig (V d cc jj).2.kind sp s e} {dst : Memref sig (V d cc jj).2.kind sp' s e}
    {srcw : Memref sig (V d cc jj).2.kind sp s e} {dstw : Memref sig (V d cc jj).2.kind sp' s e}
    (sem : DmaSem sig) (N : ℕ) (hN : dst.view.dmaCredit = N) (hN0 : 0 < N) (hNw : dstw.view.dmaCredit = N)
    (Sd : Finset (Idx (dst.view.loc (V d cc jj)))) (hSd : dst.view.set ⊆ Sd)
    (q : PosShare TreeShare) (fs : Buf (Elt F) (src.view.loc (V d cc jj))) (fd : Buf (Elt F) (dst.view.loc (V d cc jj)))
    (O : CellTallies nD τ sig (HIx 2)) (hO : ∀ g, O g none = 0) (W : Waits sig (HIx 2))
    {hs hd ht hs' hd'} {k : PUnit → Prog (TpuEff nD τ sig (Elt F) Λ₀ (V d cc jj).2) α} {Q : α → sProp 𝕄} :
    iprop(levAts (K (F := F)).L (K (F := F)).lev ∗ (src.view.loc (V d cc jj) ↦[src.view.set]{q} fs) ∗ (dst.view.loc (V d cc jj) ↦[Sd]{fullShare} fd)
        ∗ semVal ((V d cc jj), SemLoc.dma sem) 0 ∗ owesN (F := F) (V d cc jj) O W)
      ⊢ iprop((iprop((dst.view.loc (V d cc jj) ↦[Sd]{fullShare} (dst.view.write (Elt F) fd ((ReadAs.same : ReadAs (Elt F) s e s e).apply (src.view.read (Elt F) fs)) Finset.univ))
            ∗ (src.view.loc (V d cc jj) ↦[src.view.set]{q} fs) ∗ semVal ((V d cc jj), SemLoc.dma sem) 0 ∗ owesN (F := F) (V d cc jj) O W)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs src (.here dst) .same (.dma sem) hs hd ht) fun _ => .op (.waitDma2 sem srcw dstw hs' hd') k) Q) := by
  iintro ⟨#Hlv, Hs, Hd, Hsem, %W', %hW', HO⟩ Hk
  iapply (Transfers.wp_dmaLocal countersEmb 𝒱₀ (V d cc jj) none (none : HIx 2) N
    (dst := dst) (src := src) (sm := .dma sem) (show dst.view.amount (.dma sem) = N from hN) hN0 hSd (q := q) (fs := fs) (fd := fd)) $$ [Hs Hd Hsem]
  · isplitl [Hs]; · iexact Hs
    isplitl [Hd]; · iexact Hd
    iexact Hsem
  iintro HF
  iapply (Transfers.wp_waitLocalO countersEmb 𝒱₀ (V d cc jj) none (none : HIx 2) hNw (O := O) (W := W')) $$ [HF HO]
  · isplitl [HF]; · iexact HF
    isplitl [HO]; · iexact HO
    iapply ((K (F := F)).mayWait_none (SemLoc.dma sem) hO); iexact Hlv
  iintro ⟨⟨Hd, Hs⟩, Hsem, HO⟩
  iapply Hk
  isplitl [Hd]; · iexact Hd
  isplitl [Hs]; · iexact Hs
  isplitl [Hsem]; · iexact Hsem
  iapply (owesN_insert (F := F) (V d cc jj) O W W' (SemLoc.dma sem) hW'); iexact HO

end Sync

/-! ## The index fetch and the store of a slot, as the body slices them -/

section SyncViews

variable (m : (ℓ : Loc nD τ sig) → Buf (Elt F) ℓ) (d : Dev nD) (cc : Fin τ.nSC) (jj : Fin τ.nSub)

/-- 256 consecutive output words. -/
abbrev idxSrcA (off : Fin 1 → ℕ) (hin : ∀ a, off a + S256.size a ≤ S16384.size a) : Memref sig .scVector .hbm S256 .i32 :=
  (a1W).slice (Rect.unit (s := S16384) off S256.size hin) (fun _ => rfl)
/-- The first 256 words of the index scratch. -/
abbrev idxDstA : Memref sig .scVector .vmem S256 .i32 :=
  (idW).slice (Rect.unit (s := S320) ![0] S256.size inb_S320_S256_0) (fun _ => rfl)

theorem idxSrcA_emb (off : Fin 1 → ℕ) (hin) (x : S256.Idx) : (((idxSrcA off hin).view.emb x) 0).val = off 0 + (x 0).val := by
  show ((Rect.unit (s := S16384) off S256.size hin).emb x 0 : ℕ) = _
  rw [Rect.emb_apply]; simp
theorem idxDstA_emb (x : S256.Idx) : (((idxDstA).view.emb x) 0).val = (x 0).val := by
  show ((Rect.unit (s := S320) ![0] S256.size inb_S320_S256_0).emb x 0 : ℕ) = _
  rw [Rect.emb_apply]; simp

/-- After the fetch of the chunk at word s, the index scratch holds the chunk. -/
theorem idxA_holds (s : ℕ) (hs : s + 256 ≤ 16384) (off : Fin 1 → ℕ) (hoff : off = ![s]) (hin)
    (fI0 : Buf (Elt F) ((V d cc jj).loc cc1_scratch0)) :
    IdxHoldsA m d cc jj s ((idxDstA).view.write (Elt F) fI0
      ((ReadAs.same : ReadAs (Elt F) S256 .i32 S256 .i32).apply ((idxSrcA off hin).view.read (Elt F) (m (a1Loc d)))) Finset.univ) := by
  subst hoff
  intro i hi
  have hx : ValueIdx.ix1 i = (idxDstA).view.emb (ValueIdx.ix1 (⟨i.val, hi⟩ : Fin 256)) := by
    funext a; apply Fin.ext; fin_cases a
    show (ValueIdx.ix1 i 0).val = ((idxDstA).view.emb (ValueIdx.ix1 (⟨i.val, hi⟩ : Fin 256)) 0).val
    rw [idxDstA_emb]
  rw [hx, View.write_emb_of_mem _ _ (Finset.mem_univ _)]
  show m (a1Loc d) ((idxSrcA ![s] hin).view.emb (ValueIdx.ix1 (⟨i.val, hi⟩ : Fin 256))) = _
  refine congrArg (m (a1Loc d)) (funext fun a => Fin.ext ?_)
  fin_cases a
  show (((idxSrcA ![s] hin).view.emb (ValueIdx.ix1 (⟨i.val, hi⟩ : Fin 256))) 0).val = (s + i.val) % 16384
  rw [idxSrcA_emb]
  show s + i.val = (s + i.val) % 16384
  omega

end SyncViews

/-! ## The store of a slot of the rows scratch into the worker's rows of the [8192,128] result -/

section StoreViews

variable (m : (ℓ : Loc nD τ sig) → Buf (Elt F) ℓ) (d : Dev nD) (cc : Fin τ.nSC) (jj : Fin τ.nSub)

/-- Slot b of the rows scratch, as [128,128]. -/
abbrev slotSrcA (off : Fin 3 → ℕ) (hin : ∀ a, off a + S1x128x128.size a ≤ S2x128x128.size a) : Memref sig .scVector .vmem S128x128 .f32 :=
  ((rAW).slice (Rect.unit (s := S2x128x128) off S1x128x128.size hin) (fun _ => rfl)).squeeze S128x128 squeezes_S1x128x128_S128x128
/-- 128 rows of the [8192,128] result. -/
abbrev outDstA (off : Fin 2 → ℕ) (hin : ∀ a, off a + S128x128.size a ≤ S8192x128.size a) : Memref sig .scVector .hbm S128x128 .f32 :=
  (o2W).slice (Rect.unit (s := S8192x128) off S128x128.size hin) (fun _ => rfl)

/-- Rows r0 .. r0 + 127 of the [8192,128] result. -/
def rowsA (r0 : ℕ) : Finset S8192x128.Idx := Finset.univ.filter fun y => r0 ≤ (y 0).val ∧ (y 0).val < r0 + 128
theorem mem_rowsA (r0 : ℕ) (y : S8192x128.Idx) : y ∈ rowsA r0 ↔ (r0 ≤ (y 0).val ∧ (y 0).val < r0 + 128) := by
  unfold rowsA; rw [Finset.mem_filter]; simp only [Finset.mem_univ, true_and]

theorem slotSrcA_set (b : ℕ) (hin) : (slotSrcA ![b, 0, 0] hin).view.set = remA b 0 := by
  refine ((View.set_reshape _ _).trans (View.set_slice_whole _ _)).trans ?_
  ext y
  have h1 : (y 1).val < 128 := (y 1).isLt
  have h2 : (y 2).val < 128 := (y 2).isLt
  rw [Rect.mem_set_unit, mem_remA]
  constructor
  · intro H
    have a0 : b ≤ (y 0).val ∧ (y 0).val < b + 1 := H 0
    omega
  · intro H a; fin_cases a
    · show b ≤ (y 0).val ∧ (y 0).val < b + 1; omega
    · show 0 ≤ (y 1).val ∧ (y 1).val < 0 + 128; omega
    · show 0 ≤ (y 2).val ∧ (y 2).val < 0 + 128; omega

theorem outDstA_set (r0 : ℕ) (hin) : (outDstA ![r0, 0] hin).view.set = rowsA r0 := by
  refine (View.set_slice_whole _ _).trans ?_
  ext y
  have h1 : (y 1).val < 128 := (y 1).isLt
  rw [Rect.mem_set_unit, mem_rowsA]
  constructor
  · intro H
    have a0 : r0 ≤ (y 0).val ∧ (y 0).val < r0 + 128 := H 0
    omega
  · intro H a; fin_cases a
    · show r0 ≤ (y 0).val ∧ (y 0).val < r0 + 128; omega
    · show 0 ≤ (y 1).val ∧ (y 1).val < 0 + 128; omega

theorem sq128 (x : S128x128.Idx) : Shape.reshapeEquiv (s := S1x128x128) (s' := S128x128) squeezes_S1x128x128_S128x128.numel_eq x
    = (fun a => if h : a = 0 then ⟨0, by subst h; decide⟩ else if h1 : a = 1 then ⟨(x 0).val, by subst h1; exact (x 0).isLt⟩ else ⟨(x 1).val, by
        have : a = 2 := by fin_cases a <;> first | exact absurd rfl h | exact absurd rfl h1 | rfl
        subst this; exact (x 1).isLt⟩ : S1x128x128.Idx) := by
  apply Shape.reshapeEquiv_eq_of_rowMajor
  rw [Shape.rowMajor_val_three, Shape.rowMajor_val_two]
  simp

theorem slotSrcA_emb (off : Fin 3 → ℕ) (hin) (x : S128x128.Idx) (a : Fin 3) :
    (((slotSrcA off hin).view.emb x) a).val = off a + (if a = 0 then 0 else if a = 1 then (x 0).val else (x 1).val) := by
  show ((Rect.unit (s := S2x128x128) off S1x128x128.size hin).emb (Shape.reshapeEquiv squeezes_S1x128x128_S128x128.numel_eq x) a : ℕ) = _
  rw [Rect.emb_apply, sq128]
  fin_cases a <;> simp
theorem outDstA_emb (off : Fin 2 → ℕ) (hin) (x : S128x128.Idx) (a : Fin 2) :
    (((outDstA off hin).view.emb x) a).val = off a + (x a).val := by
  show ((Rect.unit (s := S8192x128) off S128x128.size hin).emb x a : ℕ) = _
  rw [Rect.emb_apply]; simp

/-- What the store of slot b leaves in the result's rows 256 w + 128 b ..: the lookup's values. -/
theorem storeA_val (w b : ℕ) (hw : w < 32) (hb : b < 2) (hin) (hin')
    (f0 : Buf (Elt F) (o2Loc d)) (y : (outDstA ![256 * w + 128 * b, 0] hin').view.ty.Idx)
    (hy : y ∈ (outDstA ![256 * w + 128 * b, 0] hin').view.set) :
    ((outDstA ![256 * w + 128 * b, 0] hin').view.write (Elt F) f0
        ((ReadAs.same : ReadAs (Elt F) S128x128 .f32 S128x128 .f32).apply ((slotSrcA ![b, 0, 0] hin).view.read (Elt F) (FA m d cc jj w))) Finset.univ y : Elt F .f32)
      = G2 m d y := by
  obtain ⟨x, -, rfl⟩ := Finset.mem_map.mp hy
  have hx0 : (x 0).val < 128 := (x 0).isLt
  rw [View.write_emb_of_mem _ _ (Finset.mem_univ x)]
  show FA m d cc jj w ((slotSrcA ![b, 0, 0] hin).view.emb x) = _
  have e0 : (((slotSrcA ![b, 0, 0] hin).view.emb x) 0).val = b := by rw [slotSrcA_emb]; simp
  have e1 : (((slotSrcA ![b, 0, 0] hin).view.emb x) 1).val = (x 0).val := by rw [slotSrcA_emb]; simp
  have e2 : (((slotSrcA ![b, 0, 0] hin).view.emb x) 2).val = (x 1).val := by rw [slotSrcA_emb]; simp
  have o0 : (((outDstA ![256 * w + 128 * b, 0] hin').view.emb x) 0).val = 256 * w + 128 * b + (x 0).val := by rw [outDstA_emb]; simp
  have o1 : (((outDstA ![256 * w + 128 * b, 0] hin').view.emb x) 1).val = (x 1).val := by rw [outDstA_emb]; simp
  unfold FA
  refine congrArg (G2 m d) (funext fun a => Fin.ext ?_)
  fin_cases a
  · show (256 * w + 128 * (((slotSrcA ![b, 0, 0] hin).view.emb x) 0).val + (((slotSrcA ![b, 0, 0] hin).view.emb x) 1).val) % 8192
      = (((outDstA ![256 * w + 128 * b, 0] hin').view.emb x) 0).val
    rw [e0, e1, o0]; omega
  · show (((slotSrcA ![b, 0, 0] hin).view.emb x) 2).val = (((outDstA ![256 * w + 128 * b, 0] hin').view.emb x) 1).val
    rw [e2, o1]

end StoreViews

end Cert.Proof.KW.K1

end
-- ==== Proof.BwK1AJoin.lean ====
import proofs.«215896_g38397007626377_fold_wed_m_942_26_alg».proof.Proof.BwKISetup
import proofs.«215896_g38397007626377_fold_wed_m_942_26_alg».proof.Proof.Gen.Kernel.Skeleton
import proofs.«215896_g38397007626377_fold_wed_m_942_26_alg».proof.Proof.BwK1A

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

/-! ## Every piece of a slot together; the two slots; the worker's rows in two halves -/

section JoinA

variable (m : (ℓ : Loc nD τ sig) → Buf (Elt F) ℓ) (d : Dev nD) (cc : Fin τ.nSC) (jj : Fin τ.nSub)

instance DA_storable (w b : ℕ) (t : Fin 256) : BI.Storable (upEmb : UEmb _ 𝕄) (DA m d cc jj w b t) := by
  unfold DA; infer_instance

theorem pieceA_disjoint (b : ℕ) {t t' : ℕ} (h : t ≠ t') : Disjoint (pieceA b t) (pieceA b t') := by
  rw [Finset.disjoint_left]; intro y hy hy'
  rw [mem_pieceA] at hy hy'; omega

theorem slotA_cover (b : ℕ) : (Finset.univ : Finset (Fin 256)).biUnion (fun t => pieceA b t.val) = remA b 0 := by
  ext y
  have h1 : (y 1).val < 128 := (y 1).isLt
  have h2 : (y 2).val < 128 := (y 2).isLt
  simp only [Finset.mem_biUnion, Finset.mem_univ, true_and]
  rw [mem_remA]
  constructor
  · rintro ⟨t, ht⟩; rw [mem_pieceA] at ht; exact ⟨ht.1, Nat.zero_le _⟩
  · intro hb
    exact ⟨⟨2 * (y 1).val + (y 2).val / 64, by omega⟩, by rw [mem_pieceA]; exact ⟨hb.1, rfl⟩⟩

/-- Every delivery of a chunk together: the slot at the final contents. -/
theorem joinA (w b : ℕ) :
    (bigSep Finset.univ (DA m d cc jj w b) : sProp 𝕄) = ((V d cc jj).loc cc1_scratch1 ↦[remA b 0]{fullShare} FA m d cc jj w) := by
  rw [← slotA_cover b]
  exact (pointsTo_biUnion (ℓ := (V d cc jj).loc cc1_scratch1) (q := fullShare) (f := FA m d cc jj w) Finset.univ
    (fun t : Fin 256 => pieceA b t.val) (fun t _ t' _ h => pieceA_disjoint b (fun e => h (Fin.ext e)))).symm

/-- The scratch is its two slots. -/
theorem slots_univ : (Finset.univ : Finset S2x128x128.Idx) \ remA 0 0 = remA 1 0 := by
  ext y
  have h0 : (y 0).val < 2 := (y 0).isLt
  rw [Finset.mem_sdiff, mem_remA, mem_remA]
  simp only [Finset.mem_univ, true_and]
  omega

theorem rowsA_disjoint (r0 : ℕ) : Disjoint (rowsA r0) (rowsA (r0 + 128)) := by
  rw [Finset.disjoint_left]; intro y hy hy'
  rw [mem_rowsA] at hy hy'; omega

theorem mem_blkA (w : Fin 32) (y : S8192x128.Idx) : y ∈ blkA w ↔ (256 * w.val ≤ (y 0).val ∧ (y 0).val < 256 * w.val + 256) := by
  have h1 : (y 1).val < 128 := (y 1).isLt
  have hw : w.val < 32 := w.isLt
  show y ∈ (Rect.part (s := S8192x128) (a₀ := 0) hdivA w).set ↔ _
  unfold Rect.part Rect.block
  rw [Rect.mem_set_unit]
  constructor
  · intro H
    have a0 := H 0
    simp [Shape.partIx, Shape.partSize] at a0
    omega
  · intro H a
    fin_cases a
    · simp [Shape.partIx, Shape.partSize]; omega
    · simp [Shape.partIx, Shape.partSize]; omega

theorem rowsA_union (w : Fin 32) : rowsA (256 * w.val) ∪ rowsA (256 * w.val + 128) = blkA w := by
  ext y
  rw [Finset.mem_union, mem_rowsA, mem_rowsA, mem_blkA]; omega

end JoinA

/-! ## The subcore's own semaphores and buffers -/

section Own

variable (d : Dev nD) (cc : Fin τ.nSC) (jj : Fin τ.nSub)

abbrev cellOf (s : DmaSem sig) : GSem nD τ sig := (V d cc jj, SemLoc.dma s)

theorem cell_ne {s s' : DmaSem sig} (h : s ≠ s') : cellOf d cc jj s ≠ cellOf d cc jj s' :=
  fun e => h (by have := congrArg Prod.snd e; exact SemLoc.dma.inj this)

theorem ownSems0_V :
    (ownSems0 (V d cc jj) : sProp 𝕄)
      = iprop(semVal (cellOf d cc jj cc1_scratch3.sem) 0 ∗ semVal (cellOf d cc jj cc1_scratch4.sem) 0 ∗ semVal (cellOf d cc jj cc1_scoped0.sem) 0 ∗ semVal (cellOf d cc jj cc1_scoped1.sem) 0 ∗ semVal (cellOf d cc jj cc1_scoped2.sem) 0 ∗ semVal (cellOf d cc jj cc1_scoped3.sem) 0 ∗ semVal (cellOf d cc jj cc1_scoped4.sem) 0 ∗ semVal (cellOf d cc jj cc1_scoped5.sem) 0 ∗ semVal (cellOf d cc jj cc1_scoped6.sem) 0 ∗ semVal (cellOf d cc jj cc1_scoped7.sem) 0 ∗ semVal (cellOf d cc jj cc1_scoped8.sem) 0 ∗ semVal (cellOf d cc jj cc1_scoped9.sem) 0 ∗ semVal (cellOf d cc jj cc1_scoped10.sem) 0 ∗ semVal (cellOf d cc jj cc1_scoped11.sem) 0
          ∗ bigSep (((((((((((((((ownCells (V d cc jj)).erase (cellOf d cc jj cc1_scratch3.sem)).erase (cellOf d cc jj cc1_scratch4.sem)).erase (cellOf d cc jj cc1_scoped0.sem)).erase (cellOf d cc jj cc1_scoped1.sem)).erase (cellOf d cc jj cc1_scoped2.sem)).erase (cellOf d cc jj cc1_scoped3.sem)).erase (cellOf d cc jj cc1_scoped4.sem)).erase (cellOf d cc jj cc1_scoped5.sem)).erase (cellOf d cc jj cc1_scoped6.sem)).erase (cellOf d cc jj cc1_scoped7.sem)).erase (cellOf d cc jj cc1_scoped8.sem)).erase (cellOf d cc jj cc1_scoped9.sem)).erase (cellOf d cc jj cc1_scoped10.sem)).erase (cellOf d cc jj cc1_scoped11.sem)) fun g => semVal g 0) := by
  unfold SparseCore.Cfg.ownSems0
  rw [SparseCore.bigSep_erase' ((mem_ownCells (g := cellOf d cc jj cc1_scratch3.sem)).mpr ⟨rfl, by show (SemLoc.dma cc1_scratch3.sem : SemLoc sig).isScoped .scVector = true; decide⟩),
    SparseCore.bigSep_erase' (Finset.mem_erase.mpr ⟨cell_ne d cc jj (by decide), (mem_ownCells (g := cellOf d cc jj cc1_scratch4.sem)).mpr ⟨rfl, by show (SemLoc.dma cc1_scratch4.sem : SemLoc sig).isScoped .scVector = true; decide⟩⟩),
    SparseCore.bigSep_erase' (Finset.mem_erase.mpr ⟨cell_ne d cc jj (by decide), Finset.mem_erase.mpr ⟨cell_ne d cc jj (by decide), (mem_ownCells (g := cellOf d cc jj cc1_scoped0.sem)).mpr ⟨rfl, by show (SemLoc.dma cc1_scoped0.sem : SemLoc sig).isScoped .scVector = true; decide⟩⟩⟩),
    SparseCore.bigSep_erase' (Finset.mem_erase.mpr ⟨cell_ne d cc jj (by decide), Finset.mem_erase.mpr ⟨cell_ne d cc jj (by decide), Finset.mem_erase.mpr ⟨cell_ne d cc jj (by decide), (mem_ownCells (g := cellOf d cc jj cc1_scoped1.sem)).mpr ⟨rfl, by show (SemLoc.dma cc1_scoped1.sem : SemLoc sig).isScoped .scVector = true; decide⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped2.sem)).mpr ⟨rfl, by show (SemLoc.dma cc1_scoped2.sem : SemLoc sig).isScoped .scVector = true; decide⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped3.sem)).mpr ⟨rfl, by show (SemLoc.dma cc1_scoped3.sem : SemLoc sig).isScoped .scVector = true; decide⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped4.sem)).mpr ⟨rfl, by show (SemLoc.dma cc1_scoped4.sem : SemLoc sig).isScoped .scVector = true; decide⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped5.sem)).mpr ⟨rfl, by show (SemLoc.dma cc1_scoped5.sem : SemLoc sig).isScoped .scVector = true; decide⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped6.sem)).mpr ⟨rfl, by show (SemLoc.dma cc1_scoped6.sem : SemLoc sig).isScoped .scVector = true; decide⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped7.sem)).mpr ⟨rfl, by show (SemLoc.dma cc1_scoped7.sem : SemLoc sig).isScoped .scVector = true; decide⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped8.sem)).mpr ⟨rfl, by show (SemLoc.dma cc1_scoped8.sem : SemLoc sig).isScoped .scVector = true; decide⟩⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped9.sem)).mpr ⟨rfl, by show (SemLoc.dma cc1_scoped9.sem : SemLoc sig).isScoped .scVector = true; decide⟩⟩⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped10.sem)).mpr ⟨rfl, by show (SemLoc.dma cc1_scoped10.sem : SemLoc sig).isScoped .scVector = true; decide⟩⟩⟩⟩⟩⟩⟩⟩⟩⟩⟩⟩⟩),
    SparseCore.bigSep_erase' (Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), Finset.mem_erase.mpr ⟨cell_ne d cc jj (by decide), (mem_ownCells (g := cellOf d cc jj cc1_scoped11.sem)).mpr ⟨rfl, by show (SemLoc.dma cc1_scoped11.sem : SemLoc sig).isScoped .scVector = true; decide⟩⟩⟩⟩⟩⟩⟩⟩⟩⟩⟩⟩⟩⟩)]

theorem ownBufs_V :
    (ownBufs (V d cc jj) : sProp 𝕄)
      = iprop((∃ f, (V d cc jj).loc cc1_scratch0 ↦{fullShare} f) ∗ (∃ f, (V d cc jj).loc cc1_scratch1 ↦{fullShare} f) ∗ (∃ f, (V d cc jj).loc cc1_scratch2 ↦{fullShare} f)
          ∗ bigSep ((((ownRefs (τ := τ) (.scVector cc jj)).erase ((Proc.scVector cc jj).devRef cc1_scratch0)).erase ((Proc.scVector cc jj).devRef cc1_scratch1)).erase ((Proc.scVector cc jj).devRef cc1_scratch2)) fun b => iprop(∃ f, ((d, b) : Loc nD τ sig) ↦{fullShare} f)) := by
  unfold SparseCore.Cfg.ownBufs
  refine (SparseCore.bigSep_erase' (SparseCore.Cfg.mem_ownRefs_of_owner (p := Proc.scVector cc jj) (b := (Proc.scVector cc jj).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector cc jj) (b := (Proc.scVector cc jj).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector cc jj) (b := (Proc.scVector cc jj).devRef cc1_scratch2) rfl⟩⟩)]

end Own

end Cert.Proof.KW.K1

end
-- ==== Proof.BwK1AFire0.lean ====
import proofs.«215896_g38397007626377_fold_wed_m_942_26_alg».proof.Proof.BwKISetup
import proofs.«215896_g38397007626377_fold_wed_m_942_26_alg».proof.Proof.Gen.Kernel.Skeleton
import proofs.«215896_g38397007626377_fold_wed_m_942_26_alg».proof.Proof.BwK1A

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

/-! ## The chunks' fire loops: one trip issues copies 16 k .. 16 k + 15 -/

section FireA

variable (m : (ℓ : Loc nD τ sig) → Buf (Elt F) ℓ) (d : Dev nD) (L : grid1.Coords)

/-- The 16 words trip k loads. -/
abbrev XA0 (fI : Buf (Elt F) ((thr d L).loc cc1_scratch0)) (k : Fin k1_t1_loop.trips) : S16.Idx → BitVec 32 :=
  (idW).view.readAt (Elt F) (Rect.unit (s := S320) (k1_off2 k) S16.size (k1_off2_inb k)).toLoadRect fI

def fireInvA0 (fI : Buf (Elt F) ((thr d L).loc cc1_scratch0)) (f0 : Buf (Elt F) ((thr d L).loc cc1_scratch1)) (k : ℕ) (_ : Unit) : sProp 𝕄 :=
  iprop(((thr d L).loc cc1_scratch0 ↦{fullShare} fI) ∗ (∃ q, a4Loc d ↦{q} m (a4Loc d))
    ∗ ((thr d L).loc cc1_scratch1 ↦[remA 0 (16 * k)]{fullShare} f0)
    ∗ Transfers.Batch countersEmb (thr d L) (.dma cc1_scratch3.sem) (none : HIx 2) NA (DA m d ((L 0).castLE hcore1) ((L 1).castLE hsub1) (widL L) 0) (16 * k) 0)

set_option maxHeartbeats 4000000 in
theorem fireA0_step (fI : Buf (Elt F) ((thr d L).loc cc1_scratch0)) (hI : IdxHoldsA m d ((L 0).castLE hcore1) ((L 1).castLE hsub1) (512 * widL L + 256 * 0) fI) (hpre : PreOK m)
    (f0 : Buf (Elt F) ((thr d L).loc cc1_scratch1)) (k : Fin k1_t1_loop.trips) (acc : Unit) :
    fireInvA0 m d L fI f0 k acc ⊢ wp frame (wpE (defs₀ (F := F)) 𝒱₀ (thr d L) none) Set.univ
      (k1_t1_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 k acc)
      (fireInvA0 m d L fI f0 (k.val + 1)) := by
  have hk : k.val < 16 := Nat.lt_of_lt_of_le k.isLt k1_t1_abs.2.1
  have hwid : widL L < 32 := widL_lt L
  have hW : ∀ (u : ℕ) (hu : u < 16), XA0 (F := F) d L fI k (ValueIdx.ix1 (⟨u, hu⟩ : Fin 16))
      = m (a1Loc d) (ValueIdx.ix1 (⟨(512 * widL L + 256 * 0 + (16 * k.val + u)) % 16384, Nat.mod_lt _ (by decide)⟩ : Fin 16384)) :=
    fun u hu => wordA m d _ _ (512 * widL L + 256 * 0) fI hI k.val hk (k1_off2 k) (k1_off2_eq k) (k1_off2_inb k) u hu
  unfold k1_t1_body
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel
  simp only [Prog.lift, Prog.bind_op, Prog.bind_ret, Prog.pure_eq_ret]
  unfold fireInvA0
  iintro ⟨Hidx, ⟨%q, Htbl⟩, Hrem, HB⟩
  iapply (wp_load 𝒱₀ (thr d L) none Set.univ (m := idW) (S := Finset.univ) (q := fullShare) (f := fI) (Finset.subset_univ _)) $$ Hidx; iintro Hidx
  have hv0 : (extractAt ![0] (k1_pay2 (F := F) (XA0 (F := F) d L fI k)) inpos_S1_p0 : BitVec 32) = m (a1Loc d) (ValueIdx.ix1 (⟨(512 * widL L + 256 * 0 + (16 * k.val + 0)) % 16384, Nat.mod_lt _ (by decide)⟩ : Fin 16384)) :=
    (lane_eq (XA0 (F := F) d L fI k) 0 (by decide) shapeCasts_S16_S16 slices_S16_o0_S1 inpos_S1_p0).trans (hW 0 (by decide))
  have hl0 : (extractAt ![0] (k1_pay2 (F := F) (XA0 (F := F) d L fI k)) inpos_S1_p0 : BitVec 32).toNat < 1000000 := by rw [hv0]; exact (hpre d).2.1 _
  iapply (wp_assume 𝒱₀ (thr d L) none Set.univ (show k1_chk1 _ from chk_of_lt _ hl0))
  iapply (issueA' m d _ _ (widL L) 0 (16 * k.val + 0) hwid (by decide) (by omega) cc1_scratch3.sem _ _ _ _ _ (16 * k.val) (by omega) (off_t1_0 k) rfl hv0 hl0 _ f0) $$ [Htbl Hrem HB]
  · isplitl [Htbl]; · iexact Htbl
    isplitl [Hrem]; · iexact Hrem
    iexact HB
  iintro ⟨Htbl, Hrem, HB⟩
  have hv1 : (extractAt ![0] (k1_pay3 (k1_pay1 (F := F) (XA0 (F := F) d L fI k))) inpos_S1_p0 : BitVec 32) = m (a1Loc d) (ValueIdx.ix1 (⟨(512 * widL L + 256 * 0 + (16 * k.val + 1)) % 16384, Nat.mod_lt _ (by decide)⟩ : Fin 16384)) :=
    (lane_eq (XA0 (F := F) d L fI k) 1 (by decide) shapeCasts_S16_S16 slices_S16_o1_S1 inpos_S1_p0).trans (hW 1 (by decide))
  have hl1 : (extractAt ![0] (k1_pay3 (k1_pay1 (F := F) (XA0 (F := F) d L fI k))) inpos_S1_p0 : BitVec 32).toNat < 1000000 := by rw [hv1]; exact (hpre d).2.1 _
  iapply (wp_assume 𝒱₀ (thr d L) none Set.univ (show k1_chk2 _ from chk_of_lt _ hl1))
  iapply (issueA' m d _ _ (widL L) 0 (16 * k.val + 1) hwid (by decide) (by omega) cc1_scratch3.sem _ _ _ _ _ (16 * k.val + 1) (by omega) (off_t1_1 k) rfl hv1 hl1 _ f0) $$ [Htbl Hrem HB]
  · isplitl [Htbl]; · iexact Htbl
    isplitl [Hrem]; · iexact Hrem
    iexact HB
  iintro ⟨Htbl, Hrem, HB⟩
  have hv2 : (extractAt ![0] (k1_pay4 (k1_pay1 (F := F) (XA0 (F := F) d L fI k))) inpos_S1_p0 : BitVec 32) = m (a1Loc d) (ValueIdx.ix1 (⟨(512 * widL L + 256 * 0 + (16 * k.val + 2)) % 16384, Nat.mod_lt _ (by decide)⟩ : Fin 16384)) :=
    (lane_eq (XA0 (F := F) d L fI k) 2 (by decide) shapeCasts_S16_S16 slices_S16_o2_S1 inpos_S1_p0).trans (hW 2 (by decide))
  have hl2 : (extractAt ![0] (k1_pay4 (k1_pay1 (F := F) (XA0 (F := F) d L fI k))) inpos_S1_p0 : BitVec 32).toNat < 1000000 := by rw [hv2]; exact (hpre d).2.1 _
  iapply (wp_assume 𝒱₀ (thr d L) none Set.univ (show k1_chk3 _ from chk_of_lt _ hl2))
  iapply (issueA' m d _ _ (widL L) 0 (16 * k.val + 2) hwid (by decide) (by omega) cc1_scratch3.sem _ _ _ _ _ (16 * k.val + 1 + 1) (by omega) (off_t1_2 k) rfl hv2 hl2 _ f0) $$ [Htbl Hrem HB]
  · isplitl [Htbl]; · iexact Htbl
    isplitl [Hrem]; · iexact Hrem
    iexact HB
  iintro ⟨Htbl, Hrem, HB⟩
  have hv3 : (extractAt ![0] (k1_pay5 (k1_pay1 (F := F) (XA0 (F := F) d L fI k))) inpos_S1_p0 : BitVec 32) = m (a1Loc d) (ValueIdx.ix1 (⟨(512 * widL L + 256 * 0 + (16 * k.val + 3)) % 16384, Nat.mod_lt _ (by decide)⟩ : Fin 16384)) :=
    (lane_eq (XA0 (F := F) d L fI k) 3 (by decide) shapeCasts_S16_S16 slices_S16_o3_S1 inpos_S1_p0).trans (hW 3 (by decide))
  have hl3 : (extractAt ![0] (k1_pay5 (k1_pay1 (F := F) (XA0 (F := F) d L fI k))) inpos_S1_p0 : BitVec 32).toNat < 1000000 := by rw [hv3]; exact (hpre d).2.1 _
  iapply (wp_assume 𝒱₀ (thr d L) none Set.univ (show k1_chk4 _ from chk_of_lt _ hl3))
  iapply (issueA' m d _ _ (widL L) 0 (16 * k.val + 3) hwid (by decide) (by omega) cc1_scratch3.sem _ _ _ _ _ (16 * k.val + 1 + 1 + 1) (by omega) (off_t1_3 k) rfl hv3 hl3 _ f0) $$ [Htbl Hrem HB]
  · isplitl [Htbl]; · iexact Htbl
    isplitl [Hrem]; · iexact Hrem
    iexact HB
  iintro ⟨Htbl, Hrem, HB⟩
  have hv4 : (extractAt ![0] (k1_pay6 (k1_pay1 (F := F) (XA0 (F := F) d L fI k))) inpos_S1_p0 : BitVec 32) = m (a1Loc d) (ValueIdx.ix1 (⟨(512 * widL L + 256 * 0 + (16 * k.val + 4)) % 16384, Nat.mod_lt _ (by decide)⟩ : Fin 16384)) :=
    (lane_eq (XA0 (F := F) d L fI k) 4 (by decide) shapeCasts_S16_S16 slices_S16_o4_S1 inpos_S1_p0).trans (hW 4 (by decide))
  have hl4 : (extractAt ![0] (k1_pay6 (k1_pay1 (F := F) (XA0 (F := F) d L fI k))) inpos_S1_p0 : BitVec 32).toNat < 1000000 := by rw [hv4]; exact (hpre d).2.1 _
  iapply (wp_assume 𝒱₀ (thr d L) none Set.univ (show k1_chk5 _ from chk_of_lt _ hl4))
  iapply (issueA' m d _ _ (widL L) 0 (16 * k.val + 4) hwid (by decide) (by omega) cc1_scratch3.sem _ _ _ _ _ (16 * k.val + 1 + 1 + 1 + 1) (by omega) (off_t1_4 k) rfl hv4 hl4 _ f0) $$ [Htbl Hrem HB]
  · isplitl [Htbl]; · iexact Htbl
    isplitl [Hrem]; · iexact Hrem
    iexact HB
  iintro ⟨Htbl, Hrem, HB⟩
  have hv5 : (extractAt ![0] (k1_pay7 (k1_pay1 (F := F) (XA0 (F := F) d L fI k))) inpos_S1_p0 : BitVec 32) = m (a1Loc d) (ValueIdx.ix1 (⟨(512 * widL L + 256 * 0 + (16 * k.val + 5)) % 16384, Nat.mod_lt _ (by decide)⟩ : Fin 16384)) :=
    (lane_eq (XA0 (F := F) d L fI k) 5 (by decide) shapeCasts_S16_S16 slices_S16_o5_S1 inpos_S1_p0).trans (hW 5 (by decide))
  have hl5 : (extractAt ![0] (k1_pay7 (k1_pay1 (F := F) (XA0 (F := F) d L fI k))) inpos_S1_p0 : BitVec 32).toNat < 1000000 := by rw [hv5]; exact (hpre d).2.1 _
  iapply (wp_assume 𝒱₀ (thr d L) none Set.univ (show k1_chk6 _ from chk_of_lt _ hl5))
  iapply (issueA' m d _ _ (widL L) 0 (16 * k.val + 5) hwid (by decide) (by omega) cc1_scratch3.sem _ _ _ _ _ (16 * k.val + 1 + 1 + 1 + 1 + 1) (by omega) (off_t1_5 k) rfl hv5 hl5 _ f0) $$ [Htbl Hrem HB]
  · isplitl [Htbl]; · iexact Htbl
    isplitl [Hrem]; · iexact Hrem
    iexact HB
  iintro ⟨Htbl, Hrem, HB⟩
  have hv6 : (extractAt ![0] (k1_pay8 (k1_pay1 (F := F) (XA0 (F := F) d L fI k))) inpos_S1_p0 : BitVec 32) = m (a1Loc d) (ValueIdx.ix1 (⟨(512 * widL L + 256 * 0 + (16 * k.val + 6)) % 16384, Nat.mod_lt _ (by decide)⟩ : Fin 16384)) :=
    (lane_eq (XA0 (F := F) d L fI k) 6 (by decide) shapeCasts_S16_S16 slices_S16_o6_S1 inpos_S1_p0).trans (hW 6 (by decide))
  have hl6 : (extractAt ![0] (k1_pay8 (k1_pay1 (F := F) (XA0 (F := F) d L fI k))) inpos_S1_p0 : BitVec 32).toNat < 1000000 := by rw [hv6]; exact (hpre d).2.1 _
  iapply (wp_assume 𝒱₀ (thr d L) none Set.univ (show k1_chk7 _ from chk_of_lt _ hl6))
  iapply (issueA' m d _ _ (widL L) 0 (16 * k.val + 6) hwid (by decide) (by omega) cc1_scratch3.sem _ _ _ _ _ (16 * k.val + 1 + 1 + 1 + 1 + 1 + 1) (by omega) (off_t1_6 k) rfl hv6 hl6 _ f0) $$ [Htbl Hrem HB]
  · isplitl [Htbl]; · iexact Htbl
    isplitl [Hrem]; · iexact Hrem
    iexact HB
  iintro ⟨Htbl, Hrem, HB⟩
  have hv7 : (extractAt ![0] (k1_pay9 (k1_pay1 (F := F) (XA0 (F := F) d L fI k))) inpos_S1_p0 : BitVec 32) = m (a1Loc d) (ValueIdx.ix1 (⟨(512 * widL L + 256 * 0 + (16 * k.val + 7)) % 16384, Nat.mod_lt _ (by decide)⟩ : Fin 16384)) :=
    (lane_eq (XA0 (F := F) d L fI k) 7 (by decide) shapeCasts_S16_S16 slices_S16_o7_S1 inpos_S1_p0).trans (hW 7 (by decide))
  have hl7 : (extractAt ![0] (k1_pay9 (k1_pay1 (F := F) (XA0 (F := F) d L fI k))) inpos_S1_p0 : BitVec 32).toNat < 1000000 := by rw [hv7]; exact (hpre d).2.1 _
  iapply (wp_assume 𝒱₀ (thr d L) none Set.univ (show k1_chk8 _ from chk_of_lt _ hl7))
  iapply (issueA' m d _ _ (widL L) 0 (16 * k.val + 7) hwid (by decide) (by omega) cc1_scratch3.sem _ _ _ _ _ (16 * k.val + 1 + 1 + 1 + 1 + 1 + 1 + 1) (by omega) (off_t1_7 k) rfl hv7 hl7 _ f0) $$ [Htbl Hrem HB]
  · isplitl [Htbl]; · iexact Htbl
    isplitl [Hrem]; · iexact Hrem
    iexact HB
  iintro ⟨Htbl, Hrem, HB⟩
  have hv8 : (extractAt ![0] (k1_pay10 (k1_pay1 (F := F) (XA0 (F := F) d L fI k))) inpos_S1_p0 : BitVec 32) = m (a1Loc d) (ValueIdx.ix1 (⟨(512 * widL L + 256 * 0 + (16 * k.val + 8)) % 16384, Nat.mod_lt _ (by decide)⟩ : Fin 16384)) :=
    (lane_eq (XA0 (F := F) d L fI k) 8 (by decide) shapeCasts_S16_S16 slices_S16_o8_S1 inpos_S1_p0).trans (hW 8 (by decide))
  have hl8 : (extractAt ![0] (k1_pay10 (k1_pay1 (F := F) (XA0 (F := F) d L fI k))) inpos_S1_p0 : BitVec 32).toNat < 1000000 := by rw [hv8]; exact (hpre d).2.1 _
  iapply (wp_assume 𝒱₀ (thr d L) none Set.univ (show k1_chk9 _ from chk_of_lt _ hl8))
  iapply (issueA' m d _ _ (widL L) 0 (16 * k.val + 8) hwid (by decide) (by omega) cc1_scratch3.sem _ _ _ _ _ (16 * k.val + 1 + 1 + 1 + 1 + 1 + 1 + 1 + 1) (by omega) (off_t1_8 k) rfl hv8 hl8 _ f0) $$ [Htbl Hrem HB]
  · isplitl [Htbl]; · iexact Htbl
    isplitl [Hrem]; · iexact Hrem
    iexact HB
  iintro ⟨Htbl, Hrem, HB⟩
  have hv9 : (extractAt ![0] (k1_pay11 (k1_pay1 (F := F) (XA0 (F := F) d L fI k))) inpos_S1_p0 : BitVec 32) = m (a1Loc d) (ValueIdx.ix1 (⟨(512 * widL L + 256 * 0 + (16 * k.val + 9)) % 16384, Nat.mod_lt _ (by decide)⟩ : Fin 16384)) :=
    (lane_eq (XA0 (F := F) d L fI k) 9 (by decide) shapeCasts_S16_S16 slices_S16_o9_S1 inpos_S1_p0).trans (hW 9 (by decide))
  have hl9 : (extractAt ![0] (k1_pay11 (k1_pay1 (F := F) (XA0 (F := F) d L fI k))) inpos_S1_p0 : BitVec 32).toNat < 1000000 := by rw [hv9]; exact (hpre d).2.1 _
  iapply (wp_assume 𝒱₀ (thr d L) none Set.univ (show k1_chk10 _ from chk_of_lt _ hl9))
  iapply (issueA' m d _ _ (widL L) 0 (16 * k.val + 9) hwid (by decide) (by omega) cc1_scratch3.sem _ _ _ _ _ (16 * k.val + 1 + 1 + 1 + 1 + 1 + 1 + 1 + 1 + 1) (by omega) (off_t1_9 k) rfl hv9 hl9 _ f0) $$ [Htbl Hrem HB]
  · isplitl [Htbl]; · iexact Htbl
    isplitl [Hrem]; · iexact Hrem
    iexact HB
  iintro ⟨Htbl, Hrem, HB⟩
  have hv10 : (extractAt ![0] (k1_pay12 (k1_pay1 (F := F) (XA0 (F := F) d L fI k))) inpos_S1_p0 : BitVec 32) = m (a1Loc d) (ValueIdx.ix1 (⟨(512 * widL L + 256 * 0 + (16 * k.val + 10)) % 16384, Nat.mod_lt _ (by decide)⟩ : Fin 16384)) :=
    (lane_eq (XA0 (F := F) d L fI k) 10 (by decide) shapeCasts_S16_S16 slices_S16_o10_S1 inpos_S1_p0).trans (hW 10 (by decide))
  have hl10 : (extractAt ![0] (k1_pay12 (k1_pay1 (F := F) (XA0 (F := F) d L fI k))) inpos_S1_p0 : BitVec 32).toNat < 1000000 := by rw [hv10]; exact (hpre d).2.1 _
  iapply (wp_assume 𝒱₀ (thr d L) none Set.univ (show k1_chk11 _ from chk_of_lt _ hl10))
  iapply (issueA' m d _ _ (widL L) 0 (16 * k.val + 10) hwid (by decide) (by omega) cc1_scratch3.sem _ _ _ _ _ (16 * k.val + 1 + 1 + 1 + 1 + 1 + 1 + 1 + 1 + 1 + 1) (by omega) (off_t1_10 k) rfl hv10 hl10 _ f0) $$ [Htbl Hrem HB]
  · isplitl [Htbl]; · iexact Htbl
    isplitl [Hrem]; · iexact Hrem
    iexact HB
  iintro ⟨Htbl, Hrem, HB⟩
  have hv11 : (extractAt ![0] (k1_pay13 (k1_pay1 (F := F) (XA0 (F := F) d L fI k))) inpos_S1_p0 : BitVec 32) = m (a1Loc d) (ValueIdx.ix1 (⟨(512 * widL L + 256 * 0 + (16 * k.val + 11)) % 16384, Nat.mod_lt _ (by decide)⟩ : Fin 16384)) :=
    (lane_eq (XA0 (F := F) d L fI k) 11 (by decide) shapeCasts_S16_S16 slices_S16_o11_S1 inpos_S1_p0).trans (hW 11 (by decide))
  have hl11 : (extractAt ![0] (k1_pay13 (k1_pay1 (F := F) (XA0 (F := F) d L fI k))) inpos_S1_p0 : BitVec 32).toNat < 1000000 := by rw [hv11]; exact (hpre d).2.1 _
  iapply (wp_assume 𝒱₀ (thr d L) none Set.univ (show k1_chk12 _ from chk_of_lt _ hl11))
  iapply (issueA' m d _ _ (widL L) 0 (16 * k.val + 11) hwid (by decide) (by omega) cc1_scratch3.sem _ _ _ _ _ (16 * k.val + 1 + 1 + 1 + 1 + 1 + 1 + 1 + 1 + 1 + 1 + 1) (by omega) (off_t1_11 k) rfl hv11 hl11 _ f0) $$ [Htbl Hrem HB]
  · isplitl [Htbl]; · iexact Htbl
    isplitl [Hrem]; · iexact Hrem
    iexact HB
  iintro ⟨Htbl, Hrem, HB⟩
  have hv12 : (extractAt ![0] (k1_pay14 (k1_pay1 (F := F) (XA0 (F := F) d L fI k))) inpos_S1_p0 : BitVec 32) = m (a1Loc d) (ValueIdx.ix1 (⟨(512 * widL L + 256 * 0 + (16 * k.val + 12)) % 16384, Nat.mod_lt _ (by decide)⟩ : Fin 16384)) :=
    (lane_eq (XA0 (F := F) d L fI k) 12 (by decide) shapeCasts_S16_S16 slices_S16_o12_S1 inpos_S1_p0).trans (hW 12 (by decide))
  have hl12 : (extractAt ![0] (k1_pay14 (k1_pay1 (F := F) (XA0 (F := F) d L fI k))) inpos_S1_p0 : BitVec 32).toNat < 1000000 := by rw [hv12]; exact (hpre d).2.1 _
  iapply (wp_assume 𝒱₀ (thr d L) none Set.univ (show k1_chk13 _ from chk_of_lt _ hl12))
  iapply (issueA' m d _ _ (widL L) 0 (16 * k.val + 12) hwid (by decide) (by omega) cc1_scratch3.sem _ _ _ _ _ (16 * k.val + 1 + 1 + 1 + 1 + 1 + 1 + 1 + 1 + 1 + 1 + 1 + 1) (by omega) (off_t1_12 k) rfl hv12 hl12 _ f0) $$ [Htbl Hrem HB]
  · isplitl [Htbl]; · iexact Htbl
    isplitl [Hrem]; · iexact Hrem
    iexact HB
  iintro ⟨Htbl, Hrem, HB⟩
  have hv13 : (extractAt ![0] (k1_pay15 (k1_pay1 (F := F) (XA0 (F := F) d L fI k))) inpos_S1_p0 : BitVec 32) = m (a1Loc d) (ValueIdx.ix1 (⟨(512 * widL L + 256 * 0 + (16 * k.val + 13)) % 16384, Nat.mod_lt _ (by decide)⟩ : Fin 16384)) :=
    (lane_eq (XA0 (F := F) d L fI k) 13 (by decide) shapeCasts_S16_S16 slices_S16_o13_S1 inpos_S1_p0).trans (hW 13 (by decide))
  have hl13 : (extractAt ![0] (k1_pay15 (k1_pay1 (F := F) (XA0 (F := F) d L fI k))) inpos_S1_p0 : BitVec 32).toNat < 1000000 := by rw [hv13]; exact (hpre d).2.1 _
  iapply (wp_assume 𝒱₀ (thr d L) none Set.univ (show k1_chk14 _ from chk_of_lt _ hl13))
  iapply (issueA' m d _ _ (widL L) 0 (16 * k.val + 13) hwid (by decide) (by omega) cc1_scratch3.sem _ _ _ _ _ (16 * k.val + 1 + 1 + 1 + 1 + 1 + 1 + 1 + 1 + 1 + 1 + 1 + 1 + 1) (by omega) (off_t1_13 k) rfl hv13 hl13 _ f0) $$ [Htbl Hrem HB]
  · isplitl [Htbl]; · iexact Htbl
    isplitl [Hrem]; · iexact Hrem
    iexact HB
  iintro ⟨Htbl, Hrem, HB⟩
  have hv14 : (extractAt ![0] (k1_pay16 (k1_pay1 (F := F) (XA0 (F := F) d L fI k))) inpos_S1_p0 : BitVec 32) = m (a1Loc d) (ValueIdx.ix1 (⟨(512 * widL L + 256 * 0 + (16 * k.val + 14)) % 16384, Nat.mod_lt _ (by decide)⟩ : Fin 16384)) :=
    (lane_eq (XA0 (F := F) d L fI k) 14 (by decide) shapeCasts_S16_S16 slices_S16_o14_S1 inpos_S1_p0).trans (hW 14 (by decide))
  have hl14 : (extractAt ![0] (k1_pay16 (k1_pay1 (F := F) (XA0 (F := F) d L fI k))) inpos_S1_p0 : BitVec 32).toNat < 1000000 := by rw [hv14]; exact (hpre d).2.1 _
  iapply (wp_assume 𝒱₀ (thr d L) none Set.univ (show k1_chk15 _ from chk_of_lt _ hl14))
  iapply (issueA' m d _ _ (widL L) 0 (16 * k.val + 14) hwid (by decide) (by omega) cc1_scratch3.sem _ _ _ _ _ (16 * k.val + 1 + 1 + 1 + 1 + 1 + 1 + 1 + 1 + 1 + 1 + 1 + 1 + 1 + 1) (by omega) (off_t1_14 k) rfl hv14 hl14 _ f0) $$ [Htbl Hrem HB]
  · isplitl [Htbl]; · iexact Htbl
    isplitl [Hrem]; · iexact Hrem
    iexact HB
  iintro ⟨Htbl, Hrem, HB⟩
  have hv15 : (extractAt ![0] (k1_pay17 (k1_pay1 (F := F) (XA0 (F := F) d L fI k))) inpos_S1_p0 : BitVec 32) = m (a1Loc d) (ValueIdx.ix1 (⟨(512 * widL L + 256 * 0 + (16 * k.val + 15)) % 16384, Nat.mod_lt _ (by decide)⟩ : Fin 16384)) :=
    (lane_eq (XA0 (F := F) d L fI k) 15 (by decide) shapeCasts_S16_S16 slices_S16_o15_S1 inpos_S1_p0).trans (hW 15 (by decide))
  have hl15 : (extractAt ![0] (k1_pay17 (k1_pay1 (F := F) (XA0 (F := F) d L fI k))) inpos_S1_p0 : BitVec 32).toNat < 1000000 := by rw [hv15]; exact (hpre d).2.1 _
  iapply (wp_assume 𝒱₀ (thr d L) none Set.univ (show k1_chk16 _ from chk_of_lt _ hl15))
  iapply (issueA' m d _ _ (widL L) 0 (16 * k.val + 15) hwid (by decide) (by omega) cc1_scratch3.sem _ _ _ _ _ (16 * k.val + 1 + 1 + 1 + 1 + 1 + 1 + 1 + 1 + 1 + 1 + 1 + 1 + 1 + 1 + 1) (by omega) (off_t1_15 k) rfl hv15 hl15 _ f0) $$ [Htbl Hrem HB]
  · isplitl [Htbl]; · iexact Htbl
    isplitl [Hrem]; · iexact Hrem
    iexact HB
  iintro ⟨Htbl, Hrem, HB⟩
  rw [wp_ret]; imodintro
  isplitl [Hidx]; · iexact Hidx
  isplitl [Htbl]; · iexists _; iexact Htbl
  isplitl [Hrem]
  · rw [show 16 * (k.val + 1) = 16 * k.val + 1 + 1 + 1 + 1 + 1 + 1 + 1 + 1 + 1 + 1 + 1 + 1 + 1 + 1 + 1 + 1 from by omega]; iexact Hrem
  rw [show 16 * (k.val + 1) = 16 * k.val + 1 + 1 + 1 + 1 + 1 + 1 + 1 + 1 + 1 + 1 + 1 + 1 + 1 + 1 + 1 + 1 from by omega]; iexact HB

end FireA

end Cert.Proof.KW.K1

end
-- ==== Proof.BwK1AFire1.lean ====
import proofs.«215896_g38397007626377_fold_wed_m_942_26_alg».proof.Proof.BwKISetup
import proofs.«215896_g38397007626377_fold_wed_m_942_26_alg».proof.Proof.Gen.Kernel.Skeleton
import proofs.«215896_g38397007626377_fold_wed_m_942_26_alg».proof.Proof.BwK1A

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

section FireA
variable (m : (ℓ : Loc nD τ sig) → Buf (Elt F) ℓ) (d : Dev nD) (L : grid1.Coords)

/-- The 16 words trip k loads. -/
abbrev XA1 (fI : Buf (Elt F) ((thr d L).loc cc1_scratch0)) (k : Fin k1_t2_loop.trips) : S16.Idx → BitVec 32 :=
  (idW).view.readAt (Elt F) (Rect.unit (s := S320) (k1_off37 k) S16.size (k1_off37_inb k)).toLoadRect fI

def fireInvA1 (fI : Buf (Elt F) ((thr d L).loc cc1_scratch0)) (f0 : Buf (Elt F) ((thr d L).loc cc1_scratch1)) (k : ℕ) (_ : Unit) : sProp 𝕄 :=
  iprop(((thr d L).loc cc1_scratch0 ↦{fullShare} fI) ∗ (∃ q, a4Loc d ↦{q} m (a4Loc d))
    ∗ ((thr d L).loc cc1_scratch1 ↦[remA 1 (16 * k)]{fullShare} f0)
    ∗ Transfers.Batch countersEmb (thr d L) (.dma cc1_scratch4.sem) (none : HIx 2) NA (DA m d ((L 0).castLE hcore1) ((L 1).castLE hsub1) (widL L) 1) (16 * k) 0)

set_option maxHeartbeats 4000000 in
theorem fireA1_step (fI : Buf (Elt F) ((thr d L).loc cc1_scratch0)) (hI : IdxHoldsA m d ((L 0).castLE hcore1) ((L 1).castLE hsub1) (512 * widL L + 256 * 1) fI) (hpre : PreOK m)
    (f0 : Buf (Elt F) ((thr d L).loc cc1_scratch1)) (k : Fin k1_t2_loop.trips) (acc : Unit) :
    fireInvA1 m d L fI f0 k acc ⊢ wp frame (wpE (defs₀ (F := F)) 𝒱₀ (thr d L) none) Set.univ
      (k1_t2_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 k acc)
      (fireInvA1 m d L fI f0 (k.val + 1)) := by
  have hk : k.val < 16 := Nat.lt_of_lt_of_le k.isLt k1_t2_abs.2.1
  have hwid : widL L < 32 := widL_lt L
  have hW : ∀ (u : ℕ) (hu : u < 16), XA1 (F := F) d L fI k (ValueIdx.ix1 (⟨u, hu⟩ : Fin 16))
      = m (a1Loc d) (ValueIdx.ix1 (⟨(512 * widL L + 256 * 1 + (16 * k.val + u)) % 16384, Nat.mod_lt _ (by decide)⟩ : Fin 16384)) :=
    fun u hu => wordA m d _ _ (512 * widL L + 256 * 1) fI hI k.val hk (k1_off37 k) (k1_off37_eq k) (k1_off37_inb k) u hu
  unfold k1_t2_body
  simp only [k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton]
  unfold k1_part17_skel k1_part18_skel k1_part19_skel k1_part20_skel k1_part21_skel k1_part22_skel k1_part23_skel k1_part24_skel k1_part25_skel k1_part26_skel k1_part27_skel k1_part28_skel k1_part29_skel k1_part30_skel k1_part31_skel k1_part32_skel
  simp only [Prog.lift, Prog.bind_op, Prog.bind_ret, Prog.pure_eq_ret]
  unfold fireInvA1
  iintro ⟨Hidx, ⟨%q, Htbl⟩, Hrem, HB⟩
  iapply (wp_load 𝒱₀ (thr d L) none Set.univ (m := idW) (S := Finset.univ) (q := fullShare) (f := fI) (Finset.subset_univ _)) $$ Hidx; iintro Hidx
  have hv0 : (extractAt ![0] (k1_pay19 (F := F) (XA1 (F := F) d L fI k)) inpos_S1_p0 : BitVec 32) = m (a1Loc d) (ValueIdx.ix1 (⟨(512 * widL L + 256 * 1 + (16 * k.val + 0)) % 16384, Nat.mod_lt _ (by decide)⟩ : Fin 16384)) :=
    (lane_eq (XA1 (F := F) d L fI k) 0 (by decide) shapeCasts_S16_S16 slices_S16_o0_S1 inpos_S1_p0).trans (hW 0 (by decide))
  have hl0 : (extractAt ![0] (k1_pay19 (F := F) (XA1 (F := F) d L fI k)) inpos_S1_p0 : BitVec 32).toNat < 1000000 := by rw [hv0]; exact (hpre d).2.1 _
  iapply (wp_assume 𝒱₀ (thr d L) none Set.univ (show k1_chk17 _ from chk_of_lt _ hl0))
  iapply (issueA' m d _ _ (widL L) 1 (16 * k.val + 0) hwid (by decide) (by omega) cc1_scratch4.sem _ _ _ _ _ (16 * k.val) (by omega) (off_t2_0 k) rfl hv0 hl0 _ f0) $$ [Htbl Hrem HB]
  · isplitl [Htbl]; · iexact Htbl
    isplitl [Hrem]; · iexact Hrem
    iexact HB
  iintro ⟨Htbl, Hrem, HB⟩
  have hv1 : (extractAt ![0] (k1_pay20 (k1_pay18 (F := F) (XA1 (F := F) d L fI k))) inpos_S1_p0 : BitVec 32) = m (a1Loc d) (ValueIdx.ix1 (⟨(512 * widL L + 256 * 1 + (16 * k.val + 1)) % 16384, Nat.mod_lt _ (by decide)⟩ : Fin 16384)) :=
    (lane_eq (XA1 (F := F) d L fI k) 1 (by decide) shapeCasts_S16_S16 slices_S16_o1_S1 inpos_S1_p0).trans (hW 1 (by decide))
  have hl1 : (extractAt ![0] (k1_pay20 (k1_pay18 (F := F) (XA1 (F := F) d L fI k))) inpos_S1_p0 : BitVec 32).toNat < 1000000 := by rw [hv1]; exact (hpre d).2.1 _
  iapply (wp_assume 𝒱₀ (thr d L) none Set.univ (show k1_chk18 _ from chk_of_lt _ hl1))
  iapply (issueA' m d _ _ (widL L) 1 (16 * k.val + 1) hwid (by decide) (by omega) cc1_scratch4.sem _ _ _ _ _ (16 * k.val + 1) (by omega) (off_t2_1 k) rfl hv1 hl1 _ f0) $$ [Htbl Hrem HB]
  · isplitl [Htbl]; · iexact Htbl
    isplitl [Hrem]; · iexact Hrem
    iexact HB
  iintro ⟨Htbl, Hrem, HB⟩
  have hv2 : (extractAt ![0] (k1_pay21 (k1_pay18 (F := F) (XA1 (F := F) d L fI k))) inpos_S1_p0 : BitVec 32) = m (a1Loc d) (ValueIdx.ix1 (⟨(512 * widL L + 256 * 1 + (16 * k.val + 2)) % 16384, Nat.mod_lt _ (by decide)⟩ : Fin 16384)) :=
    (lane_eq (XA1 (F := F) d L fI k) 2 (by decide) shapeCasts_S16_S16 slices_S16_o2_S1 inpos_S1_p0).trans (hW 2 (by decide))
  have hl2 : (extractAt ![0] (k1_pay21 (k1_pay18 (F := F) (XA1 (F := F) d L fI k))) inpos_S1_p0 : BitVec 32).toNat < 1000000 := by rw [hv2]; exact (hpre d).2.1 _
  iapply (wp_assume 𝒱₀ (thr d L) none Set.univ (show k1_chk19 _ from chk_of_lt _ hl2))
  iapply (issueA' m d _ _ (widL L) 1 (16 * k.val + 2) hwid (by decide) (by omega) cc1_scratch4.sem _ _ _ _ _ (16 * k.val + 1 + 1) (by omega) (off_t2_2 k) rfl hv2 hl2 _ f0) $$ [Htbl Hrem HB]
  · isplitl [Htbl]; · iexact Htbl
    isplitl [Hrem]; · iexact Hrem
    iexact HB
  iintro ⟨Htbl, Hrem, HB⟩
  have hv3 : (extractAt ![0] (k1_pay22 (k1_pay18 (F := F) (XA1 (F := F) d L fI k))) inpos_S1_p0 : BitVec 32) = m (a1Loc d) (ValueIdx.ix1 (⟨(512 * widL L + 256 * 1 + (16 * k.val + 3)) % 16384, Nat.mod_lt _ (by decide)⟩ : Fin 16384)) :=
    (lane_eq (XA1 (F := F) d L fI k) 3 (by decide) shapeCasts_S16_S16 slices_S16_o3_S1 inpos_S1_p0).trans (hW 3 (by decide))
  have hl3 : (extractAt ![0] (k1_pay22 (k1_pay18 (F := F) (XA1 (F := F) d L fI k))) inpos_S1_p0 : BitVec 32).toNat < 1000000 := by rw [hv3]; exact (hpre d).2.1 _
  iapply (wp_assume 𝒱₀ (thr d L) none Set.univ (show k1_chk20 _ from chk_of_lt _ hl3))
  iapply (issueA' m d _ _ (widL L) 1 (16 * k.val + 3) hwid (by decide) (by omega) cc1_scratch4.sem _ _ _ _ _ (16 * k.val + 1 + 1 + 1) (by omega) (off_t2_3 k) rfl hv3 hl3 _ f0) $$ [Htbl Hrem HB]
  · isplitl [Htbl]; · iexact Htbl
    isplitl [Hrem]; · iexact Hrem
    iexact HB
  iintro ⟨Htbl, Hrem, HB⟩
  have hv4 : (extractAt ![0] (k1_pay23 (k1_pay18 (F := F) (XA1 (F := F) d L fI k))) inpos_S1_p0 : BitVec 32) = m (a1Loc d) (ValueIdx.ix1 (⟨(512 * widL L + 256 * 1 + (16 * k.val + 4)) % 16384, Nat.mod_lt _ (by decide)⟩ : Fin 16384)) :=
    (lane_eq (XA1 (F := F) d L fI k) 4 (by decide) shapeCasts_S16_S16 slices_S16_o4_S1 inpos_S1_p0).trans (hW 4 (by decide))
  have hl4 : (extractAt ![0] (k1_pay23 (k1_pay18 (F := F) (XA1 (F := F) d L fI k))) inpos_S1_p0 : BitVec 32).toNat < 1000000 := by rw [hv4]; exact (hpre d).2.1 _
  iapply (wp_assume 𝒱₀ (thr d L) none Set.univ (show k1_chk21 _ from chk_of_lt _ hl4))
  iapply (issueA' m d _ _ (widL L) 1 (16 * k.val + 4) hwid (by decide) (by omega) cc1_scratch4.sem _ _ _ _ _ (16 * k.val + 1 + 1 + 1 + 1) (by omega) (off_t2_4 k) rfl hv4 hl4 _ f0) $$ [Htbl Hrem HB]
  · isplitl [Htbl]; · iexact Htbl
    isplitl [Hrem]; · iexact Hrem
    iexact HB
  iintro ⟨Htbl, Hrem, HB⟩
  have hv5 : (extractAt ![0] (k1_pay24 (k1_pay18 (F := F) (XA1 (F := F) d L fI k))) inpos_S1_p0 : BitVec 32) = m (a1Loc d) (ValueIdx.ix1 (⟨(512 * widL L + 256 * 1 + (16 * k.val + 5)) % 16384, Nat.mod_lt _ (by decide)⟩ : Fin 16384)) :=
    (lane_eq (XA1 (F := F) d L fI k) 5 (by decide) shapeCasts_S16_S16 slices_S16_o5_S1 inpos_S1_p0).trans (hW 5 (by decide))
  have hl5 : (extractAt ![0] (k1_pay24 (k1_pay18 (F := F) (XA1 (F := F) d L fI k))) inpos_S1_p0 : BitVec 32).toNat < 1000000 := by rw [hv5]; exact (hpre d).2.1 _
  iapply (wp_assume 𝒱₀ (thr d L) none Set.univ (show k1_chk22 _ from chk_of_lt _ hl5))
  iapply (issueA' m d _ _ (widL L) 1 (16 * k.val + 5) hwid (by decide) (by omega) cc1_scratch4.sem _ _ _ _ _ (16 * k.val + 1 + 1 + 1 + 1 + 1) (by omega) (off_t2_5 k) rfl hv5 hl5 _ f0) $$ [Htbl Hrem HB]
  · isplitl [Htbl]; · iexact Htbl
    isplitl [Hrem]; · iexact Hrem
    iexact HB
  iintro ⟨Htbl, Hrem, HB⟩
  have hv6 : (extractAt ![0] (k1_pay25 (k1_pay18 (F := F) (XA1 (F := F) d L fI k))) inpos_S1_p0 : BitVec 32) = m (a1Loc d) (ValueIdx.ix1 (⟨(512 * widL L + 256 * 1 + (16 * k.val + 6)) % 16384, Nat.mod_lt _ (by decide)⟩ : Fin 16384)) :=
    (lane_eq (XA1 (F := F) d L fI k) 6 (by decide) shapeCasts_S16_S16 slices_S16_o6_S1 inpos_S1_p0).trans (hW 6 (by decide))
  have hl6 : (extractAt ![0] (k1_pay25 (k1_pay18 (F := F) (XA1 (F := F) d L fI k))) inpos_S1_p0 : BitVec 32).toNat < 1000000 := by rw [hv6]; exact (hpre d).2.1 _
  iapply (wp_assume 𝒱₀ (thr d L) none Set.univ (show k1_chk23 _ from chk_of_lt _ hl6))
  iapply (issueA' m d _ _ (widL L) 1 (16 * k.val + 6) hwid (by decide) (by omega) cc1_scratch4.sem _ _ _ _ _ (16 * k.val + 1 + 1 + 1 + 1 + 1 + 1) (by omega) (off_t2_6 k) rfl hv6 hl6 _ f0) $$ [Htbl Hrem HB]
  · isplitl [Htbl]; · iexact Htbl
    isplitl [Hrem]; · iexact Hrem
    iexact HB
  iintro ⟨Htbl, Hrem, HB⟩
  have hv7 : (extractAt ![0] (k1_pay26 (k1_pay18 (F := F) (XA1 (F := F) d L fI k))) inpos_S1_p0 : BitVec 32) = m (a1Loc d) (ValueIdx.ix1 (⟨(512 * widL L + 256 * 1 + (16 * k.val + 7)) % 16384, Nat.mod_lt _ (by decide)⟩ : Fin 16384)) :=
    (lane_eq (XA1 (F := F) d L fI k) 7 (by decide) shapeCasts_S16_S16 slices_S16_o7_S1 inpos_S1_p0).trans (hW 7 (by decide))
  have hl7 : (extractAt ![0] (k1_pay26 (k1_pay18 (F := F) (XA1 (F := F) d L fI k))) inpos_S1_p0 : BitVec 32).toNat < 1000000 := by rw [hv7]; exact (hpre d).2.1 _
  iapply (wp_assume 𝒱₀ (thr d L) none Set.univ (show k1_chk24 _ from chk_of_lt _ hl7))
  iapply (issueA' m d _ _ (widL L) 1 (16 * k.val + 7) hwid (by decide) (by omega) cc1_scratch4.sem _ _ _ _ _ (16 * k.val + 1 + 1 + 1 + 1 + 1 + 1 + 1) (by omega) (off_t2_7 k) rfl hv7 hl7 _ f0) $$ [Htbl Hrem HB]
  · isplitl [Htbl]; · iexact Htbl
    isplitl [Hrem]; · iexact Hrem
    iexact HB
  iintro ⟨Htbl, Hrem, HB⟩
  have hv8 : (extractAt ![0] (k1_pay27 (k1_pay18 (F := F) (XA1 (F := F) d L fI k))) inpos_S1_p0 : BitVec 32) = m (a1Loc d) (ValueIdx.ix1 (⟨(512 * widL L + 256 * 1 + (16 * k.val + 8)) % 16384, Nat.mod_lt _ (by decide)⟩ : Fin 16384)) :=
    (lane_eq (XA1 (F := F) d L fI k) 8 (by decide) shapeCasts_S16_S16 slices_S16_o8_S1 inpos_S1_p0).trans (hW 8 (by decide))
  have hl8 : (extractAt ![0] (k1_pay27 (k1_pay18 (F := F) (XA1 (F := F) d L fI k))) inpos_S1_p0 : BitVec 32).toNat < 1000000 := by rw [hv8]; exact (hpre d).2.1 _
  iapply (wp_assume 𝒱₀ (thr d L) none Set.univ (show k1_chk25 _ from chk_of_lt _ hl8))
  iapply (issueA' m d _ _ (widL L) 1 (16 * k.val + 8) hwid (by decide) (by omega) cc1_scratch4.sem _ _ _ _ _ (16 * k.val + 1 + 1 + 1 + 1 + 1 + 1 + 1 + 1) (by omega) (off_t2_8 k) rfl hv8 hl8 _ f0) $$ [Htbl Hrem HB]
  · isplitl [Htbl]; · iexact Htbl
    isplitl [Hrem]; · iexact Hrem
    iexact HB
  iintro ⟨Htbl, Hrem, HB⟩
  have hv9 : (extractAt ![0] (k1_pay28 (k1_pay18 (F := F) (XA1 (F := F) d L fI k))) inpos_S1_p0 : BitVec 32) = m (a1Loc d) (ValueIdx.ix1 (⟨(512 * widL L + 256 * 1 + (16 * k.val + 9)) % 16384, Nat.mod_lt _ (by decide)⟩ : Fin 16384)) :=
    (lane_eq (XA1 (F := F) d L fI k) 9 (by decide) shapeCasts_S16_S16 slices_S16_o9_S1 inpos_S1_p0).trans (hW 9 (by decide))
  have hl9 : (extractAt ![0] (k1_pay28 (k1_pay18 (F := F) (XA1 (F := F) d L fI k))) inpos_S1_p0 : BitVec 32).toNat < 1000000 := by rw [hv9]; exact (hpre d).2.1 _
  iapply (wp_assume 𝒱₀ (thr d L) none Set.univ (show k1_chk26 _ from chk_of_lt _ hl9))
  iapply (issueA' m d _ _ (widL L) 1 (16 * k.val + 9) hwid (by decide) (by omega) cc1_scratch4.sem _ _ _ _ _ (16 * k.val + 1 + 1 + 1 + 1 + 1 + 1 + 1 + 1 + 1) (by omega) (off_t2_9 k) rfl hv9 hl9 _ f0) $$ [Htbl Hrem HB]
  · isplitl [Htbl]; · iexact Htbl
    isplitl [Hrem]; · iexact Hrem
    iexact HB
  iintro ⟨Htbl, Hrem, HB⟩
  have hv10 : (extractAt ![0] (k1_pay29 (k1_pay18 (F := F) (XA1 (F := F) d L fI k))) inpos_S1_p0 : BitVec 32) = m (a1Loc d) (ValueIdx.ix1 (⟨(512 * widL L + 256 * 1 + (16 * k.val + 10)) % 16384, Nat.mod_lt _ (by decide)⟩ : Fin 16384)) :=
    (lane_eq (XA1 (F := F) d L fI k) 10 (by decide) shapeCasts_S16_S16 slices_S16_o10_S1 inpos_S1_p0).trans (hW 10 (by decide))
  have hl10 : (extractAt ![0] (k1_pay29 (k1_pay18 (F := F) (XA1 (F := F) d L fI k))) inpos_S1_p0 : BitVec 32).toNat < 1000000 := by rw [hv10]; exact (hpre d).2.1 _
  iapply (wp_assume 𝒱₀ (thr d L) none Set.univ (show k1_chk27 _ from chk_of_lt _ hl10))
  iapply (issueA' m d _ _ (widL L) 1 (16 * k.val + 10) hwid (by decide) (by omega) cc1_scratch4.sem _ _ _ _ _ (16 * k.val + 1 + 1 + 1 + 1 + 1 + 1 + 1 + 1 + 1 + 1) (by omega) (off_t2_10 k) rfl hv10 hl10 _ f0) $$ [Htbl Hrem HB]
  · isplitl [Htbl]; · iexact Htbl
    isplitl [Hrem]; · iexact Hrem
    iexact HB
  iintro ⟨Htbl, Hrem, HB⟩
  have hv11 : (extractAt ![0] (k1_pay30 (k1_pay18 (F := F) (XA1 (F := F) d L fI k))) inpos_S1_p0 : BitVec 32) = m (a1Loc d) (ValueIdx.ix1 (⟨(512 * widL L + 256 * 1 + (16 * k.val + 11)) % 16384, Nat.mod_lt _ (by decide)⟩ : Fin 16384)) :=
    (lane_eq (XA1 (F := F) d L fI k) 11 (by decide) shapeCasts_S16_S16 slices_S16_o11_S1 inpos_S1_p0).trans (hW 11 (by decide))
  have hl11 : (extractAt ![0] (k1_pay30 (k1_pay18 (F := F) (XA1 (F := F) d L fI k))) inpos_S1_p0 : BitVec 32).toNat < 1000000 := by rw [hv11]; exact (hpre d).2.1 _
  iapply (wp_assume 𝒱₀ (thr d L) none Set.univ (show k1_chk28 _ from chk_of_lt _ hl11))
  iapply (issueA' m d _ _ (widL L) 1 (16 * k.val + 11) hwid (by decide) (by omega) cc1_scratch4.sem _ _ _ _ _ (16 * k.val + 1 + 1 + 1 + 1 + 1 + 1 + 1 + 1 + 1 + 1 + 1) (by omega) (off_t2_11 k) rfl hv11 hl11 _ f0) $$ [Htbl Hrem HB]
  · isplitl [Htbl]; · iexact Htbl
    isplitl [Hrem]; · iexact Hrem
    iexact HB
  iintro ⟨Htbl, Hrem, HB⟩
  have hv12 : (extractAt ![0] (k1_pay31 (k1_pay18 (F := F) (XA1 (F := F) d L fI k))) inpos_S1_p0 : BitVec 32) = m (a1Loc d) (ValueIdx.ix1 (⟨(512 * widL L + 256 * 1 + (16 * k.val + 12)) % 16384, Nat.mod_lt _ (by decide)⟩ : Fin 16384)) :=
    (lane_eq (XA1 (F := F) d L fI k) 12 (by decide) shapeCasts_S16_S16 slices_S16_o12_S1 inpos_S1_p0).trans (hW 12 (by decide))
  have hl12 : (extractAt ![0] (k1_pay31 (k1_pay18 (F := F) (XA1 (F := F) d L fI k))) inpos_S1_p0 : BitVec 32).toNat < 1000000 := by rw [hv12]; exact (hpre d).2.1 _
  iapply (wp_assume 𝒱₀ (thr d L) none Set.univ (show k1_chk29 _ from chk_of_lt _ hl12))
  iapply (issueA' m d _ _ (widL L) 1 (16 * k.val + 12) hwid (by decide) (by omega) cc1_scratch4.sem _ _ _ _ _ (16 * k.val + 1 + 1 + 1 + 1 + 1 + 1 + 1 + 1 + 1 + 1 + 1 + 1) (by omega) (off_t2_12 k) rfl hv12 hl12 _ f0) $$ [Htbl Hrem HB]
  · isplitl [Htbl]; · iexact Htbl
    isplitl [Hrem]; · iexact Hrem
    iexact HB
  iintro ⟨Htbl, Hrem, HB⟩
  have hv13 : (extractAt ![0] (k1_pay32 (k1_pay18 (F := F) (XA1 (F := F) d L fI k))) inpos_S1_p0 : BitVec 32) = m (a1Loc d) (ValueIdx.ix1 (⟨(512 * widL L + 256 * 1 + (16 * k.val + 13)) % 16384, Nat.mod_lt _ (by decide)⟩ : Fin 16384)) :=
    (lane_eq (XA1 (F := F) d L fI k) 13 (by decide) shapeCasts_S16_S16 slices_S16_o13_S1 inpos_S1_p0).trans (hW 13 (by decide))
  have hl13 : (extractAt ![0] (k1_pay32 (k1_pay18 (F := F) (XA1 (F := F) d L fI k))) inpos_S1_p0 : BitVec 32).toNat < 1000000 := by rw [hv13]; exact (hpre d).2.1 _
  iapply (wp_assume 𝒱₀ (thr d L) none Set.univ (show k1_chk30 _ from chk_of_lt _ hl13))
  iapply (issueA' m d _ _ (widL L) 1 (16 * k.val + 13) hwid (by decide) (by omega) cc1_scratch4.sem _ _ _ _ _ (16 * k.val + 1 + 1 + 1 + 1 + 1 + 1 + 1 + 1 + 1 + 1 + 1 + 1 + 1) (by omega) (off_t2_13 k) rfl hv13 hl13 _ f0) $$ [Htbl Hrem HB]
  · isplitl [Htbl]; · iexact Htbl
    isplitl [Hrem]; · iexact Hrem
    iexact HB
  iintro ⟨Htbl, Hrem, HB⟩
  have hv14 : (extractAt ![0] (k1_pay33 (k1_pay18 (F := F) (XA1 (F := F) d L fI k))) inpos_S1_p0 : BitVec 32) = m (a1Loc d) (ValueIdx.ix1 (⟨(512 * widL L + 256 * 1 + (16 * k.val + 14)) % 16384, Nat.mod_lt _ (by decide)⟩ : Fin 16384)) :=
    (lane_eq (XA1 (F := F) d L fI k) 14 (by decide) shapeCasts_S16_S16 slices_S16_o14_S1 inpos_S1_p0).trans (hW 14 (by decide))
  have hl14 : (extractAt ![0] (k1_pay33 (k1_pay18 (F := F) (XA1 (F := F) d L fI k))) inpos_S1_p0 : BitVec 32).toNat < 1000000 := by rw [hv14]; exact (hpre d).2.1 _
  iapply (wp_assume 𝒱₀ (thr d L) none Set.univ (show k1_chk31 _ from chk_of_lt _ hl14))
  iapply (issueA' m d _ _ (widL L) 1 (16 * k.val + 14) hwid (by decide) (by omega) cc1_scratch4.sem _ _ _ _ _ (16 * k.val + 1 + 1 + 1 + 1 + 1 + 1 + 1 + 1 + 1 + 1 + 1 + 1 + 1 + 1) (by omega) (off_t2_14 k) rfl hv14 hl14 _ f0) $$ [Htbl Hrem HB]
  · isplitl [Htbl]; · iexact Htbl
    isplitl [Hrem]; · iexact Hrem
    iexact HB
  iintro ⟨Htbl, Hrem, HB⟩
  have hv15 : (extractAt ![0] (k1_pay34 (k1_pay18 (F := F) (XA1 (F := F) d L fI k))) inpos_S1_p0 : BitVec 32) = m (a1Loc d) (ValueIdx.ix1 (⟨(512 * widL L + 256 * 1 + (16 * k.val + 15)) % 16384, Nat.mod_lt _ (by decide)⟩ : Fin 16384)) :=
    (lane_eq (XA1 (F := F) d L fI k) 15 (by decide) shapeCasts_S16_S16 slices_S16_o15_S1 inpos_S1_p0).trans (hW 15 (by decide))
  have hl15 : (extractAt ![0] (k1_pay34 (k1_pay18 (F := F) (XA1 (F := F) d L fI k))) inpos_S1_p0 : BitVec 32).toNat < 1000000 := by rw [hv15]; exact (hpre d).2.1 _
  iapply (wp_assume 𝒱₀ (thr d L) none Set.univ (show k1_chk32 _ from chk_of_lt _ hl15))
  iapply (issueA' m d _ _ (widL L) 1 (16 * k.val + 15) hwid (by decide) (by omega) cc1_scratch4.sem _ _ _ _ _ (16 * k.val + 1 + 1 + 1 + 1 + 1 + 1 + 1 + 1 + 1 + 1 + 1 + 1 + 1 + 1 + 1) (by omega) (off_t2_15 k) rfl hv15 hl15 _ f0) $$ [Htbl Hrem HB]
  · isplitl [Htbl]; · iexact Htbl
    isplitl [Hrem]; · iexact Hrem
    iexact HB
  iintro ⟨Htbl, Hrem, HB⟩
  rw [wp_ret]; imodintro
  isplitl [Hidx]; · iexact Hidx
  isplitl [Htbl]; · iexists _; iexact Htbl
  isplitl [Hrem]
  · rw [show 16 * (k.val + 1) = 16 * k.val + 1 + 1 + 1 + 1 + 1 + 1 + 1 + 1 + 1 + 1 + 1 + 1 + 1 + 1 + 1 + 1 from by omega]; iexact Hrem
  rw [show 16 * (k.val + 1) = 16 * k.val + 1 + 1 + 1 + 1 + 1 + 1 + 1 + 1 + 1 + 1 + 1 + 1 + 1 + 1 + 1 + 1 from by omega]; iexact HB

end FireA

end Cert.Proof.KW.K1

end
-- ==== Proof.BwK1AP195.lean ====
import proofs.«215896_g38397007626377_fold_wed_m_942_26_alg».proof.Proof.BwKISetup
import proofs.«215896_g38397007626377_fold_wed_m_942_26_alg».proof.Proof.Gen.Kernel.Skeleton
import proofs.«215896_g38397007626377_fold_wed_m_942_26_alg».proof.Proof.BwK1A
import proofs.«215896_g38397007626377_fold_wed_m_942_26_alg».proof.Proof.BwK1AFire0
import proofs.«215896_g38397007626377_fold_wed_m_942_26_alg».proof.Proof.BwK1AFire1
import proofs.«215896_g38397007626377_fold_wed_m_942_26_alg».proof.Proof.BwK1AJoin

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

/-! ## The program's first part: both chunks of the output words fetched and fired -/

section Part195

variable (m : (ℓ : Loc nD τ sig) → Buf (Elt F) ℓ) (d : Dev nD) (L : grid1.Coords)

/-- What the index fetch's copy credits. -/
def NI : ℕ := (idxDstA).view.dmaCredit
theorem NI_pos : 0 < NI := View.dmaCredit_pos _ (show 0 < S256.numel by decide)

theorem off1_eq : k1_off1 L = ![512 * widL L + 256 * 0] :=
  (k1_off1_eq L).trans (congrArg (fun x => (![x] : Fin 1 → ℕ)) (by unfold widL; omega))
theorem off36_eq : k1_off36 L = ![512 * widL L + 256 * 1] :=
  (k1_off36_eq L).trans (congrArg (fun x => (![x] : Fin 1 → ℕ)) (by unfold widL; omega))

theorem trips_t1 : Scf.trips k1_t1_loop.lb k1_t1_loop.ub k1_t1_loop.st = 16 := by decide
theorem trips_t2 : Scf.trips k1_t2_loop.lb k1_t2_loop.ub k1_t2_loop.st = 16 := by decide

set_option maxHeartbeats 4000000 in
theorem wp_part195 (hpre : PreOK m) (O : CellTallies nD τ sig (HIx 2)) (hO : ∀ g, O g none = 0) (W : Waits sig (HIx 2))
    (q1 : PosShare TreeShare) (fi : Buf (Elt F) ((thr d L).loc cc1_scratch0)) (fA : Buf (Elt F) ((thr d L).loc cc1_scratch1)) :
    iprop(levAts (K (F := F)).L (K (F := F)).lev ∗ owesN (F := F) (thr d L) O W
        ∗ (a1Loc d ↦{q1} m (a1Loc d)) ∗ (∃ q, a4Loc d ↦{q} m (a4Loc d))
        ∗ ((thr d L).loc cc1_scratch0 ↦{fullShare} fi) ∗ ((thr d L).loc cc1_scratch1 ↦{fullShare} fA)
        ∗ semVal (thr d L, SemLoc.dma cc1_scratch3.sem) 0 ∗ semVal (thr d L, SemLoc.dma cc1_scratch4.sem) 0
        ∗ semVal (thr d L, SemLoc.dma cc1_scoped0.sem) 0 ∗ semVal (thr d L, SemLoc.dma cc1_scoped1.sem) 0)
      ⊢ wp frame (wpE (defs₀ (F := F)) 𝒱₀ (thr d L) none) Set.univ
          (k1_part195 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
          (fun _ => iprop(owesN (F := F) (thr d L) O W ∗ (∃ q, a4Loc d ↦{q} m (a4Loc d))
            ∗ (∃ f, (thr d L).loc cc1_scratch0 ↦{fullShare} f)
            ∗ Transfers.Batch countersEmb (thr d L) (.dma cc1_scratch3.sem) (none : HIx 2) NA (DA m d ((L 0).castLE hcore1) ((L 1).castLE hsub1) (widL L) 0) 256 0
            ∗ Transfers.Batch countersEmb (thr d L) (.dma cc1_scratch4.sem) (none : HIx 2) NA (DA m d ((L 0).castLE hcore1) ((L 1).castLE hsub1) (widL L) 1) 256 0
            ∗ semVal (thr d L, SemLoc.dma cc1_scoped0.sem) 0 ∗ semVal (thr d L, SemLoc.dma cc1_scoped1.sem) 0)) := by
  have hw := widL_lt L
  simp only [k1_part195_eq_skeleton]; unfold k1_part195_skel
  simp only [Prog.lift, Prog.bind_op, Prog.bind_ret, Prog.pure_eq_ret, Prog.bind_assoc]
  iintro ⟨#Hlv, HO, Ha1, ⟨%q, Ha4⟩, HsI, HsA, Hs3, Hs4, Hc0, Hc1⟩
  -- the first chunk's index fetch
  ihave Hs := (pointsTo_split_subset (ℓ := a1Loc d) (q := q1) (f := m (a1Loc d)) (Finset.subset_univ (idxSrcA (k1_off1 L) (k1_off1_inb L)).view.set)).1 $$ Ha1
  icases Hs with ⟨Hsrc, Ha1r⟩
  iapply (syncCopy d _ _ cc1_scoped0.sem NI rfl NI_pos rfl Finset.univ (Finset.subset_univ _) q1 (m (a1Loc d)) fi O hO W
    (src := idxSrcA (k1_off1 L) (k1_off1_inb L)) (dst := idxDstA)) $$ [Hsrc HsI Hc0 HO]
  · isplitr; · iexact Hlv
    isplitl [Hsrc]; · iexact Hsrc
    isplitl [HsI]; · iexact HsI
    isplitl [Hc0]; · iexact Hc0
    iexact HO
  iintro ⟨HsI, Hsrc, Hc0, HO⟩
  ihave Ha1 := (pointsTo_split_subset (ℓ := a1Loc d) (q := q1) (f := m (a1Loc d)) (Finset.subset_univ (idxSrcA (k1_off1 L) (k1_off1_inb L)).view.set)).2 $$ [Hsrc Ha1r]
  · isplitl [Hsrc]; · iexact Hsrc
    iexact Ha1r
  have hI0 := idxA_holds m d ((L 0).castLE hcore1) ((L 1).castLE hsub1) (512 * widL L + 256 * 0) (by omega) (k1_off1 L) (off1_eq L) (k1_off1_inb L) fi
  -- the rows scratch as its two slots; the first chunk's batch
  ihave Hr := (pointsTo_split_subset (ℓ := (thr d L).loc cc1_scratch1) (q := fullShare) (f := fA) (Finset.subset_univ (remA 0 0))).1 $$ HsA
  icases Hr with ⟨Hr0, Hr1⟩
  imod (Transfers.batch_alloc' (Lvl := ℕ) countersEmb (thr d L) (none : HIx 2) NA (DA m d ((L 0).castLE hcore1) ((L 1).castLE hsub1) (widL L) 0) (sm := .dma cc1_scratch3.sem) (E := Set.univ)) $$ Hs3 with HB0
  sl_for (fireInvA0 m d L _ fA) $$ [HsI Ha4 Hr0 HB0]
  case region => exact fun k acc => fireA0_step m d L _ hI0 hpre fA k acc
  · unfold fireInvA0
    rw [Nat.mul_zero]
    isplitl [HsI]; · iexact HsI
    isplitl [Ha4]; · iexists _; iexact Ha4
    isplitl [Hr0]; · iexact Hr0
    iexact HB0
  iintro %_ HI
  unfold fireInvA0
  rw [trips_t1]
  icases HI with ⟨HsI, ⟨%q', Ha4⟩, -, HB0⟩
  unfold wp_part195.sl.prog.cont_1
  -- the second chunk's index fetch
  ihave Hs := (pointsTo_split_subset (ℓ := a1Loc d) (q := q1) (f := m (a1Loc d)) (Finset.subset_univ (idxSrcA (k1_off36 L) (k1_off36_inb L)).view.set)).1 $$ Ha1
  icases Hs with ⟨Hsrc, Ha1r⟩
  iapply (syncCopy d _ _ cc1_scoped1.sem NI rfl NI_pos rfl Finset.univ (Finset.subset_univ _) q1 (m (a1Loc d)) _ O hO W
    (src := idxSrcA (k1_off36 L) (k1_off36_inb L)) (dst := idxDstA)) $$ [Hsrc HsI Hc1 HO]
  · isplitr; · iexact Hlv
    isplitl [Hsrc]; · iexact Hsrc
    isplitl [HsI]; · iexact HsI
    isplitl [Hc1]; · iexact Hc1
    iexact HO
  iintro ⟨HsI, -, Hc1, HO⟩
  have hI1 := idxA_holds m d ((L 0).castLE hcore1) ((L 1).castLE hsub1) (512 * widL L + 256 * 1) (by omega) (k1_off36 L) (off36_eq L) (k1_off36_inb L)
    (View.write (Elt F) idxDstA.view fi ((ReadAs.same : ReadAs (Elt F) S256 .i32 S256 .i32).apply (View.read (Elt F) (idxSrcA (k1_off1 L) (k1_off1_inb L)).view (m (a1Loc d)))) Finset.univ)
  imod (Transfers.batch_alloc' (Lvl := ℕ) countersEmb (thr d L) (none : HIx 2) NA (DA m d ((L 0).castLE hcore1) ((L 1).castLE hsub1) (widL L) 1) (sm := .dma cc1_scratch4.sem) (E := Set.univ)) $$ Hs4 with HB1
  ihave Hr1' := (Entails.of_eq (congrArg (fun S => ((thr d L).loc cc1_scratch1 ↦[S]{fullShare} fA : sProp 𝕄)) slots_univ)) $$ Hr1
  sl_for (fireInvA1 m d L _ fA) $$ [HsI Ha4 Hr1' HB1]
  case region => exact fun k acc => fireA1_step m d L _ hI1 hpre fA k acc
  · unfold fireInvA1
    rw [Nat.mul_zero]
    isplitl [HsI]; · iexact HsI
    isplitl [Ha4]; · iexists _; iexact Ha4
    isplitl [Hr1']; · iexact Hr1'
    iexact HB1
  iintro %_ HI
  unfold fireInvA1
  rw [trips_t2]
  icases HI with ⟨HsI, ⟨%q'', Ha4⟩, -, HB1⟩
  unfold wp_part195.sl.prog.cont_2
  rw [wp_ret]; imodintro
  isplitl [HO]; · iexact HO
  isplitl [Ha4]; · iexists _; iexact Ha4
  isplitl [HsI]; · iexists _; iexact HsI
  isplitl [HB0]; · iexact HB0
  isplitl [HB1]; · iexact HB1
  isplitl [Hc0]; · iexact Hc0
  iexact Hc1

end Part195

end Cert.Proof.KW.K1

end
-- ==== Proof.BwK1BViews.lean ====
/-
  The second kernel's noise-word phase: where each copy lands.

  The rows scratch is [2, 16, 1280]: slot b, batch row r, twenty lookups of 64 columns side by side. Copy t = 16 k + u
  of a chunk (trip k of a fire loop, unrolled copy u) fills slot b, row t / 20, columns 64 (t mod 20) .. + 63; the
  drain loops name the same places. The printed program computes each place by an offset function per unrolled copy;
  their closed forms are decided once over the twenty trips.
-/
import proofs.«215896_g38397007626377_fold_wed_m_942_26_alg».proof.Proof.BwKISetup

namespace Cert.Proof.KW.K1

open Cert.Kernel Cert.Kernel.Gen Cert.Proof.KW
open Idealize.ShloMosaic

theorem trips_t4 : k1_t4_loop.trips = 20 := by decide
theorem trips_t6 : k1_t6_loop.trips = 20 := by decide
theorem trips_t8 : k1_t8_loop.trips = 20 := by decide
theorem trips_t9 : k1_t9_loop.trips = 20 := by decide
theorem trips_t10 : k1_t10_loop.trips = 20 := by decide
theorem trips_t11 : k1_t11_loop.trips = 20 := by decide
theorem trips_t12 : k1_t12_loop.trips = 20 := by decide
theorem trips_t13 : k1_t13_loop.trips = 20 := by decide
theorem trips_t7 : k1_t7_loop.trips = 15 := by decide

/-! ### Fire loop k1_t4 (slot 0) -/
theorem t4_dst0 : ∀ k : Fin k1_t4_loop.trips, k1_off77 k 0#32 = ![0, (16 * k.val + 0) / 20, ((16 * k.val + 0) % 20) * 64] := by decide +kernel
theorem t4_dst1 : ∀ k : Fin k1_t4_loop.trips, k1_off79 k 1#32 = ![0, (16 * k.val + 1) / 20, ((16 * k.val + 1) % 20) * 64] := by decide +kernel
theorem t4_dst2 : ∀ k : Fin k1_t4_loop.trips, k1_off81 k 2#32 = ![0, (16 * k.val + 2) / 20, ((16 * k.val + 2) % 20) * 64] := by decide +kernel
theorem t4_dst3 : ∀ k : Fin k1_t4_loop.trips, k1_off83 k 3#32 = ![0, (16 * k.val + 3) / 20, ((16 * k.val + 3) % 20) * 64] := by decide +kernel
theorem t4_dst4 : ∀ k : Fin k1_t4_loop.trips, k1_off85 k 4#32 = ![0, (16 * k.val + 4) / 20, ((16 * k.val + 4) % 20) * 64] := by decide +kernel
theorem t4_dst5 : ∀ k : Fin k1_t4_loop.trips, k1_off87 k 5#32 = ![0, (16 * k.val + 5) / 20, ((16 * k.val + 5) % 20) * 64] := by decide +kernel
theorem t4_dst6 : ∀ k : Fin k1_t4_loop.trips, k1_off89 k 6#32 = ![0, (16 * k.val + 6) / 20, ((16 * k.val + 6) % 20) * 64] := by decide +kernel
theorem t4_dst7 : ∀ k : Fin k1_t4_loop.trips, k1_off91 k 7#32 = ![0, (16 * k.val + 7) / 20, ((16 * k.val + 7) % 20) * 64] := by decide +kernel
theorem t4_dst8 : ∀ k : Fin k1_t4_loop.trips, k1_off93 k 8#32 = ![0, (16 * k.val + 8) / 20, ((16 * k.val + 8) % 20) * 64] := by decide +kernel
theorem t4_dst9 : ∀ k : Fin k1_t4_loop.trips, k1_off95 k 9#32 = ![0, (16 * k.val + 9) / 20, ((16 * k.val + 9) % 20) * 64] := by decide +kernel
theorem t4_dst10 : ∀ k : Fin k1_t4_loop.trips, k1_off97 k 10#32 = ![0, (16 * k.val + 10) / 20, ((16 * k.val + 10) % 20) * 64] := by decide +kernel
theorem t4_dst11 : ∀ k : Fin k1_t4_loop.trips, k1_off99 k 11#32 = ![0, (16 * k.val + 11) / 20, ((16 * k.val + 11) % 20) * 64] := by decide +kernel
theorem t4_dst12 : ∀ k : Fin k1_t4_loop.trips, k1_off101 k 12#32 = ![0, (16 * k.val + 12) / 20, ((16 * k.val + 12) % 20) * 64] := by decide +kernel
theorem t4_dst13 : ∀ k : Fin k1_t4_loop.trips, k1_off103 k 13#32 = ![0, (16 * k.val + 13) / 20, ((16 * k.val + 13) % 20) * 64] := by decide +kernel
theorem t4_dst14 : ∀ k : Fin k1_t4_loop.trips, k1_off105 k 14#32 = ![0, (16 * k.val + 14) / 20, ((16 * k.val + 14) % 20) * 64] := by decide +kernel
theorem t4_dst15 : ∀ k : Fin k1_t4_loop.trips, k1_off107 k = ![0, (16 * k.val + 15) / 20, ((16 * k.val + 15) % 20) * 64] := by decide +kernel
/-! ### Fire loop k1_t6 (slot 1) -/
theorem t6_dst0 : ∀ k : Fin k1_t6_loop.trips, k1_off114 k 0#32 = ![1, (16 * k.val + 0) / 20, ((16 * k.val + 0) % 20) * 64] := by decide +kernel
theorem t6_dst1 : ∀ k : Fin k1_t6_loop.trips, k1_off116 k 1#32 = ![1, (16 * k.val + 1) / 20, ((16 * k.val + 1) % 20) * 64] := by decide +kernel
theorem t6_dst2 : ∀ k : Fin k1_t6_loop.trips, k1_off118 k 2#32 = ![1, (16 * k.val + 2) / 20, ((16 * k.val + 2) % 20) * 64] := by decide +kernel
theorem t6_dst3 : ∀ k : Fin k1_t6_loop.trips, k1_off120 k 3#32 = ![1, (16 * k.val + 3) / 20, ((16 * k.val + 3) % 20) * 64] := by decide +kernel
theorem t6_dst4 : ∀ k : Fin k1_t6_loop.trips, k1_off122 k 4#32 = ![1, (16 * k.val + 4) / 20, ((16 * k.val + 4) % 20) * 64] := by decide +kernel
theorem t6_dst5 : ∀ k : Fin k1_t6_loop.trips, k1_off124 k 5#32 = ![1, (16 * k.val + 5) / 20, ((16 * k.val + 5) % 20) * 64] := by decide +kernel
theorem t6_dst6 : ∀ k : Fin k1_t6_loop.trips, k1_off126 k 6#32 = ![1, (16 * k.val + 6) / 20, ((16 * k.val + 6) % 20) * 64] := by decide +kernel
theorem t6_dst7 : ∀ k : Fin k1_t6_loop.trips, k1_off128 k 7#32 = ![1, (16 * k.val + 7) / 20, ((16 * k.val + 7) % 20) * 64] := by decide +kernel
theorem t6_dst8 : ∀ k : Fin k1_t6_loop.trips, k1_off130 k 8#32 = ![1, (16 * k.val + 8) / 20, ((16 * k.val + 8) % 20) * 64] := by decide +kernel
theorem t6_dst9 : ∀ k : Fin k1_t6_loop.trips, k1_off132 k 9#32 = ![1, (16 * k.val + 9) / 20, ((16 * k.val + 9) % 20) * 64] := by decide +kernel
theorem t6_dst10 : ∀ k : Fin k1_t6_loop.trips, k1_off134 k 10#32 = ![1, (16 * k.val + 10) / 20, ((16 * k.val + 10) % 20) * 64] := by decide +kernel
theorem t6_dst11 : ∀ k : Fin k1_t6_loop.trips, k1_off136 k 11#32 = ![1, (16 * k.val + 11) / 20, ((16 * k.val + 11) % 20) * 64] := by decide +kernel
theorem t6_dst12 : ∀ k : Fin k1_t6_loop.trips, k1_off138 k 12#32 = ![1, (16 * k.val + 12) / 20, ((16 * k.val + 12) % 20) * 64] := by decide +kernel
theorem t6_dst13 : ∀ k : Fin k1_t6_loop.trips, k1_off140 k 13#32 = ![1, (16 * k.val + 13) / 20, ((16 * k.val + 13) % 20) * 64] := by decide +kernel
theorem t6_dst14 : ∀ k : Fin k1_t6_loop.trips, k1_off142 k 14#32 = ![1, (16 * k.val + 14) / 20, ((16 * k.val + 14) % 20) * 64] := by decide +kernel
theorem t6_dst15 : ∀ k : Fin k1_t6_loop.trips, k1_off144 k = ![1, (16 * k.val + 15) / 20, ((16 * k.val + 15) % 20) * 64] := by decide +kernel
/-! ### Fire loop k1_t9 (slot 0) -/
theorem t9_dst0 : ∀ k : Fin k1_t9_loop.trips, k1_off151 k 0#32 = ![0, (16 * k.val + 0) / 20, ((16 * k.val + 0) % 20) * 64] := by decide +kernel
theorem t9_dst1 : ∀ k : Fin k1_t9_loop.trips, k1_off153 k 1#32 = ![0, (16 * k.val + 1) / 20, ((16 * k.val + 1) % 20) * 64] := by decide +kernel
theorem t9_dst2 : ∀ k : Fin k1_t9_loop.trips, k1_off155 k 2#32 = ![0, (16 * k.val + 2) / 20, ((16 * k.val + 2) % 20) * 64] := by decide +kernel
theorem t9_dst3 : ∀ k : Fin k1_t9_loop.trips, k1_off157 k 3#32 = ![0, (16 * k.val + 3) / 20, ((16 * k.val + 3) % 20) * 64] := by decide +kernel
theorem t9_dst4 : ∀ k : Fin k1_t9_loop.trips, k1_off159 k 4#32 = ![0, (16 * k.val + 4) / 20, ((16 * k.val + 4) % 20) * 64] := by decide +kernel
theorem t9_dst5 : ∀ k : Fin k1_t9_loop.trips, k1_off161 k 5#32 = ![0, (16 * k.val + 5) / 20, ((16 * k.val + 5) % 20) * 64] := by decide +kernel
theorem t9_dst6 : ∀ k : Fin k1_t9_loop.trips, k1_off163 k 6#32 = ![0, (16 * k.val + 6) / 20, ((16 * k.val + 6) % 20) * 64] := by decide +kernel
theorem t9_dst7 : ∀ k : Fin k1_t9_loop.trips, k1_off165 k 7#32 = ![0, (16 * k.val + 7) / 20, ((16 * k.val + 7) % 20) * 64] := by decide +kernel
theorem t9_dst8 : ∀ k : Fin k1_t9_loop.trips, k1_off167 k 8#32 = ![0, (16 * k.val + 8) / 20, ((16 * k.val + 8) % 20) * 64] := by decide +kernel
theorem t9_dst9 : ∀ k : Fin k1_t9_loop.trips, k1_off169 k 9#32 = ![0, (16 * k.val + 9) / 20, ((16 * k.val + 9) % 20) * 64] := by decide +kernel
theorem t9_dst10 : ∀ k : Fin k1_t9_loop.trips, k1_off171 k 10#32 = ![0, (16 * k.val + 10) / 20, ((16 * k.val + 10) % 20) * 64] := by decide +kernel
theorem t9_dst11 : ∀ k : Fin k1_t9_loop.trips, k1_off173 k 11#32 = ![0, (16 * k.val + 11) / 20, ((16 * k.val + 11) % 20) * 64] := by decide +kernel
theorem t9_dst12 : ∀ k : Fin k1_t9_loop.trips, k1_off175 k 12#32 = ![0, (16 * k.val + 12) / 20, ((16 * k.val + 12) % 20) * 64] := by decide +kernel
theorem t9_dst13 : ∀ k : Fin k1_t9_loop.trips, k1_off177 k 13#32 = ![0, (16 * k.val + 13) / 20, ((16 * k.val + 13) % 20) * 64] := by decide +kernel
theorem t9_dst14 : ∀ k : Fin k1_t9_loop.trips, k1_off179 k 14#32 = ![0, (16 * k.val + 14) / 20, ((16 * k.val + 14) % 20) * 64] := by decide +kernel
theorem t9_dst15 : ∀ k : Fin k1_t9_loop.trips, k1_off181 k = ![0, (16 * k.val + 15) / 20, ((16 * k.val + 15) % 20) * 64] := by decide +kernel
/-! ### Fire loop k1_t11 (slot 1) -/
theorem t11_dst0 : ∀ k : Fin k1_t11_loop.trips, k1_off186 k 0#32 = ![1, (16 * k.val + 0) / 20, ((16 * k.val + 0) % 20) * 64] := by decide +kernel
theorem t11_dst1 : ∀ k : Fin k1_t11_loop.trips, k1_off188 k 1#32 = ![1, (16 * k.val + 1) / 20, ((16 * k.val + 1) % 20) * 64] := by decide +kernel
theorem t11_dst2 : ∀ k : Fin k1_t11_loop.trips, k1_off190 k 2#32 = ![1, (16 * k.val + 2) / 20, ((16 * k.val + 2) % 20) * 64] := by decide +kernel
theorem t11_dst3 : ∀ k : Fin k1_t11_loop.trips, k1_off192 k 3#32 = ![1, (16 * k.val + 3) / 20, ((16 * k.val + 3) % 20) * 64] := by decide +kernel
theorem t11_dst4 : ∀ k : Fin k1_t11_loop.trips, k1_off194 k 4#32 = ![1, (16 * k.val + 4) / 20, ((16 * k.val + 4) % 20) * 64] := by decide +kernel
theorem t11_dst5 : ∀ k : Fin k1_t11_loop.trips, k1_off196 k 5#32 = ![1, (16 * k.val + 5) / 20, ((16 * k.val + 5) % 20) * 64] := by decide +kernel
theorem t11_dst6 : ∀ k : Fin k1_t11_loop.trips, k1_off198 k 6#32 = ![1, (16 * k.val + 6) / 20, ((16 * k.val + 6) % 20) * 64] := by decide +kernel
theorem t11_dst7 : ∀ k : Fin k1_t11_loop.trips, k1_off200 k 7#32 = ![1, (16 * k.val + 7) / 20, ((16 * k.val + 7) % 20) * 64] := by decide +kernel
theorem t11_dst8 : ∀ k : Fin k1_t11_loop.trips, k1_off202 k 8#32 = ![1, (16 * k.val + 8) / 20, ((16 * k.val + 8) % 20) * 64] := by decide +kernel
theorem t11_dst9 : ∀ k : Fin k1_t11_loop.trips, k1_off204 k 9#32 = ![1, (16 * k.val + 9) / 20, ((16 * k.val + 9) % 20) * 64] := by decide +kernel
theorem t11_dst10 : ∀ k : Fin k1_t11_loop.trips, k1_off206 k 10#32 = ![1, (16 * k.val + 10) / 20, ((16 * k.val + 10) % 20) * 64] := by decide +kernel
theorem t11_dst11 : ∀ k : Fin k1_t11_loop.trips, k1_off208 k 11#32 = ![1, (16 * k.val + 11) / 20, ((16 * k.val + 11) % 20) * 64] := by decide +kernel
theorem t11_dst12 : ∀ k : Fin k1_t11_loop.trips, k1_off210 k 12#32 = ![1, (16 * k.val + 12) / 20, ((16 * k.val + 12) % 20) * 64] := by decide +kernel
theorem t11_dst13 : ∀ k : Fin k1_t11_loop.trips, k1_off212 k 13#32 = ![1, (16 * k.val + 13) / 20, ((16 * k.val + 13) % 20) * 64] := by decide +kernel
theorem t11_dst14 : ∀ k : Fin k1_t11_loop.trips, k1_off214 k 14#32 = ![1, (16 * k.val + 14) / 20, ((16 * k.val + 14) % 20) * 64] := by decide +kernel
theorem t11_dst15 : ∀ k : Fin k1_t11_loop.trips, k1_off216 k = ![1, (16 * k.val + 15) / 20, ((16 * k.val + 15) % 20) * 64] := by decide +kernel
/-! ### Drain loop k1_t8 (slot 0) -/
theorem t8_dst0 : ∀ k : Fin k1_t8_loop.trips, k1_off145 k 0#32 = ![0, (16 * k.val + 0) / 20, ((16 * k.val + 0) % 20) * 64] := by decide +kernel
theorem t8_dst1 : ∀ k : Fin k1_t8_loop.trips, k1_off145 k 1#32 = ![0, (16 * k.val + 1) / 20, ((16 * k.val + 1) % 20) * 64] := by decide +kernel
theorem t8_dst2 : ∀ k : Fin k1_t8_loop.trips, k1_off145 k 2#32 = ![0, (16 * k.val + 2) / 20, ((16 * k.val + 2) % 20) * 64] := by decide +kernel
theorem t8_dst3 : ∀ k : Fin k1_t8_loop.trips, k1_off145 k 3#32 = ![0, (16 * k.val + 3) / 20, ((16 * k.val + 3) % 20) * 64] := by decide +kernel
theorem t8_dst4 : ∀ k : Fin k1_t8_loop.trips, k1_off145 k 4#32 = ![0, (16 * k.val + 4) / 20, ((16 * k.val + 4) % 20) * 64] := by decide +kernel
theorem t8_dst5 : ∀ k : Fin k1_t8_loop.trips, k1_off145 k 5#32 = ![0, (16 * k.val + 5) / 20, ((16 * k.val + 5) % 20) * 64] := by decide +kernel
theorem t8_dst6 : ∀ k : Fin k1_t8_loop.trips, k1_off145 k 6#32 = ![0, (16 * k.val + 6) / 20, ((16 * k.val + 6) % 20) * 64] := by decide +kernel
theorem t8_dst7 : ∀ k : Fin k1_t8_loop.trips, k1_off145 k 7#32 = ![0, (16 * k.val + 7) / 20, ((16 * k.val + 7) % 20) * 64] := by decide +kernel
theorem t8_dst8 : ∀ k : Fin k1_t8_loop.trips, k1_off145 k 8#32 = ![0, (16 * k.val + 8) / 20, ((16 * k.val + 8) % 20) * 64] := by decide +kernel
theorem t8_dst9 : ∀ k : Fin k1_t8_loop.trips, k1_off145 k 9#32 = ![0, (16 * k.val + 9) / 20, ((16 * k.val + 9) % 20) * 64] := by decide +kernel
theorem t8_dst10 : ∀ k : Fin k1_t8_loop.trips, k1_off145 k 10#32 = ![0, (16 * k.val + 10) / 20, ((16 * k.val + 10) % 20) * 64] := by decide +kernel
theorem t8_dst11 : ∀ k : Fin k1_t8_loop.trips, k1_off145 k 11#32 = ![0, (16 * k.val + 11) / 20, ((16 * k.val + 11) % 20) * 64] := by decide +kernel
theorem t8_dst12 : ∀ k : Fin k1_t8_loop.trips, k1_off145 k 12#32 = ![0, (16 * k.val + 12) / 20, ((16 * k.val + 12) % 20) * 64] := by decide +kernel
theorem t8_dst13 : ∀ k : Fin k1_t8_loop.trips, k1_off145 k 13#32 = ![0, (16 * k.val + 13) / 20, ((16 * k.val + 13) % 20) * 64] := by decide +kernel
theorem t8_dst14 : ∀ k : Fin k1_t8_loop.trips, k1_off145 k 14#32 = ![0, (16 * k.val + 14) / 20, ((16 * k.val + 14) % 20) * 64] := by decide +kernel
theorem t8_dst15 : ∀ k : Fin k1_t8_loop.trips, k1_off145 k 15#32 = ![0, (16 * k.val + 15) / 20, ((16 * k.val + 15) % 20) * 64] := by decide +kernel
/-! ### Drain loop k1_t10 (slot 1) -/
theorem t10_dst0 : ∀ k : Fin k1_t10_loop.trips, k1_off182 k 0#32 = ![1, (16 * k.val + 0) / 20, ((16 * k.val + 0) % 20) * 64] := by decide +kernel
theorem t10_dst1 : ∀ k : Fin k1_t10_loop.trips, k1_off182 k 1#32 = ![1, (16 * k.val + 1) / 20, ((16 * k.val + 1) % 20) * 64] := by decide +kernel
theorem t10_dst2 : ∀ k : Fin k1_t10_loop.trips, k1_off182 k 2#32 = ![1, (16 * k.val + 2) / 20, ((16 * k.val + 2) % 20) * 64] := by decide +kernel
theorem t10_dst3 : ∀ k : Fin k1_t10_loop.trips, k1_off182 k 3#32 = ![1, (16 * k.val + 3) / 20, ((16 * k.val + 3) % 20) * 64] := by decide +kernel
theorem t10_dst4 : ∀ k : Fin k1_t10_loop.trips, k1_off182 k 4#32 = ![1, (16 * k.val + 4) / 20, ((16 * k.val + 4) % 20) * 64] := by decide +kernel
theorem t10_dst5 : ∀ k : Fin k1_t10_loop.trips, k1_off182 k 5#32 = ![1, (16 * k.val + 5) / 20, ((16 * k.val + 5) % 20) * 64] := by decide +kernel
theorem t10_dst6 : ∀ k : Fin k1_t10_loop.trips, k1_off182 k 6#32 = ![1, (16 * k.val + 6) / 20, ((16 * k.val + 6) % 20) * 64] := by decide +kernel
theorem t10_dst7 : ∀ k : Fin k1_t10_loop.trips, k1_off182 k 7#32 = ![1, (16 * k.val + 7) / 20, ((16 * k.val + 7) % 20) * 64] := by decide +kernel
theorem t10_dst8 : ∀ k : Fin k1_t10_loop.trips, k1_off182 k 8#32 = ![1, (16 * k.val + 8) / 20, ((16 * k.val + 8) % 20) * 64] := by decide +kernel
theorem t10_dst9 : ∀ k : Fin k1_t10_loop.trips, k1_off182 k 9#32 = ![1, (16 * k.val + 9) / 20, ((16 * k.val + 9) % 20) * 64] := by decide +kernel
theorem t10_dst10 : ∀ k : Fin k1_t10_loop.trips, k1_off182 k 10#32 = ![1, (16 * k.val + 10) / 20, ((16 * k.val + 10) % 20) * 64] := by decide +kernel
theorem t10_dst11 : ∀ k : Fin k1_t10_loop.trips, k1_off182 k 11#32 = ![1, (16 * k.val + 11) / 20, ((16 * k.val + 11) % 20) * 64] := by decide +kernel
theorem t10_dst12 : ∀ k : Fin k1_t10_loop.trips, k1_off182 k 12#32 = ![1, (16 * k.val + 12) / 20, ((16 * k.val + 12) % 20) * 64] := by decide +kernel
theorem t10_dst13 : ∀ k : Fin k1_t10_loop.trips, k1_off182 k 13#32 = ![1, (16 * k.val + 13) / 20, ((16 * k.val + 13) % 20) * 64] := by decide +kernel
theorem t10_dst14 : ∀ k : Fin k1_t10_loop.trips, k1_off182 k 14#32 = ![1, (16 * k.val + 14) / 20, ((16 * k.val + 14) % 20) * 64] := by decide +kernel
theorem t10_dst15 : ∀ k : Fin k1_t10_loop.trips, k1_off182 k 15#32 = ![1, (16 * k.val + 15) / 20, ((16 * k.val + 15) % 20) * 64] := by decide +kernel
/-! ### Drain loop k1_t12 (slot 0) -/
theorem t12_dst0 : ∀ k : Fin k1_t12_loop.trips, k1_off217 k 0#32 = ![0, (16 * k.val + 0) / 20, ((16 * k.val + 0) % 20) * 64] := by decide +kernel
theorem t12_dst1 : ∀ k : Fin k1_t12_loop.trips, k1_off217 k 1#32 = ![0, (16 * k.val + 1) / 20, ((16 * k.val + 1) % 20) * 64] := by decide +kernel
theorem t12_dst2 : ∀ k : Fin k1_t12_loop.trips, k1_off217 k 2#32 = ![0, (16 * k.val + 2) / 20, ((16 * k.val + 2) % 20) * 64] := by decide +kernel
theorem t12_dst3 : ∀ k : Fin k1_t12_loop.trips, k1_off217 k 3#32 = ![0, (16 * k.val + 3) / 20, ((16 * k.val + 3) % 20) * 64] := by decide +kernel
theorem t12_dst4 : ∀ k : Fin k1_t12_loop.trips, k1_off217 k 4#32 = ![0, (16 * k.val + 4) / 20, ((16 * k.val + 4) % 20) * 64] := by decide +kernel
theorem t12_dst5 : ∀ k : Fin k1_t12_loop.trips, k1_off217 k 5#32 = ![0, (16 * k.val + 5) / 20, ((16 * k.val + 5) % 20) * 64] := by decide +kernel
theorem t12_dst6 : ∀ k : Fin k1_t12_loop.trips, k1_off217 k 6#32 = ![0, (16 * k.val + 6) / 20, ((16 * k.val + 6) % 20) * 64] := by decide +kernel
theorem t12_dst7 : ∀ k : Fin k1_t12_loop.trips, k1_off217 k 7#32 = ![0, (16 * k.val + 7) / 20, ((16 * k.val + 7) % 20) * 64] := by decide +kernel
theorem t12_dst8 : ∀ k : Fin k1_t12_loop.trips, k1_off217 k 8#32 = ![0, (16 * k.val + 8) / 20, ((16 * k.val + 8) % 20) * 64] := by decide +kernel
theorem t12_dst9 : ∀ k : Fin k1_t12_loop.trips, k1_off217 k 9#32 = ![0, (16 * k.val + 9) / 20, ((16 * k.val + 9) % 20) * 64] := by decide +kernel
theorem t12_dst10 : ∀ k : Fin k1_t12_loop.trips, k1_off217 k 10#32 = ![0, (16 * k.val + 10) / 20, ((16 * k.val + 10) % 20) * 64] := by decide +kernel
theorem t12_dst11 : ∀ k : Fin k1_t12_loop.trips, k1_off217 k 11#32 = ![0, (16 * k.val + 11) / 20, ((16 * k.val + 11) % 20) * 64] := by decide +kernel
theorem t12_dst12 : ∀ k : Fin k1_t12_loop.trips, k1_off217 k 12#32 = ![0, (16 * k.val + 12) / 20, ((16 * k.val + 12) % 20) * 64] := by decide +kernel
theorem t12_dst13 : ∀ k : Fin k1_t12_loop.trips, k1_off217 k 13#32 = ![0, (16 * k.val + 13) / 20, ((16 * k.val + 13) % 20) * 64] := by decide +kernel
theorem t12_dst14 : ∀ k : Fin k1_t12_loop.trips, k1_off217 k 14#32 = ![0, (16 * k.val + 14) / 20, ((16 * k.val + 14) % 20) * 64] := by decide +kernel
theorem t12_dst15 : ∀ k : Fin k1_t12_loop.trips, k1_off217 k 15#32 = ![0, (16 * k.val + 15) / 20, ((16 * k.val + 15) % 20) * 64] := by decide +kernel
/-! ### Drain loop k1_t13 (slot 1) -/
theorem t13_dst0 : ∀ k : Fin k1_t13_loop.trips, k1_off219 k 0#32 = ![1, (16 * k.val + 0) / 20, ((16 * k.val + 0) % 20) * 64] := by decide +kernel
theorem t13_dst1 : ∀ k : Fin k1_t13_loop.trips, k1_off219 k 1#32 = ![1, (16 * k.val + 1) / 20, ((16 * k.val + 1) % 20) * 64] := by decide +kernel
theorem t13_dst2 : ∀ k : Fin k1_t13_loop.trips, k1_off219 k 2#32 = ![1, (16 * k.val + 2) / 20, ((16 * k.val + 2) % 20) * 64] := by decide +kernel
theorem t13_dst3 : ∀ k : Fin k1_t13_loop.trips, k1_off219 k 3#32 = ![1, (16 * k.val + 3) / 20, ((16 * k.val + 3) % 20) * 64] := by decide +kernel
theorem t13_dst4 : ∀ k : Fin k1_t13_loop.trips, k1_off219 k 4#32 = ![1, (16 * k.val + 4) / 20, ((16 * k.val + 4) % 20) * 64] := by decide +kernel
theorem t13_dst5 : ∀ k : Fin k1_t13_loop.trips, k1_off219 k 5#32 = ![1, (16 * k.val + 5) / 20, ((16 * k.val + 5) % 20) * 64] := by decide +kernel
theorem t13_dst6 : ∀ k : Fin k1_t13_loop.trips, k1_off219 k 6#32 = ![1, (16 * k.val + 6) / 20, ((16 * k.val + 6) % 20) * 64] := by decide +kernel
theorem t13_dst7 : ∀ k : Fin k1_t13_loop.trips, k1_off219 k 7#32 = ![1, (16 * k.val + 7) / 20, ((16 * k.val + 7) % 20) * 64] := by decide +kernel
theorem t13_dst8 : ∀ k : Fin k1_t13_loop.trips, k1_off219 k 8#32 = ![1, (16 * k.val + 8) / 20, ((16 * k.val + 8) % 20) * 64] := by decide +kernel
theorem t13_dst9 : ∀ k : Fin k1_t13_loop.trips, k1_off219 k 9#32 = ![1, (16 * k.val + 9) / 20, ((16 * k.val + 9) % 20) * 64] := by decide +kernel
theorem t13_dst10 : ∀ k : Fin k1_t13_loop.trips, k1_off219 k 10#32 = ![1, (16 * k.val + 10) / 20, ((16 * k.val + 10) % 20) * 64] := by decide +kernel
theorem t13_dst11 : ∀ k : Fin k1_t13_loop.trips, k1_off219 k 11#32 = ![1, (16 * k.val + 11) / 20, ((16 * k.val + 11) % 20) * 64] := by decide +kernel
theorem t13_dst12 : ∀ k : Fin k1_t13_loop.trips, k1_off219 k 12#32 = ![1, (16 * k.val + 12) / 20, ((16 * k.val + 12) % 20) * 64] := by decide +kernel
theorem t13_dst13 : ∀ k : Fin k1_t13_loop.trips, k1_off219 k 13#32 = ![1, (16 * k.val + 13) / 20, ((16 * k.val + 13) % 20) * 64] := by decide +kernel
theorem t13_dst14 : ∀ k : Fin k1_t13_loop.trips, k1_off219 k 14#32 = ![1, (16 * k.val + 14) / 20, ((16 * k.val + 14) % 20) * 64] := by decide +kernel
theorem t13_dst15 : ∀ k : Fin k1_t13_loop.trips, k1_off219 k 15#32 = ![1, (16 * k.val + 15) / 20, ((16 * k.val + 15) % 20) * 64] := by decide +kernel

end Cert.Proof.KW.K1
-- ==== Proof.BwK1BFire.lean ====
/-
  The noise-word phase, one copy at a time.

  The 320 copies of a chunk (table row of word t -> the 64 words of slot b, batch row t / 20, lookup t mod 20 of the
  rows scratch) are one counted batch on the slot's semaphore. The deliveries are fixed before the first issue: copy t
  delivers its piece at the FINAL contents, entry (r, x) = table[word 20 r + x / 64, x mod 64]; each issue takes its
  piece out of the part of the slot not yet handed to a copy.
-/
import proofs.«215896_g38397007626377_fold_wed_m_942_26_alg».proof.Proof.BwK1Common
import proofs.«215896_g38397007626377_fold_wed_m_942_26_alg».proof.Proof.BwK1BViews

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

section FireB

variable (d : Dev nD) (cc : Fin τ.nSC) (jj : Fin τ.nSub)

abbrev idxLocV : Loc nD τ sig := (V d cc jj).loc cc1_scratch0
abbrev rowsBLocV : Loc nD τ sig := (V d cc jj).loc cc1_scratch2

/-- The [2, 16, 1280] scratch once every copy of a chunk has landed (either slot): row r, column x holds column
    x mod 64 of the table row named by word 20 r + x / 64 of the fetched index words. -/
def FB (tbl : Buf (Elt F) (a4Loc d)) (fI : Buf (Elt F) (idxLocV d cc jj)) : Buf (Elt F) (rowsBLocV d cc jj) :=
  fun y => tbl (ix2 (Spec.rowOf (fI (ix1 (⟨20 * (y 1).val + (y 2).val / 64, by
      have h1 : (y 1).val < 16 := (y 1).isLt; have h2 : (y 2).val < 1280 := (y 2).isLt; omega⟩ : Fin 320))))
    (⟨(y 2).val % 64, Nat.mod_lt _ (by decide)⟩ : Fin 64))

/-- What copy t of slot b delivers: its piece at the final contents. -/
def DB (b : ℕ) (tbl : Buf (Elt F) (a4Loc d)) (fI : Buf (Elt F) (idxLocV d cc jj)) (t : Fin 320) : sProp 𝕄 :=
  rowsBLocV d cc jj ↦[pieceB b t.val]{fullShare} FB d cc jj tbl fI

instance DB_storable (b : ℕ) (tbl : Buf (Elt F) (a4Loc d)) (fI : Buf (Elt F) (idxLocV d cc jj)) (t : Fin 320) :
    BI.Storable (upEmb : UEmb _ 𝕄) (DB d cc jj b tbl fI t) := by
  unfold DB; infer_instance

/-- The destination of copy t of slot b is its piece. -/
theorem dstB_piece (b t : ℕ) (off : Fin 3 → ℕ) (hin) (hoff : off = ![b, t / 20, (t % 20) * 64]) :
    (dstB off hin).view.set = pieceB b t := by
  subst hoff
  rw [dstB_set, rectB_eq]

/-- What copy t lands is the final scratch on its piece: the copied word (w, x) of the table is the final scratch's
    entry there, w being word t of the fetched indices. -/
theorem landedB (tbl : Buf (Elt F) (a4Loc d)) (fI : Buf (Elt F) (idxLocV d cc jj)) (f0 : Buf (Elt F) (rowsBLocV d cc jj))
    (b : ℕ) (t : Fin 320) (off : Fin 3 → ℕ) (hin) (hoff : off = ![b, t.val / 20, (t.val % 20) * 64])
    (w : BitVec 32) (soff : Fin 2 → ℕ) (hsin) (hsoff : soff = ![w.toNat, 0]) (hword : w = fI (ix1 t))
    (hI : ∀ x, (fI x).toNat < 1000000) :
    ∀ i ∈ (dstB off hin).view.set,
      (dstB off hin).view.write (Elt F) f0 ((ReadAs.same : ReadAs (Elt F) S64 .f32 S64 .f32).apply ((srcT soff hsin).view.read (Elt F) tbl)) Finset.univ i
        = FB d cc jj tbl fI i := by
  intro i hi
  obtain ⟨x, -, rfl⟩ := Finset.mem_map.mp hi
  rw [write_valB]
  have hx : (x 0).val < 64 := (x 0).isLt
  have ht : t.val < 320 := t.isLt
  have e1 : (((dstB off hin).view.emb x) 1).val = t.val / 20 := by
    have h := dstB_emb off hin x 1
    rw [if_neg (by decide)] at h
    rw [h, hoff]; rfl
  have e2 : (((dstB off hin).view.emb x) 2).val = (t.val % 20) * 64 + (x 0).val := by
    have h := dstB_emb off hin x 2
    rw [if_pos rfl] at h
    rw [h, hoff]; rfl
  have s0 : (((srcT soff hsin).view.emb x) 0).val = w.toNat := by
    have h := srcT_emb soff hsin x 0
    rw [if_neg (by decide)] at h
    rw [h, hsoff]; rfl
  have s1 : (((srcT soff hsin).view.emb x) 1).val = (x 0).val := by
    have h := srcT_emb soff hsin x 1
    rw [if_pos rfl] at h
    rw [h, hsoff]; show 0 + (x 0).val = _; omega
  unfold FB
  refine congrArg tbl (funext fun a => Fin.ext ?_)
  match a with
  | ⟨0, _⟩ =>
    show (((srcT soff hsin).view.emb x) 0).val = (Spec.rowOf _).val
    rw [s0, Spec.rowOf_val_of_lt (hI _), hword]
    refine congrArg (fun i : Fin 320 => (fI (ix1 i)).toNat) (Fin.ext ?_)
    show t.val = 20 * (((dstB off hin).view.emb x) 1).val + (((dstB off hin).view.emb x) 2).val / 64
    rw [e1, e2]; omega
  | ⟨1, _⟩ =>
    show (((srcT soff hsin).view.emb x) 1).val = (((dstB off hin).view.emb x) 2).val % 64
    rw [s1, e2]; omega

/-- ONE ISSUE of a chunk's batch: copy j takes its piece out of what is left of the slot, and the batch goes from j
    issued to j + 1; what it will deliver is the final scratch on the piece. The table's read share is halved. -/
theorem fireStepB {α : Type} (sem : DmaSem sig) (N : ℕ) (b : ℕ) (tbl : Buf (Elt F) (a4Loc d)) (fI : Buf (Elt F) (idxLocV d cc jj))
    (f0 : Buf (Elt F) (rowsBLocV d cc jj)) (j : ℕ) (hj : j < 320)
    (off : Fin 3 → ℕ) (hin) (hoff : off = ![b, j / 20, (j % 20) * 64])
    (w : BitVec 32) (soff : Fin 2 → ℕ) (hsin) (hsoff : soff = ![w.toNat, 0]) (hword : w = fI (ix1 (⟨j, hj⟩ : Fin 320)))
    (hI : ∀ x, (fI x).toNat < 1000000) (hN : (dstB off hin).view.dmaCredit = N)
    {hs hd ht} {k : PUnit → Prog (TpuEff nD τ sig (Elt F) Λ₀ (V d cc jj).2) α} {Q : α → sProp 𝕄} :
    iprop((∃ q : PosShare TreeShare, a4Loc d ↦{q} tbl) ∗ (rowsBLocV d cc jj ↦[remB b j]{fullShare} f0)
        ∗ Transfers.Batch countersEmb (V d cc jj) (.dma sem) (none : HIx 2) N (DB d cc jj b tbl fI) j 0)
      ⊢ iprop((iprop((∃ q : PosShare TreeShare, a4Loc d ↦{q} tbl) ∗ (rowsBLocV d cc jj ↦[remB b (j + 1)]{fullShare} f0)
            ∗ Transfers.Batch countersEmb (V d cc jj) (.dma sem) (none : HIx 2) N (DB d cc jj b tbl fI) (j + 1) 0)
          -∗ wp frame (wpE (defs₀ (F := F)) 𝒱₀ (V d cc jj) none) Set.univ (k ⟨⟩) Q)
        -∗ wp frame (wpE (defs₀ (F := F)) 𝒱₀ (V d cc jj) none) Set.univ
            (.op (.enqueueDmaAs (srcT soff hsin) (.here (dstB off hin)) .same (.dma sem) hs hd ht) k) Q) := by
  have hset : (dstB off hin).view.set = pieceB b j := dstB_piece b j off hin hoff
  iintro ⟨⟨%q, Ht⟩, Hr, HB⟩ Hk
  iapply (issueB (F := F) d cc jj sem N off hin soff hsin hN (DB d cc jj b tbl fI) j 0 hj (Nat.zero_le _) (remB b j)
    (by rw [hset]; exact pieceB_sub b j) q tbl f0 ?hD) $$ [Ht Hr HB]
  case hD =>
    unfold DB
    rw [← hset]
    exact Entails.of_eq (pointsTo_congr (landedB d cc jj tbl fI f0 b ⟨j, hj⟩ off hin hoff w soff hsin hsoff hword hI))
  · isplitl [Ht]; · iexact Ht
    isplitl [Hr]; · iexact Hr
    iexact HB
  iintro ⟨Ht, Hr, HB⟩
  iapply Hk
  isplitl [Ht]; · iexists _; iexact Ht
  isplitl [Hr]
  · rw [hset, remB_step]; iexact Hr
  iexact HB

end FireB

/-! ## A fire loop's invariant, and the words a trip loads -/

section Trips

variable (d : Dev nD) (L : grid1.Coords)

abbrev cV (L : grid1.Coords) : Fin τ.nSC := (L 0).castLE hcore1
abbrev jV (L : grid1.Coords) : Fin τ.nSub := (L 1).castLE hsub1

/-- One 64-word piece's credit. -/
abbrev NB : ℕ := sig.dmaCredit .scVector (Kind.scVector.table .vmem) (cc1_scratch2 : Ref sig .scVector).idx S64 .f32

theorem NB_pos : 0 < NB := sig.dmaCredit_pos _ _ _ _ _ (by decide)

/-- Before trip k of a fire loop of slot b on semaphore sem: the index scratch at the chunk's words, a read share of
    the table, the part of the slot not yet handed to a copy, the batch with 16 k issued and nothing consumed. -/
def fireInvB (b : ℕ) (sem : DmaSem sig) (tbl : Buf (Elt F) (a4Loc d)) (fI : Buf (Elt F) (idxLocV d (cV L) (jV L)))
    (f0 : Buf (Elt F) (rowsBLocV d (cV L) (jV L))) (k : ℕ) (_ : Unit) : sProp 𝕄 :=
  iprop(((idW).view.loc (thr d L) ↦{fullShare} fI)
    ∗ (∃ q : PosShare TreeShare, a4Loc d ↦{q} tbl)
    ∗ (rowsBLocV d (cV L) (jV L) ↦[remB b (16 * k)]{fullShare} f0)
    ∗ Transfers.Batch countersEmb (thr d L) (.dma sem) (none : HIx 2) NB (DB d (cV L) (jV L) b tbl fI) (16 * k) 0)

/-- Word u of the sixteen a trip loads is word 16 k + u of the fetched index words. -/
theorem read_wordB (fI : Buf (Elt F) (idxLocV d (cV L) (jV L))) (off : Fin 1 → ℕ) (hin : ∀ a, off a + S16.size a ≤ S320.size a)
    (k : ℕ) (hoff : off = ![16 * k]) (u : Fin 16) (h : 16 * k + u.val < 320) :
    View.readAt (Elt F) (idW).view (Rect.unit (s := S320) off S16.size hin).toLoadRect fI (ix1 u)
      = fI (ix1 (⟨16 * k + u.val, h⟩ : Fin 320)) := by
  subst hoff
  simp only [View.readAt_apply, Memref.view_whole, View.read_whole]
  congr 1
  funext a; fin_cases a; apply Fin.ext
  rw [LoadRect.idx_apply]
  show (![16 * k] : Fin 1 → ℕ) 0 + 1 * u.val = 16 * k + u.val
  simp

end Trips

end Cert.Proof.KW.K1

end
-- ==== Proof.BwK1BTripT4.lean ====
/-
  The fire loop k1_t4 of the noise-word phase (slot 0): one trip issues its sixteen copies, in order.
-/
import proofs.«215896_g38397007626377_fold_wed_m_942_26_alg».proof.Proof.BwK1BFire

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

omit [FloatOps F] in
theorem t4_word0 (v : Vec F S16 .i32) : extractAt ![0] (k1_pay36 v) inpos_S1_p0 = v (ix1 (0 : Fin 16)) := lane_eq v 0 (by decide) shapeCasts_S16_S16 slices_S16_o0_S1 inpos_S1_p0
omit [FloatOps F] in
theorem t4_word1 (v : Vec F S16 .i32) : extractAt ![0] (k1_pay37 (k1_pay35 v)) inpos_S1_p0 = v (ix1 (1 : Fin 16)) := lane_eq v 1 (by decide) shapeCasts_S16_S16 slices_S16_o1_S1 inpos_S1_p0
omit [FloatOps F] in
theorem t4_word2 (v : Vec F S16 .i32) : extractAt ![0] (k1_pay38 (k1_pay35 v)) inpos_S1_p0 = v (ix1 (2 : Fin 16)) := lane_eq v 2 (by decide) shapeCasts_S16_S16 slices_S16_o2_S1 inpos_S1_p0
omit [FloatOps F] in
theorem t4_word3 (v : Vec F S16 .i32) : extractAt ![0] (k1_pay39 (k1_pay35 v)) inpos_S1_p0 = v (ix1 (3 : Fin 16)) := lane_eq v 3 (by decide) shapeCasts_S16_S16 slices_S16_o3_S1 inpos_S1_p0
omit [FloatOps F] in
theorem t4_word4 (v : Vec F S16 .i32) : extractAt ![0] (k1_pay40 (k1_pay35 v)) inpos_S1_p0 = v (ix1 (4 : Fin 16)) := lane_eq v 4 (by decide) shapeCasts_S16_S16 slices_S16_o4_S1 inpos_S1_p0
omit [FloatOps F] in
theorem t4_word5 (v : Vec F S16 .i32) : extractAt ![0] (k1_pay41 (k1_pay35 v)) inpos_S1_p0 = v (ix1 (5 : Fin 16)) := lane_eq v 5 (by decide) shapeCasts_S16_S16 slices_S16_o5_S1 inpos_S1_p0
omit [FloatOps F] in
theorem t4_word6 (v : Vec F S16 .i32) : extractAt ![0] (k1_pay42 (k1_pay35 v)) inpos_S1_p0 = v (ix1 (6 : Fin 16)) := lane_eq v 6 (by decide) shapeCasts_S16_S16 slices_S16_o6_S1 inpos_S1_p0
omit [FloatOps F] in
theorem t4_word7 (v : Vec F S16 .i32) : extractAt ![0] (k1_pay43 (k1_pay35 v)) inpos_S1_p0 = v (ix1 (7 : Fin 16)) := lane_eq v 7 (by decide) shapeCasts_S16_S16 slices_S16_o7_S1 inpos_S1_p0
omit [FloatOps F] in
theorem t4_word8 (v : Vec F S16 .i32) : extractAt ![0] (k1_pay44 (k1_pay35 v)) inpos_S1_p0 = v (ix1 (8 : Fin 16)) := lane_eq v 8 (by decide) shapeCasts_S16_S16 slices_S16_o8_S1 inpos_S1_p0
omit [FloatOps F] in
theorem t4_word9 (v : Vec F S16 .i32) : extractAt ![0] (k1_pay45 (k1_pay35 v)) inpos_S1_p0 = v (ix1 (9 : Fin 16)) := lane_eq v 9 (by decide) shapeCasts_S16_S16 slices_S16_o9_S1 inpos_S1_p0
omit [FloatOps F] in
theorem t4_word10 (v : Vec F S16 .i32) : extractAt ![0] (k1_pay46 (k1_pay35 v)) inpos_S1_p0 = v (ix1 (10 : Fin 16)) := lane_eq v 10 (by decide) shapeCasts_S16_S16 slices_S16_o10_S1 inpos_S1_p0
omit [FloatOps F] in
theorem t4_word11 (v : Vec F S16 .i32) : extractAt ![0] (k1_pay47 (k1_pay35 v)) inpos_S1_p0 = v (ix1 (11 : Fin 16)) := lane_eq v 11 (by decide) shapeCasts_S16_S16 slices_S16_o11_S1 inpos_S1_p0
omit [FloatOps F] in
theorem t4_word12 (v : Vec F S16 .i32) : extractAt ![0] (k1_pay48 (k1_pay35 v)) inpos_S1_p0 = v (ix1 (12 : Fin 16)) := lane_eq v 12 (by decide) shapeCasts_S16_S16 slices_S16_o12_S1 inpos_S1_p0
omit [FloatOps F] in
theorem t4_word13 (v : Vec F S16 .i32) : extractAt ![0] (k1_pay49 (k1_pay35 v)) inpos_S1_p0 = v (ix1 (13 : Fin 16)) := lane_eq v 13 (by decide) shapeCasts_S16_S16 slices_S16_o13_S1 inpos_S1_p0
omit [FloatOps F] in
theorem t4_word14 (v : Vec F S16 .i32) : extractAt ![0] (k1_pay50 (k1_pay35 v)) inpos_S1_p0 = v (ix1 (14 : Fin 16)) := lane_eq v 14 (by decide) shapeCasts_S16_S16 slices_S16_o14_S1 inpos_S1_p0
omit [FloatOps F] in
theorem t4_word15 (v : Vec F S16 .i32) : extractAt ![0] (k1_pay51 (k1_pay35 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t4 (tbl : Buf (Elt F) (a4Loc d)) (fI : Buf (Elt F) (idxLocV d (cV L) (jV L)))
    (f0 : Buf (Elt F) (rowsBLocV d (cV L) (jV L))) (hI : ∀ x, (fI x).toNat < 1000000) (v2 : BitVec 32)
    (k : Fin k1_t4_loop.trips) (acc : Unit) :
    fireInvB d L 0 cc1_scratch3.sem tbl fI f0 k.val acc
      ⊢ wp frame (wpE (defs₀ (F := F)) 𝒱₀ (thr d L) none) Set.univ
          (k1_t4_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 k acc)
          (fireInvB d L 0 cc1_scratch3.sem tbl fI f0 (k.val + 1)) := by
  have hk : k.val < 20 := k.isLt
  unfold k1_t4_body
  unfold fireInvB
  iintro ⟨HsI, Htb, Hr, HB⟩
  -- copy 0
  sl_exec (disch := exact chk_of_lt _ (hI _))
  iapply (fireStepB (F := F) d (cV L) (jV L) cc1_scratch3.sem NB 0 tbl fI f0 (16 * k.val + 0) (by omega) _ _ (t4_dst0 k) _ _ _ rfl
    ((t4_word0 _).trans (read_wordB d L fI _ _ k.val (k1_off74_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch3.sem NB 0 tbl fI f0 (16 * k.val + 1) (by omega) _ _ (t4_dst1 k) _ _ _ rfl
    ((t4_word1 _).trans (read_wordB d L fI _ _ k.val (k1_off74_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch3.sem NB 0 tbl fI f0 (16 * k.val + 2) (by omega) _ _ (t4_dst2 k) _ _ _ rfl
    ((t4_word2 _).trans (read_wordB d L fI _ _ k.val (k1_off74_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch3.sem NB 0 tbl fI f0 (16 * k.val + 3) (by omega) _ _ (t4_dst3 k) _ _ _ rfl
    ((t4_word3 _).trans (read_wordB d L fI _ _ k.val (k1_off74_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch3.sem NB 0 tbl fI f0 (16 * k.val + 4) (by omega) _ _ (t4_dst4 k) _ _ _ rfl
    ((t4_word4 _).trans (read_wordB d L fI _ _ k.val (k1_off74_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch3.sem NB 0 tbl fI f0 (16 * k.val + 5) (by omega) _ _ (t4_dst5 k) _ _ _ rfl
    ((t4_word5 _).trans (read_wordB d L fI _ _ k.val (k1_off74_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch3.sem NB 0 tbl fI f0 (16 * k.val + 6) (by omega) _ _ (t4_dst6 k) _ _ _ rfl
    ((t4_word6 _).trans (read_wordB d L fI _ _ k.val (k1_off74_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch3.sem NB 0 tbl fI f0 (16 * k.val + 7) (by omega) _ _ (t4_dst7 k) _ _ _ rfl
    ((t4_word7 _).trans (read_wordB d L fI _ _ k.val (k1_off74_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch3.sem NB 0 tbl fI f0 (16 * k.val + 8) (by omega) _ _ (t4_dst8 k) _ _ _ rfl
    ((t4_word8 _).trans (read_wordB d L fI _ _ k.val (k1_off74_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch3.sem NB 0 tbl fI f0 (16 * k.val + 9) (by omega) _ _ (t4_dst9 k) _ _ _ rfl
    ((t4_word9 _).trans (read_wordB d L fI _ _ k.val (k1_off74_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch3.sem NB 0 tbl fI f0 (16 * k.val + 10) (by omega) _ _ (t4_dst10 k) _ _ _ rfl
    ((t4_word10 _).trans (read_wordB d L fI _ _ k.val (k1_off74_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch3.sem NB 0 tbl fI f0 (16 * k.val + 11) (by omega) _ _ (t4_dst11 k) _ _ _ rfl
    ((t4_word11 _).trans (read_wordB d L fI _ _ k.val (k1_off74_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch3.sem NB 0 tbl fI f0 (16 * k.val + 12) (by omega) _ _ (t4_dst12 k) _ _ _ rfl
    ((t4_word12 _).trans (read_wordB d L fI _ _ k.val (k1_off74_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch3.sem NB 0 tbl fI f0 (16 * k.val + 13) (by omega) _ _ (t4_dst13 k) _ _ _ rfl
    ((t4_word13 _).trans (read_wordB d L fI _ _ k.val (k1_off74_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch3.sem NB 0 tbl fI f0 (16 * k.val + 14) (by omega) _ _ (t4_dst14 k) _ _ _ rfl
    ((t4_word14 _).trans (read_wordB d L fI _ _ k.val (k1_off74_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch3.sem NB 0 tbl fI f0 (16 * k.val + 15) (by omega) _ _ (t4_dst15 k) _ _ _ rfl
    ((t4_word15 _).trans (read_wordB d L fI _ _ k.val (k1_off74_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KW.K1

end
-- ==== Proof.BwK1BTripT6.lean ====
/-
  The fire loop k1_t6 of the noise-word phase (slot 1): one trip issues its sixteen copies, in order.
-/
import proofs.«215896_g38397007626377_fold_wed_m_942_26_alg».proof.Proof.BwK1BFire

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

omit [FloatOps F] in
theorem t6_word0 (v : Vec F S16 .i32) : extractAt ![0] (k1_pay53 v) inpos_S1_p0 = v (ix1 (0 : Fin 16)) := lane_eq v 0 (by decide) shapeCasts_S16_S16 slices_S16_o0_S1 inpos_S1_p0
omit [FloatOps F] in
theorem t6_word1 (v : Vec F S16 .i32) : extractAt ![0] (k1_pay54 (k1_pay52 v)) inpos_S1_p0 = v (ix1 (1 : Fin 16)) := lane_eq v 1 (by decide) shapeCasts_S16_S16 slices_S16_o1_S1 inpos_S1_p0
omit [FloatOps F] in
theorem t6_word2 (v : Vec F S16 .i32) : extractAt ![0] (k1_pay55 (k1_pay52 v)) inpos_S1_p0 = v (ix1 (2 : Fin 16)) := lane_eq v 2 (by decide) shapeCasts_S16_S16 slices_S16_o2_S1 inpos_S1_p0
omit [FloatOps F] in
theorem t6_word3 (v : Vec F S16 .i32) : extractAt ![0] (k1_pay56 (k1_pay52 v)) inpos_S1_p0 = v (ix1 (3 : Fin 16)) := lane_eq v 3 (by decide) shapeCasts_S16_S16 slices_S16_o3_S1 inpos_S1_p0
omit [FloatOps F] in
theorem t6_word4 (v : Vec F S16 .i32) : extractAt ![0] (k1_pay57 (k1_pay52 v)) inpos_S1_p0 = v (ix1 (4 : Fin 16)) := lane_eq v 4 (by decide) shapeCasts_S16_S16 slices_S16_o4_S1 inpos_S1_p0
omit [FloatOps F] in
theorem t6_word5 (v : Vec F S16 .i32) : extractAt ![0] (k1_pay58 (k1_pay52 v)) inpos_S1_p0 = v (ix1 (5 : Fin 16)) := lane_eq v 5 (by decide) shapeCasts_S16_S16 slices_S16_o5_S1 inpos_S1_p0
omit [FloatOps F] in
theorem t6_word6 (v : Vec F S16 .i32) : extractAt ![0] (k1_pay59 (k1_pay52 v)) inpos_S1_p0 = v (ix1 (6 : Fin 16)) := lane_eq v 6 (by decide) shapeCasts_S16_S16 slices_S16_o6_S1 inpos_S1_p0
omit [FloatOps F] in
theorem t6_word7 (v : Vec F S16 .i32) : extractAt ![0] (k1_pay60 (k1_pay52 v)) inpos_S1_p0 = v (ix1 (7 : Fin 16)) := lane_eq v 7 (by decide) shapeCasts_S16_S16 slices_S16_o7_S1 inpos_S1_p0
omit [FloatOps F] in
theorem t6_word8 (v : Vec F S16 .i32) : extractAt ![0] (k1_pay61 (k1_pay52 v)) inpos_S1_p0 = v (ix1 (8 : Fin 16)) := lane_eq v 8 (by decide) shapeCasts_S16_S16 slices_S16_o8_S1 inpos_S1_p0
omit [FloatOps F] in
theorem t6_word9 (v : Vec F S16 .i32) : extractAt ![0] (k1_pay62 (k1_pay52 v)) inpos_S1_p0 = v (ix1 (9 : Fin 16)) := lane_eq v 9 (by decide) shapeCasts_S16_S16 slices_S16_o9_S1 inpos_S1_p0
omit [FloatOps F] in
theorem t6_word10 (v : Vec F S16 .i32) : extractAt ![0] (k1_pay63 (k1_pay52 v)) inpos_S1_p0 = v (ix1 (10 : Fin 16)) := lane_eq v 10 (by decide) shapeCasts_S16_S16 slices_S16_o10_S1 inpos_S1_p0
omit [FloatOps F] in
theorem t6_word11 (v : Vec F S16 .i32) : extractAt ![0] (k1_pay64 (k1_pay52 v)) inpos_S1_p0 = v (ix1 (11 : Fin 16)) := lane_eq v 11 (by decide) shapeCasts_S16_S16 slices_S16_o11_S1 inpos_S1_p0
omit [FloatOps F] in
theorem t6_word12 (v : Vec F S16 .i32) : extractAt ![0] (k1_pay65 (k1_pay52 v)) inpos_S1_p0 = v (ix1 (12 : Fin 16)) := lane_eq v 12 (by decide) shapeCasts_S16_S16 slices_S16_o12_S1 inpos_S1_p0
omit [FloatOps F] in
theorem t6_word13 (v : Vec F S16 .i32) : extractAt ![0] (k1_pay66 (k1_pay52 v)) inpos_S1_p0 = v (ix1 (13 : Fin 16)) := lane_eq v 13 (by decide) shapeCasts_S16_S16 slices_S16_o13_S1 inpos_S1_p0
omit [FloatOps F] in
theorem t6_word14 (v : Vec F S16 .i32) : extractAt ![0] (k1_pay67 (k1_pay52 v)) inpos_S1_p0 = v (ix1 (14 : Fin 16)) := lane_eq v 14 (by decide) shapeCasts_S16_S16 slices_S16_o14_S1 inpos_S1_p0
omit [FloatOps F] in
theorem t6_word15 (v : Vec F S16 .i32) : extractAt ![0] (k1_pay68 (k1_pay52 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t6 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32)
    (k : Fin k1_t6_loop.trips) (acc : Unit) :
    fireInvB d L 1 cc1_scratch4.sem tbl fI f0 k.val acc
      ⊢ wp frame (wpE (defs₀ (F := F)) 𝒱₀ (thr d L) none) Set.univ
          (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (fireInvB d L 1 cc1_scratch4.sem tbl fI f0 (k.val + 1)) := by
  have hk : k.val < 20 := k.isLt
  unfold k1_t6_body
  unfold fireInvB
  iintro ⟨HsI, Htb, Hr, HB⟩
  -- copy 0
  sl_exec (disch := exact chk_of_lt _ (hI _))
  iapply (fireStepB (F := F) d (cV L) (jV L) cc1_scratch4.sem NB 1 tbl fI f0 (16 * k.val + 0) (by omega) _ _ (t6_dst0 k) _ _ _ rfl
    ((t6_word0 _).trans (read_wordB d L fI _ _ k.val (k1_off111_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch4.sem NB 1 tbl fI f0 (16 * k.val + 1) (by omega) _ _ (t6_dst1 k) _ _ _ rfl
    ((t6_word1 _).trans (read_wordB d L fI _ _ k.val (k1_off111_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch4.sem NB 1 tbl fI f0 (16 * k.val + 2) (by omega) _ _ (t6_dst2 k) _ _ _ rfl
    ((t6_word2 _).trans (read_wordB d L fI _ _ k.val (k1_off111_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch4.sem NB 1 tbl fI f0 (16 * k.val + 3) (by omega) _ _ (t6_dst3 k) _ _ _ rfl
    ((t6_word3 _).trans (read_wordB d L fI _ _ k.val (k1_off111_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch4.sem NB 1 tbl fI f0 (16 * k.val + 4) (by omega) _ _ (t6_dst4 k) _ _ _ rfl
    ((t6_word4 _).trans (read_wordB d L fI _ _ k.val (k1_off111_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch4.sem NB 1 tbl fI f0 (16 * k.val + 5) (by omega) _ _ (t6_dst5 k) _ _ _ rfl
    ((t6_word5 _).trans (read_wordB d L fI _ _ k.val (k1_off111_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch4.sem NB 1 tbl fI f0 (16 * k.val + 6) (by omega) _ _ (t6_dst6 k) _ _ _ rfl
    ((t6_word6 _).trans (read_wordB d L fI _ _ k.val (k1_off111_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch4.sem NB 1 tbl fI f0 (16 * k.val + 7) (by omega) _ _ (t6_dst7 k) _ _ _ rfl
    ((t6_word7 _).trans (read_wordB d L fI _ _ k.val (k1_off111_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch4.sem NB 1 tbl fI f0 (16 * k.val + 8) (by omega) _ _ (t6_dst8 k) _ _ _ rfl
    ((t6_word8 _).trans (read_wordB d L fI _ _ k.val (k1_off111_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch4.sem NB 1 tbl fI f0 (16 * k.val + 9) (by omega) _ _ (t6_dst9 k) _ _ _ rfl
    ((t6_word9 _).trans (read_wordB d L fI _ _ k.val (k1_off111_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch4.sem NB 1 tbl fI f0 (16 * k.val + 10) (by omega) _ _ (t6_dst10 k) _ _ _ rfl
    ((t6_word10 _).trans (read_wordB d L fI _ _ k.val (k1_off111_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch4.sem NB 1 tbl fI f0 (16 * k.val + 11) (by omega) _ _ (t6_dst11 k) _ _ _ rfl
    ((t6_word11 _).trans (read_wordB d L fI _ _ k.val (k1_off111_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch4.sem NB 1 tbl fI f0 (16 * k.val + 12) (by omega) _ _ (t6_dst12 k) _ _ _ rfl
    ((t6_word12 _).trans (read_wordB d L fI _ _ k.val (k1_off111_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch4.sem NB 1 tbl fI f0 (16 * k.val + 13) (by omega) _ _ (t6_dst13 k) _ _ _ rfl
    ((t6_word13 _).trans (read_wordB d L fI _ _ k.val (k1_off111_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch4.sem NB 1 tbl fI f0 (16 * k.val + 14) (by omega) _ _ (t6_dst14 k) _ _ _ rfl
    ((t6_word14 _).trans (read_wordB d L fI _ _ k.val (k1_off111_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch4.sem NB 1 tbl fI f0 (16 * k.val + 15) (by omega) _ _ (t6_dst15 k) _ _ _ rfl
    ((t6_word15 _).trans (read_wordB d L fI _ _ k.val (k1_off111_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KW.K1

end
-- ==== Proof.BwK1BTripT9.lean ====
/-
  The fire loop k1_t9 of the noise-word phase (slot 0): one trip issues its sixteen copies, in order.
-/
import proofs.«215896_g38397007626377_fold_wed_m_942_26_alg».proof.Proof.BwK1BFire

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

omit [FloatOps F] in
theorem t9_word0 (v : Vec F S16 .i32) : extractAt ![0] (k1_pay70 v) inpos_S1_p0 = v (ix1 (0 : Fin 16)) := lane_eq v 0 (by decide) shapeCasts_S16_S16 slices_S16_o0_S1 inpos_S1_p0
omit [FloatOps F] in
theorem t9_word1 (v : Vec F S16 .i32) : extractAt ![0] (k1_pay71 (k1_pay69 v)) inpos_S1_p0 = v (ix1 (1 : Fin 16)) := lane_eq v 1 (by decide) shapeCasts_S16_S16 slices_S16_o1_S1 inpos_S1_p0
omit [FloatOps F] in
theorem t9_word2 (v : Vec F S16 .i32) : extractAt ![0] (k1_pay72 (k1_pay69 v)) inpos_S1_p0 = v (ix1 (2 : Fin 16)) := lane_eq v 2 (by decide) shapeCasts_S16_S16 slices_S16_o2_S1 inpos_S1_p0
omit [FloatOps F] in
theorem t9_word3 (v : Vec F S16 .i32) : extractAt ![0] (k1_pay73 (k1_pay69 v)) inpos_S1_p0 = v (ix1 (3 : Fin 16)) := lane_eq v 3 (by decide) shapeCasts_S16_S16 slices_S16_o3_S1 inpos_S1_p0
omit [FloatOps F] in
theorem t9_word4 (v : Vec F S16 .i32) : extractAt ![0] (k1_pay74 (k1_pay69 v)) inpos_S1_p0 = v (ix1 (4 : Fin 16)) := lane_eq v 4 (by decide) shapeCasts_S16_S16 slices_S16_o4_S1 inpos_S1_p0
omit [FloatOps F] in
theorem t9_word5 (v : Vec F S16 .i32) : extractAt ![0] (k1_pay75 (k1_pay69 v)) inpos_S1_p0 = v (ix1 (5 : Fin 16)) := lane_eq v 5 (by decide) shapeCasts_S16_S16 slices_S16_o5_S1 inpos_S1_p0
omit [FloatOps F] in
theorem t9_word6 (v : Vec F S16 .i32) : extractAt ![0] (k1_pay76 (k1_pay69 v)) inpos_S1_p0 = v (ix1 (6 : Fin 16)) := lane_eq v 6 (by decide) shapeCasts_S16_S16 slices_S16_o6_S1 inpos_S1_p0
omit [FloatOps F] in
theorem t9_word7 (v : Vec F S16 .i32) : extractAt ![0] (k1_pay77 (k1_pay69 v)) inpos_S1_p0 = v (ix1 (7 : Fin 16)) := lane_eq v 7 (by decide) shapeCasts_S16_S16 slices_S16_o7_S1 inpos_S1_p0
omit [FloatOps F] in
theorem t9_word8 (v : Vec F S16 .i32) : extractAt ![0] (k1_pay78 (k1_pay69 v)) inpos_S1_p0 = v (ix1 (8 : Fin 16)) := lane_eq v 8 (by decide) shapeCasts_S16_S16 slices_S16_o8_S1 inpos_S1_p0
omit [FloatOps F] in
theorem t9_word9 (v : Vec F S16 .i32) : extractAt ![0] (k1_pay79 (k1_pay69 v)) inpos_S1_p0 = v (ix1 (9 : Fin 16)) := lane_eq v 9 (by decide) shapeCasts_S16_S16 slices_S16_o9_S1 inpos_S1_p0
omit [FloatOps F] in
theorem t9_word10 (v : Vec F S16 .i32) : extractAt ![0] (k1_pay80 (k1_pay69 v)) inpos_S1_p0 = v (ix1 (10 : Fin 16)) := lane_eq v 10 (by decide) shapeCasts_S16_S16 slices_S16_o10_S1 inpos_S1_p0
omit [FloatOps F] in
theorem t9_word11 (v : Vec F S16 .i32) : extractAt ![0] (k1_pay81 (k1_pay69 v)) inpos_S1_p0 = v (ix1 (11 : Fin 16)) := lane_eq v 11 (by decide) shapeCasts_S16_S16 slices_S16_o11_S1 inpos_S1_p0
omit [FloatOps F] in
theorem t9_word12 (v : Vec F S16 .i32) : extractAt ![0] (k1_pay82 (k1_pay69 v)) inpos_S1_p0 = v (ix1 (12 : Fin 16)) := lane_eq v 12 (by decide) shapeCasts_S16_S16 slices_S16_o12_S1 inpos_S1_p0
omit [FloatOps F] in
theorem t9_word13 (v : Vec F S16 .i32) : extractAt ![0] (k1_pay83 (k1_pay69 v)) inpos_S1_p0 = v (ix1 (13 : Fin 16)) := lane_eq v 13 (by decide) shapeCasts_S16_S16 slices_S16_o13_S1 inpos_S1_p0
omit [FloatOps F] in
theorem t9_word14 (v : Vec F S16 .i32) : extractAt ![0] (k1_pay84 (k1_pay69 v)) inpos_S1_p0 = v (ix1 (14 : Fin 16)) := lane_eq v 14 (by decide) shapeCasts_S16_S16 slices_S16_o14_S1 inpos_S1_p0
omit [FloatOps F] in
theorem t9_word15 (v : Vec F S16 .i32) : extractAt ![0] (k1_pay85 (k1_pay69 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t9 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32) (k7 : Fin k1_t7_loop.trips) (arg12 c0_i32_73 : BitVec 32)
    (k : Fin k1_t9_loop.trips) (acc : Unit) :
    fireInvB d L 0 cc1_scratch3.sem tbl fI f0 k.val acc
      ⊢ wp frame (wpE (defs₀ (F := F)) 𝒱₀ (thr d L) none) Set.univ
          (k1_t9_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (fireInvB d L 0 cc1_scratch3.sem tbl fI f0 (k.val + 1)) := by
  have hk : k.val < 20 := k.isLt
  unfold k1_t9_body
  unfold fireInvB
  iintro ⟨HsI, Htb, Hr, HB⟩
  -- copy 0
  sl_exec (disch := exact chk_of_lt _ (hI _))
  iapply (fireStepB (F := F) d (cV L) (jV L) cc1_scratch3.sem NB 0 tbl fI f0 (16 * k.val + 0) (by omega) _ _ (t9_dst0 k) _ _ _ rfl
    ((t9_word0 _).trans (read_wordB d L fI _ _ k.val (k1_off148_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch3.sem NB 0 tbl fI f0 (16 * k.val + 1) (by omega) _ _ (t9_dst1 k) _ _ _ rfl
    ((t9_word1 _).trans (read_wordB d L fI _ _ k.val (k1_off148_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch3.sem NB 0 tbl fI f0 (16 * k.val + 2) (by omega) _ _ (t9_dst2 k) _ _ _ rfl
    ((t9_word2 _).trans (read_wordB d L fI _ _ k.val (k1_off148_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch3.sem NB 0 tbl fI f0 (16 * k.val + 3) (by omega) _ _ (t9_dst3 k) _ _ _ rfl
    ((t9_word3 _).trans (read_wordB d L fI _ _ k.val (k1_off148_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch3.sem NB 0 tbl fI f0 (16 * k.val + 4) (by omega) _ _ (t9_dst4 k) _ _ _ rfl
    ((t9_word4 _).trans (read_wordB d L fI _ _ k.val (k1_off148_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch3.sem NB 0 tbl fI f0 (16 * k.val + 5) (by omega) _ _ (t9_dst5 k) _ _ _ rfl
    ((t9_word5 _).trans (read_wordB d L fI _ _ k.val (k1_off148_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch3.sem NB 0 tbl fI f0 (16 * k.val + 6) (by omega) _ _ (t9_dst6 k) _ _ _ rfl
    ((t9_word6 _).trans (read_wordB d L fI _ _ k.val (k1_off148_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch3.sem NB 0 tbl fI f0 (16 * k.val + 7) (by omega) _ _ (t9_dst7 k) _ _ _ rfl
    ((t9_word7 _).trans (read_wordB d L fI _ _ k.val (k1_off148_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch3.sem NB 0 tbl fI f0 (16 * k.val + 8) (by omega) _ _ (t9_dst8 k) _ _ _ rfl
    ((t9_word8 _).trans (read_wordB d L fI _ _ k.val (k1_off148_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch3.sem NB 0 tbl fI f0 (16 * k.val + 9) (by omega) _ _ (t9_dst9 k) _ _ _ rfl
    ((t9_word9 _).trans (read_wordB d L fI _ _ k.val (k1_off148_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch3.sem NB 0 tbl fI f0 (16 * k.val + 10) (by omega) _ _ (t9_dst10 k) _ _ _ rfl
    ((t9_word10 _).trans (read_wordB d L fI _ _ k.val (k1_off148_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch3.sem NB 0 tbl fI f0 (16 * k.val + 11) (by omega) _ _ (t9_dst11 k) _ _ _ rfl
    ((t9_word11 _).trans (read_wordB d L fI _ _ k.val (k1_off148_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch3.sem NB 0 tbl fI f0 (16 * k.val + 12) (by omega) _ _ (t9_dst12 k) _ _ _ rfl
    ((t9_word12 _).trans (read_wordB d L fI _ _ k.val (k1_off148_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch3.sem NB 0 tbl fI f0 (16 * k.val + 13) (by omega) _ _ (t9_dst13 k) _ _ _ rfl
    ((t9_word13 _).trans (read_wordB d L fI _ _ k.val (k1_off148_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch3.sem NB 0 tbl fI f0 (16 * k.val + 14) (by omega) _ _ (t9_dst14 k) _ _ _ rfl
    ((t9_word14 _).trans (read_wordB d L fI _ _ k.val (k1_off148_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch3.sem NB 0 tbl fI f0 (16 * k.val + 15) (by omega) _ _ (t9_dst15 k) _ _ _ rfl
    ((t9_word15 _).trans (read_wordB d L fI _ _ k.val (k1_off148_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KW.K1

end
-- ==== Proof.BwK1BTripT11.lean ====
/-
  The fire loop k1_t11 of the noise-word phase (slot 1): one trip issues its sixteen copies, in order.
-/
import proofs.«215896_g38397007626377_fold_wed_m_942_26_alg».proof.Proof.BwK1BFire

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

omit [FloatOps F] in
theorem t11_word0 (v : Vec F S16 .i32) : extractAt ![0] (k1_pay87 v) inpos_S1_p0 = v (ix1 (0 : Fin 16)) := lane_eq v 0 (by decide) shapeCasts_S16_S16 slices_S16_o0_S1 inpos_S1_p0
omit [FloatOps F] in
theorem t11_word1 (v : Vec F S16 .i32) : extractAt ![0] (k1_pay88 (k1_pay86 v)) inpos_S1_p0 = v (ix1 (1 : Fin 16)) := lane_eq v 1 (by decide) shapeCasts_S16_S16 slices_S16_o1_S1 inpos_S1_p0
omit [FloatOps F] in
theorem t11_word2 (v : Vec F S16 .i32) : extractAt ![0] (k1_pay89 (k1_pay86 v)) inpos_S1_p0 = v (ix1 (2 : Fin 16)) := lane_eq v 2 (by decide) shapeCasts_S16_S16 slices_S16_o2_S1 inpos_S1_p0
omit [FloatOps F] in
theorem t11_word3 (v : Vec F S16 .i32) : extractAt ![0] (k1_pay90 (k1_pay86 v)) inpos_S1_p0 = v (ix1 (3 : Fin 16)) := lane_eq v 3 (by decide) shapeCasts_S16_S16 slices_S16_o3_S1 inpos_S1_p0
omit [FloatOps F] in
theorem t11_word4 (v : Vec F S16 .i32) : extractAt ![0] (k1_pay91 (k1_pay86 v)) inpos_S1_p0 = v (ix1 (4 : Fin 16)) := lane_eq v 4 (by decide) shapeCasts_S16_S16 slices_S16_o4_S1 inpos_S1_p0
omit [FloatOps F] in
theorem t11_word5 (v : Vec F S16 .i32) : extractAt ![0] (k1_pay92 (k1_pay86 v)) inpos_S1_p0 = v (ix1 (5 : Fin 16)) := lane_eq v 5 (by decide) shapeCasts_S16_S16 slices_S16_o5_S1 inpos_S1_p0
omit [FloatOps F] in
theorem t11_word6 (v : Vec F S16 .i32) : extractAt ![0] (k1_pay93 (k1_pay86 v)) inpos_S1_p0 = v (ix1 (6 : Fin 16)) := lane_eq v 6 (by decide) shapeCasts_S16_S16 slices_S16_o6_S1 inpos_S1_p0
omit [FloatOps F] in
theorem t11_word7 (v : Vec F S16 .i32) : extractAt ![0] (k1_pay94 (k1_pay86 v)) inpos_S1_p0 = v (ix1 (7 : Fin 16)) := lane_eq v 7 (by decide) shapeCasts_S16_S16 slices_S16_o7_S1 inpos_S1_p0
omit [FloatOps F] in
theorem t11_word8 (v : Vec F S16 .i32) : extractAt ![0] (k1_pay95 (k1_pay86 v)) inpos_S1_p0 = v (ix1 (8 : Fin 16)) := lane_eq v 8 (by decide) shapeCasts_S16_S16 slices_S16_o8_S1 inpos_S1_p0
omit [FloatOps F] in
theorem t11_word9 (v : Vec F S16 .i32) : extractAt ![0] (k1_pay96 (k1_pay86 v)) inpos_S1_p0 = v (ix1 (9 : Fin 16)) := lane_eq v 9 (by decide) shapeCasts_S16_S16 slices_S16_o9_S1 inpos_S1_p0
omit [FloatOps F] in
theorem t11_word10 (v : Vec F S16 .i32) : extractAt ![0] (k1_pay97 (k1_pay86 v)) inpos_S1_p0 = v (ix1 (10 : Fin 16)) := lane_eq v 10 (by decide) shapeCasts_S16_S16 slices_S16_o10_S1 inpos_S1_p0
omit [FloatOps F] in
theorem t11_word11 (v : Vec F S16 .i32) : extractAt ![0] (k1_pay98 (k1_pay86 v)) inpos_S1_p0 = v (ix1 (11 : Fin 16)) := lane_eq v 11 (by decide) shapeCasts_S16_S16 slices_S16_o11_S1 inpos_S1_p0
omit [FloatOps F] in
theorem t11_word12 (v : Vec F S16 .i32) : extractAt ![0] (k1_pay99 (k1_pay86 v)) inpos_S1_p0 = v (ix1 (12 : Fin 16)) := lane_eq v 12 (by decide) shapeCasts_S16_S16 slices_S16_o12_S1 inpos_S1_p0
omit [FloatOps F] in
theorem t11_word13 (v : Vec F S16 .i32) : extractAt ![0] (k1_pay100 (k1_pay86 v)) inpos_S1_p0 = v (ix1 (13 : Fin 16)) := lane_eq v 13 (by decide) shapeCasts_S16_S16 slices_S16_o13_S1 inpos_S1_p0
omit [FloatOps F] in
theorem t11_word14 (v : Vec F S16 .i32) : extractAt ![0] (k1_pay101 (k1_pay86 v)) inpos_S1_p0 = v (ix1 (14 : Fin 16)) := lane_eq v 14 (by decide) shapeCasts_S16_S16 slices_S16_o14_S1 inpos_S1_p0
omit [FloatOps F] in
theorem t11_word15 (v : Vec F S16 .i32) : extractAt ![0] (k1_pay102 (k1_pay86 v)) inpos_S1_p0 = v (ix1 (15 : Fin 16)) := lane_eq v 15 (by decide) shapeCasts_S16_S16 slices_S16_o15_S1 inpos_S1_p0

set_option maxHeartbeats 4000000 in
/-- One trip: sixteen index words loaded, each checked to name a row of the table, each copy issued as the batch's next. -/
theorem fire_trip_t11 (tbl : Buf (Elt F) (a4Loc d)) (fI : Buf (Elt F) (idxLocV d (cV L) (jV L)))
    (f0 : Buf (Elt F) (rowsBLocV d (cV L) (jV L))) (hI : ∀ x, (fI x).toNat < 1000000) (v3 v4 c0_i32_90 : BitVec 32)
    (k : Fin k1_t11_loop.trips) (acc : Unit) :
    fireInvB d L 1 cc1_scratch4.sem tbl fI f0 k.val acc
      ⊢ wp frame (wpE (defs₀ (F := F)) 𝒱₀ (thr d L) none) Set.univ
          (k1_t11_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_90 k acc)
          (fireInvB d L 1 cc1_scratch4.sem tbl fI f0 (k.val + 1)) := by
  have hk : k.val < 20 := k.isLt
  unfold k1_t11_body
  unfold fireInvB
  iintro ⟨HsI, Htb, Hr, HB⟩
  -- copy 0
  sl_exec (disch := exact chk_of_lt _ (hI _))
  iapply (fireStepB (F := F) d (cV L) (jV L) cc1_scratch4.sem NB 1 tbl fI f0 (16 * k.val + 0) (by omega) _ _ (t11_dst0 k) _ _ _ rfl
    ((t11_word0 _).trans (read_wordB d L fI _ _ k.val (k1_off183_eq k) 0 (by omega))) hI rfl) $$ [Htb Hr HB]
  · isplitl [Htb]; · iexact Htb
    isplitl [Hr]; · iexact Hr
    iexact HB
  iintro ⟨Htb, Hr, HB⟩
  -- copy 1
  sl_exec (disch := exact chk_of_lt _ (hI _))
  iapply (fireStepB (F := F) d (cV L) (jV L) cc1_scratch4.sem NB 1 tbl fI f0 (16 * k.val + 1) (by omega) _ _ (t11_dst1 k) _ _ _ rfl
    ((t11_word1 _).trans (read_wordB d L fI _ _ k.val (k1_off183_eq k) 1 (by omega))) hI rfl) $$ [Htb Hr HB]
  · isplitl [Htb]; · iexact Htb
    isplitl [Hr]; · iexact Hr
    iexact HB
  iintro ⟨Htb, Hr, HB⟩
  -- copy 2
  sl_exec (disch := exact chk_of_lt _ (hI _))
  iapply (fireStepB (F := F) d (cV L) (jV L) cc1_scratch4.sem NB 1 tbl fI f0 (16 * k.val + 2) (by omega) _ _ (t11_dst2 k) _ _ _ rfl
    ((t11_word2 _).trans (read_wordB d L fI _ _ k.val (k1_off183_eq k) 2 (by omega))) hI rfl) $$ [Htb Hr HB]
  · isplitl [Htb]; · iexact Htb
    isplitl [Hr]; · iexact Hr
    iexact HB
  iintro ⟨Htb, Hr, HB⟩
  -- copy 3
  sl_exec (disch := exact chk_of_lt _ (hI _))
  iapply (fireStepB (F := F) d (cV L) (jV L) cc1_scratch4.sem NB 1 tbl fI f0 (16 * k.val + 3) (by omega) _ _ (t11_dst3 k) _ _ _ rfl
    ((t11_word3 _).trans (read_wordB d L fI _ _ k.val (k1_off183_eq k) 3 (by omega))) hI rfl) $$ [Htb Hr HB]
  · isplitl [Htb]; · iexact Htb
    isplitl [Hr]; · iexact Hr
    iexact HB
  iintro ⟨Htb, Hr, HB⟩
  -- copy 4
  sl_exec (disch := exact chk_of_lt _ (hI _))
  iapply (fireStepB (F := F) d (cV L) (jV L) cc1_scratch4.sem NB 1 tbl fI f0 (16 * k.val + 4) (by omega) _ _ (t11_dst4 k) _ _ _ rfl
    ((t11_word4 _).trans (read_wordB d L fI _ _ k.val (k1_off183_eq k) 4 (by omega))) hI rfl) $$ [Htb Hr HB]
  · isplitl [Htb]; · iexact Htb
    isplitl [Hr]; · iexact Hr
    iexact HB
  iintro ⟨Htb, Hr, HB⟩
  -- copy 5
  sl_exec (disch := exact chk_of_lt _ (hI _))
  iapply (fireStepB (F := F) d (cV L) (jV L) cc1_scratch4.sem NB 1 tbl fI f0 (16 * k.val + 5) (by omega) _ _ (t11_dst5 k) _ _ _ rfl
    ((t11_word5 _).trans (read_wordB d L fI _ _ k.val (k1_off183_eq k) 5 (by omega))) hI rfl) $$ [Htb Hr HB]
  · isplitl [Htb]; · iexact Htb
    isplitl [Hr]; · iexact Hr
    iexact HB
  iintro ⟨Htb, Hr, HB⟩
  -- copy 6
  sl_exec (disch := exact chk_of_lt _ (hI _))
  iapply (fireStepB (F := F) d (cV L) (jV L) cc1_scratch4.sem NB 1 tbl fI f0 (16 * k.val + 6) (by omega) _ _ (t11_dst6 k) _ _ _ rfl
    ((t11_word6 _).trans (read_wordB d L fI _ _ k.val (k1_off183_eq k) 6 (by omega))) hI rfl) $$ [Htb Hr HB]
  · isplitl [Htb]; · iexact Htb
    isplitl [Hr]; · iexact Hr
    iexact HB
  iintro ⟨Htb, Hr, HB⟩
  -- copy 7
  sl_exec (disch := exact chk_of_lt _ (hI _))
  iapply (fireStepB (F := F) d (cV L) (jV L) cc1_scratch4.sem NB 1 tbl fI f0 (16 * k.val + 7) (by omega) _ _ (t11_dst7 k) _ _ _ rfl
    ((t11_word7 _).trans (read_wordB d L fI _ _ k.val (k1_off183_eq k) 7 (by omega))) hI rfl) $$ [Htb Hr HB]
  · isplitl [Htb]; · iexact Htb
    isplitl [Hr]; · iexact Hr
    iexact HB
  iintro ⟨Htb, Hr, HB⟩
  -- copy 8
  sl_exec (disch := exact chk_of_lt _ (hI _))
  iapply (fireStepB (F := F) d (cV L) (jV L) cc1_scratch4.sem NB 1 tbl fI f0 (16 * k.val + 8) (by omega) _ _ (t11_dst8 k) _ _ _ rfl
    ((t11_word8 _).trans (read_wordB d L fI _ _ k.val (k1_off183_eq k) 8 (by omega))) hI rfl) $$ [Htb Hr HB]
  · isplitl [Htb]; · iexact Htb
    isplitl [Hr]; · iexact Hr
    iexact HB
  iintro ⟨Htb, Hr, HB⟩
  -- copy 9
  sl_exec (disch := exact chk_of_lt _ (hI _))
  iapply (fireStepB (F := F) d (cV L) (jV L) cc1_scratch4.sem NB 1 tbl fI f0 (16 * k.val + 9) (by omega) _ _ (t11_dst9 k) _ _ _ rfl
    ((t11_word9 _).trans (read_wordB d L fI _ _ k.val (k1_off183_eq k) 9 (by omega))) hI rfl) $$ [Htb Hr HB]
  · isplitl [Htb]; · iexact Htb
    isplitl [Hr]; · iexact Hr
    iexact HB
  iintro ⟨Htb, Hr, HB⟩
  -- copy 10
  sl_exec (disch := exact chk_of_lt _ (hI _))
  iapply (fireStepB (F := F) d (cV L) (jV L) cc1_scratch4.sem NB 1 tbl fI f0 (16 * k.val + 10) (by omega) _ _ (t11_dst10 k) _ _ _ rfl
    ((t11_word10 _).trans (read_wordB d L fI _ _ k.val (k1_off183_eq k) 10 (by omega))) hI rfl) $$ [Htb Hr HB]
  · isplitl [Htb]; · iexact Htb
    isplitl [Hr]; · iexact Hr
    iexact HB
  iintro ⟨Htb, Hr, HB⟩
  -- copy 11
  sl_exec (disch := exact chk_of_lt _ (hI _))
  iapply (fireStepB (F := F) d (cV L) (jV L) cc1_scratch4.sem NB 1 tbl fI f0 (16 * k.val + 11) (by omega) _ _ (t11_dst11 k) _ _ _ rfl
    ((t11_word11 _).trans (read_wordB d L fI _ _ k.val (k1_off183_eq k) 11 (by omega))) hI rfl) $$ [Htb Hr HB]
  · isplitl [Htb]; · iexact Htb
    isplitl [Hr]; · iexact Hr
    iexact HB
  iintro ⟨Htb, Hr, HB⟩
  -- copy 12
  sl_exec (disch := exact chk_of_lt _ (hI _))
  iapply (fireStepB (F := F) d (cV L) (jV L) cc1_scratch4.sem NB 1 tbl fI f0 (16 * k.val + 12) (by omega) _ _ (t11_dst12 k) _ _ _ rfl
    ((t11_word12 _).trans (read_wordB d L fI _ _ k.val (k1_off183_eq k) 12 (by omega))) hI rfl) $$ [Htb Hr HB]
  · isplitl [Htb]; · iexact Htb
    isplitl [Hr]; · iexact Hr
    iexact HB
  iintro ⟨Htb, Hr, HB⟩
  -- copy 13
  sl_exec (disch := exact chk_of_lt _ (hI _))
  iapply (fireStepB (F := F) d (cV L) (jV L) cc1_scratch4.sem NB 1 tbl fI f0 (16 * k.val + 13) (by omega) _ _ (t11_dst13 k) _ _ _ rfl
    ((t11_word13 _).trans (read_wordB d L fI _ _ k.val (k1_off183_eq k) 13 (by omega))) hI rfl) $$ [Htb Hr HB]
  · isplitl [Htb]; · iexact Htb
    isplitl [Hr]; · iexact Hr
    iexact HB
  iintro ⟨Htb, Hr, HB⟩
  -- copy 14
  sl_exec (disch := exact chk_of_lt _ (hI _))
  iapply (fireStepB (F := F) d (cV L) (jV L) cc1_scratch4.sem NB 1 tbl fI f0 (16 * k.val + 14) (by omega) _ _ (t11_dst14 k) _ _ _ rfl
    ((t11_word14 _).trans (read_wordB d L fI _ _ k.val (k1_off183_eq k) 14 (by omega))) hI rfl) $$ [Htb Hr HB]
  · isplitl [Htb]; · iexact Htb
    isplitl [Hr]; · iexact Hr
    iexact HB
  iintro ⟨Htb, Hr, HB⟩
  -- copy 15
  sl_exec (disch := exact chk_of_lt _ (hI _))
  iapply (fireStepB (F := F) d (cV L) (jV L) cc1_scratch4.sem NB 1 tbl fI f0 (16 * k.val + 15) (by omega) _ _ (t11_dst15 k) _ _ _ rfl
    ((t11_word15 _).trans (read_wordB d L fI _ _ k.val (k1_off183_eq k) 15 (by omega))) hI rfl) $$ [Htb Hr HB]
  · isplitl [Htb]; · iexact Htb
    isplitl [Hr]; · iexact Hr
    iexact HB
  iintro ⟨Htb, Hr, HB⟩
  sl_exec
  sl_step
  isplitl [HsI]; · iexact HsI
  isplitl [Htb]; · iexact Htb
  isplitl [Hr]; · iexact Hr
  iexact HB

end Cert.Proof.KW.K1

end
-- ==== Proof.BwK1BDrain.lean ====
/-
  The noise-word phase's drain loops, one wait at a time.

  Each wait takes one piece's credit off the chunk's batch. With several copies paying in instalments on one counter,
  a wait that is not the last learns nothing about any destination; the wait that brings the units consumed to 320
  pieces' worth knows every copy has landed and hands back every delivery, the counter at zero again.
-/
import proofs.«215896_g38397007626377_fold_wed_m_942_26_alg».proof.Proof.BwK1BFire

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

section DrainB

variable (d : Dev nD) (cc : Fin τ.nSC) (jj : Fin τ.nSub)

theorem hu_skipB {a : ℕ} (h : a + 1 < 320) : a * NB + NB < NB * 320 := by
  have hp := NB_pos
  nlinarith
theorem hu_lastB : 319 * NB + NB = NB * 320 := by ring

/-- ONE WAIT that is not the last: a pieces' worth consumed before, a + 1 after; nothing else changes. -/
theorem drainStepB {α : Type} (sem : DmaSem sig) (b : ℕ) (tbl : Buf (Elt F) (a4Loc d)) (fI : Buf (Elt F) (idxLocV d cc jj))
    (a : ℕ) (ha : a + 1 < 320) (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact} (hN : dstw.view.dmaCredit = NB)
    {k : PUnit → Prog (TpuEff nD τ sig (Elt F) Λ₀ (V d cc jj).2) α} {Q : α → sProp 𝕄} :
    iprop(levAts (K (F := F)).L (K (F := F)).lev
        ∗ Transfers.Batch countersEmb (V d cc jj) (.dma sem) (none : HIx 2) NB (DB d cc jj b tbl fI) 320 (a * NB)
        ∗ owesN (F := F) (V d cc jj) O W)
      ⊢ iprop((iprop(Transfers.Batch countersEmb (V d cc jj) (.dma sem) (none : HIx 2) NB (DB d cc jj b tbl fI) 320 ((a + 1) * NB)
            ∗ owesN (F := F) (V d cc jj) O W)
          -∗ wp frame (wpE (defs₀ (F := F)) 𝒱₀ (V d cc jj) none) Set.univ (k ⟨⟩) Q)
        -∗ wp frame (wpE (defs₀ (F := F)) 𝒱₀ (V d cc jj) none) Set.univ (.op (.waitDma2 sem srcw dstw hs hd) k) Q) := by
  rw [Nat.succ_mul]
  exact waitSkip (F := F) (V d cc jj) sem NB hN (DB d cc jj b tbl fI) (a * NB) (hu_skipB ha) O hO W

/-- THE LAST WAIT: every copy has landed; every delivery comes back, the counter at zero. -/
theorem drainLastB {α : Type} (sem : DmaSem sig) (b : ℕ) (tbl : Buf (Elt F) (a4Loc d)) (fI : Buf (Elt F) (idxLocV d cc jj))
    (O : CellTallies nD τ sig (HIx 2)) (W : Waits sig (HIx 2)) (hO : ∀ g, O g none = 0)
    {srcw : Memref sig .scVector .hbm S64 .f32} {dstw : Memref sig .scVector .vmem S64 .f32}
    {hs : srcw.view.WordExact} {hd : dstw.view.WordExact} (hN : dstw.view.dmaCredit = NB)
    {k : PUnit → Prog (TpuEff nD τ sig (Elt F) Λ₀ (V d cc jj).2) α} {Q : α → sProp 𝕄} :
    iprop(levAts (K (F := F)).L (K (F := F)).lev
        ∗ Transfers.Batch countersEmb (V d cc jj) (.dma sem) (none : HIx 2) NB (DB d cc jj b tbl fI) 320 ((16 * 19 + 15) * NB)
        ∗ owesN (F := F) (V d cc jj) O W)
      ⊢ iprop((iprop(bigSep Finset.univ (DB d cc jj b tbl fI) ∗ semVal (V d cc jj, SemLoc.dma sem) 0 ∗ owesN (F := F) (V d cc jj) O W)
          -∗ wp frame (wpE (defs₀ (F := F)) 𝒱₀ (V d cc jj) none) Set.univ (k ⟨⟩) Q)
        -∗ wp frame (wpE (defs₀ (F := F)) 𝒱₀ (V d cc jj) none) Set.univ (.op (.waitDma2 sem srcw dstw hs hd) k) Q) :=
  waitLast (F := F) (V d cc jj) sem NB hN NB_pos (DB d cc jj b tbl fI) ((16 * 19 + 15) * NB) hu_lastB O hO W

end DrainB

section DrainInv

variable (d : Dev nD) (L : grid1.Coords)

/-- A chunk's batch with everything issued and u units consumed. -/
abbrev batchAtB (b : ℕ) (sem : DmaSem sig) (tbl : Buf (Elt F) (a4Loc d)) (fI : Buf (Elt F) (idxLocV d (cV L) (jV L))) (u : ℕ) : sProp 𝕄 :=
  Transfers.Batch countersEmb (thr d L) (.dma sem) (none : HIx 2) NB (DB d (cV L) (jV L) b tbl fI) 320 u

/-- Before trip k of a drain loop; after the last trip every piece of the slot is back at its final contents. -/
def drainInvB (b : ℕ) (sem : DmaSem sig) (tbl : Buf (Elt F) (a4Loc d)) (fI : Buf (Elt F) (idxLocV d (cV L) (jV L)))
    (O : CellTallies nD τ sig (HIx 2)) (W : Waits sig (HIx 2)) (k : ℕ) (_ : Unit) : sProp 𝕄 :=
  iprop(levAts (K (F := F)).L (K (F := F)).lev
    ∗ (if k < 20 then batchAtB d L b sem tbl fI ((16 * k) * NB)
       else iprop((bigSep Finset.univ (DB d (cV L) (jV L) b tbl fI)) ∗ semVal (thr d L, SemLoc.dma sem) 0))
    ∗ owesN (F := F) (thr d L) O W)

end DrainInv

end Cert.Proof.KW.K1

end
-- ==== Proof.BwK1BDrainT8.lean ====
/-
  The drain loop k1_t8 of the noise-word phase (slot 0): its trips, sixteen waits each.
-/
import proofs.«215896_g38397007626377_fold_wed_m_942_26_alg».proof.Proof.BwK1BDrain

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

set_option maxHeartbeats 4000000 in
/-- A trip of the drain loop that is not the last: sixteen waits, each taking one piece's credit, none learning anything. -/
theorem drain_trip_t8_mid (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips)
    (k : Fin k1_t8_loop.trips) (K0 : ℕ) (hK : k.val = K0) (hmid : K0 + 1 < 20) (acc : Unit) :
    iprop(levAts (K (F := F)).L (K (F := F)).lev ∗ batchAtB d L 0 cc1_scratch3.sem tbl fI ((16 * K0) * NB) ∗ owesN (F := F) (thr d L) O W)
      ⊢ wp frame (wpE (defs₀ (F := F)) 𝒱₀ (thr d L) none) Set.univ
          (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7 k acc)
          (fun _ => iprop(levAts (K (F := F)).L (K (F := F)).lev ∗ batchAtB d L 0 cc1_scratch3.sem tbl fI ((16 * (K0 + 1)) * NB) ∗ owesN (F := F) (thr d L) O W)) := by
  unfold k1_t8_body
  iintro ⟨#Hlv, HB, HW⟩
  -- wait 0
  sl_exec
  iapply (drainStepB (F := F) d (cV L) (jV L) cc1_scratch3.sem 0 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch3.sem 0 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t8_last (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips)
    (k : Fin k1_t8_loop.trips) (hlast : k.val = 19) (acc : Unit) :
    iprop(levAts (K (F := F)).L (K (F := F)).lev ∗ batchAtB d L 0 cc1_scratch3.sem tbl fI ((16 * 19) * NB) ∗ owesN (F := F) (thr d L) O W)
      ⊢ wp frame (wpE (defs₀ (F := F)) 𝒱₀ (thr d L) none) Set.univ
          (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7 k acc)
          (fun _ => iprop(levAts (K (F := F)).L (K (F := F)).lev
            ∗ iprop((bigSep Finset.univ (DB d (cV L) (jV L) 0 tbl fI)) ∗ semVal (thr d L, SemLoc.dma cc1_scratch3.sem) 0)
            ∗ owesN (F := F) (thr d L) O W)) := by
  unfold k1_t8_body
  iintro ⟨#Hlv, HB, HW⟩
  -- wait 0
  sl_exec
  iapply (drainStepB (F := F) d (cV L) (jV L) cc1_scratch3.sem 0 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch3.sem 0 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KW.K1

end
-- ==== Proof.BwK1BDrainT10.lean ====
/-
  The drain loop k1_t10 of the noise-word phase (slot 1): its trips, sixteen waits each.
-/
import proofs.«215896_g38397007626377_fold_wed_m_942_26_alg».proof.Proof.BwK1BDrain

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

set_option maxHeartbeats 4000000 in
/-- A trip of the drain loop that is not the last: sixteen waits, each taking one piece's credit, none learning anything. -/
theorem drain_trip_t10_mid (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32)
    (k : Fin k1_t10_loop.trips) (K0 : ℕ) (hK : k.val = K0) (hmid : K0 + 1 < 20) (acc : Unit) :
    iprop(levAts (K (F := F)).L (K (F := F)).lev ∗ batchAtB d L 1 cc1_scratch4.sem tbl fI ((16 * K0) * NB) ∗ owesN (F := F) (thr d L) O W)
      ⊢ wp frame (wpE (defs₀ (F := F)) 𝒱₀ (thr d L) none) Set.univ
          (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (fun _ => iprop(levAts (K (F := F)).L (K (F := F)).lev ∗ batchAtB d L 1 cc1_scratch4.sem tbl fI ((16 * (K0 + 1)) * NB) ∗ owesN (F := F) (thr d L) O W)) := by
  unfold k1_t10_body
  iintro ⟨#Hlv, HB, HW⟩
  -- wait 0
  sl_exec
  iapply (drainStepB (F := F) d (cV L) (jV L) cc1_scratch4.sem 1 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch4.sem 1 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t10_last (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32)
    (k : Fin k1_t10_loop.trips) (hlast : k.val = 19) (acc : Unit) :
    iprop(levAts (K (F := F)).L (K (F := F)).lev ∗ batchAtB d L 1 cc1_scratch4.sem tbl fI ((16 * 19) * NB) ∗ owesN (F := F) (thr d L) O W)
      ⊢ wp frame (wpE (defs₀ (F := F)) 𝒱₀ (thr d L) none) Set.univ
          (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (fun _ => iprop(levAts (K (F := F)).L (K (F := F)).lev
            ∗ iprop((bigSep Finset.univ (DB d (cV L) (jV L) 1 tbl fI)) ∗ semVal (thr d L, SemLoc.dma cc1_scratch4.sem) 0)
            ∗ owesN (F := F) (thr d L) O W)) := by
  unfold k1_t10_body
  iintro ⟨#Hlv, HB, HW⟩
  -- wait 0
  sl_exec
  iapply (drainStepB (F := F) d (cV L) (jV L) cc1_scratch4.sem 1 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch4.sem 1 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KW.K1

end
-- ==== Proof.BwK1BDrainT12.lean ====
/-
  The drain loop k1_t12 of the noise-word phase (slot 0): its trips, sixteen waits each.
-/
import proofs.«215896_g38397007626377_fold_wed_m_942_26_alg».proof.Proof.BwK1BDrain

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

set_option maxHeartbeats 4000000 in
/-- A trip of the drain loop that is not the last: sixteen waits, each taking one piece's credit, none learning anything. -/
theorem drain_trip_t12_mid (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32)
    (k : Fin k1_t12_loop.trips) (K0 : ℕ) (hK : k.val = K0) (hmid : K0 + 1 < 20) (acc : Unit) :
    iprop(levAts (K (F := F)).L (K (F := F)).lev ∗ batchAtB d L 0 cc1_scratch3.sem tbl fI ((16 * K0) * NB) ∗ owesN (F := F) (thr d L) O W)
      ⊢ wp frame (wpE (defs₀ (F := F)) 𝒱₀ (thr d L) none) Set.univ
          (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (fun _ => iprop(levAts (K (F := F)).L (K (F := F)).lev ∗ batchAtB d L 0 cc1_scratch3.sem tbl fI ((16 * (K0 + 1)) * NB) ∗ owesN (F := F) (thr d L) O W)) := by
  unfold k1_t12_body
  iintro ⟨#Hlv, HB, HW⟩
  -- wait 0
  sl_exec
  iapply (drainStepB (F := F) d (cV L) (jV L) cc1_scratch3.sem 0 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch3.sem 0 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t12_last (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32)
    (k : Fin k1_t12_loop.trips) (hlast : k.val = 19) (acc : Unit) :
    iprop(levAts (K (F := F)).L (K (F := F)).lev ∗ batchAtB d L 0 cc1_scratch3.sem tbl fI ((16 * 19) * NB) ∗ owesN (F := F) (thr d L) O W)
      ⊢ wp frame (wpE (defs₀ (F := F)) 𝒱₀ (thr d L) none) Set.univ
          (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (fun _ => iprop(levAts (K (F := F)).L (K (F := F)).lev
            ∗ iprop((bigSep Finset.univ (DB d (cV L) (jV L) 0 tbl fI)) ∗ semVal (thr d L, SemLoc.dma cc1_scratch3.sem) 0)
            ∗ owesN (F := F) (thr d L) O W)) := by
  unfold k1_t12_body
  iintro ⟨#Hlv, HB, HW⟩
  -- wait 0
  sl_exec
  iapply (drainStepB (F := F) d (cV L) (jV L) cc1_scratch3.sem 0 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch3.sem 0 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch3.sem 0 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch3.sem 0 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch3.sem 0 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch3.sem 0 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch3.sem 0 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch3.sem 0 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch3.sem 0 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch3.sem 0 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch3.sem 0 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch3.sem 0 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch3.sem 0 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch3.sem 0 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch3.sem 0 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch3.sem 0 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KW.K1

end
-- ==== Proof.BwK1BDrainT13.lean ====
/-
  The drain loop k1_t13 of the noise-word phase (slot 1): its trips, sixteen waits each.
-/
import proofs.«215896_g38397007626377_fold_wed_m_942_26_alg».proof.Proof.BwK1BDrain

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

set_option maxHeartbeats 4000000 in
/-- A trip of the drain loop that is not the last: sixteen waits, each taking one piece's credit, none learning anything. -/
theorem drain_trip_t13_mid (tbl : Buf (Elt F) (a4Loc d)) (fI : Buf (Elt F) (idxLocV d (cV L) (jV L)))
    (O : CellTallies nD τ sig (HIx 2)) (W : Waits sig (HIx 2)) (hO : ∀ g, O g none = 0)
    (k : Fin k1_t13_loop.trips) (K0 : ℕ) (hK : k.val = K0) (hmid : K0 + 1 < 20) (acc : Unit) :
    iprop(levAts (K (F := F)).L (K (F := F)).lev ∗ batchAtB d L 1 cc1_scratch4.sem tbl fI ((16 * K0) * NB) ∗ owesN (F := F) (thr d L) O W)
      ⊢ wp frame (wpE (defs₀ (F := F)) 𝒱₀ (thr d L) none) Set.univ
          (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11  k acc)
          (fun _ => iprop(levAts (K (F := F)).L (K (F := F)).lev ∗ batchAtB d L 1 cc1_scratch4.sem tbl fI ((16 * (K0 + 1)) * NB) ∗ owesN (F := F) (thr d L) O W)) := by
  unfold k1_t13_body
  iintro ⟨#Hlv, HB, HW⟩
  -- wait 0
  sl_exec
  iapply (drainStepB (F := F) d (cV L) (jV L) cc1_scratch4.sem 1 tbl fI (16 * K0 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * K0 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * K0 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * K0 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * K0 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * K0 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * K0 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * K0 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * K0 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * K0 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * K0 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * K0 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * K0 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * K0 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * K0 + 14) (by omega) O W hO rfl) $$ [HB HW]
  · isplitr; · iexact Hlv
    isplitl [HB]; · iexact HB
    iexact HW
  iintro ⟨HB, HW⟩
  -- wait 15
  sl_exec
  iapply (drainStepB (F := F) d (cV L) (jV L) cc1_scratch4.sem 1 tbl fI (16 * K0 + 15) (by omega) O W hO rfl) $$ [HB HW]
  · isplitr; · iexact Hlv
    isplitl [HB]; · iexact HB
    iexact HW
  iintro ⟨HB, HW⟩
  sl_exec
  sl_step
  isplitr; · iexact Hlv
  isplitl [HB]; · iexact HB
  iexact HW

set_option maxHeartbeats 4000000 in
/-- The last trip of the drain loop: its sixteenth wait is the last of the 320, and every delivery comes back. -/
theorem drain_trip_t13_last (tbl : Buf (Elt F) (a4Loc d)) (fI : Buf (Elt F) (idxLocV d (cV L) (jV L)))
    (O : CellTallies nD τ sig (HIx 2)) (W : Waits sig (HIx 2)) (hO : ∀ g, O g none = 0)
    (k : Fin k1_t13_loop.trips) (hlast : k.val = 19) (acc : Unit) :
    iprop(levAts (K (F := F)).L (K (F := F)).lev ∗ batchAtB d L 1 cc1_scratch4.sem tbl fI ((16 * 19) * NB) ∗ owesN (F := F) (thr d L) O W)
      ⊢ wp frame (wpE (defs₀ (F := F)) 𝒱₀ (thr d L) none) Set.univ
          (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11  k acc)
          (fun _ => iprop(levAts (K (F := F)).L (K (F := F)).lev
            ∗ iprop((bigSep Finset.univ (DB d (cV L) (jV L) 1 tbl fI)) ∗ semVal (thr d L, SemLoc.dma cc1_scratch4.sem) 0)
            ∗ owesN (F := F) (thr d L) O W)) := by
  unfold k1_t13_body
  iintro ⟨#Hlv, HB, HW⟩
  -- wait 0
  sl_exec
  iapply (drainStepB (F := F) d (cV L) (jV L) cc1_scratch4.sem 1 tbl fI (16 * 19 + 0) (by omega) O W hO rfl) $$ [HB HW]
  · isplitr; · iexact Hlv
    isplitl [HB]; · iexact HB
    iexact HW
  iintro ⟨HB, HW⟩
  -- wait 1
  sl_exec
  iapply (drainStepB (F := F) d (cV L) (jV L) cc1_scratch4.sem 1 tbl fI (16 * 19 + 1) (by omega) O W hO rfl) $$ [HB HW]
  · isplitr; · iexact Hlv
    isplitl [HB]; · iexact HB
    iexact HW
  iintro ⟨HB, HW⟩
  -- wait 2
  sl_exec
  iapply (drainStepB (F := F) d (cV L) (jV L) cc1_scratch4.sem 1 tbl fI (16 * 19 + 2) (by omega) O W hO rfl) $$ [HB HW]
  · isplitr; · iexact Hlv
    isplitl [HB]; · iexact HB
    iexact HW
  iintro ⟨HB, HW⟩
  -- wait 3
  sl_exec
  iapply (drainStepB (F := F) d (cV L) (jV L) cc1_scratch4.sem 1 tbl fI (16 * 19 + 3) (by omega) O W hO rfl) $$ [HB HW]
  · isplitr; · iexact Hlv
    isplitl [HB]; · iexact HB
    iexact HW
  iintro ⟨HB, HW⟩
  -- wait 4
  sl_exec
  iapply (drainStepB (F := F) d (cV L) (jV L) cc1_scratch4.sem 1 tbl fI (16 * 19 + 4) (by omega) O W hO rfl) $$ [HB HW]
  · isplitr; · iexact Hlv
    isplitl [HB]; · iexact HB
    iexact HW
  iintro ⟨HB, HW⟩
  -- wait 5
  sl_exec
  iapply (drainStepB (F := F) d (cV L) (jV L) cc1_scratch4.sem 1 tbl fI (16 * 19 + 5) (by omega) O W hO rfl) $$ [HB HW]
  · isplitr; · iexact Hlv
    isplitl [HB]; · iexact HB
    iexact HW
  iintro ⟨HB, HW⟩
  -- wait 6
  sl_exec
  iapply (drainStepB (F := F) d (cV L) (jV L) cc1_scratch4.sem 1 tbl fI (16 * 19 + 6) (by omega) O W hO rfl) $$ [HB HW]
  · isplitr; · iexact Hlv
    isplitl [HB]; · iexact HB
    iexact HW
  iintro ⟨HB, HW⟩
  -- wait 7
  sl_exec
  iapply (drainStepB (F := F) d (cV L) (jV L) cc1_scratch4.sem 1 tbl fI (16 * 19 + 7) (by omega) O W hO rfl) $$ [HB HW]
  · isplitr; · iexact Hlv
    isplitl [HB]; · iexact HB
    iexact HW
  iintro ⟨HB, HW⟩
  -- wait 8
  sl_exec
  iapply (drainStepB (F := F) d (cV L) (jV L) cc1_scratch4.sem 1 tbl fI (16 * 19 + 8) (by omega) O W hO rfl) $$ [HB HW]
  · isplitr; · iexact Hlv
    isplitl [HB]; · iexact HB
    iexact HW
  iintro ⟨HB, HW⟩
  -- wait 9
  sl_exec
  iapply (drainStepB (F := F) d (cV L) (jV L) cc1_scratch4.sem 1 tbl fI (16 * 19 + 9) (by omega) O W hO rfl) $$ [HB HW]
  · isplitr; · iexact Hlv
    isplitl [HB]; · iexact HB
    iexact HW
  iintro ⟨HB, HW⟩
  -- wait 10
  sl_exec
  iapply (drainStepB (F := F) d (cV L) (jV L) cc1_scratch4.sem 1 tbl fI (16 * 19 + 10) (by omega) O W hO rfl) $$ [HB HW]
  · isplitr; · iexact Hlv
    isplitl [HB]; · iexact HB
    iexact HW
  iintro ⟨HB, HW⟩
  -- wait 11
  sl_exec
  iapply (drainStepB (F := F) d (cV L) (jV L) cc1_scratch4.sem 1 tbl fI (16 * 19 + 11) (by omega) O W hO rfl) $$ [HB HW]
  · isplitr; · iexact Hlv
    isplitl [HB]; · iexact HB
    iexact HW
  iintro ⟨HB, HW⟩
  -- wait 12
  sl_exec
  iapply (drainStepB (F := F) d (cV L) (jV L) cc1_scratch4.sem 1 tbl fI (16 * 19 + 12) (by omega) O W hO rfl) $$ [HB HW]
  · isplitr; · iexact Hlv
    isplitl [HB]; · iexact HB
    iexact HW
  iintro ⟨HB, HW⟩
  -- wait 13
  sl_exec
  iapply (drainStepB (F := F) d (cV L) (jV L) cc1_scratch4.sem 1 tbl fI (16 * 19 + 13) (by omega) O W hO rfl) $$ [HB HW]
  · isplitr; · iexact Hlv
    isplitl [HB]; · iexact HB
    iexact HW
  iintro ⟨HB, HW⟩
  -- wait 14
  sl_exec
  iapply (drainStepB (F := F) d (cV L) (jV L) cc1_scratch4.sem 1 tbl fI (16 * 19 + 14) (by omega) O W hO rfl) $$ [HB HW]
  · isplitr; · iexact Hlv
    isplitl [HB]; · iexact HB
    iexact HW
  iintro ⟨HB, HW⟩
  -- wait 15: the last of the 320
  sl_exec
  iapply (drainLastB (F := F) d (cV L) (jV L) cc1_scratch4.sem 1 tbl fI O W hO rfl) $$ [HB HW]
  · isplitr; · iexact Hlv
    isplitl [HB]; · iexact HB
    iexact HW
  iintro ⟨HD, Hv, HW⟩
  sl_exec
  sl_step
  isplitr; · iexact Hlv
  isplitl [HD Hv]
  · isplitl [HD]; · iexact HD
    iexact Hv
  iexact HW

end Cert.Proof.KW.K1

end
-- ==== Proof.BwK1BJoin.lean ====
/-
  The 320 pieces of a slot are the slot: every copy's delivery together is the whole slot at the final contents.
-/
import proofs.«215896_g38397007626377_fold_wed_m_942_26_alg».proof.Proof.BwK1BDrain

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

section JoinB

variable (d : Dev nD) (cc : Fin τ.nSC) (jj : Fin τ.nSub)

theorem pieceB_disjoint (b : ℕ) {t t' : ℕ} (h : t ≠ t') : Disjoint (pieceB b t) (pieceB b t') := by
  rw [Finset.disjoint_left]
  intro y h1 h2
  rw [mem_pieceB] at h1 h2
  omega

/-- Slot b is the union of its 320 pieces. -/
theorem slotB_cover (b : ℕ) : (Finset.univ : Finset (Fin 320)).biUnion (fun t => pieceB b t.val) = remB b 0 := by
  ext y
  rw [Finset.mem_biUnion, mem_remB]
  constructor
  · rintro ⟨t, -, ht⟩
    rw [mem_pieceB] at ht
    exact ⟨ht.1, Nat.zero_le _⟩
  · rintro ⟨hb, -⟩
    have h1 : (y 1).val < 16 := (y 1).isLt
    have h2 : (y 2).val < 1280 := (y 2).isLt
    exact ⟨⟨20 * (y 1).val + (y 2).val / 64, by omega⟩, Finset.mem_univ _, by rw [mem_pieceB]; exact ⟨hb, rfl⟩⟩

/-- Every delivery of a chunk together: the slot at the final contents. -/
theorem joinB (b : ℕ) (tbl : Buf (Elt F) (a4Loc d)) (fI : Buf (Elt F) (idxLocV d cc jj)) :
    (bigSep Finset.univ (DB d cc jj b tbl fI) : sProp 𝕄) = (rowsBLocV d cc jj ↦[remB b 0]{fullShare} FB d cc jj tbl fI) := by
  rw [← slotB_cover b]
  exact (pointsTo_biUnion (ℓ := rowsBLocV d cc jj) (q := fullShare) (f := FB d cc jj tbl fI) Finset.univ
    (fun t : Fin 320 => pieceB b t.val) (fun t _ t' _ h => pieceB_disjoint b (fun e => h (Fin.ext e)))).symm

end JoinB

end Cert.Proof.KW.K1

end
-- ==== Proof.BwK1BLoops.lean ====
/-
  The noise-word phase's loops whole: each fire loop issues a chunk's 320 copies, each drain loop waits for them all
  and gets every piece back.
-/
import proofs.«215896_g38397007626377_fold_wed_m_942_26_alg».proof.Proof.BwK1BTripT4
import proofs.«215896_g38397007626377_fold_wed_m_942_26_alg».proof.Proof.BwK1BTripT6
import proofs.«215896_g38397007626377_fold_wed_m_942_26_alg».proof.Proof.BwK1BTripT9
import proofs.«215896_g38397007626377_fold_wed_m_942_26_alg».proof.Proof.BwK1BTripT11
import proofs.«215896_g38397007626377_fold_wed_m_942_26_alg».proof.Proof.BwK1BDrainT8
import proofs.«215896_g38397007626377_fold_wed_m_942_26_alg».proof.Proof.BwK1BDrainT10
import proofs.«215896_g38397007626377_fold_wed_m_942_26_alg».proof.Proof.BwK1BDrainT12
import proofs.«215896_g38397007626377_fold_wed_m_942_26_alg».proof.Proof.BwK1BDrainT13
import proofs.«215896_g38397007626377_fold_wed_m_942_26_alg».proof.Proof.BwK1BJoin

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (d : Dev nD) (L : grid1.Coords)

/-- The fire loop k1_t4 whole: from nothing issued to all 320 issued. -/
theorem fire_loop_t4 (tbl : Buf (Elt F) (a4Loc d)) (fI : Buf (Elt F) (idxLocV d (cV L) (jV L)))
    (f0 : Buf (Elt F) (rowsBLocV d (cV L) (jV L))) (hI : ∀ x, (fI x).toNat < 1000000) (v2 : BitVec 32) :
    fireInvB d L 0 cc1_scratch3.sem tbl fI f0 0 ()
      ⊢ wp frame (wpE (defs₀ (F := F)) 𝒱₀ (thr d L) none) Set.univ
          (Scf.Loop.for k1_t4_loop k1_t4_ok ⟨⟩ (k1_t4_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2))
          (fun _ => fireInvB d L 0 cc1_scratch3.sem tbl fI f0 20 ()) := by
  iintro HI
  iapply (Scf.wp_for frame (wpE (defs₀ (F := F)) 𝒱₀ (thr d L) none) Set.univ _ _ _ k1_t4_ok ⟨⟩ _
    (fireInvB d L 0 cc1_scratch3.sem tbl fI f0) (fun k acc => fire_trip_t4 d L tbl fI f0 hI v2 k acc))
  isplitl [HI]
  · iexact HI
  · iintro %acc H
    iexact H

/-- The fire loop k1_t6 whole: from nothing issued to all 320 issued. -/
theorem fire_loop_t6 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32) :
    fireInvB d L 1 cc1_scratch4.sem tbl fI f0 0 ()
      ⊢ wp frame (wpE (defs₀ (F := F)) 𝒱₀ (thr d L) none) Set.univ
          (Scf.Loop.for k1_t6_loop k1_t6_ok ⟨⟩ (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4))
          (fun _ => fireInvB d L 1 cc1_scratch4.sem tbl fI f0 20 ()) := by
  iintro HI
  iapply (Scf.wp_for frame (wpE (defs₀ (F := F)) 𝒱₀ (thr d L) none) Set.univ _ _ _ k1_t6_ok ⟨⟩ _
    (fireInvB d L 1 cc1_scratch4.sem tbl fI f0) (fun k acc => fire_trip_t6 d L tbl fI f0 hI v3 v4 k acc))
  isplitl [HI]
  · iexact HI
  · iintro %acc H
    iexact H

/-- The fire loop k1_t9 whole: from nothing issued to all 320 issued. -/
theorem fire_loop_t9 (tbl : Buf (Elt F) (a4Loc d)) (fI : Buf (Elt F) (idxLocV d (cV L) (jV L)))
    (f0 : Buf (Elt F) (rowsBLocV d (cV L) (jV L))) (hI : ∀ x, (fI x).toNat < 1000000) (v3 v4 : BitVec 32) (k7 : Fin k1_t7_loop.trips) (arg12 c0_i32_73 : BitVec 32) :
    fireInvB d L 0 cc1_scratch3.sem tbl fI f0 0 ()
      ⊢ wp frame (wpE (defs₀ (F := F)) 𝒱₀ (thr d L) none) Set.univ
          (Scf.Loop.for k1_t9_loop k1_t9_ok ⟨⟩ (k1_t9_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73))
          (fun _ => fireInvB d L 0 cc1_scratch3.sem tbl fI f0 20 ()) := by
  iintro HI
  iapply (Scf.wp_for frame (wpE (defs₀ (F := F)) 𝒱₀ (thr d L) none) Set.univ _ _ _ k1_t9_ok ⟨⟩ _
    (fireInvB d L 0 cc1_scratch3.sem tbl fI f0) (fun k acc => fire_trip_t9 d L tbl fI f0 hI v3 v4 k7 arg12 c0_i32_73 k acc))
  isplitl [HI]
  · iexact HI
  · iintro %acc H
    iexact H

/-- The fire loop k1_t11 whole: from nothing issued to all 320 issued. -/
theorem fire_loop_t11 (tbl : Buf (Elt F) (a4Loc d)) (fI : Buf (Elt F) (idxLocV d (cV L) (jV L)))
    (f0 : Buf (Elt F) (rowsBLocV d (cV L) (jV L))) (hI : ∀ x, (fI x).toNat < 1000000) (v3 v4 c0_i32_90 : BitVec 32) :
    fireInvB d L 1 cc1_scratch4.sem tbl fI f0 0 ()
      ⊢ wp frame (wpE (defs₀ (F := F)) 𝒱₀ (thr d L) none) Set.univ
          (Scf.Loop.for k1_t11_loop k1_t11_ok ⟨⟩ (k1_t11_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_90))
          (fun _ => fireInvB d L 1 cc1_scratch4.sem tbl fI f0 20 ()) := by
  iintro HI
  iapply (Scf.wp_for frame (wpE (defs₀ (F := F)) 𝒱₀ (thr d L) none) Set.univ _ _ _ k1_t11_ok ⟨⟩ _
    (fireInvB d L 1 cc1_scratch4.sem tbl fI f0) (fun k acc => fire_trip_t11 d L tbl fI f0 hI v3 v4 c0_i32_90 k acc))
  isplitl [HI]
  · iexact HI
  · iintro %acc H
    iexact H

/-- One trip of the drain loop k1_t8, whichever it is. -/
theorem drain_trip_t8 (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips)
    (k : Fin k1_t8_loop.trips) (acc : Unit) :
    drainInvB d L 0 cc1_scratch3.sem tbl fI O W k.val acc
      ⊢ wp frame (wpE (defs₀ (F := F)) 𝒱₀ (thr d L) none) Set.univ
          (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7 k acc)
          (drainInvB d L 0 cc1_scratch3.sem tbl fI O W (k.val + 1)) := by
  have hk : k.val < 20 := k.isLt
  by_cases hmid : k.val + 1 < 20
  · unfold drainInvB
    rw [if_pos hk, if_pos hmid]
    exact drain_trip_t8_mid d L tbl fI O W hO v3 v4 c0_i32_45 c1_i32_46 k7 k k.val rfl hmid acc
  · have hlast : k.val = 19 := by omega
    unfold drainInvB
    rw [if_pos hk, if_neg hmid, hlast]
    exact drain_trip_t8_last d L tbl fI O W hO v3 v4 c0_i32_45 c1_i32_46 k7 k hlast acc

/-- The drain loop k1_t8 whole: from everything issued and nothing consumed to every delivery back. -/
theorem drain_loop_t8 (tbl : Buf (Elt F) (a4Loc d)) (fI : Buf (Elt F) (idxLocV d (cV L) (jV L)))
    (O : CellTallies nD τ sig (HIx 2)) (W : Waits sig (HIx 2)) (hO : ∀ g, O g none = 0) (v3 v4 c0_i32_45 c1_i32_46 : BitVec 32) (k7 : Fin k1_t7_loop.trips) :
    drainInvB d L 0 cc1_scratch3.sem tbl fI O W 0 ()
      ⊢ wp frame (wpE (defs₀ (F := F)) 𝒱₀ (thr d L) none) Set.univ
          (Scf.Loop.for k1_t8_loop k1_t8_ok ⟨⟩ (k1_t8_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 c0_i32_45 c1_i32_46 k7))
          (fun _ => drainInvB d L 0 cc1_scratch3.sem tbl fI O W 20 ()) := by
  iintro HI
  iapply (Scf.wp_for frame (wpE (defs₀ (F := F)) 𝒱₀ (thr d L) none) Set.univ _ _ _ k1_t8_ok ⟨⟩ _
    (drainInvB d L 0 cc1_scratch3.sem tbl fI O W) (fun k acc => drain_trip_t8 d L tbl fI O W hO v3 v4 c0_i32_45 c1_i32_46 k7 k acc))
  isplitl [HI]
  · iexact HI
  · iintro %acc H
    iexact H

/-- One trip of the drain loop k1_t10, whichever it is. -/
theorem drain_trip_t10 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32)
    (k : Fin k1_t10_loop.trips) (acc : Unit) :
    drainInvB d L 1 cc1_scratch4.sem tbl fI O W k.val acc
      ⊢ wp frame (wpE (defs₀ (F := F)) 𝒱₀ (thr d L) none) Set.univ
          (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73 k acc)
          (drainInvB d L 1 cc1_scratch4.sem tbl fI O W (k.val + 1)) := by
  have hk : k.val < 20 := k.isLt
  by_cases hmid : k.val + 1 < 20
  · unfold drainInvB
    rw [if_pos hk, if_pos hmid]
    exact drain_trip_t10_mid d L tbl fI O W hO v3 v4 k7 arg12 c0_i32_73 k k.val rfl hmid acc
  · have hlast : k.val = 19 := by omega
    unfold drainInvB
    rw [if_pos hk, if_neg hmid, hlast]
    exact drain_trip_t10_last d L tbl fI O W hO v3 v4 k7 arg12 c0_i32_73 k hlast acc

/-- The drain loop k1_t10 whole: from everything issued and nothing consumed to every delivery back. -/
theorem drain_loop_t10 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) (k7 : Fin k1_t7_loop.trips) (arg12 c0_i32_73 : BitVec 32) :
    drainInvB d L 1 cc1_scratch4.sem tbl fI O W 0 ()
      ⊢ wp frame (wpE (defs₀ (F := F)) 𝒱₀ (thr d L) none) Set.univ
          (Scf.Loop.for k1_t10_loop k1_t10_ok ⟨⟩ (k1_t10_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 arg12 c0_i32_73))
          (fun _ => drainInvB d L 1 cc1_scratch4.sem tbl fI O W 20 ()) := by
  iintro HI
  iapply (Scf.wp_for frame (wpE (defs₀ (F := F)) 𝒱₀ (thr d L) none) Set.univ _ _ _ k1_t10_ok ⟨⟩ _
    (drainInvB d L 1 cc1_scratch4.sem tbl fI O W) (fun k acc => drain_trip_t10 d L tbl fI O W hO v3 v4 k7 arg12 c0_i32_73 k acc))
  isplitl [HI]
  · iexact HI
  · iintro %acc H
    iexact H

/-- One trip of the drain loop k1_t12, whichever it is. -/
theorem drain_trip_t12 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32)
    (k : Fin k1_t12_loop.trips) (acc : Unit) :
    drainInvB d L 0 cc1_scratch3.sem tbl fI O W k.val acc
      ⊢ wp frame (wpE (defs₀ (F := F)) 𝒱₀ (thr d L) none) Set.univ
          (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k acc)
          (drainInvB d L 0 cc1_scratch3.sem tbl fI O W (k.val + 1)) := by
  have hk : k.val < 20 := k.isLt
  by_cases hmid : k.val + 1 < 20
  · unfold drainInvB
    rw [if_pos hk, if_pos hmid]
    exact drain_trip_t12_mid d L tbl fI O W hO v3 v4 k k.val rfl hmid acc
  · have hlast : k.val = 19 := by omega
    unfold drainInvB
    rw [if_pos hk, if_neg hmid, hlast]
    exact drain_trip_t12_last d L tbl fI O W hO v3 v4 k hlast acc

/-- The drain loop k1_t12 whole: from everything issued and nothing consumed to every delivery back. -/
theorem drain_loop_t12 (tbl : Buf (Elt F) (a4Loc d)) (fI : Buf (Elt F) (idxLocV d (cV L) (jV L)))
    (O : CellTallies nD τ sig (HIx 2)) (W : Waits sig (HIx 2)) (hO : ∀ g, O g none = 0) (v3 v4 : BitVec 32) :
    drainInvB d L 0 cc1_scratch3.sem tbl fI O W 0 ()
      ⊢ wp frame (wpE (defs₀ (F := F)) 𝒱₀ (thr d L) none) Set.univ
          (Scf.Loop.for k1_t12_loop k1_t12_ok ⟨⟩ (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4))
          (fun _ => drainInvB d L 0 cc1_scratch3.sem tbl fI O W 20 ()) := by
  iintro HI
  iapply (Scf.wp_for frame (wpE (defs₀ (F := F)) 𝒱₀ (thr d L) none) Set.univ _ _ _ k1_t12_ok ⟨⟩ _
    (drainInvB d L 0 cc1_scratch3.sem tbl fI O W) (fun k acc => drain_trip_t12 d L tbl fI O W hO v3 v4 k acc))
  isplitl [HI]
  · iexact HI
  · iintro %acc H
    iexact H

/-- One trip of the drain loop k1_t13, whichever it is. -/
theorem drain_trip_t13 (tbl : Buf (Elt F) (a4Loc d)) (fI : Buf (Elt F) (idxLocV d (cV L) (jV L)))
    (O : CellTallies nD τ sig (HIx 2)) (W : Waits sig (HIx 2)) (hO : ∀ g, O g none = 0)
    (k : Fin k1_t13_loop.trips) (acc : Unit) :
    drainInvB d L 1 cc1_scratch4.sem tbl fI O W k.val acc
      ⊢ wp frame (wpE (defs₀ (F := F)) 𝒱₀ (thr d L) none) Set.univ
          (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11  k acc)
          (drainInvB d L 1 cc1_scratch4.sem tbl fI O W (k.val + 1)) := by
  have hk : k.val < 20 := k.isLt
  by_cases hmid : k.val + 1 < 20
  · unfold drainInvB
    rw [if_pos hk, if_pos hmid]
    exact drain_trip_t13_mid d L tbl fI O W hO  k k.val rfl hmid acc
  · have hlast : k.val = 19 := by omega
    unfold drainInvB
    rw [if_pos hk, if_neg hmid, hlast]
    exact drain_trip_t13_last d L tbl fI O W hO  k hlast acc

/-- The drain loop k1_t13 whole: from everything issued and nothing consumed to every delivery back. -/
theorem drain_loop_t13 (tbl : Buf (Elt F) (a4Loc d)) (fI : Buf (Elt F) (idxLocV d (cV L) (jV L)))
    (O : CellTallies nD τ sig (HIx 2)) (W : Waits sig (HIx 2)) (hO : ∀ g, O g none = 0)  :
    drainInvB d L 1 cc1_scratch4.sem tbl fI O W 0 ()
      ⊢ wp frame (wpE (defs₀ (F := F)) 𝒱₀ (thr d L) none) Set.univ
          (Scf.Loop.for k1_t13_loop k1_t13_ok ⟨⟩ (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 ))
          (fun _ => drainInvB d L 1 cc1_scratch4.sem tbl fI O W 20 ()) := by
  iintro HI
  iapply (Scf.wp_for frame (wpE (defs₀ (F := F)) 𝒱₀ (thr d L) none) Set.univ _ _ _ k1_t13_ok ⟨⟩ _
    (drainInvB d L 1 cc1_scratch4.sem tbl fI O W) (fun k acc => drain_trip_t13 d L tbl fI O W hO  k acc))
  isplitl [HI]
  · iexact HI
  · iintro %acc H
    iexact H

end Cert.Proof.KW.K1

end
-- ==== Proof.BwK1BStore.lean ====
/-
  The noise-word phase's synchronous copies read back: the fetch of a chunk's 320 index words into the index scratch,
  and the store of a slot's 16 rows into the output.

  A chunk's words: word i of chunk j of worker w is noise word 10240 w + 320 j + i. The slot at the final contents of
  those words, stored at output rows 512 w + 16 j .., is the lookup's value there: entry (R + r, x) of the output is
  table[noise word 20 (R + r) + x / 64, x mod 64], and 20 R is the chunk's first word.
-/
import proofs.«215896_g38397007626377_fold_wed_m_942_26_alg».proof.Proof.BwK1BJoin

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable (m : (ℓ : Loc nD τ sig) → Buf (Elt F) ℓ)

section StoreB

variable (d : Dev nD) (cc : Fin τ.nSC) (jj : Fin τ.nSub)

/-- Slot b of the rows scratch as the 16 x 1280 memref a store reads. -/
abbrev slotM (b : ℕ) (hin : ∀ a, (![b, 0, 0] : Fin 3 → ℕ) a + S1x16x1280.size a ≤ S2x16x1280.size a) : Memref sig .scVector .vmem S16x1280 .f32 :=
  ((rBW).slice (Rect.unit (s := S2x16x1280) ![b, 0, 0] S1x16x1280.size hin) (fun _ => rfl)).squeeze S16x1280 squeezes_S1x16x1280_S16x1280
/-- Sixteen rows of the output from row off 0. -/
abbrev o3Chunk (off : Fin 2 → ℕ) (hin : ∀ a, off a + S16x1280.size a ≤ S16384x1280.size a) : Memref sig .scVector .hbm S16x1280 .f32 :=
  (o3W).slice (Rect.unit (s := S16384x1280) off S16x1280.size hin) (fun _ => rfl)
/-- 320 of the noise words from word off 0. -/
abbrev a2Slice (off : Fin 1 → ℕ) (hin : ∀ a, off a + S320.size a ≤ S327680.size a) : Memref sig .scVector .hbm S320 .i32 :=
  (a2W).slice (Rect.unit (s := S327680) off S320.size hin) (fun _ => rfl)

/-- The 320 noise words from word o, as the index scratch holds them. -/
def wordsAt (nz : Buf (Elt F) (a2Loc d)) (o : ℕ) (h : o + 320 ≤ 327680) : Buf (Elt F) (idxLocV d cc jj) :=
  fun x => nz (ix1 (⟨o + (x 0).val, by have hx : (x 0).val < 320 := (x 0).isLt; omega⟩ : Fin 327680))

theorem wordsAt_lt (nz : Buf (Elt F) (a2Loc d)) (o : ℕ) (h : o + 320 ≤ 327680) (hnz : ∀ i, (nz i).toNat < 1000000) :
    ∀ x, (wordsAt d cc jj nz o h x).toNat < 1000000 := fun x => hnz _

/-- The slot memref's elements are the slot. -/
theorem slotM_set (b : ℕ) (hin) : (slotM b hin).view.set = remB b 0 := by
  rw [show (slotM b hin).view.set = (Rect.unit (s := S2x16x1280) ![b, 0, 0] S1x16x1280.size hin).set from
    (View.set_reshape _ _).trans (View.set_slice_whole _ _)]
  ext y
  have h1 : (y 1).val < 16 := (y 1).isLt
  have h2 : (y 2).val < 1280 := (y 2).isLt
  rw [Rect.mem_set_unit, mem_remB]
  constructor
  · intro H
    have a0 : b ≤ (y 0).val ∧ (y 0).val < b + 1 := H 0
    exact ⟨by omega, Nat.zero_le _⟩
  · rintro ⟨hb, -⟩ a
    fin_cases a
    · show b ≤ (y 0).val ∧ (y 0).val < b + 1; omega
    · show 0 ≤ (y 1).val ∧ (y 1).val < 0 + 16; omega
    · show 0 ≤ (y 2).val ∧ (y 2).val < 0 + 1280; omega

/-- What the fetch leaves in the index scratch: the chunk's words. -/
theorem fetch_val (nz : Buf (Elt F) (a2Loc d)) (fIo : Buf (Elt F) (idxLocV d cc jj)) (off : Fin 1 → ℕ) (hin)
    (o : ℕ) (h : o + 320 ≤ 327680) (hoff : off = ![o]) :
    View.write (Elt F) (idW).view fIo ((ReadAs.same : ReadAs (Elt F) S320 .i32 S320 .i32).apply (View.read (Elt F) (a2Slice off hin).view nz)) Finset.univ
      = wordsAt d cc jj nz o h := by
  subst hoff
  refine (View.write_whole_univ cc1_scratch0 fIo _).trans ?_
  funext x
  rw [ReadAs.apply_same, View.read_apply]
  unfold wordsAt
  simp only [cast_eq]
  refine congrArg nz (funext fun a => Fin.ext ?_)
  match a with
  | ⟨0, _⟩ =>
    show (((Rect.unit (s := S327680) ![o] S320.size hin).emb x) 0).val = o + (x 0).val
    rw [Rect.emb_apply]
    show o + 1 * (x 0).val = _
    omega

/-- Entry x of the slot memref is entry (b, x 0, x 1) of the scratch. -/
theorem slotM_emb (b : ℕ) (hin) (x : S16x1280.Idx) :
    (((slotM b hin).view.emb x) 1).val = (x 0).val ∧ (((slotM b hin).view.emb x) 2).val = (x 1).val := by
  have key : ∀ y : S1x16x1280.Idx, (S1x16x1280.rowMajor y).val = (S16x1280.rowMajor x).val →
      (y 1).val = (x 0).val ∧ (y 2).val = (x 1).val := by
    intro y h
    rw [Shape.rowMajor_val_three, Shape.rowMajor_val_two] at h
    have h0 : (y 0).val < 1 := (y 0).isLt
    have h1 : (y 1).val < 16 := (y 1).isLt
    have h2 : (y 2).val < 1280 := (y 2).isLt
    have hx0 : (x 0).val < 16 := (x 0).isLt
    have hx1 : (x 1).val < 1280 := (x 1).isLt
    have hh : ((y 0).val * 16 + (y 1).val) * 1280 + (y 2).val = (x 0).val * 1280 + (x 1).val := h
    omega
  obtain ⟨k1, k2⟩ := key _ (Shape.rowMajor_reshapeEquiv (squeezes_S1x16x1280_S16x1280.numel_eq) x)
  constructor
  · show (((Rect.unit (s := S2x16x1280) ![b, 0, 0] S1x16x1280.size hin).emb (Shape.reshapeEquiv (squeezes_S1x16x1280_S16x1280.numel_eq) x)) 1).val = _
    rw [Rect.emb_apply]; show 0 + 1 * _ = _; rw [k1]; omega
  · show (((Rect.unit (s := S2x16x1280) ![b, 0, 0] S1x16x1280.size hin).emb (Shape.reshapeEquiv (squeezes_S1x16x1280_S16x1280.numel_eq) x)) 2).val = _
    rw [Rect.emb_apply]; show 0 + 1 * _ = _; rw [k2]; omega

/-- Entry x of sixteen output rows from row R is entry (R + x 0, x 1) of the output. -/
theorem o3Chunk_emb (off : Fin 2 → ℕ) (hin) (R : ℕ) (hoff : off = ![R, 0]) (x : S16x1280.Idx) :
    (((o3Chunk off hin).view.emb x) 0).val = R + (x 0).val ∧ (((o3Chunk off hin).view.emb x) 1).val = (x 1).val := by
  subst hoff
  constructor
  · show (((Rect.unit (s := S16384x1280) ![R, 0] S16x1280.size hin).emb x) 0).val = _
    rw [Rect.emb_apply]; show R + 1 * _ = _; omega
  · show (((Rect.unit (s := S16384x1280) ![R, 0] S16x1280.size hin).emb x) 1).val = _
    rw [Rect.emb_apply]; show 0 + 1 * _ = _; omega

/-- What the store leaves in the sixteen output rows: the lookup's values there. -/
theorem store_val (b : ℕ) (hb) (off : Fin 2 → ℕ) (hin) (R o : ℕ) (ho : o + 320 ≤ 327680) (hoff : off = ![R, 0]) (hRo : 20 * R = o)
    (f3 : Buf (Elt F) (o3Loc d)) :
    ∀ i ∈ (o3Chunk off hin).view.set,
      (o3Chunk off hin).view.writes (Elt F) f3 [⟨Rect.whole S16x1280,
        (ReadAs.same : ReadAs (Elt F) S16x1280 .f32 S16x1280 .f32).apply (View.read (Elt F) (slotM b hb).view
          (FB d cc jj (m (a4Loc d)) (wordsAt d cc jj (m (a2Loc d)) o ho)))⟩] i = G3 m d i := by
  intro i hi
  obtain ⟨x, -, rfl⟩ := Finset.mem_map.mp hi
  obtain ⟨s1, s2⟩ := slotM_emb b hb x
  obtain ⟨c0, c1⟩ := o3Chunk_emb off hin R hoff x
  have hx0 : (x 0).val < 16 := (x 0).isLt
  have hx1 : (x 1).val < 1280 := (x 1).isLt
  rw [View.writes_singleton]
  have he : ((o3Chunk off hin).view.slice (Rect.whole S16x1280)).emb x = (o3Chunk off hin).view.emb x :=
    congrArg (o3Chunk off hin).view.emb (Rect.emb_whole_apply S16x1280 x)
  have e1 := fun p => View.write_emb_of_mem (Val := Elt F) (v := (o3Chunk off hin).view.slice (Rect.whole S16x1280)) f3 p (M := Finset.univ) (Finset.mem_univ x)
  rw [he] at e1
  rw [e1, ReadAs.apply_same, View.read_apply]
  simp only [cast_eq]
  unfold FB G3 packB Spec.take3 wordsAt
  refine congrArg (m (a4Loc d)) (funext fun a => Fin.ext ?_)
  match a with
  | ⟨0, _⟩ =>
    refine congrArg (fun q : Fin 327680 => (Spec.rowOf (m (a2Loc d) (ix1 q))).val) (Fin.ext ?_)
    show o + (20 * (((slotM b hb).view.emb x) 1).val + (((slotM b hb).view.emb x) 2).val / 64)
      = 20 * (((o3Chunk off hin).view.emb x) 0).val + (((o3Chunk off hin).view.emb x) 1).val / 64
    rw [s1, s2, c0, c1]; omega
  | ⟨1, _⟩ =>
    show (((slotM b hb).view.emb x) 2).val % 64 = (((o3Chunk off hin).view.emb x) 1).val % 64
    rw [s2, c1]

end StoreB

end Cert.Proof.KW.K1

end
-- ==== Proof.BwK1BChunks.lean ====
/-
  The worker's 512 rows of the [16384, 1280] output, cut into its 32 chunks of sixteen rows.

  Worker w (subcore s of SparseCore c, w = 2 s + c) owns rows 512 w .. 512 w + 511; chunk j of the worker is rows
  512 w + 16 j .. + 15, and its 320 index words are noise words 10240 w + 320 j .. + 319 (twenty per row).
-/
import proofs.«215896_g38397007626377_fold_wed_m_942_26_alg».proof.Proof.BwK1BStore

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

section Chunks

variable (d : Dev nD) (L : grid1.Coords)

abbrev cL (L : grid1.Coords) : Fin 2 := Fin.cast (by rfl) (L 0)
abbrev sL (L : grid1.Coords) : Fin 16 := Fin.cast (by rfl) (L 1)

/-- The worker's first row, and its first noise word. -/
def W0 (L : grid1.Coords) : ℕ := 1024 * (L 1).val + 512 * (L 0).val
def B0 (L : grid1.Coords) : ℕ := 20480 * (L 1).val + 10240 * (L 0).val

theorem L_lt (L : grid1.Coords) : (L 0).val < 2 ∧ (L 1).val < 16 := ⟨(L 0).isLt, (L 1).isLt⟩

theorem B0_eq (L : grid1.Coords) (j : ℕ) : 20 * (W0 L + 16 * j) = B0 L + 320 * j := by unfold W0 B0; omega
theorem B0_le (L : grid1.Coords) (j : ℕ) (hj : j < 32) : B0 L + 320 * j + 320 ≤ 327680 := by
  obtain ⟨h0, h1⟩ := L_lt L; unfold B0; omega
theorem W0_le (L : grid1.Coords) (j : ℕ) (hj : j < 32) : W0 L + 16 * j + 16 ≤ 16384 := by
  obtain ⟨h0, h1⟩ := L_lt L; unfold W0; omega

/-- The rows lo .. hi - 1 of the output. -/
def rowsFrom (lo hi : ℕ) : Finset S16384x1280.Idx := Finset.univ.filter fun y => lo ≤ (y 0).val ∧ (y 0).val < hi

theorem mem_rowsFrom (lo hi : ℕ) (y : S16384x1280.Idx) : y ∈ rowsFrom lo hi ↔ (lo ≤ (y 0).val ∧ (y 0).val < hi) := by
  unfold rowsFrom; rw [Finset.mem_filter]; simp only [Finset.mem_univ, true_and]

theorem rowsFrom_sub (lo mid hi : ℕ) (h : mid ≤ hi) : rowsFrom lo mid ⊆ rowsFrom lo hi := by
  intro y; rw [mem_rowsFrom, mem_rowsFrom]; omega
theorem rowsFrom_sdiff (lo mid hi : ℕ) (h : lo ≤ mid) : rowsFrom lo hi \ rowsFrom lo mid = rowsFrom mid hi := by
  ext y; rw [Finset.mem_sdiff, mem_rowsFrom, mem_rowsFrom, mem_rowsFrom]; omega
theorem rowsFrom_union (lo mid hi : ℕ) (h1 : lo ≤ mid) (h2 : mid ≤ hi) : rowsFrom lo mid ∪ rowsFrom mid hi = rowsFrom lo hi := by
  ext y; rw [Finset.mem_union, mem_rowsFrom, mem_rowsFrom, mem_rowsFrom]; omega
theorem rowsFrom_disjoint (lo mid hi : ℕ) : Disjoint (rowsFrom lo mid) (rowsFrom mid hi) := by
  rw [Finset.disjoint_left]; intro y h1 h2; rw [mem_rowsFrom] at h1 h2; omega
theorem rowsFrom_empty (lo : ℕ) : rowsFrom lo lo = ∅ := by
  ext y; rw [mem_rowsFrom]; simp only [Finset.notMem_empty, iff_false]; omega

/-- Sixteen rows from row R, as a store names them. -/
theorem o3Chunk_set (off : Fin 2 → ℕ) (hin) (R : ℕ) (hoff : off = ![R, 0]) : (o3Chunk off hin).view.set = rowsFrom R (R + 16) := by
  subst hoff
  rw [show (o3Chunk ![R, 0] hin).view.set = (Rect.unit (s := S16384x1280) ![R, 0] S16x1280.size hin).set from View.set_slice_whole _ _]
  ext y
  have h1 : (y 1).val < 1280 := (y 1).isLt
  rw [Rect.mem_set_unit, mem_rowsFrom]
  constructor
  · intro H
    have a0 : R ≤ (y 0).val ∧ (y 0).val < R + 16 := H 0
    exact a0
  · intro H a
    fin_cases a
    · show R ≤ (y 0).val ∧ (y 0).val < R + 16; exact H
    · show 0 ≤ (y 1).val ∧ (y 1).val < 0 + 1280; omega

/-- The worker's block is its 512 rows. -/
theorem blkB_eq (L : grid1.Coords) : blkB (wid (cL L) (sL L)) = rowsFrom (W0 L) (W0 L + 512) := by
  ext y
  have h1 : (y 1).val < 1280 := (y 1).isLt
  have e : Rect.part (s := S16384x1280) (a₀ := 0) hdivB (wid (cL L) (sL L))
      = Rect.unit (s := S16384x1280) ![W0 L, 0] ![512, 1280] (by
          obtain ⟨h0, h1⟩ := L_lt L
          intro a; fin_cases a
          · show W0 L + 512 ≤ 16384; unfold W0; omega
          · show 0 + 1280 ≤ 1280; omega) := by
    unfold Rect.part Rect.block
    congr 1 <;> funext a
    · match a with
      | 0 =>
        show (2 * (L 1).val + (L 0).val) * (16384 / 32) = W0 L
        unfold W0; omega
      | 1 => simp [Shape.partIx, Shape.partSize]
    · match a with
      | 0 => simp [Shape.partSize]
      | 1 => simp [Shape.partSize]
  show y ∈ (Rect.part (s := S16384x1280) (a₀ := 0) hdivB (wid (cL L) (sL L))).set ↔ _
  rw [e, Rect.mem_set_unit, mem_rowsFrom]
  constructor
  · intro H
    have a0 : W0 L ≤ (y 0).val ∧ (y 0).val < W0 L + 512 := H 0
    exact a0
  · intro H a
    fin_cases a
    · show W0 L ≤ (y 0).val ∧ (y 0).val < W0 L + 512; exact H
    · show 0 ≤ (y 1).val ∧ (y 1).val < 0 + 1280; omega

end Chunks

end Cert.Proof.KW.K1

end
-- ==== Proof.BwK1BPair.lean ====
/-
  The pair loop of the noise-word phase: one trip finishes chunks 2 t (slot 0) and 2 t + 1 (slot 1) and starts chunks
  2 t + 2 and 2 t + 3.
-/
import proofs.«215896_g38397007626377_fold_wed_m_942_26_alg».proof.Proof.BwK1BLoops
import proofs.«215896_g38397007626377_fold_wed_m_942_26_alg».proof.Proof.BwK1BChunks

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (m : (ℓ : Loc nD τ sig) → Buf (Elt F) ℓ)
variable (d : Dev nD) (L : grid1.Coords)

/-- Chunk j's 320 index words (zero past the worker's 32 chunks). -/
def chunkW (j : ℕ) : Buf (Elt F) (idxLocV d (cV L) (jV L)) :=
  if h : j < 32 then wordsAt d (cV L) (jV L) (m (a2Loc d)) (B0 L + 320 * j) (B0_le L j h) else fun _ => 0#32

omit [FloatOps F] in
theorem chunkW_eq (j : ℕ) (h : j < 32) : chunkW m d L j = wordsAt d (cV L) (jV L) (m (a2Loc d)) (B0 L + 320 * j) (B0_le L j h) := dif_pos h

omit [FloatOps F] in
theorem chunkW_lt (hnz : ∀ i, (m (a2Loc d) i).toNat < 1000000) (j : ℕ) : ∀ x, (chunkW m d L j x).toNat < 1000000 := by
  unfold chunkW
  split
  · exact wordsAt_lt d (cV L) (jV L) _ _ _ hnz
  · intro x; show (0#32 : BitVec 32).toNat < 1000000; decide

/-- Before trip t of the pair loop: chunks 2 t and 2 t + 1 all issued, none waited for; the rows of the chunks before
    them at the lookup's values, the rest as at the launch. -/
def pairInv (O : CellTallies nD τ sig (HIx 2)) (W : Waits sig (HIx 2)) (q2 : PosShare TreeShare) (t : ℕ) (_ : Unit) : sProp 𝕄 :=
  iprop(levAts (K (F := F)).L (K (F := F)).lev ∗ owesN (F := F) (thr d L) O W
    ∗ batchAtB d L 0 cc1_scratch3.sem (m (a4Loc d)) (chunkW m d L (2 * t)) 0
    ∗ batchAtB d L 1 cc1_scratch4.sem (m (a4Loc d)) (chunkW m d L (2 * t + 1)) 0
    ∗ (∃ f, (idW).view.loc (thr d L) ↦{fullShare} f)
    ∗ (∃ q : PosShare TreeShare, a4Loc d ↦{q} m (a4Loc d))
    ∗ ((a2W).view.loc (thr d L) ↦{q2} m (a2Loc d))
    ∗ (o3Loc d ↦[rowsFrom (W0 L) (W0 L + 16 * (2 * t))]{fullShare} G3 m d)
    ∗ (o3Loc d ↦[rowsFrom (W0 L + 16 * (2 * t)) (W0 L + 512)]{fullShare} m (o3Loc d))
    ∗ semVal (thr d L, SemLoc.dma cc1_scoped6.sem) 0 ∗ semVal (thr d L, SemLoc.dma cc1_scoped7.sem) 0
    ∗ semVal (thr d L, SemLoc.dma cc1_scoped8.sem) 0 ∗ semVal (thr d L, SemLoc.dma cc1_scoped9.sem) 0)

omit [FloatOps F] in
theorem wordsAt_congr (cc : Fin τ.nSC) (jj : Fin τ.nSub) (nz : Buf (Elt F) (a2Loc d)) {o o' : ℕ} (e : o = o') (h) (h') :
    wordsAt d cc jj nz o h = wordsAt d cc jj nz o' h' := by subst e; rfl

omit [FloatOps F] in
theorem wok_ins2 {W W1 : Waits sig (HIx 2)} (h : ∀ p ∈ W1, p ∈ W ∨ p.2 = none) (a b : SemLoc sig) :
    ∀ p ∈ insert (a, (default : HIx 2)) (insert (b, (default : HIx 2)) W1), p ∈ W ∨ p.2 = none := by
  intro p hp
  rcases Finset.mem_insert.mp hp with rfl | hp
  · exact .inr rfl
  rcases Finset.mem_insert.mp hp with rfl | hp
  · exact .inr rfl
  exact h p hp

omit [FloatOps F] in
theorem pts_slot (b : ℕ) (hin) (f : Buf (Elt F) (rowsBLocV d (cV L) (jV L))) :
    ((slotM b hin).view.loc (thr d L) ↦[(slotM b hin).view.set]{fullShare} f : sProp 𝕄)
      = rowsBLocV d (cV L) (jV L) ↦[remB b 0]{fullShare} f := by
  rw [slotM_set]
omit [FloatOps F] in
theorem pts_chunk (off : Fin 2 → ℕ) (hin) (R : ℕ) (hoff : off = ![R, 0]) (f : Buf (Elt F) (o3Loc d)) :
    ((o3Chunk off hin).view.loc (thr d L) ↦[(o3Chunk off hin).view.set]{fullShare} f : sProp 𝕄)
      = o3Loc d ↦[rowsFrom R (R + 16)]{fullShare} f := by
  rw [o3Chunk_set off hin R hoff]

omit [FloatOps F] in
theorem off146_0 (k7 : Fin k1_t7_loop.trips) : k1_off146 L k7 0#32 = ![W0 L + 16 * (2 * k7.val), 0] := by
  rw [show (0#32 : BitVec 32) = BitVec.ofNat 32 (0 : Fin 2).val from rfl, k1_off146_eq L k7 0]
  rw [show 1024 * (L 1).val + 512 * (L 0).val + 32 * k7.val + 16 * (0 : Fin 2).val = W0 L + 16 * (2 * k7.val) from by
    show 1024 * (L 1).val + 512 * (L 0).val + 32 * k7.val + 16 * 0 = _; unfold W0; omega]
omit [FloatOps F] in
theorem off146_1 (k7 : Fin k1_t7_loop.trips) : k1_off146 L k7 1#32 = ![W0 L + 16 * (2 * k7.val + 1), 0] := by
  rw [show (1#32 : BitVec 32) = BitVec.ofNat 32 (1 : Fin 2).val from rfl, k1_off146_eq L k7 1]
  rw [show 1024 * (L 1).val + 512 * (L 0).val + 32 * k7.val + 16 * (1 : Fin 2).val = W0 L + 16 * (2 * k7.val + 1) from by
    show 1024 * (L 1).val + 512 * (L 0).val + 32 * k7.val + 16 * 1 = _; unfold W0; omega]
omit [FloatOps F] in
theorem off147_0 (k7 : Fin k1_t7_loop.trips) : k1_off147 L k7 0#32 = ![B0 L + 320 * (2 * k7.val + 2)] := by
  rw [show (0#32 : BitVec 32) = BitVec.ofNat 32 (0 : Fin 2).val from rfl, k1_off147_eq L k7 0]
  rw [show 20480 * (L 1).val + 10240 * (L 0).val + 640 * k7.val + 320 * (0 : Fin 2).val + 640 = B0 L + 320 * (2 * k7.val + 2) from by
    show 20480 * (L 1).val + 10240 * (L 0).val + 640 * k7.val + 320 * 0 + 640 = _; unfold B0; omega]
omit [FloatOps F] in
theorem off147_1 (k7 : Fin k1_t7_loop.trips) : k1_off147 L k7 1#32 = ![B0 L + 320 * (2 * k7.val + 3)] := by
  rw [show (1#32 : BitVec 32) = BitVec.ofNat 32 (1 : Fin 2).val from rfl, k1_off147_eq L k7 1]
  rw [show 20480 * (L 1).val + 10240 * (L 0).val + 640 * k7.val + 320 * (1 : Fin 2).val + 640 = B0 L + 320 * (2 * k7.val + 3) from by
    show 20480 * (L 1).val + 10240 * (L 0).val + 640 * k7.val + 320 * 1 + 640 = _; unfold B0; omega]

set_option maxHeartbeats 4000000 in
theorem pair_trip (hnz : ∀ i, (m (a2Loc d) i).toNat < 1000000) (O : CellTallies nD τ sig (HIx 2)) (W : Waits sig (HIx 2))
    (hO : ∀ g, O g none = 0) (q2 : PosShare TreeShare) (v3 v4 : BitVec 32) (k7 : Fin k1_t7_loop.trips) (acc : Unit) :
    pairInv m d L O W q2 k7.val acc
      ⊢ wp frame (wpE (defs₀ (F := F)) 𝒱₀ (thr d L) none) Set.univ
          (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 k7 acc)
          (pairInv m d L O W q2 (k7.val + 1)) := by
  have hk : k7.val < 15 := k7.isLt
  have e0 : ((16 * 0) * NB) = 0 := by simp
  have e8 : ¬ Scf.trips k1_t8_loop.lb k1_t8_loop.ub k1_t8_loop.st < 20 := by decide
  have e10 : ¬ Scf.trips k1_t10_loop.lb k1_t10_loop.ub k1_t10_loop.st < 20 := by decide
  have eW0 := chunkW_eq m d L (2 * k7.val) (by omega)
  have eW1 := chunkW_eq m d L (2 * k7.val + 1) (by omega)
  unfold k1_t7_body
  simp only [k1_part161_eq_skeleton, k1_part162_eq_skeleton]
  unfold k1_part161_skel k1_part162_skel
  unfold pairInv
  iintro ⟨#Hlv, HO, HB0, HB1, ⟨%fi, Hidx⟩, Htb, Ha2, Hdone, Htodo, Hs6, Hs7, Hs8, Hs9⟩
  ihave Hmw := ((K (F := F)).mayWaits_none (thr := thr d L) hO) $$ Hlv
  sl_exec
  rw [wp_bind]
  -- the copies of chunk 2 t have all landed in slot 0
  sl_for (drainInvB d L 0 cc1_scratch3.sem (m (a4Loc d)) (chunkW m d L (2 * k7.val)) O W) $$ [HB0 HO]
  case region => exact fun k acc => drain_trip_t8 d L _ _ O W hO v3 v4 0#32 1#32 k7 k acc
  · unfold drainInvB
    rw [if_pos (by decide), e0]
    isplitr; · iexact Hlv
    isplitl [HB0]; · iexact HB0
    iexact HO
  iintro %_ HI
  unfold drainInvB
  rw [if_neg e8]
  icases HI with ⟨-, ⟨HD, Hsem3⟩, %W1, %hW1, HO⟩
  ihave Hslot := (Entails.of_eq (joinB (F := F) d (cV L) (jV L) 0 _ _)) $$ HD
  rw [eW0]
  ihave Hslot' := (Entails.of_eq (pts_slot (F := F) d L 0 inb_S2x16x1280_S1x16x1280_0_0_0 _).symm) $$ Hslot
  -- its sixteen rows of the output
  ihave Hsp := (pointsTo_split_subset (rowsFrom_sub (W0 L + 16 * (2 * k7.val)) (W0 L + 16 * (2 * k7.val) + 16) (W0 L + 512) (by omega))).1 $$ Htodo
  icases Hsp with ⟨Hchunk, Htodo⟩
  rw [rowsFrom_sdiff (W0 L + 16 * (2 * k7.val)) (W0 L + 16 * (2 * k7.val) + 16) (W0 L + 512) (by omega)]
  ihave Hchunk' := (Entails.of_eq (pts_chunk (F := F) d L (k1_off146 L k7 0#32) (k1_off146_inb L k7 0) _ (off146_0 L k7) _).symm) $$ Hchunk
  sl_exec (disch := first | exact View.amount_pos _ _ (show 0 < S320.numel by decide) | exact View.amount_pos _ _ (show 0 < S16x1280.numel by decide))
  unfold pair_trip.sl.dma0 pair_trip.sl.dma0_1
  -- what the store left in the sixteen rows, and the fetch in the index scratch
  ihave Hchunk := (Entails.of_eq ((pointsTo_congr (store_val m d (cV L) (jV L) 0 inb_S2x16x1280_S1x16x1280_0_0_0 (k1_off146 L k7 0#32) (k1_off146_inb L k7 0)
      (W0 L + 16 * (2 * k7.val)) (B0 L + 320 * (2 * k7.val)) (B0_le L _ (by omega)) (off146_0 L k7) (B0_eq L _) _)).trans
      (pts_chunk (F := F) d L (k1_off146 L k7 0#32) (k1_off146_inb L k7 0) _ (off146_0 L k7) (G3 m d)))) $$ Hchunk'
  icombine Hdone Hchunk as Hdc
  ihave Hdone := (pointsTo_union (rowsFrom_disjoint (W0 L) (W0 L + 16 * (2 * k7.val)) (W0 L + 16 * (2 * k7.val) + 16))).2 $$ Hdc
  rw [rowsFrom_union (W0 L) (W0 L + 16 * (2 * k7.val)) (W0 L + 16 * (2 * k7.val) + 16) (by omega) (by omega)]
  have hfI := fetch_val (F := F) d (cV L) (jV L) (m (a2Loc d)) fi (k1_off147 L k7 0#32) (k1_off147_inb L k7 0)
    (B0 L + 320 * (2 * k7.val + 2)) (B0_le L _ (by omega)) (off147_0 L k7)
  ihave Hidx2 := (Entails.of_eq (congrArg (fun f => ((idW).view.loc (thr d L) ↦{fullShare} f : sProp 𝕄)) hfI)) $$ Hidx
  ihave Hslot := (Entails.of_eq (pts_slot (F := F) d L 0 inb_S2x16x1280_S1x16x1280_0_0_0 _)) $$ Hslot'
  -- chunk 2 t + 2 into slot 0
  imod (Transfers.batch_alloc' (Lvl := ℕ) countersEmb (thr d L) (none : HIx 2) NB
    (DB d (cV L) (jV L) 0 (m (a4Loc d)) (wordsAt d (cV L) (jV L) (m (a2Loc d)) (B0 L + 320 * (2 * k7.val + 2)) (B0_le L _ (by omega))))
    (sm := .dma cc1_scratch3.sem) (E := Set.univ)) $$ Hsem3 with HB0
  rw [wp_bind]
  sl_for (fireInvB d L 0 cc1_scratch3.sem (m (a4Loc d)) (wordsAt d (cV L) (jV L) (m (a2Loc d)) (B0 L + 320 * (2 * k7.val + 2)) (B0_le L _ (by omega)))
      (FB d (cV L) (jV L) (m (a4Loc d)) (wordsAt d (cV L) (jV L) (m (a2Loc d)) (B0 L + 320 * (2 * k7.val)) (B0_le L _ (by omega))))) $$ [Hidx2 Htb Hslot HB0]
  case region => exact fun k acc => fire_trip_t9 d L _ _ _ (wordsAt_lt d (cV L) (jV L) _ _ _ hnz) v3 v4 k7 _ _ k acc
  · unfold fireInvB
    simp only [Nat.mul_zero]
    isplitl [Hidx2]; · iexact Hidx2
    isplitl [Htb]; · iexact Htb
    isplitl [Hslot]; · iexact Hslot
    iexact HB0
  iintro %_ HI
  unfold fireInvB
  icases HI with ⟨Hidx, Htb, -, HB0⟩
  have e9 : Scf.trips k1_t9_loop.lb k1_t9_loop.ub k1_t9_loop.st = 20 := by decide
  rw [e9]
  -- the copies of chunk 2 t + 1 have all landed in slot 1
  sl_for (drainInvB d L 1 cc1_scratch4.sem (m (a4Loc d)) (chunkW m d L (2 * k7.val + 1)) O W) $$ [HB1 HO]
  case region => exact fun k acc => drain_trip_t10 d L _ _ O W hO v3 v4 k7 _ _ k acc
  · unfold drainInvB
    rw [if_pos (by decide), e0]
    isplitr; · iexact Hlv
    isplitl [HB1]; · iexact HB1
    iexists _; isplitr
    rotate_left
    · iexact HO
    · ipureintro; exact wok_ins2 hW1 _ _
  iintro %_ HI
  unfold drainInvB
  rw [if_neg e10]
  icases HI with ⟨-, ⟨HD, Hsem4⟩, %W2, %hW2, HO⟩
  ihave Hslot := (Entails.of_eq (joinB (F := F) d (cV L) (jV L) 1 _ _)) $$ HD
  rw [eW1]
  ihave Hslot' := (Entails.of_eq (pts_slot (F := F) d L 1 inb_S2x16x1280_S1x16x1280_1_0_0 _).symm) $$ Hslot
  rw [show W0 L + 16 * (2 * k7.val) + 16 = W0 L + 16 * (2 * k7.val + 1) from by omega]
  ihave Hsp := (pointsTo_split_subset (rowsFrom_sub (W0 L + 16 * (2 * k7.val + 1)) (W0 L + 16 * (2 * k7.val + 1) + 16) (W0 L + 512) (by omega))).1 $$ Htodo
  icases Hsp with ⟨Hchunk, Htodo⟩
  rw [rowsFrom_sdiff (W0 L + 16 * (2 * k7.val + 1)) (W0 L + 16 * (2 * k7.val + 1) + 16) (W0 L + 512) (by omega)]
  ihave Hchunk' := (Entails.of_eq (pts_chunk (F := F) d L (k1_off146 L k7 1#32) (k1_off146_inb L k7 1) _ (off146_1 L k7) _).symm) $$ Hchunk
  sl_exec (disch := first | exact View.amount_pos _ _ (show 0 < S320.numel by decide) | exact View.amount_pos _ _ (show 0 < S16x1280.numel by decide))
  unfold pair_trip.sl.dma0_2 pair_trip.sl.dma0_3
  ihave Hchunk := (Entails.of_eq ((pointsTo_congr (store_val m d (cV L) (jV L) 1 inb_S2x16x1280_S1x16x1280_1_0_0 (k1_off146 L k7 1#32) (k1_off146_inb L k7 1)
      (W0 L + 16 * (2 * k7.val + 1)) (B0 L + 320 * (2 * k7.val + 1)) (B0_le L _ (by omega)) (off146_1 L k7) (B0_eq L _) _)).trans
      (pts_chunk (F := F) d L (k1_off146 L k7 1#32) (k1_off146_inb L k7 1) _ (off146_1 L k7) (G3 m d)))) $$ Hchunk'
  icombine Hdone Hchunk as Hdc
  ihave Hdone := (pointsTo_union (rowsFrom_disjoint (W0 L) (W0 L + 16 * (2 * k7.val + 1)) (W0 L + 16 * (2 * k7.val + 1) + 16))).2 $$ Hdc
  rw [rowsFrom_union (W0 L) (W0 L + 16 * (2 * k7.val + 1)) (W0 L + 16 * (2 * k7.val + 1) + 16) (by omega) (by omega)]
  have hfI3 := fetch_val (F := F) d (cV L) (jV L) (m (a2Loc d))
    (wordsAt d (cV L) (jV L) (m (a2Loc d)) (B0 L + 320 * (2 * k7.val + 2)) (B0_le L _ (by omega)))
    (k1_off147 L k7 1#32) (k1_off147_inb L k7 1) (B0 L + 320 * (2 * k7.val + 3)) (B0_le L _ (by omega)) (off147_1 L k7)
  ihave Hidx3 := (Entails.of_eq (congrArg (fun f => ((idW).view.loc (thr d L) ↦{fullShare} f : sProp 𝕄)) hfI3)) $$ Hidx
  ihave Hslot := (Entails.of_eq (pts_slot (F := F) d L 1 inb_S2x16x1280_S1x16x1280_1_0_0 _)) $$ Hslot'
  -- chunk 2 t + 3 into slot 1
  imod (Transfers.batch_alloc' (Lvl := ℕ) countersEmb (thr d L) (none : HIx 2) NB
    (DB d (cV L) (jV L) 1 (m (a4Loc d)) (wordsAt d (cV L) (jV L) (m (a2Loc d)) (B0 L + 320 * (2 * k7.val + 3)) (B0_le L _ (by omega))))
    (sm := .dma cc1_scratch4.sem) (E := Set.univ)) $$ Hsem4 with HB1
  sl_for (fireInvB d L 1 cc1_scratch4.sem (m (a4Loc d)) (wordsAt d (cV L) (jV L) (m (a2Loc d)) (B0 L + 320 * (2 * k7.val + 3)) (B0_le L _ (by omega)))
      (FB d (cV L) (jV L) (m (a4Loc d)) (wordsAt d (cV L) (jV L) (m (a2Loc d)) (B0 L + 320 * (2 * k7.val + 1)) (B0_le L _ (by omega))))) $$ [Hidx3 Htb Hslot HB1]
  case region => exact fun k acc => fire_trip_t11 d L _ _ _ (wordsAt_lt d (cV L) (jV L) _ _ _ hnz) v3 v4 _ k acc
  · unfold fireInvB
    simp only [Nat.mul_zero]
    isplitl [Hidx3]; · iexact Hidx3
    isplitl [Htb]; · iexact Htb
    isplitl [Hslot]; · iexact Hslot
    iexact HB1
  iintro %_ HI
  unfold fireInvB
  icases HI with ⟨Hidx, Htb, -, HB1⟩
  have e11 : Scf.trips k1_t11_loop.lb k1_t11_loop.ub k1_t11_loop.st = 20 := by decide
  rw [e11]
  sl_exec
  sl_step
  -- the invariant at t + 1
  have eA : chunkW m d L (2 * (k7.val + 1)) = wordsAt d (cV L) (jV L) (m (a2Loc d)) (B0 L + 320 * (2 * k7.val + 2)) (B0_le L _ (by omega)) :=
    (chunkW_eq m d L _ (by omega)).trans (wordsAt_congr (F := F) d (cV L) (jV L) _ (by omega) _ _)
  have eB : chunkW m d L (2 * (k7.val + 1) + 1) = wordsAt d (cV L) (jV L) (m (a2Loc d)) (B0 L + 320 * (2 * k7.val + 3)) (B0_le L _ (by omega)) :=
    (chunkW_eq m d L _ (by omega)).trans (wordsAt_congr (F := F) d (cV L) (jV L) _ (by omega) _ _)
  rw [eA, eB, show W0 L + 16 * (2 * (k7.val + 1)) = W0 L + 16 * (2 * k7.val + 1) + 16 from by omega]
  isplitr; · iexact Hlv
  isplitl [HO]
  · iexists _; isplitr
    rotate_left
    · iexact HO
    · ipureintro; exact wok_ins2 hW2 _ _
  isplitl [HB0]; · iexact HB0
  isplitl [HB1]; · iexact HB1
  isplitl [Hidx]; · iexists _; iexact Hidx
  isplitl [Htb]; · iexact Htb
  isplitl [Ha2]; · iexact Ha2
  isplitl [Hdone]; · iexact Hdone
  isplitl [Htodo]; · iexact Htodo
  isplitl [Hs6]; · iexact Hs6
  isplitl [Hs7]; · iexact Hs7
  isplitl [Hs8]; · iexact Hs8
  iexact Hs9

/-- The pair loop whole: from chunks 0 and 1 in flight to chunks 30 and 31 in flight, the rows of chunks 0 .. 29 done. -/
theorem pair_loop (hnz : ∀ i, (m (a2Loc d) i).toNat < 1000000) (O : CellTallies nD τ sig (HIx 2)) (W : Waits sig (HIx 2))
    (hO : ∀ g, O g none = 0) (q2 : PosShare TreeShare) (v3 v4 : BitVec 32) :
    pairInv m d L O W q2 0 ()
      ⊢ wp frame (wpE (defs₀ (F := F)) 𝒱₀ (thr d L) none) Set.univ
          (Scf.Loop.for k1_t7_loop k1_t7_ok ⟨⟩ (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4))
          (fun _ => pairInv m d L O W q2 15 ()) := by
  iintro HI
  iapply (Scf.wp_for frame (wpE (defs₀ (F := F)) 𝒱₀ (thr d L) none) Set.univ _ _ _ k1_t7_ok ⟨⟩ _
    (pairInv m d L O W q2) (fun k acc => pair_trip m d L hnz O W hO q2 v3 v4 k acc))
  isplitl [HI]
  · iexact HI
  · iintro %acc H
    iexact H

end Cert.Proof.KW.K1

end
-- ==== Proof.BwK1BEnd.lean ====
/-
  The noise-word phase from the second chunk's index fetch to the end: the second chunk fired, the pair loop, the last
  two chunks drained and stored. When it ends the worker's 512 rows of the output hold the lookup's values.
-/
import proofs.«215896_g38397007626377_fold_wed_m_942_26_alg».proof.Proof.BwK1BPair

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (m : (ℓ : Loc nD τ sig) → Buf (Elt F) ℓ)
variable (d : Dev nD) (L : grid1.Coords)

/-- The program from the second chunk's index fetch on, as the kernel's text spells it. -/
def restB (L : grid1.Coords) (v3 v4 : BitVec 32) : Prog (TpuEff nD τ sig (Elt F) Λ₀ (.scVector ((L 0).castLE hcore1) ((L 1).castLE hsub1))) PUnit := do
  (do
    Prog.lift (.enqueueDma (a2Slice (k1_off110 L) (k1_off110_inb L)) (.here idW) (.dma cc1_scoped5.sem) (View.wordExact_bits rfl) (Memref.isWhole_whole _).wordExact ⟨Or.inl rfl, trivial⟩)
    Prog.lift (.waitDma2 cc1_scoped5.sem (a2Slice (k1_off110 L) (k1_off110_inb L)) idW (View.wordExact_bits rfl) (Memref.isWhole_whole _).wordExact)
    Scf.Loop.for k1_t6_loop k1_t6_ok ⟨⟩ (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t7_loop k1_t7_ok ⟨⟩ (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t12_loop k1_t12_ok ⟨⟩ (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Prog.lift (.enqueueDma (slotM 0 inb_S2x16x1280_S1x16x1280_0_0_0) (.here (o3Chunk (k1_off218 L 480#32) (k1_off218_inb L 0))) (.dma cc1_scoped10.sem) ((View.wordExact_bits rfl).reshape _ _) (View.wordExact_bits rfl) ⟨Or.inl rfl, trivial⟩)
    pure (⟨⟩ : PUnit))
  Prog.lift (.waitDma2 cc1_scoped10.sem (slotM 0 inb_S2x16x1280_S1x16x1280_0_0_0) (o3Chunk (k1_off218 L 480#32) (k1_off218_inb L 0)) ((View.wordExact_bits rfl).reshape _ _) (View.wordExact_bits rfl))
  Scf.Loop.for k1_t13_loop k1_t13_ok ⟨⟩ (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
  Prog.lift (.enqueueDma (slotM 1 inb_S2x16x1280_S1x16x1280_1_0_0) (.here (o3Chunk (k1_off218 L 496#32) (k1_off218_inb L 1))) (.dma cc1_scoped11.sem) ((View.wordExact_bits rfl).reshape _ _) (View.wordExact_bits rfl) ⟨Or.inl rfl, trivial⟩)
  Prog.lift (.waitDma2 cc1_scoped11.sem (slotM 1 inb_S2x16x1280_S1x16x1280_1_0_0) (o3Chunk (k1_off218 L 496#32) (k1_off218_inb L 1)) ((View.wordExact_bits rfl).reshape _ _) (View.wordExact_bits rfl))
  pure ⟨⟩

omit [FloatOps F] in
theorem off110 : k1_off110 L = ![B0 L + 320 * (2 * 0 + 1)] := by
  rw [k1_off110_eq L]
  rw [show 20480 * (L 1).val + 10240 * (L 0).val + 320 = B0 L + 320 * (2 * 0 + 1) from by unfold B0; omega]
omit [FloatOps F] in
theorem off218_0 : k1_off218 L 480#32 = ![W0 L + 16 * (2 * 15), 0] := by
  rw [show (480#32 : BitVec 32) = BitVec.ofNat 32 (480 + 16 * (0 : Fin 2).val) from rfl, k1_off218_eq L 0]
  rw [show 1024 * (L 1).val + 512 * (L 0).val + 16 * (0 : Fin 2).val + 480 = W0 L + 16 * (2 * 15) from by
    show 1024 * (L 1).val + 512 * (L 0).val + 16 * 0 + 480 = _; unfold W0; omega]
omit [FloatOps F] in
theorem off218_1 : k1_off218 L 496#32 = ![W0 L + 16 * (2 * 15 + 1), 0] := by
  rw [show (496#32 : BitVec 32) = BitVec.ofNat 32 (480 + 16 * (1 : Fin 2).val) from rfl, k1_off218_eq L 1]
  rw [show 1024 * (L 1).val + 512 * (L 0).val + 16 * (1 : Fin 2).val + 480 = W0 L + 16 * (2 * 15 + 1) from by
    show 1024 * (L 1).val + 512 * (L 0).val + 16 * 1 + 480 = _; unfold W0; omega]

omit [FloatOps F] in
theorem wok_ins1 {W W1 : Waits sig (HIx 2)} (h : ∀ p ∈ W1, p ∈ W ∨ p.2 = none) (a : SemLoc sig) :
    ∀ p ∈ insert (a, (default : HIx 2)) W1, p ∈ W ∨ p.2 = none := by
  intro p hp
  rcases Finset.mem_insert.mp hp with rfl | hp
  · exact .inr rfl
  exact h p hp

set_option maxHeartbeats 4000000 in
theorem rest_from_r5 (hnz : ∀ i, (m (a2Loc d) i).toNat < 1000000) (O : CellTallies nD τ sig (HIx 2)) (W : Waits sig (HIx 2))
    (hO : ∀ g, O g none = 0) (q2 : PosShare TreeShare) (v3 v4 : BitVec 32) (f1 : Buf (Elt F) (rowsBLocV d (cV L) (jV L))) :
    iprop(levAts (K (F := F)).L (K (F := F)).lev ∗ owesN (F := F) (thr d L) O W
        ∗ ((a2W).view.loc (thr d L) ↦{q2} m (a2Loc d)) ∗ (∃ q : PosShare TreeShare, a4Loc d ↦{q} m (a4Loc d))
        ∗ (∃ f, (idW).view.loc (thr d L) ↦{fullShare} f)
        ∗ batchAtB d L 0 cc1_scratch3.sem (m (a4Loc d)) (chunkW m d L 0) 0
        ∗ (rowsBLocV d (cV L) (jV L) ↦[remB 1 0]{fullShare} f1) ∗ semVal (thr d L, SemLoc.dma cc1_scratch4.sem) 0
        ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
        ∗ (o3Loc d ↦[rowsFrom (W0 L) (W0 L + 512)]{fullShare} m (o3Loc d)))
      ⊢ wp frame (wpE (defs₀ (F := F)) 𝒱₀ (thr d L) none) Set.univ (restB (F := F) L v3 v4)
          (fun _ => iprop((o3Loc d ↦[rowsFrom (W0 L) (W0 L + 512)]{fullShare} G3 m d)
            ∗ (∃ f, rowsBLocV d (cV L) (jV L) ↦[remB 0 0]{fullShare} f) ∗ (∃ f, rowsBLocV d (cV L) (jV L) ↦[remB 1 0]{fullShare} f)
            ∗ (∃ f, (idW).view.loc (thr d L) ↦{fullShare} f)
            ∗ ((a2W).view.loc (thr d L) ↦{q2} m (a2Loc d)) ∗ (∃ q : PosShare TreeShare, a4Loc d ↦{q} m (a4Loc d))
            ∗ semVal (thr d L, SemLoc.dma cc1_scratch3.sem) 0 ∗ semVal (thr d L, SemLoc.dma cc1_scratch4.sem) 0
            ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
            ∗ owesN (F := F) (thr d L) O W)) := by
  have e0 : ((16 * 0) * NB) = 0 := by simp
  have e6 : Scf.trips k1_t6_loop.lb k1_t6_loop.ub k1_t6_loop.st = 20 := by decide
  have e7 : Scf.trips k1_t7_loop.lb k1_t7_loop.ub k1_t7_loop.st = 15 := by decide
  have e12 : ¬ Scf.trips k1_t12_loop.lb k1_t12_loop.ub k1_t12_loop.st < 20 := by decide
  have e13 : ¬ Scf.trips k1_t13_loop.lb k1_t13_loop.ub k1_t13_loop.st < 20 := by decide
  have eW1 := chunkW_eq m d L (2 * 0 + 1) (by omega)
  have eW30 := chunkW_eq m d L (2 * 15) (by omega)
  have eW31 := chunkW_eq m d L (2 * 15 + 1) (by omega)
  unfold restB
  iintro ⟨#Hlv, ⟨%Wa, %hWa, HO⟩, Ha2, Htb, ⟨%fi, Hidx⟩, HB0, Hslot1, Hsem4, Hs5, Hs6, Hs7, Hs8, Hs9, Hs10, Hs11, Ho3⟩
  ihave Hmw := ((K (F := F)).mayWaits_none (thr := thr d L) hO) $$ Hlv
  -- the second chunk's index words
  sl_exec (disch := first | exact View.amount_pos _ _ (show 0 < S320.numel by decide) | exact View.amount_pos _ _ (show 0 < S16x1280.numel by decide))
  unfold rest_from_r5.sl.dma0
  have hfI1 := fetch_val (F := F) d (cV L) (jV L) (m (a2Loc d)) fi (k1_off110 L) (k1_off110_inb L)
    (B0 L + 320 * (2 * 0 + 1)) (B0_le L _ (by omega)) (off110 L)
  ihave Hidx1 := (Entails.of_eq (congrArg (fun f => ((idW).view.loc (thr d L) ↦{fullShare} f : sProp 𝕄)) hfI1)) $$ Hidx
  -- chunk 1 into slot 1
  imod (Transfers.batch_alloc' (Lvl := ℕ) countersEmb (thr d L) (none : HIx 2) NB
    (DB d (cV L) (jV L) 1 (m (a4Loc d)) (wordsAt d (cV L) (jV L) (m (a2Loc d)) (B0 L + 320 * (2 * 0 + 1)) (B0_le L _ (by omega))))
    (sm := .dma cc1_scratch4.sem) (E := Set.univ)) $$ Hsem4 with HB1
  rw [wp_bind]
  sl_for (fireInvB d L 1 cc1_scratch4.sem (m (a4Loc d)) (wordsAt d (cV L) (jV L) (m (a2Loc d)) (B0 L + 320 * (2 * 0 + 1)) (B0_le L _ (by omega))) f1) $$ [Hidx1 Htb Hslot1 HB1]
  case region => exact fun k acc => fire_trip_t6 d L _ _ _ (wordsAt_lt d (cV L) (jV L) _ _ _ hnz) v3 v4 k acc
  · unfold fireInvB
    simp only [Nat.mul_zero]
    isplitl [Hidx1]; · iexact Hidx1
    isplitl [Htb]; · iexact Htb
    isplitl [Hslot1]; · iexact Hslot1
    iexact HB1
  iintro %_ HI
  unfold fireInvB
  icases HI with ⟨Hidx, Htb, -, HB1⟩
  rw [e6]
  -- the pair loop
  sl_for (pairInv m d L O W q2) $$ [HO HB0 HB1 Hidx Htb Ha2 Ho3 Hs6 Hs7 Hs8 Hs9]
  case region => exact fun k acc => pair_trip m d L hnz O W hO q2 v3 v4 k acc
  · unfold pairInv
    rw [eW1, show W0 L + 16 * (2 * 0) = W0 L from by omega, rowsFrom_empty, pointsTo_empty]
    isplitr; · iexact Hlv
    isplitl [HO]
    · iexists _; isplitr
      rotate_left
      · iexact HO
      · ipureintro; exact wok_ins1 hWa _
    isplitl [HB0]; · iexact HB0
    isplitl [HB1]; · iexact HB1
    isplitl [Hidx]; · iexists _; iexact Hidx
    isplitl [Htb]; · iexact Htb
    isplitl [Ha2]; · iexact Ha2
    isplitr; · iempintro
    isplitl [Ho3]; · iexact Ho3
    isplitl [Hs6]; · iexact Hs6
    isplitl [Hs7]; · iexact Hs7
    isplitl [Hs8]; · iexact Hs8
    iexact Hs9
  iintro %_ HI
  unfold pairInv
  rw [e7]
  icases HI with ⟨-, HO, HB0, HB1, ⟨%fi2, Hidx⟩, Htb, Ha2, Hdone, Htodo, Hs6, Hs7, Hs8, Hs9⟩
  -- chunk 30: drained, stored
  sl_for (drainInvB d L 0 cc1_scratch3.sem (m (a4Loc d)) (chunkW m d L (2 * 15)) O W) $$ [HB0 HO]
  case region => exact fun k acc => drain_trip_t12 d L _ _ O W hO v3 v4 k acc
  · unfold drainInvB
    rw [if_pos (by decide), e0]
    isplitr; · iexact Hlv
    isplitl [HB0]; · iexact HB0
    iexact HO
  iintro %_ HI
  unfold drainInvB
  rw [if_neg e12]
  icases HI with ⟨-, ⟨HD, Hsem3⟩, %W1, %hW1, HO⟩
  ihave Hslot := (Entails.of_eq (joinB (F := F) d (cV L) (jV L) 0 _ _)) $$ HD
  rw [eW30]
  ihave Hslot' := (Entails.of_eq (pts_slot (F := F) d L 0 inb_S2x16x1280_S1x16x1280_0_0_0 _).symm) $$ Hslot
  ihave Hsp := (pointsTo_split_subset (rowsFrom_sub (W0 L + 16 * (2 * 15)) (W0 L + 16 * (2 * 15) + 16) (W0 L + 512) (by omega))).1 $$ Htodo
  icases Hsp with ⟨Hchunk, Htodo⟩
  rw [rowsFrom_sdiff (W0 L + 16 * (2 * 15)) (W0 L + 16 * (2 * 15) + 16) (W0 L + 512) (by omega)]
  ihave Hchunk' := (Entails.of_eq (pts_chunk (F := F) d L (k1_off218 L 480#32) (k1_off218_inb L 0) _ (off218_0 L) _).symm) $$ Hchunk
  sl_exec (disch := first | exact View.amount_pos _ _ (show 0 < S320.numel by decide) | exact View.amount_pos _ _ (show 0 < S16x1280.numel by decide))
  unfold rest_from_r5.sl.dma0_1
  ihave Hchunk := (Entails.of_eq ((pointsTo_congr (store_val m d (cV L) (jV L) 0 inb_S2x16x1280_S1x16x1280_0_0_0 (k1_off218 L 480#32) (k1_off218_inb L 0)
      (W0 L + 16 * (2 * 15)) (B0 L + 320 * (2 * 15)) (B0_le L _ (by omega)) (off218_0 L) (B0_eq L _) _)).trans
      (pts_chunk (F := F) d L (k1_off218 L 480#32) (k1_off218_inb L 0) _ (off218_0 L) (G3 m d)))) $$ Hchunk'
  icombine Hdone Hchunk as Hdc
  ihave Hdone := (pointsTo_union (rowsFrom_disjoint (W0 L) (W0 L + 16 * (2 * 15)) (W0 L + 16 * (2 * 15) + 16))).2 $$ Hdc
  rw [rowsFrom_union (W0 L) (W0 L + 16 * (2 * 15)) (W0 L + 16 * (2 * 15) + 16) (by omega) (by omega)]
  ihave Hslot0 := (Entails.of_eq (pts_slot (F := F) d L 0 inb_S2x16x1280_S1x16x1280_0_0_0 _)) $$ Hslot'
  -- chunk 31: drained, stored
  sl_for (drainInvB d L 1 cc1_scratch4.sem (m (a4Loc d)) (chunkW m d L (2 * 15 + 1)) O W) $$ [HB1 HO]
  case region => exact fun k acc => drain_trip_t13 d L _ _ O W hO k acc
  · unfold drainInvB
    rw [if_pos (by decide), e0]
    isplitr; · iexact Hlv
    isplitl [HB1]; · iexact HB1
    iexists _; isplitr
    rotate_left
    · iexact HO
    · ipureintro; exact wok_ins1 hW1 _
  iintro %_ HI
  unfold drainInvB
  rw [if_neg e13]
  icases HI with ⟨-, ⟨HD, Hsem4⟩, %W2, %hW2, HO⟩
  ihave Hslot := (Entails.of_eq (joinB (F := F) d (cV L) (jV L) 1 _ _)) $$ HD
  rw [eW31]
  ihave Hslot' := (Entails.of_eq (pts_slot (F := F) d L 1 inb_S2x16x1280_S1x16x1280_1_0_0 _).symm) $$ Hslot
  rw [show W0 L + 16 * (2 * 15) + 16 = W0 L + 16 * (2 * 15 + 1) from by omega]
  ihave Hsp := (pointsTo_split_subset (rowsFrom_sub (W0 L + 16 * (2 * 15 + 1)) (W0 L + 16 * (2 * 15 + 1) + 16) (W0 L + 512) (by omega))).1 $$ Htodo
  icases Hsp with ⟨Hchunk, -⟩
  ihave Hchunk' := (Entails.of_eq (pts_chunk (F := F) d L (k1_off218 L 496#32) (k1_off218_inb L 1) _ (off218_1 L) _).symm) $$ Hchunk
  sl_exec (disch := first | exact View.amount_pos _ _ (show 0 < S320.numel by decide) | exact View.amount_pos _ _ (show 0 < S16x1280.numel by decide))
  sl_step
  unfold rest_from_r5.sl.dma0_2
  ihave Hchunk := (Entails.of_eq ((pointsTo_congr (store_val m d (cV L) (jV L) 1 inb_S2x16x1280_S1x16x1280_1_0_0 (k1_off218 L 496#32) (k1_off218_inb L 1)
      (W0 L + 16 * (2 * 15 + 1)) (B0 L + 320 * (2 * 15 + 1)) (B0_le L _ (by omega)) (off218_1 L) (B0_eq L _) _)).trans
      (pts_chunk (F := F) d L (k1_off218 L 496#32) (k1_off218_inb L 1) _ (off218_1 L) (G3 m d)))) $$ Hchunk'
  icombine Hdone Hchunk as Hdc
  ihave Hdone := (pointsTo_union (rowsFrom_disjoint (W0 L) (W0 L + 16 * (2 * 15 + 1)) (W0 L + 16 * (2 * 15 + 1) + 16))).2 $$ Hdc
  rw [rowsFrom_union (W0 L) (W0 L + 16 * (2 * 15 + 1)) (W0 L + 16 * (2 * 15 + 1) + 16) (by omega) (by omega),
    show W0 L + 16 * (2 * 15 + 1) + 16 = W0 L + 512 from by omega]
  ihave Hslot1 := (Entails.of_eq (pts_slot (F := F) d L 1 inb_S2x16x1280_S1x16x1280_1_0_0 _)) $$ Hslot'
  isplitl [Hdone]; · iexact Hdone
  isplitl [Hslot0]; · iexists _; iexact Hslot0
  isplitl [Hslot1]; · iexists _; iexact Hslot1
  isplitl [Hidx]; · iexists _; iexact Hidx
  isplitl [Ha2]; · iexact Ha2
  isplitl [Htb]; · iexact Htb
  isplitl [Hsem3]; · iexact Hsem3
  isplitl [Hsem4]; · iexact Hsem4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iexists _; isplitr
  rotate_left
  · iexact HO
  · ipureintro; exact wok_ins1 hW2 _

omit [FloatOps F] in
theorem pts_a2 (q : PosShare TreeShare) (f : Buf (Elt F) (a2Loc d)) :
    ((a2W).view.loc (thr d L) ↦{q} f : sProp 𝕄) = a2Loc d ↦{q} f := by
  simp only [Memref.view_whole, View.set_whole]

/-- The same, stated over the worker's block of rows, the noise words' own location and the first chunk's batch as
    the fire loop leaves it. -/
theorem rest_from_r5' (hnz : ∀ i, (m (a2Loc d) i).toNat < 1000000) (O : CellTallies nD τ sig (HIx 2)) (W : Waits sig (HIx 2))
    (hO : ∀ g, O g none = 0) (q2 : PosShare TreeShare) (v3 v4 : BitVec 32) (fB : Buf (Elt F) (rowsBLocV d (cV L) (jV L))) :
    iprop(levAts (K (F := F)).L (K (F := F)).lev ∗ owesN (F := F) (thr d L) O W
        ∗ (a2Loc d ↦{q2} m (a2Loc d)) ∗ (∃ q : PosShare TreeShare, a4Loc d ↦{q} m (a4Loc d))
        ∗ (∃ f, (idW).view.loc (thr d L) ↦{fullShare} f)
        ∗ Transfers.Batch countersEmb (thr d L) (.dma cc1_scratch3.sem) (none : HIx 2) NB
            (DB d (cV L) (jV L) 0 (m (a4Loc d)) (wordsAt d (cV L) (jV L) (m (a2Loc d)) (B0 L + 320 * 0) (B0_le L 0 (by omega)))) (16 * 20) 0
        ∗ (rowsBLocV d (cV L) (jV L) ↦[remB 1 0]{fullShare} fB) ∗ semVal (thr d L, SemLoc.dma cc1_scratch4.sem) 0
        ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
        ∗ (o3Loc d ↦[blkB (wid (cL L) (sL L))]{fullShare} m (o3Loc d)))
      ⊢ wp frame (wpE (defs₀ (F := F)) 𝒱₀ (thr d L) none) Set.univ (restB (F := F) L v3 v4)
          (fun _ => iprop((o3Loc d ↦[blkB (wid (cL L) (sL L))]{fullShare} G3 m d)
            ∗ (∃ f, rowsBLocV d (cV L) (jV L) ↦[remB 0 0]{fullShare} f) ∗ (∃ f, rowsBLocV d (cV L) (jV L) ↦[remB 1 0]{fullShare} f)
            ∗ (∃ f, (idW).view.loc (thr d L) ↦{fullShare} f)
            ∗ (a2Loc d ↦{q2} m (a2Loc d)) ∗ (∃ q : PosShare TreeShare, a4Loc d ↦{q} m (a4Loc d))
            ∗ semVal (thr d L, SemLoc.dma cc1_scratch3.sem) 0 ∗ semVal (thr d L, SemLoc.dma cc1_scratch4.sem) 0
            ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
            ∗ owesN (F := F) (thr d L) O W)) := by
  rw [blkB_eq L, ← chunkW_eq m d L 0 (by omega), ← pts_a2 (F := F) d L q2 (m (a2Loc d))]
  exact rest_from_r5 m d L hnz O W hO q2 v3 v4 fB

end Cert.Proof.KW.K1

end
-- ==== Proof.BwK1BEndEq.lean ====
/-
  The stretch's program text is the kernel's own: the kernel's text is its first three parts, then the fourth part,
  which is one wait and then the stretch's inner block, then the tail; the stretch is the inner block and the tail.
-/
import proofs.«215896_g38397007626377_fold_wed_m_942_26_alg».proof.Proof.BwK1BEnd

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (L : grid1.Coords)

def innerB (L : grid1.Coords) (v3 v4 : BitVec 32) : Prog (TpuEff nD τ sig (Elt F) Λ₀ (.scVector ((L 0).castLE hcore1) ((L 1).castLE hsub1))) PUnit := do
    Prog.lift (.enqueueDma (a2Slice (k1_off110 L) (k1_off110_inb L)) (.here idW) (.dma cc1_scoped5.sem) (View.wordExact_bits rfl) (Memref.isWhole_whole _).wordExact ⟨Or.inl rfl, trivial⟩)
    Prog.lift (.waitDma2 cc1_scoped5.sem (a2Slice (k1_off110 L) (k1_off110_inb L)) idW (View.wordExact_bits rfl) (Memref.isWhole_whole _).wordExact)
    Scf.Loop.for k1_t6_loop k1_t6_ok ⟨⟩ (k1_t6_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t7_loop k1_t7_ok ⟨⟩ (k1_t7_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Scf.Loop.for k1_t12_loop k1_t12_ok ⟨⟩ (k1_t12_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4)
    Prog.lift (.enqueueDma (slotM 0 inb_S2x16x1280_S1x16x1280_0_0_0) (.here (o3Chunk (k1_off218 L 480#32) (k1_off218_inb L 0))) (.dma cc1_scoped10.sem) ((View.wordExact_bits rfl).reshape _ _) (View.wordExact_bits rfl) ⟨Or.inl rfl, trivial⟩)
    pure (⟨⟩ : PUnit)

def tailB (L : grid1.Coords) : Prog (TpuEff nD τ sig (Elt F) Λ₀ (.scVector ((L 0).castLE hcore1) ((L 1).castLE hsub1))) PUnit := do
  Prog.lift (.waitDma2 cc1_scoped10.sem (slotM 0 inb_S2x16x1280_S1x16x1280_0_0_0) (o3Chunk (k1_off218 L 480#32) (k1_off218_inb L 0)) ((View.wordExact_bits rfl).reshape _ _) (View.wordExact_bits rfl))
  Scf.Loop.for k1_t13_loop k1_t13_ok ⟨⟩ (k1_t13_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
  Prog.lift (.enqueueDma (slotM 1 inb_S2x16x1280_S1x16x1280_1_0_0) (.here (o3Chunk (k1_off218 L 496#32) (k1_off218_inb L 1))) (.dma cc1_scoped11.sem) ((View.wordExact_bits rfl).reshape _ _) (View.wordExact_bits rfl) ⟨Or.inl rfl, trivial⟩)
  Prog.lift (.waitDma2 cc1_scoped11.sem (slotM 1 inb_S2x16x1280_S1x16x1280_1_0_0) (o3Chunk (k1_off218 L 496#32) (k1_off218_inb L 1)) ((View.wordExact_bits rfl).reshape _ _) (View.wordExact_bits rfl))
  pure ⟨⟩

theorem restB_eq (v3 v4 : BitVec 32) : restB (F := F) L v3 v4 = (innerB (F := F) L v3 v4 >>= fun _ => tailB (F := F) L) := rfl

set_option maxRecDepth 65536 in
theorem part198_eq (v3 v4 : BitVec 32) :
    k1_part198_skel (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4
      = (do
          Prog.lift (.waitDma2 cc1_scoped4.sem
            (((rAW).slice (Rect.unit (s := S2x128x128) ![1, 0, 0] S1x128x128.size inb_S2x128x128_S1x128x128_1_0_0) (fun _ => rfl)).squeeze S128x128 squeezes_S1x128x128_S128x128)
            ((o2W).slice (Rect.unit (s := S8192x128) (k1_off109 L) S128x128.size (k1_off109_inb L)) (fun _ => rfl))
            ((View.wordExact_bits rfl).reshape _ _) (View.wordExact_bits rfl))
          innerB (F := F) L v3 v4) := rfl

set_option maxRecDepth 65536 in
theorem cc1_eq :
    cc1__sc_gather_out_skel (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11
      = (do
          let ⟨v2, v3, v4, c0_i32_9, c1_i32_11⟩ : Σ' (v2 : BitVec 32) (v3 : BitVec 32) (v4 : BitVec 32) (c0_i32_9 : BitVec 32), BitVec 32 ← k1_part195 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11
          k1_part196 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 c0_i32_9 c1_i32_11
          k1_part197 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2
          k1_part198 L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4
          tailB (F := F) L) := rfl

/-- The wait that opens the kernel's fourth part: the second output-word chunk's store. -/
def r4wait (L : grid1.Coords) : Prog (TpuEff nD τ sig (Elt F) Λ₀ (.scVector ((L 0).castLE hcore1) ((L 1).castLE hsub1))) PUnit :=
  Prog.lift (.waitDma2 cc1_scoped4.sem
    (((rAW).slice (Rect.unit (s := S2x128x128) ![1, 0, 0] S1x128x128.size inb_S2x128x128_S1x128x128_1_0_0) (fun _ => rfl)).squeeze S128x128 squeezes_S1x128x128_S128x128)
    ((o2W).slice (Rect.unit (s := S8192x128) (k1_off109 L) S128x128.size (k1_off109_inb L)) (fun _ => rfl))
    ((View.wordExact_bits rfl).reshape _ _) (View.wordExact_bits rfl))

/-- The fourth part and the tail, re-associated: the opening wait, then the stretch. -/
theorem part198_tail_eq (v3 v4 : BitVec 32) :
    (k1_part198 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 >>= fun _ => tailB (F := F) L)
      = (r4wait (F := F) L >>= fun _ => restB (F := F) L v3 v4) := by
  rw [k1_part198_eq_skeleton, part198_eq, restB_eq]
  unfold r4wait
  simp only [bind_assoc]

end Cert.Proof.KW.K1

end
-- ==== Proof.BwK1ADrain.lean ====
import proofs.«215896_g38397007626377_fold_wed_m_942_26_alg».proof.Proof.BwKISetup
import proofs.«215896_g38397007626377_fold_wed_m_942_26_alg».proof.Proof.Gen.Kernel.Skeleton
import proofs.«215896_g38397007626377_fold_wed_m_942_26_alg».proof.Proof.BwK1A

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

/-! ## The chunks' drain loops: one trip waits 16 times; the 256th wait hands every piece back -/

section DrainA

variable (m : (ℓ : Loc nD τ sig) → Buf (Elt F) ℓ) (d : Dev nD) (L : grid1.Coords)

/-- Before trip k of the drain loop: the batch with 16 k waits' units consumed, or, after the last, the semaphore at zero and every piece at its final contents. -/
def drainInvA0 (O : CellTallies nD τ sig (HIx 2)) (W : Waits sig (HIx 2)) (k : ℕ) (_ : Unit) : sProp 𝕄 :=
  iprop(levAts (K (F := F)).L (K (F := F)).lev ∗ ⌜k ≤ 16⌝ ∗ owesN (F := F) (thr d L) O W
    ∗ (if k < 16 then Transfers.Batch countersEmb (thr d L) (.dma cc1_scratch3.sem) (none : HIx 2) NA (DA m d ((L 0).castLE hcore1) ((L 1).castLE hsub1) (widL L) 0) 256 ((16 * k) * NA)
       else iprop(semVal (thr d L, SemLoc.dma cc1_scratch3.sem) 0 ∗ bigSep Finset.univ (DA m d ((L 0).castLE hcore1) ((L 1).castLE hsub1) (widL L) 0))))

set_option maxHeartbeats 4000000 in
theorem drainA0_step (O : CellTallies nD τ sig (HIx 2)) (hO : ∀ g, O g none = 0) (W : Waits sig (HIx 2)) (v2 c0 c1 : BitVec 32)
    (k : Fin k1_t3_loop.trips) (acc : Unit) :
    drainInvA0 m d L O W k acc ⊢ wp frame (wpE (defs₀ (F := F)) 𝒱₀ (thr d L) none) Set.univ
      (k1_t3_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 c0 c1 k acc)
      (drainInvA0 m d L O W (k.val + 1)) := by
  have hk : k.val < 16 := Nat.lt_of_lt_of_le k.isLt k1_t3_abs.2.1
  unfold k1_t3_body
  simp only [k1_part48_eq_skeleton]; unfold k1_part48_skel
  simp only [k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold k1_part33_skel k1_part34_skel k1_part35_skel k1_part36_skel k1_part37_skel k1_part38_skel k1_part39_skel k1_part40_skel k1_part41_skel k1_part42_skel k1_part43_skel k1_part44_skel k1_part45_skel k1_part46_skel k1_part47_skel
  simp only [Prog.lift, Prog.bind_op, Prog.bind_ret, Prog.pure_eq_ret]
  unfold drainInvA0
  simp only [if_pos hk]
  rw [show 16 * k.val = 16 * k.val + 0 from rfl]
  rcases Nat.lt_or_ge (k.val + 1) 16 with h1 | h1
  · simp only [if_pos h1]
    iintro ⟨#Hlv, -, HO, HB⟩
    iapply (waitSkip' (thr d L) cc1_scratch3.sem NA NA_pos (NA_eq _ _) (DA m d ((L 0).castLE hcore1) ((L 1).castLE hsub1) (widL L) 0) (16 * k.val + 0) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 1) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 2) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 3) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 4) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 5) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 6) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 7) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 8) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 9) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 10) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 11) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 12) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 13) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 14) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 15) (by omega) O hO W) $$ [HB HO]
    · isplitr; · iexact Hlv
      isplitl [HB]; · iexact HB
      iexact HO
    iintro ⟨HB, HO⟩
    rw [wp_ret]; imodintro
    isplitr; · iexact Hlv
    isplitr; · ipureintro; omega
    isplitl [HO]; · iexact HO
    rw [show 16 * (k.val + 1) = 16 * k.val + 15 + 1 from by omega]; iexact HB
  · simp only [if_neg (Nat.not_lt.mpr h1)]
    iintro ⟨#Hlv, -, HO, HB⟩
    iapply (waitSkip' (thr d L) cc1_scratch3.sem NA NA_pos (NA_eq _ _) (DA m d ((L 0).castLE hcore1) ((L 1).castLE hsub1) (widL L) 0) (16 * k.val + 0) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 1) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 2) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 3) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 4) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 5) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 6) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 7) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 8) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 9) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 10) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 11) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 12) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 13) (by omega) O hO W) $$ [HB HO]
    · isplitr; · iexact Hlv
      isplitl [HB]; · iexact HB
      iexact HO
    iintro ⟨HB, HO⟩
    iapply (waitSkip' (thr d L) cc1_scratch3.sem NA NA_pos (NA_eq _ _) (DA m d ((L 0).castLE hcore1) ((L 1).castLE hsub1) (widL L) 0) (16 * k.val + 14) (by omega) O hO W) $$ [HB HO]
    · isplitr; · iexact Hlv
      isplitl [HB]; · iexact HB
      iexact HO
    iintro ⟨HB, HO⟩
    iapply (waitLast' (thr d L) cc1_scratch3.sem NA NA_pos (NA_eq _ _) (DA m d ((L 0).castLE hcore1) ((L 1).castLE hsub1) (widL L) 0) (16 * k.val + 15) (by omega) O hO W) $$ [HB HO]
    · isplitr; · iexact Hlv
      isplitl [HB]; · iexact HB
      iexact HO
    iintro ⟨HD, Hsem, HO⟩
    rw [wp_ret]; imodintro
    isplitr; · iexact Hlv
    isplitr; · ipureintro; omega
    isplitl [HO]; · iexact HO
    isplitl [Hsem]; · iexact Hsem
    iexact HD

end DrainA

section DrainA1
variable (m : (ℓ : Loc nD τ sig) → Buf (Elt F) ℓ) (d : Dev nD) (L : grid1.Coords)

/-- Before trip k of the drain loop: the batch with 16 k waits' units consumed, or, after the last, the semaphore at zero and every piece at its final contents. -/
def drainInvA1 (O : CellTallies nD τ sig (HIx 2)) (W : Waits sig (HIx 2)) (k : ℕ) (_ : Unit) : sProp 𝕄 :=
  iprop(levAts (K (F := F)).L (K (F := F)).lev ∗ ⌜k ≤ 16⌝ ∗ owesN (F := F) (thr d L) O W
    ∗ (if k < 16 then Transfers.Batch countersEmb (thr d L) (.dma cc1_scratch4.sem) (none : HIx 2) NA (DA m d ((L 0).castLE hcore1) ((L 1).castLE hsub1) (widL L) 1) 256 ((16 * k) * NA)
       else iprop(semVal (thr d L, SemLoc.dma cc1_scratch4.sem) 0 ∗ bigSep Finset.univ (DA m d ((L 0).castLE hcore1) ((L 1).castLE hsub1) (widL L) 1))))

set_option maxHeartbeats 4000000 in
theorem drainA1_step (O : CellTallies nD τ sig (HIx 2)) (hO : ∀ g, O g none = 0) (W : Waits sig (HIx 2)) (v2 c0 c1 : BitVec 32)
    (k : Fin k1_t5_loop.trips) (acc : Unit) :
    drainInvA1 m d L O W k acc ⊢ wp frame (wpE (defs₀ (F := F)) 𝒱₀ (thr d L) none) Set.univ
      (k1_t5_body L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 k acc)
      (drainInvA1 m d L O W (k.val + 1)) := by
  have hk : k.val < 16 := Nat.lt_of_lt_of_le k.isLt k1_t5_abs.2.1
  unfold k1_t5_body
  simp only [k1_part80_eq_skeleton]; unfold k1_part80_skel
  simp only [k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton]
  unfold k1_part65_skel k1_part66_skel k1_part67_skel k1_part68_skel k1_part69_skel k1_part70_skel k1_part71_skel k1_part72_skel k1_part73_skel k1_part74_skel k1_part75_skel k1_part76_skel k1_part77_skel k1_part78_skel k1_part79_skel
  simp only [Prog.lift, Prog.bind_op, Prog.bind_ret, Prog.pure_eq_ret]
  unfold drainInvA1
  simp only [if_pos hk]
  rw [show 16 * k.val = 16 * k.val + 0 from rfl]
  rcases Nat.lt_or_ge (k.val + 1) 16 with h1 | h1
  · simp only [if_pos h1]
    iintro ⟨#Hlv, -, HO, HB⟩
    iapply (waitSkip' (thr d L) cc1_scratch4.sem NA NA_pos (NA_eq _ _) (DA m d ((L 0).castLE hcore1) ((L 1).castLE hsub1) (widL L) 1) (16 * k.val + 0) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 1) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 2) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 3) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 4) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 5) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 6) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 7) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 8) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 9) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 10) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 11) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 12) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 13) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 14) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 15) (by omega) O hO W) $$ [HB HO]
    · isplitr; · iexact Hlv
      isplitl [HB]; · iexact HB
      iexact HO
    iintro ⟨HB, HO⟩
    rw [wp_ret]; imodintro
    isplitr; · iexact Hlv
    isplitr; · ipureintro; omega
    isplitl [HO]; · iexact HO
    rw [show 16 * (k.val + 1) = 16 * k.val + 15 + 1 from by omega]; iexact HB
  · simp only [if_neg (Nat.not_lt.mpr h1)]
    iintro ⟨#Hlv, -, HO, HB⟩
    iapply (waitSkip' (thr d L) cc1_scratch4.sem NA NA_pos (NA_eq _ _) (DA m d ((L 0).castLE hcore1) ((L 1).castLE hsub1) (widL L) 1) (16 * k.val + 0) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 1) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 2) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 3) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 4) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 5) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 6) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 7) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 8) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 9) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 10) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 11) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 12) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 13) (by omega) O hO W) $$ [HB HO]
    · isplitr; · iexact Hlv
      isplitl [HB]; · iexact HB
      iexact HO
    iintro ⟨HB, HO⟩
    iapply (waitSkip' (thr d L) cc1_scratch4.sem NA NA_pos (NA_eq _ _) (DA m d ((L 0).castLE hcore1) ((L 1).castLE hsub1) (widL L) 1) (16 * k.val + 14) (by omega) O hO W) $$ [HB HO]
    · isplitr; · iexact Hlv
      isplitl [HB]; · iexact HB
      iexact HO
    iintro ⟨HB, HO⟩
    iapply (waitLast' (thr d L) cc1_scratch4.sem NA NA_pos (NA_eq _ _) (DA m d ((L 0).castLE hcore1) ((L 1).castLE hsub1) (widL L) 1) (16 * k.val + 15) (by omega) O hO W) $$ [HB HO]
    · isplitr; · iexact Hlv
      isplitl [HB]; · iexact HB
      iexact HO
    iintro ⟨HD, Hsem, HO⟩
    rw [wp_ret]; imodintro
    isplitr; · iexact Hlv
    isplitr; · ipureintro; omega
    isplitl [HO]; · iexact HO
    isplitl [Hsem]; · iexact Hsem
    iexact HD

end DrainA1

end Cert.Proof.KW.K1

end
-- ==== Proof.BwK1BEnd197.lean ====
/-
  The kernel from its third part to the end: the first noise-word chunk fired, the second output-word chunk drained and
  stored, then the noise-word stretch. When it ends the second half of the worker's output-word rows and all of its
  noise-word rows hold the lookups' values.
-/
import proofs.«215896_g38397007626377_fold_wed_m_942_26_alg».proof.Proof.BwK1BEndEq
import proofs.«215896_g38397007626377_fold_wed_m_942_26_alg».proof.Proof.BwK1ADrain
import proofs.«215896_g38397007626377_fold_wed_m_942_26_alg».proof.Proof.BwK1AJoin

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (m : (ℓ : Loc nD τ sig) → Buf (Elt F) ℓ)
variable (d : Dev nD) (L : grid1.Coords)

omit [FloatOps F] in
theorem slotsB_sdiff : (Finset.univ : Finset S2x16x1280.Idx) \ remB 0 0 = remB 1 0 := by
  ext y
  have h0 : (y 0).val < 2 := (y 0).isLt
  rw [Finset.mem_sdiff, mem_remB, mem_remB]
  simp only [Finset.mem_univ, true_and]
  omega
omit [FloatOps F] in
theorem slotsB_union : remB 0 0 ∪ remB 1 0 = (Finset.univ : Finset S2x16x1280.Idx) := by
  ext y
  have h0 : (y 0).val < 2 := (y 0).isLt
  rw [Finset.mem_union, mem_remB, mem_remB]
  simp only [Finset.mem_univ, iff_true]
  omega
omit [FloatOps F] in
theorem slotsB_disjoint : Disjoint (remB 0 0) (remB 1 0) := by
  rw [Finset.disjoint_left]; intro y h1 h2; rw [mem_remB] at h1 h2; omega

omit [FloatOps F] in
theorem pts_slotA (b : ℕ) (hin) (f : Buf (Elt F) ((thr d L).loc cc1_scratch1)) :
    ((slotSrcA ![b, 0, 0] hin).view.loc (thr d L) ↦[(slotSrcA ![b, 0, 0] hin).view.set]{fullShare} f : sProp 𝕄)
      = (thr d L).loc cc1_scratch1 ↦[remA b 0]{fullShare} f := by
  rw [slotSrcA_set]
omit [FloatOps F] in
theorem pts_rowsA (off : Fin 2 → ℕ) (hin) (r0 : ℕ) (hoff : off = ![r0, 0]) (f : Buf (Elt F) (o2Loc d)) :
    ((outDstA off hin).view.loc (thr d L) ↦[(outDstA off hin).view.set]{fullShare} f : sProp 𝕄)
      = o2Loc d ↦[rowsA r0]{fullShare} f := by
  subst hoff
  rw [outDstA_set]
omit [FloatOps F] in
theorem off109 : k1_off109 L = ![256 * widL L + 128 * 1, 0] := by
  rw [k1_off109_eq L]
  rw [show 512 * (L 1).val + 256 * (L 0).val + 128 = 256 * widL L + 128 * 1 from by unfold widL; omega]

/-- What the store of slot b leaves in its 128 rows, read where the store names them. -/
theorem store_rowsA (w b : ℕ) (hw : w < 32) (hb : b < 2) (off : Fin 2 → ℕ) (hoff : off = ![256 * w + 128 * b, 0]) (hin) (hin')
    (f0 : Buf (Elt F) (o2Loc d)) :
    ∀ y ∈ (outDstA off hin').view.set,
      (outDstA off hin').view.writes (Elt F) f0 [⟨Rect.whole S128x128,
        (ReadAs.same : ReadAs (Elt F) S128x128 .f32 S128x128 .f32).apply (View.read (Elt F) (slotSrcA ![b, 0, 0] hin).view (FA m d (cV L) (jV L) w))⟩] y
        = G2 m d y := by
  subst hoff
  intro y hy
  obtain ⟨x, -, rfl⟩ := Finset.mem_map.mp hy
  rw [View.writes_singleton]
  have he : ((outDstA ![256 * w + 128 * b, 0] hin').view.slice (Rect.whole S128x128)).emb x = (outDstA ![256 * w + 128 * b, 0] hin').view.emb x :=
    congrArg (outDstA ![256 * w + 128 * b, 0] hin').view.emb (Rect.emb_whole_apply S128x128 x)
  have e1 := fun p => View.write_emb_of_mem (Val := Elt F) (v := (outDstA ![256 * w + 128 * b, 0] hin').view.slice (Rect.whole S128x128)) f0 p (M := Finset.univ) (Finset.mem_univ x)
  rw [he] at e1
  have e2 := storeA_val m d (cV L) (jV L) w b hw hb hin hin' f0 _ hy
  rw [View.write_emb_of_mem _ _ (Finset.mem_univ x)] at e2
  rw [e1]
  exact e2

set_option maxHeartbeats 4000000 in
theorem rest_from_197 (hpre : PreOK m) (O : CellTallies nD τ sig (HIx 2)) (W : Waits sig (HIx 2))
    (hO : ∀ g, O g none = 0) (q2 : PosShare TreeShare) (v2 v3 v4 : BitVec 32) (fB : Buf (Elt F) ((thr d L).loc cc1_scratch2)) :
    iprop(levAts (K (F := F)).L (K (F := F)).lev ∗ owesN (F := F) (thr d L) O W
        ∗ ((thr d L).loc cc1_scratch0 ↦{fullShare} wordsAt d (cV L) (jV L) (m (a2Loc d)) (B0 L + 320 * 0) (B0_le L 0 (by omega)))
        ∗ (∃ q : PosShare TreeShare, a4Loc d ↦{q} m (a4Loc d)) ∗ (a2Loc d ↦{q2} m (a2Loc d))
        ∗ semVal (thr d L, SemLoc.dma cc1_scratch3.sem) 0
        ∗ Transfers.Batch countersEmb (thr d L) (.dma cc1_scratch4.sem) (none : HIx 2) NA (DA m d (cV L) (jV L) (widL L) 1) 256 0
        ∗ ((thr d L).loc cc1_scratch2 ↦{fullShare} fB)
        ∗ (o2Loc d ↦[rowsA (256 * widL L + 128 * 1)]{fullShare} m (o2Loc d))
        ∗ (o3Loc d ↦[blkB (wid (cL L) (sL L))]{fullShare} m (o3Loc d))
        ∗ semVal (thr d L, SemLoc.dma cc1_scoped4.sem) 0 ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0)
      ⊢ wp frame (wpE (defs₀ (F := F)) 𝒱₀ (thr d L) none) Set.univ
          (k1_part197 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 >>= fun _ => k1_part198 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v3 v4 >>= fun _ => tailB (F := F) L)
          (fun _ => iprop((o2Loc d ↦[rowsA (256 * widL L + 128 * 1)]{fullShare} G2 m d)
            ∗ (∃ f, (thr d L).loc cc1_scratch1 ↦[remA 1 0]{fullShare} f)
            ∗ (o3Loc d ↦[blkB (wid (cL L) (sL L))]{fullShare} G3 m d)
            ∗ (∃ f, (thr d L).loc cc1_scratch2 ↦{fullShare} f) ∗ (∃ f, (thr d L).loc cc1_scratch0 ↦{fullShare} f)
            ∗ semVal (thr d L, SemLoc.dma cc1_scratch3.sem) 0 ∗ semVal (thr d L, SemLoc.dma cc1_scratch4.sem) 0
            ∗ semVal (thr d L, SemLoc.dma cc1_scoped4.sem) 0 ∗ semVal (thr d L, SemLoc.dma cc1_scoped5.sem) 0 ∗ semVal (thr d L, SemLoc.dma cc1_scoped6.sem) 0 ∗ semVal (thr d L, SemLoc.dma cc1_scoped7.sem) 0 ∗ semVal (thr d L, SemLoc.dma cc1_scoped8.sem) 0 ∗ semVal (thr d L, SemLoc.dma cc1_scoped9.sem) 0 ∗ semVal (thr d L, SemLoc.dma cc1_scoped10.sem) 0 ∗ semVal (thr d L, SemLoc.dma cc1_scoped11.sem) 0
            ∗ owesN (F := F) (thr d L) O W)) := by
  have hnz : ∀ i, (m (a2Loc d) i).toNat < 1000000 := (hpre d).2.2
  have e4 : Scf.trips k1_t4_loop.lb k1_t4_loop.ub k1_t4_loop.st = 20 := by decide
  have e5 : ¬ Scf.trips k1_t5_loop.lb k1_t5_loop.ub k1_t5_loop.st < 16 := by decide
  rw [part198_tail_eq]
  simp only [k1_part197_eq_skeleton]
  unfold k1_part197_skel r4wait restB
  rw [blkB_eq L, ← pts_a2 (F := F) d L q2 (m (a2Loc d))]
  have e0 : ((16 * 0) * NB) = 0 := by simp
  have e6 : Scf.trips k1_t6_loop.lb k1_t6_loop.ub k1_t6_loop.st = 20 := by decide
  have e7 : Scf.trips k1_t7_loop.lb k1_t7_loop.ub k1_t7_loop.st = 15 := by decide
  have e12 : ¬ Scf.trips k1_t12_loop.lb k1_t12_loop.ub k1_t12_loop.st < 20 := by decide
  have e13 : ¬ Scf.trips k1_t13_loop.lb k1_t13_loop.ub k1_t13_loop.st < 20 := by decide
  have eW1 := chunkW_eq m d L (2 * 0 + 1) (by omega)
  have eW30 := chunkW_eq m d L (2 * 15) (by omega)
  have eW31 := chunkW_eq m d L (2 * 15 + 1) (by omega)
  iintro ⟨#Hlv, HO, Hidx, Htb, Ha2, Hsem3, HBA, HrB, Ho2, Ho3, Hs4, Hs5, Hs6, Hs7, Hs8, Hs9, Hs10, Hs11⟩
  ihave Hmw := ((K (F := F)).mayWaits_none (thr := thr d L) hO) $$ Hlv
  -- the rows scratch of the noise words: its two slots
  ihave HrB' := (pointsTo_split_subset (S := Finset.univ) (I := remB 0 0) (Finset.subset_univ _)).1 $$ HrB
  icases HrB' with ⟨Hslot0, Hslot1⟩
  rw [slotsB_sdiff]
  -- the first noise-word chunk into slot 0
  imod (Transfers.batch_alloc' (Lvl := ℕ) countersEmb (thr d L) (none : HIx 2) NB
    (DB d (cV L) (jV L) 0 (m (a4Loc d)) (wordsAt d (cV L) (jV L) (m (a2Loc d)) (B0 L + 320 * 0) (B0_le L 0 (by omega))))
    (sm := .dma cc1_scratch3.sem) (E := Set.univ)) $$ Hsem3 with HB0
  rw [wp_bind]
  sl_for (fireInvB d L 0 cc1_scratch3.sem (m (a4Loc d)) (wordsAt d (cV L) (jV L) (m (a2Loc d)) (B0 L + 320 * 0) (B0_le L 0 (by omega))) fB) $$ [Hidx Htb Hslot0 HB0]
  case region => exact fun k acc => fire_trip_t4 d L _ _ _ (wordsAt_lt d (cV L) (jV L) _ _ _ hnz) v2 k acc
  · unfold fireInvB
    simp only [Nat.mul_zero]
    isplitl [Hidx]; · iexact Hidx
    isplitl [Htb]; · iexact Htb
    isplitl [Hslot0]; · iexact Hslot0
    iexact HB0
  iintro %_ HI
  unfold fireInvB
  icases HI with ⟨Hidx, Htb, -, HB0⟩
  rw [e4]
  -- the second output-word chunk: its copies have all landed in slot 1
  sl_for (drainInvA1 m d L O W) $$ [HBA HO]
  case region => exact fun k acc => drainA1_step m d L O hO W v2 0#32 0#32 k acc
  · unfold drainInvA1
    rw [if_pos (by decide), show (16 * 0) * NA = 0 from by simp]
    isplitr; · iexact Hlv
    isplitr; · ipureintro; omega
    isplitl [HO]; · iexact HO
    iexact HBA
  iintro %_ HI
  unfold drainInvA1
  rw [if_neg e5]
  icases HI with ⟨-, -, ⟨%W1, %hW1, HO⟩, Hsem4, HD⟩
  ihave HslotA := (Entails.of_eq (joinA (F := F) m d (cV L) (jV L) (widL L) 1)) $$ HD
  ihave HslotA' := (Entails.of_eq (pts_slotA (F := F) d L 1 inb_S2x128x128_S1x128x128_1_0_0 _).symm) $$ HslotA
  ihave Ho2' := (Entails.of_eq (pts_rowsA (F := F) d L (k1_off109 L) (k1_off109_inb L) _ (off109 L) _).symm) $$ Ho2
  sl_exec (disch := first | exact View.amount_pos _ _ (show 0 < S320.numel by decide) | exact View.amount_pos _ _ (show 0 < S16x1280.numel by decide) | exact View.amount_pos _ _ (show 0 < S128x128.numel by decide))
  unfold rest_from_197.sl.dma0
  -- the rows of the second output-word chunk at the lookup's values
  ihave Ho2 := (Entails.of_eq ((pointsTo_congr (store_rowsA m d L (widL L) 1 (widL_lt L) (by omega) (k1_off109 L) (off109 L) inb_S2x128x128_S1x128x128_1_0_0 (k1_off109_inb L) _)).trans
      (pts_rowsA (F := F) d L (k1_off109 L) (k1_off109_inb L) _ (off109 L) (G2 m d)))) $$ Ho2'
  ihave HslotA := (Entails.of_eq (pts_slotA (F := F) d L 1 inb_S2x128x128_S1x128x128_1_0_0 _)) $$ HslotA'
  -- the noise-word stretch
  unfold rest_from_197.sl.dma0_1
  have hfI1 := fetch_val (F := F) d (cV L) (jV L) (m (a2Loc d)) (wordsAt d (cV L) (jV L) (m (a2Loc d)) (B0 L + 320 * 0) (B0_le L 0 (by omega))) (k1_off110 L) (k1_off110_inb L)
    (B0 L + 320 * (2 * 0 + 1)) (B0_le L _ (by omega)) (off110 L)
  ihave Hidx1 := (Entails.of_eq (congrArg (fun f => ((idW).view.loc (thr d L) ↦{fullShare} f : sProp 𝕄)) hfI1)) $$ Hidx
  -- chunk 1 into slot 1
  imod (Transfers.batch_alloc' (Lvl := ℕ) countersEmb (thr d L) (none : HIx 2) NB
    (DB d (cV L) (jV L) 1 (m (a4Loc d)) (wordsAt d (cV L) (jV L) (m (a2Loc d)) (B0 L + 320 * (2 * 0 + 1)) (B0_le L _ (by omega))))
    (sm := .dma cc1_scratch4.sem) (E := Set.univ)) $$ Hsem4 with HB1
  rw [wp_bind]
  sl_for (fireInvB d L 1 cc1_scratch4.sem (m (a4Loc d)) (wordsAt d (cV L) (jV L) (m (a2Loc d)) (B0 L + 320 * (2 * 0 + 1)) (B0_le L _ (by omega))) fB) $$ [Hidx1 Htb Hslot1 HB1]
  case region => exact fun k acc => fire_trip_t6 d L _ _ _ (wordsAt_lt d (cV L) (jV L) _ _ _ hnz) v3 v4 k acc
  · unfold fireInvB
    simp only [Nat.mul_zero]
    isplitl [Hidx1]; · iexact Hidx1
    isplitl [Htb]; · iexact Htb
    isplitl [Hslot1]; · iexact Hslot1
    iexact HB1
  iintro %_ HI
  unfold fireInvB
  icases HI with ⟨Hidx, Htb, -, HB1⟩
  rw [e6]
  -- the pair loop
  sl_for (pairInv m d L O W q2) $$ [HO HB0 HB1 Hidx Htb Ha2 Ho3 Hs6 Hs7 Hs8 Hs9]
  case region => exact fun k acc => pair_trip m d L hnz O W hO q2 v3 v4 k acc
  · unfold pairInv
    rw [eW1, chunkW_eq m d L (2 * 0) (by omega), show W0 L + 16 * (2 * 0) = W0 L from by omega, rowsFrom_empty, pointsTo_empty]
    isplitr; · iexact Hlv
    isplitl [HO]
    · iexists _; isplitr
      rotate_left
      · iexact HO
      · ipureintro; exact wok_ins2 hW1 _ _
    isplitl [HB0]; · iexact HB0
    isplitl [HB1]; · iexact HB1
    isplitl [Hidx]; · iexists _; iexact Hidx
    isplitl [Htb]; · iexact Htb
    isplitl [Ha2]; · iexact Ha2
    isplitr; · iempintro
    isplitl [Ho3]; · iexact Ho3
    isplitl [Hs6]; · iexact Hs6
    isplitl [Hs7]; · iexact Hs7
    isplitl [Hs8]; · iexact Hs8
    iexact Hs9
  iintro %_ HI
  unfold pairInv
  rw [e7]
  icases HI with ⟨-, HO, HB0, HB1, ⟨%fi2, Hidx⟩, Htb, Ha2, Hdone, Htodo, Hs6, Hs7, Hs8, Hs9⟩
  -- chunk 30: drained, stored
  sl_for (drainInvB d L 0 cc1_scratch3.sem (m (a4Loc d)) (chunkW m d L (2 * 15)) O W) $$ [HB0 HO]
  case region => exact fun k acc => drain_trip_t12 d L _ _ O W hO v3 v4 k acc
  · unfold drainInvB
    rw [if_pos (by decide), e0]
    isplitr; · iexact Hlv
    isplitl [HB0]; · iexact HB0
    iexact HO
  iintro %_ HI
  unfold drainInvB
  rw [if_neg e12]
  icases HI with ⟨-, ⟨HD, Hsem3⟩, %W1, %hW1, HO⟩
  ihave Hslot := (Entails.of_eq (joinB (F := F) d (cV L) (jV L) 0 _ _)) $$ HD
  rw [eW30]
  ihave Hslot' := (Entails.of_eq (pts_slot (F := F) d L 0 inb_S2x16x1280_S1x16x1280_0_0_0 _).symm) $$ Hslot
  ihave Hsp := (pointsTo_split_subset (rowsFrom_sub (W0 L + 16 * (2 * 15)) (W0 L + 16 * (2 * 15) + 16) (W0 L + 512) (by omega))).1 $$ Htodo
  icases Hsp with ⟨Hchunk, Htodo⟩
  rw [rowsFrom_sdiff (W0 L + 16 * (2 * 15)) (W0 L + 16 * (2 * 15) + 16) (W0 L + 512) (by omega)]
  ihave Hchunk' := (Entails.of_eq (pts_chunk (F := F) d L (k1_off218 L 480#32) (k1_off218_inb L 0) _ (off218_0 L) _).symm) $$ Hchunk
  sl_exec (disch := first | exact View.amount_pos _ _ (show 0 < S320.numel by decide) | exact View.amount_pos _ _ (show 0 < S16x1280.numel by decide))
  unfold rest_from_197.sl.dma0_2
  ihave Hchunk := (Entails.of_eq ((pointsTo_congr (store_val m d (cV L) (jV L) 0 inb_S2x16x1280_S1x16x1280_0_0_0 (k1_off218 L 480#32) (k1_off218_inb L 0)
      (W0 L + 16 * (2 * 15)) (B0 L + 320 * (2 * 15)) (B0_le L _ (by omega)) (off218_0 L) (B0_eq L _) _)).trans
      (pts_chunk (F := F) d L (k1_off218 L 480#32) (k1_off218_inb L 0) _ (off218_0 L) (G3 m d)))) $$ Hchunk'
  icombine Hdone Hchunk as Hdc
  ihave Hdone := (pointsTo_union (rowsFrom_disjoint (W0 L) (W0 L + 16 * (2 * 15)) (W0 L + 16 * (2 * 15) + 16))).2 $$ Hdc
  rw [rowsFrom_union (W0 L) (W0 L + 16 * (2 * 15)) (W0 L + 16 * (2 * 15) + 16) (by omega) (by omega)]
  ihave Hslot0 := (Entails.of_eq (pts_slot (F := F) d L 0 inb_S2x16x1280_S1x16x1280_0_0_0 _)) $$ Hslot'
  -- chunk 31: drained, stored
  sl_for (drainInvB d L 1 cc1_scratch4.sem (m (a4Loc d)) (chunkW m d L (2 * 15 + 1)) O W) $$ [HB1 HO]
  case region => exact fun k acc => drain_trip_t13 d L _ _ O W hO k acc
  · unfold drainInvB
    rw [if_pos (by decide), e0]
    isplitr; · iexact Hlv
    isplitl [HB1]; · iexact HB1
    iexists _; isplitr
    rotate_left
    · iexact HO
    · ipureintro; exact wok_ins1 hW1 _
  iintro %_ HI
  unfold drainInvB
  rw [if_neg e13]
  icases HI with ⟨-, ⟨HD, Hsem4⟩, %W2, %hW2, HO⟩
  ihave Hslot := (Entails.of_eq (joinB (F := F) d (cV L) (jV L) 1 _ _)) $$ HD
  rw [eW31]
  ihave Hslot' := (Entails.of_eq (pts_slot (F := F) d L 1 inb_S2x16x1280_S1x16x1280_1_0_0 _).symm) $$ Hslot
  rw [show W0 L + 16 * (2 * 15) + 16 = W0 L + 16 * (2 * 15 + 1) from by omega]
  ihave Hsp := (pointsTo_split_subset (rowsFrom_sub (W0 L + 16 * (2 * 15 + 1)) (W0 L + 16 * (2 * 15 + 1) + 16) (W0 L + 512) (by omega))).1 $$ Htodo
  icases Hsp with ⟨Hchunk, -⟩
  ihave Hchunk' := (Entails.of_eq (pts_chunk (F := F) d L (k1_off218 L 496#32) (k1_off218_inb L 1) _ (off218_1 L) _).symm) $$ Hchunk
  sl_exec (disch := first | exact View.amount_pos _ _ (show 0 < S320.numel by decide) | exact View.amount_pos _ _ (show 0 < S16x1280.numel by decide))
  sl_step
  unfold rest_from_197.sl.dma0_3
  ihave Hchunk := (Entails.of_eq ((pointsTo_congr (store_val m d (cV L) (jV L) 1 inb_S2x16x1280_S1x16x1280_1_0_0 (k1_off218 L 496#32) (k1_off218_inb L 1)
      (W0 L + 16 * (2 * 15 + 1)) (B0 L + 320 * (2 * 15 + 1)) (B0_le L _ (by omega)) (off218_1 L) (B0_eq L _) _)).trans
      (pts_chunk (F := F) d L (k1_off218 L 496#32) (k1_off218_inb L 1) _ (off218_1 L) (G3 m d)))) $$ Hchunk'
  icombine Hdone Hchunk as Hdc
  ihave Hdone := (pointsTo_union (rowsFrom_disjoint (W0 L) (W0 L + 16 * (2 * 15 + 1)) (W0 L + 16 * (2 * 15 + 1) + 16))).2 $$ Hdc
  rw [rowsFrom_union (W0 L) (W0 L + 16 * (2 * 15 + 1)) (W0 L + 16 * (2 * 15 + 1) + 16) (by omega) (by omega),
    show W0 L + 16 * (2 * 15 + 1) + 16 = W0 L + 512 from by omega]
  ihave Hslot1 := (Entails.of_eq (pts_slot (F := F) d L 1 inb_S2x16x1280_S1x16x1280_1_0_0 _)) $$ Hslot'
  icombine Hslot0 Hslot1 as Hg
  ihave HrB := (pointsTo_join slotsB_disjoint) $$ Hg
  rw [slotsB_union, ← blkB_eq L]
  isplitl [Ho2]; · iexact Ho2
  isplitl [HslotA]; · iexists _; iexact HslotA
  isplitl [Hdone]; · iexact Hdone
  isplitl [HrB]; · iexists _; iexact HrB
  isplitl [Hidx]; · iexists _; iexact Hidx
  isplitl [Hsem3]; · iexact Hsem3
  isplitl [Hsem4]; · iexact Hsem4
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iexists _; isplitr
  rotate_left
  · iexact HO
  · ipureintro; exact wok_ins1 hW2 _

end Cert.Proof.KW.K1

end
-- ==== Proof.BwK1BPart196.lean ====
/-
  The kernel's second part: the first output-word chunk drained and stored, the first noise-word chunk's index words
  fetched.
-/
import proofs.«215896_g38397007626377_fold_wed_m_942_26_alg».proof.Proof.BwK1BEnd197

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable [FloatOps F]
variable (m : (ℓ : Loc nD τ sig) → Buf (Elt F) ℓ)
variable (d : Dev nD) (L : grid1.Coords)

omit [FloatOps F] in
theorem off72 : k1_off72 L = ![256 * widL L + 128 * 0, 0] := by
  rw [k1_off72_eq L]
  rw [show 512 * (L 1).val + 256 * (L 0).val = 256 * widL L + 128 * 0 from by unfold widL; omega]
omit [FloatOps F] in
theorem off73 : k1_off73 L = ![B0 L + 320 * 0] := by
  rw [k1_off73_eq L]
  rw [show 20480 * (L 1).val + 10240 * (L 0).val = B0 L + 320 * 0 from by unfold B0; omega]

omit [FloatOps F] in
theorem pts_idx (f : Buf (Elt F) ((thr d L).loc cc1_scratch0)) :
    ((idW).view.loc (thr d L) ↦{fullShare} f : sProp 𝕄) = (thr d L).loc cc1_scratch0 ↦{fullShare} f := rfl

set_option maxHeartbeats 4000000 in
theorem wp_part196 (O : CellTallies nD τ sig (HIx 2)) (hO : ∀ g, O g none = 0) (W : Waits sig (HIx 2)) (v2 c0 c1 : BitVec 32)
    (q2 : PosShare TreeShare) (fI : Buf (Elt F) ((thr d L).loc cc1_scratch0)) :
    iprop(levAts (K (F := F)).L (K (F := F)).lev ∗ owesN (F := F) (thr d L) O W
        ∗ Transfers.Batch countersEmb (thr d L) (.dma cc1_scratch3.sem) (none : HIx 2) NA (DA m d (cV L) (jV L) (widL L) 0) 256 0
        ∗ (o2Loc d ↦[rowsA (256 * widL L + 128 * 0)]{fullShare} m (o2Loc d))
        ∗ ((thr d L).loc cc1_scratch0 ↦{fullShare} fI)
        ∗ (a2Loc d ↦{q2} m (a2Loc d))
        ∗ semVal (thr d L, SemLoc.dma cc1_scoped2.sem) 0 ∗ semVal (thr d L, SemLoc.dma cc1_scoped3.sem) 0)
      ⊢ wp frame (wpE (defs₀ (F := F)) 𝒱₀ (thr d L) none) Set.univ
          (k1_part196 (F := F) L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 v2 c0 c1)
          (fun _ => iprop(owesN (F := F) (thr d L) O W
            ∗ semVal (thr d L, SemLoc.dma cc1_scratch3.sem) 0
            ∗ ((thr d L).loc cc1_scratch1 ↦[remA 0 0]{fullShare} FA m d (cV L) (jV L) (widL L))
            ∗ (o2Loc d ↦[rowsA (256 * widL L + 128 * 0)]{fullShare} G2 m d)
            ∗ ((thr d L).loc cc1_scratch0 ↦{fullShare} wordsAt d (cV L) (jV L) (m (a2Loc d)) (B0 L + 320 * 0) (B0_le L 0 (by omega)))
            ∗ (a2Loc d ↦{q2} m (a2Loc d))
            ∗ semVal (thr d L, SemLoc.dma cc1_scoped2.sem) 0 ∗ semVal (thr d L, SemLoc.dma cc1_scoped3.sem) 0)) := by
  have e3 : ¬ Scf.trips k1_t3_loop.lb k1_t3_loop.ub k1_t3_loop.st < 16 := by decide
  simp only [k1_part196_eq_skeleton]
  unfold k1_part196_skel
  rw [← pts_a2 (F := F) d L q2 (m (a2Loc d))]
  iintro ⟨#Hlv, HO, HBA, Ho2, Hidx, Ha2, Hs2, Hs3⟩
  ihave Hmw := ((K (F := F)).mayWaits_none (thr := thr d L) hO) $$ Hlv
  -- the first output-word chunk: its copies have all landed in slot 0
  sl_for (drainInvA0 m d L O W) $$ [HBA HO]
  case region => exact fun k acc => drainA0_step m d L O hO W v2 c0 c1 k acc
  · unfold drainInvA0
    rw [if_pos (by decide), show (16 * 0) * NA = 0 from by simp]
    isplitr; · iexact Hlv
    isplitr; · ipureintro; omega
    isplitl [HO]; · iexact HO
    iexact HBA
  iintro %_ HI
  unfold drainInvA0
  rw [if_neg e3]
  icases HI with ⟨-, -, ⟨%W1, %hW1, HO⟩, Hsem3, HD⟩
  ihave HslotA := (Entails.of_eq (joinA (F := F) m d (cV L) (jV L) (widL L) 0)) $$ HD
  ihave HslotA' := (Entails.of_eq (pts_slotA (F := F) d L 0 inb_S2x128x128_S1x128x128_0_0_0 _).symm) $$ HslotA
  ihave Ho2' := (Entails.of_eq (pts_rowsA (F := F) d L (k1_off72 L) (k1_off72_inb L) _ (off72 L) _).symm) $$ Ho2
  ihave Hidx' := (Entails.of_eq (pts_idx (F := F) d L fI).symm) $$ Hidx
  sl_exec (disch := first | exact View.amount_pos _ _ (show 0 < S320.numel by decide) | exact View.amount_pos _ _ (show 0 < S16x1280.numel by decide) | exact View.amount_pos _ _ (show 0 < S128x128.numel by decide))
  sl_step
  unfold wp_part196.sl.dma0 wp_part196.sl.dma0_1
  -- the rows of the first chunk at the lookup's values; the index scratch at the first noise-word chunk's words
  ihave Ho2 := (Entails.of_eq ((pointsTo_congr (store_rowsA m d L (widL L) 0 (widL_lt L) (by omega) (k1_off72 L) (off72 L) inb_S2x128x128_S1x128x128_0_0_0 (k1_off72_inb L) _)).trans
      (pts_rowsA (F := F) d L (k1_off72 L) (k1_off72_inb L) _ (off72 L) (G2 m d)))) $$ Ho2'
  ihave HslotA := (Entails.of_eq (pts_slotA (F := F) d L 0 inb_S2x128x128_S1x128x128_0_0_0 _)) $$ HslotA'
  have hfI := fetch_val (F := F) d (cV L) (jV L) (m (a2Loc d)) fI (k1_off73 L) (k1_off73_inb L)
    (B0 L + 320 * 0) (B0_le L 0 (by omega)) (off73 L)
  ihave Hidx := (Entails.of_eq (congrArg (fun f => ((idW).view.loc (thr d L) ↦{fullShare} f : sProp 𝕄)) hfI)) $$ Hidx'
  isplitl [HO]
  · iexists _; isplitr
    rotate_left
    · iexact HO
    · ipureintro; exact wok_ins2 hW1 _ _
  isplitl [Hsem3]; · iexact Hsem3
  isplitl [HslotA]; · iexact HslotA
  isplitl [Ho2]; · iexact Ho2
  isplitl [Hidx]; · iexact Hidx
  isplitl [Ha2]; · iexact Ha2
  isplitl [Hs2]; · iexact Hs2
  iexact Hs3

end Cert.Proof.KW.K1

end
-- ==== Proof.BwK1Body.lean ====
/-
  The second kernel's task on one vector subcore, whole: the two chunks of the output words fetched and fired, each
  drained and stored into its half of the worker's rows of the first result while the noise words' chunks go through
  the two slots of the wide scratch into the worker's rows of the second result.
-/
import proofs.«215896_g38397007626377_fold_wed_m_942_26_alg».proof.Proof.BwKISetup
import proofs.«215896_g38397007626377_fold_wed_m_942_26_alg».proof.Proof.Gen.Kernel.Skeleton
import proofs.«215896_g38397007626377_fold_wed_m_942_26_alg».proof.Proof.BwK1A
import proofs.«215896_g38397007626377_fold_wed_m_942_26_alg».proof.Proof.BwK1AJoin
import proofs.«215896_g38397007626377_fold_wed_m_942_26_alg».proof.Proof.BwK1AP195
import proofs.«215896_g38397007626377_fold_wed_m_942_26_alg».proof.Proof.BwK1BPart196
import proofs.«215896_g38397007626377_fold_wed_m_942_26_alg».proof.Proof.BwK1BEndEq
import proofs.«215896_g38397007626377_fold_wed_m_942_26_alg».proof.Proof.BwK1BEnd197

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

/-! ## The task on one vector subcore, whole -/

section Body

variable (m : (ℓ : Loc nD τ sig) → Buf (Elt F) ℓ) [FloatOps F]

omit [FloatOps F] in
theorem slots_union : remA 0 0 ∪ remA 1 0 = (Finset.univ : Finset S2x128x128.Idx) := by
  ext y
  have h0 : (y 0).val < 2 := (y 0).isLt
  rw [Finset.mem_union, mem_remA, mem_remA]
  simp only [Finset.mem_univ, iff_true]
  omega
omit [FloatOps F] in
theorem slots_disjoint : Disjoint (remA 0 0) (remA 1 0) := by
  rw [Finset.disjoint_left]; intro y hy hy'
  rw [mem_remA] at hy hy'; omega

set_option maxHeartbeats 4000000 in
theorem tile_body (hpre : PreOK m) (d : Dev nD) (L : grid1.Coords) (O : CellTallies nD τ sig (HIx 2)) (W : Waits sig (HIx 2)) (hO : ∀ g, O g none = 0) :
  iprop(levAts (K (F := F)).L (K (F := F)).lev ∗ emp ∗ inTile m 1 d (cL L) (sL L) ∗ scopedBufs (thr d L) ∗ scopedSems0 (thr d L) ∗ owes (thr d L) O W)
    ⊢ wp frame (wpE (defs₀ (F := F)) 𝒱₀ (thr d L) none) Set.univ
        (cc1__sc_gather_out L a1W (Memref.isWhole_whole _) a2W (Memref.isWhole_whole _) tbW (Memref.isWhole_whole _) o2W (Memref.isWhole_whole _) o3W (Memref.isWhole_whole _) idW (Memref.isWhole_whole _) rAW (Memref.isWhole_whole _) rBW (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11)
        fun _ => iprop(outTile m 1 d (cL L) (sL L) ∗ scopedBufs (thr d L) ∗ scopedSems0 (thr d L) ∗ ∃ W', ⌜∀ p ∈ W', p ∈ W ∨ p.2 = none⌝ ∗ owes (thr d L) O W') := by
  have hw := widL_lt L
  simp only [cc1__sc_gather_out_eq_skeleton]
  rw [cc1_eq (F := F) L]
  rw [(K (F := F)).scopedBufs_V (Val := Elt F) (Name := ℕ) (U := UU) (facts (F := F)) d ((L 0).castLE hcore1) ((L 1).castLE hsub1),
    SparseCore.Cfg.scopedSems0_V (Val := Elt F) (Name := ℕ) (U := UU) d ((L 0).castLE hcore1) ((L 1).castLE hsub1),
    ownSems0_V (F := F) d ((L 0).castLE hcore1) ((L 1).castLE hsub1), ownBufs_V (F := F) d ((L 0).castLE hcore1) ((L 1).castLE hsub1)]
  show iprop(_ ∗ _ ∗ ((a1Loc d ↦{qT (cL L).val (sL L).val} m (a1Loc d)) ∗ (a2Loc d ↦{qT (cL L).val (sL L).val} m (a2Loc d)) ∗ (a4Loc d ↦{qT (cL L).val (sL L).val} m (a4Loc d))
      ∗ (o2Loc d ↦[blkA (wid (cL L) (sL L))]{fullShare} m (o2Loc d)) ∗ (o3Loc d ↦[blkB (wid (cL L) (sL L))]{fullShare} m (o3Loc d))) ∗ _) ⊢ wp _ _ _ _
    (fun _ => iprop(((o2Loc d ↦[blkA (wid (cL L) (sL L))]{fullShare} G2 m d) ∗ (o3Loc d ↦[blkB (wid (cL L) (sL L))]{fullShare} G3 m d)) ∗ _))
  iintro ⟨#Hlv, -, ⟨Ha1, Ha2, Ha4, Ho2, Ho3⟩, ⟨⟨%fi, HsI⟩, ⟨%fA, HsA⟩, ⟨%fB, HsB⟩, Hbufs⟩,
    ⟨Hs3, Hs4, Hc0, Hc1, Hc2, Hc3, Hc4, Hc5, Hc6, Hc7, Hc8, Hc9, Hc10, Hc11, Hsems⟩, HO⟩
  ihave HO := (owesN_intro (F := F) (thr d L) O W) $$ HO
  -- the output block as its two row ranges
  ihave Ho2' := (Entails.of_eq (congrArg (fun S => (o2Loc d ↦[S]{fullShare} m (o2Loc d) : sProp 𝕄)) (rowsA_union (wid (cL L) (sL L))).symm)) $$ Ho2
  ihave Ho2s := (pointsTo_union (ℓ := o2Loc d) (q := fullShare) (f := m (o2Loc d)) (rowsA_disjoint (256 * (wid (cL L) (sL L)).val))).1 $$ Ho2'
  icases Ho2s with ⟨Ho2a, Ho2b⟩
  -- the first part
  rw [wp_bind]
  iapply (wp_wand_r frame (wpE (defs₀ (F := F)) 𝒱₀ (thr d L) none) Set.univ)
  isplitl [HO Ha1 Ha4 HsI HsA Hs3 Hs4 Hc0 Hc1]
  · iapply (wp_part195 m d L hpre O hO W _ fi fA)
    isplitr; · iexact Hlv
    isplitl [HO]; · iexact HO
    isplitl [Ha1]; · iexact Ha1
    isplitl [Ha4]; · iexists _; iexact Ha4
    isplitl [HsI]; · iexact HsI
    isplitl [HsA]; · iexact HsA
    isplitl [Hs3]; · iexact Hs3
    isplitl [Hs4]; · iexact Hs4
    isplitl [Hc0]; · iexact Hc0
    iexact Hc1
  iintro %r H
  obtain ⟨v2, v3, v4, c0, c1⟩ := r
  icases H with ⟨HO, Ha4, ⟨%fI1, HsI⟩, HB0, HB1, Hc0, Hc1⟩
  dsimp only
  -- the second part
  rw [wp_bind]
  iapply (wp_wand_r frame (wpE (defs₀ (F := F)) 𝒱₀ (thr d L) none) Set.univ)
  isplitl [HO HB0 Ho2a HsI Ha2 Hc2 Hc3]
  · iapply (wp_part196 m d L O hO W v2 c0 c1 _ fI1)
    isplitr; · iexact Hlv
    isplitl [HO]; · iexact HO
    isplitl [HB0]; · iexact HB0
    isplitl [Ho2a]; · iexact Ho2a
    isplitl [HsI]; · iexact HsI
    isplitl [Ha2]; · iexact Ha2
    isplitl [Hc2]; · iexact Hc2
    iexact Hc3
  iintro %_ H
  icases H with ⟨HO, Hs3, HslotA0, Ho2a, HsI, Ha2, Hc2, Hc3⟩
  -- from the third part to the end
  iapply (wp_wand_r frame (wpE (defs₀ (F := F)) 𝒱₀ (thr d L) none) Set.univ)
  isplitl [HO HsI Ha4 Ha2 Hs3 HB1 HsB Ho2b Ho3 Hc4 Hc5 Hc6 Hc7 Hc8 Hc9 Hc10 Hc11]
  · iapply (rest_from_197 m d L hpre O W hO _ v2 v3 v4 fB)
    isplitr; · iexact Hlv
    isplitl [HO]; · iexact HO
    isplitl [HsI]; · iexact HsI
    isplitl [Ha4]; · iexact Ha4
    isplitl [Ha2]; · iexact Ha2
    isplitl [Hs3]; · iexact Hs3
    isplitl [HB1]; · iexact HB1
    isplitl [HsB]; · iexact HsB
    isplitl [Ho2b]; · iexact Ho2b
    isplitl [Ho3]; · iexact Ho3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hc11
  iintro %_ H
  icases H with ⟨Ho2b, ⟨%fA1, HslotA1⟩, Ho3, HsB, HsI, Hs3, Hs4, Hc4, Hc5, Hc6, Hc7, Hc8, Hc9, Hc10, Hc11, HO⟩
  -- the result's block whole, the rows scratch whole
  ihave Ho2 := (pointsTo_union (ℓ := o2Loc d) (q := fullShare) (f := G2 m d) (rowsA_disjoint (256 * (wid (cL L) (sL L)).val))).2 $$ [Ho2a Ho2b]
  · isplitl [Ho2a]; · iexact Ho2a
    iexact Ho2b
  ihave Ho2' := (Entails.of_eq (congrArg (fun S => (o2Loc d ↦[S]{fullShare} G2 m d : sProp 𝕄)) (rowsA_union (wid (cL L) (sL L))))) $$ Ho2
  ihave HsA := (pointsTo_join (ℓ := (thr d L).loc cc1_scratch1) (q := fullShare) slots_disjoint) $$ [HslotA0 HslotA1]
  · isplitl [HslotA0]; · iexact HslotA0
    iexact HslotA1
  ihave HsA' := (Entails.of_eq (congrArg (fun S => ((thr d L).loc cc1_scratch1 ↦[S]{fullShare} (remA 1 0).piecewise fA1 (FA m d ((L 0).castLE hcore1) ((L 1).castLE hsub1) (widL L)) : sProp 𝕄)) slots_union)) $$ HsA
  isplitl [Ho2' Ho3]
  · isplitl [Ho2']; · iexact Ho2'
    iexact Ho3
  isplitl [HsI HsA' HsB Hbufs]
  · isplitl [HsI]; · iexact HsI
    isplitl [HsA']; · iexists _; iexact HsA'
    isplitl [HsB]; · iexact HsB
    iexact Hbufs
  isplitl [Hs3 Hs4 Hc0 Hc1 Hc2 Hc3 Hc4 Hc5 Hc6 Hc7 Hc8 Hc9 Hc10 Hc11 Hsems]
  · isplitl [Hs3]; · iexact Hs3
    isplitl [Hs4]; · iexact Hs4
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    iexact Hsems
  iexact HO

end Body

end Cert.Proof.KW.K1

end
-- ==== Proof.BwK1Obl.lean ====
/-
  The second kernel's task as the launch asks for it: for every vector subcore of the call's grid, from the task's
  operands (read shares of the two index arrays and of the table, the worker's blocks of the two outputs) to its results
  (the blocks at the lookups' values), the subcore's own storage handed back.
-/
import proofs.«215896_g38397007626377_fold_wed_m_942_26_alg».proof.Proof.BwK1Body
import proofs.«215896_g38397007626377_fold_wed_m_942_26_alg».proof.Proof.Gen.Kernel.Skeleton

noncomputable section

namespace Cert.Proof.KW.K1

open Cert.Kernel Cert.Kernel.Gen Cert.Proof.KW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "a1W" => (Memref.whole Cert.Kernel.main_arg1_scv : Memref Cert.Kernel.sig Kind.scVector Space.hbm Cert.Kernel.S16384 EltTy.i32)
local notation "a2W" => (Memref.whole Cert.Kernel.main_arg2_scv : Memref Cert.Kernel.sig Kind.scVector Space.hbm Cert.Kernel.S327680 EltTy.i32)
local notation "tbW" => (Memref.whole Cert.Kernel.main_arg4_scv : Memref Cert.Kernel.sig Kind.scVector Space.hbm Cert.Kernel.S1000000x64 EltTy.f32)
local notation "o2W" => (Memref.whole Cert.Kernel.main_v1_0_scv : Memref Cert.Kernel.sig Kind.scVector Space.hbm Cert.Kernel.S8192x128 EltTy.f32)
local notation "o3W" => (Memref.whole Cert.Kernel.main_v1_1_scv : Memref Cert.Kernel.sig Kind.scVector Space.hbm Cert.Kernel.S16384x1280 EltTy.f32)
local notation "idW" => (Memref.whole Cert.Kernel.cc1_scratch0 : Memref Cert.Kernel.sig Kind.scVector Space.vmem Cert.Kernel.S320 EltTy.i32)
local notation "rAW" => (Memref.whole Cert.Kernel.cc1_scratch1 : Memref Cert.Kernel.sig Kind.scVector Space.vmem Cert.Kernel.S2x128x128 EltTy.f32)
local notation "rBW" => (Memref.whole Cert.Kernel.cc1_scratch2 : Memref Cert.Kernel.sig Kind.scVector Space.vmem Cert.Kernel.S2x16x1280 EltTy.f32)

variable (m : (ℓ : Loc nD τ sig) → Buf (Elt F) ℓ)
variable [FloatOps F]

/-! ## The launch theorem's obligation for call 1 -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__sc_gather_out (coordsV c s)
          a1W (Memref.isWhole_whole _) a2W (Memref.isWhole_whole _) tbW (Memref.isWhole_whole _)
          o2W (Memref.isWhole_whole _) o3W (Memref.isWhole_whole _) idW (Memref.isWhole_whole _) rAW (Memref.isWhole_whole _)
          rBW (Memref.isWhole_whole _) cc1_scratch3 cc1_scratch4 cc1_scoped0 cc1_scoped1 cc1_scoped2 cc1_scoped3 cc1_scoped4 cc1_scoped5
          cc1_scoped6 cc1_scoped7 cc1_scoped8 cc1_scoped9 cc1_scoped10 cc1_scoped11) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile_body m hpre d (coordsV ⟨_, hc.1⟩ ⟨_, hc.2⟩) O W hO).trans (wp_mono frame _ _ fun _ => obl_post)

end Cert.Proof.KW.K1

end
-- ==== Proof.lean ====
/-
  The claim: three embedding lookups computed by two kernels on the device's SparseCores equal the reference's.

  What is computed. From index arrays input_words[16384], output_words[16384], noise_words[327680] and two tables of
  1,000,000 rows by 64 columns, the results are R1[b, j] = table1[input_words[b], j], R2[b, j] = table2[output_words[b], j]
  and R3[b, s, j] = table2[noise_words[20 b + s], j]. The first kernel produces R1, the second R2 and R3. Each kernel
  runs on 2 SparseCores of 16 vector subcores; worker w = 2 s + c owns a block of consecutive rows of each output,
  fetches its index words into its own memory, starts one copy per word of the table row it names into a staging buffer, waits
  for them all and copies the staging buffer out to its block — the first kernel in one chunk of 512 words, the second
  chunk by chunk through two staging slots, each with its own completion counter, the next chunk's copies started
  while the previous slot is written out. The
  kernels write [8192, 128] arrays (two lookups per row) and a [16384, 1280] array (a batch row's twenty lookups side
  by side); the program then reads them in row-major order at the results' shapes, which puts lookup b of R1 and R2 at
  row b and lookup (b, s) of R3 at (b, s).

  Why the two sides agree. The computation is pure data movement: no arithmetic is done on a table entry, so the claim
  is an equation between indices. Both the program and the reference are shown to end with each result equal to the same
  function of the argument arrays (the lookups above, a word read as a row number); at the ideal instance these functions
  are equal term by term, which is the algebraic claim. The blocks of the 32 workers are pairwise disjoint and cover each
  output, so the workers' pieces join to the whole array; the row-major reading is the index identity
  (b, j) = (b / 2, 64 (b % 2) + j) for the [8192, 128] arrays and (b, s, j) = (b, 64 s + j) for the [16384, 1280] one.

  The precondition's use. It says every index word w satisfies 0 <= w <= 999999 as a signed integer: every word names a
  row of its table. Without it a copy would be asked for a row that does not exist and no run of the kernels is claimed to
  end; with it every copy reads the row the reference's lookup reads. The tables and the index arrays are
  only read, under read shares held by every reader, so they end as they began: that is the frame of each program.
-/
import proofs.«215896_g38397007626377_fold_wed_m_942_26_alg».proof.Defs
import proofs.«215896_g38397007626377_fold_wed_m_942_26_alg».proof.Proof.Gen.Kernel
import proofs.«215896_g38397007626377_fold_wed_m_942_26_alg».proof.Proof.Gen.Kernel.Skeleton
import proofs.«215896_g38397007626377_fold_wed_m_942_26_alg».proof.Proof.Gen.KernelIdeal
import proofs.«215896_g38397007626377_fold_wed_m_942_26_alg».proof.Proof.Gen.KernelIdeal.Skeleton
import proofs.«215896_g38397007626377_fold_wed_m_942_26_alg».proof.Proof.Gen.ReferenceIdeal
import proofs.«215896_g38397007626377_fold_wed_m_942_26_alg».proof.Proof.Gen.Pre_input_domain
import Idealize.ShloMosaic.Adequacy
import Idealize.ShloMosaic.Init
import proofs.«215896_g38397007626377_fold_wed_m_942_26_alg».proof.Proof.KIAlgebraic
import proofs.«215896_g38397007626377_fold_wed_m_942_26_alg».proof.Proof.BwKIClaims
import proofs.«215896_g38397007626377_fold_wed_m_942_26_alg».proof.Proof.K0Body
import proofs.«215896_g38397007626377_fold_wed_m_942_26_alg».proof.Proof.BwK0Body
import proofs.«215896_g38397007626377_fold_wed_m_942_26_alg».proof.Proof.K1Obl
import proofs.«215896_g38397007626377_fold_wed_m_942_26_alg».proof.Proof.BwK1Obl
import proofs.«215896_g38397007626377_fold_wed_m_942_26_alg».proof.Proof.RefResult

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    -- the program as printed: it runs and its arguments end unchanged
    fun m g hpre =>
      have hok := Cert.Proof.KW.preOK_of_fn m hpre
      Cert.Proof.KW.frame_of m g hok (Cert.Proof.KW.K0.tileObl m hok) (Cert.Proof.KW.K1.tileObl m hok),
    -- the same at the ideal instance
    fun m g hpre =>
      have hok := Cert.Proof.KI.preOK_of_fn m hpre
      Cert.Proof.KI.frame_of m g hok (Cert.Proof.KI.K0.tileObl m hok) (Cert.Proof.KI.K1.tileObl m hok),
    -- the reference
    fun m g _ => Cert.Proof.Ref.run_frame m g,
    -- no operation was rewritten for the ideal instance
    trivial,
    -- both sides end at the same lookups of the same arguments
    fun m g m' g' hpre hagree =>
      have hok := Cert.Proof.KI.preOK_of_fn m hpre
      Cert.Proof.KI.algebraic_of m g m' g' hpre hagree (Cert.Proof.KI.K0.tileObl m hok) (Cert.Proof.KI.K1.tileObl m hok)⟩

end Cert.Proof

end
